-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4096x200 : Shape := ⟨2, ![4096, 200]⟩
abbrev S100000x64 : Shape := ⟨2, ![100000, 64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S4096x200 : S_.BroadcastsInDim S4096x200 (![] : Fin 0 → Fin S4096x200.rank)
  reducesTo_S4096x200_S_d0_1 : S4096x200.ReducesTo [0, 1] S_

variable [Facts]

def fn {F : FTy → Type} [FloatOps F] (main_arg0 : IVec S4096x200 32) (main_arg1 : FVec F S100000x64 .f32) : IVec S_ 1 :=
  let main_v0 : FVec F S100000x64 .f32 := Host.absf main_arg1
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_c_0 : IVec S_ 32 := constantI S_ 32 0#32
  let main_v4 : IVec S4096x200 32 := broadcastInDim S4096x200 ![] bcast_S_S4096x200 main_c_0
  let main_v5 : IVec S4096x200 1 := cmpi .sge main_arg0 main_v4
  let main_c_1 : IVec S_ 32 := constantI S_ 32 99999#32
  let main_v6 : IVec S4096x200 32 := broadcastInDim S4096x200 ![] bcast_S_S4096x200 main_c_1
  let main_v7 : IVec S4096x200 1 := cmpi .sle main_arg0 main_v6
  let main_v8 : IVec S4096x200 1 := andi main_v5 main_v7
  let main_c_2 : IVec S_ 1 := constantI S_ 1 1#1
  let main_v9 : IVec S_ 1 := (fun x v => Host.reduce IntOp.andi x v reducesTo_S4096x200_S_d0_1 h_S_) main_v8 main_c_2
  let main_v10 : IVec S_ 1 := andi main_v3 main_v9
  main_v10
-- ==== Kernel.lean ====
abbrev S4096x200 : Shape := ⟨2, ![4096, 200]⟩
abbrev S100000x64 : Shape := ⟨2, ![100000, 64]⟩
abbrev S100000x128 : Shape := ⟨2, ![100000, 128]⟩
abbrev S5000x64 : Shape := ⟨2, ![5000, 64]⟩
abbrev S5000x128 : Shape := ⟨2, ![5000, 128]⟩
abbrev S6400x128 : Shape := ⟨2, ![6400, 128]⟩
abbrev S819200x64 : Shape := ⟨2, ![819200, 64]⟩
abbrev S40x128 : Shape := ⟨2, ![40, 128]⟩
abbrev S128x128 : Shape := ⟨2, ![128, 128]⟩
abbrev S128x64 : Shape := ⟨2, ![128, 64]⟩
abbrev S_ : Shape := ⟨0, ![]⟩
abbrev S1x128 : Shape := ⟨2, ![1, 128]⟩
abbrev S128 : Shape := ⟨1, ![128]⟩
abbrev S1x16 : Shape := ⟨2, ![1, 16]⟩
abbrev S16 : Shape := ⟨1, ![16]⟩
abbrev S4096x200x64 : Shape := ⟨3, ![4096, 200, 64]⟩

abbrev nBuf : Table → Nat
  | .hbm => 6
  | .local .tc .vmem => 4
  | .local .scVector .vmem => 6
  | _ => 0

abbrev bufTy : (tb : Table) → Fin (nBuf tb) → BufTy
  | .hbm, ⟨0, _⟩ => ⟨S4096x200, .i32⟩
  | .hbm, ⟨1, _⟩ => ⟨S100000x64, .f32⟩
  | .hbm, ⟨2, _⟩ => ⟨S100000x128, .f32⟩
  | .hbm, ⟨3, _⟩ => ⟨S6400x128, .i32⟩
  | .hbm, ⟨4, _⟩ => ⟨S819200x64, .f32⟩
  | .hbm, ⟨5, _⟩ => ⟨S4096x200x64, .f32⟩
  | .local .tc .vmem, ⟨0, _⟩ => ⟨S5000x64, .f32⟩
  | .local .tc .vmem, ⟨1, _⟩ => ⟨S5000x64, .f32⟩
  | .local .tc .vmem, ⟨2, _⟩ => ⟨S5000x128, .f32⟩
  | .local .tc .vmem, ⟨3, _⟩ => ⟨S5000x128, .f32⟩
  | .local .scVector .vmem, ⟨0, _⟩ => ⟨S40x128, .i32⟩
  | .local .scVector .vmem, ⟨1, _⟩ => ⟨S128x128, .f32⟩
  | .local .scVector .vmem, ⟨2, _⟩ => ⟨S128x128, .f32⟩
  | .local .scVector .vmem, ⟨3, _⟩ => ⟨S128x128, .f32⟩
  | .local .scVector .vmem, ⟨4, _⟩ => ⟨S128x64, .f32⟩
  | .local .scVector .vmem, ⟨5, _⟩ => ⟨S128x64, .f32⟩
  | _, _ => ⟨S4096x200, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 10 → Bool
  | ⟨0, _⟩ => true
  | ⟨1, _⟩ => true
  | ⟨2, _⟩ => true
  | ⟨3, _⟩ => true
  | ⟨4, _⟩ => false
  | ⟨5, _⟩ => false
  | ⟨6, _⟩ => false
  | ⟨7, _⟩ => false
  | ⟨8, _⟩ => false
  | ⟨9, _⟩ => false
  | _ => false

abbrev sig : RefSig :=
  ofTables nBuf rfl bufTy 4 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v0_scv : Ref sig .scVector := ⟨.hbm, 2, rfl⟩
abbrev main_v1_scv : Ref sig .scVector := ⟨.hbm, 3, rfl⟩
abbrev main_v2_scv : Ref sig .scVector := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc1_scratch5 : Ref sig .scVector := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![2, 16], ![false, false]⟩

@[reducible] def k1_t1_loop : Scf.Loop 32 :=
  let c0_i32_0 : BitVec 32 := 0#32
  let c5_i32 : BitVec 32 := 5#32
  let v4 : BitVec 32 := Scalar.addi c0_i32_0 c5_i32
  let c1_i32 : BitVec 32 := 1#32
  ⟨c0_i32_0, v4, c1_i32⟩
def k1_off1 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c200_i32 : BitVec 32 := 200#32
  let v3 : BitVec 32 := Scalar.muli v1 c200_i32
  let c0_i32_0 : BitVec 32 := 0#32
  let c1_i32 : BitVec 32 := 1#32
  let arg16 : BitVec 32 := Scf.iv c0_i32_0 c1_i32 k1_t1
  let c40_i32 : BitVec 32 := 40#32
  let v5 : BitVec 32 := Scalar.muli arg16 c40_i32
  let v6 : BitVec 32 := Scalar.addi v3 v5
  let c0_i32_686_r0 : BitVec 32 := 0#32
  ![v6.toNat, 0]
@[reducible] def k1_t2_loop : Scf.Loop 32 :=
  let c0_i32_19 : BitVec 32 := 0#32
  let c16_i32 : BitVec 32 := 16#32
  let v19 : BitVec 32 := Scalar.addi c0_i32_19 c16_i32
  let c1_i32_20 : BitVec 32 := 1#32
  ⟨c0_i32_19, v19, c1_i32_20⟩
def k1_off2 (k1_t2 : Fin k1_t2_loop.trips) (c0_i32_687 : BitVec 32) : Fin 2 → Nat :=
  let c0_i32_19 : BitVec 32 := 0#32
  let c1_i32_20 : BitVec 32 := 1#32
  let arg17 : BitVec 32 := Scf.iv c0_i32_19 c1_i32_20 k1_t2
  let c8_i32_686 : BitVec 32 := 8#32
  let v567 : BitVec 32 := Scalar.muli arg17 c8_i32_686
  let v568 : BitVec 32 := Scalar.addi v567 c0_i32_687
  let v569 : Index := Scalar.indexCast v568
  let c0 : Index := 0#32
  ![v569.toNat, 0]
def k1_off3 (k1_t2 : Fin k1_t2_loop.trips) (c0_i32_688 : BitVec 32) : Fin 2 → Nat :=
  let c0_i32_19 : BitVec 32 := 0#32
  let c1_i32_20 : BitVec 32 := 1#32
  let arg17 : BitVec 32 := Scf.iv c0_i32_19 c1_i32_20 k1_t2
  let c8_i32_686 : BitVec 32 := 8#32
  let v567 : BitVec 32 := Scalar.muli arg17 c8_i32_686
  let v572 : BitVec 32 := Scalar.addi v567 c0_i32_688
  let v573 : Index := Scalar.indexCast v572
  let c0_689 : Index := 0#32
  ![v573.toNat, 0]
def k1_off4 (k1_t2 : Fin k1_t2_loop.trips) (c0_i32_690 : BitVec 32) : Fin 2 → Nat :=
  let c0_i32_19 : BitVec 32 := 0#32
  let c1_i32_20 : BitVec 32 := 1#32
  let arg17 : BitVec 32 := Scf.iv c0_i32_19 c1_i32_20 k1_t2
  let c8_i32_686 : BitVec 32 := 8#32
  let v567 : BitVec 32 := Scalar.muli arg17 c8_i32_686
  let v577 : BitVec 32 := Scalar.addi v567 c0_i32_690
  let v578 : Index := Scalar.indexCast v577
  let c16 : Index := 16#32
  ![v578.toNat, 16]
def k1_off5 (k1_t2 : Fin k1_t2_loop.trips) (c0_i32_691 : BitVec 32) : Fin 2 → Nat :=
  let c0_i32_19 : BitVec 32 := 0#32
  let c1_i32_20 : BitVec 32 := 1#32
  let arg17 : BitVec 32 := Scf.iv c0_i32_19 c1_i32_20 k1_t2
  let c8_i32_686 : BitVec 32 := 8#32
  let v567 : BitVec 32 := Scalar.muli arg17 c8_i32_686
  let v581 : BitVec 32 := Scalar.addi v567 c0_i32_691
  let v582 : Index := Scalar.indexCast v581
  let c16_692 : Index := 16#32
  ![v582.toNat, 16]
def k1_off6 (k1_t2 : Fin k1_t2_loop.trips) (c0_i32_693 : BitVec 32) : Fin 2 → Nat :=
  let c0_i32_19 : BitVec 32 := 0#32
  let c1_i32_20 : BitVec 32 := 1#32
  let arg17 : BitVec 32 := Scf.iv c0_i32_19 c1_i32_20 k1_t2
  let c8_i32_686 : BitVec 32 := 8#32
  let v567 : BitVec 32 := Scalar.muli arg17 c8_i32_686
  let v586 : BitVec 32 := Scalar.addi v567 c0_i32_693
  let v587 : Index := Scalar.indexCast v586
  let c32 : Index := 32#32
  ![v587.toNat, 32]
def k1_off7 (k1_t2 : Fin k1_t2_loop.trips) (c0_i32_694 : BitVec 32) : Fin 2 → Nat :=
  let c0_i32_19 : BitVec 32 := 0#32
  let c1_i32_20 : BitVec 32 := 1#32
  let arg17 : BitVec 32 := Scf.iv c0_i32_19 c1_i32_20 k1_t2
  let c8_i32_686 : BitVec 32 := 8#32
  let v567 : BitVec 32 := Scalar.muli arg17 c8_i32_686
  let v590 : BitVec 32 := Scalar.addi v567 c0_i32_694
  let v591 : Index := Scalar.indexCast v590
  let c32_695 : Index := 32#32
  ![v591.toNat, 32]
def k1_off8 (k1_t2 : Fin k1_t2_loop.trips) (c0_i32_696 : BitVec 32) : Fin 2 → Nat :=
  let c0_i32_19 : BitVec 32 := 0#32
  let c1_i32_20 : BitVec 32 := 1#32
  let arg17 : BitVec 32 := Scf.iv c0_i32_19 c1_i32_20 k1_t2
  let c8_i32_686 : BitVec 32 := 8#32
  let v567 : BitVec 32 := Scalar.muli arg17 c8_i32_686
  let v595 : BitVec 32 := Scalar.addi v567 c0_i32_696
  let v596 : Index := Scalar.indexCast v595
  let c48 : Index := 48#32
  ![v596.toNat, 48]
def k1_off9 (k1_t2 : Fin k1_t2_loop.trips) (c0_i32_697 : BitVec 32) : Fin 2 → Nat :=
  let c0_i32_19 : BitVec 32 := 0#32
  let c1_i32_20 : BitVec 32 := 1#32
  let arg17 : BitVec 32 := Scf.iv c0_i32_19 c1_i32_20 k1_t2
  let c8_i32_686 : BitVec 32 := 8#32
  let v567 : BitVec 32 := Scalar.muli arg17 c8_i32_686
  let v599 : BitVec 32 := Scalar.addi v567 c0_i32_697
  let v600 : Index := Scalar.indexCast v599
  let c48_698 : Index := 48#32
  ![v600.toNat, 48]
def k1_off10 (i : grid1.Coords) (k1_t1 : Fin k1_t1_loop.trips) (c0_i32_22 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c0_i32_0 : BitVec 32 := 0#32
  let c1_i32 : BitVec 32 := 1#32
  let arg16 : BitVec 32 := Scf.iv c0_i32_0 c1_i32 k1_t1
  let c5120_i32 : BitVec 32 := 5120#32
  let v20 : BitVec 32 := Scalar.muli arg16 c5120_i32
  let v21 : BitVec 32 := Scalar.addi v2 v20
  let v22 : BitVec 32 := Scalar.addi v21 c0_i32_22
  let c0_i32_23 : BitVec 32 := 0#32
  ![v22.toNat, 0]
@[reducible] def k1_t3_loop : Scf.Loop 32 :=
  let c0_i32_33 : BitVec 32 := 0#32
  let c16_i32_34 : BitVec 32 := 16#32
  let v31 : BitVec 32 := Scalar.addi c0_i32_33 c16_i32_34
  let c1_i32_35 : BitVec 32 := 1#32
  ⟨c0_i32_33, v31, c1_i32_35⟩
def k1_off11 (k1_t3 : Fin k1_t3_loop.trips) (c0_i32_687 : BitVec 32) : Fin 2 → Nat :=
  let c0_i32_33 : BitVec 32 := 0#32
  let c1_i32_35 : BitVec 32 := 1#32
  let arg17 : BitVec 32 := Scf.iv c0_i32_33 c1_i32_35 k1_t3
  let c8_i32_686 : BitVec 32 := 8#32
  let v567 : BitVec 32 := Scalar.muli arg17 c8_i32_686
  let v568 : BitVec 32 := Scalar.addi v567 c0_i32_687
  let v569 : Index := Scalar.indexCast v568
  let c0 : Index := 0#32
  ![v569.toNat, 0]
def k1_off12 (k1_t3 : Fin k1_t3_loop.trips) (c0_i32_688 : BitVec 32) : Fin 2 → Nat :=
  let c0_i32_33 : BitVec 32 := 0#32
  let c1_i32_35 : BitVec 32 := 1#32
  let arg17 : BitVec 32 := Scf.iv c0_i32_33 c1_i32_35 k1_t3
  let c8_i32_686 : BitVec 32 := 8#32
  let v567 : BitVec 32 := Scalar.muli arg17 c8_i32_686
  let v572 : BitVec 32 := Scalar.addi v567 c0_i32_688
  let v573 : Index := Scalar.indexCast v572
  let c0_689 : Index := 0#32
  ![v573.toNat, 0]
def k1_off13 (k1_t3 : Fin k1_t3_loop.trips) (c0_i32_690 : BitVec 32) : Fin 2 → Nat :=
  let c0_i32_33 : BitVec 32 := 0#32
  let c1_i32_35 : BitVec 32 := 1#32
  let arg17 : BitVec 32 := Scf.iv c0_i32_33 c1_i32_35 k1_t3
  let c8_i32_686 : BitVec 32 := 8#32
  let v567 : BitVec 32 := Scalar.muli arg17 c8_i32_686
  let v577 : BitVec 32 := Scalar.addi v567 c0_i32_690
  let v578 : Index := Scalar.indexCast v577
  let c16 : Index := 16#32
  ![v578.toNat, 16]
def k1_off14 (k1_t3 : Fin k1_t3_loop.trips) (c0_i32_691 : BitVec 32) : Fin 2 → Nat :=
  let c0_i32_33 : BitVec 32 := 0#32
  let c1_i32_35 : BitVec 32 := 1#32
  let arg17 : BitVec 32 := Scf.iv c0_i32_33 c1_i32_35 k1_t3
  let c8_i32_686 : BitVec 32 := 8#32
  let v567 : BitVec 32 := Scalar.muli arg17 c8_i32_686
  let v581 : BitVec 32 := Scalar.addi v567 c0_i32_691
  let v582 : Index := Scalar.indexCast v581
  let c16_692 : Index := 16#32
  ![v582.toNat, 16]
def k1_off15 (k1_t3 : Fin k1_t3_loop.trips) (c0_i32_693 : BitVec 32) : Fin 2 → Nat :=
  let c0_i32_33 : BitVec 32 := 0#32
  let c1_i32_35 : BitVec 32 := 1#32
  let arg17 : BitVec 32 := Scf.iv c0_i32_33 c1_i32_35 k1_t3
  let c8_i32_686 : BitVec 32 := 8#32
  let v567 : BitVec 32 := Scalar.muli arg17 c8_i32_686
  let v586 : BitVec 32 := Scalar.addi v567 c0_i32_693
  let v587 : Index := Scalar.indexCast v586
  let c32 : Index := 32#32
  ![v587.toNat, 32]
def k1_off16 (k1_t3 : Fin k1_t3_loop.trips) (c0_i32_694 : BitVec 32) : Fin 2 → Nat :=
  let c0_i32_33 : BitVec 32 := 0#32
  let c1_i32_35 : BitVec 32 := 1#32
  let arg17 : BitVec 32 := Scf.iv c0_i32_33 c1_i32_35 k1_t3
  let c8_i32_686 : BitVec 32 := 8#32
  let v567 : BitVec 32 := Scalar.muli arg17 c8_i32_686
  let v590 : BitVec 32 := Scalar.addi v567 c0_i32_694
  let v591 : Index := Scalar.indexCast v590
  let c32_695 : Index := 32#32
  ![v591.toNat, 32]
def k1_off17 (k1_t3 : Fin k1_t3_loop.trips) (c0_i32_696 : BitVec 32) : Fin 2 → Nat :=
  let c0_i32_33 : BitVec 32 := 0#32
  let c1_i32_35 : BitVec 32 := 1#32
  let arg17 : BitVec 32 := Scf.iv c0_i32_33 c1_i32_35 k1_t3
  let c8_i32_686 : BitVec 32 := 8#32
  let v567 : BitVec 32 := Scalar.muli arg17 c8_i32_686
  let v595 : BitVec 32 := Scalar.addi v567 c0_i32_696
  let v596 : Index := Scalar.indexCast v595
  let c48 : Index := 48#32
  ![v596.toNat, 48]
def k1_off18 (k1_t3 : Fin k1_t3_loop.trips) (c0_i32_697 : BitVec 32) : Fin 2 → Nat :=
  let c0_i32_33 : BitVec 32 := 0#32
  let c1_i32_35 : BitVec 32 := 1#32
  let arg17 : BitVec 32 := Scf.iv c0_i32_33 c1_i32_35 k1_t3
  let c8_i32_686 : BitVec 32 := 8#32
  let v567 : BitVec 32 := Scalar.muli arg17 c8_i32_686
  let v599 : BitVec 32 := Scalar.addi v567 c0_i32_697
  let v600 : Index := Scalar.indexCast v599
  let c48_698 : Index := 48#32
  ![v600.toNat, 48]
@[reducible] def k1_t4_loop : Scf.Loop 32 :=
  let c0_i32_50 : BitVec 32 := 0#32
  let c16_i32_51 : BitVec 32 := 16#32
  let v45 : BitVec 32 := Scalar.addi c0_i32_50 c16_i32_51
  let c1_i32_52 : BitVec 32 := 1#32
  ⟨c0_i32_50, v45, c1_i32_52⟩
def k1_off19 (k1_t4 : Fin k1_t4_loop.trips) (c0_i32_687 : BitVec 32) : Fin 2 → Nat :=
  let c0_i32_50 : BitVec 32 := 0#32
  let c1_i32_52 : BitVec 32 := 1#32
  let arg17 : BitVec 32 := Scf.iv c0_i32_50 c1_i32_52 k1_t4
  let c8_i32_686 : BitVec 32 := 8#32
  let v567 : BitVec 32 := Scalar.muli arg17 c8_i32_686
  let v568 : BitVec 32 := Scalar.addi v567 c0_i32_687
  let v569 : Index := Scalar.indexCast v568
  let c0 : Index := 0#32
  ![v569.toNat, 0]
def k1_off20 (k1_t4 : Fin k1_t4_loop.trips) (c0_i32_688 : BitVec 32) : Fin 2 → Nat :=
  let c0_i32_50 : BitVec 32 := 0#32
  let c1_i32_52 : BitVec 32 := 1#32
  let arg17 : BitVec 32 := Scf.iv c0_i32_50 c1_i32_52 k1_t4
  let c8_i32_686 : BitVec 32 := 8#32
  let v567 : BitVec 32 := Scalar.muli arg17 c8_i32_686
  let v572 : BitVec 32 := Scalar.addi v567 c0_i32_688
  let v573 : Index := Scalar.indexCast v572
  let c0_689 : Index := 0#32
  ![v573.toNat, 0]
def k1_off21 (k1_t4 : Fin k1_t4_loop.trips) (c0_i32_690 : BitVec 32) : Fin 2 → Nat :=
  let c0_i32_50 : BitVec 32 := 0#32
  let c1_i32_52 : BitVec 32 := 1#32
  let arg17 : BitVec 32 := Scf.iv c0_i32_50 c1_i32_52 k1_t4
  let c8_i32_686 : BitVec 32 := 8#32
  let v567 : BitVec 32 := Scalar.muli arg17 c8_i32_686
  let v577 : BitVec 32 := Scalar.addi v567 c0_i32_690
  let v578 : Index := Scalar.indexCast v577
  let c16 : Index := 16#32
  ![v578.toNat, 16]
def k1_off22 (k1_t4 : Fin k1_t4_loop.trips) (c0_i32_691 : BitVec 32) : Fin 2 → Nat :=
  let c0_i32_50 : BitVec 32 := 0#32
  let c1_i32_52 : BitVec 32 := 1#32
  let arg17 : BitVec 32 := Scf.iv c0_i32_50 c1_i32_52 k1_t4
  let c8_i32_686 : BitVec 32 := 8#32
  let v567 : BitVec 32 := Scalar.muli arg17 c8_i32_686
  let v581 : BitVec 32 := Scalar.addi v567 c0_i32_691
  let v582 : Index := Scalar.indexCast v581
  let c16_692 : Index := 16#32
  ![v582.toNat, 16]
def k1_off23 (k1_t4 : Fin k1_t4_loop.trips) (c0_i32_693 : BitVec 32) : Fin 2 → Nat :=
  let c0_i32_50 : BitVec 32 := 0#32
  let c1_i32_52 : BitVec 32 := 1#32
  let arg17 : BitVec 32 := Scf.iv c0_i32_50 c1_i32_52 k1_t4
  let c8_i32_686 : BitVec 32 := 8#32
  let v567 : BitVec 32 := Scalar.muli arg17 c8_i32_686
  let v586 : BitVec 32 := Scalar.addi v567 c0_i32_693
  let v587 : Index := Scalar.indexCast v586
  let c32 : Index := 32#32
  ![v587.toNat, 32]
def k1_off24 (k1_t4 : Fin k1_t4_loop.trips) (c0_i32_694 : BitVec 32) : Fin 2 → Nat :=
  let c0_i32_50 : BitVec 32 := 0#32
  let c1_i32_52 : BitVec 32 := 1#32
  let arg17 : BitVec 32 := Scf.iv c0_i32_50 c1_i32_52 k1_t4
  let c8_i32_686 : BitVec 32 := 8#32
  let v567 : BitVec 32 := Scalar.muli arg17 c8_i32_686
  let v590 : BitVec 32 := Scalar.addi v567 c0_i32_694
  let v591 : Index := Scalar.indexCast v590
  let c32_695 : Index := 32#32
  ![v591.toNat, 32]
def k1_off25 (k1_t4 : Fin k1_t4_loop.trips) (c0_i32_696 : BitVec 32) : Fin 2 → Nat :=
  let c0_i32_50 : BitVec 32 := 0#32
  let c1_i32_52 : BitVec 32 := 1#32
  let arg17 : BitVec 32 := Scf.iv c0_i32_50 c1_i32_52 k1_t4
  let c8_i32_686 : BitVec 32 := 8#32
  let v567 : BitVec 32 := Scalar.muli arg17 c8_i32_686
  let v595 : BitVec 32 := Scalar.addi v567 c0_i32_696
  let v596 : Index := Scalar.indexCast v595
  let c48 : Index := 48#32
  ![v596.toNat, 48]
def k1_off26 (k1_t4 : Fin k1_t4_loop.trips) (c0_i32_697 : BitVec 32) : Fin 2 → Nat :=
  let c0_i32_50 : BitVec 32 := 0#32
  let c1_i32_52 : BitVec 32 := 1#32
  let arg17 : BitVec 32 := Scf.iv c0_i32_50 c1_i32_52 k1_t4
  let c8_i32_686 : BitVec 32 := 8#32
  let v567 : BitVec 32 := Scalar.muli arg17 c8_i32_686
  let v599 : BitVec 32 := Scalar.addi v567 c0_i32_697
  let v600 : Index := Scalar.indexCast v599
  let c48_698 : Index := 48#32
  ![v600.toNat, 48]
@[reducible] def k1_t5_loop : Scf.Loop 32 :=
  let c0_i32_68 : BitVec 32 := 0#32
  let c16_i32_69 : BitVec 32 := 16#32
  let v59 : BitVec 32 := Scalar.addi c0_i32_68 c16_i32_69
  let c1_i32_70 : BitVec 32 := 1#32
  ⟨c0_i32_68, v59, c1_i32_70⟩
def k1_off27 (k1_t5 : Fin k1_t5_loop.trips) (c0_i32_687 : BitVec 32) : Fin 2 → Nat :=
  let c0_i32_68 : BitVec 32 := 0#32
  let c1_i32_70 : BitVec 32 := 1#32
  let arg17 : BitVec 32 := Scf.iv c0_i32_68 c1_i32_70 k1_t5
  let c8_i32_686 : BitVec 32 := 8#32
  let v567 : BitVec 32 := Scalar.muli arg17 c8_i32_686
  let v568 : BitVec 32 := Scalar.addi v567 c0_i32_687
  let v569 : Index := Scalar.indexCast v568
  let c0 : Index := 0#32
  ![v569.toNat, 0]
def k1_off28 (k1_t5 : Fin k1_t5_loop.trips) (c0_i32_688 : BitVec 32) : Fin 2 → Nat :=
  let c0_i32_68 : BitVec 32 := 0#32
  let c1_i32_70 : BitVec 32 := 1#32
  let arg17 : BitVec 32 := Scf.iv c0_i32_68 c1_i32_70 k1_t5
  let c8_i32_686 : BitVec 32 := 8#32
  let v567 : BitVec 32 := Scalar.muli arg17 c8_i32_686
  let v572 : BitVec 32 := Scalar.addi v567 c0_i32_688
  let v573 : Index := Scalar.indexCast v572
  let c0_689 : Index := 0#32
  ![v573.toNat, 0]
def k1_off29 (k1_t5 : Fin k1_t5_loop.trips) (c0_i32_690 : BitVec 32) : Fin 2 → Nat :=
  let c0_i32_68 : BitVec 32 := 0#32
  let c1_i32_70 : BitVec 32 := 1#32
  let arg17 : BitVec 32 := Scf.iv c0_i32_68 c1_i32_70 k1_t5
  let c8_i32_686 : BitVec 32 := 8#32
  let v567 : BitVec 32 := Scalar.muli arg17 c8_i32_686
  let v577 : BitVec 32 := Scalar.addi v567 c0_i32_690
  let v578 : Index := Scalar.indexCast v577
  let c16 : Index := 16#32
  ![v578.toNat, 16]
def k1_off30 (k1_t5 : Fin k1_t5_loop.trips) (c0_i32_691 : BitVec 32) : Fin 2 → Nat :=
  let c0_i32_68 : BitVec 32 := 0#32
  let c1_i32_70 : BitVec 32 := 1#32
  let arg17 : BitVec 32 := Scf.iv c0_i32_68 c1_i32_70 k1_t5
  let c8_i32_686 : BitVec 32 := 8#32
  let v567 : BitVec 32 := Scalar.muli arg17 c8_i32_686
  let v581 : BitVec 32 := Scalar.addi v567 c0_i32_691
  let v582 : Index := Scalar.indexCast v581
  let c16_692 : Index := 16#32
  ![v582.toNat, 16]
def k1_off31 (k1_t5 : Fin k1_t5_loop.trips) (c0_i32_693 : BitVec 32) : Fin 2 → Nat :=
  let c0_i32_68 : BitVec 32 := 0#32
  let c1_i32_70 : BitVec 32 := 1#32
  let arg17 : BitVec 32 := Scf.iv c0_i32_68 c1_i32_70 k1_t5
  let c8_i32_686 : BitVec 32 := 8#32
  let v567 : BitVec 32 := Scalar.muli arg17 c8_i32_686
  let v586 : BitVec 32 := Scalar.addi v567 c0_i32_693
  let v587 : Index := Scalar.indexCast v586
  let c32 : Index := 32#32
  ![v587.toNat, 32]
def k1_off32 (k1_t5 : Fin k1_t5_loop.trips) (c0_i32_694 : BitVec 32) : Fin 2 → Nat :=
  let c0_i32_68 : BitVec 32 := 0#32
  let c1_i32_70 : BitVec 32 := 1#32
  let arg17 : BitVec 32 := Scf.iv c0_i32_68 c1_i32_70 k1_t5
  let c8_i32_686 : BitVec 32 := 8#32
  let v567 : BitVec 32 := Scalar.muli arg17 c8_i32_686
  let v590 : BitVec 32 := Scalar.addi v567 c0_i32_694
  let v591 : Index := Scalar.indexCast v590
  let c32_695 : Index := 32#32
  ![v591.toNat, 32]
def k1_off33 (k1_t5 : Fin k1_t5_loop.trips) (c0_i32_696 : BitVec 32) : Fin 2 → Nat :=
  let c0_i32_68 : BitVec 32 := 0#32
  let c1_i32_70 : BitVec 32 := 1#32
  let arg17 : BitVec 32 := Scf.iv c0_i32_68 c1_i32_70 k1_t5
  let c8_i32_686 : BitVec 32 := 8#32
  let v567 : BitVec 32 := Scalar.muli arg17 c8_i32_686
  let v595 : BitVec 32 := Scalar.addi v567 c0_i32_696
  let v596 : Index := Scalar.indexCast v595
  let c48 : Index := 48#32
  ![v596.toNat, 48]
def k1_off34 (k1_t5 : Fin k1_t5_loop.trips) (c0_i32_697 : BitVec 32) : Fin 2 → Nat :=
  let c0_i32_68 : BitVec 32 := 0#32
  let c1_i32_70 : BitVec 32 := 1#32
  let arg17 : BitVec 32 := Scf.iv c0_i32_68 c1_i32_70 k1_t5
  let c8_i32_686 : BitVec 32 := 8#32
  let v567 : BitVec 32 := Scalar.muli arg17 c8_i32_686
  let v599 : BitVec 32 := Scalar.addi v567 c0_i32_697
  let v600 : Index := Scalar.indexCast v599
  let c48_698 : Index := 48#32
  ![v600.toNat, 48]
@[reducible] def k1_t6_loop : Scf.Loop 32 :=
  let c0_i32_85 : BitVec 32 := 0#32
  let c16_i32_86 : BitVec 32 := 16#32
  let v73 : BitVec 32 := Scalar.addi c0_i32_85 c16_i32_86
  let c1_i32_87 : BitVec 32 := 1#32
  ⟨c0_i32_85, v73, c1_i32_87⟩
def k1_off35 (k1_t6 : Fin k1_t6_loop.trips) (c0_i32_687 : BitVec 32) : Fin 2 → Nat :=
  let c0_i32_85 : BitVec 32 := 0#32
  let c1_i32_87 : BitVec 32 := 1#32
  let arg17 : BitVec 32 := Scf.iv c0_i32_85 c1_i32_87 k1_t6
  let c8_i32_686 : BitVec 32 := 8#32
  let v567 : BitVec 32 := Scalar.muli arg17 c8_i32_686
  let v568 : BitVec 32 := Scalar.addi v567 c0_i32_687
  let v569 : Index := Scalar.indexCast v568
  let c0 : Index := 0#32
  ![v569.toNat, 0]
def k1_off36 (k1_t6 : Fin k1_t6_loop.trips) (c0_i32_688 : BitVec 32) : Fin 2 → Nat :=
  let c0_i32_85 : BitVec 32 := 0#32
  let c1_i32_87 : BitVec 32 := 1#32
  let arg17 : BitVec 32 := Scf.iv c0_i32_85 c1_i32_87 k1_t6
  let c8_i32_686 : BitVec 32 := 8#32
  let v567 : BitVec 32 := Scalar.muli arg17 c8_i32_686
  let v572 : BitVec 32 := Scalar.addi v567 c0_i32_688
  let v573 : Index := Scalar.indexCast v572
  let c0_689 : Index := 0#32
  ![v573.toNat, 0]
def k1_off37 (k1_t6 : Fin k1_t6_loop.trips) (c0_i32_690 : BitVec 32) : Fin 2 → Nat :=
  let c0_i32_85 : BitVec 32 := 0#32
  let c1_i32_87 : BitVec 32 := 1#32
  let arg17 : BitVec 32 := Scf.iv c0_i32_85 c1_i32_87 k1_t6
  let c8_i32_686 : BitVec 32 := 8#32
  let v567 : BitVec 32 := Scalar.muli arg17 c8_i32_686
  let v577 : BitVec 32 := Scalar.addi v567 c0_i32_690
  let v578 : Index := Scalar.indexCast v577
  let c16 : Index := 16#32
  ![v578.toNat, 16]
def k1_off38 (k1_t6 : Fin k1_t6_loop.trips) (c0_i32_691 : BitVec 32) : Fin 2 → Nat :=
  let c0_i32_85 : BitVec 32 := 0#32
  let c1_i32_87 : BitVec 32 := 1#32
  let arg17 : BitVec 32 := Scf.iv c0_i32_85 c1_i32_87 k1_t6
  let c8_i32_686 : BitVec 32 := 8#32
  let v567 : BitVec 32 := Scalar.muli arg17 c8_i32_686
  let v581 : BitVec 32 := Scalar.addi v567 c0_i32_691
  let v582 : Index := Scalar.indexCast v581
  let c16_692 : Index := 16#32
  ![v582.toNat, 16]
def k1_off39 (k1_t6 : Fin k1_t6_loop.trips) (c0_i32_693 : BitVec 32) : Fin 2 → Nat :=
  let c0_i32_85 : BitVec 32 := 0#32
  let c1_i32_87 : BitVec 32 := 1#32
  let arg17 : BitVec 32 := Scf.iv c0_i32_85 c1_i32_87 k1_t6
  let c8_i32_686 : BitVec 32 := 8#32
  let v567 : BitVec 32 := Scalar.muli arg17 c8_i32_686
  let v586 : BitVec 32 := Scalar.addi v567 c0_i32_693
  let v587 : Index := Scalar.indexCast v586
  let c32 : Index := 32#32
  ![v587.toNat, 32]
def k1_off40 (k1_t6 : Fin k1_t6_loop.trips) (c0_i32_694 : BitVec 32) : Fin 2 → Nat :=
  let c0_i32_85 : BitVec 32 := 0#32
  let c1_i32_87 : BitVec 32 := 1#32
  let arg17 : BitVec 32 := Scf.iv c0_i32_85 c1_i32_87 k1_t6
  let c8_i32_686 : BitVec 32 := 8#32
  let v567 : BitVec 32 := Scalar.muli arg17 c8_i32_686
  let v590 : BitVec 32 := Scalar.addi v567 c0_i32_694
  let v591 : Index := Scalar.indexCast v590
  let c32_695 : Index := 32#32
  ![v591.toNat, 32]
def k1_off41 (k1_t6 : Fin k1_t6_loop.trips) (c0_i32_696 : BitVec 32) : Fin 2 → Nat :=
  let c0_i32_85 : BitVec 32 := 0#32
  let c1_i32_87 : BitVec 32 := 1#32
  let arg17 : BitVec 32 := Scf.iv c0_i32_85 c1_i32_87 k1_t6
  let c8_i32_686 : BitVec 32 := 8#32
  let v567 : BitVec 32 := Scalar.muli arg17 c8_i32_686
  let v595 : BitVec 32 := Scalar.addi v567 c0_i32_696
  let v596 : Index := Scalar.indexCast v595
  let c48 : Index := 48#32
  ![v596.toNat, 48]
def k1_off42 (k1_t6 : Fin k1_t6_loop.trips) (c0_i32_697 : BitVec 32) : Fin 2 → Nat :=
  let c0_i32_85 : BitVec 32 := 0#32
  let c1_i32_87 : BitVec 32 := 1#32
  let arg17 : BitVec 32 := Scf.iv c0_i32_85 c1_i32_87 k1_t6
  let c8_i32_686 : BitVec 32 := 8#32
  let v567 : BitVec 32 := Scalar.muli arg17 c8_i32_686
  let v599 : BitVec 32 := Scalar.addi v567 c0_i32_697
  let v600 : Index := Scalar.indexCast v599
  let c48_698 : Index := 48#32
  ![v600.toNat, 48]
@[reducible] def k1_t7_loop : Scf.Loop 32 :=
  let c0_i32_102 : BitVec 32 := 0#32
  let c16_i32_103 : BitVec 32 := 16#32
  let v87 : BitVec 32 := Scalar.addi c0_i32_102 c16_i32_103
  let c1_i32_104 : BitVec 32 := 1#32
  ⟨c0_i32_102, v87, c1_i32_104⟩
def k1_off43 (k1_t7 : Fin k1_t7_loop.trips) (c0_i32_687 : BitVec 32) : Fin 2 → Nat :=
  let c0_i32_102 : BitVec 32 := 0#32
  let c1_i32_104 : BitVec 32 := 1#32
  let arg17 : BitVec 32 := Scf.iv c0_i32_102 c1_i32_104 k1_t7
  let c8_i32_686 : BitVec 32 := 8#32
  let v567 : BitVec 32 := Scalar.muli arg17 c8_i32_686
  let v568 : BitVec 32 := Scalar.addi v567 c0_i32_687
  let v569 : Index := Scalar.indexCast v568
  let c0 : Index := 0#32
  ![v569.toNat, 0]
def k1_off44 (k1_t7 : Fin k1_t7_loop.trips) (c0_i32_688 : BitVec 32) : Fin 2 → Nat :=
  let c0_i32_102 : BitVec 32 := 0#32
  let c1_i32_104 : BitVec 32 := 1#32
  let arg17 : BitVec 32 := Scf.iv c0_i32_102 c1_i32_104 k1_t7
  let c8_i32_686 : BitVec 32 := 8#32
  let v567 : BitVec 32 := Scalar.muli arg17 c8_i32_686
  let v572 : BitVec 32 := Scalar.addi v567 c0_i32_688
  let v573 : Index := Scalar.indexCast v572
  let c0_689 : Index := 0#32
  ![v573.toNat, 0]
def k1_off45 (k1_t7 : Fin k1_t7_loop.trips) (c0_i32_690 : BitVec 32) : Fin 2 → Nat :=
  let c0_i32_102 : BitVec 32 := 0#32
  let c1_i32_104 : BitVec 32 := 1#32
  let arg17 : BitVec 32 := Scf.iv c0_i32_102 c1_i32_104 k1_t7
  let c8_i32_686 : BitVec 32 := 8#32
  let v567 : BitVec 32 := Scalar.muli arg17 c8_i32_686
  let v577 : BitVec 32 := Scalar.addi v567 c0_i32_690
  let v578 : Index := Scalar.indexCast v577
  let c16 : Index := 16#32
  ![v578.toNat, 16]
def k1_off46 (k1_t7 : Fin k1_t7_loop.trips) (c0_i32_691 : BitVec 32) : Fin 2 → Nat :=
  let c0_i32_102 : BitVec 32 := 0#32
  let c1_i32_104 : BitVec 32 := 1#32
  let arg17 : BitVec 32 := Scf.iv c0_i32_102 c1_i32_104 k1_t7
  let c8_i32_686 : BitVec 32 := 8#32
  let v567 : BitVec 32 := Scalar.muli arg17 c8_i32_686
  let v581 : BitVec 32 := Scalar.addi v567 c0_i32_691
  let v582 : Index := Scalar.indexCast v581
  let c16_692 : Index := 16#32
  ![v582.toNat, 16]
def k1_off47 (k1_t7 : Fin k1_t7_loop.trips) (c0_i32_693 : BitVec 32) : Fin 2 → Nat :=
  let c0_i32_102 : BitVec 32 := 0#32
  let c1_i32_104 : BitVec 32 := 1#32
  let arg17 : BitVec 32 := Scf.iv c0_i32_102 c1_i32_104 k1_t7
  let c8_i32_686 : BitVec 32 := 8#32
  let v567 : BitVec 32 := Scalar.muli arg17 c8_i32_686
  let v586 : BitVec 32 := Scalar.addi v567 c0_i32_693
  let v587 : Index := Scalar.indexCast v586
  let c32 : Index := 32#32
  ![v587.toNat, 32]
def k1_off48 (k1_t7 : Fin k1_t7_loop.trips) (c0_i32_694 : BitVec 32) : Fin 2 → Nat :=
  let c0_i32_102 : BitVec 32 := 0#32
  let c1_i32_104 : BitVec 32 := 1#32
  let arg17 : BitVec 32 := Scf.iv c0_i32_102 c1_i32_104 k1_t7
  let c8_i32_686 : BitVec 32 := 8#32
  let v567 : BitVec 32 := Scalar.muli arg17 c8_i32_686
  let v590 : BitVec 32 := Scalar.addi v567 c0_i32_694
  let v591 : Index := Scalar.indexCast v590
  let c32_695 : Index := 32#32
  ![v591.toNat, 32]
def k1_off49 (k1_t7 : Fin k1_t7_loop.trips) (c0_i32_696 : BitVec 32) : Fin 2 → Nat :=
  let c0_i32_102 : BitVec 32 := 0#32
  let c1_i32_104 : BitVec 32 := 1#32
  let arg17 : BitVec 32 := Scf.iv c0_i32_102 c1_i32_104 k1_t7
  let c8_i32_686 : BitVec 32 := 8#32
  let v567 : BitVec 32 := Scalar.muli arg17 c8_i32_686
  let v595 : BitVec 32 := Scalar.addi v567 c0_i32_696
  let v596 : Index := Scalar.indexCast v595
  let c48 : Index := 48#32
  ![v596.toNat, 48]
def k1_off50 (k1_t7 : Fin k1_t7_loop.trips) (c0_i32_697 : BitVec 32) : Fin 2 → Nat :=
  let c0_i32_102 : BitVec 32 := 0#32
  let c1_i32_104 : BitVec 32 := 1#32
  let arg17 : BitVec 32 := Scf.iv c0_i32_102 c1_i32_104 k1_t7
  let c8_i32_686 : BitVec 32 := 8#32
  let v567 : BitVec 32 := Scalar.muli arg17 c8_i32_686
  let v599 : BitVec 32 := Scalar.addi v567 c0_i32_697
  let v600 : Index := Scalar.indexCast v599
  let c48_698 : Index := 48#32
  ![v600.toNat, 48]
@[reducible] def k1_t8_loop : Scf.Loop 32 :=
  let c0_i32_119 : BitVec 32 := 0#32
  let c16_i32_120 : BitVec 32 := 16#32
  let v101 : BitVec 32 := Scalar.addi c0_i32_119 c16_i32_120
  let c1_i32_121 : BitVec 32 := 1#32
  ⟨c0_i32_119, v101, c1_i32_121⟩
def k1_off51 (k1_t8 : Fin k1_t8_loop.trips) (c0_i32_687 : BitVec 32) : Fin 2 → Nat :=
  let c0_i32_119 : BitVec 32 := 0#32
  let c1_i32_121 : BitVec 32 := 1#32
  let arg17 : BitVec 32 := Scf.iv c0_i32_119 c1_i32_121 k1_t8
  let c8_i32_686 : BitVec 32 := 8#32
  let v567 : BitVec 32 := Scalar.muli arg17 c8_i32_686
  let v568 : BitVec 32 := Scalar.addi v567 c0_i32_687
  let v569 : Index := Scalar.indexCast v568
  let c0 : Index := 0#32
  ![v569.toNat, 0]
def k1_off52 (k1_t8 : Fin k1_t8_loop.trips) (c0_i32_688 : BitVec 32) : Fin 2 → Nat :=
  let c0_i32_119 : BitVec 32 := 0#32
  let c1_i32_121 : BitVec 32 := 1#32
  let arg17 : BitVec 32 := Scf.iv c0_i32_119 c1_i32_121 k1_t8
  let c8_i32_686 : BitVec 32 := 8#32
  let v567 : BitVec 32 := Scalar.muli arg17 c8_i32_686
  let v572 : BitVec 32 := Scalar.addi v567 c0_i32_688
  let v573 : Index := Scalar.indexCast v572
  let c0_689 : Index := 0#32
  ![v573.toNat, 0]
def k1_off53 (k1_t8 : Fin k1_t8_loop.trips) (c0_i32_690 : BitVec 32) : Fin 2 → Nat :=
  let c0_i32_119 : BitVec 32 := 0#32
  let c1_i32_121 : BitVec 32 := 1#32
  let arg17 : BitVec 32 := Scf.iv c0_i32_119 c1_i32_121 k1_t8
  let c8_i32_686 : BitVec 32 := 8#32
  let v567 : BitVec 32 := Scalar.muli arg17 c8_i32_686
  let v577 : BitVec 32 := Scalar.addi v567 c0_i32_690
  let v578 : Index := Scalar.indexCast v577
  let c16 : Index := 16#32
  ![v578.toNat, 16]
def k1_off54 (k1_t8 : Fin k1_t8_loop.trips) (c0_i32_691 : BitVec 32) : Fin 2 → Nat :=
  let c0_i32_119 : BitVec 32 := 0#32
  let c1_i32_121 : BitVec 32 := 1#32
  let arg17 : BitVec 32 := Scf.iv c0_i32_119 c1_i32_121 k1_t8
  let c8_i32_686 : BitVec 32 := 8#32
  let v567 : BitVec 32 := Scalar.muli arg17 c8_i32_686
  let v581 : BitVec 32 := Scalar.addi v567 c0_i32_691
  let v582 : Index := Scalar.indexCast v581
  let c16_692 : Index := 16#32
  ![v582.toNat, 16]
def k1_off55 (k1_t8 : Fin k1_t8_loop.trips) (c0_i32_693 : BitVec 32) : Fin 2 → Nat :=
  let c0_i32_119 : BitVec 32 := 0#32
  let c1_i32_121 : BitVec 32 := 1#32
  let arg17 : BitVec 32 := Scf.iv c0_i32_119 c1_i32_121 k1_t8
  let c8_i32_686 : BitVec 32 := 8#32
  let v567 : BitVec 32 := Scalar.muli arg17 c8_i32_686
  let v586 : BitVec 32 := Scalar.addi v567 c0_i32_693
  let v587 : Index := Scalar.indexCast v586
  let c32 : Index := 32#32
  ![v587.toNat, 32]
def k1_off56 (k1_t8 : Fin k1_t8_loop.trips) (c0_i32_694 : BitVec 32) : Fin 2 → Nat :=
  let c0_i32_119 : BitVec 32 := 0#32
  let c1_i32_121 : BitVec 32 := 1#32
  let arg17 : BitVec 32 := Scf.iv c0_i32_119 c1_i32_121 k1_t8
  let c8_i32_686 : BitVec 32 := 8#32
  let v567 : BitVec 32 := Scalar.muli arg17 c8_i32_686
  let v590 : BitVec 32 := Scalar.addi v567 c0_i32_694
  let v591 : Index := Scalar.indexCast v590
  let c32_695 : Index := 32#32
  ![v591.toNat, 32]
def k1_off57 (k1_t8 : Fin k1_t8_loop.trips) (c0_i32_696 : BitVec 32) : Fin 2 → Nat :=
  let c0_i32_119 : BitVec 32 := 0#32
  let c1_i32_121 : BitVec 32 := 1#32
  let arg17 : BitVec 32 := Scf.iv c0_i32_119 c1_i32_121 k1_t8
  let c8_i32_686 : BitVec 32 := 8#32
  let v567 : BitVec 32 := Scalar.muli arg17 c8_i32_686
  let v595 : BitVec 32 := Scalar.addi v567 c0_i32_696
  let v596 : Index := Scalar.indexCast v595
  let c48 : Index := 48#32
  ![v596.toNat, 48]
def k1_off58 (k1_t8 : Fin k1_t8_loop.trips) (c0_i32_697 : BitVec 32) : Fin 2 → Nat :=
  let c0_i32_119 : BitVec 32 := 0#32
  let c1_i32_121 : BitVec 32 := 1#32
  let arg17 : BitVec 32 := Scf.iv c0_i32_119 c1_i32_121 k1_t8
  let c8_i32_686 : BitVec 32 := 8#32
  let v567 : BitVec 32 := Scalar.muli arg17 c8_i32_686
  let v599 : BitVec 32 := Scalar.addi v567 c0_i32_697
  let v600 : Index := Scalar.indexCast v599
  let c48_698 : Index := 48#32
  ![v600.toNat, 48]
@[reducible] def k1_t9_loop : Scf.Loop 32 :=
  let c0_i32_136 : BitVec 32 := 0#32
  let c16_i32_137 : BitVec 32 := 16#32
  let v115 : BitVec 32 := Scalar.addi c0_i32_136 c16_i32_137
  let c1_i32_138 : BitVec 32 := 1#32
  ⟨c0_i32_136, v115, c1_i32_138⟩
def k1_off59 (k1_t9 : Fin k1_t9_loop.trips) (c0_i32_687 : BitVec 32) : Fin 2 → Nat :=
  let c0_i32_136 : BitVec 32 := 0#32
  let c1_i32_138 : BitVec 32 := 1#32
  let arg17 : BitVec 32 := Scf.iv c0_i32_136 c1_i32_138 k1_t9
  let c8_i32_686 : BitVec 32 := 8#32
  let v567 : BitVec 32 := Scalar.muli arg17 c8_i32_686
  let v568 : BitVec 32 := Scalar.addi v567 c0_i32_687
  let v569 : Index := Scalar.indexCast v568
  let c0 : Index := 0#32
  ![v569.toNat, 0]
def k1_off60 (k1_t9 : Fin k1_t9_loop.trips) (c0_i32_688 : BitVec 32) : Fin 2 → Nat :=
  let c0_i32_136 : BitVec 32 := 0#32
  let c1_i32_138 : BitVec 32 := 1#32
  let arg17 : BitVec 32 := Scf.iv c0_i32_136 c1_i32_138 k1_t9
  let c8_i32_686 : BitVec 32 := 8#32
  let v567 : BitVec 32 := Scalar.muli arg17 c8_i32_686
  let v572 : BitVec 32 := Scalar.addi v567 c0_i32_688
  let v573 : Index := Scalar.indexCast v572
  let c0_689 : Index := 0#32
  ![v573.toNat, 0]
def k1_off61 (k1_t9 : Fin k1_t9_loop.trips) (c0_i32_690 : BitVec 32) : Fin 2 → Nat :=
  let c0_i32_136 : BitVec 32 := 0#32
  let c1_i32_138 : BitVec 32 := 1#32
  let arg17 : BitVec 32 := Scf.iv c0_i32_136 c1_i32_138 k1_t9
  let c8_i32_686 : BitVec 32 := 8#32
  let v567 : BitVec 32 := Scalar.muli arg17 c8_i32_686
  let v577 : BitVec 32 := Scalar.addi v567 c0_i32_690
  let v578 : Index := Scalar.indexCast v577
  let c16 : Index := 16#32
  ![v578.toNat, 16]
def k1_off62 (k1_t9 : Fin k1_t9_loop.trips) (c0_i32_691 : BitVec 32) : Fin 2 → Nat :=
  let c0_i32_136 : BitVec 32 := 0#32
  let c1_i32_138 : BitVec 32 := 1#32
  let arg17 : BitVec 32 := Scf.iv c0_i32_136 c1_i32_138 k1_t9
  let c8_i32_686 : BitVec 32 := 8#32
  let v567 : BitVec 32 := Scalar.muli arg17 c8_i32_686
  let v581 : BitVec 32 := Scalar.addi v567 c0_i32_691
  let v582 : Index := Scalar.indexCast v581
  let c16_692 : Index := 16#32
  ![v582.toNat, 16]
def k1_off63 (k1_t9 : Fin k1_t9_loop.trips) (c0_i32_693 : BitVec 32) : Fin 2 → Nat :=
  let c0_i32_136 : BitVec 32 := 0#32
  let c1_i32_138 : BitVec 32 := 1#32
  let arg17 : BitVec 32 := Scf.iv c0_i32_136 c1_i32_138 k1_t9
  let c8_i32_686 : BitVec 32 := 8#32
  let v567 : BitVec 32 := Scalar.muli arg17 c8_i32_686
  let v586 : BitVec 32 := Scalar.addi v567 c0_i32_693
  let v587 : Index := Scalar.indexCast v586
  let c32 : Index := 32#32
  ![v587.toNat, 32]
def k1_off64 (k1_t9 : Fin k1_t9_loop.trips) (c0_i32_694 : BitVec 32) : Fin 2 → Nat :=
  let c0_i32_136 : BitVec 32 := 0#32
  let c1_i32_138 : BitVec 32 := 1#32
  let arg17 : BitVec 32 := Scf.iv c0_i32_136 c1_i32_138 k1_t9
  let c8_i32_686 : BitVec 32 := 8#32
  let v567 : BitVec 32 := Scalar.muli arg17 c8_i32_686
  let v590 : BitVec 32 := Scalar.addi v567 c0_i32_694
  let v591 : Index := Scalar.indexCast v590
  let c32_695 : Index := 32#32
  ![v591.toNat, 32]
def k1_off65 (k1_t9 : Fin k1_t9_loop.trips) (c0_i32_696 : BitVec 32) : Fin 2 → Nat :=
  let c0_i32_136 : BitVec 32 := 0#32
  let c1_i32_138 : BitVec 32 := 1#32
  let arg17 : BitVec 32 := Scf.iv c0_i32_136 c1_i32_138 k1_t9
  let c8_i32_686 : BitVec 32 := 8#32
  let v567 : BitVec 32 := Scalar.muli arg17 c8_i32_686
  let v595 : BitVec 32 := Scalar.addi v567 c0_i32_696
  let v596 : Index := Scalar.indexCast v595
  let c48 : Index := 48#32
  ![v596.toNat, 48]
def k1_off66 (k1_t9 : Fin k1_t9_loop.trips) (c0_i32_697 : BitVec 32) : Fin 2 → Nat :=
  let c0_i32_136 : BitVec 32 := 0#32
  let c1_i32_138 : BitVec 32 := 1#32
  let arg17 : BitVec 32 := Scf.iv c0_i32_136 c1_i32_138 k1_t9
  let c8_i32_686 : BitVec 32 := 8#32
  let v567 : BitVec 32 := Scalar.muli arg17 c8_i32_686
  let v599 : BitVec 32 := Scalar.addi v567 c0_i32_697
  let v600 : Index := Scalar.indexCast v599
  let c48_698 : Index := 48#32
  ![v600.toNat, 48]
@[reducible] def k1_t10_loop : Scf.Loop 32 :=
  let c0_i32_153 : BitVec 32 := 0#32
  let c16_i32_154 : BitVec 32 := 16#32
  let v129 : BitVec 32 := Scalar.addi c0_i32_153 c16_i32_154
  let c1_i32_155 : BitVec 32 := 1#32
  ⟨c0_i32_153, v129, c1_i32_155⟩
def k1_off67 (k1_t10 : Fin k1_t10_loop.trips) (c0_i32_687 : BitVec 32) : Fin 2 → Nat :=
  let c0_i32_153 : BitVec 32 := 0#32
  let c1_i32_155 : BitVec 32 := 1#32
  let arg17 : BitVec 32 := Scf.iv c0_i32_153 c1_i32_155 k1_t10
  let c8_i32_686 : BitVec 32 := 8#32
  let v567 : BitVec 32 := Scalar.muli arg17 c8_i32_686
  let v568 : BitVec 32 := Scalar.addi v567 c0_i32_687
  let v569 : Index := Scalar.indexCast v568
  let c0 : Index := 0#32
  ![v569.toNat, 0]
def k1_off68 (k1_t10 : Fin k1_t10_loop.trips) (c0_i32_688 : BitVec 32) : Fin 2 → Nat :=
  let c0_i32_153 : BitVec 32 := 0#32
  let c1_i32_155 : BitVec 32 := 1#32
  let arg17 : BitVec 32 := Scf.iv c0_i32_153 c1_i32_155 k1_t10
  let c8_i32_686 : BitVec 32 := 8#32
  let v567 : BitVec 32 := Scalar.muli arg17 c8_i32_686
  let v572 : BitVec 32 := Scalar.addi v567 c0_i32_688
  let v573 : Index := Scalar.indexCast v572
  let c0_689 : Index := 0#32
  ![v573.toNat, 0]
def k1_off69 (k1_t10 : Fin k1_t10_loop.trips) (c0_i32_690 : BitVec 32) : Fin 2 → Nat :=
  let c0_i32_153 : BitVec 32 := 0#32
  let c1_i32_155 : BitVec 32 := 1#32
  let arg17 : BitVec 32 := Scf.iv c0_i32_153 c1_i32_155 k1_t10
  let c8_i32_686 : BitVec 32 := 8#32
  let v567 : BitVec 32 := Scalar.muli arg17 c8_i32_686
  let v577 : BitVec 32 := Scalar.addi v567 c0_i32_690
  let v578 : Index := Scalar.indexCast v577
  let c16 : Index := 16#32
  ![v578.toNat, 16]
def k1_off70 (k1_t10 : Fin k1_t10_loop.trips) (c0_i32_691 : BitVec 32) : Fin 2 → Nat :=
  let c0_i32_153 : BitVec 32 := 0#32
  let c1_i32_155 : BitVec 32 := 1#32
  let arg17 : BitVec 32 := Scf.iv c0_i32_153 c1_i32_155 k1_t10
  let c8_i32_686 : BitVec 32 := 8#32
  let v567 : BitVec 32 := Scalar.muli arg17 c8_i32_686
  let v581 : BitVec 32 := Scalar.addi v567 c0_i32_691
  let v582 : Index := Scalar.indexCast v581
  let c16_692 : Index := 16#32
  ![v582.toNat, 16]
def k1_off71 (k1_t10 : Fin k1_t10_loop.trips) (c0_i32_693 : BitVec 32) : Fin 2 → Nat :=
  let c0_i32_153 : BitVec 32 := 0#32
  let c1_i32_155 : BitVec 32 := 1#32
  let arg17 : BitVec 32 := Scf.iv c0_i32_153 c1_i32_155 k1_t10
  let c8_i32_686 : BitVec 32 := 8#32
  let v567 : BitVec 32 := Scalar.muli arg17 c8_i32_686
  let v586 : BitVec 32 := Scalar.addi v567 c0_i32_693
  let v587 : Index := Scalar.indexCast v586
  let c32 : Index := 32#32
  ![v587.toNat, 32]
def k1_off72 (k1_t10 : Fin k1_t10_loop.trips) (c0_i32_694 : BitVec 32) : Fin 2 → Nat :=
  let c0_i32_153 : BitVec 32 := 0#32
  let c1_i32_155 : BitVec 32 := 1#32
  let arg17 : BitVec 32 := Scf.iv c0_i32_153 c1_i32_155 k1_t10
  let c8_i32_686 : BitVec 32 := 8#32
  let v567 : BitVec 32 := Scalar.muli arg17 c8_i32_686
  let v590 : BitVec 32 := Scalar.addi v567 c0_i32_694
  let v591 : Index := Scalar.indexCast v590
  let c32_695 : Index := 32#32
  ![v591.toNat, 32]
def k1_off73 (k1_t10 : Fin k1_t10_loop.trips) (c0_i32_696 : BitVec 32) : Fin 2 → Nat :=
  let c0_i32_153 : BitVec 32 := 0#32
  let c1_i32_155 : BitVec 32 := 1#32
  let arg17 : BitVec 32 := Scf.iv c0_i32_153 c1_i32_155 k1_t10
  let c8_i32_686 : BitVec 32 := 8#32
  let v567 : BitVec 32 := Scalar.muli arg17 c8_i32_686
  let v595 : BitVec 32 := Scalar.addi v567 c0_i32_696
  let v596 : Index := Scalar.indexCast v595
  let c48 : Index := 48#32
  ![v596.toNat, 48]
def k1_off74 (k1_t10 : Fin k1_t10_loop.trips) (c0_i32_697 : BitVec 32) : Fin 2 → Nat :=
  let c0_i32_153 : BitVec 32 := 0#32
  let c1_i32_155 : BitVec 32 := 1#32
  let arg17 : BitVec 32 := Scf.iv c0_i32_153 c1_i32_155 k1_t10
  let c8_i32_686 : BitVec 32 := 8#32
  let v567 : BitVec 32 := Scalar.muli arg17 c8_i32_686
  let v599 : BitVec 32 := Scalar.addi v567 c0_i32_697
  let v600 : Index := Scalar.indexCast v599
  let c48_698 : Index := 48#32
  ![v600.toNat, 48]
@[reducible] def k1_t11_loop : Scf.Loop 32 :=
  let c0_i32_170 : BitVec 32 := 0#32
  let c16_i32_171 : BitVec 32 := 16#32
  let v143 : BitVec 32 := Scalar.addi c0_i32_170 c16_i32_171
  let c1_i32_172 : BitVec 32 := 1#32
  ⟨c0_i32_170, v143, c1_i32_172⟩
def k1_off75 (k1_t11 : Fin k1_t11_loop.trips) (c0_i32_687 : BitVec 32) : Fin 2 → Nat :=
  let c0_i32_170 : BitVec 32 := 0#32
  let c1_i32_172 : BitVec 32 := 1#32
  let arg17 : BitVec 32 := Scf.iv c0_i32_170 c1_i32_172 k1_t11
  let c8_i32_686 : BitVec 32 := 8#32
  let v567 : BitVec 32 := Scalar.muli arg17 c8_i32_686
  let v568 : BitVec 32 := Scalar.addi v567 c0_i32_687
  let v569 : Index := Scalar.indexCast v568
  let c0 : Index := 0#32
  ![v569.toNat, 0]
def k1_off76 (k1_t11 : Fin k1_t11_loop.trips) (c0_i32_688 : BitVec 32) : Fin 2 → Nat :=
  let c0_i32_170 : BitVec 32 := 0#32
  let c1_i32_172 : BitVec 32 := 1#32
  let arg17 : BitVec 32 := Scf.iv c0_i32_170 c1_i32_172 k1_t11
  let c8_i32_686 : BitVec 32 := 8#32
  let v567 : BitVec 32 := Scalar.muli arg17 c8_i32_686
  let v572 : BitVec 32 := Scalar.addi v567 c0_i32_688
  let v573 : Index := Scalar.indexCast v572
  let c0_689 : Index := 0#32
  ![v573.toNat, 0]
def k1_off77 (k1_t11 : Fin k1_t11_loop.trips) (c0_i32_690 : BitVec 32) : Fin 2 → Nat :=
  let c0_i32_170 : BitVec 32 := 0#32
  let c1_i32_172 : BitVec 32 := 1#32
  let arg17 : BitVec 32 := Scf.iv c0_i32_170 c1_i32_172 k1_t11
  let c8_i32_686 : BitVec 32 := 8#32
  let v567 : BitVec 32 := Scalar.muli arg17 c8_i32_686
  let v577 : BitVec 32 := Scalar.addi v567 c0_i32_690
  let v578 : Index := Scalar.indexCast v577
  let c16 : Index := 16#32
  ![v578.toNat, 16]
def k1_off78 (k1_t11 : Fin k1_t11_loop.trips) (c0_i32_691 : BitVec 32) : Fin 2 → Nat :=
  let c0_i32_170 : BitVec 32 := 0#32
  let c1_i32_172 : BitVec 32 := 1#32
  let arg17 : BitVec 32 := Scf.iv c0_i32_170 c1_i32_172 k1_t11
  let c8_i32_686 : BitVec 32 := 8#32
  let v567 : BitVec 32 := Scalar.muli arg17 c8_i32_686
  let v581 : BitVec 32 := Scalar.addi v567 c0_i32_691
  let v582 : Index := Scalar.indexCast v581
  let c16_692 : Index := 16#32
  ![v582.toNat, 16]
def k1_off79 (k1_t11 : Fin k1_t11_loop.trips) (c0_i32_693 : BitVec 32) : Fin 2 → Nat :=
  let c0_i32_170 : BitVec 32 := 0#32
  let c1_i32_172 : BitVec 32 := 1#32
  let arg17 : BitVec 32 := Scf.iv c0_i32_170 c1_i32_172 k1_t11
  let c8_i32_686 : BitVec 32 := 8#32
  let v567 : BitVec 32 := Scalar.muli arg17 c8_i32_686
  let v586 : BitVec 32 := Scalar.addi v567 c0_i32_693
  let v587 : Index := Scalar.indexCast v586
  let c32 : Index := 32#32
  ![v587.toNat, 32]
def k1_off80 (k1_t11 : Fin k1_t11_loop.trips) (c0_i32_694 : BitVec 32) : Fin 2 → Nat :=
  let c0_i32_170 : BitVec 32 := 0#32
  let c1_i32_172 : BitVec 32 := 1#32
  let arg17 : BitVec 32 := Scf.iv c0_i32_170 c1_i32_172 k1_t11
  let c8_i32_686 : BitVec 32 := 8#32
  let v567 : BitVec 32 := Scalar.muli arg17 c8_i32_686
  let v590 : BitVec 32 := Scalar.addi v567 c0_i32_694
  let v591 : Index := Scalar.indexCast v590
  let c32_695 : Index := 32#32
  ![v591.toNat, 32]
def k1_off81 (k1_t11 : Fin k1_t11_loop.trips) (c0_i32_696 : BitVec 32) : Fin 2 → Nat :=
  let c0_i32_170 : BitVec 32 := 0#32
  let c1_i32_172 : BitVec 32 := 1#32
  let arg17 : BitVec 32 := Scf.iv c0_i32_170 c1_i32_172 k1_t11
  let c8_i32_686 : BitVec 32 := 8#32
  let v567 : BitVec 32 := Scalar.muli arg17 c8_i32_686
  let v595 : BitVec 32 := Scalar.addi v567 c0_i32_696
  let v596 : Index := Scalar.indexCast v595
  let c48 : Index := 48#32
  ![v596.toNat, 48]
def k1_off82 (k1_t11 : Fin k1_t11_loop.trips) (c0_i32_697 : BitVec 32) : Fin 2 → Nat :=
  let c0_i32_170 : BitVec 32 := 0#32
  let c1_i32_172 : BitVec 32 := 1#32
  let arg17 : BitVec 32 := Scf.iv c0_i32_170 c1_i32_172 k1_t11
  let c8_i32_686 : BitVec 32 := 8#32
  let v567 : BitVec 32 := Scalar.muli arg17 c8_i32_686
  let v599 : BitVec 32 := Scalar.addi v567 c0_i32_697
  let v600 : Index := Scalar.indexCast v599
  let c48_698 : Index := 48#32
  ![v600.toNat, 48]
@[reducible] def k1_t12_loop : Scf.Loop 32 :=
  let c0_i32_187 : BitVec 32 := 0#32
  let c16_i32_188 : BitVec 32 := 16#32
  let v157 : BitVec 32 := Scalar.addi c0_i32_187 c16_i32_188
  let c1_i32_189 : BitVec 32 := 1#32
  ⟨c0_i32_187, v157, c1_i32_189⟩
def k1_off83 (k1_t12 : Fin k1_t12_loop.trips) (c0_i32_687 : BitVec 32) : Fin 2 → Nat :=
  let c0_i32_187 : BitVec 32 := 0#32
  let c1_i32_189 : BitVec 32 := 1#32
  let arg17 : BitVec 32 := Scf.iv c0_i32_187 c1_i32_189 k1_t12
  let c8_i32_686 : BitVec 32 := 8#32
  let v567 : BitVec 32 := Scalar.muli arg17 c8_i32_686
  let v568 : BitVec 32 := Scalar.addi v567 c0_i32_687
  let v569 : Index := Scalar.indexCast v568
  let c0 : Index := 0#32
  ![v569.toNat, 0]
def k1_off84 (k1_t12 : Fin k1_t12_loop.trips) (c0_i32_688 : BitVec 32) : Fin 2 → Nat :=
  let c0_i32_187 : BitVec 32 := 0#32
  let c1_i32_189 : BitVec 32 := 1#32
  let arg17 : BitVec 32 := Scf.iv c0_i32_187 c1_i32_189 k1_t12
  let c8_i32_686 : BitVec 32 := 8#32
  let v567 : BitVec 32 := Scalar.muli arg17 c8_i32_686
  let v572 : BitVec 32 := Scalar.addi v567 c0_i32_688
  let v573 : Index := Scalar.indexCast v572
  let c0_689 : Index := 0#32
  ![v573.toNat, 0]
def k1_off85 (k1_t12 : Fin k1_t12_loop.trips) (c0_i32_690 : BitVec 32) : Fin 2 → Nat :=
  let c0_i32_187 : BitVec 32 := 0#32
  let c1_i32_189 : BitVec 32 := 1#32
  let arg17 : BitVec 32 := Scf.iv c0_i32_187 c1_i32_189 k1_t12
  let c8_i32_686 : BitVec 32 := 8#32
  let v567 : BitVec 32 := Scalar.muli arg17 c8_i32_686
  let v577 : BitVec 32 := Scalar.addi v567 c0_i32_690
  let v578 : Index := Scalar.indexCast v577
  let c16 : Index := 16#32
  ![v578.toNat, 16]
def k1_off86 (k1_t12 : Fin k1_t12_loop.trips) (c0_i32_691 : BitVec 32) : Fin 2 → Nat :=
  let c0_i32_187 : BitVec 32 := 0#32
  let c1_i32_189 : BitVec 32 := 1#32
  let arg17 : BitVec 32 := Scf.iv c0_i32_187 c1_i32_189 k1_t12
  let c8_i32_686 : BitVec 32 := 8#32
  let v567 : BitVec 32 := Scalar.muli arg17 c8_i32_686
  let v581 : BitVec 32 := Scalar.addi v567 c0_i32_691
  let v582 : Index := Scalar.indexCast v581
  let c16_692 : Index := 16#32
  ![v582.toNat, 16]
def k1_off87 (k1_t12 : Fin k1_t12_loop.trips) (c0_i32_693 : BitVec 32) : Fin 2 → Nat :=
  let c0_i32_187 : BitVec 32 := 0#32
  let c1_i32_189 : BitVec 32 := 1#32
  let arg17 : BitVec 32 := Scf.iv c0_i32_187 c1_i32_189 k1_t12
  let c8_i32_686 : BitVec 32 := 8#32
  let v567 : BitVec 32 := Scalar.muli arg17 c8_i32_686
  let v586 : BitVec 32 := Scalar.addi v567 c0_i32_693
  let v587 : Index := Scalar.indexCast v586
  let c32 : Index := 32#32
  ![v587.toNat, 32]
def k1_off88 (k1_t12 : Fin k1_t12_loop.trips) (c0_i32_694 : BitVec 32) : Fin 2 → Nat :=
  let c0_i32_187 : BitVec 32 := 0#32
  let c1_i32_189 : BitVec 32 := 1#32
  let arg17 : BitVec 32 := Scf.iv c0_i32_187 c1_i32_189 k1_t12
  let c8_i32_686 : BitVec 32 := 8#32
  let v567 : BitVec 32 := Scalar.muli arg17 c8_i32_686
  let v590 : BitVec 32 := Scalar.addi v567 c0_i32_694
  let v591 : Index := Scalar.indexCast v590
  let c32_695 : Index := 32#32
  ![v591.toNat, 32]
def k1_off89 (k1_t12 : Fin k1_t12_loop.trips) (c0_i32_696 : BitVec 32) : Fin 2 → Nat :=
  let c0_i32_187 : BitVec 32 := 0#32
  let c1_i32_189 : BitVec 32 := 1#32
  let arg17 : BitVec 32 := Scf.iv c0_i32_187 c1_i32_189 k1_t12
  let c8_i32_686 : BitVec 32 := 8#32
  let v567 : BitVec 32 := Scalar.muli arg17 c8_i32_686
  let v595 : BitVec 32 := Scalar.addi v567 c0_i32_696
  let v596 : Index := Scalar.indexCast v595
  let c48 : Index := 48#32
  ![v596.toNat, 48]
def k1_off90 (k1_t12 : Fin k1_t12_loop.trips) (c0_i32_697 : BitVec 32) : Fin 2 → Nat :=
  let c0_i32_187 : BitVec 32 := 0#32
  let c1_i32_189 : BitVec 32 := 1#32
  let arg17 : BitVec 32 := Scf.iv c0_i32_187 c1_i32_189 k1_t12
  let c8_i32_686 : BitVec 32 := 8#32
  let v567 : BitVec 32 := Scalar.muli arg17 c8_i32_686
  let v599 : BitVec 32 := Scalar.addi v567 c0_i32_697
  let v600 : Index := Scalar.indexCast v599
  let c48_698 : Index := 48#32
  ![v600.toNat, 48]
@[reducible] def k1_t13_loop : Scf.Loop 32 :=
  let c0_i32_204 : BitVec 32 := 0#32
  let c16_i32_205 : BitVec 32 := 16#32
  let v171 : BitVec 32 := Scalar.addi c0_i32_204 c16_i32_205
  let c1_i32_206 : BitVec 32 := 1#32
  ⟨c0_i32_204, v171, c1_i32_206⟩
def k1_off91 (k1_t13 : Fin k1_t13_loop.trips) (c0_i32_687 : BitVec 32) : Fin 2 → Nat :=
  let c0_i32_204 : BitVec 32 := 0#32
  let c1_i32_206 : BitVec 32 := 1#32
  let arg17 : BitVec 32 := Scf.iv c0_i32_204 c1_i32_206 k1_t13
  let c8_i32_686 : BitVec 32 := 8#32
  let v567 : BitVec 32 := Scalar.muli arg17 c8_i32_686
  let v568 : BitVec 32 := Scalar.addi v567 c0_i32_687
  let v569 : Index := Scalar.indexCast v568
  let c0 : Index := 0#32
  ![v569.toNat, 0]
def k1_off92 (k1_t13 : Fin k1_t13_loop.trips) (c0_i32_688 : BitVec 32) : Fin 2 → Nat :=
  let c0_i32_204 : BitVec 32 := 0#32
  let c1_i32_206 : BitVec 32 := 1#32
  let arg17 : BitVec 32 := Scf.iv c0_i32_204 c1_i32_206 k1_t13
  let c8_i32_686 : BitVec 32 := 8#32
  let v567 : BitVec 32 := Scalar.muli arg17 c8_i32_686
  let v572 : BitVec 32 := Scalar.addi v567 c0_i32_688
  let v573 : Index := Scalar.indexCast v572
  let c0_689 : Index := 0#32
  ![v573.toNat, 0]
def k1_off93 (k1_t13 : Fin k1_t13_loop.trips) (c0_i32_690 : BitVec 32) : Fin 2 → Nat :=
  let c0_i32_204 : BitVec 32 := 0#32
  let c1_i32_206 : BitVec 32 := 1#32
  let arg17 : BitVec 32 := Scf.iv c0_i32_204 c1_i32_206 k1_t13
  let c8_i32_686 : BitVec 32 := 8#32
  let v567 : BitVec 32 := Scalar.muli arg17 c8_i32_686
  let v577 : BitVec 32 := Scalar.addi v567 c0_i32_690
  let v578 : Index := Scalar.indexCast v577
  let c16 : Index := 16#32
  ![v578.toNat, 16]
def k1_off94 (k1_t13 : Fin k1_t13_loop.trips) (c0_i32_691 : BitVec 32) : Fin 2 → Nat :=
  let c0_i32_204 : BitVec 32 := 0#32
  let c1_i32_206 : BitVec 32 := 1#32
  let arg17 : BitVec 32 := Scf.iv c0_i32_204 c1_i32_206 k1_t13
  let c8_i32_686 : BitVec 32 := 8#32
  let v567 : BitVec 32 := Scalar.muli arg17 c8_i32_686
  let v581 : BitVec 32 := Scalar.addi v567 c0_i32_691
  let v582 : Index := Scalar.indexCast v581
  let c16_692 : Index := 16#32
  ![v582.toNat, 16]
def k1_off95 (k1_t13 : Fin k1_t13_loop.trips) (c0_i32_693 : BitVec 32) : Fin 2 → Nat :=
  let c0_i32_204 : BitVec 32 := 0#32
  let c1_i32_206 : BitVec 32 := 1#32
  let arg17 : BitVec 32 := Scf.iv c0_i32_204 c1_i32_206 k1_t13
  let c8_i32_686 : BitVec 32 := 8#32
  let v567 : BitVec 32 := Scalar.muli arg17 c8_i32_686
  let v586 : BitVec 32 := Scalar.addi v567 c0_i32_693
  let v587 : Index := Scalar.indexCast v586
  let c32 : Index := 32#32
  ![v587.toNat, 32]
def k1_off96 (k1_t13 : Fin k1_t13_loop.trips) (c0_i32_694 : BitVec 32) : Fin 2 → Nat :=
  let c0_i32_204 : BitVec 32 := 0#32
  let c1_i32_206 : BitVec 32 := 1#32
  let arg17 : BitVec 32 := Scf.iv c0_i32_204 c1_i32_206 k1_t13
  let c8_i32_686 : BitVec 32 := 8#32
  let v567 : BitVec 32 := Scalar.muli arg17 c8_i32_686
  let v590 : BitVec 32 := Scalar.addi v567 c0_i32_694
  let v591 : Index := Scalar.indexCast v590
  let c32_695 : Index := 32#32
  ![v591.toNat, 32]
def k1_off97 (k1_t13 : Fin k1_t13_loop.trips) (c0_i32_696 : BitVec 32) : Fin 2 → Nat :=
  let c0_i32_204 : BitVec 32 := 0#32
  let c1_i32_206 : BitVec 32 := 1#32
  let arg17 : BitVec 32 := Scf.iv c0_i32_204 c1_i32_206 k1_t13
  let c8_i32_686 : BitVec 32 := 8#32
  let v567 : BitVec 32 := Scalar.muli arg17 c8_i32_686
  let v595 : BitVec 32 := Scalar.addi v567 c0_i32_696
  let v596 : Index := Scalar.indexCast v595
  let c48 : Index := 48#32
  ![v596.toNat, 48]
def k1_off98 (k1_t13 : Fin k1_t13_loop.trips) (c0_i32_697 : BitVec 32) : Fin 2 → Nat :=
  let c0_i32_204 : BitVec 32 := 0#32
  let c1_i32_206 : BitVec 32 := 1#32
  let arg17 : BitVec 32 := Scf.iv c0_i32_204 c1_i32_206 k1_t13
  let c8_i32_686 : BitVec 32 := 8#32
  let v567 : BitVec 32 := Scalar.muli arg17 c8_i32_686
  let v599 : BitVec 32 := Scalar.addi v567 c0_i32_697
  let v600 : Index := Scalar.indexCast v599
  let c48_698 : Index := 48#32
  ![v600.toNat, 48]
@[reducible] def k1_t14_loop : Scf.Loop 32 :=
  let c0_i32_221 : BitVec 32 := 0#32
  let c16_i32_222 : BitVec 32 := 16#32
  let v185 : BitVec 32 := Scalar.addi c0_i32_221 c16_i32_222
  let c1_i32_223 : BitVec 32 := 1#32
  ⟨c0_i32_221, v185, c1_i32_223⟩
def k1_off99 (k1_t14 : Fin k1_t14_loop.trips) (c0_i32_687 : BitVec 32) : Fin 2 → Nat :=
  let c0_i32_221 : BitVec 32 := 0#32
  let c1_i32_223 : BitVec 32 := 1#32
  let arg17 : BitVec 32 := Scf.iv c0_i32_221 c1_i32_223 k1_t14
  let c8_i32_686 : BitVec 32 := 8#32
  let v567 : BitVec 32 := Scalar.muli arg17 c8_i32_686
  let v568 : BitVec 32 := Scalar.addi v567 c0_i32_687
  let v569 : Index := Scalar.indexCast v568
  let c0 : Index := 0#32
  ![v569.toNat, 0]
def k1_off100 (k1_t14 : Fin k1_t14_loop.trips) (c0_i32_688 : BitVec 32) : Fin 2 → Nat :=
  let c0_i32_221 : BitVec 32 := 0#32
  let c1_i32_223 : BitVec 32 := 1#32
  let arg17 : BitVec 32 := Scf.iv c0_i32_221 c1_i32_223 k1_t14
  let c8_i32_686 : BitVec 32 := 8#32
  let v567 : BitVec 32 := Scalar.muli arg17 c8_i32_686
  let v572 : BitVec 32 := Scalar.addi v567 c0_i32_688
  let v573 : Index := Scalar.indexCast v572
  let c0_689 : Index := 0#32
  ![v573.toNat, 0]
def k1_off101 (k1_t14 : Fin k1_t14_loop.trips) (c0_i32_690 : BitVec 32) : Fin 2 → Nat :=
  let c0_i32_221 : BitVec 32 := 0#32
  let c1_i32_223 : BitVec 32 := 1#32
  let arg17 : BitVec 32 := Scf.iv c0_i32_221 c1_i32_223 k1_t14
  let c8_i32_686 : BitVec 32 := 8#32
  let v567 : BitVec 32 := Scalar.muli arg17 c8_i32_686
  let v577 : BitVec 32 := Scalar.addi v567 c0_i32_690
  let v578 : Index := Scalar.indexCast v577
  let c16 : Index := 16#32
  ![v578.toNat, 16]
def k1_off102 (k1_t14 : Fin k1_t14_loop.trips) (c0_i32_691 : BitVec 32) : Fin 2 → Nat :=
  let c0_i32_221 : BitVec 32 := 0#32
  let c1_i32_223 : BitVec 32 := 1#32
  let arg17 : BitVec 32 := Scf.iv c0_i32_221 c1_i32_223 k1_t14
  let c8_i32_686 : BitVec 32 := 8#32
  let v567 : BitVec 32 := Scalar.muli arg17 c8_i32_686
  let v581 : BitVec 32 := Scalar.addi v567 c0_i32_691
  let v582 : Index := Scalar.indexCast v581
  let c16_692 : Index := 16#32
  ![v582.toNat, 16]
def k1_off103 (k1_t14 : Fin k1_t14_loop.trips) (c0_i32_693 : BitVec 32) : Fin 2 → Nat :=
  let c0_i32_221 : BitVec 32 := 0#32
  let c1_i32_223 : BitVec 32 := 1#32
  let arg17 : BitVec 32 := Scf.iv c0_i32_221 c1_i32_223 k1_t14
  let c8_i32_686 : BitVec 32 := 8#32
  let v567 : BitVec 32 := Scalar.muli arg17 c8_i32_686
  let v586 : BitVec 32 := Scalar.addi v567 c0_i32_693
  let v587 : Index := Scalar.indexCast v586
  let c32 : Index := 32#32
  ![v587.toNat, 32]
def k1_off104 (k1_t14 : Fin k1_t14_loop.trips) (c0_i32_694 : BitVec 32) : Fin 2 → Nat :=
  let c0_i32_221 : BitVec 32 := 0#32
  let c1_i32_223 : BitVec 32 := 1#32
  let arg17 : BitVec 32 := Scf.iv c0_i32_221 c1_i32_223 k1_t14
  let c8_i32_686 : BitVec 32 := 8#32
  let v567 : BitVec 32 := Scalar.muli arg17 c8_i32_686
  let v590 : BitVec 32 := Scalar.addi v567 c0_i32_694
  let v591 : Index := Scalar.indexCast v590
  let c32_695 : Index := 32#32
  ![v591.toNat, 32]
def k1_off105 (k1_t14 : Fin k1_t14_loop.trips) (c0_i32_696 : BitVec 32) : Fin 2 → Nat :=
  let c0_i32_221 : BitVec 32 := 0#32
  let c1_i32_223 : BitVec 32 := 1#32
  let arg17 : BitVec 32 := Scf.iv c0_i32_221 c1_i32_223 k1_t14
  let c8_i32_686 : BitVec 32 := 8#32
  let v567 : BitVec 32 := Scalar.muli arg17 c8_i32_686
  let v595 : BitVec 32 := Scalar.addi v567 c0_i32_696
  let v596 : Index := Scalar.indexCast v595
  let c48 : Index := 48#32
  ![v596.toNat, 48]
def k1_off106 (k1_t14 : Fin k1_t14_loop.trips) (c0_i32_697 : BitVec 32) : Fin 2 → Nat :=
  let c0_i32_221 : BitVec 32 := 0#32
  let c1_i32_223 : BitVec 32 := 1#32
  let arg17 : BitVec 32 := Scf.iv c0_i32_221 c1_i32_223 k1_t14
  let c8_i32_686 : BitVec 32 := 8#32
  let v567 : BitVec 32 := Scalar.muli arg17 c8_i32_686
  let v599 : BitVec 32 := Scalar.addi v567 c0_i32_697
  let v600 : Index := Scalar.indexCast v599
  let c48_698 : Index := 48#32
  ![v600.toNat, 48]
@[reducible] def k1_t15_loop : Scf.Loop 32 :=
  let c0_i32_238 : BitVec 32 := 0#32
  let c16_i32_239 : BitVec 32 := 16#32
  let v199 : BitVec 32 := Scalar.addi c0_i32_238 c16_i32_239
  let c1_i32_240 : BitVec 32 := 1#32
  ⟨c0_i32_238, v199, c1_i32_240⟩
def k1_off107 (k1_t15 : Fin k1_t15_loop.trips) (c0_i32_687 : BitVec 32) : Fin 2 → Nat :=
  let c0_i32_238 : BitVec 32 := 0#32
  let c1_i32_240 : BitVec 32 := 1#32
  let arg17 : BitVec 32 := Scf.iv c0_i32_238 c1_i32_240 k1_t15
  let c8_i32_686 : BitVec 32 := 8#32
  let v567 : BitVec 32 := Scalar.muli arg17 c8_i32_686
  let v568 : BitVec 32 := Scalar.addi v567 c0_i32_687
  let v569 : Index := Scalar.indexCast v568
  let c0 : Index := 0#32
  ![v569.toNat, 0]
def k1_off108 (k1_t15 : Fin k1_t15_loop.trips) (c0_i32_688 : BitVec 32) : Fin 2 → Nat :=
  let c0_i32_238 : BitVec 32 := 0#32
  let c1_i32_240 : BitVec 32 := 1#32
  let arg17 : BitVec 32 := Scf.iv c0_i32_238 c1_i32_240 k1_t15
  let c8_i32_686 : BitVec 32 := 8#32
  let v567 : BitVec 32 := Scalar.muli arg17 c8_i32_686
  let v572 : BitVec 32 := Scalar.addi v567 c0_i32_688
  let v573 : Index := Scalar.indexCast v572
  let c0_689 : Index := 0#32
  ![v573.toNat, 0]
def k1_off109 (k1_t15 : Fin k1_t15_loop.trips) (c0_i32_690 : BitVec 32) : Fin 2 → Nat :=
  let c0_i32_238 : BitVec 32 := 0#32
  let c1_i32_240 : BitVec 32 := 1#32
  let arg17 : BitVec 32 := Scf.iv c0_i32_238 c1_i32_240 k1_t15
  let c8_i32_686 : BitVec 32 := 8#32
  let v567 : BitVec 32 := Scalar.muli arg17 c8_i32_686
  let v577 : BitVec 32 := Scalar.addi v567 c0_i32_690
  let v578 : Index := Scalar.indexCast v577
  let c16 : Index := 16#32
  ![v578.toNat, 16]
def k1_off110 (k1_t15 : Fin k1_t15_loop.trips) (c0_i32_691 : BitVec 32) : Fin 2 → Nat :=
  let c0_i32_238 : BitVec 32 := 0#32
  let c1_i32_240 : BitVec 32 := 1#32
  let arg17 : BitVec 32 := Scf.iv c0_i32_238 c1_i32_240 k1_t15
  let c8_i32_686 : BitVec 32 := 8#32
  let v567 : BitVec 32 := Scalar.muli arg17 c8_i32_686
  let v581 : BitVec 32 := Scalar.addi v567 c0_i32_691
  let v582 : Index := Scalar.indexCast v581
  let c16_692 : Index := 16#32
  ![v582.toNat, 16]
def k1_off111 (k1_t15 : Fin k1_t15_loop.trips) (c0_i32_693 : BitVec 32) : Fin 2 → Nat :=
  let c0_i32_238 : BitVec 32 := 0#32
  let c1_i32_240 : BitVec 32 := 1#32
  let arg17 : BitVec 32 := Scf.iv c0_i32_238 c1_i32_240 k1_t15
  let c8_i32_686 : BitVec 32 := 8#32
  let v567 : BitVec 32 := Scalar.muli arg17 c8_i32_686
  let v586 : BitVec 32 := Scalar.addi v567 c0_i32_693
  let v587 : Index := Scalar.indexCast v586
  let c32 : Index := 32#32
  ![v587.toNat, 32]
def k1_off112 (k1_t15 : Fin k1_t15_loop.trips) (c0_i32_694 : BitVec 32) : Fin 2 → Nat :=
  let c0_i32_238 : BitVec 32 := 0#32
  let c1_i32_240 : BitVec 32 := 1#32
  let arg17 : BitVec 32 := Scf.iv c0_i32_238 c1_i32_240 k1_t15
  let c8_i32_686 : BitVec 32 := 8#32
  let v567 : BitVec 32 := Scalar.muli arg17 c8_i32_686
  let v590 : BitVec 32 := Scalar.addi v567 c0_i32_694
  let v591 : Index := Scalar.indexCast v590
  let c32_695 : Index := 32#32
  ![v591.toNat, 32]
def k1_off113 (k1_t15 : Fin k1_t15_loop.trips) (c0_i32_696 : BitVec 32) : Fin 2 → Nat :=
  let c0_i32_238 : BitVec 32 := 0#32
  let c1_i32_240 : BitVec 32 := 1#32
  let arg17 : BitVec 32 := Scf.iv c0_i32_238 c1_i32_240 k1_t15
  let c8_i32_686 : BitVec 32 := 8#32
  let v567 : BitVec 32 := Scalar.muli arg17 c8_i32_686
  let v595 : BitVec 32 := Scalar.addi v567 c0_i32_696
  let v596 : Index := Scalar.indexCast v595
  let c48 : Index := 48#32
  ![v596.toNat, 48]
def k1_off114 (k1_t15 : Fin k1_t15_loop.trips) (c0_i32_697 : BitVec 32) : Fin 2 → Nat :=
  let c0_i32_238 : BitVec 32 := 0#32
  let c1_i32_240 : BitVec 32 := 1#32
  let arg17 : BitVec 32 := Scf.iv c0_i32_238 c1_i32_240 k1_t15
  let c8_i32_686 : BitVec 32 := 8#32
  let v567 : BitVec 32 := Scalar.muli arg17 c8_i32_686
  let v599 : BitVec 32 := Scalar.addi v567 c0_i32_697
  let v600 : Index := Scalar.indexCast v599
  let c48_698 : Index := 48#32
  ![v600.toNat, 48]
@[reducible] def k1_t16_loop : Scf.Loop 32 :=
  let c0_i32_256 : BitVec 32 := 0#32
  let c16_i32_257 : BitVec 32 := 16#32
  let v213 : BitVec 32 := Scalar.addi c0_i32_256 c16_i32_257
  let c1_i32_258 : BitVec 32 := 1#32
  ⟨c0_i32_256, v213, c1_i32_258⟩
def k1_off115 (k1_t16 : Fin k1_t16_loop.trips) (c0_i32_687 : BitVec 32) : Fin 2 → Nat :=
  let c0_i32_256 : BitVec 32 := 0#32
  let c1_i32_258 : BitVec 32 := 1#32
  let arg17 : BitVec 32 := Scf.iv c0_i32_256 c1_i32_258 k1_t16
  let c8_i32_686 : BitVec 32 := 8#32
  let v567 : BitVec 32 := Scalar.muli arg17 c8_i32_686
  let v568 : BitVec 32 := Scalar.addi v567 c0_i32_687
  let v569 : Index := Scalar.indexCast v568
  let c0 : Index := 0#32
  ![v569.toNat, 0]
def k1_off116 (k1_t16 : Fin k1_t16_loop.trips) (c0_i32_688 : BitVec 32) : Fin 2 → Nat :=
  let c0_i32_256 : BitVec 32 := 0#32
  let c1_i32_258 : BitVec 32 := 1#32
  let arg17 : BitVec 32 := Scf.iv c0_i32_256 c1_i32_258 k1_t16
  let c8_i32_686 : BitVec 32 := 8#32
  let v567 : BitVec 32 := Scalar.muli arg17 c8_i32_686
  let v572 : BitVec 32 := Scalar.addi v567 c0_i32_688
  let v573 : Index := Scalar.indexCast v572
  let c0_689 : Index := 0#32
  ![v573.toNat, 0]
def k1_off117 (k1_t16 : Fin k1_t16_loop.trips) (c0_i32_690 : BitVec 32) : Fin 2 → Nat :=
  let c0_i32_256 : BitVec 32 := 0#32
  let c1_i32_258 : BitVec 32 := 1#32
  let arg17 : BitVec 32 := Scf.iv c0_i32_256 c1_i32_258 k1_t16
  let c8_i32_686 : BitVec 32 := 8#32
  let v567 : BitVec 32 := Scalar.muli arg17 c8_i32_686
  let v577 : BitVec 32 := Scalar.addi v567 c0_i32_690
  let v578 : Index := Scalar.indexCast v577
  let c16 : Index := 16#32
  ![v578.toNat, 16]
def k1_off118 (k1_t16 : Fin k1_t16_loop.trips) (c0_i32_691 : BitVec 32) : Fin 2 → Nat :=
  let c0_i32_256 : BitVec 32 := 0#32
  let c1_i32_258 : BitVec 32 := 1#32
  let arg17 : BitVec 32 := Scf.iv c0_i32_256 c1_i32_258 k1_t16
  let c8_i32_686 : BitVec 32 := 8#32
  let v567 : BitVec 32 := Scalar.muli arg17 c8_i32_686
  let v581 : BitVec 32 := Scalar.addi v567 c0_i32_691
  let v582 : Index := Scalar.indexCast v581
  let c16_692 : Index := 16#32
  ![v582.toNat, 16]
def k1_off119 (k1_t16 : Fin k1_t16_loop.trips) (c0_i32_693 : BitVec 32) : Fin 2 → Nat :=
  let c0_i32_256 : BitVec 32 := 0#32
  let c1_i32_258 : BitVec 32 := 1#32
  let arg17 : BitVec 32 := Scf.iv c0_i32_256 c1_i32_258 k1_t16
  let c8_i32_686 : BitVec 32 := 8#32
  let v567 : BitVec 32 := Scalar.muli arg17 c8_i32_686
  let v586 : BitVec 32 := Scalar.addi v567 c0_i32_693
  let v587 : Index := Scalar.indexCast v586
  let c32 : Index := 32#32
  ![v587.toNat, 32]
def k1_off120 (k1_t16 : Fin k1_t16_loop.trips) (c0_i32_694 : BitVec 32) : Fin 2 → Nat :=
  let c0_i32_256 : BitVec 32 := 0#32
  let c1_i32_258 : BitVec 32 := 1#32
  let arg17 : BitVec 32 := Scf.iv c0_i32_256 c1_i32_258 k1_t16
  let c8_i32_686 : BitVec 32 := 8#32
  let v567 : BitVec 32 := Scalar.muli arg17 c8_i32_686
  let v590 : BitVec 32 := Scalar.addi v567 c0_i32_694
  let v591 : Index := Scalar.indexCast v590
  let c32_695 : Index := 32#32
  ![v591.toNat, 32]
def k1_off121 (k1_t16 : Fin k1_t16_loop.trips) (c0_i32_696 : BitVec 32) : Fin 2 → Nat :=
  let c0_i32_256 : BitVec 32 := 0#32
  let c1_i32_258 : BitVec 32 := 1#32
  let arg17 : BitVec 32 := Scf.iv c0_i32_256 c1_i32_258 k1_t16
  let c8_i32_686 : BitVec 32 := 8#32
  let v567 : BitVec 32 := Scalar.muli arg17 c8_i32_686
  let v595 : BitVec 32 := Scalar.addi v567 c0_i32_696
  let v596 : Index := Scalar.indexCast v595
  let c48 : Index := 48#32
  ![v596.toNat, 48]
def k1_off122 (k1_t16 : Fin k1_t16_loop.trips) (c0_i32_697 : BitVec 32) : Fin 2 → Nat :=
  let c0_i32_256 : BitVec 32 := 0#32
  let c1_i32_258 : BitVec 32 := 1#32
  let arg17 : BitVec 32 := Scf.iv c0_i32_256 c1_i32_258 k1_t16
  let c8_i32_686 : BitVec 32 := 8#32
  let v567 : BitVec 32 := Scalar.muli arg17 c8_i32_686
  let v599 : BitVec 32 := Scalar.addi v567 c0_i32_697
  let v600 : Index := Scalar.indexCast v599
  let c48_698 : Index := 48#32
  ![v600.toNat, 48]
@[reducible] def k1_t17_loop : Scf.Loop 32 :=
  let c0_i32_273 : BitVec 32 := 0#32
  let c16_i32_274 : BitVec 32 := 16#32
  let v227 : BitVec 32 := Scalar.addi c0_i32_273 c16_i32_274
  let c1_i32_275 : BitVec 32 := 1#32
  ⟨c0_i32_273, v227, c1_i32_275⟩
def k1_off123 (k1_t17 : Fin k1_t17_loop.trips) (c0_i32_687 : BitVec 32) : Fin 2 → Nat :=
  let c0_i32_273 : BitVec 32 := 0#32
  let c1_i32_275 : BitVec 32 := 1#32
  let arg17 : BitVec 32 := Scf.iv c0_i32_273 c1_i32_275 k1_t17
  let c8_i32_686 : BitVec 32 := 8#32
  let v567 : BitVec 32 := Scalar.muli arg17 c8_i32_686
  let v568 : BitVec 32 := Scalar.addi v567 c0_i32_687
  let v569 : Index := Scalar.indexCast v568
  let c0 : Index := 0#32
  ![v569.toNat, 0]
def k1_off124 (k1_t17 : Fin k1_t17_loop.trips) (c0_i32_688 : BitVec 32) : Fin 2 → Nat :=
  let c0_i32_273 : BitVec 32 := 0#32
  let c1_i32_275 : BitVec 32 := 1#32
  let arg17 : BitVec 32 := Scf.iv c0_i32_273 c1_i32_275 k1_t17
  let c8_i32_686 : BitVec 32 := 8#32
  let v567 : BitVec 32 := Scalar.muli arg17 c8_i32_686
  let v572 : BitVec 32 := Scalar.addi v567 c0_i32_688
  let v573 : Index := Scalar.indexCast v572
  let c0_689 : Index := 0#32
  ![v573.toNat, 0]
def k1_off125 (k1_t17 : Fin k1_t17_loop.trips) (c0_i32_690 : BitVec 32) : Fin 2 → Nat :=
  let c0_i32_273 : BitVec 32 := 0#32
  let c1_i32_275 : BitVec 32 := 1#32
  let arg17 : BitVec 32 := Scf.iv c0_i32_273 c1_i32_275 k1_t17
  let c8_i32_686 : BitVec 32 := 8#32
  let v567 : BitVec 32 := Scalar.muli arg17 c8_i32_686
  let v577 : BitVec 32 := Scalar.addi v567 c0_i32_690
  let v578 : Index := Scalar.indexCast v577
  let c16 : Index := 16#32
  ![v578.toNat, 16]
def k1_off126 (k1_t17 : Fin k1_t17_loop.trips) (c0_i32_691 : BitVec 32) : Fin 2 → Nat :=
  let c0_i32_273 : BitVec 32 := 0#32
  let c1_i32_275 : BitVec 32 := 1#32
  let arg17 : BitVec 32 := Scf.iv c0_i32_273 c1_i32_275 k1_t17
  let c8_i32_686 : BitVec 32 := 8#32
  let v567 : BitVec 32 := Scalar.muli arg17 c8_i32_686
  let v581 : BitVec 32 := Scalar.addi v567 c0_i32_691
  let v582 : Index := Scalar.indexCast v581
  let c16_692 : Index := 16#32
  ![v582.toNat, 16]
def k1_off127 (k1_t17 : Fin k1_t17_loop.trips) (c0_i32_693 : BitVec 32) : Fin 2 → Nat :=
  let c0_i32_273 : BitVec 32 := 0#32
  let c1_i32_275 : BitVec 32 := 1#32
  let arg17 : BitVec 32 := Scf.iv c0_i32_273 c1_i32_275 k1_t17
  let c8_i32_686 : BitVec 32 := 8#32
  let v567 : BitVec 32 := Scalar.muli arg17 c8_i32_686
  let v586 : BitVec 32 := Scalar.addi v567 c0_i32_693
  let v587 : Index := Scalar.indexCast v586
  let c32 : Index := 32#32
  ![v587.toNat, 32]
def k1_off128 (k1_t17 : Fin k1_t17_loop.trips) (c0_i32_694 : BitVec 32) : Fin 2 → Nat :=
  let c0_i32_273 : BitVec 32 := 0#32
  let c1_i32_275 : BitVec 32 := 1#32
  let arg17 : BitVec 32 := Scf.iv c0_i32_273 c1_i32_275 k1_t17
  let c8_i32_686 : BitVec 32 := 8#32
  let v567 : BitVec 32 := Scalar.muli arg17 c8_i32_686
  let v590 : BitVec 32 := Scalar.addi v567 c0_i32_694
  let v591 : Index := Scalar.indexCast v590
  let c32_695 : Index := 32#32
  ![v591.toNat, 32]
def k1_off129 (k1_t17 : Fin k1_t17_loop.trips) (c0_i32_696 : BitVec 32) : Fin 2 → Nat :=
  let c0_i32_273 : BitVec 32 := 0#32
  let c1_i32_275 : BitVec 32 := 1#32
  let arg17 : BitVec 32 := Scf.iv c0_i32_273 c1_i32_275 k1_t17
  let c8_i32_686 : BitVec 32 := 8#32
  let v567 : BitVec 32 := Scalar.muli arg17 c8_i32_686
  let v595 : BitVec 32 := Scalar.addi v567 c0_i32_696
  let v596 : Index := Scalar.indexCast v595
  let c48 : Index := 48#32
  ![v596.toNat, 48]
def k1_off130 (k1_t17 : Fin k1_t17_loop.trips) (c0_i32_697 : BitVec 32) : Fin 2 → Nat :=
  let c0_i32_273 : BitVec 32 := 0#32
  let c1_i32_275 : BitVec 32 := 1#32
  let arg17 : BitVec 32 := Scf.iv c0_i32_273 c1_i32_275 k1_t17
  let c8_i32_686 : BitVec 32 := 8#32
  let v567 : BitVec 32 := Scalar.muli arg17 c8_i32_686
  let v599 : BitVec 32 := Scalar.addi v567 c0_i32_697
  let v600 : Index := Scalar.indexCast v599
  let c48_698 : Index := 48#32
  ![v600.toNat, 48]
@[reducible] def k1_t18_loop : Scf.Loop 32 :=
  let c0_i32_290 : BitVec 32 := 0#32
  let c16_i32_291 : BitVec 32 := 16#32
  let v241 : BitVec 32 := Scalar.addi c0_i32_290 c16_i32_291
  let c1_i32_292 : BitVec 32 := 1#32
  ⟨c0_i32_290, v241, c1_i32_292⟩
def k1_off131 (k1_t18 : Fin k1_t18_loop.trips) (c0_i32_687 : BitVec 32) : Fin 2 → Nat :=
  let c0_i32_290 : BitVec 32 := 0#32
  let c1_i32_292 : BitVec 32 := 1#32
  let arg17 : BitVec 32 := Scf.iv c0_i32_290 c1_i32_292 k1_t18
  let c8_i32_686 : BitVec 32 := 8#32
  let v567 : BitVec 32 := Scalar.muli arg17 c8_i32_686
  let v568 : BitVec 32 := Scalar.addi v567 c0_i32_687
  let v569 : Index := Scalar.indexCast v568
  let c0 : Index := 0#32
  ![v569.toNat, 0]
def k1_off132 (k1_t18 : Fin k1_t18_loop.trips) (c0_i32_688 : BitVec 32) : Fin 2 → Nat :=
  let c0_i32_290 : BitVec 32 := 0#32
  let c1_i32_292 : BitVec 32 := 1#32
  let arg17 : BitVec 32 := Scf.iv c0_i32_290 c1_i32_292 k1_t18
  let c8_i32_686 : BitVec 32 := 8#32
  let v567 : BitVec 32 := Scalar.muli arg17 c8_i32_686
  let v572 : BitVec 32 := Scalar.addi v567 c0_i32_688
  let v573 : Index := Scalar.indexCast v572
  let c0_689 : Index := 0#32
  ![v573.toNat, 0]
def k1_off133 (k1_t18 : Fin k1_t18_loop.trips) (c0_i32_690 : BitVec 32) : Fin 2 → Nat :=
  let c0_i32_290 : BitVec 32 := 0#32
  let c1_i32_292 : BitVec 32 := 1#32
  let arg17 : BitVec 32 := Scf.iv c0_i32_290 c1_i32_292 k1_t18
  let c8_i32_686 : BitVec 32 := 8#32
  let v567 : BitVec 32 := Scalar.muli arg17 c8_i32_686
  let v577 : BitVec 32 := Scalar.addi v567 c0_i32_690
  let v578 : Index := Scalar.indexCast v577
  let c16 : Index := 16#32
  ![v578.toNat, 16]
def k1_off134 (k1_t18 : Fin k1_t18_loop.trips) (c0_i32_691 : BitVec 32) : Fin 2 → Nat :=
  let c0_i32_290 : BitVec 32 := 0#32
  let c1_i32_292 : BitVec 32 := 1#32
  let arg17 : BitVec 32 := Scf.iv c0_i32_290 c1_i32_292 k1_t18
  let c8_i32_686 : BitVec 32 := 8#32
  let v567 : BitVec 32 := Scalar.muli arg17 c8_i32_686
  let v581 : BitVec 32 := Scalar.addi v567 c0_i32_691
  let v582 : Index := Scalar.indexCast v581
  let c16_692 : Index := 16#32
  ![v582.toNat, 16]
def k1_off135 (k1_t18 : Fin k1_t18_loop.trips) (c0_i32_693 : BitVec 32) : Fin 2 → Nat :=
  let c0_i32_290 : BitVec 32 := 0#32
  let c1_i32_292 : BitVec 32 := 1#32
  let arg17 : BitVec 32 := Scf.iv c0_i32_290 c1_i32_292 k1_t18
  let c8_i32_686 : BitVec 32 := 8#32
  let v567 : BitVec 32 := Scalar.muli arg17 c8_i32_686
  let v586 : BitVec 32 := Scalar.addi v567 c0_i32_693
  let v587 : Index := Scalar.indexCast v586
  let c32 : Index := 32#32
  ![v587.toNat, 32]
def k1_off136 (k1_t18 : Fin k1_t18_loop.trips) (c0_i32_694 : BitVec 32) : Fin 2 → Nat :=
  let c0_i32_290 : BitVec 32 := 0#32
  let c1_i32_292 : BitVec 32 := 1#32
  let arg17 : BitVec 32 := Scf.iv c0_i32_290 c1_i32_292 k1_t18
  let c8_i32_686 : BitVec 32 := 8#32
  let v567 : BitVec 32 := Scalar.muli arg17 c8_i32_686
  let v590 : BitVec 32 := Scalar.addi v567 c0_i32_694
  let v591 : Index := Scalar.indexCast v590
  let c32_695 : Index := 32#32
  ![v591.toNat, 32]
def k1_off137 (k1_t18 : Fin k1_t18_loop.trips) (c0_i32_696 : BitVec 32) : Fin 2 → Nat :=
  let c0_i32_290 : BitVec 32 := 0#32
  let c1_i32_292 : BitVec 32 := 1#32
  let arg17 : BitVec 32 := Scf.iv c0_i32_290 c1_i32_292 k1_t18
  let c8_i32_686 : BitVec 32 := 8#32
  let v567 : BitVec 32 := Scalar.muli arg17 c8_i32_686
  let v595 : BitVec 32 := Scalar.addi v567 c0_i32_696
  let v596 : Index := Scalar.indexCast v595
  let c48 : Index := 48#32
  ![v596.toNat, 48]
def k1_off138 (k1_t18 : Fin k1_t18_loop.trips) (c0_i32_697 : BitVec 32) : Fin 2 → Nat :=
  let c0_i32_290 : BitVec 32 := 0#32
  let c1_i32_292 : BitVec 32 := 1#32
  let arg17 : BitVec 32 := Scf.iv c0_i32_290 c1_i32_292 k1_t18
  let c8_i32_686 : BitVec 32 := 8#32
  let v567 : BitVec 32 := Scalar.muli arg17 c8_i32_686
  let v599 : BitVec 32 := Scalar.addi v567 c0_i32_697
  let v600 : Index := Scalar.indexCast v599
  let c48_698 : Index := 48#32
  ![v600.toNat, 48]
@[reducible] def k1_t19_loop : Scf.Loop 32 :=
  let c0_i32_307 : BitVec 32 := 0#32
  let c16_i32_308 : BitVec 32 := 16#32
  let v255 : BitVec 32 := Scalar.addi c0_i32_307 c16_i32_308
  let c1_i32_309 : BitVec 32 := 1#32
  ⟨c0_i32_307, v255, c1_i32_309⟩
def k1_off139 (k1_t19 : Fin k1_t19_loop.trips) (c0_i32_687 : BitVec 32) : Fin 2 → Nat :=
  let c0_i32_307 : BitVec 32 := 0#32
  let c1_i32_309 : BitVec 32 := 1#32
  let arg17 : BitVec 32 := Scf.iv c0_i32_307 c1_i32_309 k1_t19
  let c8_i32_686 : BitVec 32 := 8#32
  let v567 : BitVec 32 := Scalar.muli arg17 c8_i32_686
  let v568 : BitVec 32 := Scalar.addi v567 c0_i32_687
  let v569 : Index := Scalar.indexCast v568
  let c0 : Index := 0#32
  ![v569.toNat, 0]
def k1_off140 (k1_t19 : Fin k1_t19_loop.trips) (c0_i32_688 : BitVec 32) : Fin 2 → Nat :=
  let c0_i32_307 : BitVec 32 := 0#32
  let c1_i32_309 : BitVec 32 := 1#32
  let arg17 : BitVec 32 := Scf.iv c0_i32_307 c1_i32_309 k1_t19
  let c8_i32_686 : BitVec 32 := 8#32
  let v567 : BitVec 32 := Scalar.muli arg17 c8_i32_686
  let v572 : BitVec 32 := Scalar.addi v567 c0_i32_688
  let v573 : Index := Scalar.indexCast v572
  let c0_689 : Index := 0#32
  ![v573.toNat, 0]
def k1_off141 (k1_t19 : Fin k1_t19_loop.trips) (c0_i32_690 : BitVec 32) : Fin 2 → Nat :=
  let c0_i32_307 : BitVec 32 := 0#32
  let c1_i32_309 : BitVec 32 := 1#32
  let arg17 : BitVec 32 := Scf.iv c0_i32_307 c1_i32_309 k1_t19
  let c8_i32_686 : BitVec 32 := 8#32
  let v567 : BitVec 32 := Scalar.muli arg17 c8_i32_686
  let v577 : BitVec 32 := Scalar.addi v567 c0_i32_690
  let v578 : Index := Scalar.indexCast v577
  let c16 : Index := 16#32
  ![v578.toNat, 16]
def k1_off142 (k1_t19 : Fin k1_t19_loop.trips) (c0_i32_691 : BitVec 32) : Fin 2 → Nat :=
  let c0_i32_307 : BitVec 32 := 0#32
  let c1_i32_309 : BitVec 32 := 1#32
  let arg17 : BitVec 32 := Scf.iv c0_i32_307 c1_i32_309 k1_t19
  let c8_i32_686 : BitVec 32 := 8#32
  let v567 : BitVec 32 := Scalar.muli arg17 c8_i32_686
  let v581 : BitVec 32 := Scalar.addi v567 c0_i32_691
  let v582 : Index := Scalar.indexCast v581
  let c16_692 : Index := 16#32
  ![v582.toNat, 16]
def k1_off143 (k1_t19 : Fin k1_t19_loop.trips) (c0_i32_693 : BitVec 32) : Fin 2 → Nat :=
  let c0_i32_307 : BitVec 32 := 0#32
  let c1_i32_309 : BitVec 32 := 1#32
  let arg17 : BitVec 32 := Scf.iv c0_i32_307 c1_i32_309 k1_t19
  let c8_i32_686 : BitVec 32 := 8#32
  let v567 : BitVec 32 := Scalar.muli arg17 c8_i32_686
  let v586 : BitVec 32 := Scalar.addi v567 c0_i32_693
  let v587 : Index := Scalar.indexCast v586
  let c32 : Index := 32#32
  ![v587.toNat, 32]
def k1_off144 (k1_t19 : Fin k1_t19_loop.trips) (c0_i32_694 : BitVec 32) : Fin 2 → Nat :=
  let c0_i32_307 : BitVec 32 := 0#32
  let c1_i32_309 : BitVec 32 := 1#32
  let arg17 : BitVec 32 := Scf.iv c0_i32_307 c1_i32_309 k1_t19
  let c8_i32_686 : BitVec 32 := 8#32
  let v567 : BitVec 32 := Scalar.muli arg17 c8_i32_686
  let v590 : BitVec 32 := Scalar.addi v567 c0_i32_694
  let v591 : Index := Scalar.indexCast v590
  let c32_695 : Index := 32#32
  ![v591.toNat, 32]
def k1_off145 (k1_t19 : Fin k1_t19_loop.trips) (c0_i32_696 : BitVec 32) : Fin 2 → Nat :=
  let c0_i32_307 : BitVec 32 := 0#32
  let c1_i32_309 : BitVec 32 := 1#32
  let arg17 : BitVec 32 := Scf.iv c0_i32_307 c1_i32_309 k1_t19
  let c8_i32_686 : BitVec 32 := 8#32
  let v567 : BitVec 32 := Scalar.muli arg17 c8_i32_686
  let v595 : BitVec 32 := Scalar.addi v567 c0_i32_696
  let v596 : Index := Scalar.indexCast v595
  let c48 : Index := 48#32
  ![v596.toNat, 48]
def k1_off146 (k1_t19 : Fin k1_t19_loop.trips) (c0_i32_697 : BitVec 32) : Fin 2 → Nat :=
  let c0_i32_307 : BitVec 32 := 0#32
  let c1_i32_309 : BitVec 32 := 1#32
  let arg17 : BitVec 32 := Scf.iv c0_i32_307 c1_i32_309 k1_t19
  let c8_i32_686 : BitVec 32 := 8#32
  let v567 : BitVec 32 := Scalar.muli arg17 c8_i32_686
  let v599 : BitVec 32 := Scalar.addi v567 c0_i32_697
  let v600 : Index := Scalar.indexCast v599
  let c48_698 : Index := 48#32
  ![v600.toNat, 48]
@[reducible] def k1_t20_loop : Scf.Loop 32 :=
  let c0_i32_324 : BitVec 32 := 0#32
  let c16_i32_325 : BitVec 32 := 16#32
  let v269 : BitVec 32 := Scalar.addi c0_i32_324 c16_i32_325
  let c1_i32_326 : BitVec 32 := 1#32
  ⟨c0_i32_324, v269, c1_i32_326⟩
def k1_off147 (k1_t20 : Fin k1_t20_loop.trips) (c0_i32_687 : BitVec 32) : Fin 2 → Nat :=
  let c0_i32_324 : BitVec 32 := 0#32
  let c1_i32_326 : BitVec 32 := 1#32
  let arg17 : BitVec 32 := Scf.iv c0_i32_324 c1_i32_326 k1_t20
  let c8_i32_686 : BitVec 32 := 8#32
  let v567 : BitVec 32 := Scalar.muli arg17 c8_i32_686
  let v568 : BitVec 32 := Scalar.addi v567 c0_i32_687
  let v569 : Index := Scalar.indexCast v568
  let c0 : Index := 0#32
  ![v569.toNat, 0]
def k1_off148 (k1_t20 : Fin k1_t20_loop.trips) (c0_i32_688 : BitVec 32) : Fin 2 → Nat :=
  let c0_i32_324 : BitVec 32 := 0#32
  let c1_i32_326 : BitVec 32 := 1#32
  let arg17 : BitVec 32 := Scf.iv c0_i32_324 c1_i32_326 k1_t20
  let c8_i32_686 : BitVec 32 := 8#32
  let v567 : BitVec 32 := Scalar.muli arg17 c8_i32_686
  let v572 : BitVec 32 := Scalar.addi v567 c0_i32_688
  let v573 : Index := Scalar.indexCast v572
  let c0_689 : Index := 0#32
  ![v573.toNat, 0]
def k1_off149 (k1_t20 : Fin k1_t20_loop.trips) (c0_i32_690 : BitVec 32) : Fin 2 → Nat :=
  let c0_i32_324 : BitVec 32 := 0#32
  let c1_i32_326 : BitVec 32 := 1#32
  let arg17 : BitVec 32 := Scf.iv c0_i32_324 c1_i32_326 k1_t20
  let c8_i32_686 : BitVec 32 := 8#32
  let v567 : BitVec 32 := Scalar.muli arg17 c8_i32_686
  let v577 : BitVec 32 := Scalar.addi v567 c0_i32_690
  let v578 : Index := Scalar.indexCast v577
  let c16 : Index := 16#32
  ![v578.toNat, 16]
def k1_off150 (k1_t20 : Fin k1_t20_loop.trips) (c0_i32_691 : BitVec 32) : Fin 2 → Nat :=
  let c0_i32_324 : BitVec 32 := 0#32
  let c1_i32_326 : BitVec 32 := 1#32
  let arg17 : BitVec 32 := Scf.iv c0_i32_324 c1_i32_326 k1_t20
  let c8_i32_686 : BitVec 32 := 8#32
  let v567 : BitVec 32 := Scalar.muli arg17 c8_i32_686
  let v581 : BitVec 32 := Scalar.addi v567 c0_i32_691
  let v582 : Index := Scalar.indexCast v581
  let c16_692 : Index := 16#32
  ![v582.toNat, 16]
def k1_off151 (k1_t20 : Fin k1_t20_loop.trips) (c0_i32_693 : BitVec 32) : Fin 2 → Nat :=
  let c0_i32_324 : BitVec 32 := 0#32
  let c1_i32_326 : BitVec 32 := 1#32
  let arg17 : BitVec 32 := Scf.iv c0_i32_324 c1_i32_326 k1_t20
  let c8_i32_686 : BitVec 32 := 8#32
  let v567 : BitVec 32 := Scalar.muli arg17 c8_i32_686
  let v586 : BitVec 32 := Scalar.addi v567 c0_i32_693
  let v587 : Index := Scalar.indexCast v586
  let c32 : Index := 32#32
  ![v587.toNat, 32]
def k1_off152 (k1_t20 : Fin k1_t20_loop.trips) (c0_i32_694 : BitVec 32) : Fin 2 → Nat :=
  let c0_i32_324 : BitVec 32 := 0#32
  let c1_i32_326 : BitVec 32 := 1#32
  let arg17 : BitVec 32 := Scf.iv c0_i32_324 c1_i32_326 k1_t20
  let c8_i32_686 : BitVec 32 := 8#32
  let v567 : BitVec 32 := Scalar.muli arg17 c8_i32_686
  let v590 : BitVec 32 := Scalar.addi v567 c0_i32_694
  let v591 : Index := Scalar.indexCast v590
  let c32_695 : Index := 32#32
  ![v591.toNat, 32]
def k1_off153 (k1_t20 : Fin k1_t20_loop.trips) (c0_i32_696 : BitVec 32) : Fin 2 → Nat :=
  let c0_i32_324 : BitVec 32 := 0#32
  let c1_i32_326 : BitVec 32 := 1#32
  let arg17 : BitVec 32 := Scf.iv c0_i32_324 c1_i32_326 k1_t20
  let c8_i32_686 : BitVec 32 := 8#32
  let v567 : BitVec 32 := Scalar.muli arg17 c8_i32_686
  let v595 : BitVec 32 := Scalar.addi v567 c0_i32_696
  let v596 : Index := Scalar.indexCast v595
  let c48 : Index := 48#32
  ![v596.toNat, 48]
def k1_off154 (k1_t20 : Fin k1_t20_loop.trips) (c0_i32_697 : BitVec 32) : Fin 2 → Nat :=
  let c0_i32_324 : BitVec 32 := 0#32
  let c1_i32_326 : BitVec 32 := 1#32
  let arg17 : BitVec 32 := Scf.iv c0_i32_324 c1_i32_326 k1_t20
  let c8_i32_686 : BitVec 32 := 8#32
  let v567 : BitVec 32 := Scalar.muli arg17 c8_i32_686
  let v599 : BitVec 32 := Scalar.addi v567 c0_i32_697
  let v600 : Index := Scalar.indexCast v599
  let c48_698 : Index := 48#32
  ![v600.toNat, 48]
@[reducible] def k1_t21_loop : Scf.Loop 32 :=
  let c0_i32_341 : BitVec 32 := 0#32
  let c16_i32_342 : BitVec 32 := 16#32
  let v283 : BitVec 32 := Scalar.addi c0_i32_341 c16_i32_342
  let c1_i32_343 : BitVec 32 := 1#32
  ⟨c0_i32_341, v283, c1_i32_343⟩
def k1_off155 (k1_t21 : Fin k1_t21_loop.trips) (c0_i32_687 : BitVec 32) : Fin 2 → Nat :=
  let c0_i32_341 : BitVec 32 := 0#32
  let c1_i32_343 : BitVec 32 := 1#32
  let arg17 : BitVec 32 := Scf.iv c0_i32_341 c1_i32_343 k1_t21
  let c8_i32_686 : BitVec 32 := 8#32
  let v567 : BitVec 32 := Scalar.muli arg17 c8_i32_686
  let v568 : BitVec 32 := Scalar.addi v567 c0_i32_687
  let v569 : Index := Scalar.indexCast v568
  let c0 : Index := 0#32
  ![v569.toNat, 0]
def k1_off156 (k1_t21 : Fin k1_t21_loop.trips) (c0_i32_688 : BitVec 32) : Fin 2 → Nat :=
  let c0_i32_341 : BitVec 32 := 0#32
  let c1_i32_343 : BitVec 32 := 1#32
  let arg17 : BitVec 32 := Scf.iv c0_i32_341 c1_i32_343 k1_t21
  let c8_i32_686 : BitVec 32 := 8#32
  let v567 : BitVec 32 := Scalar.muli arg17 c8_i32_686
  let v572 : BitVec 32 := Scalar.addi v567 c0_i32_688
  let v573 : Index := Scalar.indexCast v572
  let c0_689 : Index := 0#32
  ![v573.toNat, 0]
def k1_off157 (k1_t21 : Fin k1_t21_loop.trips) (c0_i32_690 : BitVec 32) : Fin 2 → Nat :=
  let c0_i32_341 : BitVec 32 := 0#32
  let c1_i32_343 : BitVec 32 := 1#32
  let arg17 : BitVec 32 := Scf.iv c0_i32_341 c1_i32_343 k1_t21
  let c8_i32_686 : BitVec 32 := 8#32
  let v567 : BitVec 32 := Scalar.muli arg17 c8_i32_686
  let v577 : BitVec 32 := Scalar.addi v567 c0_i32_690
  let v578 : Index := Scalar.indexCast v577
  let c16 : Index := 16#32
  ![v578.toNat, 16]
def k1_off158 (k1_t21 : Fin k1_t21_loop.trips) (c0_i32_691 : BitVec 32) : Fin 2 → Nat :=
  let c0_i32_341 : BitVec 32 := 0#32
  let c1_i32_343 : BitVec 32 := 1#32
  let arg17 : BitVec 32 := Scf.iv c0_i32_341 c1_i32_343 k1_t21
  let c8_i32_686 : BitVec 32 := 8#32
  let v567 : BitVec 32 := Scalar.muli arg17 c8_i32_686
  let v581 : BitVec 32 := Scalar.addi v567 c0_i32_691
  let v582 : Index := Scalar.indexCast v581
  let c16_692 : Index := 16#32
  ![v582.toNat, 16]
def k1_off159 (k1_t21 : Fin k1_t21_loop.trips) (c0_i32_693 : BitVec 32) : Fin 2 → Nat :=
  let c0_i32_341 : BitVec 32 := 0#32
  let c1_i32_343 : BitVec 32 := 1#32
  let arg17 : BitVec 32 := Scf.iv c0_i32_341 c1_i32_343 k1_t21
  let c8_i32_686 : BitVec 32 := 8#32
  let v567 : BitVec 32 := Scalar.muli arg17 c8_i32_686
  let v586 : BitVec 32 := Scalar.addi v567 c0_i32_693
  let v587 : Index := Scalar.indexCast v586
  let c32 : Index := 32#32
  ![v587.toNat, 32]
def k1_off160 (k1_t21 : Fin k1_t21_loop.trips) (c0_i32_694 : BitVec 32) : Fin 2 → Nat :=
  let c0_i32_341 : BitVec 32 := 0#32
  let c1_i32_343 : BitVec 32 := 1#32
  let arg17 : BitVec 32 := Scf.iv c0_i32_341 c1_i32_343 k1_t21
  let c8_i32_686 : BitVec 32 := 8#32
  let v567 : BitVec 32 := Scalar.muli arg17 c8_i32_686
  let v590 : BitVec 32 := Scalar.addi v567 c0_i32_694
  let v591 : Index := Scalar.indexCast v590
  let c32_695 : Index := 32#32
  ![v591.toNat, 32]
def k1_off161 (k1_t21 : Fin k1_t21_loop.trips) (c0_i32_696 : BitVec 32) : Fin 2 → Nat :=
  let c0_i32_341 : BitVec 32 := 0#32
  let c1_i32_343 : BitVec 32 := 1#32
  let arg17 : BitVec 32 := Scf.iv c0_i32_341 c1_i32_343 k1_t21
  let c8_i32_686 : BitVec 32 := 8#32
  let v567 : BitVec 32 := Scalar.muli arg17 c8_i32_686
  let v595 : BitVec 32 := Scalar.addi v567 c0_i32_696
  let v596 : Index := Scalar.indexCast v595
  let c48 : Index := 48#32
  ![v596.toNat, 48]
def k1_off162 (k1_t21 : Fin k1_t21_loop.trips) (c0_i32_697 : BitVec 32) : Fin 2 → Nat :=
  let c0_i32_341 : BitVec 32 := 0#32
  let c1_i32_343 : BitVec 32 := 1#32
  let arg17 : BitVec 32 := Scf.iv c0_i32_341 c1_i32_343 k1_t21
  let c8_i32_686 : BitVec 32 := 8#32
  let v567 : BitVec 32 := Scalar.muli arg17 c8_i32_686
  let v599 : BitVec 32 := Scalar.addi v567 c0_i32_697
  let v600 : Index := Scalar.indexCast v599
  let c48_698 : Index := 48#32
  ![v600.toNat, 48]
@[reducible] def k1_t22_loop : Scf.Loop 32 :=
  let c0_i32_358 : BitVec 32 := 0#32
  let c16_i32_359 : BitVec 32 := 16#32
  let v297 : BitVec 32 := Scalar.addi c0_i32_358 c16_i32_359
  let c1_i32_360 : BitVec 32 := 1#32
  ⟨c0_i32_358, v297, c1_i32_360⟩
def k1_off163 (k1_t22 : Fin k1_t22_loop.trips) (c0_i32_687 : BitVec 32) : Fin 2 → Nat :=
  let c0_i32_358 : BitVec 32 := 0#32
  let c1_i32_360 : BitVec 32 := 1#32
  let arg17 : BitVec 32 := Scf.iv c0_i32_358 c1_i32_360 k1_t22
  let c8_i32_686 : BitVec 32 := 8#32
  let v567 : BitVec 32 := Scalar.muli arg17 c8_i32_686
  let v568 : BitVec 32 := Scalar.addi v567 c0_i32_687
  let v569 : Index := Scalar.indexCast v568
  let c0 : Index := 0#32
  ![v569.toNat, 0]
def k1_off164 (k1_t22 : Fin k1_t22_loop.trips) (c0_i32_688 : BitVec 32) : Fin 2 → Nat :=
  let c0_i32_358 : BitVec 32 := 0#32
  let c1_i32_360 : BitVec 32 := 1#32
  let arg17 : BitVec 32 := Scf.iv c0_i32_358 c1_i32_360 k1_t22
  let c8_i32_686 : BitVec 32 := 8#32
  let v567 : BitVec 32 := Scalar.muli arg17 c8_i32_686
  let v572 : BitVec 32 := Scalar.addi v567 c0_i32_688
  let v573 : Index := Scalar.indexCast v572
  let c0_689 : Index := 0#32
  ![v573.toNat, 0]
def k1_off165 (k1_t22 : Fin k1_t22_loop.trips) (c0_i32_690 : BitVec 32) : Fin 2 → Nat :=
  let c0_i32_358 : BitVec 32 := 0#32
  let c1_i32_360 : BitVec 32 := 1#32
  let arg17 : BitVec 32 := Scf.iv c0_i32_358 c1_i32_360 k1_t22
  let c8_i32_686 : BitVec 32 := 8#32
  let v567 : BitVec 32 := Scalar.muli arg17 c8_i32_686
  let v577 : BitVec 32 := Scalar.addi v567 c0_i32_690
  let v578 : Index := Scalar.indexCast v577
  let c16 : Index := 16#32
  ![v578.toNat, 16]
def k1_off166 (k1_t22 : Fin k1_t22_loop.trips) (c0_i32_691 : BitVec 32) : Fin 2 → Nat :=
  let c0_i32_358 : BitVec 32 := 0#32
  let c1_i32_360 : BitVec 32 := 1#32
  let arg17 : BitVec 32 := Scf.iv c0_i32_358 c1_i32_360 k1_t22
  let c8_i32_686 : BitVec 32 := 8#32
  let v567 : BitVec 32 := Scalar.muli arg17 c8_i32_686
  let v581 : BitVec 32 := Scalar.addi v567 c0_i32_691
  let v582 : Index := Scalar.indexCast v581
  let c16_692 : Index := 16#32
  ![v582.toNat, 16]
def k1_off167 (k1_t22 : Fin k1_t22_loop.trips) (c0_i32_693 : BitVec 32) : Fin 2 → Nat :=
  let c0_i32_358 : BitVec 32 := 0#32
  let c1_i32_360 : BitVec 32 := 1#32
  let arg17 : BitVec 32 := Scf.iv c0_i32_358 c1_i32_360 k1_t22
  let c8_i32_686 : BitVec 32 := 8#32
  let v567 : BitVec 32 := Scalar.muli arg17 c8_i32_686
  let v586 : BitVec 32 := Scalar.addi v567 c0_i32_693
  let v587 : Index := Scalar.indexCast v586
  let c32 : Index := 32#32
  ![v587.toNat, 32]
def k1_off168 (k1_t22 : Fin k1_t22_loop.trips) (c0_i32_694 : BitVec 32) : Fin 2 → Nat :=
  let c0_i32_358 : BitVec 32 := 0#32
  let c1_i32_360 : BitVec 32 := 1#32
  let arg17 : BitVec 32 := Scf.iv c0_i32_358 c1_i32_360 k1_t22
  let c8_i32_686 : BitVec 32 := 8#32
  let v567 : BitVec 32 := Scalar.muli arg17 c8_i32_686
  let v590 : BitVec 32 := Scalar.addi v567 c0_i32_694
  let v591 : Index := Scalar.indexCast v590
  let c32_695 : Index := 32#32
  ![v591.toNat, 32]
def k1_off169 (k1_t22 : Fin k1_t22_loop.trips) (c0_i32_696 : BitVec 32) : Fin 2 → Nat :=
  let c0_i32_358 : BitVec 32 := 0#32
  let c1_i32_360 : BitVec 32 := 1#32
  let arg17 : BitVec 32 := Scf.iv c0_i32_358 c1_i32_360 k1_t22
  let c8_i32_686 : BitVec 32 := 8#32
  let v567 : BitVec 32 := Scalar.muli arg17 c8_i32_686
  let v595 : BitVec 32 := Scalar.addi v567 c0_i32_696
  let v596 : Index := Scalar.indexCast v595
  let c48 : Index := 48#32
  ![v596.toNat, 48]
def k1_off170 (k1_t22 : Fin k1_t22_loop.trips) (c0_i32_697 : BitVec 32) : Fin 2 → Nat :=
  let c0_i32_358 : BitVec 32 := 0#32
  let c1_i32_360 : BitVec 32 := 1#32
  let arg17 : BitVec 32 := Scf.iv c0_i32_358 c1_i32_360 k1_t22
  let c8_i32_686 : BitVec 32 := 8#32
  let v567 : BitVec 32 := Scalar.muli arg17 c8_i32_686
  let v599 : BitVec 32 := Scalar.addi v567 c0_i32_697
  let v600 : Index := Scalar.indexCast v599
  let c48_698 : Index := 48#32
  ![v600.toNat, 48]
@[reducible] def k1_t23_loop : Scf.Loop 32 :=
  let c0_i32_375 : BitVec 32 := 0#32
  let c16_i32_376 : BitVec 32 := 16#32
  let v311 : BitVec 32 := Scalar.addi c0_i32_375 c16_i32_376
  let c1_i32_377 : BitVec 32 := 1#32
  ⟨c0_i32_375, v311, c1_i32_377⟩
def k1_off171 (k1_t23 : Fin k1_t23_loop.trips) (c0_i32_687 : BitVec 32) : Fin 2 → Nat :=
  let c0_i32_375 : BitVec 32 := 0#32
  let c1_i32_377 : BitVec 32 := 1#32
  let arg17 : BitVec 32 := Scf.iv c0_i32_375 c1_i32_377 k1_t23
  let c8_i32_686 : BitVec 32 := 8#32
  let v567 : BitVec 32 := Scalar.muli arg17 c8_i32_686
  let v568 : BitVec 32 := Scalar.addi v567 c0_i32_687
  let v569 : Index := Scalar.indexCast v568
  let c0 : Index := 0#32
  ![v569.toNat, 0]
def k1_off172 (k1_t23 : Fin k1_t23_loop.trips) (c0_i32_688 : BitVec 32) : Fin 2 → Nat :=
  let c0_i32_375 : BitVec 32 := 0#32
  let c1_i32_377 : BitVec 32 := 1#32
  let arg17 : BitVec 32 := Scf.iv c0_i32_375 c1_i32_377 k1_t23
  let c8_i32_686 : BitVec 32 := 8#32
  let v567 : BitVec 32 := Scalar.muli arg17 c8_i32_686
  let v572 : BitVec 32 := Scalar.addi v567 c0_i32_688
  let v573 : Index := Scalar.indexCast v572
  let c0_689 : Index := 0#32
  ![v573.toNat, 0]
def k1_off173 (k1_t23 : Fin k1_t23_loop.trips) (c0_i32_690 : BitVec 32) : Fin 2 → Nat :=
  let c0_i32_375 : BitVec 32 := 0#32
  let c1_i32_377 : BitVec 32 := 1#32
  let arg17 : BitVec 32 := Scf.iv c0_i32_375 c1_i32_377 k1_t23
  let c8_i32_686 : BitVec 32 := 8#32
  let v567 : BitVec 32 := Scalar.muli arg17 c8_i32_686
  let v577 : BitVec 32 := Scalar.addi v567 c0_i32_690
  let v578 : Index := Scalar.indexCast v577
  let c16 : Index := 16#32
  ![v578.toNat, 16]
def k1_off174 (k1_t23 : Fin k1_t23_loop.trips) (c0_i32_691 : BitVec 32) : Fin 2 → Nat :=
  let c0_i32_375 : BitVec 32 := 0#32
  let c1_i32_377 : BitVec 32 := 1#32
  let arg17 : BitVec 32 := Scf.iv c0_i32_375 c1_i32_377 k1_t23
  let c8_i32_686 : BitVec 32 := 8#32
  let v567 : BitVec 32 := Scalar.muli arg17 c8_i32_686
  let v581 : BitVec 32 := Scalar.addi v567 c0_i32_691
  let v582 : Index := Scalar.indexCast v581
  let c16_692 : Index := 16#32
  ![v582.toNat, 16]
def k1_off175 (k1_t23 : Fin k1_t23_loop.trips) (c0_i32_693 : BitVec 32) : Fin 2 → Nat :=
  let c0_i32_375 : BitVec 32 := 0#32
  let c1_i32_377 : BitVec 32 := 1#32
  let arg17 : BitVec 32 := Scf.iv c0_i32_375 c1_i32_377 k1_t23
  let c8_i32_686 : BitVec 32 := 8#32
  let v567 : BitVec 32 := Scalar.muli arg17 c8_i32_686
  let v586 : BitVec 32 := Scalar.addi v567 c0_i32_693
  let v587 : Index := Scalar.indexCast v586
  let c32 : Index := 32#32
  ![v587.toNat, 32]
def k1_off176 (k1_t23 : Fin k1_t23_loop.trips) (c0_i32_694 : BitVec 32) : Fin 2 → Nat :=
  let c0_i32_375 : BitVec 32 := 0#32
  let c1_i32_377 : BitVec 32 := 1#32
  let arg17 : BitVec 32 := Scf.iv c0_i32_375 c1_i32_377 k1_t23
  let c8_i32_686 : BitVec 32 := 8#32
  let v567 : BitVec 32 := Scalar.muli arg17 c8_i32_686
  let v590 : BitVec 32 := Scalar.addi v567 c0_i32_694
  let v591 : Index := Scalar.indexCast v590
  let c32_695 : Index := 32#32
  ![v591.toNat, 32]
def k1_off177 (k1_t23 : Fin k1_t23_loop.trips) (c0_i32_696 : BitVec 32) : Fin 2 → Nat :=
  let c0_i32_375 : BitVec 32 := 0#32
  let c1_i32_377 : BitVec 32 := 1#32
  let arg17 : BitVec 32 := Scf.iv c0_i32_375 c1_i32_377 k1_t23
  let c8_i32_686 : BitVec 32 := 8#32
  let v567 : BitVec 32 := Scalar.muli arg17 c8_i32_686
  let v595 : BitVec 32 := Scalar.addi v567 c0_i32_696
  let v596 : Index := Scalar.indexCast v595
  let c48 : Index := 48#32
  ![v596.toNat, 48]
def k1_off178 (k1_t23 : Fin k1_t23_loop.trips) (c0_i32_697 : BitVec 32) : Fin 2 → Nat :=
  let c0_i32_375 : BitVec 32 := 0#32
  let c1_i32_377 : BitVec 32 := 1#32
  let arg17 : BitVec 32 := Scf.iv c0_i32_375 c1_i32_377 k1_t23
  let c8_i32_686 : BitVec 32 := 8#32
  let v567 : BitVec 32 := Scalar.muli arg17 c8_i32_686
  let v599 : BitVec 32 := Scalar.addi v567 c0_i32_697
  let v600 : Index := Scalar.indexCast v599
  let c48_698 : Index := 48#32
  ![v600.toNat, 48]
@[reducible] def k1_t24_loop : Scf.Loop 32 :=
  let c0_i32_392 : BitVec 32 := 0#32
  let c16_i32_393 : BitVec 32 := 16#32
  let v325 : BitVec 32 := Scalar.addi c0_i32_392 c16_i32_393
  let c1_i32_394 : BitVec 32 := 1#32
  ⟨c0_i32_392, v325, c1_i32_394⟩
def k1_off179 (k1_t24 : Fin k1_t24_loop.trips) (c0_i32_687 : BitVec 32) : Fin 2 → Nat :=
  let c0_i32_392 : BitVec 32 := 0#32
  let c1_i32_394 : BitVec 32 := 1#32
  let arg17 : BitVec 32 := Scf.iv c0_i32_392 c1_i32_394 k1_t24
  let c8_i32_686 : BitVec 32 := 8#32
  let v567 : BitVec 32 := Scalar.muli arg17 c8_i32_686
  let v568 : BitVec 32 := Scalar.addi v567 c0_i32_687
  let v569 : Index := Scalar.indexCast v568
  let c0 : Index := 0#32
  ![v569.toNat, 0]
def k1_off180 (k1_t24 : Fin k1_t24_loop.trips) (c0_i32_688 : BitVec 32) : Fin 2 → Nat :=
  let c0_i32_392 : BitVec 32 := 0#32
  let c1_i32_394 : BitVec 32 := 1#32
  let arg17 : BitVec 32 := Scf.iv c0_i32_392 c1_i32_394 k1_t24
  let c8_i32_686 : BitVec 32 := 8#32
  let v567 : BitVec 32 := Scalar.muli arg17 c8_i32_686
  let v572 : BitVec 32 := Scalar.addi v567 c0_i32_688
  let v573 : Index := Scalar.indexCast v572
  let c0_689 : Index := 0#32
  ![v573.toNat, 0]
def k1_off181 (k1_t24 : Fin k1_t24_loop.trips) (c0_i32_690 : BitVec 32) : Fin 2 → Nat :=
  let c0_i32_392 : BitVec 32 := 0#32
  let c1_i32_394 : BitVec 32 := 1#32
  let arg17 : BitVec 32 := Scf.iv c0_i32_392 c1_i32_394 k1_t24
  let c8_i32_686 : BitVec 32 := 8#32
  let v567 : BitVec 32 := Scalar.muli arg17 c8_i32_686
  let v577 : BitVec 32 := Scalar.addi v567 c0_i32_690
  let v578 : Index := Scalar.indexCast v577
  let c16 : Index := 16#32
  ![v578.toNat, 16]
def k1_off182 (k1_t24 : Fin k1_t24_loop.trips) (c0_i32_691 : BitVec 32) : Fin 2 → Nat :=
  let c0_i32_392 : BitVec 32 := 0#32
  let c1_i32_394 : BitVec 32 := 1#32
  let arg17 : BitVec 32 := Scf.iv c0_i32_392 c1_i32_394 k1_t24
  let c8_i32_686 : BitVec 32 := 8#32
  let v567 : BitVec 32 := Scalar.muli arg17 c8_i32_686
  let v581 : BitVec 32 := Scalar.addi v567 c0_i32_691
  let v582 : Index := Scalar.indexCast v581
  let c16_692 : Index := 16#32
  ![v582.toNat, 16]
def k1_off183 (k1_t24 : Fin k1_t24_loop.trips) (c0_i32_693 : BitVec 32) : Fin 2 → Nat :=
  let c0_i32_392 : BitVec 32 := 0#32
  let c1_i32_394 : BitVec 32 := 1#32
  let arg17 : BitVec 32 := Scf.iv c0_i32_392 c1_i32_394 k1_t24
  let c8_i32_686 : BitVec 32 := 8#32
  let v567 : BitVec 32 := Scalar.muli arg17 c8_i32_686
  let v586 : BitVec 32 := Scalar.addi v567 c0_i32_693
  let v587 : Index := Scalar.indexCast v586
  let c32 : Index := 32#32
  ![v587.toNat, 32]
def k1_off184 (k1_t24 : Fin k1_t24_loop.trips) (c0_i32_694 : BitVec 32) : Fin 2 → Nat :=
  let c0_i32_392 : BitVec 32 := 0#32
  let c1_i32_394 : BitVec 32 := 1#32
  let arg17 : BitVec 32 := Scf.iv c0_i32_392 c1_i32_394 k1_t24
  let c8_i32_686 : BitVec 32 := 8#32
  let v567 : BitVec 32 := Scalar.muli arg17 c8_i32_686
  let v590 : BitVec 32 := Scalar.addi v567 c0_i32_694
  let v591 : Index := Scalar.indexCast v590
  let c32_695 : Index := 32#32
  ![v591.toNat, 32]
def k1_off185 (k1_t24 : Fin k1_t24_loop.trips) (c0_i32_696 : BitVec 32) : Fin 2 → Nat :=
  let c0_i32_392 : BitVec 32 := 0#32
  let c1_i32_394 : BitVec 32 := 1#32
  let arg17 : BitVec 32 := Scf.iv c0_i32_392 c1_i32_394 k1_t24
  let c8_i32_686 : BitVec 32 := 8#32
  let v567 : BitVec 32 := Scalar.muli arg17 c8_i32_686
  let v595 : BitVec 32 := Scalar.addi v567 c0_i32_696
  let v596 : Index := Scalar.indexCast v595
  let c48 : Index := 48#32
  ![v596.toNat, 48]
def k1_off186 (k1_t24 : Fin k1_t24_loop.trips) (c0_i32_697 : BitVec 32) : Fin 2 → Nat :=
  let c0_i32_392 : BitVec 32 := 0#32
  let c1_i32_394 : BitVec 32 := 1#32
  let arg17 : BitVec 32 := Scf.iv c0_i32_392 c1_i32_394 k1_t24
  let c8_i32_686 : BitVec 32 := 8#32
  let v567 : BitVec 32 := Scalar.muli arg17 c8_i32_686
  let v599 : BitVec 32 := Scalar.addi v567 c0_i32_697
  let v600 : Index := Scalar.indexCast v599
  let c48_698 : Index := 48#32
  ![v600.toNat, 48]
@[reducible] def k1_t25_loop : Scf.Loop 32 :=
  let c0_i32_409 : BitVec 32 := 0#32
  let c16_i32_410 : BitVec 32 := 16#32
  let v339 : BitVec 32 := Scalar.addi c0_i32_409 c16_i32_410
  let c1_i32_411 : BitVec 32 := 1#32
  ⟨c0_i32_409, v339, c1_i32_411⟩
def k1_off187 (k1_t25 : Fin k1_t25_loop.trips) (c0_i32_687 : BitVec 32) : Fin 2 → Nat :=
  let c0_i32_409 : BitVec 32 := 0#32
  let c1_i32_411 : BitVec 32 := 1#32
  let arg17 : BitVec 32 := Scf.iv c0_i32_409 c1_i32_411 k1_t25
  let c8_i32_686 : BitVec 32 := 8#32
  let v567 : BitVec 32 := Scalar.muli arg17 c8_i32_686
  let v568 : BitVec 32 := Scalar.addi v567 c0_i32_687
  let v569 : Index := Scalar.indexCast v568
  let c0 : Index := 0#32
  ![v569.toNat, 0]
def k1_off188 (k1_t25 : Fin k1_t25_loop.trips) (c0_i32_688 : BitVec 32) : Fin 2 → Nat :=
  let c0_i32_409 : BitVec 32 := 0#32
  let c1_i32_411 : BitVec 32 := 1#32
  let arg17 : BitVec 32 := Scf.iv c0_i32_409 c1_i32_411 k1_t25
  let c8_i32_686 : BitVec 32 := 8#32
  let v567 : BitVec 32 := Scalar.muli arg17 c8_i32_686
  let v572 : BitVec 32 := Scalar.addi v567 c0_i32_688
  let v573 : Index := Scalar.indexCast v572
  let c0_689 : Index := 0#32
  ![v573.toNat, 0]
def k1_off189 (k1_t25 : Fin k1_t25_loop.trips) (c0_i32_690 : BitVec 32) : Fin 2 → Nat :=
  let c0_i32_409 : BitVec 32 := 0#32
  let c1_i32_411 : BitVec 32 := 1#32
  let arg17 : BitVec 32 := Scf.iv c0_i32_409 c1_i32_411 k1_t25
  let c8_i32_686 : BitVec 32 := 8#32
  let v567 : BitVec 32 := Scalar.muli arg17 c8_i32_686
  let v577 : BitVec 32 := Scalar.addi v567 c0_i32_690
  let v578 : Index := Scalar.indexCast v577
  let c16 : Index := 16#32
  ![v578.toNat, 16]
def k1_off190 (k1_t25 : Fin k1_t25_loop.trips) (c0_i32_691 : BitVec 32) : Fin 2 → Nat :=
  let c0_i32_409 : BitVec 32 := 0#32
  let c1_i32_411 : BitVec 32 := 1#32
  let arg17 : BitVec 32 := Scf.iv c0_i32_409 c1_i32_411 k1_t25
  let c8_i32_686 : BitVec 32 := 8#32
  let v567 : BitVec 32 := Scalar.muli arg17 c8_i32_686
  let v581 : BitVec 32 := Scalar.addi v567 c0_i32_691
  let v582 : Index := Scalar.indexCast v581
  let c16_692 : Index := 16#32
  ![v582.toNat, 16]
def k1_off191 (k1_t25 : Fin k1_t25_loop.trips) (c0_i32_693 : BitVec 32) : Fin 2 → Nat :=
  let c0_i32_409 : BitVec 32 := 0#32
  let c1_i32_411 : BitVec 32 := 1#32
  let arg17 : BitVec 32 := Scf.iv c0_i32_409 c1_i32_411 k1_t25
  let c8_i32_686 : BitVec 32 := 8#32
  let v567 : BitVec 32 := Scalar.muli arg17 c8_i32_686
  let v586 : BitVec 32 := Scalar.addi v567 c0_i32_693
  let v587 : Index := Scalar.indexCast v586
  let c32 : Index := 32#32
  ![v587.toNat, 32]
def k1_off192 (k1_t25 : Fin k1_t25_loop.trips) (c0_i32_694 : BitVec 32) : Fin 2 → Nat :=
  let c0_i32_409 : BitVec 32 := 0#32
  let c1_i32_411 : BitVec 32 := 1#32
  let arg17 : BitVec 32 := Scf.iv c0_i32_409 c1_i32_411 k1_t25
  let c8_i32_686 : BitVec 32 := 8#32
  let v567 : BitVec 32 := Scalar.muli arg17 c8_i32_686
  let v590 : BitVec 32 := Scalar.addi v567 c0_i32_694
  let v591 : Index := Scalar.indexCast v590
  let c32_695 : Index := 32#32
  ![v591.toNat, 32]
def k1_off193 (k1_t25 : Fin k1_t25_loop.trips) (c0_i32_696 : BitVec 32) : Fin 2 → Nat :=
  let c0_i32_409 : BitVec 32 := 0#32
  let c1_i32_411 : BitVec 32 := 1#32
  let arg17 : BitVec 32 := Scf.iv c0_i32_409 c1_i32_411 k1_t25
  let c8_i32_686 : BitVec 32 := 8#32
  let v567 : BitVec 32 := Scalar.muli arg17 c8_i32_686
  let v595 : BitVec 32 := Scalar.addi v567 c0_i32_696
  let v596 : Index := Scalar.indexCast v595
  let c48 : Index := 48#32
  ![v596.toNat, 48]
def k1_off194 (k1_t25 : Fin k1_t25_loop.trips) (c0_i32_697 : BitVec 32) : Fin 2 → Nat :=
  let c0_i32_409 : BitVec 32 := 0#32
  let c1_i32_411 : BitVec 32 := 1#32
  let arg17 : BitVec 32 := Scf.iv c0_i32_409 c1_i32_411 k1_t25
  let c8_i32_686 : BitVec 32 := 8#32
  let v567 : BitVec 32 := Scalar.muli arg17 c8_i32_686
  let v599 : BitVec 32 := Scalar.addi v567 c0_i32_697
  let v600 : Index := Scalar.indexCast v599
  let c48_698 : Index := 48#32
  ![v600.toNat, 48]
@[reducible] def k1_t26_loop : Scf.Loop 32 :=
  let c0_i32_426 : BitVec 32 := 0#32
  let c16_i32_427 : BitVec 32 := 16#32
  let v353 : BitVec 32 := Scalar.addi c0_i32_426 c16_i32_427
  let c1_i32_428 : BitVec 32 := 1#32
  ⟨c0_i32_426, v353, c1_i32_428⟩
def k1_off195 (k1_t26 : Fin k1_t26_loop.trips) (c0_i32_687 : BitVec 32) : Fin 2 → Nat :=
  let c0_i32_426 : BitVec 32 := 0#32
  let c1_i32_428 : BitVec 32 := 1#32
  let arg17 : BitVec 32 := Scf.iv c0_i32_426 c1_i32_428 k1_t26
  let c8_i32_686 : BitVec 32 := 8#32
  let v567 : BitVec 32 := Scalar.muli arg17 c8_i32_686
  let v568 : BitVec 32 := Scalar.addi v567 c0_i32_687
  let v569 : Index := Scalar.indexCast v568
  let c0 : Index := 0#32
  ![v569.toNat, 0]
def k1_off196 (k1_t26 : Fin k1_t26_loop.trips) (c0_i32_688 : BitVec 32) : Fin 2 → Nat :=
  let c0_i32_426 : BitVec 32 := 0#32
  let c1_i32_428 : BitVec 32 := 1#32
  let arg17 : BitVec 32 := Scf.iv c0_i32_426 c1_i32_428 k1_t26
  let c8_i32_686 : BitVec 32 := 8#32
  let v567 : BitVec 32 := Scalar.muli arg17 c8_i32_686
  let v572 : BitVec 32 := Scalar.addi v567 c0_i32_688
  let v573 : Index := Scalar.indexCast v572
  let c0_689 : Index := 0#32
  ![v573.toNat, 0]
def k1_off197 (k1_t26 : Fin k1_t26_loop.trips) (c0_i32_690 : BitVec 32) : Fin 2 → Nat :=
  let c0_i32_426 : BitVec 32 := 0#32
  let c1_i32_428 : BitVec 32 := 1#32
  let arg17 : BitVec 32 := Scf.iv c0_i32_426 c1_i32_428 k1_t26
  let c8_i32_686 : BitVec 32 := 8#32
  let v567 : BitVec 32 := Scalar.muli arg17 c8_i32_686
  let v577 : BitVec 32 := Scalar.addi v567 c0_i32_690
  let v578 : Index := Scalar.indexCast v577
  let c16 : Index := 16#32
  ![v578.toNat, 16]
def k1_off198 (k1_t26 : Fin k1_t26_loop.trips) (c0_i32_691 : BitVec 32) : Fin 2 → Nat :=
  let c0_i32_426 : BitVec 32 := 0#32
  let c1_i32_428 : BitVec 32 := 1#32
  let arg17 : BitVec 32 := Scf.iv c0_i32_426 c1_i32_428 k1_t26
  let c8_i32_686 : BitVec 32 := 8#32
  let v567 : BitVec 32 := Scalar.muli arg17 c8_i32_686
  let v581 : BitVec 32 := Scalar.addi v567 c0_i32_691
  let v582 : Index := Scalar.indexCast v581
  let c16_692 : Index := 16#32
  ![v582.toNat, 16]
def k1_off199 (k1_t26 : Fin k1_t26_loop.trips) (c0_i32_693 : BitVec 32) : Fin 2 → Nat :=
  let c0_i32_426 : BitVec 32 := 0#32
  let c1_i32_428 : BitVec 32 := 1#32
  let arg17 : BitVec 32 := Scf.iv c0_i32_426 c1_i32_428 k1_t26
  let c8_i32_686 : BitVec 32 := 8#32
  let v567 : BitVec 32 := Scalar.muli arg17 c8_i32_686
  let v586 : BitVec 32 := Scalar.addi v567 c0_i32_693
  let v587 : Index := Scalar.indexCast v586
  let c32 : Index := 32#32
  ![v587.toNat, 32]
def k1_off200 (k1_t26 : Fin k1_t26_loop.trips) (c0_i32_694 : BitVec 32) : Fin 2 → Nat :=
  let c0_i32_426 : BitVec 32 := 0#32
  let c1_i32_428 : BitVec 32 := 1#32
  let arg17 : BitVec 32 := Scf.iv c0_i32_426 c1_i32_428 k1_t26
  let c8_i32_686 : BitVec 32 := 8#32
  let v567 : BitVec 32 := Scalar.muli arg17 c8_i32_686
  let v590 : BitVec 32 := Scalar.addi v567 c0_i32_694
  let v591 : Index := Scalar.indexCast v590
  let c32_695 : Index := 32#32
  ![v591.toNat, 32]
def k1_off201 (k1_t26 : Fin k1_t26_loop.trips) (c0_i32_696 : BitVec 32) : Fin 2 → Nat :=
  let c0_i32_426 : BitVec 32 := 0#32
  let c1_i32_428 : BitVec 32 := 1#32
  let arg17 : BitVec 32 := Scf.iv c0_i32_426 c1_i32_428 k1_t26
  let c8_i32_686 : BitVec 32 := 8#32
  let v567 : BitVec 32 := Scalar.muli arg17 c8_i32_686
  let v595 : BitVec 32 := Scalar.addi v567 c0_i32_696
  let v596 : Index := Scalar.indexCast v595
  let c48 : Index := 48#32
  ![v596.toNat, 48]
def k1_off202 (k1_t26 : Fin k1_t26_loop.trips) (c0_i32_697 : BitVec 32) : Fin 2 → Nat :=
  let c0_i32_426 : BitVec 32 := 0#32
  let c1_i32_428 : BitVec 32 := 1#32
  let arg17 : BitVec 32 := Scf.iv c0_i32_426 c1_i32_428 k1_t26
  let c8_i32_686 : BitVec 32 := 8#32
  let v567 : BitVec 32 := Scalar.muli arg17 c8_i32_686
  let v599 : BitVec 32 := Scalar.addi v567 c0_i32_697
  let v600 : Index := Scalar.indexCast v599
  let c48_698 : Index := 48#32
  ![v600.toNat, 48]
@[reducible] def k1_t27_loop : Scf.Loop 32 :=
  let c0_i32_443 : BitVec 32 := 0#32
  let c16_i32_444 : BitVec 32 := 16#32
  let v367 : BitVec 32 := Scalar.addi c0_i32_443 c16_i32_444
  let c1_i32_445 : BitVec 32 := 1#32
  ⟨c0_i32_443, v367, c1_i32_445⟩
def k1_off203 (k1_t27 : Fin k1_t27_loop.trips) (c0_i32_687 : BitVec 32) : Fin 2 → Nat :=
  let c0_i32_443 : BitVec 32 := 0#32
  let c1_i32_445 : BitVec 32 := 1#32
  let arg17 : BitVec 32 := Scf.iv c0_i32_443 c1_i32_445 k1_t27
  let c8_i32_686 : BitVec 32 := 8#32
  let v567 : BitVec 32 := Scalar.muli arg17 c8_i32_686
  let v568 : BitVec 32 := Scalar.addi v567 c0_i32_687
  let v569 : Index := Scalar.indexCast v568
  let c0 : Index := 0#32
  ![v569.toNat, 0]
def k1_off204 (k1_t27 : Fin k1_t27_loop.trips) (c0_i32_688 : BitVec 32) : Fin 2 → Nat :=
  let c0_i32_443 : BitVec 32 := 0#32
  let c1_i32_445 : BitVec 32 := 1#32
  let arg17 : BitVec 32 := Scf.iv c0_i32_443 c1_i32_445 k1_t27
  let c8_i32_686 : BitVec 32 := 8#32
  let v567 : BitVec 32 := Scalar.muli arg17 c8_i32_686
  let v572 : BitVec 32 := Scalar.addi v567 c0_i32_688
  let v573 : Index := Scalar.indexCast v572
  let c0_689 : Index := 0#32
  ![v573.toNat, 0]
def k1_off205 (k1_t27 : Fin k1_t27_loop.trips) (c0_i32_690 : BitVec 32) : Fin 2 → Nat :=
  let c0_i32_443 : BitVec 32 := 0#32
  let c1_i32_445 : BitVec 32 := 1#32
  let arg17 : BitVec 32 := Scf.iv c0_i32_443 c1_i32_445 k1_t27
  let c8_i32_686 : BitVec 32 := 8#32
  let v567 : BitVec 32 := Scalar.muli arg17 c8_i32_686
  let v577 : BitVec 32 := Scalar.addi v567 c0_i32_690
  let v578 : Index := Scalar.indexCast v577
  let c16 : Index := 16#32
  ![v578.toNat, 16]
def k1_off206 (k1_t27 : Fin k1_t27_loop.trips) (c0_i32_691 : BitVec 32) : Fin 2 → Nat :=
  let c0_i32_443 : BitVec 32 := 0#32
  let c1_i32_445 : BitVec 32 := 1#32
  let arg17 : BitVec 32 := Scf.iv c0_i32_443 c1_i32_445 k1_t27
  let c8_i32_686 : BitVec 32 := 8#32
  let v567 : BitVec 32 := Scalar.muli arg17 c8_i32_686
  let v581 : BitVec 32 := Scalar.addi v567 c0_i32_691
  let v582 : Index := Scalar.indexCast v581
  let c16_692 : Index := 16#32
  ![v582.toNat, 16]
def k1_off207 (k1_t27 : Fin k1_t27_loop.trips) (c0_i32_693 : BitVec 32) : Fin 2 → Nat :=
  let c0_i32_443 : BitVec 32 := 0#32
  let c1_i32_445 : BitVec 32 := 1#32
  let arg17 : BitVec 32 := Scf.iv c0_i32_443 c1_i32_445 k1_t27
  let c8_i32_686 : BitVec 32 := 8#32
  let v567 : BitVec 32 := Scalar.muli arg17 c8_i32_686
  let v586 : BitVec 32 := Scalar.addi v567 c0_i32_693
  let v587 : Index := Scalar.indexCast v586
  let c32 : Index := 32#32
  ![v587.toNat, 32]
def k1_off208 (k1_t27 : Fin k1_t27_loop.trips) (c0_i32_694 : BitVec 32) : Fin 2 → Nat :=
  let c0_i32_443 : BitVec 32 := 0#32
  let c1_i32_445 : BitVec 32 := 1#32
  let arg17 : BitVec 32 := Scf.iv c0_i32_443 c1_i32_445 k1_t27
  let c8_i32_686 : BitVec 32 := 8#32
  let v567 : BitVec 32 := Scalar.muli arg17 c8_i32_686
  let v590 : BitVec 32 := Scalar.addi v567 c0_i32_694
  let v591 : Index := Scalar.indexCast v590
  let c32_695 : Index := 32#32
  ![v591.toNat, 32]
def k1_off209 (k1_t27 : Fin k1_t27_loop.trips) (c0_i32_696 : BitVec 32) : Fin 2 → Nat :=
  let c0_i32_443 : BitVec 32 := 0#32
  let c1_i32_445 : BitVec 32 := 1#32
  let arg17 : BitVec 32 := Scf.iv c0_i32_443 c1_i32_445 k1_t27
  let c8_i32_686 : BitVec 32 := 8#32
  let v567 : BitVec 32 := Scalar.muli arg17 c8_i32_686
  let v595 : BitVec 32 := Scalar.addi v567 c0_i32_696
  let v596 : Index := Scalar.indexCast v595
  let c48 : Index := 48#32
  ![v596.toNat, 48]
def k1_off210 (k1_t27 : Fin k1_t27_loop.trips) (c0_i32_697 : BitVec 32) : Fin 2 → Nat :=
  let c0_i32_443 : BitVec 32 := 0#32
  let c1_i32_445 : BitVec 32 := 1#32
  let arg17 : BitVec 32 := Scf.iv c0_i32_443 c1_i32_445 k1_t27
  let c8_i32_686 : BitVec 32 := 8#32
  let v567 : BitVec 32 := Scalar.muli arg17 c8_i32_686
  let v599 : BitVec 32 := Scalar.addi v567 c0_i32_697
  let v600 : Index := Scalar.indexCast v599
  let c48_698 : Index := 48#32
  ![v600.toNat, 48]
@[reducible] def k1_t28_loop : Scf.Loop 32 :=
  let c0_i32_460 : BitVec 32 := 0#32
  let c16_i32_461 : BitVec 32 := 16#32
  let v381 : BitVec 32 := Scalar.addi c0_i32_460 c16_i32_461
  let c1_i32_462 : BitVec 32 := 1#32
  ⟨c0_i32_460, v381, c1_i32_462⟩
def k1_off211 (k1_t28 : Fin k1_t28_loop.trips) (c0_i32_687 : BitVec 32) : Fin 2 → Nat :=
  let c0_i32_460 : BitVec 32 := 0#32
  let c1_i32_462 : BitVec 32 := 1#32
  let arg17 : BitVec 32 := Scf.iv c0_i32_460 c1_i32_462 k1_t28
  let c8_i32_686 : BitVec 32 := 8#32
  let v567 : BitVec 32 := Scalar.muli arg17 c8_i32_686
  let v568 : BitVec 32 := Scalar.addi v567 c0_i32_687
  let v569 : Index := Scalar.indexCast v568
  let c0 : Index := 0#32
  ![v569.toNat, 0]
def k1_off212 (k1_t28 : Fin k1_t28_loop.trips) (c0_i32_688 : BitVec 32) : Fin 2 → Nat :=
  let c0_i32_460 : BitVec 32 := 0#32
  let c1_i32_462 : BitVec 32 := 1#32
  let arg17 : BitVec 32 := Scf.iv c0_i32_460 c1_i32_462 k1_t28
  let c8_i32_686 : BitVec 32 := 8#32
  let v567 : BitVec 32 := Scalar.muli arg17 c8_i32_686
  let v572 : BitVec 32 := Scalar.addi v567 c0_i32_688
  let v573 : Index := Scalar.indexCast v572
  let c0_689 : Index := 0#32
  ![v573.toNat, 0]
def k1_off213 (k1_t28 : Fin k1_t28_loop.trips) (c0_i32_690 : BitVec 32) : Fin 2 → Nat :=
  let c0_i32_460 : BitVec 32 := 0#32
  let c1_i32_462 : BitVec 32 := 1#32
  let arg17 : BitVec 32 := Scf.iv c0_i32_460 c1_i32_462 k1_t28
  let c8_i32_686 : BitVec 32 := 8#32
  let v567 : BitVec 32 := Scalar.muli arg17 c8_i32_686
  let v577 : BitVec 32 := Scalar.addi v567 c0_i32_690
  let v578 : Index := Scalar.indexCast v577
  let c16 : Index := 16#32
  ![v578.toNat, 16]
def k1_off214 (k1_t28 : Fin k1_t28_loop.trips) (c0_i32_691 : BitVec 32) : Fin 2 → Nat :=
  let c0_i32_460 : BitVec 32 := 0#32
  let c1_i32_462 : BitVec 32 := 1#32
  let arg17 : BitVec 32 := Scf.iv c0_i32_460 c1_i32_462 k1_t28
  let c8_i32_686 : BitVec 32 := 8#32
  let v567 : BitVec 32 := Scalar.muli arg17 c8_i32_686
  let v581 : BitVec 32 := Scalar.addi v567 c0_i32_691
  let v582 : Index := Scalar.indexCast v581
  let c16_692 : Index := 16#32
  ![v582.toNat, 16]
def k1_off215 (k1_t28 : Fin k1_t28_loop.trips) (c0_i32_693 : BitVec 32) : Fin 2 → Nat :=
  let c0_i32_460 : BitVec 32 := 0#32
  let c1_i32_462 : BitVec 32 := 1#32
  let arg17 : BitVec 32 := Scf.iv c0_i32_460 c1_i32_462 k1_t28
  let c8_i32_686 : BitVec 32 := 8#32
  let v567 : BitVec 32 := Scalar.muli arg17 c8_i32_686
  let v586 : BitVec 32 := Scalar.addi v567 c0_i32_693
  let v587 : Index := Scalar.indexCast v586
  let c32 : Index := 32#32
  ![v587.toNat, 32]
def k1_off216 (k1_t28 : Fin k1_t28_loop.trips) (c0_i32_694 : BitVec 32) : Fin 2 → Nat :=
  let c0_i32_460 : BitVec 32 := 0#32
  let c1_i32_462 : BitVec 32 := 1#32
  let arg17 : BitVec 32 := Scf.iv c0_i32_460 c1_i32_462 k1_t28
  let c8_i32_686 : BitVec 32 := 8#32
  let v567 : BitVec 32 := Scalar.muli arg17 c8_i32_686
  let v590 : BitVec 32 := Scalar.addi v567 c0_i32_694
  let v591 : Index := Scalar.indexCast v590
  let c32_695 : Index := 32#32
  ![v591.toNat, 32]
def k1_off217 (k1_t28 : Fin k1_t28_loop.trips) (c0_i32_696 : BitVec 32) : Fin 2 → Nat :=
  let c0_i32_460 : BitVec 32 := 0#32
  let c1_i32_462 : BitVec 32 := 1#32
  let arg17 : BitVec 32 := Scf.iv c0_i32_460 c1_i32_462 k1_t28
  let c8_i32_686 : BitVec 32 := 8#32
  let v567 : BitVec 32 := Scalar.muli arg17 c8_i32_686
  let v595 : BitVec 32 := Scalar.addi v567 c0_i32_696
  let v596 : Index := Scalar.indexCast v595
  let c48 : Index := 48#32
  ![v596.toNat, 48]
def k1_off218 (k1_t28 : Fin k1_t28_loop.trips) (c0_i32_697 : BitVec 32) : Fin 2 → Nat :=
  let c0_i32_460 : BitVec 32 := 0#32
  let c1_i32_462 : BitVec 32 := 1#32
  let arg17 : BitVec 32 := Scf.iv c0_i32_460 c1_i32_462 k1_t28
  let c8_i32_686 : BitVec 32 := 8#32
  let v567 : BitVec 32 := Scalar.muli arg17 c8_i32_686
  let v599 : BitVec 32 := Scalar.addi v567 c0_i32_697
  let v600 : Index := Scalar.indexCast v599
  let c48_698 : Index := 48#32
  ![v600.toNat, 48]
@[reducible] def k1_t29_loop : Scf.Loop 32 :=
  let c0_i32_477 : BitVec 32 := 0#32
  let c16_i32_478 : BitVec 32 := 16#32
  let v395 : BitVec 32 := Scalar.addi c0_i32_477 c16_i32_478
  let c1_i32_479 : BitVec 32 := 1#32
  ⟨c0_i32_477, v395, c1_i32_479⟩
def k1_off219 (k1_t29 : Fin k1_t29_loop.trips) (c0_i32_687 : BitVec 32) : Fin 2 → Nat :=
  let c0_i32_477 : BitVec 32 := 0#32
  let c1_i32_479 : BitVec 32 := 1#32
  let arg17 : BitVec 32 := Scf.iv c0_i32_477 c1_i32_479 k1_t29
  let c8_i32_686 : BitVec 32 := 8#32
  let v567 : BitVec 32 := Scalar.muli arg17 c8_i32_686
  let v568 : BitVec 32 := Scalar.addi v567 c0_i32_687
  let v569 : Index := Scalar.indexCast v568
  let c0 : Index := 0#32
  ![v569.toNat, 0]
def k1_off220 (k1_t29 : Fin k1_t29_loop.trips) (c0_i32_688 : BitVec 32) : Fin 2 → Nat :=
  let c0_i32_477 : BitVec 32 := 0#32
  let c1_i32_479 : BitVec 32 := 1#32
  let arg17 : BitVec 32 := Scf.iv c0_i32_477 c1_i32_479 k1_t29
  let c8_i32_686 : BitVec 32 := 8#32
  let v567 : BitVec 32 := Scalar.muli arg17 c8_i32_686
  let v572 : BitVec 32 := Scalar.addi v567 c0_i32_688
  let v573 : Index := Scalar.indexCast v572
  let c0_689 : Index := 0#32
  ![v573.toNat, 0]
def k1_off221 (k1_t29 : Fin k1_t29_loop.trips) (c0_i32_690 : BitVec 32) : Fin 2 → Nat :=
  let c0_i32_477 : BitVec 32 := 0#32
  let c1_i32_479 : BitVec 32 := 1#32
  let arg17 : BitVec 32 := Scf.iv c0_i32_477 c1_i32_479 k1_t29
  let c8_i32_686 : BitVec 32 := 8#32
  let v567 : BitVec 32 := Scalar.muli arg17 c8_i32_686
  let v577 : BitVec 32 := Scalar.addi v567 c0_i32_690
  let v578 : Index := Scalar.indexCast v577
  let c16 : Index := 16#32
  ![v578.toNat, 16]
def k1_off222 (k1_t29 : Fin k1_t29_loop.trips) (c0_i32_691 : BitVec 32) : Fin 2 → Nat :=
  let c0_i32_477 : BitVec 32 := 0#32
  let c1_i32_479 : BitVec 32 := 1#32
  let arg17 : BitVec 32 := Scf.iv c0_i32_477 c1_i32_479 k1_t29
  let c8_i32_686 : BitVec 32 := 8#32
  let v567 : BitVec 32 := Scalar.muli arg17 c8_i32_686
  let v581 : BitVec 32 := Scalar.addi v567 c0_i32_691
  let v582 : Index := Scalar.indexCast v581
  let c16_692 : Index := 16#32
  ![v582.toNat, 16]
def k1_off223 (k1_t29 : Fin k1_t29_loop.trips) (c0_i32_693 : BitVec 32) : Fin 2 → Nat :=
  let c0_i32_477 : BitVec 32 := 0#32
  let c1_i32_479 : BitVec 32 := 1#32
  let arg17 : BitVec 32 := Scf.iv c0_i32_477 c1_i32_479 k1_t29
  let c8_i32_686 : BitVec 32 := 8#32
  let v567 : BitVec 32 := Scalar.muli arg17 c8_i32_686
  let v586 : BitVec 32 := Scalar.addi v567 c0_i32_693
  let v587 : Index := Scalar.indexCast v586
  let c32 : Index := 32#32
  ![v587.toNat, 32]
def k1_off224 (k1_t29 : Fin k1_t29_loop.trips) (c0_i32_694 : BitVec 32) : Fin 2 → Nat :=
  let c0_i32_477 : BitVec 32 := 0#32
  let c1_i32_479 : BitVec 32 := 1#32
  let arg17 : BitVec 32 := Scf.iv c0_i32_477 c1_i32_479 k1_t29
  let c8_i32_686 : BitVec 32 := 8#32
  let v567 : BitVec 32 := Scalar.muli arg17 c8_i32_686
  let v590 : BitVec 32 := Scalar.addi v567 c0_i32_694
  let v591 : Index := Scalar.indexCast v590
  let c32_695 : Index := 32#32
  ![v591.toNat, 32]
def k1_off225 (k1_t29 : Fin k1_t29_loop.trips) (c0_i32_696 : BitVec 32) : Fin 2 → Nat :=
  let c0_i32_477 : BitVec 32 := 0#32
  let c1_i32_479 : BitVec 32 := 1#32
  let arg17 : BitVec 32 := Scf.iv c0_i32_477 c1_i32_479 k1_t29
  let c8_i32_686 : BitVec 32 := 8#32
  let v567 : BitVec 32 := Scalar.muli arg17 c8_i32_686
  let v595 : BitVec 32 := Scalar.addi v567 c0_i32_696
  let v596 : Index := Scalar.indexCast v595
  let c48 : Index := 48#32
  ![v596.toNat, 48]
def k1_off226 (k1_t29 : Fin k1_t29_loop.trips) (c0_i32_697 : BitVec 32) : Fin 2 → Nat :=
  let c0_i32_477 : BitVec 32 := 0#32
  let c1_i32_479 : BitVec 32 := 1#32
  let arg17 : BitVec 32 := Scf.iv c0_i32_477 c1_i32_479 k1_t29
  let c8_i32_686 : BitVec 32 := 8#32
  let v567 : BitVec 32 := Scalar.muli arg17 c8_i32_686
  let v599 : BitVec 32 := Scalar.addi v567 c0_i32_697
  let v600 : Index := Scalar.indexCast v599
  let c48_698 : Index := 48#32
  ![v600.toNat, 48]
@[reducible] def k1_t30_loop : Scf.Loop 32 :=
  let c0_i32_494 : BitVec 32 := 0#32
  let c16_i32_495 : BitVec 32 := 16#32
  let v409 : BitVec 32 := Scalar.addi c0_i32_494 c16_i32_495
  let c1_i32_496 : BitVec 32 := 1#32
  ⟨c0_i32_494, v409, c1_i32_496⟩
def k1_off227 (k1_t30 : Fin k1_t30_loop.trips) (c0_i32_687 : BitVec 32) : Fin 2 → Nat :=
  let c0_i32_494 : BitVec 32 := 0#32
  let c1_i32_496 : BitVec 32 := 1#32
  let arg17 : BitVec 32 := Scf.iv c0_i32_494 c1_i32_496 k1_t30
  let c8_i32_686 : BitVec 32 := 8#32
  let v567 : BitVec 32 := Scalar.muli arg17 c8_i32_686
  let v568 : BitVec 32 := Scalar.addi v567 c0_i32_687
  let v569 : Index := Scalar.indexCast v568
  let c0 : Index := 0#32
  ![v569.toNat, 0]
def k1_off228 (k1_t30 : Fin k1_t30_loop.trips) (c0_i32_688 : BitVec 32) : Fin 2 → Nat :=
  let c0_i32_494 : BitVec 32 := 0#32
  let c1_i32_496 : BitVec 32 := 1#32
  let arg17 : BitVec 32 := Scf.iv c0_i32_494 c1_i32_496 k1_t30
  let c8_i32_686 : BitVec 32 := 8#32
  let v567 : BitVec 32 := Scalar.muli arg17 c8_i32_686
  let v572 : BitVec 32 := Scalar.addi v567 c0_i32_688
  let v573 : Index := Scalar.indexCast v572
  let c0_689 : Index := 0#32
  ![v573.toNat, 0]
def k1_off229 (k1_t30 : Fin k1_t30_loop.trips) (c0_i32_690 : BitVec 32) : Fin 2 → Nat :=
  let c0_i32_494 : BitVec 32 := 0#32
  let c1_i32_496 : BitVec 32 := 1#32
  let arg17 : BitVec 32 := Scf.iv c0_i32_494 c1_i32_496 k1_t30
  let c8_i32_686 : BitVec 32 := 8#32
  let v567 : BitVec 32 := Scalar.muli arg17 c8_i32_686
  let v577 : BitVec 32 := Scalar.addi v567 c0_i32_690
  let v578 : Index := Scalar.indexCast v577
  let c16 : Index := 16#32
  ![v578.toNat, 16]
def k1_off230 (k1_t30 : Fin k1_t30_loop.trips) (c0_i32_691 : BitVec 32) : Fin 2 → Nat :=
  let c0_i32_494 : BitVec 32 := 0#32
  let c1_i32_496 : BitVec 32 := 1#32
  let arg17 : BitVec 32 := Scf.iv c0_i32_494 c1_i32_496 k1_t30
  let c8_i32_686 : BitVec 32 := 8#32
  let v567 : BitVec 32 := Scalar.muli arg17 c8_i32_686
  let v581 : BitVec 32 := Scalar.addi v567 c0_i32_691
  let v582 : Index := Scalar.indexCast v581
  let c16_692 : Index := 16#32
  ![v582.toNat, 16]
def k1_off231 (k1_t30 : Fin k1_t30_loop.trips) (c0_i32_693 : BitVec 32) : Fin 2 → Nat :=
  let c0_i32_494 : BitVec 32 := 0#32
  let c1_i32_496 : BitVec 32 := 1#32
  let arg17 : BitVec 32 := Scf.iv c0_i32_494 c1_i32_496 k1_t30
  let c8_i32_686 : BitVec 32 := 8#32
  let v567 : BitVec 32 := Scalar.muli arg17 c8_i32_686
  let v586 : BitVec 32 := Scalar.addi v567 c0_i32_693
  let v587 : Index := Scalar.indexCast v586
  let c32 : Index := 32#32
  ![v587.toNat, 32]
def k1_off232 (k1_t30 : Fin k1_t30_loop.trips) (c0_i32_694 : BitVec 32) : Fin 2 → Nat :=
  let c0_i32_494 : BitVec 32 := 0#32
  let c1_i32_496 : BitVec 32 := 1#32
  let arg17 : BitVec 32 := Scf.iv c0_i32_494 c1_i32_496 k1_t30
  let c8_i32_686 : BitVec 32 := 8#32
  let v567 : BitVec 32 := Scalar.muli arg17 c8_i32_686
  let v590 : BitVec 32 := Scalar.addi v567 c0_i32_694
  let v591 : Index := Scalar.indexCast v590
  let c32_695 : Index := 32#32
  ![v591.toNat, 32]
def k1_off233 (k1_t30 : Fin k1_t30_loop.trips) (c0_i32_696 : BitVec 32) : Fin 2 → Nat :=
  let c0_i32_494 : BitVec 32 := 0#32
  let c1_i32_496 : BitVec 32 := 1#32
  let arg17 : BitVec 32 := Scf.iv c0_i32_494 c1_i32_496 k1_t30
  let c8_i32_686 : BitVec 32 := 8#32
  let v567 : BitVec 32 := Scalar.muli arg17 c8_i32_686
  let v595 : BitVec 32 := Scalar.addi v567 c0_i32_696
  let v596 : Index := Scalar.indexCast v595
  let c48 : Index := 48#32
  ![v596.toNat, 48]
def k1_off234 (k1_t30 : Fin k1_t30_loop.trips) (c0_i32_697 : BitVec 32) : Fin 2 → Nat :=
  let c0_i32_494 : BitVec 32 := 0#32
  let c1_i32_496 : BitVec 32 := 1#32
  let arg17 : BitVec 32 := Scf.iv c0_i32_494 c1_i32_496 k1_t30
  let c8_i32_686 : BitVec 32 := 8#32
  let v567 : BitVec 32 := Scalar.muli arg17 c8_i32_686
  let v599 : BitVec 32 := Scalar.addi v567 c0_i32_697
  let v600 : Index := Scalar.indexCast v599
  let c48_698 : Index := 48#32
  ![v600.toNat, 48]
@[reducible] def k1_t31_loop : Scf.Loop 32 :=
  let c0_i32_511 : BitVec 32 := 0#32
  let c16_i32_512 : BitVec 32 := 16#32
  let v423 : BitVec 32 := Scalar.addi c0_i32_511 c16_i32_512
  let c1_i32_513 : BitVec 32 := 1#32
  ⟨c0_i32_511, v423, c1_i32_513⟩
def k1_off235 (k1_t31 : Fin k1_t31_loop.trips) (c0_i32_687 : BitVec 32) : Fin 2 → Nat :=
  let c0_i32_511 : BitVec 32 := 0#32
  let c1_i32_513 : BitVec 32 := 1#32
  let arg17 : BitVec 32 := Scf.iv c0_i32_511 c1_i32_513 k1_t31
  let c8_i32_686 : BitVec 32 := 8#32
  let v567 : BitVec 32 := Scalar.muli arg17 c8_i32_686
  let v568 : BitVec 32 := Scalar.addi v567 c0_i32_687
  let v569 : Index := Scalar.indexCast v568
  let c0 : Index := 0#32
  ![v569.toNat, 0]
def k1_off236 (k1_t31 : Fin k1_t31_loop.trips) (c0_i32_688 : BitVec 32) : Fin 2 → Nat :=
  let c0_i32_511 : BitVec 32 := 0#32
  let c1_i32_513 : BitVec 32 := 1#32
  let arg17 : BitVec 32 := Scf.iv c0_i32_511 c1_i32_513 k1_t31
  let c8_i32_686 : BitVec 32 := 8#32
  let v567 : BitVec 32 := Scalar.muli arg17 c8_i32_686
  let v572 : BitVec 32 := Scalar.addi v567 c0_i32_688
  let v573 : Index := Scalar.indexCast v572
  let c0_689 : Index := 0#32
  ![v573.toNat, 0]
def k1_off237 (k1_t31 : Fin k1_t31_loop.trips) (c0_i32_690 : BitVec 32) : Fin 2 → Nat :=
  let c0_i32_511 : BitVec 32 := 0#32
  let c1_i32_513 : BitVec 32 := 1#32
  let arg17 : BitVec 32 := Scf.iv c0_i32_511 c1_i32_513 k1_t31
  let c8_i32_686 : BitVec 32 := 8#32
  let v567 : BitVec 32 := Scalar.muli arg17 c8_i32_686
  let v577 : BitVec 32 := Scalar.addi v567 c0_i32_690
  let v578 : Index := Scalar.indexCast v577
  let c16 : Index := 16#32
  ![v578.toNat, 16]
def k1_off238 (k1_t31 : Fin k1_t31_loop.trips) (c0_i32_691 : BitVec 32) : Fin 2 → Nat :=
  let c0_i32_511 : BitVec 32 := 0#32
  let c1_i32_513 : BitVec 32 := 1#32
  let arg17 : BitVec 32 := Scf.iv c0_i32_511 c1_i32_513 k1_t31
  let c8_i32_686 : BitVec 32 := 8#32
  let v567 : BitVec 32 := Scalar.muli arg17 c8_i32_686
  let v581 : BitVec 32 := Scalar.addi v567 c0_i32_691
  let v582 : Index := Scalar.indexCast v581
  let c16_692 : Index := 16#32
  ![v582.toNat, 16]
def k1_off239 (k1_t31 : Fin k1_t31_loop.trips) (c0_i32_693 : BitVec 32) : Fin 2 → Nat :=
  let c0_i32_511 : BitVec 32 := 0#32
  let c1_i32_513 : BitVec 32 := 1#32
  let arg17 : BitVec 32 := Scf.iv c0_i32_511 c1_i32_513 k1_t31
  let c8_i32_686 : BitVec 32 := 8#32
  let v567 : BitVec 32 := Scalar.muli arg17 c8_i32_686
  let v586 : BitVec 32 := Scalar.addi v567 c0_i32_693
  let v587 : Index := Scalar.indexCast v586
  let c32 : Index := 32#32
  ![v587.toNat, 32]
def k1_off240 (k1_t31 : Fin k1_t31_loop.trips) (c0_i32_694 : BitVec 32) : Fin 2 → Nat :=
  let c0_i32_511 : BitVec 32 := 0#32
  let c1_i32_513 : BitVec 32 := 1#32
  let arg17 : BitVec 32 := Scf.iv c0_i32_511 c1_i32_513 k1_t31
  let c8_i32_686 : BitVec 32 := 8#32
  let v567 : BitVec 32 := Scalar.muli arg17 c8_i32_686
  let v590 : BitVec 32 := Scalar.addi v567 c0_i32_694
  let v591 : Index := Scalar.indexCast v590
  let c32_695 : Index := 32#32
  ![v591.toNat, 32]
def k1_off241 (k1_t31 : Fin k1_t31_loop.trips) (c0_i32_696 : BitVec 32) : Fin 2 → Nat :=
  let c0_i32_511 : BitVec 32 := 0#32
  let c1_i32_513 : BitVec 32 := 1#32
  let arg17 : BitVec 32 := Scf.iv c0_i32_511 c1_i32_513 k1_t31
  let c8_i32_686 : BitVec 32 := 8#32
  let v567 : BitVec 32 := Scalar.muli arg17 c8_i32_686
  let v595 : BitVec 32 := Scalar.addi v567 c0_i32_696
  let v596 : Index := Scalar.indexCast v595
  let c48 : Index := 48#32
  ![v596.toNat, 48]
def k1_off242 (k1_t31 : Fin k1_t31_loop.trips) (c0_i32_697 : BitVec 32) : Fin 2 → Nat :=
  let c0_i32_511 : BitVec 32 := 0#32
  let c1_i32_513 : BitVec 32 := 1#32
  let arg17 : BitVec 32 := Scf.iv c0_i32_511 c1_i32_513 k1_t31
  let c8_i32_686 : BitVec 32 := 8#32
  let v567 : BitVec 32 := Scalar.muli arg17 c8_i32_686
  let v599 : BitVec 32 := Scalar.addi v567 c0_i32_697
  let v600 : Index := Scalar.indexCast v599
  let c48_698 : Index := 48#32
  ![v600.toNat, 48]
@[reducible] def k1_t32_loop : Scf.Loop 32 :=
  let c0_i32_528 : BitVec 32 := 0#32
  let c16_i32_529 : BitVec 32 := 16#32
  let v437 : BitVec 32 := Scalar.addi c0_i32_528 c16_i32_529
  let c1_i32_530 : BitVec 32 := 1#32
  ⟨c0_i32_528, v437, c1_i32_530⟩
def k1_off243 (k1_t32 : Fin k1_t32_loop.trips) (c0_i32_687 : BitVec 32) : Fin 2 → Nat :=
  let c0_i32_528 : BitVec 32 := 0#32
  let c1_i32_530 : BitVec 32 := 1#32
  let arg17 : BitVec 32 := Scf.iv c0_i32_528 c1_i32_530 k1_t32
  let c8_i32_686 : BitVec 32 := 8#32
  let v567 : BitVec 32 := Scalar.muli arg17 c8_i32_686
  let v568 : BitVec 32 := Scalar.addi v567 c0_i32_687
  let v569 : Index := Scalar.indexCast v568
  let c0 : Index := 0#32
  ![v569.toNat, 0]
def k1_off244 (k1_t32 : Fin k1_t32_loop.trips) (c0_i32_688 : BitVec 32) : Fin 2 → Nat :=
  let c0_i32_528 : BitVec 32 := 0#32
  let c1_i32_530 : BitVec 32 := 1#32
  let arg17 : BitVec 32 := Scf.iv c0_i32_528 c1_i32_530 k1_t32
  let c8_i32_686 : BitVec 32 := 8#32
  let v567 : BitVec 32 := Scalar.muli arg17 c8_i32_686
  let v572 : BitVec 32 := Scalar.addi v567 c0_i32_688
  let v573 : Index := Scalar.indexCast v572
  let c0_689 : Index := 0#32
  ![v573.toNat, 0]
def k1_off245 (k1_t32 : Fin k1_t32_loop.trips) (c0_i32_690 : BitVec 32) : Fin 2 → Nat :=
  let c0_i32_528 : BitVec 32 := 0#32
  let c1_i32_530 : BitVec 32 := 1#32
  let arg17 : BitVec 32 := Scf.iv c0_i32_528 c1_i32_530 k1_t32
  let c8_i32_686 : BitVec 32 := 8#32
  let v567 : BitVec 32 := Scalar.muli arg17 c8_i32_686
  let v577 : BitVec 32 := Scalar.addi v567 c0_i32_690
  let v578 : Index := Scalar.indexCast v577
  let c16 : Index := 16#32
  ![v578.toNat, 16]
def k1_off246 (k1_t32 : Fin k1_t32_loop.trips) (c0_i32_691 : BitVec 32) : Fin 2 → Nat :=
  let c0_i32_528 : BitVec 32 := 0#32
  let c1_i32_530 : BitVec 32 := 1#32
  let arg17 : BitVec 32 := Scf.iv c0_i32_528 c1_i32_530 k1_t32
  let c8_i32_686 : BitVec 32 := 8#32
  let v567 : BitVec 32 := Scalar.muli arg17 c8_i32_686
  let v581 : BitVec 32 := Scalar.addi v567 c0_i32_691
  let v582 : Index := Scalar.indexCast v581
  let c16_692 : Index := 16#32
  ![v582.toNat, 16]
def k1_off247 (k1_t32 : Fin k1_t32_loop.trips) (c0_i32_693 : BitVec 32) : Fin 2 → Nat :=
  let c0_i32_528 : BitVec 32 := 0#32
  let c1_i32_530 : BitVec 32 := 1#32
  let arg17 : BitVec 32 := Scf.iv c0_i32_528 c1_i32_530 k1_t32
  let c8_i32_686 : BitVec 32 := 8#32
  let v567 : BitVec 32 := Scalar.muli arg17 c8_i32_686
  let v586 : BitVec 32 := Scalar.addi v567 c0_i32_693
  let v587 : Index := Scalar.indexCast v586
  let c32 : Index := 32#32
  ![v587.toNat, 32]
def k1_off248 (k1_t32 : Fin k1_t32_loop.trips) (c0_i32_694 : BitVec 32) : Fin 2 → Nat :=
  let c0_i32_528 : BitVec 32 := 0#32
  let c1_i32_530 : BitVec 32 := 1#32
  let arg17 : BitVec 32 := Scf.iv c0_i32_528 c1_i32_530 k1_t32
  let c8_i32_686 : BitVec 32 := 8#32
  let v567 : BitVec 32 := Scalar.muli arg17 c8_i32_686
  let v590 : BitVec 32 := Scalar.addi v567 c0_i32_694
  let v591 : Index := Scalar.indexCast v590
  let c32_695 : Index := 32#32
  ![v591.toNat, 32]
def k1_off249 (k1_t32 : Fin k1_t32_loop.trips) (c0_i32_696 : BitVec 32) : Fin 2 → Nat :=
  let c0_i32_528 : BitVec 32 := 0#32
  let c1_i32_530 : BitVec 32 := 1#32
  let arg17 : BitVec 32 := Scf.iv c0_i32_528 c1_i32_530 k1_t32
  let c8_i32_686 : BitVec 32 := 8#32
  let v567 : BitVec 32 := Scalar.muli arg17 c8_i32_686
  let v595 : BitVec 32 := Scalar.addi v567 c0_i32_696
  let v596 : Index := Scalar.indexCast v595
  let c48 : Index := 48#32
  ![v596.toNat, 48]
def k1_off250 (k1_t32 : Fin k1_t32_loop.trips) (c0_i32_697 : BitVec 32) : Fin 2 → Nat :=
  let c0_i32_528 : BitVec 32 := 0#32
  let c1_i32_530 : BitVec 32 := 1#32
  let arg17 : BitVec 32 := Scf.iv c0_i32_528 c1_i32_530 k1_t32
  let c8_i32_686 : BitVec 32 := 8#32
  let v567 : BitVec 32 := Scalar.muli arg17 c8_i32_686
  let v599 : BitVec 32 := Scalar.addi v567 c0_i32_697
  let v600 : Index := Scalar.indexCast v599
  let c48_698 : Index := 48#32
  ![v600.toNat, 48]
@[reducible] def k1_t33_loop : Scf.Loop 32 :=
  let c0_i32_545 : BitVec 32 := 0#32
  let c16_i32_546 : BitVec 32 := 16#32
  let v451 : BitVec 32 := Scalar.addi c0_i32_545 c16_i32_546
  let c1_i32_547 : BitVec 32 := 1#32
  ⟨c0_i32_545, v451, c1_i32_547⟩
def k1_off251 (k1_t33 : Fin k1_t33_loop.trips) (c0_i32_687 : BitVec 32) : Fin 2 → Nat :=
  let c0_i32_545 : BitVec 32 := 0#32
  let c1_i32_547 : BitVec 32 := 1#32
  let arg17 : BitVec 32 := Scf.iv c0_i32_545 c1_i32_547 k1_t33
  let c8_i32_686 : BitVec 32 := 8#32
  let v567 : BitVec 32 := Scalar.muli arg17 c8_i32_686
  let v568 : BitVec 32 := Scalar.addi v567 c0_i32_687
  let v569 : Index := Scalar.indexCast v568
  let c0 : Index := 0#32
  ![v569.toNat, 0]
def k1_off252 (k1_t33 : Fin k1_t33_loop.trips) (c0_i32_688 : BitVec 32) : Fin 2 → Nat :=
  let c0_i32_545 : BitVec 32 := 0#32
  let c1_i32_547 : BitVec 32 := 1#32
  let arg17 : BitVec 32 := Scf.iv c0_i32_545 c1_i32_547 k1_t33
  let c8_i32_686 : BitVec 32 := 8#32
  let v567 : BitVec 32 := Scalar.muli arg17 c8_i32_686
  let v572 : BitVec 32 := Scalar.addi v567 c0_i32_688
  let v573 : Index := Scalar.indexCast v572
  let c0_689 : Index := 0#32
  ![v573.toNat, 0]
def k1_off253 (k1_t33 : Fin k1_t33_loop.trips) (c0_i32_690 : BitVec 32) : Fin 2 → Nat :=
  let c0_i32_545 : BitVec 32 := 0#32
  let c1_i32_547 : BitVec 32 := 1#32
  let arg17 : BitVec 32 := Scf.iv c0_i32_545 c1_i32_547 k1_t33
  let c8_i32_686 : BitVec 32 := 8#32
  let v567 : BitVec 32 := Scalar.muli arg17 c8_i32_686
  let v577 : BitVec 32 := Scalar.addi v567 c0_i32_690
  let v578 : Index := Scalar.indexCast v577
  let c16 : Index := 16#32
  ![v578.toNat, 16]
def k1_off254 (k1_t33 : Fin k1_t33_loop.trips) (c0_i32_691 : BitVec 32) : Fin 2 → Nat :=
  let c0_i32_545 : BitVec 32 := 0#32
  let c1_i32_547 : BitVec 32 := 1#32
  let arg17 : BitVec 32 := Scf.iv c0_i32_545 c1_i32_547 k1_t33
  let c8_i32_686 : BitVec 32 := 8#32
  let v567 : BitVec 32 := Scalar.muli arg17 c8_i32_686
  let v581 : BitVec 32 := Scalar.addi v567 c0_i32_691
  let v582 : Index := Scalar.indexCast v581
  let c16_692 : Index := 16#32
  ![v582.toNat, 16]
def k1_off255 (k1_t33 : Fin k1_t33_loop.trips) (c0_i32_693 : BitVec 32) : Fin 2 → Nat :=
  let c0_i32_545 : BitVec 32 := 0#32
  let c1_i32_547 : BitVec 32 := 1#32
  let arg17 : BitVec 32 := Scf.iv c0_i32_545 c1_i32_547 k1_t33
  let c8_i32_686 : BitVec 32 := 8#32
  let v567 : BitVec 32 := Scalar.muli arg17 c8_i32_686
  let v586 : BitVec 32 := Scalar.addi v567 c0_i32_693
  let v587 : Index := Scalar.indexCast v586
  let c32 : Index := 32#32
  ![v587.toNat, 32]
def k1_off256 (k1_t33 : Fin k1_t33_loop.trips) (c0_i32_694 : BitVec 32) : Fin 2 → Nat :=
  let c0_i32_545 : BitVec 32 := 0#32
  let c1_i32_547 : BitVec 32 := 1#32
  let arg17 : BitVec 32 := Scf.iv c0_i32_545 c1_i32_547 k1_t33
  let c8_i32_686 : BitVec 32 := 8#32
  let v567 : BitVec 32 := Scalar.muli arg17 c8_i32_686
  let v590 : BitVec 32 := Scalar.addi v567 c0_i32_694
  let v591 : Index := Scalar.indexCast v590
  let c32_695 : Index := 32#32
  ![v591.toNat, 32]
def k1_off257 (k1_t33 : Fin k1_t33_loop.trips) (c0_i32_696 : BitVec 32) : Fin 2 → Nat :=
  let c0_i32_545 : BitVec 32 := 0#32
  let c1_i32_547 : BitVec 32 := 1#32
  let arg17 : BitVec 32 := Scf.iv c0_i32_545 c1_i32_547 k1_t33
  let c8_i32_686 : BitVec 32 := 8#32
  let v567 : BitVec 32 := Scalar.muli arg17 c8_i32_686
  let v595 : BitVec 32 := Scalar.addi v567 c0_i32_696
  let v596 : Index := Scalar.indexCast v595
  let c48 : Index := 48#32
  ![v596.toNat, 48]
def k1_off258 (k1_t33 : Fin k1_t33_loop.trips) (c0_i32_697 : BitVec 32) : Fin 2 → Nat :=
  let c0_i32_545 : BitVec 32 := 0#32
  let c1_i32_547 : BitVec 32 := 1#32
  let arg17 : BitVec 32 := Scf.iv c0_i32_545 c1_i32_547 k1_t33
  let c8_i32_686 : BitVec 32 := 8#32
  let v567 : BitVec 32 := Scalar.muli arg17 c8_i32_686
  let v599 : BitVec 32 := Scalar.addi v567 c0_i32_697
  let v600 : Index := Scalar.indexCast v599
  let c48_698 : Index := 48#32
  ![v600.toNat, 48]
@[reducible] def k1_t34_loop : Scf.Loop 32 :=
  let c0_i32_562 : BitVec 32 := 0#32
  let c16_i32_563 : BitVec 32 := 16#32
  let v465 : BitVec 32 := Scalar.addi c0_i32_562 c16_i32_563
  let c1_i32_564 : BitVec 32 := 1#32
  ⟨c0_i32_562, v465, c1_i32_564⟩
def k1_off259 (k1_t34 : Fin k1_t34_loop.trips) (c0_i32_687 : BitVec 32) : Fin 2 → Nat :=
  let c0_i32_562 : BitVec 32 := 0#32
  let c1_i32_564 : BitVec 32 := 1#32
  let arg17 : BitVec 32 := Scf.iv c0_i32_562 c1_i32_564 k1_t34
  let c8_i32_686 : BitVec 32 := 8#32
  let v567 : BitVec 32 := Scalar.muli arg17 c8_i32_686
  let v568 : BitVec 32 := Scalar.addi v567 c0_i32_687
  let v569 : Index := Scalar.indexCast v568
  let c0 : Index := 0#32
  ![v569.toNat, 0]
def k1_off260 (k1_t34 : Fin k1_t34_loop.trips) (c0_i32_688 : BitVec 32) : Fin 2 → Nat :=
  let c0_i32_562 : BitVec 32 := 0#32
  let c1_i32_564 : BitVec 32 := 1#32
  let arg17 : BitVec 32 := Scf.iv c0_i32_562 c1_i32_564 k1_t34
  let c8_i32_686 : BitVec 32 := 8#32
  let v567 : BitVec 32 := Scalar.muli arg17 c8_i32_686
  let v572 : BitVec 32 := Scalar.addi v567 c0_i32_688
  let v573 : Index := Scalar.indexCast v572
  let c0_689 : Index := 0#32
  ![v573.toNat, 0]
def k1_off261 (k1_t34 : Fin k1_t34_loop.trips) (c0_i32_690 : BitVec 32) : Fin 2 → Nat :=
  let c0_i32_562 : BitVec 32 := 0#32
  let c1_i32_564 : BitVec 32 := 1#32
  let arg17 : BitVec 32 := Scf.iv c0_i32_562 c1_i32_564 k1_t34
  let c8_i32_686 : BitVec 32 := 8#32
  let v567 : BitVec 32 := Scalar.muli arg17 c8_i32_686
  let v577 : BitVec 32 := Scalar.addi v567 c0_i32_690
  let v578 : Index := Scalar.indexCast v577
  let c16 : Index := 16#32
  ![v578.toNat, 16]
def k1_off262 (k1_t34 : Fin k1_t34_loop.trips) (c0_i32_691 : BitVec 32) : Fin 2 → Nat :=
  let c0_i32_562 : BitVec 32 := 0#32
  let c1_i32_564 : BitVec 32 := 1#32
  let arg17 : BitVec 32 := Scf.iv c0_i32_562 c1_i32_564 k1_t34
  let c8_i32_686 : BitVec 32 := 8#32
  let v567 : BitVec 32 := Scalar.muli arg17 c8_i32_686
  let v581 : BitVec 32 := Scalar.addi v567 c0_i32_691
  let v582 : Index := Scalar.indexCast v581
  let c16_692 : Index := 16#32
  ![v582.toNat, 16]
def k1_off263 (k1_t34 : Fin k1_t34_loop.trips) (c0_i32_693 : BitVec 32) : Fin 2 → Nat :=
  let c0_i32_562 : BitVec 32 := 0#32
  let c1_i32_564 : BitVec 32 := 1#32
  let arg17 : BitVec 32 := Scf.iv c0_i32_562 c1_i32_564 k1_t34
  let c8_i32_686 : BitVec 32 := 8#32
  let v567 : BitVec 32 := Scalar.muli arg17 c8_i32_686
  let v586 : BitVec 32 := Scalar.addi v567 c0_i32_693
  let v587 : Index := Scalar.indexCast v586
  let c32 : Index := 32#32
  ![v587.toNat, 32]
def k1_off264 (k1_t34 : Fin k1_t34_loop.trips) (c0_i32_694 : BitVec 32) : Fin 2 → Nat :=
  let c0_i32_562 : BitVec 32 := 0#32
  let c1_i32_564 : BitVec 32 := 1#32
  let arg17 : BitVec 32 := Scf.iv c0_i32_562 c1_i32_564 k1_t34
  let c8_i32_686 : BitVec 32 := 8#32
  let v567 : BitVec 32 := Scalar.muli arg17 c8_i32_686
  let v590 : BitVec 32 := Scalar.addi v567 c0_i32_694
  let v591 : Index := Scalar.indexCast v590
  let c32_695 : Index := 32#32
  ![v591.toNat, 32]
def k1_off265 (k1_t34 : Fin k1_t34_loop.trips) (c0_i32_696 : BitVec 32) : Fin 2 → Nat :=
  let c0_i32_562 : BitVec 32 := 0#32
  let c1_i32_564 : BitVec 32 := 1#32
  let arg17 : BitVec 32 := Scf.iv c0_i32_562 c1_i32_564 k1_t34
  let c8_i32_686 : BitVec 32 := 8#32
  let v567 : BitVec 32 := Scalar.muli arg17 c8_i32_686
  let v595 : BitVec 32 := Scalar.addi v567 c0_i32_696
  let v596 : Index := Scalar.indexCast v595
  let c48 : Index := 48#32
  ![v596.toNat, 48]
def k1_off266 (k1_t34 : Fin k1_t34_loop.trips) (c0_i32_697 : BitVec 32) : Fin 2 → Nat :=
  let c0_i32_562 : BitVec 32 := 0#32
  let c1_i32_564 : BitVec 32 := 1#32
  let arg17 : BitVec 32 := Scf.iv c0_i32_562 c1_i32_564 k1_t34
  let c8_i32_686 : BitVec 32 := 8#32
  let v567 : BitVec 32 := Scalar.muli arg17 c8_i32_686
  let v599 : BitVec 32 := Scalar.addi v567 c0_i32_697
  let v600 : Index := Scalar.indexCast v599
  let c48_698 : Index := 48#32
  ![v600.toNat, 48]
@[reducible] def k1_t35_loop : Scf.Loop 32 :=
  let c0_i32_579 : BitVec 32 := 0#32
  let c16_i32_580 : BitVec 32 := 16#32
  let v479 : BitVec 32 := Scalar.addi c0_i32_579 c16_i32_580
  let c1_i32_581 : BitVec 32 := 1#32
  ⟨c0_i32_579, v479, c1_i32_581⟩
def k1_off267 (k1_t35 : Fin k1_t35_loop.trips) (c0_i32_687 : BitVec 32) : Fin 2 → Nat :=
  let c0_i32_579 : BitVec 32 := 0#32
  let c1_i32_581 : BitVec 32 := 1#32
  let arg17 : BitVec 32 := Scf.iv c0_i32_579 c1_i32_581 k1_t35
  let c8_i32_686 : BitVec 32 := 8#32
  let v567 : BitVec 32 := Scalar.muli arg17 c8_i32_686
  let v568 : BitVec 32 := Scalar.addi v567 c0_i32_687
  let v569 : Index := Scalar.indexCast v568
  let c0 : Index := 0#32
  ![v569.toNat, 0]
def k1_off268 (k1_t35 : Fin k1_t35_loop.trips) (c0_i32_688 : BitVec 32) : Fin 2 → Nat :=
  let c0_i32_579 : BitVec 32 := 0#32
  let c1_i32_581 : BitVec 32 := 1#32
  let arg17 : BitVec 32 := Scf.iv c0_i32_579 c1_i32_581 k1_t35
  let c8_i32_686 : BitVec 32 := 8#32
  let v567 : BitVec 32 := Scalar.muli arg17 c8_i32_686
  let v572 : BitVec 32 := Scalar.addi v567 c0_i32_688
  let v573 : Index := Scalar.indexCast v572
  let c0_689 : Index := 0#32
  ![v573.toNat, 0]
def k1_off269 (k1_t35 : Fin k1_t35_loop.trips) (c0_i32_690 : BitVec 32) : Fin 2 → Nat :=
  let c0_i32_579 : BitVec 32 := 0#32
  let c1_i32_581 : BitVec 32 := 1#32
  let arg17 : BitVec 32 := Scf.iv c0_i32_579 c1_i32_581 k1_t35
  let c8_i32_686 : BitVec 32 := 8#32
  let v567 : BitVec 32 := Scalar.muli arg17 c8_i32_686
  let v577 : BitVec 32 := Scalar.addi v567 c0_i32_690
  let v578 : Index := Scalar.indexCast v577
  let c16 : Index := 16#32
  ![v578.toNat, 16]
def k1_off270 (k1_t35 : Fin k1_t35_loop.trips) (c0_i32_691 : BitVec 32) : Fin 2 → Nat :=
  let c0_i32_579 : BitVec 32 := 0#32
  let c1_i32_581 : BitVec 32 := 1#32
  let arg17 : BitVec 32 := Scf.iv c0_i32_579 c1_i32_581 k1_t35
  let c8_i32_686 : BitVec 32 := 8#32
  let v567 : BitVec 32 := Scalar.muli arg17 c8_i32_686
  let v581 : BitVec 32 := Scalar.addi v567 c0_i32_691
  let v582 : Index := Scalar.indexCast v581
  let c16_692 : Index := 16#32
  ![v582.toNat, 16]
def k1_off271 (k1_t35 : Fin k1_t35_loop.trips) (c0_i32_693 : BitVec 32) : Fin 2 → Nat :=
  let c0_i32_579 : BitVec 32 := 0#32
  let c1_i32_581 : BitVec 32 := 1#32
  let arg17 : BitVec 32 := Scf.iv c0_i32_579 c1_i32_581 k1_t35
  let c8_i32_686 : BitVec 32 := 8#32
  let v567 : BitVec 32 := Scalar.muli arg17 c8_i32_686
  let v586 : BitVec 32 := Scalar.addi v567 c0_i32_693
  let v587 : Index := Scalar.indexCast v586
  let c32 : Index := 32#32
  ![v587.toNat, 32]
def k1_off272 (k1_t35 : Fin k1_t35_loop.trips) (c0_i32_694 : BitVec 32) : Fin 2 → Nat :=
  let c0_i32_579 : BitVec 32 := 0#32
  let c1_i32_581 : BitVec 32 := 1#32
  let arg17 : BitVec 32 := Scf.iv c0_i32_579 c1_i32_581 k1_t35
  let c8_i32_686 : BitVec 32 := 8#32
  let v567 : BitVec 32 := Scalar.muli arg17 c8_i32_686
  let v590 : BitVec 32 := Scalar.addi v567 c0_i32_694
  let v591 : Index := Scalar.indexCast v590
  let c32_695 : Index := 32#32
  ![v591.toNat, 32]
def k1_off273 (k1_t35 : Fin k1_t35_loop.trips) (c0_i32_696 : BitVec 32) : Fin 2 → Nat :=
  let c0_i32_579 : BitVec 32 := 0#32
  let c1_i32_581 : BitVec 32 := 1#32
  let arg17 : BitVec 32 := Scf.iv c0_i32_579 c1_i32_581 k1_t35
  let c8_i32_686 : BitVec 32 := 8#32
  let v567 : BitVec 32 := Scalar.muli arg17 c8_i32_686
  let v595 : BitVec 32 := Scalar.addi v567 c0_i32_696
  let v596 : Index := Scalar.indexCast v595
  let c48 : Index := 48#32
  ![v596.toNat, 48]
def k1_off274 (k1_t35 : Fin k1_t35_loop.trips) (c0_i32_697 : BitVec 32) : Fin 2 → Nat :=
  let c0_i32_579 : BitVec 32 := 0#32
  let c1_i32_581 : BitVec 32 := 1#32
  let arg17 : BitVec 32 := Scf.iv c0_i32_579 c1_i32_581 k1_t35
  let c8_i32_686 : BitVec 32 := 8#32
  let v567 : BitVec 32 := Scalar.muli arg17 c8_i32_686
  let v599 : BitVec 32 := Scalar.addi v567 c0_i32_697
  let v600 : Index := Scalar.indexCast v599
  let c48_698 : Index := 48#32
  ![v600.toNat, 48]
@[reducible] def k1_t36_loop : Scf.Loop 32 :=
  let c0_i32_596 : BitVec 32 := 0#32
  let c16_i32_597 : BitVec 32 := 16#32
  let v493 : BitVec 32 := Scalar.addi c0_i32_596 c16_i32_597
  let c1_i32_598 : BitVec 32 := 1#32
  ⟨c0_i32_596, v493, c1_i32_598⟩
def k1_off275 (k1_t36 : Fin k1_t36_loop.trips) (c0_i32_687 : BitVec 32) : Fin 2 → Nat :=
  let c0_i32_596 : BitVec 32 := 0#32
  let c1_i32_598 : BitVec 32 := 1#32
  let arg17 : BitVec 32 := Scf.iv c0_i32_596 c1_i32_598 k1_t36
  let c8_i32_686 : BitVec 32 := 8#32
  let v567 : BitVec 32 := Scalar.muli arg17 c8_i32_686
  let v568 : BitVec 32 := Scalar.addi v567 c0_i32_687
  let v569 : Index := Scalar.indexCast v568
  let c0 : Index := 0#32
  ![v569.toNat, 0]
def k1_off276 (k1_t36 : Fin k1_t36_loop.trips) (c0_i32_688 : BitVec 32) : Fin 2 → Nat :=
  let c0_i32_596 : BitVec 32 := 0#32
  let c1_i32_598 : BitVec 32 := 1#32
  let arg17 : BitVec 32 := Scf.iv c0_i32_596 c1_i32_598 k1_t36
  let c8_i32_686 : BitVec 32 := 8#32
  let v567 : BitVec 32 := Scalar.muli arg17 c8_i32_686
  let v572 : BitVec 32 := Scalar.addi v567 c0_i32_688
  let v573 : Index := Scalar.indexCast v572
  let c0_689 : Index := 0#32
  ![v573.toNat, 0]
def k1_off277 (k1_t36 : Fin k1_t36_loop.trips) (c0_i32_690 : BitVec 32) : Fin 2 → Nat :=
  let c0_i32_596 : BitVec 32 := 0#32
  let c1_i32_598 : BitVec 32 := 1#32
  let arg17 : BitVec 32 := Scf.iv c0_i32_596 c1_i32_598 k1_t36
  let c8_i32_686 : BitVec 32 := 8#32
  let v567 : BitVec 32 := Scalar.muli arg17 c8_i32_686
  let v577 : BitVec 32 := Scalar.addi v567 c0_i32_690
  let v578 : Index := Scalar.indexCast v577
  let c16 : Index := 16#32
  ![v578.toNat, 16]
def k1_off278 (k1_t36 : Fin k1_t36_loop.trips) (c0_i32_691 : BitVec 32) : Fin 2 → Nat :=
  let c0_i32_596 : BitVec 32 := 0#32
  let c1_i32_598 : BitVec 32 := 1#32
  let arg17 : BitVec 32 := Scf.iv c0_i32_596 c1_i32_598 k1_t36
  let c8_i32_686 : BitVec 32 := 8#32
  let v567 : BitVec 32 := Scalar.muli arg17 c8_i32_686
  let v581 : BitVec 32 := Scalar.addi v567 c0_i32_691
  let v582 : Index := Scalar.indexCast v581
  let c16_692 : Index := 16#32
  ![v582.toNat, 16]
def k1_off279 (k1_t36 : Fin k1_t36_loop.trips) (c0_i32_693 : BitVec 32) : Fin 2 → Nat :=
  let c0_i32_596 : BitVec 32 := 0#32
  let c1_i32_598 : BitVec 32 := 1#32
  let arg17 : BitVec 32 := Scf.iv c0_i32_596 c1_i32_598 k1_t36
  let c8_i32_686 : BitVec 32 := 8#32
  let v567 : BitVec 32 := Scalar.muli arg17 c8_i32_686
  let v586 : BitVec 32 := Scalar.addi v567 c0_i32_693
  let v587 : Index := Scalar.indexCast v586
  let c32 : Index := 32#32
  ![v587.toNat, 32]
def k1_off280 (k1_t36 : Fin k1_t36_loop.trips) (c0_i32_694 : BitVec 32) : Fin 2 → Nat :=
  let c0_i32_596 : BitVec 32 := 0#32
  let c1_i32_598 : BitVec 32 := 1#32
  let arg17 : BitVec 32 := Scf.iv c0_i32_596 c1_i32_598 k1_t36
  let c8_i32_686 : BitVec 32 := 8#32
  let v567 : BitVec 32 := Scalar.muli arg17 c8_i32_686
  let v590 : BitVec 32 := Scalar.addi v567 c0_i32_694
  let v591 : Index := Scalar.indexCast v590
  let c32_695 : Index := 32#32
  ![v591.toNat, 32]
def k1_off281 (k1_t36 : Fin k1_t36_loop.trips) (c0_i32_696 : BitVec 32) : Fin 2 → Nat :=
  let c0_i32_596 : BitVec 32 := 0#32
  let c1_i32_598 : BitVec 32 := 1#32
  let arg17 : BitVec 32 := Scf.iv c0_i32_596 c1_i32_598 k1_t36
  let c8_i32_686 : BitVec 32 := 8#32
  let v567 : BitVec 32 := Scalar.muli arg17 c8_i32_686
  let v595 : BitVec 32 := Scalar.addi v567 c0_i32_696
  let v596 : Index := Scalar.indexCast v595
  let c48 : Index := 48#32
  ![v596.toNat, 48]
def k1_off282 (k1_t36 : Fin k1_t36_loop.trips) (c0_i32_697 : BitVec 32) : Fin 2 → Nat :=
  let c0_i32_596 : BitVec 32 := 0#32
  let c1_i32_598 : BitVec 32 := 1#32
  let arg17 : BitVec 32 := Scf.iv c0_i32_596 c1_i32_598 k1_t36
  let c8_i32_686 : BitVec 32 := 8#32
  let v567 : BitVec 32 := Scalar.muli arg17 c8_i32_686
  let v599 : BitVec 32 := Scalar.addi v567 c0_i32_697
  let v600 : Index := Scalar.indexCast v599
  let c48_698 : Index := 48#32
  ![v600.toNat, 48]
@[reducible] def k1_t37_loop : Scf.Loop 32 :=
  let c0_i32_613 : BitVec 32 := 0#32
  let c16_i32_614 : BitVec 32 := 16#32
  let v507 : BitVec 32 := Scalar.addi c0_i32_613 c16_i32_614
  let c1_i32_615 : BitVec 32 := 1#32
  ⟨c0_i32_613, v507, c1_i32_615⟩
def k1_off283 (k1_t37 : Fin k1_t37_loop.trips) (c0_i32_687 : BitVec 32) : Fin 2 → Nat :=
  let c0_i32_613 : BitVec 32 := 0#32
  let c1_i32_615 : BitVec 32 := 1#32
  let arg17 : BitVec 32 := Scf.iv c0_i32_613 c1_i32_615 k1_t37
  let c8_i32_686 : BitVec 32 := 8#32
  let v567 : BitVec 32 := Scalar.muli arg17 c8_i32_686
  let v568 : BitVec 32 := Scalar.addi v567 c0_i32_687
  let v569 : Index := Scalar.indexCast v568
  let c0 : Index := 0#32
  ![v569.toNat, 0]
def k1_off284 (k1_t37 : Fin k1_t37_loop.trips) (c0_i32_688 : BitVec 32) : Fin 2 → Nat :=
  let c0_i32_613 : BitVec 32 := 0#32
  let c1_i32_615 : BitVec 32 := 1#32
  let arg17 : BitVec 32 := Scf.iv c0_i32_613 c1_i32_615 k1_t37
  let c8_i32_686 : BitVec 32 := 8#32
  let v567 : BitVec 32 := Scalar.muli arg17 c8_i32_686
  let v572 : BitVec 32 := Scalar.addi v567 c0_i32_688
  let v573 : Index := Scalar.indexCast v572
  let c0_689 : Index := 0#32
  ![v573.toNat, 0]
def k1_off285 (k1_t37 : Fin k1_t37_loop.trips) (c0_i32_690 : BitVec 32) : Fin 2 → Nat :=
  let c0_i32_613 : BitVec 32 := 0#32
  let c1_i32_615 : BitVec 32 := 1#32
  let arg17 : BitVec 32 := Scf.iv c0_i32_613 c1_i32_615 k1_t37
  let c8_i32_686 : BitVec 32 := 8#32
  let v567 : BitVec 32 := Scalar.muli arg17 c8_i32_686
  let v577 : BitVec 32 := Scalar.addi v567 c0_i32_690
  let v578 : Index := Scalar.indexCast v577
  let c16 : Index := 16#32
  ![v578.toNat, 16]
def k1_off286 (k1_t37 : Fin k1_t37_loop.trips) (c0_i32_691 : BitVec 32) : Fin 2 → Nat :=
  let c0_i32_613 : BitVec 32 := 0#32
  let c1_i32_615 : BitVec 32 := 1#32
  let arg17 : BitVec 32 := Scf.iv c0_i32_613 c1_i32_615 k1_t37
  let c8_i32_686 : BitVec 32 := 8#32
  let v567 : BitVec 32 := Scalar.muli arg17 c8_i32_686
  let v581 : BitVec 32 := Scalar.addi v567 c0_i32_691
  let v582 : Index := Scalar.indexCast v581
  let c16_692 : Index := 16#32
  ![v582.toNat, 16]
def k1_off287 (k1_t37 : Fin k1_t37_loop.trips) (c0_i32_693 : BitVec 32) : Fin 2 → Nat :=
  let c0_i32_613 : BitVec 32 := 0#32
  let c1_i32_615 : BitVec 32 := 1#32
  let arg17 : BitVec 32 := Scf.iv c0_i32_613 c1_i32_615 k1_t37
  let c8_i32_686 : BitVec 32 := 8#32
  let v567 : BitVec 32 := Scalar.muli arg17 c8_i32_686
  let v586 : BitVec 32 := Scalar.addi v567 c0_i32_693
  let v587 : Index := Scalar.indexCast v586
  let c32 : Index := 32#32
  ![v587.toNat, 32]
def k1_off288 (k1_t37 : Fin k1_t37_loop.trips) (c0_i32_694 : BitVec 32) : Fin 2 → Nat :=
  let c0_i32_613 : BitVec 32 := 0#32
  let c1_i32_615 : BitVec 32 := 1#32
  let arg17 : BitVec 32 := Scf.iv c0_i32_613 c1_i32_615 k1_t37
  let c8_i32_686 : BitVec 32 := 8#32
  let v567 : BitVec 32 := Scalar.muli arg17 c8_i32_686
  let v590 : BitVec 32 := Scalar.addi v567 c0_i32_694
  let v591 : Index := Scalar.indexCast v590
  let c32_695 : Index := 32#32
  ![v591.toNat, 32]
def k1_off289 (k1_t37 : Fin k1_t37_loop.trips) (c0_i32_696 : BitVec 32) : Fin 2 → Nat :=
  let c0_i32_613 : BitVec 32 := 0#32
  let c1_i32_615 : BitVec 32 := 1#32
  let arg17 : BitVec 32 := Scf.iv c0_i32_613 c1_i32_615 k1_t37
  let c8_i32_686 : BitVec 32 := 8#32
  let v567 : BitVec 32 := Scalar.muli arg17 c8_i32_686
  let v595 : BitVec 32 := Scalar.addi v567 c0_i32_696
  let v596 : Index := Scalar.indexCast v595
  let c48 : Index := 48#32
  ![v596.toNat, 48]
def k1_off290 (k1_t37 : Fin k1_t37_loop.trips) (c0_i32_697 : BitVec 32) : Fin 2 → Nat :=
  let c0_i32_613 : BitVec 32 := 0#32
  let c1_i32_615 : BitVec 32 := 1#32
  let arg17 : BitVec 32 := Scf.iv c0_i32_613 c1_i32_615 k1_t37
  let c8_i32_686 : BitVec 32 := 8#32
  let v567 : BitVec 32 := Scalar.muli arg17 c8_i32_686
  let v599 : BitVec 32 := Scalar.addi v567 c0_i32_697
  let v600 : Index := Scalar.indexCast v599
  let c48_698 : Index := 48#32
  ![v600.toNat, 48]
@[reducible] def k1_t38_loop : Scf.Loop 32 :=
  let c0_i32_630 : BitVec 32 := 0#32
  let c16_i32_631 : BitVec 32 := 16#32
  let v521 : BitVec 32 := Scalar.addi c0_i32_630 c16_i32_631
  let c1_i32_632 : BitVec 32 := 1#32
  ⟨c0_i32_630, v521, c1_i32_632⟩
def k1_off291 (k1_t38 : Fin k1_t38_loop.trips) (c0_i32_687 : BitVec 32) : Fin 2 → Nat :=
  let c0_i32_630 : BitVec 32 := 0#32
  let c1_i32_632 : BitVec 32 := 1#32
  let arg17 : BitVec 32 := Scf.iv c0_i32_630 c1_i32_632 k1_t38
  let c8_i32_686 : BitVec 32 := 8#32
  let v567 : BitVec 32 := Scalar.muli arg17 c8_i32_686
  let v568 : BitVec 32 := Scalar.addi v567 c0_i32_687
  let v569 : Index := Scalar.indexCast v568
  let c0 : Index := 0#32
  ![v569.toNat, 0]
def k1_off292 (k1_t38 : Fin k1_t38_loop.trips) (c0_i32_688 : BitVec 32) : Fin 2 → Nat :=
  let c0_i32_630 : BitVec 32 := 0#32
  let c1_i32_632 : BitVec 32 := 1#32
  let arg17 : BitVec 32 := Scf.iv c0_i32_630 c1_i32_632 k1_t38
  let c8_i32_686 : BitVec 32 := 8#32
  let v567 : BitVec 32 := Scalar.muli arg17 c8_i32_686
  let v572 : BitVec 32 := Scalar.addi v567 c0_i32_688
  let v573 : Index := Scalar.indexCast v572
  let c0_689 : Index := 0#32
  ![v573.toNat, 0]
def k1_off293 (k1_t38 : Fin k1_t38_loop.trips) (c0_i32_690 : BitVec 32) : Fin 2 → Nat :=
  let c0_i32_630 : BitVec 32 := 0#32
  let c1_i32_632 : BitVec 32 := 1#32
  let arg17 : BitVec 32 := Scf.iv c0_i32_630 c1_i32_632 k1_t38
  let c8_i32_686 : BitVec 32 := 8#32
  let v567 : BitVec 32 := Scalar.muli arg17 c8_i32_686
  let v577 : BitVec 32 := Scalar.addi v567 c0_i32_690
  let v578 : Index := Scalar.indexCast v577
  let c16 : Index := 16#32
  ![v578.toNat, 16]
def k1_off294 (k1_t38 : Fin k1_t38_loop.trips) (c0_i32_691 : BitVec 32) : Fin 2 → Nat :=
  let c0_i32_630 : BitVec 32 := 0#32
  let c1_i32_632 : BitVec 32 := 1#32
  let arg17 : BitVec 32 := Scf.iv c0_i32_630 c1_i32_632 k1_t38
  let c8_i32_686 : BitVec 32 := 8#32
  let v567 : BitVec 32 := Scalar.muli arg17 c8_i32_686
  let v581 : BitVec 32 := Scalar.addi v567 c0_i32_691
  let v582 : Index := Scalar.indexCast v581
  let c16_692 : Index := 16#32
  ![v582.toNat, 16]
def k1_off295 (k1_t38 : Fin k1_t38_loop.trips) (c0_i32_693 : BitVec 32) : Fin 2 → Nat :=
  let c0_i32_630 : BitVec 32 := 0#32
  let c1_i32_632 : BitVec 32 := 1#32
  let arg17 : BitVec 32 := Scf.iv c0_i32_630 c1_i32_632 k1_t38
  let c8_i32_686 : BitVec 32 := 8#32
  let v567 : BitVec 32 := Scalar.muli arg17 c8_i32_686
  let v586 : BitVec 32 := Scalar.addi v567 c0_i32_693
  let v587 : Index := Scalar.indexCast v586
  let c32 : Index := 32#32
  ![v587.toNat, 32]
def k1_off296 (k1_t38 : Fin k1_t38_loop.trips) (c0_i32_694 : BitVec 32) : Fin 2 → Nat :=
  let c0_i32_630 : BitVec 32 := 0#32
  let c1_i32_632 : BitVec 32 := 1#32
  let arg17 : BitVec 32 := Scf.iv c0_i32_630 c1_i32_632 k1_t38
  let c8_i32_686 : BitVec 32 := 8#32
  let v567 : BitVec 32 := Scalar.muli arg17 c8_i32_686
  let v590 : BitVec 32 := Scalar.addi v567 c0_i32_694
  let v591 : Index := Scalar.indexCast v590
  let c32_695 : Index := 32#32
  ![v591.toNat, 32]
def k1_off297 (k1_t38 : Fin k1_t38_loop.trips) (c0_i32_696 : BitVec 32) : Fin 2 → Nat :=
  let c0_i32_630 : BitVec 32 := 0#32
  let c1_i32_632 : BitVec 32 := 1#32
  let arg17 : BitVec 32 := Scf.iv c0_i32_630 c1_i32_632 k1_t38
  let c8_i32_686 : BitVec 32 := 8#32
  let v567 : BitVec 32 := Scalar.muli arg17 c8_i32_686
  let v595 : BitVec 32 := Scalar.addi v567 c0_i32_696
  let v596 : Index := Scalar.indexCast v595
  let c48 : Index := 48#32
  ![v596.toNat, 48]
def k1_off298 (k1_t38 : Fin k1_t38_loop.trips) (c0_i32_697 : BitVec 32) : Fin 2 → Nat :=
  let c0_i32_630 : BitVec 32 := 0#32
  let c1_i32_632 : BitVec 32 := 1#32
  let arg17 : BitVec 32 := Scf.iv c0_i32_630 c1_i32_632 k1_t38
  let c8_i32_686 : BitVec 32 := 8#32
  let v567 : BitVec 32 := Scalar.muli arg17 c8_i32_686
  let v599 : BitVec 32 := Scalar.addi v567 c0_i32_697
  let v600 : Index := Scalar.indexCast v599
  let c48_698 : Index := 48#32
  ![v600.toNat, 48]
@[reducible] def k1_t39_loop : Scf.Loop 32 :=
  let c0_i32_647 : BitVec 32 := 0#32
  let c16_i32_648 : BitVec 32 := 16#32
  let v535 : BitVec 32 := Scalar.addi c0_i32_647 c16_i32_648
  let c1_i32_649 : BitVec 32 := 1#32
  ⟨c0_i32_647, v535, c1_i32_649⟩
def k1_off299 (k1_t39 : Fin k1_t39_loop.trips) (c0_i32_687 : BitVec 32) : Fin 2 → Nat :=
  let c0_i32_647 : BitVec 32 := 0#32
  let c1_i32_649 : BitVec 32 := 1#32
  let arg17 : BitVec 32 := Scf.iv c0_i32_647 c1_i32_649 k1_t39
  let c8_i32_686 : BitVec 32 := 8#32
  let v567 : BitVec 32 := Scalar.muli arg17 c8_i32_686
  let v568 : BitVec 32 := Scalar.addi v567 c0_i32_687
  let v569 : Index := Scalar.indexCast v568
  let c0 : Index := 0#32
  ![v569.toNat, 0]
def k1_off300 (k1_t39 : Fin k1_t39_loop.trips) (c0_i32_688 : BitVec 32) : Fin 2 → Nat :=
  let c0_i32_647 : BitVec 32 := 0#32
  let c1_i32_649 : BitVec 32 := 1#32
  let arg17 : BitVec 32 := Scf.iv c0_i32_647 c1_i32_649 k1_t39
  let c8_i32_686 : BitVec 32 := 8#32
  let v567 : BitVec 32 := Scalar.muli arg17 c8_i32_686
  let v572 : BitVec 32 := Scalar.addi v567 c0_i32_688
  let v573 : Index := Scalar.indexCast v572
  let c0_689 : Index := 0#32
  ![v573.toNat, 0]
def k1_off301 (k1_t39 : Fin k1_t39_loop.trips) (c0_i32_690 : BitVec 32) : Fin 2 → Nat :=
  let c0_i32_647 : BitVec 32 := 0#32
  let c1_i32_649 : BitVec 32 := 1#32
  let arg17 : BitVec 32 := Scf.iv c0_i32_647 c1_i32_649 k1_t39
  let c8_i32_686 : BitVec 32 := 8#32
  let v567 : BitVec 32 := Scalar.muli arg17 c8_i32_686
  let v577 : BitVec 32 := Scalar.addi v567 c0_i32_690
  let v578 : Index := Scalar.indexCast v577
  let c16 : Index := 16#32
  ![v578.toNat, 16]
def k1_off302 (k1_t39 : Fin k1_t39_loop.trips) (c0_i32_691 : BitVec 32) : Fin 2 → Nat :=
  let c0_i32_647 : BitVec 32 := 0#32
  let c1_i32_649 : BitVec 32 := 1#32
  let arg17 : BitVec 32 := Scf.iv c0_i32_647 c1_i32_649 k1_t39
  let c8_i32_686 : BitVec 32 := 8#32
  let v567 : BitVec 32 := Scalar.muli arg17 c8_i32_686
  let v581 : BitVec 32 := Scalar.addi v567 c0_i32_691
  let v582 : Index := Scalar.indexCast v581
  let c16_692 : Index := 16#32
  ![v582.toNat, 16]
def k1_off303 (k1_t39 : Fin k1_t39_loop.trips) (c0_i32_693 : BitVec 32) : Fin 2 → Nat :=
  let c0_i32_647 : BitVec 32 := 0#32
  let c1_i32_649 : BitVec 32 := 1#32
  let arg17 : BitVec 32 := Scf.iv c0_i32_647 c1_i32_649 k1_t39
  let c8_i32_686 : BitVec 32 := 8#32
  let v567 : BitVec 32 := Scalar.muli arg17 c8_i32_686
  let v586 : BitVec 32 := Scalar.addi v567 c0_i32_693
  let v587 : Index := Scalar.indexCast v586
  let c32 : Index := 32#32
  ![v587.toNat, 32]
def k1_off304 (k1_t39 : Fin k1_t39_loop.trips) (c0_i32_694 : BitVec 32) : Fin 2 → Nat :=
  let c0_i32_647 : BitVec 32 := 0#32
  let c1_i32_649 : BitVec 32 := 1#32
  let arg17 : BitVec 32 := Scf.iv c0_i32_647 c1_i32_649 k1_t39
  let c8_i32_686 : BitVec 32 := 8#32
  let v567 : BitVec 32 := Scalar.muli arg17 c8_i32_686
  let v590 : BitVec 32 := Scalar.addi v567 c0_i32_694
  let v591 : Index := Scalar.indexCast v590
  let c32_695 : Index := 32#32
  ![v591.toNat, 32]
def k1_off305 (k1_t39 : Fin k1_t39_loop.trips) (c0_i32_696 : BitVec 32) : Fin 2 → Nat :=
  let c0_i32_647 : BitVec 32 := 0#32
  let c1_i32_649 : BitVec 32 := 1#32
  let arg17 : BitVec 32 := Scf.iv c0_i32_647 c1_i32_649 k1_t39
  let c8_i32_686 : BitVec 32 := 8#32
  let v567 : BitVec 32 := Scalar.muli arg17 c8_i32_686
  let v595 : BitVec 32 := Scalar.addi v567 c0_i32_696
  let v596 : Index := Scalar.indexCast v595
  let c48 : Index := 48#32
  ![v596.toNat, 48]
def k1_off306 (k1_t39 : Fin k1_t39_loop.trips) (c0_i32_697 : BitVec 32) : Fin 2 → Nat :=
  let c0_i32_647 : BitVec 32 := 0#32
  let c1_i32_649 : BitVec 32 := 1#32
  let arg17 : BitVec 32 := Scf.iv c0_i32_647 c1_i32_649 k1_t39
  let c8_i32_686 : BitVec 32 := 8#32
  let v567 : BitVec 32 := Scalar.muli arg17 c8_i32_686
  let v599 : BitVec 32 := Scalar.addi v567 c0_i32_697
  let v600 : Index := Scalar.indexCast v599
  let c48_698 : Index := 48#32
  ![v600.toNat, 48]
@[reducible] def k1_t40_loop : Scf.Loop 32 :=
  let c0_i32_661 : BitVec 32 := 0#32
  let c16_i32_662 : BitVec 32 := 16#32
  let v546 : BitVec 32 := Scalar.addi c0_i32_661 c16_i32_662
  let c1_i32_663 : BitVec 32 := 1#32
  ⟨c0_i32_661, v546, c1_i32_663⟩
def k1_off307 (k1_t40 : Fin k1_t40_loop.trips) (c0_i32_687 : BitVec 32) : Fin 2 → Nat :=
  let c0_i32_661 : BitVec 32 := 0#32
  let c1_i32_663 : BitVec 32 := 1#32
  let arg17 : BitVec 32 := Scf.iv c0_i32_661 c1_i32_663 k1_t40
  let c8_i32_686 : BitVec 32 := 8#32
  let v567 : BitVec 32 := Scalar.muli arg17 c8_i32_686
  let v568 : BitVec 32 := Scalar.addi v567 c0_i32_687
  let v569 : Index := Scalar.indexCast v568
  let c0 : Index := 0#32
  ![v569.toNat, 0]
def k1_off308 (k1_t40 : Fin k1_t40_loop.trips) (c0_i32_688 : BitVec 32) : Fin 2 → Nat :=
  let c0_i32_661 : BitVec 32 := 0#32
  let c1_i32_663 : BitVec 32 := 1#32
  let arg17 : BitVec 32 := Scf.iv c0_i32_661 c1_i32_663 k1_t40
  let c8_i32_686 : BitVec 32 := 8#32
  let v567 : BitVec 32 := Scalar.muli arg17 c8_i32_686
  let v572 : BitVec 32 := Scalar.addi v567 c0_i32_688
  let v573 : Index := Scalar.indexCast v572
  let c0_689 : Index := 0#32
  ![v573.toNat, 0]
def k1_off309 (k1_t40 : Fin k1_t40_loop.trips) (c0_i32_690 : BitVec 32) : Fin 2 → Nat :=
  let c0_i32_661 : BitVec 32 := 0#32
  let c1_i32_663 : BitVec 32 := 1#32
  let arg17 : BitVec 32 := Scf.iv c0_i32_661 c1_i32_663 k1_t40
  let c8_i32_686 : BitVec 32 := 8#32
  let v567 : BitVec 32 := Scalar.muli arg17 c8_i32_686
  let v577 : BitVec 32 := Scalar.addi v567 c0_i32_690
  let v578 : Index := Scalar.indexCast v577
  let c16 : Index := 16#32
  ![v578.toNat, 16]
def k1_off310 (k1_t40 : Fin k1_t40_loop.trips) (c0_i32_691 : BitVec 32) : Fin 2 → Nat :=
  let c0_i32_661 : BitVec 32 := 0#32
  let c1_i32_663 : BitVec 32 := 1#32
  let arg17 : BitVec 32 := Scf.iv c0_i32_661 c1_i32_663 k1_t40
  let c8_i32_686 : BitVec 32 := 8#32
  let v567 : BitVec 32 := Scalar.muli arg17 c8_i32_686
  let v581 : BitVec 32 := Scalar.addi v567 c0_i32_691
  let v582 : Index := Scalar.indexCast v581
  let c16_692 : Index := 16#32
  ![v582.toNat, 16]
def k1_off311 (k1_t40 : Fin k1_t40_loop.trips) (c0_i32_693 : BitVec 32) : Fin 2 → Nat :=
  let c0_i32_661 : BitVec 32 := 0#32
  let c1_i32_663 : BitVec 32 := 1#32
  let arg17 : BitVec 32 := Scf.iv c0_i32_661 c1_i32_663 k1_t40
  let c8_i32_686 : BitVec 32 := 8#32
  let v567 : BitVec 32 := Scalar.muli arg17 c8_i32_686
  let v586 : BitVec 32 := Scalar.addi v567 c0_i32_693
  let v587 : Index := Scalar.indexCast v586
  let c32 : Index := 32#32
  ![v587.toNat, 32]
def k1_off312 (k1_t40 : Fin k1_t40_loop.trips) (c0_i32_694 : BitVec 32) : Fin 2 → Nat :=
  let c0_i32_661 : BitVec 32 := 0#32
  let c1_i32_663 : BitVec 32 := 1#32
  let arg17 : BitVec 32 := Scf.iv c0_i32_661 c1_i32_663 k1_t40
  let c8_i32_686 : BitVec 32 := 8#32
  let v567 : BitVec 32 := Scalar.muli arg17 c8_i32_686
  let v590 : BitVec 32 := Scalar.addi v567 c0_i32_694
  let v591 : Index := Scalar.indexCast v590
  let c32_695 : Index := 32#32
  ![v591.toNat, 32]
def k1_off313 (k1_t40 : Fin k1_t40_loop.trips) (c0_i32_696 : BitVec 32) : Fin 2 → Nat :=
  let c0_i32_661 : BitVec 32 := 0#32
  let c1_i32_663 : BitVec 32 := 1#32
  let arg17 : BitVec 32 := Scf.iv c0_i32_661 c1_i32_663 k1_t40
  let c8_i32_686 : BitVec 32 := 8#32
  let v567 : BitVec 32 := Scalar.muli arg17 c8_i32_686
  let v595 : BitVec 32 := Scalar.addi v567 c0_i32_696
  let v596 : Index := Scalar.indexCast v595
  let c48 : Index := 48#32
  ![v596.toNat, 48]
def k1_off314 (k1_t40 : Fin k1_t40_loop.trips) (c0_i32_697 : BitVec 32) : Fin 2 → Nat :=
  let c0_i32_661 : BitVec 32 := 0#32
  let c1_i32_663 : BitVec 32 := 1#32
  let arg17 : BitVec 32 := Scf.iv c0_i32_661 c1_i32_663 k1_t40
  let c8_i32_686 : BitVec 32 := 8#32
  let v567 : BitVec 32 := Scalar.muli arg17 c8_i32_686
  let v599 : BitVec 32 := Scalar.addi v567 c0_i32_697
  let v600 : Index := Scalar.indexCast v599
  let c48_698 : Index := 48#32
  ![v600.toNat, 48]
@[reducible] def k1_t41_loop : Scf.Loop 32 :=
  let c0_i32_675 : BitVec 32 := 0#32
  let c16_i32_676 : BitVec 32 := 16#32
  let v557 : BitVec 32 := Scalar.addi c0_i32_675 c16_i32_676
  let c1_i32_677 : BitVec 32 := 1#32
  ⟨c0_i32_675, v557, c1_i32_677⟩
def k1_off315 (k1_t41 : Fin k1_t41_loop.trips) (c0_i32_687 : BitVec 32) : Fin 2 → Nat :=
  let c0_i32_675 : BitVec 32 := 0#32
  let c1_i32_677 : BitVec 32 := 1#32
  let arg17 : BitVec 32 := Scf.iv c0_i32_675 c1_i32_677 k1_t41
  let c8_i32_686 : BitVec 32 := 8#32
  let v567 : BitVec 32 := Scalar.muli arg17 c8_i32_686
  let v568 : BitVec 32 := Scalar.addi v567 c0_i32_687
  let v569 : Index := Scalar.indexCast v568
  let c0 : Index := 0#32
  ![v569.toNat, 0]
def k1_off316 (k1_t41 : Fin k1_t41_loop.trips) (c0_i32_688 : BitVec 32) : Fin 2 → Nat :=
  let c0_i32_675 : BitVec 32 := 0#32
  let c1_i32_677 : BitVec 32 := 1#32
  let arg17 : BitVec 32 := Scf.iv c0_i32_675 c1_i32_677 k1_t41
  let c8_i32_686 : BitVec 32 := 8#32
  let v567 : BitVec 32 := Scalar.muli arg17 c8_i32_686
  let v572 : BitVec 32 := Scalar.addi v567 c0_i32_688
  let v573 : Index := Scalar.indexCast v572
  let c0_689 : Index := 0#32
  ![v573.toNat, 0]
def k1_off317 (k1_t41 : Fin k1_t41_loop.trips) (c0_i32_690 : BitVec 32) : Fin 2 → Nat :=
  let c0_i32_675 : BitVec 32 := 0#32
  let c1_i32_677 : BitVec 32 := 1#32
  let arg17 : BitVec 32 := Scf.iv c0_i32_675 c1_i32_677 k1_t41
  let c8_i32_686 : BitVec 32 := 8#32
  let v567 : BitVec 32 := Scalar.muli arg17 c8_i32_686
  let v577 : BitVec 32 := Scalar.addi v567 c0_i32_690
  let v578 : Index := Scalar.indexCast v577
  let c16 : Index := 16#32
  ![v578.toNat, 16]
def k1_off318 (k1_t41 : Fin k1_t41_loop.trips) (c0_i32_691 : BitVec 32) : Fin 2 → Nat :=
  let c0_i32_675 : BitVec 32 := 0#32
  let c1_i32_677 : BitVec 32 := 1#32
  let arg17 : BitVec 32 := Scf.iv c0_i32_675 c1_i32_677 k1_t41
  let c8_i32_686 : BitVec 32 := 8#32
  let v567 : BitVec 32 := Scalar.muli arg17 c8_i32_686
  let v581 : BitVec 32 := Scalar.addi v567 c0_i32_691
  let v582 : Index := Scalar.indexCast v581
  let c16_692 : Index := 16#32
  ![v582.toNat, 16]
def k1_off319 (k1_t41 : Fin k1_t41_loop.trips) (c0_i32_693 : BitVec 32) : Fin 2 → Nat :=
  let c0_i32_675 : BitVec 32 := 0#32
  let c1_i32_677 : BitVec 32 := 1#32
  let arg17 : BitVec 32 := Scf.iv c0_i32_675 c1_i32_677 k1_t41
  let c8_i32_686 : BitVec 32 := 8#32
  let v567 : BitVec 32 := Scalar.muli arg17 c8_i32_686
  let v586 : BitVec 32 := Scalar.addi v567 c0_i32_693
  let v587 : Index := Scalar.indexCast v586
  let c32 : Index := 32#32
  ![v587.toNat, 32]
def k1_off320 (k1_t41 : Fin k1_t41_loop.trips) (c0_i32_694 : BitVec 32) : Fin 2 → Nat :=
  let c0_i32_675 : BitVec 32 := 0#32
  let c1_i32_677 : BitVec 32 := 1#32
  let arg17 : BitVec 32 := Scf.iv c0_i32_675 c1_i32_677 k1_t41
  let c8_i32_686 : BitVec 32 := 8#32
  let v567 : BitVec 32 := Scalar.muli arg17 c8_i32_686
  let v590 : BitVec 32 := Scalar.addi v567 c0_i32_694
  let v591 : Index := Scalar.indexCast v590
  let c32_695 : Index := 32#32
  ![v591.toNat, 32]
def k1_off321 (k1_t41 : Fin k1_t41_loop.trips) (c0_i32_696 : BitVec 32) : Fin 2 → Nat :=
  let c0_i32_675 : BitVec 32 := 0#32
  let c1_i32_677 : BitVec 32 := 1#32
  let arg17 : BitVec 32 := Scf.iv c0_i32_675 c1_i32_677 k1_t41
  let c8_i32_686 : BitVec 32 := 8#32
  let v567 : BitVec 32 := Scalar.muli arg17 c8_i32_686
  let v595 : BitVec 32 := Scalar.addi v567 c0_i32_696
  let v596 : Index := Scalar.indexCast v595
  let c48 : Index := 48#32
  ![v596.toNat, 48]
def k1_off322 (k1_t41 : Fin k1_t41_loop.trips) (c0_i32_697 : BitVec 32) : Fin 2 → Nat :=
  let c0_i32_675 : BitVec 32 := 0#32
  let c1_i32_677 : BitVec 32 := 1#32
  let arg17 : BitVec 32 := Scf.iv c0_i32_675 c1_i32_677 k1_t41
  let c8_i32_686 : BitVec 32 := 8#32
  let v567 : BitVec 32 := Scalar.muli arg17 c8_i32_686
  let v599 : BitVec 32 := Scalar.addi v567 c0_i32_697
  let v600 : Index := Scalar.indexCast v599
  let c48_698 : Index := 48#32
  ![v600.toNat, 48]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  inb_S5000x64_S5000x64_0_0 : ∀ a, (![0, 0] : Fin 2 → Nat) a + S5000x64.size a ≤ S5000x64.size a
  h_S5000x64 : 0 < S5000x64.numel
  inb_S5000x128_S5000x64_0_0 : ∀ a, (![0, 0] : Fin 2 → Nat) a + S5000x64.size a ≤ S5000x128.size a
  inb_S5000x128_S5000x64_0_64 : ∀ a, (![0, 64] : Fin 2 → Nat) a + S5000x64.size a ≤ S5000x128.size a
  shapeCasts_S4096x200_S6400x128 : S4096x200.ShapeCasts S6400x128
  inb_S40x128_S1x128_0_0 : ∀ a, (![0, 0] : Fin 2 → Nat) a + S1x128.size a ≤ S40x128.size a
  squeezes_S1x128_S128 : S1x128.Squeezes S128
  inb_S100000x128_S100000x128_0_0 : ∀ a, (![0, 0] : Fin 2 → Nat) a + S100000x128.size a ≤ S100000x128.size a
  gathers_S100000x128_S128x128 : S100000x128.Gathers 0 S128x128
  inb_S40x128_S1x128_1_0 : ∀ a, (![1, 0] : Fin 2 → Nat) a + S1x128.size a ≤ S40x128.size a
  inb_S40x128_S1x128_2_0 : ∀ a, (![2, 0] : Fin 2 → Nat) a + S1x128.size a ≤ S40x128.size a
  h_S1x16 : 0 < S1x16.numel
  shapeCasts_S1x16_S16 : S1x16.ShapeCasts S16
  shapeCasts_S16_S1x16 : S16.ShapeCasts S1x16
  inb_S40x128_S1x128_3_0 : ∀ a, (![3, 0] : Fin 2 → Nat) a + S1x128.size a ≤ S40x128.size a
  inb_S40x128_S1x128_4_0 : ∀ a, (![4, 0] : Fin 2 → Nat) a + S1x128.size a ≤ S40x128.size a
  inb_S40x128_S1x128_5_0 : ∀ a, (![5, 0] : Fin 2 → Nat) a + S1x128.size a ≤ S40x128.size a
  inb_S40x128_S1x128_6_0 : ∀ a, (![6, 0] : Fin 2 → Nat) a + S1x128.size a ≤ S40x128.size a
  inb_S40x128_S1x128_7_0 : ∀ a, (![7, 0] : Fin 2 → Nat) a + S1x128.size a ≤ S40x128.size a
  inb_S40x128_S1x128_8_0 : ∀ a, (![8, 0] : Fin 2 → Nat) a + S1x128.size a ≤ S40x128.size a
  inb_S40x128_S1x128_9_0 : ∀ a, (![9, 0] : Fin 2 → Nat) a + S1x128.size a ≤ S40x128.size a
  inb_S40x128_S1x128_10_0 : ∀ a, (![10, 0] : Fin 2 → Nat) a + S1x128.size a ≤ S40x128.size a
  inb_S40x128_S1x128_11_0 : ∀ a, (![11, 0] : Fin 2 → Nat) a + S1x128.size a ≤ S40x128.size a
  inb_S40x128_S1x128_12_0 : ∀ a, (![12, 0] : Fin 2 → Nat) a + S1x128.size a ≤ S40x128.size a
  inb_S40x128_S1x128_13_0 : ∀ a, (![13, 0] : Fin 2 → Nat) a + S1x128.size a ≤ S40x128.size a
  inb_S40x128_S1x128_14_0 : ∀ a, (![14, 0] : Fin 2 → Nat) a + S1x128.size a ≤ S40x128.size a
  inb_S40x128_S1x128_15_0 : ∀ a, (![15, 0] : Fin 2 → Nat) a + S1x128.size a ≤ S40x128.size a
  inb_S40x128_S1x128_16_0 : ∀ a, (![16, 0] : Fin 2 → Nat) a + S1x128.size a ≤ S40x128.size a
  inb_S40x128_S1x128_17_0 : ∀ a, (![17, 0] : Fin 2 → Nat) a + S1x128.size a ≤ S40x128.size a
  inb_S40x128_S1x128_18_0 : ∀ a, (![18, 0] : Fin 2 → Nat) a + S1x128.size a ≤ S40x128.size a
  inb_S40x128_S1x128_19_0 : ∀ a, (![19, 0] : Fin 2 → Nat) a + S1x128.size a ≤ S40x128.size a
  inb_S40x128_S1x128_20_0 : ∀ a, (![20, 0] : Fin 2 → Nat) a + S1x128.size a ≤ S40x128.size a
  inb_S40x128_S1x128_21_0 : ∀ a, (![21, 0] : Fin 2 → Nat) a + S1x128.size a ≤ S40x128.size a
  inb_S40x128_S1x128_22_0 : ∀ a, (![22, 0] : Fin 2 → Nat) a + S1x128.size a ≤ S40x128.size a
  inb_S40x128_S1x128_23_0 : ∀ a, (![23, 0] : Fin 2 → Nat) a + S1x128.size a ≤ S40x128.size a
  inb_S40x128_S1x128_24_0 : ∀ a, (![24, 0] : Fin 2 → Nat) a + S1x128.size a ≤ S40x128.size a
  inb_S40x128_S1x128_25_0 : ∀ a, (![25, 0] : Fin 2 → Nat) a + S1x128.size a ≤ S40x128.size a
  inb_S40x128_S1x128_26_0 : ∀ a, (![26, 0] : Fin 2 → Nat) a + S1x128.size a ≤ S40x128.size a
  inb_S40x128_S1x128_27_0 : ∀ a, (![27, 0] : Fin 2 → Nat) a + S1x128.size a ≤ S40x128.size a
  inb_S40x128_S1x128_28_0 : ∀ a, (![28, 0] : Fin 2 → Nat) a + S1x128.size a ≤ S40x128.size a
  inb_S40x128_S1x128_29_0 : ∀ a, (![29, 0] : Fin 2 → Nat) a + S1x128.size a ≤ S40x128.size a
  inb_S40x128_S1x128_30_0 : ∀ a, (![30, 0] : Fin 2 → Nat) a + S1x128.size a ≤ S40x128.size a
  inb_S40x128_S1x128_31_0 : ∀ a, (![31, 0] : Fin 2 → Nat) a + S1x128.size a ≤ S40x128.size a
  inb_S40x128_S1x128_32_0 : ∀ a, (![32, 0] : Fin 2 → Nat) a + S1x128.size a ≤ S40x128.size a
  inb_S40x128_S1x128_33_0 : ∀ a, (![33, 0] : Fin 2 → Nat) a + S1x128.size a ≤ S40x128.size a
  inb_S40x128_S1x128_34_0 : ∀ a, (![34, 0] : Fin 2 → Nat) a + S1x128.size a ≤ S40x128.size a
  inb_S40x128_S1x128_35_0 : ∀ a, (![35, 0] : Fin 2 → Nat) a + S1x128.size a ≤ S40x128.size a
  inb_S40x128_S1x128_36_0 : ∀ a, (![36, 0] : Fin 2 → Nat) a + S1x128.size a ≤ S40x128.size a
  inb_S40x128_S1x128_37_0 : ∀ a, (![37, 0] : Fin 2 → Nat) a + S1x128.size a ≤ S40x128.size a
  inb_S40x128_S1x128_38_0 : ∀ a, (![38, 0] : Fin 2 → Nat) a + S1x128.size a ≤ S40x128.size a
  inb_S40x128_S1x128_39_0 : ∀ a, (![39, 0] : Fin 2 → Nat) a + S1x128.size a ≤ S40x128.size a
  shapeCasts_S819200x64_S4096x200x64 : S819200x64.ShapeCasts S4096x200x64
  hcc1_scratch6 : 4 + S_.numel ≤ 10
  hcc1_scratch7 : 5 + S_.numel ≤ 10
  hcc1_scratch8 : 6 + S_.numel ≤ 10
  hcc1_scratch9 : 7 + S_.numel ≤ 10
  hcc1_scratch10 : 8 + S_.numel ≤ 10
  hcc1_scoped0 : 9 + S_.numel ≤ 10
  hscKind : ∀ q, scKind q ≠ .tc
  hscCore : ∀ q, scNCore q ≤ τ.nSC
  hscSub : ∀ q, scNSub q ≤ τ.nSub
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hcore1 : grid1.bound 0 ≤ τ.nSC
  hsub1 : grid1.bound 1 ≤ τ.nSub
  k1_t1_ok : k1_t1_loop.OK
  k1_off1_inb : ∀ (i : grid1.Coords) (k1_t1 : Fin k1_t1_loop.trips), ∀ a, (k1_off1 i k1_t1) a + S40x128.size a ≤ S6400x128.size a
  k1_t2_ok : k1_t2_loop.OK
  k1_off2_inb : ∀ k1_t2 : Fin k1_t2_loop.trips, ∀ (r : Fin 8), ∀ a, (k1_off2 k1_t2 (BitVec.ofNat 32 r.val)) a + S1x16.size a ≤ S128x128.size a
  k1_off3_inb : ∀ k1_t2 : Fin k1_t2_loop.trips, ∀ (r : Fin 8), ∀ a, (k1_off3 k1_t2 (BitVec.ofNat 32 r.val)) a + S1x16.size a ≤ S128x64.size a
  k1_off4_inb : ∀ k1_t2 : Fin k1_t2_loop.trips, ∀ (r : Fin 8), ∀ a, (k1_off4 k1_t2 (BitVec.ofNat 32 r.val)) a + S1x16.size a ≤ S128x128.size a
  k1_off5_inb : ∀ k1_t2 : Fin k1_t2_loop.trips, ∀ (r : Fin 8), ∀ a, (k1_off5 k1_t2 (BitVec.ofNat 32 r.val)) a + S1x16.size a ≤ S128x64.size a
  k1_off6_inb : ∀ k1_t2 : Fin k1_t2_loop.trips, ∀ (r : Fin 8), ∀ a, (k1_off6 k1_t2 (BitVec.ofNat 32 r.val)) a + S1x16.size a ≤ S128x128.size a
  k1_off7_inb : ∀ k1_t2 : Fin k1_t2_loop.trips, ∀ (r : Fin 8), ∀ a, (k1_off7 k1_t2 (BitVec.ofNat 32 r.val)) a + S1x16.size a ≤ S128x64.size a
  k1_off8_inb : ∀ k1_t2 : Fin k1_t2_loop.trips, ∀ (r : Fin 8), ∀ a, (k1_off8 k1_t2 (BitVec.ofNat 32 r.val)) a + S1x16.size a ≤ S128x128.size a
  k1_off9_inb : ∀ k1_t2 : Fin k1_t2_loop.trips, ∀ (r : Fin 8), ∀ a, (k1_off9 k1_t2 (BitVec.ofNat 32 r.val)) a + S1x16.size a ≤ S128x64.size a
  k1_off10_inb : ∀ (i : grid1.Coords) (k1_t1 : Fin k1_t1_loop.trips), ∀ (r : Fin 40), ∀ a, (k1_off10 i k1_t1 (BitVec.ofNat 32 (128 * r.val))) a + S128x64.size a ≤ S819200x64.size a
  k1_t3_ok : k1_t3_loop.OK
  k1_off11_inb : ∀ k1_t3 : Fin k1_t3_loop.trips, ∀ (r : Fin 8), ∀ a, (k1_off11 k1_t3 (BitVec.ofNat 32 r.val)) a + S1x16.size a ≤ S128x128.size a
  k1_off12_inb : ∀ k1_t3 : Fin k1_t3_loop.trips, ∀ (r : Fin 8), ∀ a, (k1_off12 k1_t3 (BitVec.ofNat 32 r.val)) a + S1x16.size a ≤ S128x64.size a
  k1_off13_inb : ∀ k1_t3 : Fin k1_t3_loop.trips, ∀ (r : Fin 8), ∀ a, (k1_off13 k1_t3 (BitVec.ofNat 32 r.val)) a + S1x16.size a ≤ S128x128.size a
  k1_off14_inb : ∀ k1_t3 : Fin k1_t3_loop.trips, ∀ (r : Fin 8), ∀ a, (k1_off14 k1_t3 (BitVec.ofNat 32 r.val)) a + S1x16.size a ≤ S128x64.size a
  k1_off15_inb : ∀ k1_t3 : Fin k1_t3_loop.trips, ∀ (r : Fin 8), ∀ a, (k1_off15 k1_t3 (BitVec.ofNat 32 r.val)) a + S1x16.size a ≤ S128x128.size a
  k1_off16_inb : ∀ k1_t3 : Fin k1_t3_loop.trips, ∀ (r : Fin 8), ∀ a, (k1_off16 k1_t3 (BitVec.ofNat 32 r.val)) a + S1x16.size a ≤ S128x64.size a
  k1_off17_inb : ∀ k1_t3 : Fin k1_t3_loop.trips, ∀ (r : Fin 8), ∀ a, (k1_off17 k1_t3 (BitVec.ofNat 32 r.val)) a + S1x16.size a ≤ S128x128.size a
  k1_off18_inb : ∀ k1_t3 : Fin k1_t3_loop.trips, ∀ (r : Fin 8), ∀ a, (k1_off18 k1_t3 (BitVec.ofNat 32 r.val)) a + S1x16.size a ≤ S128x64.size a
  k1_t4_ok : k1_t4_loop.OK
  k1_off19_inb : ∀ k1_t4 : Fin k1_t4_loop.trips, ∀ (r : Fin 8), ∀ a, (k1_off19 k1_t4 (BitVec.ofNat 32 r.val)) a + S1x16.size a ≤ S128x128.size a
  k1_off20_inb : ∀ k1_t4 : Fin k1_t4_loop.trips, ∀ (r : Fin 8), ∀ a, (k1_off20 k1_t4 (BitVec.ofNat 32 r.val)) a + S1x16.size a ≤ S128x64.size a
  k1_off21_inb : ∀ k1_t4 : Fin k1_t4_loop.trips, ∀ (r : Fin 8), ∀ a, (k1_off21 k1_t4 (BitVec.ofNat 32 r.val)) a + S1x16.size a ≤ S128x128.size a
  k1_off22_inb : ∀ k1_t4 : Fin k1_t4_loop.trips, ∀ (r : Fin 8), ∀ a, (k1_off22 k1_t4 (BitVec.ofNat 32 r.val)) a + S1x16.size a ≤ S128x64.size a
  k1_off23_inb : ∀ k1_t4 : Fin k1_t4_loop.trips, ∀ (r : Fin 8), ∀ a, (k1_off23 k1_t4 (BitVec.ofNat 32 r.val)) a + S1x16.size a ≤ S128x128.size a
  k1_off24_inb : ∀ k1_t4 : Fin k1_t4_loop.trips, ∀ (r : Fin 8), ∀ a, (k1_off24 k1_t4 (BitVec.ofNat 32 r.val)) a + S1x16.size a ≤ S128x64.size a
  k1_off25_inb : ∀ k1_t4 : Fin k1_t4_loop.trips, ∀ (r : Fin 8), ∀ a, (k1_off25 k1_t4 (BitVec.ofNat 32 r.val)) a + S1x16.size a ≤ S128x128.size a
  k1_off26_inb : ∀ k1_t4 : Fin k1_t4_loop.trips, ∀ (r : Fin 8), ∀ a, (k1_off26 k1_t4 (BitVec.ofNat 32 r.val)) a + S1x16.size a ≤ S128x64.size a
  k1_t5_ok : k1_t5_loop.OK
  k1_off27_inb : ∀ k1_t5 : Fin k1_t5_loop.trips, ∀ (r : Fin 8), ∀ a, (k1_off27 k1_t5 (BitVec.ofNat 32 r.val)) a + S1x16.size a ≤ S128x128.size a
  k1_off28_inb : ∀ k1_t5 : Fin k1_t5_loop.trips, ∀ (r : Fin 8), ∀ a, (k1_off28 k1_t5 (BitVec.ofNat 32 r.val)) a + S1x16.size a ≤ S128x64.size a
  k1_off29_inb : ∀ k1_t5 : Fin k1_t5_loop.trips, ∀ (r : Fin 8), ∀ a, (k1_off29 k1_t5 (BitVec.ofNat 32 r.val)) a + S1x16.size a ≤ S128x128.size a
  k1_off30_inb : ∀ k1_t5 : Fin k1_t5_loop.trips, ∀ (r : Fin 8), ∀ a, (k1_off30 k1_t5 (BitVec.ofNat 32 r.val)) a + S1x16.size a ≤ S128x64.size a
  k1_off31_inb : ∀ k1_t5 : Fin k1_t5_loop.trips, ∀ (r : Fin 8), ∀ a, (k1_off31 k1_t5 (BitVec.ofNat 32 r.val)) a + S1x16.size a ≤ S128x128.size a
  k1_off32_inb : ∀ k1_t5 : Fin k1_t5_loop.trips, ∀ (r : Fin 8), ∀ a, (k1_off32 k1_t5 (BitVec.ofNat 32 r.val)) a + S1x16.size a ≤ S128x64.size a
  k1_off33_inb : ∀ k1_t5 : Fin k1_t5_loop.trips, ∀ (r : Fin 8), ∀ a, (k1_off33 k1_t5 (BitVec.ofNat 32 r.val)) a + S1x16.size a ≤ S128x128.size a
  k1_off34_inb : ∀ k1_t5 : Fin k1_t5_loop.trips, ∀ (r : Fin 8), ∀ a, (k1_off34 k1_t5 (BitVec.ofNat 32 r.val)) a + S1x16.size a ≤ S128x64.size a
  k1_t6_ok : k1_t6_loop.OK
  k1_off35_inb : ∀ k1_t6 : Fin k1_t6_loop.trips, ∀ (r : Fin 8), ∀ a, (k1_off35 k1_t6 (BitVec.ofNat 32 r.val)) a + S1x16.size a ≤ S128x128.size a
  k1_off36_inb : ∀ k1_t6 : Fin k1_t6_loop.trips, ∀ (r : Fin 8), ∀ a, (k1_off36 k1_t6 (BitVec.ofNat 32 r.val)) a + S1x16.size a ≤ S128x64.size a
  k1_off37_inb : ∀ k1_t6 : Fin k1_t6_loop.trips, ∀ (r : Fin 8), ∀ a, (k1_off37 k1_t6 (BitVec.ofNat 32 r.val)) a + S1x16.size a ≤ S128x128.size a
  k1_off38_inb : ∀ k1_t6 : Fin k1_t6_loop.trips, ∀ (r : Fin 8), ∀ a, (k1_off38 k1_t6 (BitVec.ofNat 32 r.val)) a + S1x16.size a ≤ S128x64.size a
  k1_off39_inb : ∀ k1_t6 : Fin k1_t6_loop.trips, ∀ (r : Fin 8), ∀ a, (k1_off39 k1_t6 (BitVec.ofNat 32 r.val)) a + S1x16.size a ≤ S128x128.size a
  k1_off40_inb : ∀ k1_t6 : Fin k1_t6_loop.trips, ∀ (r : Fin 8), ∀ a, (k1_off40 k1_t6 (BitVec.ofNat 32 r.val)) a + S1x16.size a ≤ S128x64.size a
  k1_off41_inb : ∀ k1_t6 : Fin k1_t6_loop.trips, ∀ (r : Fin 8), ∀ a, (k1_off41 k1_t6 (BitVec.ofNat 32 r.val)) a + S1x16.size a ≤ S128x128.size a
  k1_off42_inb : ∀ k1_t6 : Fin k1_t6_loop.trips, ∀ (r : Fin 8), ∀ a, (k1_off42 k1_t6 (BitVec.ofNat 32 r.val)) a + S1x16.size a ≤ S128x64.size a
  k1_t7_ok : k1_t7_loop.OK
  k1_off43_inb : ∀ k1_t7 : Fin k1_t7_loop.trips, ∀ (r : Fin 8), ∀ a, (k1_off43 k1_t7 (BitVec.ofNat 32 r.val)) a + S1x16.size a ≤ S128x128.size a
  k1_off44_inb : ∀ k1_t7 : Fin k1_t7_loop.trips, ∀ (r : Fin 8), ∀ a, (k1_off44 k1_t7 (BitVec.ofNat 32 r.val)) a + S1x16.size a ≤ S128x64.size a
  k1_off45_inb : ∀ k1_t7 : Fin k1_t7_loop.trips, ∀ (r : Fin 8), ∀ a, (k1_off45 k1_t7 (BitVec.ofNat 32 r.val)) a + S1x16.size a ≤ S128x128.size a
  k1_off46_inb : ∀ k1_t7 : Fin k1_t7_loop.trips, ∀ (r : Fin 8), ∀ a, (k1_off46 k1_t7 (BitVec.ofNat 32 r.val)) a + S1x16.size a ≤ S128x64.size a
  k1_off47_inb : ∀ k1_t7 : Fin k1_t7_loop.trips, ∀ (r : Fin 8), ∀ a, (k1_off47 k1_t7 (BitVec.ofNat 32 r.val)) a + S1x16.size a ≤ S128x128.size a
  k1_off48_inb : ∀ k1_t7 : Fin k1_t7_loop.trips, ∀ (r : Fin 8), ∀ a, (k1_off48 k1_t7 (BitVec.ofNat 32 r.val)) a + S1x16.size a ≤ S128x64.size a
  k1_off49_inb : ∀ k1_t7 : Fin k1_t7_loop.trips, ∀ (r : Fin 8), ∀ a, (k1_off49 k1_t7 (BitVec.ofNat 32 r.val)) a + S1x16.size a ≤ S128x128.size a
  k1_off50_inb : ∀ k1_t7 : Fin k1_t7_loop.trips, ∀ (r : Fin 8), ∀ a, (k1_off50 k1_t7 (BitVec.ofNat 32 r.val)) a + S1x16.size a ≤ S128x64.size a
  k1_t8_ok : k1_t8_loop.OK
  k1_off51_inb : ∀ k1_t8 : Fin k1_t8_loop.trips, ∀ (r : Fin 8), ∀ a, (k1_off51 k1_t8 (BitVec.ofNat 32 r.val)) a + S1x16.size a ≤ S128x128.size a
  k1_off52_inb : ∀ k1_t8 : Fin k1_t8_loop.trips, ∀ (r : Fin 8), ∀ a, (k1_off52 k1_t8 (BitVec.ofNat 32 r.val)) a + S1x16.size a ≤ S128x64.size a
  k1_off53_inb : ∀ k1_t8 : Fin k1_t8_loop.trips, ∀ (r : Fin 8), ∀ a, (k1_off53 k1_t8 (BitVec.ofNat 32 r.val)) a + S1x16.size a ≤ S128x128.size a
  k1_off54_inb : ∀ k1_t8 : Fin k1_t8_loop.trips, ∀ (r : Fin 8), ∀ a, (k1_off54 k1_t8 (BitVec.ofNat 32 r.val)) a + S1x16.size a ≤ S128x64.size a
  k1_off55_inb : ∀ k1_t8 : Fin k1_t8_loop.trips, ∀ (r : Fin 8), ∀ a, (k1_off55 k1_t8 (BitVec.ofNat 32 r.val)) a + S1x16.size a ≤ S128x128.size a
  k1_off56_inb : ∀ k1_t8 : Fin k1_t8_loop.trips, ∀ (r : Fin 8), ∀ a, (k1_off56 k1_t8 (BitVec.ofNat 32 r.val)) a + S1x16.size a ≤ S128x64.size a
  k1_off57_inb : ∀ k1_t8 : Fin k1_t8_loop.trips, ∀ (r : Fin 8), ∀ a, (k1_off57 k1_t8 (BitVec.ofNat 32 r.val)) a + S1x16.size a ≤ S128x128.size a
  k1_off58_inb : ∀ k1_t8 : Fin k1_t8_loop.trips, ∀ (r : Fin 8), ∀ a, (k1_off58 k1_t8 (BitVec.ofNat 32 r.val)) a + S1x16.size a ≤ S128x64.size a
  k1_t9_ok : k1_t9_loop.OK
  k1_off59_inb : ∀ k1_t9 : Fin k1_t9_loop.trips, ∀ (r : Fin 8), ∀ a, (k1_off59 k1_t9 (BitVec.ofNat 32 r.val)) a + S1x16.size a ≤ S128x128.size a
  k1_off60_inb : ∀ k1_t9 : Fin k1_t9_loop.trips, ∀ (r : Fin 8), ∀ a, (k1_off60 k1_t9 (BitVec.ofNat 32 r.val)) a + S1x16.size a ≤ S128x64.size a
  k1_off61_inb : ∀ k1_t9 : Fin k1_t9_loop.trips, ∀ (r : Fin 8), ∀ a, (k1_off61 k1_t9 (BitVec.ofNat 32 r.val)) a + S1x16.size a ≤ S128x128.size a
  k1_off62_inb : ∀ k1_t9 : Fin k1_t9_loop.trips, ∀ (r : Fin 8), ∀ a, (k1_off62 k1_t9 (BitVec.ofNat 32 r.val)) a + S1x16.size a ≤ S128x64.size a
  k1_off63_inb : ∀ k1_t9 : Fin k1_t9_loop.trips, ∀ (r : Fin 8), ∀ a, (k1_off63 k1_t9 (BitVec.ofNat 32 r.val)) a + S1x16.size a ≤ S128x128.size a
  k1_off64_inb : ∀ k1_t9 : Fin k1_t9_loop.trips, ∀ (r : Fin 8), ∀ a, (k1_off64 k1_t9 (BitVec.ofNat 32 r.val)) a + S1x16.size a ≤ S128x64.size a
  k1_off65_inb : ∀ k1_t9 : Fin k1_t9_loop.trips, ∀ (r : Fin 8), ∀ a, (k1_off65 k1_t9 (BitVec.ofNat 32 r.val)) a + S1x16.size a ≤ S128x128.size a
  k1_off66_inb : ∀ k1_t9 : Fin k1_t9_loop.trips, ∀ (r : Fin 8), ∀ a, (k1_off66 k1_t9 (BitVec.ofNat 32 r.val)) a + S1x16.size a ≤ S128x64.size a
  k1_t10_ok : k1_t10_loop.OK
  k1_off67_inb : ∀ k1_t10 : Fin k1_t10_loop.trips, ∀ (r : Fin 8), ∀ a, (k1_off67 k1_t10 (BitVec.ofNat 32 r.val)) a + S1x16.size a ≤ S128x128.size a
  k1_off68_inb : ∀ k1_t10 : Fin k1_t10_loop.trips, ∀ (r : Fin 8), ∀ a, (k1_off68 k1_t10 (BitVec.ofNat 32 r.val)) a + S1x16.size a ≤ S128x64.size a
  k1_off69_inb : ∀ k1_t10 : Fin k1_t10_loop.trips, ∀ (r : Fin 8), ∀ a, (k1_off69 k1_t10 (BitVec.ofNat 32 r.val)) a + S1x16.size a ≤ S128x128.size a
  k1_off70_inb : ∀ k1_t10 : Fin k1_t10_loop.trips, ∀ (r : Fin 8), ∀ a, (k1_off70 k1_t10 (BitVec.ofNat 32 r.val)) a + S1x16.size a ≤ S128x64.size a
  k1_off71_inb : ∀ k1_t10 : Fin k1_t10_loop.trips, ∀ (r : Fin 8), ∀ a, (k1_off71 k1_t10 (BitVec.ofNat 32 r.val)) a + S1x16.size a ≤ S128x128.size a
  k1_off72_inb : ∀ k1_t10 : Fin k1_t10_loop.trips, ∀ (r : Fin 8), ∀ a, (k1_off72 k1_t10 (BitVec.ofNat 32 r.val)) a + S1x16.size a ≤ S128x64.size a
  k1_off73_inb : ∀ k1_t10 : Fin k1_t10_loop.trips, ∀ (r : Fin 8), ∀ a, (k1_off73 k1_t10 (BitVec.ofNat 32 r.val)) a + S1x16.size a ≤ S128x128.size a
  k1_off74_inb : ∀ k1_t10 : Fin k1_t10_loop.trips, ∀ (r : Fin 8), ∀ a, (k1_off74 k1_t10 (BitVec.ofNat 32 r.val)) a + S1x16.size a ≤ S128x64.size a
  k1_t11_ok : k1_t11_loop.OK
  k1_off75_inb : ∀ k1_t11 : Fin k1_t11_loop.trips, ∀ (r : Fin 8), ∀ a, (k1_off75 k1_t11 (BitVec.ofNat 32 r.val)) a + S1x16.size a ≤ S128x128.size a
  k1_off76_inb : ∀ k1_t11 : Fin k1_t11_loop.trips, ∀ (r : Fin 8), ∀ a, (k1_off76 k1_t11 (BitVec.ofNat 32 r.val)) a + S1x16.size a ≤ S128x64.size a
  k1_off77_inb : ∀ k1_t11 : Fin k1_t11_loop.trips, ∀ (r : Fin 8), ∀ a, (k1_off77 k1_t11 (BitVec.ofNat 32 r.val)) a + S1x16.size a ≤ S128x128.size a
  k1_off78_inb : ∀ k1_t11 : Fin k1_t11_loop.trips, ∀ (r : Fin 8), ∀ a, (k1_off78 k1_t11 (BitVec.ofNat 32 r.val)) a + S1x16.size a ≤ S128x64.size a
  k1_off79_inb : ∀ k1_t11 : Fin k1_t11_loop.trips, ∀ (r : Fin 8), ∀ a, (k1_off79 k1_t11 (BitVec.ofNat 32 r.val)) a + S1x16.size a ≤ S128x128.size a
  k1_off80_inb : ∀ k1_t11 : Fin k1_t11_loop.trips, ∀ (r : Fin 8), ∀ a, (k1_off80 k1_t11 (BitVec.ofNat 32 r.val)) a + S1x16.size a ≤ S128x64.size a
  k1_off81_inb : ∀ k1_t11 : Fin k1_t11_loop.trips, ∀ (r : Fin 8), ∀ a, (k1_off81 k1_t11 (BitVec.ofNat 32 r.val)) a + S1x16.size a ≤ S128x128.size a
  k1_off82_inb : ∀ k1_t11 : Fin k1_t11_loop.trips, ∀ (r : Fin 8), ∀ a, (k1_off82 k1_t11 (BitVec.ofNat 32 r.val)) a + S1x16.size a ≤ S128x64.size a
  k1_t12_ok : k1_t12_loop.OK
  k1_off83_inb : ∀ k1_t12 : Fin k1_t12_loop.trips, ∀ (r : Fin 8), ∀ a, (k1_off83 k1_t12 (BitVec.ofNat 32 r.val)) a + S1x16.size a ≤ S128x128.size a
  k1_off84_inb : ∀ k1_t12 : Fin k1_t12_loop.trips, ∀ (r : Fin 8), ∀ a, (k1_off84 k1_t12 (BitVec.ofNat 32 r.val)) a + S1x16.size a ≤ S128x64.size a
  k1_off85_inb : ∀ k1_t12 : Fin k1_t12_loop.trips, ∀ (r : Fin 8), ∀ a, (k1_off85 k1_t12 (BitVec.ofNat 32 r.val)) a + S1x16.size a ≤ S128x128.size a
  k1_off86_inb : ∀ k1_t12 : Fin k1_t12_loop.trips, ∀ (r : Fin 8), ∀ a, (k1_off86 k1_t12 (BitVec.ofNat 32 r.val)) a + S1x16.size a ≤ S128x64.size a
  k1_off87_inb : ∀ k1_t12 : Fin k1_t12_loop.trips, ∀ (r : Fin 8), ∀ a, (k1_off87 k1_t12 (BitVec.ofNat 32 r.val)) a + S1x16.size a ≤ S128x128.size a
  k1_off88_inb : ∀ k1_t12 : Fin k1_t12_loop.trips, ∀ (r : Fin 8), ∀ a, (k1_off88 k1_t12 (BitVec.ofNat 32 r.val)) a + S1x16.size a ≤ S128x64.size a
  k1_off89_inb : ∀ k1_t12 : Fin k1_t12_loop.trips, ∀ (r : Fin 8), ∀ a, (k1_off89 k1_t12 (BitVec.ofNat 32 r.val)) a + S1x16.size a ≤ S128x128.size a
  k1_off90_inb : ∀ k1_t12 : Fin k1_t12_loop.trips, ∀ (r : Fin 8), ∀ a, (k1_off90 k1_t12 (BitVec.ofNat 32 r.val)) a + S1x16.size a ≤ S128x64.size a
  k1_t13_ok : k1_t13_loop.OK
  k1_off91_inb : ∀ k1_t13 : Fin k1_t13_loop.trips, ∀ (r : Fin 8), ∀ a, (k1_off91 k1_t13 (BitVec.ofNat 32 r.val)) a + S1x16.size a ≤ S128x128.size a
  k1_off92_inb : ∀ k1_t13 : Fin k1_t13_loop.trips, ∀ (r : Fin 8), ∀ a, (k1_off92 k1_t13 (BitVec.ofNat 32 r.val)) a + S1x16.size a ≤ S128x64.size a
  k1_off93_inb : ∀ k1_t13 : Fin k1_t13_loop.trips, ∀ (r : Fin 8), ∀ a, (k1_off93 k1_t13 (BitVec.ofNat 32 r.val)) a + S1x16.size a ≤ S128x128.size a
  k1_off94_inb : ∀ k1_t13 : Fin k1_t13_loop.trips, ∀ (r : Fin 8), ∀ a, (k1_off94 k1_t13 (BitVec.ofNat 32 r.val)) a + S1x16.size a ≤ S128x64.size a
  k1_off95_inb : ∀ k1_t13 : Fin k1_t13_loop.trips, ∀ (r : Fin 8), ∀ a, (k1_off95 k1_t13 (BitVec.ofNat 32 r.val)) a + S1x16.size a ≤ S128x128.size a
  k1_off96_inb : ∀ k1_t13 : Fin k1_t13_loop.trips, ∀ (r : Fin 8), ∀ a, (k1_off96 k1_t13 (BitVec.ofNat 32 r.val)) a + S1x16.size a ≤ S128x64.size a
  k1_off97_inb : ∀ k1_t13 : Fin k1_t13_loop.trips, ∀ (r : Fin 8), ∀ a, (k1_off97 k1_t13 (BitVec.ofNat 32 r.val)) a + S1x16.size a ≤ S128x128.size a
  k1_off98_inb : ∀ k1_t13 : Fin k1_t13_loop.trips, ∀ (r : Fin 8), ∀ a, (k1_off98 k1_t13 (BitVec.ofNat 32 r.val)) a + S1x16.size a ≤ S128x64.size a
  k1_t14_ok : k1_t14_loop.OK
  k1_off99_inb : ∀ k1_t14 : Fin k1_t14_loop.trips, ∀ (r : Fin 8), ∀ a, (k1_off99 k1_t14 (BitVec.ofNat 32 r.val)) a + S1x16.size a ≤ S128x128.size a
  k1_off100_inb : ∀ k1_t14 : Fin k1_t14_loop.trips, ∀ (r : Fin 8), ∀ a, (k1_off100 k1_t14 (BitVec.ofNat 32 r.val)) a + S1x16.size a ≤ S128x64.size a
  k1_off101_inb : ∀ k1_t14 : Fin k1_t14_loop.trips, ∀ (r : Fin 8), ∀ a, (k1_off101 k1_t14 (BitVec.ofNat 32 r.val)) a + S1x16.size a ≤ S128x128.size a
  k1_off102_inb : ∀ k1_t14 : Fin k1_t14_loop.trips, ∀ (r : Fin 8), ∀ a, (k1_off102 k1_t14 (BitVec.ofNat 32 r.val)) a + S1x16.size a ≤ S128x64.size a
  k1_off103_inb : ∀ k1_t14 : Fin k1_t14_loop.trips, ∀ (r : Fin 8), ∀ a, (k1_off103 k1_t14 (BitVec.ofNat 32 r.val)) a + S1x16.size a ≤ S128x128.size a
  k1_off104_inb : ∀ k1_t14 : Fin k1_t14_loop.trips, ∀ (r : Fin 8), ∀ a, (k1_off104 k1_t14 (BitVec.ofNat 32 r.val)) a + S1x16.size a ≤ S128x64.size a
  k1_off105_inb : ∀ k1_t14 : Fin k1_t14_loop.trips, ∀ (r : Fin 8), ∀ a, (k1_off105 k1_t14 (BitVec.ofNat 32 r.val)) a + S1x16.size a ≤ S128x128.size a
  k1_off106_inb : ∀ k1_t14 : Fin k1_t14_loop.trips, ∀ (r : Fin 8), ∀ a, (k1_off106 k1_t14 (BitVec.ofNat 32 r.val)) a + S1x16.size a ≤ S128x64.size a
  k1_t15_ok : k1_t15_loop.OK
  k1_off107_inb : ∀ k1_t15 : Fin k1_t15_loop.trips, ∀ (r : Fin 8), ∀ a, (k1_off107 k1_t15 (BitVec.ofNat 32 r.val)) a + S1x16.size a ≤ S128x128.size a
  k1_off108_inb : ∀ k1_t15 : Fin k1_t15_loop.trips, ∀ (r : Fin 8), ∀ a, (k1_off108 k1_t15 (BitVec.ofNat 32 r.val)) a + S1x16.size a ≤ S128x64.size a
  k1_off109_inb : ∀ k1_t15 : Fin k1_t15_loop.trips, ∀ (r : Fin 8), ∀ a, (k1_off109 k1_t15 (BitVec.ofNat 32 r.val)) a + S1x16.size a ≤ S128x128.size a
  k1_off110_inb : ∀ k1_t15 : Fin k1_t15_loop.trips, ∀ (r : Fin 8), ∀ a, (k1_off110 k1_t15 (BitVec.ofNat 32 r.val)) a + S1x16.size a ≤ S128x64.size a
  k1_off111_inb : ∀ k1_t15 : Fin k1_t15_loop.trips, ∀ (r : Fin 8), ∀ a, (k1_off111 k1_t15 (BitVec.ofNat 32 r.val)) a + S1x16.size a ≤ S128x128.size a
  k1_off112_inb : ∀ k1_t15 : Fin k1_t15_loop.trips, ∀ (r : Fin 8), ∀ a, (k1_off112 k1_t15 (BitVec.ofNat 32 r.val)) a + S1x16.size a ≤ S128x64.size a
  k1_off113_inb : ∀ k1_t15 : Fin k1_t15_loop.trips, ∀ (r : Fin 8), ∀ a, (k1_off113 k1_t15 (BitVec.ofNat 32 r.val)) a + S1x16.size a ≤ S128x128.size a
  k1_off114_inb : ∀ k1_t15 : Fin k1_t15_loop.trips, ∀ (r : Fin 8), ∀ a, (k1_off114 k1_t15 (BitVec.ofNat 32 r.val)) a + S1x16.size a ≤ S128x64.size a
  k1_t16_ok : k1_t16_loop.OK
  k1_off115_inb : ∀ k1_t16 : Fin k1_t16_loop.trips, ∀ (r : Fin 8), ∀ a, (k1_off115 k1_t16 (BitVec.ofNat 32 r.val)) a + S1x16.size a ≤ S128x128.size a
  k1_off116_inb : ∀ k1_t16 : Fin k1_t16_loop.trips, ∀ (r : Fin 8), ∀ a, (k1_off116 k1_t16 (BitVec.ofNat 32 r.val)) a + S1x16.size a ≤ S128x64.size a
  k1_off117_inb : ∀ k1_t16 : Fin k1_t16_loop.trips, ∀ (r : Fin 8), ∀ a, (k1_off117 k1_t16 (BitVec.ofNat 32 r.val)) a + S1x16.size a ≤ S128x128.size a
  k1_off118_inb : ∀ k1_t16 : Fin k1_t16_loop.trips, ∀ (r : Fin 8), ∀ a, (k1_off118 k1_t16 (BitVec.ofNat 32 r.val)) a + S1x16.size a ≤ S128x64.size a
  k1_off119_inb : ∀ k1_t16 : Fin k1_t16_loop.trips, ∀ (r : Fin 8), ∀ a, (k1_off119 k1_t16 (BitVec.ofNat 32 r.val)) a + S1x16.size a ≤ S128x128.size a
  k1_off120_inb : ∀ k1_t16 : Fin k1_t16_loop.trips, ∀ (r : Fin 8), ∀ a, (k1_off120 k1_t16 (BitVec.ofNat 32 r.val)) a + S1x16.size a ≤ S128x64.size a
  k1_off121_inb : ∀ k1_t16 : Fin k1_t16_loop.trips, ∀ (r : Fin 8), ∀ a, (k1_off121 k1_t16 (BitVec.ofNat 32 r.val)) a + S1x16.size a ≤ S128x128.size a
  k1_off122_inb : ∀ k1_t16 : Fin k1_t16_loop.trips, ∀ (r : Fin 8), ∀ a, (k1_off122 k1_t16 (BitVec.ofNat 32 r.val)) a + S1x16.size a ≤ S128x64.size a
  k1_t17_ok : k1_t17_loop.OK
  k1_off123_inb : ∀ k1_t17 : Fin k1_t17_loop.trips, ∀ (r : Fin 8), ∀ a, (k1_off123 k1_t17 (BitVec.ofNat 32 r.val)) a + S1x16.size a ≤ S128x128.size a
  k1_off124_inb : ∀ k1_t17 : Fin k1_t17_loop.trips, ∀ (r : Fin 8), ∀ a, (k1_off124 k1_t17 (BitVec.ofNat 32 r.val)) a + S1x16.size a ≤ S128x64.size a
  k1_off125_inb : ∀ k1_t17 : Fin k1_t17_loop.trips, ∀ (r : Fin 8), ∀ a, (k1_off125 k1_t17 (BitVec.ofNat 32 r.val)) a + S1x16.size a ≤ S128x128.size a
  k1_off126_inb : ∀ k1_t17 : Fin k1_t17_loop.trips, ∀ (r : Fin 8), ∀ a, (k1_off126 k1_t17 (BitVec.ofNat 32 r.val)) a + S1x16.size a ≤ S128x64.size a
  k1_off127_inb : ∀ k1_t17 : Fin k1_t17_loop.trips, ∀ (r : Fin 8), ∀ a, (k1_off127 k1_t17 (BitVec.ofNat 32 r.val)) a + S1x16.size a ≤ S128x128.size a
  k1_off128_inb : ∀ k1_t17 : Fin k1_t17_loop.trips, ∀ (r : Fin 8), ∀ a, (k1_off128 k1_t17 (BitVec.ofNat 32 r.val)) a + S1x16.size a ≤ S128x64.size a
  k1_off129_inb : ∀ k1_t17 : Fin k1_t17_loop.trips, ∀ (r : Fin 8), ∀ a, (k1_off129 k1_t17 (BitVec.ofNat 32 r.val)) a + S1x16.size a ≤ S128x128.size a
  k1_off130_inb : ∀ k1_t17 : Fin k1_t17_loop.trips, ∀ (r : Fin 8), ∀ a, (k1_off130 k1_t17 (BitVec.ofNat 32 r.val)) a + S1x16.size a ≤ S128x64.size a
  k1_t18_ok : k1_t18_loop.OK
  k1_off131_inb : ∀ k1_t18 : Fin k1_t18_loop.trips, ∀ (r : Fin 8), ∀ a, (k1_off131 k1_t18 (BitVec.ofNat 32 r.val)) a + S1x16.size a ≤ S128x128.size a
  k1_off132_inb : ∀ k1_t18 : Fin k1_t18_loop.trips, ∀ (r : Fin 8), ∀ a, (k1_off132 k1_t18 (BitVec.ofNat 32 r.val)) a + S1x16.size a ≤ S128x64.size a
  k1_off133_inb : ∀ k1_t18 : Fin k1_t18_loop.trips, ∀ (r : Fin 8), ∀ a, (k1_off133 k1_t18 (BitVec.ofNat 32 r.val)) a + S1x16.size a ≤ S128x128.size a
  k1_off134_inb : ∀ k1_t18 : Fin k1_t18_loop.trips, ∀ (r : Fin 8), ∀ a, (k1_off134 k1_t18 (BitVec.ofNat 32 r.val)) a + S1x16.size a ≤ S128x64.size a
  k1_off135_inb : ∀ k1_t18 : Fin k1_t18_loop.trips, ∀ (r : Fin 8), ∀ a, (k1_off135 k1_t18 (BitVec.ofNat 32 r.val)) a + S1x16.size a ≤ S128x128.size a
  k1_off136_inb : ∀ k1_t18 : Fin k1_t18_loop.trips, ∀ (r : Fin 8), ∀ a, (k1_off136 k1_t18 (BitVec.ofNat 32 r.val)) a + S1x16.size a ≤ S128x64.size a
  k1_off137_inb : ∀ k1_t18 : Fin k1_t18_loop.trips, ∀ (r : Fin 8), ∀ a, (k1_off137 k1_t18 (BitVec.ofNat 32 r.val)) a + S1x16.size a ≤ S128x128.size a
  k1_off138_inb : ∀ k1_t18 : Fin k1_t18_loop.trips, ∀ (r : Fin 8), ∀ a, (k1_off138 k1_t18 (BitVec.ofNat 32 r.val)) a + S1x16.size a ≤ S128x64.size a
  k1_t19_ok : k1_t19_loop.OK
  k1_off139_inb : ∀ k1_t19 : Fin k1_t19_loop.trips, ∀ (r : Fin 8), ∀ a, (k1_off139 k1_t19 (BitVec.ofNat 32 r.val)) a + S1x16.size a ≤ S128x128.size a
  k1_off140_inb : ∀ k1_t19 : Fin k1_t19_loop.trips, ∀ (r : Fin 8), ∀ a, (k1_off140 k1_t19 (BitVec.ofNat 32 r.val)) a + S1x16.size a ≤ S128x64.size a
  k1_off141_inb : ∀ k1_t19 : Fin k1_t19_loop.trips, ∀ (r : Fin 8), ∀ a, (k1_off141 k1_t19 (BitVec.ofNat 32 r.val)) a + S1x16.size a ≤ S128x128.size a
  k1_off142_inb : ∀ k1_t19 : Fin k1_t19_loop.trips, ∀ (r : Fin 8), ∀ a, (k1_off142 k1_t19 (BitVec.ofNat 32 r.val)) a + S1x16.size a ≤ S128x64.size a
  k1_off143_inb : ∀ k1_t19 : Fin k1_t19_loop.trips, ∀ (r : Fin 8), ∀ a, (k1_off143 k1_t19 (BitVec.ofNat 32 r.val)) a + S1x16.size a ≤ S128x128.size a
  k1_off144_inb : ∀ k1_t19 : Fin k1_t19_loop.trips, ∀ (r : Fin 8), ∀ a, (k1_off144 k1_t19 (BitVec.ofNat 32 r.val)) a + S1x16.size a ≤ S128x64.size a
  k1_off145_inb : ∀ k1_t19 : Fin k1_t19_loop.trips, ∀ (r : Fin 8), ∀ a, (k1_off145 k1_t19 (BitVec.ofNat 32 r.val)) a + S1x16.size a ≤ S128x128.size a
  k1_off146_inb : ∀ k1_t19 : Fin k1_t19_loop.trips, ∀ (r : Fin 8), ∀ a, (k1_off146 k1_t19 (BitVec.ofNat 32 r.val)) a + S1x16.size a ≤ S128x64.size a
  k1_t20_ok : k1_t20_loop.OK
  k1_off147_inb : ∀ k1_t20 : Fin k1_t20_loop.trips, ∀ (r : Fin 8), ∀ a, (k1_off147 k1_t20 (BitVec.ofNat 32 r.val)) a + S1x16.size a ≤ S128x128.size a
  k1_off148_inb : ∀ k1_t20 : Fin k1_t20_loop.trips, ∀ (r : Fin 8), ∀ a, (k1_off148 k1_t20 (BitVec.ofNat 32 r.val)) a + S1x16.size a ≤ S128x64.size a
  k1_off149_inb : ∀ k1_t20 : Fin k1_t20_loop.trips, ∀ (r : Fin 8), ∀ a, (k1_off149 k1_t20 (BitVec.ofNat 32 r.val)) a + S1x16.size a ≤ S128x128.size a
  k1_off150_inb : ∀ k1_t20 : Fin k1_t20_loop.trips, ∀ (r : Fin 8), ∀ a, (k1_off150 k1_t20 (BitVec.ofNat 32 r.val)) a + S1x16.size a ≤ S128x64.size a
  k1_off151_inb : ∀ k1_t20 : Fin k1_t20_loop.trips, ∀ (r : Fin 8), ∀ a, (k1_off151 k1_t20 (BitVec.ofNat 32 r.val)) a + S1x16.size a ≤ S128x128.size a
  k1_off152_inb : ∀ k1_t20 : Fin k1_t20_loop.trips, ∀ (r : Fin 8), ∀ a, (k1_off152 k1_t20 (BitVec.ofNat 32 r.val)) a + S1x16.size a ≤ S128x64.size a
  k1_off153_inb : ∀ k1_t20 : Fin k1_t20_loop.trips, ∀ (r : Fin 8), ∀ a, (k1_off153 k1_t20 (BitVec.ofNat 32 r.val)) a + S1x16.size a ≤ S128x128.size a
  k1_off154_inb : ∀ k1_t20 : Fin k1_t20_loop.trips, ∀ (r : Fin 8), ∀ a, (k1_off154 k1_t20 (BitVec.ofNat 32 r.val)) a + S1x16.size a ≤ S128x64.size a
  k1_t21_ok : k1_t21_loop.OK
  k1_off155_inb : ∀ k1_t21 : Fin k1_t21_loop.trips, ∀ (r : Fin 8), ∀ a, (k1_off155 k1_t21 (BitVec.ofNat 32 r.val)) a + S1x16.size a ≤ S128x128.size a
  k1_off156_inb : ∀ k1_t21 : Fin k1_t21_loop.trips, ∀ (r : Fin 8), ∀ a, (k1_off156 k1_t21 (BitVec.ofNat 32 r.val)) a + S1x16.size a ≤ S128x64.size a
  k1_off157_inb : ∀ k1_t21 : Fin k1_t21_loop.trips, ∀ (r : Fin 8), ∀ a, (k1_off157 k1_t21 (BitVec.ofNat 32 r.val)) a + S1x16.size a ≤ S128x128.size a
  k1_off158_inb : ∀ k1_t21 : Fin k1_t21_loop.trips, ∀ (r : Fin 8), ∀ a, (k1_off158 k1_t21 (BitVec.ofNat 32 r.val)) a + S1x16.size a ≤ S128x64.size a
  k1_off159_inb : ∀ k1_t21 : Fin k1_t21_loop.trips, ∀ (r : Fin 8), ∀ a, (k1_off159 k1_t21 (BitVec.ofNat 32 r.val)) a + S1x16.size a ≤ S128x128.size a
  k1_off160_inb : ∀ k1_t21 : Fin k1_t21_loop.trips, ∀ (r : Fin 8), ∀ a, (k1_off160 k1_t21 (BitVec.ofNat 32 r.val)) a + S1x16.size a ≤ S128x64.size a
  k1_off161_inb : ∀ k1_t21 : Fin k1_t21_loop.trips, ∀ (r : Fin 8), ∀ a, (k1_off161 k1_t21 (BitVec.ofNat 32 r.val)) a + S1x16.size a ≤ S128x128.size a
  k1_off162_inb : ∀ k1_t21 : Fin k1_t21_loop.trips, ∀ (r : Fin 8), ∀ a, (k1_off162 k1_t21 (BitVec.ofNat 32 r.val)) a + S1x16.size a ≤ S128x64.size a
  k1_t22_ok : k1_t22_loop.OK
  k1_off163_inb : ∀ k1_t22 : Fin k1_t22_loop.trips, ∀ (r : Fin 8), ∀ a, (k1_off163 k1_t22 (BitVec.ofNat 32 r.val)) a + S1x16.size a ≤ S128x128.size a
  k1_off164_inb : ∀ k1_t22 : Fin k1_t22_loop.trips, ∀ (r : Fin 8), ∀ a, (k1_off164 k1_t22 (BitVec.ofNat 32 r.val)) a + S1x16.size a ≤ S128x64.size a
  k1_off165_inb : ∀ k1_t22 : Fin k1_t22_loop.trips, ∀ (r : Fin 8), ∀ a, (k1_off165 k1_t22 (BitVec.ofNat 32 r.val)) a + S1x16.size a ≤ S128x128.size a
  k1_off166_inb : ∀ k1_t22 : Fin k1_t22_loop.trips, ∀ (r : Fin 8), ∀ a, (k1_off166 k1_t22 (BitVec.ofNat 32 r.val)) a + S1x16.size a ≤ S128x64.size a
  k1_off167_inb : ∀ k1_t22 : Fin k1_t22_loop.trips, ∀ (r : Fin 8), ∀ a, (k1_off167 k1_t22 (BitVec.ofNat 32 r.val)) a + S1x16.size a ≤ S128x128.size a
  k1_off168_inb : ∀ k1_t22 : Fin k1_t22_loop.trips, ∀ (r : Fin 8), ∀ a, (k1_off168 k1_t22 (BitVec.ofNat 32 r.val)) a + S1x16.size a ≤ S128x64.size a
  k1_off169_inb : ∀ k1_t22 : Fin k1_t22_loop.trips, ∀ (r : Fin 8), ∀ a, (k1_off169 k1_t22 (BitVec.ofNat 32 r.val)) a + S1x16.size a ≤ S128x128.size a
  k1_off170_inb : ∀ k1_t22 : Fin k1_t22_loop.trips, ∀ (r : Fin 8), ∀ a, (k1_off170 k1_t22 (BitVec.ofNat 32 r.val)) a + S1x16.size a ≤ S128x64.size a
  k1_t23_ok : k1_t23_loop.OK
  k1_off171_inb : ∀ k1_t23 : Fin k1_t23_loop.trips, ∀ (r : Fin 8), ∀ a, (k1_off171 k1_t23 (BitVec.ofNat 32 r.val)) a + S1x16.size a ≤ S128x128.size a
  k1_off172_inb : ∀ k1_t23 : Fin k1_t23_loop.trips, ∀ (r : Fin 8), ∀ a, (k1_off172 k1_t23 (BitVec.ofNat 32 r.val)) a + S1x16.size a ≤ S128x64.size a
  k1_off173_inb : ∀ k1_t23 : Fin k1_t23_loop.trips, ∀ (r : Fin 8), ∀ a, (k1_off173 k1_t23 (BitVec.ofNat 32 r.val)) a + S1x16.size a ≤ S128x128.size a
  k1_off174_inb : ∀ k1_t23 : Fin k1_t23_loop.trips, ∀ (r : Fin 8), ∀ a, (k1_off174 k1_t23 (BitVec.ofNat 32 r.val)) a + S1x16.size a ≤ S128x64.size a
  k1_off175_inb : ∀ k1_t23 : Fin k1_t23_loop.trips, ∀ (r : Fin 8), ∀ a, (k1_off175 k1_t23 (BitVec.ofNat 32 r.val)) a + S1x16.size a ≤ S128x128.size a
  k1_off176_inb : ∀ k1_t23 : Fin k1_t23_loop.trips, ∀ (r : Fin 8), ∀ a, (k1_off176 k1_t23 (BitVec.ofNat 32 r.val)) a + S1x16.size a ≤ S128x64.size a
  k1_off177_inb : ∀ k1_t23 : Fin k1_t23_loop.trips, ∀ (r : Fin 8), ∀ a, (k1_off177 k1_t23 (BitVec.ofNat 32 r.val)) a + S1x16.size a ≤ S128x128.size a
  k1_off178_inb : ∀ k1_t23 : Fin k1_t23_loop.trips, ∀ (r : Fin 8), ∀ a, (k1_off178 k1_t23 (BitVec.ofNat 32 r.val)) a + S1x16.size a ≤ S128x64.size a
  k1_t24_ok : k1_t24_loop.OK
  k1_off179_inb : ∀ k1_t24 : Fin k1_t24_loop.trips, ∀ (r : Fin 8), ∀ a, (k1_off179 k1_t24 (BitVec.ofNat 32 r.val)) a + S1x16.size a ≤ S128x128.size a
  k1_off180_inb : ∀ k1_t24 : Fin k1_t24_loop.trips, ∀ (r : Fin 8), ∀ a, (k1_off180 k1_t24 (BitVec.ofNat 32 r.val)) a + S1x16.size a ≤ S128x64.size a
  k1_off181_inb : ∀ k1_t24 : Fin k1_t24_loop.trips, ∀ (r : Fin 8), ∀ a, (k1_off181 k1_t24 (BitVec.ofNat 32 r.val)) a + S1x16.size a ≤ S128x128.size a
  k1_off182_inb : ∀ k1_t24 : Fin k1_t24_loop.trips, ∀ (r : Fin 8), ∀ a, (k1_off182 k1_t24 (BitVec.ofNat 32 r.val)) a + S1x16.size a ≤ S128x64.size a
  k1_off183_inb : ∀ k1_t24 : Fin k1_t24_loop.trips, ∀ (r : Fin 8), ∀ a, (k1_off183 k1_t24 (BitVec.ofNat 32 r.val)) a + S1x16.size a ≤ S128x128.size a
  k1_off184_inb : ∀ k1_t24 : Fin k1_t24_loop.trips, ∀ (r : Fin 8), ∀ a, (k1_off184 k1_t24 (BitVec.ofNat 32 r.val)) a + S1x16.size a ≤ S128x64.size a
  k1_off185_inb : ∀ k1_t24 : Fin k1_t24_loop.trips, ∀ (r : Fin 8), ∀ a, (k1_off185 k1_t24 (BitVec.ofNat 32 r.val)) a + S1x16.size a ≤ S128x128.size a
  k1_off186_inb : ∀ k1_t24 : Fin k1_t24_loop.trips, ∀ (r : Fin 8), ∀ a, (k1_off186 k1_t24 (BitVec.ofNat 32 r.val)) a + S1x16.size a ≤ S128x64.size a
  k1_t25_ok : k1_t25_loop.OK
  k1_off187_inb : ∀ k1_t25 : Fin k1_t25_loop.trips, ∀ (r : Fin 8), ∀ a, (k1_off187 k1_t25 (BitVec.ofNat 32 r.val)) a + S1x16.size a ≤ S128x128.size a
  k1_off188_inb : ∀ k1_t25 : Fin k1_t25_loop.trips, ∀ (r : Fin 8), ∀ a, (k1_off188 k1_t25 (BitVec.ofNat 32 r.val)) a + S1x16.size a ≤ S128x64.size a
  k1_off189_inb : ∀ k1_t25 : Fin k1_t25_loop.trips, ∀ (r : Fin 8), ∀ a, (k1_off189 k1_t25 (BitVec.ofNat 32 r.val)) a + S1x16.size a ≤ S128x128.size a
  k1_off190_inb : ∀ k1_t25 : Fin k1_t25_loop.trips, ∀ (r : Fin 8), ∀ a, (k1_off190 k1_t25 (BitVec.ofNat 32 r.val)) a + S1x16.size a ≤ S128x64.size a
  k1_off191_inb : ∀ k1_t25 : Fin k1_t25_loop.trips, ∀ (r : Fin 8), ∀ a, (k1_off191 k1_t25 (BitVec.ofNat 32 r.val)) a + S1x16.size a ≤ S128x128.size a
  k1_off192_inb : ∀ k1_t25 : Fin k1_t25_loop.trips, ∀ (r : Fin 8), ∀ a, (k1_off192 k1_t25 (BitVec.ofNat 32 r.val)) a + S1x16.size a ≤ S128x64.size a
  k1_off193_inb : ∀ k1_t25 : Fin k1_t25_loop.trips, ∀ (r : Fin 8), ∀ a, (k1_off193 k1_t25 (BitVec.ofNat 32 r.val)) a + S1x16.size a ≤ S128x128.size a
  k1_off194_inb : ∀ k1_t25 : Fin k1_t25_loop.trips, ∀ (r : Fin 8), ∀ a, (k1_off194 k1_t25 (BitVec.ofNat 32 r.val)) a + S1x16.size a ≤ S128x64.size a
  k1_t26_ok : k1_t26_loop.OK
  k1_off195_inb : ∀ k1_t26 : Fin k1_t26_loop.trips, ∀ (r : Fin 8), ∀ a, (k1_off195 k1_t26 (BitVec.ofNat 32 r.val)) a + S1x16.size a ≤ S128x128.size a
  k1_off196_inb : ∀ k1_t26 : Fin k1_t26_loop.trips, ∀ (r : Fin 8), ∀ a, (k1_off196 k1_t26 (BitVec.ofNat 32 r.val)) a + S1x16.size a ≤ S128x64.size a
  k1_off197_inb : ∀ k1_t26 : Fin k1_t26_loop.trips, ∀ (r : Fin 8), ∀ a, (k1_off197 k1_t26 (BitVec.ofNat 32 r.val)) a + S1x16.size a ≤ S128x128.size a
  k1_off198_inb : ∀ k1_t26 : Fin k1_t26_loop.trips, ∀ (r : Fin 8), ∀ a, (k1_off198 k1_t26 (BitVec.ofNat 32 r.val)) a + S1x16.size a ≤ S128x64.size a
  k1_off199_inb : ∀ k1_t26 : Fin k1_t26_loop.trips, ∀ (r : Fin 8), ∀ a, (k1_off199 k1_t26 (BitVec.ofNat 32 r.val)) a + S1x16.size a ≤ S128x128.size a
  k1_off200_inb : ∀ k1_t26 : Fin k1_t26_loop.trips, ∀ (r : Fin 8), ∀ a, (k1_off200 k1_t26 (BitVec.ofNat 32 r.val)) a + S1x16.size a ≤ S128x64.size a
  k1_off201_inb : ∀ k1_t26 : Fin k1_t26_loop.trips, ∀ (r : Fin 8), ∀ a, (k1_off201 k1_t26 (BitVec.ofNat 32 r.val)) a + S1x16.size a ≤ S128x128.size a
  k1_off202_inb : ∀ k1_t26 : Fin k1_t26_loop.trips, ∀ (r : Fin 8), ∀ a, (k1_off202 k1_t26 (BitVec.ofNat 32 r.val)) a + S1x16.size a ≤ S128x64.size a
  k1_t27_ok : k1_t27_loop.OK
  k1_off203_inb : ∀ k1_t27 : Fin k1_t27_loop.trips, ∀ (r : Fin 8), ∀ a, (k1_off203 k1_t27 (BitVec.ofNat 32 r.val)) a + S1x16.size a ≤ S128x128.size a
  k1_off204_inb : ∀ k1_t27 : Fin k1_t27_loop.trips, ∀ (r : Fin 8), ∀ a, (k1_off204 k1_t27 (BitVec.ofNat 32 r.val)) a + S1x16.size a ≤ S128x64.size a
  k1_off205_inb : ∀ k1_t27 : Fin k1_t27_loop.trips, ∀ (r : Fin 8), ∀ a, (k1_off205 k1_t27 (BitVec.ofNat 32 r.val)) a + S1x16.size a ≤ S128x128.size a
  k1_off206_inb : ∀ k1_t27 : Fin k1_t27_loop.trips, ∀ (r : Fin 8), ∀ a, (k1_off206 k1_t27 (BitVec.ofNat 32 r.val)) a + S1x16.size a ≤ S128x64.size a
  k1_off207_inb : ∀ k1_t27 : Fin k1_t27_loop.trips, ∀ (r : Fin 8), ∀ a, (k1_off207 k1_t27 (BitVec.ofNat 32 r.val)) a + S1x16.size a ≤ S128x128.size a
  k1_off208_inb : ∀ k1_t27 : Fin k1_t27_loop.trips, ∀ (r : Fin 8), ∀ a, (k1_off208 k1_t27 (BitVec.ofNat 32 r.val)) a + S1x16.size a ≤ S128x64.size a
  k1_off209_inb : ∀ k1_t27 : Fin k1_t27_loop.trips, ∀ (r : Fin 8), ∀ a, (k1_off209 k1_t27 (BitVec.ofNat 32 r.val)) a + S1x16.size a ≤ S128x128.size a
  k1_off210_inb : ∀ k1_t27 : Fin k1_t27_loop.trips, ∀ (r : Fin 8), ∀ a, (k1_off210 k1_t27 (BitVec.ofNat 32 r.val)) a + S1x16.size a ≤ S128x64.size a
  k1_t28_ok : k1_t28_loop.OK
  k1_off211_inb : ∀ k1_t28 : Fin k1_t28_loop.trips, ∀ (r : Fin 8), ∀ a, (k1_off211 k1_t28 (BitVec.ofNat 32 r.val)) a + S1x16.size a ≤ S128x128.size a
  k1_off212_inb : ∀ k1_t28 : Fin k1_t28_loop.trips, ∀ (r : Fin 8), ∀ a, (k1_off212 k1_t28 (BitVec.ofNat 32 r.val)) a + S1x16.size a ≤ S128x64.size a
  k1_off213_inb : ∀ k1_t28 : Fin k1_t28_loop.trips, ∀ (r : Fin 8), ∀ a, (k1_off213 k1_t28 (BitVec.ofNat 32 r.val)) a + S1x16.size a ≤ S128x128.size a
  k1_off214_inb : ∀ k1_t28 : Fin k1_t28_loop.trips, ∀ (r : Fin 8), ∀ a, (k1_off214 k1_t28 (BitVec.ofNat 32 r.val)) a + S1x16.size a ≤ S128x64.size a
  k1_off215_inb : ∀ k1_t28 : Fin k1_t28_loop.trips, ∀ (r : Fin 8), ∀ a, (k1_off215 k1_t28 (BitVec.ofNat 32 r.val)) a + S1x16.size a ≤ S128x128.size a
  k1_off216_inb : ∀ k1_t28 : Fin k1_t28_loop.trips, ∀ (r : Fin 8), ∀ a, (k1_off216 k1_t28 (BitVec.ofNat 32 r.val)) a + S1x16.size a ≤ S128x64.size a
  k1_off217_inb : ∀ k1_t28 : Fin k1_t28_loop.trips, ∀ (r : Fin 8), ∀ a, (k1_off217 k1_t28 (BitVec.ofNat 32 r.val)) a + S1x16.size a ≤ S128x128.size a
  k1_off218_inb : ∀ k1_t28 : Fin k1_t28_loop.trips, ∀ (r : Fin 8), ∀ a, (k1_off218 k1_t28 (BitVec.ofNat 32 r.val)) a + S1x16.size a ≤ S128x64.size a
  k1_t29_ok : k1_t29_loop.OK
  k1_off219_inb : ∀ k1_t29 : Fin k1_t29_loop.trips, ∀ (r : Fin 8), ∀ a, (k1_off219 k1_t29 (BitVec.ofNat 32 r.val)) a + S1x16.size a ≤ S128x128.size a
  k1_off220_inb : ∀ k1_t29 : Fin k1_t29_loop.trips, ∀ (r : Fin 8), ∀ a, (k1_off220 k1_t29 (BitVec.ofNat 32 r.val)) a + S1x16.size a ≤ S128x64.size a
  k1_off221_inb : ∀ k1_t29 : Fin k1_t29_loop.trips, ∀ (r : Fin 8), ∀ a, (k1_off221 k1_t29 (BitVec.ofNat 32 r.val)) a + S1x16.size a ≤ S128x128.size a
  k1_off222_inb : ∀ k1_t29 : Fin k1_t29_loop.trips, ∀ (r : Fin 8), ∀ a, (k1_off222 k1_t29 (BitVec.ofNat 32 r.val)) a + S1x16.size a ≤ S128x64.size a
  k1_off223_inb : ∀ k1_t29 : Fin k1_t29_loop.trips, ∀ (r : Fin 8), ∀ a, (k1_off223 k1_t29 (BitVec.ofNat 32 r.val)) a + S1x16.size a ≤ S128x128.size a
  k1_off224_inb : ∀ k1_t29 : Fin k1_t29_loop.trips, ∀ (r : Fin 8), ∀ a, (k1_off224 k1_t29 (BitVec.ofNat 32 r.val)) a + S1x16.size a ≤ S128x64.size a
  k1_off225_inb : ∀ k1_t29 : Fin k1_t29_loop.trips, ∀ (r : Fin 8), ∀ a, (k1_off225 k1_t29 (BitVec.ofNat 32 r.val)) a + S1x16.size a ≤ S128x128.size a
  k1_off226_inb : ∀ k1_t29 : Fin k1_t29_loop.trips, ∀ (r : Fin 8), ∀ a, (k1_off226 k1_t29 (BitVec.ofNat 32 r.val)) a + S1x16.size a ≤ S128x64.size a
  k1_t30_ok : k1_t30_loop.OK
  k1_off227_inb : ∀ k1_t30 : Fin k1_t30_loop.trips, ∀ (r : Fin 8), ∀ a, (k1_off227 k1_t30 (BitVec.ofNat 32 r.val)) a + S1x16.size a ≤ S128x128.size a
  k1_off228_inb : ∀ k1_t30 : Fin k1_t30_loop.trips, ∀ (r : Fin 8), ∀ a, (k1_off228 k1_t30 (BitVec.ofNat 32 r.val)) a + S1x16.size a ≤ S128x64.size a
  k1_off229_inb : ∀ k1_t30 : Fin k1_t30_loop.trips, ∀ (r : Fin 8), ∀ a, (k1_off229 k1_t30 (BitVec.ofNat 32 r.val)) a + S1x16.size a ≤ S128x128.size a
  k1_off230_inb : ∀ k1_t30 : Fin k1_t30_loop.trips, ∀ (r : Fin 8), ∀ a, (k1_off230 k1_t30 (BitVec.ofNat 32 r.val)) a + S1x16.size a ≤ S128x64.size a
  k1_off231_inb : ∀ k1_t30 : Fin k1_t30_loop.trips, ∀ (r : Fin 8), ∀ a, (k1_off231 k1_t30 (BitVec.ofNat 32 r.val)) a + S1x16.size a ≤ S128x128.size a
  k1_off232_inb : ∀ k1_t30 : Fin k1_t30_loop.trips, ∀ (r : Fin 8), ∀ a, (k1_off232 k1_t30 (BitVec.ofNat 32 r.val)) a + S1x16.size a ≤ S128x64.size a
  k1_off233_inb : ∀ k1_t30 : Fin k1_t30_loop.trips, ∀ (r : Fin 8), ∀ a, (k1_off233 k1_t30 (BitVec.ofNat 32 r.val)) a + S1x16.size a ≤ S128x128.size a
  k1_off234_inb : ∀ k1_t30 : Fin k1_t30_loop.trips, ∀ (r : Fin 8), ∀ a, (k1_off234 k1_t30 (BitVec.ofNat 32 r.val)) a + S1x16.size a ≤ S128x64.size a
  k1_t31_ok : k1_t31_loop.OK
  k1_off235_inb : ∀ k1_t31 : Fin k1_t31_loop.trips, ∀ (r : Fin 8), ∀ a, (k1_off235 k1_t31 (BitVec.ofNat 32 r.val)) a + S1x16.size a ≤ S128x128.size a
  k1_off236_inb : ∀ k1_t31 : Fin k1_t31_loop.trips, ∀ (r : Fin 8), ∀ a, (k1_off236 k1_t31 (BitVec.ofNat 32 r.val)) a + S1x16.size a ≤ S128x64.size a
  k1_off237_inb : ∀ k1_t31 : Fin k1_t31_loop.trips, ∀ (r : Fin 8), ∀ a, (k1_off237 k1_t31 (BitVec.ofNat 32 r.val)) a + S1x16.size a ≤ S128x128.size a
  k1_off238_inb : ∀ k1_t31 : Fin k1_t31_loop.trips, ∀ (r : Fin 8), ∀ a, (k1_off238 k1_t31 (BitVec.ofNat 32 r.val)) a + S1x16.size a ≤ S128x64.size a
  k1_off239_inb : ∀ k1_t31 : Fin k1_t31_loop.trips, ∀ (r : Fin 8), ∀ a, (k1_off239 k1_t31 (BitVec.ofNat 32 r.val)) a + S1x16.size a ≤ S128x128.size a
  k1_off240_inb : ∀ k1_t31 : Fin k1_t31_loop.trips, ∀ (r : Fin 8), ∀ a, (k1_off240 k1_t31 (BitVec.ofNat 32 r.val)) a + S1x16.size a ≤ S128x64.size a
  k1_off241_inb : ∀ k1_t31 : Fin k1_t31_loop.trips, ∀ (r : Fin 8), ∀ a, (k1_off241 k1_t31 (BitVec.ofNat 32 r.val)) a + S1x16.size a ≤ S128x128.size a
  k1_off242_inb : ∀ k1_t31 : Fin k1_t31_loop.trips, ∀ (r : Fin 8), ∀ a, (k1_off242 k1_t31 (BitVec.ofNat 32 r.val)) a + S1x16.size a ≤ S128x64.size a
  k1_t32_ok : k1_t32_loop.OK
  k1_off243_inb : ∀ k1_t32 : Fin k1_t32_loop.trips, ∀ (r : Fin 8), ∀ a, (k1_off243 k1_t32 (BitVec.ofNat 32 r.val)) a + S1x16.size a ≤ S128x128.size a
  k1_off244_inb : ∀ k1_t32 : Fin k1_t32_loop.trips, ∀ (r : Fin 8), ∀ a, (k1_off244 k1_t32 (BitVec.ofNat 32 r.val)) a + S1x16.size a ≤ S128x64.size a
  k1_off245_inb : ∀ k1_t32 : Fin k1_t32_loop.trips, ∀ (r : Fin 8), ∀ a, (k1_off245 k1_t32 (BitVec.ofNat 32 r.val)) a + S1x16.size a ≤ S128x128.size a
  k1_off246_inb : ∀ k1_t32 : Fin k1_t32_loop.trips, ∀ (r : Fin 8), ∀ a, (k1_off246 k1_t32 (BitVec.ofNat 32 r.val)) a + S1x16.size a ≤ S128x64.size a
  k1_off247_inb : ∀ k1_t32 : Fin k1_t32_loop.trips, ∀ (r : Fin 8), ∀ a, (k1_off247 k1_t32 (BitVec.ofNat 32 r.val)) a + S1x16.size a ≤ S128x128.size a
  k1_off248_inb : ∀ k1_t32 : Fin k1_t32_loop.trips, ∀ (r : Fin 8), ∀ a, (k1_off248 k1_t32 (BitVec.ofNat 32 r.val)) a + S1x16.size a ≤ S128x64.size a
  k1_off249_inb : ∀ k1_t32 : Fin k1_t32_loop.trips, ∀ (r : Fin 8), ∀ a, (k1_off249 k1_t32 (BitVec.ofNat 32 r.val)) a + S1x16.size a ≤ S128x128.size a
  k1_off250_inb : ∀ k1_t32 : Fin k1_t32_loop.trips, ∀ (r : Fin 8), ∀ a, (k1_off250 k1_t32 (BitVec.ofNat 32 r.val)) a + S1x16.size a ≤ S128x64.size a
  k1_t33_ok : k1_t33_loop.OK
  k1_off251_inb : ∀ k1_t33 : Fin k1_t33_loop.trips, ∀ (r : Fin 8), ∀ a, (k1_off251 k1_t33 (BitVec.ofNat 32 r.val)) a + S1x16.size a ≤ S128x128.size a
  k1_off252_inb : ∀ k1_t33 : Fin k1_t33_loop.trips, ∀ (r : Fin 8), ∀ a, (k1_off252 k1_t33 (BitVec.ofNat 32 r.val)) a + S1x16.size a ≤ S128x64.size a
  k1_off253_inb : ∀ k1_t33 : Fin k1_t33_loop.trips, ∀ (r : Fin 8), ∀ a, (k1_off253 k1_t33 (BitVec.ofNat 32 r.val)) a + S1x16.size a ≤ S128x128.size a
  k1_off254_inb : ∀ k1_t33 : Fin k1_t33_loop.trips, ∀ (r : Fin 8), ∀ a, (k1_off254 k1_t33 (BitVec.ofNat 32 r.val)) a + S1x16.size a ≤ S128x64.size a
  k1_off255_inb : ∀ k1_t33 : Fin k1_t33_loop.trips, ∀ (r : Fin 8), ∀ a, (k1_off255 k1_t33 (BitVec.ofNat 32 r.val)) a + S1x16.size a ≤ S128x128.size a
  k1_off256_inb : ∀ k1_t33 : Fin k1_t33_loop.trips, ∀ (r : Fin 8), ∀ a, (k1_off256 k1_t33 (BitVec.ofNat 32 r.val)) a + S1x16.size a ≤ S128x64.size a
  k1_off257_inb : ∀ k1_t33 : Fin k1_t33_loop.trips, ∀ (r : Fin 8), ∀ a, (k1_off257 k1_t33 (BitVec.ofNat 32 r.val)) a + S1x16.size a ≤ S128x128.size a
  k1_off258_inb : ∀ k1_t33 : Fin k1_t33_loop.trips, ∀ (r : Fin 8), ∀ a, (k1_off258 k1_t33 (BitVec.ofNat 32 r.val)) a + S1x16.size a ≤ S128x64.size a
  k1_t34_ok : k1_t34_loop.OK
  k1_off259_inb : ∀ k1_t34 : Fin k1_t34_loop.trips, ∀ (r : Fin 8), ∀ a, (k1_off259 k1_t34 (BitVec.ofNat 32 r.val)) a + S1x16.size a ≤ S128x128.size a
  k1_off260_inb : ∀ k1_t34 : Fin k1_t34_loop.trips, ∀ (r : Fin 8), ∀ a, (k1_off260 k1_t34 (BitVec.ofNat 32 r.val)) a + S1x16.size a ≤ S128x64.size a
  k1_off261_inb : ∀ k1_t34 : Fin k1_t34_loop.trips, ∀ (r : Fin 8), ∀ a, (k1_off261 k1_t34 (BitVec.ofNat 32 r.val)) a + S1x16.size a ≤ S128x128.size a
  k1_off262_inb : ∀ k1_t34 : Fin k1_t34_loop.trips, ∀ (r : Fin 8), ∀ a, (k1_off262 k1_t34 (BitVec.ofNat 32 r.val)) a + S1x16.size a ≤ S128x64.size a
  k1_off263_inb : ∀ k1_t34 : Fin k1_t34_loop.trips, ∀ (r : Fin 8), ∀ a, (k1_off263 k1_t34 (BitVec.ofNat 32 r.val)) a + S1x16.size a ≤ S128x128.size a
  k1_off264_inb : ∀ k1_t34 : Fin k1_t34_loop.trips, ∀ (r : Fin 8), ∀ a, (k1_off264 k1_t34 (BitVec.ofNat 32 r.val)) a + S1x16.size a ≤ S128x64.size a
  k1_off265_inb : ∀ k1_t34 : Fin k1_t34_loop.trips, ∀ (r : Fin 8), ∀ a, (k1_off265 k1_t34 (BitVec.ofNat 32 r.val)) a + S1x16.size a ≤ S128x128.size a
  k1_off266_inb : ∀ k1_t34 : Fin k1_t34_loop.trips, ∀ (r : Fin 8), ∀ a, (k1_off266 k1_t34 (BitVec.ofNat 32 r.val)) a + S1x16.size a ≤ S128x64.size a
  k1_t35_ok : k1_t35_loop.OK
  k1_off267_inb : ∀ k1_t35 : Fin k1_t35_loop.trips, ∀ (r : Fin 8), ∀ a, (k1_off267 k1_t35 (BitVec.ofNat 32 r.val)) a + S1x16.size a ≤ S128x128.size a
  k1_off268_inb : ∀ k1_t35 : Fin k1_t35_loop.trips, ∀ (r : Fin 8), ∀ a, (k1_off268 k1_t35 (BitVec.ofNat 32 r.val)) a + S1x16.size a ≤ S128x64.size a
  k1_off269_inb : ∀ k1_t35 : Fin k1_t35_loop.trips, ∀ (r : Fin 8), ∀ a, (k1_off269 k1_t35 (BitVec.ofNat 32 r.val)) a + S1x16.size a ≤ S128x128.size a
  k1_off270_inb : ∀ k1_t35 : Fin k1_t35_loop.trips, ∀ (r : Fin 8), ∀ a, (k1_off270 k1_t35 (BitVec.ofNat 32 r.val)) a + S1x16.size a ≤ S128x64.size a
  k1_off271_inb : ∀ k1_t35 : Fin k1_t35_loop.trips, ∀ (r : Fin 8), ∀ a, (k1_off271 k1_t35 (BitVec.ofNat 32 r.val)) a + S1x16.size a ≤ S128x128.size a
  k1_off272_inb : ∀ k1_t35 : Fin k1_t35_loop.trips, ∀ (r : Fin 8), ∀ a, (k1_off272 k1_t35 (BitVec.ofNat 32 r.val)) a + S1x16.size a ≤ S128x64.size a
  k1_off273_inb : ∀ k1_t35 : Fin k1_t35_loop.trips, ∀ (r : Fin 8), ∀ a, (k1_off273 k1_t35 (BitVec.ofNat 32 r.val)) a + S1x16.size a ≤ S128x128.size a
  k1_off274_inb : ∀ k1_t35 : Fin k1_t35_loop.trips, ∀ (r : Fin 8), ∀ a, (k1_off274 k1_t35 (BitVec.ofNat 32 r.val)) a + S1x16.size a ≤ S128x64.size a
  k1_t36_ok : k1_t36_loop.OK
  k1_off275_inb : ∀ k1_t36 : Fin k1_t36_loop.trips, ∀ (r : Fin 8), ∀ a, (k1_off275 k1_t36 (BitVec.ofNat 32 r.val)) a + S1x16.size a ≤ S128x128.size a
  k1_off276_inb : ∀ k1_t36 : Fin k1_t36_loop.trips, ∀ (r : Fin 8), ∀ a, (k1_off276 k1_t36 (BitVec.ofNat 32 r.val)) a + S1x16.size a ≤ S128x64.size a
  k1_off277_inb : ∀ k1_t36 : Fin k1_t36_loop.trips, ∀ (r : Fin 8), ∀ a, (k1_off277 k1_t36 (BitVec.ofNat 32 r.val)) a + S1x16.size a ≤ S128x128.size a
  k1_off278_inb : ∀ k1_t36 : Fin k1_t36_loop.trips, ∀ (r : Fin 8), ∀ a, (k1_off278 k1_t36 (BitVec.ofNat 32 r.val)) a + S1x16.size a ≤ S128x64.size a
  k1_off279_inb : ∀ k1_t36 : Fin k1_t36_loop.trips, ∀ (r : Fin 8), ∀ a, (k1_off279 k1_t36 (BitVec.ofNat 32 r.val)) a + S1x16.size a ≤ S128x128.size a
  k1_off280_inb : ∀ k1_t36 : Fin k1_t36_loop.trips, ∀ (r : Fin 8), ∀ a, (k1_off280 k1_t36 (BitVec.ofNat 32 r.val)) a + S1x16.size a ≤ S128x64.size a
  k1_off281_inb : ∀ k1_t36 : Fin k1_t36_loop.trips, ∀ (r : Fin 8), ∀ a, (k1_off281 k1_t36 (BitVec.ofNat 32 r.val)) a + S1x16.size a ≤ S128x128.size a
  k1_off282_inb : ∀ k1_t36 : Fin k1_t36_loop.trips, ∀ (r : Fin 8), ∀ a, (k1_off282 k1_t36 (BitVec.ofNat 32 r.val)) a + S1x16.size a ≤ S128x64.size a
  k1_t37_ok : k1_t37_loop.OK
  k1_off283_inb : ∀ k1_t37 : Fin k1_t37_loop.trips, ∀ (r : Fin 8), ∀ a, (k1_off283 k1_t37 (BitVec.ofNat 32 r.val)) a + S1x16.size a ≤ S128x128.size a
  k1_off284_inb : ∀ k1_t37 : Fin k1_t37_loop.trips, ∀ (r : Fin 8), ∀ a, (k1_off284 k1_t37 (BitVec.ofNat 32 r.val)) a + S1x16.size a ≤ S128x64.size a
  k1_off285_inb : ∀ k1_t37 : Fin k1_t37_loop.trips, ∀ (r : Fin 8), ∀ a, (k1_off285 k1_t37 (BitVec.ofNat 32 r.val)) a + S1x16.size a ≤ S128x128.size a
  k1_off286_inb : ∀ k1_t37 : Fin k1_t37_loop.trips, ∀ (r : Fin 8), ∀ a, (k1_off286 k1_t37 (BitVec.ofNat 32 r.val)) a + S1x16.size a ≤ S128x64.size a
  k1_off287_inb : ∀ k1_t37 : Fin k1_t37_loop.trips, ∀ (r : Fin 8), ∀ a, (k1_off287 k1_t37 (BitVec.ofNat 32 r.val)) a + S1x16.size a ≤ S128x128.size a
  k1_off288_inb : ∀ k1_t37 : Fin k1_t37_loop.trips, ∀ (r : Fin 8), ∀ a, (k1_off288 k1_t37 (BitVec.ofNat 32 r.val)) a + S1x16.size a ≤ S128x64.size a
  k1_off289_inb : ∀ k1_t37 : Fin k1_t37_loop.trips, ∀ (r : Fin 8), ∀ a, (k1_off289 k1_t37 (BitVec.ofNat 32 r.val)) a + S1x16.size a ≤ S128x128.size a
  k1_off290_inb : ∀ k1_t37 : Fin k1_t37_loop.trips, ∀ (r : Fin 8), ∀ a, (k1_off290 k1_t37 (BitVec.ofNat 32 r.val)) a + S1x16.size a ≤ S128x64.size a
  k1_t38_ok : k1_t38_loop.OK
  k1_off291_inb : ∀ k1_t38 : Fin k1_t38_loop.trips, ∀ (r : Fin 8), ∀ a, (k1_off291 k1_t38 (BitVec.ofNat 32 r.val)) a + S1x16.size a ≤ S128x128.size a
  k1_off292_inb : ∀ k1_t38 : Fin k1_t38_loop.trips, ∀ (r : Fin 8), ∀ a, (k1_off292 k1_t38 (BitVec.ofNat 32 r.val)) a + S1x16.size a ≤ S128x64.size a
  k1_off293_inb : ∀ k1_t38 : Fin k1_t38_loop.trips, ∀ (r : Fin 8), ∀ a, (k1_off293 k1_t38 (BitVec.ofNat 32 r.val)) a + S1x16.size a ≤ S128x128.size a
  k1_off294_inb : ∀ k1_t38 : Fin k1_t38_loop.trips, ∀ (r : Fin 8), ∀ a, (k1_off294 k1_t38 (BitVec.ofNat 32 r.val)) a + S1x16.size a ≤ S128x64.size a
  k1_off295_inb : ∀ k1_t38 : Fin k1_t38_loop.trips, ∀ (r : Fin 8), ∀ a, (k1_off295 k1_t38 (BitVec.ofNat 32 r.val)) a + S1x16.size a ≤ S128x128.size a
  k1_off296_inb : ∀ k1_t38 : Fin k1_t38_loop.trips, ∀ (r : Fin 8), ∀ a, (k1_off296 k1_t38 (BitVec.ofNat 32 r.val)) a + S1x16.size a ≤ S128x64.size a
  k1_off297_inb : ∀ k1_t38 : Fin k1_t38_loop.trips, ∀ (r : Fin 8), ∀ a, (k1_off297 k1_t38 (BitVec.ofNat 32 r.val)) a + S1x16.size a ≤ S128x128.size a
  k1_off298_inb : ∀ k1_t38 : Fin k1_t38_loop.trips, ∀ (r : Fin 8), ∀ a, (k1_off298 k1_t38 (BitVec.ofNat 32 r.val)) a + S1x16.size a ≤ S128x64.size a
  k1_t39_ok : k1_t39_loop.OK
  k1_off299_inb : ∀ k1_t39 : Fin k1_t39_loop.trips, ∀ (r : Fin 8), ∀ a, (k1_off299 k1_t39 (BitVec.ofNat 32 r.val)) a + S1x16.size a ≤ S128x128.size a
  k1_off300_inb : ∀ k1_t39 : Fin k1_t39_loop.trips, ∀ (r : Fin 8), ∀ a, (k1_off300 k1_t39 (BitVec.ofNat 32 r.val)) a + S1x16.size a ≤ S128x64.size a
  k1_off301_inb : ∀ k1_t39 : Fin k1_t39_loop.trips, ∀ (r : Fin 8), ∀ a, (k1_off301 k1_t39 (BitVec.ofNat 32 r.val)) a + S1x16.size a ≤ S128x128.size a
  k1_off302_inb : ∀ k1_t39 : Fin k1_t39_loop.trips, ∀ (r : Fin 8), ∀ a, (k1_off302 k1_t39 (BitVec.ofNat 32 r.val)) a + S1x16.size a ≤ S128x64.size a
  k1_off303_inb : ∀ k1_t39 : Fin k1_t39_loop.trips, ∀ (r : Fin 8), ∀ a, (k1_off303 k1_t39 (BitVec.ofNat 32 r.val)) a + S1x16.size a ≤ S128x128.size a
  k1_off304_inb : ∀ k1_t39 : Fin k1_t39_loop.trips, ∀ (r : Fin 8), ∀ a, (k1_off304 k1_t39 (BitVec.ofNat 32 r.val)) a + S1x16.size a ≤ S128x64.size a
  k1_off305_inb : ∀ k1_t39 : Fin k1_t39_loop.trips, ∀ (r : Fin 8), ∀ a, (k1_off305 k1_t39 (BitVec.ofNat 32 r.val)) a + S1x16.size a ≤ S128x128.size a
  k1_off306_inb : ∀ k1_t39 : Fin k1_t39_loop.trips, ∀ (r : Fin 8), ∀ a, (k1_off306 k1_t39 (BitVec.ofNat 32 r.val)) a + S1x16.size a ≤ S128x64.size a
  k1_t40_ok : k1_t40_loop.OK
  k1_off307_inb : ∀ k1_t40 : Fin k1_t40_loop.trips, ∀ (r : Fin 8), ∀ a, (k1_off307 k1_t40 (BitVec.ofNat 32 r.val)) a + S1x16.size a ≤ S128x128.size a
  k1_off308_inb : ∀ k1_t40 : Fin k1_t40_loop.trips, ∀ (r : Fin 8), ∀ a, (k1_off308 k1_t40 (BitVec.ofNat 32 r.val)) a + S1x16.size a ≤ S128x64.size a
  k1_off309_inb : ∀ k1_t40 : Fin k1_t40_loop.trips, ∀ (r : Fin 8), ∀ a, (k1_off309 k1_t40 (BitVec.ofNat 32 r.val)) a + S1x16.size a ≤ S128x128.size a
  k1_off310_inb : ∀ k1_t40 : Fin k1_t40_loop.trips, ∀ (r : Fin 8), ∀ a, (k1_off310 k1_t40 (BitVec.ofNat 32 r.val)) a + S1x16.size a ≤ S128x64.size a
  k1_off311_inb : ∀ k1_t40 : Fin k1_t40_loop.trips, ∀ (r : Fin 8), ∀ a, (k1_off311 k1_t40 (BitVec.ofNat 32 r.val)) a + S1x16.size a ≤ S128x128.size a
  k1_off312_inb : ∀ k1_t40 : Fin k1_t40_loop.trips, ∀ (r : Fin 8), ∀ a, (k1_off312 k1_t40 (BitVec.ofNat 32 r.val)) a + S1x16.size a ≤ S128x64.size a
  k1_off313_inb : ∀ k1_t40 : Fin k1_t40_loop.trips, ∀ (r : Fin 8), ∀ a, (k1_off313 k1_t40 (BitVec.ofNat 32 r.val)) a + S1x16.size a ≤ S128x128.size a
  k1_off314_inb : ∀ k1_t40 : Fin k1_t40_loop.trips, ∀ (r : Fin 8), ∀ a, (k1_off314 k1_t40 (BitVec.ofNat 32 r.val)) a + S1x16.size a ≤ S128x64.size a
  k1_t41_ok : k1_t41_loop.OK
  k1_off315_inb : ∀ k1_t41 : Fin k1_t41_loop.trips, ∀ (r : Fin 8), ∀ a, (k1_off315 k1_t41 (BitVec.ofNat 32 r.val)) a + S1x16.size a ≤ S128x128.size a
  k1_off316_inb : ∀ k1_t41 : Fin k1_t41_loop.trips, ∀ (r : Fin 8), ∀ a, (k1_off316 k1_t41 (BitVec.ofNat 32 r.val)) a + S1x16.size a ≤ S128x64.size a
  k1_off317_inb : ∀ k1_t41 : Fin k1_t41_loop.trips, ∀ (r : Fin 8), ∀ a, (k1_off317 k1_t41 (BitVec.ofNat 32 r.val)) a + S1x16.size a ≤ S128x128.size a
  k1_off318_inb : ∀ k1_t41 : Fin k1_t41_loop.trips, ∀ (r : Fin 8), ∀ a, (k1_off318 k1_t41 (BitVec.ofNat 32 r.val)) a + S1x16.size a ≤ S128x64.size a
  k1_off319_inb : ∀ k1_t41 : Fin k1_t41_loop.trips, ∀ (r : Fin 8), ∀ a, (k1_off319 k1_t41 (BitVec.ofNat 32 r.val)) a + S1x16.size a ≤ S128x128.size a
  k1_off320_inb : ∀ k1_t41 : Fin k1_t41_loop.trips, ∀ (r : Fin 8), ∀ a, (k1_off320 k1_t41 (BitVec.ofNat 32 r.val)) a + S1x16.size a ≤ S128x64.size a
  k1_off321_inb : ∀ k1_t41 : Fin k1_t41_loop.trips, ∀ (r : Fin 8), ∀ a, (k1_off321 k1_t41 (BitVec.ofNat 32 r.val)) a + S1x16.size a ≤ S128x128.size a
  k1_off322_inb : ∀ k1_t41 : Fin k1_t41_loop.trips, ∀ (r : Fin 8), ∀ a, (k1_off322 k1_t41 (BitVec.ofNat 32 r.val)) a + S1x16.size a ≤ S128x64.size a

variable [Facts₀]

abbrev cc1_scratch6 : DmaSems sig S_ := SemArray.consecutive 4 S_ hcc1_scratch6
abbrev cc1_scratch7 : DmaSems sig S_ := SemArray.consecutive 5 S_ hcc1_scratch7
abbrev cc1_scratch8 : DmaSems sig S_ := SemArray.consecutive 6 S_ hcc1_scratch8
abbrev cc1_scratch9 : DmaSems sig S_ := SemArray.consecutive 7 S_ hcc1_scratch9
abbrev cc1_scratch10 : DmaSems sig S_ := SemArray.consecutive 8 S_ hcc1_scratch10
abbrev cc1_scoped0 : DmaSems sig S_ := SemArray.consecutive 9 S_ hcc1_scoped0

abbrev win0_0 : Pipeline.Window sig grid0 :=
  Pipeline.Window.ofSpec (Memref.whole main_arg1) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S5000x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4096x200 : Shape := ⟨2, ![4096, 200]⟩
abbrev S100000x64 : Shape := ⟨2, ![100000, 64]⟩
abbrev S_ : Shape := ⟨0, ![]⟩
abbrev S4096x200x1 : Shape := ⟨3, ![4096, 200, 1]⟩
abbrev S1 : Shape := ⟨1, ![1]⟩
abbrev S1x1x1 : Shape := ⟨3, ![1, 1, 1]⟩
abbrev S4096x200x64 : Shape := ⟨3, ![4096, 200, 64]⟩

abbrev nBuf : Space → Nat
  | .hbm => 29
  | .vmem => 0
  | .smem => 0
  | _ => 0

abbrev bufTy : (tb : Table) → Fin (tcTables nBuf tb) → BufTy
  | .hbm, ⟨0, _⟩ => ⟨S4096x200, .i32⟩
  | .hbm, ⟨1, _⟩ => ⟨S100000x64, .f32⟩
  | .hbm, ⟨2, _⟩ => ⟨S_, .i32⟩
  | .hbm, ⟨3, _⟩ => ⟨S4096x200, .i32⟩
  | .hbm, ⟨4, _⟩ => ⟨S4096x200, .i1⟩
  | .hbm, ⟨5, _⟩ => ⟨S_, .i32⟩
  | .hbm, ⟨6, _⟩ => ⟨S4096x200, .i32⟩
  | .hbm, ⟨7, _⟩ => ⟨S4096x200, .i32⟩
  | .hbm, ⟨8, _⟩ => ⟨S4096x200, .i32⟩
  | .hbm, ⟨9, _⟩ => ⟨S4096x200x1, .i32⟩
  | .hbm, ⟨10, _⟩ => ⟨S1, .i32⟩
  | .hbm, ⟨11, _⟩ => ⟨S_, .i32⟩
  | .hbm, ⟨12, _⟩ => ⟨S4096x200x1, .i32⟩
  | .hbm, ⟨13, _⟩ => ⟨S4096x200x1, .i1⟩
  | .hbm, ⟨14, _⟩ => ⟨S1x1x1, .i32⟩
  | .hbm, ⟨15, _⟩ => ⟨S4096x200x1, .i32⟩
  | .hbm, ⟨16, _⟩ => ⟨S4096x200x1, .i1⟩
  | .hbm, ⟨17, _⟩ => ⟨S4096x200x1, .i1⟩
  | .hbm, ⟨18, _⟩ => ⟨S_, .i1⟩
  | .hbm, ⟨19, _⟩ => ⟨S4096x200, .i1⟩
  | .hbm, ⟨20, _⟩ => ⟨S4096x200x64, .f32⟩
  | .hbm, ⟨21, _⟩ => ⟨S4096x200x64, .i1⟩
  | .hbm, ⟨22, _⟩ => ⟨S_, .f32⟩
  | .hbm, ⟨23, _⟩ => ⟨S4096x200x64, .f32⟩
  | .hbm, ⟨24, _⟩ => ⟨S4096x200x64, .f32⟩
  | .hbm, ⟨25, _⟩ => ⟨S_, .f32⟩
  | .hbm, ⟨26, _⟩ => ⟨S_, .f32⟩
  | .hbm, ⟨27, _⟩ => ⟨S4096x200x64, .f32⟩
  | .hbm, ⟨28, _⟩ => ⟨S4096x200x64, .f32⟩
  | _, _ => ⟨S4096x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩
abbrev main_cst : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩

abbrev nD : Nat := 1
abbrev τ : Topo := Topo.v7x

variable {F : FTy → Type} [FloatOps F]

class Facts₀ : Prop where
  bcast_S_S4096x200 : S_.BroadcastsInDim S4096x200 (![] : Fin 0 → Fin S4096x200.rank)
  bcast_S4096x200_S4096x200x1_0_1 : S4096x200.BroadcastsInDim S4096x200x1 (![0, 1] : Fin 2 → Fin S4096x200x1.rank)
  bcast_S_S4096x200x1 : S_.BroadcastsInDim S4096x200x1 (![] : Fin 0 → Fin S4096x200x1.rank)
  bcast_S1_S1x1x1_2 : S1.BroadcastsInDim S1x1x1 (![2] : Fin 1 → Fin S1x1x1.rank)
  bcast_S1x1x1_S4096x200x1_0_1_2 : S1x1x1.BroadcastsInDim S4096x200x1 (![0, 1, 2] : Fin 3 → Fin S4096x200x1.rank)
  reducesTo_S4096x200x1_S4096x200_d2 : S4096x200x1.ReducesTo [2] S4096x200
  h_S_ : 0 < S_.numel
  bcast_S4096x200_S4096x200x64_0_1 : S4096x200.BroadcastsInDim S4096x200x64 (![0, 1] : Fin 2 → Fin S4096x200x64.rank)
  bcast_S_S4096x200x64 : S_.BroadcastsInDim S4096x200x64 (![] : Fin 0 → Fin S4096x200x64.rank)
  gather_S100000x64_S4096x200x1_S4096x200x64_2_0_n_n_0_2_164_wf : GatherDims.WF S100000x64 S4096x200x1 S4096x200x64 [2] [0] [] [0] [] 2 ![1, 64]

variable [Facts₀]

def gather_S100000x64_S4096x200x1_S4096x200x64_2_0_n_n_0_2_164 : GatherDims S100000x64 S4096x200x1 S4096x200x64 where
  offsetDims := [2]
  collapsedSliceDims := [0]
  operandBatchingDims := []
  startIndicesBatchingDims := []
  startIndexMap := [0]
  indexVectorDim := 2
  sliceSizes := ![1, 64]
  wf := gather_S100000x64_S4096x200x1_S4096x200x64_2_0_n_n_0_2_164_wf

class Facts : Prop extends Facts₀ where

variable [Facts]
-- ==== Proof.KI.Common.lean ====
/-
  Names shared by the modules about the idealized kernel's threads: the program as the launch theorem reads it, the
  ghost state (the launch handshakes' rounds, the TensorCore pipeline's staging cells, the local transfers' counters),
  the three arrays the vector subcores work on and a vector subcore's scratch.
-/
import proofs.«217222_g83150566851320_cont_9to1_m_45_25_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«217222_g83150566851320_cont_9to1_m_45_25_alg».proof.Proof.Gen.KernelIdeal

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch handshakes' rounds, the pipeline's staging cells' rounds, the local transfers' counters. -/
abbrev UH : Type := URounds (GSem nD τ sig) ℕ
abbrev UR : Type := URounds (GSem nD τ sig) Unit
abbrev UU : Type := UH × (UR × Counters)

abbrev MM (F : FTy → Type) : Type := MT nD τ sig (HIx 1) (Elt F) ℕ UU ℕ

abbrev EH : Emb UH (MM F) := embL

/-- The scaled and padded table, the tokens laid out in rows of 128, and the gathered rows, as a vector subcore
    addresses them; and its scratch: the index rows of a group, three landing buffers, two compacted buffers. -/
abbrev tabV : Memref sig .scVector .hbm S100000x128 .f32 := Memref.whole main_v0_scv
abbrev idxV : Memref sig .scVector .hbm S6400x128 .i32 := Memref.whole main_v1_scv
abbrev outV : Memref sig .scVector .hbm S819200x64 .f32 := Memref.whole main_v2_scv
abbrev sIdx : Memref sig .scVector .vmem S40x128 .i32 := Memref.whole cc1_scratch0
abbrev sR0 : Memref sig .scVector .vmem S128x128 .f32 := Memref.whole cc1_scratch1
abbrev sR1 : Memref sig .scVector .vmem S128x128 .f32 := Memref.whole cc1_scratch2
abbrev sR2 : Memref sig .scVector .vmem S128x128 .f32 := Memref.whole cc1_scratch3
abbrev sC0 : Memref sig .scVector .vmem S128x64 .f32 := Memref.whole cc1_scratch4
abbrev sC1 : Memref sig .scVector .vmem S128x64 .f32 := Memref.whole cc1_scratch5

abbrev tabLoc (d : Dev nD) : Loc nD τ sig := (SparseCore.T d).loc main_v0
abbrev idxLoc (d : Dev nD) : Loc nD τ sig := (SparseCore.T d).loc main_v1
abbrev outLoc (d : Dev nD) : Loc nD τ sig := (SparseCore.T d).loc main_v2

/-- A vector subcore's grid coordinates, its SparseCore and its place on it. -/
def coordsV (c : Fin (grid1.bound 0)) (s : Fin (grid1.bound 1)) : grid1.Coords :=
  fun | 0 => c | 1 => s | ⟨_ + 2, h⟩ => absurd h (Nat.not_lt.2 (Nat.le_add_left _ _))
abbrev cV (L : grid1.Coords) : Fin τ.nSC := (L 0).castLE hcore1
abbrev jV (L : grid1.Coords) : Fin τ.nSub := (L 1).castLE hsub1

end Cert.Proof.KI

end
-- ==== Proof.Spec.lean ====
/-
  What both programs compute, as one function of the argument arrays: an embedding lookup scaled by eight.
  Entry (b, s, d) of the result is entry (row, d) of the table times 8, where row is the table row that token (b, s)
  names. A token in range names the row of its own value; `rowOf` is made total by reducing modulo the number of
  rows, which changes nothing on tokens in range (`InRange`).
-/
import Idealize.ShloMosaic.PureOps.Ideal
import Idealize.ShloMosaic.Lib.ValueIdx

noncomputable section

namespace Cert.Spec

open Idealize.ShloMosaic

abbrev STok : Shape := ⟨2, ![4096, 200]⟩
abbrev STab : Shape := ⟨2, ![100000, 64]⟩
abbrev SOut : Shape := ⟨3, ![4096, 200, 64]⟩

/-- The table row a token names: its value, reduced modulo the number of rows (the identity on tokens in range). -/
def rowOf (t : BitVec 32) : Fin 100000 := ⟨t.toNat % 100000, Nat.mod_lt _ (by decide)⟩

theorem rowOf_val_of_lt {t : BitVec 32} (h : t.toNat < 100000) : (rowOf t).val = t.toNat := Nat.mod_eq_of_lt h

/-- Every token names a row of the table. -/
def InRange (tok : IVec STok 32) : Prop := ∀ i, (tok i).toNat < 100000

/-- The scaled lookup over the extended reals. -/
def G (tok : IVec STok 32) (tab : FVec Ideal STab .f32) : FVec Ideal SOut .f32 :=
  fun i => tab (ValueIdx.ix2 (rowOf (tok (ValueIdx.ix2 (n0 := 4096) (n1 := 200) (i 0) (i 1)))) (show Fin 64 from i 2)) * ((8 : ℝ) : EReal)

end Cert.Spec

end
-- ==== Proof.KI.Iface.lean ====
/-
  The vocabulary shared by the modules about the launch of the idealized kernel: the arrays the program computes on
  the way as pure functions of its two arguments (the table scaled by eight and padded to 128 columns, the tokens laid
  out in rows of 128, the rows gathered by the tokens, the result), the 6400 chunks of 128 rows of the gathered array
  and which vector subcore writes which, and what the launch's handshakes carry: every vector subcore reads the scaled
  table and the index rows under a read share of its own and owns its 200 chunks of the gathered array.
-/
import proofs.«217222_g83150566851320_cont_9to1_m_45_25_alg».proof.Proof.KI.Common
import proofs.«217222_g83150566851320_cont_9to1_m_45_25_alg».proof.Proof.Spec

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)
open Idealize.ShloMosaic.Transfers (shareTok shareDrop)

variable {F : FTy → Type}

/-! ## The arrays, as pure functions of the arguments -/

/-- The table scaled and padded: entry (r, c) is entry (r, c) of the table times eight for c < 64, zero beyond. The
    product and the two literals are spelt as the TensorCore kernel's body spells them. -/
def scaledPad [FloatOps F] (tab : FVec F S100000x64 .f32) : FVec F S100000x128 .f32 :=
  fun i => if h : (i 1).val < 64 then
      FloatOps.mulf (tab (ix2 (n0 := 100000) (n1 := 64) (i 0) ⟨(i 1).val, h⟩)) (Scalar.ofBits .f32 0x41000000#32)
    else Scalar.ofBits .f32 0x00000000#32

/-- The tokens in rows of 128: the same words in row-major order. -/
def idxRows (tok : IVec S4096x200 32) : IVec S6400x128 32 :=
  shapeCast S6400x128 tok shapeCasts_S4096x200_S6400x128

theorem gathered_row_lt (i : S819200x64.Idx) : (i 0).val / 128 < 6400 := by
  have := ValueIdx.idx2_lt0 i; omega
theorem gathered_col_lt (i : S819200x64.Idx) : (i 1).val < 128 := by
  have := ValueIdx.idx2_lt1 i; omega

/-- The gathered rows: row r holds the first 64 columns of the row of the scaled table that the r-th token (in
    row-major order) names. -/
def gathered (ft : FVec F S100000x128 .f32) (fi : IVec S6400x128 32) : FVec F S819200x64 .f32 :=
  fun i => ft (ix2 (n0 := 100000) (n1 := 128)
    (Cert.Spec.rowOf (fi (ix2 (n0 := 6400) (n1 := 128) ⟨(i 0).val / 128, gathered_row_lt i⟩ ⟨(i 0).val % 128, Nat.mod_lt _ (by decide)⟩)))
    ⟨(i 1).val, gathered_col_lt i⟩)

/-- The program's result: the gathered rows at the result's shape. -/
def result [FloatOps F] (tok : IVec S4096x200 32) (tab : FVec F S100000x64 .f32) : FVec F S4096x200x64 .f32 :=
  shapeCast S4096x200x64 (gathered (scaledPad tab) (idxRows tok)) shapeCasts_S819200x64_S4096x200x64

abbrev tokLoc (d : Dev nD) : Loc nD τ sig := (SparseCore.T d).loc main_arg0
abbrev tableLoc (d : Dev nD) : Loc nD τ sig := (SparseCore.T d).loc main_arg1
abbrev resLoc (d : Dev nD) : Loc nD τ sig := (SparseCore.T d).loc main_v3

section Arrays

variable [FloatOps F] (m : (ℓ : Loc nD τ sig) → Buf (Elt F) ℓ)

/-- What the three arrays of the SparseCore call hold, from the launch memory. -/
def TAB (d : Dev nD) : Buf (Elt F) (tabLoc d) := scaledPad (F := F) (m (tableLoc d))
def IDX (d : Dev nD) : Buf (Elt F) (idxLoc d) := idxRows (m (tokLoc d))
def OUT (d : Dev nD) : Buf (Elt F) (outLoc d) := gathered (F := F) (TAB m d) (IDX m d)

end Arrays

/-! ## The chunks of the gathered array -/

theorem hdiv : 6400 ∣ S819200x64.size 0 := ⟨128, rfl⟩
/-- Chunk n: rows [128 n, 128 n + 128), all 64 columns. -/
abbrev chunk (n : Fin 6400) : Rect S819200x64 := Rect.part (s := S819200x64) (a₀ := 0) hdiv n
abbrev chunkSet (n : Fin 6400) : Finset S819200x64.Idx := ((outV : Memref sig .scVector .hbm S819200x64 .f32).view.slice (chunk n)).set

/-- The number of vector subcore i of SparseCore c among the 32, and its j-th chunk. -/
def wid (c : Fin τ.nSC) (i : Fin τ.nSub) : ℕ := 2 * i.val + c.val
theorem wid_lt (c : Fin τ.nSC) (i : Fin τ.nSub) : wid c i < 32 := by
  have hc : c.val < 2 := c.isLt
  have hi : i.val < 16 := i.isLt
  unfold wid; omega
def chunkOf (c : Fin τ.nSC) (i : Fin τ.nSub) (j : Fin 200) : Fin 6400 :=
  ⟨200 * wid c i + j.val, by have := wid_lt c i; have := j.isLt; omega⟩

/-- The read share of vector subcore (c, i): one of 32 read tokens of the full share. -/
def tok (c : Fin τ.nSC) (i : Fin τ.nSub) : PosShare TreeShare := shareTok fullShare 32 ⟨wid c i, wid_lt c i⟩

/-! ## What the handshakes carry -/

section Pay

variable [FloatOps F] (m : (ℓ : Loc nD τ sig) → Buf (Elt F) ℓ)

/-- What vector subcore (c, i) is handed: the scaled table and the index rows under its read share, its 200 chunks of
    the gathered array at whatever they hold; and what it hands back: the same, the chunks at the gathered rows. -/
def GO (d : Dev nD) (c : Fin τ.nSC) (i : Fin τ.nSub) : sProp (MM F) :=
  iprop((tabLoc d ↦{tok c i} TAB m d) ∗ (idxLoc d ↦{tok c i} IDX m d)
    ∗ bigSep Finset.univ fun j : Fin 200 => iprop(∃ f, outLoc d ↦[chunkSet (chunkOf c i j)]{fullShare} f))
def TD (d : Dev nD) (c : Fin τ.nSC) (i : Fin τ.nSub) : sProp (MM F) :=
  iprop((tabLoc d ↦{tok c i} TAB m d) ∗ (idxLoc d ↦{tok c i} IDX m d)
    ∗ bigSep Finset.univ fun j : Fin 200 => outLoc d ↦[chunkSet (chunkOf c i j)]{fullShare} OUT m d)
/-- What SparseCore c is handed and hands back: its sixteen vector subcores'. -/
def ST (d : Dev nD) (c : Fin τ.nSC) : sProp (MM F) := bigSep Finset.univ fun i : Fin τ.nSub => GO m d c i
def DN (d : Dev nD) (c : Fin τ.nSC) : sProp (MM F) := bigSep Finset.univ fun i : Fin τ.nSub => TD m d c i

def P : (K (F := F)).Pay (nD := nD) (Val := Elt F) (Name := ℕ) (U := UU) where
  st := fun q d c => ST m d ((K (F := F)).core q c)
  dn := fun q d c => DN m d ((K (F := F)).core q c)
  go := fun q d c i => GO m d ((K (F := F)).core q c) ((K (F := F)).sub q i)
  td := fun q d c i => TD m d ((K (F := F)).core q c) ((K (F := F)).sub q i)
  x := fun _ _ => iprop(emp)

theorem P_st (q : Fin 1) (d : Dev nD) (c : Fin ((K (F := F)).nCore q)) : (P m).st q d c = ST m d ((K (F := F)).core q c) := rfl
theorem P_dn (q : Fin 1) (d : Dev nD) (c : Fin ((K (F := F)).nCore q)) : (P m).dn q d c = DN m d ((K (F := F)).core q c) := rfl
theorem P_go (q : Fin 1) (d : Dev nD) (c : Fin ((K (F := F)).nCore q)) (i : Fin ((K (F := F)).nSub q)) :
    (P m).go q d c i = GO m d ((K (F := F)).core q c) ((K (F := F)).sub q i) := rfl
theorem P_td (q : Fin 1) (d : Dev nD) (c : Fin ((K (F := F)).nCore q)) (i : Fin ((K (F := F)).nSub q)) :
    (P m).td q d c i = TD m d ((K (F := F)).core q c) ((K (F := F)).sub q i) := rfl
theorem P_x (q : Fin 1) (thr : Thread nD τ) : (P m).x q thr = iprop(emp) := rfl

instance GO_storable (d : Dev nD) (c : Fin τ.nSC) (i : Fin τ.nSub) : BI.Storable (upEmb : UEmb _ (MM F)) (GO m d c i) := by
  unfold GO; infer_instance
instance TD_storable (d : Dev nD) (c : Fin τ.nSC) (i : Fin τ.nSub) : BI.Storable (upEmb : UEmb _ (MM F)) (TD m d c i) := by
  unfold TD; infer_instance
instance ST_storable (d : Dev nD) (c : Fin τ.nSC) : BI.Storable (upEmb : UEmb _ (MM F)) (ST m d c) := by
  unfold ST; infer_instance
instance DN_storable (d : Dev nD) (c : Fin τ.nSC) : BI.Storable (upEmb : UEmb _ (MM F)) (DN m d c) := by
  unfold DN; infer_instance

instance P_storable : (P (F := F) m).IsStorable where
  st q d c := by rw [P_st]; infer_instance
  dn q d c := by rw [P_dn]; infer_instance
  go q d c i := by rw [P_go]; infer_instance
  td q d c i := by rw [P_td]; infer_instance

/-- What @main leaves the claim: the two arguments at their launch contents, the result at the scaled lookup. -/
def FIN (d : Dev nD) : sProp (MM F) :=
  iprop((tokLoc d ↦{fullShare} m (tokLoc d)) ∗ (tableLoc d ↦{fullShare} m (tableLoc d))
    ∗ (resLoc d ↦{fullShare} (result (F := F) (m (tokLoc d)) (m (tableLoc d)) : Buf (Elt F) (resLoc d))))

def QC : PUnit × MemSt nD τ sig (Elt F) → Prop := fun r => ∀ c : Dev nD,
  r.2.mem (resLoc c) = (result (F := F) (m (tokLoc c)) (m (tableLoc c)) : Buf (Elt F) (resLoc c))
    ∧ r.2.mem (tokLoc c) = m (tokLoc c) ∧ r.2.mem (tableLoc c) = m (tableLoc c)

end Pay

end Cert.Proof.KI

end
-- ==== Proof.KI.Split.lean ====
/-
  The bookkeeping of the SparseCore call's operands: the gathered array is its 6400 chunks of 128 rows, dealt to the 32
  vector subcores 200 apiece (chunk 200 (2 i + c) + j is the j-th chunk of vector subcore i of SparseCore c); the
  scaled table and the index rows, which every vector subcore reads whole, go out as 32 read shares of the full share,
  the remaining share staying with @main during the call. Stated as the two entailments @main's proof needs around the
  call: the whole arrays give every SparseCore's operands and the remainder; the remainder and every SparseCore's
  results give the whole arrays back, the gathered array at the gathered rows.
-/
import proofs.«217222_g83150566851320_cont_9to1_m_45_25_alg».proof.Proof.KI.Iface

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks)

variable {F : FTy → Type}

/-! ## The chunks partition the gathered array -/

theorem chunkSet_eq (n : Fin 6400) : chunkSet n = (chunk n).set := by
  show ((View.whole (main_v2_scv : Ref sig .scVector)).slice (chunk n)).set = _
  rw [View.set_slice]; exact Finset.map_refl
theorem chunks_disjoint : ∀ n ∈ (Finset.univ : Finset (Fin 6400)), ∀ n' ∈ (Finset.univ : Finset (Fin 6400)), n ≠ n' → Disjoint (chunkSet n) (chunkSet n') :=
  fun n _ n' _ h => by rw [chunkSet_eq, chunkSet_eq]; exact Rect.part_disjoint hdiv h
theorem chunks_cover : (Finset.univ : Finset (Fin 6400)).biUnion chunkSet = Finset.univ :=
  (Finset.biUnion_congr rfl fun n _ => chunkSet_eq n).trans (Rect.biUnion_part hdiv)

/-! ## Numbering the vector subcores and their chunks -/

/-- Vector subcore i of SparseCore c is number 2 i + c of the 32. -/
def widEquiv : Fin τ.nSC × Fin τ.nSub ≃ Fin 32 where
  toFun p := ⟨wid p.1 p.2, wid_lt p.1 p.2⟩
  invFun k := (⟨k.val % 2, show k.val % 2 < 2 from Nat.mod_lt _ (by decide)⟩, ⟨k.val / 2, show k.val / 2 < 16 by have := k.isLt; omega⟩)
  left_inv := by
    rintro ⟨c, i⟩
    have hc : c.val < 2 := c.isLt
    have hi : i.val < 16 := i.isLt
    refine Prod.ext (Fin.ext ?_) (Fin.ext ?_)
    · show (2 * i.val + c.val) % 2 = c.val; omega
    · show (2 * i.val + c.val) / 2 = i.val; omega
  right_inv := by
    intro k; apply Fin.ext; show 2 * (k.val / 2) + k.val % 2 = k.val; omega

/-- Chunk n is the (n mod 200)-th chunk of vector subcore number n / 200. -/
def chunkEquiv : (Fin τ.nSC × Fin τ.nSub) × Fin 200 ≃ Fin 6400 where
  toFun p := chunkOf p.1.1 p.1.2 p.2
  invFun n := ((⟨n.val / 200 % 2, show n.val / 200 % 2 < 2 from Nat.mod_lt _ (by decide)⟩,
    ⟨n.val / 200 / 2, show n.val / 200 / 2 < 16 by have := n.isLt; omega⟩), ⟨n.val % 200, Nat.mod_lt _ (by decide)⟩)
  left_inv := by
    rintro ⟨⟨c, i⟩, j⟩
    have hc : c.val < 2 := c.isLt
    have hi : i.val < 16 := i.isLt
    have hj : j.val < 200 := j.isLt
    refine Prod.ext (Prod.ext (Fin.ext ?_) (Fin.ext ?_)) (Fin.ext ?_)
    · show (200 * (2 * i.val + c.val) + j.val) / 200 % 2 = c.val; omega
    · show (200 * (2 * i.val + c.val) + j.val) / 200 / 2 = i.val; omega
    · show (200 * (2 * i.val + c.val) + j.val) % 200 = j.val; omega
  right_inv := by
    intro n; apply Fin.ext
    show 200 * (2 * (n.val / 200 / 2) + n.val / 200 % 2) + n.val % 200 = n.val; omega

/-! ## The arrays dealt and gathered -/

/-- The 32 read tokens of an array, by SparseCore and vector subcore. -/
theorem toks_eq (ℓ : Loc nD τ sig) (g : Buf (Elt F) ℓ) :
    (bigSep Finset.univ fun k : Fin 32 => (ℓ ↦{shareTok fullShare 32 k} g : sProp (MM F)))
      = bigSep Finset.univ fun c : Fin τ.nSC => bigSep Finset.univ fun i : Fin τ.nSub => ℓ ↦{tok c i} g := by
  rw [bigSep_univ_equiv widEquiv, bigSep_univ_prod]; rfl

/-- An array held whole is the share that stays behind and a read share for each vector subcore. -/
theorem reads_split (ℓ : Loc nD τ sig) (g : Buf (Elt F) ℓ) :
    (ℓ ↦{fullShare} g : sProp (MM F))
      ⊣⊢ iprop((ℓ ↦{shareDrop fullShare 32} g) ∗ bigSep Finset.univ fun c : Fin τ.nSC => bigSep Finset.univ fun i : Fin τ.nSub => ℓ ↦{tok c i} g) := by
  rw [← toks_eq]; exact pointsTo_toks fullShare 32

/-- The gathered array held whole is its chunks, by SparseCore, vector subcore and the subcore's chunk number. -/
theorem out_chunks (d : Dev nD) (f : Buf (Elt F) (outLoc d)) :
    (outLoc d ↦{fullShare} f : sProp (MM F))
      = bigSep Finset.univ fun c : Fin τ.nSC => bigSep Finset.univ fun i : Fin τ.nSub => bigSep Finset.univ fun j : Fin 200 =>
          outLoc d ↦[chunkSet (chunkOf c i j)]{fullShare} f := by
  have h : (outLoc d ↦{fullShare} f : sProp (MM F)) = bigSep Finset.univ fun n : Fin 6400 => outLoc d ↦[chunkSet n]{fullShare} f := by
    rw [← pointsTo_biUnion Finset.univ (ℓ := outLoc d) chunkSet chunks_disjoint, chunks_cover]; try rfl
  rw [h, bigSep_univ_equiv chunkEquiv, bigSep_univ_prod, bigSep_univ_prod]; rfl

/-- Chunks held at one function are chunks held at some function each. -/
theorem out_weaken (d : Dev nD) (f : Buf (Elt F) (outLoc d)) :
    (bigSep Finset.univ fun c : Fin τ.nSC => bigSep Finset.univ fun i : Fin τ.nSub => bigSep Finset.univ fun j : Fin 200 =>
        (outLoc d ↦[chunkSet (chunkOf c i j)]{fullShare} f : sProp (MM F)))
      ⊢ bigSep Finset.univ fun c : Fin τ.nSC => bigSep Finset.univ fun i : Fin τ.nSub => bigSep Finset.univ fun j : Fin 200 =>
          iprop(∃ f, outLoc d ↦[chunkSet (chunkOf c i j)]{fullShare} f) :=
  bigSep_mono fun c _ => bigSep_mono fun i _ => bigSep_mono fun j _ => by
    show (outLoc d ↦[chunkSet (chunkOf c i j)]{fullShare} f : sProp (MM F)) ⊢ iprop(∃ f, outLoc d ↦[chunkSet (chunkOf c i j)]{fullShare} f)
    iintro H; iexists f; iexact H

/-- Over the call's grid of SparseCores, which is both of them. -/
theorem bigSep_cores (Φ : Fin τ.nSC → sProp (MM F)) :
    (bigSep Finset.univ fun c : Fin ((K (F := F)).nCore 0) => Φ ((K (F := F)).core 0 c)) = bigSep Finset.univ Φ :=
  bigSep_congr fun _ _ => congrArg Φ (Fin.ext rfl)
/-- Over the call's grid of vector subcores, which is all sixteen. -/
theorem bigSep_subs (Φ : Fin τ.nSub → sProp (MM F)) :
    (bigSep Finset.univ fun i : Fin ((K (F := F)).nSub 0) => Φ ((K (F := F)).sub 0 i)) = bigSep Finset.univ Φ :=
  bigSep_congr fun _ _ => congrArg Φ (Fin.ext rfl)

section Call

variable [FloatOps F] (m : (ℓ : Loc nD τ sig) → Buf (Elt F) ℓ)

/-- What stays with @main during the call: the remaining share of the scaled table and of the index rows. -/
def LEFT (d : Dev nD) : sProp (MM F) :=
  iprop((tabLoc d ↦{shareDrop fullShare 32} TAB m d) ∗ (idxLoc d ↦{shareDrop fullShare 32} IDX m d))

theorem st_all (d : Dev nD) :
    (bigSep Finset.univ fun c : Fin ((K (F := F)).nCore 0) => (P m).st 0 d c)
      = iprop((bigSep Finset.univ fun c : Fin τ.nSC => bigSep Finset.univ fun i : Fin τ.nSub => tabLoc d ↦{tok c i} TAB m d)
          ∗ (bigSep Finset.univ fun c : Fin τ.nSC => bigSep Finset.univ fun i : Fin τ.nSub => idxLoc d ↦{tok c i} IDX m d)
          ∗ bigSep Finset.univ fun c : Fin τ.nSC => bigSep Finset.univ fun i : Fin τ.nSub => bigSep Finset.univ fun j : Fin 200 =>
              iprop(∃ f, outLoc d ↦[chunkSet (chunkOf c i j)]{fullShare} f)) := by
  simp only [P_st]
  rw [bigSep_cores (F := F) (fun c => ST m d c)]
  unfold ST GO
  simp only [bigSep_sep']

theorem dn_all (d : Dev nD) :
    (bigSep Finset.univ fun c : Fin ((K (F := F)).nCore 0) => (P m).dn 0 d c)
      = iprop((bigSep Finset.univ fun c : Fin τ.nSC => bigSep Finset.univ fun i : Fin τ.nSub => tabLoc d ↦{tok c i} TAB m d)
          ∗ (bigSep Finset.univ fun c : Fin τ.nSC => bigSep Finset.univ fun i : Fin τ.nSub => idxLoc d ↦{tok c i} IDX m d)
          ∗ bigSep Finset.univ fun c : Fin τ.nSC => bigSep Finset.univ fun i : Fin τ.nSub => bigSep Finset.univ fun j : Fin 200 =>
              outLoc d ↦[chunkSet (chunkOf c i j)]{fullShare} OUT m d) := by
  simp only [P_dn]
  rw [bigSep_cores (F := F) (fun c => DN m d c)]
  unfold DN TD
  simp only [bigSep_sep']

/-- Before the call: the scaled table, the index rows and the gathered array (at whatever it holds), whole, are every
    SparseCore's operands and what stays behind. -/
theorem split_call (d : Dev nD) :
    iprop((tabLoc d ↦{fullShare} TAB m d) ∗ (idxLoc d ↦{fullShare} IDX m d) ∗ (∃ f, outLoc d ↦{fullShare} f))
      ⊢ iprop((bigSep Finset.univ fun c : Fin ((K (F := F)).nCore 0) => (P m).st 0 d c) ∗ LEFT m d) := by
  rw [st_all]; unfold LEFT
  iintro ⟨Ht, Hi, %f, Ho⟩
  ihave Ht' := (reads_split (F := F) (tabLoc d) (TAB m d)).1 $$ Ht
  icases Ht' with ⟨HtD, HtT⟩
  ihave Hi' := (reads_split (F := F) (idxLoc d) (IDX m d)).1 $$ Hi
  icases Hi' with ⟨HiD, HiT⟩
  ihave Ho' := (Entails.of_eq (out_chunks (F := F) d f)) $$ Ho
  isplitl [HtT HiT Ho']
  · isplitl [HtT]; · iexact HtT
    isplitl [HiT]; · iexact HiT
    iapply (out_weaken (F := F) d f); iexact Ho'
  · isplitl [HtD]; · iexact HtD
    iexact HiD

/-- After the call: every SparseCore's results and what stayed behind are the three arrays whole, the gathered array at
    the gathered rows. -/
theorem join_call (d : Dev nD) :
    iprop((bigSep Finset.univ fun c : Fin ((K (F := F)).nCore 0) => (P m).dn 0 d c) ∗ LEFT m d)
      ⊢ iprop((tabLoc d ↦{fullShare} TAB m d) ∗ (idxLoc d ↦{fullShare} IDX m d) ∗ (outLoc d ↦{fullShare} OUT m d)) := by
  rw [dn_all]; unfold LEFT
  iintro ⟨⟨HtT, HiT, Ho⟩, HtD, HiD⟩
  isplitl [HtT HtD]
  · iapply (reads_split (F := F) (tabLoc d) (TAB m d)).2
    isplitl [HtD]; · iexact HtD
    iexact HtT
  isplitl [HiT HiD]
  · iapply (reads_split (F := F) (idxLoc d) (IDX m d)).2
    isplitl [HiD]; · iexact HiD
    iexact HiT
  iapply (Entails.of_eq (out_chunks (F := F) d (OUT m d)).symm); iexact Ho

end Call

end Cert.Proof.KI

end
-- ==== Proof.KI.Ghost.lean ====
/-
  The TensorCore kernel's pipeline as the region rule reads it — it prefetches no table, so at the one admissible
  contents it is the printed pipeline —, the component of the ghost state its staging cells' rounds live in, and what
  the launch leaves each TensorCore for the region: the cells' launch ghost state and the loop's duty tokens.
-/
import proofs.«217222_g83150566851320_cont_9to1_m_45_25_alg».proof.Proof.KI.Common
import proofs.«217222_g83150566851320_cont_9to1_m_45_25_alg».proof.Proof.Gen.KernelIdeal.Launch

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The TensorCore kernel's staging cells -/

/-- The one admissible contents of the TensorCore kernel's prefetched tables: it prefetches none. -/
abbrev adm : (p : Fin 1) → (pcfgs (F := F) p).Adm := fun p => (cfgs p).toPCfg_adm
/-- The TensorCore kernel's pipeline at those contents: the printed one. -/
abbrev PC : Fin 1 → Pipeline.Cfg sig Λ₀ := Pipeline.pin (pcfgs (F := F)) adm
/-- The staging cells' rounds: the middle factor of the ghost state. -/
abbrev ER : Emb UR (MM F) := (Emb.inl : Emb UR (UR × Counters)).trans embR
instance ER_landsIn : (ER : Emb UR (MM F)).LandsIn (upEmb : UEmb _ (MM F)) := by unfold ER; infer_instance
theorem phinj : Function.Injective (Pipeline.cellOf (nD := nD) (τ := τ) (PC (F := F))) := cellOf_inj

/-- What the launch leaves the TensorCore of device d for its kernel's region: the staging cells' launch ghost state
    and the duty tokens of the transfers the pipeline's loop issues. -/
def GG (d : Dev nD) : sProp (MM F) :=
  iprop((bigSep Finset.univ fun p : Fin 1 => Pipeline.cellsGhost (PC (F := F)) ER p d)
    ∗ bigSep Finset.univ fun p : Fin 1 => Pipeline.toksInit (PC (F := F)) ER p d)

end Cert.Proof.KI

end
-- ==== Proof.KI.Launch.lean ====
/-
  The launch of the idealized kernel's threads, assembled: the side conditions of the SparseCore call's launch, how a
  SparseCore's operands are its sixteen vector subcores' (they are, by definition), the launch element of the ghost
  state (the handshakes' rounds; the TensorCore pipeline's staging cells' ghost state and duty tokens, which @main's
  proof starts from; the local transfers' counters, dropped), how the final memory reads the claim, and the program's
  run from a vector subcore's task and @main on the TensorCore, both taken as hypotheses.
-/
import proofs.«217222_g83150566851320_cont_9to1_m_45_25_alg».proof.Proof.KI.Split
import proofs.«217222_g83150566851320_cont_9to1_m_45_25_alg».proof.Proof.KI.Ghost

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The side conditions of the SparseCore call's launch -/

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

section Launch

variable [FloatOps F] (m : (ℓ : Loc nD τ sig) → Buf (Elt F) ℓ) (ρ : Dev nD → PrngReg)

/-! ## A SparseCore's operands are its vector subcores' -/

theorem vecSplit : (K (F := F)).VecSplit' (P m) 0 := by
  intro d c
  simp only [P_st, P_dn, P_go, P_td]
  rw [bigSep_subs (F := F) (fun i => GO m d ((K (F := F)).core 0 c) i), bigSep_subs (F := F) (fun i => TD m d ((K (F := F)).core 0 c) i)]
  unfold ST DN
  iintro H; imodintro
  isplitl [H]; · iexact H
  iintro H; iexact H

/-! ## The launch element of the ghost state -/

def u₀ : UU :=
  (initOf (K (F := F)).hsCells (K (F := F)).hsToks, (initOf (Pipeline.cells (PC (F := F)) phinj) (Pipeline.launchToks (PC (F := F)) phinj), 1))

omit [FloatOps F] in
theorem bigSep_emp' {I : Type} (s : Finset I) : (bigSep s fun _ => iprop(emp)) = (iprop(emp) : sProp (MM F)) := bigSep_emp_const s

omit [FloatOps F] in
theorem bigSep_GG : (bigSep Finset.univ fun d : Dev nD => GG (F := F) d)
    = iprop((bigSep Finset.univ fun d : Dev nD => bigSep Finset.univ fun p : Fin 1 => Pipeline.cellsGhost (PC (F := F)) ER p d)
        ∗ bigSep Finset.univ fun d : Dev nD => bigSep Finset.univ fun p : Fin 1 => (Pipeline.toksInit (PC (F := F)) ER p d : sProp (MM F))) := by
  unfold GG; rw [bigSep_sep']

theorem hu₀ : (ownU (u₀ (F := F)) : sProp (MM F))
    ⊢ |={Set.univ}=> iprop(BI.own (EH (initOf (K (F := F)).hsCells (K (F := F)).hsToks)) ∗ (bigSep Finset.univ fun d : Dev nD => GG (F := F) d)
        ∗ bigSep Finset.univ fun thr : Thread nD τ => bigSep Finset.univ fun q : Fin 1 => (P m).x q thr) := by
  unfold u₀
  iintro Hu
  ihave H := (ownU_pair _ _) $$ Hu
  icases H with ⟨HH, HR⟩
  ihave H2 := (own_pair_emb embR _ _) $$ HR
  icases H2 with ⟨HR, -⟩
  imod (Pipeline.fund_ghost (PC (F := F)) (ER (F := F)) phinj) $$ HR with ⟨Hg, Ht⟩
  imodintro
  isplitl [HH]; · iexact HH
  isplitl [Hg Ht]
  · rw [bigSep_GG]
    isplitl [Hg]; · iexact Hg
    iexact Ht
  simp only [P_x]
  rw [show (bigSep Finset.univ fun _ : Thread nD τ => bigSep Finset.univ fun _ : Fin 1 => (iprop(emp) : sProp (MM F))) = iprop(emp) from by
    rw [bigSep_congr fun _ _ => bigSep_emp' _, bigSep_emp']]
  iempintro

/-! ## The final memory reads the claim -/

def fq (d : Dev nD) (s' : Phys nD τ sig (Elt F)) : Prop :=
  s'.mem.mem (resLoc d) = (result (F := F) (m (tokLoc d)) (m (tableLoc d)) : Buf (Elt F) (resLoc d))
    ∧ s'.mem.mem (tokLoc d) = m (tokLoc d) ∧ s'.mem.mem (tableLoc d) = m (tableLoc d)

theorem hfin (d : Dev nD) (s' : Phys nD τ sig (Elt F)) : iprop(FIN m d ∗ SI s') ⊢ (⌜fq m d s'⌝ : sProp (MM F)) := by
  unfold FIN
  iintro ⟨⟨Hk, Ht, Hr⟩, HSI⟩
  ihave H := (persistent_entails_right (SI_pointsTo_agree (st := s') (ℓ := tokLoc d) (I := Finset.univ) (q := fullShare) (f := m (tokLoc d)))) $$ [HSI Hk]
  · isplitl [HSI] <;> iassumption
  icases H with ⟨%h1, HSI, -⟩
  ihave H := (persistent_entails_right (SI_pointsTo_agree (st := s') (ℓ := tableLoc d) (I := Finset.univ) (q := fullShare) (f := m (tableLoc d)))) $$ [HSI Ht]
  · isplitl [HSI] <;> iassumption
  icases H with ⟨%h2, HSI, -⟩
  ihave H := (SI_pointsTo_agree (st := s') (ℓ := resLoc d) (I := Finset.univ) (q := fullShare)
    (f := (result (F := F) (m (tokLoc d)) (m (tableLoc d)) : Buf (Elt F) (resLoc d)))) $$ [HSI Hr]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

/-- The run of the program's threads from any launch memory, given a vector subcore's task and @main on the
    TensorCore: the result ends at the scaled lookup, the two arguments unchanged. -/
theorem run_main [∀ e, Nonempty (Elt F e)]
    (hT : (K (F := F)).TileObl (D (F := F)) 𝒱 (P m) v₀ 0)
    (hM : ∀ (κ : GSem nD τ sig → ℕ) (d : Dev nD),
      iprop((K (F := F)).ctx EH (P m) κ ∗ (K (F := F)).tcSt EH d 0 ∗ (K (F := F)).tcRes m ρ d ∗ GG (F := F) d)
        ⊢ wp frame (wpE ((K (F := F)).defs (D (F := F))) 𝒱 (SparseCore.T d) none) Set.univ (main d)
            fun _ => iprop((K (F := F)).tcSt EH d 1 ∗ FIN m d)) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => hT)
    (fun q _ => match q with | 0 => SparseCore.Cfg.VecSplit.of_plain (vecSplit m))
    m ρ main (GG (F := F)) (FIN m) (u₀ (F := F)) (sep_elim_left.trans (hu₀ m)) hM (fq m) (hfin m) (QC m) (fun _ h => h)

end Launch

end Cert.Proof.KI

end
-- ==== Proof.KB.Common.lean ====
/-
  Names shared by the modules about the kernel's threads: the program as the launch theorem reads it, the
  ghost state (the launch handshakes' rounds, the TensorCore pipeline's staging cells, the local transfers' counters),
  the three arrays the vector subcores work on and a vector subcore's scratch.
-/
import proofs.«217222_g83150566851320_cont_9to1_m_45_25_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«217222_g83150566851320_cont_9to1_m_45_25_alg».proof.Proof.Gen.Kernel

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch handshakes' rounds, the pipeline's staging cells' rounds, the local transfers' counters. -/
abbrev UH : Type := URounds (GSem nD τ sig) ℕ
abbrev UR : Type := URounds (GSem nD τ sig) Unit
abbrev UU : Type := UH × (UR × Counters)

abbrev MM (F : FTy → Type) : Type := MT nD τ sig (HIx 1) (Elt F) ℕ UU ℕ

abbrev EH : Emb UH (MM F) := embL

/-- The scaled and padded table, the tokens laid out in rows of 128, and the gathered rows, as a vector subcore
    addresses them; and its scratch: the index rows of a group, three landing buffers, two compacted buffers. -/
abbrev tabV : Memref sig .scVector .hbm S100000x128 .f32 := Memref.whole main_v0_scv
abbrev idxV : Memref sig .scVector .hbm S6400x128 .i32 := Memref.whole main_v1_scv
abbrev outV : Memref sig .scVector .hbm S819200x64 .f32 := Memref.whole main_v2_scv
abbrev sIdx : Memref sig .scVector .vmem S40x128 .i32 := Memref.whole cc1_scratch0
abbrev sR0 : Memref sig .scVector .vmem S128x128 .f32 := Memref.whole cc1_scratch1
abbrev sR1 : Memref sig .scVector .vmem S128x128 .f32 := Memref.whole cc1_scratch2
abbrev sR2 : Memref sig .scVector .vmem S128x128 .f32 := Memref.whole cc1_scratch3
abbrev sC0 : Memref sig .scVector .vmem S128x64 .f32 := Memref.whole cc1_scratch4
abbrev sC1 : Memref sig .scVector .vmem S128x64 .f32 := Memref.whole cc1_scratch5

abbrev tabLoc (d : Dev nD) : Loc nD τ sig := (SparseCore.T d).loc main_v0
abbrev idxLoc (d : Dev nD) : Loc nD τ sig := (SparseCore.T d).loc main_v1
abbrev outLoc (d : Dev nD) : Loc nD τ sig := (SparseCore.T d).loc main_v2

/-- A vector subcore's grid coordinates, its SparseCore and its place on it. -/
def coordsV (c : Fin (grid1.bound 0)) (s : Fin (grid1.bound 1)) : grid1.Coords :=
  fun | 0 => c | 1 => s | ⟨_ + 2, h⟩ => absurd h (Nat.not_lt.2 (Nat.le_add_left _ _))
abbrev cV (L : grid1.Coords) : Fin τ.nSC := (L 0).castLE hcore1
abbrev jV (L : grid1.Coords) : Fin τ.nSub := (L 1).castLE hsub1

end Cert.Proof.KB

end
-- ==== Proof.KB.Iface.lean ====
/-
  The vocabulary shared by the modules about the launch of the kernel: the arrays the program computes on
  the way as pure functions of its two arguments (the table scaled by eight and padded to 128 columns, the tokens laid
  out in rows of 128, the rows gathered by the tokens, the result), the 6400 chunks of 128 rows of the gathered array
  and which vector subcore writes which, and what the launch's handshakes carry: every vector subcore reads the scaled
  table and the index rows under a read share of its own and owns its 200 chunks of the gathered array.
-/
import proofs.«217222_g83150566851320_cont_9to1_m_45_25_alg».proof.Proof.KB.Common
import proofs.«217222_g83150566851320_cont_9to1_m_45_25_alg».proof.Proof.Spec

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)
open Idealize.ShloMosaic.Transfers (shareTok shareDrop)

variable {F : FTy → Type}

/-! ## The arrays, as pure functions of the arguments -/

/-- The table scaled and padded: entry (r, c) is entry (r, c) of the table times eight for c < 64, zero beyond. The
    product and the two literals are spelt as the TensorCore kernel's body spells them. -/
def scaledPad [FloatOps F] (tab : FVec F S100000x64 .f32) : FVec F S100000x128 .f32 :=
  fun i => if h : (i 1).val < 64 then
      FloatOps.mulf (tab (ix2 (n0 := 100000) (n1 := 64) (i 0) ⟨(i 1).val, h⟩)) (Scalar.ofBits .f32 0x41000000#32)
    else Scalar.ofBits .f32 0x00000000#32

/-- The tokens in rows of 128: the same words in row-major order. -/
def idxRows (tok : IVec S4096x200 32) : IVec S6400x128 32 :=
  shapeCast S6400x128 tok shapeCasts_S4096x200_S6400x128

theorem gathered_row_lt (i : S819200x64.Idx) : (i 0).val / 128 < 6400 := by
  have := ValueIdx.idx2_lt0 i; omega
theorem gathered_col_lt (i : S819200x64.Idx) : (i 1).val < 128 := by
  have := ValueIdx.idx2_lt1 i; omega

/-- The gathered rows: row r holds the first 64 columns of the row of the scaled table that the r-th token (in
    row-major order) names. -/
def gathered (ft : FVec F S100000x128 .f32) (fi : IVec S6400x128 32) : FVec F S819200x64 .f32 :=
  fun i => ft (ix2 (n0 := 100000) (n1 := 128)
    (Cert.Spec.rowOf (fi (ix2 (n0 := 6400) (n1 := 128) ⟨(i 0).val / 128, gathered_row_lt i⟩ ⟨(i 0).val % 128, Nat.mod_lt _ (by decide)⟩)))
    ⟨(i 1).val, gathered_col_lt i⟩)

/-- The program's result: the gathered rows at the result's shape. -/
def result [FloatOps F] (tok : IVec S4096x200 32) (tab : FVec F S100000x64 .f32) : FVec F S4096x200x64 .f32 :=
  shapeCast S4096x200x64 (gathered (scaledPad tab) (idxRows tok)) shapeCasts_S819200x64_S4096x200x64

abbrev tokLoc (d : Dev nD) : Loc nD τ sig := (SparseCore.T d).loc main_arg0
abbrev tableLoc (d : Dev nD) : Loc nD τ sig := (SparseCore.T d).loc main_arg1
abbrev resLoc (d : Dev nD) : Loc nD τ sig := (SparseCore.T d).loc main_v3

section Arrays

variable [FloatOps F] (m : (ℓ : Loc nD τ sig) → Buf (Elt F) ℓ)

/-- What the three arrays of the SparseCore call hold, from the launch memory. -/
def TAB (d : Dev nD) : Buf (Elt F) (tabLoc d) := scaledPad (F := F) (m (tableLoc d))
def IDX (d : Dev nD) : Buf (Elt F) (idxLoc d) := idxRows (m (tokLoc d))
def OUT (d : Dev nD) : Buf (Elt F) (outLoc d) := gathered (F := F) (TAB m d) (IDX m d)

end Arrays

/-! ## The chunks of the gathered array -/

theorem hdiv : 6400 ∣ S819200x64.size 0 := ⟨128, rfl⟩
/-- Chunk n: rows [128 n, 128 n + 128), all 64 columns. -/
abbrev chunk (n : Fin 6400) : Rect S819200x64 := Rect.part (s := S819200x64) (a₀ := 0) hdiv n
abbrev chunkSet (n : Fin 6400) : Finset S819200x64.Idx := ((outV : Memref sig .scVector .hbm S819200x64 .f32).view.slice (chunk n)).set

/-- The number of vector subcore i of SparseCore c among the 32, and its j-th chunk. -/
def wid (c : Fin τ.nSC) (i : Fin τ.nSub) : ℕ := 2 * i.val + c.val
theorem wid_lt (c : Fin τ.nSC) (i : Fin τ.nSub) : wid c i < 32 := by
  have hc : c.val < 2 := c.isLt
  have hi : i.val < 16 := i.isLt
  unfold wid; omega
def chunkOf (c : Fin τ.nSC) (i : Fin τ.nSub) (j : Fin 200) : Fin 6400 :=
  ⟨200 * wid c i + j.val, by have := wid_lt c i; have := j.isLt; omega⟩

/-- The read share of vector subcore (c, i): one of 32 read tokens of the full share. -/
def tok (c : Fin τ.nSC) (i : Fin τ.nSub) : PosShare TreeShare := shareTok fullShare 32 ⟨wid c i, wid_lt c i⟩

/-! ## What the handshakes carry -/

section Pay

variable [FloatOps F] (m : (ℓ : Loc nD τ sig) → Buf (Elt F) ℓ)

/-- What vector subcore (c, i) is handed: the scaled table and the index rows under its read share, its 200 chunks of
    the gathered array at whatever they hold; and what it hands back: the same, the chunks at the gathered rows. -/
def GO (d : Dev nD) (c : Fin τ.nSC) (i : Fin τ.nSub) : sProp (MM F) :=
  iprop((tabLoc d ↦{tok c i} TAB m d) ∗ (idxLoc d ↦{tok c i} IDX m d)
    ∗ bigSep Finset.univ fun j : Fin 200 => iprop(∃ f, outLoc d ↦[chunkSet (chunkOf c i j)]{fullShare} f))
def TD (d : Dev nD) (c : Fin τ.nSC) (i : Fin τ.nSub) : sProp (MM F) :=
  iprop((tabLoc d ↦{tok c i} TAB m d) ∗ (idxLoc d ↦{tok c i} IDX m d)
    ∗ bigSep Finset.univ fun j : Fin 200 => outLoc d ↦[chunkSet (chunkOf c i j)]{fullShare} OUT m d)
/-- What SparseCore c is handed and hands back: its sixteen vector subcores'. -/
def ST (d : Dev nD) (c : Fin τ.nSC) : sProp (MM F) := bigSep Finset.univ fun i : Fin τ.nSub => GO m d c i
def DN (d : Dev nD) (c : Fin τ.nSC) : sProp (MM F) := bigSep Finset.univ fun i : Fin τ.nSub => TD m d c i

def P : (K (F := F)).Pay (nD := nD) (Val := Elt F) (Name := ℕ) (U := UU) where
  st := fun q d c => ST m d ((K (F := F)).core q c)
  dn := fun q d c => DN m d ((K (F := F)).core q c)
  go := fun q d c i => GO m d ((K (F := F)).core q c) ((K (F := F)).sub q i)
  td := fun q d c i => TD m d ((K (F := F)).core q c) ((K (F := F)).sub q i)
  x := fun _ _ => iprop(emp)

theorem P_st (q : Fin 1) (d : Dev nD) (c : Fin ((K (F := F)).nCore q)) : (P m).st q d c = ST m d ((K (F := F)).core q c) := rfl
theorem P_dn (q : Fin 1) (d : Dev nD) (c : Fin ((K (F := F)).nCore q)) : (P m).dn q d c = DN m d ((K (F := F)).core q c) := rfl
theorem P_go (q : Fin 1) (d : Dev nD) (c : Fin ((K (F := F)).nCore q)) (i : Fin ((K (F := F)).nSub q)) :
    (P m).go q d c i = GO m d ((K (F := F)).core q c) ((K (F := F)).sub q i) := rfl
theorem P_td (q : Fin 1) (d : Dev nD) (c : Fin ((K (F := F)).nCore q)) (i : Fin ((K (F := F)).nSub q)) :
    (P m).td q d c i = TD m d ((K (F := F)).core q c) ((K (F := F)).sub q i) := rfl
theorem P_x (q : Fin 1) (thr : Thread nD τ) : (P m).x q thr = iprop(emp) := rfl

instance GO_storable (d : Dev nD) (c : Fin τ.nSC) (i : Fin τ.nSub) : BI.Storable (upEmb : UEmb _ (MM F)) (GO m d c i) := by
  unfold GO; infer_instance
instance TD_storable (d : Dev nD) (c : Fin τ.nSC) (i : Fin τ.nSub) : BI.Storable (upEmb : UEmb _ (MM F)) (TD m d c i) := by
  unfold TD; infer_instance
instance ST_storable (d : Dev nD) (c : Fin τ.nSC) : BI.Storable (upEmb : UEmb _ (MM F)) (ST m d c) := by
  unfold ST; infer_instance
instance DN_storable (d : Dev nD) (c : Fin τ.nSC) : BI.Storable (upEmb : UEmb _ (MM F)) (DN m d c) := by
  unfold DN; infer_instance

instance P_storable : (P (F := F) m).IsStorable where
  st q d c := by rw [P_st]; infer_instance
  dn q d c := by rw [P_dn]; infer_instance
  go q d c i := by rw [P_go]; infer_instance
  td q d c i := by rw [P_td]; infer_instance

/-- What @main leaves the claim: the two arguments at their launch contents, the result at the scaled lookup. -/
def FIN (d : Dev nD) : sProp (MM F) :=
  iprop((tokLoc d ↦{fullShare} m (tokLoc d)) ∗ (tableLoc d ↦{fullShare} m (tableLoc d))
    ∗ (resLoc d ↦{fullShare} (result (F := F) (m (tokLoc d)) (m (tableLoc d)) : Buf (Elt F) (resLoc d))))

def QC : PUnit × MemSt nD τ sig (Elt F) → Prop := fun r => ∀ c : Dev nD,
  r.2.mem (resLoc c) = (result (F := F) (m (tokLoc c)) (m (tableLoc c)) : Buf (Elt F) (resLoc c))
    ∧ r.2.mem (tokLoc c) = m (tokLoc c) ∧ r.2.mem (tableLoc c) = m (tableLoc c)

end Pay

end Cert.Proof.KB

end
-- ==== Proof.KB.Split.lean ====
/-
  The bookkeeping of the SparseCore call's operands: the gathered array is its 6400 chunks of 128 rows, dealt to the 32
  vector subcores 200 apiece (chunk 200 (2 i + c) + j is the j-th chunk of vector subcore i of SparseCore c); the
  scaled table and the index rows, which every vector subcore reads whole, go out as 32 read shares of the full share,
  the remaining share staying with @main during the call. Stated as the two entailments @main's proof needs around the
  call: the whole arrays give every SparseCore's operands and the remainder; the remainder and every SparseCore's
  results give the whole arrays back, the gathered array at the gathered rows.
-/
import proofs.«217222_g83150566851320_cont_9to1_m_45_25_alg».proof.Proof.KB.Iface

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks)

variable {F : FTy → Type}

/-! ## The chunks partition the gathered array -/

theorem chunkSet_eq (n : Fin 6400) : chunkSet n = (chunk n).set := by
  show ((View.whole (main_v2_scv : Ref sig .scVector)).slice (chunk n)).set = _
  rw [View.set_slice]; exact Finset.map_refl
theorem chunks_disjoint : ∀ n ∈ (Finset.univ : Finset (Fin 6400)), ∀ n' ∈ (Finset.univ : Finset (Fin 6400)), n ≠ n' → Disjoint (chunkSet n) (chunkSet n') :=
  fun n _ n' _ h => by rw [chunkSet_eq, chunkSet_eq]; exact Rect.part_disjoint hdiv h
theorem chunks_cover : (Finset.univ : Finset (Fin 6400)).biUnion chunkSet = Finset.univ :=
  (Finset.biUnion_congr rfl fun n _ => chunkSet_eq n).trans (Rect.biUnion_part hdiv)

/-! ## Numbering the vector subcores and their chunks -/

/-- Vector subcore i of SparseCore c is number 2 i + c of the 32. -/
def widEquiv : Fin τ.nSC × Fin τ.nSub ≃ Fin 32 where
  toFun p := ⟨wid p.1 p.2, wid_lt p.1 p.2⟩
  invFun k := (⟨k.val % 2, show k.val % 2 < 2 from Nat.mod_lt _ (by decide)⟩, ⟨k.val / 2, show k.val / 2 < 16 by have := k.isLt; omega⟩)
  left_inv := by
    rintro ⟨c, i⟩
    have hc : c.val < 2 := c.isLt
    have hi : i.val < 16 := i.isLt
    refine Prod.ext (Fin.ext ?_) (Fin.ext ?_)
    · show (2 * i.val + c.val) % 2 = c.val; omega
    · show (2 * i.val + c.val) / 2 = i.val; omega
  right_inv := by
    intro k; apply Fin.ext; show 2 * (k.val / 2) + k.val % 2 = k.val; omega

/-- Chunk n is the (n mod 200)-th chunk of vector subcore number n / 200. -/
def chunkEquiv : (Fin τ.nSC × Fin τ.nSub) × Fin 200 ≃ Fin 6400 where
  toFun p := chunkOf p.1.1 p.1.2 p.2
  invFun n := ((⟨n.val / 200 % 2, show n.val / 200 % 2 < 2 from Nat.mod_lt _ (by decide)⟩,
    ⟨n.val / 200 / 2, show n.val / 200 / 2 < 16 by have := n.isLt; omega⟩), ⟨n.val % 200, Nat.mod_lt _ (by decide)⟩)
  left_inv := by
    rintro ⟨⟨c, i⟩, j⟩
    have hc : c.val < 2 := c.isLt
    have hi : i.val < 16 := i.isLt
    have hj : j.val < 200 := j.isLt
    refine Prod.ext (Prod.ext (Fin.ext ?_) (Fin.ext ?_)) (Fin.ext ?_)
    · show (200 * (2 * i.val + c.val) + j.val) / 200 % 2 = c.val; omega
    · show (200 * (2 * i.val + c.val) + j.val) / 200 / 2 = i.val; omega
    · show (200 * (2 * i.val + c.val) + j.val) % 200 = j.val; omega
  right_inv := by
    intro n; apply Fin.ext
    show 200 * (2 * (n.val / 200 / 2) + n.val / 200 % 2) + n.val % 200 = n.val; omega

/-! ## The arrays dealt and gathered -/

/-- The 32 read tokens of an array, by SparseCore and vector subcore. -/
theorem toks_eq (ℓ : Loc nD τ sig) (g : Buf (Elt F) ℓ) :
    (bigSep Finset.univ fun k : Fin 32 => (ℓ ↦{shareTok fullShare 32 k} g : sProp (MM F)))
      = bigSep Finset.univ fun c : Fin τ.nSC => bigSep Finset.univ fun i : Fin τ.nSub => ℓ ↦{tok c i} g := by
  rw [bigSep_univ_equiv widEquiv, bigSep_univ_prod]; rfl

/-- An array held whole is the share that stays behind and a read share for each vector subcore. -/
theorem reads_split (ℓ : Loc nD τ sig) (g : Buf (Elt F) ℓ) :
    (ℓ ↦{fullShare} g : sProp (MM F))
      ⊣⊢ iprop((ℓ ↦{shareDrop fullShare 32} g) ∗ bigSep Finset.univ fun c : Fin τ.nSC => bigSep Finset.univ fun i : Fin τ.nSub => ℓ ↦{tok c i} g) := by
  rw [← toks_eq]; exact pointsTo_toks fullShare 32

/-- The gathered array held whole is its chunks, by SparseCore, vector subcore and the subcore's chunk number. -/
theorem out_chunks (d : Dev nD) (f : Buf (Elt F) (outLoc d)) :
    (outLoc d ↦{fullShare} f : sProp (MM F))
      = bigSep Finset.univ fun c : Fin τ.nSC => bigSep Finset.univ fun i : Fin τ.nSub => bigSep Finset.univ fun j : Fin 200 =>
          outLoc d ↦[chunkSet (chunkOf c i j)]{fullShare} f := by
  have h : (outLoc d ↦{fullShare} f : sProp (MM F)) = bigSep Finset.univ fun n : Fin 6400 => outLoc d ↦[chunkSet n]{fullShare} f := by
    rw [← pointsTo_biUnion Finset.univ (ℓ := outLoc d) chunkSet chunks_disjoint, chunks_cover]; try rfl
  rw [h, bigSep_univ_equiv chunkEquiv, bigSep_univ_prod, bigSep_univ_prod]; rfl

/-- Chunks held at one function are chunks held at some function each. -/
theorem out_weaken (d : Dev nD) (f : Buf (Elt F) (outLoc d)) :
    (bigSep Finset.univ fun c : Fin τ.nSC => bigSep Finset.univ fun i : Fin τ.nSub => bigSep Finset.univ fun j : Fin 200 =>
        (outLoc d ↦[chunkSet (chunkOf c i j)]{fullShare} f : sProp (MM F)))
      ⊢ bigSep Finset.univ fun c : Fin τ.nSC => bigSep Finset.univ fun i : Fin τ.nSub => bigSep Finset.univ fun j : Fin 200 =>
          iprop(∃ f, outLoc d ↦[chunkSet (chunkOf c i j)]{fullShare} f) :=
  bigSep_mono fun c _ => bigSep_mono fun i _ => bigSep_mono fun j _ => by
    show (outLoc d ↦[chunkSet (chunkOf c i j)]{fullShare} f : sProp (MM F)) ⊢ iprop(∃ f, outLoc d ↦[chunkSet (chunkOf c i j)]{fullShare} f)
    iintro H; iexists f; iexact H

/-- Over the call's grid of SparseCores, which is both of them. -/
theorem bigSep_cores (Φ : Fin τ.nSC → sProp (MM F)) :
    (bigSep Finset.univ fun c : Fin ((K (F := F)).nCore 0) => Φ ((K (F := F)).core 0 c)) = bigSep Finset.univ Φ :=
  bigSep_congr fun _ _ => congrArg Φ (Fin.ext rfl)
/-- Over the call's grid of vector subcores, which is all sixteen. -/
theorem bigSep_subs (Φ : Fin τ.nSub → sProp (MM F)) :
    (bigSep Finset.univ fun i : Fin ((K (F := F)).nSub 0) => Φ ((K (F := F)).sub 0 i)) = bigSep Finset.univ Φ :=
  bigSep_congr fun _ _ => congrArg Φ (Fin.ext rfl)

section Call

variable [FloatOps F] (m : (ℓ : Loc nD τ sig) → Buf (Elt F) ℓ)

/-- What stays with @main during the call: the remaining share of the scaled table and of the index rows. -/
def LEFT (d : Dev nD) : sProp (MM F) :=
  iprop((tabLoc d ↦{shareDrop fullShare 32} TAB m d) ∗ (idxLoc d ↦{shareDrop fullShare 32} IDX m d))

theorem st_all (d : Dev nD) :
    (bigSep Finset.univ fun c : Fin ((K (F := F)).nCore 0) => (P m).st 0 d c)
      = iprop((bigSep Finset.univ fun c : Fin τ.nSC => bigSep Finset.univ fun i : Fin τ.nSub => tabLoc d ↦{tok c i} TAB m d)
          ∗ (bigSep Finset.univ fun c : Fin τ.nSC => bigSep Finset.univ fun i : Fin τ.nSub => idxLoc d ↦{tok c i} IDX m d)
          ∗ bigSep Finset.univ fun c : Fin τ.nSC => bigSep Finset.univ fun i : Fin τ.nSub => bigSep Finset.univ fun j : Fin 200 =>
              iprop(∃ f, outLoc d ↦[chunkSet (chunkOf c i j)]{fullShare} f)) := by
  simp only [P_st]
  rw [bigSep_cores (F := F) (fun c => ST m d c)]
  unfold ST GO
  simp only [bigSep_sep']

theorem dn_all (d : Dev nD) :
    (bigSep Finset.univ fun c : Fin ((K (F := F)).nCore 0) => (P m).dn 0 d c)
      = iprop((bigSep Finset.univ fun c : Fin τ.nSC => bigSep Finset.univ fun i : Fin τ.nSub => tabLoc d ↦{tok c i} TAB m d)
          ∗ (bigSep Finset.univ fun c : Fin τ.nSC => bigSep Finset.univ fun i : Fin τ.nSub => idxLoc d ↦{tok c i} IDX m d)
          ∗ bigSep Finset.univ fun c : Fin τ.nSC => bigSep Finset.univ fun i : Fin τ.nSub => bigSep Finset.univ fun j : Fin 200 =>
              outLoc d ↦[chunkSet (chunkOf c i j)]{fullShare} OUT m d) := by
  simp only [P_dn]
  rw [bigSep_cores (F := F) (fun c => DN m d c)]
  unfold DN TD
  simp only [bigSep_sep']

/-- Before the call: the scaled table, the index rows and the gathered array (at whatever it holds), whole, are every
    SparseCore's operands and what stays behind. -/
theorem split_call (d : Dev nD) :
    iprop((tabLoc d ↦{fullShare} TAB m d) ∗ (idxLoc d ↦{fullShare} IDX m d) ∗ (∃ f, outLoc d ↦{fullShare} f))
      ⊢ iprop((bigSep Finset.univ fun c : Fin ((K (F := F)).nCore 0) => (P m).st 0 d c) ∗ LEFT m d) := by
  rw [st_all]; unfold LEFT
  iintro ⟨Ht, Hi, %f, Ho⟩
  ihave Ht' := (reads_split (F := F) (tabLoc d) (TAB m d)).1 $$ Ht
  icases Ht' with ⟨HtD, HtT⟩
  ihave Hi' := (reads_split (F := F) (idxLoc d) (IDX m d)).1 $$ Hi
  icases Hi' with ⟨HiD, HiT⟩
  ihave Ho' := (Entails.of_eq (out_chunks (F := F) d f)) $$ Ho
  isplitl [HtT HiT Ho']
  · isplitl [HtT]; · iexact HtT
    isplitl [HiT]; · iexact HiT
    iapply (out_weaken (F := F) d f); iexact Ho'
  · isplitl [HtD]; · iexact HtD
    iexact HiD

/-- After the call: every SparseCore's results and what stayed behind are the three arrays whole, the gathered array at
    the gathered rows. -/
theorem join_call (d : Dev nD) :
    iprop((bigSep Finset.univ fun c : Fin ((K (F := F)).nCore 0) => (P m).dn 0 d c) ∗ LEFT m d)
      ⊢ iprop((tabLoc d ↦{fullShare} TAB m d) ∗ (idxLoc d ↦{fullShare} IDX m d) ∗ (outLoc d ↦{fullShare} OUT m d)) := by
  rw [dn_all]; unfold LEFT
  iintro ⟨⟨HtT, HiT, Ho⟩, HtD, HiD⟩
  isplitl [HtT HtD]
  · iapply (reads_split (F := F) (tabLoc d) (TAB m d)).2
    isplitl [HtD]; · iexact HtD
    iexact HtT
  isplitl [HiT HiD]
  · iapply (reads_split (F := F) (idxLoc d) (IDX m d)).2
    isplitl [HiD]; · iexact HiD
    iexact HiT
  iapply (Entails.of_eq (out_chunks (F := F) d (OUT m d)).symm); iexact Ho

end Call

end Cert.Proof.KB

end
-- ==== Proof.KB.Ghost.lean ====
/-
  The TensorCore kernel's pipeline as the region rule reads it — it prefetches no table, so at the one admissible
  contents it is the printed pipeline —, the component of the ghost state its staging cells' rounds live in, and what
  the launch leaves each TensorCore for the region: the cells' launch ghost state and the loop's duty tokens.
-/
import proofs.«217222_g83150566851320_cont_9to1_m_45_25_alg».proof.Proof.KB.Common
import proofs.«217222_g83150566851320_cont_9to1_m_45_25_alg».proof.Proof.Gen.Kernel.Launch

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The TensorCore kernel's staging cells -/

/-- The one admissible contents of the TensorCore kernel's prefetched tables: it prefetches none. -/
abbrev adm : (p : Fin 1) → (pcfgs (F := F) p).Adm := fun p => (cfgs p).toPCfg_adm
/-- The TensorCore kernel's pipeline at those contents: the printed one. -/
abbrev PC : Fin 1 → Pipeline.Cfg sig Λ₀ := Pipeline.pin (pcfgs (F := F)) adm
/-- The staging cells' rounds: the middle factor of the ghost state. -/
abbrev ER : Emb UR (MM F) := (Emb.inl : Emb UR (UR × Counters)).trans embR
instance ER_landsIn : (ER : Emb UR (MM F)).LandsIn (upEmb : UEmb _ (MM F)) := by unfold ER; infer_instance
theorem phinj : Function.Injective (Pipeline.cellOf (nD := nD) (τ := τ) (PC (F := F))) := cellOf_inj

/-- What the launch leaves the TensorCore of device d for its kernel's region: the staging cells' launch ghost state
    and the duty tokens of the transfers the pipeline's loop issues. -/
def GG (d : Dev nD) : sProp (MM F) :=
  iprop((bigSep Finset.univ fun p : Fin 1 => Pipeline.cellsGhost (PC (F := F)) ER p d)
    ∗ bigSep Finset.univ fun p : Fin 1 => Pipeline.toksInit (PC (F := F)) ER p d)

end Cert.Proof.KB

end
-- ==== Proof.KB.Launch.lean ====
/-
  The launch of the kernel's threads, assembled: the side conditions of the SparseCore call's launch, how a
  SparseCore's operands are its sixteen vector subcores' (they are, by definition), the launch element of the ghost
  state (the handshakes' rounds; the TensorCore pipeline's staging cells' ghost state and duty tokens, which @main's
  proof starts from; the local transfers' counters, dropped), how the final memory reads the claim, and the program's
  run from a vector subcore's task and @main on the TensorCore, both taken as hypotheses.
-/
import proofs.«217222_g83150566851320_cont_9to1_m_45_25_alg».proof.Proof.KB.Split
import proofs.«217222_g83150566851320_cont_9to1_m_45_25_alg».proof.Proof.KB.Ghost

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The side conditions of the SparseCore call's launch -/

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

section Launch

variable [FloatOps F] (m : (ℓ : Loc nD τ sig) → Buf (Elt F) ℓ) (ρ : Dev nD → PrngReg)

/-! ## A SparseCore's operands are its vector subcores' -/

theorem vecSplit : (K (F := F)).VecSplit' (P m) 0 := by
  intro d c
  simp only [P_st, P_dn, P_go, P_td]
  rw [bigSep_subs (F := F) (fun i => GO m d ((K (F := F)).core 0 c) i), bigSep_subs (F := F) (fun i => TD m d ((K (F := F)).core 0 c) i)]
  unfold ST DN
  iintro H; imodintro
  isplitl [H]; · iexact H
  iintro H; iexact H

/-! ## The launch element of the ghost state -/

def u₀ : UU :=
  (initOf (K (F := F)).hsCells (K (F := F)).hsToks, (initOf (Pipeline.cells (PC (F := F)) phinj) (Pipeline.launchToks (PC (F := F)) phinj), 1))

omit [FloatOps F] in
theorem bigSep_emp' {I : Type} (s : Finset I) : (bigSep s fun _ => iprop(emp)) = (iprop(emp) : sProp (MM F)) := bigSep_emp_const s

omit [FloatOps F] in
theorem bigSep_GG : (bigSep Finset.univ fun d : Dev nD => GG (F := F) d)
    = iprop((bigSep Finset.univ fun d : Dev nD => bigSep Finset.univ fun p : Fin 1 => Pipeline.cellsGhost (PC (F := F)) ER p d)
        ∗ bigSep Finset.univ fun d : Dev nD => bigSep Finset.univ fun p : Fin 1 => (Pipeline.toksInit (PC (F := F)) ER p d : sProp (MM F))) := by
  unfold GG; rw [bigSep_sep']

theorem hu₀ : (ownU (u₀ (F := F)) : sProp (MM F))
    ⊢ |={Set.univ}=> iprop(BI.own (EH (initOf (K (F := F)).hsCells (K (F := F)).hsToks)) ∗ (bigSep Finset.univ fun d : Dev nD => GG (F := F) d)
        ∗ bigSep Finset.univ fun thr : Thread nD τ => bigSep Finset.univ fun q : Fin 1 => (P m).x q thr) := by
  unfold u₀
  iintro Hu
  ihave H := (ownU_pair _ _) $$ Hu
  icases H with ⟨HH, HR⟩
  ihave H2 := (own_pair_emb embR _ _) $$ HR
  icases H2 with ⟨HR, -⟩
  imod (Pipeline.fund_ghost (PC (F := F)) (ER (F := F)) phinj) $$ HR with ⟨Hg, Ht⟩
  imodintro
  isplitl [HH]; · iexact HH
  isplitl [Hg Ht]
  · rw [bigSep_GG]
    isplitl [Hg]; · iexact Hg
    iexact Ht
  simp only [P_x]
  rw [show (bigSep Finset.univ fun _ : Thread nD τ => bigSep Finset.univ fun _ : Fin 1 => (iprop(emp) : sProp (MM F))) = iprop(emp) from by
    rw [bigSep_congr fun _ _ => bigSep_emp' _, bigSep_emp']]
  iempintro

/-! ## The final memory reads the claim -/

def fq (d : Dev nD) (s' : Phys nD τ sig (Elt F)) : Prop :=
  s'.mem.mem (resLoc d) = (result (F := F) (m (tokLoc d)) (m (tableLoc d)) : Buf (Elt F) (resLoc d))
    ∧ s'.mem.mem (tokLoc d) = m (tokLoc d) ∧ s'.mem.mem (tableLoc d) = m (tableLoc d)

theorem hfin (d : Dev nD) (s' : Phys nD τ sig (Elt F)) : iprop(FIN m d ∗ SI s') ⊢ (⌜fq m d s'⌝ : sProp (MM F)) := by
  unfold FIN
  iintro ⟨⟨Hk, Ht, Hr⟩, HSI⟩
  ihave H := (persistent_entails_right (SI_pointsTo_agree (st := s') (ℓ := tokLoc d) (I := Finset.univ) (q := fullShare) (f := m (tokLoc d)))) $$ [HSI Hk]
  · isplitl [HSI] <;> iassumption
  icases H with ⟨%h1, HSI, -⟩
  ihave H := (persistent_entails_right (SI_pointsTo_agree (st := s') (ℓ := tableLoc d) (I := Finset.univ) (q := fullShare) (f := m (tableLoc d)))) $$ [HSI Ht]
  · isplitl [HSI] <;> iassumption
  icases H with ⟨%h2, HSI, -⟩
  ihave H := (SI_pointsTo_agree (st := s') (ℓ := resLoc d) (I := Finset.univ) (q := fullShare)
    (f := (result (F := F) (m (tokLoc d)) (m (tableLoc d)) : Buf (Elt F) (resLoc d)))) $$ [HSI Hr]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

/-- The run of the program's threads from any launch memory, given a vector subcore's task and @main on the
    TensorCore: the result ends at the scaled lookup, the two arguments unchanged. -/
theorem run_main [∀ e, Nonempty (Elt F e)]
    (hT : (K (F := F)).TileObl (D (F := F)) 𝒱 (P m) v₀ 0)
    (hM : ∀ (κ : GSem nD τ sig → ℕ) (d : Dev nD),
      iprop((K (F := F)).ctx EH (P m) κ ∗ (K (F := F)).tcSt EH d 0 ∗ (K (F := F)).tcRes m ρ d ∗ GG (F := F) d)
        ⊢ wp frame (wpE ((K (F := F)).defs (D (F := F))) 𝒱 (SparseCore.T d) none) Set.univ (main d)
            fun _ => iprop((K (F := F)).tcSt EH d 1 ∗ FIN m d)) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => hT)
    (fun q _ => match q with | 0 => SparseCore.Cfg.VecSplit.of_plain (vecSplit m))
    m ρ main (GG (F := F)) (FIN m) (u₀ (F := F)) (sep_elim_left.trans (hu₀ m)) hM (fq m) (hfin m) (QC m) (fun _ h => h)

end Launch

end Cert.Proof.KB

end
-- ==== Proof.KI.ValueEq.lean ====
/-
  The idealized kernel's result is the scaled lookup. Entry (b, s, d) of the result is row 200·b + s, column d of the
  gathered rows (the result is those rows at another shape, read in the same row-major order); row 200·b + s of the
  gathered rows is the row of the scaled table named by the token at row-major position 200·b + s of the index rows,
  which is token (b, s) (the index rows are the tokens at another shape); and column d < 64 of the scaled table is the
  table's entry times the literal 0x41000000, which denotes the real 8.
-/
import proofs.«217222_g83150566851320_cont_9to1_m_45_25_alg».proof.Proof.KI.Iface
import Idealize.ShloMosaic.PureOps.Ideal
import Idealize.ShloMosaic.Lib.ValueIdx
import Idealize.ShloMosaic.Lib.Pipeline.Value

noncomputable section

namespace Cert.Proof.KI

open Cert.KernelIdeal
open Idealize.ShloMosaic
open Idealize.ShloMosaic.ValueIdx (ix2 ix3)

/-- The literal 8.0 denotes the real 8. -/
theorem ofBits_8 : Ideal.ofBits .f32 0x41000000#32 = ((8 : ℝ) : EReal) := by
  simp [Ideal.ofBits, Ideal.ieee, -EReal.coe_mul]; norm_num

/-- The index rows at a position whose row-major place is 200·b + s hold token (b, s). -/
theorem idxRows_apply (tok : IVec S4096x200 32) (b : Fin 4096) (s : Fin 200) (q : S6400x128.Idx)
    (hq : (q 0).val * 128 + (q 1).val = b.val * 200 + s.val) :
    idxRows tok q = tok (ix2 (n0 := 4096) (n1 := 200) b s) := by
  unfold idxRows
  refine shapeCast_apply _ _ q (ix2 (n0 := 4096) (n1 := 200) b s) ?_
  rw [Shape.rowMajor_val_two, Shape.rowMajor_val_two]
  show b.val * 200 + s.val = (q 0).val * 128 + (q 1).val
  omega

/-- The scaled table at a column below 64: the table's entry times 8. -/
theorem scaledPad_apply (tab : FVec Ideal S100000x64 .f32) (r : Fin 100000) (d : Fin 64) (c : Fin 128) (hc : c.val = d.val) :
    scaledPad (F := Ideal) tab (ix2 (n0 := 100000) (n1 := 128) r c)
      = tab (ix2 (n0 := 100000) (n1 := 64) r d) * ((8 : ℝ) : EReal) := by
  have h : ((ix2 (n0 := 100000) (n1 := 128) r c) 1).val < 64 := by
    show c.val < 64
    have := d.isLt; omega
  unfold scaledPad
  show (if h : ((ix2 (n0 := 100000) (n1 := 128) r c) 1).val < 64 then
      FloatOps.mulf (tab (ix2 (n0 := 100000) (n1 := 64) ((ix2 (n0 := 100000) (n1 := 128) r c) 0)
        ⟨((ix2 (n0 := 100000) (n1 := 128) r c) 1).val, h⟩)) (Scalar.ofBits .f32 0x41000000#32)
    else Scalar.ofBits .f32 0x00000000#32) = _
  rw [dif_pos h]
  show tab (ix2 (n0 := 100000) (n1 := 64) r ⟨c.val, h⟩) * Ideal.ofBits .f32 0x41000000#32 = _
  rw [ofBits_8, show (⟨c.val, h⟩ : Fin 64) = d from Fin.ext hc]

/-- The result at an index. -/
theorem result_apply (tok : IVec S4096x200 32) (tab : FVec Ideal S100000x64 .f32) (i : S4096x200x64.Idx) :
    result (F := Ideal) tok tab i
      = tab (ix2 (n0 := 100000) (n1 := 64) (Cert.Spec.rowOf (tok (ix2 (n0 := 4096) (n1 := 200) (i 0) (i 1)))) (i 2))
          * ((8 : ℝ) : EReal) := by
  have h0 : (i 0).val < 4096 := (i 0).isLt
  have h1 : (i 1).val < 200 := (i 1).isLt
  have h2 : (i 2).val < 64 := (i 2).isLt
  have hr : (i 0).val * 200 + (i 1).val < 819200 := by omega
  unfold result
  rw [shapeCast_apply _ _ i (ix2 (n0 := 819200) (n1 := 64) ⟨(i 0).val * 200 + (i 1).val, hr⟩ (i 2))
    (by rw [Shape.rowMajor_val_two, Shape.rowMajor_val_three]; rfl)]
  unfold gathered
  rw [idxRows_apply tok (i 0) (i 1) _ (by
    show ((i 0).val * 200 + (i 1).val) / 128 * 128 + ((i 0).val * 200 + (i 1).val) % 128 = (i 0).val * 200 + (i 1).val
    omega)]
  exact scaledPad_apply tab _ (i 2) _ rfl

/-- The idealized kernel's result is the scaled lookup. -/
theorem result_eq_spec (tok : IVec S4096x200 32) (tab : FVec Ideal S100000x64 .f32) (h : Cert.Spec.InRange tok) :
    result (F := Ideal) tok tab = Cert.Spec.G tok tab :=
  funext fun i => result_apply tok tab i

end Cert.Proof.KI

end
-- ==== Proof.LibHostCalls.lean ====
/-
  Two general facts for reading back, by hand, the run of a host program that calls module-local functions.

  The operations of an inlined callee are built over typed references, which carry contents to the buffer's own type and
  back; after the run's fold is unfolded every intermediate value sits inside such a round trip. The round trip is the
  identity, for ANY typed reference (no computation on the reference is needed), so one rewriting pass removes them all;
  leaving them to a single definitional check costs time and memory that grow with the nesting (at shapes of a hundred
  million elements, gigabytes). And the contents after two lines of operations run in a row are the second line's from
  the first's, which lets a long line be read in pieces.
-/
import Idealize.ShloMosaic.Lib.StableHlo.Run

noncomputable section

namespace Cert.LibHostCalls

open Idealize.ShloMosaic Idealize.ShloMosaic.StableHlo

variable {τ : Topo} {sig : RefSig} {Val : EltTy → Type}

/-- Contents carried to a typed reference's buffer and back are the contents. -/
theorem ofBuf_toBuf {T : BufTy} (x : TRef sig T) (v : T.Contents Val) : x.ofBuf (x.toBuf v) = v := by
  obtain ⟨r, h, h1, h2⟩ := x
  subst h
  rfl

/-- The contents after two lines of operations in a row are the second line's from the first's. -/
theorem after_append (l₁ l₂ : List (HloOp τ sig Val)) (V : Valuation τ sig Val) :
    after (l₁ ++ l₂) V = after l₂ (after l₁ V) := by
  induction l₁ generalizing V with
  | nil => rfl
  | cons op l ih => exact ih _

end Cert.LibHostCalls

end
-- ==== Proof.RefOps.lean ====
/-
  The reference as one straight line. The reference's @main calls the outlined lookup (which calls the outlined
  three-way choice); both bodies unfold at their call sites into one straight line of 27 operations (`ops`, `main_eq`).
  Beside it, the operations' composed term of the two arguments (`term`), stage by stage: the index made non-negative,
  the index vector, the bounds mask, the lookup, the product with the square root of 64.
-/
import proofs.«217222_g83150566851320_cont_9to1_m_45_25_alg».proof.ReferenceIdeal
import proofs.«217222_g83150566851320_cont_9to1_m_45_25_alg».proof.Proof.LibHostCalls
import Idealize.ShloMosaic.Lib.StableHlo.Run

noncomputable section

namespace Cert.Proof.Ref

open Cert.ReferenceIdeal Cert.ReferenceIdeal.Facts₀ Idealize.ShloMosaic Idealize.ShloMosaic.TcCoe Idealize.SL.Sem
  Idealize.ShloMosaic.StableHlo

variable {F : FTy → Type} [FloatOps F] [Cert.ReferenceIdeal.Facts]

/-- The index a token names, made non-negative: a negative token is shifted up by the number of rows. -/
def fixIdx (tok : IVec S4096x200 32) : IVec S4096x200 32 :=
  select (cmpi .slt tok (broadcastInDim S4096x200 ![] bcast_S_S4096x200 (constantI S_ 32 0#32)))
    (addi tok (broadcastInDim S4096x200 ![] bcast_S_S4096x200 (constantI S_ 32 100000#32))) tok

/-- The index with a unit axis appended (the gather's index vector). -/
def idx3 (tok : IVec S4096x200 32) : IVec S4096x200x1 32 :=
  broadcastInDim S4096x200x1 ![0, 1] bcast_S4096x200_S4096x200x1_0_1 (fixIdx tok)

/-- Which positions hold an index inside the table: 0 ≤ index ≤ 99999, all over the unit axis. -/
def inBounds (tok : IVec S4096x200 32) : IVec S4096x200 1 :=
  Host.reduce IntOp.andi
    (andi (cmpi .sge (idx3 tok) (broadcastInDim S4096x200x1 ![] bcast_S_S4096x200x1 (constantI S_ 32 0#32)))
      (cmpi .sle (idx3 tok) (broadcastInDim S4096x200x1 ![0, 1, 2] bcast_S1x1x1_S4096x200x1_0_1_2
        (broadcastInDim S1x1x1 ![2] bcast_S1_S1x1x1_2 (constantI S1 32 99999#32)))))
    (constantI S_ 1 1#1) reducesTo_S4096x200x1_S4096x200_d2 h_S_

/-- The lookup: the gathered rows where the index is inside the table, NaN elsewhere. -/
def taken (tok : IVec S4096x200 32) (tab : FVec F S100000x64 .f32) : FVec F S4096x200x64 .f32 :=
  select (broadcastInDim S4096x200x64 ![0, 1] bcast_S4096x200_S4096x200x64_0_1 (inBounds tok))
    (Host.gather gather_S100000x64_S4096x200x1_S4096x200x64_2_0_n_n_0_2_164 tab (idx3 tok))
    (broadcastInDim S4096x200x64 ![] bcast_S_S4096x200x64 (constant S_ .f32 0x7FC00000#32))

/-- The reference's result as a term of its arguments: the lookup times the square root of 64. -/
def term (tok : IVec S4096x200 32) (tab : FVec F S100000x64 .f32) : FVec F S4096x200x64 .f32 :=
  mulf (taken tok tab)
    (broadcastInDim S4096x200x64 ![] bcast_S_S4096x200x64 (Host.sqrt (constant S_ .f32 0x42800000#32)))

/-- @main's 27 operations in order, the calls unfolded: the lookup's 23 (of which the choice's one select is the
    seventh) over the call's own buffers, then @main's four. -/
abbrev ops : List (HloOp τ sig (Elt F)) :=
  [ TRef.nullary main_call0.c (constantI S_ 32 0#32),
    TRef.unary main_call0.c main_call0.v0 (broadcastInDim S4096x200 ![] bcast_S_S4096x200),
    TRef.binary (.of main_arg0) main_call0.v0 main_call0.v1 (cmpi .slt),
    TRef.nullary main_call0.c_0 (constantI S_ 32 100000#32),
    TRef.unary main_call0.c_0 main_call0.v2 (broadcastInDim S4096x200 ![] bcast_S_S4096x200),
    TRef.binary (.of main_arg0) main_call0.v2 main_call0.v3 addi,
    TRef.ternary main_call0.v1 main_call0.v3 (.of main_arg0) main_call0.call0.v0 select,
    TRef.unary main_call0.call0.v0 main_call0.v5 (broadcastInDim S4096x200x1 ![0, 1] bcast_S4096x200_S4096x200x1_0_1),
    TRef.nullary main_call0.c_1 (constantI S1 32 99999#32),
    TRef.nullary main_call0.c_2 (constantI S_ 32 0#32),
    TRef.unary main_call0.c_2 main_call0.v6 (broadcastInDim S4096x200x1 ![] bcast_S_S4096x200x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S4096x200x1 ![0, 1, 2] bcast_S1x1x1_S4096x200x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4096x200x1_S4096x200_d2 h_S_),
    TRef.binary (.of main_arg1) main_call0.v5 main_call0.v13 (fun x i => Host.gather gather_S100000x64_S4096x200x1_S4096x200x64_2_0_n_n_0_2_164 x i),
    TRef.unary main_call0.v12 main_call0.v14 (broadcastInDim S4096x200x64 ![0, 1] bcast_S4096x200_S4096x200x64_0_1),
    TRef.nullary main_call0.cst (constant S_ .f32 0x7FC00000#32),
    TRef.unary main_call0.cst main_call0.v15 (broadcastInDim S4096x200x64 ![] bcast_S_S4096x200x64),
    TRef.ternary main_call0.v14 main_call0.v13 main_call0.v15 main_call0.v16 select,
    nullary main_cst (constant S_ .f32 0x42800000#32),
    unary main_cst main_v1 (Host.sqrt : (⟨S_, .f32⟩ : BufTy).Contents (Elt F) → (⟨S_, .f32⟩ : BufTy).Contents (Elt F)),
    unary main_v1 main_v2 (broadcastInDim S4096x200x64 ![] bcast_S_S4096x200x64 : (⟨S_, .f32⟩ : BufTy).Contents (Elt F) → (⟨S4096x200x64, .f32⟩ : BufTy).Contents (Elt F)),
    binary main_v0 main_v2 main_v3 (mulf : (⟨S4096x200x64, .f32⟩ : BufTy).Contents (Elt F) → (⟨S4096x200x64, .f32⟩ : BufTy).Contents (Elt F) → (⟨S4096x200x64, .f32⟩ : BufTy).Contents (Elt F)) ]

set_option maxRecDepth 1024 in
/-- @main is that straight line: the two functions' definitions unfolded at their calls, sequencing reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    nullary_bufs_sub .., unary_bufs_sub .., unary_bufs_sub .., binary_bufs_sub ..⟩

end Cert.Proof.Ref

end
-- ==== Proof.RefRun.lean ====
/-
  The reference's run: every weakly fair execution of @main terminates with the result buffer at `term` of the two
  arguments' launch contents and the arguments unchanged. The fold of the 27 operations is read at the result buffer
  (each operation's result at its own buffer, any other buffer untouched); the typed references' round trips are
  identities.
-/
import proofs.«217222_g83150566851320_cont_9to1_m_45_25_alg».proof.Proof.RefOps

noncomputable section

namespace Cert.Proof.Ref

open Cert.ReferenceIdeal Cert.ReferenceIdeal.Facts₀ Idealize.ShloMosaic Idealize.ShloMosaic.TcCoe Idealize.SL.Sem
  Idealize.ShloMosaic.StableHlo

variable {F : FTy → Type} [FloatOps F] [Cert.ReferenceIdeal.Facts]

attribute [local irreducible] Host.reduce Host.gather in
/-- The result buffer after the line: the composed term of the argument buffers' contents. -/
theorem after_v3 (V : Valuation τ sig (Elt F)) :
    after ops V (main_v3 : DevRef τ sig) = term (V (main_arg0 : DevRef τ sig)) (V (main_arg1 : DevRef τ sig)) := by
  after_results_simp
  simp only [Cert.LibHostCalls.ofBuf_toBuf]
  rfl

/-- No operation writes the first argument. -/
theorem after_arg0 (V : Valuation τ sig (Elt F)) :
    after ops V (main_arg0 : DevRef τ sig) = V (main_arg0 : DevRef τ sig) := by
  after_results_simp

/-- No operation writes the second argument. -/
theorem after_arg1 (V : Valuation τ sig (Elt F)) :
    after ops V (main_arg1 : DevRef τ sig) = V (main_arg1 : DevRef τ sig) := by
  after_results_simp

/-- On every device, for any float values, from any memory with zero counters: every weakly fair execution of
    @main terminates with the result at `term` of the arguments and the arguments unchanged. -/
theorem run_term (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v3)
          = term (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v3).trans (after_v3 _), (h c main_arg0).trans (after_arg0 _),
      (h c main_arg1).trans (after_arg1 _)⟩)
    (run_seq scopedRefs_eq scopedSems_eq defs main (fun _ => ops) main_eq (fun _ => ops_sub) m ρ)

end Cert.Proof.Ref

end
-- ==== Proof.RefValue.lean ====
/-
  The reference's term read at an index. For tokens in range (every token, as an unsigned word, below 100000):
  the index fix-up leaves a token as it is (it is not negative as a signed word); the bounds mask is 1 everywhere
  (0 ≤ token ≤ 99999), so the select takes the gathered value; the gather reads the table at the row of the token's
  value (its clamp into [0, 99999] changes nothing) and the column of the result's last coordinate; and the square
  root of the literal 64 is the real 8. So entry (b, s, d) is table entry (token (b, s), d) times 8.
-/
import proofs.«217222_g83150566851320_cont_9to1_m_45_25_alg».proof.Proof.RefOps
import proofs.«217222_g83150566851320_cont_9to1_m_45_25_alg».proof.Proof.Spec
import Idealize.ShloMosaic.Lib.ValueIdx
import Idealize.ShloMosaic.Lib.IdealHost
import Idealize.ShloMosaic.Lib.Affine
import Idealize.ShloMosaic.Lib.Pipeline.Value
import Idealize.ShloMosaic.PureOps.Reduce

noncomputable section

namespace Cert.Proof.Ref

open Cert.ReferenceIdeal Cert.ReferenceIdeal.Facts₀ Idealize.ShloMosaic Idealize.ShloMosaic.ValueIdx

/-! ## A gather of whole rows, read at an index -/

section Rows
variable {α : Type}

/-- The dimension numbers of `table[idx]` for a table `[N, D]` and start indices `[R, C, 1]`: result `[R, C, D]`,
    the row axis collapsed and indexed, the column axis the result's offset axis. -/
abbrev rowsDims (N D R C : Nat)
    (wf : GatherDims.WF ⟨2, ![N, D]⟩ ⟨3, ![R, C, 1]⟩ ⟨3, ![R, C, D]⟩ [2] [0] [] [0] [] 2 ![1, D]) :
    GatherDims ⟨2, ![N, D]⟩ ⟨3, ![R, C, 1]⟩ ⟨3, ![R, C, D]⟩ where
  offsetDims := [2]
  collapsedSliceDims := [0]
  operandBatchingDims := []
  startIndicesBatchingDims := []
  startIndexMap := [0]
  indexVectorDim := 2
  sliceSizes := ![1, D]
  wf := wf

/-- The gather read at `(r, c, d)`: the table at the row the start index `idx[r, c, 0]` names (read signed, clamped
    into `[0, N − 1]`) and column `d`. -/
theorem gather_rows_apply {N D R C w : Nat} (hN : 0 < N)
    (wf : GatherDims.WF ⟨2, ![N, D]⟩ ⟨3, ![R, C, 1]⟩ ⟨3, ![R, C, D]⟩ [2] [0] [] [0] [] 2 ![1, D])
    (x : (⟨2, ![N, D]⟩ : Shape).Idx → α) (idx : IVec ⟨3, ![R, C, 1]⟩ w) (y : (⟨3, ![R, C, D]⟩ : Shape).Idx) :
    Host.gather (rowsDims N D R C wf) x idx y
      = x (ix2 (n0 := N) (n1 := D)
          ⟨min (idx (ix3 (n0 := R) (n1 := C) (n2 := 1) (y 0) (y 1) ⟨0, Nat.one_pos⟩)).toInt.toNat (N - 1), by omega⟩ (y 2)) := by
  unfold Host.gather
  refine congrArg x (funext ?_)
  refine Fin.forall_fin_two.2 ⟨Fin.ext ?_, Fin.ext ?_⟩
  · show (rowsDims N D R C wf).start y idx 0 + (rowsDims N D R C wf).batchCoord y 0 + (rowsDims N D R C wf).offCoord y 0 = _
    rw [GatherDims.batchCoord_eq_zero _ _ _ List.not_mem_nil, Nat.add_zero,
      GatherDims.offCoord_eq_zero _ _ _ (fun h => ((GatherDims.mem_sKept _ _).mp h).1 (List.mem_singleton.mpr rfl)), Nat.add_zero]
    unfold GatherDims.start
    rw [dif_pos (show (0 : Fin 2) ∈ (rowsDims N D R C wf).startIndexMap from List.mem_singleton.mpr rfl)]
    have hsi : (rowsDims N D R C wf).siIdx y ⟨List.idxOf (0 : Fin 2) (rowsDims N D R C wf).startIndexMap,
        List.idxOf_lt_length_iff.2 (List.mem_singleton.mpr rfl)⟩
          = ix3 (n0 := R) (n1 := C) (n2 := 1) (y 0) (y 1) ⟨0, Nat.one_pos⟩ := by
      funext b; refine Fin.ext ?_
      match b with
      | ⟨0, _⟩ => rfl
      | ⟨1, _⟩ => rfl
      | ⟨2, _⟩ => rfl
    rw [hsi]
    rfl
  · show (rowsDims N D R C wf).start y idx 1 + (rowsDims N D R C wf).batchCoord y 1 + (rowsDims N D R C wf).offCoord y 1 = _
    rw [GatherDims.batchCoord_eq_zero _ _ _ List.not_mem_nil, Nat.add_zero]
    unfold GatherDims.start
    rw [dif_neg (show (1 : Fin 2) ∉ (rowsDims N D R C wf).startIndexMap from
      fun h => absurd (show (1 : Nat) = 0 from congrArg Fin.val (List.mem_singleton.mp h)) Nat.one_ne_zero), Nat.zero_add]
    unfold GatherDims.offCoord
    rw [dif_pos (show (1 : Fin 2) ∈ (rowsDims N D R C wf).sKept from
      (GatherDims.mem_sKept _ _).2 ⟨fun h => absurd (show (1 : Nat) = 0 from congrArg Fin.val (List.mem_singleton.mp h)) Nat.one_ne_zero, List.not_mem_nil⟩)]
    rfl

end Rows

/-! ## Words -/

/-- A fold by `and` from 1 over ones is 1. -/
theorem foldl_andi_one {ι : Type} (f : ι → BitVec 1) :
    ∀ l : List ι, (∀ i ∈ l, f i = 1#1) → l.foldl (fun r i => IntOp.andi r (f i)) 1#1 = 1#1
  | [], _ => rfl
  | a :: l, h => by
    rw [List.foldl_cons, h a List.mem_cons_self, show IntOp.andi 1#1 1#1 = 1#1 from by decide]
    exact foldl_andi_one f l fun i hi => h i (List.mem_cons_of_mem _ hi)

/-- A word below 100000 is not negative as a signed word. -/
theorem slt_zero_of_lt {v : BitVec 32} (h : v.toNat < 100000) : IntOp.cmpi .slt v 0#32 = 0#1 := by
  refine eq_zero_of_ne_one fun e => ?_
  rw [IntOp.cmpi_slt] at e
  simp only [BitVec.toInt_eq_toNat_cond, BitVec.toNat_ofNat, Nat.reducePow, Nat.reduceMod] at e
  omega

/-- A word below 100000 is between 0 and 99999 as a signed word. -/
theorem bounds_of_lt {v : BitVec 32} (h : v.toNat < 100000) :
    IntOp.andi (IntOp.cmpi .sge v 0#32) (IntOp.cmpi .sle v 99999#32) = 1#1 := by
  rw [IntOp.andi_eq_one, IntOp.cmpi_sge, IntOp.cmpi_sle]
  simp only [BitVec.toInt_eq_toNat_cond, BitVec.toNat_ofNat, Nat.reducePow, Nat.reduceMod]
  omega

/-- A word below 100000, read signed and clamped into [0, 99999], is its unsigned value. -/
theorem clamp_of_lt {v : BitVec 32} (h : v.toNat < 100000) : min v.toInt.toNat (100000 - 1) = v.toNat := by
  simp only [BitVec.toInt_eq_toNat_cond, Nat.reducePow]
  omega

/-! ## The constant -/

/-- The literal 64.0 denotes the real 64. -/
theorem ofBits_64 : Ideal.ofBits .f32 0x42800000#32 = ((64 : ℝ) : EReal) := by
  simp [Ideal.ofBits, Ideal.ieee, -EReal.coe_mul]; norm_num

/-- The square root of 64 is 8. -/
theorem sqrt_64 : Ideal.sqrt ((64 : ℝ) : EReal) = ((8 : ℝ) : EReal) := by
  show (if (64 : ℝ) < 0 then (⊥ : EReal) else ((Real.sqrt 64 : ℝ) : EReal)) = _
  rw [if_neg (by norm_num), show (64 : ℝ) = 8 ^ 2 from by norm_num, Real.sqrt_sq (by norm_num)]

/-! ## The stages at an index -/

variable [Cert.ReferenceIdeal.Facts]

/-- A token in range is left as it is by the index fix-up. -/
theorem fixIdx_apply (tok : IVec S4096x200 32) (h : Cert.Spec.InRange tok) (p : S4096x200.Idx) : fixIdx tok p = tok p := by
  unfold fixIdx
  rw [select_apply]
  have hc : cmpi .slt tok (broadcastInDim S4096x200 ![] bcast_S_S4096x200 (constantI S_ 32 0#32)) p = 0#1 :=
    slt_zero_of_lt (h p)
  rw [hc, select_zero]

/-- The gather's index vector at `(b, s, 0)` is token `(b, s)`. -/
theorem idx3_apply (tok : IVec S4096x200 32) (h : Cert.Spec.InRange tok) (q : S4096x200x1.Idx) :
    idx3 tok q = tok (ix2 (n0 := 4096) (n1 := 200) (q 0) (q 1)) := by
  unfold idx3
  rw [broadcastInDim_apply _ _ _ q (ix2 (n0 := 4096) (n1 := 200) (q 0) (q 1))
    (fun a => match a with | ⟨0, _⟩ => rfl | ⟨1, _⟩ => rfl)]
  exact fixIdx_apply tok h _

/-- Every position's index is inside the table. -/
theorem inBounds_apply (tok : IVec S4096x200 32) (h : Cert.Spec.InRange tok) (j : S4096x200.Idx) : inBounds tok j = 1#1 := by
  unfold inBounds
  rw [Host.reduce_eq_foldl]
  refine foldl_andi_one _ _ fun q _ => ?_
  show IntOp.andi (IntOp.cmpi .sge (idx3 tok q) 0#32) (IntOp.cmpi .sle (idx3 tok q) 99999#32) = 1#1
  rw [idx3_apply tok h q]
  exact bounds_of_lt (h _)

/-- The lookup at `(b, s, d)`: table entry `(token (b, s), d)`. -/
theorem taken_apply (tok : IVec S4096x200 32) (tab : FVec Ideal S100000x64 .f32) (h : Cert.Spec.InRange tok)
    (i : S4096x200x64.Idx) :
    taken tok tab i
      = tab (ix2 (n0 := 100000) (n1 := 64) (Cert.Spec.rowOf (tok (ix2 (n0 := 4096) (n1 := 200) (i 0) (i 1)))) (i 2)) := by
  unfold taken
  rw [select_apply,
    broadcastInDim_apply _ _ _ i (ix2 (n0 := 4096) (n1 := 200) (i 0) (i 1)) (fun a => match a with | ⟨0, _⟩ => rfl | ⟨1, _⟩ => rfl),
    inBounds_apply tok h, select_one]
  show Host.gather (rowsDims 100000 64 4096 200 gather_S100000x64_S4096x200x1_S4096x200x64_2_0_n_n_0_2_164_wf) tab (idx3 tok) i = _
  rw [gather_rows_apply (by decide)]
  refine congrArg tab (congrArg (fun r => ix2 (n0 := 100000) (n1 := 64) r (i 2)) (Fin.ext ?_))
  show min (idx3 tok (ix3 (n0 := 4096) (n1 := 200) (n2 := 1) (i 0) (i 1) ⟨0, Nat.one_pos⟩)).toInt.toNat (100000 - 1)
    = (Cert.Spec.rowOf (tok (ix2 (n0 := 4096) (n1 := 200) (i 0) (i 1)))).val
  rw [idx3_apply tok h, clamp_of_lt (h _), Cert.Spec.rowOf_val_of_lt (h _)]

/-- The reference's term at an index is the scaled lookup. -/
theorem term_apply (tok : IVec S4096x200 32) (tab : FVec Ideal S100000x64 .f32) (h : Cert.Spec.InRange tok)
    (i : S4096x200x64.Idx) : term tok tab i = Cert.Spec.G tok tab i := by
  unfold term Cert.Spec.G
  rw [mulf_apply, broadcastInDim_scalar_apply, taken_apply tok tab h i]
  show _ * Ideal.sqrt (Ideal.ofBits .f32 0x42800000#32) = _
  rw [ofBits_64, sqrt_64]

/-- The reference's term, for tokens in range, is the scaled lookup. -/
theorem term_eq (tok : IVec S4096x200 32) (tab : FVec Ideal S100000x64 .f32) (h : Cert.Spec.InRange tok) :
    term tok tab = Cert.Spec.G tok tab := funext (term_apply tok tab h)

end Cert.Proof.Ref

end
-- ==== Proof.PreDecode.lean ====
/-
  The precondition read back. The printed predicate is the conjunction of "every table entry is finite" and
  "every token t satisfies 0 ≤ t ≤ 99999 as a signed word", each a reduction by `and` over all axes. From the
  second conjunct: every token, read as an unsigned word, is below 100000 (a signed word between 0 and 99999 is
  its own unsigned value).
-/
import proofs.«217222_g83150566851320_cont_9to1_m_45_25_alg».proof.Pre_input_domain
import proofs.«217222_g83150566851320_cont_9to1_m_45_25_alg».proof.Proof.Gen.Pre_input_domain
import Idealize.ShloMosaic.Lib.ReduceAll
import Idealize.ShloMosaic.Lib.ValueIdx

namespace Cert.Proof.Pre

open Idealize.ShloMosaic

/-- The rank-0 shape has one index. -/
instance subsingleton_S_ : Subsingleton Cert.Pre_input_domain.S_.Idx := ⟨fun a b => funext fun d => d.elim0⟩

/-- A signed word between 0 and 99999 is, unsigned, below 100000. -/
theorem toNat_lt_of_cmp (v : BitVec 32)
    (e : IntOp.andi (IntOp.cmpi .sge v 0#32) (IntOp.cmpi .sle v 99999#32) = 1#1) : v.toNat < 100000 := by
  obtain ⟨h0, h1⟩ := IntOp.andi_eq_one.1 e
  rw [IntOp.cmpi_sge] at h0
  rw [IntOp.cmpi_sle] at h1
  simp only [BitVec.toInt_eq_toNat_cond, BitVec.toNat_ofNat, Nat.reducePow, Nat.reduceMod] at h0 h1
  omega

/-- Under the precondition every token names a row of the table. -/
theorem inRange {F : FTy → Type} [FloatOps F] [hf : Cert.Pre_input_domain.Facts]
    (tok : IVec Cert.Pre_input_domain.S4096x200 32) (tab : FVec F Cert.Pre_input_domain.S100000x64 .f32)
    (h : Cert.Pre_input_domain.fn (F := F) tok tab = fun _ => 1#1) : ∀ i, (tok i).toNat < 100000 := by
  intro i
  have e := congrFun h ValueIdx.ix0
  dsimp only [Cert.Pre_input_domain.fn, andi] at e
  obtain ⟨_, e2⟩ := IntOp.andi_eq_one.1 e
  have e3 := Host.reduce_andi_all _ _ _ _ _ e2 i
  exact toNat_lt_of_cmp _ e3

end Cert.Proof.Pre
-- ==== Proof.RefFrame.lean ====
/-
  The reference's run with its value, and its frame claim. Under the precondition every token is in range
  (the precondition read back), so the composed term the run ends at is the scaled lookup, index by index.
-/
import proofs.«217222_g83150566851320_cont_9to1_m_45_25_alg».proof.Defs
import proofs.«217222_g83150566851320_cont_9to1_m_45_25_alg».proof.Proof.RefRun
import proofs.«217222_g83150566851320_cont_9to1_m_45_25_alg».proof.Proof.RefValue
import proofs.«217222_g83150566851320_cont_9to1_m_45_25_alg».proof.Proof.PreDecode

noncomputable section

namespace Cert.Proof.Ref

open Idealize.ShloMosaic Idealize.ShloMosaic.TcCoe Idealize.SL.Sem

/-- Under the precondition, at the ideal instance: every weakly fair execution of the reference's @main terminates with
    the result the scaled lookup of the arguments, and the arguments unchanged. -/
theorem run [Cert.ReferenceIdeal.Facts] [Cert.Pre_input_domain.Facts]
    (m : (ℓ : Loc Cert.ReferenceIdeal.nD Cert.ReferenceIdeal.τ Cert.ReferenceIdeal.sig) → Buf (Elt Ideal) ℓ)
    (g : Dev Cert.ReferenceIdeal.nD → PrngReg) (hpre : Cert.Pre_ReferenceIdeal m) :
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_v3)
          = Cert.Spec.G (m ((c.tc : Thread Cert.ReferenceIdeal.nD Cert.ReferenceIdeal.τ).loc Cert.ReferenceIdeal.main_arg0))
              (m ((c.tc : Thread Cert.ReferenceIdeal.nD Cert.ReferenceIdeal.τ).loc Cert.ReferenceIdeal.main_arg1))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)) :=
  (θ_run (Cert.ReferenceIdeal.defs (F := Ideal)) _ _).mono
    (fun _ h c => ⟨(h c).1.trans (term_eq _ _ (Cert.Proof.Pre.inRange (F := Ideal) _ _ (hpre c))), (h c).2⟩)
    (run_term (F := Ideal) m g)

/-- `Cert.frame_ReferenceIdeal` (Defs.lean): the run with the value dropped. -/
theorem frame [Cert.ReferenceIdeal.Facts] [Cert.Pre_input_domain.Facts] : Cert.frame_ReferenceIdeal := fun m g hpre =>
  (θ_run (Cert.ReferenceIdeal.defs (F := Ideal)) _ _).mono (fun _ h c => (h c).2) (run m g hpre)

end Cert.Proof.Ref

end
-- ==== Proof.Assemble.lean ====
/-
  The claim assembled from its pieces. The kernel's two instances (bit-exact and ideal) each run by the launch
  theorem's assembly, from a vector subcore's task and @main on the TensorCore — the four pieces this module takes as
  hypotheses —; each kernel frame is that run with the value dropped; the reference's run and frame are proved apart.
  The algebraic claim: under the precondition every token names a table row, so the ideal kernel's result (the gathered
  rows of the scaled, padded table at the result's shape) is the scaled lookup, which is also what the reference's run
  ends at, from memories that agree on the arguments.
-/
import proofs.«217222_g83150566851320_cont_9to1_m_45_25_alg».proof.Defs
import proofs.«217222_g83150566851320_cont_9to1_m_45_25_alg».proof.Proof.KI.Launch
import proofs.«217222_g83150566851320_cont_9to1_m_45_25_alg».proof.Proof.KB.Launch
import proofs.«217222_g83150566851320_cont_9to1_m_45_25_alg».proof.Proof.KI.ValueEq
import proofs.«217222_g83150566851320_cont_9to1_m_45_25_alg».proof.Proof.RefFrame
import proofs.«217222_g83150566851320_cont_9to1_m_45_25_alg».proof.Proof.PreDecode
import proofs.«217222_g83150566851320_cont_9to1_m_45_25_alg».proof.Proof.Gen.Kernel
import proofs.«217222_g83150566851320_cont_9to1_m_45_25_alg».proof.Proof.Gen.KernelIdeal
import proofs.«217222_g83150566851320_cont_9to1_m_45_25_alg».proof.Proof.Gen.ReferenceIdeal
import proofs.«217222_g83150566851320_cont_9to1_m_45_25_alg».proof.Proof.Gen.Pre_input_domain

noncomputable section

namespace Cert.Proof.Asm

open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Rounds

/-! ## The four open pieces, as statements -/

/-- A vector subcore's task of the ideal kernel, from a launch memory whose tokens all name table rows. -/
def TileI : Prop :=
  ∀ m : (ℓ : Loc Cert.KernelIdeal.nD Cert.KernelIdeal.τ Cert.KernelIdeal.sig) → Buf (Elt Ideal) ℓ,
    (∀ d, Cert.Spec.InRange (m (KI.tokLoc d))) → (KI.K (F := Ideal)).TileObl (KI.D (F := Ideal)) KI.𝒱 (KI.P m) KI.v₀ 0

/-- @main of the ideal kernel on a TensorCore, from what the launch deals it to the claim's final assertion. -/
def MainI : Prop :=
  ∀ (m : (ℓ : Loc Cert.KernelIdeal.nD Cert.KernelIdeal.τ Cert.KernelIdeal.sig) → Buf (Elt Ideal) ℓ) (ρ : Dev Cert.KernelIdeal.nD → PrngReg),
    (∀ d, Cert.Spec.InRange (m (KI.tokLoc d))) →
    ∀ (κ : GSem Cert.KernelIdeal.nD Cert.KernelIdeal.τ Cert.KernelIdeal.sig → ℕ) (d : Dev Cert.KernelIdeal.nD),
      iprop((KI.K (F := Ideal)).ctx KI.EH (KI.P m) κ ∗ (KI.K (F := Ideal)).tcSt KI.EH d 0 ∗ (KI.K (F := Ideal)).tcRes m ρ d ∗ KI.GG (F := Ideal) d)
        ⊢ wp frame (wpE ((KI.K (F := Ideal)).defs (KI.D (F := Ideal))) KI.𝒱 (SparseCore.T d) none) Set.univ (Cert.KernelIdeal.main d)
            fun _ => iprop((KI.K (F := Ideal)).tcSt KI.EH d 1 ∗ KI.FIN m d)

/-- The same two of the kernel as printed, at the bit-exact instance. -/
def TileB : Prop :=
  ∀ m : (ℓ : Loc Cert.Kernel.nD Cert.Kernel.τ Cert.Kernel.sig) → Buf (Elt Bits) ℓ,
    (∀ d, Cert.Spec.InRange (m (KB.tokLoc d))) → (KB.K (F := Bits)).TileObl (KB.D (F := Bits)) KB.𝒱 (KB.P m) KB.v₀ 0

def MainB : Prop :=
  ∀ (m : (ℓ : Loc Cert.Kernel.nD Cert.Kernel.τ Cert.Kernel.sig) → Buf (Elt Bits) ℓ) (ρ : Dev Cert.Kernel.nD → PrngReg),
    (∀ d, Cert.Spec.InRange (m (KB.tokLoc d))) →
    ∀ (κ : GSem Cert.Kernel.nD Cert.Kernel.τ Cert.Kernel.sig → ℕ) (d : Dev Cert.Kernel.nD),
      iprop((KB.K (F := Bits)).ctx KB.EH (KB.P m) κ ∗ (KB.K (F := Bits)).tcSt KB.EH d 0 ∗ (KB.K (F := Bits)).tcRes m ρ d ∗ KB.GG (F := Bits) d)
        ⊢ wp frame (wpE ((KB.K (F := Bits)).defs (KB.D (F := Bits))) KB.𝒱 (SparseCore.T d) none) Set.univ (Cert.Kernel.main d)
            fun _ => iprop((KB.K (F := Bits)).tcSt KB.EH d 1 ∗ KB.FIN m d)

/-! ## The precondition gives the tokens in range -/

theorem inRangeI (m : (ℓ : Loc Cert.KernelIdeal.nD Cert.KernelIdeal.τ Cert.KernelIdeal.sig) → Buf (Elt Ideal) ℓ) (h : Cert.Pre_KernelIdeal m) :
    ∀ d, Cert.Spec.InRange (m (KI.tokLoc d)) :=
  fun d => Cert.Proof.Pre.inRange (F := Ideal) _ _ (h d)

theorem inRangeB (m : (ℓ : Loc Cert.Kernel.nD Cert.Kernel.τ Cert.Kernel.sig) → Buf (Elt Bits) ℓ) (h : Cert.Pre_Kernel m) :
    ∀ d, Cert.Spec.InRange (m (KB.tokLoc d)) :=
  fun d => Cert.Proof.Pre.inRange (F := Bits) _ _ (h d)

/-! ## The frames -/

/-- The kernel as printed runs and leaves its arguments unchanged: its run, the result's value dropped. -/
theorem frame_Kernel (hT : TileB) (hM : MainB) : Cert.frame_Kernel := fun m g hpre =>
  (θ_run (Cert.Kernel.defs (F := Bits)) _ _).mono (fun _ h c => (h c).2)
    (KB.run_main (F := Bits) m g (hT m (inRangeB m hpre)) (hM m g (inRangeB m hpre)))

/-- The same of its idealization. -/
theorem frame_KernelIdeal (hT : TileI) (hM : MainI) : Cert.frame_KernelIdeal := fun m g hpre =>
  (θ_run (Cert.KernelIdeal.defs (F := Ideal)) _ _).mono (fun _ h c => (h c).2)
    (KI.run_main (F := Ideal) m g (hT m (inRangeI m hpre)) (hM m g (inRangeI m hpre)))

/-! ## The algebraic claim -/

/-- Both programs end at the scaled lookup of the arguments. -/
theorem algebraic (hT : TileI) (hM : MainI) : Cert.algebraic_KernelIdeal_ReferenceIdeal := fun m g m' g' hpre hagree =>
  ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    (θ_run (Cert.KernelIdeal.defs (F := Ideal)) _ _).mono
      (fun _ h c => ⟨(h c).1.trans (KI.result_eq_spec _ _ (inRangeI m hpre c)), (h c).2⟩)
      (KI.run_main (F := Ideal) m g (hT m (inRangeI m hpre)) (hM m g (inRangeI m hpre))),
    (θ_run (Cert.ReferenceIdeal.defs (F := Ideal)) _ _).mono
      (fun _ h c => ⟨by rw [(h c).1, (hagree c).1, (hagree c).2], (h c).2⟩)
      (Cert.Proof.Ref.run m' g' (fun c => by rw [(hagree c).1, (hagree c).2]; exact hpre c))⟩

/-! ## The claim -/

theorem claim (hTI : TileI) (hMI : MainI) (hTB : TileB) (hMB : MainB) : Cert.Claim :=
  ⟨Cert.Kernel.Gen.facts, Cert.KernelIdeal.Gen.facts, Cert.ReferenceIdeal.Gen.facts, Cert.Pre_input_domain.Gen.facts,
    frame_Kernel hTB hMB, frame_KernelIdeal hTI hMI, Cert.Proof.Ref.frame, trivial, algebraic hTI hMI⟩

end Cert.Proof.Asm

end
-- ==== Proof.KI.TileDefs.lean ====
/-
  A vector subcore's task, stated: the pieces of the three arrays it works on as its body addresses them, what its
  scratch buffers hold on the way (the index rows of a group; a landing buffer's rows are the table rows its index row
  names; a compacted buffer's first rows are the landing buffer's first 64 columns), and the invariants of its loops.
-/
import proofs.«217222_g83150566851320_cont_9to1_m_45_25_alg».proof.Proof.KI.Iface
import proofs.«217222_g83150566851320_cont_9to1_m_45_25_alg».proof.Proof.Gen.KernelIdeal.Skeleton

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix2 ix3)
open Idealize.ShloMosaic.Transfers (shareTok shareTokN shareDrop)

variable {F : FTy → Type} [FloatOps F]

local notation "𝕄" => MM F

variable (d : Dev nD) (L : grid1.Coords)

/-- The vector subcore at grid coordinates L of device d. -/
abbrev thr : Thread nD τ := V d (cV L) (jV L)

/-- Chunk q of group k as the body slices it out of the gathered array: 128 rows from row 25600·wid + 5120·k + 128·q. -/
abbrev outK (k : Fin k1_t1_loop.trips) (q : Fin 40) : Memref sig .scVector .hbm S128x64 .f32 :=
  outV.slice (Rect.unit (s := S819200x64) (k1_off10 L k (BitVec.ofNat 32 (128 * q.val))) S128x64.size (k1_off10_inb L k q)) (fun _ => rfl)

/-- The index rows of group k as the body slices them: 40 rows from row 200·wid + 40·k. -/
abbrev idxK (k : Fin k1_t1_loop.trips) : Memref sig .scVector .hbm S40x128 .i32 :=
  idxV.slice (Rect.unit (s := S6400x128) (k1_off1 L k) S40x128.size (k1_off1_inb L k)) (fun _ => rfl)

/-- The number, among the 6400, of chunk q of group k of this subcore. -/
def chunkNo (k q : ℕ) : ℕ := 200 * wid (cV L) (jV L) + 40 * k + q

section Values

variable (ft : FVec F S100000x128 .f32) (fi : IVec S6400x128 32)

/-- The index scratch holds the 40 index rows of group k. -/
def IdxHolds (k : ℕ) (s : IVec S40x128 32) : Prop :=
  ∀ (r : Fin 40) (c : Fin 128) (h : chunkNo L k r.val < 6400), s (ix2 r c) = fi (ix2 (n0 := 6400) (n1 := 128) ⟨chunkNo L k r.val, h⟩ c)

/-- A landing buffer holds, row by row, the table rows that index row n names. -/
def RowsOf (n : ℕ) (g : FVec F S128x128 .f32) : Prop :=
  ∀ (r : Fin 128) (c : Fin 128) (h : n < 6400), g (ix2 r c) = ft (ix2 (n0 := 100000) (n1 := 128) (Cert.Spec.rowOf (fi (ix2 (n0 := 6400) (n1 := 128) ⟨n, h⟩ r))) c)

/-- The first 8·t rows of a compacted buffer are the landing buffer's first 64 columns. -/
def Compacted (g : FVec F S128x128 .f32) (f : FVec F S128x64 .f32) (t : ℕ) : Prop :=
  ∀ (r : Fin 128) (c : Fin 64), r.val < 8 * t → f (ix2 r c) = g (ix2 (n0 := 128) (n1 := 128) r (c.castLE (by decide)))

/-- A compacted buffer holds chunk n of the gathered rows. -/
def ChunkOf (n : ℕ) (f : FVec F S128x64 .f32) : Prop :=
  ∀ (r : Fin 128) (c : Fin 64) (h : n < 6400), f (ix2 r c) = ft (ix2 (n0 := 100000) (n1 := 128) (Cert.Spec.rowOf (fi (ix2 (n0 := 6400) (n1 := 128) ⟨n, h⟩ r))) (c.castLE (by decide)))

theorem chunkOf_of_compacted {n : ℕ} {g : FVec F S128x128 .f32} {f : FVec F S128x64 .f32}
    (hg : RowsOf ft fi n g) (hf : Compacted g f 16) : ChunkOf ft fi n f :=
  fun r c h => (hf r c (by have := r.isLt; omega)).trans (hg r _ h)

end Values

/-- The invariant of a chunk's compaction loop: the landing buffer src unchanged, at rows that index row n names; the
    compacted buffer dst with its first 8·t rows done. -/
def invC (ft : FVec F S100000x128 .f32) (fi : IVec S6400x128 32) (n : ℕ)
    (src : Memref sig .scVector .vmem S128x128 .f32) (dst : Memref sig .scVector .vmem S128x64 .f32) (t : Nat) (_ : PUnit) : sProp 𝕄 :=
  iprop(∃ g : Buf (Elt F) (src.view.loc (thr d L)), ⌜RowsOf ft fi n (src.view.read (Elt F) g)⌝ ∗ (src.view.loc (thr d L) ↦{fullShare} g)
    ∗ ∃ f : Buf (Elt F) (dst.view.loc (thr d L)), ⌜Compacted (src.view.read (Elt F) g) (dst.view.read (Elt F) f) t⌝ ∗ (dst.view.loc (thr d L) ↦{fullShare} f))

end Cert.Proof.KI

end
-- ==== Proof.KI.TilePlumb.lean ====
/-
  The plumbing around a vector subcore's task. The wrapper: the launch theorem's obligation for a task follows from
  the body's obligation at a symbolic place, stated over exactly what the body touches — what the subcore is handed, its
  six scratch buffers and its six DMA semaphores —, the rest of the subcore's scoped storage framed through. And the
  separation bookkeeping the body's proof uses: a read share dealt to the three cells the gathers complete on; what
  the subcore is handed and hands back in the body's own spelling of the pieces (group by group, chunk by chunk); a
  family of resources done up to an index; forty summands one by one.
-/
import proofs.«217222_g83150566851320_cont_9to1_m_45_25_alg».proof.Proof.KI.TileDefs

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix2 ix3)
open Idealize.ShloMosaic.Transfers (shareTok shareTokN shareDrop)

variable {F : FTy → Type} [FloatOps F]

/-! ## A read share dealt to the cells its transfers complete on -/

section Shares

variable {ℓ : Loc nD τ sig} (S : Finset (Idx ℓ)) (q : PosShare TreeShare) (f : Buf (Elt F) ℓ)

/-- What is left of a share q of an array after the read tokens number 4, 5 and 6 are taken out of its first seven:
    the remainder and the tokens 0 to 3. -/
def TABREST (ℓ : Loc nD τ sig) (S : Finset (Idx ℓ)) (q : PosShare TreeShare) (f : Buf (Elt F) ℓ) : sProp (MM F) :=
  iprop((ℓ ↦[S]{shareDrop q 7} f) ∗ (ℓ ↦[S]{shareTokN q 0} f) ∗ (ℓ ↦[S]{shareTokN q 1} f) ∗ (ℓ ↦[S]{shareTokN q 2} f) ∗ (ℓ ↦[S]{shareTokN q 3} f))

omit [FloatOps F] in
theorem bigSep_range7 (Φ : ℕ → sProp (MM F)) : bigSep (Finset.range 7) Φ = iprop(Φ 0 ∗ Φ 1 ∗ Φ 2 ∗ Φ 3 ∗ Φ 4 ∗ Φ 5 ∗ Φ 6) := by
  rw [show Finset.range 7 = {0, 1, 2, 3, 4, 5, 6} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

omit [FloatOps F] in
/-- A share of an array is its read tokens number 4, 5, 6 and the rest. -/
theorem tab_cells : (ℓ ↦[S]{q} f : sProp (MM F))
    ⊣⊢ iprop(TABREST ℓ S q f ∗ (ℓ ↦[S]{shareTokN q 4} f) ∗ (ℓ ↦[S]{shareTokN q 5} f) ∗ (ℓ ↦[S]{shareTokN q 6} f)) := by
  have h := Transfers.pointsTo_toks_range (ℓ := ℓ) (S := S) (f := f) (nD := nD) (τ := τ) (sig := sig) (Ix := HIx 1) (Val := Elt F) (Name := ℕ) (U := UU) (Lvl := ℕ) q 7
  rw [bigSep_range7] at h
  unfold TABREST
  constructor
  · refine h.1.trans ?_
    iintro ⟨Hd, H0, H1, H2, H3, H4, H5, H6⟩
    isplitl [Hd H0 H1 H2 H3]
    · isplitl [Hd]; · iexact Hd
      isplitl [H0]; · iexact H0
      isplitl [H1]; · iexact H1
      isplitl [H2]; · iexact H2
      iexact H3
    isplitl [H4]; · iexact H4
    isplitl [H5]; · iexact H5
    iexact H6
  · refine BIBase.Entails.trans ?_ h.2
    iintro ⟨⟨Hd, H0, H1, H2, H3⟩, H4, H5, H6⟩
    isplitl [Hd]; · iexact Hd
    isplitl [H0]; · iexact H0
    isplitl [H1]; · iexact H1
    isplitl [H2]; · iexact H2
    isplitl [H3]; · iexact H3
    isplitl [H4]; · iexact H4
    isplitl [H5]; · iexact H5
    iexact H6

end Shares

/-! ## A family done up to an index -/

section Prefix

variable {N : ℕ} (Φdone Φtodo : Fin N → sProp (MM F))

/-- The family done below k and still to do from k on, without its member k. -/
def REST (k : Fin N) : sProp (MM F) := bigSep (Finset.univ.erase k) fun k' => if k'.val < k.val then Φdone k' else Φtodo k'

omit [FloatOps F] in
/-- Done below k: member k, still to do, and the rest. -/
theorem prefix_take (k : Fin N) :
    (bigSep Finset.univ fun k' : Fin N => if k'.val < k.val then Φdone k' else Φtodo k') = iprop(Φtodo k ∗ REST Φdone Φtodo k) := by
  unfold REST
  rw [bigSep_univ_at (fun k' : Fin N => if k'.val < k.val then Φdone k' else Φtodo k') k, if_neg (Nat.lt_irrefl _)]

omit [FloatOps F] in
/-- Member k done, and the rest: done below k + 1. -/
theorem prefix_put (k : Fin N) :
    iprop(Φdone k ∗ REST Φdone Φtodo k) = bigSep Finset.univ fun k' : Fin N => if k'.val < k.val + 1 then Φdone k' else Φtodo k' := by
  unfold REST
  rw [bigSep_univ_at (fun k' : Fin N => if k'.val < k.val + 1 then Φdone k' else Φtodo k') k, if_pos (Nat.lt_succ_self _)]
  congr 1
  refine bigSep_congr fun k' hk' => ?_
  have hne : k'.val ≠ k.val := fun e => (Finset.mem_erase.mp hk').1 (Fin.ext e)
  by_cases h : k'.val < k.val
  · rw [if_pos h, if_pos (by omega)]
  · rw [if_neg h, if_neg (by omega)]

omit [FloatOps F] in
theorem prefix_zero : (bigSep Finset.univ fun k' : Fin N => if k'.val < 0 then Φdone k' else Φtodo k') = bigSep Finset.univ Φtodo :=
  bigSep_congr fun _ _ => if_neg (Nat.not_lt_zero _)

omit [FloatOps F] in
theorem prefix_full : (bigSep Finset.univ fun k' : Fin N => if k'.val < N then Φdone k' else Φtodo k') = bigSep Finset.univ Φdone :=
  bigSep_congr fun k' _ => if_pos k'.isLt

end Prefix

/-! ## Forty summands, one by one -/

omit [FloatOps F] in
theorem bigSep_fin40 (Φ : Fin 40 → sProp (MM F)) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29 ∗ Φ 30 ∗ Φ 31 ∗ Φ 32 ∗ Φ 33 ∗ Φ 34 ∗ Φ 35 ∗ Φ 36 ∗ Φ 37 ∗ Φ 38 ∗ Φ 39) :=
  bigSep_univ_eq_bigSepL [(0 : Fin 40), 1, 2, 3, 4, 5, 6, 7, 8, 9, 10, 11, 12, 13, 14, 15, 16, 17, 18, 19, 20, 21, 22, 23, 24, 25, 26, 27, 28, 29, 30, 31, 32, 33, 34, 35, 36, 37, 38, 39] (by decide) (by decide) Φ

/-! ## The operands in the body's spelling -/

omit [FloatOps F] in
theorem trips_eq : k1_t1_loop.trips = 5 := by decide

omit [FloatOps F] in
theorem kq_lt (k : Fin k1_t1_loop.trips) (q : Fin 40) : 40 * k.val + q.val < 200 := by
  have hk : k.val < 5 := trips_eq ▸ k.isLt
  have := q.isLt; omega

/-- Chunk q of group k is the subcore's chunk number 40 k + q of its 200. -/
def kqEquiv : Fin k1_t1_loop.trips × Fin 40 ≃ Fin 200 where
  toFun p := ⟨40 * p.1.val + p.2.val, kq_lt p.1 p.2⟩
  invFun j := (⟨j.val / 40, trips_eq ▸ (show j.val / 40 < 5 by have := j.isLt; omega)⟩, ⟨j.val % 40, Nat.mod_lt _ (by decide)⟩)
  left_inv := by
    rintro ⟨k, q⟩
    have hk : k.val < 5 := trips_eq ▸ k.isLt
    have hq : q.val < 40 := q.isLt
    refine Prod.ext (Fin.ext ?_) (Fin.ext ?_)
    · show (40 * k.val + q.val) / 40 = k.val; omega
    · show (40 * k.val + q.val) % 40 = q.val; omega
  right_inv := by
    intro j; apply Fin.ext; show 40 * (j.val / 40) + j.val % 40 = j.val; omega

omit [FloatOps F] in
/-- The rectangle the body slices for chunk q of group k is that chunk of the gathered array. -/
theorem rectK_eq (L : grid1.Coords) (k : Fin k1_t1_loop.trips) (q : Fin 40) :
    Rect.unit (s := S819200x64) (k1_off10 L k (BitVec.ofNat 32 (128 * q.val))) S128x64.size (k1_off10_inb L k q)
      = chunk (chunkOf (cV L) (jV L) (kqEquiv (k, q))) := by
  unfold chunk Rect.part Rect.block
  congr 1 <;> funext a
  · rw [k1_off10_eq]
    match a with
    | 0 =>
      show 51200 * (L 1).val + 25600 * (L 0).val + 5120 * k.val + 128 * q.val
        = (200 * (2 * (L 1).val + (L 0).val) + (40 * k.val + q.val)) * (819200 / 6400)
      omega
    | 1 => simp [Shape.partIx, Shape.partSize]
  · match a with
    | 0 => simp [Shape.partSize]
    | 1 => simp [Shape.partSize]

omit [FloatOps F] in
theorem set_outK (L : grid1.Coords) (k : Fin k1_t1_loop.trips) (q : Fin 40) :
    (outK L k q).view.set = chunkSet (chunkOf (cV L) (jV L) (kqEquiv (k, q))) := by
  show ((outV : Memref sig .scVector .hbm S819200x64 .f32).view.slice
      (Rect.unit (s := S819200x64) (k1_off10 L k (BitVec.ofNat 32 (128 * q.val))) S128x64.size (k1_off10_inb L k q))).set = _
  rw [rectK_eq]

section Operands

variable (m : (ℓ : Loc nD τ sig) → Buf (Elt F) ℓ) (d : Dev nD) (L : grid1.Coords)

/-- What a vector subcore is handed, as its body addresses it: the scaled table and the index rows under its read
    share, and per group and chunk of the group the rows of the gathered array the body slices for it. -/
theorem go_eq : GO m d (cV L) (jV L)
    = iprop(((tabV : Memref sig .scVector .hbm S100000x128 .f32).view.loc (thr d L) ↦{tok (cV L) (jV L)} TAB m d)
        ∗ ((idxV : Memref sig .scVector .hbm S6400x128 .i32).view.loc (thr d L) ↦{tok (cV L) (jV L)} IDX m d)
        ∗ bigSep Finset.univ fun k : Fin k1_t1_loop.trips => bigSep Finset.univ fun q : Fin 40 =>
            iprop(∃ f, (outK L k q).view.loc (thr d L) ↦[(outK L k q).view.set]{fullShare} f)) := by
  have e1 : (tabLoc d ↦{tok (cV L) (jV L)} TAB m d : sProp (MM F))
      = ((tabV : Memref sig .scVector .hbm S100000x128 .f32).view.loc (thr d L) ↦{tok (cV L) (jV L)} TAB m d) := rfl
  have e2 : (idxLoc d ↦{tok (cV L) (jV L)} IDX m d : sProp (MM F))
      = ((idxV : Memref sig .scVector .hbm S6400x128 .i32).view.loc (thr d L) ↦{tok (cV L) (jV L)} IDX m d) := rfl
  have e3 : ∀ (k : Fin k1_t1_loop.trips) (q : Fin 40),
      (iprop(∃ f, outLoc d ↦[chunkSet (chunkOf (cV L) (jV L) (kqEquiv (k, q)))]{fullShare} f) : sProp (MM F))
        = iprop(∃ f, (outK L k q).view.loc (thr d L) ↦[(outK L k q).view.set]{fullShare} f) := fun k q => by
    rw [set_outK]
  have e4 : (bigSep Finset.univ fun k : Fin k1_t1_loop.trips => bigSep Finset.univ fun q : Fin 40 =>
        (iprop(∃ f, outLoc d ↦[chunkSet (chunkOf (cV L) (jV L) (kqEquiv (k, q)))]{fullShare} f) : sProp (MM F)))
      = bigSep Finset.univ fun k : Fin k1_t1_loop.trips => bigSep Finset.univ fun q : Fin 40 =>
          iprop(∃ f, (outK L k q).view.loc (thr d L) ↦[(outK L k q).view.set]{fullShare} f) :=
    bigSep_congr fun k _ => bigSep_congr fun q _ => e3 k q
  unfold GO
  rw [bigSep_univ_equiv kqEquiv, bigSep_univ_prod, e1, e2, e4]

/-- What it hands back, the same way: every piece at the gathered rows. -/
theorem td_eq : TD m d (cV L) (jV L)
    = iprop(((tabV : Memref sig .scVector .hbm S100000x128 .f32).view.loc (thr d L) ↦{tok (cV L) (jV L)} TAB m d)
        ∗ ((idxV : Memref sig .scVector .hbm S6400x128 .i32).view.loc (thr d L) ↦{tok (cV L) (jV L)} IDX m d)
        ∗ bigSep Finset.univ fun k : Fin k1_t1_loop.trips => bigSep Finset.univ fun q : Fin 40 =>
            (outK L k q).view.loc (thr d L) ↦[(outK L k q).view.set]{fullShare} OUT m d) := by
  have e1 : (tabLoc d ↦{tok (cV L) (jV L)} TAB m d : sProp (MM F))
      = ((tabV : Memref sig .scVector .hbm S100000x128 .f32).view.loc (thr d L) ↦{tok (cV L) (jV L)} TAB m d) := rfl
  have e2 : (idxLoc d ↦{tok (cV L) (jV L)} IDX m d : sProp (MM F))
      = ((idxV : Memref sig .scVector .hbm S6400x128 .i32).view.loc (thr d L) ↦{tok (cV L) (jV L)} IDX m d) := rfl
  have e3 : ∀ (k : Fin k1_t1_loop.trips) (q : Fin 40),
      (outLoc d ↦[chunkSet (chunkOf (cV L) (jV L) (kqEquiv (k, q)))]{fullShare} OUT m d : sProp (MM F))
        = ((outK L k q).view.loc (thr d L) ↦[(outK L k q).view.set]{fullShare} OUT m d) := fun k q => by
    rw [set_outK]
  have e4 : (bigSep Finset.univ fun k : Fin k1_t1_loop.trips => bigSep Finset.univ fun q : Fin 40 =>
        (outLoc d ↦[chunkSet (chunkOf (cV L) (jV L) (kqEquiv (k, q)))]{fullShare} OUT m d : sProp (MM F)))
      = bigSep Finset.univ fun k : Fin k1_t1_loop.trips => bigSep Finset.univ fun q : Fin 40 =>
          ((outK L k q).view.loc (thr d L) ↦[(outK L k q).view.set]{fullShare} OUT m d) :=
    bigSep_congr fun k _ => bigSep_congr fun q _ => e3 k q
  unfold TD
  rw [bigSep_univ_equiv kqEquiv, bigSep_univ_prod, e1, e2, e4]

theorem go_split : GO m d (cV L) (jV L)
    ⊣⊢ iprop(((tabV : Memref sig .scVector .hbm S100000x128 .f32).view.loc (thr d L) ↦{tok (cV L) (jV L)} TAB m d)
        ∗ ((idxV : Memref sig .scVector .hbm S6400x128 .i32).view.loc (thr d L) ↦{tok (cV L) (jV L)} IDX m d)
        ∗ bigSep Finset.univ fun k : Fin k1_t1_loop.trips => bigSep Finset.univ fun q : Fin 40 =>
            iprop(∃ f, (outK L k q).view.loc (thr d L) ↦[(outK L k q).view.set]{fullShare} f)) :=
  ⟨Entails.of_eq (go_eq m d L), Entails.of_eq (go_eq m d L).symm⟩

theorem td_join : iprop(((tabV : Memref sig .scVector .hbm S100000x128 .f32).view.loc (thr d L) ↦{tok (cV L) (jV L)} TAB m d)
        ∗ ((idxV : Memref sig .scVector .hbm S6400x128 .i32).view.loc (thr d L) ↦{tok (cV L) (jV L)} IDX m d)
        ∗ bigSep Finset.univ fun k : Fin k1_t1_loop.trips => bigSep Finset.univ fun q : Fin 40 =>
            (outK L k q).view.loc (thr d L) ↦[(outK L k q).view.set]{fullShare} OUT m d)
      ⊢ TD m d (cV L) (jV L) :=
  Entails.of_eq (td_eq m d L).symm

end Operands

/-! ## A vector subcore's scratch and semaphores -/

section Wrapper

variable (d : Dev nD) (L : grid1.Coords)

/-- The subcore's six scratch buffers, each whole at some contents. -/
def SCR : sProp (MM F) :=
  iprop((∃ f, (sIdx : Memref sig .scVector .vmem S40x128 .i32).view.loc (thr d L) ↦{fullShare} f)
    ∗ (∃ f, (sR0 : Memref sig .scVector .vmem S128x128 .f32).view.loc (thr d L) ↦{fullShare} f)
    ∗ (∃ f, (sR1 : Memref sig .scVector .vmem S128x128 .f32).view.loc (thr d L) ↦{fullShare} f)
    ∗ (∃ f, (sR2 : Memref sig .scVector .vmem S128x128 .f32).view.loc (thr d L) ↦{fullShare} f)
    ∗ (∃ f, (sC0 : Memref sig .scVector .vmem S128x64 .f32).view.loc (thr d L) ↦{fullShare} f)
    ∗ (∃ f, (sC1 : Memref sig .scVector .vmem S128x64 .f32).view.loc (thr d L) ↦{fullShare} f))

/-- The six DMA semaphores its body uses, each at zero. -/
def SEM : sProp (MM F) :=
  iprop(semVal (thr d L, SemLoc.dma cc1_scratch6.sem) 0 ∗ semVal (thr d L, SemLoc.dma cc1_scratch7.sem) 0
    ∗ semVal (thr d L, SemLoc.dma cc1_scratch8.sem) 0 ∗ semVal (thr d L, SemLoc.dma cc1_scratch9.sem) 0
    ∗ semVal (thr d L, SemLoc.dma cc1_scratch10.sem) 0 ∗ semVal (thr d L, SemLoc.dma cc1_scoped0.sem) 0)

/-- The six semaphores, and the six buffers, as sets. -/
def semsK : Finset (SemLoc sig) :=
  {SemLoc.dma cc1_scratch6.sem, SemLoc.dma cc1_scratch7.sem, SemLoc.dma cc1_scratch8.sem, SemLoc.dma cc1_scratch9.sem,
    SemLoc.dma cc1_scratch10.sem, SemLoc.dma cc1_scoped0.sem}
def refsK : Finset (Ref sig .scVector) := {cc1_scratch0, cc1_scratch1, cc1_scratch2, cc1_scratch3, cc1_scratch4, cc1_scratch5}

def atThr : SemLoc sig ↪ GSem nD τ sig := ⟨fun s => (thr d L, s), fun _ _ e => (Prod.mk.inj e).2⟩
def atProc (c : Fin τ.nSC) (i : Fin τ.nSub) : Ref sig .scVector ↪ DevRef τ sig :=
  ⟨(Proc.scVector c i).devRef, Proc.devRef_injective _⟩

omit [FloatOps F] in
theorem semsK_scoped : ∀ s ∈ semsK, (s : SemLoc sig).isScoped .scVector = true := by decide

omit [FloatOps F] in
theorem semsK_sub : semsK.map (atThr d L) ⊆ ownCells (thr d L) := by
  intro g hg
  obtain ⟨s, hs, rfl⟩ := Finset.mem_map.mp hg
  exact mem_ownCells.mpr ⟨rfl, semsK_scoped s hs⟩

omit [FloatOps F] in
theorem refsK_sub (c : Fin τ.nSC) (i : Fin τ.nSub) : refsK.map (atProc c i) ⊆ ownRefs (τ := τ) (.scVector c i) := by
  intro b hb
  obtain ⟨r, hr, rfl⟩ := Finset.mem_map.mp hb
  simp only [refsK, Finset.mem_insert, Finset.mem_singleton] at hr
  rcases hr with rfl | rfl | rfl | rfl | rfl | rfl <;> exact SparseCore.Cfg.mem_ownRefs_of_owner rfl

omit [FloatOps F] in
/-- The subcore's own semaphores at zero are the six and the others. -/
theorem ownSems0_thr : (ownSems0 (thr d L) : sProp (MM F))
    = iprop(SEM d L ∗ bigSep (ownCells (thr d L) \ semsK.map (atThr d L)) fun g => semVal g 0) := by
  unfold SparseCore.Cfg.ownSems0 SEM
  rw [SparseCore.bigSep_sdiff_split' (semsK_sub d L), bigSep_map]
  unfold semsK
  rw [SparseCore.bigSep_insert' (by decide), SparseCore.bigSep_insert' (by decide), SparseCore.bigSep_insert' (by decide),
    SparseCore.bigSep_insert' (by decide), SparseCore.bigSep_insert' (by decide), bigSep_singleton]
  rfl

omit [FloatOps F] in
/-- The subcore's own buffers are the six scratch buffers and the others. -/
theorem ownBufs_thr : (ownBufs (thr d L) : sProp (MM F))
    = iprop(SCR d L ∗ bigSep (ownRefs (τ := τ) (.scVector (cV L) (jV L)) \ refsK.map (atProc (cV L) (jV L)))
        fun b => iprop(∃ f, ((d, b) : Loc nD τ sig) ↦{fullShare} f)) := by
  unfold SparseCore.Cfg.ownBufs SCR
  rw [SparseCore.bigSep_sdiff_split' (refsK_sub (cV L) (jV L)), bigSep_map]
  unfold refsK
  rw [SparseCore.bigSep_insert' (by decide), SparseCore.bigSep_insert' (by decide), SparseCore.bigSep_insert' (by decide),
    SparseCore.bigSep_insert' (by decide), SparseCore.bigSep_insert' (by decide), bigSep_singleton]
  rfl

variable (m : (ℓ : Loc nD τ sig) → Buf (Elt F) ℓ)

/-- The body's obligation at a symbolic place: from what the subcore is handed, its scratch and its semaphores at
    zero, to what it hands back, the scratch and the semaphores at zero again. -/
def BODY (O : CellTallies nD τ sig (HIx 1)) (W : Waits sig (HIx 1)) : Prop :=
  iprop(levAts (K (F := F)).L (K (F := F)).lev ∗ GO m d (cV L) (jV L) ∗ SCR d L ∗ SEM d L ∗ owes (thr d L) O W)
    ⊢ wp frame (wpE (defs₀ (F := F)) 𝒱₀ (thr d L) none) Set.univ
        (cc1_gather L tabV (Memref.isWhole_whole _) idxV (Memref.isWhole_whole _) outV (Memref.isWhole_whole _) sIdx (Memref.isWhole_whole _) sR0 (Memref.isWhole_whole _) sR1 (Memref.isWhole_whole _) sR2 (Memref.isWhole_whole _) sC0 (Memref.isWhole_whole _) sC1 (Memref.isWhole_whole _) cc1_scratch6 cc1_scratch7 cc1_scratch8 cc1_scratch9 cc1_scratch10 cc1_scoped0)
        fun _ => iprop(TD m d (cV L) (jV L) ∗ SCR d L ∗ SEM d L ∗ ∃ W', ⌜∀ p ∈ W', p ∈ W ∨ p.2 = none⌝ ∗ owes (thr d L) O W')

theorem defs₀_vector (c : Fin τ.nSC) (s : Fin τ.nSub) :
    defs₀ (F := F) (.scVector c s) 1 ()
      = SparseCore.onTile hcore1 hsub1 (fun c s => cc1_gather (coordsV c s) tabV (Memref.isWhole_whole _) idxV (Memref.isWhole_whole _) outV (Memref.isWhole_whole _) sIdx (Memref.isWhole_whole _) sR0 (Memref.isWhole_whole _) sR1 (Memref.isWhole_whole _) sR2 (Memref.isWhole_whole _) sC0 (Memref.isWhole_whole _) sC1 (Memref.isWhole_whole _) cc1_scratch6 cc1_scratch7 cc1_scratch8 cc1_scratch9 cc1_scratch10 cc1_scoped0) ⟨⟩ c s := rfl

/-- The body's obligation, with the rest of the subcore's scoped storage framed through. -/
theorem body_framed (hF : (K (F := F)).Facts) (O : CellTallies nD τ sig (HIx 1)) (W : Waits sig (HIx 1)) (hB : BODY d L m O W) :
    iprop(levAts (K (F := F)).L (K (F := F)).lev ∗ emp ∗ GO m d (cV L) (jV L) ∗ scopedBufs (thr d L) ∗ scopedSems0 (thr d L) ∗ owes (thr d L) O W)
      ⊢ wp frame (wpE (defs₀ (F := F)) 𝒱₀ (thr d L) none) Set.univ
          (cc1_gather L tabV (Memref.isWhole_whole _) idxV (Memref.isWhole_whole _) outV (Memref.isWhole_whole _) sIdx (Memref.isWhole_whole _) sR0 (Memref.isWhole_whole _) sR1 (Memref.isWhole_whole _) sR2 (Memref.isWhole_whole _) sC0 (Memref.isWhole_whole _) sC1 (Memref.isWhole_whole _) cc1_scratch6 cc1_scratch7 cc1_scratch8 cc1_scratch9 cc1_scratch10 cc1_scoped0)
          fun _ => iprop(TD m d (cV L) (jV L) ∗ scopedBufs (thr d L) ∗ scopedSems0 (thr d L)
            ∗ ∃ W', ⌜∀ p ∈ W', p ∈ W ∨ p.2 = none ∨ p.2 = some (0 : Fin 1)⌝ ∗ owes (thr d L) O W') := by
  unfold BODY at hB
  rw [(K (F := F)).scopedBufs_V hF d (cV L) (jV L), SparseCore.Cfg.scopedSems0_V (Val := Elt F) d (cV L) (jV L), ownSems0_thr, ownBufs_thr]
  iintro ⟨Hlv, -, Hgo, ⟨Hscr, Hbr⟩, ⟨Hsem, Hsr⟩, HO⟩
  iapply (wp_wand_r Idealize.ShloMosaic.frame (wpE (defs₀ (F := F)) 𝒱₀ (thr d L) none) Set.univ)
  isplitl [Hlv Hgo Hscr Hsem HO]
  · iapply hB
    isplitl [Hlv]; · iexact Hlv
    isplitl [Hgo]; · iexact Hgo
    isplitl [Hscr]; · iexact Hscr
    isplitl [Hsem]; · iexact Hsem
    iexact HO
  iintro %_ ⟨Htd, Hscr, Hsem, %W', %hW', HO⟩
  isplitl [Htd]; · iexact Htd
  isplitl [Hscr Hbr]
  · isplitl [Hscr]; · iexact Hscr
    iexact Hbr
  isplitl [Hsem Hsr]
  · isplitl [Hsem]; · iexact Hsem
    iexact Hsr
  iexists W'; isplitr
  · ipureintro; exact fun p hp => (hW' p hp).imp_right Or.inl
  · iexact HO

/-- A vector subcore's task, from its body's obligation at every place. -/
theorem tileObl_of_body (hF : (K (F := F)).Facts)
    (hB : ∀ (d : Dev nD) (L : grid1.Coords) (O : CellTallies nD τ sig (HIx 1)) (W : Waits sig (HIx 1)), (∀ g, O g none = 0) → BODY d L m O W) :
    (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact body_framed d (coordsV ⟨_, hc.1⟩ ⟨_, hc.2⟩) m hF O W (hB d (coordsV ⟨_, hc.1⟩ ⟨_, hc.2⟩) O W hO)

end Wrapper

end Cert.Proof.KI

end
-- ==== Proof.KI.TileVal.lean ====
/-
  What a vector subcore's scratch buffers hold, as values. The index scratch, overwritten whole by the 40 index rows of
  a group, reads through any of its rows as words of the index rows, so every word names a table row. A landing buffer
  written whole by the gather of the table rows that one index row names holds, row by row, those table rows. A
  compaction step copies eight more rows' first 64 columns, sixteen at a time, from the landing buffer into the compacted
  buffer and leaves the earlier rows as they were.
-/
import proofs.«217222_g83150566851320_cont_9to1_m_45_25_alg».proof.Proof.KI.TileDefs
import Idealize.ShloMosaic.Lib.Writes
import Idealize.ShloMosaic.Lib.SparseCore.Stream
import Idealize.ShloMosaic.Lib.Pipeline.Value

noncomputable section

namespace Cert.Proof.KI

open Cert.KernelIdeal Cert.KernelIdeal.Gen

open Idealize.ShloMosaic
open Idealize.ShloMosaic.SparseCore (S V T)
open Idealize.ShloMosaic.ValueIdx (ix2 ix3)

variable {F : FTy → Type} [FloatOps F]

variable (d : Dev nD) (L : grid1.Coords)

/-! ## The index scratch -/

/-- The index scratch, overwritten whole by the index rows of group k and read through any one of its rows, holds words of
    the index rows: each names a table row. -/
theorem hin_rows (fi : IVec S6400x128 32) (hfi : ∀ i, (fi i).toNat < 100000) (k : Fin k1_t1_loop.trips) :
    ∀ (f0 : Buf (Elt F) (sIdx.view.loc (thr d L))) (o : Fin 2 → Nat) (h : ∀ a, o a + S1x128.size a ≤ S40x128.size a) x,
      (((sIdx.slice (Rect.unit (s := S40x128) o S1x128.size h) (fun _ => rfl)).squeeze S128 squeezes_S1x128_S128).view.read (Elt F)
        (View.write (Elt F) sIdx.view f0 ((idxK L k).view.read (Elt F) fi) Finset.univ) x).toNat < 100000 := by
  intro f0 o h x
  rw [show View.write (Elt F) sIdx.view f0 ((idxK L k).view.read (Elt F) fi) Finset.univ = (idxK L k).view.read (Elt F) fi
    from View.write_whole_univ _ _ _]
  exact hfi _

/-! ## A landing buffer -/

/-- Word c of a 128-word row, as the one-row matrix's entry (0, c). -/
theorem squeeze_row_idx (c : Fin 128) :
    Shape.reshapeEquiv squeezes_S1x128_S128.numel_eq (ValueIdx.ix1 c) = ix2 (n0 := 1) (n1 := 128) ⟨0, Nat.one_pos⟩ c :=
  Shape.reshapeEquiv_eq_of_rowMajor _ (by
    rw [Shape.rowMajor_val_two, Shape.rowMajor_val_one]
    show 0 * 128 + c.val = c.val
    omega)

/-- Row q of the index scratch (overwritten whole by the index rows of group k), at word c: word c of index row
    chunkNo k q. -/
theorem idxScratch_row_apply (fi : IVec S6400x128 32) (k : Fin k1_t1_loop.trips) (q : Fin 40)
    (f0 : Buf (Elt F) (sIdx.view.loc (thr d L)))
    (hq : ∀ a, (![q.val, 0] : Fin 2 → Nat) a + S1x128.size a ≤ S40x128.size a) (c : Fin 128)
    (hc : chunkNo L k.val q.val < 6400) :
    ((sIdx.slice (Rect.unit (s := S40x128) ![q.val, 0] S1x128.size hq) (fun _ => rfl)).squeeze S128 squeezes_S1x128_S128).view.read (Elt F)
        (View.write (Elt F) sIdx.view f0 ((idxK L k).view.read (Elt F) fi) Finset.univ) (ValueIdx.ix1 c)
      = fi (ix2 (n0 := 6400) (n1 := 128) ⟨chunkNo L k.val q.val, hc⟩ c) := by
  rw [show View.write (Elt F) sIdx.view f0 ((idxK L k).view.read (Elt F) fi) Finset.univ = (idxK L k).view.read (Elt F) fi
    from View.write_whole_univ _ _ _]
  show fi _ = fi _
  refine congrArg fi (funext ?_)
  refine Fin.forall_fin_two.2 ⟨Fin.ext ?_, Fin.ext ?_⟩
  · show (k1_off1 L k) 0 + 1 * ((![q.val, 0] : Fin 2 → Nat) 0
        + 1 * ((Shape.reshapeEquiv squeezes_S1x128_S128.numel_eq (ValueIdx.ix1 c)) 0).val) = chunkNo L k.val q.val
    rw [squeeze_row_idx, k1_off1_eq]
    show 400 * (L 1).val + 200 * (L 0).val + 40 * k.val + 1 * (q.val + 1 * 0) = 200 * (2 * (L 1).val + (L 0).val) + 40 * k.val + q.val
    omega
  · show (k1_off1 L k) 1 + 1 * ((![q.val, 0] : Fin 2 → Nat) 1
        + 1 * ((Shape.reshapeEquiv squeezes_S1x128_S128.numel_eq (ValueIdx.ix1 c)) 1).val) = c.val
    rw [squeeze_row_idx, k1_off1_eq]
    show 0 + 1 * (0 + 1 * c.val) = c.val
    omega

/-- Position r of the 128 row-major positions of a 128-word row is word r. -/
theorem rowMajor_symm_S128 (r : Fin 128) (j : Fin S128.numel) (hj : j.val = r.val) : S128.rowMajor.symm j = ValueIdx.ix1 r := by
  rw [Equiv.symm_apply_eq]
  refine Fin.ext ?_
  rw [Shape.rowMajor_val_one]
  exact hj

/-- A landing buffer written whole by the gather of the table rows that row q of the index scratch names holds, row by
    row, the table rows that index row chunkNo k q names. -/
theorem rows_value (src : Memref sig .scVector .vmem S128x128 .f32) (ft : FVec F S100000x128 .f32) (fi : IVec S6400x128 32)
    (k : Fin k1_t1_loop.trips) (q : Fin 40)
    (g0 : Buf (Elt F) (src.view.loc (thr d L))) (f0 : Buf (Elt F) (sIdx.view.loc (thr d L)))
    (hq : ∀ a, (![q.val, 0] : Fin 2 → Nat) a + S1x128.size a ≤ S40x128.size a)
    (hn : S128.numel = S128x128.size gathers_S100000x128_S128x128.axis')
    (hin' : ∀ x, (((sIdx.slice (Rect.unit (s := S40x128) ![q.val, 0] S1x128.size hq) (fun _ => rfl)).squeeze S128 squeezes_S1x128_S128).view.read (Elt F)
        (View.write (Elt F) sIdx.view f0 (ReadAs.same.apply ((idxK L k).view.read (Elt F) fi)) Finset.univ) x).toNat
          < S100000x128.size gathers_S100000x128_S128x128.axis) :
    RowsOf ft fi (chunkNo L k.val q.val) (src.view.read (Elt F) (src.view.writes (Elt F) g0
      [⟨Rect.whole S128x128, SparseCore.gatherPayload gathers_S100000x128_S128x128
        (View.read (Elt F) (tabV.slice (Rect.unit (s := S100000x128) ![0, 0] S100000x128.size inb_S100000x128_S100000x128_0_0) (fun _ => rfl)).view ft)
        (SparseCore.rows (View.read (Elt F) ((sIdx.slice (Rect.unit (s := S40x128) ![q.val, 0] S1x128.size hq) (fun _ => rfl)).squeeze S128 squeezes_S1x128_S128).view
          (View.write (Elt F) sIdx.view f0 (ReadAs.same.apply (View.read (Elt F) (idxK L k).view fi)) Finset.univ)) hn hin')⟩])) := by
  intro r c h
  have hw := View.read_writes_cons_emb src.view g0 (Rect.whole S128x128)
    (SparseCore.gatherPayload gathers_S100000x128_S128x128
        (View.read (Elt F) (tabV.slice (Rect.unit (s := S100000x128) ![0, 0] S100000x128.size inb_S100000x128_S100000x128_0_0) (fun _ => rfl)).view ft)
        (SparseCore.rows (View.read (Elt F) ((sIdx.slice (Rect.unit (s := S40x128) ![q.val, 0] S1x128.size hq) (fun _ => rfl)).squeeze S128 squeezes_S1x128_S128).view
          (View.write (Elt F) sIdx.view f0 (ReadAs.same.apply (View.read (Elt F) (idxK L k).view fi)) Finset.univ)) hn hin')) [] (ix2 (n0 := 128) (n1 := 128) r c)
  rw [Rect.emb_whole_apply] at hw
  refine hw.trans ?_
  unfold SparseCore.gatherPayload
  show ft _ = ft _
  refine congrArg ft (funext ?_)
  refine Fin.forall_fin_two.2 ⟨Fin.ext ?_, Fin.ext ?_⟩
  · show 0 + 1 * ((gathers_S100000x128_S128x128.idx _ (ix2 (n0 := 128) (n1 := 128) r c)) gathers_S100000x128_S128x128.axis).val
      = (Cert.Spec.rowOf (fi (ix2 (n0 := 6400) (n1 := 128) ⟨chunkNo L k.val q.val, h⟩ r))).val
    rw [Shape.Gathers.idx_axis]
    have hx : S128.rowMajor.symm (((ix2 (n0 := 128) (n1 := 128) r c) gathers_S100000x128_S128x128.axis').cast hn.symm) = ValueIdx.ix1 r :=
      rowMajor_symm_S128 r _ rfl
    have hv : ((sIdx.slice (Rect.unit (s := S40x128) ![q.val, 0] S1x128.size hq) (fun _ => rfl)).squeeze S128 squeezes_S1x128_S128).view.read (Elt F)
        (View.write (Elt F) sIdx.view f0 (ReadAs.same.apply ((idxK L k).view.read (Elt F) fi)) Finset.univ)
          (S128.rowMajor.symm (((ix2 (n0 := 128) (n1 := 128) r c) gathers_S100000x128_S128x128.axis').cast hn.symm))
        = fi (ix2 (n0 := 6400) (n1 := 128) ⟨chunkNo L k.val q.val, h⟩ r) := by
      rw [hx]
      exact idxScratch_row_apply d L fi k q f0 hq r h
    have hlt := hin' (S128.rowMajor.symm (((ix2 (n0 := 128) (n1 := 128) r c) gathers_S100000x128_S128x128.axis').cast hn.symm))
    rw [hv] at hlt
    have hlt' : (fi (ix2 (n0 := 6400) (n1 := 128) ⟨chunkNo L k.val q.val, h⟩ r)).toNat < 100000 := hlt
    show 0 + 1 * (((sIdx.slice (Rect.unit (s := S40x128) ![q.val, 0] S1x128.size hq) (fun _ => rfl)).squeeze S128 squeezes_S1x128_S128).view.read (Elt F)
        (View.write (Elt F) sIdx.view f0 (ReadAs.same.apply ((idxK L k).view.read (Elt F) fi)) Finset.univ)
          (S128.rowMajor.symm (((ix2 (n0 := 128) (n1 := 128) r c) gathers_S100000x128_S128x128.axis').cast hn.symm))).toNat
      = (fi (ix2 (n0 := 6400) (n1 := 128) ⟨chunkNo L k.val q.val, h⟩ r)).toNat % 100000
    rw [hv, Nat.mod_eq_of_lt hlt']
    omega
  · show 0 + 1 * ((gathers_S100000x128_S128x128.idx _ (ix2 (n0 := 128) (n1 := 128) r c)) (1 : Fin 2)).val = c.val
    rw [Shape.Gathers.idx_of_ne gathers_S100000x128_S128x128 _ _ (1 : Fin 2) (by decide)]
    show 0 + 1 * c.val = c.val
    omega

/-! ## A compaction step -/

/-- The first n rows of the compacted buffer are the landing buffer's first 64 columns. -/
def CompactedRows (g : FVec F S128x128 .f32) (f : FVec F S128x64 .f32) (n : ℕ) : Prop :=
  ∀ (r : Fin 128) (c : Fin 64), r.val < n → f (ix2 r c) = g (ix2 (n0 := 128) (n1 := 128) r (c.castLE (by decide)))

theorem compacted_iff_rows (g : FVec F S128x128 .f32) (f : FVec F S128x64 .f32) (t : ℕ) :
    Compacted g f t ↔ CompactedRows g f (8 * t) := Iff.rfl

/-- Sixteen words of a row of the landing buffer, as the store into the compacted buffer carries them: the piece of a
    compaction step that copies columns [c₀, c₀ + 16) of one row. -/
abbrev cpiece (src : Memref sig .scVector .vmem S128x128 .f32) (g : Buf (Elt F) (src.view.loc (thr d L)))
    (od os : Fin 2 → Nat) (hd : ∀ a, od a + S1x16.size a ≤ S128x64.size a) (hs : ∀ a, os a + S1x16.size a ≤ S128x128.size a) :
    View.Piece (Elt F) S128x64 .f32 :=
  ⟨Rect.unit (s := S128x64) od S1x16.size hd,
    shapeCast S1x16 (shapeCast S16 (View.readAt (Elt F) src.view (Rect.unit (s := S128x128) os S1x16.size hs).toLoadRect g)
      shapeCasts_S1x16_S16) shapeCasts_S16_S1x16⟩

/-- The landing buffer's first 64 columns, at the compacted buffer's shape. -/
def firstCols (G : FVec F S128x128 .f32) : FVec F S128x64 .f32 :=
  fun y => G (ix2 (n0 := 128) (n1 := 128) (y 0) ((y 1 : Fin 64).castLE (by decide)))

/-- A piece at row R, columns from c₀, carries the landing buffer's entries there. -/
theorem cpiece_apply (src : Memref sig .scVector .vmem S128x128 .f32) (g : Buf (Elt F) (src.view.loc (thr d L)))
    (R c₀ : ℕ) (hd : ∀ a, (![R, c₀] : Fin 2 → Nat) a + S1x16.size a ≤ S128x64.size a)
    (hs : ∀ a, (![R, c₀] : Fin 2 → Nat) a + S1x16.size a ≤ S128x128.size a) (x : S1x16.Idx) :
    (cpiece d L src g ![R, c₀] ![R, c₀] hd hs).2 x
      = firstCols (src.view.read (Elt F) g) ((cpiece d L src g ![R, c₀] ![R, c₀] hd hs).1.emb x) := by
  show shapeCast S1x16 (shapeCast S16 (View.readAt (Elt F) src.view (Rect.unit (s := S128x128) ![R, c₀] S1x16.size hs).toLoadRect g)
      shapeCasts_S1x16_S16) shapeCasts_S16_S1x16 x = _
  have hx0 : (x 0).val = 0 := by have h1 : (x 0).val < 1 := (x 0).isLt; omega
  rw [shapeCast_apply _ _ x (ValueIdx.ix1 (n := 16) (x 1)) (by
      rw [Shape.rowMajor_val_one, Shape.rowMajor_val_two]; show (x 1).val = (x 0).val * 16 + (x 1).val; omega),
    shapeCast_apply _ _ (ValueIdx.ix1 (n := 16) (x 1)) x (by
      rw [Shape.rowMajor_val_one, Shape.rowMajor_val_two]; show (x 0).val * 16 + (x 1).val = (x 1).val; omega)]
  show src.view.read (Elt F) g _ = src.view.read (Elt F) g _
  refine congrArg (src.view.read (Elt F) g) (funext ?_)
  refine Fin.forall_fin_two.2 ⟨Fin.ext ?_, Fin.ext ?_⟩
  · rfl
  · rfl

/-- An index inside a piece at row R, columns from c₀, is in row R and in those sixteen columns; and conversely. -/
theorem mem_cpiece_set {R c₀ : ℕ} (hd : ∀ a, (![R, c₀] : Fin 2 → Nat) a + S1x16.size a ≤ S128x64.size a) {r : Fin 128} {c : Fin 64} :
    ix2 (n0 := 128) (n1 := 64) r c ∈ (Rect.unit (s := S128x64) ![R, c₀] S1x16.size hd).set ↔ r.val = R ∧ c₀ ≤ c.val ∧ c.val < c₀ + 16 := by
  rw [LoadRect.mem_set]
  constructor
  · intro h
    obtain ⟨j0, hj0, e0⟩ := h 0
    obtain ⟨j1, hj1, e1⟩ := h 1
    have hj0' : j0 < 1 := hj0
    have hj1' : j1 < 16 := hj1
    have e0' : r.val = R + 1 * j0 := e0
    have e1' : c.val = c₀ + 1 * j1 := e1
    omega
  · rintro ⟨h0, h1, h2⟩
    refine Fin.forall_fin_two.2 ⟨⟨0, Nat.one_pos, ?_⟩, ⟨c.val - c₀, ?_, ?_⟩⟩
    · show r.val = R + 1 * 0
      omega
    · show c.val - c₀ < 16
      omega
    · show c.val = c₀ + 1 * (c.val - c₀)
      omega

/-- One row of a compaction step: the four pieces of sixteen columns at row R, the last written first in the list,
    extend the compacted rows by one. -/
theorem row_step (src : Memref sig .scVector .vmem S128x128 .f32) (dst : Memref sig .scVector .vmem S128x64 .f32)
    (g : Buf (Elt F) (src.view.loc (thr d L))) (f : Buf (Elt F) (dst.view.loc (thr d L))) (R : ℕ)
    (od0 od1 od2 od3 os0 os1 os2 os3 : Fin 2 → ℕ)
    (ed0 : od0 = ![R, 0]) (ed1 : od1 = ![R, 16]) (ed2 : od2 = ![R, 32]) (ed3 : od3 = ![R, 48])
    (es0 : os0 = ![R, 0]) (es1 : os1 = ![R, 16]) (es2 : os2 = ![R, 32]) (es3 : os3 = ![R, 48])
    (hd0 : ∀ a, od0 a + S1x16.size a ≤ S128x64.size a) (hd1 : ∀ a, od1 a + S1x16.size a ≤ S128x64.size a)
    (hd2 : ∀ a, od2 a + S1x16.size a ≤ S128x64.size a) (hd3 : ∀ a, od3 a + S1x16.size a ≤ S128x64.size a)
    (hs0 : ∀ a, os0 a + S1x16.size a ≤ S128x128.size a) (hs1 : ∀ a, os1 a + S1x16.size a ≤ S128x128.size a)
    (hs2 : ∀ a, os2 a + S1x16.size a ≤ S128x128.size a) (hs3 : ∀ a, os3 a + S1x16.size a ≤ S128x128.size a)
    (hC : CompactedRows (src.view.read (Elt F) g) (dst.view.read (Elt F) f) R) :
    CompactedRows (src.view.read (Elt F) g) (dst.view.read (Elt F) (dst.view.writes (Elt F) f
      [cpiece d L src g od3 os3 hd3 hs3, cpiece d L src g od2 os2 hd2 hs2, cpiece d L src g od1 os1 hd1 hs1,
        cpiece d L src g od0 os0 hd0 hs0])) (R + 1) := by
  subst ed0 ed1 ed2 ed3 es0 es1 es2 es3
  intro r c hr
  by_cases hlt : r.val < R
  · rw [View.read_writes_apply_of_forall_not_mem dst.view f (ix2 (n0 := 128) (n1 := 64) r c) _ (fun p hp hy => by
      simp only [List.mem_cons, List.mem_nil_iff, or_false] at hp
      rcases hp with rfl | rfl | rfl | rfl
      · exact absurd ((mem_cpiece_set hd3).1 hy).1 (by omega)
      · exact absurd ((mem_cpiece_set hd2).1 hy).1 (by omega)
      · exact absurd ((mem_cpiece_set hd1).1 hy).1 (by omega)
      · exact absurd ((mem_cpiece_set hd0).1 hy).1 (by omega))]
    exact hC r c hlt
  · have hrR : r.val = R := by omega
    refine View.read_writes_apply_of_pieces dst.view f (firstCols (src.view.read (Elt F) g)) _ (fun p hp x => ?_)
      (ix2 (n0 := 128) (n1 := 64) r c) ?_
    · simp only [List.mem_cons, List.mem_nil_iff, or_false] at hp
      rcases hp with rfl | rfl | rfl | rfl <;> exact cpiece_apply d L src g _ _ _ _ x
    · have hc : c.val < 64 := c.isLt
      rcases (by omega : c.val < 16 ∨ (16 ≤ c.val ∧ c.val < 32) ∨ (32 ≤ c.val ∧ c.val < 48) ∨ 48 ≤ c.val) with h | h | h | h
      · exact ⟨_, List.mem_cons_of_mem _ (List.mem_cons_of_mem _ (List.mem_cons_of_mem _ List.mem_cons_self)),
          (mem_cpiece_set hd0).2 ⟨hrR, by omega, by omega⟩⟩
      · exact ⟨_, List.mem_cons_of_mem _ (List.mem_cons_of_mem _ List.mem_cons_self), (mem_cpiece_set hd1).2 ⟨hrR, by omega, by omega⟩⟩
      · exact ⟨_, List.mem_cons_of_mem _ List.mem_cons_self, (mem_cpiece_set hd2).2 ⟨hrR, by omega, by omega⟩⟩
      · exact ⟨_, List.mem_cons_self, (mem_cpiece_set hd3).2 ⟨hrR, by omega, by omega⟩⟩

/-- The same over any earlier writes: the four pieces of row R written after the list Ls. -/
theorem row_step_cons (src : Memref sig .scVector .vmem S128x128 .f32) (dst : Memref sig .scVector .vmem S128x64 .f32)
    (g : Buf (Elt F) (src.view.loc (thr d L))) (f : Buf (Elt F) (dst.view.loc (thr d L)))
    (Ls : List (View.Piece (Elt F) S128x64 .f32)) (R : ℕ)
    (od0 od1 od2 od3 os0 os1 os2 os3 : Fin 2 → ℕ)
    (ed0 : od0 = ![R, 0]) (ed1 : od1 = ![R, 16]) (ed2 : od2 = ![R, 32]) (ed3 : od3 = ![R, 48])
    (es0 : os0 = ![R, 0]) (es1 : os1 = ![R, 16]) (es2 : os2 = ![R, 32]) (es3 : os3 = ![R, 48])
    (hd0 : ∀ a, od0 a + S1x16.size a ≤ S128x64.size a) (hd1 : ∀ a, od1 a + S1x16.size a ≤ S128x64.size a)
    (hd2 : ∀ a, od2 a + S1x16.size a ≤ S128x64.size a) (hd3 : ∀ a, od3 a + S1x16.size a ≤ S128x64.size a)
    (hs0 : ∀ a, os0 a + S1x16.size a ≤ S128x128.size a) (hs1 : ∀ a, os1 a + S1x16.size a ≤ S128x128.size a)
    (hs2 : ∀ a, os2 a + S1x16.size a ≤ S128x128.size a) (hs3 : ∀ a, os3 a + S1x16.size a ≤ S128x128.size a)
    (hC : CompactedRows (src.view.read (Elt F) g) (dst.view.read (Elt F) (dst.view.writes (Elt F) f Ls)) R) :
    CompactedRows (src.view.read (Elt F) g) (dst.view.read (Elt F) (dst.view.writes (Elt F) f
      (cpiece d L src g od3 os3 hd3 hs3 :: cpiece d L src g od2 os2 hd2 hs2 :: cpiece d L src g od1 os1 hd1 hs1
        :: cpiece d L src g od0 os0 hd0 hs0 :: Ls))) (R + 1) :=
  row_step d L src dst g (dst.view.writes (Elt F) f Ls) R od0 od1 od2 od3 os0 os1 os2 os3 ed0 ed1 ed2 ed3 es0 es1 es2 es3
    hd0 hd1 hd2 hd3 hs0 hs1 hs2 hs3 hC

end Cert.Proof.KI

end
-- ==== Proof.KI.TileVal2a.lean ====
/-
  The compaction steps of loops 1 to 10 of the 40, one statement each: trip t of a chunk's compaction loop copies eight more
  rows' first 64 columns from its landing buffer into its compacted buffer. Each is eight applications of the one-row
  step at the loop's own offset functions, whose closed forms are row 8 t + j, columns 0, 16, 32, 48.
-/
import proofs.«217222_g83150566851320_cont_9to1_m_45_25_alg».proof.Proof.KI.TileVal

noncomputable section

namespace Cert.Proof.KI

open Cert.KernelIdeal Cert.KernelIdeal.Gen

open Idealize.ShloMosaic
open Idealize.ShloMosaic.SparseCore (S V T)
open Idealize.ShloMosaic.ValueIdx (ix2 ix3)

variable {F : FTy → Type} [FloatOps F]

variable (d : Dev nD) (L : grid1.Coords)

/-- The compaction step of loop 1 of 40: trip t copies rows [8 t, 8 t + 8) of the landing buffer's first 64 columns. -/
theorem compact_step_t2 (t : Fin k1_t2_loop.trips) (g : Buf (Elt F) (sR0.view.loc (thr d L))) (f : Buf (Elt F) (sC0.view.loc (thr d L)))
    (hC : Compacted (sR0.view.read (Elt F) g) (sC0.view.read (Elt F) f) t.val) :
    Compacted (sR0.view.read (Elt F) g) (sC0.view.read (Elt F) (sC0.view.writes (Elt F) f
      [cpiece d L sR0 g (k1_off9 t 7#32) (k1_off8 t 7#32) (k1_off9_inb t 7) (k1_off8_inb t 7),
       cpiece d L sR0 g (k1_off7 t 7#32) (k1_off6 t 7#32) (k1_off7_inb t 7) (k1_off6_inb t 7),
       cpiece d L sR0 g (k1_off5 t 7#32) (k1_off4 t 7#32) (k1_off5_inb t 7) (k1_off4_inb t 7),
       cpiece d L sR0 g (k1_off3 t 7#32) (k1_off2 t 7#32) (k1_off3_inb t 7) (k1_off2_inb t 7),
       cpiece d L sR0 g (k1_off9 t 6#32) (k1_off8 t 6#32) (k1_off9_inb t 6) (k1_off8_inb t 6),
       cpiece d L sR0 g (k1_off7 t 6#32) (k1_off6 t 6#32) (k1_off7_inb t 6) (k1_off6_inb t 6),
       cpiece d L sR0 g (k1_off5 t 6#32) (k1_off4 t 6#32) (k1_off5_inb t 6) (k1_off4_inb t 6),
       cpiece d L sR0 g (k1_off3 t 6#32) (k1_off2 t 6#32) (k1_off3_inb t 6) (k1_off2_inb t 6),
       cpiece d L sR0 g (k1_off9 t 5#32) (k1_off8 t 5#32) (k1_off9_inb t 5) (k1_off8_inb t 5),
       cpiece d L sR0 g (k1_off7 t 5#32) (k1_off6 t 5#32) (k1_off7_inb t 5) (k1_off6_inb t 5),
       cpiece d L sR0 g (k1_off5 t 5#32) (k1_off4 t 5#32) (k1_off5_inb t 5) (k1_off4_inb t 5),
       cpiece d L sR0 g (k1_off3 t 5#32) (k1_off2 t 5#32) (k1_off3_inb t 5) (k1_off2_inb t 5),
       cpiece d L sR0 g (k1_off9 t 4#32) (k1_off8 t 4#32) (k1_off9_inb t 4) (k1_off8_inb t 4),
       cpiece d L sR0 g (k1_off7 t 4#32) (k1_off6 t 4#32) (k1_off7_inb t 4) (k1_off6_inb t 4),
       cpiece d L sR0 g (k1_off5 t 4#32) (k1_off4 t 4#32) (k1_off5_inb t 4) (k1_off4_inb t 4),
       cpiece d L sR0 g (k1_off3 t 4#32) (k1_off2 t 4#32) (k1_off3_inb t 4) (k1_off2_inb t 4),
       cpiece d L sR0 g (k1_off9 t 3#32) (k1_off8 t 3#32) (k1_off9_inb t 3) (k1_off8_inb t 3),
       cpiece d L sR0 g (k1_off7 t 3#32) (k1_off6 t 3#32) (k1_off7_inb t 3) (k1_off6_inb t 3),
       cpiece d L sR0 g (k1_off5 t 3#32) (k1_off4 t 3#32) (k1_off5_inb t 3) (k1_off4_inb t 3),
       cpiece d L sR0 g (k1_off3 t 3#32) (k1_off2 t 3#32) (k1_off3_inb t 3) (k1_off2_inb t 3),
       cpiece d L sR0 g (k1_off9 t 2#32) (k1_off8 t 2#32) (k1_off9_inb t 2) (k1_off8_inb t 2),
       cpiece d L sR0 g (k1_off7 t 2#32) (k1_off6 t 2#32) (k1_off7_inb t 2) (k1_off6_inb t 2),
       cpiece d L sR0 g (k1_off5 t 2#32) (k1_off4 t 2#32) (k1_off5_inb t 2) (k1_off4_inb t 2),
       cpiece d L sR0 g (k1_off3 t 2#32) (k1_off2 t 2#32) (k1_off3_inb t 2) (k1_off2_inb t 2),
       cpiece d L sR0 g (k1_off9 t 1#32) (k1_off8 t 1#32) (k1_off9_inb t 1) (k1_off8_inb t 1),
       cpiece d L sR0 g (k1_off7 t 1#32) (k1_off6 t 1#32) (k1_off7_inb t 1) (k1_off6_inb t 1),
       cpiece d L sR0 g (k1_off5 t 1#32) (k1_off4 t 1#32) (k1_off5_inb t 1) (k1_off4_inb t 1),
       cpiece d L sR0 g (k1_off3 t 1#32) (k1_off2 t 1#32) (k1_off3_inb t 1) (k1_off2_inb t 1),
       cpiece d L sR0 g (k1_off9 t 0#32) (k1_off8 t 0#32) (k1_off9_inb t 0) (k1_off8_inb t 0),
       cpiece d L sR0 g (k1_off7 t 0#32) (k1_off6 t 0#32) (k1_off7_inb t 0) (k1_off6_inb t 0),
       cpiece d L sR0 g (k1_off5 t 0#32) (k1_off4 t 0#32) (k1_off5_inb t 0) (k1_off4_inb t 0),
       cpiece d L sR0 g (k1_off3 t 0#32) (k1_off2 t 0#32) (k1_off3_inb t 0) (k1_off2_inb t 0)])) (t.val + 1) := by
  have h1 := row_step_cons d L sR0 sC0 g f [] (8 * t.val + 0) (k1_off3 t 0#32) (k1_off5 t 0#32) (k1_off7 t 0#32) (k1_off9 t 0#32) (k1_off2 t 0#32) (k1_off4 t 0#32) (k1_off6 t 0#32) (k1_off8 t 0#32)
    (k1_off3_eq t 0) (k1_off5_eq t 0) (k1_off7_eq t 0) (k1_off9_eq t 0) (k1_off2_eq t 0) (k1_off4_eq t 0) (k1_off6_eq t 0) (k1_off8_eq t 0)
    (k1_off3_inb t 0) (k1_off5_inb t 0) (k1_off7_inb t 0) (k1_off9_inb t 0) (k1_off2_inb t 0) (k1_off4_inb t 0) (k1_off6_inb t 0) (k1_off8_inb t 0) ((compacted_iff_rows _ _ _).1 hC)
  have h2 := row_step_cons d L sR0 sC0 g f _ (8 * t.val + 1) (k1_off3 t 1#32) (k1_off5 t 1#32) (k1_off7 t 1#32) (k1_off9 t 1#32) (k1_off2 t 1#32) (k1_off4 t 1#32) (k1_off6 t 1#32) (k1_off8 t 1#32)
    (k1_off3_eq t 1) (k1_off5_eq t 1) (k1_off7_eq t 1) (k1_off9_eq t 1) (k1_off2_eq t 1) (k1_off4_eq t 1) (k1_off6_eq t 1) (k1_off8_eq t 1)
    (k1_off3_inb t 1) (k1_off5_inb t 1) (k1_off7_inb t 1) (k1_off9_inb t 1) (k1_off2_inb t 1) (k1_off4_inb t 1) (k1_off6_inb t 1) (k1_off8_inb t 1) h1
  have h3 := row_step_cons d L sR0 sC0 g f _ (8 * t.val + 2) (k1_off3 t 2#32) (k1_off5 t 2#32) (k1_off7 t 2#32) (k1_off9 t 2#32) (k1_off2 t 2#32) (k1_off4 t 2#32) (k1_off6 t 2#32) (k1_off8 t 2#32)
    (k1_off3_eq t 2) (k1_off5_eq t 2) (k1_off7_eq t 2) (k1_off9_eq t 2) (k1_off2_eq t 2) (k1_off4_eq t 2) (k1_off6_eq t 2) (k1_off8_eq t 2)
    (k1_off3_inb t 2) (k1_off5_inb t 2) (k1_off7_inb t 2) (k1_off9_inb t 2) (k1_off2_inb t 2) (k1_off4_inb t 2) (k1_off6_inb t 2) (k1_off8_inb t 2) h2
  have h4 := row_step_cons d L sR0 sC0 g f _ (8 * t.val + 3) (k1_off3 t 3#32) (k1_off5 t 3#32) (k1_off7 t 3#32) (k1_off9 t 3#32) (k1_off2 t 3#32) (k1_off4 t 3#32) (k1_off6 t 3#32) (k1_off8 t 3#32)
    (k1_off3_eq t 3) (k1_off5_eq t 3) (k1_off7_eq t 3) (k1_off9_eq t 3) (k1_off2_eq t 3) (k1_off4_eq t 3) (k1_off6_eq t 3) (k1_off8_eq t 3)
    (k1_off3_inb t 3) (k1_off5_inb t 3) (k1_off7_inb t 3) (k1_off9_inb t 3) (k1_off2_inb t 3) (k1_off4_inb t 3) (k1_off6_inb t 3) (k1_off8_inb t 3) h3
  have h5 := row_step_cons d L sR0 sC0 g f _ (8 * t.val + 4) (k1_off3 t 4#32) (k1_off5 t 4#32) (k1_off7 t 4#32) (k1_off9 t 4#32) (k1_off2 t 4#32) (k1_off4 t 4#32) (k1_off6 t 4#32) (k1_off8 t 4#32)
    (k1_off3_eq t 4) (k1_off5_eq t 4) (k1_off7_eq t 4) (k1_off9_eq t 4) (k1_off2_eq t 4) (k1_off4_eq t 4) (k1_off6_eq t 4) (k1_off8_eq t 4)
    (k1_off3_inb t 4) (k1_off5_inb t 4) (k1_off7_inb t 4) (k1_off9_inb t 4) (k1_off2_inb t 4) (k1_off4_inb t 4) (k1_off6_inb t 4) (k1_off8_inb t 4) h4
  have h6 := row_step_cons d L sR0 sC0 g f _ (8 * t.val + 5) (k1_off3 t 5#32) (k1_off5 t 5#32) (k1_off7 t 5#32) (k1_off9 t 5#32) (k1_off2 t 5#32) (k1_off4 t 5#32) (k1_off6 t 5#32) (k1_off8 t 5#32)
    (k1_off3_eq t 5) (k1_off5_eq t 5) (k1_off7_eq t 5) (k1_off9_eq t 5) (k1_off2_eq t 5) (k1_off4_eq t 5) (k1_off6_eq t 5) (k1_off8_eq t 5)
    (k1_off3_inb t 5) (k1_off5_inb t 5) (k1_off7_inb t 5) (k1_off9_inb t 5) (k1_off2_inb t 5) (k1_off4_inb t 5) (k1_off6_inb t 5) (k1_off8_inb t 5) h5
  have h7 := row_step_cons d L sR0 sC0 g f _ (8 * t.val + 6) (k1_off3 t 6#32) (k1_off5 t 6#32) (k1_off7 t 6#32) (k1_off9 t 6#32) (k1_off2 t 6#32) (k1_off4 t 6#32) (k1_off6 t 6#32) (k1_off8 t 6#32)
    (k1_off3_eq t 6) (k1_off5_eq t 6) (k1_off7_eq t 6) (k1_off9_eq t 6) (k1_off2_eq t 6) (k1_off4_eq t 6) (k1_off6_eq t 6) (k1_off8_eq t 6)
    (k1_off3_inb t 6) (k1_off5_inb t 6) (k1_off7_inb t 6) (k1_off9_inb t 6) (k1_off2_inb t 6) (k1_off4_inb t 6) (k1_off6_inb t 6) (k1_off8_inb t 6) h6
  have h8 := row_step_cons d L sR0 sC0 g f _ (8 * t.val + 7) (k1_off3 t 7#32) (k1_off5 t 7#32) (k1_off7 t 7#32) (k1_off9 t 7#32) (k1_off2 t 7#32) (k1_off4 t 7#32) (k1_off6 t 7#32) (k1_off8 t 7#32)
    (k1_off3_eq t 7) (k1_off5_eq t 7) (k1_off7_eq t 7) (k1_off9_eq t 7) (k1_off2_eq t 7) (k1_off4_eq t 7) (k1_off6_eq t 7) (k1_off8_eq t 7)
    (k1_off3_inb t 7) (k1_off5_inb t 7) (k1_off7_inb t 7) (k1_off9_inb t 7) (k1_off2_inb t 7) (k1_off4_inb t 7) (k1_off6_inb t 7) (k1_off8_inb t 7) h7
  intro r c hr
  exact h8 r c (by omega)

/-- The compaction step of loop 2 of 40: trip t copies rows [8 t, 8 t + 8) of the landing buffer's first 64 columns. -/
theorem compact_step_t3 (t : Fin k1_t3_loop.trips) (g : Buf (Elt F) (sR1.view.loc (thr d L))) (f : Buf (Elt F) (sC1.view.loc (thr d L)))
    (hC : Compacted (sR1.view.read (Elt F) g) (sC1.view.read (Elt F) f) t.val) :
    Compacted (sR1.view.read (Elt F) g) (sC1.view.read (Elt F) (sC1.view.writes (Elt F) f
      [cpiece d L sR1 g (k1_off18 t 7#32) (k1_off17 t 7#32) (k1_off18_inb t 7) (k1_off17_inb t 7),
       cpiece d L sR1 g (k1_off16 t 7#32) (k1_off15 t 7#32) (k1_off16_inb t 7) (k1_off15_inb t 7),
       cpiece d L sR1 g (k1_off14 t 7#32) (k1_off13 t 7#32) (k1_off14_inb t 7) (k1_off13_inb t 7),
       cpiece d L sR1 g (k1_off12 t 7#32) (k1_off11 t 7#32) (k1_off12_inb t 7) (k1_off11_inb t 7),
       cpiece d L sR1 g (k1_off18 t 6#32) (k1_off17 t 6#32) (k1_off18_inb t 6) (k1_off17_inb t 6),
       cpiece d L sR1 g (k1_off16 t 6#32) (k1_off15 t 6#32) (k1_off16_inb t 6) (k1_off15_inb t 6),
       cpiece d L sR1 g (k1_off14 t 6#32) (k1_off13 t 6#32) (k1_off14_inb t 6) (k1_off13_inb t 6),
       cpiece d L sR1 g (k1_off12 t 6#32) (k1_off11 t 6#32) (k1_off12_inb t 6) (k1_off11_inb t 6),
       cpiece d L sR1 g (k1_off18 t 5#32) (k1_off17 t 5#32) (k1_off18_inb t 5) (k1_off17_inb t 5),
       cpiece d L sR1 g (k1_off16 t 5#32) (k1_off15 t 5#32) (k1_off16_inb t 5) (k1_off15_inb t 5),
       cpiece d L sR1 g (k1_off14 t 5#32) (k1_off13 t 5#32) (k1_off14_inb t 5) (k1_off13_inb t 5),
       cpiece d L sR1 g (k1_off12 t 5#32) (k1_off11 t 5#32) (k1_off12_inb t 5) (k1_off11_inb t 5),
       cpiece d L sR1 g (k1_off18 t 4#32) (k1_off17 t 4#32) (k1_off18_inb t 4) (k1_off17_inb t 4),
       cpiece d L sR1 g (k1_off16 t 4#32) (k1_off15 t 4#32) (k1_off16_inb t 4) (k1_off15_inb t 4),
       cpiece d L sR1 g (k1_off14 t 4#32) (k1_off13 t 4#32) (k1_off14_inb t 4) (k1_off13_inb t 4),
       cpiece d L sR1 g (k1_off12 t 4#32) (k1_off11 t 4#32) (k1_off12_inb t 4) (k1_off11_inb t 4),
       cpiece d L sR1 g (k1_off18 t 3#32) (k1_off17 t 3#32) (k1_off18_inb t 3) (k1_off17_inb t 3),
       cpiece d L sR1 g (k1_off16 t 3#32) (k1_off15 t 3#32) (k1_off16_inb t 3) (k1_off15_inb t 3),
       cpiece d L sR1 g (k1_off14 t 3#32) (k1_off13 t 3#32) (k1_off14_inb t 3) (k1_off13_inb t 3),
       cpiece d L sR1 g (k1_off12 t 3#32) (k1_off11 t 3#32) (k1_off12_inb t 3) (k1_off11_inb t 3),
       cpiece d L sR1 g (k1_off18 t 2#32) (k1_off17 t 2#32) (k1_off18_inb t 2) (k1_off17_inb t 2),
       cpiece d L sR1 g (k1_off16 t 2#32) (k1_off15 t 2#32) (k1_off16_inb t 2) (k1_off15_inb t 2),
       cpiece d L sR1 g (k1_off14 t 2#32) (k1_off13 t 2#32) (k1_off14_inb t 2) (k1_off13_inb t 2),
       cpiece d L sR1 g (k1_off12 t 2#32) (k1_off11 t 2#32) (k1_off12_inb t 2) (k1_off11_inb t 2),
       cpiece d L sR1 g (k1_off18 t 1#32) (k1_off17 t 1#32) (k1_off18_inb t 1) (k1_off17_inb t 1),
       cpiece d L sR1 g (k1_off16 t 1#32) (k1_off15 t 1#32) (k1_off16_inb t 1) (k1_off15_inb t 1),
       cpiece d L sR1 g (k1_off14 t 1#32) (k1_off13 t 1#32) (k1_off14_inb t 1) (k1_off13_inb t 1),
       cpiece d L sR1 g (k1_off12 t 1#32) (k1_off11 t 1#32) (k1_off12_inb t 1) (k1_off11_inb t 1),
       cpiece d L sR1 g (k1_off18 t 0#32) (k1_off17 t 0#32) (k1_off18_inb t 0) (k1_off17_inb t 0),
       cpiece d L sR1 g (k1_off16 t 0#32) (k1_off15 t 0#32) (k1_off16_inb t 0) (k1_off15_inb t 0),
       cpiece d L sR1 g (k1_off14 t 0#32) (k1_off13 t 0#32) (k1_off14_inb t 0) (k1_off13_inb t 0),
       cpiece d L sR1 g (k1_off12 t 0#32) (k1_off11 t 0#32) (k1_off12_inb t 0) (k1_off11_inb t 0)])) (t.val + 1) := by
  have h1 := row_step_cons d L sR1 sC1 g f [] (8 * t.val + 0) (k1_off12 t 0#32) (k1_off14 t 0#32) (k1_off16 t 0#32) (k1_off18 t 0#32) (k1_off11 t 0#32) (k1_off13 t 0#32) (k1_off15 t 0#32) (k1_off17 t 0#32)
    (k1_off12_eq t 0) (k1_off14_eq t 0) (k1_off16_eq t 0) (k1_off18_eq t 0) (k1_off11_eq t 0) (k1_off13_eq t 0) (k1_off15_eq t 0) (k1_off17_eq t 0)
    (k1_off12_inb t 0) (k1_off14_inb t 0) (k1_off16_inb t 0) (k1_off18_inb t 0) (k1_off11_inb t 0) (k1_off13_inb t 0) (k1_off15_inb t 0) (k1_off17_inb t 0) ((compacted_iff_rows _ _ _).1 hC)
  have h2 := row_step_cons d L sR1 sC1 g f _ (8 * t.val + 1) (k1_off12 t 1#32) (k1_off14 t 1#32) (k1_off16 t 1#32) (k1_off18 t 1#32) (k1_off11 t 1#32) (k1_off13 t 1#32) (k1_off15 t 1#32) (k1_off17 t 1#32)
    (k1_off12_eq t 1) (k1_off14_eq t 1) (k1_off16_eq t 1) (k1_off18_eq t 1) (k1_off11_eq t 1) (k1_off13_eq t 1) (k1_off15_eq t 1) (k1_off17_eq t 1)
    (k1_off12_inb t 1) (k1_off14_inb t 1) (k1_off16_inb t 1) (k1_off18_inb t 1) (k1_off11_inb t 1) (k1_off13_inb t 1) (k1_off15_inb t 1) (k1_off17_inb t 1) h1
  have h3 := row_step_cons d L sR1 sC1 g f _ (8 * t.val + 2) (k1_off12 t 2#32) (k1_off14 t 2#32) (k1_off16 t 2#32) (k1_off18 t 2#32) (k1_off11 t 2#32) (k1_off13 t 2#32) (k1_off15 t 2#32) (k1_off17 t 2#32)
    (k1_off12_eq t 2) (k1_off14_eq t 2) (k1_off16_eq t 2) (k1_off18_eq t 2) (k1_off11_eq t 2) (k1_off13_eq t 2) (k1_off15_eq t 2) (k1_off17_eq t 2)
    (k1_off12_inb t 2) (k1_off14_inb t 2) (k1_off16_inb t 2) (k1_off18_inb t 2) (k1_off11_inb t 2) (k1_off13_inb t 2) (k1_off15_inb t 2) (k1_off17_inb t 2) h2
  have h4 := row_step_cons d L sR1 sC1 g f _ (8 * t.val + 3) (k1_off12 t 3#32) (k1_off14 t 3#32) (k1_off16 t 3#32) (k1_off18 t 3#32) (k1_off11 t 3#32) (k1_off13 t 3#32) (k1_off15 t 3#32) (k1_off17 t 3#32)
    (k1_off12_eq t 3) (k1_off14_eq t 3) (k1_off16_eq t 3) (k1_off18_eq t 3) (k1_off11_eq t 3) (k1_off13_eq t 3) (k1_off15_eq t 3) (k1_off17_eq t 3)
    (k1_off12_inb t 3) (k1_off14_inb t 3) (k1_off16_inb t 3) (k1_off18_inb t 3) (k1_off11_inb t 3) (k1_off13_inb t 3) (k1_off15_inb t 3) (k1_off17_inb t 3) h3
  have h5 := row_step_cons d L sR1 sC1 g f _ (8 * t.val + 4) (k1_off12 t 4#32) (k1_off14 t 4#32) (k1_off16 t 4#32) (k1_off18 t 4#32) (k1_off11 t 4#32) (k1_off13 t 4#32) (k1_off15 t 4#32) (k1_off17 t 4#32)
    (k1_off12_eq t 4) (k1_off14_eq t 4) (k1_off16_eq t 4) (k1_off18_eq t 4) (k1_off11_eq t 4) (k1_off13_eq t 4) (k1_off15_eq t 4) (k1_off17_eq t 4)
    (k1_off12_inb t 4) (k1_off14_inb t 4) (k1_off16_inb t 4) (k1_off18_inb t 4) (k1_off11_inb t 4) (k1_off13_inb t 4) (k1_off15_inb t 4) (k1_off17_inb t 4) h4
  have h6 := row_step_cons d L sR1 sC1 g f _ (8 * t.val + 5) (k1_off12 t 5#32) (k1_off14 t 5#32) (k1_off16 t 5#32) (k1_off18 t 5#32) (k1_off11 t 5#32) (k1_off13 t 5#32) (k1_off15 t 5#32) (k1_off17 t 5#32)
    (k1_off12_eq t 5) (k1_off14_eq t 5) (k1_off16_eq t 5) (k1_off18_eq t 5) (k1_off11_eq t 5) (k1_off13_eq t 5) (k1_off15_eq t 5) (k1_off17_eq t 5)
    (k1_off12_inb t 5) (k1_off14_inb t 5) (k1_off16_inb t 5) (k1_off18_inb t 5) (k1_off11_inb t 5) (k1_off13_inb t 5) (k1_off15_inb t 5) (k1_off17_inb t 5) h5
  have h7 := row_step_cons d L sR1 sC1 g f _ (8 * t.val + 6) (k1_off12 t 6#32) (k1_off14 t 6#32) (k1_off16 t 6#32) (k1_off18 t 6#32) (k1_off11 t 6#32) (k1_off13 t 6#32) (k1_off15 t 6#32) (k1_off17 t 6#32)
    (k1_off12_eq t 6) (k1_off14_eq t 6) (k1_off16_eq t 6) (k1_off18_eq t 6) (k1_off11_eq t 6) (k1_off13_eq t 6) (k1_off15_eq t 6) (k1_off17_eq t 6)
    (k1_off12_inb t 6) (k1_off14_inb t 6) (k1_off16_inb t 6) (k1_off18_inb t 6) (k1_off11_inb t 6) (k1_off13_inb t 6) (k1_off15_inb t 6) (k1_off17_inb t 6) h6
  have h8 := row_step_cons d L sR1 sC1 g f _ (8 * t.val + 7) (k1_off12 t 7#32) (k1_off14 t 7#32) (k1_off16 t 7#32) (k1_off18 t 7#32) (k1_off11 t 7#32) (k1_off13 t 7#32) (k1_off15 t 7#32) (k1_off17 t 7#32)
    (k1_off12_eq t 7) (k1_off14_eq t 7) (k1_off16_eq t 7) (k1_off18_eq t 7) (k1_off11_eq t 7) (k1_off13_eq t 7) (k1_off15_eq t 7) (k1_off17_eq t 7)
    (k1_off12_inb t 7) (k1_off14_inb t 7) (k1_off16_inb t 7) (k1_off18_inb t 7) (k1_off11_inb t 7) (k1_off13_inb t 7) (k1_off15_inb t 7) (k1_off17_inb t 7) h7
  intro r c hr
  exact h8 r c (by omega)

/-- The compaction step of loop 3 of 40: trip t copies rows [8 t, 8 t + 8) of the landing buffer's first 64 columns. -/
theorem compact_step_t4 (t : Fin k1_t4_loop.trips) (g : Buf (Elt F) (sR2.view.loc (thr d L))) (f : Buf (Elt F) (sC0.view.loc (thr d L)))
    (hC : Compacted (sR2.view.read (Elt F) g) (sC0.view.read (Elt F) f) t.val) :
    Compacted (sR2.view.read (Elt F) g) (sC0.view.read (Elt F) (sC0.view.writes (Elt F) f
      [cpiece d L sR2 g (k1_off26 t 7#32) (k1_off25 t 7#32) (k1_off26_inb t 7) (k1_off25_inb t 7),
       cpiece d L sR2 g (k1_off24 t 7#32) (k1_off23 t 7#32) (k1_off24_inb t 7) (k1_off23_inb t 7),
       cpiece d L sR2 g (k1_off22 t 7#32) (k1_off21 t 7#32) (k1_off22_inb t 7) (k1_off21_inb t 7),
       cpiece d L sR2 g (k1_off20 t 7#32) (k1_off19 t 7#32) (k1_off20_inb t 7) (k1_off19_inb t 7),
       cpiece d L sR2 g (k1_off26 t 6#32) (k1_off25 t 6#32) (k1_off26_inb t 6) (k1_off25_inb t 6),
       cpiece d L sR2 g (k1_off24 t 6#32) (k1_off23 t 6#32) (k1_off24_inb t 6) (k1_off23_inb t 6),
       cpiece d L sR2 g (k1_off22 t 6#32) (k1_off21 t 6#32) (k1_off22_inb t 6) (k1_off21_inb t 6),
       cpiece d L sR2 g (k1_off20 t 6#32) (k1_off19 t 6#32) (k1_off20_inb t 6) (k1_off19_inb t 6),
       cpiece d L sR2 g (k1_off26 t 5#32) (k1_off25 t 5#32) (k1_off26_inb t 5) (k1_off25_inb t 5),
       cpiece d L sR2 g (k1_off24 t 5#32) (k1_off23 t 5#32) (k1_off24_inb t 5) (k1_off23_inb t 5),
       cpiece d L sR2 g (k1_off22 t 5#32) (k1_off21 t 5#32) (k1_off22_inb t 5) (k1_off21_inb t 5),
       cpiece d L sR2 g (k1_off20 t 5#32) (k1_off19 t 5#32) (k1_off20_inb t 5) (k1_off19_inb t 5),
       cpiece d L sR2 g (k1_off26 t 4#32) (k1_off25 t 4#32) (k1_off26_inb t 4) (k1_off25_inb t 4),
       cpiece d L sR2 g (k1_off24 t 4#32) (k1_off23 t 4#32) (k1_off24_inb t 4) (k1_off23_inb t 4),
       cpiece d L sR2 g (k1_off22 t 4#32) (k1_off21 t 4#32) (k1_off22_inb t 4) (k1_off21_inb t 4),
       cpiece d L sR2 g (k1_off20 t 4#32) (k1_off19 t 4#32) (k1_off20_inb t 4) (k1_off19_inb t 4),
       cpiece d L sR2 g (k1_off26 t 3#32) (k1_off25 t 3#32) (k1_off26_inb t 3) (k1_off25_inb t 3),
       cpiece d L sR2 g (k1_off24 t 3#32) (k1_off23 t 3#32) (k1_off24_inb t 3) (k1_off23_inb t 3),
       cpiece d L sR2 g (k1_off22 t 3#32) (k1_off21 t 3#32) (k1_off22_inb t 3) (k1_off21_inb t 3),
       cpiece d L sR2 g (k1_off20 t 3#32) (k1_off19 t 3#32) (k1_off20_inb t 3) (k1_off19_inb t 3),
       cpiece d L sR2 g (k1_off26 t 2#32) (k1_off25 t 2#32) (k1_off26_inb t 2) (k1_off25_inb t 2),
       cpiece d L sR2 g (k1_off24 t 2#32) (k1_off23 t 2#32) (k1_off24_inb t 2) (k1_off23_inb t 2),
       cpiece d L sR2 g (k1_off22 t 2#32) (k1_off21 t 2#32) (k1_off22_inb t 2) (k1_off21_inb t 2),
       cpiece d L sR2 g (k1_off20 t 2#32) (k1_off19 t 2#32) (k1_off20_inb t 2) (k1_off19_inb t 2),
       cpiece d L sR2 g (k1_off26 t 1#32) (k1_off25 t 1#32) (k1_off26_inb t 1) (k1_off25_inb t 1),
       cpiece d L sR2 g (k1_off24 t 1#32) (k1_off23 t 1#32) (k1_off24_inb t 1) (k1_off23_inb t 1),
       cpiece d L sR2 g (k1_off22 t 1#32) (k1_off21 t 1#32) (k1_off22_inb t 1) (k1_off21_inb t 1),
       cpiece d L sR2 g (k1_off20 t 1#32) (k1_off19 t 1#32) (k1_off20_inb t 1) (k1_off19_inb t 1),
       cpiece d L sR2 g (k1_off26 t 0#32) (k1_off25 t 0#32) (k1_off26_inb t 0) (k1_off25_inb t 0),
       cpiece d L sR2 g (k1_off24 t 0#32) (k1_off23 t 0#32) (k1_off24_inb t 0) (k1_off23_inb t 0),
       cpiece d L sR2 g (k1_off22 t 0#32) (k1_off21 t 0#32) (k1_off22_inb t 0) (k1_off21_inb t 0),
       cpiece d L sR2 g (k1_off20 t 0#32) (k1_off19 t 0#32) (k1_off20_inb t 0) (k1_off19_inb t 0)])) (t.val + 1) := by
  have h1 := row_step_cons d L sR2 sC0 g f [] (8 * t.val + 0) (k1_off20 t 0#32) (k1_off22 t 0#32) (k1_off24 t 0#32) (k1_off26 t 0#32) (k1_off19 t 0#32) (k1_off21 t 0#32) (k1_off23 t 0#32) (k1_off25 t 0#32)
    (k1_off20_eq t 0) (k1_off22_eq t 0) (k1_off24_eq t 0) (k1_off26_eq t 0) (k1_off19_eq t 0) (k1_off21_eq t 0) (k1_off23_eq t 0) (k1_off25_eq t 0)
    (k1_off20_inb t 0) (k1_off22_inb t 0) (k1_off24_inb t 0) (k1_off26_inb t 0) (k1_off19_inb t 0) (k1_off21_inb t 0) (k1_off23_inb t 0) (k1_off25_inb t 0) ((compacted_iff_rows _ _ _).1 hC)
  have h2 := row_step_cons d L sR2 sC0 g f _ (8 * t.val + 1) (k1_off20 t 1#32) (k1_off22 t 1#32) (k1_off24 t 1#32) (k1_off26 t 1#32) (k1_off19 t 1#32) (k1_off21 t 1#32) (k1_off23 t 1#32) (k1_off25 t 1#32)
    (k1_off20_eq t 1) (k1_off22_eq t 1) (k1_off24_eq t 1) (k1_off26_eq t 1) (k1_off19_eq t 1) (k1_off21_eq t 1) (k1_off23_eq t 1) (k1_off25_eq t 1)
    (k1_off20_inb t 1) (k1_off22_inb t 1) (k1_off24_inb t 1) (k1_off26_inb t 1) (k1_off19_inb t 1) (k1_off21_inb t 1) (k1_off23_inb t 1) (k1_off25_inb t 1) h1
  have h3 := row_step_cons d L sR2 sC0 g f _ (8 * t.val + 2) (k1_off20 t 2#32) (k1_off22 t 2#32) (k1_off24 t 2#32) (k1_off26 t 2#32) (k1_off19 t 2#32) (k1_off21 t 2#32) (k1_off23 t 2#32) (k1_off25 t 2#32)
    (k1_off20_eq t 2) (k1_off22_eq t 2) (k1_off24_eq t 2) (k1_off26_eq t 2) (k1_off19_eq t 2) (k1_off21_eq t 2) (k1_off23_eq t 2) (k1_off25_eq t 2)
    (k1_off20_inb t 2) (k1_off22_inb t 2) (k1_off24_inb t 2) (k1_off26_inb t 2) (k1_off19_inb t 2) (k1_off21_inb t 2) (k1_off23_inb t 2) (k1_off25_inb t 2) h2
  have h4 := row_step_cons d L sR2 sC0 g f _ (8 * t.val + 3) (k1_off20 t 3#32) (k1_off22 t 3#32) (k1_off24 t 3#32) (k1_off26 t 3#32) (k1_off19 t 3#32) (k1_off21 t 3#32) (k1_off23 t 3#32) (k1_off25 t 3#32)
    (k1_off20_eq t 3) (k1_off22_eq t 3) (k1_off24_eq t 3) (k1_off26_eq t 3) (k1_off19_eq t 3) (k1_off21_eq t 3) (k1_off23_eq t 3) (k1_off25_eq t 3)
    (k1_off20_inb t 3) (k1_off22_inb t 3) (k1_off24_inb t 3) (k1_off26_inb t 3) (k1_off19_inb t 3) (k1_off21_inb t 3) (k1_off23_inb t 3) (k1_off25_inb t 3) h3
  have h5 := row_step_cons d L sR2 sC0 g f _ (8 * t.val + 4) (k1_off20 t 4#32) (k1_off22 t 4#32) (k1_off24 t 4#32) (k1_off26 t 4#32) (k1_off19 t 4#32) (k1_off21 t 4#32) (k1_off23 t 4#32) (k1_off25 t 4#32)
    (k1_off20_eq t 4) (k1_off22_eq t 4) (k1_off24_eq t 4) (k1_off26_eq t 4) (k1_off19_eq t 4) (k1_off21_eq t 4) (k1_off23_eq t 4) (k1_off25_eq t 4)
    (k1_off20_inb t 4) (k1_off22_inb t 4) (k1_off24_inb t 4) (k1_off26_inb t 4) (k1_off19_inb t 4) (k1_off21_inb t 4) (k1_off23_inb t 4) (k1_off25_inb t 4) h4
  have h6 := row_step_cons d L sR2 sC0 g f _ (8 * t.val + 5) (k1_off20 t 5#32) (k1_off22 t 5#32) (k1_off24 t 5#32) (k1_off26 t 5#32) (k1_off19 t 5#32) (k1_off21 t 5#32) (k1_off23 t 5#32) (k1_off25 t 5#32)
    (k1_off20_eq t 5) (k1_off22_eq t 5) (k1_off24_eq t 5) (k1_off26_eq t 5) (k1_off19_eq t 5) (k1_off21_eq t 5) (k1_off23_eq t 5) (k1_off25_eq t 5)
    (k1_off20_inb t 5) (k1_off22_inb t 5) (k1_off24_inb t 5) (k1_off26_inb t 5) (k1_off19_inb t 5) (k1_off21_inb t 5) (k1_off23_inb t 5) (k1_off25_inb t 5) h5
  have h7 := row_step_cons d L sR2 sC0 g f _ (8 * t.val + 6) (k1_off20 t 6#32) (k1_off22 t 6#32) (k1_off24 t 6#32) (k1_off26 t 6#32) (k1_off19 t 6#32) (k1_off21 t 6#32) (k1_off23 t 6#32) (k1_off25 t 6#32)
    (k1_off20_eq t 6) (k1_off22_eq t 6) (k1_off24_eq t 6) (k1_off26_eq t 6) (k1_off19_eq t 6) (k1_off21_eq t 6) (k1_off23_eq t 6) (k1_off25_eq t 6)
    (k1_off20_inb t 6) (k1_off22_inb t 6) (k1_off24_inb t 6) (k1_off26_inb t 6) (k1_off19_inb t 6) (k1_off21_inb t 6) (k1_off23_inb t 6) (k1_off25_inb t 6) h6
  have h8 := row_step_cons d L sR2 sC0 g f _ (8 * t.val + 7) (k1_off20 t 7#32) (k1_off22 t 7#32) (k1_off24 t 7#32) (k1_off26 t 7#32) (k1_off19 t 7#32) (k1_off21 t 7#32) (k1_off23 t 7#32) (k1_off25 t 7#32)
    (k1_off20_eq t 7) (k1_off22_eq t 7) (k1_off24_eq t 7) (k1_off26_eq t 7) (k1_off19_eq t 7) (k1_off21_eq t 7) (k1_off23_eq t 7) (k1_off25_eq t 7)
    (k1_off20_inb t 7) (k1_off22_inb t 7) (k1_off24_inb t 7) (k1_off26_inb t 7) (k1_off19_inb t 7) (k1_off21_inb t 7) (k1_off23_inb t 7) (k1_off25_inb t 7) h7
  intro r c hr
  exact h8 r c (by omega)

/-- The compaction step of loop 4 of 40: trip t copies rows [8 t, 8 t + 8) of the landing buffer's first 64 columns. -/
theorem compact_step_t5 (t : Fin k1_t5_loop.trips) (g : Buf (Elt F) (sR0.view.loc (thr d L))) (f : Buf (Elt F) (sC1.view.loc (thr d L)))
    (hC : Compacted (sR0.view.read (Elt F) g) (sC1.view.read (Elt F) f) t.val) :
    Compacted (sR0.view.read (Elt F) g) (sC1.view.read (Elt F) (sC1.view.writes (Elt F) f
      [cpiece d L sR0 g (k1_off34 t 7#32) (k1_off33 t 7#32) (k1_off34_inb t 7) (k1_off33_inb t 7),
       cpiece d L sR0 g (k1_off32 t 7#32) (k1_off31 t 7#32) (k1_off32_inb t 7) (k1_off31_inb t 7),
       cpiece d L sR0 g (k1_off30 t 7#32) (k1_off29 t 7#32) (k1_off30_inb t 7) (k1_off29_inb t 7),
       cpiece d L sR0 g (k1_off28 t 7#32) (k1_off27 t 7#32) (k1_off28_inb t 7) (k1_off27_inb t 7),
       cpiece d L sR0 g (k1_off34 t 6#32) (k1_off33 t 6#32) (k1_off34_inb t 6) (k1_off33_inb t 6),
       cpiece d L sR0 g (k1_off32 t 6#32) (k1_off31 t 6#32) (k1_off32_inb t 6) (k1_off31_inb t 6),
       cpiece d L sR0 g (k1_off30 t 6#32) (k1_off29 t 6#32) (k1_off30_inb t 6) (k1_off29_inb t 6),
       cpiece d L sR0 g (k1_off28 t 6#32) (k1_off27 t 6#32) (k1_off28_inb t 6) (k1_off27_inb t 6),
       cpiece d L sR0 g (k1_off34 t 5#32) (k1_off33 t 5#32) (k1_off34_inb t 5) (k1_off33_inb t 5),
       cpiece d L sR0 g (k1_off32 t 5#32) (k1_off31 t 5#32) (k1_off32_inb t 5) (k1_off31_inb t 5),
       cpiece d L sR0 g (k1_off30 t 5#32) (k1_off29 t 5#32) (k1_off30_inb t 5) (k1_off29_inb t 5),
       cpiece d L sR0 g (k1_off28 t 5#32) (k1_off27 t 5#32) (k1_off28_inb t 5) (k1_off27_inb t 5),
       cpiece d L sR0 g (k1_off34 t 4#32) (k1_off33 t 4#32) (k1_off34_inb t 4) (k1_off33_inb t 4),
       cpiece d L sR0 g (k1_off32 t 4#32) (k1_off31 t 4#32) (k1_off32_inb t 4) (k1_off31_inb t 4),
       cpiece d L sR0 g (k1_off30 t 4#32) (k1_off29 t 4#32) (k1_off30_inb t 4) (k1_off29_inb t 4),
       cpiece d L sR0 g (k1_off28 t 4#32) (k1_off27 t 4#32) (k1_off28_inb t 4) (k1_off27_inb t 4),
       cpiece d L sR0 g (k1_off34 t 3#32) (k1_off33 t 3#32) (k1_off34_inb t 3) (k1_off33_inb t 3),
       cpiece d L sR0 g (k1_off32 t 3#32) (k1_off31 t 3#32) (k1_off32_inb t 3) (k1_off31_inb t 3),
       cpiece d L sR0 g (k1_off30 t 3#32) (k1_off29 t 3#32) (k1_off30_inb t 3) (k1_off29_inb t 3),
       cpiece d L sR0 g (k1_off28 t 3#32) (k1_off27 t 3#32) (k1_off28_inb t 3) (k1_off27_inb t 3),
       cpiece d L sR0 g (k1_off34 t 2#32) (k1_off33 t 2#32) (k1_off34_inb t 2) (k1_off33_inb t 2),
       cpiece d L sR0 g (k1_off32 t 2#32) (k1_off31 t 2#32) (k1_off32_inb t 2) (k1_off31_inb t 2),
       cpiece d L sR0 g (k1_off30 t 2#32) (k1_off29 t 2#32) (k1_off30_inb t 2) (k1_off29_inb t 2),
       cpiece d L sR0 g (k1_off28 t 2#32) (k1_off27 t 2#32) (k1_off28_inb t 2) (k1_off27_inb t 2),
       cpiece d L sR0 g (k1_off34 t 1#32) (k1_off33 t 1#32) (k1_off34_inb t 1) (k1_off33_inb t 1),
       cpiece d L sR0 g (k1_off32 t 1#32) (k1_off31 t 1#32) (k1_off32_inb t 1) (k1_off31_inb t 1),
       cpiece d L sR0 g (k1_off30 t 1#32) (k1_off29 t 1#32) (k1_off30_inb t 1) (k1_off29_inb t 1),
       cpiece d L sR0 g (k1_off28 t 1#32) (k1_off27 t 1#32) (k1_off28_inb t 1) (k1_off27_inb t 1),
       cpiece d L sR0 g (k1_off34 t 0#32) (k1_off33 t 0#32) (k1_off34_inb t 0) (k1_off33_inb t 0),
       cpiece d L sR0 g (k1_off32 t 0#32) (k1_off31 t 0#32) (k1_off32_inb t 0) (k1_off31_inb t 0),
       cpiece d L sR0 g (k1_off30 t 0#32) (k1_off29 t 0#32) (k1_off30_inb t 0) (k1_off29_inb t 0),
       cpiece d L sR0 g (k1_off28 t 0#32) (k1_off27 t 0#32) (k1_off28_inb t 0) (k1_off27_inb t 0)])) (t.val + 1) := by
  have h1 := row_step_cons d L sR0 sC1 g f [] (8 * t.val + 0) (k1_off28 t 0#32) (k1_off30 t 0#32) (k1_off32 t 0#32) (k1_off34 t 0#32) (k1_off27 t 0#32) (k1_off29 t 0#32) (k1_off31 t 0#32) (k1_off33 t 0#32)
    (k1_off28_eq t 0) (k1_off30_eq t 0) (k1_off32_eq t 0) (k1_off34_eq t 0) (k1_off27_eq t 0) (k1_off29_eq t 0) (k1_off31_eq t 0) (k1_off33_eq t 0)
    (k1_off28_inb t 0) (k1_off30_inb t 0) (k1_off32_inb t 0) (k1_off34_inb t 0) (k1_off27_inb t 0) (k1_off29_inb t 0) (k1_off31_inb t 0) (k1_off33_inb t 0) ((compacted_iff_rows _ _ _).1 hC)
  have h2 := row_step_cons d L sR0 sC1 g f _ (8 * t.val + 1) (k1_off28 t 1#32) (k1_off30 t 1#32) (k1_off32 t 1#32) (k1_off34 t 1#32) (k1_off27 t 1#32) (k1_off29 t 1#32) (k1_off31 t 1#32) (k1_off33 t 1#32)
    (k1_off28_eq t 1) (k1_off30_eq t 1) (k1_off32_eq t 1) (k1_off34_eq t 1) (k1_off27_eq t 1) (k1_off29_eq t 1) (k1_off31_eq t 1) (k1_off33_eq t 1)
    (k1_off28_inb t 1) (k1_off30_inb t 1) (k1_off32_inb t 1) (k1_off34_inb t 1) (k1_off27_inb t 1) (k1_off29_inb t 1) (k1_off31_inb t 1) (k1_off33_inb t 1) h1
  have h3 := row_step_cons d L sR0 sC1 g f _ (8 * t.val + 2) (k1_off28 t 2#32) (k1_off30 t 2#32) (k1_off32 t 2#32) (k1_off34 t 2#32) (k1_off27 t 2#32) (k1_off29 t 2#32) (k1_off31 t 2#32) (k1_off33 t 2#32)
    (k1_off28_eq t 2) (k1_off30_eq t 2) (k1_off32_eq t 2) (k1_off34_eq t 2) (k1_off27_eq t 2) (k1_off29_eq t 2) (k1_off31_eq t 2) (k1_off33_eq t 2)
    (k1_off28_inb t 2) (k1_off30_inb t 2) (k1_off32_inb t 2) (k1_off34_inb t 2) (k1_off27_inb t 2) (k1_off29_inb t 2) (k1_off31_inb t 2) (k1_off33_inb t 2) h2
  have h4 := row_step_cons d L sR0 sC1 g f _ (8 * t.val + 3) (k1_off28 t 3#32) (k1_off30 t 3#32) (k1_off32 t 3#32) (k1_off34 t 3#32) (k1_off27 t 3#32) (k1_off29 t 3#32) (k1_off31 t 3#32) (k1_off33 t 3#32)
    (k1_off28_eq t 3) (k1_off30_eq t 3) (k1_off32_eq t 3) (k1_off34_eq t 3) (k1_off27_eq t 3) (k1_off29_eq t 3) (k1_off31_eq t 3) (k1_off33_eq t 3)
    (k1_off28_inb t 3) (k1_off30_inb t 3) (k1_off32_inb t 3) (k1_off34_inb t 3) (k1_off27_inb t 3) (k1_off29_inb t 3) (k1_off31_inb t 3) (k1_off33_inb t 3) h3
  have h5 := row_step_cons d L sR0 sC1 g f _ (8 * t.val + 4) (k1_off28 t 4#32) (k1_off30 t 4#32) (k1_off32 t 4#32) (k1_off34 t 4#32) (k1_off27 t 4#32) (k1_off29 t 4#32) (k1_off31 t 4#32) (k1_off33 t 4#32)
    (k1_off28_eq t 4) (k1_off30_eq t 4) (k1_off32_eq t 4) (k1_off34_eq t 4) (k1_off27_eq t 4) (k1_off29_eq t 4) (k1_off31_eq t 4) (k1_off33_eq t 4)
    (k1_off28_inb t 4) (k1_off30_inb t 4) (k1_off32_inb t 4) (k1_off34_inb t 4) (k1_off27_inb t 4) (k1_off29_inb t 4) (k1_off31_inb t 4) (k1_off33_inb t 4) h4
  have h6 := row_step_cons d L sR0 sC1 g f _ (8 * t.val + 5) (k1_off28 t 5#32) (k1_off30 t 5#32) (k1_off32 t 5#32) (k1_off34 t 5#32) (k1_off27 t 5#32) (k1_off29 t 5#32) (k1_off31 t 5#32) (k1_off33 t 5#32)
    (k1_off28_eq t 5) (k1_off30_eq t 5) (k1_off32_eq t 5) (k1_off34_eq t 5) (k1_off27_eq t 5) (k1_off29_eq t 5) (k1_off31_eq t 5) (k1_off33_eq t 5)
    (k1_off28_inb t 5) (k1_off30_inb t 5) (k1_off32_inb t 5) (k1_off34_inb t 5) (k1_off27_inb t 5) (k1_off29_inb t 5) (k1_off31_inb t 5) (k1_off33_inb t 5) h5
  have h7 := row_step_cons d L sR0 sC1 g f _ (8 * t.val + 6) (k1_off28 t 6#32) (k1_off30 t 6#32) (k1_off32 t 6#32) (k1_off34 t 6#32) (k1_off27 t 6#32) (k1_off29 t 6#32) (k1_off31 t 6#32) (k1_off33 t 6#32)
    (k1_off28_eq t 6) (k1_off30_eq t 6) (k1_off32_eq t 6) (k1_off34_eq t 6) (k1_off27_eq t 6) (k1_off29_eq t 6) (k1_off31_eq t 6) (k1_off33_eq t 6)
    (k1_off28_inb t 6) (k1_off30_inb t 6) (k1_off32_inb t 6) (k1_off34_inb t 6) (k1_off27_inb t 6) (k1_off29_inb t 6) (k1_off31_inb t 6) (k1_off33_inb t 6) h6
  have h8 := row_step_cons d L sR0 sC1 g f _ (8 * t.val + 7) (k1_off28 t 7#32) (k1_off30 t 7#32) (k1_off32 t 7#32) (k1_off34 t 7#32) (k1_off27 t 7#32) (k1_off29 t 7#32) (k1_off31 t 7#32) (k1_off33 t 7#32)
    (k1_off28_eq t 7) (k1_off30_eq t 7) (k1_off32_eq t 7) (k1_off34_eq t 7) (k1_off27_eq t 7) (k1_off29_eq t 7) (k1_off31_eq t 7) (k1_off33_eq t 7)
    (k1_off28_inb t 7) (k1_off30_inb t 7) (k1_off32_inb t 7) (k1_off34_inb t 7) (k1_off27_inb t 7) (k1_off29_inb t 7) (k1_off31_inb t 7) (k1_off33_inb t 7) h7
  intro r c hr
  exact h8 r c (by omega)

/-- The compaction step of loop 5 of 40: trip t copies rows [8 t, 8 t + 8) of the landing buffer's first 64 columns. -/
theorem compact_step_t6 (t : Fin k1_t6_loop.trips) (g : Buf (Elt F) (sR1.view.loc (thr d L))) (f : Buf (Elt F) (sC0.view.loc (thr d L)))
    (hC : Compacted (sR1.view.read (Elt F) g) (sC0.view.read (Elt F) f) t.val) :
    Compacted (sR1.view.read (Elt F) g) (sC0.view.read (Elt F) (sC0.view.writes (Elt F) f
      [cpiece d L sR1 g (k1_off42 t 7#32) (k1_off41 t 7#32) (k1_off42_inb t 7) (k1_off41_inb t 7),
       cpiece d L sR1 g (k1_off40 t 7#32) (k1_off39 t 7#32) (k1_off40_inb t 7) (k1_off39_inb t 7),
       cpiece d L sR1 g (k1_off38 t 7#32) (k1_off37 t 7#32) (k1_off38_inb t 7) (k1_off37_inb t 7),
       cpiece d L sR1 g (k1_off36 t 7#32) (k1_off35 t 7#32) (k1_off36_inb t 7) (k1_off35_inb t 7),
       cpiece d L sR1 g (k1_off42 t 6#32) (k1_off41 t 6#32) (k1_off42_inb t 6) (k1_off41_inb t 6),
       cpiece d L sR1 g (k1_off40 t 6#32) (k1_off39 t 6#32) (k1_off40_inb t 6) (k1_off39_inb t 6),
       cpiece d L sR1 g (k1_off38 t 6#32) (k1_off37 t 6#32) (k1_off38_inb t 6) (k1_off37_inb t 6),
       cpiece d L sR1 g (k1_off36 t 6#32) (k1_off35 t 6#32) (k1_off36_inb t 6) (k1_off35_inb t 6),
       cpiece d L sR1 g (k1_off42 t 5#32) (k1_off41 t 5#32) (k1_off42_inb t 5) (k1_off41_inb t 5),
       cpiece d L sR1 g (k1_off40 t 5#32) (k1_off39 t 5#32) (k1_off40_inb t 5) (k1_off39_inb t 5),
       cpiece d L sR1 g (k1_off38 t 5#32) (k1_off37 t 5#32) (k1_off38_inb t 5) (k1_off37_inb t 5),
       cpiece d L sR1 g (k1_off36 t 5#32) (k1_off35 t 5#32) (k1_off36_inb t 5) (k1_off35_inb t 5),
       cpiece d L sR1 g (k1_off42 t 4#32) (k1_off41 t 4#32) (k1_off42_inb t 4) (k1_off41_inb t 4),
       cpiece d L sR1 g (k1_off40 t 4#32) (k1_off39 t 4#32) (k1_off40_inb t 4) (k1_off39_inb t 4),
       cpiece d L sR1 g (k1_off38 t 4#32) (k1_off37 t 4#32) (k1_off38_inb t 4) (k1_off37_inb t 4),
       cpiece d L sR1 g (k1_off36 t 4#32) (k1_off35 t 4#32) (k1_off36_inb t 4) (k1_off35_inb t 4),
       cpiece d L sR1 g (k1_off42 t 3#32) (k1_off41 t 3#32) (k1_off42_inb t 3) (k1_off41_inb t 3),
       cpiece d L sR1 g (k1_off40 t 3#32) (k1_off39 t 3#32) (k1_off40_inb t 3) (k1_off39_inb t 3),
       cpiece d L sR1 g (k1_off38 t 3#32) (k1_off37 t 3#32) (k1_off38_inb t 3) (k1_off37_inb t 3),
       cpiece d L sR1 g (k1_off36 t 3#32) (k1_off35 t 3#32) (k1_off36_inb t 3) (k1_off35_inb t 3),
       cpiece d L sR1 g (k1_off42 t 2#32) (k1_off41 t 2#32) (k1_off42_inb t 2) (k1_off41_inb t 2),
       cpiece d L sR1 g (k1_off40 t 2#32) (k1_off39 t 2#32) (k1_off40_inb t 2) (k1_off39_inb t 2),
       cpiece d L sR1 g (k1_off38 t 2#32) (k1_off37 t 2#32) (k1_off38_inb t 2) (k1_off37_inb t 2),
       cpiece d L sR1 g (k1_off36 t 2#32) (k1_off35 t 2#32) (k1_off36_inb t 2) (k1_off35_inb t 2),
       cpiece d L sR1 g (k1_off42 t 1#32) (k1_off41 t 1#32) (k1_off42_inb t 1) (k1_off41_inb t 1),
       cpiece d L sR1 g (k1_off40 t 1#32) (k1_off39 t 1#32) (k1_off40_inb t 1) (k1_off39_inb t 1),
       cpiece d L sR1 g (k1_off38 t 1#32) (k1_off37 t 1#32) (k1_off38_inb t 1) (k1_off37_inb t 1),
       cpiece d L sR1 g (k1_off36 t 1#32) (k1_off35 t 1#32) (k1_off36_inb t 1) (k1_off35_inb t 1),
       cpiece d L sR1 g (k1_off42 t 0#32) (k1_off41 t 0#32) (k1_off42_inb t 0) (k1_off41_inb t 0),
       cpiece d L sR1 g (k1_off40 t 0#32) (k1_off39 t 0#32) (k1_off40_inb t 0) (k1_off39_inb t 0),
       cpiece d L sR1 g (k1_off38 t 0#32) (k1_off37 t 0#32) (k1_off38_inb t 0) (k1_off37_inb t 0),
       cpiece d L sR1 g (k1_off36 t 0#32) (k1_off35 t 0#32) (k1_off36_inb t 0) (k1_off35_inb t 0)])) (t.val + 1) := by
  have h1 := row_step_cons d L sR1 sC0 g f [] (8 * t.val + 0) (k1_off36 t 0#32) (k1_off38 t 0#32) (k1_off40 t 0#32) (k1_off42 t 0#32) (k1_off35 t 0#32) (k1_off37 t 0#32) (k1_off39 t 0#32) (k1_off41 t 0#32)
    (k1_off36_eq t 0) (k1_off38_eq t 0) (k1_off40_eq t 0) (k1_off42_eq t 0) (k1_off35_eq t 0) (k1_off37_eq t 0) (k1_off39_eq t 0) (k1_off41_eq t 0)
    (k1_off36_inb t 0) (k1_off38_inb t 0) (k1_off40_inb t 0) (k1_off42_inb t 0) (k1_off35_inb t 0) (k1_off37_inb t 0) (k1_off39_inb t 0) (k1_off41_inb t 0) ((compacted_iff_rows _ _ _).1 hC)
  have h2 := row_step_cons d L sR1 sC0 g f _ (8 * t.val + 1) (k1_off36 t 1#32) (k1_off38 t 1#32) (k1_off40 t 1#32) (k1_off42 t 1#32) (k1_off35 t 1#32) (k1_off37 t 1#32) (k1_off39 t 1#32) (k1_off41 t 1#32)
    (k1_off36_eq t 1) (k1_off38_eq t 1) (k1_off40_eq t 1) (k1_off42_eq t 1) (k1_off35_eq t 1) (k1_off37_eq t 1) (k1_off39_eq t 1) (k1_off41_eq t 1)
    (k1_off36_inb t 1) (k1_off38_inb t 1) (k1_off40_inb t 1) (k1_off42_inb t 1) (k1_off35_inb t 1) (k1_off37_inb t 1) (k1_off39_inb t 1) (k1_off41_inb t 1) h1
  have h3 := row_step_cons d L sR1 sC0 g f _ (8 * t.val + 2) (k1_off36 t 2#32) (k1_off38 t 2#32) (k1_off40 t 2#32) (k1_off42 t 2#32) (k1_off35 t 2#32) (k1_off37 t 2#32) (k1_off39 t 2#32) (k1_off41 t 2#32)
    (k1_off36_eq t 2) (k1_off38_eq t 2) (k1_off40_eq t 2) (k1_off42_eq t 2) (k1_off35_eq t 2) (k1_off37_eq t 2) (k1_off39_eq t 2) (k1_off41_eq t 2)
    (k1_off36_inb t 2) (k1_off38_inb t 2) (k1_off40_inb t 2) (k1_off42_inb t 2) (k1_off35_inb t 2) (k1_off37_inb t 2) (k1_off39_inb t 2) (k1_off41_inb t 2) h2
  have h4 := row_step_cons d L sR1 sC0 g f _ (8 * t.val + 3) (k1_off36 t 3#32) (k1_off38 t 3#32) (k1_off40 t 3#32) (k1_off42 t 3#32) (k1_off35 t 3#32) (k1_off37 t 3#32) (k1_off39 t 3#32) (k1_off41 t 3#32)
    (k1_off36_eq t 3) (k1_off38_eq t 3) (k1_off40_eq t 3) (k1_off42_eq t 3) (k1_off35_eq t 3) (k1_off37_eq t 3) (k1_off39_eq t 3) (k1_off41_eq t 3)
    (k1_off36_inb t 3) (k1_off38_inb t 3) (k1_off40_inb t 3) (k1_off42_inb t 3) (k1_off35_inb t 3) (k1_off37_inb t 3) (k1_off39_inb t 3) (k1_off41_inb t 3) h3
  have h5 := row_step_cons d L sR1 sC0 g f _ (8 * t.val + 4) (k1_off36 t 4#32) (k1_off38 t 4#32) (k1_off40 t 4#32) (k1_off42 t 4#32) (k1_off35 t 4#32) (k1_off37 t 4#32) (k1_off39 t 4#32) (k1_off41 t 4#32)
    (k1_off36_eq t 4) (k1_off38_eq t 4) (k1_off40_eq t 4) (k1_off42_eq t 4) (k1_off35_eq t 4) (k1_off37_eq t 4) (k1_off39_eq t 4) (k1_off41_eq t 4)
    (k1_off36_inb t 4) (k1_off38_inb t 4) (k1_off40_inb t 4) (k1_off42_inb t 4) (k1_off35_inb t 4) (k1_off37_inb t 4) (k1_off39_inb t 4) (k1_off41_inb t 4) h4
  have h6 := row_step_cons d L sR1 sC0 g f _ (8 * t.val + 5) (k1_off36 t 5#32) (k1_off38 t 5#32) (k1_off40 t 5#32) (k1_off42 t 5#32) (k1_off35 t 5#32) (k1_off37 t 5#32) (k1_off39 t 5#32) (k1_off41 t 5#32)
    (k1_off36_eq t 5) (k1_off38_eq t 5) (k1_off40_eq t 5) (k1_off42_eq t 5) (k1_off35_eq t 5) (k1_off37_eq t 5) (k1_off39_eq t 5) (k1_off41_eq t 5)
    (k1_off36_inb t 5) (k1_off38_inb t 5) (k1_off40_inb t 5) (k1_off42_inb t 5) (k1_off35_inb t 5) (k1_off37_inb t 5) (k1_off39_inb t 5) (k1_off41_inb t 5) h5
  have h7 := row_step_cons d L sR1 sC0 g f _ (8 * t.val + 6) (k1_off36 t 6#32) (k1_off38 t 6#32) (k1_off40 t 6#32) (k1_off42 t 6#32) (k1_off35 t 6#32) (k1_off37 t 6#32) (k1_off39 t 6#32) (k1_off41 t 6#32)
    (k1_off36_eq t 6) (k1_off38_eq t 6) (k1_off40_eq t 6) (k1_off42_eq t 6) (k1_off35_eq t 6) (k1_off37_eq t 6) (k1_off39_eq t 6) (k1_off41_eq t 6)
    (k1_off36_inb t 6) (k1_off38_inb t 6) (k1_off40_inb t 6) (k1_off42_inb t 6) (k1_off35_inb t 6) (k1_off37_inb t 6) (k1_off39_inb t 6) (k1_off41_inb t 6) h6
  have h8 := row_step_cons d L sR1 sC0 g f _ (8 * t.val + 7) (k1_off36 t 7#32) (k1_off38 t 7#32) (k1_off40 t 7#32) (k1_off42 t 7#32) (k1_off35 t 7#32) (k1_off37 t 7#32) (k1_off39 t 7#32) (k1_off41 t 7#32)
    (k1_off36_eq t 7) (k1_off38_eq t 7) (k1_off40_eq t 7) (k1_off42_eq t 7) (k1_off35_eq t 7) (k1_off37_eq t 7) (k1_off39_eq t 7) (k1_off41_eq t 7)
    (k1_off36_inb t 7) (k1_off38_inb t 7) (k1_off40_inb t 7) (k1_off42_inb t 7) (k1_off35_inb t 7) (k1_off37_inb t 7) (k1_off39_inb t 7) (k1_off41_inb t 7) h7
  intro r c hr
  exact h8 r c (by omega)

/-- The compaction step of loop 6 of 40: trip t copies rows [8 t, 8 t + 8) of the landing buffer's first 64 columns. -/
theorem compact_step_t7 (t : Fin k1_t7_loop.trips) (g : Buf (Elt F) (sR2.view.loc (thr d L))) (f : Buf (Elt F) (sC1.view.loc (thr d L)))
    (hC : Compacted (sR2.view.read (Elt F) g) (sC1.view.read (Elt F) f) t.val) :
    Compacted (sR2.view.read (Elt F) g) (sC1.view.read (Elt F) (sC1.view.writes (Elt F) f
      [cpiece d L sR2 g (k1_off50 t 7#32) (k1_off49 t 7#32) (k1_off50_inb t 7) (k1_off49_inb t 7),
       cpiece d L sR2 g (k1_off48 t 7#32) (k1_off47 t 7#32) (k1_off48_inb t 7) (k1_off47_inb t 7),
       cpiece d L sR2 g (k1_off46 t 7#32) (k1_off45 t 7#32) (k1_off46_inb t 7) (k1_off45_inb t 7),
       cpiece d L sR2 g (k1_off44 t 7#32) (k1_off43 t 7#32) (k1_off44_inb t 7) (k1_off43_inb t 7),
       cpiece d L sR2 g (k1_off50 t 6#32) (k1_off49 t 6#32) (k1_off50_inb t 6) (k1_off49_inb t 6),
       cpiece d L sR2 g (k1_off48 t 6#32) (k1_off47 t 6#32) (k1_off48_inb t 6) (k1_off47_inb t 6),
       cpiece d L sR2 g (k1_off46 t 6#32) (k1_off45 t 6#32) (k1_off46_inb t 6) (k1_off45_inb t 6),
       cpiece d L sR2 g (k1_off44 t 6#32) (k1_off43 t 6#32) (k1_off44_inb t 6) (k1_off43_inb t 6),
       cpiece d L sR2 g (k1_off50 t 5#32) (k1_off49 t 5#32) (k1_off50_inb t 5) (k1_off49_inb t 5),
       cpiece d L sR2 g (k1_off48 t 5#32) (k1_off47 t 5#32) (k1_off48_inb t 5) (k1_off47_inb t 5),
       cpiece d L sR2 g (k1_off46 t 5#32) (k1_off45 t 5#32) (k1_off46_inb t 5) (k1_off45_inb t 5),
       cpiece d L sR2 g (k1_off44 t 5#32) (k1_off43 t 5#32) (k1_off44_inb t 5) (k1_off43_inb t 5),
       cpiece d L sR2 g (k1_off50 t 4#32) (k1_off49 t 4#32) (k1_off50_inb t 4) (k1_off49_inb t 4),
       cpiece d L sR2 g (k1_off48 t 4#32) (k1_off47 t 4#32) (k1_off48_inb t 4) (k1_off47_inb t 4),
       cpiece d L sR2 g (k1_off46 t 4#32) (k1_off45 t 4#32) (k1_off46_inb t 4) (k1_off45_inb t 4),
       cpiece d L sR2 g (k1_off44 t 4#32) (k1_off43 t 4#32) (k1_off44_inb t 4) (k1_off43_inb t 4),
       cpiece d L sR2 g (k1_off50 t 3#32) (k1_off49 t 3#32) (k1_off50_inb t 3) (k1_off49_inb t 3),
       cpiece d L sR2 g (k1_off48 t 3#32) (k1_off47 t 3#32) (k1_off48_inb t 3) (k1_off47_inb t 3),
       cpiece d L sR2 g (k1_off46 t 3#32) (k1_off45 t 3#32) (k1_off46_inb t 3) (k1_off45_inb t 3),
       cpiece d L sR2 g (k1_off44 t 3#32) (k1_off43 t 3#32) (k1_off44_inb t 3) (k1_off43_inb t 3),
       cpiece d L sR2 g (k1_off50 t 2#32) (k1_off49 t 2#32) (k1_off50_inb t 2) (k1_off49_inb t 2),
       cpiece d L sR2 g (k1_off48 t 2#32) (k1_off47 t 2#32) (k1_off48_inb t 2) (k1_off47_inb t 2),
       cpiece d L sR2 g (k1_off46 t 2#32) (k1_off45 t 2#32) (k1_off46_inb t 2) (k1_off45_inb t 2),
       cpiece d L sR2 g (k1_off44 t 2#32) (k1_off43 t 2#32) (k1_off44_inb t 2) (k1_off43_inb t 2),
       cpiece d L sR2 g (k1_off50 t 1#32) (k1_off49 t 1#32) (k1_off50_inb t 1) (k1_off49_inb t 1),
       cpiece d L sR2 g (k1_off48 t 1#32) (k1_off47 t 1#32) (k1_off48_inb t 1) (k1_off47_inb t 1),
       cpiece d L sR2 g (k1_off46 t 1#32) (k1_off45 t 1#32) (k1_off46_inb t 1) (k1_off45_inb t 1),
       cpiece d L sR2 g (k1_off44 t 1#32) (k1_off43 t 1#32) (k1_off44_inb t 1) (k1_off43_inb t 1),
       cpiece d L sR2 g (k1_off50 t 0#32) (k1_off49 t 0#32) (k1_off50_inb t 0) (k1_off49_inb t 0),
       cpiece d L sR2 g (k1_off48 t 0#32) (k1_off47 t 0#32) (k1_off48_inb t 0) (k1_off47_inb t 0),
       cpiece d L sR2 g (k1_off46 t 0#32) (k1_off45 t 0#32) (k1_off46_inb t 0) (k1_off45_inb t 0),
       cpiece d L sR2 g (k1_off44 t 0#32) (k1_off43 t 0#32) (k1_off44_inb t 0) (k1_off43_inb t 0)])) (t.val + 1) := by
  have h1 := row_step_cons d L sR2 sC1 g f [] (8 * t.val + 0) (k1_off44 t 0#32) (k1_off46 t 0#32) (k1_off48 t 0#32) (k1_off50 t 0#32) (k1_off43 t 0#32) (k1_off45 t 0#32) (k1_off47 t 0#32) (k1_off49 t 0#32)
    (k1_off44_eq t 0) (k1_off46_eq t 0) (k1_off48_eq t 0) (k1_off50_eq t 0) (k1_off43_eq t 0) (k1_off45_eq t 0) (k1_off47_eq t 0) (k1_off49_eq t 0)
    (k1_off44_inb t 0) (k1_off46_inb t 0) (k1_off48_inb t 0) (k1_off50_inb t 0) (k1_off43_inb t 0) (k1_off45_inb t 0) (k1_off47_inb t 0) (k1_off49_inb t 0) ((compacted_iff_rows _ _ _).1 hC)
  have h2 := row_step_cons d L sR2 sC1 g f _ (8 * t.val + 1) (k1_off44 t 1#32) (k1_off46 t 1#32) (k1_off48 t 1#32) (k1_off50 t 1#32) (k1_off43 t 1#32) (k1_off45 t 1#32) (k1_off47 t 1#32) (k1_off49 t 1#32)
    (k1_off44_eq t 1) (k1_off46_eq t 1) (k1_off48_eq t 1) (k1_off50_eq t 1) (k1_off43_eq t 1) (k1_off45_eq t 1) (k1_off47_eq t 1) (k1_off49_eq t 1)
    (k1_off44_inb t 1) (k1_off46_inb t 1) (k1_off48_inb t 1) (k1_off50_inb t 1) (k1_off43_inb t 1) (k1_off45_inb t 1) (k1_off47_inb t 1) (k1_off49_inb t 1) h1
  have h3 := row_step_cons d L sR2 sC1 g f _ (8 * t.val + 2) (k1_off44 t 2#32) (k1_off46 t 2#32) (k1_off48 t 2#32) (k1_off50 t 2#32) (k1_off43 t 2#32) (k1_off45 t 2#32) (k1_off47 t 2#32) (k1_off49 t 2#32)
    (k1_off44_eq t 2) (k1_off46_eq t 2) (k1_off48_eq t 2) (k1_off50_eq t 2) (k1_off43_eq t 2) (k1_off45_eq t 2) (k1_off47_eq t 2) (k1_off49_eq t 2)
    (k1_off44_inb t 2) (k1_off46_inb t 2) (k1_off48_inb t 2) (k1_off50_inb t 2) (k1_off43_inb t 2) (k1_off45_inb t 2) (k1_off47_inb t 2) (k1_off49_inb t 2) h2
  have h4 := row_step_cons d L sR2 sC1 g f _ (8 * t.val + 3) (k1_off44 t 3#32) (k1_off46 t 3#32) (k1_off48 t 3#32) (k1_off50 t 3#32) (k1_off43 t 3#32) (k1_off45 t 3#32) (k1_off47 t 3#32) (k1_off49 t 3#32)
    (k1_off44_eq t 3) (k1_off46_eq t 3) (k1_off48_eq t 3) (k1_off50_eq t 3) (k1_off43_eq t 3) (k1_off45_eq t 3) (k1_off47_eq t 3) (k1_off49_eq t 3)
    (k1_off44_inb t 3) (k1_off46_inb t 3) (k1_off48_inb t 3) (k1_off50_inb t 3) (k1_off43_inb t 3) (k1_off45_inb t 3) (k1_off47_inb t 3) (k1_off49_inb t 3) h3
  have h5 := row_step_cons d L sR2 sC1 g f _ (8 * t.val + 4) (k1_off44 t 4#32) (k1_off46 t 4#32) (k1_off48 t 4#32) (k1_off50 t 4#32) (k1_off43 t 4#32) (k1_off45 t 4#32) (k1_off47 t 4#32) (k1_off49 t 4#32)
    (k1_off44_eq t 4) (k1_off46_eq t 4) (k1_off48_eq t 4) (k1_off50_eq t 4) (k1_off43_eq t 4) (k1_off45_eq t 4) (k1_off47_eq t 4) (k1_off49_eq t 4)
    (k1_off44_inb t 4) (k1_off46_inb t 4) (k1_off48_inb t 4) (k1_off50_inb t 4) (k1_off43_inb t 4) (k1_off45_inb t 4) (k1_off47_inb t 4) (k1_off49_inb t 4) h4
  have h6 := row_step_cons d L sR2 sC1 g f _ (8 * t.val + 5) (k1_off44 t 5#32) (k1_off46 t 5#32) (k1_off48 t 5#32) (k1_off50 t 5#32) (k1_off43 t 5#32) (k1_off45 t 5#32) (k1_off47 t 5#32) (k1_off49 t 5#32)
    (k1_off44_eq t 5) (k1_off46_eq t 5) (k1_off48_eq t 5) (k1_off50_eq t 5) (k1_off43_eq t 5) (k1_off45_eq t 5) (k1_off47_eq t 5) (k1_off49_eq t 5)
    (k1_off44_inb t 5) (k1_off46_inb t 5) (k1_off48_inb t 5) (k1_off50_inb t 5) (k1_off43_inb t 5) (k1_off45_inb t 5) (k1_off47_inb t 5) (k1_off49_inb t 5) h5
  have h7 := row_step_cons d L sR2 sC1 g f _ (8 * t.val + 6) (k1_off44 t 6#32) (k1_off46 t 6#32) (k1_off48 t 6#32) (k1_off50 t 6#32) (k1_off43 t 6#32) (k1_off45 t 6#32) (k1_off47 t 6#32) (k1_off49 t 6#32)
    (k1_off44_eq t 6) (k1_off46_eq t 6) (k1_off48_eq t 6) (k1_off50_eq t 6) (k1_off43_eq t 6) (k1_off45_eq t 6) (k1_off47_eq t 6) (k1_off49_eq t 6)
    (k1_off44_inb t 6) (k1_off46_inb t 6) (k1_off48_inb t 6) (k1_off50_inb t 6) (k1_off43_inb t 6) (k1_off45_inb t 6) (k1_off47_inb t 6) (k1_off49_inb t 6) h6
  have h8 := row_step_cons d L sR2 sC1 g f _ (8 * t.val + 7) (k1_off44 t 7#32) (k1_off46 t 7#32) (k1_off48 t 7#32) (k1_off50 t 7#32) (k1_off43 t 7#32) (k1_off45 t 7#32) (k1_off47 t 7#32) (k1_off49 t 7#32)
    (k1_off44_eq t 7) (k1_off46_eq t 7) (k1_off48_eq t 7) (k1_off50_eq t 7) (k1_off43_eq t 7) (k1_off45_eq t 7) (k1_off47_eq t 7) (k1_off49_eq t 7)
    (k1_off44_inb t 7) (k1_off46_inb t 7) (k1_off48_inb t 7) (k1_off50_inb t 7) (k1_off43_inb t 7) (k1_off45_inb t 7) (k1_off47_inb t 7) (k1_off49_inb t 7) h7
  intro r c hr
  exact h8 r c (by omega)

/-- The compaction step of loop 7 of 40: trip t copies rows [8 t, 8 t + 8) of the landing buffer's first 64 columns. -/
theorem compact_step_t8 (t : Fin k1_t8_loop.trips) (g : Buf (Elt F) (sR0.view.loc (thr d L))) (f : Buf (Elt F) (sC0.view.loc (thr d L)))
    (hC : Compacted (sR0.view.read (Elt F) g) (sC0.view.read (Elt F) f) t.val) :
    Compacted (sR0.view.read (Elt F) g) (sC0.view.read (Elt F) (sC0.view.writes (Elt F) f
      [cpiece d L sR0 g (k1_off58 t 7#32) (k1_off57 t 7#32) (k1_off58_inb t 7) (k1_off57_inb t 7),
       cpiece d L sR0 g (k1_off56 t 7#32) (k1_off55 t 7#32) (k1_off56_inb t 7) (k1_off55_inb t 7),
       cpiece d L sR0 g (k1_off54 t 7#32) (k1_off53 t 7#32) (k1_off54_inb t 7) (k1_off53_inb t 7),
       cpiece d L sR0 g (k1_off52 t 7#32) (k1_off51 t 7#32) (k1_off52_inb t 7) (k1_off51_inb t 7),
       cpiece d L sR0 g (k1_off58 t 6#32) (k1_off57 t 6#32) (k1_off58_inb t 6) (k1_off57_inb t 6),
       cpiece d L sR0 g (k1_off56 t 6#32) (k1_off55 t 6#32) (k1_off56_inb t 6) (k1_off55_inb t 6),
       cpiece d L sR0 g (k1_off54 t 6#32) (k1_off53 t 6#32) (k1_off54_inb t 6) (k1_off53_inb t 6),
       cpiece d L sR0 g (k1_off52 t 6#32) (k1_off51 t 6#32) (k1_off52_inb t 6) (k1_off51_inb t 6),
       cpiece d L sR0 g (k1_off58 t 5#32) (k1_off57 t 5#32) (k1_off58_inb t 5) (k1_off57_inb t 5),
       cpiece d L sR0 g (k1_off56 t 5#32) (k1_off55 t 5#32) (k1_off56_inb t 5) (k1_off55_inb t 5),
       cpiece d L sR0 g (k1_off54 t 5#32) (k1_off53 t 5#32) (k1_off54_inb t 5) (k1_off53_inb t 5),
       cpiece d L sR0 g (k1_off52 t 5#32) (k1_off51 t 5#32) (k1_off52_inb t 5) (k1_off51_inb t 5),
       cpiece d L sR0 g (k1_off58 t 4#32) (k1_off57 t 4#32) (k1_off58_inb t 4) (k1_off57_inb t 4),
       cpiece d L sR0 g (k1_off56 t 4#32) (k1_off55 t 4#32) (k1_off56_inb t 4) (k1_off55_inb t 4),
       cpiece d L sR0 g (k1_off54 t 4#32) (k1_off53 t 4#32) (k1_off54_inb t 4) (k1_off53_inb t 4),
       cpiece d L sR0 g (k1_off52 t 4#32) (k1_off51 t 4#32) (k1_off52_inb t 4) (k1_off51_inb t 4),
       cpiece d L sR0 g (k1_off58 t 3#32) (k1_off57 t 3#32) (k1_off58_inb t 3) (k1_off57_inb t 3),
       cpiece d L sR0 g (k1_off56 t 3#32) (k1_off55 t 3#32) (k1_off56_inb t 3) (k1_off55_inb t 3),
       cpiece d L sR0 g (k1_off54 t 3#32) (k1_off53 t 3#32) (k1_off54_inb t 3) (k1_off53_inb t 3),
       cpiece d L sR0 g (k1_off52 t 3#32) (k1_off51 t 3#32) (k1_off52_inb t 3) (k1_off51_inb t 3),
       cpiece d L sR0 g (k1_off58 t 2#32) (k1_off57 t 2#32) (k1_off58_inb t 2) (k1_off57_inb t 2),
       cpiece d L sR0 g (k1_off56 t 2#32) (k1_off55 t 2#32) (k1_off56_inb t 2) (k1_off55_inb t 2),
       cpiece d L sR0 g (k1_off54 t 2#32) (k1_off53 t 2#32) (k1_off54_inb t 2) (k1_off53_inb t 2),
       cpiece d L sR0 g (k1_off52 t 2#32) (k1_off51 t 2#32) (k1_off52_inb t 2) (k1_off51_inb t 2),
       cpiece d L sR0 g (k1_off58 t 1#32) (k1_off57 t 1#32) (k1_off58_inb t 1) (k1_off57_inb t 1),
       cpiece d L sR0 g (k1_off56 t 1#32) (k1_off55 t 1#32) (k1_off56_inb t 1) (k1_off55_inb t 1),
       cpiece d L sR0 g (k1_off54 t 1#32) (k1_off53 t 1#32) (k1_off54_inb t 1) (k1_off53_inb t 1),
       cpiece d L sR0 g (k1_off52 t 1#32) (k1_off51 t 1#32) (k1_off52_inb t 1) (k1_off51_inb t 1),
       cpiece d L sR0 g (k1_off58 t 0#32) (k1_off57 t 0#32) (k1_off58_inb t 0) (k1_off57_inb t 0),
       cpiece d L sR0 g (k1_off56 t 0#32) (k1_off55 t 0#32) (k1_off56_inb t 0) (k1_off55_inb t 0),
       cpiece d L sR0 g (k1_off54 t 0#32) (k1_off53 t 0#32) (k1_off54_inb t 0) (k1_off53_inb t 0),
       cpiece d L sR0 g (k1_off52 t 0#32) (k1_off51 t 0#32) (k1_off52_inb t 0) (k1_off51_inb t 0)])) (t.val + 1) := by
  have h1 := row_step_cons d L sR0 sC0 g f [] (8 * t.val + 0) (k1_off52 t 0#32) (k1_off54 t 0#32) (k1_off56 t 0#32) (k1_off58 t 0#32) (k1_off51 t 0#32) (k1_off53 t 0#32) (k1_off55 t 0#32) (k1_off57 t 0#32)
    (k1_off52_eq t 0) (k1_off54_eq t 0) (k1_off56_eq t 0) (k1_off58_eq t 0) (k1_off51_eq t 0) (k1_off53_eq t 0) (k1_off55_eq t 0) (k1_off57_eq t 0)
    (k1_off52_inb t 0) (k1_off54_inb t 0) (k1_off56_inb t 0) (k1_off58_inb t 0) (k1_off51_inb t 0) (k1_off53_inb t 0) (k1_off55_inb t 0) (k1_off57_inb t 0) ((compacted_iff_rows _ _ _).1 hC)
  have h2 := row_step_cons d L sR0 sC0 g f _ (8 * t.val + 1) (k1_off52 t 1#32) (k1_off54 t 1#32) (k1_off56 t 1#32) (k1_off58 t 1#32) (k1_off51 t 1#32) (k1_off53 t 1#32) (k1_off55 t 1#32) (k1_off57 t 1#32)
    (k1_off52_eq t 1) (k1_off54_eq t 1) (k1_off56_eq t 1) (k1_off58_eq t 1) (k1_off51_eq t 1) (k1_off53_eq t 1) (k1_off55_eq t 1) (k1_off57_eq t 1)
    (k1_off52_inb t 1) (k1_off54_inb t 1) (k1_off56_inb t 1) (k1_off58_inb t 1) (k1_off51_inb t 1) (k1_off53_inb t 1) (k1_off55_inb t 1) (k1_off57_inb t 1) h1
  have h3 := row_step_cons d L sR0 sC0 g f _ (8 * t.val + 2) (k1_off52 t 2#32) (k1_off54 t 2#32) (k1_off56 t 2#32) (k1_off58 t 2#32) (k1_off51 t 2#32) (k1_off53 t 2#32) (k1_off55 t 2#32) (k1_off57 t 2#32)
    (k1_off52_eq t 2) (k1_off54_eq t 2) (k1_off56_eq t 2) (k1_off58_eq t 2) (k1_off51_eq t 2) (k1_off53_eq t 2) (k1_off55_eq t 2) (k1_off57_eq t 2)
    (k1_off52_inb t 2) (k1_off54_inb t 2) (k1_off56_inb t 2) (k1_off58_inb t 2) (k1_off51_inb t 2) (k1_off53_inb t 2) (k1_off55_inb t 2) (k1_off57_inb t 2) h2
  have h4 := row_step_cons d L sR0 sC0 g f _ (8 * t.val + 3) (k1_off52 t 3#32) (k1_off54 t 3#32) (k1_off56 t 3#32) (k1_off58 t 3#32) (k1_off51 t 3#32) (k1_off53 t 3#32) (k1_off55 t 3#32) (k1_off57 t 3#32)
    (k1_off52_eq t 3) (k1_off54_eq t 3) (k1_off56_eq t 3) (k1_off58_eq t 3) (k1_off51_eq t 3) (k1_off53_eq t 3) (k1_off55_eq t 3) (k1_off57_eq t 3)
    (k1_off52_inb t 3) (k1_off54_inb t 3) (k1_off56_inb t 3) (k1_off58_inb t 3) (k1_off51_inb t 3) (k1_off53_inb t 3) (k1_off55_inb t 3) (k1_off57_inb t 3) h3
  have h5 := row_step_cons d L sR0 sC0 g f _ (8 * t.val + 4) (k1_off52 t 4#32) (k1_off54 t 4#32) (k1_off56 t 4#32) (k1_off58 t 4#32) (k1_off51 t 4#32) (k1_off53 t 4#32) (k1_off55 t 4#32) (k1_off57 t 4#32)
    (k1_off52_eq t 4) (k1_off54_eq t 4) (k1_off56_eq t 4) (k1_off58_eq t 4) (k1_off51_eq t 4) (k1_off53_eq t 4) (k1_off55_eq t 4) (k1_off57_eq t 4)
    (k1_off52_inb t 4) (k1_off54_inb t 4) (k1_off56_inb t 4) (k1_off58_inb t 4) (k1_off51_inb t 4) (k1_off53_inb t 4) (k1_off55_inb t 4) (k1_off57_inb t 4) h4
  have h6 := row_step_cons d L sR0 sC0 g f _ (8 * t.val + 5) (k1_off52 t 5#32) (k1_off54 t 5#32) (k1_off56 t 5#32) (k1_off58 t 5#32) (k1_off51 t 5#32) (k1_off53 t 5#32) (k1_off55 t 5#32) (k1_off57 t 5#32)
    (k1_off52_eq t 5) (k1_off54_eq t 5) (k1_off56_eq t 5) (k1_off58_eq t 5) (k1_off51_eq t 5) (k1_off53_eq t 5) (k1_off55_eq t 5) (k1_off57_eq t 5)
    (k1_off52_inb t 5) (k1_off54_inb t 5) (k1_off56_inb t 5) (k1_off58_inb t 5) (k1_off51_inb t 5) (k1_off53_inb t 5) (k1_off55_inb t 5) (k1_off57_inb t 5) h5
  have h7 := row_step_cons d L sR0 sC0 g f _ (8 * t.val + 6) (k1_off52 t 6#32) (k1_off54 t 6#32) (k1_off56 t 6#32) (k1_off58 t 6#32) (k1_off51 t 6#32) (k1_off53 t 6#32) (k1_off55 t 6#32) (k1_off57 t 6#32)
    (k1_off52_eq t 6) (k1_off54_eq t 6) (k1_off56_eq t 6) (k1_off58_eq t 6) (k1_off51_eq t 6) (k1_off53_eq t 6) (k1_off55_eq t 6) (k1_off57_eq t 6)
    (k1_off52_inb t 6) (k1_off54_inb t 6) (k1_off56_inb t 6) (k1_off58_inb t 6) (k1_off51_inb t 6) (k1_off53_inb t 6) (k1_off55_inb t 6) (k1_off57_inb t 6) h6
  have h8 := row_step_cons d L sR0 sC0 g f _ (8 * t.val + 7) (k1_off52 t 7#32) (k1_off54 t 7#32) (k1_off56 t 7#32) (k1_off58 t 7#32) (k1_off51 t 7#32) (k1_off53 t 7#32) (k1_off55 t 7#32) (k1_off57 t 7#32)
    (k1_off52_eq t 7) (k1_off54_eq t 7) (k1_off56_eq t 7) (k1_off58_eq t 7) (k1_off51_eq t 7) (k1_off53_eq t 7) (k1_off55_eq t 7) (k1_off57_eq t 7)
    (k1_off52_inb t 7) (k1_off54_inb t 7) (k1_off56_inb t 7) (k1_off58_inb t 7) (k1_off51_inb t 7) (k1_off53_inb t 7) (k1_off55_inb t 7) (k1_off57_inb t 7) h7
  intro r c hr
  exact h8 r c (by omega)

/-- The compaction step of loop 8 of 40: trip t copies rows [8 t, 8 t + 8) of the landing buffer's first 64 columns. -/
theorem compact_step_t9 (t : Fin k1_t9_loop.trips) (g : Buf (Elt F) (sR1.view.loc (thr d L))) (f : Buf (Elt F) (sC1.view.loc (thr d L)))
    (hC : Compacted (sR1.view.read (Elt F) g) (sC1.view.read (Elt F) f) t.val) :
    Compacted (sR1.view.read (Elt F) g) (sC1.view.read (Elt F) (sC1.view.writes (Elt F) f
      [cpiece d L sR1 g (k1_off66 t 7#32) (k1_off65 t 7#32) (k1_off66_inb t 7) (k1_off65_inb t 7),
       cpiece d L sR1 g (k1_off64 t 7#32) (k1_off63 t 7#32) (k1_off64_inb t 7) (k1_off63_inb t 7),
       cpiece d L sR1 g (k1_off62 t 7#32) (k1_off61 t 7#32) (k1_off62_inb t 7) (k1_off61_inb t 7),
       cpiece d L sR1 g (k1_off60 t 7#32) (k1_off59 t 7#32) (k1_off60_inb t 7) (k1_off59_inb t 7),
       cpiece d L sR1 g (k1_off66 t 6#32) (k1_off65 t 6#32) (k1_off66_inb t 6) (k1_off65_inb t 6),
       cpiece d L sR1 g (k1_off64 t 6#32) (k1_off63 t 6#32) (k1_off64_inb t 6) (k1_off63_inb t 6),
       cpiece d L sR1 g (k1_off62 t 6#32) (k1_off61 t 6#32) (k1_off62_inb t 6) (k1_off61_inb t 6),
       cpiece d L sR1 g (k1_off60 t 6#32) (k1_off59 t 6#32) (k1_off60_inb t 6) (k1_off59_inb t 6),
       cpiece d L sR1 g (k1_off66 t 5#32) (k1_off65 t 5#32) (k1_off66_inb t 5) (k1_off65_inb t 5),
       cpiece d L sR1 g (k1_off64 t 5#32) (k1_off63 t 5#32) (k1_off64_inb t 5) (k1_off63_inb t 5),
       cpiece d L sR1 g (k1_off62 t 5#32) (k1_off61 t 5#32) (k1_off62_inb t 5) (k1_off61_inb t 5),
       cpiece d L sR1 g (k1_off60 t 5#32) (k1_off59 t 5#32) (k1_off60_inb t 5) (k1_off59_inb t 5),
       cpiece d L sR1 g (k1_off66 t 4#32) (k1_off65 t 4#32) (k1_off66_inb t 4) (k1_off65_inb t 4),
       cpiece d L sR1 g (k1_off64 t 4#32) (k1_off63 t 4#32) (k1_off64_inb t 4) (k1_off63_inb t 4),
       cpiece d L sR1 g (k1_off62 t 4#32) (k1_off61 t 4#32) (k1_off62_inb t 4) (k1_off61_inb t 4),
       cpiece d L sR1 g (k1_off60 t 4#32) (k1_off59 t 4#32) (k1_off60_inb t 4) (k1_off59_inb t 4),
       cpiece d L sR1 g (k1_off66 t 3#32) (k1_off65 t 3#32) (k1_off66_inb t 3) (k1_off65_inb t 3),
       cpiece d L sR1 g (k1_off64 t 3#32) (k1_off63 t 3#32) (k1_off64_inb t 3) (k1_off63_inb t 3),
       cpiece d L sR1 g (k1_off62 t 3#32) (k1_off61 t 3#32) (k1_off62_inb t 3) (k1_off61_inb t 3),
       cpiece d L sR1 g (k1_off60 t 3#32) (k1_off59 t 3#32) (k1_off60_inb t 3) (k1_off59_inb t 3),
       cpiece d L sR1 g (k1_off66 t 2#32) (k1_off65 t 2#32) (k1_off66_inb t 2) (k1_off65_inb t 2),
       cpiece d L sR1 g (k1_off64 t 2#32) (k1_off63 t 2#32) (k1_off64_inb t 2) (k1_off63_inb t 2),
       cpiece d L sR1 g (k1_off62 t 2#32) (k1_off61 t 2#32) (k1_off62_inb t 2) (k1_off61_inb t 2),
       cpiece d L sR1 g (k1_off60 t 2#32) (k1_off59 t 2#32) (k1_off60_inb t 2) (k1_off59_inb t 2),
       cpiece d L sR1 g (k1_off66 t 1#32) (k1_off65 t 1#32) (k1_off66_inb t 1) (k1_off65_inb t 1),
       cpiece d L sR1 g (k1_off64 t 1#32) (k1_off63 t 1#32) (k1_off64_inb t 1) (k1_off63_inb t 1),
       cpiece d L sR1 g (k1_off62 t 1#32) (k1_off61 t 1#32) (k1_off62_inb t 1) (k1_off61_inb t 1),
       cpiece d L sR1 g (k1_off60 t 1#32) (k1_off59 t 1#32) (k1_off60_inb t 1) (k1_off59_inb t 1),
       cpiece d L sR1 g (k1_off66 t 0#32) (k1_off65 t 0#32) (k1_off66_inb t 0) (k1_off65_inb t 0),
       cpiece d L sR1 g (k1_off64 t 0#32) (k1_off63 t 0#32) (k1_off64_inb t 0) (k1_off63_inb t 0),
       cpiece d L sR1 g (k1_off62 t 0#32) (k1_off61 t 0#32) (k1_off62_inb t 0) (k1_off61_inb t 0),
       cpiece d L sR1 g (k1_off60 t 0#32) (k1_off59 t 0#32) (k1_off60_inb t 0) (k1_off59_inb t 0)])) (t.val + 1) := by
  have h1 := row_step_cons d L sR1 sC1 g f [] (8 * t.val + 0) (k1_off60 t 0#32) (k1_off62 t 0#32) (k1_off64 t 0#32) (k1_off66 t 0#32) (k1_off59 t 0#32) (k1_off61 t 0#32) (k1_off63 t 0#32) (k1_off65 t 0#32)
    (k1_off60_eq t 0) (k1_off62_eq t 0) (k1_off64_eq t 0) (k1_off66_eq t 0) (k1_off59_eq t 0) (k1_off61_eq t 0) (k1_off63_eq t 0) (k1_off65_eq t 0)
    (k1_off60_inb t 0) (k1_off62_inb t 0) (k1_off64_inb t 0) (k1_off66_inb t 0) (k1_off59_inb t 0) (k1_off61_inb t 0) (k1_off63_inb t 0) (k1_off65_inb t 0) ((compacted_iff_rows _ _ _).1 hC)
  have h2 := row_step_cons d L sR1 sC1 g f _ (8 * t.val + 1) (k1_off60 t 1#32) (k1_off62 t 1#32) (k1_off64 t 1#32) (k1_off66 t 1#32) (k1_off59 t 1#32) (k1_off61 t 1#32) (k1_off63 t 1#32) (k1_off65 t 1#32)
    (k1_off60_eq t 1) (k1_off62_eq t 1) (k1_off64_eq t 1) (k1_off66_eq t 1) (k1_off59_eq t 1) (k1_off61_eq t 1) (k1_off63_eq t 1) (k1_off65_eq t 1)
    (k1_off60_inb t 1) (k1_off62_inb t 1) (k1_off64_inb t 1) (k1_off66_inb t 1) (k1_off59_inb t 1) (k1_off61_inb t 1) (k1_off63_inb t 1) (k1_off65_inb t 1) h1
  have h3 := row_step_cons d L sR1 sC1 g f _ (8 * t.val + 2) (k1_off60 t 2#32) (k1_off62 t 2#32) (k1_off64 t 2#32) (k1_off66 t 2#32) (k1_off59 t 2#32) (k1_off61 t 2#32) (k1_off63 t 2#32) (k1_off65 t 2#32)
    (k1_off60_eq t 2) (k1_off62_eq t 2) (k1_off64_eq t 2) (k1_off66_eq t 2) (k1_off59_eq t 2) (k1_off61_eq t 2) (k1_off63_eq t 2) (k1_off65_eq t 2)
    (k1_off60_inb t 2) (k1_off62_inb t 2) (k1_off64_inb t 2) (k1_off66_inb t 2) (k1_off59_inb t 2) (k1_off61_inb t 2) (k1_off63_inb t 2) (k1_off65_inb t 2) h2
  have h4 := row_step_cons d L sR1 sC1 g f _ (8 * t.val + 3) (k1_off60 t 3#32) (k1_off62 t 3#32) (k1_off64 t 3#32) (k1_off66 t 3#32) (k1_off59 t 3#32) (k1_off61 t 3#32) (k1_off63 t 3#32) (k1_off65 t 3#32)
    (k1_off60_eq t 3) (k1_off62_eq t 3) (k1_off64_eq t 3) (k1_off66_eq t 3) (k1_off59_eq t 3) (k1_off61_eq t 3) (k1_off63_eq t 3) (k1_off65_eq t 3)
    (k1_off60_inb t 3) (k1_off62_inb t 3) (k1_off64_inb t 3) (k1_off66_inb t 3) (k1_off59_inb t 3) (k1_off61_inb t 3) (k1_off63_inb t 3) (k1_off65_inb t 3) h3
  have h5 := row_step_cons d L sR1 sC1 g f _ (8 * t.val + 4) (k1_off60 t 4#32) (k1_off62 t 4#32) (k1_off64 t 4#32) (k1_off66 t 4#32) (k1_off59 t 4#32) (k1_off61 t 4#32) (k1_off63 t 4#32) (k1_off65 t 4#32)
    (k1_off60_eq t 4) (k1_off62_eq t 4) (k1_off64_eq t 4) (k1_off66_eq t 4) (k1_off59_eq t 4) (k1_off61_eq t 4) (k1_off63_eq t 4) (k1_off65_eq t 4)
    (k1_off60_inb t 4) (k1_off62_inb t 4) (k1_off64_inb t 4) (k1_off66_inb t 4) (k1_off59_inb t 4) (k1_off61_inb t 4) (k1_off63_inb t 4) (k1_off65_inb t 4) h4
  have h6 := row_step_cons d L sR1 sC1 g f _ (8 * t.val + 5) (k1_off60 t 5#32) (k1_off62 t 5#32) (k1_off64 t 5#32) (k1_off66 t 5#32) (k1_off59 t 5#32) (k1_off61 t 5#32) (k1_off63 t 5#32) (k1_off65 t 5#32)
    (k1_off60_eq t 5) (k1_off62_eq t 5) (k1_off64_eq t 5) (k1_off66_eq t 5) (k1_off59_eq t 5) (k1_off61_eq t 5) (k1_off63_eq t 5) (k1_off65_eq t 5)
    (k1_off60_inb t 5) (k1_off62_inb t 5) (k1_off64_inb t 5) (k1_off66_inb t 5) (k1_off59_inb t 5) (k1_off61_inb t 5) (k1_off63_inb t 5) (k1_off65_inb t 5) h5
  have h7 := row_step_cons d L sR1 sC1 g f _ (8 * t.val + 6) (k1_off60 t 6#32) (k1_off62 t 6#32) (k1_off64 t 6#32) (k1_off66 t 6#32) (k1_off59 t 6#32) (k1_off61 t 6#32) (k1_off63 t 6#32) (k1_off65 t 6#32)
    (k1_off60_eq t 6) (k1_off62_eq t 6) (k1_off64_eq t 6) (k1_off66_eq t 6) (k1_off59_eq t 6) (k1_off61_eq t 6) (k1_off63_eq t 6) (k1_off65_eq t 6)
    (k1_off60_inb t 6) (k1_off62_inb t 6) (k1_off64_inb t 6) (k1_off66_inb t 6) (k1_off59_inb t 6) (k1_off61_inb t 6) (k1_off63_inb t 6) (k1_off65_inb t 6) h6
  have h8 := row_step_cons d L sR1 sC1 g f _ (8 * t.val + 7) (k1_off60 t 7#32) (k1_off62 t 7#32) (k1_off64 t 7#32) (k1_off66 t 7#32) (k1_off59 t 7#32) (k1_off61 t 7#32) (k1_off63 t 7#32) (k1_off65 t 7#32)
    (k1_off60_eq t 7) (k1_off62_eq t 7) (k1_off64_eq t 7) (k1_off66_eq t 7) (k1_off59_eq t 7) (k1_off61_eq t 7) (k1_off63_eq t 7) (k1_off65_eq t 7)
    (k1_off60_inb t 7) (k1_off62_inb t 7) (k1_off64_inb t 7) (k1_off66_inb t 7) (k1_off59_inb t 7) (k1_off61_inb t 7) (k1_off63_inb t 7) (k1_off65_inb t 7) h7
  intro r c hr
  exact h8 r c (by omega)

/-- The compaction step of loop 9 of 40: trip t copies rows [8 t, 8 t + 8) of the landing buffer's first 64 columns. -/
theorem compact_step_t10 (t : Fin k1_t10_loop.trips) (g : Buf (Elt F) (sR2.view.loc (thr d L))) (f : Buf (Elt F) (sC0.view.loc (thr d L)))
    (hC : Compacted (sR2.view.read (Elt F) g) (sC0.view.read (Elt F) f) t.val) :
    Compacted (sR2.view.read (Elt F) g) (sC0.view.read (Elt F) (sC0.view.writes (Elt F) f
      [cpiece d L sR2 g (k1_off74 t 7#32) (k1_off73 t 7#32) (k1_off74_inb t 7) (k1_off73_inb t 7),
       cpiece d L sR2 g (k1_off72 t 7#32) (k1_off71 t 7#32) (k1_off72_inb t 7) (k1_off71_inb t 7),
       cpiece d L sR2 g (k1_off70 t 7#32) (k1_off69 t 7#32) (k1_off70_inb t 7) (k1_off69_inb t 7),
       cpiece d L sR2 g (k1_off68 t 7#32) (k1_off67 t 7#32) (k1_off68_inb t 7) (k1_off67_inb t 7),
       cpiece d L sR2 g (k1_off74 t 6#32) (k1_off73 t 6#32) (k1_off74_inb t 6) (k1_off73_inb t 6),
       cpiece d L sR2 g (k1_off72 t 6#32) (k1_off71 t 6#32) (k1_off72_inb t 6) (k1_off71_inb t 6),
       cpiece d L sR2 g (k1_off70 t 6#32) (k1_off69 t 6#32) (k1_off70_inb t 6) (k1_off69_inb t 6),
       cpiece d L sR2 g (k1_off68 t 6#32) (k1_off67 t 6#32) (k1_off68_inb t 6) (k1_off67_inb t 6),
       cpiece d L sR2 g (k1_off74 t 5#32) (k1_off73 t 5#32) (k1_off74_inb t 5) (k1_off73_inb t 5),
       cpiece d L sR2 g (k1_off72 t 5#32) (k1_off71 t 5#32) (k1_off72_inb t 5) (k1_off71_inb t 5),
       cpiece d L sR2 g (k1_off70 t 5#32) (k1_off69 t 5#32) (k1_off70_inb t 5) (k1_off69_inb t 5),
       cpiece d L sR2 g (k1_off68 t 5#32) (k1_off67 t 5#32) (k1_off68_inb t 5) (k1_off67_inb t 5),
       cpiece d L sR2 g (k1_off74 t 4#32) (k1_off73 t 4#32) (k1_off74_inb t 4) (k1_off73_inb t 4),
       cpiece d L sR2 g (k1_off72 t 4#32) (k1_off71 t 4#32) (k1_off72_inb t 4) (k1_off71_inb t 4),
       cpiece d L sR2 g (k1_off70 t 4#32) (k1_off69 t 4#32) (k1_off70_inb t 4) (k1_off69_inb t 4),
       cpiece d L sR2 g (k1_off68 t 4#32) (k1_off67 t 4#32) (k1_off68_inb t 4) (k1_off67_inb t 4),
       cpiece d L sR2 g (k1_off74 t 3#32) (k1_off73 t 3#32) (k1_off74_inb t 3) (k1_off73_inb t 3),
       cpiece d L sR2 g (k1_off72 t 3#32) (k1_off71 t 3#32) (k1_off72_inb t 3) (k1_off71_inb t 3),
       cpiece d L sR2 g (k1_off70 t 3#32) (k1_off69 t 3#32) (k1_off70_inb t 3) (k1_off69_inb t 3),
       cpiece d L sR2 g (k1_off68 t 3#32) (k1_off67 t 3#32) (k1_off68_inb t 3) (k1_off67_inb t 3),
       cpiece d L sR2 g (k1_off74 t 2#32) (k1_off73 t 2#32) (k1_off74_inb t 2) (k1_off73_inb t 2),
       cpiece d L sR2 g (k1_off72 t 2#32) (k1_off71 t 2#32) (k1_off72_inb t 2) (k1_off71_inb t 2),
       cpiece d L sR2 g (k1_off70 t 2#32) (k1_off69 t 2#32) (k1_off70_inb t 2) (k1_off69_inb t 2),
       cpiece d L sR2 g (k1_off68 t 2#32) (k1_off67 t 2#32) (k1_off68_inb t 2) (k1_off67_inb t 2),
       cpiece d L sR2 g (k1_off74 t 1#32) (k1_off73 t 1#32) (k1_off74_inb t 1) (k1_off73_inb t 1),
       cpiece d L sR2 g (k1_off72 t 1#32) (k1_off71 t 1#32) (k1_off72_inb t 1) (k1_off71_inb t 1),
       cpiece d L sR2 g (k1_off70 t 1#32) (k1_off69 t 1#32) (k1_off70_inb t 1) (k1_off69_inb t 1),
       cpiece d L sR2 g (k1_off68 t 1#32) (k1_off67 t 1#32) (k1_off68_inb t 1) (k1_off67_inb t 1),
       cpiece d L sR2 g (k1_off74 t 0#32) (k1_off73 t 0#32) (k1_off74_inb t 0) (k1_off73_inb t 0),
       cpiece d L sR2 g (k1_off72 t 0#32) (k1_off71 t 0#32) (k1_off72_inb t 0) (k1_off71_inb t 0),
       cpiece d L sR2 g (k1_off70 t 0#32) (k1_off69 t 0#32) (k1_off70_inb t 0) (k1_off69_inb t 0),
       cpiece d L sR2 g (k1_off68 t 0#32) (k1_off67 t 0#32) (k1_off68_inb t 0) (k1_off67_inb t 0)])) (t.val + 1) := by
  have h1 := row_step_cons d L sR2 sC0 g f [] (8 * t.val + 0) (k1_off68 t 0#32) (k1_off70 t 0#32) (k1_off72 t 0#32) (k1_off74 t 0#32) (k1_off67 t 0#32) (k1_off69 t 0#32) (k1_off71 t 0#32) (k1_off73 t 0#32)
    (k1_off68_eq t 0) (k1_off70_eq t 0) (k1_off72_eq t 0) (k1_off74_eq t 0) (k1_off67_eq t 0) (k1_off69_eq t 0) (k1_off71_eq t 0) (k1_off73_eq t 0)
    (k1_off68_inb t 0) (k1_off70_inb t 0) (k1_off72_inb t 0) (k1_off74_inb t 0) (k1_off67_inb t 0) (k1_off69_inb t 0) (k1_off71_inb t 0) (k1_off73_inb t 0) ((compacted_iff_rows _ _ _).1 hC)
  have h2 := row_step_cons d L sR2 sC0 g f _ (8 * t.val + 1) (k1_off68 t 1#32) (k1_off70 t 1#32) (k1_off72 t 1#32) (k1_off74 t 1#32) (k1_off67 t 1#32) (k1_off69 t 1#32) (k1_off71 t 1#32) (k1_off73 t 1#32)
    (k1_off68_eq t 1) (k1_off70_eq t 1) (k1_off72_eq t 1) (k1_off74_eq t 1) (k1_off67_eq t 1) (k1_off69_eq t 1) (k1_off71_eq t 1) (k1_off73_eq t 1)
    (k1_off68_inb t 1) (k1_off70_inb t 1) (k1_off72_inb t 1) (k1_off74_inb t 1) (k1_off67_inb t 1) (k1_off69_inb t 1) (k1_off71_inb t 1) (k1_off73_inb t 1) h1
  have h3 := row_step_cons d L sR2 sC0 g f _ (8 * t.val + 2) (k1_off68 t 2#32) (k1_off70 t 2#32) (k1_off72 t 2#32) (k1_off74 t 2#32) (k1_off67 t 2#32) (k1_off69 t 2#32) (k1_off71 t 2#32) (k1_off73 t 2#32)
    (k1_off68_eq t 2) (k1_off70_eq t 2) (k1_off72_eq t 2) (k1_off74_eq t 2) (k1_off67_eq t 2) (k1_off69_eq t 2) (k1_off71_eq t 2) (k1_off73_eq t 2)
    (k1_off68_inb t 2) (k1_off70_inb t 2) (k1_off72_inb t 2) (k1_off74_inb t 2) (k1_off67_inb t 2) (k1_off69_inb t 2) (k1_off71_inb t 2) (k1_off73_inb t 2) h2
  have h4 := row_step_cons d L sR2 sC0 g f _ (8 * t.val + 3) (k1_off68 t 3#32) (k1_off70 t 3#32) (k1_off72 t 3#32) (k1_off74 t 3#32) (k1_off67 t 3#32) (k1_off69 t 3#32) (k1_off71 t 3#32) (k1_off73 t 3#32)
    (k1_off68_eq t 3) (k1_off70_eq t 3) (k1_off72_eq t 3) (k1_off74_eq t 3) (k1_off67_eq t 3) (k1_off69_eq t 3) (k1_off71_eq t 3) (k1_off73_eq t 3)
    (k1_off68_inb t 3) (k1_off70_inb t 3) (k1_off72_inb t 3) (k1_off74_inb t 3) (k1_off67_inb t 3) (k1_off69_inb t 3) (k1_off71_inb t 3) (k1_off73_inb t 3) h3
  have h5 := row_step_cons d L sR2 sC0 g f _ (8 * t.val + 4) (k1_off68 t 4#32) (k1_off70 t 4#32) (k1_off72 t 4#32) (k1_off74 t 4#32) (k1_off67 t 4#32) (k1_off69 t 4#32) (k1_off71 t 4#32) (k1_off73 t 4#32)
    (k1_off68_eq t 4) (k1_off70_eq t 4) (k1_off72_eq t 4) (k1_off74_eq t 4) (k1_off67_eq t 4) (k1_off69_eq t 4) (k1_off71_eq t 4) (k1_off73_eq t 4)
    (k1_off68_inb t 4) (k1_off70_inb t 4) (k1_off72_inb t 4) (k1_off74_inb t 4) (k1_off67_inb t 4) (k1_off69_inb t 4) (k1_off71_inb t 4) (k1_off73_inb t 4) h4
  have h6 := row_step_cons d L sR2 sC0 g f _ (8 * t.val + 5) (k1_off68 t 5#32) (k1_off70 t 5#32) (k1_off72 t 5#32) (k1_off74 t 5#32) (k1_off67 t 5#32) (k1_off69 t 5#32) (k1_off71 t 5#32) (k1_off73 t 5#32)
    (k1_off68_eq t 5) (k1_off70_eq t 5) (k1_off72_eq t 5) (k1_off74_eq t 5) (k1_off67_eq t 5) (k1_off69_eq t 5) (k1_off71_eq t 5) (k1_off73_eq t 5)
    (k1_off68_inb t 5) (k1_off70_inb t 5) (k1_off72_inb t 5) (k1_off74_inb t 5) (k1_off67_inb t 5) (k1_off69_inb t 5) (k1_off71_inb t 5) (k1_off73_inb t 5) h5
  have h7 := row_step_cons d L sR2 sC0 g f _ (8 * t.val + 6) (k1_off68 t 6#32) (k1_off70 t 6#32) (k1_off72 t 6#32) (k1_off74 t 6#32) (k1_off67 t 6#32) (k1_off69 t 6#32) (k1_off71 t 6#32) (k1_off73 t 6#32)
    (k1_off68_eq t 6) (k1_off70_eq t 6) (k1_off72_eq t 6) (k1_off74_eq t 6) (k1_off67_eq t 6) (k1_off69_eq t 6) (k1_off71_eq t 6) (k1_off73_eq t 6)
    (k1_off68_inb t 6) (k1_off70_inb t 6) (k1_off72_inb t 6) (k1_off74_inb t 6) (k1_off67_inb t 6) (k1_off69_inb t 6) (k1_off71_inb t 6) (k1_off73_inb t 6) h6
  have h8 := row_step_cons d L sR2 sC0 g f _ (8 * t.val + 7) (k1_off68 t 7#32) (k1_off70 t 7#32) (k1_off72 t 7#32) (k1_off74 t 7#32) (k1_off67 t 7#32) (k1_off69 t 7#32) (k1_off71 t 7#32) (k1_off73 t 7#32)
    (k1_off68_eq t 7) (k1_off70_eq t 7) (k1_off72_eq t 7) (k1_off74_eq t 7) (k1_off67_eq t 7) (k1_off69_eq t 7) (k1_off71_eq t 7) (k1_off73_eq t 7)
    (k1_off68_inb t 7) (k1_off70_inb t 7) (k1_off72_inb t 7) (k1_off74_inb t 7) (k1_off67_inb t 7) (k1_off69_inb t 7) (k1_off71_inb t 7) (k1_off73_inb t 7) h7
  intro r c hr
  exact h8 r c (by omega)

/-- The compaction step of loop 10 of 40: trip t copies rows [8 t, 8 t + 8) of the landing buffer's first 64 columns. -/
theorem compact_step_t11 (t : Fin k1_t11_loop.trips) (g : Buf (Elt F) (sR0.view.loc (thr d L))) (f : Buf (Elt F) (sC1.view.loc (thr d L)))
    (hC : Compacted (sR0.view.read (Elt F) g) (sC1.view.read (Elt F) f) t.val) :
    Compacted (sR0.view.read (Elt F) g) (sC1.view.read (Elt F) (sC1.view.writes (Elt F) f
      [cpiece d L sR0 g (k1_off82 t 7#32) (k1_off81 t 7#32) (k1_off82_inb t 7) (k1_off81_inb t 7),
       cpiece d L sR0 g (k1_off80 t 7#32) (k1_off79 t 7#32) (k1_off80_inb t 7) (k1_off79_inb t 7),
       cpiece d L sR0 g (k1_off78 t 7#32) (k1_off77 t 7#32) (k1_off78_inb t 7) (k1_off77_inb t 7),
       cpiece d L sR0 g (k1_off76 t 7#32) (k1_off75 t 7#32) (k1_off76_inb t 7) (k1_off75_inb t 7),
       cpiece d L sR0 g (k1_off82 t 6#32) (k1_off81 t 6#32) (k1_off82_inb t 6) (k1_off81_inb t 6),
       cpiece d L sR0 g (k1_off80 t 6#32) (k1_off79 t 6#32) (k1_off80_inb t 6) (k1_off79_inb t 6),
       cpiece d L sR0 g (k1_off78 t 6#32) (k1_off77 t 6#32) (k1_off78_inb t 6) (k1_off77_inb t 6),
       cpiece d L sR0 g (k1_off76 t 6#32) (k1_off75 t 6#32) (k1_off76_inb t 6) (k1_off75_inb t 6),
       cpiece d L sR0 g (k1_off82 t 5#32) (k1_off81 t 5#32) (k1_off82_inb t 5) (k1_off81_inb t 5),
       cpiece d L sR0 g (k1_off80 t 5#32) (k1_off79 t 5#32) (k1_off80_inb t 5) (k1_off79_inb t 5),
       cpiece d L sR0 g (k1_off78 t 5#32) (k1_off77 t 5#32) (k1_off78_inb t 5) (k1_off77_inb t 5),
       cpiece d L sR0 g (k1_off76 t 5#32) (k1_off75 t 5#32) (k1_off76_inb t 5) (k1_off75_inb t 5),
       cpiece d L sR0 g (k1_off82 t 4#32) (k1_off81 t 4#32) (k1_off82_inb t 4) (k1_off81_inb t 4),
       cpiece d L sR0 g (k1_off80 t 4#32) (k1_off79 t 4#32) (k1_off80_inb t 4) (k1_off79_inb t 4),
       cpiece d L sR0 g (k1_off78 t 4#32) (k1_off77 t 4#32) (k1_off78_inb t 4) (k1_off77_inb t 4),
       cpiece d L sR0 g (k1_off76 t 4#32) (k1_off75 t 4#32) (k1_off76_inb t 4) (k1_off75_inb t 4),
       cpiece d L sR0 g (k1_off82 t 3#32) (k1_off81 t 3#32) (k1_off82_inb t 3) (k1_off81_inb t 3),
       cpiece d L sR0 g (k1_off80 t 3#32) (k1_off79 t 3#32) (k1_off80_inb t 3) (k1_off79_inb t 3),
       cpiece d L sR0 g (k1_off78 t 3#32) (k1_off77 t 3#32) (k1_off78_inb t 3) (k1_off77_inb t 3),
       cpiece d L sR0 g (k1_off76 t 3#32) (k1_off75 t 3#32) (k1_off76_inb t 3) (k1_off75_inb t 3),
       cpiece d L sR0 g (k1_off82 t 2#32) (k1_off81 t 2#32) (k1_off82_inb t 2) (k1_off81_inb t 2),
       cpiece d L sR0 g (k1_off80 t 2#32) (k1_off79 t 2#32) (k1_off80_inb t 2) (k1_off79_inb t 2),
       cpiece d L sR0 g (k1_off78 t 2#32) (k1_off77 t 2#32) (k1_off78_inb t 2) (k1_off77_inb t 2),
       cpiece d L sR0 g (k1_off76 t 2#32) (k1_off75 t 2#32) (k1_off76_inb t 2) (k1_off75_inb t 2),
       cpiece d L sR0 g (k1_off82 t 1#32) (k1_off81 t 1#32) (k1_off82_inb t 1) (k1_off81_inb t 1),
       cpiece d L sR0 g (k1_off80 t 1#32) (k1_off79 t 1#32) (k1_off80_inb t 1) (k1_off79_inb t 1),
       cpiece d L sR0 g (k1_off78 t 1#32) (k1_off77 t 1#32) (k1_off78_inb t 1) (k1_off77_inb t 1),
       cpiece d L sR0 g (k1_off76 t 1#32) (k1_off75 t 1#32) (k1_off76_inb t 1) (k1_off75_inb t 1),
       cpiece d L sR0 g (k1_off82 t 0#32) (k1_off81 t 0#32) (k1_off82_inb t 0) (k1_off81_inb t 0),
       cpiece d L sR0 g (k1_off80 t 0#32) (k1_off79 t 0#32) (k1_off80_inb t 0) (k1_off79_inb t 0),
       cpiece d L sR0 g (k1_off78 t 0#32) (k1_off77 t 0#32) (k1_off78_inb t 0) (k1_off77_inb t 0),
       cpiece d L sR0 g (k1_off76 t 0#32) (k1_off75 t 0#32) (k1_off76_inb t 0) (k1_off75_inb t 0)])) (t.val + 1) := by
  have h1 := row_step_cons d L sR0 sC1 g f [] (8 * t.val + 0) (k1_off76 t 0#32) (k1_off78 t 0#32) (k1_off80 t 0#32) (k1_off82 t 0#32) (k1_off75 t 0#32) (k1_off77 t 0#32) (k1_off79 t 0#32) (k1_off81 t 0#32)
    (k1_off76_eq t 0) (k1_off78_eq t 0) (k1_off80_eq t 0) (k1_off82_eq t 0) (k1_off75_eq t 0) (k1_off77_eq t 0) (k1_off79_eq t 0) (k1_off81_eq t 0)
    (k1_off76_inb t 0) (k1_off78_inb t 0) (k1_off80_inb t 0) (k1_off82_inb t 0) (k1_off75_inb t 0) (k1_off77_inb t 0) (k1_off79_inb t 0) (k1_off81_inb t 0) ((compacted_iff_rows _ _ _).1 hC)
  have h2 := row_step_cons d L sR0 sC1 g f _ (8 * t.val + 1) (k1_off76 t 1#32) (k1_off78 t 1#32) (k1_off80 t 1#32) (k1_off82 t 1#32) (k1_off75 t 1#32) (k1_off77 t 1#32) (k1_off79 t 1#32) (k1_off81 t 1#32)
    (k1_off76_eq t 1) (k1_off78_eq t 1) (k1_off80_eq t 1) (k1_off82_eq t 1) (k1_off75_eq t 1) (k1_off77_eq t 1) (k1_off79_eq t 1) (k1_off81_eq t 1)
    (k1_off76_inb t 1) (k1_off78_inb t 1) (k1_off80_inb t 1) (k1_off82_inb t 1) (k1_off75_inb t 1) (k1_off77_inb t 1) (k1_off79_inb t 1) (k1_off81_inb t 1) h1
  have h3 := row_step_cons d L sR0 sC1 g f _ (8 * t.val + 2) (k1_off76 t 2#32) (k1_off78 t 2#32) (k1_off80 t 2#32) (k1_off82 t 2#32) (k1_off75 t 2#32) (k1_off77 t 2#32) (k1_off79 t 2#32) (k1_off81 t 2#32)
    (k1_off76_eq t 2) (k1_off78_eq t 2) (k1_off80_eq t 2) (k1_off82_eq t 2) (k1_off75_eq t 2) (k1_off77_eq t 2) (k1_off79_eq t 2) (k1_off81_eq t 2)
    (k1_off76_inb t 2) (k1_off78_inb t 2) (k1_off80_inb t 2) (k1_off82_inb t 2) (k1_off75_inb t 2) (k1_off77_inb t 2) (k1_off79_inb t 2) (k1_off81_inb t 2) h2
  have h4 := row_step_cons d L sR0 sC1 g f _ (8 * t.val + 3) (k1_off76 t 3#32) (k1_off78 t 3#32) (k1_off80 t 3#32) (k1_off82 t 3#32) (k1_off75 t 3#32) (k1_off77 t 3#32) (k1_off79 t 3#32) (k1_off81 t 3#32)
    (k1_off76_eq t 3) (k1_off78_eq t 3) (k1_off80_eq t 3) (k1_off82_eq t 3) (k1_off75_eq t 3) (k1_off77_eq t 3) (k1_off79_eq t 3) (k1_off81_eq t 3)
    (k1_off76_inb t 3) (k1_off78_inb t 3) (k1_off80_inb t 3) (k1_off82_inb t 3) (k1_off75_inb t 3) (k1_off77_inb t 3) (k1_off79_inb t 3) (k1_off81_inb t 3) h3
  have h5 := row_step_cons d L sR0 sC1 g f _ (8 * t.val + 4) (k1_off76 t 4#32) (k1_off78 t 4#32) (k1_off80 t 4#32) (k1_off82 t 4#32) (k1_off75 t 4#32) (k1_off77 t 4#32) (k1_off79 t 4#32) (k1_off81 t 4#32)
    (k1_off76_eq t 4) (k1_off78_eq t 4) (k1_off80_eq t 4) (k1_off82_eq t 4) (k1_off75_eq t 4) (k1_off77_eq t 4) (k1_off79_eq t 4) (k1_off81_eq t 4)
    (k1_off76_inb t 4) (k1_off78_inb t 4) (k1_off80_inb t 4) (k1_off82_inb t 4) (k1_off75_inb t 4) (k1_off77_inb t 4) (k1_off79_inb t 4) (k1_off81_inb t 4) h4
  have h6 := row_step_cons d L sR0 sC1 g f _ (8 * t.val + 5) (k1_off76 t 5#32) (k1_off78 t 5#32) (k1_off80 t 5#32) (k1_off82 t 5#32) (k1_off75 t 5#32) (k1_off77 t 5#32) (k1_off79 t 5#32) (k1_off81 t 5#32)
    (k1_off76_eq t 5) (k1_off78_eq t 5) (k1_off80_eq t 5) (k1_off82_eq t 5) (k1_off75_eq t 5) (k1_off77_eq t 5) (k1_off79_eq t 5) (k1_off81_eq t 5)
    (k1_off76_inb t 5) (k1_off78_inb t 5) (k1_off80_inb t 5) (k1_off82_inb t 5) (k1_off75_inb t 5) (k1_off77_inb t 5) (k1_off79_inb t 5) (k1_off81_inb t 5) h5
  have h7 := row_step_cons d L sR0 sC1 g f _ (8 * t.val + 6) (k1_off76 t 6#32) (k1_off78 t 6#32) (k1_off80 t 6#32) (k1_off82 t 6#32) (k1_off75 t 6#32) (k1_off77 t 6#32) (k1_off79 t 6#32) (k1_off81 t 6#32)
    (k1_off76_eq t 6) (k1_off78_eq t 6) (k1_off80_eq t 6) (k1_off82_eq t 6) (k1_off75_eq t 6) (k1_off77_eq t 6) (k1_off79_eq t 6) (k1_off81_eq t 6)
    (k1_off76_inb t 6) (k1_off78_inb t 6) (k1_off80_inb t 6) (k1_off82_inb t 6) (k1_off75_inb t 6) (k1_off77_inb t 6) (k1_off79_inb t 6) (k1_off81_inb t 6) h6
  have h8 := row_step_cons d L sR0 sC1 g f _ (8 * t.val + 7) (k1_off76 t 7#32) (k1_off78 t 7#32) (k1_off80 t 7#32) (k1_off82 t 7#32) (k1_off75 t 7#32) (k1_off77 t 7#32) (k1_off79 t 7#32) (k1_off81 t 7#32)
    (k1_off76_eq t 7) (k1_off78_eq t 7) (k1_off80_eq t 7) (k1_off82_eq t 7) (k1_off75_eq t 7) (k1_off77_eq t 7) (k1_off79_eq t 7) (k1_off81_eq t 7)
    (k1_off76_inb t 7) (k1_off78_inb t 7) (k1_off80_inb t 7) (k1_off82_inb t 7) (k1_off75_inb t 7) (k1_off77_inb t 7) (k1_off79_inb t 7) (k1_off81_inb t 7) h7
  intro r c hr
  exact h8 r c (by omega)

end Cert.Proof.KI

end
-- ==== Proof.KI.TileVal2b.lean ====
/-
  The compaction steps of loops 11 to 20 of the 40, one statement each: trip t of a chunk's compaction loop copies eight more
  rows' first 64 columns from its landing buffer into its compacted buffer. Each is eight applications of the one-row
  step at the loop's own offset functions, whose closed forms are row 8 t + j, columns 0, 16, 32, 48.
-/
import proofs.«217222_g83150566851320_cont_9to1_m_45_25_alg».proof.Proof.KI.TileVal

noncomputable section

namespace Cert.Proof.KI

open Cert.KernelIdeal Cert.KernelIdeal.Gen

open Idealize.ShloMosaic
open Idealize.ShloMosaic.SparseCore (S V T)
open Idealize.ShloMosaic.ValueIdx (ix2 ix3)

variable {F : FTy → Type} [FloatOps F]

variable (d : Dev nD) (L : grid1.Coords)

/-- The compaction step of loop 11 of 40: trip t copies rows [8 t, 8 t + 8) of the landing buffer's first 64 columns. -/
theorem compact_step_t12 (t : Fin k1_t12_loop.trips) (g : Buf (Elt F) (sR1.view.loc (thr d L))) (f : Buf (Elt F) (sC0.view.loc (thr d L)))
    (hC : Compacted (sR1.view.read (Elt F) g) (sC0.view.read (Elt F) f) t.val) :
    Compacted (sR1.view.read (Elt F) g) (sC0.view.read (Elt F) (sC0.view.writes (Elt F) f
      [cpiece d L sR1 g (k1_off90 t 7#32) (k1_off89 t 7#32) (k1_off90_inb t 7) (k1_off89_inb t 7),
       cpiece d L sR1 g (k1_off88 t 7#32) (k1_off87 t 7#32) (k1_off88_inb t 7) (k1_off87_inb t 7),
       cpiece d L sR1 g (k1_off86 t 7#32) (k1_off85 t 7#32) (k1_off86_inb t 7) (k1_off85_inb t 7),
       cpiece d L sR1 g (k1_off84 t 7#32) (k1_off83 t 7#32) (k1_off84_inb t 7) (k1_off83_inb t 7),
       cpiece d L sR1 g (k1_off90 t 6#32) (k1_off89 t 6#32) (k1_off90_inb t 6) (k1_off89_inb t 6),
       cpiece d L sR1 g (k1_off88 t 6#32) (k1_off87 t 6#32) (k1_off88_inb t 6) (k1_off87_inb t 6),
       cpiece d L sR1 g (k1_off86 t 6#32) (k1_off85 t 6#32) (k1_off86_inb t 6) (k1_off85_inb t 6),
       cpiece d L sR1 g (k1_off84 t 6#32) (k1_off83 t 6#32) (k1_off84_inb t 6) (k1_off83_inb t 6),
       cpiece d L sR1 g (k1_off90 t 5#32) (k1_off89 t 5#32) (k1_off90_inb t 5) (k1_off89_inb t 5),
       cpiece d L sR1 g (k1_off88 t 5#32) (k1_off87 t 5#32) (k1_off88_inb t 5) (k1_off87_inb t 5),
       cpiece d L sR1 g (k1_off86 t 5#32) (k1_off85 t 5#32) (k1_off86_inb t 5) (k1_off85_inb t 5),
       cpiece d L sR1 g (k1_off84 t 5#32) (k1_off83 t 5#32) (k1_off84_inb t 5) (k1_off83_inb t 5),
       cpiece d L sR1 g (k1_off90 t 4#32) (k1_off89 t 4#32) (k1_off90_inb t 4) (k1_off89_inb t 4),
       cpiece d L sR1 g (k1_off88 t 4#32) (k1_off87 t 4#32) (k1_off88_inb t 4) (k1_off87_inb t 4),
       cpiece d L sR1 g (k1_off86 t 4#32) (k1_off85 t 4#32) (k1_off86_inb t 4) (k1_off85_inb t 4),
       cpiece d L sR1 g (k1_off84 t 4#32) (k1_off83 t 4#32) (k1_off84_inb t 4) (k1_off83_inb t 4),
       cpiece d L sR1 g (k1_off90 t 3#32) (k1_off89 t 3#32) (k1_off90_inb t 3) (k1_off89_inb t 3),
       cpiece d L sR1 g (k1_off88 t 3#32) (k1_off87 t 3#32) (k1_off88_inb t 3) (k1_off87_inb t 3),
       cpiece d L sR1 g (k1_off86 t 3#32) (k1_off85 t 3#32) (k1_off86_inb t 3) (k1_off85_inb t 3),
       cpiece d L sR1 g (k1_off84 t 3#32) (k1_off83 t 3#32) (k1_off84_inb t 3) (k1_off83_inb t 3),
       cpiece d L sR1 g (k1_off90 t 2#32) (k1_off89 t 2#32) (k1_off90_inb t 2) (k1_off89_inb t 2),
       cpiece d L sR1 g (k1_off88 t 2#32) (k1_off87 t 2#32) (k1_off88_inb t 2) (k1_off87_inb t 2),
       cpiece d L sR1 g (k1_off86 t 2#32) (k1_off85 t 2#32) (k1_off86_inb t 2) (k1_off85_inb t 2),
       cpiece d L sR1 g (k1_off84 t 2#32) (k1_off83 t 2#32) (k1_off84_inb t 2) (k1_off83_inb t 2),
       cpiece d L sR1 g (k1_off90 t 1#32) (k1_off89 t 1#32) (k1_off90_inb t 1) (k1_off89_inb t 1),
       cpiece d L sR1 g (k1_off88 t 1#32) (k1_off87 t 1#32) (k1_off88_inb t 1) (k1_off87_inb t 1),
       cpiece d L sR1 g (k1_off86 t 1#32) (k1_off85 t 1#32) (k1_off86_inb t 1) (k1_off85_inb t 1),
       cpiece d L sR1 g (k1_off84 t 1#32) (k1_off83 t 1#32) (k1_off84_inb t 1) (k1_off83_inb t 1),
       cpiece d L sR1 g (k1_off90 t 0#32) (k1_off89 t 0#32) (k1_off90_inb t 0) (k1_off89_inb t 0),
       cpiece d L sR1 g (k1_off88 t 0#32) (k1_off87 t 0#32) (k1_off88_inb t 0) (k1_off87_inb t 0),
       cpiece d L sR1 g (k1_off86 t 0#32) (k1_off85 t 0#32) (k1_off86_inb t 0) (k1_off85_inb t 0),
       cpiece d L sR1 g (k1_off84 t 0#32) (k1_off83 t 0#32) (k1_off84_inb t 0) (k1_off83_inb t 0)])) (t.val + 1) := by
  have h1 := row_step_cons d L sR1 sC0 g f [] (8 * t.val + 0) (k1_off84 t 0#32) (k1_off86 t 0#32) (k1_off88 t 0#32) (k1_off90 t 0#32) (k1_off83 t 0#32) (k1_off85 t 0#32) (k1_off87 t 0#32) (k1_off89 t 0#32)
    (k1_off84_eq t 0) (k1_off86_eq t 0) (k1_off88_eq t 0) (k1_off90_eq t 0) (k1_off83_eq t 0) (k1_off85_eq t 0) (k1_off87_eq t 0) (k1_off89_eq t 0)
    (k1_off84_inb t 0) (k1_off86_inb t 0) (k1_off88_inb t 0) (k1_off90_inb t 0) (k1_off83_inb t 0) (k1_off85_inb t 0) (k1_off87_inb t 0) (k1_off89_inb t 0) ((compacted_iff_rows _ _ _).1 hC)
  have h2 := row_step_cons d L sR1 sC0 g f _ (8 * t.val + 1) (k1_off84 t 1#32) (k1_off86 t 1#32) (k1_off88 t 1#32) (k1_off90 t 1#32) (k1_off83 t 1#32) (k1_off85 t 1#32) (k1_off87 t 1#32) (k1_off89 t 1#32)
    (k1_off84_eq t 1) (k1_off86_eq t 1) (k1_off88_eq t 1) (k1_off90_eq t 1) (k1_off83_eq t 1) (k1_off85_eq t 1) (k1_off87_eq t 1) (k1_off89_eq t 1)
    (k1_off84_inb t 1) (k1_off86_inb t 1) (k1_off88_inb t 1) (k1_off90_inb t 1) (k1_off83_inb t 1) (k1_off85_inb t 1) (k1_off87_inb t 1) (k1_off89_inb t 1) h1
  have h3 := row_step_cons d L sR1 sC0 g f _ (8 * t.val + 2) (k1_off84 t 2#32) (k1_off86 t 2#32) (k1_off88 t 2#32) (k1_off90 t 2#32) (k1_off83 t 2#32) (k1_off85 t 2#32) (k1_off87 t 2#32) (k1_off89 t 2#32)
    (k1_off84_eq t 2) (k1_off86_eq t 2) (k1_off88_eq t 2) (k1_off90_eq t 2) (k1_off83_eq t 2) (k1_off85_eq t 2) (k1_off87_eq t 2) (k1_off89_eq t 2)
    (k1_off84_inb t 2) (k1_off86_inb t 2) (k1_off88_inb t 2) (k1_off90_inb t 2) (k1_off83_inb t 2) (k1_off85_inb t 2) (k1_off87_inb t 2) (k1_off89_inb t 2) h2
  have h4 := row_step_cons d L sR1 sC0 g f _ (8 * t.val + 3) (k1_off84 t 3#32) (k1_off86 t 3#32) (k1_off88 t 3#32) (k1_off90 t 3#32) (k1_off83 t 3#32) (k1_off85 t 3#32) (k1_off87 t 3#32) (k1_off89 t 3#32)
    (k1_off84_eq t 3) (k1_off86_eq t 3) (k1_off88_eq t 3) (k1_off90_eq t 3) (k1_off83_eq t 3) (k1_off85_eq t 3) (k1_off87_eq t 3) (k1_off89_eq t 3)
    (k1_off84_inb t 3) (k1_off86_inb t 3) (k1_off88_inb t 3) (k1_off90_inb t 3) (k1_off83_inb t 3) (k1_off85_inb t 3) (k1_off87_inb t 3) (k1_off89_inb t 3) h3
  have h5 := row_step_cons d L sR1 sC0 g f _ (8 * t.val + 4) (k1_off84 t 4#32) (k1_off86 t 4#32) (k1_off88 t 4#32) (k1_off90 t 4#32) (k1_off83 t 4#32) (k1_off85 t 4#32) (k1_off87 t 4#32) (k1_off89 t 4#32)
    (k1_off84_eq t 4) (k1_off86_eq t 4) (k1_off88_eq t 4) (k1_off90_eq t 4) (k1_off83_eq t 4) (k1_off85_eq t 4) (k1_off87_eq t 4) (k1_off89_eq t 4)
    (k1_off84_inb t 4) (k1_off86_inb t 4) (k1_off88_inb t 4) (k1_off90_inb t 4) (k1_off83_inb t 4) (k1_off85_inb t 4) (k1_off87_inb t 4) (k1_off89_inb t 4) h4
  have h6 := row_step_cons d L sR1 sC0 g f _ (8 * t.val + 5) (k1_off84 t 5#32) (k1_off86 t 5#32) (k1_off88 t 5#32) (k1_off90 t 5#32) (k1_off83 t 5#32) (k1_off85 t 5#32) (k1_off87 t 5#32) (k1_off89 t 5#32)
    (k1_off84_eq t 5) (k1_off86_eq t 5) (k1_off88_eq t 5) (k1_off90_eq t 5) (k1_off83_eq t 5) (k1_off85_eq t 5) (k1_off87_eq t 5) (k1_off89_eq t 5)
    (k1_off84_inb t 5) (k1_off86_inb t 5) (k1_off88_inb t 5) (k1_off90_inb t 5) (k1_off83_inb t 5) (k1_off85_inb t 5) (k1_off87_inb t 5) (k1_off89_inb t 5) h5
  have h7 := row_step_cons d L sR1 sC0 g f _ (8 * t.val + 6) (k1_off84 t 6#32) (k1_off86 t 6#32) (k1_off88 t 6#32) (k1_off90 t 6#32) (k1_off83 t 6#32) (k1_off85 t 6#32) (k1_off87 t 6#32) (k1_off89 t 6#32)
    (k1_off84_eq t 6) (k1_off86_eq t 6) (k1_off88_eq t 6) (k1_off90_eq t 6) (k1_off83_eq t 6) (k1_off85_eq t 6) (k1_off87_eq t 6) (k1_off89_eq t 6)
    (k1_off84_inb t 6) (k1_off86_inb t 6) (k1_off88_inb t 6) (k1_off90_inb t 6) (k1_off83_inb t 6) (k1_off85_inb t 6) (k1_off87_inb t 6) (k1_off89_inb t 6) h6
  have h8 := row_step_cons d L sR1 sC0 g f _ (8 * t.val + 7) (k1_off84 t 7#32) (k1_off86 t 7#32) (k1_off88 t 7#32) (k1_off90 t 7#32) (k1_off83 t 7#32) (k1_off85 t 7#32) (k1_off87 t 7#32) (k1_off89 t 7#32)
    (k1_off84_eq t 7) (k1_off86_eq t 7) (k1_off88_eq t 7) (k1_off90_eq t 7) (k1_off83_eq t 7) (k1_off85_eq t 7) (k1_off87_eq t 7) (k1_off89_eq t 7)
    (k1_off84_inb t 7) (k1_off86_inb t 7) (k1_off88_inb t 7) (k1_off90_inb t 7) (k1_off83_inb t 7) (k1_off85_inb t 7) (k1_off87_inb t 7) (k1_off89_inb t 7) h7
  intro r c hr
  exact h8 r c (by omega)

/-- The compaction step of loop 12 of 40: trip t copies rows [8 t, 8 t + 8) of the landing buffer's first 64 columns. -/
theorem compact_step_t13 (t : Fin k1_t13_loop.trips) (g : Buf (Elt F) (sR2.view.loc (thr d L))) (f : Buf (Elt F) (sC1.view.loc (thr d L)))
    (hC : Compacted (sR2.view.read (Elt F) g) (sC1.view.read (Elt F) f) t.val) :
    Compacted (sR2.view.read (Elt F) g) (sC1.view.read (Elt F) (sC1.view.writes (Elt F) f
      [cpiece d L sR2 g (k1_off98 t 7#32) (k1_off97 t 7#32) (k1_off98_inb t 7) (k1_off97_inb t 7),
       cpiece d L sR2 g (k1_off96 t 7#32) (k1_off95 t 7#32) (k1_off96_inb t 7) (k1_off95_inb t 7),
       cpiece d L sR2 g (k1_off94 t 7#32) (k1_off93 t 7#32) (k1_off94_inb t 7) (k1_off93_inb t 7),
       cpiece d L sR2 g (k1_off92 t 7#32) (k1_off91 t 7#32) (k1_off92_inb t 7) (k1_off91_inb t 7),
       cpiece d L sR2 g (k1_off98 t 6#32) (k1_off97 t 6#32) (k1_off98_inb t 6) (k1_off97_inb t 6),
       cpiece d L sR2 g (k1_off96 t 6#32) (k1_off95 t 6#32) (k1_off96_inb t 6) (k1_off95_inb t 6),
       cpiece d L sR2 g (k1_off94 t 6#32) (k1_off93 t 6#32) (k1_off94_inb t 6) (k1_off93_inb t 6),
       cpiece d L sR2 g (k1_off92 t 6#32) (k1_off91 t 6#32) (k1_off92_inb t 6) (k1_off91_inb t 6),
       cpiece d L sR2 g (k1_off98 t 5#32) (k1_off97 t 5#32) (k1_off98_inb t 5) (k1_off97_inb t 5),
       cpiece d L sR2 g (k1_off96 t 5#32) (k1_off95 t 5#32) (k1_off96_inb t 5) (k1_off95_inb t 5),
       cpiece d L sR2 g (k1_off94 t 5#32) (k1_off93 t 5#32) (k1_off94_inb t 5) (k1_off93_inb t 5),
       cpiece d L sR2 g (k1_off92 t 5#32) (k1_off91 t 5#32) (k1_off92_inb t 5) (k1_off91_inb t 5),
       cpiece d L sR2 g (k1_off98 t 4#32) (k1_off97 t 4#32) (k1_off98_inb t 4) (k1_off97_inb t 4),
       cpiece d L sR2 g (k1_off96 t 4#32) (k1_off95 t 4#32) (k1_off96_inb t 4) (k1_off95_inb t 4),
       cpiece d L sR2 g (k1_off94 t 4#32) (k1_off93 t 4#32) (k1_off94_inb t 4) (k1_off93_inb t 4),
       cpiece d L sR2 g (k1_off92 t 4#32) (k1_off91 t 4#32) (k1_off92_inb t 4) (k1_off91_inb t 4),
       cpiece d L sR2 g (k1_off98 t 3#32) (k1_off97 t 3#32) (k1_off98_inb t 3) (k1_off97_inb t 3),
       cpiece d L sR2 g (k1_off96 t 3#32) (k1_off95 t 3#32) (k1_off96_inb t 3) (k1_off95_inb t 3),
       cpiece d L sR2 g (k1_off94 t 3#32) (k1_off93 t 3#32) (k1_off94_inb t 3) (k1_off93_inb t 3),
       cpiece d L sR2 g (k1_off92 t 3#32) (k1_off91 t 3#32) (k1_off92_inb t 3) (k1_off91_inb t 3),
       cpiece d L sR2 g (k1_off98 t 2#32) (k1_off97 t 2#32) (k1_off98_inb t 2) (k1_off97_inb t 2),
       cpiece d L sR2 g (k1_off96 t 2#32) (k1_off95 t 2#32) (k1_off96_inb t 2) (k1_off95_inb t 2),
       cpiece d L sR2 g (k1_off94 t 2#32) (k1_off93 t 2#32) (k1_off94_inb t 2) (k1_off93_inb t 2),
       cpiece d L sR2 g (k1_off92 t 2#32) (k1_off91 t 2#32) (k1_off92_inb t 2) (k1_off91_inb t 2),
       cpiece d L sR2 g (k1_off98 t 1#32) (k1_off97 t 1#32) (k1_off98_inb t 1) (k1_off97_inb t 1),
       cpiece d L sR2 g (k1_off96 t 1#32) (k1_off95 t 1#32) (k1_off96_inb t 1) (k1_off95_inb t 1),
       cpiece d L sR2 g (k1_off94 t 1#32) (k1_off93 t 1#32) (k1_off94_inb t 1) (k1_off93_inb t 1),
       cpiece d L sR2 g (k1_off92 t 1#32) (k1_off91 t 1#32) (k1_off92_inb t 1) (k1_off91_inb t 1),
       cpiece d L sR2 g (k1_off98 t 0#32) (k1_off97 t 0#32) (k1_off98_inb t 0) (k1_off97_inb t 0),
       cpiece d L sR2 g (k1_off96 t 0#32) (k1_off95 t 0#32) (k1_off96_inb t 0) (k1_off95_inb t 0),
       cpiece d L sR2 g (k1_off94 t 0#32) (k1_off93 t 0#32) (k1_off94_inb t 0) (k1_off93_inb t 0),
       cpiece d L sR2 g (k1_off92 t 0#32) (k1_off91 t 0#32) (k1_off92_inb t 0) (k1_off91_inb t 0)])) (t.val + 1) := by
  have h1 := row_step_cons d L sR2 sC1 g f [] (8 * t.val + 0) (k1_off92 t 0#32) (k1_off94 t 0#32) (k1_off96 t 0#32) (k1_off98 t 0#32) (k1_off91 t 0#32) (k1_off93 t 0#32) (k1_off95 t 0#32) (k1_off97 t 0#32)
    (k1_off92_eq t 0) (k1_off94_eq t 0) (k1_off96_eq t 0) (k1_off98_eq t 0) (k1_off91_eq t 0) (k1_off93_eq t 0) (k1_off95_eq t 0) (k1_off97_eq t 0)
    (k1_off92_inb t 0) (k1_off94_inb t 0) (k1_off96_inb t 0) (k1_off98_inb t 0) (k1_off91_inb t 0) (k1_off93_inb t 0) (k1_off95_inb t 0) (k1_off97_inb t 0) ((compacted_iff_rows _ _ _).1 hC)
  have h2 := row_step_cons d L sR2 sC1 g f _ (8 * t.val + 1) (k1_off92 t 1#32) (k1_off94 t 1#32) (k1_off96 t 1#32) (k1_off98 t 1#32) (k1_off91 t 1#32) (k1_off93 t 1#32) (k1_off95 t 1#32) (k1_off97 t 1#32)
    (k1_off92_eq t 1) (k1_off94_eq t 1) (k1_off96_eq t 1) (k1_off98_eq t 1) (k1_off91_eq t 1) (k1_off93_eq t 1) (k1_off95_eq t 1) (k1_off97_eq t 1)
    (k1_off92_inb t 1) (k1_off94_inb t 1) (k1_off96_inb t 1) (k1_off98_inb t 1) (k1_off91_inb t 1) (k1_off93_inb t 1) (k1_off95_inb t 1) (k1_off97_inb t 1) h1
  have h3 := row_step_cons d L sR2 sC1 g f _ (8 * t.val + 2) (k1_off92 t 2#32) (k1_off94 t 2#32) (k1_off96 t 2#32) (k1_off98 t 2#32) (k1_off91 t 2#32) (k1_off93 t 2#32) (k1_off95 t 2#32) (k1_off97 t 2#32)
    (k1_off92_eq t 2) (k1_off94_eq t 2) (k1_off96_eq t 2) (k1_off98_eq t 2) (k1_off91_eq t 2) (k1_off93_eq t 2) (k1_off95_eq t 2) (k1_off97_eq t 2)
    (k1_off92_inb t 2) (k1_off94_inb t 2) (k1_off96_inb t 2) (k1_off98_inb t 2) (k1_off91_inb t 2) (k1_off93_inb t 2) (k1_off95_inb t 2) (k1_off97_inb t 2) h2
  have h4 := row_step_cons d L sR2 sC1 g f _ (8 * t.val + 3) (k1_off92 t 3#32) (k1_off94 t 3#32) (k1_off96 t 3#32) (k1_off98 t 3#32) (k1_off91 t 3#32) (k1_off93 t 3#32) (k1_off95 t 3#32) (k1_off97 t 3#32)
    (k1_off92_eq t 3) (k1_off94_eq t 3) (k1_off96_eq t 3) (k1_off98_eq t 3) (k1_off91_eq t 3) (k1_off93_eq t 3) (k1_off95_eq t 3) (k1_off97_eq t 3)
    (k1_off92_inb t 3) (k1_off94_inb t 3) (k1_off96_inb t 3) (k1_off98_inb t 3) (k1_off91_inb t 3) (k1_off93_inb t 3) (k1_off95_inb t 3) (k1_off97_inb t 3) h3
  have h5 := row_step_cons d L sR2 sC1 g f _ (8 * t.val + 4) (k1_off92 t 4#32) (k1_off94 t 4#32) (k1_off96 t 4#32) (k1_off98 t 4#32) (k1_off91 t 4#32) (k1_off93 t 4#32) (k1_off95 t 4#32) (k1_off97 t 4#32)
    (k1_off92_eq t 4) (k1_off94_eq t 4) (k1_off96_eq t 4) (k1_off98_eq t 4) (k1_off91_eq t 4) (k1_off93_eq t 4) (k1_off95_eq t 4) (k1_off97_eq t 4)
    (k1_off92_inb t 4) (k1_off94_inb t 4) (k1_off96_inb t 4) (k1_off98_inb t 4) (k1_off91_inb t 4) (k1_off93_inb t 4) (k1_off95_inb t 4) (k1_off97_inb t 4) h4
  have h6 := row_step_cons d L sR2 sC1 g f _ (8 * t.val + 5) (k1_off92 t 5#32) (k1_off94 t 5#32) (k1_off96 t 5#32) (k1_off98 t 5#32) (k1_off91 t 5#32) (k1_off93 t 5#32) (k1_off95 t 5#32) (k1_off97 t 5#32)
    (k1_off92_eq t 5) (k1_off94_eq t 5) (k1_off96_eq t 5) (k1_off98_eq t 5) (k1_off91_eq t 5) (k1_off93_eq t 5) (k1_off95_eq t 5) (k1_off97_eq t 5)
    (k1_off92_inb t 5) (k1_off94_inb t 5) (k1_off96_inb t 5) (k1_off98_inb t 5) (k1_off91_inb t 5) (k1_off93_inb t 5) (k1_off95_inb t 5) (k1_off97_inb t 5) h5
  have h7 := row_step_cons d L sR2 sC1 g f _ (8 * t.val + 6) (k1_off92 t 6#32) (k1_off94 t 6#32) (k1_off96 t 6#32) (k1_off98 t 6#32) (k1_off91 t 6#32) (k1_off93 t 6#32) (k1_off95 t 6#32) (k1_off97 t 6#32)
    (k1_off92_eq t 6) (k1_off94_eq t 6) (k1_off96_eq t 6) (k1_off98_eq t 6) (k1_off91_eq t 6) (k1_off93_eq t 6) (k1_off95_eq t 6) (k1_off97_eq t 6)
    (k1_off92_inb t 6) (k1_off94_inb t 6) (k1_off96_inb t 6) (k1_off98_inb t 6) (k1_off91_inb t 6) (k1_off93_inb t 6) (k1_off95_inb t 6) (k1_off97_inb t 6) h6
  have h8 := row_step_cons d L sR2 sC1 g f _ (8 * t.val + 7) (k1_off92 t 7#32) (k1_off94 t 7#32) (k1_off96 t 7#32) (k1_off98 t 7#32) (k1_off91 t 7#32) (k1_off93 t 7#32) (k1_off95 t 7#32) (k1_off97 t 7#32)
    (k1_off92_eq t 7) (k1_off94_eq t 7) (k1_off96_eq t 7) (k1_off98_eq t 7) (k1_off91_eq t 7) (k1_off93_eq t 7) (k1_off95_eq t 7) (k1_off97_eq t 7)
    (k1_off92_inb t 7) (k1_off94_inb t 7) (k1_off96_inb t 7) (k1_off98_inb t 7) (k1_off91_inb t 7) (k1_off93_inb t 7) (k1_off95_inb t 7) (k1_off97_inb t 7) h7
  intro r c hr
  exact h8 r c (by omega)

/-- The compaction step of loop 13 of 40: trip t copies rows [8 t, 8 t + 8) of the landing buffer's first 64 columns. -/
theorem compact_step_t14 (t : Fin k1_t14_loop.trips) (g : Buf (Elt F) (sR0.view.loc (thr d L))) (f : Buf (Elt F) (sC0.view.loc (thr d L)))
    (hC : Compacted (sR0.view.read (Elt F) g) (sC0.view.read (Elt F) f) t.val) :
    Compacted (sR0.view.read (Elt F) g) (sC0.view.read (Elt F) (sC0.view.writes (Elt F) f
      [cpiece d L sR0 g (k1_off106 t 7#32) (k1_off105 t 7#32) (k1_off106_inb t 7) (k1_off105_inb t 7),
       cpiece d L sR0 g (k1_off104 t 7#32) (k1_off103 t 7#32) (k1_off104_inb t 7) (k1_off103_inb t 7),
       cpiece d L sR0 g (k1_off102 t 7#32) (k1_off101 t 7#32) (k1_off102_inb t 7) (k1_off101_inb t 7),
       cpiece d L sR0 g (k1_off100 t 7#32) (k1_off99 t 7#32) (k1_off100_inb t 7) (k1_off99_inb t 7),
       cpiece d L sR0 g (k1_off106 t 6#32) (k1_off105 t 6#32) (k1_off106_inb t 6) (k1_off105_inb t 6),
       cpiece d L sR0 g (k1_off104 t 6#32) (k1_off103 t 6#32) (k1_off104_inb t 6) (k1_off103_inb t 6),
       cpiece d L sR0 g (k1_off102 t 6#32) (k1_off101 t 6#32) (k1_off102_inb t 6) (k1_off101_inb t 6),
       cpiece d L sR0 g (k1_off100 t 6#32) (k1_off99 t 6#32) (k1_off100_inb t 6) (k1_off99_inb t 6),
       cpiece d L sR0 g (k1_off106 t 5#32) (k1_off105 t 5#32) (k1_off106_inb t 5) (k1_off105_inb t 5),
       cpiece d L sR0 g (k1_off104 t 5#32) (k1_off103 t 5#32) (k1_off104_inb t 5) (k1_off103_inb t 5),
       cpiece d L sR0 g (k1_off102 t 5#32) (k1_off101 t 5#32) (k1_off102_inb t 5) (k1_off101_inb t 5),
       cpiece d L sR0 g (k1_off100 t 5#32) (k1_off99 t 5#32) (k1_off100_inb t 5) (k1_off99_inb t 5),
       cpiece d L sR0 g (k1_off106 t 4#32) (k1_off105 t 4#32) (k1_off106_inb t 4) (k1_off105_inb t 4),
       cpiece d L sR0 g (k1_off104 t 4#32) (k1_off103 t 4#32) (k1_off104_inb t 4) (k1_off103_inb t 4),
       cpiece d L sR0 g (k1_off102 t 4#32) (k1_off101 t 4#32) (k1_off102_inb t 4) (k1_off101_inb t 4),
       cpiece d L sR0 g (k1_off100 t 4#32) (k1_off99 t 4#32) (k1_off100_inb t 4) (k1_off99_inb t 4),
       cpiece d L sR0 g (k1_off106 t 3#32) (k1_off105 t 3#32) (k1_off106_inb t 3) (k1_off105_inb t 3),
       cpiece d L sR0 g (k1_off104 t 3#32) (k1_off103 t 3#32) (k1_off104_inb t 3) (k1_off103_inb t 3),
       cpiece d L sR0 g (k1_off102 t 3#32) (k1_off101 t 3#32) (k1_off102_inb t 3) (k1_off101_inb t 3),
       cpiece d L sR0 g (k1_off100 t 3#32) (k1_off99 t 3#32) (k1_off100_inb t 3) (k1_off99_inb t 3),
       cpiece d L sR0 g (k1_off106 t 2#32) (k1_off105 t 2#32) (k1_off106_inb t 2) (k1_off105_inb t 2),
       cpiece d L sR0 g (k1_off104 t 2#32) (k1_off103 t 2#32) (k1_off104_inb t 2) (k1_off103_inb t 2),
       cpiece d L sR0 g (k1_off102 t 2#32) (k1_off101 t 2#32) (k1_off102_inb t 2) (k1_off101_inb t 2),
       cpiece d L sR0 g (k1_off100 t 2#32) (k1_off99 t 2#32) (k1_off100_inb t 2) (k1_off99_inb t 2),
       cpiece d L sR0 g (k1_off106 t 1#32) (k1_off105 t 1#32) (k1_off106_inb t 1) (k1_off105_inb t 1),
       cpiece d L sR0 g (k1_off104 t 1#32) (k1_off103 t 1#32) (k1_off104_inb t 1) (k1_off103_inb t 1),
       cpiece d L sR0 g (k1_off102 t 1#32) (k1_off101 t 1#32) (k1_off102_inb t 1) (k1_off101_inb t 1),
       cpiece d L sR0 g (k1_off100 t 1#32) (k1_off99 t 1#32) (k1_off100_inb t 1) (k1_off99_inb t 1),
       cpiece d L sR0 g (k1_off106 t 0#32) (k1_off105 t 0#32) (k1_off106_inb t 0) (k1_off105_inb t 0),
       cpiece d L sR0 g (k1_off104 t 0#32) (k1_off103 t 0#32) (k1_off104_inb t 0) (k1_off103_inb t 0),
       cpiece d L sR0 g (k1_off102 t 0#32) (k1_off101 t 0#32) (k1_off102_inb t 0) (k1_off101_inb t 0),
       cpiece d L sR0 g (k1_off100 t 0#32) (k1_off99 t 0#32) (k1_off100_inb t 0) (k1_off99_inb t 0)])) (t.val + 1) := by
  have h1 := row_step_cons d L sR0 sC0 g f [] (8 * t.val + 0) (k1_off100 t 0#32) (k1_off102 t 0#32) (k1_off104 t 0#32) (k1_off106 t 0#32) (k1_off99 t 0#32) (k1_off101 t 0#32) (k1_off103 t 0#32) (k1_off105 t 0#32)
    (k1_off100_eq t 0) (k1_off102_eq t 0) (k1_off104_eq t 0) (k1_off106_eq t 0) (k1_off99_eq t 0) (k1_off101_eq t 0) (k1_off103_eq t 0) (k1_off105_eq t 0)
    (k1_off100_inb t 0) (k1_off102_inb t 0) (k1_off104_inb t 0) (k1_off106_inb t 0) (k1_off99_inb t 0) (k1_off101_inb t 0) (k1_off103_inb t 0) (k1_off105_inb t 0) ((compacted_iff_rows _ _ _).1 hC)
  have h2 := row_step_cons d L sR0 sC0 g f _ (8 * t.val + 1) (k1_off100 t 1#32) (k1_off102 t 1#32) (k1_off104 t 1#32) (k1_off106 t 1#32) (k1_off99 t 1#32) (k1_off101 t 1#32) (k1_off103 t 1#32) (k1_off105 t 1#32)
    (k1_off100_eq t 1) (k1_off102_eq t 1) (k1_off104_eq t 1) (k1_off106_eq t 1) (k1_off99_eq t 1) (k1_off101_eq t 1) (k1_off103_eq t 1) (k1_off105_eq t 1)
    (k1_off100_inb t 1) (k1_off102_inb t 1) (k1_off104_inb t 1) (k1_off106_inb t 1) (k1_off99_inb t 1) (k1_off101_inb t 1) (k1_off103_inb t 1) (k1_off105_inb t 1) h1
  have h3 := row_step_cons d L sR0 sC0 g f _ (8 * t.val + 2) (k1_off100 t 2#32) (k1_off102 t 2#32) (k1_off104 t 2#32) (k1_off106 t 2#32) (k1_off99 t 2#32) (k1_off101 t 2#32) (k1_off103 t 2#32) (k1_off105 t 2#32)
    (k1_off100_eq t 2) (k1_off102_eq t 2) (k1_off104_eq t 2) (k1_off106_eq t 2) (k1_off99_eq t 2) (k1_off101_eq t 2) (k1_off103_eq t 2) (k1_off105_eq t 2)
    (k1_off100_inb t 2) (k1_off102_inb t 2) (k1_off104_inb t 2) (k1_off106_inb t 2) (k1_off99_inb t 2) (k1_off101_inb t 2) (k1_off103_inb t 2) (k1_off105_inb t 2) h2
  have h4 := row_step_cons d L sR0 sC0 g f _ (8 * t.val + 3) (k1_off100 t 3#32) (k1_off102 t 3#32) (k1_off104 t 3#32) (k1_off106 t 3#32) (k1_off99 t 3#32) (k1_off101 t 3#32) (k1_off103 t 3#32) (k1_off105 t 3#32)
    (k1_off100_eq t 3) (k1_off102_eq t 3) (k1_off104_eq t 3) (k1_off106_eq t 3) (k1_off99_eq t 3) (k1_off101_eq t 3) (k1_off103_eq t 3) (k1_off105_eq t 3)
    (k1_off100_inb t 3) (k1_off102_inb t 3) (k1_off104_inb t 3) (k1_off106_inb t 3) (k1_off99_inb t 3) (k1_off101_inb t 3) (k1_off103_inb t 3) (k1_off105_inb t 3) h3
  have h5 := row_step_cons d L sR0 sC0 g f _ (8 * t.val + 4) (k1_off100 t 4#32) (k1_off102 t 4#32) (k1_off104 t 4#32) (k1_off106 t 4#32) (k1_off99 t 4#32) (k1_off101 t 4#32) (k1_off103 t 4#32) (k1_off105 t 4#32)
    (k1_off100_eq t 4) (k1_off102_eq t 4) (k1_off104_eq t 4) (k1_off106_eq t 4) (k1_off99_eq t 4) (k1_off101_eq t 4) (k1_off103_eq t 4) (k1_off105_eq t 4)
    (k1_off100_inb t 4) (k1_off102_inb t 4) (k1_off104_inb t 4) (k1_off106_inb t 4) (k1_off99_inb t 4) (k1_off101_inb t 4) (k1_off103_inb t 4) (k1_off105_inb t 4) h4
  have h6 := row_step_cons d L sR0 sC0 g f _ (8 * t.val + 5) (k1_off100 t 5#32) (k1_off102 t 5#32) (k1_off104 t 5#32) (k1_off106 t 5#32) (k1_off99 t 5#32) (k1_off101 t 5#32) (k1_off103 t 5#32) (k1_off105 t 5#32)
    (k1_off100_eq t 5) (k1_off102_eq t 5) (k1_off104_eq t 5) (k1_off106_eq t 5) (k1_off99_eq t 5) (k1_off101_eq t 5) (k1_off103_eq t 5) (k1_off105_eq t 5)
    (k1_off100_inb t 5) (k1_off102_inb t 5) (k1_off104_inb t 5) (k1_off106_inb t 5) (k1_off99_inb t 5) (k1_off101_inb t 5) (k1_off103_inb t 5) (k1_off105_inb t 5) h5
  have h7 := row_step_cons d L sR0 sC0 g f _ (8 * t.val + 6) (k1_off100 t 6#32) (k1_off102 t 6#32) (k1_off104 t 6#32) (k1_off106 t 6#32) (k1_off99 t 6#32) (k1_off101 t 6#32) (k1_off103 t 6#32) (k1_off105 t 6#32)
    (k1_off100_eq t 6) (k1_off102_eq t 6) (k1_off104_eq t 6) (k1_off106_eq t 6) (k1_off99_eq t 6) (k1_off101_eq t 6) (k1_off103_eq t 6) (k1_off105_eq t 6)
    (k1_off100_inb t 6) (k1_off102_inb t 6) (k1_off104_inb t 6) (k1_off106_inb t 6) (k1_off99_inb t 6) (k1_off101_inb t 6) (k1_off103_inb t 6) (k1_off105_inb t 6) h6
  have h8 := row_step_cons d L sR0 sC0 g f _ (8 * t.val + 7) (k1_off100 t 7#32) (k1_off102 t 7#32) (k1_off104 t 7#32) (k1_off106 t 7#32) (k1_off99 t 7#32) (k1_off101 t 7#32) (k1_off103 t 7#32) (k1_off105 t 7#32)
    (k1_off100_eq t 7) (k1_off102_eq t 7) (k1_off104_eq t 7) (k1_off106_eq t 7) (k1_off99_eq t 7) (k1_off101_eq t 7) (k1_off103_eq t 7) (k1_off105_eq t 7)
    (k1_off100_inb t 7) (k1_off102_inb t 7) (k1_off104_inb t 7) (k1_off106_inb t 7) (k1_off99_inb t 7) (k1_off101_inb t 7) (k1_off103_inb t 7) (k1_off105_inb t 7) h7
  intro r c hr
  exact h8 r c (by omega)

/-- The compaction step of loop 14 of 40: trip t copies rows [8 t, 8 t + 8) of the landing buffer's first 64 columns. -/
theorem compact_step_t15 (t : Fin k1_t15_loop.trips) (g : Buf (Elt F) (sR1.view.loc (thr d L))) (f : Buf (Elt F) (sC1.view.loc (thr d L)))
    (hC : Compacted (sR1.view.read (Elt F) g) (sC1.view.read (Elt F) f) t.val) :
    Compacted (sR1.view.read (Elt F) g) (sC1.view.read (Elt F) (sC1.view.writes (Elt F) f
      [cpiece d L sR1 g (k1_off114 t 7#32) (k1_off113 t 7#32) (k1_off114_inb t 7) (k1_off113_inb t 7),
       cpiece d L sR1 g (k1_off112 t 7#32) (k1_off111 t 7#32) (k1_off112_inb t 7) (k1_off111_inb t 7),
       cpiece d L sR1 g (k1_off110 t 7#32) (k1_off109 t 7#32) (k1_off110_inb t 7) (k1_off109_inb t 7),
       cpiece d L sR1 g (k1_off108 t 7#32) (k1_off107 t 7#32) (k1_off108_inb t 7) (k1_off107_inb t 7),
       cpiece d L sR1 g (k1_off114 t 6#32) (k1_off113 t 6#32) (k1_off114_inb t 6) (k1_off113_inb t 6),
       cpiece d L sR1 g (k1_off112 t 6#32) (k1_off111 t 6#32) (k1_off112_inb t 6) (k1_off111_inb t 6),
       cpiece d L sR1 g (k1_off110 t 6#32) (k1_off109 t 6#32) (k1_off110_inb t 6) (k1_off109_inb t 6),
       cpiece d L sR1 g (k1_off108 t 6#32) (k1_off107 t 6#32) (k1_off108_inb t 6) (k1_off107_inb t 6),
       cpiece d L sR1 g (k1_off114 t 5#32) (k1_off113 t 5#32) (k1_off114_inb t 5) (k1_off113_inb t 5),
       cpiece d L sR1 g (k1_off112 t 5#32) (k1_off111 t 5#32) (k1_off112_inb t 5) (k1_off111_inb t 5),
       cpiece d L sR1 g (k1_off110 t 5#32) (k1_off109 t 5#32) (k1_off110_inb t 5) (k1_off109_inb t 5),
       cpiece d L sR1 g (k1_off108 t 5#32) (k1_off107 t 5#32) (k1_off108_inb t 5) (k1_off107_inb t 5),
       cpiece d L sR1 g (k1_off114 t 4#32) (k1_off113 t 4#32) (k1_off114_inb t 4) (k1_off113_inb t 4),
       cpiece d L sR1 g (k1_off112 t 4#32) (k1_off111 t 4#32) (k1_off112_inb t 4) (k1_off111_inb t 4),
       cpiece d L sR1 g (k1_off110 t 4#32) (k1_off109 t 4#32) (k1_off110_inb t 4) (k1_off109_inb t 4),
       cpiece d L sR1 g (k1_off108 t 4#32) (k1_off107 t 4#32) (k1_off108_inb t 4) (k1_off107_inb t 4),
       cpiece d L sR1 g (k1_off114 t 3#32) (k1_off113 t 3#32) (k1_off114_inb t 3) (k1_off113_inb t 3),
       cpiece d L sR1 g (k1_off112 t 3#32) (k1_off111 t 3#32) (k1_off112_inb t 3) (k1_off111_inb t 3),
       cpiece d L sR1 g (k1_off110 t 3#32) (k1_off109 t 3#32) (k1_off110_inb t 3) (k1_off109_inb t 3),
       cpiece d L sR1 g (k1_off108 t 3#32) (k1_off107 t 3#32) (k1_off108_inb t 3) (k1_off107_inb t 3),
       cpiece d L sR1 g (k1_off114 t 2#32) (k1_off113 t 2#32) (k1_off114_inb t 2) (k1_off113_inb t 2),
       cpiece d L sR1 g (k1_off112 t 2#32) (k1_off111 t 2#32) (k1_off112_inb t 2) (k1_off111_inb t 2),
       cpiece d L sR1 g (k1_off110 t 2#32) (k1_off109 t 2#32) (k1_off110_inb t 2) (k1_off109_inb t 2),
       cpiece d L sR1 g (k1_off108 t 2#32) (k1_off107 t 2#32) (k1_off108_inb t 2) (k1_off107_inb t 2),
       cpiece d L sR1 g (k1_off114 t 1#32) (k1_off113 t 1#32) (k1_off114_inb t 1) (k1_off113_inb t 1),
       cpiece d L sR1 g (k1_off112 t 1#32) (k1_off111 t 1#32) (k1_off112_inb t 1) (k1_off111_inb t 1),
       cpiece d L sR1 g (k1_off110 t 1#32) (k1_off109 t 1#32) (k1_off110_inb t 1) (k1_off109_inb t 1),
       cpiece d L sR1 g (k1_off108 t 1#32) (k1_off107 t 1#32) (k1_off108_inb t 1) (k1_off107_inb t 1),
       cpiece d L sR1 g (k1_off114 t 0#32) (k1_off113 t 0#32) (k1_off114_inb t 0) (k1_off113_inb t 0),
       cpiece d L sR1 g (k1_off112 t 0#32) (k1_off111 t 0#32) (k1_off112_inb t 0) (k1_off111_inb t 0),
       cpiece d L sR1 g (k1_off110 t 0#32) (k1_off109 t 0#32) (k1_off110_inb t 0) (k1_off109_inb t 0),
       cpiece d L sR1 g (k1_off108 t 0#32) (k1_off107 t 0#32) (k1_off108_inb t 0) (k1_off107_inb t 0)])) (t.val + 1) := by
  have h1 := row_step_cons d L sR1 sC1 g f [] (8 * t.val + 0) (k1_off108 t 0#32) (k1_off110 t 0#32) (k1_off112 t 0#32) (k1_off114 t 0#32) (k1_off107 t 0#32) (k1_off109 t 0#32) (k1_off111 t 0#32) (k1_off113 t 0#32)
    (k1_off108_eq t 0) (k1_off110_eq t 0) (k1_off112_eq t 0) (k1_off114_eq t 0) (k1_off107_eq t 0) (k1_off109_eq t 0) (k1_off111_eq t 0) (k1_off113_eq t 0)
    (k1_off108_inb t 0) (k1_off110_inb t 0) (k1_off112_inb t 0) (k1_off114_inb t 0) (k1_off107_inb t 0) (k1_off109_inb t 0) (k1_off111_inb t 0) (k1_off113_inb t 0) ((compacted_iff_rows _ _ _).1 hC)
  have h2 := row_step_cons d L sR1 sC1 g f _ (8 * t.val + 1) (k1_off108 t 1#32) (k1_off110 t 1#32) (k1_off112 t 1#32) (k1_off114 t 1#32) (k1_off107 t 1#32) (k1_off109 t 1#32) (k1_off111 t 1#32) (k1_off113 t 1#32)
    (k1_off108_eq t 1) (k1_off110_eq t 1) (k1_off112_eq t 1) (k1_off114_eq t 1) (k1_off107_eq t 1) (k1_off109_eq t 1) (k1_off111_eq t 1) (k1_off113_eq t 1)
    (k1_off108_inb t 1) (k1_off110_inb t 1) (k1_off112_inb t 1) (k1_off114_inb t 1) (k1_off107_inb t 1) (k1_off109_inb t 1) (k1_off111_inb t 1) (k1_off113_inb t 1) h1
  have h3 := row_step_cons d L sR1 sC1 g f _ (8 * t.val + 2) (k1_off108 t 2#32) (k1_off110 t 2#32) (k1_off112 t 2#32) (k1_off114 t 2#32) (k1_off107 t 2#32) (k1_off109 t 2#32) (k1_off111 t 2#32) (k1_off113 t 2#32)
    (k1_off108_eq t 2) (k1_off110_eq t 2) (k1_off112_eq t 2) (k1_off114_eq t 2) (k1_off107_eq t 2) (k1_off109_eq t 2) (k1_off111_eq t 2) (k1_off113_eq t 2)
    (k1_off108_inb t 2) (k1_off110_inb t 2) (k1_off112_inb t 2) (k1_off114_inb t 2) (k1_off107_inb t 2) (k1_off109_inb t 2) (k1_off111_inb t 2) (k1_off113_inb t 2) h2
  have h4 := row_step_cons d L sR1 sC1 g f _ (8 * t.val + 3) (k1_off108 t 3#32) (k1_off110 t 3#32) (k1_off112 t 3#32) (k1_off114 t 3#32) (k1_off107 t 3#32) (k1_off109 t 3#32) (k1_off111 t 3#32) (k1_off113 t 3#32)
    (k1_off108_eq t 3) (k1_off110_eq t 3) (k1_off112_eq t 3) (k1_off114_eq t 3) (k1_off107_eq t 3) (k1_off109_eq t 3) (k1_off111_eq t 3) (k1_off113_eq t 3)
    (k1_off108_inb t 3) (k1_off110_inb t 3) (k1_off112_inb t 3) (k1_off114_inb t 3) (k1_off107_inb t 3) (k1_off109_inb t 3) (k1_off111_inb t 3) (k1_off113_inb t 3) h3
  have h5 := row_step_cons d L sR1 sC1 g f _ (8 * t.val + 4) (k1_off108 t 4#32) (k1_off110 t 4#32) (k1_off112 t 4#32) (k1_off114 t 4#32) (k1_off107 t 4#32) (k1_off109 t 4#32) (k1_off111 t 4#32) (k1_off113 t 4#32)
    (k1_off108_eq t 4) (k1_off110_eq t 4) (k1_off112_eq t 4) (k1_off114_eq t 4) (k1_off107_eq t 4) (k1_off109_eq t 4) (k1_off111_eq t 4) (k1_off113_eq t 4)
    (k1_off108_inb t 4) (k1_off110_inb t 4) (k1_off112_inb t 4) (k1_off114_inb t 4) (k1_off107_inb t 4) (k1_off109_inb t 4) (k1_off111_inb t 4) (k1_off113_inb t 4) h4
  have h6 := row_step_cons d L sR1 sC1 g f _ (8 * t.val + 5) (k1_off108 t 5#32) (k1_off110 t 5#32) (k1_off112 t 5#32) (k1_off114 t 5#32) (k1_off107 t 5#32) (k1_off109 t 5#32) (k1_off111 t 5#32) (k1_off113 t 5#32)
    (k1_off108_eq t 5) (k1_off110_eq t 5) (k1_off112_eq t 5) (k1_off114_eq t 5) (k1_off107_eq t 5) (k1_off109_eq t 5) (k1_off111_eq t 5) (k1_off113_eq t 5)
    (k1_off108_inb t 5) (k1_off110_inb t 5) (k1_off112_inb t 5) (k1_off114_inb t 5) (k1_off107_inb t 5) (k1_off109_inb t 5) (k1_off111_inb t 5) (k1_off113_inb t 5) h5
  have h7 := row_step_cons d L sR1 sC1 g f _ (8 * t.val + 6) (k1_off108 t 6#32) (k1_off110 t 6#32) (k1_off112 t 6#32) (k1_off114 t 6#32) (k1_off107 t 6#32) (k1_off109 t 6#32) (k1_off111 t 6#32) (k1_off113 t 6#32)
    (k1_off108_eq t 6) (k1_off110_eq t 6) (k1_off112_eq t 6) (k1_off114_eq t 6) (k1_off107_eq t 6) (k1_off109_eq t 6) (k1_off111_eq t 6) (k1_off113_eq t 6)
    (k1_off108_inb t 6) (k1_off110_inb t 6) (k1_off112_inb t 6) (k1_off114_inb t 6) (k1_off107_inb t 6) (k1_off109_inb t 6) (k1_off111_inb t 6) (k1_off113_inb t 6) h6
  have h8 := row_step_cons d L sR1 sC1 g f _ (8 * t.val + 7) (k1_off108 t 7#32) (k1_off110 t 7#32) (k1_off112 t 7#32) (k1_off114 t 7#32) (k1_off107 t 7#32) (k1_off109 t 7#32) (k1_off111 t 7#32) (k1_off113 t 7#32)
    (k1_off108_eq t 7) (k1_off110_eq t 7) (k1_off112_eq t 7) (k1_off114_eq t 7) (k1_off107_eq t 7) (k1_off109_eq t 7) (k1_off111_eq t 7) (k1_off113_eq t 7)
    (k1_off108_inb t 7) (k1_off110_inb t 7) (k1_off112_inb t 7) (k1_off114_inb t 7) (k1_off107_inb t 7) (k1_off109_inb t 7) (k1_off111_inb t 7) (k1_off113_inb t 7) h7
  intro r c hr
  exact h8 r c (by omega)

/-- The compaction step of loop 15 of 40: trip t copies rows [8 t, 8 t + 8) of the landing buffer's first 64 columns. -/
theorem compact_step_t16 (t : Fin k1_t16_loop.trips) (g : Buf (Elt F) (sR2.view.loc (thr d L))) (f : Buf (Elt F) (sC0.view.loc (thr d L)))
    (hC : Compacted (sR2.view.read (Elt F) g) (sC0.view.read (Elt F) f) t.val) :
    Compacted (sR2.view.read (Elt F) g) (sC0.view.read (Elt F) (sC0.view.writes (Elt F) f
      [cpiece d L sR2 g (k1_off122 t 7#32) (k1_off121 t 7#32) (k1_off122_inb t 7) (k1_off121_inb t 7),
       cpiece d L sR2 g (k1_off120 t 7#32) (k1_off119 t 7#32) (k1_off120_inb t 7) (k1_off119_inb t 7),
       cpiece d L sR2 g (k1_off118 t 7#32) (k1_off117 t 7#32) (k1_off118_inb t 7) (k1_off117_inb t 7),
       cpiece d L sR2 g (k1_off116 t 7#32) (k1_off115 t 7#32) (k1_off116_inb t 7) (k1_off115_inb t 7),
       cpiece d L sR2 g (k1_off122 t 6#32) (k1_off121 t 6#32) (k1_off122_inb t 6) (k1_off121_inb t 6),
       cpiece d L sR2 g (k1_off120 t 6#32) (k1_off119 t 6#32) (k1_off120_inb t 6) (k1_off119_inb t 6),
       cpiece d L sR2 g (k1_off118 t 6#32) (k1_off117 t 6#32) (k1_off118_inb t 6) (k1_off117_inb t 6),
       cpiece d L sR2 g (k1_off116 t 6#32) (k1_off115 t 6#32) (k1_off116_inb t 6) (k1_off115_inb t 6),
       cpiece d L sR2 g (k1_off122 t 5#32) (k1_off121 t 5#32) (k1_off122_inb t 5) (k1_off121_inb t 5),
       cpiece d L sR2 g (k1_off120 t 5#32) (k1_off119 t 5#32) (k1_off120_inb t 5) (k1_off119_inb t 5),
       cpiece d L sR2 g (k1_off118 t 5#32) (k1_off117 t 5#32) (k1_off118_inb t 5) (k1_off117_inb t 5),
       cpiece d L sR2 g (k1_off116 t 5#32) (k1_off115 t 5#32) (k1_off116_inb t 5) (k1_off115_inb t 5),
       cpiece d L sR2 g (k1_off122 t 4#32) (k1_off121 t 4#32) (k1_off122_inb t 4) (k1_off121_inb t 4),
       cpiece d L sR2 g (k1_off120 t 4#32) (k1_off119 t 4#32) (k1_off120_inb t 4) (k1_off119_inb t 4),
       cpiece d L sR2 g (k1_off118 t 4#32) (k1_off117 t 4#32) (k1_off118_inb t 4) (k1_off117_inb t 4),
       cpiece d L sR2 g (k1_off116 t 4#32) (k1_off115 t 4#32) (k1_off116_inb t 4) (k1_off115_inb t 4),
       cpiece d L sR2 g (k1_off122 t 3#32) (k1_off121 t 3#32) (k1_off122_inb t 3) (k1_off121_inb t 3),
       cpiece d L sR2 g (k1_off120 t 3#32) (k1_off119 t 3#32) (k1_off120_inb t 3) (k1_off119_inb t 3),
       cpiece d L sR2 g (k1_off118 t 3#32) (k1_off117 t 3#32) (k1_off118_inb t 3) (k1_off117_inb t 3),
       cpiece d L sR2 g (k1_off116 t 3#32) (k1_off115 t 3#32) (k1_off116_inb t 3) (k1_off115_inb t 3),
       cpiece d L sR2 g (k1_off122 t 2#32) (k1_off121 t 2#32) (k1_off122_inb t 2) (k1_off121_inb t 2),
       cpiece d L sR2 g (k1_off120 t 2#32) (k1_off119 t 2#32) (k1_off120_inb t 2) (k1_off119_inb t 2),
       cpiece d L sR2 g (k1_off118 t 2#32) (k1_off117 t 2#32) (k1_off118_inb t 2) (k1_off117_inb t 2),
       cpiece d L sR2 g (k1_off116 t 2#32) (k1_off115 t 2#32) (k1_off116_inb t 2) (k1_off115_inb t 2),
       cpiece d L sR2 g (k1_off122 t 1#32) (k1_off121 t 1#32) (k1_off122_inb t 1) (k1_off121_inb t 1),
       cpiece d L sR2 g (k1_off120 t 1#32) (k1_off119 t 1#32) (k1_off120_inb t 1) (k1_off119_inb t 1),
       cpiece d L sR2 g (k1_off118 t 1#32) (k1_off117 t 1#32) (k1_off118_inb t 1) (k1_off117_inb t 1),
       cpiece d L sR2 g (k1_off116 t 1#32) (k1_off115 t 1#32) (k1_off116_inb t 1) (k1_off115_inb t 1),
       cpiece d L sR2 g (k1_off122 t 0#32) (k1_off121 t 0#32) (k1_off122_inb t 0) (k1_off121_inb t 0),
       cpiece d L sR2 g (k1_off120 t 0#32) (k1_off119 t 0#32) (k1_off120_inb t 0) (k1_off119_inb t 0),
       cpiece d L sR2 g (k1_off118 t 0#32) (k1_off117 t 0#32) (k1_off118_inb t 0) (k1_off117_inb t 0),
       cpiece d L sR2 g (k1_off116 t 0#32) (k1_off115 t 0#32) (k1_off116_inb t 0) (k1_off115_inb t 0)])) (t.val + 1) := by
  have h1 := row_step_cons d L sR2 sC0 g f [] (8 * t.val + 0) (k1_off116 t 0#32) (k1_off118 t 0#32) (k1_off120 t 0#32) (k1_off122 t 0#32) (k1_off115 t 0#32) (k1_off117 t 0#32) (k1_off119 t 0#32) (k1_off121 t 0#32)
    (k1_off116_eq t 0) (k1_off118_eq t 0) (k1_off120_eq t 0) (k1_off122_eq t 0) (k1_off115_eq t 0) (k1_off117_eq t 0) (k1_off119_eq t 0) (k1_off121_eq t 0)
    (k1_off116_inb t 0) (k1_off118_inb t 0) (k1_off120_inb t 0) (k1_off122_inb t 0) (k1_off115_inb t 0) (k1_off117_inb t 0) (k1_off119_inb t 0) (k1_off121_inb t 0) ((compacted_iff_rows _ _ _).1 hC)
  have h2 := row_step_cons d L sR2 sC0 g f _ (8 * t.val + 1) (k1_off116 t 1#32) (k1_off118 t 1#32) (k1_off120 t 1#32) (k1_off122 t 1#32) (k1_off115 t 1#32) (k1_off117 t 1#32) (k1_off119 t 1#32) (k1_off121 t 1#32)
    (k1_off116_eq t 1) (k1_off118_eq t 1) (k1_off120_eq t 1) (k1_off122_eq t 1) (k1_off115_eq t 1) (k1_off117_eq t 1) (k1_off119_eq t 1) (k1_off121_eq t 1)
    (k1_off116_inb t 1) (k1_off118_inb t 1) (k1_off120_inb t 1) (k1_off122_inb t 1) (k1_off115_inb t 1) (k1_off117_inb t 1) (k1_off119_inb t 1) (k1_off121_inb t 1) h1
  have h3 := row_step_cons d L sR2 sC0 g f _ (8 * t.val + 2) (k1_off116 t 2#32) (k1_off118 t 2#32) (k1_off120 t 2#32) (k1_off122 t 2#32) (k1_off115 t 2#32) (k1_off117 t 2#32) (k1_off119 t 2#32) (k1_off121 t 2#32)
    (k1_off116_eq t 2) (k1_off118_eq t 2) (k1_off120_eq t 2) (k1_off122_eq t 2) (k1_off115_eq t 2) (k1_off117_eq t 2) (k1_off119_eq t 2) (k1_off121_eq t 2)
    (k1_off116_inb t 2) (k1_off118_inb t 2) (k1_off120_inb t 2) (k1_off122_inb t 2) (k1_off115_inb t 2) (k1_off117_inb t 2) (k1_off119_inb t 2) (k1_off121_inb t 2) h2
  have h4 := row_step_cons d L sR2 sC0 g f _ (8 * t.val + 3) (k1_off116 t 3#32) (k1_off118 t 3#32) (k1_off120 t 3#32) (k1_off122 t 3#32) (k1_off115 t 3#32) (k1_off117 t 3#32) (k1_off119 t 3#32) (k1_off121 t 3#32)
    (k1_off116_eq t 3) (k1_off118_eq t 3) (k1_off120_eq t 3) (k1_off122_eq t 3) (k1_off115_eq t 3) (k1_off117_eq t 3) (k1_off119_eq t 3) (k1_off121_eq t 3)
    (k1_off116_inb t 3) (k1_off118_inb t 3) (k1_off120_inb t 3) (k1_off122_inb t 3) (k1_off115_inb t 3) (k1_off117_inb t 3) (k1_off119_inb t 3) (k1_off121_inb t 3) h3
  have h5 := row_step_cons d L sR2 sC0 g f _ (8 * t.val + 4) (k1_off116 t 4#32) (k1_off118 t 4#32) (k1_off120 t 4#32) (k1_off122 t 4#32) (k1_off115 t 4#32) (k1_off117 t 4#32) (k1_off119 t 4#32) (k1_off121 t 4#32)
    (k1_off116_eq t 4) (k1_off118_eq t 4) (k1_off120_eq t 4) (k1_off122_eq t 4) (k1_off115_eq t 4) (k1_off117_eq t 4) (k1_off119_eq t 4) (k1_off121_eq t 4)
    (k1_off116_inb t 4) (k1_off118_inb t 4) (k1_off120_inb t 4) (k1_off122_inb t 4) (k1_off115_inb t 4) (k1_off117_inb t 4) (k1_off119_inb t 4) (k1_off121_inb t 4) h4
  have h6 := row_step_cons d L sR2 sC0 g f _ (8 * t.val + 5) (k1_off116 t 5#32) (k1_off118 t 5#32) (k1_off120 t 5#32) (k1_off122 t 5#32) (k1_off115 t 5#32) (k1_off117 t 5#32) (k1_off119 t 5#32) (k1_off121 t 5#32)
    (k1_off116_eq t 5) (k1_off118_eq t 5) (k1_off120_eq t 5) (k1_off122_eq t 5) (k1_off115_eq t 5) (k1_off117_eq t 5) (k1_off119_eq t 5) (k1_off121_eq t 5)
    (k1_off116_inb t 5) (k1_off118_inb t 5) (k1_off120_inb t 5) (k1_off122_inb t 5) (k1_off115_inb t 5) (k1_off117_inb t 5) (k1_off119_inb t 5) (k1_off121_inb t 5) h5
  have h7 := row_step_cons d L sR2 sC0 g f _ (8 * t.val + 6) (k1_off116 t 6#32) (k1_off118 t 6#32) (k1_off120 t 6#32) (k1_off122 t 6#32) (k1_off115 t 6#32) (k1_off117 t 6#32) (k1_off119 t 6#32) (k1_off121 t 6#32)
    (k1_off116_eq t 6) (k1_off118_eq t 6) (k1_off120_eq t 6) (k1_off122_eq t 6) (k1_off115_eq t 6) (k1_off117_eq t 6) (k1_off119_eq t 6) (k1_off121_eq t 6)
    (k1_off116_inb t 6) (k1_off118_inb t 6) (k1_off120_inb t 6) (k1_off122_inb t 6) (k1_off115_inb t 6) (k1_off117_inb t 6) (k1_off119_inb t 6) (k1_off121_inb t 6) h6
  have h8 := row_step_cons d L sR2 sC0 g f _ (8 * t.val + 7) (k1_off116 t 7#32) (k1_off118 t 7#32) (k1_off120 t 7#32) (k1_off122 t 7#32) (k1_off115 t 7#32) (k1_off117 t 7#32) (k1_off119 t 7#32) (k1_off121 t 7#32)
    (k1_off116_eq t 7) (k1_off118_eq t 7) (k1_off120_eq t 7) (k1_off122_eq t 7) (k1_off115_eq t 7) (k1_off117_eq t 7) (k1_off119_eq t 7) (k1_off121_eq t 7)
    (k1_off116_inb t 7) (k1_off118_inb t 7) (k1_off120_inb t 7) (k1_off122_inb t 7) (k1_off115_inb t 7) (k1_off117_inb t 7) (k1_off119_inb t 7) (k1_off121_inb t 7) h7
  intro r c hr
  exact h8 r c (by omega)

/-- The compaction step of loop 16 of 40: trip t copies rows [8 t, 8 t + 8) of the landing buffer's first 64 columns. -/
theorem compact_step_t17 (t : Fin k1_t17_loop.trips) (g : Buf (Elt F) (sR0.view.loc (thr d L))) (f : Buf (Elt F) (sC1.view.loc (thr d L)))
    (hC : Compacted (sR0.view.read (Elt F) g) (sC1.view.read (Elt F) f) t.val) :
    Compacted (sR0.view.read (Elt F) g) (sC1.view.read (Elt F) (sC1.view.writes (Elt F) f
      [cpiece d L sR0 g (k1_off130 t 7#32) (k1_off129 t 7#32) (k1_off130_inb t 7) (k1_off129_inb t 7),
       cpiece d L sR0 g (k1_off128 t 7#32) (k1_off127 t 7#32) (k1_off128_inb t 7) (k1_off127_inb t 7),
       cpiece d L sR0 g (k1_off126 t 7#32) (k1_off125 t 7#32) (k1_off126_inb t 7) (k1_off125_inb t 7),
       cpiece d L sR0 g (k1_off124 t 7#32) (k1_off123 t 7#32) (k1_off124_inb t 7) (k1_off123_inb t 7),
       cpiece d L sR0 g (k1_off130 t 6#32) (k1_off129 t 6#32) (k1_off130_inb t 6) (k1_off129_inb t 6),
       cpiece d L sR0 g (k1_off128 t 6#32) (k1_off127 t 6#32) (k1_off128_inb t 6) (k1_off127_inb t 6),
       cpiece d L sR0 g (k1_off126 t 6#32) (k1_off125 t 6#32) (k1_off126_inb t 6) (k1_off125_inb t 6),
       cpiece d L sR0 g (k1_off124 t 6#32) (k1_off123 t 6#32) (k1_off124_inb t 6) (k1_off123_inb t 6),
       cpiece d L sR0 g (k1_off130 t 5#32) (k1_off129 t 5#32) (k1_off130_inb t 5) (k1_off129_inb t 5),
       cpiece d L sR0 g (k1_off128 t 5#32) (k1_off127 t 5#32) (k1_off128_inb t 5) (k1_off127_inb t 5),
       cpiece d L sR0 g (k1_off126 t 5#32) (k1_off125 t 5#32) (k1_off126_inb t 5) (k1_off125_inb t 5),
       cpiece d L sR0 g (k1_off124 t 5#32) (k1_off123 t 5#32) (k1_off124_inb t 5) (k1_off123_inb t 5),
       cpiece d L sR0 g (k1_off130 t 4#32) (k1_off129 t 4#32) (k1_off130_inb t 4) (k1_off129_inb t 4),
       cpiece d L sR0 g (k1_off128 t 4#32) (k1_off127 t 4#32) (k1_off128_inb t 4) (k1_off127_inb t 4),
       cpiece d L sR0 g (k1_off126 t 4#32) (k1_off125 t 4#32) (k1_off126_inb t 4) (k1_off125_inb t 4),
       cpiece d L sR0 g (k1_off124 t 4#32) (k1_off123 t 4#32) (k1_off124_inb t 4) (k1_off123_inb t 4),
       cpiece d L sR0 g (k1_off130 t 3#32) (k1_off129 t 3#32) (k1_off130_inb t 3) (k1_off129_inb t 3),
       cpiece d L sR0 g (k1_off128 t 3#32) (k1_off127 t 3#32) (k1_off128_inb t 3) (k1_off127_inb t 3),
       cpiece d L sR0 g (k1_off126 t 3#32) (k1_off125 t 3#32) (k1_off126_inb t 3) (k1_off125_inb t 3),
       cpiece d L sR0 g (k1_off124 t 3#32) (k1_off123 t 3#32) (k1_off124_inb t 3) (k1_off123_inb t 3),
       cpiece d L sR0 g (k1_off130 t 2#32) (k1_off129 t 2#32) (k1_off130_inb t 2) (k1_off129_inb t 2),
       cpiece d L sR0 g (k1_off128 t 2#32) (k1_off127 t 2#32) (k1_off128_inb t 2) (k1_off127_inb t 2),
       cpiece d L sR0 g (k1_off126 t 2#32) (k1_off125 t 2#32) (k1_off126_inb t 2) (k1_off125_inb t 2),
       cpiece d L sR0 g (k1_off124 t 2#32) (k1_off123 t 2#32) (k1_off124_inb t 2) (k1_off123_inb t 2),
       cpiece d L sR0 g (k1_off130 t 1#32) (k1_off129 t 1#32) (k1_off130_inb t 1) (k1_off129_inb t 1),
       cpiece d L sR0 g (k1_off128 t 1#32) (k1_off127 t 1#32) (k1_off128_inb t 1) (k1_off127_inb t 1),
       cpiece d L sR0 g (k1_off126 t 1#32) (k1_off125 t 1#32) (k1_off126_inb t 1) (k1_off125_inb t 1),
       cpiece d L sR0 g (k1_off124 t 1#32) (k1_off123 t 1#32) (k1_off124_inb t 1) (k1_off123_inb t 1),
       cpiece d L sR0 g (k1_off130 t 0#32) (k1_off129 t 0#32) (k1_off130_inb t 0) (k1_off129_inb t 0),
       cpiece d L sR0 g (k1_off128 t 0#32) (k1_off127 t 0#32) (k1_off128_inb t 0) (k1_off127_inb t 0),
       cpiece d L sR0 g (k1_off126 t 0#32) (k1_off125 t 0#32) (k1_off126_inb t 0) (k1_off125_inb t 0),
       cpiece d L sR0 g (k1_off124 t 0#32) (k1_off123 t 0#32) (k1_off124_inb t 0) (k1_off123_inb t 0)])) (t.val + 1) := by
  have h1 := row_step_cons d L sR0 sC1 g f [] (8 * t.val + 0) (k1_off124 t 0#32) (k1_off126 t 0#32) (k1_off128 t 0#32) (k1_off130 t 0#32) (k1_off123 t 0#32) (k1_off125 t 0#32) (k1_off127 t 0#32) (k1_off129 t 0#32)
    (k1_off124_eq t 0) (k1_off126_eq t 0) (k1_off128_eq t 0) (k1_off130_eq t 0) (k1_off123_eq t 0) (k1_off125_eq t 0) (k1_off127_eq t 0) (k1_off129_eq t 0)
    (k1_off124_inb t 0) (k1_off126_inb t 0) (k1_off128_inb t 0) (k1_off130_inb t 0) (k1_off123_inb t 0) (k1_off125_inb t 0) (k1_off127_inb t 0) (k1_off129_inb t 0) ((compacted_iff_rows _ _ _).1 hC)
  have h2 := row_step_cons d L sR0 sC1 g f _ (8 * t.val + 1) (k1_off124 t 1#32) (k1_off126 t 1#32) (k1_off128 t 1#32) (k1_off130 t 1#32) (k1_off123 t 1#32) (k1_off125 t 1#32) (k1_off127 t 1#32) (k1_off129 t 1#32)
    (k1_off124_eq t 1) (k1_off126_eq t 1) (k1_off128_eq t 1) (k1_off130_eq t 1) (k1_off123_eq t 1) (k1_off125_eq t 1) (k1_off127_eq t 1) (k1_off129_eq t 1)
    (k1_off124_inb t 1) (k1_off126_inb t 1) (k1_off128_inb t 1) (k1_off130_inb t 1) (k1_off123_inb t 1) (k1_off125_inb t 1) (k1_off127_inb t 1) (k1_off129_inb t 1) h1
  have h3 := row_step_cons d L sR0 sC1 g f _ (8 * t.val + 2) (k1_off124 t 2#32) (k1_off126 t 2#32) (k1_off128 t 2#32) (k1_off130 t 2#32) (k1_off123 t 2#32) (k1_off125 t 2#32) (k1_off127 t 2#32) (k1_off129 t 2#32)
    (k1_off124_eq t 2) (k1_off126_eq t 2) (k1_off128_eq t 2) (k1_off130_eq t 2) (k1_off123_eq t 2) (k1_off125_eq t 2) (k1_off127_eq t 2) (k1_off129_eq t 2)
    (k1_off124_inb t 2) (k1_off126_inb t 2) (k1_off128_inb t 2) (k1_off130_inb t 2) (k1_off123_inb t 2) (k1_off125_inb t 2) (k1_off127_inb t 2) (k1_off129_inb t 2) h2
  have h4 := row_step_cons d L sR0 sC1 g f _ (8 * t.val + 3) (k1_off124 t 3#32) (k1_off126 t 3#32) (k1_off128 t 3#32) (k1_off130 t 3#32) (k1_off123 t 3#32) (k1_off125 t 3#32) (k1_off127 t 3#32) (k1_off129 t 3#32)
    (k1_off124_eq t 3) (k1_off126_eq t 3) (k1_off128_eq t 3) (k1_off130_eq t 3) (k1_off123_eq t 3) (k1_off125_eq t 3) (k1_off127_eq t 3) (k1_off129_eq t 3)
    (k1_off124_inb t 3) (k1_off126_inb t 3) (k1_off128_inb t 3) (k1_off130_inb t 3) (k1_off123_inb t 3) (k1_off125_inb t 3) (k1_off127_inb t 3) (k1_off129_inb t 3) h3
  have h5 := row_step_cons d L sR0 sC1 g f _ (8 * t.val + 4) (k1_off124 t 4#32) (k1_off126 t 4#32) (k1_off128 t 4#32) (k1_off130 t 4#32) (k1_off123 t 4#32) (k1_off125 t 4#32) (k1_off127 t 4#32) (k1_off129 t 4#32)
    (k1_off124_eq t 4) (k1_off126_eq t 4) (k1_off128_eq t 4) (k1_off130_eq t 4) (k1_off123_eq t 4) (k1_off125_eq t 4) (k1_off127_eq t 4) (k1_off129_eq t 4)
    (k1_off124_inb t 4) (k1_off126_inb t 4) (k1_off128_inb t 4) (k1_off130_inb t 4) (k1_off123_inb t 4) (k1_off125_inb t 4) (k1_off127_inb t 4) (k1_off129_inb t 4) h4
  have h6 := row_step_cons d L sR0 sC1 g f _ (8 * t.val + 5) (k1_off124 t 5#32) (k1_off126 t 5#32) (k1_off128 t 5#32) (k1_off130 t 5#32) (k1_off123 t 5#32) (k1_off125 t 5#32) (k1_off127 t 5#32) (k1_off129 t 5#32)
    (k1_off124_eq t 5) (k1_off126_eq t 5) (k1_off128_eq t 5) (k1_off130_eq t 5) (k1_off123_eq t 5) (k1_off125_eq t 5) (k1_off127_eq t 5) (k1_off129_eq t 5)
    (k1_off124_inb t 5) (k1_off126_inb t 5) (k1_off128_inb t 5) (k1_off130_inb t 5) (k1_off123_inb t 5) (k1_off125_inb t 5) (k1_off127_inb t 5) (k1_off129_inb t 5) h5
  have h7 := row_step_cons d L sR0 sC1 g f _ (8 * t.val + 6) (k1_off124 t 6#32) (k1_off126 t 6#32) (k1_off128 t 6#32) (k1_off130 t 6#32) (k1_off123 t 6#32) (k1_off125 t 6#32) (k1_off127 t 6#32) (k1_off129 t 6#32)
    (k1_off124_eq t 6) (k1_off126_eq t 6) (k1_off128_eq t 6) (k1_off130_eq t 6) (k1_off123_eq t 6) (k1_off125_eq t 6) (k1_off127_eq t 6) (k1_off129_eq t 6)
    (k1_off124_inb t 6) (k1_off126_inb t 6) (k1_off128_inb t 6) (k1_off130_inb t 6) (k1_off123_inb t 6) (k1_off125_inb t 6) (k1_off127_inb t 6) (k1_off129_inb t 6) h6
  have h8 := row_step_cons d L sR0 sC1 g f _ (8 * t.val + 7) (k1_off124 t 7#32) (k1_off126 t 7#32) (k1_off128 t 7#32) (k1_off130 t 7#32) (k1_off123 t 7#32) (k1_off125 t 7#32) (k1_off127 t 7#32) (k1_off129 t 7#32)
    (k1_off124_eq t 7) (k1_off126_eq t 7) (k1_off128_eq t 7) (k1_off130_eq t 7) (k1_off123_eq t 7) (k1_off125_eq t 7) (k1_off127_eq t 7) (k1_off129_eq t 7)
    (k1_off124_inb t 7) (k1_off126_inb t 7) (k1_off128_inb t 7) (k1_off130_inb t 7) (k1_off123_inb t 7) (k1_off125_inb t 7) (k1_off127_inb t 7) (k1_off129_inb t 7) h7
  intro r c hr
  exact h8 r c (by omega)

/-- The compaction step of loop 17 of 40: trip t copies rows [8 t, 8 t + 8) of the landing buffer's first 64 columns. -/
theorem compact_step_t18 (t : Fin k1_t18_loop.trips) (g : Buf (Elt F) (sR1.view.loc (thr d L))) (f : Buf (Elt F) (sC0.view.loc (thr d L)))
    (hC : Compacted (sR1.view.read (Elt F) g) (sC0.view.read (Elt F) f) t.val) :
    Compacted (sR1.view.read (Elt F) g) (sC0.view.read (Elt F) (sC0.view.writes (Elt F) f
      [cpiece d L sR1 g (k1_off138 t 7#32) (k1_off137 t 7#32) (k1_off138_inb t 7) (k1_off137_inb t 7),
       cpiece d L sR1 g (k1_off136 t 7#32) (k1_off135 t 7#32) (k1_off136_inb t 7) (k1_off135_inb t 7),
       cpiece d L sR1 g (k1_off134 t 7#32) (k1_off133 t 7#32) (k1_off134_inb t 7) (k1_off133_inb t 7),
       cpiece d L sR1 g (k1_off132 t 7#32) (k1_off131 t 7#32) (k1_off132_inb t 7) (k1_off131_inb t 7),
       cpiece d L sR1 g (k1_off138 t 6#32) (k1_off137 t 6#32) (k1_off138_inb t 6) (k1_off137_inb t 6),
       cpiece d L sR1 g (k1_off136 t 6#32) (k1_off135 t 6#32) (k1_off136_inb t 6) (k1_off135_inb t 6),
       cpiece d L sR1 g (k1_off134 t 6#32) (k1_off133 t 6#32) (k1_off134_inb t 6) (k1_off133_inb t 6),
       cpiece d L sR1 g (k1_off132 t 6#32) (k1_off131 t 6#32) (k1_off132_inb t 6) (k1_off131_inb t 6),
       cpiece d L sR1 g (k1_off138 t 5#32) (k1_off137 t 5#32) (k1_off138_inb t 5) (k1_off137_inb t 5),
       cpiece d L sR1 g (k1_off136 t 5#32) (k1_off135 t 5#32) (k1_off136_inb t 5) (k1_off135_inb t 5),
       cpiece d L sR1 g (k1_off134 t 5#32) (k1_off133 t 5#32) (k1_off134_inb t 5) (k1_off133_inb t 5),
       cpiece d L sR1 g (k1_off132 t 5#32) (k1_off131 t 5#32) (k1_off132_inb t 5) (k1_off131_inb t 5),
       cpiece d L sR1 g (k1_off138 t 4#32) (k1_off137 t 4#32) (k1_off138_inb t 4) (k1_off137_inb t 4),
       cpiece d L sR1 g (k1_off136 t 4#32) (k1_off135 t 4#32) (k1_off136_inb t 4) (k1_off135_inb t 4),
       cpiece d L sR1 g (k1_off134 t 4#32) (k1_off133 t 4#32) (k1_off134_inb t 4) (k1_off133_inb t 4),
       cpiece d L sR1 g (k1_off132 t 4#32) (k1_off131 t 4#32) (k1_off132_inb t 4) (k1_off131_inb t 4),
       cpiece d L sR1 g (k1_off138 t 3#32) (k1_off137 t 3#32) (k1_off138_inb t 3) (k1_off137_inb t 3),
       cpiece d L sR1 g (k1_off136 t 3#32) (k1_off135 t 3#32) (k1_off136_inb t 3) (k1_off135_inb t 3),
       cpiece d L sR1 g (k1_off134 t 3#32) (k1_off133 t 3#32) (k1_off134_inb t 3) (k1_off133_inb t 3),
       cpiece d L sR1 g (k1_off132 t 3#32) (k1_off131 t 3#32) (k1_off132_inb t 3) (k1_off131_inb t 3),
       cpiece d L sR1 g (k1_off138 t 2#32) (k1_off137 t 2#32) (k1_off138_inb t 2) (k1_off137_inb t 2),
       cpiece d L sR1 g (k1_off136 t 2#32) (k1_off135 t 2#32) (k1_off136_inb t 2) (k1_off135_inb t 2),
       cpiece d L sR1 g (k1_off134 t 2#32) (k1_off133 t 2#32) (k1_off134_inb t 2) (k1_off133_inb t 2),
       cpiece d L sR1 g (k1_off132 t 2#32) (k1_off131 t 2#32) (k1_off132_inb t 2) (k1_off131_inb t 2),
       cpiece d L sR1 g (k1_off138 t 1#32) (k1_off137 t 1#32) (k1_off138_inb t 1) (k1_off137_inb t 1),
       cpiece d L sR1 g (k1_off136 t 1#32) (k1_off135 t 1#32) (k1_off136_inb t 1) (k1_off135_inb t 1),
       cpiece d L sR1 g (k1_off134 t 1#32) (k1_off133 t 1#32) (k1_off134_inb t 1) (k1_off133_inb t 1),
       cpiece d L sR1 g (k1_off132 t 1#32) (k1_off131 t 1#32) (k1_off132_inb t 1) (k1_off131_inb t 1),
       cpiece d L sR1 g (k1_off138 t 0#32) (k1_off137 t 0#32) (k1_off138_inb t 0) (k1_off137_inb t 0),
       cpiece d L sR1 g (k1_off136 t 0#32) (k1_off135 t 0#32) (k1_off136_inb t 0) (k1_off135_inb t 0),
       cpiece d L sR1 g (k1_off134 t 0#32) (k1_off133 t 0#32) (k1_off134_inb t 0) (k1_off133_inb t 0),
       cpiece d L sR1 g (k1_off132 t 0#32) (k1_off131 t 0#32) (k1_off132_inb t 0) (k1_off131_inb t 0)])) (t.val + 1) := by
  have h1 := row_step_cons d L sR1 sC0 g f [] (8 * t.val + 0) (k1_off132 t 0#32) (k1_off134 t 0#32) (k1_off136 t 0#32) (k1_off138 t 0#32) (k1_off131 t 0#32) (k1_off133 t 0#32) (k1_off135 t 0#32) (k1_off137 t 0#32)
    (k1_off132_eq t 0) (k1_off134_eq t 0) (k1_off136_eq t 0) (k1_off138_eq t 0) (k1_off131_eq t 0) (k1_off133_eq t 0) (k1_off135_eq t 0) (k1_off137_eq t 0)
    (k1_off132_inb t 0) (k1_off134_inb t 0) (k1_off136_inb t 0) (k1_off138_inb t 0) (k1_off131_inb t 0) (k1_off133_inb t 0) (k1_off135_inb t 0) (k1_off137_inb t 0) ((compacted_iff_rows _ _ _).1 hC)
  have h2 := row_step_cons d L sR1 sC0 g f _ (8 * t.val + 1) (k1_off132 t 1#32) (k1_off134 t 1#32) (k1_off136 t 1#32) (k1_off138 t 1#32) (k1_off131 t 1#32) (k1_off133 t 1#32) (k1_off135 t 1#32) (k1_off137 t 1#32)
    (k1_off132_eq t 1) (k1_off134_eq t 1) (k1_off136_eq t 1) (k1_off138_eq t 1) (k1_off131_eq t 1) (k1_off133_eq t 1) (k1_off135_eq t 1) (k1_off137_eq t 1)
    (k1_off132_inb t 1) (k1_off134_inb t 1) (k1_off136_inb t 1) (k1_off138_inb t 1) (k1_off131_inb t 1) (k1_off133_inb t 1) (k1_off135_inb t 1) (k1_off137_inb t 1) h1
  have h3 := row_step_cons d L sR1 sC0 g f _ (8 * t.val + 2) (k1_off132 t 2#32) (k1_off134 t 2#32) (k1_off136 t 2#32) (k1_off138 t 2#32) (k1_off131 t 2#32) (k1_off133 t 2#32) (k1_off135 t 2#32) (k1_off137 t 2#32)
    (k1_off132_eq t 2) (k1_off134_eq t 2) (k1_off136_eq t 2) (k1_off138_eq t 2) (k1_off131_eq t 2) (k1_off133_eq t 2) (k1_off135_eq t 2) (k1_off137_eq t 2)
    (k1_off132_inb t 2) (k1_off134_inb t 2) (k1_off136_inb t 2) (k1_off138_inb t 2) (k1_off131_inb t 2) (k1_off133_inb t 2) (k1_off135_inb t 2) (k1_off137_inb t 2) h2
  have h4 := row_step_cons d L sR1 sC0 g f _ (8 * t.val + 3) (k1_off132 t 3#32) (k1_off134 t 3#32) (k1_off136 t 3#32) (k1_off138 t 3#32) (k1_off131 t 3#32) (k1_off133 t 3#32) (k1_off135 t 3#32) (k1_off137 t 3#32)
    (k1_off132_eq t 3) (k1_off134_eq t 3) (k1_off136_eq t 3) (k1_off138_eq t 3) (k1_off131_eq t 3) (k1_off133_eq t 3) (k1_off135_eq t 3) (k1_off137_eq t 3)
    (k1_off132_inb t 3) (k1_off134_inb t 3) (k1_off136_inb t 3) (k1_off138_inb t 3) (k1_off131_inb t 3) (k1_off133_inb t 3) (k1_off135_inb t 3) (k1_off137_inb t 3) h3
  have h5 := row_step_cons d L sR1 sC0 g f _ (8 * t.val + 4) (k1_off132 t 4#32) (k1_off134 t 4#32) (k1_off136 t 4#32) (k1_off138 t 4#32) (k1_off131 t 4#32) (k1_off133 t 4#32) (k1_off135 t 4#32) (k1_off137 t 4#32)
    (k1_off132_eq t 4) (k1_off134_eq t 4) (k1_off136_eq t 4) (k1_off138_eq t 4) (k1_off131_eq t 4) (k1_off133_eq t 4) (k1_off135_eq t 4) (k1_off137_eq t 4)
    (k1_off132_inb t 4) (k1_off134_inb t 4) (k1_off136_inb t 4) (k1_off138_inb t 4) (k1_off131_inb t 4) (k1_off133_inb t 4) (k1_off135_inb t 4) (k1_off137_inb t 4) h4
  have h6 := row_step_cons d L sR1 sC0 g f _ (8 * t.val + 5) (k1_off132 t 5#32) (k1_off134 t 5#32) (k1_off136 t 5#32) (k1_off138 t 5#32) (k1_off131 t 5#32) (k1_off133 t 5#32) (k1_off135 t 5#32) (k1_off137 t 5#32)
    (k1_off132_eq t 5) (k1_off134_eq t 5) (k1_off136_eq t 5) (k1_off138_eq t 5) (k1_off131_eq t 5) (k1_off133_eq t 5) (k1_off135_eq t 5) (k1_off137_eq t 5)
    (k1_off132_inb t 5) (k1_off134_inb t 5) (k1_off136_inb t 5) (k1_off138_inb t 5) (k1_off131_inb t 5) (k1_off133_inb t 5) (k1_off135_inb t 5) (k1_off137_inb t 5) h5
  have h7 := row_step_cons d L sR1 sC0 g f _ (8 * t.val + 6) (k1_off132 t 6#32) (k1_off134 t 6#32) (k1_off136 t 6#32) (k1_off138 t 6#32) (k1_off131 t 6#32) (k1_off133 t 6#32) (k1_off135 t 6#32) (k1_off137 t 6#32)
    (k1_off132_eq t 6) (k1_off134_eq t 6) (k1_off136_eq t 6) (k1_off138_eq t 6) (k1_off131_eq t 6) (k1_off133_eq t 6) (k1_off135_eq t 6) (k1_off137_eq t 6)
    (k1_off132_inb t 6) (k1_off134_inb t 6) (k1_off136_inb t 6) (k1_off138_inb t 6) (k1_off131_inb t 6) (k1_off133_inb t 6) (k1_off135_inb t 6) (k1_off137_inb t 6) h6
  have h8 := row_step_cons d L sR1 sC0 g f _ (8 * t.val + 7) (k1_off132 t 7#32) (k1_off134 t 7#32) (k1_off136 t 7#32) (k1_off138 t 7#32) (k1_off131 t 7#32) (k1_off133 t 7#32) (k1_off135 t 7#32) (k1_off137 t 7#32)
    (k1_off132_eq t 7) (k1_off134_eq t 7) (k1_off136_eq t 7) (k1_off138_eq t 7) (k1_off131_eq t 7) (k1_off133_eq t 7) (k1_off135_eq t 7) (k1_off137_eq t 7)
    (k1_off132_inb t 7) (k1_off134_inb t 7) (k1_off136_inb t 7) (k1_off138_inb t 7) (k1_off131_inb t 7) (k1_off133_inb t 7) (k1_off135_inb t 7) (k1_off137_inb t 7) h7
  intro r c hr
  exact h8 r c (by omega)

/-- The compaction step of loop 18 of 40: trip t copies rows [8 t, 8 t + 8) of the landing buffer's first 64 columns. -/
theorem compact_step_t19 (t : Fin k1_t19_loop.trips) (g : Buf (Elt F) (sR2.view.loc (thr d L))) (f : Buf (Elt F) (sC1.view.loc (thr d L)))
    (hC : Compacted (sR2.view.read (Elt F) g) (sC1.view.read (Elt F) f) t.val) :
    Compacted (sR2.view.read (Elt F) g) (sC1.view.read (Elt F) (sC1.view.writes (Elt F) f
      [cpiece d L sR2 g (k1_off146 t 7#32) (k1_off145 t 7#32) (k1_off146_inb t 7) (k1_off145_inb t 7),
       cpiece d L sR2 g (k1_off144 t 7#32) (k1_off143 t 7#32) (k1_off144_inb t 7) (k1_off143_inb t 7),
       cpiece d L sR2 g (k1_off142 t 7#32) (k1_off141 t 7#32) (k1_off142_inb t 7) (k1_off141_inb t 7),
       cpiece d L sR2 g (k1_off140 t 7#32) (k1_off139 t 7#32) (k1_off140_inb t 7) (k1_off139_inb t 7),
       cpiece d L sR2 g (k1_off146 t 6#32) (k1_off145 t 6#32) (k1_off146_inb t 6) (k1_off145_inb t 6),
       cpiece d L sR2 g (k1_off144 t 6#32) (k1_off143 t 6#32) (k1_off144_inb t 6) (k1_off143_inb t 6),
       cpiece d L sR2 g (k1_off142 t 6#32) (k1_off141 t 6#32) (k1_off142_inb t 6) (k1_off141_inb t 6),
       cpiece d L sR2 g (k1_off140 t 6#32) (k1_off139 t 6#32) (k1_off140_inb t 6) (k1_off139_inb t 6),
       cpiece d L sR2 g (k1_off146 t 5#32) (k1_off145 t 5#32) (k1_off146_inb t 5) (k1_off145_inb t 5),
       cpiece d L sR2 g (k1_off144 t 5#32) (k1_off143 t 5#32) (k1_off144_inb t 5) (k1_off143_inb t 5),
       cpiece d L sR2 g (k1_off142 t 5#32) (k1_off141 t 5#32) (k1_off142_inb t 5) (k1_off141_inb t 5),
       cpiece d L sR2 g (k1_off140 t 5#32) (k1_off139 t 5#32) (k1_off140_inb t 5) (k1_off139_inb t 5),
       cpiece d L sR2 g (k1_off146 t 4#32) (k1_off145 t 4#32) (k1_off146_inb t 4) (k1_off145_inb t 4),
       cpiece d L sR2 g (k1_off144 t 4#32) (k1_off143 t 4#32) (k1_off144_inb t 4) (k1_off143_inb t 4),
       cpiece d L sR2 g (k1_off142 t 4#32) (k1_off141 t 4#32) (k1_off142_inb t 4) (k1_off141_inb t 4),
       cpiece d L sR2 g (k1_off140 t 4#32) (k1_off139 t 4#32) (k1_off140_inb t 4) (k1_off139_inb t 4),
       cpiece d L sR2 g (k1_off146 t 3#32) (k1_off145 t 3#32) (k1_off146_inb t 3) (k1_off145_inb t 3),
       cpiece d L sR2 g (k1_off144 t 3#32) (k1_off143 t 3#32) (k1_off144_inb t 3) (k1_off143_inb t 3),
       cpiece d L sR2 g (k1_off142 t 3#32) (k1_off141 t 3#32) (k1_off142_inb t 3) (k1_off141_inb t 3),
       cpiece d L sR2 g (k1_off140 t 3#32) (k1_off139 t 3#32) (k1_off140_inb t 3) (k1_off139_inb t 3),
       cpiece d L sR2 g (k1_off146 t 2#32) (k1_off145 t 2#32) (k1_off146_inb t 2) (k1_off145_inb t 2),
       cpiece d L sR2 g (k1_off144 t 2#32) (k1_off143 t 2#32) (k1_off144_inb t 2) (k1_off143_inb t 2),
       cpiece d L sR2 g (k1_off142 t 2#32) (k1_off141 t 2#32) (k1_off142_inb t 2) (k1_off141_inb t 2),
       cpiece d L sR2 g (k1_off140 t 2#32) (k1_off139 t 2#32) (k1_off140_inb t 2) (k1_off139_inb t 2),
       cpiece d L sR2 g (k1_off146 t 1#32) (k1_off145 t 1#32) (k1_off146_inb t 1) (k1_off145_inb t 1),
       cpiece d L sR2 g (k1_off144 t 1#32) (k1_off143 t 1#32) (k1_off144_inb t 1) (k1_off143_inb t 1),
       cpiece d L sR2 g (k1_off142 t 1#32) (k1_off141 t 1#32) (k1_off142_inb t 1) (k1_off141_inb t 1),
       cpiece d L sR2 g (k1_off140 t 1#32) (k1_off139 t 1#32) (k1_off140_inb t 1) (k1_off139_inb t 1),
       cpiece d L sR2 g (k1_off146 t 0#32) (k1_off145 t 0#32) (k1_off146_inb t 0) (k1_off145_inb t 0),
       cpiece d L sR2 g (k1_off144 t 0#32) (k1_off143 t 0#32) (k1_off144_inb t 0) (k1_off143_inb t 0),
       cpiece d L sR2 g (k1_off142 t 0#32) (k1_off141 t 0#32) (k1_off142_inb t 0) (k1_off141_inb t 0),
       cpiece d L sR2 g (k1_off140 t 0#32) (k1_off139 t 0#32) (k1_off140_inb t 0) (k1_off139_inb t 0)])) (t.val + 1) := by
  have h1 := row_step_cons d L sR2 sC1 g f [] (8 * t.val + 0) (k1_off140 t 0#32) (k1_off142 t 0#32) (k1_off144 t 0#32) (k1_off146 t 0#32) (k1_off139 t 0#32) (k1_off141 t 0#32) (k1_off143 t 0#32) (k1_off145 t 0#32)
    (k1_off140_eq t 0) (k1_off142_eq t 0) (k1_off144_eq t 0) (k1_off146_eq t 0) (k1_off139_eq t 0) (k1_off141_eq t 0) (k1_off143_eq t 0) (k1_off145_eq t 0)
    (k1_off140_inb t 0) (k1_off142_inb t 0) (k1_off144_inb t 0) (k1_off146_inb t 0) (k1_off139_inb t 0) (k1_off141_inb t 0) (k1_off143_inb t 0) (k1_off145_inb t 0) ((compacted_iff_rows _ _ _).1 hC)
  have h2 := row_step_cons d L sR2 sC1 g f _ (8 * t.val + 1) (k1_off140 t 1#32) (k1_off142 t 1#32) (k1_off144 t 1#32) (k1_off146 t 1#32) (k1_off139 t 1#32) (k1_off141 t 1#32) (k1_off143 t 1#32) (k1_off145 t 1#32)
    (k1_off140_eq t 1) (k1_off142_eq t 1) (k1_off144_eq t 1) (k1_off146_eq t 1) (k1_off139_eq t 1) (k1_off141_eq t 1) (k1_off143_eq t 1) (k1_off145_eq t 1)
    (k1_off140_inb t 1) (k1_off142_inb t 1) (k1_off144_inb t 1) (k1_off146_inb t 1) (k1_off139_inb t 1) (k1_off141_inb t 1) (k1_off143_inb t 1) (k1_off145_inb t 1) h1
  have h3 := row_step_cons d L sR2 sC1 g f _ (8 * t.val + 2) (k1_off140 t 2#32) (k1_off142 t 2#32) (k1_off144 t 2#32) (k1_off146 t 2#32) (k1_off139 t 2#32) (k1_off141 t 2#32) (k1_off143 t 2#32) (k1_off145 t 2#32)
    (k1_off140_eq t 2) (k1_off142_eq t 2) (k1_off144_eq t 2) (k1_off146_eq t 2) (k1_off139_eq t 2) (k1_off141_eq t 2) (k1_off143_eq t 2) (k1_off145_eq t 2)
    (k1_off140_inb t 2) (k1_off142_inb t 2) (k1_off144_inb t 2) (k1_off146_inb t 2) (k1_off139_inb t 2) (k1_off141_inb t 2) (k1_off143_inb t 2) (k1_off145_inb t 2) h2
  have h4 := row_step_cons d L sR2 sC1 g f _ (8 * t.val + 3) (k1_off140 t 3#32) (k1_off142 t 3#32) (k1_off144 t 3#32) (k1_off146 t 3#32) (k1_off139 t 3#32) (k1_off141 t 3#32) (k1_off143 t 3#32) (k1_off145 t 3#32)
    (k1_off140_eq t 3) (k1_off142_eq t 3) (k1_off144_eq t 3) (k1_off146_eq t 3) (k1_off139_eq t 3) (k1_off141_eq t 3) (k1_off143_eq t 3) (k1_off145_eq t 3)
    (k1_off140_inb t 3) (k1_off142_inb t 3) (k1_off144_inb t 3) (k1_off146_inb t 3) (k1_off139_inb t 3) (k1_off141_inb t 3) (k1_off143_inb t 3) (k1_off145_inb t 3) h3
  have h5 := row_step_cons d L sR2 sC1 g f _ (8 * t.val + 4) (k1_off140 t 4#32) (k1_off142 t 4#32) (k1_off144 t 4#32) (k1_off146 t 4#32) (k1_off139 t 4#32) (k1_off141 t 4#32) (k1_off143 t 4#32) (k1_off145 t 4#32)
    (k1_off140_eq t 4) (k1_off142_eq t 4) (k1_off144_eq t 4) (k1_off146_eq t 4) (k1_off139_eq t 4) (k1_off141_eq t 4) (k1_off143_eq t 4) (k1_off145_eq t 4)
    (k1_off140_inb t 4) (k1_off142_inb t 4) (k1_off144_inb t 4) (k1_off146_inb t 4) (k1_off139_inb t 4) (k1_off141_inb t 4) (k1_off143_inb t 4) (k1_off145_inb t 4) h4
  have h6 := row_step_cons d L sR2 sC1 g f _ (8 * t.val + 5) (k1_off140 t 5#32) (k1_off142 t 5#32) (k1_off144 t 5#32) (k1_off146 t 5#32) (k1_off139 t 5#32) (k1_off141 t 5#32) (k1_off143 t 5#32) (k1_off145 t 5#32)
    (k1_off140_eq t 5) (k1_off142_eq t 5) (k1_off144_eq t 5) (k1_off146_eq t 5) (k1_off139_eq t 5) (k1_off141_eq t 5) (k1_off143_eq t 5) (k1_off145_eq t 5)
    (k1_off140_inb t 5) (k1_off142_inb t 5) (k1_off144_inb t 5) (k1_off146_inb t 5) (k1_off139_inb t 5) (k1_off141_inb t 5) (k1_off143_inb t 5) (k1_off145_inb t 5) h5
  have h7 := row_step_cons d L sR2 sC1 g f _ (8 * t.val + 6) (k1_off140 t 6#32) (k1_off142 t 6#32) (k1_off144 t 6#32) (k1_off146 t 6#32) (k1_off139 t 6#32) (k1_off141 t 6#32) (k1_off143 t 6#32) (k1_off145 t 6#32)
    (k1_off140_eq t 6) (k1_off142_eq t 6) (k1_off144_eq t 6) (k1_off146_eq t 6) (k1_off139_eq t 6) (k1_off141_eq t 6) (k1_off143_eq t 6) (k1_off145_eq t 6)
    (k1_off140_inb t 6) (k1_off142_inb t 6) (k1_off144_inb t 6) (k1_off146_inb t 6) (k1_off139_inb t 6) (k1_off141_inb t 6) (k1_off143_inb t 6) (k1_off145_inb t 6) h6
  have h8 := row_step_cons d L sR2 sC1 g f _ (8 * t.val + 7) (k1_off140 t 7#32) (k1_off142 t 7#32) (k1_off144 t 7#32) (k1_off146 t 7#32) (k1_off139 t 7#32) (k1_off141 t 7#32) (k1_off143 t 7#32) (k1_off145 t 7#32)
    (k1_off140_eq t 7) (k1_off142_eq t 7) (k1_off144_eq t 7) (k1_off146_eq t 7) (k1_off139_eq t 7) (k1_off141_eq t 7) (k1_off143_eq t 7) (k1_off145_eq t 7)
    (k1_off140_inb t 7) (k1_off142_inb t 7) (k1_off144_inb t 7) (k1_off146_inb t 7) (k1_off139_inb t 7) (k1_off141_inb t 7) (k1_off143_inb t 7) (k1_off145_inb t 7) h7
  intro r c hr
  exact h8 r c (by omega)

/-- The compaction step of loop 19 of 40: trip t copies rows [8 t, 8 t + 8) of the landing buffer's first 64 columns. -/
theorem compact_step_t20 (t : Fin k1_t20_loop.trips) (g : Buf (Elt F) (sR0.view.loc (thr d L))) (f : Buf (Elt F) (sC0.view.loc (thr d L)))
    (hC : Compacted (sR0.view.read (Elt F) g) (sC0.view.read (Elt F) f) t.val) :
    Compacted (sR0.view.read (Elt F) g) (sC0.view.read (Elt F) (sC0.view.writes (Elt F) f
      [cpiece d L sR0 g (k1_off154 t 7#32) (k1_off153 t 7#32) (k1_off154_inb t 7) (k1_off153_inb t 7),
       cpiece d L sR0 g (k1_off152 t 7#32) (k1_off151 t 7#32) (k1_off152_inb t 7) (k1_off151_inb t 7),
       cpiece d L sR0 g (k1_off150 t 7#32) (k1_off149 t 7#32) (k1_off150_inb t 7) (k1_off149_inb t 7),
       cpiece d L sR0 g (k1_off148 t 7#32) (k1_off147 t 7#32) (k1_off148_inb t 7) (k1_off147_inb t 7),
       cpiece d L sR0 g (k1_off154 t 6#32) (k1_off153 t 6#32) (k1_off154_inb t 6) (k1_off153_inb t 6),
       cpiece d L sR0 g (k1_off152 t 6#32) (k1_off151 t 6#32) (k1_off152_inb t 6) (k1_off151_inb t 6),
       cpiece d L sR0 g (k1_off150 t 6#32) (k1_off149 t 6#32) (k1_off150_inb t 6) (k1_off149_inb t 6),
       cpiece d L sR0 g (k1_off148 t 6#32) (k1_off147 t 6#32) (k1_off148_inb t 6) (k1_off147_inb t 6),
       cpiece d L sR0 g (k1_off154 t 5#32) (k1_off153 t 5#32) (k1_off154_inb t 5) (k1_off153_inb t 5),
       cpiece d L sR0 g (k1_off152 t 5#32) (k1_off151 t 5#32) (k1_off152_inb t 5) (k1_off151_inb t 5),
       cpiece d L sR0 g (k1_off150 t 5#32) (k1_off149 t 5#32) (k1_off150_inb t 5) (k1_off149_inb t 5),
       cpiece d L sR0 g (k1_off148 t 5#32) (k1_off147 t 5#32) (k1_off148_inb t 5) (k1_off147_inb t 5),
       cpiece d L sR0 g (k1_off154 t 4#32) (k1_off153 t 4#32) (k1_off154_inb t 4) (k1_off153_inb t 4),
       cpiece d L sR0 g (k1_off152 t 4#32) (k1_off151 t 4#32) (k1_off152_inb t 4) (k1_off151_inb t 4),
       cpiece d L sR0 g (k1_off150 t 4#32) (k1_off149 t 4#32) (k1_off150_inb t 4) (k1_off149_inb t 4),
       cpiece d L sR0 g (k1_off148 t 4#32) (k1_off147 t 4#32) (k1_off148_inb t 4) (k1_off147_inb t 4),
       cpiece d L sR0 g (k1_off154 t 3#32) (k1_off153 t 3#32) (k1_off154_inb t 3) (k1_off153_inb t 3),
       cpiece d L sR0 g (k1_off152 t 3#32) (k1_off151 t 3#32) (k1_off152_inb t 3) (k1_off151_inb t 3),
       cpiece d L sR0 g (k1_off150 t 3#32) (k1_off149 t 3#32) (k1_off150_inb t 3) (k1_off149_inb t 3),
       cpiece d L sR0 g (k1_off148 t 3#32) (k1_off147 t 3#32) (k1_off148_inb t 3) (k1_off147_inb t 3),
       cpiece d L sR0 g (k1_off154 t 2#32) (k1_off153 t 2#32) (k1_off154_inb t 2) (k1_off153_inb t 2),
       cpiece d L sR0 g (k1_off152 t 2#32) (k1_off151 t 2#32) (k1_off152_inb t 2) (k1_off151_inb t 2),
       cpiece d L sR0 g (k1_off150 t 2#32) (k1_off149 t 2#32) (k1_off150_inb t 2) (k1_off149_inb t 2),
       cpiece d L sR0 g (k1_off148 t 2#32) (k1_off147 t 2#32) (k1_off148_inb t 2) (k1_off147_inb t 2),
       cpiece d L sR0 g (k1_off154 t 1#32) (k1_off153 t 1#32) (k1_off154_inb t 1) (k1_off153_inb t 1),
       cpiece d L sR0 g (k1_off152 t 1#32) (k1_off151 t 1#32) (k1_off152_inb t 1) (k1_off151_inb t 1),
       cpiece d L sR0 g (k1_off150 t 1#32) (k1_off149 t 1#32) (k1_off150_inb t 1) (k1_off149_inb t 1),
       cpiece d L sR0 g (k1_off148 t 1#32) (k1_off147 t 1#32) (k1_off148_inb t 1) (k1_off147_inb t 1),
       cpiece d L sR0 g (k1_off154 t 0#32) (k1_off153 t 0#32) (k1_off154_inb t 0) (k1_off153_inb t 0),
       cpiece d L sR0 g (k1_off152 t 0#32) (k1_off151 t 0#32) (k1_off152_inb t 0) (k1_off151_inb t 0),
       cpiece d L sR0 g (k1_off150 t 0#32) (k1_off149 t 0#32) (k1_off150_inb t 0) (k1_off149_inb t 0),
       cpiece d L sR0 g (k1_off148 t 0#32) (k1_off147 t 0#32) (k1_off148_inb t 0) (k1_off147_inb t 0)])) (t.val + 1) := by
  have h1 := row_step_cons d L sR0 sC0 g f [] (8 * t.val + 0) (k1_off148 t 0#32) (k1_off150 t 0#32) (k1_off152 t 0#32) (k1_off154 t 0#32) (k1_off147 t 0#32) (k1_off149 t 0#32) (k1_off151 t 0#32) (k1_off153 t 0#32)
    (k1_off148_eq t 0) (k1_off150_eq t 0) (k1_off152_eq t 0) (k1_off154_eq t 0) (k1_off147_eq t 0) (k1_off149_eq t 0) (k1_off151_eq t 0) (k1_off153_eq t 0)
    (k1_off148_inb t 0) (k1_off150_inb t 0) (k1_off152_inb t 0) (k1_off154_inb t 0) (k1_off147_inb t 0) (k1_off149_inb t 0) (k1_off151_inb t 0) (k1_off153_inb t 0) ((compacted_iff_rows _ _ _).1 hC)
  have h2 := row_step_cons d L sR0 sC0 g f _ (8 * t.val + 1) (k1_off148 t 1#32) (k1_off150 t 1#32) (k1_off152 t 1#32) (k1_off154 t 1#32) (k1_off147 t 1#32) (k1_off149 t 1#32) (k1_off151 t 1#32) (k1_off153 t 1#32)
    (k1_off148_eq t 1) (k1_off150_eq t 1) (k1_off152_eq t 1) (k1_off154_eq t 1) (k1_off147_eq t 1) (k1_off149_eq t 1) (k1_off151_eq t 1) (k1_off153_eq t 1)
    (k1_off148_inb t 1) (k1_off150_inb t 1) (k1_off152_inb t 1) (k1_off154_inb t 1) (k1_off147_inb t 1) (k1_off149_inb t 1) (k1_off151_inb t 1) (k1_off153_inb t 1) h1
  have h3 := row_step_cons d L sR0 sC0 g f _ (8 * t.val + 2) (k1_off148 t 2#32) (k1_off150 t 2#32) (k1_off152 t 2#32) (k1_off154 t 2#32) (k1_off147 t 2#32) (k1_off149 t 2#32) (k1_off151 t 2#32) (k1_off153 t 2#32)
    (k1_off148_eq t 2) (k1_off150_eq t 2) (k1_off152_eq t 2) (k1_off154_eq t 2) (k1_off147_eq t 2) (k1_off149_eq t 2) (k1_off151_eq t 2) (k1_off153_eq t 2)
    (k1_off148_inb t 2) (k1_off150_inb t 2) (k1_off152_inb t 2) (k1_off154_inb t 2) (k1_off147_inb t 2) (k1_off149_inb t 2) (k1_off151_inb t 2) (k1_off153_inb t 2) h2
  have h4 := row_step_cons d L sR0 sC0 g f _ (8 * t.val + 3) (k1_off148 t 3#32) (k1_off150 t 3#32) (k1_off152 t 3#32) (k1_off154 t 3#32) (k1_off147 t 3#32) (k1_off149 t 3#32) (k1_off151 t 3#32) (k1_off153 t 3#32)
    (k1_off148_eq t 3) (k1_off150_eq t 3) (k1_off152_eq t 3) (k1_off154_eq t 3) (k1_off147_eq t 3) (k1_off149_eq t 3) (k1_off151_eq t 3) (k1_off153_eq t 3)
    (k1_off148_inb t 3) (k1_off150_inb t 3) (k1_off152_inb t 3) (k1_off154_inb t 3) (k1_off147_inb t 3) (k1_off149_inb t 3) (k1_off151_inb t 3) (k1_off153_inb t 3) h3
  have h5 := row_step_cons d L sR0 sC0 g f _ (8 * t.val + 4) (k1_off148 t 4#32) (k1_off150 t 4#32) (k1_off152 t 4#32) (k1_off154 t 4#32) (k1_off147 t 4#32) (k1_off149 t 4#32) (k1_off151 t 4#32) (k1_off153 t 4#32)
    (k1_off148_eq t 4) (k1_off150_eq t 4) (k1_off152_eq t 4) (k1_off154_eq t 4) (k1_off147_eq t 4) (k1_off149_eq t 4) (k1_off151_eq t 4) (k1_off153_eq t 4)
    (k1_off148_inb t 4) (k1_off150_inb t 4) (k1_off152_inb t 4) (k1_off154_inb t 4) (k1_off147_inb t 4) (k1_off149_inb t 4) (k1_off151_inb t 4) (k1_off153_inb t 4) h4
  have h6 := row_step_cons d L sR0 sC0 g f _ (8 * t.val + 5) (k1_off148 t 5#32) (k1_off150 t 5#32) (k1_off152 t 5#32) (k1_off154 t 5#32) (k1_off147 t 5#32) (k1_off149 t 5#32) (k1_off151 t 5#32) (k1_off153 t 5#32)
    (k1_off148_eq t 5) (k1_off150_eq t 5) (k1_off152_eq t 5) (k1_off154_eq t 5) (k1_off147_eq t 5) (k1_off149_eq t 5) (k1_off151_eq t 5) (k1_off153_eq t 5)
    (k1_off148_inb t 5) (k1_off150_inb t 5) (k1_off152_inb t 5) (k1_off154_inb t 5) (k1_off147_inb t 5) (k1_off149_inb t 5) (k1_off151_inb t 5) (k1_off153_inb t 5) h5
  have h7 := row_step_cons d L sR0 sC0 g f _ (8 * t.val + 6) (k1_off148 t 6#32) (k1_off150 t 6#32) (k1_off152 t 6#32) (k1_off154 t 6#32) (k1_off147 t 6#32) (k1_off149 t 6#32) (k1_off151 t 6#32) (k1_off153 t 6#32)
    (k1_off148_eq t 6) (k1_off150_eq t 6) (k1_off152_eq t 6) (k1_off154_eq t 6) (k1_off147_eq t 6) (k1_off149_eq t 6) (k1_off151_eq t 6) (k1_off153_eq t 6)
    (k1_off148_inb t 6) (k1_off150_inb t 6) (k1_off152_inb t 6) (k1_off154_inb t 6) (k1_off147_inb t 6) (k1_off149_inb t 6) (k1_off151_inb t 6) (k1_off153_inb t 6) h6
  have h8 := row_step_cons d L sR0 sC0 g f _ (8 * t.val + 7) (k1_off148 t 7#32) (k1_off150 t 7#32) (k1_off152 t 7#32) (k1_off154 t 7#32) (k1_off147 t 7#32) (k1_off149 t 7#32) (k1_off151 t 7#32) (k1_off153 t 7#32)
    (k1_off148_eq t 7) (k1_off150_eq t 7) (k1_off152_eq t 7) (k1_off154_eq t 7) (k1_off147_eq t 7) (k1_off149_eq t 7) (k1_off151_eq t 7) (k1_off153_eq t 7)
    (k1_off148_inb t 7) (k1_off150_inb t 7) (k1_off152_inb t 7) (k1_off154_inb t 7) (k1_off147_inb t 7) (k1_off149_inb t 7) (k1_off151_inb t 7) (k1_off153_inb t 7) h7
  intro r c hr
  exact h8 r c (by omega)

/-- The compaction step of loop 20 of 40: trip t copies rows [8 t, 8 t + 8) of the landing buffer's first 64 columns. -/
theorem compact_step_t21 (t : Fin k1_t21_loop.trips) (g : Buf (Elt F) (sR1.view.loc (thr d L))) (f : Buf (Elt F) (sC1.view.loc (thr d L)))
    (hC : Compacted (sR1.view.read (Elt F) g) (sC1.view.read (Elt F) f) t.val) :
    Compacted (sR1.view.read (Elt F) g) (sC1.view.read (Elt F) (sC1.view.writes (Elt F) f
      [cpiece d L sR1 g (k1_off162 t 7#32) (k1_off161 t 7#32) (k1_off162_inb t 7) (k1_off161_inb t 7),
       cpiece d L sR1 g (k1_off160 t 7#32) (k1_off159 t 7#32) (k1_off160_inb t 7) (k1_off159_inb t 7),
       cpiece d L sR1 g (k1_off158 t 7#32) (k1_off157 t 7#32) (k1_off158_inb t 7) (k1_off157_inb t 7),
       cpiece d L sR1 g (k1_off156 t 7#32) (k1_off155 t 7#32) (k1_off156_inb t 7) (k1_off155_inb t 7),
       cpiece d L sR1 g (k1_off162 t 6#32) (k1_off161 t 6#32) (k1_off162_inb t 6) (k1_off161_inb t 6),
       cpiece d L sR1 g (k1_off160 t 6#32) (k1_off159 t 6#32) (k1_off160_inb t 6) (k1_off159_inb t 6),
       cpiece d L sR1 g (k1_off158 t 6#32) (k1_off157 t 6#32) (k1_off158_inb t 6) (k1_off157_inb t 6),
       cpiece d L sR1 g (k1_off156 t 6#32) (k1_off155 t 6#32) (k1_off156_inb t 6) (k1_off155_inb t 6),
       cpiece d L sR1 g (k1_off162 t 5#32) (k1_off161 t 5#32) (k1_off162_inb t 5) (k1_off161_inb t 5),
       cpiece d L sR1 g (k1_off160 t 5#32) (k1_off159 t 5#32) (k1_off160_inb t 5) (k1_off159_inb t 5),
       cpiece d L sR1 g (k1_off158 t 5#32) (k1_off157 t 5#32) (k1_off158_inb t 5) (k1_off157_inb t 5),
       cpiece d L sR1 g (k1_off156 t 5#32) (k1_off155 t 5#32) (k1_off156_inb t 5) (k1_off155_inb t 5),
       cpiece d L sR1 g (k1_off162 t 4#32) (k1_off161 t 4#32) (k1_off162_inb t 4) (k1_off161_inb t 4),
       cpiece d L sR1 g (k1_off160 t 4#32) (k1_off159 t 4#32) (k1_off160_inb t 4) (k1_off159_inb t 4),
       cpiece d L sR1 g (k1_off158 t 4#32) (k1_off157 t 4#32) (k1_off158_inb t 4) (k1_off157_inb t 4),
       cpiece d L sR1 g (k1_off156 t 4#32) (k1_off155 t 4#32) (k1_off156_inb t 4) (k1_off155_inb t 4),
       cpiece d L sR1 g (k1_off162 t 3#32) (k1_off161 t 3#32) (k1_off162_inb t 3) (k1_off161_inb t 3),
       cpiece d L sR1 g (k1_off160 t 3#32) (k1_off159 t 3#32) (k1_off160_inb t 3) (k1_off159_inb t 3),
       cpiece d L sR1 g (k1_off158 t 3#32) (k1_off157 t 3#32) (k1_off158_inb t 3) (k1_off157_inb t 3),
       cpiece d L sR1 g (k1_off156 t 3#32) (k1_off155 t 3#32) (k1_off156_inb t 3) (k1_off155_inb t 3),
       cpiece d L sR1 g (k1_off162 t 2#32) (k1_off161 t 2#32) (k1_off162_inb t 2) (k1_off161_inb t 2),
       cpiece d L sR1 g (k1_off160 t 2#32) (k1_off159 t 2#32) (k1_off160_inb t 2) (k1_off159_inb t 2),
       cpiece d L sR1 g (k1_off158 t 2#32) (k1_off157 t 2#32) (k1_off158_inb t 2) (k1_off157_inb t 2),
       cpiece d L sR1 g (k1_off156 t 2#32) (k1_off155 t 2#32) (k1_off156_inb t 2) (k1_off155_inb t 2),
       cpiece d L sR1 g (k1_off162 t 1#32) (k1_off161 t 1#32) (k1_off162_inb t 1) (k1_off161_inb t 1),
       cpiece d L sR1 g (k1_off160 t 1#32) (k1_off159 t 1#32) (k1_off160_inb t 1) (k1_off159_inb t 1),
       cpiece d L sR1 g (k1_off158 t 1#32) (k1_off157 t 1#32) (k1_off158_inb t 1) (k1_off157_inb t 1),
       cpiece d L sR1 g (k1_off156 t 1#32) (k1_off155 t 1#32) (k1_off156_inb t 1) (k1_off155_inb t 1),
       cpiece d L sR1 g (k1_off162 t 0#32) (k1_off161 t 0#32) (k1_off162_inb t 0) (k1_off161_inb t 0),
       cpiece d L sR1 g (k1_off160 t 0#32) (k1_off159 t 0#32) (k1_off160_inb t 0) (k1_off159_inb t 0),
       cpiece d L sR1 g (k1_off158 t 0#32) (k1_off157 t 0#32) (k1_off158_inb t 0) (k1_off157_inb t 0),
       cpiece d L sR1 g (k1_off156 t 0#32) (k1_off155 t 0#32) (k1_off156_inb t 0) (k1_off155_inb t 0)])) (t.val + 1) := by
  have h1 := row_step_cons d L sR1 sC1 g f [] (8 * t.val + 0) (k1_off156 t 0#32) (k1_off158 t 0#32) (k1_off160 t 0#32) (k1_off162 t 0#32) (k1_off155 t 0#32) (k1_off157 t 0#32) (k1_off159 t 0#32) (k1_off161 t 0#32)
    (k1_off156_eq t 0) (k1_off158_eq t 0) (k1_off160_eq t 0) (k1_off162_eq t 0) (k1_off155_eq t 0) (k1_off157_eq t 0) (k1_off159_eq t 0) (k1_off161_eq t 0)
    (k1_off156_inb t 0) (k1_off158_inb t 0) (k1_off160_inb t 0) (k1_off162_inb t 0) (k1_off155_inb t 0) (k1_off157_inb t 0) (k1_off159_inb t 0) (k1_off161_inb t 0) ((compacted_iff_rows _ _ _).1 hC)
  have h2 := row_step_cons d L sR1 sC1 g f _ (8 * t.val + 1) (k1_off156 t 1#32) (k1_off158 t 1#32) (k1_off160 t 1#32) (k1_off162 t 1#32) (k1_off155 t 1#32) (k1_off157 t 1#32) (k1_off159 t 1#32) (k1_off161 t 1#32)
    (k1_off156_eq t 1) (k1_off158_eq t 1) (k1_off160_eq t 1) (k1_off162_eq t 1) (k1_off155_eq t 1) (k1_off157_eq t 1) (k1_off159_eq t 1) (k1_off161_eq t 1)
    (k1_off156_inb t 1) (k1_off158_inb t 1) (k1_off160_inb t 1) (k1_off162_inb t 1) (k1_off155_inb t 1) (k1_off157_inb t 1) (k1_off159_inb t 1) (k1_off161_inb t 1) h1
  have h3 := row_step_cons d L sR1 sC1 g f _ (8 * t.val + 2) (k1_off156 t 2#32) (k1_off158 t 2#32) (k1_off160 t 2#32) (k1_off162 t 2#32) (k1_off155 t 2#32) (k1_off157 t 2#32) (k1_off159 t 2#32) (k1_off161 t 2#32)
    (k1_off156_eq t 2) (k1_off158_eq t 2) (k1_off160_eq t 2) (k1_off162_eq t 2) (k1_off155_eq t 2) (k1_off157_eq t 2) (k1_off159_eq t 2) (k1_off161_eq t 2)
    (k1_off156_inb t 2) (k1_off158_inb t 2) (k1_off160_inb t 2) (k1_off162_inb t 2) (k1_off155_inb t 2) (k1_off157_inb t 2) (k1_off159_inb t 2) (k1_off161_inb t 2) h2
  have h4 := row_step_cons d L sR1 sC1 g f _ (8 * t.val + 3) (k1_off156 t 3#32) (k1_off158 t 3#32) (k1_off160 t 3#32) (k1_off162 t 3#32) (k1_off155 t 3#32) (k1_off157 t 3#32) (k1_off159 t 3#32) (k1_off161 t 3#32)
    (k1_off156_eq t 3) (k1_off158_eq t 3) (k1_off160_eq t 3) (k1_off162_eq t 3) (k1_off155_eq t 3) (k1_off157_eq t 3) (k1_off159_eq t 3) (k1_off161_eq t 3)
    (k1_off156_inb t 3) (k1_off158_inb t 3) (k1_off160_inb t 3) (k1_off162_inb t 3) (k1_off155_inb t 3) (k1_off157_inb t 3) (k1_off159_inb t 3) (k1_off161_inb t 3) h3
  have h5 := row_step_cons d L sR1 sC1 g f _ (8 * t.val + 4) (k1_off156 t 4#32) (k1_off158 t 4#32) (k1_off160 t 4#32) (k1_off162 t 4#32) (k1_off155 t 4#32) (k1_off157 t 4#32) (k1_off159 t 4#32) (k1_off161 t 4#32)
    (k1_off156_eq t 4) (k1_off158_eq t 4) (k1_off160_eq t 4) (k1_off162_eq t 4) (k1_off155_eq t 4) (k1_off157_eq t 4) (k1_off159_eq t 4) (k1_off161_eq t 4)
    (k1_off156_inb t 4) (k1_off158_inb t 4) (k1_off160_inb t 4) (k1_off162_inb t 4) (k1_off155_inb t 4) (k1_off157_inb t 4) (k1_off159_inb t 4) (k1_off161_inb t 4) h4
  have h6 := row_step_cons d L sR1 sC1 g f _ (8 * t.val + 5) (k1_off156 t 5#32) (k1_off158 t 5#32) (k1_off160 t 5#32) (k1_off162 t 5#32) (k1_off155 t 5#32) (k1_off157 t 5#32) (k1_off159 t 5#32) (k1_off161 t 5#32)
    (k1_off156_eq t 5) (k1_off158_eq t 5) (k1_off160_eq t 5) (k1_off162_eq t 5) (k1_off155_eq t 5) (k1_off157_eq t 5) (k1_off159_eq t 5) (k1_off161_eq t 5)
    (k1_off156_inb t 5) (k1_off158_inb t 5) (k1_off160_inb t 5) (k1_off162_inb t 5) (k1_off155_inb t 5) (k1_off157_inb t 5) (k1_off159_inb t 5) (k1_off161_inb t 5) h5
  have h7 := row_step_cons d L sR1 sC1 g f _ (8 * t.val + 6) (k1_off156 t 6#32) (k1_off158 t 6#32) (k1_off160 t 6#32) (k1_off162 t 6#32) (k1_off155 t 6#32) (k1_off157 t 6#32) (k1_off159 t 6#32) (k1_off161 t 6#32)
    (k1_off156_eq t 6) (k1_off158_eq t 6) (k1_off160_eq t 6) (k1_off162_eq t 6) (k1_off155_eq t 6) (k1_off157_eq t 6) (k1_off159_eq t 6) (k1_off161_eq t 6)
    (k1_off156_inb t 6) (k1_off158_inb t 6) (k1_off160_inb t 6) (k1_off162_inb t 6) (k1_off155_inb t 6) (k1_off157_inb t 6) (k1_off159_inb t 6) (k1_off161_inb t 6) h6
  have h8 := row_step_cons d L sR1 sC1 g f _ (8 * t.val + 7) (k1_off156 t 7#32) (k1_off158 t 7#32) (k1_off160 t 7#32) (k1_off162 t 7#32) (k1_off155 t 7#32) (k1_off157 t 7#32) (k1_off159 t 7#32) (k1_off161 t 7#32)
    (k1_off156_eq t 7) (k1_off158_eq t 7) (k1_off160_eq t 7) (k1_off162_eq t 7) (k1_off155_eq t 7) (k1_off157_eq t 7) (k1_off159_eq t 7) (k1_off161_eq t 7)
    (k1_off156_inb t 7) (k1_off158_inb t 7) (k1_off160_inb t 7) (k1_off162_inb t 7) (k1_off155_inb t 7) (k1_off157_inb t 7) (k1_off159_inb t 7) (k1_off161_inb t 7) h7
  intro r c hr
  exact h8 r c (by omega)

end Cert.Proof.KI

end
-- ==== Proof.KI.TileVal2c.lean ====
/-
  The compaction steps of loops 21 to 30 of the 40, one statement each: trip t of a chunk's compaction loop copies eight more
  rows' first 64 columns from its landing buffer into its compacted buffer. Each is eight applications of the one-row
  step at the loop's own offset functions, whose closed forms are row 8 t + j, columns 0, 16, 32, 48.
-/
import proofs.«217222_g83150566851320_cont_9to1_m_45_25_alg».proof.Proof.KI.TileVal

noncomputable section

namespace Cert.Proof.KI

open Cert.KernelIdeal Cert.KernelIdeal.Gen

open Idealize.ShloMosaic
open Idealize.ShloMosaic.SparseCore (S V T)
open Idealize.ShloMosaic.ValueIdx (ix2 ix3)

variable {F : FTy → Type} [FloatOps F]

variable (d : Dev nD) (L : grid1.Coords)

/-- The compaction step of loop 21 of 40: trip t copies rows [8 t, 8 t + 8) of the landing buffer's first 64 columns. -/
theorem compact_step_t22 (t : Fin k1_t22_loop.trips) (g : Buf (Elt F) (sR2.view.loc (thr d L))) (f : Buf (Elt F) (sC0.view.loc (thr d L)))
    (hC : Compacted (sR2.view.read (Elt F) g) (sC0.view.read (Elt F) f) t.val) :
    Compacted (sR2.view.read (Elt F) g) (sC0.view.read (Elt F) (sC0.view.writes (Elt F) f
      [cpiece d L sR2 g (k1_off170 t 7#32) (k1_off169 t 7#32) (k1_off170_inb t 7) (k1_off169_inb t 7),
       cpiece d L sR2 g (k1_off168 t 7#32) (k1_off167 t 7#32) (k1_off168_inb t 7) (k1_off167_inb t 7),
       cpiece d L sR2 g (k1_off166 t 7#32) (k1_off165 t 7#32) (k1_off166_inb t 7) (k1_off165_inb t 7),
       cpiece d L sR2 g (k1_off164 t 7#32) (k1_off163 t 7#32) (k1_off164_inb t 7) (k1_off163_inb t 7),
       cpiece d L sR2 g (k1_off170 t 6#32) (k1_off169 t 6#32) (k1_off170_inb t 6) (k1_off169_inb t 6),
       cpiece d L sR2 g (k1_off168 t 6#32) (k1_off167 t 6#32) (k1_off168_inb t 6) (k1_off167_inb t 6),
       cpiece d L sR2 g (k1_off166 t 6#32) (k1_off165 t 6#32) (k1_off166_inb t 6) (k1_off165_inb t 6),
       cpiece d L sR2 g (k1_off164 t 6#32) (k1_off163 t 6#32) (k1_off164_inb t 6) (k1_off163_inb t 6),
       cpiece d L sR2 g (k1_off170 t 5#32) (k1_off169 t 5#32) (k1_off170_inb t 5) (k1_off169_inb t 5),
       cpiece d L sR2 g (k1_off168 t 5#32) (k1_off167 t 5#32) (k1_off168_inb t 5) (k1_off167_inb t 5),
       cpiece d L sR2 g (k1_off166 t 5#32) (k1_off165 t 5#32) (k1_off166_inb t 5) (k1_off165_inb t 5),
       cpiece d L sR2 g (k1_off164 t 5#32) (k1_off163 t 5#32) (k1_off164_inb t 5) (k1_off163_inb t 5),
       cpiece d L sR2 g (k1_off170 t 4#32) (k1_off169 t 4#32) (k1_off170_inb t 4) (k1_off169_inb t 4),
       cpiece d L sR2 g (k1_off168 t 4#32) (k1_off167 t 4#32) (k1_off168_inb t 4) (k1_off167_inb t 4),
       cpiece d L sR2 g (k1_off166 t 4#32) (k1_off165 t 4#32) (k1_off166_inb t 4) (k1_off165_inb t 4),
       cpiece d L sR2 g (k1_off164 t 4#32) (k1_off163 t 4#32) (k1_off164_inb t 4) (k1_off163_inb t 4),
       cpiece d L sR2 g (k1_off170 t 3#32) (k1_off169 t 3#32) (k1_off170_inb t 3) (k1_off169_inb t 3),
       cpiece d L sR2 g (k1_off168 t 3#32) (k1_off167 t 3#32) (k1_off168_inb t 3) (k1_off167_inb t 3),
       cpiece d L sR2 g (k1_off166 t 3#32) (k1_off165 t 3#32) (k1_off166_inb t 3) (k1_off165_inb t 3),
       cpiece d L sR2 g (k1_off164 t 3#32) (k1_off163 t 3#32) (k1_off164_inb t 3) (k1_off163_inb t 3),
       cpiece d L sR2 g (k1_off170 t 2#32) (k1_off169 t 2#32) (k1_off170_inb t 2) (k1_off169_inb t 2),
       cpiece d L sR2 g (k1_off168 t 2#32) (k1_off167 t 2#32) (k1_off168_inb t 2) (k1_off167_inb t 2),
       cpiece d L sR2 g (k1_off166 t 2#32) (k1_off165 t 2#32) (k1_off166_inb t 2) (k1_off165_inb t 2),
       cpiece d L sR2 g (k1_off164 t 2#32) (k1_off163 t 2#32) (k1_off164_inb t 2) (k1_off163_inb t 2),
       cpiece d L sR2 g (k1_off170 t 1#32) (k1_off169 t 1#32) (k1_off170_inb t 1) (k1_off169_inb t 1),
       cpiece d L sR2 g (k1_off168 t 1#32) (k1_off167 t 1#32) (k1_off168_inb t 1) (k1_off167_inb t 1),
       cpiece d L sR2 g (k1_off166 t 1#32) (k1_off165 t 1#32) (k1_off166_inb t 1) (k1_off165_inb t 1),
       cpiece d L sR2 g (k1_off164 t 1#32) (k1_off163 t 1#32) (k1_off164_inb t 1) (k1_off163_inb t 1),
       cpiece d L sR2 g (k1_off170 t 0#32) (k1_off169 t 0#32) (k1_off170_inb t 0) (k1_off169_inb t 0),
       cpiece d L sR2 g (k1_off168 t 0#32) (k1_off167 t 0#32) (k1_off168_inb t 0) (k1_off167_inb t 0),
       cpiece d L sR2 g (k1_off166 t 0#32) (k1_off165 t 0#32) (k1_off166_inb t 0) (k1_off165_inb t 0),
       cpiece d L sR2 g (k1_off164 t 0#32) (k1_off163 t 0#32) (k1_off164_inb t 0) (k1_off163_inb t 0)])) (t.val + 1) := by
  have h1 := row_step_cons d L sR2 sC0 g f [] (8 * t.val + 0) (k1_off164 t 0#32) (k1_off166 t 0#32) (k1_off168 t 0#32) (k1_off170 t 0#32) (k1_off163 t 0#32) (k1_off165 t 0#32) (k1_off167 t 0#32) (k1_off169 t 0#32)
    (k1_off164_eq t 0) (k1_off166_eq t 0) (k1_off168_eq t 0) (k1_off170_eq t 0) (k1_off163_eq t 0) (k1_off165_eq t 0) (k1_off167_eq t 0) (k1_off169_eq t 0)
    (k1_off164_inb t 0) (k1_off166_inb t 0) (k1_off168_inb t 0) (k1_off170_inb t 0) (k1_off163_inb t 0) (k1_off165_inb t 0) (k1_off167_inb t 0) (k1_off169_inb t 0) ((compacted_iff_rows _ _ _).1 hC)
  have h2 := row_step_cons d L sR2 sC0 g f _ (8 * t.val + 1) (k1_off164 t 1#32) (k1_off166 t 1#32) (k1_off168 t 1#32) (k1_off170 t 1#32) (k1_off163 t 1#32) (k1_off165 t 1#32) (k1_off167 t 1#32) (k1_off169 t 1#32)
    (k1_off164_eq t 1) (k1_off166_eq t 1) (k1_off168_eq t 1) (k1_off170_eq t 1) (k1_off163_eq t 1) (k1_off165_eq t 1) (k1_off167_eq t 1) (k1_off169_eq t 1)
    (k1_off164_inb t 1) (k1_off166_inb t 1) (k1_off168_inb t 1) (k1_off170_inb t 1) (k1_off163_inb t 1) (k1_off165_inb t 1) (k1_off167_inb t 1) (k1_off169_inb t 1) h1
  have h3 := row_step_cons d L sR2 sC0 g f _ (8 * t.val + 2) (k1_off164 t 2#32) (k1_off166 t 2#32) (k1_off168 t 2#32) (k1_off170 t 2#32) (k1_off163 t 2#32) (k1_off165 t 2#32) (k1_off167 t 2#32) (k1_off169 t 2#32)
    (k1_off164_eq t 2) (k1_off166_eq t 2) (k1_off168_eq t 2) (k1_off170_eq t 2) (k1_off163_eq t 2) (k1_off165_eq t 2) (k1_off167_eq t 2) (k1_off169_eq t 2)
    (k1_off164_inb t 2) (k1_off166_inb t 2) (k1_off168_inb t 2) (k1_off170_inb t 2) (k1_off163_inb t 2) (k1_off165_inb t 2) (k1_off167_inb t 2) (k1_off169_inb t 2) h2
  have h4 := row_step_cons d L sR2 sC0 g f _ (8 * t.val + 3) (k1_off164 t 3#32) (k1_off166 t 3#32) (k1_off168 t 3#32) (k1_off170 t 3#32) (k1_off163 t 3#32) (k1_off165 t 3#32) (k1_off167 t 3#32) (k1_off169 t 3#32)
    (k1_off164_eq t 3) (k1_off166_eq t 3) (k1_off168_eq t 3) (k1_off170_eq t 3) (k1_off163_eq t 3) (k1_off165_eq t 3) (k1_off167_eq t 3) (k1_off169_eq t 3)
    (k1_off164_inb t 3) (k1_off166_inb t 3) (k1_off168_inb t 3) (k1_off170_inb t 3) (k1_off163_inb t 3) (k1_off165_inb t 3) (k1_off167_inb t 3) (k1_off169_inb t 3) h3
  have h5 := row_step_cons d L sR2 sC0 g f _ (8 * t.val + 4) (k1_off164 t 4#32) (k1_off166 t 4#32) (k1_off168 t 4#32) (k1_off170 t 4#32) (k1_off163 t 4#32) (k1_off165 t 4#32) (k1_off167 t 4#32) (k1_off169 t 4#32)
    (k1_off164_eq t 4) (k1_off166_eq t 4) (k1_off168_eq t 4) (k1_off170_eq t 4) (k1_off163_eq t 4) (k1_off165_eq t 4) (k1_off167_eq t 4) (k1_off169_eq t 4)
    (k1_off164_inb t 4) (k1_off166_inb t 4) (k1_off168_inb t 4) (k1_off170_inb t 4) (k1_off163_inb t 4) (k1_off165_inb t 4) (k1_off167_inb t 4) (k1_off169_inb t 4) h4
  have h6 := row_step_cons d L sR2 sC0 g f _ (8 * t.val + 5) (k1_off164 t 5#32) (k1_off166 t 5#32) (k1_off168 t 5#32) (k1_off170 t 5#32) (k1_off163 t 5#32) (k1_off165 t 5#32) (k1_off167 t 5#32) (k1_off169 t 5#32)
    (k1_off164_eq t 5) (k1_off166_eq t 5) (k1_off168_eq t 5) (k1_off170_eq t 5) (k1_off163_eq t 5) (k1_off165_eq t 5) (k1_off167_eq t 5) (k1_off169_eq t 5)
    (k1_off164_inb t 5) (k1_off166_inb t 5) (k1_off168_inb t 5) (k1_off170_inb t 5) (k1_off163_inb t 5) (k1_off165_inb t 5) (k1_off167_inb t 5) (k1_off169_inb t 5) h5
  have h7 := row_step_cons d L sR2 sC0 g f _ (8 * t.val + 6) (k1_off164 t 6#32) (k1_off166 t 6#32) (k1_off168 t 6#32) (k1_off170 t 6#32) (k1_off163 t 6#32) (k1_off165 t 6#32) (k1_off167 t 6#32) (k1_off169 t 6#32)
    (k1_off164_eq t 6) (k1_off166_eq t 6) (k1_off168_eq t 6) (k1_off170_eq t 6) (k1_off163_eq t 6) (k1_off165_eq t 6) (k1_off167_eq t 6) (k1_off169_eq t 6)
    (k1_off164_inb t 6) (k1_off166_inb t 6) (k1_off168_inb t 6) (k1_off170_inb t 6) (k1_off163_inb t 6) (k1_off165_inb t 6) (k1_off167_inb t 6) (k1_off169_inb t 6) h6
  have h8 := row_step_cons d L sR2 sC0 g f _ (8 * t.val + 7) (k1_off164 t 7#32) (k1_off166 t 7#32) (k1_off168 t 7#32) (k1_off170 t 7#32) (k1_off163 t 7#32) (k1_off165 t 7#32) (k1_off167 t 7#32) (k1_off169 t 7#32)
    (k1_off164_eq t 7) (k1_off166_eq t 7) (k1_off168_eq t 7) (k1_off170_eq t 7) (k1_off163_eq t 7) (k1_off165_eq t 7) (k1_off167_eq t 7) (k1_off169_eq t 7)
    (k1_off164_inb t 7) (k1_off166_inb t 7) (k1_off168_inb t 7) (k1_off170_inb t 7) (k1_off163_inb t 7) (k1_off165_inb t 7) (k1_off167_inb t 7) (k1_off169_inb t 7) h7
  intro r c hr
  exact h8 r c (by omega)

/-- The compaction step of loop 22 of 40: trip t copies rows [8 t, 8 t + 8) of the landing buffer's first 64 columns. -/
theorem compact_step_t23 (t : Fin k1_t23_loop.trips) (g : Buf (Elt F) (sR0.view.loc (thr d L))) (f : Buf (Elt F) (sC1.view.loc (thr d L)))
    (hC : Compacted (sR0.view.read (Elt F) g) (sC1.view.read (Elt F) f) t.val) :
    Compacted (sR0.view.read (Elt F) g) (sC1.view.read (Elt F) (sC1.view.writes (Elt F) f
      [cpiece d L sR0 g (k1_off178 t 7#32) (k1_off177 t 7#32) (k1_off178_inb t 7) (k1_off177_inb t 7),
       cpiece d L sR0 g (k1_off176 t 7#32) (k1_off175 t 7#32) (k1_off176_inb t 7) (k1_off175_inb t 7),
       cpiece d L sR0 g (k1_off174 t 7#32) (k1_off173 t 7#32) (k1_off174_inb t 7) (k1_off173_inb t 7),
       cpiece d L sR0 g (k1_off172 t 7#32) (k1_off171 t 7#32) (k1_off172_inb t 7) (k1_off171_inb t 7),
       cpiece d L sR0 g (k1_off178 t 6#32) (k1_off177 t 6#32) (k1_off178_inb t 6) (k1_off177_inb t 6),
       cpiece d L sR0 g (k1_off176 t 6#32) (k1_off175 t 6#32) (k1_off176_inb t 6) (k1_off175_inb t 6),
       cpiece d L sR0 g (k1_off174 t 6#32) (k1_off173 t 6#32) (k1_off174_inb t 6) (k1_off173_inb t 6),
       cpiece d L sR0 g (k1_off172 t 6#32) (k1_off171 t 6#32) (k1_off172_inb t 6) (k1_off171_inb t 6),
       cpiece d L sR0 g (k1_off178 t 5#32) (k1_off177 t 5#32) (k1_off178_inb t 5) (k1_off177_inb t 5),
       cpiece d L sR0 g (k1_off176 t 5#32) (k1_off175 t 5#32) (k1_off176_inb t 5) (k1_off175_inb t 5),
       cpiece d L sR0 g (k1_off174 t 5#32) (k1_off173 t 5#32) (k1_off174_inb t 5) (k1_off173_inb t 5),
       cpiece d L sR0 g (k1_off172 t 5#32) (k1_off171 t 5#32) (k1_off172_inb t 5) (k1_off171_inb t 5),
       cpiece d L sR0 g (k1_off178 t 4#32) (k1_off177 t 4#32) (k1_off178_inb t 4) (k1_off177_inb t 4),
       cpiece d L sR0 g (k1_off176 t 4#32) (k1_off175 t 4#32) (k1_off176_inb t 4) (k1_off175_inb t 4),
       cpiece d L sR0 g (k1_off174 t 4#32) (k1_off173 t 4#32) (k1_off174_inb t 4) (k1_off173_inb t 4),
       cpiece d L sR0 g (k1_off172 t 4#32) (k1_off171 t 4#32) (k1_off172_inb t 4) (k1_off171_inb t 4),
       cpiece d L sR0 g (k1_off178 t 3#32) (k1_off177 t 3#32) (k1_off178_inb t 3) (k1_off177_inb t 3),
       cpiece d L sR0 g (k1_off176 t 3#32) (k1_off175 t 3#32) (k1_off176_inb t 3) (k1_off175_inb t 3),
       cpiece d L sR0 g (k1_off174 t 3#32) (k1_off173 t 3#32) (k1_off174_inb t 3) (k1_off173_inb t 3),
       cpiece d L sR0 g (k1_off172 t 3#32) (k1_off171 t 3#32) (k1_off172_inb t 3) (k1_off171_inb t 3),
       cpiece d L sR0 g (k1_off178 t 2#32) (k1_off177 t 2#32) (k1_off178_inb t 2) (k1_off177_inb t 2),
       cpiece d L sR0 g (k1_off176 t 2#32) (k1_off175 t 2#32) (k1_off176_inb t 2) (k1_off175_inb t 2),
       cpiece d L sR0 g (k1_off174 t 2#32) (k1_off173 t 2#32) (k1_off174_inb t 2) (k1_off173_inb t 2),
       cpiece d L sR0 g (k1_off172 t 2#32) (k1_off171 t 2#32) (k1_off172_inb t 2) (k1_off171_inb t 2),
       cpiece d L sR0 g (k1_off178 t 1#32) (k1_off177 t 1#32) (k1_off178_inb t 1) (k1_off177_inb t 1),
       cpiece d L sR0 g (k1_off176 t 1#32) (k1_off175 t 1#32) (k1_off176_inb t 1) (k1_off175_inb t 1),
       cpiece d L sR0 g (k1_off174 t 1#32) (k1_off173 t 1#32) (k1_off174_inb t 1) (k1_off173_inb t 1),
       cpiece d L sR0 g (k1_off172 t 1#32) (k1_off171 t 1#32) (k1_off172_inb t 1) (k1_off171_inb t 1),
       cpiece d L sR0 g (k1_off178 t 0#32) (k1_off177 t 0#32) (k1_off178_inb t 0) (k1_off177_inb t 0),
       cpiece d L sR0 g (k1_off176 t 0#32) (k1_off175 t 0#32) (k1_off176_inb t 0) (k1_off175_inb t 0),
       cpiece d L sR0 g (k1_off174 t 0#32) (k1_off173 t 0#32) (k1_off174_inb t 0) (k1_off173_inb t 0),
       cpiece d L sR0 g (k1_off172 t 0#32) (k1_off171 t 0#32) (k1_off172_inb t 0) (k1_off171_inb t 0)])) (t.val + 1) := by
  have h1 := row_step_cons d L sR0 sC1 g f [] (8 * t.val + 0) (k1_off172 t 0#32) (k1_off174 t 0#32) (k1_off176 t 0#32) (k1_off178 t 0#32) (k1_off171 t 0#32) (k1_off173 t 0#32) (k1_off175 t 0#32) (k1_off177 t 0#32)
    (k1_off172_eq t 0) (k1_off174_eq t 0) (k1_off176_eq t 0) (k1_off178_eq t 0) (k1_off171_eq t 0) (k1_off173_eq t 0) (k1_off175_eq t 0) (k1_off177_eq t 0)
    (k1_off172_inb t 0) (k1_off174_inb t 0) (k1_off176_inb t 0) (k1_off178_inb t 0) (k1_off171_inb t 0) (k1_off173_inb t 0) (k1_off175_inb t 0) (k1_off177_inb t 0) ((compacted_iff_rows _ _ _).1 hC)
  have h2 := row_step_cons d L sR0 sC1 g f _ (8 * t.val + 1) (k1_off172 t 1#32) (k1_off174 t 1#32) (k1_off176 t 1#32) (k1_off178 t 1#32) (k1_off171 t 1#32) (k1_off173 t 1#32) (k1_off175 t 1#32) (k1_off177 t 1#32)
    (k1_off172_eq t 1) (k1_off174_eq t 1) (k1_off176_eq t 1) (k1_off178_eq t 1) (k1_off171_eq t 1) (k1_off173_eq t 1) (k1_off175_eq t 1) (k1_off177_eq t 1)
    (k1_off172_inb t 1) (k1_off174_inb t 1) (k1_off176_inb t 1) (k1_off178_inb t 1) (k1_off171_inb t 1) (k1_off173_inb t 1) (k1_off175_inb t 1) (k1_off177_inb t 1) h1
  have h3 := row_step_cons d L sR0 sC1 g f _ (8 * t.val + 2) (k1_off172 t 2#32) (k1_off174 t 2#32) (k1_off176 t 2#32) (k1_off178 t 2#32) (k1_off171 t 2#32) (k1_off173 t 2#32) (k1_off175 t 2#32) (k1_off177 t 2#32)
    (k1_off172_eq t 2) (k1_off174_eq t 2) (k1_off176_eq t 2) (k1_off178_eq t 2) (k1_off171_eq t 2) (k1_off173_eq t 2) (k1_off175_eq t 2) (k1_off177_eq t 2)
    (k1_off172_inb t 2) (k1_off174_inb t 2) (k1_off176_inb t 2) (k1_off178_inb t 2) (k1_off171_inb t 2) (k1_off173_inb t 2) (k1_off175_inb t 2) (k1_off177_inb t 2) h2
  have h4 := row_step_cons d L sR0 sC1 g f _ (8 * t.val + 3) (k1_off172 t 3#32) (k1_off174 t 3#32) (k1_off176 t 3#32) (k1_off178 t 3#32) (k1_off171 t 3#32) (k1_off173 t 3#32) (k1_off175 t 3#32) (k1_off177 t 3#32)
    (k1_off172_eq t 3) (k1_off174_eq t 3) (k1_off176_eq t 3) (k1_off178_eq t 3) (k1_off171_eq t 3) (k1_off173_eq t 3) (k1_off175_eq t 3) (k1_off177_eq t 3)
    (k1_off172_inb t 3) (k1_off174_inb t 3) (k1_off176_inb t 3) (k1_off178_inb t 3) (k1_off171_inb t 3) (k1_off173_inb t 3) (k1_off175_inb t 3) (k1_off177_inb t 3) h3
  have h5 := row_step_cons d L sR0 sC1 g f _ (8 * t.val + 4) (k1_off172 t 4#32) (k1_off174 t 4#32) (k1_off176 t 4#32) (k1_off178 t 4#32) (k1_off171 t 4#32) (k1_off173 t 4#32) (k1_off175 t 4#32) (k1_off177 t 4#32)
    (k1_off172_eq t 4) (k1_off174_eq t 4) (k1_off176_eq t 4) (k1_off178_eq t 4) (k1_off171_eq t 4) (k1_off173_eq t 4) (k1_off175_eq t 4) (k1_off177_eq t 4)
    (k1_off172_inb t 4) (k1_off174_inb t 4) (k1_off176_inb t 4) (k1_off178_inb t 4) (k1_off171_inb t 4) (k1_off173_inb t 4) (k1_off175_inb t 4) (k1_off177_inb t 4) h4
  have h6 := row_step_cons d L sR0 sC1 g f _ (8 * t.val + 5) (k1_off172 t 5#32) (k1_off174 t 5#32) (k1_off176 t 5#32) (k1_off178 t 5#32) (k1_off171 t 5#32) (k1_off173 t 5#32) (k1_off175 t 5#32) (k1_off177 t 5#32)
    (k1_off172_eq t 5) (k1_off174_eq t 5) (k1_off176_eq t 5) (k1_off178_eq t 5) (k1_off171_eq t 5) (k1_off173_eq t 5) (k1_off175_eq t 5) (k1_off177_eq t 5)
    (k1_off172_inb t 5) (k1_off174_inb t 5) (k1_off176_inb t 5) (k1_off178_inb t 5) (k1_off171_inb t 5) (k1_off173_inb t 5) (k1_off175_inb t 5) (k1_off177_inb t 5) h5
  have h7 := row_step_cons d L sR0 sC1 g f _ (8 * t.val + 6) (k1_off172 t 6#32) (k1_off174 t 6#32) (k1_off176 t 6#32) (k1_off178 t 6#32) (k1_off171 t 6#32) (k1_off173 t 6#32) (k1_off175 t 6#32) (k1_off177 t 6#32)
    (k1_off172_eq t 6) (k1_off174_eq t 6) (k1_off176_eq t 6) (k1_off178_eq t 6) (k1_off171_eq t 6) (k1_off173_eq t 6) (k1_off175_eq t 6) (k1_off177_eq t 6)
    (k1_off172_inb t 6) (k1_off174_inb t 6) (k1_off176_inb t 6) (k1_off178_inb t 6) (k1_off171_inb t 6) (k1_off173_inb t 6) (k1_off175_inb t 6) (k1_off177_inb t 6) h6
  have h8 := row_step_cons d L sR0 sC1 g f _ (8 * t.val + 7) (k1_off172 t 7#32) (k1_off174 t 7#32) (k1_off176 t 7#32) (k1_off178 t 7#32) (k1_off171 t 7#32) (k1_off173 t 7#32) (k1_off175 t 7#32) (k1_off177 t 7#32)
    (k1_off172_eq t 7) (k1_off174_eq t 7) (k1_off176_eq t 7) (k1_off178_eq t 7) (k1_off171_eq t 7) (k1_off173_eq t 7) (k1_off175_eq t 7) (k1_off177_eq t 7)
    (k1_off172_inb t 7) (k1_off174_inb t 7) (k1_off176_inb t 7) (k1_off178_inb t 7) (k1_off171_inb t 7) (k1_off173_inb t 7) (k1_off175_inb t 7) (k1_off177_inb t 7) h7
  intro r c hr
  exact h8 r c (by omega)

/-- The compaction step of loop 23 of 40: trip t copies rows [8 t, 8 t + 8) of the landing buffer's first 64 columns. -/
theorem compact_step_t24 (t : Fin k1_t24_loop.trips) (g : Buf (Elt F) (sR1.view.loc (thr d L))) (f : Buf (Elt F) (sC0.view.loc (thr d L)))
    (hC : Compacted (sR1.view.read (Elt F) g) (sC0.view.read (Elt F) f) t.val) :
    Compacted (sR1.view.read (Elt F) g) (sC0.view.read (Elt F) (sC0.view.writes (Elt F) f
      [cpiece d L sR1 g (k1_off186 t 7#32) (k1_off185 t 7#32) (k1_off186_inb t 7) (k1_off185_inb t 7),
       cpiece d L sR1 g (k1_off184 t 7#32) (k1_off183 t 7#32) (k1_off184_inb t 7) (k1_off183_inb t 7),
       cpiece d L sR1 g (k1_off182 t 7#32) (k1_off181 t 7#32) (k1_off182_inb t 7) (k1_off181_inb t 7),
       cpiece d L sR1 g (k1_off180 t 7#32) (k1_off179 t 7#32) (k1_off180_inb t 7) (k1_off179_inb t 7),
       cpiece d L sR1 g (k1_off186 t 6#32) (k1_off185 t 6#32) (k1_off186_inb t 6) (k1_off185_inb t 6),
       cpiece d L sR1 g (k1_off184 t 6#32) (k1_off183 t 6#32) (k1_off184_inb t 6) (k1_off183_inb t 6),
       cpiece d L sR1 g (k1_off182 t 6#32) (k1_off181 t 6#32) (k1_off182_inb t 6) (k1_off181_inb t 6),
       cpiece d L sR1 g (k1_off180 t 6#32) (k1_off179 t 6#32) (k1_off180_inb t 6) (k1_off179_inb t 6),
       cpiece d L sR1 g (k1_off186 t 5#32) (k1_off185 t 5#32) (k1_off186_inb t 5) (k1_off185_inb t 5),
       cpiece d L sR1 g (k1_off184 t 5#32) (k1_off183 t 5#32) (k1_off184_inb t 5) (k1_off183_inb t 5),
       cpiece d L sR1 g (k1_off182 t 5#32) (k1_off181 t 5#32) (k1_off182_inb t 5) (k1_off181_inb t 5),
       cpiece d L sR1 g (k1_off180 t 5#32) (k1_off179 t 5#32) (k1_off180_inb t 5) (k1_off179_inb t 5),
       cpiece d L sR1 g (k1_off186 t 4#32) (k1_off185 t 4#32) (k1_off186_inb t 4) (k1_off185_inb t 4),
       cpiece d L sR1 g (k1_off184 t 4#32) (k1_off183 t 4#32) (k1_off184_inb t 4) (k1_off183_inb t 4),
       cpiece d L sR1 g (k1_off182 t 4#32) (k1_off181 t 4#32) (k1_off182_inb t 4) (k1_off181_inb t 4),
       cpiece d L sR1 g (k1_off180 t 4#32) (k1_off179 t 4#32) (k1_off180_inb t 4) (k1_off179_inb t 4),
       cpiece d L sR1 g (k1_off186 t 3#32) (k1_off185 t 3#32) (k1_off186_inb t 3) (k1_off185_inb t 3),
       cpiece d L sR1 g (k1_off184 t 3#32) (k1_off183 t 3#32) (k1_off184_inb t 3) (k1_off183_inb t 3),
       cpiece d L sR1 g (k1_off182 t 3#32) (k1_off181 t 3#32) (k1_off182_inb t 3) (k1_off181_inb t 3),
       cpiece d L sR1 g (k1_off180 t 3#32) (k1_off179 t 3#32) (k1_off180_inb t 3) (k1_off179_inb t 3),
       cpiece d L sR1 g (k1_off186 t 2#32) (k1_off185 t 2#32) (k1_off186_inb t 2) (k1_off185_inb t 2),
       cpiece d L sR1 g (k1_off184 t 2#32) (k1_off183 t 2#32) (k1_off184_inb t 2) (k1_off183_inb t 2),
       cpiece d L sR1 g (k1_off182 t 2#32) (k1_off181 t 2#32) (k1_off182_inb t 2) (k1_off181_inb t 2),
       cpiece d L sR1 g (k1_off180 t 2#32) (k1_off179 t 2#32) (k1_off180_inb t 2) (k1_off179_inb t 2),
       cpiece d L sR1 g (k1_off186 t 1#32) (k1_off185 t 1#32) (k1_off186_inb t 1) (k1_off185_inb t 1),
       cpiece d L sR1 g (k1_off184 t 1#32) (k1_off183 t 1#32) (k1_off184_inb t 1) (k1_off183_inb t 1),
       cpiece d L sR1 g (k1_off182 t 1#32) (k1_off181 t 1#32) (k1_off182_inb t 1) (k1_off181_inb t 1),
       cpiece d L sR1 g (k1_off180 t 1#32) (k1_off179 t 1#32) (k1_off180_inb t 1) (k1_off179_inb t 1),
       cpiece d L sR1 g (k1_off186 t 0#32) (k1_off185 t 0#32) (k1_off186_inb t 0) (k1_off185_inb t 0),
       cpiece d L sR1 g (k1_off184 t 0#32) (k1_off183 t 0#32) (k1_off184_inb t 0) (k1_off183_inb t 0),
       cpiece d L sR1 g (k1_off182 t 0#32) (k1_off181 t 0#32) (k1_off182_inb t 0) (k1_off181_inb t 0),
       cpiece d L sR1 g (k1_off180 t 0#32) (k1_off179 t 0#32) (k1_off180_inb t 0) (k1_off179_inb t 0)])) (t.val + 1) := by
  have h1 := row_step_cons d L sR1 sC0 g f [] (8 * t.val + 0) (k1_off180 t 0#32) (k1_off182 t 0#32) (k1_off184 t 0#32) (k1_off186 t 0#32) (k1_off179 t 0#32) (k1_off181 t 0#32) (k1_off183 t 0#32) (k1_off185 t 0#32)
    (k1_off180_eq t 0) (k1_off182_eq t 0) (k1_off184_eq t 0) (k1_off186_eq t 0) (k1_off179_eq t 0) (k1_off181_eq t 0) (k1_off183_eq t 0) (k1_off185_eq t 0)
    (k1_off180_inb t 0) (k1_off182_inb t 0) (k1_off184_inb t 0) (k1_off186_inb t 0) (k1_off179_inb t 0) (k1_off181_inb t 0) (k1_off183_inb t 0) (k1_off185_inb t 0) ((compacted_iff_rows _ _ _).1 hC)
  have h2 := row_step_cons d L sR1 sC0 g f _ (8 * t.val + 1) (k1_off180 t 1#32) (k1_off182 t 1#32) (k1_off184 t 1#32) (k1_off186 t 1#32) (k1_off179 t 1#32) (k1_off181 t 1#32) (k1_off183 t 1#32) (k1_off185 t 1#32)
    (k1_off180_eq t 1) (k1_off182_eq t 1) (k1_off184_eq t 1) (k1_off186_eq t 1) (k1_off179_eq t 1) (k1_off181_eq t 1) (k1_off183_eq t 1) (k1_off185_eq t 1)
    (k1_off180_inb t 1) (k1_off182_inb t 1) (k1_off184_inb t 1) (k1_off186_inb t 1) (k1_off179_inb t 1) (k1_off181_inb t 1) (k1_off183_inb t 1) (k1_off185_inb t 1) h1
  have h3 := row_step_cons d L sR1 sC0 g f _ (8 * t.val + 2) (k1_off180 t 2#32) (k1_off182 t 2#32) (k1_off184 t 2#32) (k1_off186 t 2#32) (k1_off179 t 2#32) (k1_off181 t 2#32) (k1_off183 t 2#32) (k1_off185 t 2#32)
    (k1_off180_eq t 2) (k1_off182_eq t 2) (k1_off184_eq t 2) (k1_off186_eq t 2) (k1_off179_eq t 2) (k1_off181_eq t 2) (k1_off183_eq t 2) (k1_off185_eq t 2)
    (k1_off180_inb t 2) (k1_off182_inb t 2) (k1_off184_inb t 2) (k1_off186_inb t 2) (k1_off179_inb t 2) (k1_off181_inb t 2) (k1_off183_inb t 2) (k1_off185_inb t 2) h2
  have h4 := row_step_cons d L sR1 sC0 g f _ (8 * t.val + 3) (k1_off180 t 3#32) (k1_off182 t 3#32) (k1_off184 t 3#32) (k1_off186 t 3#32) (k1_off179 t 3#32) (k1_off181 t 3#32) (k1_off183 t 3#32) (k1_off185 t 3#32)
    (k1_off180_eq t 3) (k1_off182_eq t 3) (k1_off184_eq t 3) (k1_off186_eq t 3) (k1_off179_eq t 3) (k1_off181_eq t 3) (k1_off183_eq t 3) (k1_off185_eq t 3)
    (k1_off180_inb t 3) (k1_off182_inb t 3) (k1_off184_inb t 3) (k1_off186_inb t 3) (k1_off179_inb t 3) (k1_off181_inb t 3) (k1_off183_inb t 3) (k1_off185_inb t 3) h3
  have h5 := row_step_cons d L sR1 sC0 g f _ (8 * t.val + 4) (k1_off180 t 4#32) (k1_off182 t 4#32) (k1_off184 t 4#32) (k1_off186 t 4#32) (k1_off179 t 4#32) (k1_off181 t 4#32) (k1_off183 t 4#32) (k1_off185 t 4#32)
    (k1_off180_eq t 4) (k1_off182_eq t 4) (k1_off184_eq t 4) (k1_off186_eq t 4) (k1_off179_eq t 4) (k1_off181_eq t 4) (k1_off183_eq t 4) (k1_off185_eq t 4)
    (k1_off180_inb t 4) (k1_off182_inb t 4) (k1_off184_inb t 4) (k1_off186_inb t 4) (k1_off179_inb t 4) (k1_off181_inb t 4) (k1_off183_inb t 4) (k1_off185_inb t 4) h4
  have h6 := row_step_cons d L sR1 sC0 g f _ (8 * t.val + 5) (k1_off180 t 5#32) (k1_off182 t 5#32) (k1_off184 t 5#32) (k1_off186 t 5#32) (k1_off179 t 5#32) (k1_off181 t 5#32) (k1_off183 t 5#32) (k1_off185 t 5#32)
    (k1_off180_eq t 5) (k1_off182_eq t 5) (k1_off184_eq t 5) (k1_off186_eq t 5) (k1_off179_eq t 5) (k1_off181_eq t 5) (k1_off183_eq t 5) (k1_off185_eq t 5)
    (k1_off180_inb t 5) (k1_off182_inb t 5) (k1_off184_inb t 5) (k1_off186_inb t 5) (k1_off179_inb t 5) (k1_off181_inb t 5) (k1_off183_inb t 5) (k1_off185_inb t 5) h5
  have h7 := row_step_cons d L sR1 sC0 g f _ (8 * t.val + 6) (k1_off180 t 6#32) (k1_off182 t 6#32) (k1_off184 t 6#32) (k1_off186 t 6#32) (k1_off179 t 6#32) (k1_off181 t 6#32) (k1_off183 t 6#32) (k1_off185 t 6#32)
    (k1_off180_eq t 6) (k1_off182_eq t 6) (k1_off184_eq t 6) (k1_off186_eq t 6) (k1_off179_eq t 6) (k1_off181_eq t 6) (k1_off183_eq t 6) (k1_off185_eq t 6)
    (k1_off180_inb t 6) (k1_off182_inb t 6) (k1_off184_inb t 6) (k1_off186_inb t 6) (k1_off179_inb t 6) (k1_off181_inb t 6) (k1_off183_inb t 6) (k1_off185_inb t 6) h6
  have h8 := row_step_cons d L sR1 sC0 g f _ (8 * t.val + 7) (k1_off180 t 7#32) (k1_off182 t 7#32) (k1_off184 t 7#32) (k1_off186 t 7#32) (k1_off179 t 7#32) (k1_off181 t 7#32) (k1_off183 t 7#32) (k1_off185 t 7#32)
    (k1_off180_eq t 7) (k1_off182_eq t 7) (k1_off184_eq t 7) (k1_off186_eq t 7) (k1_off179_eq t 7) (k1_off181_eq t 7) (k1_off183_eq t 7) (k1_off185_eq t 7)
    (k1_off180_inb t 7) (k1_off182_inb t 7) (k1_off184_inb t 7) (k1_off186_inb t 7) (k1_off179_inb t 7) (k1_off181_inb t 7) (k1_off183_inb t 7) (k1_off185_inb t 7) h7
  intro r c hr
  exact h8 r c (by omega)

/-- The compaction step of loop 24 of 40: trip t copies rows [8 t, 8 t + 8) of the landing buffer's first 64 columns. -/
theorem compact_step_t25 (t : Fin k1_t25_loop.trips) (g : Buf (Elt F) (sR2.view.loc (thr d L))) (f : Buf (Elt F) (sC1.view.loc (thr d L)))
    (hC : Compacted (sR2.view.read (Elt F) g) (sC1.view.read (Elt F) f) t.val) :
    Compacted (sR2.view.read (Elt F) g) (sC1.view.read (Elt F) (sC1.view.writes (Elt F) f
      [cpiece d L sR2 g (k1_off194 t 7#32) (k1_off193 t 7#32) (k1_off194_inb t 7) (k1_off193_inb t 7),
       cpiece d L sR2 g (k1_off192 t 7#32) (k1_off191 t 7#32) (k1_off192_inb t 7) (k1_off191_inb t 7),
       cpiece d L sR2 g (k1_off190 t 7#32) (k1_off189 t 7#32) (k1_off190_inb t 7) (k1_off189_inb t 7),
       cpiece d L sR2 g (k1_off188 t 7#32) (k1_off187 t 7#32) (k1_off188_inb t 7) (k1_off187_inb t 7),
       cpiece d L sR2 g (k1_off194 t 6#32) (k1_off193 t 6#32) (k1_off194_inb t 6) (k1_off193_inb t 6),
       cpiece d L sR2 g (k1_off192 t 6#32) (k1_off191 t 6#32) (k1_off192_inb t 6) (k1_off191_inb t 6),
       cpiece d L sR2 g (k1_off190 t 6#32) (k1_off189 t 6#32) (k1_off190_inb t 6) (k1_off189_inb t 6),
       cpiece d L sR2 g (k1_off188 t 6#32) (k1_off187 t 6#32) (k1_off188_inb t 6) (k1_off187_inb t 6),
       cpiece d L sR2 g (k1_off194 t 5#32) (k1_off193 t 5#32) (k1_off194_inb t 5) (k1_off193_inb t 5),
       cpiece d L sR2 g (k1_off192 t 5#32) (k1_off191 t 5#32) (k1_off192_inb t 5) (k1_off191_inb t 5),
       cpiece d L sR2 g (k1_off190 t 5#32) (k1_off189 t 5#32) (k1_off190_inb t 5) (k1_off189_inb t 5),
       cpiece d L sR2 g (k1_off188 t 5#32) (k1_off187 t 5#32) (k1_off188_inb t 5) (k1_off187_inb t 5),
       cpiece d L sR2 g (k1_off194 t 4#32) (k1_off193 t 4#32) (k1_off194_inb t 4) (k1_off193_inb t 4),
       cpiece d L sR2 g (k1_off192 t 4#32) (k1_off191 t 4#32) (k1_off192_inb t 4) (k1_off191_inb t 4),
       cpiece d L sR2 g (k1_off190 t 4#32) (k1_off189 t 4#32) (k1_off190_inb t 4) (k1_off189_inb t 4),
       cpiece d L sR2 g (k1_off188 t 4#32) (k1_off187 t 4#32) (k1_off188_inb t 4) (k1_off187_inb t 4),
       cpiece d L sR2 g (k1_off194 t 3#32) (k1_off193 t 3#32) (k1_off194_inb t 3) (k1_off193_inb t 3),
       cpiece d L sR2 g (k1_off192 t 3#32) (k1_off191 t 3#32) (k1_off192_inb t 3) (k1_off191_inb t 3),
       cpiece d L sR2 g (k1_off190 t 3#32) (k1_off189 t 3#32) (k1_off190_inb t 3) (k1_off189_inb t 3),
       cpiece d L sR2 g (k1_off188 t 3#32) (k1_off187 t 3#32) (k1_off188_inb t 3) (k1_off187_inb t 3),
       cpiece d L sR2 g (k1_off194 t 2#32) (k1_off193 t 2#32) (k1_off194_inb t 2) (k1_off193_inb t 2),
       cpiece d L sR2 g (k1_off192 t 2#32) (k1_off191 t 2#32) (k1_off192_inb t 2) (k1_off191_inb t 2),
       cpiece d L sR2 g (k1_off190 t 2#32) (k1_off189 t 2#32) (k1_off190_inb t 2) (k1_off189_inb t 2),
       cpiece d L sR2 g (k1_off188 t 2#32) (k1_off187 t 2#32) (k1_off188_inb t 2) (k1_off187_inb t 2),
       cpiece d L sR2 g (k1_off194 t 1#32) (k1_off193 t 1#32) (k1_off194_inb t 1) (k1_off193_inb t 1),
       cpiece d L sR2 g (k1_off192 t 1#32) (k1_off191 t 1#32) (k1_off192_inb t 1) (k1_off191_inb t 1),
       cpiece d L sR2 g (k1_off190 t 1#32) (k1_off189 t 1#32) (k1_off190_inb t 1) (k1_off189_inb t 1),
       cpiece d L sR2 g (k1_off188 t 1#32) (k1_off187 t 1#32) (k1_off188_inb t 1) (k1_off187_inb t 1),
       cpiece d L sR2 g (k1_off194 t 0#32) (k1_off193 t 0#32) (k1_off194_inb t 0) (k1_off193_inb t 0),
       cpiece d L sR2 g (k1_off192 t 0#32) (k1_off191 t 0#32) (k1_off192_inb t 0) (k1_off191_inb t 0),
       cpiece d L sR2 g (k1_off190 t 0#32) (k1_off189 t 0#32) (k1_off190_inb t 0) (k1_off189_inb t 0),
       cpiece d L sR2 g (k1_off188 t 0#32) (k1_off187 t 0#32) (k1_off188_inb t 0) (k1_off187_inb t 0)])) (t.val + 1) := by
  have h1 := row_step_cons d L sR2 sC1 g f [] (8 * t.val + 0) (k1_off188 t 0#32) (k1_off190 t 0#32) (k1_off192 t 0#32) (k1_off194 t 0#32) (k1_off187 t 0#32) (k1_off189 t 0#32) (k1_off191 t 0#32) (k1_off193 t 0#32)
    (k1_off188_eq t 0) (k1_off190_eq t 0) (k1_off192_eq t 0) (k1_off194_eq t 0) (k1_off187_eq t 0) (k1_off189_eq t 0) (k1_off191_eq t 0) (k1_off193_eq t 0)
    (k1_off188_inb t 0) (k1_off190_inb t 0) (k1_off192_inb t 0) (k1_off194_inb t 0) (k1_off187_inb t 0) (k1_off189_inb t 0) (k1_off191_inb t 0) (k1_off193_inb t 0) ((compacted_iff_rows _ _ _).1 hC)
  have h2 := row_step_cons d L sR2 sC1 g f _ (8 * t.val + 1) (k1_off188 t 1#32) (k1_off190 t 1#32) (k1_off192 t 1#32) (k1_off194 t 1#32) (k1_off187 t 1#32) (k1_off189 t 1#32) (k1_off191 t 1#32) (k1_off193 t 1#32)
    (k1_off188_eq t 1) (k1_off190_eq t 1) (k1_off192_eq t 1) (k1_off194_eq t 1) (k1_off187_eq t 1) (k1_off189_eq t 1) (k1_off191_eq t 1) (k1_off193_eq t 1)
    (k1_off188_inb t 1) (k1_off190_inb t 1) (k1_off192_inb t 1) (k1_off194_inb t 1) (k1_off187_inb t 1) (k1_off189_inb t 1) (k1_off191_inb t 1) (k1_off193_inb t 1) h1
  have h3 := row_step_cons d L sR2 sC1 g f _ (8 * t.val + 2) (k1_off188 t 2#32) (k1_off190 t 2#32) (k1_off192 t 2#32) (k1_off194 t 2#32) (k1_off187 t 2#32) (k1_off189 t 2#32) (k1_off191 t 2#32) (k1_off193 t 2#32)
    (k1_off188_eq t 2) (k1_off190_eq t 2) (k1_off192_eq t 2) (k1_off194_eq t 2) (k1_off187_eq t 2) (k1_off189_eq t 2) (k1_off191_eq t 2) (k1_off193_eq t 2)
    (k1_off188_inb t 2) (k1_off190_inb t 2) (k1_off192_inb t 2) (k1_off194_inb t 2) (k1_off187_inb t 2) (k1_off189_inb t 2) (k1_off191_inb t 2) (k1_off193_inb t 2) h2
  have h4 := row_step_cons d L sR2 sC1 g f _ (8 * t.val + 3) (k1_off188 t 3#32) (k1_off190 t 3#32) (k1_off192 t 3#32) (k1_off194 t 3#32) (k1_off187 t 3#32) (k1_off189 t 3#32) (k1_off191 t 3#32) (k1_off193 t 3#32)
    (k1_off188_eq t 3) (k1_off190_eq t 3) (k1_off192_eq t 3) (k1_off194_eq t 3) (k1_off187_eq t 3) (k1_off189_eq t 3) (k1_off191_eq t 3) (k1_off193_eq t 3)
    (k1_off188_inb t 3) (k1_off190_inb t 3) (k1_off192_inb t 3) (k1_off194_inb t 3) (k1_off187_inb t 3) (k1_off189_inb t 3) (k1_off191_inb t 3) (k1_off193_inb t 3) h3
  have h5 := row_step_cons d L sR2 sC1 g f _ (8 * t.val + 4) (k1_off188 t 4#32) (k1_off190 t 4#32) (k1_off192 t 4#32) (k1_off194 t 4#32) (k1_off187 t 4#32) (k1_off189 t 4#32) (k1_off191 t 4#32) (k1_off193 t 4#32)
    (k1_off188_eq t 4) (k1_off190_eq t 4) (k1_off192_eq t 4) (k1_off194_eq t 4) (k1_off187_eq t 4) (k1_off189_eq t 4) (k1_off191_eq t 4) (k1_off193_eq t 4)
    (k1_off188_inb t 4) (k1_off190_inb t 4) (k1_off192_inb t 4) (k1_off194_inb t 4) (k1_off187_inb t 4) (k1_off189_inb t 4) (k1_off191_inb t 4) (k1_off193_inb t 4) h4
  have h6 := row_step_cons d L sR2 sC1 g f _ (8 * t.val + 5) (k1_off188 t 5#32) (k1_off190 t 5#32) (k1_off192 t 5#32) (k1_off194 t 5#32) (k1_off187 t 5#32) (k1_off189 t 5#32) (k1_off191 t 5#32) (k1_off193 t 5#32)
    (k1_off188_eq t 5) (k1_off190_eq t 5) (k1_off192_eq t 5) (k1_off194_eq t 5) (k1_off187_eq t 5) (k1_off189_eq t 5) (k1_off191_eq t 5) (k1_off193_eq t 5)
    (k1_off188_inb t 5) (k1_off190_inb t 5) (k1_off192_inb t 5) (k1_off194_inb t 5) (k1_off187_inb t 5) (k1_off189_inb t 5) (k1_off191_inb t 5) (k1_off193_inb t 5) h5
  have h7 := row_step_cons d L sR2 sC1 g f _ (8 * t.val + 6) (k1_off188 t 6#32) (k1_off190 t 6#32) (k1_off192 t 6#32) (k1_off194 t 6#32) (k1_off187 t 6#32) (k1_off189 t 6#32) (k1_off191 t 6#32) (k1_off193 t 6#32)
    (k1_off188_eq t 6) (k1_off190_eq t 6) (k1_off192_eq t 6) (k1_off194_eq t 6) (k1_off187_eq t 6) (k1_off189_eq t 6) (k1_off191_eq t 6) (k1_off193_eq t 6)
    (k1_off188_inb t 6) (k1_off190_inb t 6) (k1_off192_inb t 6) (k1_off194_inb t 6) (k1_off187_inb t 6) (k1_off189_inb t 6) (k1_off191_inb t 6) (k1_off193_inb t 6) h6
  have h8 := row_step_cons d L sR2 sC1 g f _ (8 * t.val + 7) (k1_off188 t 7#32) (k1_off190 t 7#32) (k1_off192 t 7#32) (k1_off194 t 7#32) (k1_off187 t 7#32) (k1_off189 t 7#32) (k1_off191 t 7#32) (k1_off193 t 7#32)
    (k1_off188_eq t 7) (k1_off190_eq t 7) (k1_off192_eq t 7) (k1_off194_eq t 7) (k1_off187_eq t 7) (k1_off189_eq t 7) (k1_off191_eq t 7) (k1_off193_eq t 7)
    (k1_off188_inb t 7) (k1_off190_inb t 7) (k1_off192_inb t 7) (k1_off194_inb t 7) (k1_off187_inb t 7) (k1_off189_inb t 7) (k1_off191_inb t 7) (k1_off193_inb t 7) h7
  intro r c hr
  exact h8 r c (by omega)

/-- The compaction step of loop 25 of 40: trip t copies rows [8 t, 8 t + 8) of the landing buffer's first 64 columns. -/
theorem compact_step_t26 (t : Fin k1_t26_loop.trips) (g : Buf (Elt F) (sR0.view.loc (thr d L))) (f : Buf (Elt F) (sC0.view.loc (thr d L)))
    (hC : Compacted (sR0.view.read (Elt F) g) (sC0.view.read (Elt F) f) t.val) :
    Compacted (sR0.view.read (Elt F) g) (sC0.view.read (Elt F) (sC0.view.writes (Elt F) f
      [cpiece d L sR0 g (k1_off202 t 7#32) (k1_off201 t 7#32) (k1_off202_inb t 7) (k1_off201_inb t 7),
       cpiece d L sR0 g (k1_off200 t 7#32) (k1_off199 t 7#32) (k1_off200_inb t 7) (k1_off199_inb t 7),
       cpiece d L sR0 g (k1_off198 t 7#32) (k1_off197 t 7#32) (k1_off198_inb t 7) (k1_off197_inb t 7),
       cpiece d L sR0 g (k1_off196 t 7#32) (k1_off195 t 7#32) (k1_off196_inb t 7) (k1_off195_inb t 7),
       cpiece d L sR0 g (k1_off202 t 6#32) (k1_off201 t 6#32) (k1_off202_inb t 6) (k1_off201_inb t 6),
       cpiece d L sR0 g (k1_off200 t 6#32) (k1_off199 t 6#32) (k1_off200_inb t 6) (k1_off199_inb t 6),
       cpiece d L sR0 g (k1_off198 t 6#32) (k1_off197 t 6#32) (k1_off198_inb t 6) (k1_off197_inb t 6),
       cpiece d L sR0 g (k1_off196 t 6#32) (k1_off195 t 6#32) (k1_off196_inb t 6) (k1_off195_inb t 6),
       cpiece d L sR0 g (k1_off202 t 5#32) (k1_off201 t 5#32) (k1_off202_inb t 5) (k1_off201_inb t 5),
       cpiece d L sR0 g (k1_off200 t 5#32) (k1_off199 t 5#32) (k1_off200_inb t 5) (k1_off199_inb t 5),
       cpiece d L sR0 g (k1_off198 t 5#32) (k1_off197 t 5#32) (k1_off198_inb t 5) (k1_off197_inb t 5),
       cpiece d L sR0 g (k1_off196 t 5#32) (k1_off195 t 5#32) (k1_off196_inb t 5) (k1_off195_inb t 5),
       cpiece d L sR0 g (k1_off202 t 4#32) (k1_off201 t 4#32) (k1_off202_inb t 4) (k1_off201_inb t 4),
       cpiece d L sR0 g (k1_off200 t 4#32) (k1_off199 t 4#32) (k1_off200_inb t 4) (k1_off199_inb t 4),
       cpiece d L sR0 g (k1_off198 t 4#32) (k1_off197 t 4#32) (k1_off198_inb t 4) (k1_off197_inb t 4),
       cpiece d L sR0 g (k1_off196 t 4#32) (k1_off195 t 4#32) (k1_off196_inb t 4) (k1_off195_inb t 4),
       cpiece d L sR0 g (k1_off202 t 3#32) (k1_off201 t 3#32) (k1_off202_inb t 3) (k1_off201_inb t 3),
       cpiece d L sR0 g (k1_off200 t 3#32) (k1_off199 t 3#32) (k1_off200_inb t 3) (k1_off199_inb t 3),
       cpiece d L sR0 g (k1_off198 t 3#32) (k1_off197 t 3#32) (k1_off198_inb t 3) (k1_off197_inb t 3),
       cpiece d L sR0 g (k1_off196 t 3#32) (k1_off195 t 3#32) (k1_off196_inb t 3) (k1_off195_inb t 3),
       cpiece d L sR0 g (k1_off202 t 2#32) (k1_off201 t 2#32) (k1_off202_inb t 2) (k1_off201_inb t 2),
       cpiece d L sR0 g (k1_off200 t 2#32) (k1_off199 t 2#32) (k1_off200_inb t 2) (k1_off199_inb t 2),
       cpiece d L sR0 g (k1_off198 t 2#32) (k1_off197 t 2#32) (k1_off198_inb t 2) (k1_off197_inb t 2),
       cpiece d L sR0 g (k1_off196 t 2#32) (k1_off195 t 2#32) (k1_off196_inb t 2) (k1_off195_inb t 2),
       cpiece d L sR0 g (k1_off202 t 1#32) (k1_off201 t 1#32) (k1_off202_inb t 1) (k1_off201_inb t 1),
       cpiece d L sR0 g (k1_off200 t 1#32) (k1_off199 t 1#32) (k1_off200_inb t 1) (k1_off199_inb t 1),
       cpiece d L sR0 g (k1_off198 t 1#32) (k1_off197 t 1#32) (k1_off198_inb t 1) (k1_off197_inb t 1),
       cpiece d L sR0 g (k1_off196 t 1#32) (k1_off195 t 1#32) (k1_off196_inb t 1) (k1_off195_inb t 1),
       cpiece d L sR0 g (k1_off202 t 0#32) (k1_off201 t 0#32) (k1_off202_inb t 0) (k1_off201_inb t 0),
       cpiece d L sR0 g (k1_off200 t 0#32) (k1_off199 t 0#32) (k1_off200_inb t 0) (k1_off199_inb t 0),
       cpiece d L sR0 g (k1_off198 t 0#32) (k1_off197 t 0#32) (k1_off198_inb t 0) (k1_off197_inb t 0),
       cpiece d L sR0 g (k1_off196 t 0#32) (k1_off195 t 0#32) (k1_off196_inb t 0) (k1_off195_inb t 0)])) (t.val + 1) := by
  have h1 := row_step_cons d L sR0 sC0 g f [] (8 * t.val + 0) (k1_off196 t 0#32) (k1_off198 t 0#32) (k1_off200 t 0#32) (k1_off202 t 0#32) (k1_off195 t 0#32) (k1_off197 t 0#32) (k1_off199 t 0#32) (k1_off201 t 0#32)
    (k1_off196_eq t 0) (k1_off198_eq t 0) (k1_off200_eq t 0) (k1_off202_eq t 0) (k1_off195_eq t 0) (k1_off197_eq t 0) (k1_off199_eq t 0) (k1_off201_eq t 0)
    (k1_off196_inb t 0) (k1_off198_inb t 0) (k1_off200_inb t 0) (k1_off202_inb t 0) (k1_off195_inb t 0) (k1_off197_inb t 0) (k1_off199_inb t 0) (k1_off201_inb t 0) ((compacted_iff_rows _ _ _).1 hC)
  have h2 := row_step_cons d L sR0 sC0 g f _ (8 * t.val + 1) (k1_off196 t 1#32) (k1_off198 t 1#32) (k1_off200 t 1#32) (k1_off202 t 1#32) (k1_off195 t 1#32) (k1_off197 t 1#32) (k1_off199 t 1#32) (k1_off201 t 1#32)
    (k1_off196_eq t 1) (k1_off198_eq t 1) (k1_off200_eq t 1) (k1_off202_eq t 1) (k1_off195_eq t 1) (k1_off197_eq t 1) (k1_off199_eq t 1) (k1_off201_eq t 1)
    (k1_off196_inb t 1) (k1_off198_inb t 1) (k1_off200_inb t 1) (k1_off202_inb t 1) (k1_off195_inb t 1) (k1_off197_inb t 1) (k1_off199_inb t 1) (k1_off201_inb t 1) h1
  have h3 := row_step_cons d L sR0 sC0 g f _ (8 * t.val + 2) (k1_off196 t 2#32) (k1_off198 t 2#32) (k1_off200 t 2#32) (k1_off202 t 2#32) (k1_off195 t 2#32) (k1_off197 t 2#32) (k1_off199 t 2#32) (k1_off201 t 2#32)
    (k1_off196_eq t 2) (k1_off198_eq t 2) (k1_off200_eq t 2) (k1_off202_eq t 2) (k1_off195_eq t 2) (k1_off197_eq t 2) (k1_off199_eq t 2) (k1_off201_eq t 2)
    (k1_off196_inb t 2) (k1_off198_inb t 2) (k1_off200_inb t 2) (k1_off202_inb t 2) (k1_off195_inb t 2) (k1_off197_inb t 2) (k1_off199_inb t 2) (k1_off201_inb t 2) h2
  have h4 := row_step_cons d L sR0 sC0 g f _ (8 * t.val + 3) (k1_off196 t 3#32) (k1_off198 t 3#32) (k1_off200 t 3#32) (k1_off202 t 3#32) (k1_off195 t 3#32) (k1_off197 t 3#32) (k1_off199 t 3#32) (k1_off201 t 3#32)
    (k1_off196_eq t 3) (k1_off198_eq t 3) (k1_off200_eq t 3) (k1_off202_eq t 3) (k1_off195_eq t 3) (k1_off197_eq t 3) (k1_off199_eq t 3) (k1_off201_eq t 3)
    (k1_off196_inb t 3) (k1_off198_inb t 3) (k1_off200_inb t 3) (k1_off202_inb t 3) (k1_off195_inb t 3) (k1_off197_inb t 3) (k1_off199_inb t 3) (k1_off201_inb t 3) h3
  have h5 := row_step_cons d L sR0 sC0 g f _ (8 * t.val + 4) (k1_off196 t 4#32) (k1_off198 t 4#32) (k1_off200 t 4#32) (k1_off202 t 4#32) (k1_off195 t 4#32) (k1_off197 t 4#32) (k1_off199 t 4#32) (k1_off201 t 4#32)
    (k1_off196_eq t 4) (k1_off198_eq t 4) (k1_off200_eq t 4) (k1_off202_eq t 4) (k1_off195_eq t 4) (k1_off197_eq t 4) (k1_off199_eq t 4) (k1_off201_eq t 4)
    (k1_off196_inb t 4) (k1_off198_inb t 4) (k1_off200_inb t 4) (k1_off202_inb t 4) (k1_off195_inb t 4) (k1_off197_inb t 4) (k1_off199_inb t 4) (k1_off201_inb t 4) h4
  have h6 := row_step_cons d L sR0 sC0 g f _ (8 * t.val + 5) (k1_off196 t 5#32) (k1_off198 t 5#32) (k1_off200 t 5#32) (k1_off202 t 5#32) (k1_off195 t 5#32) (k1_off197 t 5#32) (k1_off199 t 5#32) (k1_off201 t 5#32)
    (k1_off196_eq t 5) (k1_off198_eq t 5) (k1_off200_eq t 5) (k1_off202_eq t 5) (k1_off195_eq t 5) (k1_off197_eq t 5) (k1_off199_eq t 5) (k1_off201_eq t 5)
    (k1_off196_inb t 5) (k1_off198_inb t 5) (k1_off200_inb t 5) (k1_off202_inb t 5) (k1_off195_inb t 5) (k1_off197_inb t 5) (k1_off199_inb t 5) (k1_off201_inb t 5) h5
  have h7 := row_step_cons d L sR0 sC0 g f _ (8 * t.val + 6) (k1_off196 t 6#32) (k1_off198 t 6#32) (k1_off200 t 6#32) (k1_off202 t 6#32) (k1_off195 t 6#32) (k1_off197 t 6#32) (k1_off199 t 6#32) (k1_off201 t 6#32)
    (k1_off196_eq t 6) (k1_off198_eq t 6) (k1_off200_eq t 6) (k1_off202_eq t 6) (k1_off195_eq t 6) (k1_off197_eq t 6) (k1_off199_eq t 6) (k1_off201_eq t 6)
    (k1_off196_inb t 6) (k1_off198_inb t 6) (k1_off200_inb t 6) (k1_off202_inb t 6) (k1_off195_inb t 6) (k1_off197_inb t 6) (k1_off199_inb t 6) (k1_off201_inb t 6) h6
  have h8 := row_step_cons d L sR0 sC0 g f _ (8 * t.val + 7) (k1_off196 t 7#32) (k1_off198 t 7#32) (k1_off200 t 7#32) (k1_off202 t 7#32) (k1_off195 t 7#32) (k1_off197 t 7#32) (k1_off199 t 7#32) (k1_off201 t 7#32)
    (k1_off196_eq t 7) (k1_off198_eq t 7) (k1_off200_eq t 7) (k1_off202_eq t 7) (k1_off195_eq t 7) (k1_off197_eq t 7) (k1_off199_eq t 7) (k1_off201_eq t 7)
    (k1_off196_inb t 7) (k1_off198_inb t 7) (k1_off200_inb t 7) (k1_off202_inb t 7) (k1_off195_inb t 7) (k1_off197_inb t 7) (k1_off199_inb t 7) (k1_off201_inb t 7) h7
  intro r c hr
  exact h8 r c (by omega)

/-- The compaction step of loop 26 of 40: trip t copies rows [8 t, 8 t + 8) of the landing buffer's first 64 columns. -/
theorem compact_step_t27 (t : Fin k1_t27_loop.trips) (g : Buf (Elt F) (sR1.view.loc (thr d L))) (f : Buf (Elt F) (sC1.view.loc (thr d L)))
    (hC : Compacted (sR1.view.read (Elt F) g) (sC1.view.read (Elt F) f) t.val) :
    Compacted (sR1.view.read (Elt F) g) (sC1.view.read (Elt F) (sC1.view.writes (Elt F) f
      [cpiece d L sR1 g (k1_off210 t 7#32) (k1_off209 t 7#32) (k1_off210_inb t 7) (k1_off209_inb t 7),
       cpiece d L sR1 g (k1_off208 t 7#32) (k1_off207 t 7#32) (k1_off208_inb t 7) (k1_off207_inb t 7),
       cpiece d L sR1 g (k1_off206 t 7#32) (k1_off205 t 7#32) (k1_off206_inb t 7) (k1_off205_inb t 7),
       cpiece d L sR1 g (k1_off204 t 7#32) (k1_off203 t 7#32) (k1_off204_inb t 7) (k1_off203_inb t 7),
       cpiece d L sR1 g (k1_off210 t 6#32) (k1_off209 t 6#32) (k1_off210_inb t 6) (k1_off209_inb t 6),
       cpiece d L sR1 g (k1_off208 t 6#32) (k1_off207 t 6#32) (k1_off208_inb t 6) (k1_off207_inb t 6),
       cpiece d L sR1 g (k1_off206 t 6#32) (k1_off205 t 6#32) (k1_off206_inb t 6) (k1_off205_inb t 6),
       cpiece d L sR1 g (k1_off204 t 6#32) (k1_off203 t 6#32) (k1_off204_inb t 6) (k1_off203_inb t 6),
       cpiece d L sR1 g (k1_off210 t 5#32) (k1_off209 t 5#32) (k1_off210_inb t 5) (k1_off209_inb t 5),
       cpiece d L sR1 g (k1_off208 t 5#32) (k1_off207 t 5#32) (k1_off208_inb t 5) (k1_off207_inb t 5),
       cpiece d L sR1 g (k1_off206 t 5#32) (k1_off205 t 5#32) (k1_off206_inb t 5) (k1_off205_inb t 5),
       cpiece d L sR1 g (k1_off204 t 5#32) (k1_off203 t 5#32) (k1_off204_inb t 5) (k1_off203_inb t 5),
       cpiece d L sR1 g (k1_off210 t 4#32) (k1_off209 t 4#32) (k1_off210_inb t 4) (k1_off209_inb t 4),
       cpiece d L sR1 g (k1_off208 t 4#32) (k1_off207 t 4#32) (k1_off208_inb t 4) (k1_off207_inb t 4),
       cpiece d L sR1 g (k1_off206 t 4#32) (k1_off205 t 4#32) (k1_off206_inb t 4) (k1_off205_inb t 4),
       cpiece d L sR1 g (k1_off204 t 4#32) (k1_off203 t 4#32) (k1_off204_inb t 4) (k1_off203_inb t 4),
       cpiece d L sR1 g (k1_off210 t 3#32) (k1_off209 t 3#32) (k1_off210_inb t 3) (k1_off209_inb t 3),
       cpiece d L sR1 g (k1_off208 t 3#32) (k1_off207 t 3#32) (k1_off208_inb t 3) (k1_off207_inb t 3),
       cpiece d L sR1 g (k1_off206 t 3#32) (k1_off205 t 3#32) (k1_off206_inb t 3) (k1_off205_inb t 3),
       cpiece d L sR1 g (k1_off204 t 3#32) (k1_off203 t 3#32) (k1_off204_inb t 3) (k1_off203_inb t 3),
       cpiece d L sR1 g (k1_off210 t 2#32) (k1_off209 t 2#32) (k1_off210_inb t 2) (k1_off209_inb t 2),
       cpiece d L sR1 g (k1_off208 t 2#32) (k1_off207 t 2#32) (k1_off208_inb t 2) (k1_off207_inb t 2),
       cpiece d L sR1 g (k1_off206 t 2#32) (k1_off205 t 2#32) (k1_off206_inb t 2) (k1_off205_inb t 2),
       cpiece d L sR1 g (k1_off204 t 2#32) (k1_off203 t 2#32) (k1_off204_inb t 2) (k1_off203_inb t 2),
       cpiece d L sR1 g (k1_off210 t 1#32) (k1_off209 t 1#32) (k1_off210_inb t 1) (k1_off209_inb t 1),
       cpiece d L sR1 g (k1_off208 t 1#32) (k1_off207 t 1#32) (k1_off208_inb t 1) (k1_off207_inb t 1),
       cpiece d L sR1 g (k1_off206 t 1#32) (k1_off205 t 1#32) (k1_off206_inb t 1) (k1_off205_inb t 1),
       cpiece d L sR1 g (k1_off204 t 1#32) (k1_off203 t 1#32) (k1_off204_inb t 1) (k1_off203_inb t 1),
       cpiece d L sR1 g (k1_off210 t 0#32) (k1_off209 t 0#32) (k1_off210_inb t 0) (k1_off209_inb t 0),
       cpiece d L sR1 g (k1_off208 t 0#32) (k1_off207 t 0#32) (k1_off208_inb t 0) (k1_off207_inb t 0),
       cpiece d L sR1 g (k1_off206 t 0#32) (k1_off205 t 0#32) (k1_off206_inb t 0) (k1_off205_inb t 0),
       cpiece d L sR1 g (k1_off204 t 0#32) (k1_off203 t 0#32) (k1_off204_inb t 0) (k1_off203_inb t 0)])) (t.val + 1) := by
  have h1 := row_step_cons d L sR1 sC1 g f [] (8 * t.val + 0) (k1_off204 t 0#32) (k1_off206 t 0#32) (k1_off208 t 0#32) (k1_off210 t 0#32) (k1_off203 t 0#32) (k1_off205 t 0#32) (k1_off207 t 0#32) (k1_off209 t 0#32)
    (k1_off204_eq t 0) (k1_off206_eq t 0) (k1_off208_eq t 0) (k1_off210_eq t 0) (k1_off203_eq t 0) (k1_off205_eq t 0) (k1_off207_eq t 0) (k1_off209_eq t 0)
    (k1_off204_inb t 0) (k1_off206_inb t 0) (k1_off208_inb t 0) (k1_off210_inb t 0) (k1_off203_inb t 0) (k1_off205_inb t 0) (k1_off207_inb t 0) (k1_off209_inb t 0) ((compacted_iff_rows _ _ _).1 hC)
  have h2 := row_step_cons d L sR1 sC1 g f _ (8 * t.val + 1) (k1_off204 t 1#32) (k1_off206 t 1#32) (k1_off208 t 1#32) (k1_off210 t 1#32) (k1_off203 t 1#32) (k1_off205 t 1#32) (k1_off207 t 1#32) (k1_off209 t 1#32)
    (k1_off204_eq t 1) (k1_off206_eq t 1) (k1_off208_eq t 1) (k1_off210_eq t 1) (k1_off203_eq t 1) (k1_off205_eq t 1) (k1_off207_eq t 1) (k1_off209_eq t 1)
    (k1_off204_inb t 1) (k1_off206_inb t 1) (k1_off208_inb t 1) (k1_off210_inb t 1) (k1_off203_inb t 1) (k1_off205_inb t 1) (k1_off207_inb t 1) (k1_off209_inb t 1) h1
  have h3 := row_step_cons d L sR1 sC1 g f _ (8 * t.val + 2) (k1_off204 t 2#32) (k1_off206 t 2#32) (k1_off208 t 2#32) (k1_off210 t 2#32) (k1_off203 t 2#32) (k1_off205 t 2#32) (k1_off207 t 2#32) (k1_off209 t 2#32)
    (k1_off204_eq t 2) (k1_off206_eq t 2) (k1_off208_eq t 2) (k1_off210_eq t 2) (k1_off203_eq t 2) (k1_off205_eq t 2) (k1_off207_eq t 2) (k1_off209_eq t 2)
    (k1_off204_inb t 2) (k1_off206_inb t 2) (k1_off208_inb t 2) (k1_off210_inb t 2) (k1_off203_inb t 2) (k1_off205_inb t 2) (k1_off207_inb t 2) (k1_off209_inb t 2) h2
  have h4 := row_step_cons d L sR1 sC1 g f _ (8 * t.val + 3) (k1_off204 t 3#32) (k1_off206 t 3#32) (k1_off208 t 3#32) (k1_off210 t 3#32) (k1_off203 t 3#32) (k1_off205 t 3#32) (k1_off207 t 3#32) (k1_off209 t 3#32)
    (k1_off204_eq t 3) (k1_off206_eq t 3) (k1_off208_eq t 3) (k1_off210_eq t 3) (k1_off203_eq t 3) (k1_off205_eq t 3) (k1_off207_eq t 3) (k1_off209_eq t 3)
    (k1_off204_inb t 3) (k1_off206_inb t 3) (k1_off208_inb t 3) (k1_off210_inb t 3) (k1_off203_inb t 3) (k1_off205_inb t 3) (k1_off207_inb t 3) (k1_off209_inb t 3) h3
  have h5 := row_step_cons d L sR1 sC1 g f _ (8 * t.val + 4) (k1_off204 t 4#32) (k1_off206 t 4#32) (k1_off208 t 4#32) (k1_off210 t 4#32) (k1_off203 t 4#32) (k1_off205 t 4#32) (k1_off207 t 4#32) (k1_off209 t 4#32)
    (k1_off204_eq t 4) (k1_off206_eq t 4) (k1_off208_eq t 4) (k1_off210_eq t 4) (k1_off203_eq t 4) (k1_off205_eq t 4) (k1_off207_eq t 4) (k1_off209_eq t 4)
    (k1_off204_inb t 4) (k1_off206_inb t 4) (k1_off208_inb t 4) (k1_off210_inb t 4) (k1_off203_inb t 4) (k1_off205_inb t 4) (k1_off207_inb t 4) (k1_off209_inb t 4) h4
  have h6 := row_step_cons d L sR1 sC1 g f _ (8 * t.val + 5) (k1_off204 t 5#32) (k1_off206 t 5#32) (k1_off208 t 5#32) (k1_off210 t 5#32) (k1_off203 t 5#32) (k1_off205 t 5#32) (k1_off207 t 5#32) (k1_off209 t 5#32)
    (k1_off204_eq t 5) (k1_off206_eq t 5) (k1_off208_eq t 5) (k1_off210_eq t 5) (k1_off203_eq t 5) (k1_off205_eq t 5) (k1_off207_eq t 5) (k1_off209_eq t 5)
    (k1_off204_inb t 5) (k1_off206_inb t 5) (k1_off208_inb t 5) (k1_off210_inb t 5) (k1_off203_inb t 5) (k1_off205_inb t 5) (k1_off207_inb t 5) (k1_off209_inb t 5) h5
  have h7 := row_step_cons d L sR1 sC1 g f _ (8 * t.val + 6) (k1_off204 t 6#32) (k1_off206 t 6#32) (k1_off208 t 6#32) (k1_off210 t 6#32) (k1_off203 t 6#32) (k1_off205 t 6#32) (k1_off207 t 6#32) (k1_off209 t 6#32)
    (k1_off204_eq t 6) (k1_off206_eq t 6) (k1_off208_eq t 6) (k1_off210_eq t 6) (k1_off203_eq t 6) (k1_off205_eq t 6) (k1_off207_eq t 6) (k1_off209_eq t 6)
    (k1_off204_inb t 6) (k1_off206_inb t 6) (k1_off208_inb t 6) (k1_off210_inb t 6) (k1_off203_inb t 6) (k1_off205_inb t 6) (k1_off207_inb t 6) (k1_off209_inb t 6) h6
  have h8 := row_step_cons d L sR1 sC1 g f _ (8 * t.val + 7) (k1_off204 t 7#32) (k1_off206 t 7#32) (k1_off208 t 7#32) (k1_off210 t 7#32) (k1_off203 t 7#32) (k1_off205 t 7#32) (k1_off207 t 7#32) (k1_off209 t 7#32)
    (k1_off204_eq t 7) (k1_off206_eq t 7) (k1_off208_eq t 7) (k1_off210_eq t 7) (k1_off203_eq t 7) (k1_off205_eq t 7) (k1_off207_eq t 7) (k1_off209_eq t 7)
    (k1_off204_inb t 7) (k1_off206_inb t 7) (k1_off208_inb t 7) (k1_off210_inb t 7) (k1_off203_inb t 7) (k1_off205_inb t 7) (k1_off207_inb t 7) (k1_off209_inb t 7) h7
  intro r c hr
  exact h8 r c (by omega)

/-- The compaction step of loop 27 of 40: trip t copies rows [8 t, 8 t + 8) of the landing buffer's first 64 columns. -/
theorem compact_step_t28 (t : Fin k1_t28_loop.trips) (g : Buf (Elt F) (sR2.view.loc (thr d L))) (f : Buf (Elt F) (sC0.view.loc (thr d L)))
    (hC : Compacted (sR2.view.read (Elt F) g) (sC0.view.read (Elt F) f) t.val) :
    Compacted (sR2.view.read (Elt F) g) (sC0.view.read (Elt F) (sC0.view.writes (Elt F) f
      [cpiece d L sR2 g (k1_off218 t 7#32) (k1_off217 t 7#32) (k1_off218_inb t 7) (k1_off217_inb t 7),
       cpiece d L sR2 g (k1_off216 t 7#32) (k1_off215 t 7#32) (k1_off216_inb t 7) (k1_off215_inb t 7),
       cpiece d L sR2 g (k1_off214 t 7#32) (k1_off213 t 7#32) (k1_off214_inb t 7) (k1_off213_inb t 7),
       cpiece d L sR2 g (k1_off212 t 7#32) (k1_off211 t 7#32) (k1_off212_inb t 7) (k1_off211_inb t 7),
       cpiece d L sR2 g (k1_off218 t 6#32) (k1_off217 t 6#32) (k1_off218_inb t 6) (k1_off217_inb t 6),
       cpiece d L sR2 g (k1_off216 t 6#32) (k1_off215 t 6#32) (k1_off216_inb t 6) (k1_off215_inb t 6),
       cpiece d L sR2 g (k1_off214 t 6#32) (k1_off213 t 6#32) (k1_off214_inb t 6) (k1_off213_inb t 6),
       cpiece d L sR2 g (k1_off212 t 6#32) (k1_off211 t 6#32) (k1_off212_inb t 6) (k1_off211_inb t 6),
       cpiece d L sR2 g (k1_off218 t 5#32) (k1_off217 t 5#32) (k1_off218_inb t 5) (k1_off217_inb t 5),
       cpiece d L sR2 g (k1_off216 t 5#32) (k1_off215 t 5#32) (k1_off216_inb t 5) (k1_off215_inb t 5),
       cpiece d L sR2 g (k1_off214 t 5#32) (k1_off213 t 5#32) (k1_off214_inb t 5) (k1_off213_inb t 5),
       cpiece d L sR2 g (k1_off212 t 5#32) (k1_off211 t 5#32) (k1_off212_inb t 5) (k1_off211_inb t 5),
       cpiece d L sR2 g (k1_off218 t 4#32) (k1_off217 t 4#32) (k1_off218_inb t 4) (k1_off217_inb t 4),
       cpiece d L sR2 g (k1_off216 t 4#32) (k1_off215 t 4#32) (k1_off216_inb t 4) (k1_off215_inb t 4),
       cpiece d L sR2 g (k1_off214 t 4#32) (k1_off213 t 4#32) (k1_off214_inb t 4) (k1_off213_inb t 4),
       cpiece d L sR2 g (k1_off212 t 4#32) (k1_off211 t 4#32) (k1_off212_inb t 4) (k1_off211_inb t 4),
       cpiece d L sR2 g (k1_off218 t 3#32) (k1_off217 t 3#32) (k1_off218_inb t 3) (k1_off217_inb t 3),
       cpiece d L sR2 g (k1_off216 t 3#32) (k1_off215 t 3#32) (k1_off216_inb t 3) (k1_off215_inb t 3),
       cpiece d L sR2 g (k1_off214 t 3#32) (k1_off213 t 3#32) (k1_off214_inb t 3) (k1_off213_inb t 3),
       cpiece d L sR2 g (k1_off212 t 3#32) (k1_off211 t 3#32) (k1_off212_inb t 3) (k1_off211_inb t 3),
       cpiece d L sR2 g (k1_off218 t 2#32) (k1_off217 t 2#32) (k1_off218_inb t 2) (k1_off217_inb t 2),
       cpiece d L sR2 g (k1_off216 t 2#32) (k1_off215 t 2#32) (k1_off216_inb t 2) (k1_off215_inb t 2),
       cpiece d L sR2 g (k1_off214 t 2#32) (k1_off213 t 2#32) (k1_off214_inb t 2) (k1_off213_inb t 2),
       cpiece d L sR2 g (k1_off212 t 2#32) (k1_off211 t 2#32) (k1_off212_inb t 2) (k1_off211_inb t 2),
       cpiece d L sR2 g (k1_off218 t 1#32) (k1_off217 t 1#32) (k1_off218_inb t 1) (k1_off217_inb t 1),
       cpiece d L sR2 g (k1_off216 t 1#32) (k1_off215 t 1#32) (k1_off216_inb t 1) (k1_off215_inb t 1),
       cpiece d L sR2 g (k1_off214 t 1#32) (k1_off213 t 1#32) (k1_off214_inb t 1) (k1_off213_inb t 1),
       cpiece d L sR2 g (k1_off212 t 1#32) (k1_off211 t 1#32) (k1_off212_inb t 1) (k1_off211_inb t 1),
       cpiece d L sR2 g (k1_off218 t 0#32) (k1_off217 t 0#32) (k1_off218_inb t 0) (k1_off217_inb t 0),
       cpiece d L sR2 g (k1_off216 t 0#32) (k1_off215 t 0#32) (k1_off216_inb t 0) (k1_off215_inb t 0),
       cpiece d L sR2 g (k1_off214 t 0#32) (k1_off213 t 0#32) (k1_off214_inb t 0) (k1_off213_inb t 0),
       cpiece d L sR2 g (k1_off212 t 0#32) (k1_off211 t 0#32) (k1_off212_inb t 0) (k1_off211_inb t 0)])) (t.val + 1) := by
  have h1 := row_step_cons d L sR2 sC0 g f [] (8 * t.val + 0) (k1_off212 t 0#32) (k1_off214 t 0#32) (k1_off216 t 0#32) (k1_off218 t 0#32) (k1_off211 t 0#32) (k1_off213 t 0#32) (k1_off215 t 0#32) (k1_off217 t 0#32)
    (k1_off212_eq t 0) (k1_off214_eq t 0) (k1_off216_eq t 0) (k1_off218_eq t 0) (k1_off211_eq t 0) (k1_off213_eq t 0) (k1_off215_eq t 0) (k1_off217_eq t 0)
    (k1_off212_inb t 0) (k1_off214_inb t 0) (k1_off216_inb t 0) (k1_off218_inb t 0) (k1_off211_inb t 0) (k1_off213_inb t 0) (k1_off215_inb t 0) (k1_off217_inb t 0) ((compacted_iff_rows _ _ _).1 hC)
  have h2 := row_step_cons d L sR2 sC0 g f _ (8 * t.val + 1) (k1_off212 t 1#32) (k1_off214 t 1#32) (k1_off216 t 1#32) (k1_off218 t 1#32) (k1_off211 t 1#32) (k1_off213 t 1#32) (k1_off215 t 1#32) (k1_off217 t 1#32)
    (k1_off212_eq t 1) (k1_off214_eq t 1) (k1_off216_eq t 1) (k1_off218_eq t 1) (k1_off211_eq t 1) (k1_off213_eq t 1) (k1_off215_eq t 1) (k1_off217_eq t 1)
    (k1_off212_inb t 1) (k1_off214_inb t 1) (k1_off216_inb t 1) (k1_off218_inb t 1) (k1_off211_inb t 1) (k1_off213_inb t 1) (k1_off215_inb t 1) (k1_off217_inb t 1) h1
  have h3 := row_step_cons d L sR2 sC0 g f _ (8 * t.val + 2) (k1_off212 t 2#32) (k1_off214 t 2#32) (k1_off216 t 2#32) (k1_off218 t 2#32) (k1_off211 t 2#32) (k1_off213 t 2#32) (k1_off215 t 2#32) (k1_off217 t 2#32)
    (k1_off212_eq t 2) (k1_off214_eq t 2) (k1_off216_eq t 2) (k1_off218_eq t 2) (k1_off211_eq t 2) (k1_off213_eq t 2) (k1_off215_eq t 2) (k1_off217_eq t 2)
    (k1_off212_inb t 2) (k1_off214_inb t 2) (k1_off216_inb t 2) (k1_off218_inb t 2) (k1_off211_inb t 2) (k1_off213_inb t 2) (k1_off215_inb t 2) (k1_off217_inb t 2) h2
  have h4 := row_step_cons d L sR2 sC0 g f _ (8 * t.val + 3) (k1_off212 t 3#32) (k1_off214 t 3#32) (k1_off216 t 3#32) (k1_off218 t 3#32) (k1_off211 t 3#32) (k1_off213 t 3#32) (k1_off215 t 3#32) (k1_off217 t 3#32)
    (k1_off212_eq t 3) (k1_off214_eq t 3) (k1_off216_eq t 3) (k1_off218_eq t 3) (k1_off211_eq t 3) (k1_off213_eq t 3) (k1_off215_eq t 3) (k1_off217_eq t 3)
    (k1_off212_inb t 3) (k1_off214_inb t 3) (k1_off216_inb t 3) (k1_off218_inb t 3) (k1_off211_inb t 3) (k1_off213_inb t 3) (k1_off215_inb t 3) (k1_off217_inb t 3) h3
  have h5 := row_step_cons d L sR2 sC0 g f _ (8 * t.val + 4) (k1_off212 t 4#32) (k1_off214 t 4#32) (k1_off216 t 4#32) (k1_off218 t 4#32) (k1_off211 t 4#32) (k1_off213 t 4#32) (k1_off215 t 4#32) (k1_off217 t 4#32)
    (k1_off212_eq t 4) (k1_off214_eq t 4) (k1_off216_eq t 4) (k1_off218_eq t 4) (k1_off211_eq t 4) (k1_off213_eq t 4) (k1_off215_eq t 4) (k1_off217_eq t 4)
    (k1_off212_inb t 4) (k1_off214_inb t 4) (k1_off216_inb t 4) (k1_off218_inb t 4) (k1_off211_inb t 4) (k1_off213_inb t 4) (k1_off215_inb t 4) (k1_off217_inb t 4) h4
  have h6 := row_step_cons d L sR2 sC0 g f _ (8 * t.val + 5) (k1_off212 t 5#32) (k1_off214 t 5#32) (k1_off216 t 5#32) (k1_off218 t 5#32) (k1_off211 t 5#32) (k1_off213 t 5#32) (k1_off215 t 5#32) (k1_off217 t 5#32)
    (k1_off212_eq t 5) (k1_off214_eq t 5) (k1_off216_eq t 5) (k1_off218_eq t 5) (k1_off211_eq t 5) (k1_off213_eq t 5) (k1_off215_eq t 5) (k1_off217_eq t 5)
    (k1_off212_inb t 5) (k1_off214_inb t 5) (k1_off216_inb t 5) (k1_off218_inb t 5) (k1_off211_inb t 5) (k1_off213_inb t 5) (k1_off215_inb t 5) (k1_off217_inb t 5) h5
  have h7 := row_step_cons d L sR2 sC0 g f _ (8 * t.val + 6) (k1_off212 t 6#32) (k1_off214 t 6#32) (k1_off216 t 6#32) (k1_off218 t 6#32) (k1_off211 t 6#32) (k1_off213 t 6#32) (k1_off215 t 6#32) (k1_off217 t 6#32)
    (k1_off212_eq t 6) (k1_off214_eq t 6) (k1_off216_eq t 6) (k1_off218_eq t 6) (k1_off211_eq t 6) (k1_off213_eq t 6) (k1_off215_eq t 6) (k1_off217_eq t 6)
    (k1_off212_inb t 6) (k1_off214_inb t 6) (k1_off216_inb t 6) (k1_off218_inb t 6) (k1_off211_inb t 6) (k1_off213_inb t 6) (k1_off215_inb t 6) (k1_off217_inb t 6) h6
  have h8 := row_step_cons d L sR2 sC0 g f _ (8 * t.val + 7) (k1_off212 t 7#32) (k1_off214 t 7#32) (k1_off216 t 7#32) (k1_off218 t 7#32) (k1_off211 t 7#32) (k1_off213 t 7#32) (k1_off215 t 7#32) (k1_off217 t 7#32)
    (k1_off212_eq t 7) (k1_off214_eq t 7) (k1_off216_eq t 7) (k1_off218_eq t 7) (k1_off211_eq t 7) (k1_off213_eq t 7) (k1_off215_eq t 7) (k1_off217_eq t 7)
    (k1_off212_inb t 7) (k1_off214_inb t 7) (k1_off216_inb t 7) (k1_off218_inb t 7) (k1_off211_inb t 7) (k1_off213_inb t 7) (k1_off215_inb t 7) (k1_off217_inb t 7) h7
  intro r c hr
  exact h8 r c (by omega)

/-- The compaction step of loop 28 of 40: trip t copies rows [8 t, 8 t + 8) of the landing buffer's first 64 columns. -/
theorem compact_step_t29 (t : Fin k1_t29_loop.trips) (g : Buf (Elt F) (sR0.view.loc (thr d L))) (f : Buf (Elt F) (sC1.view.loc (thr d L)))
    (hC : Compacted (sR0.view.read (Elt F) g) (sC1.view.read (Elt F) f) t.val) :
    Compacted (sR0.view.read (Elt F) g) (sC1.view.read (Elt F) (sC1.view.writes (Elt F) f
      [cpiece d L sR0 g (k1_off226 t 7#32) (k1_off225 t 7#32) (k1_off226_inb t 7) (k1_off225_inb t 7),
       cpiece d L sR0 g (k1_off224 t 7#32) (k1_off223 t 7#32) (k1_off224_inb t 7) (k1_off223_inb t 7),
       cpiece d L sR0 g (k1_off222 t 7#32) (k1_off221 t 7#32) (k1_off222_inb t 7) (k1_off221_inb t 7),
       cpiece d L sR0 g (k1_off220 t 7#32) (k1_off219 t 7#32) (k1_off220_inb t 7) (k1_off219_inb t 7),
       cpiece d L sR0 g (k1_off226 t 6#32) (k1_off225 t 6#32) (k1_off226_inb t 6) (k1_off225_inb t 6),
       cpiece d L sR0 g (k1_off224 t 6#32) (k1_off223 t 6#32) (k1_off224_inb t 6) (k1_off223_inb t 6),
       cpiece d L sR0 g (k1_off222 t 6#32) (k1_off221 t 6#32) (k1_off222_inb t 6) (k1_off221_inb t 6),
       cpiece d L sR0 g (k1_off220 t 6#32) (k1_off219 t 6#32) (k1_off220_inb t 6) (k1_off219_inb t 6),
       cpiece d L sR0 g (k1_off226 t 5#32) (k1_off225 t 5#32) (k1_off226_inb t 5) (k1_off225_inb t 5),
       cpiece d L sR0 g (k1_off224 t 5#32) (k1_off223 t 5#32) (k1_off224_inb t 5) (k1_off223_inb t 5),
       cpiece d L sR0 g (k1_off222 t 5#32) (k1_off221 t 5#32) (k1_off222_inb t 5) (k1_off221_inb t 5),
       cpiece d L sR0 g (k1_off220 t 5#32) (k1_off219 t 5#32) (k1_off220_inb t 5) (k1_off219_inb t 5),
       cpiece d L sR0 g (k1_off226 t 4#32) (k1_off225 t 4#32) (k1_off226_inb t 4) (k1_off225_inb t 4),
       cpiece d L sR0 g (k1_off224 t 4#32) (k1_off223 t 4#32) (k1_off224_inb t 4) (k1_off223_inb t 4),
       cpiece d L sR0 g (k1_off222 t 4#32) (k1_off221 t 4#32) (k1_off222_inb t 4) (k1_off221_inb t 4),
       cpiece d L sR0 g (k1_off220 t 4#32) (k1_off219 t 4#32) (k1_off220_inb t 4) (k1_off219_inb t 4),
       cpiece d L sR0 g (k1_off226 t 3#32) (k1_off225 t 3#32) (k1_off226_inb t 3) (k1_off225_inb t 3),
       cpiece d L sR0 g (k1_off224 t 3#32) (k1_off223 t 3#32) (k1_off224_inb t 3) (k1_off223_inb t 3),
       cpiece d L sR0 g (k1_off222 t 3#32) (k1_off221 t 3#32) (k1_off222_inb t 3) (k1_off221_inb t 3),
       cpiece d L sR0 g (k1_off220 t 3#32) (k1_off219 t 3#32) (k1_off220_inb t 3) (k1_off219_inb t 3),
       cpiece d L sR0 g (k1_off226 t 2#32) (k1_off225 t 2#32) (k1_off226_inb t 2) (k1_off225_inb t 2),
       cpiece d L sR0 g (k1_off224 t 2#32) (k1_off223 t 2#32) (k1_off224_inb t 2) (k1_off223_inb t 2),
       cpiece d L sR0 g (k1_off222 t 2#32) (k1_off221 t 2#32) (k1_off222_inb t 2) (k1_off221_inb t 2),
       cpiece d L sR0 g (k1_off220 t 2#32) (k1_off219 t 2#32) (k1_off220_inb t 2) (k1_off219_inb t 2),
       cpiece d L sR0 g (k1_off226 t 1#32) (k1_off225 t 1#32) (k1_off226_inb t 1) (k1_off225_inb t 1),
       cpiece d L sR0 g (k1_off224 t 1#32) (k1_off223 t 1#32) (k1_off224_inb t 1) (k1_off223_inb t 1),
       cpiece d L sR0 g (k1_off222 t 1#32) (k1_off221 t 1#32) (k1_off222_inb t 1) (k1_off221_inb t 1),
       cpiece d L sR0 g (k1_off220 t 1#32) (k1_off219 t 1#32) (k1_off220_inb t 1) (k1_off219_inb t 1),
       cpiece d L sR0 g (k1_off226 t 0#32) (k1_off225 t 0#32) (k1_off226_inb t 0) (k1_off225_inb t 0),
       cpiece d L sR0 g (k1_off224 t 0#32) (k1_off223 t 0#32) (k1_off224_inb t 0) (k1_off223_inb t 0),
       cpiece d L sR0 g (k1_off222 t 0#32) (k1_off221 t 0#32) (k1_off222_inb t 0) (k1_off221_inb t 0),
       cpiece d L sR0 g (k1_off220 t 0#32) (k1_off219 t 0#32) (k1_off220_inb t 0) (k1_off219_inb t 0)])) (t.val + 1) := by
  have h1 := row_step_cons d L sR0 sC1 g f [] (8 * t.val + 0) (k1_off220 t 0#32) (k1_off222 t 0#32) (k1_off224 t 0#32) (k1_off226 t 0#32) (k1_off219 t 0#32) (k1_off221 t 0#32) (k1_off223 t 0#32) (k1_off225 t 0#32)
    (k1_off220_eq t 0) (k1_off222_eq t 0) (k1_off224_eq t 0) (k1_off226_eq t 0) (k1_off219_eq t 0) (k1_off221_eq t 0) (k1_off223_eq t 0) (k1_off225_eq t 0)
    (k1_off220_inb t 0) (k1_off222_inb t 0) (k1_off224_inb t 0) (k1_off226_inb t 0) (k1_off219_inb t 0) (k1_off221_inb t 0) (k1_off223_inb t 0) (k1_off225_inb t 0) ((compacted_iff_rows _ _ _).1 hC)
  have h2 := row_step_cons d L sR0 sC1 g f _ (8 * t.val + 1) (k1_off220 t 1#32) (k1_off222 t 1#32) (k1_off224 t 1#32) (k1_off226 t 1#32) (k1_off219 t 1#32) (k1_off221 t 1#32) (k1_off223 t 1#32) (k1_off225 t 1#32)
    (k1_off220_eq t 1) (k1_off222_eq t 1) (k1_off224_eq t 1) (k1_off226_eq t 1) (k1_off219_eq t 1) (k1_off221_eq t 1) (k1_off223_eq t 1) (k1_off225_eq t 1)
    (k1_off220_inb t 1) (k1_off222_inb t 1) (k1_off224_inb t 1) (k1_off226_inb t 1) (k1_off219_inb t 1) (k1_off221_inb t 1) (k1_off223_inb t 1) (k1_off225_inb t 1) h1
  have h3 := row_step_cons d L sR0 sC1 g f _ (8 * t.val + 2) (k1_off220 t 2#32) (k1_off222 t 2#32) (k1_off224 t 2#32) (k1_off226 t 2#32) (k1_off219 t 2#32) (k1_off221 t 2#32) (k1_off223 t 2#32) (k1_off225 t 2#32)
    (k1_off220_eq t 2) (k1_off222_eq t 2) (k1_off224_eq t 2) (k1_off226_eq t 2) (k1_off219_eq t 2) (k1_off221_eq t 2) (k1_off223_eq t 2) (k1_off225_eq t 2)
    (k1_off220_inb t 2) (k1_off222_inb t 2) (k1_off224_inb t 2) (k1_off226_inb t 2) (k1_off219_inb t 2) (k1_off221_inb t 2) (k1_off223_inb t 2) (k1_off225_inb t 2) h2
  have h4 := row_step_cons d L sR0 sC1 g f _ (8 * t.val + 3) (k1_off220 t 3#32) (k1_off222 t 3#32) (k1_off224 t 3#32) (k1_off226 t 3#32) (k1_off219 t 3#32) (k1_off221 t 3#32) (k1_off223 t 3#32) (k1_off225 t 3#32)
    (k1_off220_eq t 3) (k1_off222_eq t 3) (k1_off224_eq t 3) (k1_off226_eq t 3) (k1_off219_eq t 3) (k1_off221_eq t 3) (k1_off223_eq t 3) (k1_off225_eq t 3)
    (k1_off220_inb t 3) (k1_off222_inb t 3) (k1_off224_inb t 3) (k1_off226_inb t 3) (k1_off219_inb t 3) (k1_off221_inb t 3) (k1_off223_inb t 3) (k1_off225_inb t 3) h3
  have h5 := row_step_cons d L sR0 sC1 g f _ (8 * t.val + 4) (k1_off220 t 4#32) (k1_off222 t 4#32) (k1_off224 t 4#32) (k1_off226 t 4#32) (k1_off219 t 4#32) (k1_off221 t 4#32) (k1_off223 t 4#32) (k1_off225 t 4#32)
    (k1_off220_eq t 4) (k1_off222_eq t 4) (k1_off224_eq t 4) (k1_off226_eq t 4) (k1_off219_eq t 4) (k1_off221_eq t 4) (k1_off223_eq t 4) (k1_off225_eq t 4)
    (k1_off220_inb t 4) (k1_off222_inb t 4) (k1_off224_inb t 4) (k1_off226_inb t 4) (k1_off219_inb t 4) (k1_off221_inb t 4) (k1_off223_inb t 4) (k1_off225_inb t 4) h4
  have h6 := row_step_cons d L sR0 sC1 g f _ (8 * t.val + 5) (k1_off220 t 5#32) (k1_off222 t 5#32) (k1_off224 t 5#32) (k1_off226 t 5#32) (k1_off219 t 5#32) (k1_off221 t 5#32) (k1_off223 t 5#32) (k1_off225 t 5#32)
    (k1_off220_eq t 5) (k1_off222_eq t 5) (k1_off224_eq t 5) (k1_off226_eq t 5) (k1_off219_eq t 5) (k1_off221_eq t 5) (k1_off223_eq t 5) (k1_off225_eq t 5)
    (k1_off220_inb t 5) (k1_off222_inb t 5) (k1_off224_inb t 5) (k1_off226_inb t 5) (k1_off219_inb t 5) (k1_off221_inb t 5) (k1_off223_inb t 5) (k1_off225_inb t 5) h5
  have h7 := row_step_cons d L sR0 sC1 g f _ (8 * t.val + 6) (k1_off220 t 6#32) (k1_off222 t 6#32) (k1_off224 t 6#32) (k1_off226 t 6#32) (k1_off219 t 6#32) (k1_off221 t 6#32) (k1_off223 t 6#32) (k1_off225 t 6#32)
    (k1_off220_eq t 6) (k1_off222_eq t 6) (k1_off224_eq t 6) (k1_off226_eq t 6) (k1_off219_eq t 6) (k1_off221_eq t 6) (k1_off223_eq t 6) (k1_off225_eq t 6)
    (k1_off220_inb t 6) (k1_off222_inb t 6) (k1_off224_inb t 6) (k1_off226_inb t 6) (k1_off219_inb t 6) (k1_off221_inb t 6) (k1_off223_inb t 6) (k1_off225_inb t 6) h6
  have h8 := row_step_cons d L sR0 sC1 g f _ (8 * t.val + 7) (k1_off220 t 7#32) (k1_off222 t 7#32) (k1_off224 t 7#32) (k1_off226 t 7#32) (k1_off219 t 7#32) (k1_off221 t 7#32) (k1_off223 t 7#32) (k1_off225 t 7#32)
    (k1_off220_eq t 7) (k1_off222_eq t 7) (k1_off224_eq t 7) (k1_off226_eq t 7) (k1_off219_eq t 7) (k1_off221_eq t 7) (k1_off223_eq t 7) (k1_off225_eq t 7)
    (k1_off220_inb t 7) (k1_off222_inb t 7) (k1_off224_inb t 7) (k1_off226_inb t 7) (k1_off219_inb t 7) (k1_off221_inb t 7) (k1_off223_inb t 7) (k1_off225_inb t 7) h7
  intro r c hr
  exact h8 r c (by omega)

/-- The compaction step of loop 29 of 40: trip t copies rows [8 t, 8 t + 8) of the landing buffer's first 64 columns. -/
theorem compact_step_t30 (t : Fin k1_t30_loop.trips) (g : Buf (Elt F) (sR1.view.loc (thr d L))) (f : Buf (Elt F) (sC0.view.loc (thr d L)))
    (hC : Compacted (sR1.view.read (Elt F) g) (sC0.view.read (Elt F) f) t.val) :
    Compacted (sR1.view.read (Elt F) g) (sC0.view.read (Elt F) (sC0.view.writes (Elt F) f
      [cpiece d L sR1 g (k1_off234 t 7#32) (k1_off233 t 7#32) (k1_off234_inb t 7) (k1_off233_inb t 7),
       cpiece d L sR1 g (k1_off232 t 7#32) (k1_off231 t 7#32) (k1_off232_inb t 7) (k1_off231_inb t 7),
       cpiece d L sR1 g (k1_off230 t 7#32) (k1_off229 t 7#32) (k1_off230_inb t 7) (k1_off229_inb t 7),
       cpiece d L sR1 g (k1_off228 t 7#32) (k1_off227 t 7#32) (k1_off228_inb t 7) (k1_off227_inb t 7),
       cpiece d L sR1 g (k1_off234 t 6#32) (k1_off233 t 6#32) (k1_off234_inb t 6) (k1_off233_inb t 6),
       cpiece d L sR1 g (k1_off232 t 6#32) (k1_off231 t 6#32) (k1_off232_inb t 6) (k1_off231_inb t 6),
       cpiece d L sR1 g (k1_off230 t 6#32) (k1_off229 t 6#32) (k1_off230_inb t 6) (k1_off229_inb t 6),
       cpiece d L sR1 g (k1_off228 t 6#32) (k1_off227 t 6#32) (k1_off228_inb t 6) (k1_off227_inb t 6),
       cpiece d L sR1 g (k1_off234 t 5#32) (k1_off233 t 5#32) (k1_off234_inb t 5) (k1_off233_inb t 5),
       cpiece d L sR1 g (k1_off232 t 5#32) (k1_off231 t 5#32) (k1_off232_inb t 5) (k1_off231_inb t 5),
       cpiece d L sR1 g (k1_off230 t 5#32) (k1_off229 t 5#32) (k1_off230_inb t 5) (k1_off229_inb t 5),
       cpiece d L sR1 g (k1_off228 t 5#32) (k1_off227 t 5#32) (k1_off228_inb t 5) (k1_off227_inb t 5),
       cpiece d L sR1 g (k1_off234 t 4#32) (k1_off233 t 4#32) (k1_off234_inb t 4) (k1_off233_inb t 4),
       cpiece d L sR1 g (k1_off232 t 4#32) (k1_off231 t 4#32) (k1_off232_inb t 4) (k1_off231_inb t 4),
       cpiece d L sR1 g (k1_off230 t 4#32) (k1_off229 t 4#32) (k1_off230_inb t 4) (k1_off229_inb t 4),
       cpiece d L sR1 g (k1_off228 t 4#32) (k1_off227 t 4#32) (k1_off228_inb t 4) (k1_off227_inb t 4),
       cpiece d L sR1 g (k1_off234 t 3#32) (k1_off233 t 3#32) (k1_off234_inb t 3) (k1_off233_inb t 3),
       cpiece d L sR1 g (k1_off232 t 3#32) (k1_off231 t 3#32) (k1_off232_inb t 3) (k1_off231_inb t 3),
       cpiece d L sR1 g (k1_off230 t 3#32) (k1_off229 t 3#32) (k1_off230_inb t 3) (k1_off229_inb t 3),
       cpiece d L sR1 g (k1_off228 t 3#32) (k1_off227 t 3#32) (k1_off228_inb t 3) (k1_off227_inb t 3),
       cpiece d L sR1 g (k1_off234 t 2#32) (k1_off233 t 2#32) (k1_off234_inb t 2) (k1_off233_inb t 2),
       cpiece d L sR1 g (k1_off232 t 2#32) (k1_off231 t 2#32) (k1_off232_inb t 2) (k1_off231_inb t 2),
       cpiece d L sR1 g (k1_off230 t 2#32) (k1_off229 t 2#32) (k1_off230_inb t 2) (k1_off229_inb t 2),
       cpiece d L sR1 g (k1_off228 t 2#32) (k1_off227 t 2#32) (k1_off228_inb t 2) (k1_off227_inb t 2),
       cpiece d L sR1 g (k1_off234 t 1#32) (k1_off233 t 1#32) (k1_off234_inb t 1) (k1_off233_inb t 1),
       cpiece d L sR1 g (k1_off232 t 1#32) (k1_off231 t 1#32) (k1_off232_inb t 1) (k1_off231_inb t 1),
       cpiece d L sR1 g (k1_off230 t 1#32) (k1_off229 t 1#32) (k1_off230_inb t 1) (k1_off229_inb t 1),
       cpiece d L sR1 g (k1_off228 t 1#32) (k1_off227 t 1#32) (k1_off228_inb t 1) (k1_off227_inb t 1),
       cpiece d L sR1 g (k1_off234 t 0#32) (k1_off233 t 0#32) (k1_off234_inb t 0) (k1_off233_inb t 0),
       cpiece d L sR1 g (k1_off232 t 0#32) (k1_off231 t 0#32) (k1_off232_inb t 0) (k1_off231_inb t 0),
       cpiece d L sR1 g (k1_off230 t 0#32) (k1_off229 t 0#32) (k1_off230_inb t 0) (k1_off229_inb t 0),
       cpiece d L sR1 g (k1_off228 t 0#32) (k1_off227 t 0#32) (k1_off228_inb t 0) (k1_off227_inb t 0)])) (t.val + 1) := by
  have h1 := row_step_cons d L sR1 sC0 g f [] (8 * t.val + 0) (k1_off228 t 0#32) (k1_off230 t 0#32) (k1_off232 t 0#32) (k1_off234 t 0#32) (k1_off227 t 0#32) (k1_off229 t 0#32) (k1_off231 t 0#32) (k1_off233 t 0#32)
    (k1_off228_eq t 0) (k1_off230_eq t 0) (k1_off232_eq t 0) (k1_off234_eq t 0) (k1_off227_eq t 0) (k1_off229_eq t 0) (k1_off231_eq t 0) (k1_off233_eq t 0)
    (k1_off228_inb t 0) (k1_off230_inb t 0) (k1_off232_inb t 0) (k1_off234_inb t 0) (k1_off227_inb t 0) (k1_off229_inb t 0) (k1_off231_inb t 0) (k1_off233_inb t 0) ((compacted_iff_rows _ _ _).1 hC)
  have h2 := row_step_cons d L sR1 sC0 g f _ (8 * t.val + 1) (k1_off228 t 1#32) (k1_off230 t 1#32) (k1_off232 t 1#32) (k1_off234 t 1#32) (k1_off227 t 1#32) (k1_off229 t 1#32) (k1_off231 t 1#32) (k1_off233 t 1#32)
    (k1_off228_eq t 1) (k1_off230_eq t 1) (k1_off232_eq t 1) (k1_off234_eq t 1) (k1_off227_eq t 1) (k1_off229_eq t 1) (k1_off231_eq t 1) (k1_off233_eq t 1)
    (k1_off228_inb t 1) (k1_off230_inb t 1) (k1_off232_inb t 1) (k1_off234_inb t 1) (k1_off227_inb t 1) (k1_off229_inb t 1) (k1_off231_inb t 1) (k1_off233_inb t 1) h1
  have h3 := row_step_cons d L sR1 sC0 g f _ (8 * t.val + 2) (k1_off228 t 2#32) (k1_off230 t 2#32) (k1_off232 t 2#32) (k1_off234 t 2#32) (k1_off227 t 2#32) (k1_off229 t 2#32) (k1_off231 t 2#32) (k1_off233 t 2#32)
    (k1_off228_eq t 2) (k1_off230_eq t 2) (k1_off232_eq t 2) (k1_off234_eq t 2) (k1_off227_eq t 2) (k1_off229_eq t 2) (k1_off231_eq t 2) (k1_off233_eq t 2)
    (k1_off228_inb t 2) (k1_off230_inb t 2) (k1_off232_inb t 2) (k1_off234_inb t 2) (k1_off227_inb t 2) (k1_off229_inb t 2) (k1_off231_inb t 2) (k1_off233_inb t 2) h2
  have h4 := row_step_cons d L sR1 sC0 g f _ (8 * t.val + 3) (k1_off228 t 3#32) (k1_off230 t 3#32) (k1_off232 t 3#32) (k1_off234 t 3#32) (k1_off227 t 3#32) (k1_off229 t 3#32) (k1_off231 t 3#32) (k1_off233 t 3#32)
    (k1_off228_eq t 3) (k1_off230_eq t 3) (k1_off232_eq t 3) (k1_off234_eq t 3) (k1_off227_eq t 3) (k1_off229_eq t 3) (k1_off231_eq t 3) (k1_off233_eq t 3)
    (k1_off228_inb t 3) (k1_off230_inb t 3) (k1_off232_inb t 3) (k1_off234_inb t 3) (k1_off227_inb t 3) (k1_off229_inb t 3) (k1_off231_inb t 3) (k1_off233_inb t 3) h3
  have h5 := row_step_cons d L sR1 sC0 g f _ (8 * t.val + 4) (k1_off228 t 4#32) (k1_off230 t 4#32) (k1_off232 t 4#32) (k1_off234 t 4#32) (k1_off227 t 4#32) (k1_off229 t 4#32) (k1_off231 t 4#32) (k1_off233 t 4#32)
    (k1_off228_eq t 4) (k1_off230_eq t 4) (k1_off232_eq t 4) (k1_off234_eq t 4) (k1_off227_eq t 4) (k1_off229_eq t 4) (k1_off231_eq t 4) (k1_off233_eq t 4)
    (k1_off228_inb t 4) (k1_off230_inb t 4) (k1_off232_inb t 4) (k1_off234_inb t 4) (k1_off227_inb t 4) (k1_off229_inb t 4) (k1_off231_inb t 4) (k1_off233_inb t 4) h4
  have h6 := row_step_cons d L sR1 sC0 g f _ (8 * t.val + 5) (k1_off228 t 5#32) (k1_off230 t 5#32) (k1_off232 t 5#32) (k1_off234 t 5#32) (k1_off227 t 5#32) (k1_off229 t 5#32) (k1_off231 t 5#32) (k1_off233 t 5#32)
    (k1_off228_eq t 5) (k1_off230_eq t 5) (k1_off232_eq t 5) (k1_off234_eq t 5) (k1_off227_eq t 5) (k1_off229_eq t 5) (k1_off231_eq t 5) (k1_off233_eq t 5)
    (k1_off228_inb t 5) (k1_off230_inb t 5) (k1_off232_inb t 5) (k1_off234_inb t 5) (k1_off227_inb t 5) (k1_off229_inb t 5) (k1_off231_inb t 5) (k1_off233_inb t 5) h5
  have h7 := row_step_cons d L sR1 sC0 g f _ (8 * t.val + 6) (k1_off228 t 6#32) (k1_off230 t 6#32) (k1_off232 t 6#32) (k1_off234 t 6#32) (k1_off227 t 6#32) (k1_off229 t 6#32) (k1_off231 t 6#32) (k1_off233 t 6#32)
    (k1_off228_eq t 6) (k1_off230_eq t 6) (k1_off232_eq t 6) (k1_off234_eq t 6) (k1_off227_eq t 6) (k1_off229_eq t 6) (k1_off231_eq t 6) (k1_off233_eq t 6)
    (k1_off228_inb t 6) (k1_off230_inb t 6) (k1_off232_inb t 6) (k1_off234_inb t 6) (k1_off227_inb t 6) (k1_off229_inb t 6) (k1_off231_inb t 6) (k1_off233_inb t 6) h6
  have h8 := row_step_cons d L sR1 sC0 g f _ (8 * t.val + 7) (k1_off228 t 7#32) (k1_off230 t 7#32) (k1_off232 t 7#32) (k1_off234 t 7#32) (k1_off227 t 7#32) (k1_off229 t 7#32) (k1_off231 t 7#32) (k1_off233 t 7#32)
    (k1_off228_eq t 7) (k1_off230_eq t 7) (k1_off232_eq t 7) (k1_off234_eq t 7) (k1_off227_eq t 7) (k1_off229_eq t 7) (k1_off231_eq t 7) (k1_off233_eq t 7)
    (k1_off228_inb t 7) (k1_off230_inb t 7) (k1_off232_inb t 7) (k1_off234_inb t 7) (k1_off227_inb t 7) (k1_off229_inb t 7) (k1_off231_inb t 7) (k1_off233_inb t 7) h7
  intro r c hr
  exact h8 r c (by omega)

/-- The compaction step of loop 30 of 40: trip t copies rows [8 t, 8 t + 8) of the landing buffer's first 64 columns. -/
theorem compact_step_t31 (t : Fin k1_t31_loop.trips) (g : Buf (Elt F) (sR2.view.loc (thr d L))) (f : Buf (Elt F) (sC1.view.loc (thr d L)))
    (hC : Compacted (sR2.view.read (Elt F) g) (sC1.view.read (Elt F) f) t.val) :
    Compacted (sR2.view.read (Elt F) g) (sC1.view.read (Elt F) (sC1.view.writes (Elt F) f
      [cpiece d L sR2 g (k1_off242 t 7#32) (k1_off241 t 7#32) (k1_off242_inb t 7) (k1_off241_inb t 7),
       cpiece d L sR2 g (k1_off240 t 7#32) (k1_off239 t 7#32) (k1_off240_inb t 7) (k1_off239_inb t 7),
       cpiece d L sR2 g (k1_off238 t 7#32) (k1_off237 t 7#32) (k1_off238_inb t 7) (k1_off237_inb t 7),
       cpiece d L sR2 g (k1_off236 t 7#32) (k1_off235 t 7#32) (k1_off236_inb t 7) (k1_off235_inb t 7),
       cpiece d L sR2 g (k1_off242 t 6#32) (k1_off241 t 6#32) (k1_off242_inb t 6) (k1_off241_inb t 6),
       cpiece d L sR2 g (k1_off240 t 6#32) (k1_off239 t 6#32) (k1_off240_inb t 6) (k1_off239_inb t 6),
       cpiece d L sR2 g (k1_off238 t 6#32) (k1_off237 t 6#32) (k1_off238_inb t 6) (k1_off237_inb t 6),
       cpiece d L sR2 g (k1_off236 t 6#32) (k1_off235 t 6#32) (k1_off236_inb t 6) (k1_off235_inb t 6),
       cpiece d L sR2 g (k1_off242 t 5#32) (k1_off241 t 5#32) (k1_off242_inb t 5) (k1_off241_inb t 5),
       cpiece d L sR2 g (k1_off240 t 5#32) (k1_off239 t 5#32) (k1_off240_inb t 5) (k1_off239_inb t 5),
       cpiece d L sR2 g (k1_off238 t 5#32) (k1_off237 t 5#32) (k1_off238_inb t 5) (k1_off237_inb t 5),
       cpiece d L sR2 g (k1_off236 t 5#32) (k1_off235 t 5#32) (k1_off236_inb t 5) (k1_off235_inb t 5),
       cpiece d L sR2 g (k1_off242 t 4#32) (k1_off241 t 4#32) (k1_off242_inb t 4) (k1_off241_inb t 4),
       cpiece d L sR2 g (k1_off240 t 4#32) (k1_off239 t 4#32) (k1_off240_inb t 4) (k1_off239_inb t 4),
       cpiece d L sR2 g (k1_off238 t 4#32) (k1_off237 t 4#32) (k1_off238_inb t 4) (k1_off237_inb t 4),
       cpiece d L sR2 g (k1_off236 t 4#32) (k1_off235 t 4#32) (k1_off236_inb t 4) (k1_off235_inb t 4),
       cpiece d L sR2 g (k1_off242 t 3#32) (k1_off241 t 3#32) (k1_off242_inb t 3) (k1_off241_inb t 3),
       cpiece d L sR2 g (k1_off240 t 3#32) (k1_off239 t 3#32) (k1_off240_inb t 3) (k1_off239_inb t 3),
       cpiece d L sR2 g (k1_off238 t 3#32) (k1_off237 t 3#32) (k1_off238_inb t 3) (k1_off237_inb t 3),
       cpiece d L sR2 g (k1_off236 t 3#32) (k1_off235 t 3#32) (k1_off236_inb t 3) (k1_off235_inb t 3),
       cpiece d L sR2 g (k1_off242 t 2#32) (k1_off241 t 2#32) (k1_off242_inb t 2) (k1_off241_inb t 2),
       cpiece d L sR2 g (k1_off240 t 2#32) (k1_off239 t 2#32) (k1_off240_inb t 2) (k1_off239_inb t 2),
       cpiece d L sR2 g (k1_off238 t 2#32) (k1_off237 t 2#32) (k1_off238_inb t 2) (k1_off237_inb t 2),
       cpiece d L sR2 g (k1_off236 t 2#32) (k1_off235 t 2#32) (k1_off236_inb t 2) (k1_off235_inb t 2),
       cpiece d L sR2 g (k1_off242 t 1#32) (k1_off241 t 1#32) (k1_off242_inb t 1) (k1_off241_inb t 1),
       cpiece d L sR2 g (k1_off240 t 1#32) (k1_off239 t 1#32) (k1_off240_inb t 1) (k1_off239_inb t 1),
       cpiece d L sR2 g (k1_off238 t 1#32) (k1_off237 t 1#32) (k1_off238_inb t 1) (k1_off237_inb t 1),
       cpiece d L sR2 g (k1_off236 t 1#32) (k1_off235 t 1#32) (k1_off236_inb t 1) (k1_off235_inb t 1),
       cpiece d L sR2 g (k1_off242 t 0#32) (k1_off241 t 0#32) (k1_off242_inb t 0) (k1_off241_inb t 0),
       cpiece d L sR2 g (k1_off240 t 0#32) (k1_off239 t 0#32) (k1_off240_inb t 0) (k1_off239_inb t 0),
       cpiece d L sR2 g (k1_off238 t 0#32) (k1_off237 t 0#32) (k1_off238_inb t 0) (k1_off237_inb t 0),
       cpiece d L sR2 g (k1_off236 t 0#32) (k1_off235 t 0#32) (k1_off236_inb t 0) (k1_off235_inb t 0)])) (t.val + 1) := by
  have h1 := row_step_cons d L sR2 sC1 g f [] (8 * t.val + 0) (k1_off236 t 0#32) (k1_off238 t 0#32) (k1_off240 t 0#32) (k1_off242 t 0#32) (k1_off235 t 0#32) (k1_off237 t 0#32) (k1_off239 t 0#32) (k1_off241 t 0#32)
    (k1_off236_eq t 0) (k1_off238_eq t 0) (k1_off240_eq t 0) (k1_off242_eq t 0) (k1_off235_eq t 0) (k1_off237_eq t 0) (k1_off239_eq t 0) (k1_off241_eq t 0)
    (k1_off236_inb t 0) (k1_off238_inb t 0) (k1_off240_inb t 0) (k1_off242_inb t 0) (k1_off235_inb t 0) (k1_off237_inb t 0) (k1_off239_inb t 0) (k1_off241_inb t 0) ((compacted_iff_rows _ _ _).1 hC)
  have h2 := row_step_cons d L sR2 sC1 g f _ (8 * t.val + 1) (k1_off236 t 1#32) (k1_off238 t 1#32) (k1_off240 t 1#32) (k1_off242 t 1#32) (k1_off235 t 1#32) (k1_off237 t 1#32) (k1_off239 t 1#32) (k1_off241 t 1#32)
    (k1_off236_eq t 1) (k1_off238_eq t 1) (k1_off240_eq t 1) (k1_off242_eq t 1) (k1_off235_eq t 1) (k1_off237_eq t 1) (k1_off239_eq t 1) (k1_off241_eq t 1)
    (k1_off236_inb t 1) (k1_off238_inb t 1) (k1_off240_inb t 1) (k1_off242_inb t 1) (k1_off235_inb t 1) (k1_off237_inb t 1) (k1_off239_inb t 1) (k1_off241_inb t 1) h1
  have h3 := row_step_cons d L sR2 sC1 g f _ (8 * t.val + 2) (k1_off236 t 2#32) (k1_off238 t 2#32) (k1_off240 t 2#32) (k1_off242 t 2#32) (k1_off235 t 2#32) (k1_off237 t 2#32) (k1_off239 t 2#32) (k1_off241 t 2#32)
    (k1_off236_eq t 2) (k1_off238_eq t 2) (k1_off240_eq t 2) (k1_off242_eq t 2) (k1_off235_eq t 2) (k1_off237_eq t 2) (k1_off239_eq t 2) (k1_off241_eq t 2)
    (k1_off236_inb t 2) (k1_off238_inb t 2) (k1_off240_inb t 2) (k1_off242_inb t 2) (k1_off235_inb t 2) (k1_off237_inb t 2) (k1_off239_inb t 2) (k1_off241_inb t 2) h2
  have h4 := row_step_cons d L sR2 sC1 g f _ (8 * t.val + 3) (k1_off236 t 3#32) (k1_off238 t 3#32) (k1_off240 t 3#32) (k1_off242 t 3#32) (k1_off235 t 3#32) (k1_off237 t 3#32) (k1_off239 t 3#32) (k1_off241 t 3#32)
    (k1_off236_eq t 3) (k1_off238_eq t 3) (k1_off240_eq t 3) (k1_off242_eq t 3) (k1_off235_eq t 3) (k1_off237_eq t 3) (k1_off239_eq t 3) (k1_off241_eq t 3)
    (k1_off236_inb t 3) (k1_off238_inb t 3) (k1_off240_inb t 3) (k1_off242_inb t 3) (k1_off235_inb t 3) (k1_off237_inb t 3) (k1_off239_inb t 3) (k1_off241_inb t 3) h3
  have h5 := row_step_cons d L sR2 sC1 g f _ (8 * t.val + 4) (k1_off236 t 4#32) (k1_off238 t 4#32) (k1_off240 t 4#32) (k1_off242 t 4#32) (k1_off235 t 4#32) (k1_off237 t 4#32) (k1_off239 t 4#32) (k1_off241 t 4#32)
    (k1_off236_eq t 4) (k1_off238_eq t 4) (k1_off240_eq t 4) (k1_off242_eq t 4) (k1_off235_eq t 4) (k1_off237_eq t 4) (k1_off239_eq t 4) (k1_off241_eq t 4)
    (k1_off236_inb t 4) (k1_off238_inb t 4) (k1_off240_inb t 4) (k1_off242_inb t 4) (k1_off235_inb t 4) (k1_off237_inb t 4) (k1_off239_inb t 4) (k1_off241_inb t 4) h4
  have h6 := row_step_cons d L sR2 sC1 g f _ (8 * t.val + 5) (k1_off236 t 5#32) (k1_off238 t 5#32) (k1_off240 t 5#32) (k1_off242 t 5#32) (k1_off235 t 5#32) (k1_off237 t 5#32) (k1_off239 t 5#32) (k1_off241 t 5#32)
    (k1_off236_eq t 5) (k1_off238_eq t 5) (k1_off240_eq t 5) (k1_off242_eq t 5) (k1_off235_eq t 5) (k1_off237_eq t 5) (k1_off239_eq t 5) (k1_off241_eq t 5)
    (k1_off236_inb t 5) (k1_off238_inb t 5) (k1_off240_inb t 5) (k1_off242_inb t 5) (k1_off235_inb t 5) (k1_off237_inb t 5) (k1_off239_inb t 5) (k1_off241_inb t 5) h5
  have h7 := row_step_cons d L sR2 sC1 g f _ (8 * t.val + 6) (k1_off236 t 6#32) (k1_off238 t 6#32) (k1_off240 t 6#32) (k1_off242 t 6#32) (k1_off235 t 6#32) (k1_off237 t 6#32) (k1_off239 t 6#32) (k1_off241 t 6#32)
    (k1_off236_eq t 6) (k1_off238_eq t 6) (k1_off240_eq t 6) (k1_off242_eq t 6) (k1_off235_eq t 6) (k1_off237_eq t 6) (k1_off239_eq t 6) (k1_off241_eq t 6)
    (k1_off236_inb t 6) (k1_off238_inb t 6) (k1_off240_inb t 6) (k1_off242_inb t 6) (k1_off235_inb t 6) (k1_off237_inb t 6) (k1_off239_inb t 6) (k1_off241_inb t 6) h6
  have h8 := row_step_cons d L sR2 sC1 g f _ (8 * t.val + 7) (k1_off236 t 7#32) (k1_off238 t 7#32) (k1_off240 t 7#32) (k1_off242 t 7#32) (k1_off235 t 7#32) (k1_off237 t 7#32) (k1_off239 t 7#32) (k1_off241 t 7#32)
    (k1_off236_eq t 7) (k1_off238_eq t 7) (k1_off240_eq t 7) (k1_off242_eq t 7) (k1_off235_eq t 7) (k1_off237_eq t 7) (k1_off239_eq t 7) (k1_off241_eq t 7)
    (k1_off236_inb t 7) (k1_off238_inb t 7) (k1_off240_inb t 7) (k1_off242_inb t 7) (k1_off235_inb t 7) (k1_off237_inb t 7) (k1_off239_inb t 7) (k1_off241_inb t 7) h7
  intro r c hr
  exact h8 r c (by omega)

end Cert.Proof.KI

end
-- ==== Proof.KI.TileVal2d.lean ====
/-
  The compaction steps of loops 31 to 40 of the 40, one statement each: trip t of a chunk's compaction loop copies eight more
  rows' first 64 columns from its landing buffer into its compacted buffer. Each is eight applications of the one-row
  step at the loop's own offset functions, whose closed forms are row 8 t + j, columns 0, 16, 32, 48.
-/
import proofs.«217222_g83150566851320_cont_9to1_m_45_25_alg».proof.Proof.KI.TileVal

noncomputable section

namespace Cert.Proof.KI

open Cert.KernelIdeal Cert.KernelIdeal.Gen

open Idealize.ShloMosaic
open Idealize.ShloMosaic.SparseCore (S V T)
open Idealize.ShloMosaic.ValueIdx (ix2 ix3)

variable {F : FTy → Type} [FloatOps F]

variable (d : Dev nD) (L : grid1.Coords)

/-- The compaction step of loop 31 of 40: trip t copies rows [8 t, 8 t + 8) of the landing buffer's first 64 columns. -/
theorem compact_step_t32 (t : Fin k1_t32_loop.trips) (g : Buf (Elt F) (sR0.view.loc (thr d L))) (f : Buf (Elt F) (sC0.view.loc (thr d L)))
    (hC : Compacted (sR0.view.read (Elt F) g) (sC0.view.read (Elt F) f) t.val) :
    Compacted (sR0.view.read (Elt F) g) (sC0.view.read (Elt F) (sC0.view.writes (Elt F) f
      [cpiece d L sR0 g (k1_off250 t 7#32) (k1_off249 t 7#32) (k1_off250_inb t 7) (k1_off249_inb t 7),
       cpiece d L sR0 g (k1_off248 t 7#32) (k1_off247 t 7#32) (k1_off248_inb t 7) (k1_off247_inb t 7),
       cpiece d L sR0 g (k1_off246 t 7#32) (k1_off245 t 7#32) (k1_off246_inb t 7) (k1_off245_inb t 7),
       cpiece d L sR0 g (k1_off244 t 7#32) (k1_off243 t 7#32) (k1_off244_inb t 7) (k1_off243_inb t 7),
       cpiece d L sR0 g (k1_off250 t 6#32) (k1_off249 t 6#32) (k1_off250_inb t 6) (k1_off249_inb t 6),
       cpiece d L sR0 g (k1_off248 t 6#32) (k1_off247 t 6#32) (k1_off248_inb t 6) (k1_off247_inb t 6),
       cpiece d L sR0 g (k1_off246 t 6#32) (k1_off245 t 6#32) (k1_off246_inb t 6) (k1_off245_inb t 6),
       cpiece d L sR0 g (k1_off244 t 6#32) (k1_off243 t 6#32) (k1_off244_inb t 6) (k1_off243_inb t 6),
       cpiece d L sR0 g (k1_off250 t 5#32) (k1_off249 t 5#32) (k1_off250_inb t 5) (k1_off249_inb t 5),
       cpiece d L sR0 g (k1_off248 t 5#32) (k1_off247 t 5#32) (k1_off248_inb t 5) (k1_off247_inb t 5),
       cpiece d L sR0 g (k1_off246 t 5#32) (k1_off245 t 5#32) (k1_off246_inb t 5) (k1_off245_inb t 5),
       cpiece d L sR0 g (k1_off244 t 5#32) (k1_off243 t 5#32) (k1_off244_inb t 5) (k1_off243_inb t 5),
       cpiece d L sR0 g (k1_off250 t 4#32) (k1_off249 t 4#32) (k1_off250_inb t 4) (k1_off249_inb t 4),
       cpiece d L sR0 g (k1_off248 t 4#32) (k1_off247 t 4#32) (k1_off248_inb t 4) (k1_off247_inb t 4),
       cpiece d L sR0 g (k1_off246 t 4#32) (k1_off245 t 4#32) (k1_off246_inb t 4) (k1_off245_inb t 4),
       cpiece d L sR0 g (k1_off244 t 4#32) (k1_off243 t 4#32) (k1_off244_inb t 4) (k1_off243_inb t 4),
       cpiece d L sR0 g (k1_off250 t 3#32) (k1_off249 t 3#32) (k1_off250_inb t 3) (k1_off249_inb t 3),
       cpiece d L sR0 g (k1_off248 t 3#32) (k1_off247 t 3#32) (k1_off248_inb t 3) (k1_off247_inb t 3),
       cpiece d L sR0 g (k1_off246 t 3#32) (k1_off245 t 3#32) (k1_off246_inb t 3) (k1_off245_inb t 3),
       cpiece d L sR0 g (k1_off244 t 3#32) (k1_off243 t 3#32) (k1_off244_inb t 3) (k1_off243_inb t 3),
       cpiece d L sR0 g (k1_off250 t 2#32) (k1_off249 t 2#32) (k1_off250_inb t 2) (k1_off249_inb t 2),
       cpiece d L sR0 g (k1_off248 t 2#32) (k1_off247 t 2#32) (k1_off248_inb t 2) (k1_off247_inb t 2),
       cpiece d L sR0 g (k1_off246 t 2#32) (k1_off245 t 2#32) (k1_off246_inb t 2) (k1_off245_inb t 2),
       cpiece d L sR0 g (k1_off244 t 2#32) (k1_off243 t 2#32) (k1_off244_inb t 2) (k1_off243_inb t 2),
       cpiece d L sR0 g (k1_off250 t 1#32) (k1_off249 t 1#32) (k1_off250_inb t 1) (k1_off249_inb t 1),
       cpiece d L sR0 g (k1_off248 t 1#32) (k1_off247 t 1#32) (k1_off248_inb t 1) (k1_off247_inb t 1),
       cpiece d L sR0 g (k1_off246 t 1#32) (k1_off245 t 1#32) (k1_off246_inb t 1) (k1_off245_inb t 1),
       cpiece d L sR0 g (k1_off244 t 1#32) (k1_off243 t 1#32) (k1_off244_inb t 1) (k1_off243_inb t 1),
       cpiece d L sR0 g (k1_off250 t 0#32) (k1_off249 t 0#32) (k1_off250_inb t 0) (k1_off249_inb t 0),
       cpiece d L sR0 g (k1_off248 t 0#32) (k1_off247 t 0#32) (k1_off248_inb t 0) (k1_off247_inb t 0),
       cpiece d L sR0 g (k1_off246 t 0#32) (k1_off245 t 0#32) (k1_off246_inb t 0) (k1_off245_inb t 0),
       cpiece d L sR0 g (k1_off244 t 0#32) (k1_off243 t 0#32) (k1_off244_inb t 0) (k1_off243_inb t 0)])) (t.val + 1) := by
  have h1 := row_step_cons d L sR0 sC0 g f [] (8 * t.val + 0) (k1_off244 t 0#32) (k1_off246 t 0#32) (k1_off248 t 0#32) (k1_off250 t 0#32) (k1_off243 t 0#32) (k1_off245 t 0#32) (k1_off247 t 0#32) (k1_off249 t 0#32)
    (k1_off244_eq t 0) (k1_off246_eq t 0) (k1_off248_eq t 0) (k1_off250_eq t 0) (k1_off243_eq t 0) (k1_off245_eq t 0) (k1_off247_eq t 0) (k1_off249_eq t 0)
    (k1_off244_inb t 0) (k1_off246_inb t 0) (k1_off248_inb t 0) (k1_off250_inb t 0) (k1_off243_inb t 0) (k1_off245_inb t 0) (k1_off247_inb t 0) (k1_off249_inb t 0) ((compacted_iff_rows _ _ _).1 hC)
  have h2 := row_step_cons d L sR0 sC0 g f _ (8 * t.val + 1) (k1_off244 t 1#32) (k1_off246 t 1#32) (k1_off248 t 1#32) (k1_off250 t 1#32) (k1_off243 t 1#32) (k1_off245 t 1#32) (k1_off247 t 1#32) (k1_off249 t 1#32)
    (k1_off244_eq t 1) (k1_off246_eq t 1) (k1_off248_eq t 1) (k1_off250_eq t 1) (k1_off243_eq t 1) (k1_off245_eq t 1) (k1_off247_eq t 1) (k1_off249_eq t 1)
    (k1_off244_inb t 1) (k1_off246_inb t 1) (k1_off248_inb t 1) (k1_off250_inb t 1) (k1_off243_inb t 1) (k1_off245_inb t 1) (k1_off247_inb t 1) (k1_off249_inb t 1) h1
  have h3 := row_step_cons d L sR0 sC0 g f _ (8 * t.val + 2) (k1_off244 t 2#32) (k1_off246 t 2#32) (k1_off248 t 2#32) (k1_off250 t 2#32) (k1_off243 t 2#32) (k1_off245 t 2#32) (k1_off247 t 2#32) (k1_off249 t 2#32)
    (k1_off244_eq t 2) (k1_off246_eq t 2) (k1_off248_eq t 2) (k1_off250_eq t 2) (k1_off243_eq t 2) (k1_off245_eq t 2) (k1_off247_eq t 2) (k1_off249_eq t 2)
    (k1_off244_inb t 2) (k1_off246_inb t 2) (k1_off248_inb t 2) (k1_off250_inb t 2) (k1_off243_inb t 2) (k1_off245_inb t 2) (k1_off247_inb t 2) (k1_off249_inb t 2) h2
  have h4 := row_step_cons d L sR0 sC0 g f _ (8 * t.val + 3) (k1_off244 t 3#32) (k1_off246 t 3#32) (k1_off248 t 3#32) (k1_off250 t 3#32) (k1_off243 t 3#32) (k1_off245 t 3#32) (k1_off247 t 3#32) (k1_off249 t 3#32)
    (k1_off244_eq t 3) (k1_off246_eq t 3) (k1_off248_eq t 3) (k1_off250_eq t 3) (k1_off243_eq t 3) (k1_off245_eq t 3) (k1_off247_eq t 3) (k1_off249_eq t 3)
    (k1_off244_inb t 3) (k1_off246_inb t 3) (k1_off248_inb t 3) (k1_off250_inb t 3) (k1_off243_inb t 3) (k1_off245_inb t 3) (k1_off247_inb t 3) (k1_off249_inb t 3) h3
  have h5 := row_step_cons d L sR0 sC0 g f _ (8 * t.val + 4) (k1_off244 t 4#32) (k1_off246 t 4#32) (k1_off248 t 4#32) (k1_off250 t 4#32) (k1_off243 t 4#32) (k1_off245 t 4#32) (k1_off247 t 4#32) (k1_off249 t 4#32)
    (k1_off244_eq t 4) (k1_off246_eq t 4) (k1_off248_eq t 4) (k1_off250_eq t 4) (k1_off243_eq t 4) (k1_off245_eq t 4) (k1_off247_eq t 4) (k1_off249_eq t 4)
    (k1_off244_inb t 4) (k1_off246_inb t 4) (k1_off248_inb t 4) (k1_off250_inb t 4) (k1_off243_inb t 4) (k1_off245_inb t 4) (k1_off247_inb t 4) (k1_off249_inb t 4) h4
  have h6 := row_step_cons d L sR0 sC0 g f _ (8 * t.val + 5) (k1_off244 t 5#32) (k1_off246 t 5#32) (k1_off248 t 5#32) (k1_off250 t 5#32) (k1_off243 t 5#32) (k1_off245 t 5#32) (k1_off247 t 5#32) (k1_off249 t 5#32)
    (k1_off244_eq t 5) (k1_off246_eq t 5) (k1_off248_eq t 5) (k1_off250_eq t 5) (k1_off243_eq t 5) (k1_off245_eq t 5) (k1_off247_eq t 5) (k1_off249_eq t 5)
    (k1_off244_inb t 5) (k1_off246_inb t 5) (k1_off248_inb t 5) (k1_off250_inb t 5) (k1_off243_inb t 5) (k1_off245_inb t 5) (k1_off247_inb t 5) (k1_off249_inb t 5) h5
  have h7 := row_step_cons d L sR0 sC0 g f _ (8 * t.val + 6) (k1_off244 t 6#32) (k1_off246 t 6#32) (k1_off248 t 6#32) (k1_off250 t 6#32) (k1_off243 t 6#32) (k1_off245 t 6#32) (k1_off247 t 6#32) (k1_off249 t 6#32)
    (k1_off244_eq t 6) (k1_off246_eq t 6) (k1_off248_eq t 6) (k1_off250_eq t 6) (k1_off243_eq t 6) (k1_off245_eq t 6) (k1_off247_eq t 6) (k1_off249_eq t 6)
    (k1_off244_inb t 6) (k1_off246_inb t 6) (k1_off248_inb t 6) (k1_off250_inb t 6) (k1_off243_inb t 6) (k1_off245_inb t 6) (k1_off247_inb t 6) (k1_off249_inb t 6) h6
  have h8 := row_step_cons d L sR0 sC0 g f _ (8 * t.val + 7) (k1_off244 t 7#32) (k1_off246 t 7#32) (k1_off248 t 7#32) (k1_off250 t 7#32) (k1_off243 t 7#32) (k1_off245 t 7#32) (k1_off247 t 7#32) (k1_off249 t 7#32)
    (k1_off244_eq t 7) (k1_off246_eq t 7) (k1_off248_eq t 7) (k1_off250_eq t 7) (k1_off243_eq t 7) (k1_off245_eq t 7) (k1_off247_eq t 7) (k1_off249_eq t 7)
    (k1_off244_inb t 7) (k1_off246_inb t 7) (k1_off248_inb t 7) (k1_off250_inb t 7) (k1_off243_inb t 7) (k1_off245_inb t 7) (k1_off247_inb t 7) (k1_off249_inb t 7) h7
  intro r c hr
  exact h8 r c (by omega)

/-- The compaction step of loop 32 of 40: trip t copies rows [8 t, 8 t + 8) of the landing buffer's first 64 columns. -/
theorem compact_step_t33 (t : Fin k1_t33_loop.trips) (g : Buf (Elt F) (sR1.view.loc (thr d L))) (f : Buf (Elt F) (sC1.view.loc (thr d L)))
    (hC : Compacted (sR1.view.read (Elt F) g) (sC1.view.read (Elt F) f) t.val) :
    Compacted (sR1.view.read (Elt F) g) (sC1.view.read (Elt F) (sC1.view.writes (Elt F) f
      [cpiece d L sR1 g (k1_off258 t 7#32) (k1_off257 t 7#32) (k1_off258_inb t 7) (k1_off257_inb t 7),
       cpiece d L sR1 g (k1_off256 t 7#32) (k1_off255 t 7#32) (k1_off256_inb t 7) (k1_off255_inb t 7),
       cpiece d L sR1 g (k1_off254 t 7#32) (k1_off253 t 7#32) (k1_off254_inb t 7) (k1_off253_inb t 7),
       cpiece d L sR1 g (k1_off252 t 7#32) (k1_off251 t 7#32) (k1_off252_inb t 7) (k1_off251_inb t 7),
       cpiece d L sR1 g (k1_off258 t 6#32) (k1_off257 t 6#32) (k1_off258_inb t 6) (k1_off257_inb t 6),
       cpiece d L sR1 g (k1_off256 t 6#32) (k1_off255 t 6#32) (k1_off256_inb t 6) (k1_off255_inb t 6),
       cpiece d L sR1 g (k1_off254 t 6#32) (k1_off253 t 6#32) (k1_off254_inb t 6) (k1_off253_inb t 6),
       cpiece d L sR1 g (k1_off252 t 6#32) (k1_off251 t 6#32) (k1_off252_inb t 6) (k1_off251_inb t 6),
       cpiece d L sR1 g (k1_off258 t 5#32) (k1_off257 t 5#32) (k1_off258_inb t 5) (k1_off257_inb t 5),
       cpiece d L sR1 g (k1_off256 t 5#32) (k1_off255 t 5#32) (k1_off256_inb t 5) (k1_off255_inb t 5),
       cpiece d L sR1 g (k1_off254 t 5#32) (k1_off253 t 5#32) (k1_off254_inb t 5) (k1_off253_inb t 5),
       cpiece d L sR1 g (k1_off252 t 5#32) (k1_off251 t 5#32) (k1_off252_inb t 5) (k1_off251_inb t 5),
       cpiece d L sR1 g (k1_off258 t 4#32) (k1_off257 t 4#32) (k1_off258_inb t 4) (k1_off257_inb t 4),
       cpiece d L sR1 g (k1_off256 t 4#32) (k1_off255 t 4#32) (k1_off256_inb t 4) (k1_off255_inb t 4),
       cpiece d L sR1 g (k1_off254 t 4#32) (k1_off253 t 4#32) (k1_off254_inb t 4) (k1_off253_inb t 4),
       cpiece d L sR1 g (k1_off252 t 4#32) (k1_off251 t 4#32) (k1_off252_inb t 4) (k1_off251_inb t 4),
       cpiece d L sR1 g (k1_off258 t 3#32) (k1_off257 t 3#32) (k1_off258_inb t 3) (k1_off257_inb t 3),
       cpiece d L sR1 g (k1_off256 t 3#32) (k1_off255 t 3#32) (k1_off256_inb t 3) (k1_off255_inb t 3),
       cpiece d L sR1 g (k1_off254 t 3#32) (k1_off253 t 3#32) (k1_off254_inb t 3) (k1_off253_inb t 3),
       cpiece d L sR1 g (k1_off252 t 3#32) (k1_off251 t 3#32) (k1_off252_inb t 3) (k1_off251_inb t 3),
       cpiece d L sR1 g (k1_off258 t 2#32) (k1_off257 t 2#32) (k1_off258_inb t 2) (k1_off257_inb t 2),
       cpiece d L sR1 g (k1_off256 t 2#32) (k1_off255 t 2#32) (k1_off256_inb t 2) (k1_off255_inb t 2),
       cpiece d L sR1 g (k1_off254 t 2#32) (k1_off253 t 2#32) (k1_off254_inb t 2) (k1_off253_inb t 2),
       cpiece d L sR1 g (k1_off252 t 2#32) (k1_off251 t 2#32) (k1_off252_inb t 2) (k1_off251_inb t 2),
       cpiece d L sR1 g (k1_off258 t 1#32) (k1_off257 t 1#32) (k1_off258_inb t 1) (k1_off257_inb t 1),
       cpiece d L sR1 g (k1_off256 t 1#32) (k1_off255 t 1#32) (k1_off256_inb t 1) (k1_off255_inb t 1),
       cpiece d L sR1 g (k1_off254 t 1#32) (k1_off253 t 1#32) (k1_off254_inb t 1) (k1_off253_inb t 1),
       cpiece d L sR1 g (k1_off252 t 1#32) (k1_off251 t 1#32) (k1_off252_inb t 1) (k1_off251_inb t 1),
       cpiece d L sR1 g (k1_off258 t 0#32) (k1_off257 t 0#32) (k1_off258_inb t 0) (k1_off257_inb t 0),
       cpiece d L sR1 g (k1_off256 t 0#32) (k1_off255 t 0#32) (k1_off256_inb t 0) (k1_off255_inb t 0),
       cpiece d L sR1 g (k1_off254 t 0#32) (k1_off253 t 0#32) (k1_off254_inb t 0) (k1_off253_inb t 0),
       cpiece d L sR1 g (k1_off252 t 0#32) (k1_off251 t 0#32) (k1_off252_inb t 0) (k1_off251_inb t 0)])) (t.val + 1) := by
  have h1 := row_step_cons d L sR1 sC1 g f [] (8 * t.val + 0) (k1_off252 t 0#32) (k1_off254 t 0#32) (k1_off256 t 0#32) (k1_off258 t 0#32) (k1_off251 t 0#32) (k1_off253 t 0#32) (k1_off255 t 0#32) (k1_off257 t 0#32)
    (k1_off252_eq t 0) (k1_off254_eq t 0) (k1_off256_eq t 0) (k1_off258_eq t 0) (k1_off251_eq t 0) (k1_off253_eq t 0) (k1_off255_eq t 0) (k1_off257_eq t 0)
    (k1_off252_inb t 0) (k1_off254_inb t 0) (k1_off256_inb t 0) (k1_off258_inb t 0) (k1_off251_inb t 0) (k1_off253_inb t 0) (k1_off255_inb t 0) (k1_off257_inb t 0) ((compacted_iff_rows _ _ _).1 hC)
  have h2 := row_step_cons d L sR1 sC1 g f _ (8 * t.val + 1) (k1_off252 t 1#32) (k1_off254 t 1#32) (k1_off256 t 1#32) (k1_off258 t 1#32) (k1_off251 t 1#32) (k1_off253 t 1#32) (k1_off255 t 1#32) (k1_off257 t 1#32)
    (k1_off252_eq t 1) (k1_off254_eq t 1) (k1_off256_eq t 1) (k1_off258_eq t 1) (k1_off251_eq t 1) (k1_off253_eq t 1) (k1_off255_eq t 1) (k1_off257_eq t 1)
    (k1_off252_inb t 1) (k1_off254_inb t 1) (k1_off256_inb t 1) (k1_off258_inb t 1) (k1_off251_inb t 1) (k1_off253_inb t 1) (k1_off255_inb t 1) (k1_off257_inb t 1) h1
  have h3 := row_step_cons d L sR1 sC1 g f _ (8 * t.val + 2) (k1_off252 t 2#32) (k1_off254 t 2#32) (k1_off256 t 2#32) (k1_off258 t 2#32) (k1_off251 t 2#32) (k1_off253 t 2#32) (k1_off255 t 2#32) (k1_off257 t 2#32)
    (k1_off252_eq t 2) (k1_off254_eq t 2) (k1_off256_eq t 2) (k1_off258_eq t 2) (k1_off251_eq t 2) (k1_off253_eq t 2) (k1_off255_eq t 2) (k1_off257_eq t 2)
    (k1_off252_inb t 2) (k1_off254_inb t 2) (k1_off256_inb t 2) (k1_off258_inb t 2) (k1_off251_inb t 2) (k1_off253_inb t 2) (k1_off255_inb t 2) (k1_off257_inb t 2) h2
  have h4 := row_step_cons d L sR1 sC1 g f _ (8 * t.val + 3) (k1_off252 t 3#32) (k1_off254 t 3#32) (k1_off256 t 3#32) (k1_off258 t 3#32) (k1_off251 t 3#32) (k1_off253 t 3#32) (k1_off255 t 3#32) (k1_off257 t 3#32)
    (k1_off252_eq t 3) (k1_off254_eq t 3) (k1_off256_eq t 3) (k1_off258_eq t 3) (k1_off251_eq t 3) (k1_off253_eq t 3) (k1_off255_eq t 3) (k1_off257_eq t 3)
    (k1_off252_inb t 3) (k1_off254_inb t 3) (k1_off256_inb t 3) (k1_off258_inb t 3) (k1_off251_inb t 3) (k1_off253_inb t 3) (k1_off255_inb t 3) (k1_off257_inb t 3) h3
  have h5 := row_step_cons d L sR1 sC1 g f _ (8 * t.val + 4) (k1_off252 t 4#32) (k1_off254 t 4#32) (k1_off256 t 4#32) (k1_off258 t 4#32) (k1_off251 t 4#32) (k1_off253 t 4#32) (k1_off255 t 4#32) (k1_off257 t 4#32)
    (k1_off252_eq t 4) (k1_off254_eq t 4) (k1_off256_eq t 4) (k1_off258_eq t 4) (k1_off251_eq t 4) (k1_off253_eq t 4) (k1_off255_eq t 4) (k1_off257_eq t 4)
    (k1_off252_inb t 4) (k1_off254_inb t 4) (k1_off256_inb t 4) (k1_off258_inb t 4) (k1_off251_inb t 4) (k1_off253_inb t 4) (k1_off255_inb t 4) (k1_off257_inb t 4) h4
  have h6 := row_step_cons d L sR1 sC1 g f _ (8 * t.val + 5) (k1_off252 t 5#32) (k1_off254 t 5#32) (k1_off256 t 5#32) (k1_off258 t 5#32) (k1_off251 t 5#32) (k1_off253 t 5#32) (k1_off255 t 5#32) (k1_off257 t 5#32)
    (k1_off252_eq t 5) (k1_off254_eq t 5) (k1_off256_eq t 5) (k1_off258_eq t 5) (k1_off251_eq t 5) (k1_off253_eq t 5) (k1_off255_eq t 5) (k1_off257_eq t 5)
    (k1_off252_inb t 5) (k1_off254_inb t 5) (k1_off256_inb t 5) (k1_off258_inb t 5) (k1_off251_inb t 5) (k1_off253_inb t 5) (k1_off255_inb t 5) (k1_off257_inb t 5) h5
  have h7 := row_step_cons d L sR1 sC1 g f _ (8 * t.val + 6) (k1_off252 t 6#32) (k1_off254 t 6#32) (k1_off256 t 6#32) (k1_off258 t 6#32) (k1_off251 t 6#32) (k1_off253 t 6#32) (k1_off255 t 6#32) (k1_off257 t 6#32)
    (k1_off252_eq t 6) (k1_off254_eq t 6) (k1_off256_eq t 6) (k1_off258_eq t 6) (k1_off251_eq t 6) (k1_off253_eq t 6) (k1_off255_eq t 6) (k1_off257_eq t 6)
    (k1_off252_inb t 6) (k1_off254_inb t 6) (k1_off256_inb t 6) (k1_off258_inb t 6) (k1_off251_inb t 6) (k1_off253_inb t 6) (k1_off255_inb t 6) (k1_off257_inb t 6) h6
  have h8 := row_step_cons d L sR1 sC1 g f _ (8 * t.val + 7) (k1_off252 t 7#32) (k1_off254 t 7#32) (k1_off256 t 7#32) (k1_off258 t 7#32) (k1_off251 t 7#32) (k1_off253 t 7#32) (k1_off255 t 7#32) (k1_off257 t 7#32)
    (k1_off252_eq t 7) (k1_off254_eq t 7) (k1_off256_eq t 7) (k1_off258_eq t 7) (k1_off251_eq t 7) (k1_off253_eq t 7) (k1_off255_eq t 7) (k1_off257_eq t 7)
    (k1_off252_inb t 7) (k1_off254_inb t 7) (k1_off256_inb t 7) (k1_off258_inb t 7) (k1_off251_inb t 7) (k1_off253_inb t 7) (k1_off255_inb t 7) (k1_off257_inb t 7) h7
  intro r c hr
  exact h8 r c (by omega)

/-- The compaction step of loop 33 of 40: trip t copies rows [8 t, 8 t + 8) of the landing buffer's first 64 columns. -/
theorem compact_step_t34 (t : Fin k1_t34_loop.trips) (g : Buf (Elt F) (sR2.view.loc (thr d L))) (f : Buf (Elt F) (sC0.view.loc (thr d L)))
    (hC : Compacted (sR2.view.read (Elt F) g) (sC0.view.read (Elt F) f) t.val) :
    Compacted (sR2.view.read (Elt F) g) (sC0.view.read (Elt F) (sC0.view.writes (Elt F) f
      [cpiece d L sR2 g (k1_off266 t 7#32) (k1_off265 t 7#32) (k1_off266_inb t 7) (k1_off265_inb t 7),
       cpiece d L sR2 g (k1_off264 t 7#32) (k1_off263 t 7#32) (k1_off264_inb t 7) (k1_off263_inb t 7),
       cpiece d L sR2 g (k1_off262 t 7#32) (k1_off261 t 7#32) (k1_off262_inb t 7) (k1_off261_inb t 7),
       cpiece d L sR2 g (k1_off260 t 7#32) (k1_off259 t 7#32) (k1_off260_inb t 7) (k1_off259_inb t 7),
       cpiece d L sR2 g (k1_off266 t 6#32) (k1_off265 t 6#32) (k1_off266_inb t 6) (k1_off265_inb t 6),
       cpiece d L sR2 g (k1_off264 t 6#32) (k1_off263 t 6#32) (k1_off264_inb t 6) (k1_off263_inb t 6),
       cpiece d L sR2 g (k1_off262 t 6#32) (k1_off261 t 6#32) (k1_off262_inb t 6) (k1_off261_inb t 6),
       cpiece d L sR2 g (k1_off260 t 6#32) (k1_off259 t 6#32) (k1_off260_inb t 6) (k1_off259_inb t 6),
       cpiece d L sR2 g (k1_off266 t 5#32) (k1_off265 t 5#32) (k1_off266_inb t 5) (k1_off265_inb t 5),
       cpiece d L sR2 g (k1_off264 t 5#32) (k1_off263 t 5#32) (k1_off264_inb t 5) (k1_off263_inb t 5),
       cpiece d L sR2 g (k1_off262 t 5#32) (k1_off261 t 5#32) (k1_off262_inb t 5) (k1_off261_inb t 5),
       cpiece d L sR2 g (k1_off260 t 5#32) (k1_off259 t 5#32) (k1_off260_inb t 5) (k1_off259_inb t 5),
       cpiece d L sR2 g (k1_off266 t 4#32) (k1_off265 t 4#32) (k1_off266_inb t 4) (k1_off265_inb t 4),
       cpiece d L sR2 g (k1_off264 t 4#32) (k1_off263 t 4#32) (k1_off264_inb t 4) (k1_off263_inb t 4),
       cpiece d L sR2 g (k1_off262 t 4#32) (k1_off261 t 4#32) (k1_off262_inb t 4) (k1_off261_inb t 4),
       cpiece d L sR2 g (k1_off260 t 4#32) (k1_off259 t 4#32) (k1_off260_inb t 4) (k1_off259_inb t 4),
       cpiece d L sR2 g (k1_off266 t 3#32) (k1_off265 t 3#32) (k1_off266_inb t 3) (k1_off265_inb t 3),
       cpiece d L sR2 g (k1_off264 t 3#32) (k1_off263 t 3#32) (k1_off264_inb t 3) (k1_off263_inb t 3),
       cpiece d L sR2 g (k1_off262 t 3#32) (k1_off261 t 3#32) (k1_off262_inb t 3) (k1_off261_inb t 3),
       cpiece d L sR2 g (k1_off260 t 3#32) (k1_off259 t 3#32) (k1_off260_inb t 3) (k1_off259_inb t 3),
       cpiece d L sR2 g (k1_off266 t 2#32) (k1_off265 t 2#32) (k1_off266_inb t 2) (k1_off265_inb t 2),
       cpiece d L sR2 g (k1_off264 t 2#32) (k1_off263 t 2#32) (k1_off264_inb t 2) (k1_off263_inb t 2),
       cpiece d L sR2 g (k1_off262 t 2#32) (k1_off261 t 2#32) (k1_off262_inb t 2) (k1_off261_inb t 2),
       cpiece d L sR2 g (k1_off260 t 2#32) (k1_off259 t 2#32) (k1_off260_inb t 2) (k1_off259_inb t 2),
       cpiece d L sR2 g (k1_off266 t 1#32) (k1_off265 t 1#32) (k1_off266_inb t 1) (k1_off265_inb t 1),
       cpiece d L sR2 g (k1_off264 t 1#32) (k1_off263 t 1#32) (k1_off264_inb t 1) (k1_off263_inb t 1),
       cpiece d L sR2 g (k1_off262 t 1#32) (k1_off261 t 1#32) (k1_off262_inb t 1) (k1_off261_inb t 1),
       cpiece d L sR2 g (k1_off260 t 1#32) (k1_off259 t 1#32) (k1_off260_inb t 1) (k1_off259_inb t 1),
       cpiece d L sR2 g (k1_off266 t 0#32) (k1_off265 t 0#32) (k1_off266_inb t 0) (k1_off265_inb t 0),
       cpiece d L sR2 g (k1_off264 t 0#32) (k1_off263 t 0#32) (k1_off264_inb t 0) (k1_off263_inb t 0),
       cpiece d L sR2 g (k1_off262 t 0#32) (k1_off261 t 0#32) (k1_off262_inb t 0) (k1_off261_inb t 0),
       cpiece d L sR2 g (k1_off260 t 0#32) (k1_off259 t 0#32) (k1_off260_inb t 0) (k1_off259_inb t 0)])) (t.val + 1) := by
  have h1 := row_step_cons d L sR2 sC0 g f [] (8 * t.val + 0) (k1_off260 t 0#32) (k1_off262 t 0#32) (k1_off264 t 0#32) (k1_off266 t 0#32) (k1_off259 t 0#32) (k1_off261 t 0#32) (k1_off263 t 0#32) (k1_off265 t 0#32)
    (k1_off260_eq t 0) (k1_off262_eq t 0) (k1_off264_eq t 0) (k1_off266_eq t 0) (k1_off259_eq t 0) (k1_off261_eq t 0) (k1_off263_eq t 0) (k1_off265_eq t 0)
    (k1_off260_inb t 0) (k1_off262_inb t 0) (k1_off264_inb t 0) (k1_off266_inb t 0) (k1_off259_inb t 0) (k1_off261_inb t 0) (k1_off263_inb t 0) (k1_off265_inb t 0) ((compacted_iff_rows _ _ _).1 hC)
  have h2 := row_step_cons d L sR2 sC0 g f _ (8 * t.val + 1) (k1_off260 t 1#32) (k1_off262 t 1#32) (k1_off264 t 1#32) (k1_off266 t 1#32) (k1_off259 t 1#32) (k1_off261 t 1#32) (k1_off263 t 1#32) (k1_off265 t 1#32)
    (k1_off260_eq t 1) (k1_off262_eq t 1) (k1_off264_eq t 1) (k1_off266_eq t 1) (k1_off259_eq t 1) (k1_off261_eq t 1) (k1_off263_eq t 1) (k1_off265_eq t 1)
    (k1_off260_inb t 1) (k1_off262_inb t 1) (k1_off264_inb t 1) (k1_off266_inb t 1) (k1_off259_inb t 1) (k1_off261_inb t 1) (k1_off263_inb t 1) (k1_off265_inb t 1) h1
  have h3 := row_step_cons d L sR2 sC0 g f _ (8 * t.val + 2) (k1_off260 t 2#32) (k1_off262 t 2#32) (k1_off264 t 2#32) (k1_off266 t 2#32) (k1_off259 t 2#32) (k1_off261 t 2#32) (k1_off263 t 2#32) (k1_off265 t 2#32)
    (k1_off260_eq t 2) (k1_off262_eq t 2) (k1_off264_eq t 2) (k1_off266_eq t 2) (k1_off259_eq t 2) (k1_off261_eq t 2) (k1_off263_eq t 2) (k1_off265_eq t 2)
    (k1_off260_inb t 2) (k1_off262_inb t 2) (k1_off264_inb t 2) (k1_off266_inb t 2) (k1_off259_inb t 2) (k1_off261_inb t 2) (k1_off263_inb t 2) (k1_off265_inb t 2) h2
  have h4 := row_step_cons d L sR2 sC0 g f _ (8 * t.val + 3) (k1_off260 t 3#32) (k1_off262 t 3#32) (k1_off264 t 3#32) (k1_off266 t 3#32) (k1_off259 t 3#32) (k1_off261 t 3#32) (k1_off263 t 3#32) (k1_off265 t 3#32)
    (k1_off260_eq t 3) (k1_off262_eq t 3) (k1_off264_eq t 3) (k1_off266_eq t 3) (k1_off259_eq t 3) (k1_off261_eq t 3) (k1_off263_eq t 3) (k1_off265_eq t 3)
    (k1_off260_inb t 3) (k1_off262_inb t 3) (k1_off264_inb t 3) (k1_off266_inb t 3) (k1_off259_inb t 3) (k1_off261_inb t 3) (k1_off263_inb t 3) (k1_off265_inb t 3) h3
  have h5 := row_step_cons d L sR2 sC0 g f _ (8 * t.val + 4) (k1_off260 t 4#32) (k1_off262 t 4#32) (k1_off264 t 4#32) (k1_off266 t 4#32) (k1_off259 t 4#32) (k1_off261 t 4#32) (k1_off263 t 4#32) (k1_off265 t 4#32)
    (k1_off260_eq t 4) (k1_off262_eq t 4) (k1_off264_eq t 4) (k1_off266_eq t 4) (k1_off259_eq t 4) (k1_off261_eq t 4) (k1_off263_eq t 4) (k1_off265_eq t 4)
    (k1_off260_inb t 4) (k1_off262_inb t 4) (k1_off264_inb t 4) (k1_off266_inb t 4) (k1_off259_inb t 4) (k1_off261_inb t 4) (k1_off263_inb t 4) (k1_off265_inb t 4) h4
  have h6 := row_step_cons d L sR2 sC0 g f _ (8 * t.val + 5) (k1_off260 t 5#32) (k1_off262 t 5#32) (k1_off264 t 5#32) (k1_off266 t 5#32) (k1_off259 t 5#32) (k1_off261 t 5#32) (k1_off263 t 5#32) (k1_off265 t 5#32)
    (k1_off260_eq t 5) (k1_off262_eq t 5) (k1_off264_eq t 5) (k1_off266_eq t 5) (k1_off259_eq t 5) (k1_off261_eq t 5) (k1_off263_eq t 5) (k1_off265_eq t 5)
    (k1_off260_inb t 5) (k1_off262_inb t 5) (k1_off264_inb t 5) (k1_off266_inb t 5) (k1_off259_inb t 5) (k1_off261_inb t 5) (k1_off263_inb t 5) (k1_off265_inb t 5) h5
  have h7 := row_step_cons d L sR2 sC0 g f _ (8 * t.val + 6) (k1_off260 t 6#32) (k1_off262 t 6#32) (k1_off264 t 6#32) (k1_off266 t 6#32) (k1_off259 t 6#32) (k1_off261 t 6#32) (k1_off263 t 6#32) (k1_off265 t 6#32)
    (k1_off260_eq t 6) (k1_off262_eq t 6) (k1_off264_eq t 6) (k1_off266_eq t 6) (k1_off259_eq t 6) (k1_off261_eq t 6) (k1_off263_eq t 6) (k1_off265_eq t 6)
    (k1_off260_inb t 6) (k1_off262_inb t 6) (k1_off264_inb t 6) (k1_off266_inb t 6) (k1_off259_inb t 6) (k1_off261_inb t 6) (k1_off263_inb t 6) (k1_off265_inb t 6) h6
  have h8 := row_step_cons d L sR2 sC0 g f _ (8 * t.val + 7) (k1_off260 t 7#32) (k1_off262 t 7#32) (k1_off264 t 7#32) (k1_off266 t 7#32) (k1_off259 t 7#32) (k1_off261 t 7#32) (k1_off263 t 7#32) (k1_off265 t 7#32)
    (k1_off260_eq t 7) (k1_off262_eq t 7) (k1_off264_eq t 7) (k1_off266_eq t 7) (k1_off259_eq t 7) (k1_off261_eq t 7) (k1_off263_eq t 7) (k1_off265_eq t 7)
    (k1_off260_inb t 7) (k1_off262_inb t 7) (k1_off264_inb t 7) (k1_off266_inb t 7) (k1_off259_inb t 7) (k1_off261_inb t 7) (k1_off263_inb t 7) (k1_off265_inb t 7) h7
  intro r c hr
  exact h8 r c (by omega)

/-- The compaction step of loop 34 of 40: trip t copies rows [8 t, 8 t + 8) of the landing buffer's first 64 columns. -/
theorem compact_step_t35 (t : Fin k1_t35_loop.trips) (g : Buf (Elt F) (sR0.view.loc (thr d L))) (f : Buf (Elt F) (sC1.view.loc (thr d L)))
    (hC : Compacted (sR0.view.read (Elt F) g) (sC1.view.read (Elt F) f) t.val) :
    Compacted (sR0.view.read (Elt F) g) (sC1.view.read (Elt F) (sC1.view.writes (Elt F) f
      [cpiece d L sR0 g (k1_off274 t 7#32) (k1_off273 t 7#32) (k1_off274_inb t 7) (k1_off273_inb t 7),
       cpiece d L sR0 g (k1_off272 t 7#32) (k1_off271 t 7#32) (k1_off272_inb t 7) (k1_off271_inb t 7),
       cpiece d L sR0 g (k1_off270 t 7#32) (k1_off269 t 7#32) (k1_off270_inb t 7) (k1_off269_inb t 7),
       cpiece d L sR0 g (k1_off268 t 7#32) (k1_off267 t 7#32) (k1_off268_inb t 7) (k1_off267_inb t 7),
       cpiece d L sR0 g (k1_off274 t 6#32) (k1_off273 t 6#32) (k1_off274_inb t 6) (k1_off273_inb t 6),
       cpiece d L sR0 g (k1_off272 t 6#32) (k1_off271 t 6#32) (k1_off272_inb t 6) (k1_off271_inb t 6),
       cpiece d L sR0 g (k1_off270 t 6#32) (k1_off269 t 6#32) (k1_off270_inb t 6) (k1_off269_inb t 6),
       cpiece d L sR0 g (k1_off268 t 6#32) (k1_off267 t 6#32) (k1_off268_inb t 6) (k1_off267_inb t 6),
       cpiece d L sR0 g (k1_off274 t 5#32) (k1_off273 t 5#32) (k1_off274_inb t 5) (k1_off273_inb t 5),
       cpiece d L sR0 g (k1_off272 t 5#32) (k1_off271 t 5#32) (k1_off272_inb t 5) (k1_off271_inb t 5),
       cpiece d L sR0 g (k1_off270 t 5#32) (k1_off269 t 5#32) (k1_off270_inb t 5) (k1_off269_inb t 5),
       cpiece d L sR0 g (k1_off268 t 5#32) (k1_off267 t 5#32) (k1_off268_inb t 5) (k1_off267_inb t 5),
       cpiece d L sR0 g (k1_off274 t 4#32) (k1_off273 t 4#32) (k1_off274_inb t 4) (k1_off273_inb t 4),
       cpiece d L sR0 g (k1_off272 t 4#32) (k1_off271 t 4#32) (k1_off272_inb t 4) (k1_off271_inb t 4),
       cpiece d L sR0 g (k1_off270 t 4#32) (k1_off269 t 4#32) (k1_off270_inb t 4) (k1_off269_inb t 4),
       cpiece d L sR0 g (k1_off268 t 4#32) (k1_off267 t 4#32) (k1_off268_inb t 4) (k1_off267_inb t 4),
       cpiece d L sR0 g (k1_off274 t 3#32) (k1_off273 t 3#32) (k1_off274_inb t 3) (k1_off273_inb t 3),
       cpiece d L sR0 g (k1_off272 t 3#32) (k1_off271 t 3#32) (k1_off272_inb t 3) (k1_off271_inb t 3),
       cpiece d L sR0 g (k1_off270 t 3#32) (k1_off269 t 3#32) (k1_off270_inb t 3) (k1_off269_inb t 3),
       cpiece d L sR0 g (k1_off268 t 3#32) (k1_off267 t 3#32) (k1_off268_inb t 3) (k1_off267_inb t 3),
       cpiece d L sR0 g (k1_off274 t 2#32) (k1_off273 t 2#32) (k1_off274_inb t 2) (k1_off273_inb t 2),
       cpiece d L sR0 g (k1_off272 t 2#32) (k1_off271 t 2#32) (k1_off272_inb t 2) (k1_off271_inb t 2),
       cpiece d L sR0 g (k1_off270 t 2#32) (k1_off269 t 2#32) (k1_off270_inb t 2) (k1_off269_inb t 2),
       cpiece d L sR0 g (k1_off268 t 2#32) (k1_off267 t 2#32) (k1_off268_inb t 2) (k1_off267_inb t 2),
       cpiece d L sR0 g (k1_off274 t 1#32) (k1_off273 t 1#32) (k1_off274_inb t 1) (k1_off273_inb t 1),
       cpiece d L sR0 g (k1_off272 t 1#32) (k1_off271 t 1#32) (k1_off272_inb t 1) (k1_off271_inb t 1),
       cpiece d L sR0 g (k1_off270 t 1#32) (k1_off269 t 1#32) (k1_off270_inb t 1) (k1_off269_inb t 1),
       cpiece d L sR0 g (k1_off268 t 1#32) (k1_off267 t 1#32) (k1_off268_inb t 1) (k1_off267_inb t 1),
       cpiece d L sR0 g (k1_off274 t 0#32) (k1_off273 t 0#32) (k1_off274_inb t 0) (k1_off273_inb t 0),
       cpiece d L sR0 g (k1_off272 t 0#32) (k1_off271 t 0#32) (k1_off272_inb t 0) (k1_off271_inb t 0),
       cpiece d L sR0 g (k1_off270 t 0#32) (k1_off269 t 0#32) (k1_off270_inb t 0) (k1_off269_inb t 0),
       cpiece d L sR0 g (k1_off268 t 0#32) (k1_off267 t 0#32) (k1_off268_inb t 0) (k1_off267_inb t 0)])) (t.val + 1) := by
  have h1 := row_step_cons d L sR0 sC1 g f [] (8 * t.val + 0) (k1_off268 t 0#32) (k1_off270 t 0#32) (k1_off272 t 0#32) (k1_off274 t 0#32) (k1_off267 t 0#32) (k1_off269 t 0#32) (k1_off271 t 0#32) (k1_off273 t 0#32)
    (k1_off268_eq t 0) (k1_off270_eq t 0) (k1_off272_eq t 0) (k1_off274_eq t 0) (k1_off267_eq t 0) (k1_off269_eq t 0) (k1_off271_eq t 0) (k1_off273_eq t 0)
    (k1_off268_inb t 0) (k1_off270_inb t 0) (k1_off272_inb t 0) (k1_off274_inb t 0) (k1_off267_inb t 0) (k1_off269_inb t 0) (k1_off271_inb t 0) (k1_off273_inb t 0) ((compacted_iff_rows _ _ _).1 hC)
  have h2 := row_step_cons d L sR0 sC1 g f _ (8 * t.val + 1) (k1_off268 t 1#32) (k1_off270 t 1#32) (k1_off272 t 1#32) (k1_off274 t 1#32) (k1_off267 t 1#32) (k1_off269 t 1#32) (k1_off271 t 1#32) (k1_off273 t 1#32)
    (k1_off268_eq t 1) (k1_off270_eq t 1) (k1_off272_eq t 1) (k1_off274_eq t 1) (k1_off267_eq t 1) (k1_off269_eq t 1) (k1_off271_eq t 1) (k1_off273_eq t 1)
    (k1_off268_inb t 1) (k1_off270_inb t 1) (k1_off272_inb t 1) (k1_off274_inb t 1) (k1_off267_inb t 1) (k1_off269_inb t 1) (k1_off271_inb t 1) (k1_off273_inb t 1) h1
  have h3 := row_step_cons d L sR0 sC1 g f _ (8 * t.val + 2) (k1_off268 t 2#32) (k1_off270 t 2#32) (k1_off272 t 2#32) (k1_off274 t 2#32) (k1_off267 t 2#32) (k1_off269 t 2#32) (k1_off271 t 2#32) (k1_off273 t 2#32)
    (k1_off268_eq t 2) (k1_off270_eq t 2) (k1_off272_eq t 2) (k1_off274_eq t 2) (k1_off267_eq t 2) (k1_off269_eq t 2) (k1_off271_eq t 2) (k1_off273_eq t 2)
    (k1_off268_inb t 2) (k1_off270_inb t 2) (k1_off272_inb t 2) (k1_off274_inb t 2) (k1_off267_inb t 2) (k1_off269_inb t 2) (k1_off271_inb t 2) (k1_off273_inb t 2) h2
  have h4 := row_step_cons d L sR0 sC1 g f _ (8 * t.val + 3) (k1_off268 t 3#32) (k1_off270 t 3#32) (k1_off272 t 3#32) (k1_off274 t 3#32) (k1_off267 t 3#32) (k1_off269 t 3#32) (k1_off271 t 3#32) (k1_off273 t 3#32)
    (k1_off268_eq t 3) (k1_off270_eq t 3) (k1_off272_eq t 3) (k1_off274_eq t 3) (k1_off267_eq t 3) (k1_off269_eq t 3) (k1_off271_eq t 3) (k1_off273_eq t 3)
    (k1_off268_inb t 3) (k1_off270_inb t 3) (k1_off272_inb t 3) (k1_off274_inb t 3) (k1_off267_inb t 3) (k1_off269_inb t 3) (k1_off271_inb t 3) (k1_off273_inb t 3) h3
  have h5 := row_step_cons d L sR0 sC1 g f _ (8 * t.val + 4) (k1_off268 t 4#32) (k1_off270 t 4#32) (k1_off272 t 4#32) (k1_off274 t 4#32) (k1_off267 t 4#32) (k1_off269 t 4#32) (k1_off271 t 4#32) (k1_off273 t 4#32)
    (k1_off268_eq t 4) (k1_off270_eq t 4) (k1_off272_eq t 4) (k1_off274_eq t 4) (k1_off267_eq t 4) (k1_off269_eq t 4) (k1_off271_eq t 4) (k1_off273_eq t 4)
    (k1_off268_inb t 4) (k1_off270_inb t 4) (k1_off272_inb t 4) (k1_off274_inb t 4) (k1_off267_inb t 4) (k1_off269_inb t 4) (k1_off271_inb t 4) (k1_off273_inb t 4) h4
  have h6 := row_step_cons d L sR0 sC1 g f _ (8 * t.val + 5) (k1_off268 t 5#32) (k1_off270 t 5#32) (k1_off272 t 5#32) (k1_off274 t 5#32) (k1_off267 t 5#32) (k1_off269 t 5#32) (k1_off271 t 5#32) (k1_off273 t 5#32)
    (k1_off268_eq t 5) (k1_off270_eq t 5) (k1_off272_eq t 5) (k1_off274_eq t 5) (k1_off267_eq t 5) (k1_off269_eq t 5) (k1_off271_eq t 5) (k1_off273_eq t 5)
    (k1_off268_inb t 5) (k1_off270_inb t 5) (k1_off272_inb t 5) (k1_off274_inb t 5) (k1_off267_inb t 5) (k1_off269_inb t 5) (k1_off271_inb t 5) (k1_off273_inb t 5) h5
  have h7 := row_step_cons d L sR0 sC1 g f _ (8 * t.val + 6) (k1_off268 t 6#32) (k1_off270 t 6#32) (k1_off272 t 6#32) (k1_off274 t 6#32) (k1_off267 t 6#32) (k1_off269 t 6#32) (k1_off271 t 6#32) (k1_off273 t 6#32)
    (k1_off268_eq t 6) (k1_off270_eq t 6) (k1_off272_eq t 6) (k1_off274_eq t 6) (k1_off267_eq t 6) (k1_off269_eq t 6) (k1_off271_eq t 6) (k1_off273_eq t 6)
    (k1_off268_inb t 6) (k1_off270_inb t 6) (k1_off272_inb t 6) (k1_off274_inb t 6) (k1_off267_inb t 6) (k1_off269_inb t 6) (k1_off271_inb t 6) (k1_off273_inb t 6) h6
  have h8 := row_step_cons d L sR0 sC1 g f _ (8 * t.val + 7) (k1_off268 t 7#32) (k1_off270 t 7#32) (k1_off272 t 7#32) (k1_off274 t 7#32) (k1_off267 t 7#32) (k1_off269 t 7#32) (k1_off271 t 7#32) (k1_off273 t 7#32)
    (k1_off268_eq t 7) (k1_off270_eq t 7) (k1_off272_eq t 7) (k1_off274_eq t 7) (k1_off267_eq t 7) (k1_off269_eq t 7) (k1_off271_eq t 7) (k1_off273_eq t 7)
    (k1_off268_inb t 7) (k1_off270_inb t 7) (k1_off272_inb t 7) (k1_off274_inb t 7) (k1_off267_inb t 7) (k1_off269_inb t 7) (k1_off271_inb t 7) (k1_off273_inb t 7) h7
  intro r c hr
  exact h8 r c (by omega)

/-- The compaction step of loop 35 of 40: trip t copies rows [8 t, 8 t + 8) of the landing buffer's first 64 columns. -/
theorem compact_step_t36 (t : Fin k1_t36_loop.trips) (g : Buf (Elt F) (sR1.view.loc (thr d L))) (f : Buf (Elt F) (sC0.view.loc (thr d L)))
    (hC : Compacted (sR1.view.read (Elt F) g) (sC0.view.read (Elt F) f) t.val) :
    Compacted (sR1.view.read (Elt F) g) (sC0.view.read (Elt F) (sC0.view.writes (Elt F) f
      [cpiece d L sR1 g (k1_off282 t 7#32) (k1_off281 t 7#32) (k1_off282_inb t 7) (k1_off281_inb t 7),
       cpiece d L sR1 g (k1_off280 t 7#32) (k1_off279 t 7#32) (k1_off280_inb t 7) (k1_off279_inb t 7),
       cpiece d L sR1 g (k1_off278 t 7#32) (k1_off277 t 7#32) (k1_off278_inb t 7) (k1_off277_inb t 7),
       cpiece d L sR1 g (k1_off276 t 7#32) (k1_off275 t 7#32) (k1_off276_inb t 7) (k1_off275_inb t 7),
       cpiece d L sR1 g (k1_off282 t 6#32) (k1_off281 t 6#32) (k1_off282_inb t 6) (k1_off281_inb t 6),
       cpiece d L sR1 g (k1_off280 t 6#32) (k1_off279 t 6#32) (k1_off280_inb t 6) (k1_off279_inb t 6),
       cpiece d L sR1 g (k1_off278 t 6#32) (k1_off277 t 6#32) (k1_off278_inb t 6) (k1_off277_inb t 6),
       cpiece d L sR1 g (k1_off276 t 6#32) (k1_off275 t 6#32) (k1_off276_inb t 6) (k1_off275_inb t 6),
       cpiece d L sR1 g (k1_off282 t 5#32) (k1_off281 t 5#32) (k1_off282_inb t 5) (k1_off281_inb t 5),
       cpiece d L sR1 g (k1_off280 t 5#32) (k1_off279 t 5#32) (k1_off280_inb t 5) (k1_off279_inb t 5),
       cpiece d L sR1 g (k1_off278 t 5#32) (k1_off277 t 5#32) (k1_off278_inb t 5) (k1_off277_inb t 5),
       cpiece d L sR1 g (k1_off276 t 5#32) (k1_off275 t 5#32) (k1_off276_inb t 5) (k1_off275_inb t 5),
       cpiece d L sR1 g (k1_off282 t 4#32) (k1_off281 t 4#32) (k1_off282_inb t 4) (k1_off281_inb t 4),
       cpiece d L sR1 g (k1_off280 t 4#32) (k1_off279 t 4#32) (k1_off280_inb t 4) (k1_off279_inb t 4),
       cpiece d L sR1 g (k1_off278 t 4#32) (k1_off277 t 4#32) (k1_off278_inb t 4) (k1_off277_inb t 4),
       cpiece d L sR1 g (k1_off276 t 4#32) (k1_off275 t 4#32) (k1_off276_inb t 4) (k1_off275_inb t 4),
       cpiece d L sR1 g (k1_off282 t 3#32) (k1_off281 t 3#32) (k1_off282_inb t 3) (k1_off281_inb t 3),
       cpiece d L sR1 g (k1_off280 t 3#32) (k1_off279 t 3#32) (k1_off280_inb t 3) (k1_off279_inb t 3),
       cpiece d L sR1 g (k1_off278 t 3#32) (k1_off277 t 3#32) (k1_off278_inb t 3) (k1_off277_inb t 3),
       cpiece d L sR1 g (k1_off276 t 3#32) (k1_off275 t 3#32) (k1_off276_inb t 3) (k1_off275_inb t 3),
       cpiece d L sR1 g (k1_off282 t 2#32) (k1_off281 t 2#32) (k1_off282_inb t 2) (k1_off281_inb t 2),
       cpiece d L sR1 g (k1_off280 t 2#32) (k1_off279 t 2#32) (k1_off280_inb t 2) (k1_off279_inb t 2),
       cpiece d L sR1 g (k1_off278 t 2#32) (k1_off277 t 2#32) (k1_off278_inb t 2) (k1_off277_inb t 2),
       cpiece d L sR1 g (k1_off276 t 2#32) (k1_off275 t 2#32) (k1_off276_inb t 2) (k1_off275_inb t 2),
       cpiece d L sR1 g (k1_off282 t 1#32) (k1_off281 t 1#32) (k1_off282_inb t 1) (k1_off281_inb t 1),
       cpiece d L sR1 g (k1_off280 t 1#32) (k1_off279 t 1#32) (k1_off280_inb t 1) (k1_off279_inb t 1),
       cpiece d L sR1 g (k1_off278 t 1#32) (k1_off277 t 1#32) (k1_off278_inb t 1) (k1_off277_inb t 1),
       cpiece d L sR1 g (k1_off276 t 1#32) (k1_off275 t 1#32) (k1_off276_inb t 1) (k1_off275_inb t 1),
       cpiece d L sR1 g (k1_off282 t 0#32) (k1_off281 t 0#32) (k1_off282_inb t 0) (k1_off281_inb t 0),
       cpiece d L sR1 g (k1_off280 t 0#32) (k1_off279 t 0#32) (k1_off280_inb t 0) (k1_off279_inb t 0),
       cpiece d L sR1 g (k1_off278 t 0#32) (k1_off277 t 0#32) (k1_off278_inb t 0) (k1_off277_inb t 0),
       cpiece d L sR1 g (k1_off276 t 0#32) (k1_off275 t 0#32) (k1_off276_inb t 0) (k1_off275_inb t 0)])) (t.val + 1) := by
  have h1 := row_step_cons d L sR1 sC0 g f [] (8 * t.val + 0) (k1_off276 t 0#32) (k1_off278 t 0#32) (k1_off280 t 0#32) (k1_off282 t 0#32) (k1_off275 t 0#32) (k1_off277 t 0#32) (k1_off279 t 0#32) (k1_off281 t 0#32)
    (k1_off276_eq t 0) (k1_off278_eq t 0) (k1_off280_eq t 0) (k1_off282_eq t 0) (k1_off275_eq t 0) (k1_off277_eq t 0) (k1_off279_eq t 0) (k1_off281_eq t 0)
    (k1_off276_inb t 0) (k1_off278_inb t 0) (k1_off280_inb t 0) (k1_off282_inb t 0) (k1_off275_inb t 0) (k1_off277_inb t 0) (k1_off279_inb t 0) (k1_off281_inb t 0) ((compacted_iff_rows _ _ _).1 hC)
  have h2 := row_step_cons d L sR1 sC0 g f _ (8 * t.val + 1) (k1_off276 t 1#32) (k1_off278 t 1#32) (k1_off280 t 1#32) (k1_off282 t 1#32) (k1_off275 t 1#32) (k1_off277 t 1#32) (k1_off279 t 1#32) (k1_off281 t 1#32)
    (k1_off276_eq t 1) (k1_off278_eq t 1) (k1_off280_eq t 1) (k1_off282_eq t 1) (k1_off275_eq t 1) (k1_off277_eq t 1) (k1_off279_eq t 1) (k1_off281_eq t 1)
    (k1_off276_inb t 1) (k1_off278_inb t 1) (k1_off280_inb t 1) (k1_off282_inb t 1) (k1_off275_inb t 1) (k1_off277_inb t 1) (k1_off279_inb t 1) (k1_off281_inb t 1) h1
  have h3 := row_step_cons d L sR1 sC0 g f _ (8 * t.val + 2) (k1_off276 t 2#32) (k1_off278 t 2#32) (k1_off280 t 2#32) (k1_off282 t 2#32) (k1_off275 t 2#32) (k1_off277 t 2#32) (k1_off279 t 2#32) (k1_off281 t 2#32)
    (k1_off276_eq t 2) (k1_off278_eq t 2) (k1_off280_eq t 2) (k1_off282_eq t 2) (k1_off275_eq t 2) (k1_off277_eq t 2) (k1_off279_eq t 2) (k1_off281_eq t 2)
    (k1_off276_inb t 2) (k1_off278_inb t 2) (k1_off280_inb t 2) (k1_off282_inb t 2) (k1_off275_inb t 2) (k1_off277_inb t 2) (k1_off279_inb t 2) (k1_off281_inb t 2) h2
  have h4 := row_step_cons d L sR1 sC0 g f _ (8 * t.val + 3) (k1_off276 t 3#32) (k1_off278 t 3#32) (k1_off280 t 3#32) (k1_off282 t 3#32) (k1_off275 t 3#32) (k1_off277 t 3#32) (k1_off279 t 3#32) (k1_off281 t 3#32)
    (k1_off276_eq t 3) (k1_off278_eq t 3) (k1_off280_eq t 3) (k1_off282_eq t 3) (k1_off275_eq t 3) (k1_off277_eq t 3) (k1_off279_eq t 3) (k1_off281_eq t 3)
    (k1_off276_inb t 3) (k1_off278_inb t 3) (k1_off280_inb t 3) (k1_off282_inb t 3) (k1_off275_inb t 3) (k1_off277_inb t 3) (k1_off279_inb t 3) (k1_off281_inb t 3) h3
  have h5 := row_step_cons d L sR1 sC0 g f _ (8 * t.val + 4) (k1_off276 t 4#32) (k1_off278 t 4#32) (k1_off280 t 4#32) (k1_off282 t 4#32) (k1_off275 t 4#32) (k1_off277 t 4#32) (k1_off279 t 4#32) (k1_off281 t 4#32)
    (k1_off276_eq t 4) (k1_off278_eq t 4) (k1_off280_eq t 4) (k1_off282_eq t 4) (k1_off275_eq t 4) (k1_off277_eq t 4) (k1_off279_eq t 4) (k1_off281_eq t 4)
    (k1_off276_inb t 4) (k1_off278_inb t 4) (k1_off280_inb t 4) (k1_off282_inb t 4) (k1_off275_inb t 4) (k1_off277_inb t 4) (k1_off279_inb t 4) (k1_off281_inb t 4) h4
  have h6 := row_step_cons d L sR1 sC0 g f _ (8 * t.val + 5) (k1_off276 t 5#32) (k1_off278 t 5#32) (k1_off280 t 5#32) (k1_off282 t 5#32) (k1_off275 t 5#32) (k1_off277 t 5#32) (k1_off279 t 5#32) (k1_off281 t 5#32)
    (k1_off276_eq t 5) (k1_off278_eq t 5) (k1_off280_eq t 5) (k1_off282_eq t 5) (k1_off275_eq t 5) (k1_off277_eq t 5) (k1_off279_eq t 5) (k1_off281_eq t 5)
    (k1_off276_inb t 5) (k1_off278_inb t 5) (k1_off280_inb t 5) (k1_off282_inb t 5) (k1_off275_inb t 5) (k1_off277_inb t 5) (k1_off279_inb t 5) (k1_off281_inb t 5) h5
  have h7 := row_step_cons d L sR1 sC0 g f _ (8 * t.val + 6) (k1_off276 t 6#32) (k1_off278 t 6#32) (k1_off280 t 6#32) (k1_off282 t 6#32) (k1_off275 t 6#32) (k1_off277 t 6#32) (k1_off279 t 6#32) (k1_off281 t 6#32)
    (k1_off276_eq t 6) (k1_off278_eq t 6) (k1_off280_eq t 6) (k1_off282_eq t 6) (k1_off275_eq t 6) (k1_off277_eq t 6) (k1_off279_eq t 6) (k1_off281_eq t 6)
    (k1_off276_inb t 6) (k1_off278_inb t 6) (k1_off280_inb t 6) (k1_off282_inb t 6) (k1_off275_inb t 6) (k1_off277_inb t 6) (k1_off279_inb t 6) (k1_off281_inb t 6) h6
  have h8 := row_step_cons d L sR1 sC0 g f _ (8 * t.val + 7) (k1_off276 t 7#32) (k1_off278 t 7#32) (k1_off280 t 7#32) (k1_off282 t 7#32) (k1_off275 t 7#32) (k1_off277 t 7#32) (k1_off279 t 7#32) (k1_off281 t 7#32)
    (k1_off276_eq t 7) (k1_off278_eq t 7) (k1_off280_eq t 7) (k1_off282_eq t 7) (k1_off275_eq t 7) (k1_off277_eq t 7) (k1_off279_eq t 7) (k1_off281_eq t 7)
    (k1_off276_inb t 7) (k1_off278_inb t 7) (k1_off280_inb t 7) (k1_off282_inb t 7) (k1_off275_inb t 7) (k1_off277_inb t 7) (k1_off279_inb t 7) (k1_off281_inb t 7) h7
  intro r c hr
  exact h8 r c (by omega)

/-- The compaction step of loop 36 of 40: trip t copies rows [8 t, 8 t + 8) of the landing buffer's first 64 columns. -/
theorem compact_step_t37 (t : Fin k1_t37_loop.trips) (g : Buf (Elt F) (sR2.view.loc (thr d L))) (f : Buf (Elt F) (sC1.view.loc (thr d L)))
    (hC : Compacted (sR2.view.read (Elt F) g) (sC1.view.read (Elt F) f) t.val) :
    Compacted (sR2.view.read (Elt F) g) (sC1.view.read (Elt F) (sC1.view.writes (Elt F) f
      [cpiece d L sR2 g (k1_off290 t 7#32) (k1_off289 t 7#32) (k1_off290_inb t 7) (k1_off289_inb t 7),
       cpiece d L sR2 g (k1_off288 t 7#32) (k1_off287 t 7#32) (k1_off288_inb t 7) (k1_off287_inb t 7),
       cpiece d L sR2 g (k1_off286 t 7#32) (k1_off285 t 7#32) (k1_off286_inb t 7) (k1_off285_inb t 7),
       cpiece d L sR2 g (k1_off284 t 7#32) (k1_off283 t 7#32) (k1_off284_inb t 7) (k1_off283_inb t 7),
       cpiece d L sR2 g (k1_off290 t 6#32) (k1_off289 t 6#32) (k1_off290_inb t 6) (k1_off289_inb t 6),
       cpiece d L sR2 g (k1_off288 t 6#32) (k1_off287 t 6#32) (k1_off288_inb t 6) (k1_off287_inb t 6),
       cpiece d L sR2 g (k1_off286 t 6#32) (k1_off285 t 6#32) (k1_off286_inb t 6) (k1_off285_inb t 6),
       cpiece d L sR2 g (k1_off284 t 6#32) (k1_off283 t 6#32) (k1_off284_inb t 6) (k1_off283_inb t 6),
       cpiece d L sR2 g (k1_off290 t 5#32) (k1_off289 t 5#32) (k1_off290_inb t 5) (k1_off289_inb t 5),
       cpiece d L sR2 g (k1_off288 t 5#32) (k1_off287 t 5#32) (k1_off288_inb t 5) (k1_off287_inb t 5),
       cpiece d L sR2 g (k1_off286 t 5#32) (k1_off285 t 5#32) (k1_off286_inb t 5) (k1_off285_inb t 5),
       cpiece d L sR2 g (k1_off284 t 5#32) (k1_off283 t 5#32) (k1_off284_inb t 5) (k1_off283_inb t 5),
       cpiece d L sR2 g (k1_off290 t 4#32) (k1_off289 t 4#32) (k1_off290_inb t 4) (k1_off289_inb t 4),
       cpiece d L sR2 g (k1_off288 t 4#32) (k1_off287 t 4#32) (k1_off288_inb t 4) (k1_off287_inb t 4),
       cpiece d L sR2 g (k1_off286 t 4#32) (k1_off285 t 4#32) (k1_off286_inb t 4) (k1_off285_inb t 4),
       cpiece d L sR2 g (k1_off284 t 4#32) (k1_off283 t 4#32) (k1_off284_inb t 4) (k1_off283_inb t 4),
       cpiece d L sR2 g (k1_off290 t 3#32) (k1_off289 t 3#32) (k1_off290_inb t 3) (k1_off289_inb t 3),
       cpiece d L sR2 g (k1_off288 t 3#32) (k1_off287 t 3#32) (k1_off288_inb t 3) (k1_off287_inb t 3),
       cpiece d L sR2 g (k1_off286 t 3#32) (k1_off285 t 3#32) (k1_off286_inb t 3) (k1_off285_inb t 3),
       cpiece d L sR2 g (k1_off284 t 3#32) (k1_off283 t 3#32) (k1_off284_inb t 3) (k1_off283_inb t 3),
       cpiece d L sR2 g (k1_off290 t 2#32) (k1_off289 t 2#32) (k1_off290_inb t 2) (k1_off289_inb t 2),
       cpiece d L sR2 g (k1_off288 t 2#32) (k1_off287 t 2#32) (k1_off288_inb t 2) (k1_off287_inb t 2),
       cpiece d L sR2 g (k1_off286 t 2#32) (k1_off285 t 2#32) (k1_off286_inb t 2) (k1_off285_inb t 2),
       cpiece d L sR2 g (k1_off284 t 2#32) (k1_off283 t 2#32) (k1_off284_inb t 2) (k1_off283_inb t 2),
       cpiece d L sR2 g (k1_off290 t 1#32) (k1_off289 t 1#32) (k1_off290_inb t 1) (k1_off289_inb t 1),
       cpiece d L sR2 g (k1_off288 t 1#32) (k1_off287 t 1#32) (k1_off288_inb t 1) (k1_off287_inb t 1),
       cpiece d L sR2 g (k1_off286 t 1#32) (k1_off285 t 1#32) (k1_off286_inb t 1) (k1_off285_inb t 1),
       cpiece d L sR2 g (k1_off284 t 1#32) (k1_off283 t 1#32) (k1_off284_inb t 1) (k1_off283_inb t 1),
       cpiece d L sR2 g (k1_off290 t 0#32) (k1_off289 t 0#32) (k1_off290_inb t 0) (k1_off289_inb t 0),
       cpiece d L sR2 g (k1_off288 t 0#32) (k1_off287 t 0#32) (k1_off288_inb t 0) (k1_off287_inb t 0),
       cpiece d L sR2 g (k1_off286 t 0#32) (k1_off285 t 0#32) (k1_off286_inb t 0) (k1_off285_inb t 0),
       cpiece d L sR2 g (k1_off284 t 0#32) (k1_off283 t 0#32) (k1_off284_inb t 0) (k1_off283_inb t 0)])) (t.val + 1) := by
  have h1 := row_step_cons d L sR2 sC1 g f [] (8 * t.val + 0) (k1_off284 t 0#32) (k1_off286 t 0#32) (k1_off288 t 0#32) (k1_off290 t 0#32) (k1_off283 t 0#32) (k1_off285 t 0#32) (k1_off287 t 0#32) (k1_off289 t 0#32)
    (k1_off284_eq t 0) (k1_off286_eq t 0) (k1_off288_eq t 0) (k1_off290_eq t 0) (k1_off283_eq t 0) (k1_off285_eq t 0) (k1_off287_eq t 0) (k1_off289_eq t 0)
    (k1_off284_inb t 0) (k1_off286_inb t 0) (k1_off288_inb t 0) (k1_off290_inb t 0) (k1_off283_inb t 0) (k1_off285_inb t 0) (k1_off287_inb t 0) (k1_off289_inb t 0) ((compacted_iff_rows _ _ _).1 hC)
  have h2 := row_step_cons d L sR2 sC1 g f _ (8 * t.val + 1) (k1_off284 t 1#32) (k1_off286 t 1#32) (k1_off288 t 1#32) (k1_off290 t 1#32) (k1_off283 t 1#32) (k1_off285 t 1#32) (k1_off287 t 1#32) (k1_off289 t 1#32)
    (k1_off284_eq t 1) (k1_off286_eq t 1) (k1_off288_eq t 1) (k1_off290_eq t 1) (k1_off283_eq t 1) (k1_off285_eq t 1) (k1_off287_eq t 1) (k1_off289_eq t 1)
    (k1_off284_inb t 1) (k1_off286_inb t 1) (k1_off288_inb t 1) (k1_off290_inb t 1) (k1_off283_inb t 1) (k1_off285_inb t 1) (k1_off287_inb t 1) (k1_off289_inb t 1) h1
  have h3 := row_step_cons d L sR2 sC1 g f _ (8 * t.val + 2) (k1_off284 t 2#32) (k1_off286 t 2#32) (k1_off288 t 2#32) (k1_off290 t 2#32) (k1_off283 t 2#32) (k1_off285 t 2#32) (k1_off287 t 2#32) (k1_off289 t 2#32)
    (k1_off284_eq t 2) (k1_off286_eq t 2) (k1_off288_eq t 2) (k1_off290_eq t 2) (k1_off283_eq t 2) (k1_off285_eq t 2) (k1_off287_eq t 2) (k1_off289_eq t 2)
    (k1_off284_inb t 2) (k1_off286_inb t 2) (k1_off288_inb t 2) (k1_off290_inb t 2) (k1_off283_inb t 2) (k1_off285_inb t 2) (k1_off287_inb t 2) (k1_off289_inb t 2) h2
  have h4 := row_step_cons d L sR2 sC1 g f _ (8 * t.val + 3) (k1_off284 t 3#32) (k1_off286 t 3#32) (k1_off288 t 3#32) (k1_off290 t 3#32) (k1_off283 t 3#32) (k1_off285 t 3#32) (k1_off287 t 3#32) (k1_off289 t 3#32)
    (k1_off284_eq t 3) (k1_off286_eq t 3) (k1_off288_eq t 3) (k1_off290_eq t 3) (k1_off283_eq t 3) (k1_off285_eq t 3) (k1_off287_eq t 3) (k1_off289_eq t 3)
    (k1_off284_inb t 3) (k1_off286_inb t 3) (k1_off288_inb t 3) (k1_off290_inb t 3) (k1_off283_inb t 3) (k1_off285_inb t 3) (k1_off287_inb t 3) (k1_off289_inb t 3) h3
  have h5 := row_step_cons d L sR2 sC1 g f _ (8 * t.val + 4) (k1_off284 t 4#32) (k1_off286 t 4#32) (k1_off288 t 4#32) (k1_off290 t 4#32) (k1_off283 t 4#32) (k1_off285 t 4#32) (k1_off287 t 4#32) (k1_off289 t 4#32)
    (k1_off284_eq t 4) (k1_off286_eq t 4) (k1_off288_eq t 4) (k1_off290_eq t 4) (k1_off283_eq t 4) (k1_off285_eq t 4) (k1_off287_eq t 4) (k1_off289_eq t 4)
    (k1_off284_inb t 4) (k1_off286_inb t 4) (k1_off288_inb t 4) (k1_off290_inb t 4) (k1_off283_inb t 4) (k1_off285_inb t 4) (k1_off287_inb t 4) (k1_off289_inb t 4) h4
  have h6 := row_step_cons d L sR2 sC1 g f _ (8 * t.val + 5) (k1_off284 t 5#32) (k1_off286 t 5#32) (k1_off288 t 5#32) (k1_off290 t 5#32) (k1_off283 t 5#32) (k1_off285 t 5#32) (k1_off287 t 5#32) (k1_off289 t 5#32)
    (k1_off284_eq t 5) (k1_off286_eq t 5) (k1_off288_eq t 5) (k1_off290_eq t 5) (k1_off283_eq t 5) (k1_off285_eq t 5) (k1_off287_eq t 5) (k1_off289_eq t 5)
    (k1_off284_inb t 5) (k1_off286_inb t 5) (k1_off288_inb t 5) (k1_off290_inb t 5) (k1_off283_inb t 5) (k1_off285_inb t 5) (k1_off287_inb t 5) (k1_off289_inb t 5) h5
  have h7 := row_step_cons d L sR2 sC1 g f _ (8 * t.val + 6) (k1_off284 t 6#32) (k1_off286 t 6#32) (k1_off288 t 6#32) (k1_off290 t 6#32) (k1_off283 t 6#32) (k1_off285 t 6#32) (k1_off287 t 6#32) (k1_off289 t 6#32)
    (k1_off284_eq t 6) (k1_off286_eq t 6) (k1_off288_eq t 6) (k1_off290_eq t 6) (k1_off283_eq t 6) (k1_off285_eq t 6) (k1_off287_eq t 6) (k1_off289_eq t 6)
    (k1_off284_inb t 6) (k1_off286_inb t 6) (k1_off288_inb t 6) (k1_off290_inb t 6) (k1_off283_inb t 6) (k1_off285_inb t 6) (k1_off287_inb t 6) (k1_off289_inb t 6) h6
  have h8 := row_step_cons d L sR2 sC1 g f _ (8 * t.val + 7) (k1_off284 t 7#32) (k1_off286 t 7#32) (k1_off288 t 7#32) (k1_off290 t 7#32) (k1_off283 t 7#32) (k1_off285 t 7#32) (k1_off287 t 7#32) (k1_off289 t 7#32)
    (k1_off284_eq t 7) (k1_off286_eq t 7) (k1_off288_eq t 7) (k1_off290_eq t 7) (k1_off283_eq t 7) (k1_off285_eq t 7) (k1_off287_eq t 7) (k1_off289_eq t 7)
    (k1_off284_inb t 7) (k1_off286_inb t 7) (k1_off288_inb t 7) (k1_off290_inb t 7) (k1_off283_inb t 7) (k1_off285_inb t 7) (k1_off287_inb t 7) (k1_off289_inb t 7) h7
  intro r c hr
  exact h8 r c (by omega)

/-- The compaction step of loop 37 of 40: trip t copies rows [8 t, 8 t + 8) of the landing buffer's first 64 columns. -/
theorem compact_step_t38 (t : Fin k1_t38_loop.trips) (g : Buf (Elt F) (sR0.view.loc (thr d L))) (f : Buf (Elt F) (sC0.view.loc (thr d L)))
    (hC : Compacted (sR0.view.read (Elt F) g) (sC0.view.read (Elt F) f) t.val) :
    Compacted (sR0.view.read (Elt F) g) (sC0.view.read (Elt F) (sC0.view.writes (Elt F) f
      [cpiece d L sR0 g (k1_off298 t 7#32) (k1_off297 t 7#32) (k1_off298_inb t 7) (k1_off297_inb t 7),
       cpiece d L sR0 g (k1_off296 t 7#32) (k1_off295 t 7#32) (k1_off296_inb t 7) (k1_off295_inb t 7),
       cpiece d L sR0 g (k1_off294 t 7#32) (k1_off293 t 7#32) (k1_off294_inb t 7) (k1_off293_inb t 7),
       cpiece d L sR0 g (k1_off292 t 7#32) (k1_off291 t 7#32) (k1_off292_inb t 7) (k1_off291_inb t 7),
       cpiece d L sR0 g (k1_off298 t 6#32) (k1_off297 t 6#32) (k1_off298_inb t 6) (k1_off297_inb t 6),
       cpiece d L sR0 g (k1_off296 t 6#32) (k1_off295 t 6#32) (k1_off296_inb t 6) (k1_off295_inb t 6),
       cpiece d L sR0 g (k1_off294 t 6#32) (k1_off293 t 6#32) (k1_off294_inb t 6) (k1_off293_inb t 6),
       cpiece d L sR0 g (k1_off292 t 6#32) (k1_off291 t 6#32) (k1_off292_inb t 6) (k1_off291_inb t 6),
       cpiece d L sR0 g (k1_off298 t 5#32) (k1_off297 t 5#32) (k1_off298_inb t 5) (k1_off297_inb t 5),
       cpiece d L sR0 g (k1_off296 t 5#32) (k1_off295 t 5#32) (k1_off296_inb t 5) (k1_off295_inb t 5),
       cpiece d L sR0 g (k1_off294 t 5#32) (k1_off293 t 5#32) (k1_off294_inb t 5) (k1_off293_inb t 5),
       cpiece d L sR0 g (k1_off292 t 5#32) (k1_off291 t 5#32) (k1_off292_inb t 5) (k1_off291_inb t 5),
       cpiece d L sR0 g (k1_off298 t 4#32) (k1_off297 t 4#32) (k1_off298_inb t 4) (k1_off297_inb t 4),
       cpiece d L sR0 g (k1_off296 t 4#32) (k1_off295 t 4#32) (k1_off296_inb t 4) (k1_off295_inb t 4),
       cpiece d L sR0 g (k1_off294 t 4#32) (k1_off293 t 4#32) (k1_off294_inb t 4) (k1_off293_inb t 4),
       cpiece d L sR0 g (k1_off292 t 4#32) (k1_off291 t 4#32) (k1_off292_inb t 4) (k1_off291_inb t 4),
       cpiece d L sR0 g (k1_off298 t 3#32) (k1_off297 t 3#32) (k1_off298_inb t 3) (k1_off297_inb t 3),
       cpiece d L sR0 g (k1_off296 t 3#32) (k1_off295 t 3#32) (k1_off296_inb t 3) (k1_off295_inb t 3),
       cpiece d L sR0 g (k1_off294 t 3#32) (k1_off293 t 3#32) (k1_off294_inb t 3) (k1_off293_inb t 3),
       cpiece d L sR0 g (k1_off292 t 3#32) (k1_off291 t 3#32) (k1_off292_inb t 3) (k1_off291_inb t 3),
       cpiece d L sR0 g (k1_off298 t 2#32) (k1_off297 t 2#32) (k1_off298_inb t 2) (k1_off297_inb t 2),
       cpiece d L sR0 g (k1_off296 t 2#32) (k1_off295 t 2#32) (k1_off296_inb t 2) (k1_off295_inb t 2),
       cpiece d L sR0 g (k1_off294 t 2#32) (k1_off293 t 2#32) (k1_off294_inb t 2) (k1_off293_inb t 2),
       cpiece d L sR0 g (k1_off292 t 2#32) (k1_off291 t 2#32) (k1_off292_inb t 2) (k1_off291_inb t 2),
       cpiece d L sR0 g (k1_off298 t 1#32) (k1_off297 t 1#32) (k1_off298_inb t 1) (k1_off297_inb t 1),
       cpiece d L sR0 g (k1_off296 t 1#32) (k1_off295 t 1#32) (k1_off296_inb t 1) (k1_off295_inb t 1),
       cpiece d L sR0 g (k1_off294 t 1#32) (k1_off293 t 1#32) (k1_off294_inb t 1) (k1_off293_inb t 1),
       cpiece d L sR0 g (k1_off292 t 1#32) (k1_off291 t 1#32) (k1_off292_inb t 1) (k1_off291_inb t 1),
       cpiece d L sR0 g (k1_off298 t 0#32) (k1_off297 t 0#32) (k1_off298_inb t 0) (k1_off297_inb t 0),
       cpiece d L sR0 g (k1_off296 t 0#32) (k1_off295 t 0#32) (k1_off296_inb t 0) (k1_off295_inb t 0),
       cpiece d L sR0 g (k1_off294 t 0#32) (k1_off293 t 0#32) (k1_off294_inb t 0) (k1_off293_inb t 0),
       cpiece d L sR0 g (k1_off292 t 0#32) (k1_off291 t 0#32) (k1_off292_inb t 0) (k1_off291_inb t 0)])) (t.val + 1) := by
  have h1 := row_step_cons d L sR0 sC0 g f [] (8 * t.val + 0) (k1_off292 t 0#32) (k1_off294 t 0#32) (k1_off296 t 0#32) (k1_off298 t 0#32) (k1_off291 t 0#32) (k1_off293 t 0#32) (k1_off295 t 0#32) (k1_off297 t 0#32)
    (k1_off292_eq t 0) (k1_off294_eq t 0) (k1_off296_eq t 0) (k1_off298_eq t 0) (k1_off291_eq t 0) (k1_off293_eq t 0) (k1_off295_eq t 0) (k1_off297_eq t 0)
    (k1_off292_inb t 0) (k1_off294_inb t 0) (k1_off296_inb t 0) (k1_off298_inb t 0) (k1_off291_inb t 0) (k1_off293_inb t 0) (k1_off295_inb t 0) (k1_off297_inb t 0) ((compacted_iff_rows _ _ _).1 hC)
  have h2 := row_step_cons d L sR0 sC0 g f _ (8 * t.val + 1) (k1_off292 t 1#32) (k1_off294 t 1#32) (k1_off296 t 1#32) (k1_off298 t 1#32) (k1_off291 t 1#32) (k1_off293 t 1#32) (k1_off295 t 1#32) (k1_off297 t 1#32)
    (k1_off292_eq t 1) (k1_off294_eq t 1) (k1_off296_eq t 1) (k1_off298_eq t 1) (k1_off291_eq t 1) (k1_off293_eq t 1) (k1_off295_eq t 1) (k1_off297_eq t 1)
    (k1_off292_inb t 1) (k1_off294_inb t 1) (k1_off296_inb t 1) (k1_off298_inb t 1) (k1_off291_inb t 1) (k1_off293_inb t 1) (k1_off295_inb t 1) (k1_off297_inb t 1) h1
  have h3 := row_step_cons d L sR0 sC0 g f _ (8 * t.val + 2) (k1_off292 t 2#32) (k1_off294 t 2#32) (k1_off296 t 2#32) (k1_off298 t 2#32) (k1_off291 t 2#32) (k1_off293 t 2#32) (k1_off295 t 2#32) (k1_off297 t 2#32)
    (k1_off292_eq t 2) (k1_off294_eq t 2) (k1_off296_eq t 2) (k1_off298_eq t 2) (k1_off291_eq t 2) (k1_off293_eq t 2) (k1_off295_eq t 2) (k1_off297_eq t 2)
    (k1_off292_inb t 2) (k1_off294_inb t 2) (k1_off296_inb t 2) (k1_off298_inb t 2) (k1_off291_inb t 2) (k1_off293_inb t 2) (k1_off295_inb t 2) (k1_off297_inb t 2) h2
  have h4 := row_step_cons d L sR0 sC0 g f _ (8 * t.val + 3) (k1_off292 t 3#32) (k1_off294 t 3#32) (k1_off296 t 3#32) (k1_off298 t 3#32) (k1_off291 t 3#32) (k1_off293 t 3#32) (k1_off295 t 3#32) (k1_off297 t 3#32)
    (k1_off292_eq t 3) (k1_off294_eq t 3) (k1_off296_eq t 3) (k1_off298_eq t 3) (k1_off291_eq t 3) (k1_off293_eq t 3) (k1_off295_eq t 3) (k1_off297_eq t 3)
    (k1_off292_inb t 3) (k1_off294_inb t 3) (k1_off296_inb t 3) (k1_off298_inb t 3) (k1_off291_inb t 3) (k1_off293_inb t 3) (k1_off295_inb t 3) (k1_off297_inb t 3) h3
  have h5 := row_step_cons d L sR0 sC0 g f _ (8 * t.val + 4) (k1_off292 t 4#32) (k1_off294 t 4#32) (k1_off296 t 4#32) (k1_off298 t 4#32) (k1_off291 t 4#32) (k1_off293 t 4#32) (k1_off295 t 4#32) (k1_off297 t 4#32)
    (k1_off292_eq t 4) (k1_off294_eq t 4) (k1_off296_eq t 4) (k1_off298_eq t 4) (k1_off291_eq t 4) (k1_off293_eq t 4) (k1_off295_eq t 4) (k1_off297_eq t 4)
    (k1_off292_inb t 4) (k1_off294_inb t 4) (k1_off296_inb t 4) (k1_off298_inb t 4) (k1_off291_inb t 4) (k1_off293_inb t 4) (k1_off295_inb t 4) (k1_off297_inb t 4) h4
  have h6 := row_step_cons d L sR0 sC0 g f _ (8 * t.val + 5) (k1_off292 t 5#32) (k1_off294 t 5#32) (k1_off296 t 5#32) (k1_off298 t 5#32) (k1_off291 t 5#32) (k1_off293 t 5#32) (k1_off295 t 5#32) (k1_off297 t 5#32)
    (k1_off292_eq t 5) (k1_off294_eq t 5) (k1_off296_eq t 5) (k1_off298_eq t 5) (k1_off291_eq t 5) (k1_off293_eq t 5) (k1_off295_eq t 5) (k1_off297_eq t 5)
    (k1_off292_inb t 5) (k1_off294_inb t 5) (k1_off296_inb t 5) (k1_off298_inb t 5) (k1_off291_inb t 5) (k1_off293_inb t 5) (k1_off295_inb t 5) (k1_off297_inb t 5) h5
  have h7 := row_step_cons d L sR0 sC0 g f _ (8 * t.val + 6) (k1_off292 t 6#32) (k1_off294 t 6#32) (k1_off296 t 6#32) (k1_off298 t 6#32) (k1_off291 t 6#32) (k1_off293 t 6#32) (k1_off295 t 6#32) (k1_off297 t 6#32)
    (k1_off292_eq t 6) (k1_off294_eq t 6) (k1_off296_eq t 6) (k1_off298_eq t 6) (k1_off291_eq t 6) (k1_off293_eq t 6) (k1_off295_eq t 6) (k1_off297_eq t 6)
    (k1_off292_inb t 6) (k1_off294_inb t 6) (k1_off296_inb t 6) (k1_off298_inb t 6) (k1_off291_inb t 6) (k1_off293_inb t 6) (k1_off295_inb t 6) (k1_off297_inb t 6) h6
  have h8 := row_step_cons d L sR0 sC0 g f _ (8 * t.val + 7) (k1_off292 t 7#32) (k1_off294 t 7#32) (k1_off296 t 7#32) (k1_off298 t 7#32) (k1_off291 t 7#32) (k1_off293 t 7#32) (k1_off295 t 7#32) (k1_off297 t 7#32)
    (k1_off292_eq t 7) (k1_off294_eq t 7) (k1_off296_eq t 7) (k1_off298_eq t 7) (k1_off291_eq t 7) (k1_off293_eq t 7) (k1_off295_eq t 7) (k1_off297_eq t 7)
    (k1_off292_inb t 7) (k1_off294_inb t 7) (k1_off296_inb t 7) (k1_off298_inb t 7) (k1_off291_inb t 7) (k1_off293_inb t 7) (k1_off295_inb t 7) (k1_off297_inb t 7) h7
  intro r c hr
  exact h8 r c (by omega)

/-- The compaction step of loop 38 of 40: trip t copies rows [8 t, 8 t + 8) of the landing buffer's first 64 columns. -/
theorem compact_step_t39 (t : Fin k1_t39_loop.trips) (g : Buf (Elt F) (sR1.view.loc (thr d L))) (f : Buf (Elt F) (sC1.view.loc (thr d L)))
    (hC : Compacted (sR1.view.read (Elt F) g) (sC1.view.read (Elt F) f) t.val) :
    Compacted (sR1.view.read (Elt F) g) (sC1.view.read (Elt F) (sC1.view.writes (Elt F) f
      [cpiece d L sR1 g (k1_off306 t 7#32) (k1_off305 t 7#32) (k1_off306_inb t 7) (k1_off305_inb t 7),
       cpiece d L sR1 g (k1_off304 t 7#32) (k1_off303 t 7#32) (k1_off304_inb t 7) (k1_off303_inb t 7),
       cpiece d L sR1 g (k1_off302 t 7#32) (k1_off301 t 7#32) (k1_off302_inb t 7) (k1_off301_inb t 7),
       cpiece d L sR1 g (k1_off300 t 7#32) (k1_off299 t 7#32) (k1_off300_inb t 7) (k1_off299_inb t 7),
       cpiece d L sR1 g (k1_off306 t 6#32) (k1_off305 t 6#32) (k1_off306_inb t 6) (k1_off305_inb t 6),
       cpiece d L sR1 g (k1_off304 t 6#32) (k1_off303 t 6#32) (k1_off304_inb t 6) (k1_off303_inb t 6),
       cpiece d L sR1 g (k1_off302 t 6#32) (k1_off301 t 6#32) (k1_off302_inb t 6) (k1_off301_inb t 6),
       cpiece d L sR1 g (k1_off300 t 6#32) (k1_off299 t 6#32) (k1_off300_inb t 6) (k1_off299_inb t 6),
       cpiece d L sR1 g (k1_off306 t 5#32) (k1_off305 t 5#32) (k1_off306_inb t 5) (k1_off305_inb t 5),
       cpiece d L sR1 g (k1_off304 t 5#32) (k1_off303 t 5#32) (k1_off304_inb t 5) (k1_off303_inb t 5),
       cpiece d L sR1 g (k1_off302 t 5#32) (k1_off301 t 5#32) (k1_off302_inb t 5) (k1_off301_inb t 5),
       cpiece d L sR1 g (k1_off300 t 5#32) (k1_off299 t 5#32) (k1_off300_inb t 5) (k1_off299_inb t 5),
       cpiece d L sR1 g (k1_off306 t 4#32) (k1_off305 t 4#32) (k1_off306_inb t 4) (k1_off305_inb t 4),
       cpiece d L sR1 g (k1_off304 t 4#32) (k1_off303 t 4#32) (k1_off304_inb t 4) (k1_off303_inb t 4),
       cpiece d L sR1 g (k1_off302 t 4#32) (k1_off301 t 4#32) (k1_off302_inb t 4) (k1_off301_inb t 4),
       cpiece d L sR1 g (k1_off300 t 4#32) (k1_off299 t 4#32) (k1_off300_inb t 4) (k1_off299_inb t 4),
       cpiece d L sR1 g (k1_off306 t 3#32) (k1_off305 t 3#32) (k1_off306_inb t 3) (k1_off305_inb t 3),
       cpiece d L sR1 g (k1_off304 t 3#32) (k1_off303 t 3#32) (k1_off304_inb t 3) (k1_off303_inb t 3),
       cpiece d L sR1 g (k1_off302 t 3#32) (k1_off301 t 3#32) (k1_off302_inb t 3) (k1_off301_inb t 3),
       cpiece d L sR1 g (k1_off300 t 3#32) (k1_off299 t 3#32) (k1_off300_inb t 3) (k1_off299_inb t 3),
       cpiece d L sR1 g (k1_off306 t 2#32) (k1_off305 t 2#32) (k1_off306_inb t 2) (k1_off305_inb t 2),
       cpiece d L sR1 g (k1_off304 t 2#32) (k1_off303 t 2#32) (k1_off304_inb t 2) (k1_off303_inb t 2),
       cpiece d L sR1 g (k1_off302 t 2#32) (k1_off301 t 2#32) (k1_off302_inb t 2) (k1_off301_inb t 2),
       cpiece d L sR1 g (k1_off300 t 2#32) (k1_off299 t 2#32) (k1_off300_inb t 2) (k1_off299_inb t 2),
       cpiece d L sR1 g (k1_off306 t 1#32) (k1_off305 t 1#32) (k1_off306_inb t 1) (k1_off305_inb t 1),
       cpiece d L sR1 g (k1_off304 t 1#32) (k1_off303 t 1#32) (k1_off304_inb t 1) (k1_off303_inb t 1),
       cpiece d L sR1 g (k1_off302 t 1#32) (k1_off301 t 1#32) (k1_off302_inb t 1) (k1_off301_inb t 1),
       cpiece d L sR1 g (k1_off300 t 1#32) (k1_off299 t 1#32) (k1_off300_inb t 1) (k1_off299_inb t 1),
       cpiece d L sR1 g (k1_off306 t 0#32) (k1_off305 t 0#32) (k1_off306_inb t 0) (k1_off305_inb t 0),
       cpiece d L sR1 g (k1_off304 t 0#32) (k1_off303 t 0#32) (k1_off304_inb t 0) (k1_off303_inb t 0),
       cpiece d L sR1 g (k1_off302 t 0#32) (k1_off301 t 0#32) (k1_off302_inb t 0) (k1_off301_inb t 0),
       cpiece d L sR1 g (k1_off300 t 0#32) (k1_off299 t 0#32) (k1_off300_inb t 0) (k1_off299_inb t 0)])) (t.val + 1) := by
  have h1 := row_step_cons d L sR1 sC1 g f [] (8 * t.val + 0) (k1_off300 t 0#32) (k1_off302 t 0#32) (k1_off304 t 0#32) (k1_off306 t 0#32) (k1_off299 t 0#32) (k1_off301 t 0#32) (k1_off303 t 0#32) (k1_off305 t 0#32)
    (k1_off300_eq t 0) (k1_off302_eq t 0) (k1_off304_eq t 0) (k1_off306_eq t 0) (k1_off299_eq t 0) (k1_off301_eq t 0) (k1_off303_eq t 0) (k1_off305_eq t 0)
    (k1_off300_inb t 0) (k1_off302_inb t 0) (k1_off304_inb t 0) (k1_off306_inb t 0) (k1_off299_inb t 0) (k1_off301_inb t 0) (k1_off303_inb t 0) (k1_off305_inb t 0) ((compacted_iff_rows _ _ _).1 hC)
  have h2 := row_step_cons d L sR1 sC1 g f _ (8 * t.val + 1) (k1_off300 t 1#32) (k1_off302 t 1#32) (k1_off304 t 1#32) (k1_off306 t 1#32) (k1_off299 t 1#32) (k1_off301 t 1#32) (k1_off303 t 1#32) (k1_off305 t 1#32)
    (k1_off300_eq t 1) (k1_off302_eq t 1) (k1_off304_eq t 1) (k1_off306_eq t 1) (k1_off299_eq t 1) (k1_off301_eq t 1) (k1_off303_eq t 1) (k1_off305_eq t 1)
    (k1_off300_inb t 1) (k1_off302_inb t 1) (k1_off304_inb t 1) (k1_off306_inb t 1) (k1_off299_inb t 1) (k1_off301_inb t 1) (k1_off303_inb t 1) (k1_off305_inb t 1) h1
  have h3 := row_step_cons d L sR1 sC1 g f _ (8 * t.val + 2) (k1_off300 t 2#32) (k1_off302 t 2#32) (k1_off304 t 2#32) (k1_off306 t 2#32) (k1_off299 t 2#32) (k1_off301 t 2#32) (k1_off303 t 2#32) (k1_off305 t 2#32)
    (k1_off300_eq t 2) (k1_off302_eq t 2) (k1_off304_eq t 2) (k1_off306_eq t 2) (k1_off299_eq t 2) (k1_off301_eq t 2) (k1_off303_eq t 2) (k1_off305_eq t 2)
    (k1_off300_inb t 2) (k1_off302_inb t 2) (k1_off304_inb t 2) (k1_off306_inb t 2) (k1_off299_inb t 2) (k1_off301_inb t 2) (k1_off303_inb t 2) (k1_off305_inb t 2) h2
  have h4 := row_step_cons d L sR1 sC1 g f _ (8 * t.val + 3) (k1_off300 t 3#32) (k1_off302 t 3#32) (k1_off304 t 3#32) (k1_off306 t 3#32) (k1_off299 t 3#32) (k1_off301 t 3#32) (k1_off303 t 3#32) (k1_off305 t 3#32)
    (k1_off300_eq t 3) (k1_off302_eq t 3) (k1_off304_eq t 3) (k1_off306_eq t 3) (k1_off299_eq t 3) (k1_off301_eq t 3) (k1_off303_eq t 3) (k1_off305_eq t 3)
    (k1_off300_inb t 3) (k1_off302_inb t 3) (k1_off304_inb t 3) (k1_off306_inb t 3) (k1_off299_inb t 3) (k1_off301_inb t 3) (k1_off303_inb t 3) (k1_off305_inb t 3) h3
  have h5 := row_step_cons d L sR1 sC1 g f _ (8 * t.val + 4) (k1_off300 t 4#32) (k1_off302 t 4#32) (k1_off304 t 4#32) (k1_off306 t 4#32) (k1_off299 t 4#32) (k1_off301 t 4#32) (k1_off303 t 4#32) (k1_off305 t 4#32)
    (k1_off300_eq t 4) (k1_off302_eq t 4) (k1_off304_eq t 4) (k1_off306_eq t 4) (k1_off299_eq t 4) (k1_off301_eq t 4) (k1_off303_eq t 4) (k1_off305_eq t 4)
    (k1_off300_inb t 4) (k1_off302_inb t 4) (k1_off304_inb t 4) (k1_off306_inb t 4) (k1_off299_inb t 4) (k1_off301_inb t 4) (k1_off303_inb t 4) (k1_off305_inb t 4) h4
  have h6 := row_step_cons d L sR1 sC1 g f _ (8 * t.val + 5) (k1_off300 t 5#32) (k1_off302 t 5#32) (k1_off304 t 5#32) (k1_off306 t 5#32) (k1_off299 t 5#32) (k1_off301 t 5#32) (k1_off303 t 5#32) (k1_off305 t 5#32)
    (k1_off300_eq t 5) (k1_off302_eq t 5) (k1_off304_eq t 5) (k1_off306_eq t 5) (k1_off299_eq t 5) (k1_off301_eq t 5) (k1_off303_eq t 5) (k1_off305_eq t 5)
    (k1_off300_inb t 5) (k1_off302_inb t 5) (k1_off304_inb t 5) (k1_off306_inb t 5) (k1_off299_inb t 5) (k1_off301_inb t 5) (k1_off303_inb t 5) (k1_off305_inb t 5) h5
  have h7 := row_step_cons d L sR1 sC1 g f _ (8 * t.val + 6) (k1_off300 t 6#32) (k1_off302 t 6#32) (k1_off304 t 6#32) (k1_off306 t 6#32) (k1_off299 t 6#32) (k1_off301 t 6#32) (k1_off303 t 6#32) (k1_off305 t 6#32)
    (k1_off300_eq t 6) (k1_off302_eq t 6) (k1_off304_eq t 6) (k1_off306_eq t 6) (k1_off299_eq t 6) (k1_off301_eq t 6) (k1_off303_eq t 6) (k1_off305_eq t 6)
    (k1_off300_inb t 6) (k1_off302_inb t 6) (k1_off304_inb t 6) (k1_off306_inb t 6) (k1_off299_inb t 6) (k1_off301_inb t 6) (k1_off303_inb t 6) (k1_off305_inb t 6) h6
  have h8 := row_step_cons d L sR1 sC1 g f _ (8 * t.val + 7) (k1_off300 t 7#32) (k1_off302 t 7#32) (k1_off304 t 7#32) (k1_off306 t 7#32) (k1_off299 t 7#32) (k1_off301 t 7#32) (k1_off303 t 7#32) (k1_off305 t 7#32)
    (k1_off300_eq t 7) (k1_off302_eq t 7) (k1_off304_eq t 7) (k1_off306_eq t 7) (k1_off299_eq t 7) (k1_off301_eq t 7) (k1_off303_eq t 7) (k1_off305_eq t 7)
    (k1_off300_inb t 7) (k1_off302_inb t 7) (k1_off304_inb t 7) (k1_off306_inb t 7) (k1_off299_inb t 7) (k1_off301_inb t 7) (k1_off303_inb t 7) (k1_off305_inb t 7) h7
  intro r c hr
  exact h8 r c (by omega)

/-- The compaction step of loop 39 of 40: trip t copies rows [8 t, 8 t + 8) of the landing buffer's first 64 columns. -/
theorem compact_step_t40 (t : Fin k1_t40_loop.trips) (g : Buf (Elt F) (sR2.view.loc (thr d L))) (f : Buf (Elt F) (sC0.view.loc (thr d L)))
    (hC : Compacted (sR2.view.read (Elt F) g) (sC0.view.read (Elt F) f) t.val) :
    Compacted (sR2.view.read (Elt F) g) (sC0.view.read (Elt F) (sC0.view.writes (Elt F) f
      [cpiece d L sR2 g (k1_off314 t 7#32) (k1_off313 t 7#32) (k1_off314_inb t 7) (k1_off313_inb t 7),
       cpiece d L sR2 g (k1_off312 t 7#32) (k1_off311 t 7#32) (k1_off312_inb t 7) (k1_off311_inb t 7),
       cpiece d L sR2 g (k1_off310 t 7#32) (k1_off309 t 7#32) (k1_off310_inb t 7) (k1_off309_inb t 7),
       cpiece d L sR2 g (k1_off308 t 7#32) (k1_off307 t 7#32) (k1_off308_inb t 7) (k1_off307_inb t 7),
       cpiece d L sR2 g (k1_off314 t 6#32) (k1_off313 t 6#32) (k1_off314_inb t 6) (k1_off313_inb t 6),
       cpiece d L sR2 g (k1_off312 t 6#32) (k1_off311 t 6#32) (k1_off312_inb t 6) (k1_off311_inb t 6),
       cpiece d L sR2 g (k1_off310 t 6#32) (k1_off309 t 6#32) (k1_off310_inb t 6) (k1_off309_inb t 6),
       cpiece d L sR2 g (k1_off308 t 6#32) (k1_off307 t 6#32) (k1_off308_inb t 6) (k1_off307_inb t 6),
       cpiece d L sR2 g (k1_off314 t 5#32) (k1_off313 t 5#32) (k1_off314_inb t 5) (k1_off313_inb t 5),
       cpiece d L sR2 g (k1_off312 t 5#32) (k1_off311 t 5#32) (k1_off312_inb t 5) (k1_off311_inb t 5),
       cpiece d L sR2 g (k1_off310 t 5#32) (k1_off309 t 5#32) (k1_off310_inb t 5) (k1_off309_inb t 5),
       cpiece d L sR2 g (k1_off308 t 5#32) (k1_off307 t 5#32) (k1_off308_inb t 5) (k1_off307_inb t 5),
       cpiece d L sR2 g (k1_off314 t 4#32) (k1_off313 t 4#32) (k1_off314_inb t 4) (k1_off313_inb t 4),
       cpiece d L sR2 g (k1_off312 t 4#32) (k1_off311 t 4#32) (k1_off312_inb t 4) (k1_off311_inb t 4),
       cpiece d L sR2 g (k1_off310 t 4#32) (k1_off309 t 4#32) (k1_off310_inb t 4) (k1_off309_inb t 4),
       cpiece d L sR2 g (k1_off308 t 4#32) (k1_off307 t 4#32) (k1_off308_inb t 4) (k1_off307_inb t 4),
       cpiece d L sR2 g (k1_off314 t 3#32) (k1_off313 t 3#32) (k1_off314_inb t 3) (k1_off313_inb t 3),
       cpiece d L sR2 g (k1_off312 t 3#32) (k1_off311 t 3#32) (k1_off312_inb t 3) (k1_off311_inb t 3),
       cpiece d L sR2 g (k1_off310 t 3#32) (k1_off309 t 3#32) (k1_off310_inb t 3) (k1_off309_inb t 3),
       cpiece d L sR2 g (k1_off308 t 3#32) (k1_off307 t 3#32) (k1_off308_inb t 3) (k1_off307_inb t 3),
       cpiece d L sR2 g (k1_off314 t 2#32) (k1_off313 t 2#32) (k1_off314_inb t 2) (k1_off313_inb t 2),
       cpiece d L sR2 g (k1_off312 t 2#32) (k1_off311 t 2#32) (k1_off312_inb t 2) (k1_off311_inb t 2),
       cpiece d L sR2 g (k1_off310 t 2#32) (k1_off309 t 2#32) (k1_off310_inb t 2) (k1_off309_inb t 2),
       cpiece d L sR2 g (k1_off308 t 2#32) (k1_off307 t 2#32) (k1_off308_inb t 2) (k1_off307_inb t 2),
       cpiece d L sR2 g (k1_off314 t 1#32) (k1_off313 t 1#32) (k1_off314_inb t 1) (k1_off313_inb t 1),
       cpiece d L sR2 g (k1_off312 t 1#32) (k1_off311 t 1#32) (k1_off312_inb t 1) (k1_off311_inb t 1),
       cpiece d L sR2 g (k1_off310 t 1#32) (k1_off309 t 1#32) (k1_off310_inb t 1) (k1_off309_inb t 1),
       cpiece d L sR2 g (k1_off308 t 1#32) (k1_off307 t 1#32) (k1_off308_inb t 1) (k1_off307_inb t 1),
       cpiece d L sR2 g (k1_off314 t 0#32) (k1_off313 t 0#32) (k1_off314_inb t 0) (k1_off313_inb t 0),
       cpiece d L sR2 g (k1_off312 t 0#32) (k1_off311 t 0#32) (k1_off312_inb t 0) (k1_off311_inb t 0),
       cpiece d L sR2 g (k1_off310 t 0#32) (k1_off309 t 0#32) (k1_off310_inb t 0) (k1_off309_inb t 0),
       cpiece d L sR2 g (k1_off308 t 0#32) (k1_off307 t 0#32) (k1_off308_inb t 0) (k1_off307_inb t 0)])) (t.val + 1) := by
  have h1 := row_step_cons d L sR2 sC0 g f [] (8 * t.val + 0) (k1_off308 t 0#32) (k1_off310 t 0#32) (k1_off312 t 0#32) (k1_off314 t 0#32) (k1_off307 t 0#32) (k1_off309 t 0#32) (k1_off311 t 0#32) (k1_off313 t 0#32)
    (k1_off308_eq t 0) (k1_off310_eq t 0) (k1_off312_eq t 0) (k1_off314_eq t 0) (k1_off307_eq t 0) (k1_off309_eq t 0) (k1_off311_eq t 0) (k1_off313_eq t 0)
    (k1_off308_inb t 0) (k1_off310_inb t 0) (k1_off312_inb t 0) (k1_off314_inb t 0) (k1_off307_inb t 0) (k1_off309_inb t 0) (k1_off311_inb t 0) (k1_off313_inb t 0) ((compacted_iff_rows _ _ _).1 hC)
  have h2 := row_step_cons d L sR2 sC0 g f _ (8 * t.val + 1) (k1_off308 t 1#32) (k1_off310 t 1#32) (k1_off312 t 1#32) (k1_off314 t 1#32) (k1_off307 t 1#32) (k1_off309 t 1#32) (k1_off311 t 1#32) (k1_off313 t 1#32)
    (k1_off308_eq t 1) (k1_off310_eq t 1) (k1_off312_eq t 1) (k1_off314_eq t 1) (k1_off307_eq t 1) (k1_off309_eq t 1) (k1_off311_eq t 1) (k1_off313_eq t 1)
    (k1_off308_inb t 1) (k1_off310_inb t 1) (k1_off312_inb t 1) (k1_off314_inb t 1) (k1_off307_inb t 1) (k1_off309_inb t 1) (k1_off311_inb t 1) (k1_off313_inb t 1) h1
  have h3 := row_step_cons d L sR2 sC0 g f _ (8 * t.val + 2) (k1_off308 t 2#32) (k1_off310 t 2#32) (k1_off312 t 2#32) (k1_off314 t 2#32) (k1_off307 t 2#32) (k1_off309 t 2#32) (k1_off311 t 2#32) (k1_off313 t 2#32)
    (k1_off308_eq t 2) (k1_off310_eq t 2) (k1_off312_eq t 2) (k1_off314_eq t 2) (k1_off307_eq t 2) (k1_off309_eq t 2) (k1_off311_eq t 2) (k1_off313_eq t 2)
    (k1_off308_inb t 2) (k1_off310_inb t 2) (k1_off312_inb t 2) (k1_off314_inb t 2) (k1_off307_inb t 2) (k1_off309_inb t 2) (k1_off311_inb t 2) (k1_off313_inb t 2) h2
  have h4 := row_step_cons d L sR2 sC0 g f _ (8 * t.val + 3) (k1_off308 t 3#32) (k1_off310 t 3#32) (k1_off312 t 3#32) (k1_off314 t 3#32) (k1_off307 t 3#32) (k1_off309 t 3#32) (k1_off311 t 3#32) (k1_off313 t 3#32)
    (k1_off308_eq t 3) (k1_off310_eq t 3) (k1_off312_eq t 3) (k1_off314_eq t 3) (k1_off307_eq t 3) (k1_off309_eq t 3) (k1_off311_eq t 3) (k1_off313_eq t 3)
    (k1_off308_inb t 3) (k1_off310_inb t 3) (k1_off312_inb t 3) (k1_off314_inb t 3) (k1_off307_inb t 3) (k1_off309_inb t 3) (k1_off311_inb t 3) (k1_off313_inb t 3) h3
  have h5 := row_step_cons d L sR2 sC0 g f _ (8 * t.val + 4) (k1_off308 t 4#32) (k1_off310 t 4#32) (k1_off312 t 4#32) (k1_off314 t 4#32) (k1_off307 t 4#32) (k1_off309 t 4#32) (k1_off311 t 4#32) (k1_off313 t 4#32)
    (k1_off308_eq t 4) (k1_off310_eq t 4) (k1_off312_eq t 4) (k1_off314_eq t 4) (k1_off307_eq t 4) (k1_off309_eq t 4) (k1_off311_eq t 4) (k1_off313_eq t 4)
    (k1_off308_inb t 4) (k1_off310_inb t 4) (k1_off312_inb t 4) (k1_off314_inb t 4) (k1_off307_inb t 4) (k1_off309_inb t 4) (k1_off311_inb t 4) (k1_off313_inb t 4) h4
  have h6 := row_step_cons d L sR2 sC0 g f _ (8 * t.val + 5) (k1_off308 t 5#32) (k1_off310 t 5#32) (k1_off312 t 5#32) (k1_off314 t 5#32) (k1_off307 t 5#32) (k1_off309 t 5#32) (k1_off311 t 5#32) (k1_off313 t 5#32)
    (k1_off308_eq t 5) (k1_off310_eq t 5) (k1_off312_eq t 5) (k1_off314_eq t 5) (k1_off307_eq t 5) (k1_off309_eq t 5) (k1_off311_eq t 5) (k1_off313_eq t 5)
    (k1_off308_inb t 5) (k1_off310_inb t 5) (k1_off312_inb t 5) (k1_off314_inb t 5) (k1_off307_inb t 5) (k1_off309_inb t 5) (k1_off311_inb t 5) (k1_off313_inb t 5) h5
  have h7 := row_step_cons d L sR2 sC0 g f _ (8 * t.val + 6) (k1_off308 t 6#32) (k1_off310 t 6#32) (k1_off312 t 6#32) (k1_off314 t 6#32) (k1_off307 t 6#32) (k1_off309 t 6#32) (k1_off311 t 6#32) (k1_off313 t 6#32)
    (k1_off308_eq t 6) (k1_off310_eq t 6) (k1_off312_eq t 6) (k1_off314_eq t 6) (k1_off307_eq t 6) (k1_off309_eq t 6) (k1_off311_eq t 6) (k1_off313_eq t 6)
    (k1_off308_inb t 6) (k1_off310_inb t 6) (k1_off312_inb t 6) (k1_off314_inb t 6) (k1_off307_inb t 6) (k1_off309_inb t 6) (k1_off311_inb t 6) (k1_off313_inb t 6) h6
  have h8 := row_step_cons d L sR2 sC0 g f _ (8 * t.val + 7) (k1_off308 t 7#32) (k1_off310 t 7#32) (k1_off312 t 7#32) (k1_off314 t 7#32) (k1_off307 t 7#32) (k1_off309 t 7#32) (k1_off311 t 7#32) (k1_off313 t 7#32)
    (k1_off308_eq t 7) (k1_off310_eq t 7) (k1_off312_eq t 7) (k1_off314_eq t 7) (k1_off307_eq t 7) (k1_off309_eq t 7) (k1_off311_eq t 7) (k1_off313_eq t 7)
    (k1_off308_inb t 7) (k1_off310_inb t 7) (k1_off312_inb t 7) (k1_off314_inb t 7) (k1_off307_inb t 7) (k1_off309_inb t 7) (k1_off311_inb t 7) (k1_off313_inb t 7) h7
  intro r c hr
  exact h8 r c (by omega)

/-- The compaction step of loop 40 of 40: trip t copies rows [8 t, 8 t + 8) of the landing buffer's first 64 columns. -/
theorem compact_step_t41 (t : Fin k1_t41_loop.trips) (g : Buf (Elt F) (sR0.view.loc (thr d L))) (f : Buf (Elt F) (sC1.view.loc (thr d L)))
    (hC : Compacted (sR0.view.read (Elt F) g) (sC1.view.read (Elt F) f) t.val) :
    Compacted (sR0.view.read (Elt F) g) (sC1.view.read (Elt F) (sC1.view.writes (Elt F) f
      [cpiece d L sR0 g (k1_off322 t 7#32) (k1_off321 t 7#32) (k1_off322_inb t 7) (k1_off321_inb t 7),
       cpiece d L sR0 g (k1_off320 t 7#32) (k1_off319 t 7#32) (k1_off320_inb t 7) (k1_off319_inb t 7),
       cpiece d L sR0 g (k1_off318 t 7#32) (k1_off317 t 7#32) (k1_off318_inb t 7) (k1_off317_inb t 7),
       cpiece d L sR0 g (k1_off316 t 7#32) (k1_off315 t 7#32) (k1_off316_inb t 7) (k1_off315_inb t 7),
       cpiece d L sR0 g (k1_off322 t 6#32) (k1_off321 t 6#32) (k1_off322_inb t 6) (k1_off321_inb t 6),
       cpiece d L sR0 g (k1_off320 t 6#32) (k1_off319 t 6#32) (k1_off320_inb t 6) (k1_off319_inb t 6),
       cpiece d L sR0 g (k1_off318 t 6#32) (k1_off317 t 6#32) (k1_off318_inb t 6) (k1_off317_inb t 6),
       cpiece d L sR0 g (k1_off316 t 6#32) (k1_off315 t 6#32) (k1_off316_inb t 6) (k1_off315_inb t 6),
       cpiece d L sR0 g (k1_off322 t 5#32) (k1_off321 t 5#32) (k1_off322_inb t 5) (k1_off321_inb t 5),
       cpiece d L sR0 g (k1_off320 t 5#32) (k1_off319 t 5#32) (k1_off320_inb t 5) (k1_off319_inb t 5),
       cpiece d L sR0 g (k1_off318 t 5#32) (k1_off317 t 5#32) (k1_off318_inb t 5) (k1_off317_inb t 5),
       cpiece d L sR0 g (k1_off316 t 5#32) (k1_off315 t 5#32) (k1_off316_inb t 5) (k1_off315_inb t 5),
       cpiece d L sR0 g (k1_off322 t 4#32) (k1_off321 t 4#32) (k1_off322_inb t 4) (k1_off321_inb t 4),
       cpiece d L sR0 g (k1_off320 t 4#32) (k1_off319 t 4#32) (k1_off320_inb t 4) (k1_off319_inb t 4),
       cpiece d L sR0 g (k1_off318 t 4#32) (k1_off317 t 4#32) (k1_off318_inb t 4) (k1_off317_inb t 4),
       cpiece d L sR0 g (k1_off316 t 4#32) (k1_off315 t 4#32) (k1_off316_inb t 4) (k1_off315_inb t 4),
       cpiece d L sR0 g (k1_off322 t 3#32) (k1_off321 t 3#32) (k1_off322_inb t 3) (k1_off321_inb t 3),
       cpiece d L sR0 g (k1_off320 t 3#32) (k1_off319 t 3#32) (k1_off320_inb t 3) (k1_off319_inb t 3),
       cpiece d L sR0 g (k1_off318 t 3#32) (k1_off317 t 3#32) (k1_off318_inb t 3) (k1_off317_inb t 3),
       cpiece d L sR0 g (k1_off316 t 3#32) (k1_off315 t 3#32) (k1_off316_inb t 3) (k1_off315_inb t 3),
       cpiece d L sR0 g (k1_off322 t 2#32) (k1_off321 t 2#32) (k1_off322_inb t 2) (k1_off321_inb t 2),
       cpiece d L sR0 g (k1_off320 t 2#32) (k1_off319 t 2#32) (k1_off320_inb t 2) (k1_off319_inb t 2),
       cpiece d L sR0 g (k1_off318 t 2#32) (k1_off317 t 2#32) (k1_off318_inb t 2) (k1_off317_inb t 2),
       cpiece d L sR0 g (k1_off316 t 2#32) (k1_off315 t 2#32) (k1_off316_inb t 2) (k1_off315_inb t 2),
       cpiece d L sR0 g (k1_off322 t 1#32) (k1_off321 t 1#32) (k1_off322_inb t 1) (k1_off321_inb t 1),
       cpiece d L sR0 g (k1_off320 t 1#32) (k1_off319 t 1#32) (k1_off320_inb t 1) (k1_off319_inb t 1),
       cpiece d L sR0 g (k1_off318 t 1#32) (k1_off317 t 1#32) (k1_off318_inb t 1) (k1_off317_inb t 1),
       cpiece d L sR0 g (k1_off316 t 1#32) (k1_off315 t 1#32) (k1_off316_inb t 1) (k1_off315_inb t 1),
       cpiece d L sR0 g (k1_off322 t 0#32) (k1_off321 t 0#32) (k1_off322_inb t 0) (k1_off321_inb t 0),
       cpiece d L sR0 g (k1_off320 t 0#32) (k1_off319 t 0#32) (k1_off320_inb t 0) (k1_off319_inb t 0),
       cpiece d L sR0 g (k1_off318 t 0#32) (k1_off317 t 0#32) (k1_off318_inb t 0) (k1_off317_inb t 0),
       cpiece d L sR0 g (k1_off316 t 0#32) (k1_off315 t 0#32) (k1_off316_inb t 0) (k1_off315_inb t 0)])) (t.val + 1) := by
  have h1 := row_step_cons d L sR0 sC1 g f [] (8 * t.val + 0) (k1_off316 t 0#32) (k1_off318 t 0#32) (k1_off320 t 0#32) (k1_off322 t 0#32) (k1_off315 t 0#32) (k1_off317 t 0#32) (k1_off319 t 0#32) (k1_off321 t 0#32)
    (k1_off316_eq t 0) (k1_off318_eq t 0) (k1_off320_eq t 0) (k1_off322_eq t 0) (k1_off315_eq t 0) (k1_off317_eq t 0) (k1_off319_eq t 0) (k1_off321_eq t 0)
    (k1_off316_inb t 0) (k1_off318_inb t 0) (k1_off320_inb t 0) (k1_off322_inb t 0) (k1_off315_inb t 0) (k1_off317_inb t 0) (k1_off319_inb t 0) (k1_off321_inb t 0) ((compacted_iff_rows _ _ _).1 hC)
  have h2 := row_step_cons d L sR0 sC1 g f _ (8 * t.val + 1) (k1_off316 t 1#32) (k1_off318 t 1#32) (k1_off320 t 1#32) (k1_off322 t 1#32) (k1_off315 t 1#32) (k1_off317 t 1#32) (k1_off319 t 1#32) (k1_off321 t 1#32)
    (k1_off316_eq t 1) (k1_off318_eq t 1) (k1_off320_eq t 1) (k1_off322_eq t 1) (k1_off315_eq t 1) (k1_off317_eq t 1) (k1_off319_eq t 1) (k1_off321_eq t 1)
    (k1_off316_inb t 1) (k1_off318_inb t 1) (k1_off320_inb t 1) (k1_off322_inb t 1) (k1_off315_inb t 1) (k1_off317_inb t 1) (k1_off319_inb t 1) (k1_off321_inb t 1) h1
  have h3 := row_step_cons d L sR0 sC1 g f _ (8 * t.val + 2) (k1_off316 t 2#32) (k1_off318 t 2#32) (k1_off320 t 2#32) (k1_off322 t 2#32) (k1_off315 t 2#32) (k1_off317 t 2#32) (k1_off319 t 2#32) (k1_off321 t 2#32)
    (k1_off316_eq t 2) (k1_off318_eq t 2) (k1_off320_eq t 2) (k1_off322_eq t 2) (k1_off315_eq t 2) (k1_off317_eq t 2) (k1_off319_eq t 2) (k1_off321_eq t 2)
    (k1_off316_inb t 2) (k1_off318_inb t 2) (k1_off320_inb t 2) (k1_off322_inb t 2) (k1_off315_inb t 2) (k1_off317_inb t 2) (k1_off319_inb t 2) (k1_off321_inb t 2) h2
  have h4 := row_step_cons d L sR0 sC1 g f _ (8 * t.val + 3) (k1_off316 t 3#32) (k1_off318 t 3#32) (k1_off320 t 3#32) (k1_off322 t 3#32) (k1_off315 t 3#32) (k1_off317 t 3#32) (k1_off319 t 3#32) (k1_off321 t 3#32)
    (k1_off316_eq t 3) (k1_off318_eq t 3) (k1_off320_eq t 3) (k1_off322_eq t 3) (k1_off315_eq t 3) (k1_off317_eq t 3) (k1_off319_eq t 3) (k1_off321_eq t 3)
    (k1_off316_inb t 3) (k1_off318_inb t 3) (k1_off320_inb t 3) (k1_off322_inb t 3) (k1_off315_inb t 3) (k1_off317_inb t 3) (k1_off319_inb t 3) (k1_off321_inb t 3) h3
  have h5 := row_step_cons d L sR0 sC1 g f _ (8 * t.val + 4) (k1_off316 t 4#32) (k1_off318 t 4#32) (k1_off320 t 4#32) (k1_off322 t 4#32) (k1_off315 t 4#32) (k1_off317 t 4#32) (k1_off319 t 4#32) (k1_off321 t 4#32)
    (k1_off316_eq t 4) (k1_off318_eq t 4) (k1_off320_eq t 4) (k1_off322_eq t 4) (k1_off315_eq t 4) (k1_off317_eq t 4) (k1_off319_eq t 4) (k1_off321_eq t 4)
    (k1_off316_inb t 4) (k1_off318_inb t 4) (k1_off320_inb t 4) (k1_off322_inb t 4) (k1_off315_inb t 4) (k1_off317_inb t 4) (k1_off319_inb t 4) (k1_off321_inb t 4) h4
  have h6 := row_step_cons d L sR0 sC1 g f _ (8 * t.val + 5) (k1_off316 t 5#32) (k1_off318 t 5#32) (k1_off320 t 5#32) (k1_off322 t 5#32) (k1_off315 t 5#32) (k1_off317 t 5#32) (k1_off319 t 5#32) (k1_off321 t 5#32)
    (k1_off316_eq t 5) (k1_off318_eq t 5) (k1_off320_eq t 5) (k1_off322_eq t 5) (k1_off315_eq t 5) (k1_off317_eq t 5) (k1_off319_eq t 5) (k1_off321_eq t 5)
    (k1_off316_inb t 5) (k1_off318_inb t 5) (k1_off320_inb t 5) (k1_off322_inb t 5) (k1_off315_inb t 5) (k1_off317_inb t 5) (k1_off319_inb t 5) (k1_off321_inb t 5) h5
  have h7 := row_step_cons d L sR0 sC1 g f _ (8 * t.val + 6) (k1_off316 t 6#32) (k1_off318 t 6#32) (k1_off320 t 6#32) (k1_off322 t 6#32) (k1_off315 t 6#32) (k1_off317 t 6#32) (k1_off319 t 6#32) (k1_off321 t 6#32)
    (k1_off316_eq t 6) (k1_off318_eq t 6) (k1_off320_eq t 6) (k1_off322_eq t 6) (k1_off315_eq t 6) (k1_off317_eq t 6) (k1_off319_eq t 6) (k1_off321_eq t 6)
    (k1_off316_inb t 6) (k1_off318_inb t 6) (k1_off320_inb t 6) (k1_off322_inb t 6) (k1_off315_inb t 6) (k1_off317_inb t 6) (k1_off319_inb t 6) (k1_off321_inb t 6) h6
  have h8 := row_step_cons d L sR0 sC1 g f _ (8 * t.val + 7) (k1_off316 t 7#32) (k1_off318 t 7#32) (k1_off320 t 7#32) (k1_off322 t 7#32) (k1_off315 t 7#32) (k1_off317 t 7#32) (k1_off319 t 7#32) (k1_off321 t 7#32)
    (k1_off316_eq t 7) (k1_off318_eq t 7) (k1_off320_eq t 7) (k1_off322_eq t 7) (k1_off315_eq t 7) (k1_off317_eq t 7) (k1_off319_eq t 7) (k1_off321_eq t 7)
    (k1_off316_inb t 7) (k1_off318_inb t 7) (k1_off320_inb t 7) (k1_off322_inb t 7) (k1_off315_inb t 7) (k1_off317_inb t 7) (k1_off319_inb t 7) (k1_off321_inb t 7) h7
  intro r c hr
  exact h8 r c (by omega)

end Cert.Proof.KI

end
-- ==== Proof.KI.TilePiece.lean ====
/-
  A chunk of the gathered array written whole from a compacted buffer: if the buffer holds chunk n of the gathered
  rows — row r the first 64 columns of the table row that entry r of index row n names — then the gathered array,
  overwritten with it on the 128 rows from row 128 n, agrees there with the gathered rows; row 128 n + r of the
  gathered array reads index row n at column r.
-/
import proofs.«217222_g83150566851320_cont_9to1_m_45_25_alg».proof.Proof.KI.TileDefs

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix2 ix3)

variable {F : FTy → Type} [FloatOps F]

variable (d : Dev nD) (L : grid1.Coords)

/-- The subcore's chunks are among the 6400. -/
theorem chunkNo_lt (k : Fin k1_t1_loop.trips) (q : Fin 40) : chunkNo L k.val q.val < 6400 := by
  have h0 : (L 0).val < 2 := (L 0).isLt
  have h1 : (L 1).val < 16 := (L 1).isLt
  have hk : k.val < 5 := lt_of_lt_of_le k.isLt k1_t1_abs.2.1
  have hq : q.val < 40 := q.isLt
  show 200 * (2 * (L 1).val + (L 0).val) + 40 * k.val + q.val < 6400
  omega

/-- Chunk q of group k starts at row 128 times its number. -/
theorem outK_row0 (k : Fin k1_t1_loop.trips) (q : Fin 40) :
    (k1_off10 L k (BitVec.ofNat 32 (128 * q.val))) 0 = 128 * chunkNo L k.val q.val := by
  rw [k1_off10_eq]
  show 51200 * (L 1).val + 25600 * (L 0).val + 5120 * k.val + 128 * q.val = 128 * (200 * (2 * (L 1).val + (L 0).val) + 40 * k.val + q.val)
  omega
theorem outK_col0 (k : Fin k1_t1_loop.trips) (q : Fin 40) :
    (k1_off10 L k (BitVec.ofNat 32 (128 * q.val))) 1 = 0 := by
  rw [k1_off10_eq]; rfl

section Piece

variable (ft : FVec F S100000x128 .f32) (fi : IVec S6400x128 32)

/-- The gathered rows at an element of chunk q of group k, through the chunk's own coordinates. -/
theorem gathered_outK (k : Fin k1_t1_loop.trips) (q : Fin 40) (r : Fin 128) (c : Fin 64) :
    gathered ft fi ((outK L k q).view.emb (ix2 (n0 := 128) (n1 := 64) r c))
      = ft (ix2 (n0 := 100000) (n1 := 128)
          (Cert.Spec.rowOf (fi (ix2 (n0 := 6400) (n1 := 128) ⟨chunkNo L k.val q.val, chunkNo_lt L k q⟩ r))) (c.castLE (by decide))) := by
  have e0 : (((outK L k q).view.emb (ix2 (n0 := 128) (n1 := 64) r c)) 0).val = 128 * chunkNo L k.val q.val + r.val := by
    show (k1_off10 L k (BitVec.ofNat 32 (128 * q.val))) 0 + 1 * r.val = _
    rw [outK_row0]; omega
  have e1 : (((outK L k q).view.emb (ix2 (n0 := 128) (n1 := 64) r c)) 1).val = c.val := by
    show (k1_off10 L k (BitVec.ofNat 32 (128 * q.val))) 1 + 1 * c.val = _
    rw [outK_col0]; omega
  have hr : r.val < 128 := r.isLt
  unfold gathered
  refine congrArg ft (congrArg₂ (ix2 (n0 := 100000) (n1 := 128)) (congrArg Cert.Spec.rowOf (congrArg fi
    (congrArg₂ (ix2 (n0 := 6400) (n1 := 128)) (Fin.ext ?_) (Fin.ext ?_)))) (Fin.ext ?_))
  · show (((outK L k q).view.emb (ix2 (n0 := 128) (n1 := 64) r c)) 0).val / 128 = chunkNo L k.val q.val
    rw [e0]; omega
  · show (((outK L k q).view.emb (ix2 (n0 := 128) (n1 := 64) r c)) 0).val % 128 = r.val
    rw [e0]; omega
  · show (((outK L k q).view.emb (ix2 (n0 := 128) (n1 := 64) r c)) 1).val = c.val
    exact e1

/-- Chunk q of group k written whole with a buffer that holds that chunk of the gathered rows agrees, on the chunk,
    with the gathered rows, whatever the array held. -/
theorem piece_eq (k : Fin k1_t1_loop.trips) (q : Fin 40) (w : FVec F S128x64 .f32)
    (hc : ChunkOf ft fi (chunkNo L k.val q.val) w) (fo : Buf (Elt F) ((outK L k q).view.loc (thr d L))) :
    ∀ i ∈ (outK L k q).view.set, (outK L k q).view.write (Elt F) fo w Finset.univ i = gathered ft fi i := by
  intro i hi
  obtain ⟨x, -, rfl⟩ := Finset.mem_map.mp hi
  rw [View.write_emb_of_mem _ _ (Finset.mem_univ x)]
  obtain ⟨r, c, rfl⟩ : ∃ (r : Fin 128) (c : Fin 64), x = ix2 r c := ⟨x 0, x 1, ValueIdx.eq_ix2 x⟩
  rw [gathered_outK]
  exact hc r c (chunkNo_lt L k q)

/-- The same with the payload as a local copy moves it: what the compacted buffer dst reads. -/
theorem piece_eq_copy (k : Fin k1_t1_loop.trips) (q : Fin 40) (dst : Memref sig .scVector .vmem S128x64 .f32)
    (f : Buf (Elt F) (dst.view.loc (thr d L))) (hc : ChunkOf ft fi (chunkNo L k.val q.val) (dst.view.read (Elt F) f))
    (fo : Buf (Elt F) ((outK L k q).view.loc (thr d L))) :
    ∀ i ∈ (outK L k q).view.set,
      (outK L k q).view.write (Elt F) fo (ReadAs.same.apply (dst.view.read (Elt F) f)) Finset.univ i = gathered ft fi i :=
  piece_eq d L ft fi k q _ hc fo

/-- and with it as one whole-rectangle write of a list of writes. -/
theorem piece_eq_writes (k : Fin k1_t1_loop.trips) (q : Fin 40) (w : FVec F S128x64 .f32)
    (hc : ChunkOf ft fi (chunkNo L k.val q.val) w) (fo : Buf (Elt F) ((outK L k q).view.loc (thr d L))) :
    ∀ i ∈ (outK L k q).view.set,
      (outK L k q).view.writes (Elt F) fo [⟨Rect.whole S128x64, w⟩] i = gathered ft fi i := by
  intro i hi
  obtain ⟨x, -, rfl⟩ := Finset.mem_map.mp hi
  obtain ⟨r, c, rfl⟩ : ∃ (r : Fin 128) (c : Fin 64), x = ix2 r c := ⟨x 0, x 1, ValueIdx.eq_ix2 x⟩
  have hx : (outK L k q).view.read (Elt F) ((outK L k q).view.writes (Elt F) fo [⟨Rect.whole S128x64, w⟩]) ((Rect.whole S128x64).emb (ix2 r c)) = w (ix2 r c) :=
    View.read_writes_cons_emb _ _ _ _ _ _
  rw [Rect.emb_whole_apply] at hx
  exact (show (outK L k q).view.writes (Elt F) fo [⟨Rect.whole S128x64, w⟩] ((outK L k q).view.emb (ix2 r c)) = w (ix2 r c) from hx).trans
    ((hc r c (chunkNo_lt L k q)).trans (gathered_outK L ft fi k q r c).symm)

end Piece

/-! ## As points-tos -/

section Pts

variable (m : (ℓ : Loc nD τ sig) → Buf (Elt F) ℓ)

/-- The chunk, held whole at the array overwritten with a buffer that holds the chunk of the gathered rows of the
    scaled table by the index rows, is held at the gathered rows. -/
theorem pts_piece (k : Fin k1_t1_loop.trips) (q : Fin 40) (w : FVec F S128x64 .f32)
    (hc : ChunkOf (TAB m d) (IDX m d) (chunkNo L k.val q.val) w) (fo : Buf (Elt F) ((outK L k q).view.loc (thr d L))) :
    ((outK L k q).view.loc (thr d L) ↦[(outK L k q).view.set]{fullShare} (outK L k q).view.write (Elt F) fo w Finset.univ : sProp (MM F))
      = ((outK L k q).view.loc (thr d L) ↦[(outK L k q).view.set]{fullShare} OUT m d) :=
  pointsTo_congr (piece_eq d L (TAB m d) (IDX m d) k q w hc fo)

theorem pts_piece_copy (k : Fin k1_t1_loop.trips) (q : Fin 40) (dst : Memref sig .scVector .vmem S128x64 .f32)
    (f : Buf (Elt F) (dst.view.loc (thr d L))) (hc : ChunkOf (TAB m d) (IDX m d) (chunkNo L k.val q.val) (dst.view.read (Elt F) f))
    (fo : Buf (Elt F) ((outK L k q).view.loc (thr d L))) :
    ((outK L k q).view.loc (thr d L) ↦[(outK L k q).view.set]{fullShare}
        (outK L k q).view.write (Elt F) fo (ReadAs.same.apply (dst.view.read (Elt F) f)) Finset.univ : sProp (MM F))
      = ((outK L k q).view.loc (thr d L) ↦[(outK L k q).view.set]{fullShare} OUT m d) :=
  pts_piece d L m k q _ hc fo

/-- The same for the chunk written as one whole-rectangle write of a list of writes, whatever the array held. -/
theorem pts_piece_writes (k : Fin k1_t1_loop.trips) (q : Fin 40) (w : FVec F S128x64 .f32)
    (hc : ChunkOf (TAB m d) (IDX m d) (chunkNo L k.val q.val) w) (fo : Buf (Elt F) ((outK L k q).view.loc (thr d L))) :
    ((outK L k q).view.loc (thr d L) ↦[(outK L k q).view.set]{fullShare}
        (outK L k q).view.writes (Elt F) fo [⟨Rect.whole S128x64, w⟩] : sProp (MM F))
      = ((outK L k q).view.loc (thr d L) ↦[(outK L k q).view.set]{fullShare} OUT m d) :=
  pointsTo_congr (piece_eq_writes d L (TAB m d) (IDX m d) k q w hc fo)

theorem pts_piece_writes_copy (k : Fin k1_t1_loop.trips) (q : Fin 40) (dst : Memref sig .scVector .vmem S128x64 .f32)
    (f : Buf (Elt F) (dst.view.loc (thr d L))) (hc : ChunkOf (TAB m d) (IDX m d) (chunkNo L k.val q.val) (dst.view.read (Elt F) f))
    (fo : Buf (Elt F) ((outK L k q).view.loc (thr d L))) :
    ((outK L k q).view.loc (thr d L) ↦[(outK L k q).view.set]{fullShare}
        (outK L k q).view.writes (Elt F) fo [⟨Rect.whole S128x64, ReadAs.same.apply (dst.view.read (Elt F) f)⟩] : sProp (MM F))
      = ((outK L k q).view.loc (thr d L) ↦[(outK L k q).view.set]{fullShare} OUT m d) :=
  pts_piece_writes d L m k q _ hc fo

theorem pts_piece_writes_read (k : Fin k1_t1_loop.trips) (q : Fin 40) (dst : Memref sig .scVector .vmem S128x64 .f32)
    (f : Buf (Elt F) (dst.view.loc (thr d L))) (hc : ChunkOf (TAB m d) (IDX m d) (chunkNo L k.val q.val) (dst.view.read (Elt F) f))
    (fo : Buf (Elt F) ((outK L k q).view.loc (thr d L))) :
    ((outK L k q).view.loc (thr d L) ↦[(outK L k q).view.set]{fullShare}
        (outK L k q).view.writes (Elt F) fo [⟨Rect.whole S128x64, dst.view.read (Elt F) f⟩] : sProp (MM F))
      = ((outK L k q).view.loc (thr d L) ↦[(outK L k q).view.set]{fullShare} OUT m d) :=
  pts_piece_writes d L m k q _ hc fo

end Pts

end Cert.Proof.KI

end
-- ==== Proof.KI.TileAux.lean ====
/-
  Two small facts for the vector subcore's task: a wait recorded at the kernel's own index keeps the bound on the
  recorded waits, and the tokens laid out in rows of 128 are the same words, so they name rows of the table when the
  tokens do.
-/
import proofs.«217222_g83150566851320_cont_9to1_m_45_25_alg».proof.Proof.KI.TileDefs

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix2 ix3)
open Idealize.ShloMosaic.Transfers (shareTok shareTokN shareDrop)

variable {F : FTy → Type} [FloatOps F]

theorem waits_insert {W W' : Waits sig (HIx 1)} {a : SemLoc sig × HIx 1} (ha : a.2 = none)
    (h : ∀ p ∈ W', p ∈ W ∨ p.2 = none) : ∀ p ∈ insert a W', p ∈ W ∨ p.2 = none := by
  intro p hp
  rcases Finset.mem_insert.mp hp with rfl | hp
  · exact .inr ha
  · exact h p hp

theorem idxRows_range {tok : IVec S4096x200 32} (h : Cert.Spec.InRange tok) : ∀ i, (idxRows tok i).toNat < 100000 :=
  fun _ => h _

end Cert.Proof.KI

end
-- ==== Proof.KI.TileBody.lean ====
/-
  A vector subcore's task, run: for each of its five groups it copies the group's 40 index rows into its scratch, then,
  chunk by chunk, gathers the 128 table rows an index row names into a landing buffer (three in rotation, two gathers
  ahead), compacts their first 64 columns into a compacted buffer (two in rotation) and copies that out to the chunk's
  128 rows of the gathered array. Every chunk of the group ends at the gathered rows: a landing buffer's row r is the
  table row the r-th word of the chunk's index row names, the compaction keeps columns 0 to 63, and the copy writes
  the chunk whole.
-/
import proofs.«217222_g83150566851320_cont_9to1_m_45_25_alg».proof.Proof.KI.TilePlumb
import proofs.«217222_g83150566851320_cont_9to1_m_45_25_alg».proof.Proof.KI.TileVal2a
import proofs.«217222_g83150566851320_cont_9to1_m_45_25_alg».proof.Proof.KI.TileVal2b
import proofs.«217222_g83150566851320_cont_9to1_m_45_25_alg».proof.Proof.KI.TileVal2c
import proofs.«217222_g83150566851320_cont_9to1_m_45_25_alg».proof.Proof.KI.TileVal2d
import proofs.«217222_g83150566851320_cont_9to1_m_45_25_alg».proof.Proof.KI.TilePiece
import proofs.«217222_g83150566851320_cont_9to1_m_45_25_alg».proof.Proof.KI.TileAux

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix2 ix3)
open Idealize.ShloMosaic.Transfers (shareTok shareTokN shareDrop)

variable {F : FTy → Type} [FloatOps F]

local notation "𝕄" => MM F

variable (m : (ℓ : Loc nD τ sig) → Buf (Elt F) ℓ) (d : Dev nD) (L : grid1.Coords)

/-- The invariant of a chunk's compaction loop: the landing buffer src unchanged, its rows the table rows that index
    row n names; the compacted buffer dst with its first 8·t rows done. -/
def invC' (ft : FVec F S100000x128 .f32) (fi : IVec S6400x128 32) (n : ℕ)
    (src : Memref sig .scVector .vmem S128x128 .f32) (dst : Memref sig .scVector .vmem S128x64 .f32) (t : Nat) (_ : PUnit) : sProp 𝕄 :=
  iprop(∃ g : Buf (Elt F) (src.view.loc (thr d L)), (src.view.loc (thr d L) ↦{fullShare} g) ∗ ⌜RowsOf ft fi n (src.view.read (Elt F) g)⌝
    ∗ ∃ f : Buf (Elt F) (dst.view.loc (thr d L)), (dst.view.loc (thr d L) ↦{fullShare} f) ∗ ⌜Compacted (src.view.read (Elt F) g) (dst.view.read (Elt F) f) t⌝)

/-- A group's 40 chunks of the gathered array: still to be written, and written. -/
def OutTodo (k : Fin k1_t1_loop.trips) : sProp 𝕄 :=
  bigSep Finset.univ fun q : Fin 40 => iprop(∃ f, (outK L k q).view.loc (thr d L) ↦[(outK L k q).view.set]{fullShare} f)
def OutDone (k : Fin k1_t1_loop.trips) : sProp 𝕄 :=
  bigSep Finset.univ fun q : Fin 40 => (outK L k q).view.loc (thr d L) ↦[(outK L k q).view.set]{fullShare} OUT m d

/-- The invariant of the loop over the groups: the table under the three gather cells' read tokens, the index rows
    under the subcore's read share, the first n groups' chunks written, the scratch and the semaphores at rest. -/
def invO (O : CellTallies nD τ sig (HIx 1)) (W : Waits sig (HIx 1)) (n : Nat) (_ : PUnit) : sProp 𝕄 :=
  iprop(Transfers.MayWaits (thr d L) (none : HIx 1) O
    ∗ ((tabV : Memref sig .scVector .hbm S100000x128 .f32).view.loc (thr d L) ↦{shareTokN (tok (cV L) (jV L)) 4} TAB m d)
    ∗ ((tabV : Memref sig .scVector .hbm S100000x128 .f32).view.loc (thr d L) ↦{shareTokN (tok (cV L) (jV L)) 5} TAB m d)
    ∗ ((tabV : Memref sig .scVector .hbm S100000x128 .f32).view.loc (thr d L) ↦{shareTokN (tok (cV L) (jV L)) 6} TAB m d)
    ∗ ((idxV : Memref sig .scVector .hbm S6400x128 .i32).view.loc (thr d L) ↦{tok (cV L) (jV L)} IDX m d)
    ∗ (bigSep Finset.univ fun k' : Fin k1_t1_loop.trips => if k'.val < n then OutDone m d L k' else OutTodo d L k')
    ∗ SCR d L ∗ SEM d L
    ∗ ∃ W', owes (thr d L) O W' ∗ ⌜∀ p ∈ W', p ∈ W ∨ p.2 = none⌝)

set_option maxHeartbeats 40000000 in
/-- The task of the vector subcore at L: from its share of the call's operands, its scratch and semaphores at rest and
    what it owes the launch, to its 200 chunks at the gathered rows. -/
theorem tile_body (hr : ∀ d, Cert.Spec.InRange (m (tokLoc d))) (hF : (K (F := F)).Facts)
    (O : CellTallies nD τ sig (HIx 1)) (W : Waits sig (HIx 1)) (hO : ∀ g, O g none = 0) : BODY d L m O W := by
  unfold BODY
  simp only [cc1_gather_eq_skeleton]; unfold cc1_gather_skel
  iintro ⟨#Hlv, Hgo, Hscr, Hsem, HO⟩
  ihave Hmw := ((K (F := F)).mayWaits_none (thr := thr d L) hO) $$ Hlv
  ihave Hgo' := (go_split m d L).1 $$ Hgo
  icases Hgo' with ⟨Htab, Hidx, Hout⟩
  ihave Htab' := (tab_cells _ _ _).1 $$ Htab
  icases Htab' with ⟨Htabrest, Htab4, Htab5, Htab6⟩
  sl_exec
  sl_for (invO m d L O W) $$ [Hmw Htab4 Htab5 Htab6 Hidx Hout Hscr Hsem HO]
  case region =>
    intro k _
    unfold invO SCR SEM
    iintro ⟨#Hmw, Htab4, Htab5, Htab6, Hidx, Hout, ⟨⟨%f0, Hs0⟩, ⟨%f1, Hr0⟩, ⟨%f2, Hr1⟩, ⟨%f3, Hr2⟩, ⟨%f4, Hc0⟩, ⟨%f5, Hc1⟩⟩, ⟨H6, H7, H8, H9, H10, Hsc⟩, %W', HO, %hW'⟩
    ihave Hout' := (Entails.of_eq (prefix_take (OutDone m d L) (OutTodo d L) k)) $$ Hout
    icases Hout' with ⟨Hk, Hrest⟩
    unfold OutTodo
    ihave Hk' := (Entails.of_eq (bigSep_fin40 _)) $$ Hk
    icases Hk' with ⟨⟨%fo0, Ho0⟩, ⟨%fo1, Ho1⟩, ⟨%fo2, Ho2⟩, ⟨%fo3, Ho3⟩, ⟨%fo4, Ho4⟩, ⟨%fo5, Ho5⟩, ⟨%fo6, Ho6⟩, ⟨%fo7, Ho7⟩, ⟨%fo8, Ho8⟩, ⟨%fo9, Ho9⟩, ⟨%fo10, Ho10⟩, ⟨%fo11, Ho11⟩, ⟨%fo12, Ho12⟩, ⟨%fo13, Ho13⟩, ⟨%fo14, Ho14⟩, ⟨%fo15, Ho15⟩, ⟨%fo16, Ho16⟩, ⟨%fo17, Ho17⟩, ⟨%fo18, Ho18⟩, ⟨%fo19, Ho19⟩, ⟨%fo20, Ho20⟩, ⟨%fo21, Ho21⟩, ⟨%fo22, Ho22⟩, ⟨%fo23, Ho23⟩, ⟨%fo24, Ho24⟩, ⟨%fo25, Ho25⟩, ⟨%fo26, Ho26⟩, ⟨%fo27, Ho27⟩, ⟨%fo28, Ho28⟩, ⟨%fo29, Ho29⟩, ⟨%fo30, Ho30⟩, ⟨%fo31, Ho31⟩, ⟨%fo32, Ho32⟩, ⟨%fo33, Ho33⟩, ⟨%fo34, Ho34⟩, ⟨%fo35, Ho35⟩, ⟨%fo36, Ho36⟩, ⟨%fo37, Ho37⟩, ⟨%fo38, Ho38⟩, ⟨%fo39, Ho39⟩⟩
    have hin := hin_rows (F := F) d L (IDX m d) (idxRows_range (hr d)) k
    sl_exec_parts
    -- chunk 0: landing buffer 0, compacted buffer 0
    sl_for (invC' d L (TAB m d) (IDX m d) (chunkNo L k.val 0) sR0 sC0) $$ [Hr0 Hc0]
    case region =>
      intro t _
      unfold invC'
      iintro ⟨%g, Hs, %hg, %f, Hd, %hf⟩
      sl_exec_parts
      sl_step
      iexists g; isplitl [Hs]; · iexact Hs
      isplitr; · ipureintro; exact hg
      iexists _; isplitl [Hd]; · iexact Hd
      ipureintro
      sl_unfold_run_names
      exact compact_step_t2 d L t g f hf
    · unfold invC'
      iexists _; isplitl [Hr0]; · iexact Hr0
      isplitr
      · ipureintro
        sl_unfold_run_names
        exact rows_value d L sR0 (TAB m d) (IDX m d) k ⟨0, by decide⟩ _ _ _ _ _
      iexists _; isplitl [Hc0]; · iexact Hc0
      ipureintro; exact fun r c h => absurd h (by omega)
    iintro %_ HI
    unfold invC'
    icases HI with ⟨%g0, Hr0, %hg0, %c0, Hc0, %hc0⟩
    sl_exec_parts
    -- chunk 1: landing buffer 1, compacted buffer 1
    sl_for (invC' d L (TAB m d) (IDX m d) (chunkNo L k.val 1) sR1 sC1) $$ [Hr1 Hc1]
    case region =>
      intro t _
      unfold invC'
      iintro ⟨%g, Hs, %hg, %f, Hd, %hf⟩
      sl_exec_parts
      sl_step
      iexists g; isplitl [Hs]; · iexact Hs
      isplitr; · ipureintro; exact hg
      iexists _; isplitl [Hd]; · iexact Hd
      ipureintro
      sl_unfold_run_names
      exact compact_step_t3 d L t g f hf
    · unfold invC'
      iexists _; isplitl [Hr1]; · iexact Hr1
      isplitr
      · ipureintro
        sl_unfold_run_names
        exact rows_value d L sR1 (TAB m d) (IDX m d) k ⟨1, by decide⟩ _ _ _ _ _
      iexists _; isplitl [Hc1]; · iexact Hc1
      ipureintro; exact fun r c h => absurd h (by omega)
    iintro %_ HI
    unfold invC'
    icases HI with ⟨%g1, Hr1, %hg1, %c1, Hc1, %hc1⟩
    sl_exec_parts
    -- chunk 2: landing buffer 2, compacted buffer 0
    sl_for (invC' d L (TAB m d) (IDX m d) (chunkNo L k.val 2) sR2 sC0) $$ [Hr2 Hc0]
    case region =>
      intro t _
      unfold invC'
      iintro ⟨%g, Hs, %hg, %f, Hd, %hf⟩
      sl_exec_parts
      sl_step
      iexists g; isplitl [Hs]; · iexact Hs
      isplitr; · ipureintro; exact hg
      iexists _; isplitl [Hd]; · iexact Hd
      ipureintro
      sl_unfold_run_names
      exact compact_step_t4 d L t g f hf
    · unfold invC'
      iexists _; isplitl [Hr2]; · iexact Hr2
      isplitr
      · ipureintro
        sl_unfold_run_names
        exact rows_value d L sR2 (TAB m d) (IDX m d) k ⟨2, by decide⟩ _ _ _ _ _
      iexists _; isplitl [Hc0]; · iexact Hc0
      ipureintro; exact fun r c h => absurd h (by omega)
    iintro %_ HI
    unfold invC'
    icases HI with ⟨%g2, Hr2, %hg2, %c2, Hc0, %hc2⟩
    sl_exec_parts
    -- chunk 3: landing buffer 0, compacted buffer 1
    sl_for (invC' d L (TAB m d) (IDX m d) (chunkNo L k.val 3) sR0 sC1) $$ [Hr0 Hc1]
    case region =>
      intro t _
      unfold invC'
      iintro ⟨%g, Hs, %hg, %f, Hd, %hf⟩
      sl_exec_parts
      sl_step
      iexists g; isplitl [Hs]; · iexact Hs
      isplitr; · ipureintro; exact hg
      iexists _; isplitl [Hd]; · iexact Hd
      ipureintro
      sl_unfold_run_names
      exact compact_step_t5 d L t g f hf
    · unfold invC'
      iexists _; isplitl [Hr0]; · iexact Hr0
      isplitr
      · ipureintro
        sl_unfold_run_names
        exact rows_value d L sR0 (TAB m d) (IDX m d) k ⟨3, by decide⟩ _ _ _ _ _
      iexists _; isplitl [Hc1]; · iexact Hc1
      ipureintro; exact fun r c h => absurd h (by omega)
    iintro %_ HI
    unfold invC'
    icases HI with ⟨%g3, Hr0, %hg3, %c3, Hc1, %hc3⟩
    sl_exec_parts
    -- chunk 4: landing buffer 1, compacted buffer 0
    sl_for (invC' d L (TAB m d) (IDX m d) (chunkNo L k.val 4) sR1 sC0) $$ [Hr1 Hc0]
    case region =>
      intro t _
      unfold invC'
      iintro ⟨%g, Hs, %hg, %f, Hd, %hf⟩
      sl_exec_parts
      sl_step
      iexists g; isplitl [Hs]; · iexact Hs
      isplitr; · ipureintro; exact hg
      iexists _; isplitl [Hd]; · iexact Hd
      ipureintro
      sl_unfold_run_names
      exact compact_step_t6 d L t g f hf
    · unfold invC'
      iexists _; isplitl [Hr1]; · iexact Hr1
      isplitr
      · ipureintro
        sl_unfold_run_names
        exact rows_value d L sR1 (TAB m d) (IDX m d) k ⟨4, by decide⟩ _ _ _ _ _
      iexists _; isplitl [Hc0]; · iexact Hc0
      ipureintro; exact fun r c h => absurd h (by omega)
    iintro %_ HI
    unfold invC'
    icases HI with ⟨%g4, Hr1, %hg4, %c4, Hc0, %hc4⟩
    sl_exec_parts
    -- chunk 5: landing buffer 2, compacted buffer 1
    sl_for (invC' d L (TAB m d) (IDX m d) (chunkNo L k.val 5) sR2 sC1) $$ [Hr2 Hc1]
    case region =>
      intro t _
      unfold invC'
      iintro ⟨%g, Hs, %hg, %f, Hd, %hf⟩
      sl_exec_parts
      sl_step
      iexists g; isplitl [Hs]; · iexact Hs
      isplitr; · ipureintro; exact hg
      iexists _; isplitl [Hd]; · iexact Hd
      ipureintro
      sl_unfold_run_names
      exact compact_step_t7 d L t g f hf
    · unfold invC'
      iexists _; isplitl [Hr2]; · iexact Hr2
      isplitr
      · ipureintro
        sl_unfold_run_names
        exact rows_value d L sR2 (TAB m d) (IDX m d) k ⟨5, by decide⟩ _ _ _ _ _
      iexists _; isplitl [Hc1]; · iexact Hc1
      ipureintro; exact fun r c h => absurd h (by omega)
    iintro %_ HI
    unfold invC'
    icases HI with ⟨%g5, Hr2, %hg5, %c5, Hc1, %hc5⟩
    sl_exec_parts
    -- chunk 6: landing buffer 0, compacted buffer 0
    sl_for (invC' d L (TAB m d) (IDX m d) (chunkNo L k.val 6) sR0 sC0) $$ [Hr0 Hc0]
    case region =>
      intro t _
      unfold invC'
      iintro ⟨%g, Hs, %hg, %f, Hd, %hf⟩
      sl_exec_parts
      sl_step
      iexists g; isplitl [Hs]; · iexact Hs
      isplitr; · ipureintro; exact hg
      iexists _; isplitl [Hd]; · iexact Hd
      ipureintro
      sl_unfold_run_names
      exact compact_step_t8 d L t g f hf
    · unfold invC'
      iexists _; isplitl [Hr0]; · iexact Hr0
      isplitr
      · ipureintro
        sl_unfold_run_names
        exact rows_value d L sR0 (TAB m d) (IDX m d) k ⟨6, by decide⟩ _ _ _ _ _
      iexists _; isplitl [Hc0]; · iexact Hc0
      ipureintro; exact fun r c h => absurd h (by omega)
    iintro %_ HI
    unfold invC'
    icases HI with ⟨%g6, Hr0, %hg6, %c6, Hc0, %hc6⟩
    sl_exec_parts
    -- chunk 7: landing buffer 1, compacted buffer 1
    sl_for (invC' d L (TAB m d) (IDX m d) (chunkNo L k.val 7) sR1 sC1) $$ [Hr1 Hc1]
    case region =>
      intro t _
      unfold invC'
      iintro ⟨%g, Hs, %hg, %f, Hd, %hf⟩
      sl_exec_parts
      sl_step
      iexists g; isplitl [Hs]; · iexact Hs
      isplitr; · ipureintro; exact hg
      iexists _; isplitl [Hd]; · iexact Hd
      ipureintro
      sl_unfold_run_names
      exact compact_step_t9 d L t g f hf
    · unfold invC'
      iexists _; isplitl [Hr1]; · iexact Hr1
      isplitr
      · ipureintro
        sl_unfold_run_names
        exact rows_value d L sR1 (TAB m d) (IDX m d) k ⟨7, by decide⟩ _ _ _ _ _
      iexists _; isplitl [Hc1]; · iexact Hc1
      ipureintro; exact fun r c h => absurd h (by omega)
    iintro %_ HI
    unfold invC'
    icases HI with ⟨%g7, Hr1, %hg7, %c7, Hc1, %hc7⟩
    sl_exec_parts
    -- chunk 8: landing buffer 2, compacted buffer 0
    sl_for (invC' d L (TAB m d) (IDX m d) (chunkNo L k.val 8) sR2 sC0) $$ [Hr2 Hc0]
    case region =>
      intro t _
      unfold invC'
      iintro ⟨%g, Hs, %hg, %f, Hd, %hf⟩
      sl_exec_parts
      sl_step
      iexists g; isplitl [Hs]; · iexact Hs
      isplitr; · ipureintro; exact hg
      iexists _; isplitl [Hd]; · iexact Hd
      ipureintro
      sl_unfold_run_names
      exact compact_step_t10 d L t g f hf
    · unfold invC'
      iexists _; isplitl [Hr2]; · iexact Hr2
      isplitr
      · ipureintro
        sl_unfold_run_names
        exact rows_value d L sR2 (TAB m d) (IDX m d) k ⟨8, by decide⟩ _ _ _ _ _
      iexists _; isplitl [Hc0]; · iexact Hc0
      ipureintro; exact fun r c h => absurd h (by omega)
    iintro %_ HI
    unfold invC'
    icases HI with ⟨%g8, Hr2, %hg8, %c8, Hc0, %hc8⟩
    sl_exec_parts
    -- chunk 9: landing buffer 0, compacted buffer 1
    sl_for (invC' d L (TAB m d) (IDX m d) (chunkNo L k.val 9) sR0 sC1) $$ [Hr0 Hc1]
    case region =>
      intro t _
      unfold invC'
      iintro ⟨%g, Hs, %hg, %f, Hd, %hf⟩
      sl_exec_parts
      sl_step
      iexists g; isplitl [Hs]; · iexact Hs
      isplitr; · ipureintro; exact hg
      iexists _; isplitl [Hd]; · iexact Hd
      ipureintro
      sl_unfold_run_names
      exact compact_step_t11 d L t g f hf
    · unfold invC'
      iexists _; isplitl [Hr0]; · iexact Hr0
      isplitr
      · ipureintro
        sl_unfold_run_names
        exact rows_value d L sR0 (TAB m d) (IDX m d) k ⟨9, by decide⟩ _ _ _ _ _
      iexists _; isplitl [Hc1]; · iexact Hc1
      ipureintro; exact fun r c h => absurd h (by omega)
    iintro %_ HI
    unfold invC'
    icases HI with ⟨%g9, Hr0, %hg9, %c9, Hc1, %hc9⟩
    sl_exec_parts
    -- chunk 10: landing buffer 1, compacted buffer 0
    sl_for (invC' d L (TAB m d) (IDX m d) (chunkNo L k.val 10) sR1 sC0) $$ [Hr1 Hc0]
    case region =>
      intro t _
      unfold invC'
      iintro ⟨%g, Hs, %hg, %f, Hd, %hf⟩
      sl_exec_parts
      sl_step
      iexists g; isplitl [Hs]; · iexact Hs
      isplitr; · ipureintro; exact hg
      iexists _; isplitl [Hd]; · iexact Hd
      ipureintro
      sl_unfold_run_names
      exact compact_step_t12 d L t g f hf
    · unfold invC'
      iexists _; isplitl [Hr1]; · iexact Hr1
      isplitr
      · ipureintro
        sl_unfold_run_names
        exact rows_value d L sR1 (TAB m d) (IDX m d) k ⟨10, by decide⟩ _ _ _ _ _
      iexists _; isplitl [Hc0]; · iexact Hc0
      ipureintro; exact fun r c h => absurd h (by omega)
    iintro %_ HI
    unfold invC'
    icases HI with ⟨%g10, Hr1, %hg10, %c10, Hc0, %hc10⟩
    sl_exec_parts
    -- chunk 11: landing buffer 2, compacted buffer 1
    sl_for (invC' d L (TAB m d) (IDX m d) (chunkNo L k.val 11) sR2 sC1) $$ [Hr2 Hc1]
    case region =>
      intro t _
      unfold invC'
      iintro ⟨%g, Hs, %hg, %f, Hd, %hf⟩
      sl_exec_parts
      sl_step
      iexists g; isplitl [Hs]; · iexact Hs
      isplitr; · ipureintro; exact hg
      iexists _; isplitl [Hd]; · iexact Hd
      ipureintro
      sl_unfold_run_names
      exact compact_step_t13 d L t g f hf
    · unfold invC'
      iexists _; isplitl [Hr2]; · iexact Hr2
      isplitr
      · ipureintro
        sl_unfold_run_names
        exact rows_value d L sR2 (TAB m d) (IDX m d) k ⟨11, by decide⟩ _ _ _ _ _
      iexists _; isplitl [Hc1]; · iexact Hc1
      ipureintro; exact fun r c h => absurd h (by omega)
    iintro %_ HI
    unfold invC'
    icases HI with ⟨%g11, Hr2, %hg11, %c11, Hc1, %hc11⟩
    sl_exec_parts
    -- chunk 12: landing buffer 0, compacted buffer 0
    sl_for (invC' d L (TAB m d) (IDX m d) (chunkNo L k.val 12) sR0 sC0) $$ [Hr0 Hc0]
    case region =>
      intro t _
      unfold invC'
      iintro ⟨%g, Hs, %hg, %f, Hd, %hf⟩
      sl_exec_parts
      sl_step
      iexists g; isplitl [Hs]; · iexact Hs
      isplitr; · ipureintro; exact hg
      iexists _; isplitl [Hd]; · iexact Hd
      ipureintro
      sl_unfold_run_names
      exact compact_step_t14 d L t g f hf
    · unfold invC'
      iexists _; isplitl [Hr0]; · iexact Hr0
      isplitr
      · ipureintro
        sl_unfold_run_names
        exact rows_value d L sR0 (TAB m d) (IDX m d) k ⟨12, by decide⟩ _ _ _ _ _
      iexists _; isplitl [Hc0]; · iexact Hc0
      ipureintro; exact fun r c h => absurd h (by omega)
    iintro %_ HI
    unfold invC'
    icases HI with ⟨%g12, Hr0, %hg12, %c12, Hc0, %hc12⟩
    sl_exec_parts
    -- chunk 13: landing buffer 1, compacted buffer 1
    sl_for (invC' d L (TAB m d) (IDX m d) (chunkNo L k.val 13) sR1 sC1) $$ [Hr1 Hc1]
    case region =>
      intro t _
      unfold invC'
      iintro ⟨%g, Hs, %hg, %f, Hd, %hf⟩
      sl_exec_parts
      sl_step
      iexists g; isplitl [Hs]; · iexact Hs
      isplitr; · ipureintro; exact hg
      iexists _; isplitl [Hd]; · iexact Hd
      ipureintro
      sl_unfold_run_names
      exact compact_step_t15 d L t g f hf
    · unfold invC'
      iexists _; isplitl [Hr1]; · iexact Hr1
      isplitr
      · ipureintro
        sl_unfold_run_names
        exact rows_value d L sR1 (TAB m d) (IDX m d) k ⟨13, by decide⟩ _ _ _ _ _
      iexists _; isplitl [Hc1]; · iexact Hc1
      ipureintro; exact fun r c h => absurd h (by omega)
    iintro %_ HI
    unfold invC'
    icases HI with ⟨%g13, Hr1, %hg13, %c13, Hc1, %hc13⟩
    sl_exec_parts
    -- chunk 14: landing buffer 2, compacted buffer 0
    sl_for (invC' d L (TAB m d) (IDX m d) (chunkNo L k.val 14) sR2 sC0) $$ [Hr2 Hc0]
    case region =>
      intro t _
      unfold invC'
      iintro ⟨%g, Hs, %hg, %f, Hd, %hf⟩
      sl_exec_parts
      sl_step
      iexists g; isplitl [Hs]; · iexact Hs
      isplitr; · ipureintro; exact hg
      iexists _; isplitl [Hd]; · iexact Hd
      ipureintro
      sl_unfold_run_names
      exact compact_step_t16 d L t g f hf
    · unfold invC'
      iexists _; isplitl [Hr2]; · iexact Hr2
      isplitr
      · ipureintro
        sl_unfold_run_names
        exact rows_value d L sR2 (TAB m d) (IDX m d) k ⟨14, by decide⟩ _ _ _ _ _
      iexists _; isplitl [Hc0]; · iexact Hc0
      ipureintro; exact fun r c h => absurd h (by omega)
    iintro %_ HI
    unfold invC'
    icases HI with ⟨%g14, Hr2, %hg14, %c14, Hc0, %hc14⟩
    sl_exec_parts
    -- chunk 15: landing buffer 0, compacted buffer 1
    sl_for (invC' d L (TAB m d) (IDX m d) (chunkNo L k.val 15) sR0 sC1) $$ [Hr0 Hc1]
    case region =>
      intro t _
      unfold invC'
      iintro ⟨%g, Hs, %hg, %f, Hd, %hf⟩
      sl_exec_parts
      sl_step
      iexists g; isplitl [Hs]; · iexact Hs
      isplitr; · ipureintro; exact hg
      iexists _; isplitl [Hd]; · iexact Hd
      ipureintro
      sl_unfold_run_names
      exact compact_step_t17 d L t g f hf
    · unfold invC'
      iexists _; isplitl [Hr0]; · iexact Hr0
      isplitr
      · ipureintro
        sl_unfold_run_names
        exact rows_value d L sR0 (TAB m d) (IDX m d) k ⟨15, by decide⟩ _ _ _ _ _
      iexists _; isplitl [Hc1]; · iexact Hc1
      ipureintro; exact fun r c h => absurd h (by omega)
    iintro %_ HI
    unfold invC'
    icases HI with ⟨%g15, Hr0, %hg15, %c15, Hc1, %hc15⟩
    sl_exec_parts
    -- chunk 16: landing buffer 1, compacted buffer 0
    sl_for (invC' d L (TAB m d) (IDX m d) (chunkNo L k.val 16) sR1 sC0) $$ [Hr1 Hc0]
    case region =>
      intro t _
      unfold invC'
      iintro ⟨%g, Hs, %hg, %f, Hd, %hf⟩
      sl_exec_parts
      sl_step
      iexists g; isplitl [Hs]; · iexact Hs
      isplitr; · ipureintro; exact hg
      iexists _; isplitl [Hd]; · iexact Hd
      ipureintro
      sl_unfold_run_names
      exact compact_step_t18 d L t g f hf
    · unfold invC'
      iexists _; isplitl [Hr1]; · iexact Hr1
      isplitr
      · ipureintro
        sl_unfold_run_names
        exact rows_value d L sR1 (TAB m d) (IDX m d) k ⟨16, by decide⟩ _ _ _ _ _
      iexists _; isplitl [Hc0]; · iexact Hc0
      ipureintro; exact fun r c h => absurd h (by omega)
    iintro %_ HI
    unfold invC'
    icases HI with ⟨%g16, Hr1, %hg16, %c16, Hc0, %hc16⟩
    sl_exec_parts
    -- chunk 17: landing buffer 2, compacted buffer 1
    sl_for (invC' d L (TAB m d) (IDX m d) (chunkNo L k.val 17) sR2 sC1) $$ [Hr2 Hc1]
    case region =>
      intro t _
      unfold invC'
      iintro ⟨%g, Hs, %hg, %f, Hd, %hf⟩
      sl_exec_parts
      sl_step
      iexists g; isplitl [Hs]; · iexact Hs
      isplitr; · ipureintro; exact hg
      iexists _; isplitl [Hd]; · iexact Hd
      ipureintro
      sl_unfold_run_names
      exact compact_step_t19 d L t g f hf
    · unfold invC'
      iexists _; isplitl [Hr2]; · iexact Hr2
      isplitr
      · ipureintro
        sl_unfold_run_names
        exact rows_value d L sR2 (TAB m d) (IDX m d) k ⟨17, by decide⟩ _ _ _ _ _
      iexists _; isplitl [Hc1]; · iexact Hc1
      ipureintro; exact fun r c h => absurd h (by omega)
    iintro %_ HI
    unfold invC'
    icases HI with ⟨%g17, Hr2, %hg17, %c17, Hc1, %hc17⟩
    sl_exec_parts
    -- chunk 18: landing buffer 0, compacted buffer 0
    sl_for (invC' d L (TAB m d) (IDX m d) (chunkNo L k.val 18) sR0 sC0) $$ [Hr0 Hc0]
    case region =>
      intro t _
      unfold invC'
      iintro ⟨%g, Hs, %hg, %f, Hd, %hf⟩
      sl_exec_parts
      sl_step
      iexists g; isplitl [Hs]; · iexact Hs
      isplitr; · ipureintro; exact hg
      iexists _; isplitl [Hd]; · iexact Hd
      ipureintro
      sl_unfold_run_names
      exact compact_step_t20 d L t g f hf
    · unfold invC'
      iexists _; isplitl [Hr0]; · iexact Hr0
      isplitr
      · ipureintro
        sl_unfold_run_names
        exact rows_value d L sR0 (TAB m d) (IDX m d) k ⟨18, by decide⟩ _ _ _ _ _
      iexists _; isplitl [Hc0]; · iexact Hc0
      ipureintro; exact fun r c h => absurd h (by omega)
    iintro %_ HI
    unfold invC'
    icases HI with ⟨%g18, Hr0, %hg18, %c18, Hc0, %hc18⟩
    sl_exec_parts
    -- chunk 19: landing buffer 1, compacted buffer 1
    sl_for (invC' d L (TAB m d) (IDX m d) (chunkNo L k.val 19) sR1 sC1) $$ [Hr1 Hc1]
    case region =>
      intro t _
      unfold invC'
      iintro ⟨%g, Hs, %hg, %f, Hd, %hf⟩
      sl_exec_parts
      sl_step
      iexists g; isplitl [Hs]; · iexact Hs
      isplitr; · ipureintro; exact hg
      iexists _; isplitl [Hd]; · iexact Hd
      ipureintro
      sl_unfold_run_names
      exact compact_step_t21 d L t g f hf
    · unfold invC'
      iexists _; isplitl [Hr1]; · iexact Hr1
      isplitr
      · ipureintro
        sl_unfold_run_names
        exact rows_value d L sR1 (TAB m d) (IDX m d) k ⟨19, by decide⟩ _ _ _ _ _
      iexists _; isplitl [Hc1]; · iexact Hc1
      ipureintro; exact fun r c h => absurd h (by omega)
    iintro %_ HI
    unfold invC'
    icases HI with ⟨%g19, Hr1, %hg19, %c19, Hc1, %hc19⟩
    sl_exec_parts
    -- chunk 20: landing buffer 2, compacted buffer 0
    sl_for (invC' d L (TAB m d) (IDX m d) (chunkNo L k.val 20) sR2 sC0) $$ [Hr2 Hc0]
    case region =>
      intro t _
      unfold invC'
      iintro ⟨%g, Hs, %hg, %f, Hd, %hf⟩
      sl_exec_parts
      sl_step
      iexists g; isplitl [Hs]; · iexact Hs
      isplitr; · ipureintro; exact hg
      iexists _; isplitl [Hd]; · iexact Hd
      ipureintro
      sl_unfold_run_names
      exact compact_step_t22 d L t g f hf
    · unfold invC'
      iexists _; isplitl [Hr2]; · iexact Hr2
      isplitr
      · ipureintro
        sl_unfold_run_names
        exact rows_value d L sR2 (TAB m d) (IDX m d) k ⟨20, by decide⟩ _ _ _ _ _
      iexists _; isplitl [Hc0]; · iexact Hc0
      ipureintro; exact fun r c h => absurd h (by omega)
    iintro %_ HI
    unfold invC'
    icases HI with ⟨%g20, Hr2, %hg20, %c20, Hc0, %hc20⟩
    sl_exec_parts
    -- chunk 21: landing buffer 0, compacted buffer 1
    sl_for (invC' d L (TAB m d) (IDX m d) (chunkNo L k.val 21) sR0 sC1) $$ [Hr0 Hc1]
    case region =>
      intro t _
      unfold invC'
      iintro ⟨%g, Hs, %hg, %f, Hd, %hf⟩
      sl_exec_parts
      sl_step
      iexists g; isplitl [Hs]; · iexact Hs
      isplitr; · ipureintro; exact hg
      iexists _; isplitl [Hd]; · iexact Hd
      ipureintro
      sl_unfold_run_names
      exact compact_step_t23 d L t g f hf
    · unfold invC'
      iexists _; isplitl [Hr0]; · iexact Hr0
      isplitr
      · ipureintro
        sl_unfold_run_names
        exact rows_value d L sR0 (TAB m d) (IDX m d) k ⟨21, by decide⟩ _ _ _ _ _
      iexists _; isplitl [Hc1]; · iexact Hc1
      ipureintro; exact fun r c h => absurd h (by omega)
    iintro %_ HI
    unfold invC'
    icases HI with ⟨%g21, Hr0, %hg21, %c21, Hc1, %hc21⟩
    sl_exec_parts
    -- chunk 22: landing buffer 1, compacted buffer 0
    sl_for (invC' d L (TAB m d) (IDX m d) (chunkNo L k.val 22) sR1 sC0) $$ [Hr1 Hc0]
    case region =>
      intro t _
      unfold invC'
      iintro ⟨%g, Hs, %hg, %f, Hd, %hf⟩
      sl_exec_parts
      sl_step
      iexists g; isplitl [Hs]; · iexact Hs
      isplitr; · ipureintro; exact hg
      iexists _; isplitl [Hd]; · iexact Hd
      ipureintro
      sl_unfold_run_names
      exact compact_step_t24 d L t g f hf
    · unfold invC'
      iexists _; isplitl [Hr1]; · iexact Hr1
      isplitr
      · ipureintro
        sl_unfold_run_names
        exact rows_value d L sR1 (TAB m d) (IDX m d) k ⟨22, by decide⟩ _ _ _ _ _
      iexists _; isplitl [Hc0]; · iexact Hc0
      ipureintro; exact fun r c h => absurd h (by omega)
    iintro %_ HI
    unfold invC'
    icases HI with ⟨%g22, Hr1, %hg22, %c22, Hc0, %hc22⟩
    sl_exec_parts
    -- chunk 23: landing buffer 2, compacted buffer 1
    sl_for (invC' d L (TAB m d) (IDX m d) (chunkNo L k.val 23) sR2 sC1) $$ [Hr2 Hc1]
    case region =>
      intro t _
      unfold invC'
      iintro ⟨%g, Hs, %hg, %f, Hd, %hf⟩
      sl_exec_parts
      sl_step
      iexists g; isplitl [Hs]; · iexact Hs
      isplitr; · ipureintro; exact hg
      iexists _; isplitl [Hd]; · iexact Hd
      ipureintro
      sl_unfold_run_names
      exact compact_step_t25 d L t g f hf
    · unfold invC'
      iexists _; isplitl [Hr2]; · iexact Hr2
      isplitr
      · ipureintro
        sl_unfold_run_names
        exact rows_value d L sR2 (TAB m d) (IDX m d) k ⟨23, by decide⟩ _ _ _ _ _
      iexists _; isplitl [Hc1]; · iexact Hc1
      ipureintro; exact fun r c h => absurd h (by omega)
    iintro %_ HI
    unfold invC'
    icases HI with ⟨%g23, Hr2, %hg23, %c23, Hc1, %hc23⟩
    sl_exec_parts
    -- chunk 24: landing buffer 0, compacted buffer 0
    sl_for (invC' d L (TAB m d) (IDX m d) (chunkNo L k.val 24) sR0 sC0) $$ [Hr0 Hc0]
    case region =>
      intro t _
      unfold invC'
      iintro ⟨%g, Hs, %hg, %f, Hd, %hf⟩
      sl_exec_parts
      sl_step
      iexists g; isplitl [Hs]; · iexact Hs
      isplitr; · ipureintro; exact hg
      iexists _; isplitl [Hd]; · iexact Hd
      ipureintro
      sl_unfold_run_names
      exact compact_step_t26 d L t g f hf
    · unfold invC'
      iexists _; isplitl [Hr0]; · iexact Hr0
      isplitr
      · ipureintro
        sl_unfold_run_names
        exact rows_value d L sR0 (TAB m d) (IDX m d) k ⟨24, by decide⟩ _ _ _ _ _
      iexists _; isplitl [Hc0]; · iexact Hc0
      ipureintro; exact fun r c h => absurd h (by omega)
    iintro %_ HI
    unfold invC'
    icases HI with ⟨%g24, Hr0, %hg24, %c24, Hc0, %hc24⟩
    sl_exec_parts
    -- chunk 25: landing buffer 1, compacted buffer 1
    sl_for (invC' d L (TAB m d) (IDX m d) (chunkNo L k.val 25) sR1 sC1) $$ [Hr1 Hc1]
    case region =>
      intro t _
      unfold invC'
      iintro ⟨%g, Hs, %hg, %f, Hd, %hf⟩
      sl_exec_parts
      sl_step
      iexists g; isplitl [Hs]; · iexact Hs
      isplitr; · ipureintro; exact hg
      iexists _; isplitl [Hd]; · iexact Hd
      ipureintro
      sl_unfold_run_names
      exact compact_step_t27 d L t g f hf
    · unfold invC'
      iexists _; isplitl [Hr1]; · iexact Hr1
      isplitr
      · ipureintro
        sl_unfold_run_names
        exact rows_value d L sR1 (TAB m d) (IDX m d) k ⟨25, by decide⟩ _ _ _ _ _
      iexists _; isplitl [Hc1]; · iexact Hc1
      ipureintro; exact fun r c h => absurd h (by omega)
    iintro %_ HI
    unfold invC'
    icases HI with ⟨%g25, Hr1, %hg25, %c25, Hc1, %hc25⟩
    sl_exec_parts
    -- chunk 26: landing buffer 2, compacted buffer 0
    sl_for (invC' d L (TAB m d) (IDX m d) (chunkNo L k.val 26) sR2 sC0) $$ [Hr2 Hc0]
    case region =>
      intro t _
      unfold invC'
      iintro ⟨%g, Hs, %hg, %f, Hd, %hf⟩
      sl_exec_parts
      sl_step
      iexists g; isplitl [Hs]; · iexact Hs
      isplitr; · ipureintro; exact hg
      iexists _; isplitl [Hd]; · iexact Hd
      ipureintro
      sl_unfold_run_names
      exact compact_step_t28 d L t g f hf
    · unfold invC'
      iexists _; isplitl [Hr2]; · iexact Hr2
      isplitr
      · ipureintro
        sl_unfold_run_names
        exact rows_value d L sR2 (TAB m d) (IDX m d) k ⟨26, by decide⟩ _ _ _ _ _
      iexists _; isplitl [Hc0]; · iexact Hc0
      ipureintro; exact fun r c h => absurd h (by omega)
    iintro %_ HI
    unfold invC'
    icases HI with ⟨%g26, Hr2, %hg26, %c26, Hc0, %hc26⟩
    sl_exec_parts
    -- chunk 27: landing buffer 0, compacted buffer 1
    sl_for (invC' d L (TAB m d) (IDX m d) (chunkNo L k.val 27) sR0 sC1) $$ [Hr0 Hc1]
    case region =>
      intro t _
      unfold invC'
      iintro ⟨%g, Hs, %hg, %f, Hd, %hf⟩
      sl_exec_parts
      sl_step
      iexists g; isplitl [Hs]; · iexact Hs
      isplitr; · ipureintro; exact hg
      iexists _; isplitl [Hd]; · iexact Hd
      ipureintro
      sl_unfold_run_names
      exact compact_step_t29 d L t g f hf
    · unfold invC'
      iexists _; isplitl [Hr0]; · iexact Hr0
      isplitr
      · ipureintro
        sl_unfold_run_names
        exact rows_value d L sR0 (TAB m d) (IDX m d) k ⟨27, by decide⟩ _ _ _ _ _
      iexists _; isplitl [Hc1]; · iexact Hc1
      ipureintro; exact fun r c h => absurd h (by omega)
    iintro %_ HI
    unfold invC'
    icases HI with ⟨%g27, Hr0, %hg27, %c27, Hc1, %hc27⟩
    sl_exec_parts
    -- chunk 28: landing buffer 1, compacted buffer 0
    sl_for (invC' d L (TAB m d) (IDX m d) (chunkNo L k.val 28) sR1 sC0) $$ [Hr1 Hc0]
    case region =>
      intro t _
      unfold invC'
      iintro ⟨%g, Hs, %hg, %f, Hd, %hf⟩
      sl_exec_parts
      sl_step
      iexists g; isplitl [Hs]; · iexact Hs
      isplitr; · ipureintro; exact hg
      iexists _; isplitl [Hd]; · iexact Hd
      ipureintro
      sl_unfold_run_names
      exact compact_step_t30 d L t g f hf
    · unfold invC'
      iexists _; isplitl [Hr1]; · iexact Hr1
      isplitr
      · ipureintro
        sl_unfold_run_names
        exact rows_value d L sR1 (TAB m d) (IDX m d) k ⟨28, by decide⟩ _ _ _ _ _
      iexists _; isplitl [Hc0]; · iexact Hc0
      ipureintro; exact fun r c h => absurd h (by omega)
    iintro %_ HI
    unfold invC'
    icases HI with ⟨%g28, Hr1, %hg28, %c28, Hc0, %hc28⟩
    sl_exec_parts
    -- chunk 29: landing buffer 2, compacted buffer 1
    sl_for (invC' d L (TAB m d) (IDX m d) (chunkNo L k.val 29) sR2 sC1) $$ [Hr2 Hc1]
    case region =>
      intro t _
      unfold invC'
      iintro ⟨%g, Hs, %hg, %f, Hd, %hf⟩
      sl_exec_parts
      sl_step
      iexists g; isplitl [Hs]; · iexact Hs
      isplitr; · ipureintro; exact hg
      iexists _; isplitl [Hd]; · iexact Hd
      ipureintro
      sl_unfold_run_names
      exact compact_step_t31 d L t g f hf
    · unfold invC'
      iexists _; isplitl [Hr2]; · iexact Hr2
      isplitr
      · ipureintro
        sl_unfold_run_names
        exact rows_value d L sR2 (TAB m d) (IDX m d) k ⟨29, by decide⟩ _ _ _ _ _
      iexists _; isplitl [Hc1]; · iexact Hc1
      ipureintro; exact fun r c h => absurd h (by omega)
    iintro %_ HI
    unfold invC'
    icases HI with ⟨%g29, Hr2, %hg29, %c29, Hc1, %hc29⟩
    sl_exec_parts
    -- chunk 30: landing buffer 0, compacted buffer 0
    sl_for (invC' d L (TAB m d) (IDX m d) (chunkNo L k.val 30) sR0 sC0) $$ [Hr0 Hc0]
    case region =>
      intro t _
      unfold invC'
      iintro ⟨%g, Hs, %hg, %f, Hd, %hf⟩
      sl_exec_parts
      sl_step
      iexists g; isplitl [Hs]; · iexact Hs
      isplitr; · ipureintro; exact hg
      iexists _; isplitl [Hd]; · iexact Hd
      ipureintro
      sl_unfold_run_names
      exact compact_step_t32 d L t g f hf
    · unfold invC'
      iexists _; isplitl [Hr0]; · iexact Hr0
      isplitr
      · ipureintro
        sl_unfold_run_names
        exact rows_value d L sR0 (TAB m d) (IDX m d) k ⟨30, by decide⟩ _ _ _ _ _
      iexists _; isplitl [Hc0]; · iexact Hc0
      ipureintro; exact fun r c h => absurd h (by omega)
    iintro %_ HI
    unfold invC'
    icases HI with ⟨%g30, Hr0, %hg30, %c30, Hc0, %hc30⟩
    sl_exec_parts
    -- chunk 31: landing buffer 1, compacted buffer 1
    sl_for (invC' d L (TAB m d) (IDX m d) (chunkNo L k.val 31) sR1 sC1) $$ [Hr1 Hc1]
    case region =>
      intro t _
      unfold invC'
      iintro ⟨%g, Hs, %hg, %f, Hd, %hf⟩
      sl_exec_parts
      sl_step
      iexists g; isplitl [Hs]; · iexact Hs
      isplitr; · ipureintro; exact hg
      iexists _; isplitl [Hd]; · iexact Hd
      ipureintro
      sl_unfold_run_names
      exact compact_step_t33 d L t g f hf
    · unfold invC'
      iexists _; isplitl [Hr1]; · iexact Hr1
      isplitr
      · ipureintro
        sl_unfold_run_names
        exact rows_value d L sR1 (TAB m d) (IDX m d) k ⟨31, by decide⟩ _ _ _ _ _
      iexists _; isplitl [Hc1]; · iexact Hc1
      ipureintro; exact fun r c h => absurd h (by omega)
    iintro %_ HI
    unfold invC'
    icases HI with ⟨%g31, Hr1, %hg31, %c31, Hc1, %hc31⟩
    sl_exec_parts
    -- chunk 32: landing buffer 2, compacted buffer 0
    sl_for (invC' d L (TAB m d) (IDX m d) (chunkNo L k.val 32) sR2 sC0) $$ [Hr2 Hc0]
    case region =>
      intro t _
      unfold invC'
      iintro ⟨%g, Hs, %hg, %f, Hd, %hf⟩
      sl_exec_parts
      sl_step
      iexists g; isplitl [Hs]; · iexact Hs
      isplitr; · ipureintro; exact hg
      iexists _; isplitl [Hd]; · iexact Hd
      ipureintro
      sl_unfold_run_names
      exact compact_step_t34 d L t g f hf
    · unfold invC'
      iexists _; isplitl [Hr2]; · iexact Hr2
      isplitr
      · ipureintro
        sl_unfold_run_names
        exact rows_value d L sR2 (TAB m d) (IDX m d) k ⟨32, by decide⟩ _ _ _ _ _
      iexists _; isplitl [Hc0]; · iexact Hc0
      ipureintro; exact fun r c h => absurd h (by omega)
    iintro %_ HI
    unfold invC'
    icases HI with ⟨%g32, Hr2, %hg32, %c32, Hc0, %hc32⟩
    sl_exec_parts
    -- chunk 33: landing buffer 0, compacted buffer 1
    sl_for (invC' d L (TAB m d) (IDX m d) (chunkNo L k.val 33) sR0 sC1) $$ [Hr0 Hc1]
    case region =>
      intro t _
      unfold invC'
      iintro ⟨%g, Hs, %hg, %f, Hd, %hf⟩
      sl_exec_parts
      sl_step
      iexists g; isplitl [Hs]; · iexact Hs
      isplitr; · ipureintro; exact hg
      iexists _; isplitl [Hd]; · iexact Hd
      ipureintro
      sl_unfold_run_names
      exact compact_step_t35 d L t g f hf
    · unfold invC'
      iexists _; isplitl [Hr0]; · iexact Hr0
      isplitr
      · ipureintro
        sl_unfold_run_names
        exact rows_value d L sR0 (TAB m d) (IDX m d) k ⟨33, by decide⟩ _ _ _ _ _
      iexists _; isplitl [Hc1]; · iexact Hc1
      ipureintro; exact fun r c h => absurd h (by omega)
    iintro %_ HI
    unfold invC'
    icases HI with ⟨%g33, Hr0, %hg33, %c33, Hc1, %hc33⟩
    sl_exec_parts
    -- chunk 34: landing buffer 1, compacted buffer 0
    sl_for (invC' d L (TAB m d) (IDX m d) (chunkNo L k.val 34) sR1 sC0) $$ [Hr1 Hc0]
    case region =>
      intro t _
      unfold invC'
      iintro ⟨%g, Hs, %hg, %f, Hd, %hf⟩
      sl_exec_parts
      sl_step
      iexists g; isplitl [Hs]; · iexact Hs
      isplitr; · ipureintro; exact hg
      iexists _; isplitl [Hd]; · iexact Hd
      ipureintro
      sl_unfold_run_names
      exact compact_step_t36 d L t g f hf
    · unfold invC'
      iexists _; isplitl [Hr1]; · iexact Hr1
      isplitr
      · ipureintro
        sl_unfold_run_names
        exact rows_value d L sR1 (TAB m d) (IDX m d) k ⟨34, by decide⟩ _ _ _ _ _
      iexists _; isplitl [Hc0]; · iexact Hc0
      ipureintro; exact fun r c h => absurd h (by omega)
    iintro %_ HI
    unfold invC'
    icases HI with ⟨%g34, Hr1, %hg34, %c34, Hc0, %hc34⟩
    sl_exec_parts
    -- chunk 35: landing buffer 2, compacted buffer 1
    sl_for (invC' d L (TAB m d) (IDX m d) (chunkNo L k.val 35) sR2 sC1) $$ [Hr2 Hc1]
    case region =>
      intro t _
      unfold invC'
      iintro ⟨%g, Hs, %hg, %f, Hd, %hf⟩
      sl_exec_parts
      sl_step
      iexists g; isplitl [Hs]; · iexact Hs
      isplitr; · ipureintro; exact hg
      iexists _; isplitl [Hd]; · iexact Hd
      ipureintro
      sl_unfold_run_names
      exact compact_step_t37 d L t g f hf
    · unfold invC'
      iexists _; isplitl [Hr2]; · iexact Hr2
      isplitr
      · ipureintro
        sl_unfold_run_names
        exact rows_value d L sR2 (TAB m d) (IDX m d) k ⟨35, by decide⟩ _ _ _ _ _
      iexists _; isplitl [Hc1]; · iexact Hc1
      ipureintro; exact fun r c h => absurd h (by omega)
    iintro %_ HI
    unfold invC'
    icases HI with ⟨%g35, Hr2, %hg35, %c35, Hc1, %hc35⟩
    sl_exec_parts
    -- chunk 36: landing buffer 0, compacted buffer 0
    sl_for (invC' d L (TAB m d) (IDX m d) (chunkNo L k.val 36) sR0 sC0) $$ [Hr0 Hc0]
    case region =>
      intro t _
      unfold invC'
      iintro ⟨%g, Hs, %hg, %f, Hd, %hf⟩
      sl_exec_parts
      sl_step
      iexists g; isplitl [Hs]; · iexact Hs
      isplitr; · ipureintro; exact hg
      iexists _; isplitl [Hd]; · iexact Hd
      ipureintro
      sl_unfold_run_names
      exact compact_step_t38 d L t g f hf
    · unfold invC'
      iexists _; isplitl [Hr0]; · iexact Hr0
      isplitr
      · ipureintro
        sl_unfold_run_names
        exact rows_value d L sR0 (TAB m d) (IDX m d) k ⟨36, by decide⟩ _ _ _ _ _
      iexists _; isplitl [Hc0]; · iexact Hc0
      ipureintro; exact fun r c h => absurd h (by omega)
    iintro %_ HI
    unfold invC'
    icases HI with ⟨%g36, Hr0, %hg36, %c36, Hc0, %hc36⟩
    sl_exec_parts
    -- chunk 37: landing buffer 1, compacted buffer 1
    sl_for (invC' d L (TAB m d) (IDX m d) (chunkNo L k.val 37) sR1 sC1) $$ [Hr1 Hc1]
    case region =>
      intro t _
      unfold invC'
      iintro ⟨%g, Hs, %hg, %f, Hd, %hf⟩
      sl_exec_parts
      sl_step
      iexists g; isplitl [Hs]; · iexact Hs
      isplitr; · ipureintro; exact hg
      iexists _; isplitl [Hd]; · iexact Hd
      ipureintro
      sl_unfold_run_names
      exact compact_step_t39 d L t g f hf
    · unfold invC'
      iexists _; isplitl [Hr1]; · iexact Hr1
      isplitr
      · ipureintro
        sl_unfold_run_names
        exact rows_value d L sR1 (TAB m d) (IDX m d) k ⟨37, by decide⟩ _ _ _ _ _
      iexists _; isplitl [Hc1]; · iexact Hc1
      ipureintro; exact fun r c h => absurd h (by omega)
    iintro %_ HI
    unfold invC'
    icases HI with ⟨%g37, Hr1, %hg37, %c37, Hc1, %hc37⟩
    sl_exec_parts
    -- chunk 38: landing buffer 2, compacted buffer 0
    sl_for (invC' d L (TAB m d) (IDX m d) (chunkNo L k.val 38) sR2 sC0) $$ [Hr2 Hc0]
    case region =>
      intro t _
      unfold invC'
      iintro ⟨%g, Hs, %hg, %f, Hd, %hf⟩
      sl_exec_parts
      sl_step
      iexists g; isplitl [Hs]; · iexact Hs
      isplitr; · ipureintro; exact hg
      iexists _; isplitl [Hd]; · iexact Hd
      ipureintro
      sl_unfold_run_names
      exact compact_step_t40 d L t g f hf
    · unfold invC'
      iexists _; isplitl [Hr2]; · iexact Hr2
      isplitr
      · ipureintro
        sl_unfold_run_names
        exact rows_value d L sR2 (TAB m d) (IDX m d) k ⟨38, by decide⟩ _ _ _ _ _
      iexists _; isplitl [Hc0]; · iexact Hc0
      ipureintro; exact fun r c h => absurd h (by omega)
    iintro %_ HI
    unfold invC'
    icases HI with ⟨%g38, Hr2, %hg38, %c38, Hc0, %hc38⟩
    sl_exec_parts
    -- chunk 39: landing buffer 0, compacted buffer 1
    sl_for (invC' d L (TAB m d) (IDX m d) (chunkNo L k.val 39) sR0 sC1) $$ [Hr0 Hc1]
    case region =>
      intro t _
      unfold invC'
      iintro ⟨%g, Hs, %hg, %f, Hd, %hf⟩
      sl_exec_parts
      sl_step
      iexists g; isplitl [Hs]; · iexact Hs
      isplitr; · ipureintro; exact hg
      iexists _; isplitl [Hd]; · iexact Hd
      ipureintro
      sl_unfold_run_names
      exact compact_step_t41 d L t g f hf
    · unfold invC'
      iexists _; isplitl [Hr0]; · iexact Hr0
      isplitr
      · ipureintro
        sl_unfold_run_names
        exact rows_value d L sR0 (TAB m d) (IDX m d) k ⟨39, by decide⟩ _ _ _ _ _
      iexists _; isplitl [Hc1]; · iexact Hc1
      ipureintro; exact fun r c h => absurd h (by omega)
    iintro %_ HI
    unfold invC'
    icases HI with ⟨%g39, Hr0, %hg39, %c39, Hc1, %hc39⟩
    sl_exec_parts
    sl_step
    sl_unfold_run_names
    isplitr; · iexact Hmw
    isplitl [Htab4]; · iexact Htab4
    isplitl [Htab5]; · iexact Htab5
    isplitl [Htab6]; · iexact Htab6
    isplitl [Hidx]; · iexact Hidx
    isplitl [Hrest Ho0 Ho1 Ho2 Ho3 Ho4 Ho5 Ho6 Ho7 Ho8 Ho9 Ho10 Ho11 Ho12 Ho13 Ho14 Ho15 Ho16 Ho17 Ho18 Ho19 Ho20 Ho21 Ho22 Ho23 Ho24 Ho25 Ho26 Ho27 Ho28 Ho29 Ho30 Ho31 Ho32 Ho33 Ho34 Ho35 Ho36 Ho37 Ho38 Ho39]
    · iapply (Entails.of_eq (prefix_put (OutDone m d L) (OutTodo d L) k))
      isplitr [Hrest]
      · unfold OutDone
        iapply (Entails.of_eq (bigSep_fin40 _).symm)
        isplitl [Ho0]; · (iapply (Entails.of_eq (pts_piece_writes_copy d L m k 0 sC0 c0 (chunkOf_of_compacted _ _ hg0 hc0) _)); iexact Ho0)
        isplitl [Ho1]; · (iapply (Entails.of_eq (pts_piece_writes_copy d L m k 1 sC1 c1 (chunkOf_of_compacted _ _ hg1 hc1) _)); iexact Ho1)
        isplitl [Ho2]; · (iapply (Entails.of_eq (pts_piece_writes_copy d L m k 2 sC0 c2 (chunkOf_of_compacted _ _ hg2 hc2) _)); iexact Ho2)
        isplitl [Ho3]; · (iapply (Entails.of_eq (pts_piece_writes_copy d L m k 3 sC1 c3 (chunkOf_of_compacted _ _ hg3 hc3) _)); iexact Ho3)
        isplitl [Ho4]; · (iapply (Entails.of_eq (pts_piece_writes_copy d L m k 4 sC0 c4 (chunkOf_of_compacted _ _ hg4 hc4) _)); iexact Ho4)
        isplitl [Ho5]; · (iapply (Entails.of_eq (pts_piece_writes_copy d L m k 5 sC1 c5 (chunkOf_of_compacted _ _ hg5 hc5) _)); iexact Ho5)
        isplitl [Ho6]; · (iapply (Entails.of_eq (pts_piece_writes_copy d L m k 6 sC0 c6 (chunkOf_of_compacted _ _ hg6 hc6) _)); iexact Ho6)
        isplitl [Ho7]; · (iapply (Entails.of_eq (pts_piece_writes_copy d L m k 7 sC1 c7 (chunkOf_of_compacted _ _ hg7 hc7) _)); iexact Ho7)
        isplitl [Ho8]; · (iapply (Entails.of_eq (pts_piece_writes_copy d L m k 8 sC0 c8 (chunkOf_of_compacted _ _ hg8 hc8) _)); iexact Ho8)
        isplitl [Ho9]; · (iapply (Entails.of_eq (pts_piece_writes_copy d L m k 9 sC1 c9 (chunkOf_of_compacted _ _ hg9 hc9) _)); iexact Ho9)
        isplitl [Ho10]; · (iapply (Entails.of_eq (pts_piece_writes_copy d L m k 10 sC0 c10 (chunkOf_of_compacted _ _ hg10 hc10) _)); iexact Ho10)
        isplitl [Ho11]; · (iapply (Entails.of_eq (pts_piece_writes_copy d L m k 11 sC1 c11 (chunkOf_of_compacted _ _ hg11 hc11) _)); iexact Ho11)
        isplitl [Ho12]; · (iapply (Entails.of_eq (pts_piece_writes_copy d L m k 12 sC0 c12 (chunkOf_of_compacted _ _ hg12 hc12) _)); iexact Ho12)
        isplitl [Ho13]; · (iapply (Entails.of_eq (pts_piece_writes_copy d L m k 13 sC1 c13 (chunkOf_of_compacted _ _ hg13 hc13) _)); iexact Ho13)
        isplitl [Ho14]; · (iapply (Entails.of_eq (pts_piece_writes_copy d L m k 14 sC0 c14 (chunkOf_of_compacted _ _ hg14 hc14) _)); iexact Ho14)
        isplitl [Ho15]; · (iapply (Entails.of_eq (pts_piece_writes_copy d L m k 15 sC1 c15 (chunkOf_of_compacted _ _ hg15 hc15) _)); iexact Ho15)
        isplitl [Ho16]; · (iapply (Entails.of_eq (pts_piece_writes_copy d L m k 16 sC0 c16 (chunkOf_of_compacted _ _ hg16 hc16) _)); iexact Ho16)
        isplitl [Ho17]; · (iapply (Entails.of_eq (pts_piece_writes_copy d L m k 17 sC1 c17 (chunkOf_of_compacted _ _ hg17 hc17) _)); iexact Ho17)
        isplitl [Ho18]; · (iapply (Entails.of_eq (pts_piece_writes_copy d L m k 18 sC0 c18 (chunkOf_of_compacted _ _ hg18 hc18) _)); iexact Ho18)
        isplitl [Ho19]; · (iapply (Entails.of_eq (pts_piece_writes_copy d L m k 19 sC1 c19 (chunkOf_of_compacted _ _ hg19 hc19) _)); iexact Ho19)
        isplitl [Ho20]; · (iapply (Entails.of_eq (pts_piece_writes_copy d L m k 20 sC0 c20 (chunkOf_of_compacted _ _ hg20 hc20) _)); iexact Ho20)
        isplitl [Ho21]; · (iapply (Entails.of_eq (pts_piece_writes_copy d L m k 21 sC1 c21 (chunkOf_of_compacted _ _ hg21 hc21) _)); iexact Ho21)
        isplitl [Ho22]; · (iapply (Entails.of_eq (pts_piece_writes_copy d L m k 22 sC0 c22 (chunkOf_of_compacted _ _ hg22 hc22) _)); iexact Ho22)
        isplitl [Ho23]; · (iapply (Entails.of_eq (pts_piece_writes_copy d L m k 23 sC1 c23 (chunkOf_of_compacted _ _ hg23 hc23) _)); iexact Ho23)
        isplitl [Ho24]; · (iapply (Entails.of_eq (pts_piece_writes_copy d L m k 24 sC0 c24 (chunkOf_of_compacted _ _ hg24 hc24) _)); iexact Ho24)
        isplitl [Ho25]; · (iapply (Entails.of_eq (pts_piece_writes_copy d L m k 25 sC1 c25 (chunkOf_of_compacted _ _ hg25 hc25) _)); iexact Ho25)
        isplitl [Ho26]; · (iapply (Entails.of_eq (pts_piece_writes_copy d L m k 26 sC0 c26 (chunkOf_of_compacted _ _ hg26 hc26) _)); iexact Ho26)
        isplitl [Ho27]; · (iapply (Entails.of_eq (pts_piece_writes_copy d L m k 27 sC1 c27 (chunkOf_of_compacted _ _ hg27 hc27) _)); iexact Ho27)
        isplitl [Ho28]; · (iapply (Entails.of_eq (pts_piece_writes_copy d L m k 28 sC0 c28 (chunkOf_of_compacted _ _ hg28 hc28) _)); iexact Ho28)
        isplitl [Ho29]; · (iapply (Entails.of_eq (pts_piece_writes_copy d L m k 29 sC1 c29 (chunkOf_of_compacted _ _ hg29 hc29) _)); iexact Ho29)
        isplitl [Ho30]; · (iapply (Entails.of_eq (pts_piece_writes_copy d L m k 30 sC0 c30 (chunkOf_of_compacted _ _ hg30 hc30) _)); iexact Ho30)
        isplitl [Ho31]; · (iapply (Entails.of_eq (pts_piece_writes_copy d L m k 31 sC1 c31 (chunkOf_of_compacted _ _ hg31 hc31) _)); iexact Ho31)
        isplitl [Ho32]; · (iapply (Entails.of_eq (pts_piece_writes_copy d L m k 32 sC0 c32 (chunkOf_of_compacted _ _ hg32 hc32) _)); iexact Ho32)
        isplitl [Ho33]; · (iapply (Entails.of_eq (pts_piece_writes_copy d L m k 33 sC1 c33 (chunkOf_of_compacted _ _ hg33 hc33) _)); iexact Ho33)
        isplitl [Ho34]; · (iapply (Entails.of_eq (pts_piece_writes_copy d L m k 34 sC0 c34 (chunkOf_of_compacted _ _ hg34 hc34) _)); iexact Ho34)
        isplitl [Ho35]; · (iapply (Entails.of_eq (pts_piece_writes_copy d L m k 35 sC1 c35 (chunkOf_of_compacted _ _ hg35 hc35) _)); iexact Ho35)
        isplitl [Ho36]; · (iapply (Entails.of_eq (pts_piece_writes_copy d L m k 36 sC0 c36 (chunkOf_of_compacted _ _ hg36 hc36) _)); iexact Ho36)
        isplitl [Ho37]; · (iapply (Entails.of_eq (pts_piece_writes_copy d L m k 37 sC1 c37 (chunkOf_of_compacted _ _ hg37 hc37) _)); iexact Ho37)
        isplitl [Ho38]; · (iapply (Entails.of_eq (pts_piece_writes_copy d L m k 38 sC0 c38 (chunkOf_of_compacted _ _ hg38 hc38) _)); iexact Ho38)
        (iapply (Entails.of_eq (pts_piece_writes_copy d L m k 39 sC1 c39 (chunkOf_of_compacted _ _ hg39 hc39) _)); iexact Ho39)
      · iexact Hrest
    isplitl [Hs0 Hr0 Hr1 Hr2 Hc0 Hc1]
    · isplitl [Hs0]; · iexists _; iexact Hs0
      isplitl [Hr0]; · iexists _; iexact Hr0
      isplitl [Hr1]; · iexists _; iexact Hr1
      isplitl [Hr2]; · iexists _; iexact Hr2
      isplitl [Hc0]; · iexists _; iexact Hc0
      iexists _; iexact Hc1
    isplitl [H6 H7 H8 H9 H10 Hsc]
    · isplitl [H6]; · iexact H6
      isplitl [H7]; · iexact H7
      isplitl [H8]; · iexact H8
      isplitl [H9]; · iexact H9
      isplitl [H10]; · iexact H10
      iexact Hsc
    iexists _; isplitl [HO]; · iexact HO
    ipureintro
    repeat (first | exact hW' | apply waits_insert rfl)
  · unfold invO
    isplitl [Hmw]; · iexact Hmw
    isplitl [Htab4]; · iexact Htab4
    isplitl [Htab5]; · iexact Htab5
    isplitl [Htab6]; · iexact Htab6
    isplitl [Hidx]; · iexact Hidx
    isplitl [Hout]
    · iapply (Entails.of_eq (prefix_zero (OutDone m d L) (OutTodo d L)).symm)
      unfold OutTodo; iexact Hout
    isplitl [Hscr]; · iexact Hscr
    isplitl [Hsem]; · iexact Hsem
    iexists W; isplitl [HO]; · iexact HO
    ipureintro; exact fun p hp => .inl hp
  iintro %_ HI
  unfold invO
  icases HI with ⟨-, Htab4, Htab5, Htab6, Hidx, Hout, Hscr, Hsem, %W', HO, %hW'⟩
  sl_exec
  sl_step
  isplitl [Htabrest Htab4 Htab5 Htab6 Hidx Hout]
  · iapply (td_join m d L)
    isplitl [Htabrest Htab4 Htab5 Htab6]
    · iapply (tab_cells _ _ _).2
      isplitl [Htabrest]; · iexact Htabrest
      isplitl [Htab4]; · iexact Htab4
      isplitl [Htab5]; · iexact Htab5
      iexact Htab6
    isplitl [Hidx]; · iexact Hidx
    ihave Hout' := (Entails.of_eq (prefix_full (OutDone m d L) (OutTodo d L))) $$ Hout
    unfold OutDone; iexact Hout'
  isplitl [Hscr]; · iexact Hscr
  isplitl [Hsem]; · iexact Hsem
  iexists W'; isplitr
  · ipureintro; exact hW'
  · iexact HO

end Cert.Proof.KI

end
-- ==== Proof.KI.Region.lean ====
/-
  The TensorCore kernel that scales the table by eight and pads it to 128 columns, as a step of @main: its body's
  two stores over the loaded block, the pipeline's proof data and body obligation at every point of the grid, what
  the padded table's array holds once all twenty blocks are written back — the scaled and padded table —, and the
  region entered through the library's region rule, lifted to the program's body table.
-/
import proofs.«217222_g83150566851320_cont_9to1_m_45_25_alg».proof.Proof.KI.Ghost
import proofs.«217222_g83150566851320_cont_9to1_m_45_25_alg».proof.Proof.KI.Iface
import proofs.«217222_g83150566851320_cont_9to1_m_45_25_alg».proof.Proof.Gen.KernelIdeal.Points
import Idealize.ShloMosaic.Lib.Pipeline.Regions
import Idealize.ShloMosaic.Lib.Pipeline.FrameBody
import Idealize.ShloMosaic.Lib.Pipeline.Value
import Idealize.ShloMosaic.Lib.Ring

set_option maxRecDepth 16384

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The TensorCore kernel: its body -/

section Body

open Idealize.ShloMosaic.TcCoe Idealize.ShloMosaic.Tactic
open Idealize.ShloMosaic.Pipeline (Dat Cfg Window BodyObligation cellOf)

variable [FloatOps F]

/-- The body's three rectangles: the whole input block; the left and the right half of the output block. -/
abbrev rL : Rect S5000x64 := Rect.unit (s := S5000x64) ![0, 0] S5000x64.size inb_S5000x64_S5000x64_0_0
abbrev rA : Rect S5000x128 := Rect.unit (s := S5000x128) ![0, 0] S5000x64.size inb_S5000x128_S5000x64_0_0
abbrev rB : Rect S5000x128 := Rect.unit (s := S5000x128) ![0, 64] S5000x64.size inb_S5000x128_S5000x64_0_64

/-- What the body stores in the left half: the loaded block times eight; in the right half: zero. -/
def pay1 (v0 : Vec F S5000x64 .f32) : FVec F S5000x64 .f32 :=
  mulf v0 (broadcast S5000x64 (Scalar.ofBits .f32 0x41000000#32))
def pay2 : FVec F S5000x64 .f32 := broadcast S5000x64 (Scalar.ofBits .f32 0x00000000#32)

/-- The body as its memory operations over those payloads. -/
def bodySkel (i : grid0.Coords) (arg1 : Memref sig .tc .vmem S5000x64 .f32) (harg1 : arg1.IsWhole) (arg2 : Memref sig .tc .vmem S5000x128 .f32) (harg2 : arg2.IsWhole) :
    Prog (TpuEff nD τ sig (Elt F) Λ₀ .tc) PUnit := do
  let v0 : Vec F S5000x64 .f32 ← Prog.lift (.load arg1 rL.toLoadRect (View.loadsAt_vmem h_S5000x64))
  let v3 : Vec F S5000x64 .f32 ← Prog.lift (.load arg2 rA.toLoadRect (View.loadsAt_vmem h_S5000x64))
  Prog.lift (.store arg2 rA (pay1 v0) Finset.univ (View.stores_vmem_bits_univ h_S5000x64 rfl) (.inl rfl))
  let v5 : Vec F S5000x64 .f32 ← Prog.lift (.load arg2 rB.toLoadRect (View.loadsAt_vmem h_S5000x64))
  Prog.lift (.store arg2 rB (pay2 (F := F)) Finset.univ (View.stores_vmem_bits_univ h_S5000x64 rfl) (.inl rfl))
  pure ⟨⟩

set_option maxRecDepth 65536 in
theorem body_eq : cc0_body (F := F) = bodySkel (F := F) := rfl

/-- The output block after the body, from the input block: its two stores as pieces, last first. -/
def out1 (x0 : Vec F S5000x64 .f32) : Vec F S5000x128 .f32 :=
  View.canon [⟨rB, pay2⟩, ⟨rA, pay1 (View.ld x0 rL)⟩]

theorem cover1 (p0 p1 : Vec F S5000x64 .f32) (y : S5000x128.Idx) :
    ∃ pc ∈ ([⟨rB, p0⟩, ⟨rA, p1⟩] : List (View.Piece (Elt F) S5000x128 .f32)), y ∈ pc.1.set :=
  View.cover_of_tiled [⟨rB, p0⟩, ⟨rA, p1⟩] S5000x64.size (by rfl) y

set_option maxHeartbeats 1000000 in
theorem sound_kernel (c : Dev nD) (E : Set ℕ) (i : grid0.Coords) (arg1 : Memref sig .tc .vmem S5000x64 .f32) (harg1 : arg1.IsWhole)
    (arg2 : Memref sig .tc .vmem S5000x128 .f32) (harg2 : arg2.IsWhole) (x0 : Vec F S5000x64 .f32) (K' : PUnit → sProp (MM F)) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out1 x0)) -∗ K' ⟨⟩))
      ⊢ wp frame (wpE (defs₀ (F := F)) Variants.none c none) E (cc0_body i arg1 harg1 arg2 harg2) K' := by
  simp only [body_eq]; unfold bodySkel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover1 _ _)

end Body

/-! ## The TensorCore kernel's pipeline: its proof data and body obligation -/

section Data

open Idealize.ShloMosaic.TcCoe Idealize.ShloMosaic.Tactic
open Idealize.ShloMosaic.Pipeline (Dat Cfg Window BodyObligation cellOf)

variable [FloatOps F] (m : (ℓ : Loc nD τ sig) → Buf (Elt F) ℓ)

/-- The TensorCore's buffers when the region is entered: as launched (the region is @main's first statement). -/
abbrev VT (d : Dev nD) (b : Ref sig .tc) : Buf (Elt F) ((d : Thread nD τ).loc b) := m ((d : Thread nD τ).loc b)

/-- Window w's block at point t, read off its array as the region finds it. -/
def iblk (d : Dev nD) (w : Fin cfg0.W) (t : Fin cfg0.N) : ((cfg0.win w).xblock (cfg0.grid.coords t)).Idx → Elt F (cfg0.win w).elt :=
  ((cfg0.win w).blk t).view.read (Elt F) (VT m d (Pipeline.arrRef spec0 w))

/-- The (semaphore, index) pairs the TensorCore's waits may have recorded around the region: those at level zero. -/
def recd (d : Dev nD) : Set (SemLoc sig × HIx 1) := {p | (K (F := F)).lev (T d, p.1) p.2 ≤ 0}

/-- The pipeline's proof data on device d: the arrays as launched; after the body the input's buffer at its block and
    the output's at the two stores over it; the invariant only the scoped buffers no window stages; the TensorCore
    owing throughout the start signals of the SparseCore call. -/
def dats (_ : Fin 1) (d : Dev nD) : Dat τ (Elt F) (HIx 1) ℕ UU ℕ cfg0 d where
  A w := VT m d (Pipeline.arrRef spec0 w)
  after w t := match w with
    | ⟨0, _⟩ => iblk m d 0 t
    | ⟨1, _⟩ => out1 (iblk m d 0 t)
  Φ _ := Pipeline.scopedRest spec0 d
  q _ := fullShare
  owed _ := (K (F := F)).Otc d 0
  recorded _ := recd (F := F) d

theorem A_eq (d : Dev nD) (w : Fin cfg0.W) : (dats m 0 d).A w = VT m d (Pipeline.arrRef spec0 w) := by
  dsimp only [dats]
theorem Φ_eq (d : Dev nD) (t : Fin (cfg0.N + 1)) : (dats m 0 d).Φ t = Pipeline.scopedRest spec0 d := by dsimp only [dats]
theorem after0 (d : Dev nD) (t : Fin cfg0.N) : (dats m 0 d).after 0 t = iblk m d 0 t := by dsimp only [dats]
theorem after1 (d : Dev nD) (t : Fin cfg0.N) : (dats m 0 d).after 1 t = out1 (iblk m d 0 t) := by dsimp only [dats]

/-- The input's current staging buffer holds its block at every point. -/
theorem before0 (d : Dev nD) (t : Fin cfg0.N) (x) : (dats m 0 d).before 0 t x = iblk m d 0 t :=
  ((dats m 0 d).before_in_eq_fetched 0 rfl (fun _ => rfl) (fun _ _ _ => rfl)
      (fun t => by rw [after0]; unfold Dat.blockOf iblk; rw [A_eq]; try rfl) t x).trans
    (by unfold Dat.fetched Dat.blockOf iblk; rw [A_eq]; try rfl)

def bodyPre (d : Dev nD) (t : Fin cfg0.N) : sProp (MM F) :=
  iprop((dats m 0 d).Φ t.castSucc ∗ (dats m 0 d).owesAt none t.castSucc
    ∗ (∃ x, owns (d : Thread nD τ) (st0_0 t) fullShare ((dats m 0 d).before 0 t x))
    ∗ (∃ x, owns (d : Thread nD τ) (st0_1 t) fullShare ((dats m 0 d).before 1 t x)))

def bodyPost (d : Dev nD) (t : Fin cfg0.N) : sProp (MM F) :=
  iprop((dats m 0 d).Φ t.succ ∗ (dats m 0 d).owesAt none t.succ
    ∗ owns (d : Thread nD τ) (st0_0 t) fullShare ((dats m 0 d).after 0 t)
    ∗ owns (d : Thread nD τ) (st0_1 t) fullShare ((dats m 0 d).after 1 t))

theorem sound_body (d : Dev nD) (t : Fin cfg0.N) :
    bodyPre m d t ⊢ wp frame (wpE (defs₀ (F := F)) Variants.none d none) Set.univ (bodyAt0 t) (fun _ => bodyPost m d t) := by
  unfold bodyPre bodyPost bodyAt0
  simp only [before0]
  rw [show (dats m 0 d).Φ t.succ = (dats m 0 d).Φ t.castSucc from rfl,
    show (dats m 0 d).owesAt none t.succ = (dats m 0 d).owesAt none t.castSucc from rfl,
    after0, after1]
  iintro ⟨HΦ, Ho, ⟨%x0, H0⟩, ⟨%x1, H1⟩⟩
  iapply (sound_kernel d Set.univ (grid0.coords t) _ _ _ _ (iblk m d 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation (d : Dev nD) : BodyObligation (dats (F := F) m 0 d) (defs₀ (F := F)) Variants.none none Set.univ := fun t => by
  rw [bigSep_W0, bigSep_W0]
  exact sound_body m d t

end Data

/-! ## What the region leaves in the padded table -/

section Value

open Idealize.ShloMosaic.TcCoe Idealize.ShloMosaic.Tactic
open Idealize.ShloMosaic.Pipeline (Dat Cfg Window BodyObligation cellOf)
open Idealize.ShloMosaic.ValueIdx (ix2)

variable [FloatOps F] (m : (ℓ : Loc nD τ sig) → Buf (Elt F) ℓ)

theorem hz0 : (![0, 0] : Fin 2 → Nat) = fun _ => 0 := funext fun a => by fin_cases a <;> rfl

/-- The output block at an index: eight times the input block's entry in the left half, zero in the right. -/
theorem out1_apply (x0 : Vec F S5000x64 .f32) (y : S5000x128.Idx) :
    out1 x0 y = if h : (y 1).val < 64 then
        FloatOps.mulf (x0 (ix2 (n0 := 5000) (n1 := 64) (y 0) ⟨(y 1).val, h⟩)) (Scalar.ofBits .f32 0x41000000#32)
      else Scalar.ofBits .f32 0x00000000#32 := by
  unfold out1
  by_cases h : (y 1).val < 64
  · rw [dif_pos h]
    have hnB : y ∉ (rB : Rect S5000x128).set := by
      rw [Rect.mem_set_unit]; intro hB
      have h1 : (64 : ℕ) ≤ (y 1).val := (hB 1).1
      omega
    have k0 := View.canon_cons_of_not_mem (Val := Elt F) (⟨rB, pay2 (F := F)⟩ : View.Piece (Elt F) S5000x128 .f32)
      ([⟨rA, pay1 (View.ld x0 rL)⟩] : List (View.Piece (Elt F) S5000x128 .f32)) (y := y) hnB
    refine k0.trans ?_
    have e : (rA : Rect S5000x128).emb (ix2 (n0 := 5000) (n1 := 64) (y 0) ⟨(y 1).val, h⟩) = y := by
      funext a; apply Fin.ext
      match a with
      | ⟨0, _⟩ => show 0 + 1 * (y 0).val = (y 0).val; omega
      | ⟨1, _⟩ => show 0 + 1 * (y 1).val = (y 1).val; omega
    have k := View.canon_cons_emb (Val := Elt F) (e := .f32) (rA : Rect S5000x128) (pay1 (View.ld x0 rL)) ([] : List (View.Piece (Elt F) S5000x128 .f32)) (ix2 (n0 := 5000) (n1 := 64) (y 0) ⟨(y 1).val, h⟩)
    rw [e] at k
    have hld : View.ld x0 rL = x0 := View.ld_unit_zero (S := S5000x64) hz0 _ x0
    exact k.trans (by rw [hld]; rfl)
  · rw [dif_neg h]
    have hy1 : (y 1).val < 128 := (y 1).isLt
    have e : (rB : Rect S5000x128).emb (ix2 (n0 := 5000) (n1 := 64) (y 0) ⟨(y 1).val - 64, by omega⟩) = y := by
      funext a; apply Fin.ext
      match a with
      | ⟨0, _⟩ => show 0 + 1 * (y 0).val = (y 0).val; omega
      | ⟨1, _⟩ => show 64 + 1 * ((y 1).val - 64) = (y 1).val; omega
    have k := View.canon_cons_emb (Val := Elt F) (e := .f32) (rB : Rect S5000x128) (pay2 (F := F)) ([⟨rA, pay1 (View.ld x0 rL)⟩] : List (View.Piece (Elt F) S5000x128 .f32)) (ix2 (n0 := 5000) (n1 := 64) (y 0) ⟨(y 1).val - 64, by omega⟩)
    rw [e] at k
    exact k.trans rfl

/-- The printed index maps, decided over the twenty points: both windows move down the rows together, point t at
    block t, and neither moves along the columns. -/
theorem idx_facts : ∀ t : Fin cfg0.N, win0_0.index t (0 : Fin 2) = t.val ∧ win0_1.index t (0 : Fin 2) = t.val
    ∧ win0_0.index t (1 : Fin 2) = 0 ∧ win0_1.index t (1 : Fin 2) = 0 :=
  (by decide +kernel : ∀ t : Fin grid0.N, _)

end Value

/-! ## The region: what the pipeline leaves, and the region's step of @main -/

section Region

open Idealize.ShloMosaic.TcCoe Idealize.ShloMosaic.Tactic
open Idealize.ShloMosaic.Pipeline (Dat Cfg Window BodyObligation cellOf)
open Idealize.ShloMosaic.ValueIdx (ix2)

variable [FloatOps F] (m : (ℓ : Loc nD τ sig) → Buf (Elt F) ℓ)

/-- What point t writes back is block t of the scaled and padded table. -/
theorem flushed1_eq (d : Dev nD) (t : Fin cfg0.N) :
    (dats m 0 d).flushed 1 t = ((cfg0.win 1).blk t).view.read (Elt F) (TAB m d) := by
  show (cfg0.win 1).cut (grid0.coords t) ((dats m 0 d).after 1 t) = _
  rw [after1]
  obtain ⟨e0, e1, e2, e3⟩ := idx_facts t
  funext j
  have hj0 : ((((cfg0.win 1).blk t).view.emb j) 0).val = t.val * 5000 + (j 0).val := by
    show win0_1.index t (0 : Fin 2) * 5000 + 1 * (j 0).val = _; omega
  have hj1 : ((((cfg0.win 1).blk t).view.emb j) 1).val = (j 1).val := by
    show win0_1.index t (1 : Fin 2) * 128 + 1 * (j 1).val = _; omega
  refine (out1_apply (iblk m d 0 t) j).trans ?_
  show _ = scaledPad (m (tableLoc d)) (((cfg0.win 1).blk t).view.emb j)
  unfold scaledPad
  by_cases h : (j 1).val < 64
  · have h' : ((((cfg0.win 1).blk t).view.emb j) 1).val < 64 := by rw [hj1]; exact h
    rw [dif_pos h, dif_pos h']
    show FloatOps.mulf (m (tableLoc d) (((cfg0.win 0).blk t).view.emb (ix2 (n0 := 5000) (n1 := 64) (j 0) ⟨(j 1).val, h⟩))) _ = _
    refine congrArg (fun i => FloatOps.mulf (m (tableLoc d) i) (Scalar.ofBits .f32 0x41000000#32)) ?_
    funext a; apply Fin.ext
    match a with
    | ⟨0, _⟩ =>
      show win0_0.index t (0 : Fin 2) * 5000 + 1 * (j 0).val = ((((cfg0.win 1).blk t).view.emb j) 0).val
      rw [hj0]; omega
    | ⟨1, _⟩ =>
      show win0_0.index t (1 : Fin 2) * 64 + 1 * (j 1).val = ((((cfg0.win 1).blk t).view.emb j) 1).val
      rw [hj1]; omega
  · have h' : ¬ ((((cfg0.win 1).blk t).view.emb j) 1).val < 64 := by rw [hj1]; exact h
    rw [dif_neg h, dif_neg h']

theorem mem_blk1 (t : Fin cfg0.N) (i : S100000x128.Idx) :
    i ∈ ((cfg0.win 1).blk t).view.set ↔ ∀ a : Fin 2, win0_1.index t a * S5000x128.size a ≤ (i a).val ∧ (i a).val < win0_1.index t a * S5000x128.size a + S5000x128.size a := by
  show i ∈ ((View.whole main_v0).slice (win0_1.rect t)).set ↔ _
  rw [View.set_slice_whole, Rect.mem_set_unit]
  exact Iff.rfl

/-- Every row of the padded table is in the block of the point its number divided by 5000 names. -/
theorem cover_tab (i : S100000x128.Idx) : ∃ t : Fin cfg0.N, (cfg0.win 1).flush t = true ∧ i ∈ ((cfg0.win 1).blk t).view.set := by
  have hi0 : (i 0).val < 100000 := (i 0).isLt
  have hi1 : (i 1).val < 128 := (i 1).isLt
  have hlt : (i 0).val / 5000 < cfg0.N := by show _ < grid0.N; rw [N_0]; omega
  refine ⟨⟨(i 0).val / 5000, hlt⟩, flush0_1 _, ?_⟩
  rw [mem_blk1]
  obtain ⟨-, e1, -, e3⟩ := idx_facts ⟨(i 0).val / 5000, hlt⟩
  intro a
  match a with
  | ⟨0, _⟩ =>
    show win0_1.index ⟨(i 0).val / 5000, hlt⟩ (0 : Fin 2) * 5000 ≤ (i 0).val ∧ (i 0).val < win0_1.index ⟨(i 0).val / 5000, hlt⟩ (0 : Fin 2) * 5000 + 5000
    rw [e1]; show (i 0).val / 5000 * 5000 ≤ (i 0).val ∧ (i 0).val < (i 0).val / 5000 * 5000 + 5000; omega
  | ⟨1, _⟩ =>
    show win0_1.index ⟨(i 0).val / 5000, hlt⟩ (1 : Fin 2) * 128 ≤ (i 1).val ∧ (i 1).val < win0_1.index ⟨(i 0).val / 5000, hlt⟩ (1 : Fin 2) * 128 + 128
    rw [e3]; omega

/-- After the region the padded table's array holds the scaled and padded table; the table's is as launched. -/
theorem final1 (d : Dev nD) : (dats m 0 d).arrAt 1 cfg0.N = TAB m d :=
  (dats m 0 d).arrAt_eq_of_cover 1 (TAB m d) (fun t _ => flushed1_eq m d t) cover_tab
theorem final0 (d : Dev nD) : (dats m 0 d).arrAt 0 cfg0.N = m (tableLoc d) :=
  ((dats m 0 d).arrAt_in 0 rfl _).trans (A_eq m d 0)

/-- What the TensorCore owes around the region, its recorded pairs at level zero: the start signals of the
    SparseCore call. -/
def OW (d : Dev nD) : sProp (MM F) :=
  iprop(∃ W, ⌜(K (F := F)).WBelow (T d) W 0⌝ ∗ owes (T d) ((K (F := F)).Otc d 0) W)

theorem Otc_none (d : Dev nD) (g : GSem nD τ sig) : (K (F := F)).Otc d 0 g none = 0 :=
  Nat.eq_zero_of_not_pos fun h => by
    have := SparseCore.Cfg.lev_of_Otc_pos (K := K (F := F)) h
    rw [SparseCore.Cfg.lev_none] at this; omega

end Region

/-! ## The region's step of @main -/

section Step

open Idealize.ShloMosaic.TcCoe Idealize.ShloMosaic.Tactic
open Idealize.ShloMosaic.Pipeline (Dat Cfg Window BodyObligation cellOf)

variable [FloatOps F] (m : (ℓ : Loc nD τ sig) → Buf (Elt F) ℓ)

/-- The region as the library's record of a kernel region: entered from the table and the padded table's array as
    launched and what the TensorCore owes, left with the padded table's array at the scaled and padded table. -/
def R0 : Pipeline.RegionSeg (pcfgs (F := F)) adm (dats m) (none : HIx 1) (defs₀ (F := F)) 𝒱₀ (K (F := F)).L (K (F := F)).lev (0 : Fin 1) where
  win := winFacts0.to₀
  block_pos := block_pos0
  stage_whole := stage_whole0
  K := PEmpty
  osem := fun k => k.elim
  ho := Pipeline.OwnSemFacts.none _
  hbody := fun c => (body_obligation m c).loose
  hwaits := fun c => Pipeline.cellsWaits_intro (PC (F := F)) (dats m) none 0 c fun w s t =>
    (K (F := F)).mayWait_none _ (Otc_none c)
  pre := fun c => iprop((tableLoc c ↦{fullShare} m (tableLoc c)) ∗ (tabLoc c ↦{fullShare} m (tabLoc c)) ∗ OW (F := F) c)
  post := fun c => iprop((tableLoc c ↦{fullShare} m (tableLoc c)) ∗ (tabLoc c ↦{fullShare} TAB m c) ∗ OW (F := F) c)
  X := fun _ => iprop(emp)
  Y := fun _ => iprop(emp)
  Z := fun _ => iprop(emp)
  hentry := fun c => by
    rw [Pipeline.arrays_eq (PC (F := F)) (dats m) 0 c arr_whole0 (fun w => (dats m 0 c).share_full (fun _ => rfl) w), bigSep_W0]
    unfold OW
    iintro ⟨⟨Ha, Hv, ⟨%W, %hW, HO⟩⟩, -, -⟩
    imodintro
    isplitl [Ha Hv]
    · isplitl [Ha]; · iexact Ha
      iexact Hv
    isplitr
    · unfold Pipeline.prefHeld; rw [Finset.univ_eq_empty, bigSep_empty]; iempintro
    isplitl [HO]
    · iexists W; isplitr; · ipureintro; exact fun p hp => Or.inl (hW p hp)
      iexact HO
    isplitr <;> iempintro
  hin := fun c => by
    rw [Φ_eq]
    exact sep_elim_right.trans sep_elim_right
  hout := fun c => by
    rw [Pipeline.ownSems0_none, Φ_eq]
    show Pipeline.scopedRest spec0 c ⊢ iprop(emp ∗ emp ∗ Pipeline.scopedRest spec0 c)
    iintro H
    isplitr; · iempintro
    isplitr; · iempintro
    iexact H
  hexit := fun c => by
    rw [Pipeline.arrays_eq (PC (F := F)) (dats m) 0 c arr_whole0 (fun w => (dats m 0 c).share_full (fun _ => rfl) w), bigSep_W0]
    unfold OW
    iintro ⟨⟨Ha, Hv⟩, ⟨%W, %hW, HO⟩, -, -⟩
    imodintro
    isplitl [Ha]; · rw [final0]; iexact Ha
    isplitl [Hv]; · rw [final1]; iexact Hv
    iexists W; isplitr
    · ipureintro
      intro p hp
      rcases hW hp with h | ⟨w, s, rfl⟩
      · exact h
      · exact le_of_eq (SparseCore.Cfg.lev_none _ _)
    iexact HO

theorem R0_pre (d : Dev nD) : (R0 m).pre d
    = iprop((tableLoc d ↦{fullShare} m (tableLoc d)) ∗ (tabLoc d ↦{fullShare} m (tabLoc d)) ∗ OW (F := F) d) := rfl
theorem R0_post (d : Dev nD) : (R0 m).post d
    = iprop((tableLoc d ↦{fullShare} m (tableLoc d)) ∗ (tabLoc d ↦{fullShare} TAB m d) ∗ OW (F := F) d) := rfl

/-- The region's call, lifted to the program's body table, is the program's. -/
theorem lift_entry :
    (SparseCore.liftProg (Q := 1) (Prog.lift (.customCall (Pipeline.entry (0 : Fin 1)) ()) : Prog (TpuEff nD τ sig (Elt F) (ΛP (F := F)) .tc) PUnit))
      = Prog.lift (.customCall (SparseCore.inner (Pipeline.entry (0 : Fin 1))) ()) := rfl

set_option backward.isDefEq.respectTransparency.types false in
set_option maxHeartbeats 1000000 in
/-- The region under the pipeline's own body table: from the boundary, the table and the padded table's array as
    launched, what the TensorCore owes, the level facts and the staging cells' ghost state, to the same with the padded
    table's array at the scaled and padded table. -/
theorem region_inner (d : Dev nD) (Φ : PUnit → sProp (MM F)) :
    iprop(levAts (K (F := F)).L (K (F := F)).lev ∗ boundary (T d) ∗ (tableLoc d ↦{fullShare} m (tableLoc d)) ∗ (tabLoc d ↦{fullShare} m (tabLoc d))
        ∗ OW (F := F) d ∗ Pipeline.cellsGhost (PC (F := F)) ER 0 d ∗ Pipeline.toksInit (PC (F := F)) ER 0 d
        ∗ (iprop(boundary (T d) ∗ (tableLoc d ↦{fullShare} m (tableLoc d)) ∗ (tabLoc d ↦{fullShare} TAB m d) ∗ OW (F := F) d) -∗ Φ ⟨⟩))
      ⊢ wp frame (wpE (D (F := F)) 𝒱 (T d) none) Set.univ
          (Prog.lift (.customCall (Pipeline.entry (0 : Fin 1)) ())) Φ := by
  have hw := Pipeline.RegionSeg.wp (pcfgs (F := F)) adm (dats m) (none : HIx 1) phinj ER (defs₀ (F := F)) 𝒱₀ (K (F := F)).L (K (F := F)).lev (R0 m) d none
    (fun _ h => nomatch h) (fun x => .ret x) Φ
  rw [R0_pre, R0_post] at hw
  iintro ⟨#Hla, Hb, Ha, Hv, HO, Hg, Ht, Hk⟩
  iapply hw
  isplitl [Hk]
  · iintro ⟨Hb, Hpost⟩
    rw [wp_ret]; imodintro
    iapply Hk
    isplitl [Hb]; · iexact Hb
    iexact Hpost
  isplitl [Hb]; · iexact Hb
  isplitl [Ha Hv HO]
  · isplitl [Ha]; · iexact Ha
    isplitl [Hv]; · iexact Hv
    iexact HO
  isplitr; · iexact Hla
  isplitl [Hg]; · iexact Hg
  iexact Ht

/-- The TensorCore kernel's region as a step of @main on device d. -/
theorem region_step (κ : GSem nD τ sig → ℕ) (d : Dev nD) (Φ : PUnit → sProp (MM F)) :
    iprop((K (F := F)).ctx EH (P m) κ ∗ boundary (T d) ∗ (tableLoc d ↦{fullShare} m (tableLoc d)) ∗ (tabLoc d ↦{fullShare} m (tabLoc d))
        ∗ OW (F := F) d ∗ GG (F := F) d
        ∗ (iprop(boundary (T d) ∗ (tableLoc d ↦{fullShare} m (tableLoc d)) ∗ (tabLoc d ↦{fullShare} TAB m d) ∗ OW (F := F) d) -∗ Φ ⟨⟩))
      ⊢ wp frame (wpE ((K (F := F)).defs (D (F := F))) 𝒱 (T d) none) Set.univ
          (Prog.lift (.customCall (SparseCore.inner (Pipeline.entry (0 : Fin 1))) ())) Φ := by
  rw [← lift_entry]
  refine BIBase.Entails.trans ?_ ((K (F := F)).wp_liftProg (D (F := F)) 𝒱 (T d) Set.univ none _ Φ)
  refine BIBase.Entails.trans ?_ (region_inner m d Φ)
  unfold GG
  rw [bigSep_univ_of_subsingleton (0 : Fin 1), bigSep_univ_of_subsingleton (0 : Fin 1)]
  iintro ⟨#Hctx, Hb, Ha, Hv, HO, ⟨Hg, Ht⟩, Hk⟩
  ihave Hla := (SparseCore.Cfg.ctx_levAts κ) $$ Hctx
  isplitr; · iexact Hla
  isplitl [Hb]; · iexact Hb
  isplitl [Ha]; · iexact Ha
  isplitl [Hv]; · iexact Hv
  isplitl [HO]; · iexact HO
  isplitl [Hg]; · iexact Hg
  isplitl [Ht]; · iexact Ht
  iexact Hk

end Step

end Cert.Proof.KI

end
-- ==== Proof.KI.Main.lean ====
/-
  @main on a device's TensorCore: the kernel region that scales and pads the table, the reshape of the tokens into
  rows of 128, the SparseCore call — the scaled table and the index rows dealt to the 32 vector subcores as read
  shares, the gathered array as its chunks, all of it back at the gathered rows —, and the reshape of the gathered
  rows into the result; the two arguments are kept as launched.
-/
import proofs.«217222_g83150566851320_cont_9to1_m_45_25_alg».proof.Proof.KI.Region
import proofs.«217222_g83150566851320_cont_9to1_m_45_25_alg».proof.Proof.KI.Split

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)

variable {F : FTy → Type} [FloatOps F]
variable (m : (ℓ : Loc nD τ sig) → Buf (Elt F) ℓ) (ρ : Dev nD → PrngReg)

/-! ## The TensorCore's arrays -/

omit [FloatOps F] in
/-- The TensorCore's unscoped buffers: the two arguments and the four arrays @main computes. -/
theorem unscopedBufs_eq (d : Dev nD) (W : (b : Ref sig .tc) → Buf (Elt F) ((d.tc : Thread nD τ).loc b)) :
    (unscopedBufs d W : sProp (MM F)) = iprop((tokLoc d ↦{fullShare} W main_arg0) ∗ (tableLoc d ↦{fullShare} W main_arg1)
      ∗ (tabLoc d ↦{fullShare} W main_v0) ∗ (idxLoc d ↦{fullShare} W main_v1) ∗ (outLoc d ↦{fullShare} W main_v2) ∗ (resLoc d ↦{fullShare} W main_v3)) := by
  unfold unscopedBufs
  rw [show (Finset.univ.filter fun b : Ref sig .tc => ¬ b.isScoped) = {main_arg0, main_arg1, main_v0, main_v1, main_v2, main_v3} by decide,
    SparseCore.bigSep_insert' (by decide), SparseCore.bigSep_insert' (by decide), SparseCore.bigSep_insert' (by decide),
    SparseCore.bigSep_insert' (by decide), SparseCore.bigSep_insert' (by decide), bigSep_singleton]

abbrev tok' : DevRef τ sig := Proc.devRef .tc (main_arg0 : Ref sig .tc)
abbrev idx' : DevRef τ sig := Proc.devRef .tc (main_v1 : Ref sig .tc)
abbrev out' : DevRef τ sig := Proc.devRef .tc (main_v2 : Ref sig .tc)
abbrev res' : DevRef τ sig := Proc.devRef .tc (main_v3 : Ref sig .tc)

/-- The two reshapes of @main. -/
abbrev opIdx : HloOp τ sig (Elt F) := StableHlo.reshape main_arg0 main_v1 rfl shapeCasts_S4096x200_S6400x128
abbrev opRes : HloOp τ sig (Elt F) := StableHlo.reshape main_v2 main_v3 rfl shapeCasts_S819200x64_S4096x200x64

abbrev SIdx : Finset (DevRef τ sig) := {tok', idx'}
abbrev SRes : Finset (DevRef τ sig) := {out', res'}

omit [FloatOps F] in
theorem held_SIdx (d : Dev nD) (W : Valuation τ sig (Elt F)) :
    (held (T d) SIdx W : sProp (MM F)) = iprop((tokLoc d ↦{fullShare} W tok') ∗ (idxLoc d ↦{fullShare} W idx')) := by
  unfold held SIdx
  rw [SparseCore.bigSep_insert' (by decide), bigSep_singleton]
omit [FloatOps F] in
theorem held_SRes (d : Dev nD) (W : Valuation τ sig (Elt F)) :
    (held (T d) SRes W : sProp (MM F)) = iprop((outLoc d ↦{fullShare} W out') ∗ (resLoc d ↦{fullShare} W res')) := by
  unfold held SRes
  rw [SparseCore.bigSep_insert' (by decide), bigSep_singleton]

/-- The valuations the reshapes run at: the launch memory; the launch memory with the gathered array at the gathered
    rows. -/
def V0 (d : Dev nD) : Valuation τ sig (Elt F) := fun b => m (d, b)
def V2 (d : Dev nD) : Valuation τ sig (Elt F) := Function.update (V0 m d) out' (OUT m d)

theorem hIdx : (opIdx (F := F)).bufs ⊆ SIdx := show ({tok', idx'} : Finset (DevRef τ sig)) ⊆ SIdx by decide
theorem hRes : (opRes (F := F)).bufs ⊆ SRes := show ({out', res'} : Finset (DevRef τ sig)) ⊆ SRes by decide

/-- The first reshape leaves the tokens as they were and the index rows at the tokens in rows of 128. -/
theorem resIdx_tok (d : Dev nD) : (opIdx (F := F)).result (V0 m d) tok' = m (tokLoc d) :=
  (opIdx (F := F)).result_of_not_mem (V0 m d) (b := tok') (show tok' ∉ ({idx'} : Finset (DevRef τ sig)) by decide)
theorem resIdx_idx (d : Dev nD) : (opIdx (F := F)).result (V0 m d) idx' = IDX m d :=
  (StableHlo.reshape_result main_arg0 main_v1 rfl shapeCasts_S4096x200_S6400x128 ⟨by decide, rfl⟩ ⟨by decide, rfl⟩ (V0 m d)).trans rfl

/-- The second leaves the gathered array as it was and the result at the gathered rows in the result's shape. -/
theorem resRes_out (d : Dev nD) : (opRes (F := F)).result (V2 m d) out' = OUT m d :=
  ((opRes (F := F)).result_of_not_mem (V2 m d) (b := out') (show out' ∉ ({res'} : Finset (DevRef τ sig)) by decide)).trans
    (Function.update_self _ _ _)
theorem resRes_res (d : Dev nD) :
    (opRes (F := F)).result (V2 m d) res' = (result (F := F) (m (tokLoc d)) (m (tableLoc d)) : Buf (Elt F) (resLoc d)) :=
  (StableHlo.reshape_result main_v2 main_v3 rfl shapeCasts_S819200x64_S4096x200x64 ⟨by decide, rfl⟩ ⟨by decide, rfl⟩ (V2 m d)).trans
    (by unfold V2; rw [Function.update_self]; rfl)

/-! ## The TensorCore's handshake state around the region -/

/-- What the TensorCore owes before the call is part of its handshake state, and goes back into it. -/
theorem tcSt_owes (d : Dev nD) :
    (K (F := F)).tcSt EH d 0 ⊢ iprop(OW (F := F) d ∗ (OW (F := F) d -∗ (K (F := F)).tcSt EH d 0)) := by
  unfold SparseCore.Cfg.tcSt OW
  iintro ⟨HO, Hrest⟩
  isplitl [HO]; · iexact HO
  iintro HO
  isplitl [HO]; · iexact HO
  iexact Hrest

/-! ## @main -/

/-- @main on device d's TensorCore. -/
theorem hmain (κ : GSem nD τ sig → ℕ) (d : Dev nD) :
    iprop((K (F := F)).ctx EH (P m) κ ∗ (K (F := F)).tcSt EH d 0 ∗ (K (F := F)).tcRes m ρ d ∗ GG (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Htok, Htable, Htab, Hidx, Hout, Hres⟩, -, -⟩, HG⟩
  ihave Hs := (tcSt_owes (F := F) d) $$ Hst
  icases Hs with ⟨HO, Hback⟩
  -- the TensorCore kernel's region
  iapply (region_step m κ d _)
  isplitr; · iexact Hctx
  isplitl [Hb]; · iexact Hb
  isplitl [Htable]; · iexact Htable
  isplitl [Htab]; · iexact Htab
  isplitl [HO]; · iexact HO
  isplitl [HG]; · iexact HG
  iintro ⟨Hb, Htable, Htab, HO⟩
  ihave Hst := Hback $$ HO
  -- the tokens into rows of 128
  iapply (wp_hlo_within 𝒱 (SparseCore.T d) none Set.univ (op := opIdx) (S := SIdx) hIdx (V := V0 m d)) $$ [Hb Htok Hidx]
  · isplitl [Hb]; · iexact Hb
    rw [held_SIdx]
    isplitl [Htok]; · iexact Htok
    iexact Hidx
  iintro ⟨Hb, Hheld⟩
  ihave Hh := (Entails.of_eq (held_SIdx (F := F) d _)) $$ Hheld
  rw [resIdx_tok, resIdx_idx]
  icases Hh with ⟨Htok, Hidx⟩
  rw [wp_ret]; imodintro
  -- the SparseCore call
  ihave Hsp := (split_call m d) $$ [Htab Hidx Hout]
  · isplitl [Htab]; · iexact Htab
    isplitl [Hidx]; · iexact Hidx
    iexists _; iexact Hout
  icases Hsp with ⟨Hstc, Hleft⟩
  iapply ((K (F := F)).wp_run (D (F := F)) 𝒱 (EH := EH) (P := P m) κ d 0) $$ [Hst Hstc Hb Hleft Htok Htable Hres]
  isplitr; · iexact Hctx
  isplitl [Hst]; · iexact Hst
  isplitl [Hstc]; · iexact Hstc
  iintro ⟨Hst, Hdn⟩
  ihave Hj := (join_call m d) $$ [Hdn Hleft]
  · isplitl [Hdn]; · iexact Hdn
    iexact Hleft
  icases Hj with ⟨Htab, Hidx, Hout⟩
  -- the gathered rows into the result's shape
  iapply (wp_hlo_within 𝒱 (SparseCore.T d) none Set.univ (op := opRes) (S := SRes) hRes (V := V2 m d)) $$ [Hb Hout Hres]
  · isplitl [Hb]; · iexact Hb
    rw [held_SRes, show V2 m d out' = OUT m d from Function.update_self _ _ _,
      show V2 m d res' = V0 m d res' from Function.update_of_ne (show res' ≠ out' by decide) _ _]
    isplitl [Hout]; · iexact Hout
    iexact Hres
  iintro ⟨Hb, Hheld⟩
  ihave Hh := (Entails.of_eq (held_SRes (F := F) d _)) $$ Hheld
  rw [resRes_out, resRes_res]
  icases Hh with ⟨Hout, Hres⟩
  rw [wp_ret]; imodintro; imodintro
  isplitl [Hst]; · iexact Hst
  unfold FIN
  isplitl [Htok]; · iexact Htok
  isplitl [Htable]; · iexact Htable
  iexact Hres

end Cert.Proof.KI

end
-- ==== Proof.KB.TileDefs.lean ====
/-
  A vector subcore's task, stated: the pieces of the three arrays it works on as its body addresses them, what its
  scratch buffers hold on the way (the index rows of a group; a landing buffer's rows are the table rows its index row
  names; a compacted buffer's first rows are the landing buffer's first 64 columns), and the invariants of its loops.
-/
import proofs.«217222_g83150566851320_cont_9to1_m_45_25_alg».proof.Proof.KB.Iface
import proofs.«217222_g83150566851320_cont_9to1_m_45_25_alg».proof.Proof.Gen.Kernel.Skeleton

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix2 ix3)
open Idealize.ShloMosaic.Transfers (shareTok shareTokN shareDrop)

variable {F : FTy → Type} [FloatOps F]

local notation "𝕄" => MM F

variable (d : Dev nD) (L : grid1.Coords)

/-- The vector subcore at grid coordinates L of device d. -/
abbrev thr : Thread nD τ := V d (cV L) (jV L)

/-- Chunk q of group k as the body slices it out of the gathered array: 128 rows from row 25600·wid + 5120·k + 128·q. -/
abbrev outK (k : Fin k1_t1_loop.trips) (q : Fin 40) : Memref sig .scVector .hbm S128x64 .f32 :=
  outV.slice (Rect.unit (s := S819200x64) (k1_off10 L k (BitVec.ofNat 32 (128 * q.val))) S128x64.size (k1_off10_inb L k q)) (fun _ => rfl)

/-- The index rows of group k as the body slices them: 40 rows from row 200·wid + 40·k. -/
abbrev idxK (k : Fin k1_t1_loop.trips) : Memref sig .scVector .hbm S40x128 .i32 :=
  idxV.slice (Rect.unit (s := S6400x128) (k1_off1 L k) S40x128.size (k1_off1_inb L k)) (fun _ => rfl)

/-- The number, among the 6400, of chunk q of group k of this subcore. -/
def chunkNo (k q : ℕ) : ℕ := 200 * wid (cV L) (jV L) + 40 * k + q

section Values

variable (ft : FVec F S100000x128 .f32) (fi : IVec S6400x128 32)

/-- The index scratch holds the 40 index rows of group k. -/
def IdxHolds (k : ℕ) (s : IVec S40x128 32) : Prop :=
  ∀ (r : Fin 40) (c : Fin 128) (h : chunkNo L k r.val < 6400), s (ix2 r c) = fi (ix2 (n0 := 6400) (n1 := 128) ⟨chunkNo L k r.val, h⟩ c)

/-- A landing buffer holds, row by row, the table rows that index row n names. -/
def RowsOf (n : ℕ) (g : FVec F S128x128 .f32) : Prop :=
  ∀ (r : Fin 128) (c : Fin 128) (h : n < 6400), g (ix2 r c) = ft (ix2 (n0 := 100000) (n1 := 128) (Cert.Spec.rowOf (fi (ix2 (n0 := 6400) (n1 := 128) ⟨n, h⟩ r))) c)

/-- The first 8·t rows of a compacted buffer are the landing buffer's first 64 columns. -/
def Compacted (g : FVec F S128x128 .f32) (f : FVec F S128x64 .f32) (t : ℕ) : Prop :=
  ∀ (r : Fin 128) (c : Fin 64), r.val < 8 * t → f (ix2 r c) = g (ix2 (n0 := 128) (n1 := 128) r (c.castLE (by decide)))

/-- A compacted buffer holds chunk n of the gathered rows. -/
def ChunkOf (n : ℕ) (f : FVec F S128x64 .f32) : Prop :=
  ∀ (r : Fin 128) (c : Fin 64) (h : n < 6400), f (ix2 r c) = ft (ix2 (n0 := 100000) (n1 := 128) (Cert.Spec.rowOf (fi (ix2 (n0 := 6400) (n1 := 128) ⟨n, h⟩ r))) (c.castLE (by decide)))

theorem chunkOf_of_compacted {n : ℕ} {g : FVec F S128x128 .f32} {f : FVec F S128x64 .f32}
    (hg : RowsOf ft fi n g) (hf : Compacted g f 16) : ChunkOf ft fi n f :=
  fun r c h => (hf r c (by have := r.isLt; omega)).trans (hg r _ h)

end Values

/-- The invariant of a chunk's compaction loop: the landing buffer src unchanged, at rows that index row n names; the
    compacted buffer dst with its first 8·t rows done. -/
def invC (ft : FVec F S100000x128 .f32) (fi : IVec S6400x128 32) (n : ℕ)
    (src : Memref sig .scVector .vmem S128x128 .f32) (dst : Memref sig .scVector .vmem S128x64 .f32) (t : Nat) (_ : PUnit) : sProp 𝕄 :=
  iprop(∃ g : Buf (Elt F) (src.view.loc (thr d L)), ⌜RowsOf ft fi n (src.view.read (Elt F) g)⌝ ∗ (src.view.loc (thr d L) ↦{fullShare} g)
    ∗ ∃ f : Buf (Elt F) (dst.view.loc (thr d L)), ⌜Compacted (src.view.read (Elt F) g) (dst.view.read (Elt F) f) t⌝ ∗ (dst.view.loc (thr d L) ↦{fullShare} f))

end Cert.Proof.KB

end
-- ==== Proof.KB.TilePlumb.lean ====
/-
  The plumbing around a vector subcore's task. The wrapper: the launch theorem's obligation for a task follows from
  the body's obligation at a symbolic place, stated over exactly what the body touches — what the subcore is handed, its
  six scratch buffers and its six DMA semaphores —, the rest of the subcore's scoped storage framed through. And the
  separation bookkeeping the body's proof uses: a read share dealt to the three cells the gathers complete on; what
  the subcore is handed and hands back in the body's own spelling of the pieces (group by group, chunk by chunk); a
  family of resources done up to an index; forty summands one by one.
-/
import proofs.«217222_g83150566851320_cont_9to1_m_45_25_alg».proof.Proof.KB.TileDefs

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix2 ix3)
open Idealize.ShloMosaic.Transfers (shareTok shareTokN shareDrop)

variable {F : FTy → Type} [FloatOps F]

/-! ## A read share dealt to the cells its transfers complete on -/

section Shares

variable {ℓ : Loc nD τ sig} (S : Finset (Idx ℓ)) (q : PosShare TreeShare) (f : Buf (Elt F) ℓ)

/-- What is left of a share q of an array after the read tokens number 4, 5 and 6 are taken out of its first seven:
    the remainder and the tokens 0 to 3. -/
def TABREST (ℓ : Loc nD τ sig) (S : Finset (Idx ℓ)) (q : PosShare TreeShare) (f : Buf (Elt F) ℓ) : sProp (MM F) :=
  iprop((ℓ ↦[S]{shareDrop q 7} f) ∗ (ℓ ↦[S]{shareTokN q 0} f) ∗ (ℓ ↦[S]{shareTokN q 1} f) ∗ (ℓ ↦[S]{shareTokN q 2} f) ∗ (ℓ ↦[S]{shareTokN q 3} f))

omit [FloatOps F] in
theorem bigSep_range7 (Φ : ℕ → sProp (MM F)) : bigSep (Finset.range 7) Φ = iprop(Φ 0 ∗ Φ 1 ∗ Φ 2 ∗ Φ 3 ∗ Φ 4 ∗ Φ 5 ∗ Φ 6) := by
  rw [show Finset.range 7 = {0, 1, 2, 3, 4, 5, 6} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

omit [FloatOps F] in
/-- A share of an array is its read tokens number 4, 5, 6 and the rest. -/
theorem tab_cells : (ℓ ↦[S]{q} f : sProp (MM F))
    ⊣⊢ iprop(TABREST ℓ S q f ∗ (ℓ ↦[S]{shareTokN q 4} f) ∗ (ℓ ↦[S]{shareTokN q 5} f) ∗ (ℓ ↦[S]{shareTokN q 6} f)) := by
  have h := Transfers.pointsTo_toks_range (ℓ := ℓ) (S := S) (f := f) (nD := nD) (τ := τ) (sig := sig) (Ix := HIx 1) (Val := Elt F) (Name := ℕ) (U := UU) (Lvl := ℕ) q 7
  rw [bigSep_range7] at h
  unfold TABREST
  constructor
  · refine h.1.trans ?_
    iintro ⟨Hd, H0, H1, H2, H3, H4, H5, H6⟩
    isplitl [Hd H0 H1 H2 H3]
    · isplitl [Hd]; · iexact Hd
      isplitl [H0]; · iexact H0
      isplitl [H1]; · iexact H1
      isplitl [H2]; · iexact H2
      iexact H3
    isplitl [H4]; · iexact H4
    isplitl [H5]; · iexact H5
    iexact H6
  · refine BIBase.Entails.trans ?_ h.2
    iintro ⟨⟨Hd, H0, H1, H2, H3⟩, H4, H5, H6⟩
    isplitl [Hd]; · iexact Hd
    isplitl [H0]; · iexact H0
    isplitl [H1]; · iexact H1
    isplitl [H2]; · iexact H2
    isplitl [H3]; · iexact H3
    isplitl [H4]; · iexact H4
    isplitl [H5]; · iexact H5
    iexact H6

end Shares

/-! ## A family done up to an index -/

section Prefix

variable {N : ℕ} (Φdone Φtodo : Fin N → sProp (MM F))

/-- The family done below k and still to do from k on, without its member k. -/
def REST (k : Fin N) : sProp (MM F) := bigSep (Finset.univ.erase k) fun k' => if k'.val < k.val then Φdone k' else Φtodo k'

omit [FloatOps F] in
/-- Done below k: member k, still to do, and the rest. -/
theorem prefix_take (k : Fin N) :
    (bigSep Finset.univ fun k' : Fin N => if k'.val < k.val then Φdone k' else Φtodo k') = iprop(Φtodo k ∗ REST Φdone Φtodo k) := by
  unfold REST
  rw [bigSep_univ_at (fun k' : Fin N => if k'.val < k.val then Φdone k' else Φtodo k') k, if_neg (Nat.lt_irrefl _)]

omit [FloatOps F] in
/-- Member k done, and the rest: done below k + 1. -/
theorem prefix_put (k : Fin N) :
    iprop(Φdone k ∗ REST Φdone Φtodo k) = bigSep Finset.univ fun k' : Fin N => if k'.val < k.val + 1 then Φdone k' else Φtodo k' := by
  unfold REST
  rw [bigSep_univ_at (fun k' : Fin N => if k'.val < k.val + 1 then Φdone k' else Φtodo k') k, if_pos (Nat.lt_succ_self _)]
  congr 1
  refine bigSep_congr fun k' hk' => ?_
  have hne : k'.val ≠ k.val := fun e => (Finset.mem_erase.mp hk').1 (Fin.ext e)
  by_cases h : k'.val < k.val
  · rw [if_pos h, if_pos (by omega)]
  · rw [if_neg h, if_neg (by omega)]

omit [FloatOps F] in
theorem prefix_zero : (bigSep Finset.univ fun k' : Fin N => if k'.val < 0 then Φdone k' else Φtodo k') = bigSep Finset.univ Φtodo :=
  bigSep_congr fun _ _ => if_neg (Nat.not_lt_zero _)

omit [FloatOps F] in
theorem prefix_full : (bigSep Finset.univ fun k' : Fin N => if k'.val < N then Φdone k' else Φtodo k') = bigSep Finset.univ Φdone :=
  bigSep_congr fun k' _ => if_pos k'.isLt

end Prefix

/-! ## Forty summands, one by one -/

omit [FloatOps F] in
theorem bigSep_fin40 (Φ : Fin 40 → sProp (MM F)) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29 ∗ Φ 30 ∗ Φ 31 ∗ Φ 32 ∗ Φ 33 ∗ Φ 34 ∗ Φ 35 ∗ Φ 36 ∗ Φ 37 ∗ Φ 38 ∗ Φ 39) :=
  bigSep_univ_eq_bigSepL [(0 : Fin 40), 1, 2, 3, 4, 5, 6, 7, 8, 9, 10, 11, 12, 13, 14, 15, 16, 17, 18, 19, 20, 21, 22, 23, 24, 25, 26, 27, 28, 29, 30, 31, 32, 33, 34, 35, 36, 37, 38, 39] (by decide) (by decide) Φ

/-! ## The operands in the body's spelling -/

omit [FloatOps F] in
theorem trips_eq : k1_t1_loop.trips = 5 := by decide

omit [FloatOps F] in
theorem kq_lt (k : Fin k1_t1_loop.trips) (q : Fin 40) : 40 * k.val + q.val < 200 := by
  have hk : k.val < 5 := trips_eq ▸ k.isLt
  have := q.isLt; omega

/-- Chunk q of group k is the subcore's chunk number 40 k + q of its 200. -/
def kqEquiv : Fin k1_t1_loop.trips × Fin 40 ≃ Fin 200 where
  toFun p := ⟨40 * p.1.val + p.2.val, kq_lt p.1 p.2⟩
  invFun j := (⟨j.val / 40, trips_eq ▸ (show j.val / 40 < 5 by have := j.isLt; omega)⟩, ⟨j.val % 40, Nat.mod_lt _ (by decide)⟩)
  left_inv := by
    rintro ⟨k, q⟩
    have hk : k.val < 5 := trips_eq ▸ k.isLt
    have hq : q.val < 40 := q.isLt
    refine Prod.ext (Fin.ext ?_) (Fin.ext ?_)
    · show (40 * k.val + q.val) / 40 = k.val; omega
    · show (40 * k.val + q.val) % 40 = q.val; omega
  right_inv := by
    intro j; apply Fin.ext; show 40 * (j.val / 40) + j.val % 40 = j.val; omega

omit [FloatOps F] in
/-- The rectangle the body slices for chunk q of group k is that chunk of the gathered array. -/
theorem rectK_eq (L : grid1.Coords) (k : Fin k1_t1_loop.trips) (q : Fin 40) :
    Rect.unit (s := S819200x64) (k1_off10 L k (BitVec.ofNat 32 (128 * q.val))) S128x64.size (k1_off10_inb L k q)
      = chunk (chunkOf (cV L) (jV L) (kqEquiv (k, q))) := by
  unfold chunk Rect.part Rect.block
  congr 1 <;> funext a
  · rw [k1_off10_eq]
    match a with
    | 0 =>
      show 51200 * (L 1).val + 25600 * (L 0).val + 5120 * k.val + 128 * q.val
        = (200 * (2 * (L 1).val + (L 0).val) + (40 * k.val + q.val)) * (819200 / 6400)
      omega
    | 1 => simp [Shape.partIx, Shape.partSize]
  · match a with
    | 0 => simp [Shape.partSize]
    | 1 => simp [Shape.partSize]

omit [FloatOps F] in
theorem set_outK (L : grid1.Coords) (k : Fin k1_t1_loop.trips) (q : Fin 40) :
    (outK L k q).view.set = chunkSet (chunkOf (cV L) (jV L) (kqEquiv (k, q))) := by
  show ((outV : Memref sig .scVector .hbm S819200x64 .f32).view.slice
      (Rect.unit (s := S819200x64) (k1_off10 L k (BitVec.ofNat 32 (128 * q.val))) S128x64.size (k1_off10_inb L k q))).set = _
  rw [rectK_eq]

section Operands

variable (m : (ℓ : Loc nD τ sig) → Buf (Elt F) ℓ) (d : Dev nD) (L : grid1.Coords)

/-- What a vector subcore is handed, as its body addresses it: the scaled table and the index rows under its read
    share, and per group and chunk of the group the rows of the gathered array the body slices for it. -/
theorem go_eq : GO m d (cV L) (jV L)
    = iprop(((tabV : Memref sig .scVector .hbm S100000x128 .f32).view.loc (thr d L) ↦{tok (cV L) (jV L)} TAB m d)
        ∗ ((idxV : Memref sig .scVector .hbm S6400x128 .i32).view.loc (thr d L) ↦{tok (cV L) (jV L)} IDX m d)
        ∗ bigSep Finset.univ fun k : Fin k1_t1_loop.trips => bigSep Finset.univ fun q : Fin 40 =>
            iprop(∃ f, (outK L k q).view.loc (thr d L) ↦[(outK L k q).view.set]{fullShare} f)) := by
  have e1 : (tabLoc d ↦{tok (cV L) (jV L)} TAB m d : sProp (MM F))
      = ((tabV : Memref sig .scVector .hbm S100000x128 .f32).view.loc (thr d L) ↦{tok (cV L) (jV L)} TAB m d) := rfl
  have e2 : (idxLoc d ↦{tok (cV L) (jV L)} IDX m d : sProp (MM F))
      = ((idxV : Memref sig .scVector .hbm S6400x128 .i32).view.loc (thr d L) ↦{tok (cV L) (jV L)} IDX m d) := rfl
  have e3 : ∀ (k : Fin k1_t1_loop.trips) (q : Fin 40),
      (iprop(∃ f, outLoc d ↦[chunkSet (chunkOf (cV L) (jV L) (kqEquiv (k, q)))]{fullShare} f) : sProp (MM F))
        = iprop(∃ f, (outK L k q).view.loc (thr d L) ↦[(outK L k q).view.set]{fullShare} f) := fun k q => by
    rw [set_outK]
  have e4 : (bigSep Finset.univ fun k : Fin k1_t1_loop.trips => bigSep Finset.univ fun q : Fin 40 =>
        (iprop(∃ f, outLoc d ↦[chunkSet (chunkOf (cV L) (jV L) (kqEquiv (k, q)))]{fullShare} f) : sProp (MM F)))
      = bigSep Finset.univ fun k : Fin k1_t1_loop.trips => bigSep Finset.univ fun q : Fin 40 =>
          iprop(∃ f, (outK L k q).view.loc (thr d L) ↦[(outK L k q).view.set]{fullShare} f) :=
    bigSep_congr fun k _ => bigSep_congr fun q _ => e3 k q
  unfold GO
  rw [bigSep_univ_equiv kqEquiv, bigSep_univ_prod, e1, e2, e4]

/-- What it hands back, the same way: every piece at the gathered rows. -/
theorem td_eq : TD m d (cV L) (jV L)
    = iprop(((tabV : Memref sig .scVector .hbm S100000x128 .f32).view.loc (thr d L) ↦{tok (cV L) (jV L)} TAB m d)
        ∗ ((idxV : Memref sig .scVector .hbm S6400x128 .i32).view.loc (thr d L) ↦{tok (cV L) (jV L)} IDX m d)
        ∗ bigSep Finset.univ fun k : Fin k1_t1_loop.trips => bigSep Finset.univ fun q : Fin 40 =>
            (outK L k q).view.loc (thr d L) ↦[(outK L k q).view.set]{fullShare} OUT m d) := by
  have e1 : (tabLoc d ↦{tok (cV L) (jV L)} TAB m d : sProp (MM F))
      = ((tabV : Memref sig .scVector .hbm S100000x128 .f32).view.loc (thr d L) ↦{tok (cV L) (jV L)} TAB m d) := rfl
  have e2 : (idxLoc d ↦{tok (cV L) (jV L)} IDX m d : sProp (MM F))
      = ((idxV : Memref sig .scVector .hbm S6400x128 .i32).view.loc (thr d L) ↦{tok (cV L) (jV L)} IDX m d) := rfl
  have e3 : ∀ (k : Fin k1_t1_loop.trips) (q : Fin 40),
      (outLoc d ↦[chunkSet (chunkOf (cV L) (jV L) (kqEquiv (k, q)))]{fullShare} OUT m d : sProp (MM F))
        = ((outK L k q).view.loc (thr d L) ↦[(outK L k q).view.set]{fullShare} OUT m d) := fun k q => by
    rw [set_outK]
  have e4 : (bigSep Finset.univ fun k : Fin k1_t1_loop.trips => bigSep Finset.univ fun q : Fin 40 =>
        (outLoc d ↦[chunkSet (chunkOf (cV L) (jV L) (kqEquiv (k, q)))]{fullShare} OUT m d : sProp (MM F)))
      = bigSep Finset.univ fun k : Fin k1_t1_loop.trips => bigSep Finset.univ fun q : Fin 40 =>
          ((outK L k q).view.loc (thr d L) ↦[(outK L k q).view.set]{fullShare} OUT m d) :=
    bigSep_congr fun k _ => bigSep_congr fun q _ => e3 k q
  unfold TD
  rw [bigSep_univ_equiv kqEquiv, bigSep_univ_prod, e1, e2, e4]

theorem go_split : GO m d (cV L) (jV L)
    ⊣⊢ iprop(((tabV : Memref sig .scVector .hbm S100000x128 .f32).view.loc (thr d L) ↦{tok (cV L) (jV L)} TAB m d)
        ∗ ((idxV : Memref sig .scVector .hbm S6400x128 .i32).view.loc (thr d L) ↦{tok (cV L) (jV L)} IDX m d)
        ∗ bigSep Finset.univ fun k : Fin k1_t1_loop.trips => bigSep Finset.univ fun q : Fin 40 =>
            iprop(∃ f, (outK L k q).view.loc (thr d L) ↦[(outK L k q).view.set]{fullShare} f)) :=
  ⟨Entails.of_eq (go_eq m d L), Entails.of_eq (go_eq m d L).symm⟩

theorem td_join : iprop(((tabV : Memref sig .scVector .hbm S100000x128 .f32).view.loc (thr d L) ↦{tok (cV L) (jV L)} TAB m d)
        ∗ ((idxV : Memref sig .scVector .hbm S6400x128 .i32).view.loc (thr d L) ↦{tok (cV L) (jV L)} IDX m d)
        ∗ bigSep Finset.univ fun k : Fin k1_t1_loop.trips => bigSep Finset.univ fun q : Fin 40 =>
            (outK L k q).view.loc (thr d L) ↦[(outK L k q).view.set]{fullShare} OUT m d)
      ⊢ TD m d (cV L) (jV L) :=
  Entails.of_eq (td_eq m d L).symm

end Operands

/-! ## A vector subcore's scratch and semaphores -/

section Wrapper

variable (d : Dev nD) (L : grid1.Coords)

/-- The subcore's six scratch buffers, each whole at some contents. -/
def SCR : sProp (MM F) :=
  iprop((∃ f, (sIdx : Memref sig .scVector .vmem S40x128 .i32).view.loc (thr d L) ↦{fullShare} f)
    ∗ (∃ f, (sR0 : Memref sig .scVector .vmem S128x128 .f32).view.loc (thr d L) ↦{fullShare} f)
    ∗ (∃ f, (sR1 : Memref sig .scVector .vmem S128x128 .f32).view.loc (thr d L) ↦{fullShare} f)
    ∗ (∃ f, (sR2 : Memref sig .scVector .vmem S128x128 .f32).view.loc (thr d L) ↦{fullShare} f)
    ∗ (∃ f, (sC0 : Memref sig .scVector .vmem S128x64 .f32).view.loc (thr d L) ↦{fullShare} f)
    ∗ (∃ f, (sC1 : Memref sig .scVector .vmem S128x64 .f32).view.loc (thr d L) ↦{fullShare} f))

/-- The six DMA semaphores its body uses, each at zero. -/
def SEM : sProp (MM F) :=
  iprop(semVal (thr d L, SemLoc.dma cc1_scratch6.sem) 0 ∗ semVal (thr d L, SemLoc.dma cc1_scratch7.sem) 0
    ∗ semVal (thr d L, SemLoc.dma cc1_scratch8.sem) 0 ∗ semVal (thr d L, SemLoc.dma cc1_scratch9.sem) 0
    ∗ semVal (thr d L, SemLoc.dma cc1_scratch10.sem) 0 ∗ semVal (thr d L, SemLoc.dma cc1_scoped0.sem) 0)

/-- The six semaphores, and the six buffers, as sets. -/
def semsK : Finset (SemLoc sig) :=
  {SemLoc.dma cc1_scratch6.sem, SemLoc.dma cc1_scratch7.sem, SemLoc.dma cc1_scratch8.sem, SemLoc.dma cc1_scratch9.sem,
    SemLoc.dma cc1_scratch10.sem, SemLoc.dma cc1_scoped0.sem}
def refsK : Finset (Ref sig .scVector) := {cc1_scratch0, cc1_scratch1, cc1_scratch2, cc1_scratch3, cc1_scratch4, cc1_scratch5}

def atThr : SemLoc sig ↪ GSem nD τ sig := ⟨fun s => (thr d L, s), fun _ _ e => (Prod.mk.inj e).2⟩
def atProc (c : Fin τ.nSC) (i : Fin τ.nSub) : Ref sig .scVector ↪ DevRef τ sig :=
  ⟨(Proc.scVector c i).devRef, Proc.devRef_injective _⟩

omit [FloatOps F] in
theorem semsK_scoped : ∀ s ∈ semsK, (s : SemLoc sig).isScoped .scVector = true := by decide

omit [FloatOps F] in
theorem semsK_sub : semsK.map (atThr d L) ⊆ ownCells (thr d L) := by
  intro g hg
  obtain ⟨s, hs, rfl⟩ := Finset.mem_map.mp hg
  exact mem_ownCells.mpr ⟨rfl, semsK_scoped s hs⟩

omit [FloatOps F] in
theorem refsK_sub (c : Fin τ.nSC) (i : Fin τ.nSub) : refsK.map (atProc c i) ⊆ ownRefs (τ := τ) (.scVector c i) := by
  intro b hb
  obtain ⟨r, hr, rfl⟩ := Finset.mem_map.mp hb
  simp only [refsK, Finset.mem_insert, Finset.mem_singleton] at hr
  rcases hr with rfl | rfl | rfl | rfl | rfl | rfl <;> exact SparseCore.Cfg.mem_ownRefs_of_owner rfl

omit [FloatOps F] in
/-- The subcore's own semaphores at zero are the six and the others. -/
theorem ownSems0_thr : (ownSems0 (thr d L) : sProp (MM F))
    = iprop(SEM d L ∗ bigSep (ownCells (thr d L) \ semsK.map (atThr d L)) fun g => semVal g 0) := by
  unfold SparseCore.Cfg.ownSems0 SEM
  rw [SparseCore.bigSep_sdiff_split' (semsK_sub d L), bigSep_map]
  unfold semsK
  rw [SparseCore.bigSep_insert' (by decide), SparseCore.bigSep_insert' (by decide), SparseCore.bigSep_insert' (by decide),
    SparseCore.bigSep_insert' (by decide), SparseCore.bigSep_insert' (by decide), bigSep_singleton]
  rfl

omit [FloatOps F] in
/-- The subcore's own buffers are the six scratch buffers and the others. -/
theorem ownBufs_thr : (ownBufs (thr d L) : sProp (MM F))
    = iprop(SCR d L ∗ bigSep (ownRefs (τ := τ) (.scVector (cV L) (jV L)) \ refsK.map (atProc (cV L) (jV L)))
        fun b => iprop(∃ f, ((d, b) : Loc nD τ sig) ↦{fullShare} f)) := by
  unfold SparseCore.Cfg.ownBufs SCR
  rw [SparseCore.bigSep_sdiff_split' (refsK_sub (cV L) (jV L)), bigSep_map]
  unfold refsK
  rw [SparseCore.bigSep_insert' (by decide), SparseCore.bigSep_insert' (by decide), SparseCore.bigSep_insert' (by decide),
    SparseCore.bigSep_insert' (by decide), SparseCore.bigSep_insert' (by decide), bigSep_singleton]
  rfl

variable (m : (ℓ : Loc nD τ sig) → Buf (Elt F) ℓ)

/-- The body's obligation at a symbolic place: from what the subcore is handed, its scratch and its semaphores at
    zero, to what it hands back, the scratch and the semaphores at zero again. -/
def BODY (O : CellTallies nD τ sig (HIx 1)) (W : Waits sig (HIx 1)) : Prop :=
  iprop(levAts (K (F := F)).L (K (F := F)).lev ∗ GO m d (cV L) (jV L) ∗ SCR d L ∗ SEM d L ∗ owes (thr d L) O W)
    ⊢ wp frame (wpE (defs₀ (F := F)) 𝒱₀ (thr d L) none) Set.univ
        (cc1_gather L tabV (Memref.isWhole_whole _) idxV (Memref.isWhole_whole _) outV (Memref.isWhole_whole _) sIdx (Memref.isWhole_whole _) sR0 (Memref.isWhole_whole _) sR1 (Memref.isWhole_whole _) sR2 (Memref.isWhole_whole _) sC0 (Memref.isWhole_whole _) sC1 (Memref.isWhole_whole _) cc1_scratch6 cc1_scratch7 cc1_scratch8 cc1_scratch9 cc1_scratch10 cc1_scoped0)
        fun _ => iprop(TD m d (cV L) (jV L) ∗ SCR d L ∗ SEM d L ∗ ∃ W', ⌜∀ p ∈ W', p ∈ W ∨ p.2 = none⌝ ∗ owes (thr d L) O W')

theorem defs₀_vector (c : Fin τ.nSC) (s : Fin τ.nSub) :
    defs₀ (F := F) (.scVector c s) 1 ()
      = SparseCore.onTile hcore1 hsub1 (fun c s => cc1_gather (coordsV c s) tabV (Memref.isWhole_whole _) idxV (Memref.isWhole_whole _) outV (Memref.isWhole_whole _) sIdx (Memref.isWhole_whole _) sR0 (Memref.isWhole_whole _) sR1 (Memref.isWhole_whole _) sR2 (Memref.isWhole_whole _) sC0 (Memref.isWhole_whole _) sC1 (Memref.isWhole_whole _) cc1_scratch6 cc1_scratch7 cc1_scratch8 cc1_scratch9 cc1_scratch10 cc1_scoped0) ⟨⟩ c s := rfl

/-- The body's obligation, with the rest of the subcore's scoped storage framed through. -/
theorem body_framed (hF : (K (F := F)).Facts) (O : CellTallies nD τ sig (HIx 1)) (W : Waits sig (HIx 1)) (hB : BODY d L m O W) :
    iprop(levAts (K (F := F)).L (K (F := F)).lev ∗ emp ∗ GO m d (cV L) (jV L) ∗ scopedBufs (thr d L) ∗ scopedSems0 (thr d L) ∗ owes (thr d L) O W)
      ⊢ wp frame (wpE (defs₀ (F := F)) 𝒱₀ (thr d L) none) Set.univ
          (cc1_gather L tabV (Memref.isWhole_whole _) idxV (Memref.isWhole_whole _) outV (Memref.isWhole_whole _) sIdx (Memref.isWhole_whole _) sR0 (Memref.isWhole_whole _) sR1 (Memref.isWhole_whole _) sR2 (Memref.isWhole_whole _) sC0 (Memref.isWhole_whole _) sC1 (Memref.isWhole_whole _) cc1_scratch6 cc1_scratch7 cc1_scratch8 cc1_scratch9 cc1_scratch10 cc1_scoped0)
          fun _ => iprop(TD m d (cV L) (jV L) ∗ scopedBufs (thr d L) ∗ scopedSems0 (thr d L)
            ∗ ∃ W', ⌜∀ p ∈ W', p ∈ W ∨ p.2 = none ∨ p.2 = some (0 : Fin 1)⌝ ∗ owes (thr d L) O W') := by
  unfold BODY at hB
  rw [(K (F := F)).scopedBufs_V hF d (cV L) (jV L), SparseCore.Cfg.scopedSems0_V (Val := Elt F) d (cV L) (jV L), ownSems0_thr, ownBufs_thr]
  iintro ⟨Hlv, -, Hgo, ⟨Hscr, Hbr⟩, ⟨Hsem, Hsr⟩, HO⟩
  iapply (wp_wand_r Idealize.ShloMosaic.frame (wpE (defs₀ (F := F)) 𝒱₀ (thr d L) none) Set.univ)
  isplitl [Hlv Hgo Hscr Hsem HO]
  · iapply hB
    isplitl [Hlv]; · iexact Hlv
    isplitl [Hgo]; · iexact Hgo
    isplitl [Hscr]; · iexact Hscr
    isplitl [Hsem]; · iexact Hsem
    iexact HO
  iintro %_ ⟨Htd, Hscr, Hsem, %W', %hW', HO⟩
  isplitl [Htd]; · iexact Htd
  isplitl [Hscr Hbr]
  · isplitl [Hscr]; · iexact Hscr
    iexact Hbr
  isplitl [Hsem Hsr]
  · isplitl [Hsem]; · iexact Hsem
    iexact Hsr
  iexists W'; isplitr
  · ipureintro; exact fun p hp => (hW' p hp).imp_right Or.inl
  · iexact HO

/-- A vector subcore's task, from its body's obligation at every place. -/
theorem tileObl_of_body (hF : (K (F := F)).Facts)
    (hB : ∀ (d : Dev nD) (L : grid1.Coords) (O : CellTallies nD τ sig (HIx 1)) (W : Waits sig (HIx 1)), (∀ g, O g none = 0) → BODY d L m O W) :
    (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact body_framed d (coordsV ⟨_, hc.1⟩ ⟨_, hc.2⟩) m hF O W (hB d (coordsV ⟨_, hc.1⟩ ⟨_, hc.2⟩) O W hO)

end Wrapper

end Cert.Proof.KB

end
-- ==== Proof.KB.TileVal.lean ====
/-
  What a vector subcore's scratch buffers hold, as values. The index scratch, overwritten whole by the 40 index rows of
  a group, reads through any of its rows as words of the index rows, so every word names a table row. A landing buffer
  written whole by the gather of the table rows that one index row names holds, row by row, those table rows. A
  compaction step copies eight more rows' first 64 columns, sixteen at a time, from the landing buffer into the compacted
  buffer and leaves the earlier rows as they were.
-/
import proofs.«217222_g83150566851320_cont_9to1_m_45_25_alg».proof.Proof.KB.TileDefs
import Idealize.ShloMosaic.Lib.Writes
import Idealize.ShloMosaic.Lib.SparseCore.Stream
import Idealize.ShloMosaic.Lib.Pipeline.Value

noncomputable section

namespace Cert.Proof.KB

open Cert.Kernel Cert.Kernel.Gen

open Idealize.ShloMosaic
open Idealize.ShloMosaic.SparseCore (S V T)
open Idealize.ShloMosaic.ValueIdx (ix2 ix3)

variable {F : FTy → Type} [FloatOps F]

variable (d : Dev nD) (L : grid1.Coords)

/-! ## The index scratch -/

/-- The index scratch, overwritten whole by the index rows of group k and read through any one of its rows, holds words of
    the index rows: each names a table row. -/
theorem hin_rows (fi : IVec S6400x128 32) (hfi : ∀ i, (fi i).toNat < 100000) (k : Fin k1_t1_loop.trips) :
    ∀ (f0 : Buf (Elt F) (sIdx.view.loc (thr d L))) (o : Fin 2 → Nat) (h : ∀ a, o a + S1x128.size a ≤ S40x128.size a) x,
      (((sIdx.slice (Rect.unit (s := S40x128) o S1x128.size h) (fun _ => rfl)).squeeze S128 squeezes_S1x128_S128).view.read (Elt F)
        (View.write (Elt F) sIdx.view f0 ((idxK L k).view.read (Elt F) fi) Finset.univ) x).toNat < 100000 := by
  intro f0 o h x
  rw [show View.write (Elt F) sIdx.view f0 ((idxK L k).view.read (Elt F) fi) Finset.univ = (idxK L k).view.read (Elt F) fi
    from View.write_whole_univ _ _ _]
  exact hfi _

/-! ## A landing buffer -/

/-- Word c of a 128-word row, as the one-row matrix's entry (0, c). -/
theorem squeeze_row_idx (c : Fin 128) :
    Shape.reshapeEquiv squeezes_S1x128_S128.numel_eq (ValueIdx.ix1 c) = ix2 (n0 := 1) (n1 := 128) ⟨0, Nat.one_pos⟩ c :=
  Shape.reshapeEquiv_eq_of_rowMajor _ (by
    rw [Shape.rowMajor_val_two, Shape.rowMajor_val_one]
    show 0 * 128 + c.val = c.val
    omega)

/-- Row q of the index scratch (overwritten whole by the index rows of group k), at word c: word c of index row
    chunkNo k q. -/
theorem idxScratch_row_apply (fi : IVec S6400x128 32) (k : Fin k1_t1_loop.trips) (q : Fin 40)
    (f0 : Buf (Elt F) (sIdx.view.loc (thr d L)))
    (hq : ∀ a, (![q.val, 0] : Fin 2 → Nat) a + S1x128.size a ≤ S40x128.size a) (c : Fin 128)
    (hc : chunkNo L k.val q.val < 6400) :
    ((sIdx.slice (Rect.unit (s := S40x128) ![q.val, 0] S1x128.size hq) (fun _ => rfl)).squeeze S128 squeezes_S1x128_S128).view.read (Elt F)
        (View.write (Elt F) sIdx.view f0 ((idxK L k).view.read (Elt F) fi) Finset.univ) (ValueIdx.ix1 c)
      = fi (ix2 (n0 := 6400) (n1 := 128) ⟨chunkNo L k.val q.val, hc⟩ c) := by
  rw [show View.write (Elt F) sIdx.view f0 ((idxK L k).view.read (Elt F) fi) Finset.univ = (idxK L k).view.read (Elt F) fi
    from View.write_whole_univ _ _ _]
  show fi _ = fi _
  refine congrArg fi (funext ?_)
  refine Fin.forall_fin_two.2 ⟨Fin.ext ?_, Fin.ext ?_⟩
  · show (k1_off1 L k) 0 + 1 * ((![q.val, 0] : Fin 2 → Nat) 0
        + 1 * ((Shape.reshapeEquiv squeezes_S1x128_S128.numel_eq (ValueIdx.ix1 c)) 0).val) = chunkNo L k.val q.val
    rw [squeeze_row_idx, k1_off1_eq]
    show 400 * (L 1).val + 200 * (L 0).val + 40 * k.val + 1 * (q.val + 1 * 0) = 200 * (2 * (L 1).val + (L 0).val) + 40 * k.val + q.val
    omega
  · show (k1_off1 L k) 1 + 1 * ((![q.val, 0] : Fin 2 → Nat) 1
        + 1 * ((Shape.reshapeEquiv squeezes_S1x128_S128.numel_eq (ValueIdx.ix1 c)) 1).val) = c.val
    rw [squeeze_row_idx, k1_off1_eq]
    show 0 + 1 * (0 + 1 * c.val) = c.val
    omega

/-- Position r of the 128 row-major positions of a 128-word row is word r. -/
theorem rowMajor_symm_S128 (r : Fin 128) (j : Fin S128.numel) (hj : j.val = r.val) : S128.rowMajor.symm j = ValueIdx.ix1 r := by
  rw [Equiv.symm_apply_eq]
  refine Fin.ext ?_
  rw [Shape.rowMajor_val_one]
  exact hj

/-- A landing buffer written whole by the gather of the table rows that row q of the index scratch names holds, row by
    row, the table rows that index row chunkNo k q names. -/
theorem rows_value (src : Memref sig .scVector .vmem S128x128 .f32) (ft : FVec F S100000x128 .f32) (fi : IVec S6400x128 32)
    (k : Fin k1_t1_loop.trips) (q : Fin 40)
    (g0 : Buf (Elt F) (src.view.loc (thr d L))) (f0 : Buf (Elt F) (sIdx.view.loc (thr d L)))
    (hq : ∀ a, (![q.val, 0] : Fin 2 → Nat) a + S1x128.size a ≤ S40x128.size a)
    (hn : S128.numel = S128x128.size gathers_S100000x128_S128x128.axis')
    (hin' : ∀ x, (((sIdx.slice (Rect.unit (s := S40x128) ![q.val, 0] S1x128.size hq) (fun _ => rfl)).squeeze S128 squeezes_S1x128_S128).view.read (Elt F)
        (View.write (Elt F) sIdx.view f0 (ReadAs.same.apply ((idxK L k).view.read (Elt F) fi)) Finset.univ) x).toNat
          < S100000x128.size gathers_S100000x128_S128x128.axis) :
    RowsOf ft fi (chunkNo L k.val q.val) (src.view.read (Elt F) (src.view.writes (Elt F) g0
      [⟨Rect.whole S128x128, SparseCore.gatherPayload gathers_S100000x128_S128x128
        (View.read (Elt F) (tabV.slice (Rect.unit (s := S100000x128) ![0, 0] S100000x128.size inb_S100000x128_S100000x128_0_0) (fun _ => rfl)).view ft)
        (SparseCore.rows (View.read (Elt F) ((sIdx.slice (Rect.unit (s := S40x128) ![q.val, 0] S1x128.size hq) (fun _ => rfl)).squeeze S128 squeezes_S1x128_S128).view
          (View.write (Elt F) sIdx.view f0 (ReadAs.same.apply (View.read (Elt F) (idxK L k).view fi)) Finset.univ)) hn hin')⟩])) := by
  intro r c h
  have hw := View.read_writes_cons_emb src.view g0 (Rect.whole S128x128)
    (SparseCore.gatherPayload gathers_S100000x128_S128x128
        (View.read (Elt F) (tabV.slice (Rect.unit (s := S100000x128) ![0, 0] S100000x128.size inb_S100000x128_S100000x128_0_0) (fun _ => rfl)).view ft)
        (SparseCore.rows (View.read (Elt F) ((sIdx.slice (Rect.unit (s := S40x128) ![q.val, 0] S1x128.size hq) (fun _ => rfl)).squeeze S128 squeezes_S1x128_S128).view
          (View.write (Elt F) sIdx.view f0 (ReadAs.same.apply (View.read (Elt F) (idxK L k).view fi)) Finset.univ)) hn hin')) [] (ix2 (n0 := 128) (n1 := 128) r c)
  rw [Rect.emb_whole_apply] at hw
  refine hw.trans ?_
  unfold SparseCore.gatherPayload
  show ft _ = ft _
  refine congrArg ft (funext ?_)
  refine Fin.forall_fin_two.2 ⟨Fin.ext ?_, Fin.ext ?_⟩
  · show 0 + 1 * ((gathers_S100000x128_S128x128.idx _ (ix2 (n0 := 128) (n1 := 128) r c)) gathers_S100000x128_S128x128.axis).val
      = (Cert.Spec.rowOf (fi (ix2 (n0 := 6400) (n1 := 128) ⟨chunkNo L k.val q.val, h⟩ r))).val
    rw [Shape.Gathers.idx_axis]
    have hx : S128.rowMajor.symm (((ix2 (n0 := 128) (n1 := 128) r c) gathers_S100000x128_S128x128.axis').cast hn.symm) = ValueIdx.ix1 r :=
      rowMajor_symm_S128 r _ rfl
    have hv : ((sIdx.slice (Rect.unit (s := S40x128) ![q.val, 0] S1x128.size hq) (fun _ => rfl)).squeeze S128 squeezes_S1x128_S128).view.read (Elt F)
        (View.write (Elt F) sIdx.view f0 (ReadAs.same.apply ((idxK L k).view.read (Elt F) fi)) Finset.univ)
          (S128.rowMajor.symm (((ix2 (n0 := 128) (n1 := 128) r c) gathers_S100000x128_S128x128.axis').cast hn.symm))
        = fi (ix2 (n0 := 6400) (n1 := 128) ⟨chunkNo L k.val q.val, h⟩ r) := by
      rw [hx]
      exact idxScratch_row_apply d L fi k q f0 hq r h
    have hlt := hin' (S128.rowMajor.symm (((ix2 (n0 := 128) (n1 := 128) r c) gathers_S100000x128_S128x128.axis').cast hn.symm))
    rw [hv] at hlt
    have hlt' : (fi (ix2 (n0 := 6400) (n1 := 128) ⟨chunkNo L k.val q.val, h⟩ r)).toNat < 100000 := hlt
    show 0 + 1 * (((sIdx.slice (Rect.unit (s := S40x128) ![q.val, 0] S1x128.size hq) (fun _ => rfl)).squeeze S128 squeezes_S1x128_S128).view.read (Elt F)
        (View.write (Elt F) sIdx.view f0 (ReadAs.same.apply ((idxK L k).view.read (Elt F) fi)) Finset.univ)
          (S128.rowMajor.symm (((ix2 (n0 := 128) (n1 := 128) r c) gathers_S100000x128_S128x128.axis').cast hn.symm))).toNat
      = (fi (ix2 (n0 := 6400) (n1 := 128) ⟨chunkNo L k.val q.val, h⟩ r)).toNat % 100000
    rw [hv, Nat.mod_eq_of_lt hlt']
    omega
  · show 0 + 1 * ((gathers_S100000x128_S128x128.idx _ (ix2 (n0 := 128) (n1 := 128) r c)) (1 : Fin 2)).val = c.val
    rw [Shape.Gathers.idx_of_ne gathers_S100000x128_S128x128 _ _ (1 : Fin 2) (by decide)]
    show 0 + 1 * c.val = c.val
    omega

/-! ## A compaction step -/

/-- The first n rows of the compacted buffer are the landing buffer's first 64 columns. -/
def CompactedRows (g : FVec F S128x128 .f32) (f : FVec F S128x64 .f32) (n : ℕ) : Prop :=
  ∀ (r : Fin 128) (c : Fin 64), r.val < n → f (ix2 r c) = g (ix2 (n0 := 128) (n1 := 128) r (c.castLE (by decide)))

theorem compacted_iff_rows (g : FVec F S128x128 .f32) (f : FVec F S128x64 .f32) (t : ℕ) :
    Compacted g f t ↔ CompactedRows g f (8 * t) := Iff.rfl

/-- Sixteen words of a row of the landing buffer, as the store into the compacted buffer carries them: the piece of a
    compaction step that copies columns [c₀, c₀ + 16) of one row. -/
abbrev cpiece (src : Memref sig .scVector .vmem S128x128 .f32) (g : Buf (Elt F) (src.view.loc (thr d L)))
    (od os : Fin 2 → Nat) (hd : ∀ a, od a + S1x16.size a ≤ S128x64.size a) (hs : ∀ a, os a + S1x16.size a ≤ S128x128.size a) :
    View.Piece (Elt F) S128x64 .f32 :=
  ⟨Rect.unit (s := S128x64) od S1x16.size hd,
    shapeCast S1x16 (shapeCast S16 (View.readAt (Elt F) src.view (Rect.unit (s := S128x128) os S1x16.size hs).toLoadRect g)
      shapeCasts_S1x16_S16) shapeCasts_S16_S1x16⟩

/-- The landing buffer's first 64 columns, at the compacted buffer's shape. -/
def firstCols (G : FVec F S128x128 .f32) : FVec F S128x64 .f32 :=
  fun y => G (ix2 (n0 := 128) (n1 := 128) (y 0) ((y 1 : Fin 64).castLE (by decide)))

/-- A piece at row R, columns from c₀, carries the landing buffer's entries there. -/
theorem cpiece_apply (src : Memref sig .scVector .vmem S128x128 .f32) (g : Buf (Elt F) (src.view.loc (thr d L)))
    (R c₀ : ℕ) (hd : ∀ a, (![R, c₀] : Fin 2 → Nat) a + S1x16.size a ≤ S128x64.size a)
    (hs : ∀ a, (![R, c₀] : Fin 2 → Nat) a + S1x16.size a ≤ S128x128.size a) (x : S1x16.Idx) :
    (cpiece d L src g ![R, c₀] ![R, c₀] hd hs).2 x
      = firstCols (src.view.read (Elt F) g) ((cpiece d L src g ![R, c₀] ![R, c₀] hd hs).1.emb x) := by
  show shapeCast S1x16 (shapeCast S16 (View.readAt (Elt F) src.view (Rect.unit (s := S128x128) ![R, c₀] S1x16.size hs).toLoadRect g)
      shapeCasts_S1x16_S16) shapeCasts_S16_S1x16 x = _
  have hx0 : (x 0).val = 0 := by have h1 : (x 0).val < 1 := (x 0).isLt; omega
  rw [shapeCast_apply _ _ x (ValueIdx.ix1 (n := 16) (x 1)) (by
      rw [Shape.rowMajor_val_one, Shape.rowMajor_val_two]; show (x 1).val = (x 0).val * 16 + (x 1).val; omega),
    shapeCast_apply _ _ (ValueIdx.ix1 (n := 16) (x 1)) x (by
      rw [Shape.rowMajor_val_one, Shape.rowMajor_val_two]; show (x 0).val * 16 + (x 1).val = (x 1).val; omega)]
  show src.view.read (Elt F) g _ = src.view.read (Elt F) g _
  refine congrArg (src.view.read (Elt F) g) (funext ?_)
  refine Fin.forall_fin_two.2 ⟨Fin.ext ?_, Fin.ext ?_⟩
  · rfl
  · rfl

/-- An index inside a piece at row R, columns from c₀, is in row R and in those sixteen columns; and conversely. -/
theorem mem_cpiece_set {R c₀ : ℕ} (hd : ∀ a, (![R, c₀] : Fin 2 → Nat) a + S1x16.size a ≤ S128x64.size a) {r : Fin 128} {c : Fin 64} :
    ix2 (n0 := 128) (n1 := 64) r c ∈ (Rect.unit (s := S128x64) ![R, c₀] S1x16.size hd).set ↔ r.val = R ∧ c₀ ≤ c.val ∧ c.val < c₀ + 16 := by
  rw [LoadRect.mem_set]
  constructor
  · intro h
    obtain ⟨j0, hj0, e0⟩ := h 0
    obtain ⟨j1, hj1, e1⟩ := h 1
    have hj0' : j0 < 1 := hj0
    have hj1' : j1 < 16 := hj1
    have e0' : r.val = R + 1 * j0 := e0
    have e1' : c.val = c₀ + 1 * j1 := e1
    omega
  · rintro ⟨h0, h1, h2⟩
    refine Fin.forall_fin_two.2 ⟨⟨0, Nat.one_pos, ?_⟩, ⟨c.val - c₀, ?_, ?_⟩⟩
    · show r.val = R + 1 * 0
      omega
    · show c.val - c₀ < 16
      omega
    · show c.val = c₀ + 1 * (c.val - c₀)
      omega

/-- One row of a compaction step: the four pieces of sixteen columns at row R, the last written first in the list,
    extend the compacted rows by one. -/
theorem row_step (src : Memref sig .scVector .vmem S128x128 .f32) (dst : Memref sig .scVector .vmem S128x64 .f32)
    (g : Buf (Elt F) (src.view.loc (thr d L))) (f : Buf (Elt F) (dst.view.loc (thr d L))) (R : ℕ)
    (od0 od1 od2 od3 os0 os1 os2 os3 : Fin 2 → ℕ)
    (ed0 : od0 = ![R, 0]) (ed1 : od1 = ![R, 16]) (ed2 : od2 = ![R, 32]) (ed3 : od3 = ![R, 48])
    (es0 : os0 = ![R, 0]) (es1 : os1 = ![R, 16]) (es2 : os2 = ![R, 32]) (es3 : os3 = ![R, 48])
    (hd0 : ∀ a, od0 a + S1x16.size a ≤ S128x64.size a) (hd1 : ∀ a, od1 a + S1x16.size a ≤ S128x64.size a)
    (hd2 : ∀ a, od2 a + S1x16.size a ≤ S128x64.size a) (hd3 : ∀ a, od3 a + S1x16.size a ≤ S128x64.size a)
    (hs0 : ∀ a, os0 a + S1x16.size a ≤ S128x128.size a) (hs1 : ∀ a, os1 a + S1x16.size a ≤ S128x128.size a)
    (hs2 : ∀ a, os2 a + S1x16.size a ≤ S128x128.size a) (hs3 : ∀ a, os3 a + S1x16.size a ≤ S128x128.size a)
    (hC : CompactedRows (src.view.read (Elt F) g) (dst.view.read (Elt F) f) R) :
    CompactedRows (src.view.read (Elt F) g) (dst.view.read (Elt F) (dst.view.writes (Elt F) f
      [cpiece d L src g od3 os3 hd3 hs3, cpiece d L src g od2 os2 hd2 hs2, cpiece d L src g od1 os1 hd1 hs1,
        cpiece d L src g od0 os0 hd0 hs0])) (R + 1) := by
  subst ed0 ed1 ed2 ed3 es0 es1 es2 es3
  intro r c hr
  by_cases hlt : r.val < R
  · rw [View.read_writes_apply_of_forall_not_mem dst.view f (ix2 (n0 := 128) (n1 := 64) r c) _ (fun p hp hy => by
      simp only [List.mem_cons, List.mem_nil_iff, or_false] at hp
      rcases hp with rfl | rfl | rfl | rfl
      · exact absurd ((mem_cpiece_set hd3).1 hy).1 (by omega)
      · exact absurd ((mem_cpiece_set hd2).1 hy).1 (by omega)
      · exact absurd ((mem_cpiece_set hd1).1 hy).1 (by omega)
      · exact absurd ((mem_cpiece_set hd0).1 hy).1 (by omega))]
    exact hC r c hlt
  · have hrR : r.val = R := by omega
    refine View.read_writes_apply_of_pieces dst.view f (firstCols (src.view.read (Elt F) g)) _ (fun p hp x => ?_)
      (ix2 (n0 := 128) (n1 := 64) r c) ?_
    · simp only [List.mem_cons, List.mem_nil_iff, or_false] at hp
      rcases hp with rfl | rfl | rfl | rfl <;> exact cpiece_apply d L src g _ _ _ _ x
    · have hc : c.val < 64 := c.isLt
      rcases (by omega : c.val < 16 ∨ (16 ≤ c.val ∧ c.val < 32) ∨ (32 ≤ c.val ∧ c.val < 48) ∨ 48 ≤ c.val) with h | h | h | h
      · exact ⟨_, List.mem_cons_of_mem _ (List.mem_cons_of_mem _ (List.mem_cons_of_mem _ List.mem_cons_self)),
          (mem_cpiece_set hd0).2 ⟨hrR, by omega, by omega⟩⟩
      · exact ⟨_, List.mem_cons_of_mem _ (List.mem_cons_of_mem _ List.mem_cons_self), (mem_cpiece_set hd1).2 ⟨hrR, by omega, by omega⟩⟩
      · exact ⟨_, List.mem_cons_of_mem _ List.mem_cons_self, (mem_cpiece_set hd2).2 ⟨hrR, by omega, by omega⟩⟩
      · exact ⟨_, List.mem_cons_self, (mem_cpiece_set hd3).2 ⟨hrR, by omega, by omega⟩⟩

/-- The same over any earlier writes: the four pieces of row R written after the list Ls. -/
theorem row_step_cons (src : Memref sig .scVector .vmem S128x128 .f32) (dst : Memref sig .scVector .vmem S128x64 .f32)
    (g : Buf (Elt F) (src.view.loc (thr d L))) (f : Buf (Elt F) (dst.view.loc (thr d L)))
    (Ls : List (View.Piece (Elt F) S128x64 .f32)) (R : ℕ)
    (od0 od1 od2 od3 os0 os1 os2 os3 : Fin 2 → ℕ)
    (ed0 : od0 = ![R, 0]) (ed1 : od1 = ![R, 16]) (ed2 : od2 = ![R, 32]) (ed3 : od3 = ![R, 48])
    (es0 : os0 = ![R, 0]) (es1 : os1 = ![R, 16]) (es2 : os2 = ![R, 32]) (es3 : os3 = ![R, 48])
    (hd0 : ∀ a, od0 a + S1x16.size a ≤ S128x64.size a) (hd1 : ∀ a, od1 a + S1x16.size a ≤ S128x64.size a)
    (hd2 : ∀ a, od2 a + S1x16.size a ≤ S128x64.size a) (hd3 : ∀ a, od3 a + S1x16.size a ≤ S128x64.size a)
    (hs0 : ∀ a, os0 a + S1x16.size a ≤ S128x128.size a) (hs1 : ∀ a, os1 a + S1x16.size a ≤ S128x128.size a)
    (hs2 : ∀ a, os2 a + S1x16.size a ≤ S128x128.size a) (hs3 : ∀ a, os3 a + S1x16.size a ≤ S128x128.size a)
    (hC : CompactedRows (src.view.read (Elt F) g) (dst.view.read (Elt F) (dst.view.writes (Elt F) f Ls)) R) :
    CompactedRows (src.view.read (Elt F) g) (dst.view.read (Elt F) (dst.view.writes (Elt F) f
      (cpiece d L src g od3 os3 hd3 hs3 :: cpiece d L src g od2 os2 hd2 hs2 :: cpiece d L src g od1 os1 hd1 hs1
        :: cpiece d L src g od0 os0 hd0 hs0 :: Ls))) (R + 1) :=
  row_step d L src dst g (dst.view.writes (Elt F) f Ls) R od0 od1 od2 od3 os0 os1 os2 os3 ed0 ed1 ed2 ed3 es0 es1 es2 es3
    hd0 hd1 hd2 hd3 hs0 hs1 hs2 hs3 hC

end Cert.Proof.KB

end
-- ==== Proof.KB.TileVal2a.lean ====
/-
  The compaction steps of loops 1 to 10 of the 40, one statement each: trip t of a chunk's compaction loop copies eight more
  rows' first 64 columns from its landing buffer into its compacted buffer. Each is eight applications of the one-row
  step at the loop's own offset functions, whose closed forms are row 8 t + j, columns 0, 16, 32, 48.
-/
import proofs.«217222_g83150566851320_cont_9to1_m_45_25_alg».proof.Proof.KB.TileVal

noncomputable section

namespace Cert.Proof.KB

open Cert.Kernel Cert.Kernel.Gen

open Idealize.ShloMosaic
open Idealize.ShloMosaic.SparseCore (S V T)
open Idealize.ShloMosaic.ValueIdx (ix2 ix3)

variable {F : FTy → Type} [FloatOps F]

variable (d : Dev nD) (L : grid1.Coords)

/-- The compaction step of loop 1 of 40: trip t copies rows [8 t, 8 t + 8) of the landing buffer's first 64 columns. -/
theorem compact_step_t2 (t : Fin k1_t2_loop.trips) (g : Buf (Elt F) (sR0.view.loc (thr d L))) (f : Buf (Elt F) (sC0.view.loc (thr d L)))
    (hC : Compacted (sR0.view.read (Elt F) g) (sC0.view.read (Elt F) f) t.val) :
    Compacted (sR0.view.read (Elt F) g) (sC0.view.read (Elt F) (sC0.view.writes (Elt F) f
      [cpiece d L sR0 g (k1_off9 t 7#32) (k1_off8 t 7#32) (k1_off9_inb t 7) (k1_off8_inb t 7),
       cpiece d L sR0 g (k1_off7 t 7#32) (k1_off6 t 7#32) (k1_off7_inb t 7) (k1_off6_inb t 7),
       cpiece d L sR0 g (k1_off5 t 7#32) (k1_off4 t 7#32) (k1_off5_inb t 7) (k1_off4_inb t 7),
       cpiece d L sR0 g (k1_off3 t 7#32) (k1_off2 t 7#32) (k1_off3_inb t 7) (k1_off2_inb t 7),
       cpiece d L sR0 g (k1_off9 t 6#32) (k1_off8 t 6#32) (k1_off9_inb t 6) (k1_off8_inb t 6),
       cpiece d L sR0 g (k1_off7 t 6#32) (k1_off6 t 6#32) (k1_off7_inb t 6) (k1_off6_inb t 6),
       cpiece d L sR0 g (k1_off5 t 6#32) (k1_off4 t 6#32) (k1_off5_inb t 6) (k1_off4_inb t 6),
       cpiece d L sR0 g (k1_off3 t 6#32) (k1_off2 t 6#32) (k1_off3_inb t 6) (k1_off2_inb t 6),
       cpiece d L sR0 g (k1_off9 t 5#32) (k1_off8 t 5#32) (k1_off9_inb t 5) (k1_off8_inb t 5),
       cpiece d L sR0 g (k1_off7 t 5#32) (k1_off6 t 5#32) (k1_off7_inb t 5) (k1_off6_inb t 5),
       cpiece d L sR0 g (k1_off5 t 5#32) (k1_off4 t 5#32) (k1_off5_inb t 5) (k1_off4_inb t 5),
       cpiece d L sR0 g (k1_off3 t 5#32) (k1_off2 t 5#32) (k1_off3_inb t 5) (k1_off2_inb t 5),
       cpiece d L sR0 g (k1_off9 t 4#32) (k1_off8 t 4#32) (k1_off9_inb t 4) (k1_off8_inb t 4),
       cpiece d L sR0 g (k1_off7 t 4#32) (k1_off6 t 4#32) (k1_off7_inb t 4) (k1_off6_inb t 4),
       cpiece d L sR0 g (k1_off5 t 4#32) (k1_off4 t 4#32) (k1_off5_inb t 4) (k1_off4_inb t 4),
       cpiece d L sR0 g (k1_off3 t 4#32) (k1_off2 t 4#32) (k1_off3_inb t 4) (k1_off2_inb t 4),
       cpiece d L sR0 g (k1_off9 t 3#32) (k1_off8 t 3#32) (k1_off9_inb t 3) (k1_off8_inb t 3),
       cpiece d L sR0 g (k1_off7 t 3#32) (k1_off6 t 3#32) (k1_off7_inb t 3) (k1_off6_inb t 3),
       cpiece d L sR0 g (k1_off5 t 3#32) (k1_off4 t 3#32) (k1_off5_inb t 3) (k1_off4_inb t 3),
       cpiece d L sR0 g (k1_off3 t 3#32) (k1_off2 t 3#32) (k1_off3_inb t 3) (k1_off2_inb t 3),
       cpiece d L sR0 g (k1_off9 t 2#32) (k1_off8 t 2#32) (k1_off9_inb t 2) (k1_off8_inb t 2),
       cpiece d L sR0 g (k1_off7 t 2#32) (k1_off6 t 2#32) (k1_off7_inb t 2) (k1_off6_inb t 2),
       cpiece d L sR0 g (k1_off5 t 2#32) (k1_off4 t 2#32) (k1_off5_inb t 2) (k1_off4_inb t 2),
       cpiece d L sR0 g (k1_off3 t 2#32) (k1_off2 t 2#32) (k1_off3_inb t 2) (k1_off2_inb t 2),
       cpiece d L sR0 g (k1_off9 t 1#32) (k1_off8 t 1#32) (k1_off9_inb t 1) (k1_off8_inb t 1),
       cpiece d L sR0 g (k1_off7 t 1#32) (k1_off6 t 1#32) (k1_off7_inb t 1) (k1_off6_inb t 1),
       cpiece d L sR0 g (k1_off5 t 1#32) (k1_off4 t 1#32) (k1_off5_inb t 1) (k1_off4_inb t 1),
       cpiece d L sR0 g (k1_off3 t 1#32) (k1_off2 t 1#32) (k1_off3_inb t 1) (k1_off2_inb t 1),
       cpiece d L sR0 g (k1_off9 t 0#32) (k1_off8 t 0#32) (k1_off9_inb t 0) (k1_off8_inb t 0),
       cpiece d L sR0 g (k1_off7 t 0#32) (k1_off6 t 0#32) (k1_off7_inb t 0) (k1_off6_inb t 0),
       cpiece d L sR0 g (k1_off5 t 0#32) (k1_off4 t 0#32) (k1_off5_inb t 0) (k1_off4_inb t 0),
       cpiece d L sR0 g (k1_off3 t 0#32) (k1_off2 t 0#32) (k1_off3_inb t 0) (k1_off2_inb t 0)])) (t.val + 1) := by
  have h1 := row_step_cons d L sR0 sC0 g f [] (8 * t.val + 0) (k1_off3 t 0#32) (k1_off5 t 0#32) (k1_off7 t 0#32) (k1_off9 t 0#32) (k1_off2 t 0#32) (k1_off4 t 0#32) (k1_off6 t 0#32) (k1_off8 t 0#32)
    (k1_off3_eq t 0) (k1_off5_eq t 0) (k1_off7_eq t 0) (k1_off9_eq t 0) (k1_off2_eq t 0) (k1_off4_eq t 0) (k1_off6_eq t 0) (k1_off8_eq t 0)
    (k1_off3_inb t 0) (k1_off5_inb t 0) (k1_off7_inb t 0) (k1_off9_inb t 0) (k1_off2_inb t 0) (k1_off4_inb t 0) (k1_off6_inb t 0) (k1_off8_inb t 0) ((compacted_iff_rows _ _ _).1 hC)
  have h2 := row_step_cons d L sR0 sC0 g f _ (8 * t.val + 1) (k1_off3 t 1#32) (k1_off5 t 1#32) (k1_off7 t 1#32) (k1_off9 t 1#32) (k1_off2 t 1#32) (k1_off4 t 1#32) (k1_off6 t 1#32) (k1_off8 t 1#32)
    (k1_off3_eq t 1) (k1_off5_eq t 1) (k1_off7_eq t 1) (k1_off9_eq t 1) (k1_off2_eq t 1) (k1_off4_eq t 1) (k1_off6_eq t 1) (k1_off8_eq t 1)
    (k1_off3_inb t 1) (k1_off5_inb t 1) (k1_off7_inb t 1) (k1_off9_inb t 1) (k1_off2_inb t 1) (k1_off4_inb t 1) (k1_off6_inb t 1) (k1_off8_inb t 1) h1
  have h3 := row_step_cons d L sR0 sC0 g f _ (8 * t.val + 2) (k1_off3 t 2#32) (k1_off5 t 2#32) (k1_off7 t 2#32) (k1_off9 t 2#32) (k1_off2 t 2#32) (k1_off4 t 2#32) (k1_off6 t 2#32) (k1_off8 t 2#32)
    (k1_off3_eq t 2) (k1_off5_eq t 2) (k1_off7_eq t 2) (k1_off9_eq t 2) (k1_off2_eq t 2) (k1_off4_eq t 2) (k1_off6_eq t 2) (k1_off8_eq t 2)
    (k1_off3_inb t 2) (k1_off5_inb t 2) (k1_off7_inb t 2) (k1_off9_inb t 2) (k1_off2_inb t 2) (k1_off4_inb t 2) (k1_off6_inb t 2) (k1_off8_inb t 2) h2
  have h4 := row_step_cons d L sR0 sC0 g f _ (8 * t.val + 3) (k1_off3 t 3#32) (k1_off5 t 3#32) (k1_off7 t 3#32) (k1_off9 t 3#32) (k1_off2 t 3#32) (k1_off4 t 3#32) (k1_off6 t 3#32) (k1_off8 t 3#32)
    (k1_off3_eq t 3) (k1_off5_eq t 3) (k1_off7_eq t 3) (k1_off9_eq t 3) (k1_off2_eq t 3) (k1_off4_eq t 3) (k1_off6_eq t 3) (k1_off8_eq t 3)
    (k1_off3_inb t 3) (k1_off5_inb t 3) (k1_off7_inb t 3) (k1_off9_inb t 3) (k1_off2_inb t 3) (k1_off4_inb t 3) (k1_off6_inb t 3) (k1_off8_inb t 3) h3
  have h5 := row_step_cons d L sR0 sC0 g f _ (8 * t.val + 4) (k1_off3 t 4#32) (k1_off5 t 4#32) (k1_off7 t 4#32) (k1_off9 t 4#32) (k1_off2 t 4#32) (k1_off4 t 4#32) (k1_off6 t 4#32) (k1_off8 t 4#32)
    (k1_off3_eq t 4) (k1_off5_eq t 4) (k1_off7_eq t 4) (k1_off9_eq t 4) (k1_off2_eq t 4) (k1_off4_eq t 4) (k1_off6_eq t 4) (k1_off8_eq t 4)
    (k1_off3_inb t 4) (k1_off5_inb t 4) (k1_off7_inb t 4) (k1_off9_inb t 4) (k1_off2_inb t 4) (k1_off4_inb t 4) (k1_off6_inb t 4) (k1_off8_inb t 4) h4
  have h6 := row_step_cons d L sR0 sC0 g f _ (8 * t.val + 5) (k1_off3 t 5#32) (k1_off5 t 5#32) (k1_off7 t 5#32) (k1_off9 t 5#32) (k1_off2 t 5#32) (k1_off4 t 5#32) (k1_off6 t 5#32) (k1_off8 t 5#32)
    (k1_off3_eq t 5) (k1_off5_eq t 5) (k1_off7_eq t 5) (k1_off9_eq t 5) (k1_off2_eq t 5) (k1_off4_eq t 5) (k1_off6_eq t 5) (k1_off8_eq t 5)
    (k1_off3_inb t 5) (k1_off5_inb t 5) (k1_off7_inb t 5) (k1_off9_inb t 5) (k1_off2_inb t 5) (k1_off4_inb t 5) (k1_off6_inb t 5) (k1_off8_inb t 5) h5
  have h7 := row_step_cons d L sR0 sC0 g f _ (8 * t.val + 6) (k1_off3 t 6#32) (k1_off5 t 6#32) (k1_off7 t 6#32) (k1_off9 t 6#32) (k1_off2 t 6#32) (k1_off4 t 6#32) (k1_off6 t 6#32) (k1_off8 t 6#32)
    (k1_off3_eq t 6) (k1_off5_eq t 6) (k1_off7_eq t 6) (k1_off9_eq t 6) (k1_off2_eq t 6) (k1_off4_eq t 6) (k1_off6_eq t 6) (k1_off8_eq t 6)
    (k1_off3_inb t 6) (k1_off5_inb t 6) (k1_off7_inb t 6) (k1_off9_inb t 6) (k1_off2_inb t 6) (k1_off4_inb t 6) (k1_off6_inb t 6) (k1_off8_inb t 6) h6
  have h8 := row_step_cons d L sR0 sC0 g f _ (8 * t.val + 7) (k1_off3 t 7#32) (k1_off5 t 7#32) (k1_off7 t 7#32) (k1_off9 t 7#32) (k1_off2 t 7#32) (k1_off4 t 7#32) (k1_off6 t 7#32) (k1_off8 t 7#32)
    (k1_off3_eq t 7) (k1_off5_eq t 7) (k1_off7_eq t 7) (k1_off9_eq t 7) (k1_off2_eq t 7) (k1_off4_eq t 7) (k1_off6_eq t 7) (k1_off8_eq t 7)
    (k1_off3_inb t 7) (k1_off5_inb t 7) (k1_off7_inb t 7) (k1_off9_inb t 7) (k1_off2_inb t 7) (k1_off4_inb t 7) (k1_off6_inb t 7) (k1_off8_inb t 7) h7
  intro r c hr
  exact h8 r c (by omega)

/-- The compaction step of loop 2 of 40: trip t copies rows [8 t, 8 t + 8) of the landing buffer's first 64 columns. -/
theorem compact_step_t3 (t : Fin k1_t3_loop.trips) (g : Buf (Elt F) (sR1.view.loc (thr d L))) (f : Buf (Elt F) (sC1.view.loc (thr d L)))
    (hC : Compacted (sR1.view.read (Elt F) g) (sC1.view.read (Elt F) f) t.val) :
    Compacted (sR1.view.read (Elt F) g) (sC1.view.read (Elt F) (sC1.view.writes (Elt F) f
      [cpiece d L sR1 g (k1_off18 t 7#32) (k1_off17 t 7#32) (k1_off18_inb t 7) (k1_off17_inb t 7),
       cpiece d L sR1 g (k1_off16 t 7#32) (k1_off15 t 7#32) (k1_off16_inb t 7) (k1_off15_inb t 7),
       cpiece d L sR1 g (k1_off14 t 7#32) (k1_off13 t 7#32) (k1_off14_inb t 7) (k1_off13_inb t 7),
       cpiece d L sR1 g (k1_off12 t 7#32) (k1_off11 t 7#32) (k1_off12_inb t 7) (k1_off11_inb t 7),
       cpiece d L sR1 g (k1_off18 t 6#32) (k1_off17 t 6#32) (k1_off18_inb t 6) (k1_off17_inb t 6),
       cpiece d L sR1 g (k1_off16 t 6#32) (k1_off15 t 6#32) (k1_off16_inb t 6) (k1_off15_inb t 6),
       cpiece d L sR1 g (k1_off14 t 6#32) (k1_off13 t 6#32) (k1_off14_inb t 6) (k1_off13_inb t 6),
       cpiece d L sR1 g (k1_off12 t 6#32) (k1_off11 t 6#32) (k1_off12_inb t 6) (k1_off11_inb t 6),
       cpiece d L sR1 g (k1_off18 t 5#32) (k1_off17 t 5#32) (k1_off18_inb t 5) (k1_off17_inb t 5),
       cpiece d L sR1 g (k1_off16 t 5#32) (k1_off15 t 5#32) (k1_off16_inb t 5) (k1_off15_inb t 5),
       cpiece d L sR1 g (k1_off14 t 5#32) (k1_off13 t 5#32) (k1_off14_inb t 5) (k1_off13_inb t 5),
       cpiece d L sR1 g (k1_off12 t 5#32) (k1_off11 t 5#32) (k1_off12_inb t 5) (k1_off11_inb t 5),
       cpiece d L sR1 g (k1_off18 t 4#32) (k1_off17 t 4#32) (k1_off18_inb t 4) (k1_off17_inb t 4),
       cpiece d L sR1 g (k1_off16 t 4#32) (k1_off15 t 4#32) (k1_off16_inb t 4) (k1_off15_inb t 4),
       cpiece d L sR1 g (k1_off14 t 4#32) (k1_off13 t 4#32) (k1_off14_inb t 4) (k1_off13_inb t 4),
       cpiece d L sR1 g (k1_off12 t 4#32) (k1_off11 t 4#32) (k1_off12_inb t 4) (k1_off11_inb t 4),
       cpiece d L sR1 g (k1_off18 t 3#32) (k1_off17 t 3#32) (k1_off18_inb t 3) (k1_off17_inb t 3),
       cpiece d L sR1 g (k1_off16 t 3#32) (k1_off15 t 3#32) (k1_off16_inb t 3) (k1_off15_inb t 3),
       cpiece d L sR1 g (k1_off14 t 3#32) (k1_off13 t 3#32) (k1_off14_inb t 3) (k1_off13_inb t 3),
       cpiece d L sR1 g (k1_off12 t 3#32) (k1_off11 t 3#32) (k1_off12_inb t 3) (k1_off11_inb t 3),
       cpiece d L sR1 g (k1_off18 t 2#32) (k1_off17 t 2#32) (k1_off18_inb t 2) (k1_off17_inb t 2),
       cpiece d L sR1 g (k1_off16 t 2#32) (k1_off15 t 2#32) (k1_off16_inb t 2) (k1_off15_inb t 2),
       cpiece d L sR1 g (k1_off14 t 2#32) (k1_off13 t 2#32) (k1_off14_inb t 2) (k1_off13_inb t 2),
       cpiece d L sR1 g (k1_off12 t 2#32) (k1_off11 t 2#32) (k1_off12_inb t 2) (k1_off11_inb t 2),
       cpiece d L sR1 g (k1_off18 t 1#32) (k1_off17 t 1#32) (k1_off18_inb t 1) (k1_off17_inb t 1),
       cpiece d L sR1 g (k1_off16 t 1#32) (k1_off15 t 1#32) (k1_off16_inb t 1) (k1_off15_inb t 1),
       cpiece d L sR1 g (k1_off14 t 1#32) (k1_off13 t 1#32) (k1_off14_inb t 1) (k1_off13_inb t 1),
       cpiece d L sR1 g (k1_off12 t 1#32) (k1_off11 t 1#32) (k1_off12_inb t 1) (k1_off11_inb t 1),
       cpiece d L sR1 g (k1_off18 t 0#32) (k1_off17 t 0#32) (k1_off18_inb t 0) (k1_off17_inb t 0),
       cpiece d L sR1 g (k1_off16 t 0#32) (k1_off15 t 0#32) (k1_off16_inb t 0) (k1_off15_inb t 0),
       cpiece d L sR1 g (k1_off14 t 0#32) (k1_off13 t 0#32) (k1_off14_inb t 0) (k1_off13_inb t 0),
       cpiece d L sR1 g (k1_off12 t 0#32) (k1_off11 t 0#32) (k1_off12_inb t 0) (k1_off11_inb t 0)])) (t.val + 1) := by
  have h1 := row_step_cons d L sR1 sC1 g f [] (8 * t.val + 0) (k1_off12 t 0#32) (k1_off14 t 0#32) (k1_off16 t 0#32) (k1_off18 t 0#32) (k1_off11 t 0#32) (k1_off13 t 0#32) (k1_off15 t 0#32) (k1_off17 t 0#32)
    (k1_off12_eq t 0) (k1_off14_eq t 0) (k1_off16_eq t 0) (k1_off18_eq t 0) (k1_off11_eq t 0) (k1_off13_eq t 0) (k1_off15_eq t 0) (k1_off17_eq t 0)
    (k1_off12_inb t 0) (k1_off14_inb t 0) (k1_off16_inb t 0) (k1_off18_inb t 0) (k1_off11_inb t 0) (k1_off13_inb t 0) (k1_off15_inb t 0) (k1_off17_inb t 0) ((compacted_iff_rows _ _ _).1 hC)
  have h2 := row_step_cons d L sR1 sC1 g f _ (8 * t.val + 1) (k1_off12 t 1#32) (k1_off14 t 1#32) (k1_off16 t 1#32) (k1_off18 t 1#32) (k1_off11 t 1#32) (k1_off13 t 1#32) (k1_off15 t 1#32) (k1_off17 t 1#32)
    (k1_off12_eq t 1) (k1_off14_eq t 1) (k1_off16_eq t 1) (k1_off18_eq t 1) (k1_off11_eq t 1) (k1_off13_eq t 1) (k1_off15_eq t 1) (k1_off17_eq t 1)
    (k1_off12_inb t 1) (k1_off14_inb t 1) (k1_off16_inb t 1) (k1_off18_inb t 1) (k1_off11_inb t 1) (k1_off13_inb t 1) (k1_off15_inb t 1) (k1_off17_inb t 1) h1
  have h3 := row_step_cons d L sR1 sC1 g f _ (8 * t.val + 2) (k1_off12 t 2#32) (k1_off14 t 2#32) (k1_off16 t 2#32) (k1_off18 t 2#32) (k1_off11 t 2#32) (k1_off13 t 2#32) (k1_off15 t 2#32) (k1_off17 t 2#32)
    (k1_off12_eq t 2) (k1_off14_eq t 2) (k1_off16_eq t 2) (k1_off18_eq t 2) (k1_off11_eq t 2) (k1_off13_eq t 2) (k1_off15_eq t 2) (k1_off17_eq t 2)
    (k1_off12_inb t 2) (k1_off14_inb t 2) (k1_off16_inb t 2) (k1_off18_inb t 2) (k1_off11_inb t 2) (k1_off13_inb t 2) (k1_off15_inb t 2) (k1_off17_inb t 2) h2
  have h4 := row_step_cons d L sR1 sC1 g f _ (8 * t.val + 3) (k1_off12 t 3#32) (k1_off14 t 3#32) (k1_off16 t 3#32) (k1_off18 t 3#32) (k1_off11 t 3#32) (k1_off13 t 3#32) (k1_off15 t 3#32) (k1_off17 t 3#32)
    (k1_off12_eq t 3) (k1_off14_eq t 3) (k1_off16_eq t 3) (k1_off18_eq t 3) (k1_off11_eq t 3) (k1_off13_eq t 3) (k1_off15_eq t 3) (k1_off17_eq t 3)
    (k1_off12_inb t 3) (k1_off14_inb t 3) (k1_off16_inb t 3) (k1_off18_inb t 3) (k1_off11_inb t 3) (k1_off13_inb t 3) (k1_off15_inb t 3) (k1_off17_inb t 3) h3
  have h5 := row_step_cons d L sR1 sC1 g f _ (8 * t.val + 4) (k1_off12 t 4#32) (k1_off14 t 4#32) (k1_off16 t 4#32) (k1_off18 t 4#32) (k1_off11 t 4#32) (k1_off13 t 4#32) (k1_off15 t 4#32) (k1_off17 t 4#32)
    (k1_off12_eq t 4) (k1_off14_eq t 4) (k1_off16_eq t 4) (k1_off18_eq t 4) (k1_off11_eq t 4) (k1_off13_eq t 4) (k1_off15_eq t 4) (k1_off17_eq t 4)
    (k1_off12_inb t 4) (k1_off14_inb t 4) (k1_off16_inb t 4) (k1_off18_inb t 4) (k1_off11_inb t 4) (k1_off13_inb t 4) (k1_off15_inb t 4) (k1_off17_inb t 4) h4
  have h6 := row_step_cons d L sR1 sC1 g f _ (8 * t.val + 5) (k1_off12 t 5#32) (k1_off14 t 5#32) (k1_off16 t 5#32) (k1_off18 t 5#32) (k1_off11 t 5#32) (k1_off13 t 5#32) (k1_off15 t 5#32) (k1_off17 t 5#32)
    (k1_off12_eq t 5) (k1_off14_eq t 5) (k1_off16_eq t 5) (k1_off18_eq t 5) (k1_off11_eq t 5) (k1_off13_eq t 5) (k1_off15_eq t 5) (k1_off17_eq t 5)
    (k1_off12_inb t 5) (k1_off14_inb t 5) (k1_off16_inb t 5) (k1_off18_inb t 5) (k1_off11_inb t 5) (k1_off13_inb t 5) (k1_off15_inb t 5) (k1_off17_inb t 5) h5
  have h7 := row_step_cons d L sR1 sC1 g f _ (8 * t.val + 6) (k1_off12 t 6#32) (k1_off14 t 6#32) (k1_off16 t 6#32) (k1_off18 t 6#32) (k1_off11 t 6#32) (k1_off13 t 6#32) (k1_off15 t 6#32) (k1_off17 t 6#32)
    (k1_off12_eq t 6) (k1_off14_eq t 6) (k1_off16_eq t 6) (k1_off18_eq t 6) (k1_off11_eq t 6) (k1_off13_eq t 6) (k1_off15_eq t 6) (k1_off17_eq t 6)
    (k1_off12_inb t 6) (k1_off14_inb t 6) (k1_off16_inb t 6) (k1_off18_inb t 6) (k1_off11_inb t 6) (k1_off13_inb t 6) (k1_off15_inb t 6) (k1_off17_inb t 6) h6
  have h8 := row_step_cons d L sR1 sC1 g f _ (8 * t.val + 7) (k1_off12 t 7#32) (k1_off14 t 7#32) (k1_off16 t 7#32) (k1_off18 t 7#32) (k1_off11 t 7#32) (k1_off13 t 7#32) (k1_off15 t 7#32) (k1_off17 t 7#32)
    (k1_off12_eq t 7) (k1_off14_eq t 7) (k1_off16_eq t 7) (k1_off18_eq t 7) (k1_off11_eq t 7) (k1_off13_eq t 7) (k1_off15_eq t 7) (k1_off17_eq t 7)
    (k1_off12_inb t 7) (k1_off14_inb t 7) (k1_off16_inb t 7) (k1_off18_inb t 7) (k1_off11_inb t 7) (k1_off13_inb t 7) (k1_off15_inb t 7) (k1_off17_inb t 7) h7
  intro r c hr
  exact h8 r c (by omega)

/-- The compaction step of loop 3 of 40: trip t copies rows [8 t, 8 t + 8) of the landing buffer's first 64 columns. -/
theorem compact_step_t4 (t : Fin k1_t4_loop.trips) (g : Buf (Elt F) (sR2.view.loc (thr d L))) (f : Buf (Elt F) (sC0.view.loc (thr d L)))
    (hC : Compacted (sR2.view.read (Elt F) g) (sC0.view.read (Elt F) f) t.val) :
    Compacted (sR2.view.read (Elt F) g) (sC0.view.read (Elt F) (sC0.view.writes (Elt F) f
      [cpiece d L sR2 g (k1_off26 t 7#32) (k1_off25 t 7#32) (k1_off26_inb t 7) (k1_off25_inb t 7),
       cpiece d L sR2 g (k1_off24 t 7#32) (k1_off23 t 7#32) (k1_off24_inb t 7) (k1_off23_inb t 7),
       cpiece d L sR2 g (k1_off22 t 7#32) (k1_off21 t 7#32) (k1_off22_inb t 7) (k1_off21_inb t 7),
       cpiece d L sR2 g (k1_off20 t 7#32) (k1_off19 t 7#32) (k1_off20_inb t 7) (k1_off19_inb t 7),
       cpiece d L sR2 g (k1_off26 t 6#32) (k1_off25 t 6#32) (k1_off26_inb t 6) (k1_off25_inb t 6),
       cpiece d L sR2 g (k1_off24 t 6#32) (k1_off23 t 6#32) (k1_off24_inb t 6) (k1_off23_inb t 6),
       cpiece d L sR2 g (k1_off22 t 6#32) (k1_off21 t 6#32) (k1_off22_inb t 6) (k1_off21_inb t 6),
       cpiece d L sR2 g (k1_off20 t 6#32) (k1_off19 t 6#32) (k1_off20_inb t 6) (k1_off19_inb t 6),
       cpiece d L sR2 g (k1_off26 t 5#32) (k1_off25 t 5#32) (k1_off26_inb t 5) (k1_off25_inb t 5),
       cpiece d L sR2 g (k1_off24 t 5#32) (k1_off23 t 5#32) (k1_off24_inb t 5) (k1_off23_inb t 5),
       cpiece d L sR2 g (k1_off22 t 5#32) (k1_off21 t 5#32) (k1_off22_inb t 5) (k1_off21_inb t 5),
       cpiece d L sR2 g (k1_off20 t 5#32) (k1_off19 t 5#32) (k1_off20_inb t 5) (k1_off19_inb t 5),
       cpiece d L sR2 g (k1_off26 t 4#32) (k1_off25 t 4#32) (k1_off26_inb t 4) (k1_off25_inb t 4),
       cpiece d L sR2 g (k1_off24 t 4#32) (k1_off23 t 4#32) (k1_off24_inb t 4) (k1_off23_inb t 4),
       cpiece d L sR2 g (k1_off22 t 4#32) (k1_off21 t 4#32) (k1_off22_inb t 4) (k1_off21_inb t 4),
       cpiece d L sR2 g (k1_off20 t 4#32) (k1_off19 t 4#32) (k1_off20_inb t 4) (k1_off19_inb t 4),
       cpiece d L sR2 g (k1_off26 t 3#32) (k1_off25 t 3#32) (k1_off26_inb t 3) (k1_off25_inb t 3),
       cpiece d L sR2 g (k1_off24 t 3#32) (k1_off23 t 3#32) (k1_off24_inb t 3) (k1_off23_inb t 3),
       cpiece d L sR2 g (k1_off22 t 3#32) (k1_off21 t 3#32) (k1_off22_inb t 3) (k1_off21_inb t 3),
       cpiece d L sR2 g (k1_off20 t 3#32) (k1_off19 t 3#32) (k1_off20_inb t 3) (k1_off19_inb t 3),
       cpiece d L sR2 g (k1_off26 t 2#32) (k1_off25 t 2#32) (k1_off26_inb t 2) (k1_off25_inb t 2),
       cpiece d L sR2 g (k1_off24 t 2#32) (k1_off23 t 2#32) (k1_off24_inb t 2) (k1_off23_inb t 2),
       cpiece d L sR2 g (k1_off22 t 2#32) (k1_off21 t 2#32) (k1_off22_inb t 2) (k1_off21_inb t 2),
       cpiece d L sR2 g (k1_off20 t 2#32) (k1_off19 t 2#32) (k1_off20_inb t 2) (k1_off19_inb t 2),
       cpiece d L sR2 g (k1_off26 t 1#32) (k1_off25 t 1#32) (k1_off26_inb t 1) (k1_off25_inb t 1),
       cpiece d L sR2 g (k1_off24 t 1#32) (k1_off23 t 1#32) (k1_off24_inb t 1) (k1_off23_inb t 1),
       cpiece d L sR2 g (k1_off22 t 1#32) (k1_off21 t 1#32) (k1_off22_inb t 1) (k1_off21_inb t 1),
       cpiece d L sR2 g (k1_off20 t 1#32) (k1_off19 t 1#32) (k1_off20_inb t 1) (k1_off19_inb t 1),
       cpiece d L sR2 g (k1_off26 t 0#32) (k1_off25 t 0#32) (k1_off26_inb t 0) (k1_off25_inb t 0),
       cpiece d L sR2 g (k1_off24 t 0#32) (k1_off23 t 0#32) (k1_off24_inb t 0) (k1_off23_inb t 0),
       cpiece d L sR2 g (k1_off22 t 0#32) (k1_off21 t 0#32) (k1_off22_inb t 0) (k1_off21_inb t 0),
       cpiece d L sR2 g (k1_off20 t 0#32) (k1_off19 t 0#32) (k1_off20_inb t 0) (k1_off19_inb t 0)])) (t.val + 1) := by
  have h1 := row_step_cons d L sR2 sC0 g f [] (8 * t.val + 0) (k1_off20 t 0#32) (k1_off22 t 0#32) (k1_off24 t 0#32) (k1_off26 t 0#32) (k1_off19 t 0#32) (k1_off21 t 0#32) (k1_off23 t 0#32) (k1_off25 t 0#32)
    (k1_off20_eq t 0) (k1_off22_eq t 0) (k1_off24_eq t 0) (k1_off26_eq t 0) (k1_off19_eq t 0) (k1_off21_eq t 0) (k1_off23_eq t 0) (k1_off25_eq t 0)
    (k1_off20_inb t 0) (k1_off22_inb t 0) (k1_off24_inb t 0) (k1_off26_inb t 0) (k1_off19_inb t 0) (k1_off21_inb t 0) (k1_off23_inb t 0) (k1_off25_inb t 0) ((compacted_iff_rows _ _ _).1 hC)
  have h2 := row_step_cons d L sR2 sC0 g f _ (8 * t.val + 1) (k1_off20 t 1#32) (k1_off22 t 1#32) (k1_off24 t 1#32) (k1_off26 t 1#32) (k1_off19 t 1#32) (k1_off21 t 1#32) (k1_off23 t 1#32) (k1_off25 t 1#32)
    (k1_off20_eq t 1) (k1_off22_eq t 1) (k1_off24_eq t 1) (k1_off26_eq t 1) (k1_off19_eq t 1) (k1_off21_eq t 1) (k1_off23_eq t 1) (k1_off25_eq t 1)
    (k1_off20_inb t 1) (k1_off22_inb t 1) (k1_off24_inb t 1) (k1_off26_inb t 1) (k1_off19_inb t 1) (k1_off21_inb t 1) (k1_off23_inb t 1) (k1_off25_inb t 1) h1
  have h3 := row_step_cons d L sR2 sC0 g f _ (8 * t.val + 2) (k1_off20 t 2#32) (k1_off22 t 2#32) (k1_off24 t 2#32) (k1_off26 t 2#32) (k1_off19 t 2#32) (k1_off21 t 2#32) (k1_off23 t 2#32) (k1_off25 t 2#32)
    (k1_off20_eq t 2) (k1_off22_eq t 2) (k1_off24_eq t 2) (k1_off26_eq t 2) (k1_off19_eq t 2) (k1_off21_eq t 2) (k1_off23_eq t 2) (k1_off25_eq t 2)
    (k1_off20_inb t 2) (k1_off22_inb t 2) (k1_off24_inb t 2) (k1_off26_inb t 2) (k1_off19_inb t 2) (k1_off21_inb t 2) (k1_off23_inb t 2) (k1_off25_inb t 2) h2
  have h4 := row_step_cons d L sR2 sC0 g f _ (8 * t.val + 3) (k1_off20 t 3#32) (k1_off22 t 3#32) (k1_off24 t 3#32) (k1_off26 t 3#32) (k1_off19 t 3#32) (k1_off21 t 3#32) (k1_off23 t 3#32) (k1_off25 t 3#32)
    (k1_off20_eq t 3) (k1_off22_eq t 3) (k1_off24_eq t 3) (k1_off26_eq t 3) (k1_off19_eq t 3) (k1_off21_eq t 3) (k1_off23_eq t 3) (k1_off25_eq t 3)
    (k1_off20_inb t 3) (k1_off22_inb t 3) (k1_off24_inb t 3) (k1_off26_inb t 3) (k1_off19_inb t 3) (k1_off21_inb t 3) (k1_off23_inb t 3) (k1_off25_inb t 3) h3
  have h5 := row_step_cons d L sR2 sC0 g f _ (8 * t.val + 4) (k1_off20 t 4#32) (k1_off22 t 4#32) (k1_off24 t 4#32) (k1_off26 t 4#32) (k1_off19 t 4#32) (k1_off21 t 4#32) (k1_off23 t 4#32) (k1_off25 t 4#32)
    (k1_off20_eq t 4) (k1_off22_eq t 4) (k1_off24_eq t 4) (k1_off26_eq t 4) (k1_off19_eq t 4) (k1_off21_eq t 4) (k1_off23_eq t 4) (k1_off25_eq t 4)
    (k1_off20_inb t 4) (k1_off22_inb t 4) (k1_off24_inb t 4) (k1_off26_inb t 4) (k1_off19_inb t 4) (k1_off21_inb t 4) (k1_off23_inb t 4) (k1_off25_inb t 4) h4
  have h6 := row_step_cons d L sR2 sC0 g f _ (8 * t.val + 5) (k1_off20 t 5#32) (k1_off22 t 5#32) (k1_off24 t 5#32) (k1_off26 t 5#32) (k1_off19 t 5#32) (k1_off21 t 5#32) (k1_off23 t 5#32) (k1_off25 t 5#32)
    (k1_off20_eq t 5) (k1_off22_eq t 5) (k1_off24_eq t 5) (k1_off26_eq t 5) (k1_off19_eq t 5) (k1_off21_eq t 5) (k1_off23_eq t 5) (k1_off25_eq t 5)
    (k1_off20_inb t 5) (k1_off22_inb t 5) (k1_off24_inb t 5) (k1_off26_inb t 5) (k1_off19_inb t 5) (k1_off21_inb t 5) (k1_off23_inb t 5) (k1_off25_inb t 5) h5
  have h7 := row_step_cons d L sR2 sC0 g f _ (8 * t.val + 6) (k1_off20 t 6#32) (k1_off22 t 6#32) (k1_off24 t 6#32) (k1_off26 t 6#32) (k1_off19 t 6#32) (k1_off21 t 6#32) (k1_off23 t 6#32) (k1_off25 t 6#32)
    (k1_off20_eq t 6) (k1_off22_eq t 6) (k1_off24_eq t 6) (k1_off26_eq t 6) (k1_off19_eq t 6) (k1_off21_eq t 6) (k1_off23_eq t 6) (k1_off25_eq t 6)
    (k1_off20_inb t 6) (k1_off22_inb t 6) (k1_off24_inb t 6) (k1_off26_inb t 6) (k1_off19_inb t 6) (k1_off21_inb t 6) (k1_off23_inb t 6) (k1_off25_inb t 6) h6
  have h8 := row_step_cons d L sR2 sC0 g f _ (8 * t.val + 7) (k1_off20 t 7#32) (k1_off22 t 7#32) (k1_off24 t 7#32) (k1_off26 t 7#32) (k1_off19 t 7#32) (k1_off21 t 7#32) (k1_off23 t 7#32) (k1_off25 t 7#32)
    (k1_off20_eq t 7) (k1_off22_eq t 7) (k1_off24_eq t 7) (k1_off26_eq t 7) (k1_off19_eq t 7) (k1_off21_eq t 7) (k1_off23_eq t 7) (k1_off25_eq t 7)
    (k1_off20_inb t 7) (k1_off22_inb t 7) (k1_off24_inb t 7) (k1_off26_inb t 7) (k1_off19_inb t 7) (k1_off21_inb t 7) (k1_off23_inb t 7) (k1_off25_inb t 7) h7
  intro r c hr
  exact h8 r c (by omega)

/-- The compaction step of loop 4 of 40: trip t copies rows [8 t, 8 t + 8) of the landing buffer's first 64 columns. -/
theorem compact_step_t5 (t : Fin k1_t5_loop.trips) (g : Buf (Elt F) (sR0.view.loc (thr d L))) (f : Buf (Elt F) (sC1.view.loc (thr d L)))
    (hC : Compacted (sR0.view.read (Elt F) g) (sC1.view.read (Elt F) f) t.val) :
    Compacted (sR0.view.read (Elt F) g) (sC1.view.read (Elt F) (sC1.view.writes (Elt F) f
      [cpiece d L sR0 g (k1_off34 t 7#32) (k1_off33 t 7#32) (k1_off34_inb t 7) (k1_off33_inb t 7),
       cpiece d L sR0 g (k1_off32 t 7#32) (k1_off31 t 7#32) (k1_off32_inb t 7) (k1_off31_inb t 7),
       cpiece d L sR0 g (k1_off30 t 7#32) (k1_off29 t 7#32) (k1_off30_inb t 7) (k1_off29_inb t 7),
       cpiece d L sR0 g (k1_off28 t 7#32) (k1_off27 t 7#32) (k1_off28_inb t 7) (k1_off27_inb t 7),
       cpiece d L sR0 g (k1_off34 t 6#32) (k1_off33 t 6#32) (k1_off34_inb t 6) (k1_off33_inb t 6),
       cpiece d L sR0 g (k1_off32 t 6#32) (k1_off31 t 6#32) (k1_off32_inb t 6) (k1_off31_inb t 6),
       cpiece d L sR0 g (k1_off30 t 6#32) (k1_off29 t 6#32) (k1_off30_inb t 6) (k1_off29_inb t 6),
       cpiece d L sR0 g (k1_off28 t 6#32) (k1_off27 t 6#32) (k1_off28_inb t 6) (k1_off27_inb t 6),
       cpiece d L sR0 g (k1_off34 t 5#32) (k1_off33 t 5#32) (k1_off34_inb t 5) (k1_off33_inb t 5),
       cpiece d L sR0 g (k1_off32 t 5#32) (k1_off31 t 5#32) (k1_off32_inb t 5) (k1_off31_inb t 5),
       cpiece d L sR0 g (k1_off30 t 5#32) (k1_off29 t 5#32) (k1_off30_inb t 5) (k1_off29_inb t 5),
       cpiece d L sR0 g (k1_off28 t 5#32) (k1_off27 t 5#32) (k1_off28_inb t 5) (k1_off27_inb t 5),
       cpiece d L sR0 g (k1_off34 t 4#32) (k1_off33 t 4#32) (k1_off34_inb t 4) (k1_off33_inb t 4),
       cpiece d L sR0 g (k1_off32 t 4#32) (k1_off31 t 4#32) (k1_off32_inb t 4) (k1_off31_inb t 4),
       cpiece d L sR0 g (k1_off30 t 4#32) (k1_off29 t 4#32) (k1_off30_inb t 4) (k1_off29_inb t 4),
       cpiece d L sR0 g (k1_off28 t 4#32) (k1_off27 t 4#32) (k1_off28_inb t 4) (k1_off27_inb t 4),
       cpiece d L sR0 g (k1_off34 t 3#32) (k1_off33 t 3#32) (k1_off34_inb t 3) (k1_off33_inb t 3),
       cpiece d L sR0 g (k1_off32 t 3#32) (k1_off31 t 3#32) (k1_off32_inb t 3) (k1_off31_inb t 3),
       cpiece d L sR0 g (k1_off30 t 3#32) (k1_off29 t 3#32) (k1_off30_inb t 3) (k1_off29_inb t 3),
       cpiece d L sR0 g (k1_off28 t 3#32) (k1_off27 t 3#32) (k1_off28_inb t 3) (k1_off27_inb t 3),
       cpiece d L sR0 g (k1_off34 t 2#32) (k1_off33 t 2#32) (k1_off34_inb t 2) (k1_off33_inb t 2),
       cpiece d L sR0 g (k1_off32 t 2#32) (k1_off31 t 2#32) (k1_off32_inb t 2) (k1_off31_inb t 2),
       cpiece d L sR0 g (k1_off30 t 2#32) (k1_off29 t 2#32) (k1_off30_inb t 2) (k1_off29_inb t 2),
       cpiece d L sR0 g (k1_off28 t 2#32) (k1_off27 t 2#32) (k1_off28_inb t 2) (k1_off27_inb t 2),
       cpiece d L sR0 g (k1_off34 t 1#32) (k1_off33 t 1#32) (k1_off34_inb t 1) (k1_off33_inb t 1),
       cpiece d L sR0 g (k1_off32 t 1#32) (k1_off31 t 1#32) (k1_off32_inb t 1) (k1_off31_inb t 1),
       cpiece d L sR0 g (k1_off30 t 1#32) (k1_off29 t 1#32) (k1_off30_inb t 1) (k1_off29_inb t 1),
       cpiece d L sR0 g (k1_off28 t 1#32) (k1_off27 t 1#32) (k1_off28_inb t 1) (k1_off27_inb t 1),
       cpiece d L sR0 g (k1_off34 t 0#32) (k1_off33 t 0#32) (k1_off34_inb t 0) (k1_off33_inb t 0),
       cpiece d L sR0 g (k1_off32 t 0#32) (k1_off31 t 0#32) (k1_off32_inb t 0) (k1_off31_inb t 0),
       cpiece d L sR0 g (k1_off30 t 0#32) (k1_off29 t 0#32) (k1_off30_inb t 0) (k1_off29_inb t 0),
       cpiece d L sR0 g (k1_off28 t 0#32) (k1_off27 t 0#32) (k1_off28_inb t 0) (k1_off27_inb t 0)])) (t.val + 1) := by
  have h1 := row_step_cons d L sR0 sC1 g f [] (8 * t.val + 0) (k1_off28 t 0#32) (k1_off30 t 0#32) (k1_off32 t 0#32) (k1_off34 t 0#32) (k1_off27 t 0#32) (k1_off29 t 0#32) (k1_off31 t 0#32) (k1_off33 t 0#32)
    (k1_off28_eq t 0) (k1_off30_eq t 0) (k1_off32_eq t 0) (k1_off34_eq t 0) (k1_off27_eq t 0) (k1_off29_eq t 0) (k1_off31_eq t 0) (k1_off33_eq t 0)
    (k1_off28_inb t 0) (k1_off30_inb t 0) (k1_off32_inb t 0) (k1_off34_inb t 0) (k1_off27_inb t 0) (k1_off29_inb t 0) (k1_off31_inb t 0) (k1_off33_inb t 0) ((compacted_iff_rows _ _ _).1 hC)
  have h2 := row_step_cons d L sR0 sC1 g f _ (8 * t.val + 1) (k1_off28 t 1#32) (k1_off30 t 1#32) (k1_off32 t 1#32) (k1_off34 t 1#32) (k1_off27 t 1#32) (k1_off29 t 1#32) (k1_off31 t 1#32) (k1_off33 t 1#32)
    (k1_off28_eq t 1) (k1_off30_eq t 1) (k1_off32_eq t 1) (k1_off34_eq t 1) (k1_off27_eq t 1) (k1_off29_eq t 1) (k1_off31_eq t 1) (k1_off33_eq t 1)
    (k1_off28_inb t 1) (k1_off30_inb t 1) (k1_off32_inb t 1) (k1_off34_inb t 1) (k1_off27_inb t 1) (k1_off29_inb t 1) (k1_off31_inb t 1) (k1_off33_inb t 1) h1
  have h3 := row_step_cons d L sR0 sC1 g f _ (8 * t.val + 2) (k1_off28 t 2#32) (k1_off30 t 2#32) (k1_off32 t 2#32) (k1_off34 t 2#32) (k1_off27 t 2#32) (k1_off29 t 2#32) (k1_off31 t 2#32) (k1_off33 t 2#32)
    (k1_off28_eq t 2) (k1_off30_eq t 2) (k1_off32_eq t 2) (k1_off34_eq t 2) (k1_off27_eq t 2) (k1_off29_eq t 2) (k1_off31_eq t 2) (k1_off33_eq t 2)
    (k1_off28_inb t 2) (k1_off30_inb t 2) (k1_off32_inb t 2) (k1_off34_inb t 2) (k1_off27_inb t 2) (k1_off29_inb t 2) (k1_off31_inb t 2) (k1_off33_inb t 2) h2
  have h4 := row_step_cons d L sR0 sC1 g f _ (8 * t.val + 3) (k1_off28 t 3#32) (k1_off30 t 3#32) (k1_off32 t 3#32) (k1_off34 t 3#32) (k1_off27 t 3#32) (k1_off29 t 3#32) (k1_off31 t 3#32) (k1_off33 t 3#32)
    (k1_off28_eq t 3) (k1_off30_eq t 3) (k1_off32_eq t 3) (k1_off34_eq t 3) (k1_off27_eq t 3) (k1_off29_eq t 3) (k1_off31_eq t 3) (k1_off33_eq t 3)
    (k1_off28_inb t 3) (k1_off30_inb t 3) (k1_off32_inb t 3) (k1_off34_inb t 3) (k1_off27_inb t 3) (k1_off29_inb t 3) (k1_off31_inb t 3) (k1_off33_inb t 3) h3
  have h5 := row_step_cons d L sR0 sC1 g f _ (8 * t.val + 4) (k1_off28 t 4#32) (k1_off30 t 4#32) (k1_off32 t 4#32) (k1_off34 t 4#32) (k1_off27 t 4#32) (k1_off29 t 4#32) (k1_off31 t 4#32) (k1_off33 t 4#32)
    (k1_off28_eq t 4) (k1_off30_eq t 4) (k1_off32_eq t 4) (k1_off34_eq t 4) (k1_off27_eq t 4) (k1_off29_eq t 4) (k1_off31_eq t 4) (k1_off33_eq t 4)
    (k1_off28_inb t 4) (k1_off30_inb t 4) (k1_off32_inb t 4) (k1_off34_inb t 4) (k1_off27_inb t 4) (k1_off29_inb t 4) (k1_off31_inb t 4) (k1_off33_inb t 4) h4
  have h6 := row_step_cons d L sR0 sC1 g f _ (8 * t.val + 5) (k1_off28 t 5#32) (k1_off30 t 5#32) (k1_off32 t 5#32) (k1_off34 t 5#32) (k1_off27 t 5#32) (k1_off29 t 5#32) (k1_off31 t 5#32) (k1_off33 t 5#32)
    (k1_off28_eq t 5) (k1_off30_eq t 5) (k1_off32_eq t 5) (k1_off34_eq t 5) (k1_off27_eq t 5) (k1_off29_eq t 5) (k1_off31_eq t 5) (k1_off33_eq t 5)
    (k1_off28_inb t 5) (k1_off30_inb t 5) (k1_off32_inb t 5) (k1_off34_inb t 5) (k1_off27_inb t 5) (k1_off29_inb t 5) (k1_off31_inb t 5) (k1_off33_inb t 5) h5
  have h7 := row_step_cons d L sR0 sC1 g f _ (8 * t.val + 6) (k1_off28 t 6#32) (k1_off30 t 6#32) (k1_off32 t 6#32) (k1_off34 t 6#32) (k1_off27 t 6#32) (k1_off29 t 6#32) (k1_off31 t 6#32) (k1_off33 t 6#32)
    (k1_off28_eq t 6) (k1_off30_eq t 6) (k1_off32_eq t 6) (k1_off34_eq t 6) (k1_off27_eq t 6) (k1_off29_eq t 6) (k1_off31_eq t 6) (k1_off33_eq t 6)
    (k1_off28_inb t 6) (k1_off30_inb t 6) (k1_off32_inb t 6) (k1_off34_inb t 6) (k1_off27_inb t 6) (k1_off29_inb t 6) (k1_off31_inb t 6) (k1_off33_inb t 6) h6
  have h8 := row_step_cons d L sR0 sC1 g f _ (8 * t.val + 7) (k1_off28 t 7#32) (k1_off30 t 7#32) (k1_off32 t 7#32) (k1_off34 t 7#32) (k1_off27 t 7#32) (k1_off29 t 7#32) (k1_off31 t 7#32) (k1_off33 t 7#32)
    (k1_off28_eq t 7) (k1_off30_eq t 7) (k1_off32_eq t 7) (k1_off34_eq t 7) (k1_off27_eq t 7) (k1_off29_eq t 7) (k1_off31_eq t 7) (k1_off33_eq t 7)
    (k1_off28_inb t 7) (k1_off30_inb t 7) (k1_off32_inb t 7) (k1_off34_inb t 7) (k1_off27_inb t 7) (k1_off29_inb t 7) (k1_off31_inb t 7) (k1_off33_inb t 7) h7
  intro r c hr
  exact h8 r c (by omega)

/-- The compaction step of loop 5 of 40: trip t copies rows [8 t, 8 t + 8) of the landing buffer's first 64 columns. -/
theorem compact_step_t6 (t : Fin k1_t6_loop.trips) (g : Buf (Elt F) (sR1.view.loc (thr d L))) (f : Buf (Elt F) (sC0.view.loc (thr d L)))
    (hC : Compacted (sR1.view.read (Elt F) g) (sC0.view.read (Elt F) f) t.val) :
    Compacted (sR1.view.read (Elt F) g) (sC0.view.read (Elt F) (sC0.view.writes (Elt F) f
      [cpiece d L sR1 g (k1_off42 t 7#32) (k1_off41 t 7#32) (k1_off42_inb t 7) (k1_off41_inb t 7),
       cpiece d L sR1 g (k1_off40 t 7#32) (k1_off39 t 7#32) (k1_off40_inb t 7) (k1_off39_inb t 7),
       cpiece d L sR1 g (k1_off38 t 7#32) (k1_off37 t 7#32) (k1_off38_inb t 7) (k1_off37_inb t 7),
       cpiece d L sR1 g (k1_off36 t 7#32) (k1_off35 t 7#32) (k1_off36_inb t 7) (k1_off35_inb t 7),
       cpiece d L sR1 g (k1_off42 t 6#32) (k1_off41 t 6#32) (k1_off42_inb t 6) (k1_off41_inb t 6),
       cpiece d L sR1 g (k1_off40 t 6#32) (k1_off39 t 6#32) (k1_off40_inb t 6) (k1_off39_inb t 6),
       cpiece d L sR1 g (k1_off38 t 6#32) (k1_off37 t 6#32) (k1_off38_inb t 6) (k1_off37_inb t 6),
       cpiece d L sR1 g (k1_off36 t 6#32) (k1_off35 t 6#32) (k1_off36_inb t 6) (k1_off35_inb t 6),
       cpiece d L sR1 g (k1_off42 t 5#32) (k1_off41 t 5#32) (k1_off42_inb t 5) (k1_off41_inb t 5),
       cpiece d L sR1 g (k1_off40 t 5#32) (k1_off39 t 5#32) (k1_off40_inb t 5) (k1_off39_inb t 5),
       cpiece d L sR1 g (k1_off38 t 5#32) (k1_off37 t 5#32) (k1_off38_inb t 5) (k1_off37_inb t 5),
       cpiece d L sR1 g (k1_off36 t 5#32) (k1_off35 t 5#32) (k1_off36_inb t 5) (k1_off35_inb t 5),
       cpiece d L sR1 g (k1_off42 t 4#32) (k1_off41 t 4#32) (k1_off42_inb t 4) (k1_off41_inb t 4),
       cpiece d L sR1 g (k1_off40 t 4#32) (k1_off39 t 4#32) (k1_off40_inb t 4) (k1_off39_inb t 4),
       cpiece d L sR1 g (k1_off38 t 4#32) (k1_off37 t 4#32) (k1_off38_inb t 4) (k1_off37_inb t 4),
       cpiece d L sR1 g (k1_off36 t 4#32) (k1_off35 t 4#32) (k1_off36_inb t 4) (k1_off35_inb t 4),
       cpiece d L sR1 g (k1_off42 t 3#32) (k1_off41 t 3#32) (k1_off42_inb t 3) (k1_off41_inb t 3),
       cpiece d L sR1 g (k1_off40 t 3#32) (k1_off39 t 3#32) (k1_off40_inb t 3) (k1_off39_inb t 3),
       cpiece d L sR1 g (k1_off38 t 3#32) (k1_off37 t 3#32) (k1_off38_inb t 3) (k1_off37_inb t 3),
       cpiece d L sR1 g (k1_off36 t 3#32) (k1_off35 t 3#32) (k1_off36_inb t 3) (k1_off35_inb t 3),
       cpiece d L sR1 g (k1_off42 t 2#32) (k1_off41 t 2#32) (k1_off42_inb t 2) (k1_off41_inb t 2),
       cpiece d L sR1 g (k1_off40 t 2#32) (k1_off39 t 2#32) (k1_off40_inb t 2) (k1_off39_inb t 2),
       cpiece d L sR1 g (k1_off38 t 2#32) (k1_off37 t 2#32) (k1_off38_inb t 2) (k1_off37_inb t 2),
       cpiece d L sR1 g (k1_off36 t 2#32) (k1_off35 t 2#32) (k1_off36_inb t 2) (k1_off35_inb t 2),
       cpiece d L sR1 g (k1_off42 t 1#32) (k1_off41 t 1#32) (k1_off42_inb t 1) (k1_off41_inb t 1),
       cpiece d L sR1 g (k1_off40 t 1#32) (k1_off39 t 1#32) (k1_off40_inb t 1) (k1_off39_inb t 1),
       cpiece d L sR1 g (k1_off38 t 1#32) (k1_off37 t 1#32) (k1_off38_inb t 1) (k1_off37_inb t 1),
       cpiece d L sR1 g (k1_off36 t 1#32) (k1_off35 t 1#32) (k1_off36_inb t 1) (k1_off35_inb t 1),
       cpiece d L sR1 g (k1_off42 t 0#32) (k1_off41 t 0#32) (k1_off42_inb t 0) (k1_off41_inb t 0),
       cpiece d L sR1 g (k1_off40 t 0#32) (k1_off39 t 0#32) (k1_off40_inb t 0) (k1_off39_inb t 0),
       cpiece d L sR1 g (k1_off38 t 0#32) (k1_off37 t 0#32) (k1_off38_inb t 0) (k1_off37_inb t 0),
       cpiece d L sR1 g (k1_off36 t 0#32) (k1_off35 t 0#32) (k1_off36_inb t 0) (k1_off35_inb t 0)])) (t.val + 1) := by
  have h1 := row_step_cons d L sR1 sC0 g f [] (8 * t.val + 0) (k1_off36 t 0#32) (k1_off38 t 0#32) (k1_off40 t 0#32) (k1_off42 t 0#32) (k1_off35 t 0#32) (k1_off37 t 0#32) (k1_off39 t 0#32) (k1_off41 t 0#32)
    (k1_off36_eq t 0) (k1_off38_eq t 0) (k1_off40_eq t 0) (k1_off42_eq t 0) (k1_off35_eq t 0) (k1_off37_eq t 0) (k1_off39_eq t 0) (k1_off41_eq t 0)
    (k1_off36_inb t 0) (k1_off38_inb t 0) (k1_off40_inb t 0) (k1_off42_inb t 0) (k1_off35_inb t 0) (k1_off37_inb t 0) (k1_off39_inb t 0) (k1_off41_inb t 0) ((compacted_iff_rows _ _ _).1 hC)
  have h2 := row_step_cons d L sR1 sC0 g f _ (8 * t.val + 1) (k1_off36 t 1#32) (k1_off38 t 1#32) (k1_off40 t 1#32) (k1_off42 t 1#32) (k1_off35 t 1#32) (k1_off37 t 1#32) (k1_off39 t 1#32) (k1_off41 t 1#32)
    (k1_off36_eq t 1) (k1_off38_eq t 1) (k1_off40_eq t 1) (k1_off42_eq t 1) (k1_off35_eq t 1) (k1_off37_eq t 1) (k1_off39_eq t 1) (k1_off41_eq t 1)
    (k1_off36_inb t 1) (k1_off38_inb t 1) (k1_off40_inb t 1) (k1_off42_inb t 1) (k1_off35_inb t 1) (k1_off37_inb t 1) (k1_off39_inb t 1) (k1_off41_inb t 1) h1
  have h3 := row_step_cons d L sR1 sC0 g f _ (8 * t.val + 2) (k1_off36 t 2#32) (k1_off38 t 2#32) (k1_off40 t 2#32) (k1_off42 t 2#32) (k1_off35 t 2#32) (k1_off37 t 2#32) (k1_off39 t 2#32) (k1_off41 t 2#32)
    (k1_off36_eq t 2) (k1_off38_eq t 2) (k1_off40_eq t 2) (k1_off42_eq t 2) (k1_off35_eq t 2) (k1_off37_eq t 2) (k1_off39_eq t 2) (k1_off41_eq t 2)
    (k1_off36_inb t 2) (k1_off38_inb t 2) (k1_off40_inb t 2) (k1_off42_inb t 2) (k1_off35_inb t 2) (k1_off37_inb t 2) (k1_off39_inb t 2) (k1_off41_inb t 2) h2
  have h4 := row_step_cons d L sR1 sC0 g f _ (8 * t.val + 3) (k1_off36 t 3#32) (k1_off38 t 3#32) (k1_off40 t 3#32) (k1_off42 t 3#32) (k1_off35 t 3#32) (k1_off37 t 3#32) (k1_off39 t 3#32) (k1_off41 t 3#32)
    (k1_off36_eq t 3) (k1_off38_eq t 3) (k1_off40_eq t 3) (k1_off42_eq t 3) (k1_off35_eq t 3) (k1_off37_eq t 3) (k1_off39_eq t 3) (k1_off41_eq t 3)
    (k1_off36_inb t 3) (k1_off38_inb t 3) (k1_off40_inb t 3) (k1_off42_inb t 3) (k1_off35_inb t 3) (k1_off37_inb t 3) (k1_off39_inb t 3) (k1_off41_inb t 3) h3
  have h5 := row_step_cons d L sR1 sC0 g f _ (8 * t.val + 4) (k1_off36 t 4#32) (k1_off38 t 4#32) (k1_off40 t 4#32) (k1_off42 t 4#32) (k1_off35 t 4#32) (k1_off37 t 4#32) (k1_off39 t 4#32) (k1_off41 t 4#32)
    (k1_off36_eq t 4) (k1_off38_eq t 4) (k1_off40_eq t 4) (k1_off42_eq t 4) (k1_off35_eq t 4) (k1_off37_eq t 4) (k1_off39_eq t 4) (k1_off41_eq t 4)
    (k1_off36_inb t 4) (k1_off38_inb t 4) (k1_off40_inb t 4) (k1_off42_inb t 4) (k1_off35_inb t 4) (k1_off37_inb t 4) (k1_off39_inb t 4) (k1_off41_inb t 4) h4
  have h6 := row_step_cons d L sR1 sC0 g f _ (8 * t.val + 5) (k1_off36 t 5#32) (k1_off38 t 5#32) (k1_off40 t 5#32) (k1_off42 t 5#32) (k1_off35 t 5#32) (k1_off37 t 5#32) (k1_off39 t 5#32) (k1_off41 t 5#32)
    (k1_off36_eq t 5) (k1_off38_eq t 5) (k1_off40_eq t 5) (k1_off42_eq t 5) (k1_off35_eq t 5) (k1_off37_eq t 5) (k1_off39_eq t 5) (k1_off41_eq t 5)
    (k1_off36_inb t 5) (k1_off38_inb t 5) (k1_off40_inb t 5) (k1_off42_inb t 5) (k1_off35_inb t 5) (k1_off37_inb t 5) (k1_off39_inb t 5) (k1_off41_inb t 5) h5
  have h7 := row_step_cons d L sR1 sC0 g f _ (8 * t.val + 6) (k1_off36 t 6#32) (k1_off38 t 6#32) (k1_off40 t 6#32) (k1_off42 t 6#32) (k1_off35 t 6#32) (k1_off37 t 6#32) (k1_off39 t 6#32) (k1_off41 t 6#32)
    (k1_off36_eq t 6) (k1_off38_eq t 6) (k1_off40_eq t 6) (k1_off42_eq t 6) (k1_off35_eq t 6) (k1_off37_eq t 6) (k1_off39_eq t 6) (k1_off41_eq t 6)
    (k1_off36_inb t 6) (k1_off38_inb t 6) (k1_off40_inb t 6) (k1_off42_inb t 6) (k1_off35_inb t 6) (k1_off37_inb t 6) (k1_off39_inb t 6) (k1_off41_inb t 6) h6
  have h8 := row_step_cons d L sR1 sC0 g f _ (8 * t.val + 7) (k1_off36 t 7#32) (k1_off38 t 7#32) (k1_off40 t 7#32) (k1_off42 t 7#32) (k1_off35 t 7#32) (k1_off37 t 7#32) (k1_off39 t 7#32) (k1_off41 t 7#32)
    (k1_off36_eq t 7) (k1_off38_eq t 7) (k1_off40_eq t 7) (k1_off42_eq t 7) (k1_off35_eq t 7) (k1_off37_eq t 7) (k1_off39_eq t 7) (k1_off41_eq t 7)
    (k1_off36_inb t 7) (k1_off38_inb t 7) (k1_off40_inb t 7) (k1_off42_inb t 7) (k1_off35_inb t 7) (k1_off37_inb t 7) (k1_off39_inb t 7) (k1_off41_inb t 7) h7
  intro r c hr
  exact h8 r c (by omega)

/-- The compaction step of loop 6 of 40: trip t copies rows [8 t, 8 t + 8) of the landing buffer's first 64 columns. -/
theorem compact_step_t7 (t : Fin k1_t7_loop.trips) (g : Buf (Elt F) (sR2.view.loc (thr d L))) (f : Buf (Elt F) (sC1.view.loc (thr d L)))
    (hC : Compacted (sR2.view.read (Elt F) g) (sC1.view.read (Elt F) f) t.val) :
    Compacted (sR2.view.read (Elt F) g) (sC1.view.read (Elt F) (sC1.view.writes (Elt F) f
      [cpiece d L sR2 g (k1_off50 t 7#32) (k1_off49 t 7#32) (k1_off50_inb t 7) (k1_off49_inb t 7),
       cpiece d L sR2 g (k1_off48 t 7#32) (k1_off47 t 7#32) (k1_off48_inb t 7) (k1_off47_inb t 7),
       cpiece d L sR2 g (k1_off46 t 7#32) (k1_off45 t 7#32) (k1_off46_inb t 7) (k1_off45_inb t 7),
       cpiece d L sR2 g (k1_off44 t 7#32) (k1_off43 t 7#32) (k1_off44_inb t 7) (k1_off43_inb t 7),
       cpiece d L sR2 g (k1_off50 t 6#32) (k1_off49 t 6#32) (k1_off50_inb t 6) (k1_off49_inb t 6),
       cpiece d L sR2 g (k1_off48 t 6#32) (k1_off47 t 6#32) (k1_off48_inb t 6) (k1_off47_inb t 6),
       cpiece d L sR2 g (k1_off46 t 6#32) (k1_off45 t 6#32) (k1_off46_inb t 6) (k1_off45_inb t 6),
       cpiece d L sR2 g (k1_off44 t 6#32) (k1_off43 t 6#32) (k1_off44_inb t 6) (k1_off43_inb t 6),
       cpiece d L sR2 g (k1_off50 t 5#32) (k1_off49 t 5#32) (k1_off50_inb t 5) (k1_off49_inb t 5),
       cpiece d L sR2 g (k1_off48 t 5#32) (k1_off47 t 5#32) (k1_off48_inb t 5) (k1_off47_inb t 5),
       cpiece d L sR2 g (k1_off46 t 5#32) (k1_off45 t 5#32) (k1_off46_inb t 5) (k1_off45_inb t 5),
       cpiece d L sR2 g (k1_off44 t 5#32) (k1_off43 t 5#32) (k1_off44_inb t 5) (k1_off43_inb t 5),
       cpiece d L sR2 g (k1_off50 t 4#32) (k1_off49 t 4#32) (k1_off50_inb t 4) (k1_off49_inb t 4),
       cpiece d L sR2 g (k1_off48 t 4#32) (k1_off47 t 4#32) (k1_off48_inb t 4) (k1_off47_inb t 4),
       cpiece d L sR2 g (k1_off46 t 4#32) (k1_off45 t 4#32) (k1_off46_inb t 4) (k1_off45_inb t 4),
       cpiece d L sR2 g (k1_off44 t 4#32) (k1_off43 t 4#32) (k1_off44_inb t 4) (k1_off43_inb t 4),
       cpiece d L sR2 g (k1_off50 t 3#32) (k1_off49 t 3#32) (k1_off50_inb t 3) (k1_off49_inb t 3),
       cpiece d L sR2 g (k1_off48 t 3#32) (k1_off47 t 3#32) (k1_off48_inb t 3) (k1_off47_inb t 3),
       cpiece d L sR2 g (k1_off46 t 3#32) (k1_off45 t 3#32) (k1_off46_inb t 3) (k1_off45_inb t 3),
       cpiece d L sR2 g (k1_off44 t 3#32) (k1_off43 t 3#32) (k1_off44_inb t 3) (k1_off43_inb t 3),
       cpiece d L sR2 g (k1_off50 t 2#32) (k1_off49 t 2#32) (k1_off50_inb t 2) (k1_off49_inb t 2),
       cpiece d L sR2 g (k1_off48 t 2#32) (k1_off47 t 2#32) (k1_off48_inb t 2) (k1_off47_inb t 2),
       cpiece d L sR2 g (k1_off46 t 2#32) (k1_off45 t 2#32) (k1_off46_inb t 2) (k1_off45_inb t 2),
       cpiece d L sR2 g (k1_off44 t 2#32) (k1_off43 t 2#32) (k1_off44_inb t 2) (k1_off43_inb t 2),
       cpiece d L sR2 g (k1_off50 t 1#32) (k1_off49 t 1#32) (k1_off50_inb t 1) (k1_off49_inb t 1),
       cpiece d L sR2 g (k1_off48 t 1#32) (k1_off47 t 1#32) (k1_off48_inb t 1) (k1_off47_inb t 1),
       cpiece d L sR2 g (k1_off46 t 1#32) (k1_off45 t 1#32) (k1_off46_inb t 1) (k1_off45_inb t 1),
       cpiece d L sR2 g (k1_off44 t 1#32) (k1_off43 t 1#32) (k1_off44_inb t 1) (k1_off43_inb t 1),
       cpiece d L sR2 g (k1_off50 t 0#32) (k1_off49 t 0#32) (k1_off50_inb t 0) (k1_off49_inb t 0),
       cpiece d L sR2 g (k1_off48 t 0#32) (k1_off47 t 0#32) (k1_off48_inb t 0) (k1_off47_inb t 0),
       cpiece d L sR2 g (k1_off46 t 0#32) (k1_off45 t 0#32) (k1_off46_inb t 0) (k1_off45_inb t 0),
       cpiece d L sR2 g (k1_off44 t 0#32) (k1_off43 t 0#32) (k1_off44_inb t 0) (k1_off43_inb t 0)])) (t.val + 1) := by
  have h1 := row_step_cons d L sR2 sC1 g f [] (8 * t.val + 0) (k1_off44 t 0#32) (k1_off46 t 0#32) (k1_off48 t 0#32) (k1_off50 t 0#32) (k1_off43 t 0#32) (k1_off45 t 0#32) (k1_off47 t 0#32) (k1_off49 t 0#32)
    (k1_off44_eq t 0) (k1_off46_eq t 0) (k1_off48_eq t 0) (k1_off50_eq t 0) (k1_off43_eq t 0) (k1_off45_eq t 0) (k1_off47_eq t 0) (k1_off49_eq t 0)
    (k1_off44_inb t 0) (k1_off46_inb t 0) (k1_off48_inb t 0) (k1_off50_inb t 0) (k1_off43_inb t 0) (k1_off45_inb t 0) (k1_off47_inb t 0) (k1_off49_inb t 0) ((compacted_iff_rows _ _ _).1 hC)
  have h2 := row_step_cons d L sR2 sC1 g f _ (8 * t.val + 1) (k1_off44 t 1#32) (k1_off46 t 1#32) (k1_off48 t 1#32) (k1_off50 t 1#32) (k1_off43 t 1#32) (k1_off45 t 1#32) (k1_off47 t 1#32) (k1_off49 t 1#32)
    (k1_off44_eq t 1) (k1_off46_eq t 1) (k1_off48_eq t 1) (k1_off50_eq t 1) (k1_off43_eq t 1) (k1_off45_eq t 1) (k1_off47_eq t 1) (k1_off49_eq t 1)
    (k1_off44_inb t 1) (k1_off46_inb t 1) (k1_off48_inb t 1) (k1_off50_inb t 1) (k1_off43_inb t 1) (k1_off45_inb t 1) (k1_off47_inb t 1) (k1_off49_inb t 1) h1
  have h3 := row_step_cons d L sR2 sC1 g f _ (8 * t.val + 2) (k1_off44 t 2#32) (k1_off46 t 2#32) (k1_off48 t 2#32) (k1_off50 t 2#32) (k1_off43 t 2#32) (k1_off45 t 2#32) (k1_off47 t 2#32) (k1_off49 t 2#32)
    (k1_off44_eq t 2) (k1_off46_eq t 2) (k1_off48_eq t 2) (k1_off50_eq t 2) (k1_off43_eq t 2) (k1_off45_eq t 2) (k1_off47_eq t 2) (k1_off49_eq t 2)
    (k1_off44_inb t 2) (k1_off46_inb t 2) (k1_off48_inb t 2) (k1_off50_inb t 2) (k1_off43_inb t 2) (k1_off45_inb t 2) (k1_off47_inb t 2) (k1_off49_inb t 2) h2
  have h4 := row_step_cons d L sR2 sC1 g f _ (8 * t.val + 3) (k1_off44 t 3#32) (k1_off46 t 3#32) (k1_off48 t 3#32) (k1_off50 t 3#32) (k1_off43 t 3#32) (k1_off45 t 3#32) (k1_off47 t 3#32) (k1_off49 t 3#32)
    (k1_off44_eq t 3) (k1_off46_eq t 3) (k1_off48_eq t 3) (k1_off50_eq t 3) (k1_off43_eq t 3) (k1_off45_eq t 3) (k1_off47_eq t 3) (k1_off49_eq t 3)
    (k1_off44_inb t 3) (k1_off46_inb t 3) (k1_off48_inb t 3) (k1_off50_inb t 3) (k1_off43_inb t 3) (k1_off45_inb t 3) (k1_off47_inb t 3) (k1_off49_inb t 3) h3
  have h5 := row_step_cons d L sR2 sC1 g f _ (8 * t.val + 4) (k1_off44 t 4#32) (k1_off46 t 4#32) (k1_off48 t 4#32) (k1_off50 t 4#32) (k1_off43 t 4#32) (k1_off45 t 4#32) (k1_off47 t 4#32) (k1_off49 t 4#32)
    (k1_off44_eq t 4) (k1_off46_eq t 4) (k1_off48_eq t 4) (k1_off50_eq t 4) (k1_off43_eq t 4) (k1_off45_eq t 4) (k1_off47_eq t 4) (k1_off49_eq t 4)
    (k1_off44_inb t 4) (k1_off46_inb t 4) (k1_off48_inb t 4) (k1_off50_inb t 4) (k1_off43_inb t 4) (k1_off45_inb t 4) (k1_off47_inb t 4) (k1_off49_inb t 4) h4
  have h6 := row_step_cons d L sR2 sC1 g f _ (8 * t.val + 5) (k1_off44 t 5#32) (k1_off46 t 5#32) (k1_off48 t 5#32) (k1_off50 t 5#32) (k1_off43 t 5#32) (k1_off45 t 5#32) (k1_off47 t 5#32) (k1_off49 t 5#32)
    (k1_off44_eq t 5) (k1_off46_eq t 5) (k1_off48_eq t 5) (k1_off50_eq t 5) (k1_off43_eq t 5) (k1_off45_eq t 5) (k1_off47_eq t 5) (k1_off49_eq t 5)
    (k1_off44_inb t 5) (k1_off46_inb t 5) (k1_off48_inb t 5) (k1_off50_inb t 5) (k1_off43_inb t 5) (k1_off45_inb t 5) (k1_off47_inb t 5) (k1_off49_inb t 5) h5
  have h7 := row_step_cons d L sR2 sC1 g f _ (8 * t.val + 6) (k1_off44 t 6#32) (k1_off46 t 6#32) (k1_off48 t 6#32) (k1_off50 t 6#32) (k1_off43 t 6#32) (k1_off45 t 6#32) (k1_off47 t 6#32) (k1_off49 t 6#32)
    (k1_off44_eq t 6) (k1_off46_eq t 6) (k1_off48_eq t 6) (k1_off50_eq t 6) (k1_off43_eq t 6) (k1_off45_eq t 6) (k1_off47_eq t 6) (k1_off49_eq t 6)
    (k1_off44_inb t 6) (k1_off46_inb t 6) (k1_off48_inb t 6) (k1_off50_inb t 6) (k1_off43_inb t 6) (k1_off45_inb t 6) (k1_off47_inb t 6) (k1_off49_inb t 6) h6
  have h8 := row_step_cons d L sR2 sC1 g f _ (8 * t.val + 7) (k1_off44 t 7#32) (k1_off46 t 7#32) (k1_off48 t 7#32) (k1_off50 t 7#32) (k1_off43 t 7#32) (k1_off45 t 7#32) (k1_off47 t 7#32) (k1_off49 t 7#32)
    (k1_off44_eq t 7) (k1_off46_eq t 7) (k1_off48_eq t 7) (k1_off50_eq t 7) (k1_off43_eq t 7) (k1_off45_eq t 7) (k1_off47_eq t 7) (k1_off49_eq t 7)
    (k1_off44_inb t 7) (k1_off46_inb t 7) (k1_off48_inb t 7) (k1_off50_inb t 7) (k1_off43_inb t 7) (k1_off45_inb t 7) (k1_off47_inb t 7) (k1_off49_inb t 7) h7
  intro r c hr
  exact h8 r c (by omega)

/-- The compaction step of loop 7 of 40: trip t copies rows [8 t, 8 t + 8) of the landing buffer's first 64 columns. -/
theorem compact_step_t8 (t : Fin k1_t8_loop.trips) (g : Buf (Elt F) (sR0.view.loc (thr d L))) (f : Buf (Elt F) (sC0.view.loc (thr d L)))
    (hC : Compacted (sR0.view.read (Elt F) g) (sC0.view.read (Elt F) f) t.val) :
    Compacted (sR0.view.read (Elt F) g) (sC0.view.read (Elt F) (sC0.view.writes (Elt F) f
      [cpiece d L sR0 g (k1_off58 t 7#32) (k1_off57 t 7#32) (k1_off58_inb t 7) (k1_off57_inb t 7),
       cpiece d L sR0 g (k1_off56 t 7#32) (k1_off55 t 7#32) (k1_off56_inb t 7) (k1_off55_inb t 7),
       cpiece d L sR0 g (k1_off54 t 7#32) (k1_off53 t 7#32) (k1_off54_inb t 7) (k1_off53_inb t 7),
       cpiece d L sR0 g (k1_off52 t 7#32) (k1_off51 t 7#32) (k1_off52_inb t 7) (k1_off51_inb t 7),
       cpiece d L sR0 g (k1_off58 t 6#32) (k1_off57 t 6#32) (k1_off58_inb t 6) (k1_off57_inb t 6),
       cpiece d L sR0 g (k1_off56 t 6#32) (k1_off55 t 6#32) (k1_off56_inb t 6) (k1_off55_inb t 6),
       cpiece d L sR0 g (k1_off54 t 6#32) (k1_off53 t 6#32) (k1_off54_inb t 6) (k1_off53_inb t 6),
       cpiece d L sR0 g (k1_off52 t 6#32) (k1_off51 t 6#32) (k1_off52_inb t 6) (k1_off51_inb t 6),
       cpiece d L sR0 g (k1_off58 t 5#32) (k1_off57 t 5#32) (k1_off58_inb t 5) (k1_off57_inb t 5),
       cpiece d L sR0 g (k1_off56 t 5#32) (k1_off55 t 5#32) (k1_off56_inb t 5) (k1_off55_inb t 5),
       cpiece d L sR0 g (k1_off54 t 5#32) (k1_off53 t 5#32) (k1_off54_inb t 5) (k1_off53_inb t 5),
       cpiece d L sR0 g (k1_off52 t 5#32) (k1_off51 t 5#32) (k1_off52_inb t 5) (k1_off51_inb t 5),
       cpiece d L sR0 g (k1_off58 t 4#32) (k1_off57 t 4#32) (k1_off58_inb t 4) (k1_off57_inb t 4),
       cpiece d L sR0 g (k1_off56 t 4#32) (k1_off55 t 4#32) (k1_off56_inb t 4) (k1_off55_inb t 4),
       cpiece d L sR0 g (k1_off54 t 4#32) (k1_off53 t 4#32) (k1_off54_inb t 4) (k1_off53_inb t 4),
       cpiece d L sR0 g (k1_off52 t 4#32) (k1_off51 t 4#32) (k1_off52_inb t 4) (k1_off51_inb t 4),
       cpiece d L sR0 g (k1_off58 t 3#32) (k1_off57 t 3#32) (k1_off58_inb t 3) (k1_off57_inb t 3),
       cpiece d L sR0 g (k1_off56 t 3#32) (k1_off55 t 3#32) (k1_off56_inb t 3) (k1_off55_inb t 3),
       cpiece d L sR0 g (k1_off54 t 3#32) (k1_off53 t 3#32) (k1_off54_inb t 3) (k1_off53_inb t 3),
       cpiece d L sR0 g (k1_off52 t 3#32) (k1_off51 t 3#32) (k1_off52_inb t 3) (k1_off51_inb t 3),
       cpiece d L sR0 g (k1_off58 t 2#32) (k1_off57 t 2#32) (k1_off58_inb t 2) (k1_off57_inb t 2),
       cpiece d L sR0 g (k1_off56 t 2#32) (k1_off55 t 2#32) (k1_off56_inb t 2) (k1_off55_inb t 2),
       cpiece d L sR0 g (k1_off54 t 2#32) (k1_off53 t 2#32) (k1_off54_inb t 2) (k1_off53_inb t 2),
       cpiece d L sR0 g (k1_off52 t 2#32) (k1_off51 t 2#32) (k1_off52_inb t 2) (k1_off51_inb t 2),
       cpiece d L sR0 g (k1_off58 t 1#32) (k1_off57 t 1#32) (k1_off58_inb t 1) (k1_off57_inb t 1),
       cpiece d L sR0 g (k1_off56 t 1#32) (k1_off55 t 1#32) (k1_off56_inb t 1) (k1_off55_inb t 1),
       cpiece d L sR0 g (k1_off54 t 1#32) (k1_off53 t 1#32) (k1_off54_inb t 1) (k1_off53_inb t 1),
       cpiece d L sR0 g (k1_off52 t 1#32) (k1_off51 t 1#32) (k1_off52_inb t 1) (k1_off51_inb t 1),
       cpiece d L sR0 g (k1_off58 t 0#32) (k1_off57 t 0#32) (k1_off58_inb t 0) (k1_off57_inb t 0),
       cpiece d L sR0 g (k1_off56 t 0#32) (k1_off55 t 0#32) (k1_off56_inb t 0) (k1_off55_inb t 0),
       cpiece d L sR0 g (k1_off54 t 0#32) (k1_off53 t 0#32) (k1_off54_inb t 0) (k1_off53_inb t 0),
       cpiece d L sR0 g (k1_off52 t 0#32) (k1_off51 t 0#32) (k1_off52_inb t 0) (k1_off51_inb t 0)])) (t.val + 1) := by
  have h1 := row_step_cons d L sR0 sC0 g f [] (8 * t.val + 0) (k1_off52 t 0#32) (k1_off54 t 0#32) (k1_off56 t 0#32) (k1_off58 t 0#32) (k1_off51 t 0#32) (k1_off53 t 0#32) (k1_off55 t 0#32) (k1_off57 t 0#32)
    (k1_off52_eq t 0) (k1_off54_eq t 0) (k1_off56_eq t 0) (k1_off58_eq t 0) (k1_off51_eq t 0) (k1_off53_eq t 0) (k1_off55_eq t 0) (k1_off57_eq t 0)
    (k1_off52_inb t 0) (k1_off54_inb t 0) (k1_off56_inb t 0) (k1_off58_inb t 0) (k1_off51_inb t 0) (k1_off53_inb t 0) (k1_off55_inb t 0) (k1_off57_inb t 0) ((compacted_iff_rows _ _ _).1 hC)
  have h2 := row_step_cons d L sR0 sC0 g f _ (8 * t.val + 1) (k1_off52 t 1#32) (k1_off54 t 1#32) (k1_off56 t 1#32) (k1_off58 t 1#32) (k1_off51 t 1#32) (k1_off53 t 1#32) (k1_off55 t 1#32) (k1_off57 t 1#32)
    (k1_off52_eq t 1) (k1_off54_eq t 1) (k1_off56_eq t 1) (k1_off58_eq t 1) (k1_off51_eq t 1) (k1_off53_eq t 1) (k1_off55_eq t 1) (k1_off57_eq t 1)
    (k1_off52_inb t 1) (k1_off54_inb t 1) (k1_off56_inb t 1) (k1_off58_inb t 1) (k1_off51_inb t 1) (k1_off53_inb t 1) (k1_off55_inb t 1) (k1_off57_inb t 1) h1
  have h3 := row_step_cons d L sR0 sC0 g f _ (8 * t.val + 2) (k1_off52 t 2#32) (k1_off54 t 2#32) (k1_off56 t 2#32) (k1_off58 t 2#32) (k1_off51 t 2#32) (k1_off53 t 2#32) (k1_off55 t 2#32) (k1_off57 t 2#32)
    (k1_off52_eq t 2) (k1_off54_eq t 2) (k1_off56_eq t 2) (k1_off58_eq t 2) (k1_off51_eq t 2) (k1_off53_eq t 2) (k1_off55_eq t 2) (k1_off57_eq t 2)
    (k1_off52_inb t 2) (k1_off54_inb t 2) (k1_off56_inb t 2) (k1_off58_inb t 2) (k1_off51_inb t 2) (k1_off53_inb t 2) (k1_off55_inb t 2) (k1_off57_inb t 2) h2
  have h4 := row_step_cons d L sR0 sC0 g f _ (8 * t.val + 3) (k1_off52 t 3#32) (k1_off54 t 3#32) (k1_off56 t 3#32) (k1_off58 t 3#32) (k1_off51 t 3#32) (k1_off53 t 3#32) (k1_off55 t 3#32) (k1_off57 t 3#32)
    (k1_off52_eq t 3) (k1_off54_eq t 3) (k1_off56_eq t 3) (k1_off58_eq t 3) (k1_off51_eq t 3) (k1_off53_eq t 3) (k1_off55_eq t 3) (k1_off57_eq t 3)
    (k1_off52_inb t 3) (k1_off54_inb t 3) (k1_off56_inb t 3) (k1_off58_inb t 3) (k1_off51_inb t 3) (k1_off53_inb t 3) (k1_off55_inb t 3) (k1_off57_inb t 3) h3
  have h5 := row_step_cons d L sR0 sC0 g f _ (8 * t.val + 4) (k1_off52 t 4#32) (k1_off54 t 4#32) (k1_off56 t 4#32) (k1_off58 t 4#32) (k1_off51 t 4#32) (k1_off53 t 4#32) (k1_off55 t 4#32) (k1_off57 t 4#32)
    (k1_off52_eq t 4) (k1_off54_eq t 4) (k1_off56_eq t 4) (k1_off58_eq t 4) (k1_off51_eq t 4) (k1_off53_eq t 4) (k1_off55_eq t 4) (k1_off57_eq t 4)
    (k1_off52_inb t 4) (k1_off54_inb t 4) (k1_off56_inb t 4) (k1_off58_inb t 4) (k1_off51_inb t 4) (k1_off53_inb t 4) (k1_off55_inb t 4) (k1_off57_inb t 4) h4
  have h6 := row_step_cons d L sR0 sC0 g f _ (8 * t.val + 5) (k1_off52 t 5#32) (k1_off54 t 5#32) (k1_off56 t 5#32) (k1_off58 t 5#32) (k1_off51 t 5#32) (k1_off53 t 5#32) (k1_off55 t 5#32) (k1_off57 t 5#32)
    (k1_off52_eq t 5) (k1_off54_eq t 5) (k1_off56_eq t 5) (k1_off58_eq t 5) (k1_off51_eq t 5) (k1_off53_eq t 5) (k1_off55_eq t 5) (k1_off57_eq t 5)
    (k1_off52_inb t 5) (k1_off54_inb t 5) (k1_off56_inb t 5) (k1_off58_inb t 5) (k1_off51_inb t 5) (k1_off53_inb t 5) (k1_off55_inb t 5) (k1_off57_inb t 5) h5
  have h7 := row_step_cons d L sR0 sC0 g f _ (8 * t.val + 6) (k1_off52 t 6#32) (k1_off54 t 6#32) (k1_off56 t 6#32) (k1_off58 t 6#32) (k1_off51 t 6#32) (k1_off53 t 6#32) (k1_off55 t 6#32) (k1_off57 t 6#32)
    (k1_off52_eq t 6) (k1_off54_eq t 6) (k1_off56_eq t 6) (k1_off58_eq t 6) (k1_off51_eq t 6) (k1_off53_eq t 6) (k1_off55_eq t 6) (k1_off57_eq t 6)
    (k1_off52_inb t 6) (k1_off54_inb t 6) (k1_off56_inb t 6) (k1_off58_inb t 6) (k1_off51_inb t 6) (k1_off53_inb t 6) (k1_off55_inb t 6) (k1_off57_inb t 6) h6
  have h8 := row_step_cons d L sR0 sC0 g f _ (8 * t.val + 7) (k1_off52 t 7#32) (k1_off54 t 7#32) (k1_off56 t 7#32) (k1_off58 t 7#32) (k1_off51 t 7#32) (k1_off53 t 7#32) (k1_off55 t 7#32) (k1_off57 t 7#32)
    (k1_off52_eq t 7) (k1_off54_eq t 7) (k1_off56_eq t 7) (k1_off58_eq t 7) (k1_off51_eq t 7) (k1_off53_eq t 7) (k1_off55_eq t 7) (k1_off57_eq t 7)
    (k1_off52_inb t 7) (k1_off54_inb t 7) (k1_off56_inb t 7) (k1_off58_inb t 7) (k1_off51_inb t 7) (k1_off53_inb t 7) (k1_off55_inb t 7) (k1_off57_inb t 7) h7
  intro r c hr
  exact h8 r c (by omega)

/-- The compaction step of loop 8 of 40: trip t copies rows [8 t, 8 t + 8) of the landing buffer's first 64 columns. -/
theorem compact_step_t9 (t : Fin k1_t9_loop.trips) (g : Buf (Elt F) (sR1.view.loc (thr d L))) (f : Buf (Elt F) (sC1.view.loc (thr d L)))
    (hC : Compacted (sR1.view.read (Elt F) g) (sC1.view.read (Elt F) f) t.val) :
    Compacted (sR1.view.read (Elt F) g) (sC1.view.read (Elt F) (sC1.view.writes (Elt F) f
      [cpiece d L sR1 g (k1_off66 t 7#32) (k1_off65 t 7#32) (k1_off66_inb t 7) (k1_off65_inb t 7),
       cpiece d L sR1 g (k1_off64 t 7#32) (k1_off63 t 7#32) (k1_off64_inb t 7) (k1_off63_inb t 7),
       cpiece d L sR1 g (k1_off62 t 7#32) (k1_off61 t 7#32) (k1_off62_inb t 7) (k1_off61_inb t 7),
       cpiece d L sR1 g (k1_off60 t 7#32) (k1_off59 t 7#32) (k1_off60_inb t 7) (k1_off59_inb t 7),
       cpiece d L sR1 g (k1_off66 t 6#32) (k1_off65 t 6#32) (k1_off66_inb t 6) (k1_off65_inb t 6),
       cpiece d L sR1 g (k1_off64 t 6#32) (k1_off63 t 6#32) (k1_off64_inb t 6) (k1_off63_inb t 6),
       cpiece d L sR1 g (k1_off62 t 6#32) (k1_off61 t 6#32) (k1_off62_inb t 6) (k1_off61_inb t 6),
       cpiece d L sR1 g (k1_off60 t 6#32) (k1_off59 t 6#32) (k1_off60_inb t 6) (k1_off59_inb t 6),
       cpiece d L sR1 g (k1_off66 t 5#32) (k1_off65 t 5#32) (k1_off66_inb t 5) (k1_off65_inb t 5),
       cpiece d L sR1 g (k1_off64 t 5#32) (k1_off63 t 5#32) (k1_off64_inb t 5) (k1_off63_inb t 5),
       cpiece d L sR1 g (k1_off62 t 5#32) (k1_off61 t 5#32) (k1_off62_inb t 5) (k1_off61_inb t 5),
       cpiece d L sR1 g (k1_off60 t 5#32) (k1_off59 t 5#32) (k1_off60_inb t 5) (k1_off59_inb t 5),
       cpiece d L sR1 g (k1_off66 t 4#32) (k1_off65 t 4#32) (k1_off66_inb t 4) (k1_off65_inb t 4),
       cpiece d L sR1 g (k1_off64 t 4#32) (k1_off63 t 4#32) (k1_off64_inb t 4) (k1_off63_inb t 4),
       cpiece d L sR1 g (k1_off62 t 4#32) (k1_off61 t 4#32) (k1_off62_inb t 4) (k1_off61_inb t 4),
       cpiece d L sR1 g (k1_off60 t 4#32) (k1_off59 t 4#32) (k1_off60_inb t 4) (k1_off59_inb t 4),
       cpiece d L sR1 g (k1_off66 t 3#32) (k1_off65 t 3#32) (k1_off66_inb t 3) (k1_off65_inb t 3),
       cpiece d L sR1 g (k1_off64 t 3#32) (k1_off63 t 3#32) (k1_off64_inb t 3) (k1_off63_inb t 3),
       cpiece d L sR1 g (k1_off62 t 3#32) (k1_off61 t 3#32) (k1_off62_inb t 3) (k1_off61_inb t 3),
       cpiece d L sR1 g (k1_off60 t 3#32) (k1_off59 t 3#32) (k1_off60_inb t 3) (k1_off59_inb t 3),
       cpiece d L sR1 g (k1_off66 t 2#32) (k1_off65 t 2#32) (k1_off66_inb t 2) (k1_off65_inb t 2),
       cpiece d L sR1 g (k1_off64 t 2#32) (k1_off63 t 2#32) (k1_off64_inb t 2) (k1_off63_inb t 2),
       cpiece d L sR1 g (k1_off62 t 2#32) (k1_off61 t 2#32) (k1_off62_inb t 2) (k1_off61_inb t 2),
       cpiece d L sR1 g (k1_off60 t 2#32) (k1_off59 t 2#32) (k1_off60_inb t 2) (k1_off59_inb t 2),
       cpiece d L sR1 g (k1_off66 t 1#32) (k1_off65 t 1#32) (k1_off66_inb t 1) (k1_off65_inb t 1),
       cpiece d L sR1 g (k1_off64 t 1#32) (k1_off63 t 1#32) (k1_off64_inb t 1) (k1_off63_inb t 1),
       cpiece d L sR1 g (k1_off62 t 1#32) (k1_off61 t 1#32) (k1_off62_inb t 1) (k1_off61_inb t 1),
       cpiece d L sR1 g (k1_off60 t 1#32) (k1_off59 t 1#32) (k1_off60_inb t 1) (k1_off59_inb t 1),
       cpiece d L sR1 g (k1_off66 t 0#32) (k1_off65 t 0#32) (k1_off66_inb t 0) (k1_off65_inb t 0),
       cpiece d L sR1 g (k1_off64 t 0#32) (k1_off63 t 0#32) (k1_off64_inb t 0) (k1_off63_inb t 0),
       cpiece d L sR1 g (k1_off62 t 0#32) (k1_off61 t 0#32) (k1_off62_inb t 0) (k1_off61_inb t 0),
       cpiece d L sR1 g (k1_off60 t 0#32) (k1_off59 t 0#32) (k1_off60_inb t 0) (k1_off59_inb t 0)])) (t.val + 1) := by
  have h1 := row_step_cons d L sR1 sC1 g f [] (8 * t.val + 0) (k1_off60 t 0#32) (k1_off62 t 0#32) (k1_off64 t 0#32) (k1_off66 t 0#32) (k1_off59 t 0#32) (k1_off61 t 0#32) (k1_off63 t 0#32) (k1_off65 t 0#32)
    (k1_off60_eq t 0) (k1_off62_eq t 0) (k1_off64_eq t 0) (k1_off66_eq t 0) (k1_off59_eq t 0) (k1_off61_eq t 0) (k1_off63_eq t 0) (k1_off65_eq t 0)
    (k1_off60_inb t 0) (k1_off62_inb t 0) (k1_off64_inb t 0) (k1_off66_inb t 0) (k1_off59_inb t 0) (k1_off61_inb t 0) (k1_off63_inb t 0) (k1_off65_inb t 0) ((compacted_iff_rows _ _ _).1 hC)
  have h2 := row_step_cons d L sR1 sC1 g f _ (8 * t.val + 1) (k1_off60 t 1#32) (k1_off62 t 1#32) (k1_off64 t 1#32) (k1_off66 t 1#32) (k1_off59 t 1#32) (k1_off61 t 1#32) (k1_off63 t 1#32) (k1_off65 t 1#32)
    (k1_off60_eq t 1) (k1_off62_eq t 1) (k1_off64_eq t 1) (k1_off66_eq t 1) (k1_off59_eq t 1) (k1_off61_eq t 1) (k1_off63_eq t 1) (k1_off65_eq t 1)
    (k1_off60_inb t 1) (k1_off62_inb t 1) (k1_off64_inb t 1) (k1_off66_inb t 1) (k1_off59_inb t 1) (k1_off61_inb t 1) (k1_off63_inb t 1) (k1_off65_inb t 1) h1
  have h3 := row_step_cons d L sR1 sC1 g f _ (8 * t.val + 2) (k1_off60 t 2#32) (k1_off62 t 2#32) (k1_off64 t 2#32) (k1_off66 t 2#32) (k1_off59 t 2#32) (k1_off61 t 2#32) (k1_off63 t 2#32) (k1_off65 t 2#32)
    (k1_off60_eq t 2) (k1_off62_eq t 2) (k1_off64_eq t 2) (k1_off66_eq t 2) (k1_off59_eq t 2) (k1_off61_eq t 2) (k1_off63_eq t 2) (k1_off65_eq t 2)
    (k1_off60_inb t 2) (k1_off62_inb t 2) (k1_off64_inb t 2) (k1_off66_inb t 2) (k1_off59_inb t 2) (k1_off61_inb t 2) (k1_off63_inb t 2) (k1_off65_inb t 2) h2
  have h4 := row_step_cons d L sR1 sC1 g f _ (8 * t.val + 3) (k1_off60 t 3#32) (k1_off62 t 3#32) (k1_off64 t 3#32) (k1_off66 t 3#32) (k1_off59 t 3#32) (k1_off61 t 3#32) (k1_off63 t 3#32) (k1_off65 t 3#32)
    (k1_off60_eq t 3) (k1_off62_eq t 3) (k1_off64_eq t 3) (k1_off66_eq t 3) (k1_off59_eq t 3) (k1_off61_eq t 3) (k1_off63_eq t 3) (k1_off65_eq t 3)
    (k1_off60_inb t 3) (k1_off62_inb t 3) (k1_off64_inb t 3) (k1_off66_inb t 3) (k1_off59_inb t 3) (k1_off61_inb t 3) (k1_off63_inb t 3) (k1_off65_inb t 3) h3
  have h5 := row_step_cons d L sR1 sC1 g f _ (8 * t.val + 4) (k1_off60 t 4#32) (k1_off62 t 4#32) (k1_off64 t 4#32) (k1_off66 t 4#32) (k1_off59 t 4#32) (k1_off61 t 4#32) (k1_off63 t 4#32) (k1_off65 t 4#32)
    (k1_off60_eq t 4) (k1_off62_eq t 4) (k1_off64_eq t 4) (k1_off66_eq t 4) (k1_off59_eq t 4) (k1_off61_eq t 4) (k1_off63_eq t 4) (k1_off65_eq t 4)
    (k1_off60_inb t 4) (k1_off62_inb t 4) (k1_off64_inb t 4) (k1_off66_inb t 4) (k1_off59_inb t 4) (k1_off61_inb t 4) (k1_off63_inb t 4) (k1_off65_inb t 4) h4
  have h6 := row_step_cons d L sR1 sC1 g f _ (8 * t.val + 5) (k1_off60 t 5#32) (k1_off62 t 5#32) (k1_off64 t 5#32) (k1_off66 t 5#32) (k1_off59 t 5#32) (k1_off61 t 5#32) (k1_off63 t 5#32) (k1_off65 t 5#32)
    (k1_off60_eq t 5) (k1_off62_eq t 5) (k1_off64_eq t 5) (k1_off66_eq t 5) (k1_off59_eq t 5) (k1_off61_eq t 5) (k1_off63_eq t 5) (k1_off65_eq t 5)
    (k1_off60_inb t 5) (k1_off62_inb t 5) (k1_off64_inb t 5) (k1_off66_inb t 5) (k1_off59_inb t 5) (k1_off61_inb t 5) (k1_off63_inb t 5) (k1_off65_inb t 5) h5
  have h7 := row_step_cons d L sR1 sC1 g f _ (8 * t.val + 6) (k1_off60 t 6#32) (k1_off62 t 6#32) (k1_off64 t 6#32) (k1_off66 t 6#32) (k1_off59 t 6#32) (k1_off61 t 6#32) (k1_off63 t 6#32) (k1_off65 t 6#32)
    (k1_off60_eq t 6) (k1_off62_eq t 6) (k1_off64_eq t 6) (k1_off66_eq t 6) (k1_off59_eq t 6) (k1_off61_eq t 6) (k1_off63_eq t 6) (k1_off65_eq t 6)
    (k1_off60_inb t 6) (k1_off62_inb t 6) (k1_off64_inb t 6) (k1_off66_inb t 6) (k1_off59_inb t 6) (k1_off61_inb t 6) (k1_off63_inb t 6) (k1_off65_inb t 6) h6
  have h8 := row_step_cons d L sR1 sC1 g f _ (8 * t.val + 7) (k1_off60 t 7#32) (k1_off62 t 7#32) (k1_off64 t 7#32) (k1_off66 t 7#32) (k1_off59 t 7#32) (k1_off61 t 7#32) (k1_off63 t 7#32) (k1_off65 t 7#32)
    (k1_off60_eq t 7) (k1_off62_eq t 7) (k1_off64_eq t 7) (k1_off66_eq t 7) (k1_off59_eq t 7) (k1_off61_eq t 7) (k1_off63_eq t 7) (k1_off65_eq t 7)
    (k1_off60_inb t 7) (k1_off62_inb t 7) (k1_off64_inb t 7) (k1_off66_inb t 7) (k1_off59_inb t 7) (k1_off61_inb t 7) (k1_off63_inb t 7) (k1_off65_inb t 7) h7
  intro r c hr
  exact h8 r c (by omega)

/-- The compaction step of loop 9 of 40: trip t copies rows [8 t, 8 t + 8) of the landing buffer's first 64 columns. -/
theorem compact_step_t10 (t : Fin k1_t10_loop.trips) (g : Buf (Elt F) (sR2.view.loc (thr d L))) (f : Buf (Elt F) (sC0.view.loc (thr d L)))
    (hC : Compacted (sR2.view.read (Elt F) g) (sC0.view.read (Elt F) f) t.val) :
    Compacted (sR2.view.read (Elt F) g) (sC0.view.read (Elt F) (sC0.view.writes (Elt F) f
      [cpiece d L sR2 g (k1_off74 t 7#32) (k1_off73 t 7#32) (k1_off74_inb t 7) (k1_off73_inb t 7),
       cpiece d L sR2 g (k1_off72 t 7#32) (k1_off71 t 7#32) (k1_off72_inb t 7) (k1_off71_inb t 7),
       cpiece d L sR2 g (k1_off70 t 7#32) (k1_off69 t 7#32) (k1_off70_inb t 7) (k1_off69_inb t 7),
       cpiece d L sR2 g (k1_off68 t 7#32) (k1_off67 t 7#32) (k1_off68_inb t 7) (k1_off67_inb t 7),
       cpiece d L sR2 g (k1_off74 t 6#32) (k1_off73 t 6#32) (k1_off74_inb t 6) (k1_off73_inb t 6),
       cpiece d L sR2 g (k1_off72 t 6#32) (k1_off71 t 6#32) (k1_off72_inb t 6) (k1_off71_inb t 6),
       cpiece d L sR2 g (k1_off70 t 6#32) (k1_off69 t 6#32) (k1_off70_inb t 6) (k1_off69_inb t 6),
       cpiece d L sR2 g (k1_off68 t 6#32) (k1_off67 t 6#32) (k1_off68_inb t 6) (k1_off67_inb t 6),
       cpiece d L sR2 g (k1_off74 t 5#32) (k1_off73 t 5#32) (k1_off74_inb t 5) (k1_off73_inb t 5),
       cpiece d L sR2 g (k1_off72 t 5#32) (k1_off71 t 5#32) (k1_off72_inb t 5) (k1_off71_inb t 5),
       cpiece d L sR2 g (k1_off70 t 5#32) (k1_off69 t 5#32) (k1_off70_inb t 5) (k1_off69_inb t 5),
       cpiece d L sR2 g (k1_off68 t 5#32) (k1_off67 t 5#32) (k1_off68_inb t 5) (k1_off67_inb t 5),
       cpiece d L sR2 g (k1_off74 t 4#32) (k1_off73 t 4#32) (k1_off74_inb t 4) (k1_off73_inb t 4),
       cpiece d L sR2 g (k1_off72 t 4#32) (k1_off71 t 4#32) (k1_off72_inb t 4) (k1_off71_inb t 4),
       cpiece d L sR2 g (k1_off70 t 4#32) (k1_off69 t 4#32) (k1_off70_inb t 4) (k1_off69_inb t 4),
       cpiece d L sR2 g (k1_off68 t 4#32) (k1_off67 t 4#32) (k1_off68_inb t 4) (k1_off67_inb t 4),
       cpiece d L sR2 g (k1_off74 t 3#32) (k1_off73 t 3#32) (k1_off74_inb t 3) (k1_off73_inb t 3),
       cpiece d L sR2 g (k1_off72 t 3#32) (k1_off71 t 3#32) (k1_off72_inb t 3) (k1_off71_inb t 3),
       cpiece d L sR2 g (k1_off70 t 3#32) (k1_off69 t 3#32) (k1_off70_inb t 3) (k1_off69_inb t 3),
       cpiece d L sR2 g (k1_off68 t 3#32) (k1_off67 t 3#32) (k1_off68_inb t 3) (k1_off67_inb t 3),
       cpiece d L sR2 g (k1_off74 t 2#32) (k1_off73 t 2#32) (k1_off74_inb t 2) (k1_off73_inb t 2),
       cpiece d L sR2 g (k1_off72 t 2#32) (k1_off71 t 2#32) (k1_off72_inb t 2) (k1_off71_inb t 2),
       cpiece d L sR2 g (k1_off70 t 2#32) (k1_off69 t 2#32) (k1_off70_inb t 2) (k1_off69_inb t 2),
       cpiece d L sR2 g (k1_off68 t 2#32) (k1_off67 t 2#32) (k1_off68_inb t 2) (k1_off67_inb t 2),
       cpiece d L sR2 g (k1_off74 t 1#32) (k1_off73 t 1#32) (k1_off74_inb t 1) (k1_off73_inb t 1),
       cpiece d L sR2 g (k1_off72 t 1#32) (k1_off71 t 1#32) (k1_off72_inb t 1) (k1_off71_inb t 1),
       cpiece d L sR2 g (k1_off70 t 1#32) (k1_off69 t 1#32) (k1_off70_inb t 1) (k1_off69_inb t 1),
       cpiece d L sR2 g (k1_off68 t 1#32) (k1_off67 t 1#32) (k1_off68_inb t 1) (k1_off67_inb t 1),
       cpiece d L sR2 g (k1_off74 t 0#32) (k1_off73 t 0#32) (k1_off74_inb t 0) (k1_off73_inb t 0),
       cpiece d L sR2 g (k1_off72 t 0#32) (k1_off71 t 0#32) (k1_off72_inb t 0) (k1_off71_inb t 0),
       cpiece d L sR2 g (k1_off70 t 0#32) (k1_off69 t 0#32) (k1_off70_inb t 0) (k1_off69_inb t 0),
       cpiece d L sR2 g (k1_off68 t 0#32) (k1_off67 t 0#32) (k1_off68_inb t 0) (k1_off67_inb t 0)])) (t.val + 1) := by
  have h1 := row_step_cons d L sR2 sC0 g f [] (8 * t.val + 0) (k1_off68 t 0#32) (k1_off70 t 0#32) (k1_off72 t 0#32) (k1_off74 t 0#32) (k1_off67 t 0#32) (k1_off69 t 0#32) (k1_off71 t 0#32) (k1_off73 t 0#32)
    (k1_off68_eq t 0) (k1_off70_eq t 0) (k1_off72_eq t 0) (k1_off74_eq t 0) (k1_off67_eq t 0) (k1_off69_eq t 0) (k1_off71_eq t 0) (k1_off73_eq t 0)
    (k1_off68_inb t 0) (k1_off70_inb t 0) (k1_off72_inb t 0) (k1_off74_inb t 0) (k1_off67_inb t 0) (k1_off69_inb t 0) (k1_off71_inb t 0) (k1_off73_inb t 0) ((compacted_iff_rows _ _ _).1 hC)
  have h2 := row_step_cons d L sR2 sC0 g f _ (8 * t.val + 1) (k1_off68 t 1#32) (k1_off70 t 1#32) (k1_off72 t 1#32) (k1_off74 t 1#32) (k1_off67 t 1#32) (k1_off69 t 1#32) (k1_off71 t 1#32) (k1_off73 t 1#32)
    (k1_off68_eq t 1) (k1_off70_eq t 1) (k1_off72_eq t 1) (k1_off74_eq t 1) (k1_off67_eq t 1) (k1_off69_eq t 1) (k1_off71_eq t 1) (k1_off73_eq t 1)
    (k1_off68_inb t 1) (k1_off70_inb t 1) (k1_off72_inb t 1) (k1_off74_inb t 1) (k1_off67_inb t 1) (k1_off69_inb t 1) (k1_off71_inb t 1) (k1_off73_inb t 1) h1
  have h3 := row_step_cons d L sR2 sC0 g f _ (8 * t.val + 2) (k1_off68 t 2#32) (k1_off70 t 2#32) (k1_off72 t 2#32) (k1_off74 t 2#32) (k1_off67 t 2#32) (k1_off69 t 2#32) (k1_off71 t 2#32) (k1_off73 t 2#32)
    (k1_off68_eq t 2) (k1_off70_eq t 2) (k1_off72_eq t 2) (k1_off74_eq t 2) (k1_off67_eq t 2) (k1_off69_eq t 2) (k1_off71_eq t 2) (k1_off73_eq t 2)
    (k1_off68_inb t 2) (k1_off70_inb t 2) (k1_off72_inb t 2) (k1_off74_inb t 2) (k1_off67_inb t 2) (k1_off69_inb t 2) (k1_off71_inb t 2) (k1_off73_inb t 2) h2
  have h4 := row_step_cons d L sR2 sC0 g f _ (8 * t.val + 3) (k1_off68 t 3#32) (k1_off70 t 3#32) (k1_off72 t 3#32) (k1_off74 t 3#32) (k1_off67 t 3#32) (k1_off69 t 3#32) (k1_off71 t 3#32) (k1_off73 t 3#32)
    (k1_off68_eq t 3) (k1_off70_eq t 3) (k1_off72_eq t 3) (k1_off74_eq t 3) (k1_off67_eq t 3) (k1_off69_eq t 3) (k1_off71_eq t 3) (k1_off73_eq t 3)
    (k1_off68_inb t 3) (k1_off70_inb t 3) (k1_off72_inb t 3) (k1_off74_inb t 3) (k1_off67_inb t 3) (k1_off69_inb t 3) (k1_off71_inb t 3) (k1_off73_inb t 3) h3
  have h5 := row_step_cons d L sR2 sC0 g f _ (8 * t.val + 4) (k1_off68 t 4#32) (k1_off70 t 4#32) (k1_off72 t 4#32) (k1_off74 t 4#32) (k1_off67 t 4#32) (k1_off69 t 4#32) (k1_off71 t 4#32) (k1_off73 t 4#32)
    (k1_off68_eq t 4) (k1_off70_eq t 4) (k1_off72_eq t 4) (k1_off74_eq t 4) (k1_off67_eq t 4) (k1_off69_eq t 4) (k1_off71_eq t 4) (k1_off73_eq t 4)
    (k1_off68_inb t 4) (k1_off70_inb t 4) (k1_off72_inb t 4) (k1_off74_inb t 4) (k1_off67_inb t 4) (k1_off69_inb t 4) (k1_off71_inb t 4) (k1_off73_inb t 4) h4
  have h6 := row_step_cons d L sR2 sC0 g f _ (8 * t.val + 5) (k1_off68 t 5#32) (k1_off70 t 5#32) (k1_off72 t 5#32) (k1_off74 t 5#32) (k1_off67 t 5#32) (k1_off69 t 5#32) (k1_off71 t 5#32) (k1_off73 t 5#32)
    (k1_off68_eq t 5) (k1_off70_eq t 5) (k1_off72_eq t 5) (k1_off74_eq t 5) (k1_off67_eq t 5) (k1_off69_eq t 5) (k1_off71_eq t 5) (k1_off73_eq t 5)
    (k1_off68_inb t 5) (k1_off70_inb t 5) (k1_off72_inb t 5) (k1_off74_inb t 5) (k1_off67_inb t 5) (k1_off69_inb t 5) (k1_off71_inb t 5) (k1_off73_inb t 5) h5
  have h7 := row_step_cons d L sR2 sC0 g f _ (8 * t.val + 6) (k1_off68 t 6#32) (k1_off70 t 6#32) (k1_off72 t 6#32) (k1_off74 t 6#32) (k1_off67 t 6#32) (k1_off69 t 6#32) (k1_off71 t 6#32) (k1_off73 t 6#32)
    (k1_off68_eq t 6) (k1_off70_eq t 6) (k1_off72_eq t 6) (k1_off74_eq t 6) (k1_off67_eq t 6) (k1_off69_eq t 6) (k1_off71_eq t 6) (k1_off73_eq t 6)
    (k1_off68_inb t 6) (k1_off70_inb t 6) (k1_off72_inb t 6) (k1_off74_inb t 6) (k1_off67_inb t 6) (k1_off69_inb t 6) (k1_off71_inb t 6) (k1_off73_inb t 6) h6
  have h8 := row_step_cons d L sR2 sC0 g f _ (8 * t.val + 7) (k1_off68 t 7#32) (k1_off70 t 7#32) (k1_off72 t 7#32) (k1_off74 t 7#32) (k1_off67 t 7#32) (k1_off69 t 7#32) (k1_off71 t 7#32) (k1_off73 t 7#32)
    (k1_off68_eq t 7) (k1_off70_eq t 7) (k1_off72_eq t 7) (k1_off74_eq t 7) (k1_off67_eq t 7) (k1_off69_eq t 7) (k1_off71_eq t 7) (k1_off73_eq t 7)
    (k1_off68_inb t 7) (k1_off70_inb t 7) (k1_off72_inb t 7) (k1_off74_inb t 7) (k1_off67_inb t 7) (k1_off69_inb t 7) (k1_off71_inb t 7) (k1_off73_inb t 7) h7
  intro r c hr
  exact h8 r c (by omega)

/-- The compaction step of loop 10 of 40: trip t copies rows [8 t, 8 t + 8) of the landing buffer's first 64 columns. -/
theorem compact_step_t11 (t : Fin k1_t11_loop.trips) (g : Buf (Elt F) (sR0.view.loc (thr d L))) (f : Buf (Elt F) (sC1.view.loc (thr d L)))
    (hC : Compacted (sR0.view.read (Elt F) g) (sC1.view.read (Elt F) f) t.val) :
    Compacted (sR0.view.read (Elt F) g) (sC1.view.read (Elt F) (sC1.view.writes (Elt F) f
      [cpiece d L sR0 g (k1_off82 t 7#32) (k1_off81 t 7#32) (k1_off82_inb t 7) (k1_off81_inb t 7),
       cpiece d L sR0 g (k1_off80 t 7#32) (k1_off79 t 7#32) (k1_off80_inb t 7) (k1_off79_inb t 7),
       cpiece d L sR0 g (k1_off78 t 7#32) (k1_off77 t 7#32) (k1_off78_inb t 7) (k1_off77_inb t 7),
       cpiece d L sR0 g (k1_off76 t 7#32) (k1_off75 t 7#32) (k1_off76_inb t 7) (k1_off75_inb t 7),
       cpiece d L sR0 g (k1_off82 t 6#32) (k1_off81 t 6#32) (k1_off82_inb t 6) (k1_off81_inb t 6),
       cpiece d L sR0 g (k1_off80 t 6#32) (k1_off79 t 6#32) (k1_off80_inb t 6) (k1_off79_inb t 6),
       cpiece d L sR0 g (k1_off78 t 6#32) (k1_off77 t 6#32) (k1_off78_inb t 6) (k1_off77_inb t 6),
       cpiece d L sR0 g (k1_off76 t 6#32) (k1_off75 t 6#32) (k1_off76_inb t 6) (k1_off75_inb t 6),
       cpiece d L sR0 g (k1_off82 t 5#32) (k1_off81 t 5#32) (k1_off82_inb t 5) (k1_off81_inb t 5),
       cpiece d L sR0 g (k1_off80 t 5#32) (k1_off79 t 5#32) (k1_off80_inb t 5) (k1_off79_inb t 5),
       cpiece d L sR0 g (k1_off78 t 5#32) (k1_off77 t 5#32) (k1_off78_inb t 5) (k1_off77_inb t 5),
       cpiece d L sR0 g (k1_off76 t 5#32) (k1_off75 t 5#32) (k1_off76_inb t 5) (k1_off75_inb t 5),
       cpiece d L sR0 g (k1_off82 t 4#32) (k1_off81 t 4#32) (k1_off82_inb t 4) (k1_off81_inb t 4),
       cpiece d L sR0 g (k1_off80 t 4#32) (k1_off79 t 4#32) (k1_off80_inb t 4) (k1_off79_inb t 4),
       cpiece d L sR0 g (k1_off78 t 4#32) (k1_off77 t 4#32) (k1_off78_inb t 4) (k1_off77_inb t 4),
       cpiece d L sR0 g (k1_off76 t 4#32) (k1_off75 t 4#32) (k1_off76_inb t 4) (k1_off75_inb t 4),
       cpiece d L sR0 g (k1_off82 t 3#32) (k1_off81 t 3#32) (k1_off82_inb t 3) (k1_off81_inb t 3),
       cpiece d L sR0 g (k1_off80 t 3#32) (k1_off79 t 3#32) (k1_off80_inb t 3) (k1_off79_inb t 3),
       cpiece d L sR0 g (k1_off78 t 3#32) (k1_off77 t 3#32) (k1_off78_inb t 3) (k1_off77_inb t 3),
       cpiece d L sR0 g (k1_off76 t 3#32) (k1_off75 t 3#32) (k1_off76_inb t 3) (k1_off75_inb t 3),
       cpiece d L sR0 g (k1_off82 t 2#32) (k1_off81 t 2#32) (k1_off82_inb t 2) (k1_off81_inb t 2),
       cpiece d L sR0 g (k1_off80 t 2#32) (k1_off79 t 2#32) (k1_off80_inb t 2) (k1_off79_inb t 2),
       cpiece d L sR0 g (k1_off78 t 2#32) (k1_off77 t 2#32) (k1_off78_inb t 2) (k1_off77_inb t 2),
       cpiece d L sR0 g (k1_off76 t 2#32) (k1_off75 t 2#32) (k1_off76_inb t 2) (k1_off75_inb t 2),
       cpiece d L sR0 g (k1_off82 t 1#32) (k1_off81 t 1#32) (k1_off82_inb t 1) (k1_off81_inb t 1),
       cpiece d L sR0 g (k1_off80 t 1#32) (k1_off79 t 1#32) (k1_off80_inb t 1) (k1_off79_inb t 1),
       cpiece d L sR0 g (k1_off78 t 1#32) (k1_off77 t 1#32) (k1_off78_inb t 1) (k1_off77_inb t 1),
       cpiece d L sR0 g (k1_off76 t 1#32) (k1_off75 t 1#32) (k1_off76_inb t 1) (k1_off75_inb t 1),
       cpiece d L sR0 g (k1_off82 t 0#32) (k1_off81 t 0#32) (k1_off82_inb t 0) (k1_off81_inb t 0),
       cpiece d L sR0 g (k1_off80 t 0#32) (k1_off79 t 0#32) (k1_off80_inb t 0) (k1_off79_inb t 0),
       cpiece d L sR0 g (k1_off78 t 0#32) (k1_off77 t 0#32) (k1_off78_inb t 0) (k1_off77_inb t 0),
       cpiece d L sR0 g (k1_off76 t 0#32) (k1_off75 t 0#32) (k1_off76_inb t 0) (k1_off75_inb t 0)])) (t.val + 1) := by
  have h1 := row_step_cons d L sR0 sC1 g f [] (8 * t.val + 0) (k1_off76 t 0#32) (k1_off78 t 0#32) (k1_off80 t 0#32) (k1_off82 t 0#32) (k1_off75 t 0#32) (k1_off77 t 0#32) (k1_off79 t 0#32) (k1_off81 t 0#32)
    (k1_off76_eq t 0) (k1_off78_eq t 0) (k1_off80_eq t 0) (k1_off82_eq t 0) (k1_off75_eq t 0) (k1_off77_eq t 0) (k1_off79_eq t 0) (k1_off81_eq t 0)
    (k1_off76_inb t 0) (k1_off78_inb t 0) (k1_off80_inb t 0) (k1_off82_inb t 0) (k1_off75_inb t 0) (k1_off77_inb t 0) (k1_off79_inb t 0) (k1_off81_inb t 0) ((compacted_iff_rows _ _ _).1 hC)
  have h2 := row_step_cons d L sR0 sC1 g f _ (8 * t.val + 1) (k1_off76 t 1#32) (k1_off78 t 1#32) (k1_off80 t 1#32) (k1_off82 t 1#32) (k1_off75 t 1#32) (k1_off77 t 1#32) (k1_off79 t 1#32) (k1_off81 t 1#32)
    (k1_off76_eq t 1) (k1_off78_eq t 1) (k1_off80_eq t 1) (k1_off82_eq t 1) (k1_off75_eq t 1) (k1_off77_eq t 1) (k1_off79_eq t 1) (k1_off81_eq t 1)
    (k1_off76_inb t 1) (k1_off78_inb t 1) (k1_off80_inb t 1) (k1_off82_inb t 1) (k1_off75_inb t 1) (k1_off77_inb t 1) (k1_off79_inb t 1) (k1_off81_inb t 1) h1
  have h3 := row_step_cons d L sR0 sC1 g f _ (8 * t.val + 2) (k1_off76 t 2#32) (k1_off78 t 2#32) (k1_off80 t 2#32) (k1_off82 t 2#32) (k1_off75 t 2#32) (k1_off77 t 2#32) (k1_off79 t 2#32) (k1_off81 t 2#32)
    (k1_off76_eq t 2) (k1_off78_eq t 2) (k1_off80_eq t 2) (k1_off82_eq t 2) (k1_off75_eq t 2) (k1_off77_eq t 2) (k1_off79_eq t 2) (k1_off81_eq t 2)
    (k1_off76_inb t 2) (k1_off78_inb t 2) (k1_off80_inb t 2) (k1_off82_inb t 2) (k1_off75_inb t 2) (k1_off77_inb t 2) (k1_off79_inb t 2) (k1_off81_inb t 2) h2
  have h4 := row_step_cons d L sR0 sC1 g f _ (8 * t.val + 3) (k1_off76 t 3#32) (k1_off78 t 3#32) (k1_off80 t 3#32) (k1_off82 t 3#32) (k1_off75 t 3#32) (k1_off77 t 3#32) (k1_off79 t 3#32) (k1_off81 t 3#32)
    (k1_off76_eq t 3) (k1_off78_eq t 3) (k1_off80_eq t 3) (k1_off82_eq t 3) (k1_off75_eq t 3) (k1_off77_eq t 3) (k1_off79_eq t 3) (k1_off81_eq t 3)
    (k1_off76_inb t 3) (k1_off78_inb t 3) (k1_off80_inb t 3) (k1_off82_inb t 3) (k1_off75_inb t 3) (k1_off77_inb t 3) (k1_off79_inb t 3) (k1_off81_inb t 3) h3
  have h5 := row_step_cons d L sR0 sC1 g f _ (8 * t.val + 4) (k1_off76 t 4#32) (k1_off78 t 4#32) (k1_off80 t 4#32) (k1_off82 t 4#32) (k1_off75 t 4#32) (k1_off77 t 4#32) (k1_off79 t 4#32) (k1_off81 t 4#32)
    (k1_off76_eq t 4) (k1_off78_eq t 4) (k1_off80_eq t 4) (k1_off82_eq t 4) (k1_off75_eq t 4) (k1_off77_eq t 4) (k1_off79_eq t 4) (k1_off81_eq t 4)
    (k1_off76_inb t 4) (k1_off78_inb t 4) (k1_off80_inb t 4) (k1_off82_inb t 4) (k1_off75_inb t 4) (k1_off77_inb t 4) (k1_off79_inb t 4) (k1_off81_inb t 4) h4
  have h6 := row_step_cons d L sR0 sC1 g f _ (8 * t.val + 5) (k1_off76 t 5#32) (k1_off78 t 5#32) (k1_off80 t 5#32) (k1_off82 t 5#32) (k1_off75 t 5#32) (k1_off77 t 5#32) (k1_off79 t 5#32) (k1_off81 t 5#32)
    (k1_off76_eq t 5) (k1_off78_eq t 5) (k1_off80_eq t 5) (k1_off82_eq t 5) (k1_off75_eq t 5) (k1_off77_eq t 5) (k1_off79_eq t 5) (k1_off81_eq t 5)
    (k1_off76_inb t 5) (k1_off78_inb t 5) (k1_off80_inb t 5) (k1_off82_inb t 5) (k1_off75_inb t 5) (k1_off77_inb t 5) (k1_off79_inb t 5) (k1_off81_inb t 5) h5
  have h7 := row_step_cons d L sR0 sC1 g f _ (8 * t.val + 6) (k1_off76 t 6#32) (k1_off78 t 6#32) (k1_off80 t 6#32) (k1_off82 t 6#32) (k1_off75 t 6#32) (k1_off77 t 6#32) (k1_off79 t 6#32) (k1_off81 t 6#32)
    (k1_off76_eq t 6) (k1_off78_eq t 6) (k1_off80_eq t 6) (k1_off82_eq t 6) (k1_off75_eq t 6) (k1_off77_eq t 6) (k1_off79_eq t 6) (k1_off81_eq t 6)
    (k1_off76_inb t 6) (k1_off78_inb t 6) (k1_off80_inb t 6) (k1_off82_inb t 6) (k1_off75_inb t 6) (k1_off77_inb t 6) (k1_off79_inb t 6) (k1_off81_inb t 6) h6
  have h8 := row_step_cons d L sR0 sC1 g f _ (8 * t.val + 7) (k1_off76 t 7#32) (k1_off78 t 7#32) (k1_off80 t 7#32) (k1_off82 t 7#32) (k1_off75 t 7#32) (k1_off77 t 7#32) (k1_off79 t 7#32) (k1_off81 t 7#32)
    (k1_off76_eq t 7) (k1_off78_eq t 7) (k1_off80_eq t 7) (k1_off82_eq t 7) (k1_off75_eq t 7) (k1_off77_eq t 7) (k1_off79_eq t 7) (k1_off81_eq t 7)
    (k1_off76_inb t 7) (k1_off78_inb t 7) (k1_off80_inb t 7) (k1_off82_inb t 7) (k1_off75_inb t 7) (k1_off77_inb t 7) (k1_off79_inb t 7) (k1_off81_inb t 7) h7
  intro r c hr
  exact h8 r c (by omega)

end Cert.Proof.KB

end
-- ==== Proof.KB.TileVal2b.lean ====
/-
  The compaction steps of loops 11 to 20 of the 40, one statement each: trip t of a chunk's compaction loop copies eight more
  rows' first 64 columns from its landing buffer into its compacted buffer. Each is eight applications of the one-row
  step at the loop's own offset functions, whose closed forms are row 8 t + j, columns 0, 16, 32, 48.
-/
import proofs.«217222_g83150566851320_cont_9to1_m_45_25_alg».proof.Proof.KB.TileVal

noncomputable section

namespace Cert.Proof.KB

open Cert.Kernel Cert.Kernel.Gen

open Idealize.ShloMosaic
open Idealize.ShloMosaic.SparseCore (S V T)
open Idealize.ShloMosaic.ValueIdx (ix2 ix3)

variable {F : FTy → Type} [FloatOps F]

variable (d : Dev nD) (L : grid1.Coords)

/-- The compaction step of loop 11 of 40: trip t copies rows [8 t, 8 t + 8) of the landing buffer's first 64 columns. -/
theorem compact_step_t12 (t : Fin k1_t12_loop.trips) (g : Buf (Elt F) (sR1.view.loc (thr d L))) (f : Buf (Elt F) (sC0.view.loc (thr d L)))
    (hC : Compacted (sR1.view.read (Elt F) g) (sC0.view.read (Elt F) f) t.val) :
    Compacted (sR1.view.read (Elt F) g) (sC0.view.read (Elt F) (sC0.view.writes (Elt F) f
      [cpiece d L sR1 g (k1_off90 t 7#32) (k1_off89 t 7#32) (k1_off90_inb t 7) (k1_off89_inb t 7),
       cpiece d L sR1 g (k1_off88 t 7#32) (k1_off87 t 7#32) (k1_off88_inb t 7) (k1_off87_inb t 7),
       cpiece d L sR1 g (k1_off86 t 7#32) (k1_off85 t 7#32) (k1_off86_inb t 7) (k1_off85_inb t 7),
       cpiece d L sR1 g (k1_off84 t 7#32) (k1_off83 t 7#32) (k1_off84_inb t 7) (k1_off83_inb t 7),
       cpiece d L sR1 g (k1_off90 t 6#32) (k1_off89 t 6#32) (k1_off90_inb t 6) (k1_off89_inb t 6),
       cpiece d L sR1 g (k1_off88 t 6#32) (k1_off87 t 6#32) (k1_off88_inb t 6) (k1_off87_inb t 6),
       cpiece d L sR1 g (k1_off86 t 6#32) (k1_off85 t 6#32) (k1_off86_inb t 6) (k1_off85_inb t 6),
       cpiece d L sR1 g (k1_off84 t 6#32) (k1_off83 t 6#32) (k1_off84_inb t 6) (k1_off83_inb t 6),
       cpiece d L sR1 g (k1_off90 t 5#32) (k1_off89 t 5#32) (k1_off90_inb t 5) (k1_off89_inb t 5),
       cpiece d L sR1 g (k1_off88 t 5#32) (k1_off87 t 5#32) (k1_off88_inb t 5) (k1_off87_inb t 5),
       cpiece d L sR1 g (k1_off86 t 5#32) (k1_off85 t 5#32) (k1_off86_inb t 5) (k1_off85_inb t 5),
       cpiece d L sR1 g (k1_off84 t 5#32) (k1_off83 t 5#32) (k1_off84_inb t 5) (k1_off83_inb t 5),
       cpiece d L sR1 g (k1_off90 t 4#32) (k1_off89 t 4#32) (k1_off90_inb t 4) (k1_off89_inb t 4),
       cpiece d L sR1 g (k1_off88 t 4#32) (k1_off87 t 4#32) (k1_off88_inb t 4) (k1_off87_inb t 4),
       cpiece d L sR1 g (k1_off86 t 4#32) (k1_off85 t 4#32) (k1_off86_inb t 4) (k1_off85_inb t 4),
       cpiece d L sR1 g (k1_off84 t 4#32) (k1_off83 t 4#32) (k1_off84_inb t 4) (k1_off83_inb t 4),
       cpiece d L sR1 g (k1_off90 t 3#32) (k1_off89 t 3#32) (k1_off90_inb t 3) (k1_off89_inb t 3),
       cpiece d L sR1 g (k1_off88 t 3#32) (k1_off87 t 3#32) (k1_off88_inb t 3) (k1_off87_inb t 3),
       cpiece d L sR1 g (k1_off86 t 3#32) (k1_off85 t 3#32) (k1_off86_inb t 3) (k1_off85_inb t 3),
       cpiece d L sR1 g (k1_off84 t 3#32) (k1_off83 t 3#32) (k1_off84_inb t 3) (k1_off83_inb t 3),
       cpiece d L sR1 g (k1_off90 t 2#32) (k1_off89 t 2#32) (k1_off90_inb t 2) (k1_off89_inb t 2),
       cpiece d L sR1 g (k1_off88 t 2#32) (k1_off87 t 2#32) (k1_off88_inb t 2) (k1_off87_inb t 2),
       cpiece d L sR1 g (k1_off86 t 2#32) (k1_off85 t 2#32) (k1_off86_inb t 2) (k1_off85_inb t 2),
       cpiece d L sR1 g (k1_off84 t 2#32) (k1_off83 t 2#32) (k1_off84_inb t 2) (k1_off83_inb t 2),
       cpiece d L sR1 g (k1_off90 t 1#32) (k1_off89 t 1#32) (k1_off90_inb t 1) (k1_off89_inb t 1),
       cpiece d L sR1 g (k1_off88 t 1#32) (k1_off87 t 1#32) (k1_off88_inb t 1) (k1_off87_inb t 1),
       cpiece d L sR1 g (k1_off86 t 1#32) (k1_off85 t 1#32) (k1_off86_inb t 1) (k1_off85_inb t 1),
       cpiece d L sR1 g (k1_off84 t 1#32) (k1_off83 t 1#32) (k1_off84_inb t 1) (k1_off83_inb t 1),
       cpiece d L sR1 g (k1_off90 t 0#32) (k1_off89 t 0#32) (k1_off90_inb t 0) (k1_off89_inb t 0),
       cpiece d L sR1 g (k1_off88 t 0#32) (k1_off87 t 0#32) (k1_off88_inb t 0) (k1_off87_inb t 0),
       cpiece d L sR1 g (k1_off86 t 0#32) (k1_off85 t 0#32) (k1_off86_inb t 0) (k1_off85_inb t 0),
       cpiece d L sR1 g (k1_off84 t 0#32) (k1_off83 t 0#32) (k1_off84_inb t 0) (k1_off83_inb t 0)])) (t.val + 1) := by
  have h1 := row_step_cons d L sR1 sC0 g f [] (8 * t.val + 0) (k1_off84 t 0#32) (k1_off86 t 0#32) (k1_off88 t 0#32) (k1_off90 t 0#32) (k1_off83 t 0#32) (k1_off85 t 0#32) (k1_off87 t 0#32) (k1_off89 t 0#32)
    (k1_off84_eq t 0) (k1_off86_eq t 0) (k1_off88_eq t 0) (k1_off90_eq t 0) (k1_off83_eq t 0) (k1_off85_eq t 0) (k1_off87_eq t 0) (k1_off89_eq t 0)
    (k1_off84_inb t 0) (k1_off86_inb t 0) (k1_off88_inb t 0) (k1_off90_inb t 0) (k1_off83_inb t 0) (k1_off85_inb t 0) (k1_off87_inb t 0) (k1_off89_inb t 0) ((compacted_iff_rows _ _ _).1 hC)
  have h2 := row_step_cons d L sR1 sC0 g f _ (8 * t.val + 1) (k1_off84 t 1#32) (k1_off86 t 1#32) (k1_off88 t 1#32) (k1_off90 t 1#32) (k1_off83 t 1#32) (k1_off85 t 1#32) (k1_off87 t 1#32) (k1_off89 t 1#32)
    (k1_off84_eq t 1) (k1_off86_eq t 1) (k1_off88_eq t 1) (k1_off90_eq t 1) (k1_off83_eq t 1) (k1_off85_eq t 1) (k1_off87_eq t 1) (k1_off89_eq t 1)
    (k1_off84_inb t 1) (k1_off86_inb t 1) (k1_off88_inb t 1) (k1_off90_inb t 1) (k1_off83_inb t 1) (k1_off85_inb t 1) (k1_off87_inb t 1) (k1_off89_inb t 1) h1
  have h3 := row_step_cons d L sR1 sC0 g f _ (8 * t.val + 2) (k1_off84 t 2#32) (k1_off86 t 2#32) (k1_off88 t 2#32) (k1_off90 t 2#32) (k1_off83 t 2#32) (k1_off85 t 2#32) (k1_off87 t 2#32) (k1_off89 t 2#32)
    (k1_off84_eq t 2) (k1_off86_eq t 2) (k1_off88_eq t 2) (k1_off90_eq t 2) (k1_off83_eq t 2) (k1_off85_eq t 2) (k1_off87_eq t 2) (k1_off89_eq t 2)
    (k1_off84_inb t 2) (k1_off86_inb t 2) (k1_off88_inb t 2) (k1_off90_inb t 2) (k1_off83_inb t 2) (k1_off85_inb t 2) (k1_off87_inb t 2) (k1_off89_inb t 2) h2
  have h4 := row_step_cons d L sR1 sC0 g f _ (8 * t.val + 3) (k1_off84 t 3#32) (k1_off86 t 3#32) (k1_off88 t 3#32) (k1_off90 t 3#32) (k1_off83 t 3#32) (k1_off85 t 3#32) (k1_off87 t 3#32) (k1_off89 t 3#32)
    (k1_off84_eq t 3) (k1_off86_eq t 3) (k1_off88_eq t 3) (k1_off90_eq t 3) (k1_off83_eq t 3) (k1_off85_eq t 3) (k1_off87_eq t 3) (k1_off89_eq t 3)
    (k1_off84_inb t 3) (k1_off86_inb t 3) (k1_off88_inb t 3) (k1_off90_inb t 3) (k1_off83_inb t 3) (k1_off85_inb t 3) (k1_off87_inb t 3) (k1_off89_inb t 3) h3
  have h5 := row_step_cons d L sR1 sC0 g f _ (8 * t.val + 4) (k1_off84 t 4#32) (k1_off86 t 4#32) (k1_off88 t 4#32) (k1_off90 t 4#32) (k1_off83 t 4#32) (k1_off85 t 4#32) (k1_off87 t 4#32) (k1_off89 t 4#32)
    (k1_off84_eq t 4) (k1_off86_eq t 4) (k1_off88_eq t 4) (k1_off90_eq t 4) (k1_off83_eq t 4) (k1_off85_eq t 4) (k1_off87_eq t 4) (k1_off89_eq t 4)
    (k1_off84_inb t 4) (k1_off86_inb t 4) (k1_off88_inb t 4) (k1_off90_inb t 4) (k1_off83_inb t 4) (k1_off85_inb t 4) (k1_off87_inb t 4) (k1_off89_inb t 4) h4
  have h6 := row_step_cons d L sR1 sC0 g f _ (8 * t.val + 5) (k1_off84 t 5#32) (k1_off86 t 5#32) (k1_off88 t 5#32) (k1_off90 t 5#32) (k1_off83 t 5#32) (k1_off85 t 5#32) (k1_off87 t 5#32) (k1_off89 t 5#32)
    (k1_off84_eq t 5) (k1_off86_eq t 5) (k1_off88_eq t 5) (k1_off90_eq t 5) (k1_off83_eq t 5) (k1_off85_eq t 5) (k1_off87_eq t 5) (k1_off89_eq t 5)
    (k1_off84_inb t 5) (k1_off86_inb t 5) (k1_off88_inb t 5) (k1_off90_inb t 5) (k1_off83_inb t 5) (k1_off85_inb t 5) (k1_off87_inb t 5) (k1_off89_inb t 5) h5
  have h7 := row_step_cons d L sR1 sC0 g f _ (8 * t.val + 6) (k1_off84 t 6#32) (k1_off86 t 6#32) (k1_off88 t 6#32) (k1_off90 t 6#32) (k1_off83 t 6#32) (k1_off85 t 6#32) (k1_off87 t 6#32) (k1_off89 t 6#32)
    (k1_off84_eq t 6) (k1_off86_eq t 6) (k1_off88_eq t 6) (k1_off90_eq t 6) (k1_off83_eq t 6) (k1_off85_eq t 6) (k1_off87_eq t 6) (k1_off89_eq t 6)
    (k1_off84_inb t 6) (k1_off86_inb t 6) (k1_off88_inb t 6) (k1_off90_inb t 6) (k1_off83_inb t 6) (k1_off85_inb t 6) (k1_off87_inb t 6) (k1_off89_inb t 6) h6
  have h8 := row_step_cons d L sR1 sC0 g f _ (8 * t.val + 7) (k1_off84 t 7#32) (k1_off86 t 7#32) (k1_off88 t 7#32) (k1_off90 t 7#32) (k1_off83 t 7#32) (k1_off85 t 7#32) (k1_off87 t 7#32) (k1_off89 t 7#32)
    (k1_off84_eq t 7) (k1_off86_eq t 7) (k1_off88_eq t 7) (k1_off90_eq t 7) (k1_off83_eq t 7) (k1_off85_eq t 7) (k1_off87_eq t 7) (k1_off89_eq t 7)
    (k1_off84_inb t 7) (k1_off86_inb t 7) (k1_off88_inb t 7) (k1_off90_inb t 7) (k1_off83_inb t 7) (k1_off85_inb t 7) (k1_off87_inb t 7) (k1_off89_inb t 7) h7
  intro r c hr
  exact h8 r c (by omega)

/-- The compaction step of loop 12 of 40: trip t copies rows [8 t, 8 t + 8) of the landing buffer's first 64 columns. -/
theorem compact_step_t13 (t : Fin k1_t13_loop.trips) (g : Buf (Elt F) (sR2.view.loc (thr d L))) (f : Buf (Elt F) (sC1.view.loc (thr d L)))
    (hC : Compacted (sR2.view.read (Elt F) g) (sC1.view.read (Elt F) f) t.val) :
    Compacted (sR2.view.read (Elt F) g) (sC1.view.read (Elt F) (sC1.view.writes (Elt F) f
      [cpiece d L sR2 g (k1_off98 t 7#32) (k1_off97 t 7#32) (k1_off98_inb t 7) (k1_off97_inb t 7),
       cpiece d L sR2 g (k1_off96 t 7#32) (k1_off95 t 7#32) (k1_off96_inb t 7) (k1_off95_inb t 7),
       cpiece d L sR2 g (k1_off94 t 7#32) (k1_off93 t 7#32) (k1_off94_inb t 7) (k1_off93_inb t 7),
       cpiece d L sR2 g (k1_off92 t 7#32) (k1_off91 t 7#32) (k1_off92_inb t 7) (k1_off91_inb t 7),
       cpiece d L sR2 g (k1_off98 t 6#32) (k1_off97 t 6#32) (k1_off98_inb t 6) (k1_off97_inb t 6),
       cpiece d L sR2 g (k1_off96 t 6#32) (k1_off95 t 6#32) (k1_off96_inb t 6) (k1_off95_inb t 6),
       cpiece d L sR2 g (k1_off94 t 6#32) (k1_off93 t 6#32) (k1_off94_inb t 6) (k1_off93_inb t 6),
       cpiece d L sR2 g (k1_off92 t 6#32) (k1_off91 t 6#32) (k1_off92_inb t 6) (k1_off91_inb t 6),
       cpiece d L sR2 g (k1_off98 t 5#32) (k1_off97 t 5#32) (k1_off98_inb t 5) (k1_off97_inb t 5),
       cpiece d L sR2 g (k1_off96 t 5#32) (k1_off95 t 5#32) (k1_off96_inb t 5) (k1_off95_inb t 5),
       cpiece d L sR2 g (k1_off94 t 5#32) (k1_off93 t 5#32) (k1_off94_inb t 5) (k1_off93_inb t 5),
       cpiece d L sR2 g (k1_off92 t 5#32) (k1_off91 t 5#32) (k1_off92_inb t 5) (k1_off91_inb t 5),
       cpiece d L sR2 g (k1_off98 t 4#32) (k1_off97 t 4#32) (k1_off98_inb t 4) (k1_off97_inb t 4),
       cpiece d L sR2 g (k1_off96 t 4#32) (k1_off95 t 4#32) (k1_off96_inb t 4) (k1_off95_inb t 4),
       cpiece d L sR2 g (k1_off94 t 4#32) (k1_off93 t 4#32) (k1_off94_inb t 4) (k1_off93_inb t 4),
       cpiece d L sR2 g (k1_off92 t 4#32) (k1_off91 t 4#32) (k1_off92_inb t 4) (k1_off91_inb t 4),
       cpiece d L sR2 g (k1_off98 t 3#32) (k1_off97 t 3#32) (k1_off98_inb t 3) (k1_off97_inb t 3),
       cpiece d L sR2 g (k1_off96 t 3#32) (k1_off95 t 3#32) (k1_off96_inb t 3) (k1_off95_inb t 3),
       cpiece d L sR2 g (k1_off94 t 3#32) (k1_off93 t 3#32) (k1_off94_inb t 3) (k1_off93_inb t 3),
       cpiece d L sR2 g (k1_off92 t 3#32) (k1_off91 t 3#32) (k1_off92_inb t 3) (k1_off91_inb t 3),
       cpiece d L sR2 g (k1_off98 t 2#32) (k1_off97 t 2#32) (k1_off98_inb t 2) (k1_off97_inb t 2),
       cpiece d L sR2 g (k1_off96 t 2#32) (k1_off95 t 2#32) (k1_off96_inb t 2) (k1_off95_inb t 2),
       cpiece d L sR2 g (k1_off94 t 2#32) (k1_off93 t 2#32) (k1_off94_inb t 2) (k1_off93_inb t 2),
       cpiece d L sR2 g (k1_off92 t 2#32) (k1_off91 t 2#32) (k1_off92_inb t 2) (k1_off91_inb t 2),
       cpiece d L sR2 g (k1_off98 t 1#32) (k1_off97 t 1#32) (k1_off98_inb t 1) (k1_off97_inb t 1),
       cpiece d L sR2 g (k1_off96 t 1#32) (k1_off95 t 1#32) (k1_off96_inb t 1) (k1_off95_inb t 1),
       cpiece d L sR2 g (k1_off94 t 1#32) (k1_off93 t 1#32) (k1_off94_inb t 1) (k1_off93_inb t 1),
       cpiece d L sR2 g (k1_off92 t 1#32) (k1_off91 t 1#32) (k1_off92_inb t 1) (k1_off91_inb t 1),
       cpiece d L sR2 g (k1_off98 t 0#32) (k1_off97 t 0#32) (k1_off98_inb t 0) (k1_off97_inb t 0),
       cpiece d L sR2 g (k1_off96 t 0#32) (k1_off95 t 0#32) (k1_off96_inb t 0) (k1_off95_inb t 0),
       cpiece d L sR2 g (k1_off94 t 0#32) (k1_off93 t 0#32) (k1_off94_inb t 0) (k1_off93_inb t 0),
       cpiece d L sR2 g (k1_off92 t 0#32) (k1_off91 t 0#32) (k1_off92_inb t 0) (k1_off91_inb t 0)])) (t.val + 1) := by
  have h1 := row_step_cons d L sR2 sC1 g f [] (8 * t.val + 0) (k1_off92 t 0#32) (k1_off94 t 0#32) (k1_off96 t 0#32) (k1_off98 t 0#32) (k1_off91 t 0#32) (k1_off93 t 0#32) (k1_off95 t 0#32) (k1_off97 t 0#32)
    (k1_off92_eq t 0) (k1_off94_eq t 0) (k1_off96_eq t 0) (k1_off98_eq t 0) (k1_off91_eq t 0) (k1_off93_eq t 0) (k1_off95_eq t 0) (k1_off97_eq t 0)
    (k1_off92_inb t 0) (k1_off94_inb t 0) (k1_off96_inb t 0) (k1_off98_inb t 0) (k1_off91_inb t 0) (k1_off93_inb t 0) (k1_off95_inb t 0) (k1_off97_inb t 0) ((compacted_iff_rows _ _ _).1 hC)
  have h2 := row_step_cons d L sR2 sC1 g f _ (8 * t.val + 1) (k1_off92 t 1#32) (k1_off94 t 1#32) (k1_off96 t 1#32) (k1_off98 t 1#32) (k1_off91 t 1#32) (k1_off93 t 1#32) (k1_off95 t 1#32) (k1_off97 t 1#32)
    (k1_off92_eq t 1) (k1_off94_eq t 1) (k1_off96_eq t 1) (k1_off98_eq t 1) (k1_off91_eq t 1) (k1_off93_eq t 1) (k1_off95_eq t 1) (k1_off97_eq t 1)
    (k1_off92_inb t 1) (k1_off94_inb t 1) (k1_off96_inb t 1) (k1_off98_inb t 1) (k1_off91_inb t 1) (k1_off93_inb t 1) (k1_off95_inb t 1) (k1_off97_inb t 1) h1
  have h3 := row_step_cons d L sR2 sC1 g f _ (8 * t.val + 2) (k1_off92 t 2#32) (k1_off94 t 2#32) (k1_off96 t 2#32) (k1_off98 t 2#32) (k1_off91 t 2#32) (k1_off93 t 2#32) (k1_off95 t 2#32) (k1_off97 t 2#32)
    (k1_off92_eq t 2) (k1_off94_eq t 2) (k1_off96_eq t 2) (k1_off98_eq t 2) (k1_off91_eq t 2) (k1_off93_eq t 2) (k1_off95_eq t 2) (k1_off97_eq t 2)
    (k1_off92_inb t 2) (k1_off94_inb t 2) (k1_off96_inb t 2) (k1_off98_inb t 2) (k1_off91_inb t 2) (k1_off93_inb t 2) (k1_off95_inb t 2) (k1_off97_inb t 2) h2
  have h4 := row_step_cons d L sR2 sC1 g f _ (8 * t.val + 3) (k1_off92 t 3#32) (k1_off94 t 3#32) (k1_off96 t 3#32) (k1_off98 t 3#32) (k1_off91 t 3#32) (k1_off93 t 3#32) (k1_off95 t 3#32) (k1_off97 t 3#32)
    (k1_off92_eq t 3) (k1_off94_eq t 3) (k1_off96_eq t 3) (k1_off98_eq t 3) (k1_off91_eq t 3) (k1_off93_eq t 3) (k1_off95_eq t 3) (k1_off97_eq t 3)
    (k1_off92_inb t 3) (k1_off94_inb t 3) (k1_off96_inb t 3) (k1_off98_inb t 3) (k1_off91_inb t 3) (k1_off93_inb t 3) (k1_off95_inb t 3) (k1_off97_inb t 3) h3
  have h5 := row_step_cons d L sR2 sC1 g f _ (8 * t.val + 4) (k1_off92 t 4#32) (k1_off94 t 4#32) (k1_off96 t 4#32) (k1_off98 t 4#32) (k1_off91 t 4#32) (k1_off93 t 4#32) (k1_off95 t 4#32) (k1_off97 t 4#32)
    (k1_off92_eq t 4) (k1_off94_eq t 4) (k1_off96_eq t 4) (k1_off98_eq t 4) (k1_off91_eq t 4) (k1_off93_eq t 4) (k1_off95_eq t 4) (k1_off97_eq t 4)
    (k1_off92_inb t 4) (k1_off94_inb t 4) (k1_off96_inb t 4) (k1_off98_inb t 4) (k1_off91_inb t 4) (k1_off93_inb t 4) (k1_off95_inb t 4) (k1_off97_inb t 4) h4
  have h6 := row_step_cons d L sR2 sC1 g f _ (8 * t.val + 5) (k1_off92 t 5#32) (k1_off94 t 5#32) (k1_off96 t 5#32) (k1_off98 t 5#32) (k1_off91 t 5#32) (k1_off93 t 5#32) (k1_off95 t 5#32) (k1_off97 t 5#32)
    (k1_off92_eq t 5) (k1_off94_eq t 5) (k1_off96_eq t 5) (k1_off98_eq t 5) (k1_off91_eq t 5) (k1_off93_eq t 5) (k1_off95_eq t 5) (k1_off97_eq t 5)
    (k1_off92_inb t 5) (k1_off94_inb t 5) (k1_off96_inb t 5) (k1_off98_inb t 5) (k1_off91_inb t 5) (k1_off93_inb t 5) (k1_off95_inb t 5) (k1_off97_inb t 5) h5
  have h7 := row_step_cons d L sR2 sC1 g f _ (8 * t.val + 6) (k1_off92 t 6#32) (k1_off94 t 6#32) (k1_off96 t 6#32) (k1_off98 t 6#32) (k1_off91 t 6#32) (k1_off93 t 6#32) (k1_off95 t 6#32) (k1_off97 t 6#32)
    (k1_off92_eq t 6) (k1_off94_eq t 6) (k1_off96_eq t 6) (k1_off98_eq t 6) (k1_off91_eq t 6) (k1_off93_eq t 6) (k1_off95_eq t 6) (k1_off97_eq t 6)
    (k1_off92_inb t 6) (k1_off94_inb t 6) (k1_off96_inb t 6) (k1_off98_inb t 6) (k1_off91_inb t 6) (k1_off93_inb t 6) (k1_off95_inb t 6) (k1_off97_inb t 6) h6
  have h8 := row_step_cons d L sR2 sC1 g f _ (8 * t.val + 7) (k1_off92 t 7#32) (k1_off94 t 7#32) (k1_off96 t 7#32) (k1_off98 t 7#32) (k1_off91 t 7#32) (k1_off93 t 7#32) (k1_off95 t 7#32) (k1_off97 t 7#32)
    (k1_off92_eq t 7) (k1_off94_eq t 7) (k1_off96_eq t 7) (k1_off98_eq t 7) (k1_off91_eq t 7) (k1_off93_eq t 7) (k1_off95_eq t 7) (k1_off97_eq t 7)
    (k1_off92_inb t 7) (k1_off94_inb t 7) (k1_off96_inb t 7) (k1_off98_inb t 7) (k1_off91_inb t 7) (k1_off93_inb t 7) (k1_off95_inb t 7) (k1_off97_inb t 7) h7
  intro r c hr
  exact h8 r c (by omega)

/-- The compaction step of loop 13 of 40: trip t copies rows [8 t, 8 t + 8) of the landing buffer's first 64 columns. -/
theorem compact_step_t14 (t : Fin k1_t14_loop.trips) (g : Buf (Elt F) (sR0.view.loc (thr d L))) (f : Buf (Elt F) (sC0.view.loc (thr d L)))
    (hC : Compacted (sR0.view.read (Elt F) g) (sC0.view.read (Elt F) f) t.val) :
    Compacted (sR0.view.read (Elt F) g) (sC0.view.read (Elt F) (sC0.view.writes (Elt F) f
      [cpiece d L sR0 g (k1_off106 t 7#32) (k1_off105 t 7#32) (k1_off106_inb t 7) (k1_off105_inb t 7),
       cpiece d L sR0 g (k1_off104 t 7#32) (k1_off103 t 7#32) (k1_off104_inb t 7) (k1_off103_inb t 7),
       cpiece d L sR0 g (k1_off102 t 7#32) (k1_off101 t 7#32) (k1_off102_inb t 7) (k1_off101_inb t 7),
       cpiece d L sR0 g (k1_off100 t 7#32) (k1_off99 t 7#32) (k1_off100_inb t 7) (k1_off99_inb t 7),
       cpiece d L sR0 g (k1_off106 t 6#32) (k1_off105 t 6#32) (k1_off106_inb t 6) (k1_off105_inb t 6),
       cpiece d L sR0 g (k1_off104 t 6#32) (k1_off103 t 6#32) (k1_off104_inb t 6) (k1_off103_inb t 6),
       cpiece d L sR0 g (k1_off102 t 6#32) (k1_off101 t 6#32) (k1_off102_inb t 6) (k1_off101_inb t 6),
       cpiece d L sR0 g (k1_off100 t 6#32) (k1_off99 t 6#32) (k1_off100_inb t 6) (k1_off99_inb t 6),
       cpiece d L sR0 g (k1_off106 t 5#32) (k1_off105 t 5#32) (k1_off106_inb t 5) (k1_off105_inb t 5),
       cpiece d L sR0 g (k1_off104 t 5#32) (k1_off103 t 5#32) (k1_off104_inb t 5) (k1_off103_inb t 5),
       cpiece d L sR0 g (k1_off102 t 5#32) (k1_off101 t 5#32) (k1_off102_inb t 5) (k1_off101_inb t 5),
       cpiece d L sR0 g (k1_off100 t 5#32) (k1_off99 t 5#32) (k1_off100_inb t 5) (k1_off99_inb t 5),
       cpiece d L sR0 g (k1_off106 t 4#32) (k1_off105 t 4#32) (k1_off106_inb t 4) (k1_off105_inb t 4),
       cpiece d L sR0 g (k1_off104 t 4#32) (k1_off103 t 4#32) (k1_off104_inb t 4) (k1_off103_inb t 4),
       cpiece d L sR0 g (k1_off102 t 4#32) (k1_off101 t 4#32) (k1_off102_inb t 4) (k1_off101_inb t 4),
       cpiece d L sR0 g (k1_off100 t 4#32) (k1_off99 t 4#32) (k1_off100_inb t 4) (k1_off99_inb t 4),
       cpiece d L sR0 g (k1_off106 t 3#32) (k1_off105 t 3#32) (k1_off106_inb t 3) (k1_off105_inb t 3),
       cpiece d L sR0 g (k1_off104 t 3#32) (k1_off103 t 3#32) (k1_off104_inb t 3) (k1_off103_inb t 3),
       cpiece d L sR0 g (k1_off102 t 3#32) (k1_off101 t 3#32) (k1_off102_inb t 3) (k1_off101_inb t 3),
       cpiece d L sR0 g (k1_off100 t 3#32) (k1_off99 t 3#32) (k1_off100_inb t 3) (k1_off99_inb t 3),
       cpiece d L sR0 g (k1_off106 t 2#32) (k1_off105 t 2#32) (k1_off106_inb t 2) (k1_off105_inb t 2),
       cpiece d L sR0 g (k1_off104 t 2#32) (k1_off103 t 2#32) (k1_off104_inb t 2) (k1_off103_inb t 2),
       cpiece d L sR0 g (k1_off102 t 2#32) (k1_off101 t 2#32) (k1_off102_inb t 2) (k1_off101_inb t 2),
       cpiece d L sR0 g (k1_off100 t 2#32) (k1_off99 t 2#32) (k1_off100_inb t 2) (k1_off99_inb t 2),
       cpiece d L sR0 g (k1_off106 t 1#32) (k1_off105 t 1#32) (k1_off106_inb t 1) (k1_off105_inb t 1),
       cpiece d L sR0 g (k1_off104 t 1#32) (k1_off103 t 1#32) (k1_off104_inb t 1) (k1_off103_inb t 1),
       cpiece d L sR0 g (k1_off102 t 1#32) (k1_off101 t 1#32) (k1_off102_inb t 1) (k1_off101_inb t 1),
       cpiece d L sR0 g (k1_off100 t 1#32) (k1_off99 t 1#32) (k1_off100_inb t 1) (k1_off99_inb t 1),
       cpiece d L sR0 g (k1_off106 t 0#32) (k1_off105 t 0#32) (k1_off106_inb t 0) (k1_off105_inb t 0),
       cpiece d L sR0 g (k1_off104 t 0#32) (k1_off103 t 0#32) (k1_off104_inb t 0) (k1_off103_inb t 0),
       cpiece d L sR0 g (k1_off102 t 0#32) (k1_off101 t 0#32) (k1_off102_inb t 0) (k1_off101_inb t 0),
       cpiece d L sR0 g (k1_off100 t 0#32) (k1_off99 t 0#32) (k1_off100_inb t 0) (k1_off99_inb t 0)])) (t.val + 1) := by
  have h1 := row_step_cons d L sR0 sC0 g f [] (8 * t.val + 0) (k1_off100 t 0#32) (k1_off102 t 0#32) (k1_off104 t 0#32) (k1_off106 t 0#32) (k1_off99 t 0#32) (k1_off101 t 0#32) (k1_off103 t 0#32) (k1_off105 t 0#32)
    (k1_off100_eq t 0) (k1_off102_eq t 0) (k1_off104_eq t 0) (k1_off106_eq t 0) (k1_off99_eq t 0) (k1_off101_eq t 0) (k1_off103_eq t 0) (k1_off105_eq t 0)
    (k1_off100_inb t 0) (k1_off102_inb t 0) (k1_off104_inb t 0) (k1_off106_inb t 0) (k1_off99_inb t 0) (k1_off101_inb t 0) (k1_off103_inb t 0) (k1_off105_inb t 0) ((compacted_iff_rows _ _ _).1 hC)
  have h2 := row_step_cons d L sR0 sC0 g f _ (8 * t.val + 1) (k1_off100 t 1#32) (k1_off102 t 1#32) (k1_off104 t 1#32) (k1_off106 t 1#32) (k1_off99 t 1#32) (k1_off101 t 1#32) (k1_off103 t 1#32) (k1_off105 t 1#32)
    (k1_off100_eq t 1) (k1_off102_eq t 1) (k1_off104_eq t 1) (k1_off106_eq t 1) (k1_off99_eq t 1) (k1_off101_eq t 1) (k1_off103_eq t 1) (k1_off105_eq t 1)
    (k1_off100_inb t 1) (k1_off102_inb t 1) (k1_off104_inb t 1) (k1_off106_inb t 1) (k1_off99_inb t 1) (k1_off101_inb t 1) (k1_off103_inb t 1) (k1_off105_inb t 1) h1
  have h3 := row_step_cons d L sR0 sC0 g f _ (8 * t.val + 2) (k1_off100 t 2#32) (k1_off102 t 2#32) (k1_off104 t 2#32) (k1_off106 t 2#32) (k1_off99 t 2#32) (k1_off101 t 2#32) (k1_off103 t 2#32) (k1_off105 t 2#32)
    (k1_off100_eq t 2) (k1_off102_eq t 2) (k1_off104_eq t 2) (k1_off106_eq t 2) (k1_off99_eq t 2) (k1_off101_eq t 2) (k1_off103_eq t 2) (k1_off105_eq t 2)
    (k1_off100_inb t 2) (k1_off102_inb t 2) (k1_off104_inb t 2) (k1_off106_inb t 2) (k1_off99_inb t 2) (k1_off101_inb t 2) (k1_off103_inb t 2) (k1_off105_inb t 2) h2
  have h4 := row_step_cons d L sR0 sC0 g f _ (8 * t.val + 3) (k1_off100 t 3#32) (k1_off102 t 3#32) (k1_off104 t 3#32) (k1_off106 t 3#32) (k1_off99 t 3#32) (k1_off101 t 3#32) (k1_off103 t 3#32) (k1_off105 t 3#32)
    (k1_off100_eq t 3) (k1_off102_eq t 3) (k1_off104_eq t 3) (k1_off106_eq t 3) (k1_off99_eq t 3) (k1_off101_eq t 3) (k1_off103_eq t 3) (k1_off105_eq t 3)
    (k1_off100_inb t 3) (k1_off102_inb t 3) (k1_off104_inb t 3) (k1_off106_inb t 3) (k1_off99_inb t 3) (k1_off101_inb t 3) (k1_off103_inb t 3) (k1_off105_inb t 3) h3
  have h5 := row_step_cons d L sR0 sC0 g f _ (8 * t.val + 4) (k1_off100 t 4#32) (k1_off102 t 4#32) (k1_off104 t 4#32) (k1_off106 t 4#32) (k1_off99 t 4#32) (k1_off101 t 4#32) (k1_off103 t 4#32) (k1_off105 t 4#32)
    (k1_off100_eq t 4) (k1_off102_eq t 4) (k1_off104_eq t 4) (k1_off106_eq t 4) (k1_off99_eq t 4) (k1_off101_eq t 4) (k1_off103_eq t 4) (k1_off105_eq t 4)
    (k1_off100_inb t 4) (k1_off102_inb t 4) (k1_off104_inb t 4) (k1_off106_inb t 4) (k1_off99_inb t 4) (k1_off101_inb t 4) (k1_off103_inb t 4) (k1_off105_inb t 4) h4
  have h6 := row_step_cons d L sR0 sC0 g f _ (8 * t.val + 5) (k1_off100 t 5#32) (k1_off102 t 5#32) (k1_off104 t 5#32) (k1_off106 t 5#32) (k1_off99 t 5#32) (k1_off101 t 5#32) (k1_off103 t 5#32) (k1_off105 t 5#32)
    (k1_off100_eq t 5) (k1_off102_eq t 5) (k1_off104_eq t 5) (k1_off106_eq t 5) (k1_off99_eq t 5) (k1_off101_eq t 5) (k1_off103_eq t 5) (k1_off105_eq t 5)
    (k1_off100_inb t 5) (k1_off102_inb t 5) (k1_off104_inb t 5) (k1_off106_inb t 5) (k1_off99_inb t 5) (k1_off101_inb t 5) (k1_off103_inb t 5) (k1_off105_inb t 5) h5
  have h7 := row_step_cons d L sR0 sC0 g f _ (8 * t.val + 6) (k1_off100 t 6#32) (k1_off102 t 6#32) (k1_off104 t 6#32) (k1_off106 t 6#32) (k1_off99 t 6#32) (k1_off101 t 6#32) (k1_off103 t 6#32) (k1_off105 t 6#32)
    (k1_off100_eq t 6) (k1_off102_eq t 6) (k1_off104_eq t 6) (k1_off106_eq t 6) (k1_off99_eq t 6) (k1_off101_eq t 6) (k1_off103_eq t 6) (k1_off105_eq t 6)
    (k1_off100_inb t 6) (k1_off102_inb t 6) (k1_off104_inb t 6) (k1_off106_inb t 6) (k1_off99_inb t 6) (k1_off101_inb t 6) (k1_off103_inb t 6) (k1_off105_inb t 6) h6
  have h8 := row_step_cons d L sR0 sC0 g f _ (8 * t.val + 7) (k1_off100 t 7#32) (k1_off102 t 7#32) (k1_off104 t 7#32) (k1_off106 t 7#32) (k1_off99 t 7#32) (k1_off101 t 7#32) (k1_off103 t 7#32) (k1_off105 t 7#32)
    (k1_off100_eq t 7) (k1_off102_eq t 7) (k1_off104_eq t 7) (k1_off106_eq t 7) (k1_off99_eq t 7) (k1_off101_eq t 7) (k1_off103_eq t 7) (k1_off105_eq t 7)
    (k1_off100_inb t 7) (k1_off102_inb t 7) (k1_off104_inb t 7) (k1_off106_inb t 7) (k1_off99_inb t 7) (k1_off101_inb t 7) (k1_off103_inb t 7) (k1_off105_inb t 7) h7
  intro r c hr
  exact h8 r c (by omega)

/-- The compaction step of loop 14 of 40: trip t copies rows [8 t, 8 t + 8) of the landing buffer's first 64 columns. -/
theorem compact_step_t15 (t : Fin k1_t15_loop.trips) (g : Buf (Elt F) (sR1.view.loc (thr d L))) (f : Buf (Elt F) (sC1.view.loc (thr d L)))
    (hC : Compacted (sR1.view.read (Elt F) g) (sC1.view.read (Elt F) f) t.val) :
    Compacted (sR1.view.read (Elt F) g) (sC1.view.read (Elt F) (sC1.view.writes (Elt F) f
      [cpiece d L sR1 g (k1_off114 t 7#32) (k1_off113 t 7#32) (k1_off114_inb t 7) (k1_off113_inb t 7),
       cpiece d L sR1 g (k1_off112 t 7#32) (k1_off111 t 7#32) (k1_off112_inb t 7) (k1_off111_inb t 7),
       cpiece d L sR1 g (k1_off110 t 7#32) (k1_off109 t 7#32) (k1_off110_inb t 7) (k1_off109_inb t 7),
       cpiece d L sR1 g (k1_off108 t 7#32) (k1_off107 t 7#32) (k1_off108_inb t 7) (k1_off107_inb t 7),
       cpiece d L sR1 g (k1_off114 t 6#32) (k1_off113 t 6#32) (k1_off114_inb t 6) (k1_off113_inb t 6),
       cpiece d L sR1 g (k1_off112 t 6#32) (k1_off111 t 6#32) (k1_off112_inb t 6) (k1_off111_inb t 6),
       cpiece d L sR1 g (k1_off110 t 6#32) (k1_off109 t 6#32) (k1_off110_inb t 6) (k1_off109_inb t 6),
       cpiece d L sR1 g (k1_off108 t 6#32) (k1_off107 t 6#32) (k1_off108_inb t 6) (k1_off107_inb t 6),
       cpiece d L sR1 g (k1_off114 t 5#32) (k1_off113 t 5#32) (k1_off114_inb t 5) (k1_off113_inb t 5),
       cpiece d L sR1 g (k1_off112 t 5#32) (k1_off111 t 5#32) (k1_off112_inb t 5) (k1_off111_inb t 5),
       cpiece d L sR1 g (k1_off110 t 5#32) (k1_off109 t 5#32) (k1_off110_inb t 5) (k1_off109_inb t 5),
       cpiece d L sR1 g (k1_off108 t 5#32) (k1_off107 t 5#32) (k1_off108_inb t 5) (k1_off107_inb t 5),
       cpiece d L sR1 g (k1_off114 t 4#32) (k1_off113 t 4#32) (k1_off114_inb t 4) (k1_off113_inb t 4),
       cpiece d L sR1 g (k1_off112 t 4#32) (k1_off111 t 4#32) (k1_off112_inb t 4) (k1_off111_inb t 4),
       cpiece d L sR1 g (k1_off110 t 4#32) (k1_off109 t 4#32) (k1_off110_inb t 4) (k1_off109_inb t 4),
       cpiece d L sR1 g (k1_off108 t 4#32) (k1_off107 t 4#32) (k1_off108_inb t 4) (k1_off107_inb t 4),
       cpiece d L sR1 g (k1_off114 t 3#32) (k1_off113 t 3#32) (k1_off114_inb t 3) (k1_off113_inb t 3),
       cpiece d L sR1 g (k1_off112 t 3#32) (k1_off111 t 3#32) (k1_off112_inb t 3) (k1_off111_inb t 3),
       cpiece d L sR1 g (k1_off110 t 3#32) (k1_off109 t 3#32) (k1_off110_inb t 3) (k1_off109_inb t 3),
       cpiece d L sR1 g (k1_off108 t 3#32) (k1_off107 t 3#32) (k1_off108_inb t 3) (k1_off107_inb t 3),
       cpiece d L sR1 g (k1_off114 t 2#32) (k1_off113 t 2#32) (k1_off114_inb t 2) (k1_off113_inb t 2),
       cpiece d L sR1 g (k1_off112 t 2#32) (k1_off111 t 2#32) (k1_off112_inb t 2) (k1_off111_inb t 2),
       cpiece d L sR1 g (k1_off110 t 2#32) (k1_off109 t 2#32) (k1_off110_inb t 2) (k1_off109_inb t 2),
       cpiece d L sR1 g (k1_off108 t 2#32) (k1_off107 t 2#32) (k1_off108_inb t 2) (k1_off107_inb t 2),
       cpiece d L sR1 g (k1_off114 t 1#32) (k1_off113 t 1#32) (k1_off114_inb t 1) (k1_off113_inb t 1),
       cpiece d L sR1 g (k1_off112 t 1#32) (k1_off111 t 1#32) (k1_off112_inb t 1) (k1_off111_inb t 1),
       cpiece d L sR1 g (k1_off110 t 1#32) (k1_off109 t 1#32) (k1_off110_inb t 1) (k1_off109_inb t 1),
       cpiece d L sR1 g (k1_off108 t 1#32) (k1_off107 t 1#32) (k1_off108_inb t 1) (k1_off107_inb t 1),
       cpiece d L sR1 g (k1_off114 t 0#32) (k1_off113 t 0#32) (k1_off114_inb t 0) (k1_off113_inb t 0),
       cpiece d L sR1 g (k1_off112 t 0#32) (k1_off111 t 0#32) (k1_off112_inb t 0) (k1_off111_inb t 0),
       cpiece d L sR1 g (k1_off110 t 0#32) (k1_off109 t 0#32) (k1_off110_inb t 0) (k1_off109_inb t 0),
       cpiece d L sR1 g (k1_off108 t 0#32) (k1_off107 t 0#32) (k1_off108_inb t 0) (k1_off107_inb t 0)])) (t.val + 1) := by
  have h1 := row_step_cons d L sR1 sC1 g f [] (8 * t.val + 0) (k1_off108 t 0#32) (k1_off110 t 0#32) (k1_off112 t 0#32) (k1_off114 t 0#32) (k1_off107 t 0#32) (k1_off109 t 0#32) (k1_off111 t 0#32) (k1_off113 t 0#32)
    (k1_off108_eq t 0) (k1_off110_eq t 0) (k1_off112_eq t 0) (k1_off114_eq t 0) (k1_off107_eq t 0) (k1_off109_eq t 0) (k1_off111_eq t 0) (k1_off113_eq t 0)
    (k1_off108_inb t 0) (k1_off110_inb t 0) (k1_off112_inb t 0) (k1_off114_inb t 0) (k1_off107_inb t 0) (k1_off109_inb t 0) (k1_off111_inb t 0) (k1_off113_inb t 0) ((compacted_iff_rows _ _ _).1 hC)
  have h2 := row_step_cons d L sR1 sC1 g f _ (8 * t.val + 1) (k1_off108 t 1#32) (k1_off110 t 1#32) (k1_off112 t 1#32) (k1_off114 t 1#32) (k1_off107 t 1#32) (k1_off109 t 1#32) (k1_off111 t 1#32) (k1_off113 t 1#32)
    (k1_off108_eq t 1) (k1_off110_eq t 1) (k1_off112_eq t 1) (k1_off114_eq t 1) (k1_off107_eq t 1) (k1_off109_eq t 1) (k1_off111_eq t 1) (k1_off113_eq t 1)
    (k1_off108_inb t 1) (k1_off110_inb t 1) (k1_off112_inb t 1) (k1_off114_inb t 1) (k1_off107_inb t 1) (k1_off109_inb t 1) (k1_off111_inb t 1) (k1_off113_inb t 1) h1
  have h3 := row_step_cons d L sR1 sC1 g f _ (8 * t.val + 2) (k1_off108 t 2#32) (k1_off110 t 2#32) (k1_off112 t 2#32) (k1_off114 t 2#32) (k1_off107 t 2#32) (k1_off109 t 2#32) (k1_off111 t 2#32) (k1_off113 t 2#32)
    (k1_off108_eq t 2) (k1_off110_eq t 2) (k1_off112_eq t 2) (k1_off114_eq t 2) (k1_off107_eq t 2) (k1_off109_eq t 2) (k1_off111_eq t 2) (k1_off113_eq t 2)
    (k1_off108_inb t 2) (k1_off110_inb t 2) (k1_off112_inb t 2) (k1_off114_inb t 2) (k1_off107_inb t 2) (k1_off109_inb t 2) (k1_off111_inb t 2) (k1_off113_inb t 2) h2
  have h4 := row_step_cons d L sR1 sC1 g f _ (8 * t.val + 3) (k1_off108 t 3#32) (k1_off110 t 3#32) (k1_off112 t 3#32) (k1_off114 t 3#32) (k1_off107 t 3#32) (k1_off109 t 3#32) (k1_off111 t 3#32) (k1_off113 t 3#32)
    (k1_off108_eq t 3) (k1_off110_eq t 3) (k1_off112_eq t 3) (k1_off114_eq t 3) (k1_off107_eq t 3) (k1_off109_eq t 3) (k1_off111_eq t 3) (k1_off113_eq t 3)
    (k1_off108_inb t 3) (k1_off110_inb t 3) (k1_off112_inb t 3) (k1_off114_inb t 3) (k1_off107_inb t 3) (k1_off109_inb t 3) (k1_off111_inb t 3) (k1_off113_inb t 3) h3
  have h5 := row_step_cons d L sR1 sC1 g f _ (8 * t.val + 4) (k1_off108 t 4#32) (k1_off110 t 4#32) (k1_off112 t 4#32) (k1_off114 t 4#32) (k1_off107 t 4#32) (k1_off109 t 4#32) (k1_off111 t 4#32) (k1_off113 t 4#32)
    (k1_off108_eq t 4) (k1_off110_eq t 4) (k1_off112_eq t 4) (k1_off114_eq t 4) (k1_off107_eq t 4) (k1_off109_eq t 4) (k1_off111_eq t 4) (k1_off113_eq t 4)
    (k1_off108_inb t 4) (k1_off110_inb t 4) (k1_off112_inb t 4) (k1_off114_inb t 4) (k1_off107_inb t 4) (k1_off109_inb t 4) (k1_off111_inb t 4) (k1_off113_inb t 4) h4
  have h6 := row_step_cons d L sR1 sC1 g f _ (8 * t.val + 5) (k1_off108 t 5#32) (k1_off110 t 5#32) (k1_off112 t 5#32) (k1_off114 t 5#32) (k1_off107 t 5#32) (k1_off109 t 5#32) (k1_off111 t 5#32) (k1_off113 t 5#32)
    (k1_off108_eq t 5) (k1_off110_eq t 5) (k1_off112_eq t 5) (k1_off114_eq t 5) (k1_off107_eq t 5) (k1_off109_eq t 5) (k1_off111_eq t 5) (k1_off113_eq t 5)
    (k1_off108_inb t 5) (k1_off110_inb t 5) (k1_off112_inb t 5) (k1_off114_inb t 5) (k1_off107_inb t 5) (k1_off109_inb t 5) (k1_off111_inb t 5) (k1_off113_inb t 5) h5
  have h7 := row_step_cons d L sR1 sC1 g f _ (8 * t.val + 6) (k1_off108 t 6#32) (k1_off110 t 6#32) (k1_off112 t 6#32) (k1_off114 t 6#32) (k1_off107 t 6#32) (k1_off109 t 6#32) (k1_off111 t 6#32) (k1_off113 t 6#32)
    (k1_off108_eq t 6) (k1_off110_eq t 6) (k1_off112_eq t 6) (k1_off114_eq t 6) (k1_off107_eq t 6) (k1_off109_eq t 6) (k1_off111_eq t 6) (k1_off113_eq t 6)
    (k1_off108_inb t 6) (k1_off110_inb t 6) (k1_off112_inb t 6) (k1_off114_inb t 6) (k1_off107_inb t 6) (k1_off109_inb t 6) (k1_off111_inb t 6) (k1_off113_inb t 6) h6
  have h8 := row_step_cons d L sR1 sC1 g f _ (8 * t.val + 7) (k1_off108 t 7#32) (k1_off110 t 7#32) (k1_off112 t 7#32) (k1_off114 t 7#32) (k1_off107 t 7#32) (k1_off109 t 7#32) (k1_off111 t 7#32) (k1_off113 t 7#32)
    (k1_off108_eq t 7) (k1_off110_eq t 7) (k1_off112_eq t 7) (k1_off114_eq t 7) (k1_off107_eq t 7) (k1_off109_eq t 7) (k1_off111_eq t 7) (k1_off113_eq t 7)
    (k1_off108_inb t 7) (k1_off110_inb t 7) (k1_off112_inb t 7) (k1_off114_inb t 7) (k1_off107_inb t 7) (k1_off109_inb t 7) (k1_off111_inb t 7) (k1_off113_inb t 7) h7
  intro r c hr
  exact h8 r c (by omega)

/-- The compaction step of loop 15 of 40: trip t copies rows [8 t, 8 t + 8) of the landing buffer's first 64 columns. -/
theorem compact_step_t16 (t : Fin k1_t16_loop.trips) (g : Buf (Elt F) (sR2.view.loc (thr d L))) (f : Buf (Elt F) (sC0.view.loc (thr d L)))
    (hC : Compacted (sR2.view.read (Elt F) g) (sC0.view.read (Elt F) f) t.val) :
    Compacted (sR2.view.read (Elt F) g) (sC0.view.read (Elt F) (sC0.view.writes (Elt F) f
      [cpiece d L sR2 g (k1_off122 t 7#32) (k1_off121 t 7#32) (k1_off122_inb t 7) (k1_off121_inb t 7),
       cpiece d L sR2 g (k1_off120 t 7#32) (k1_off119 t 7#32) (k1_off120_inb t 7) (k1_off119_inb t 7),
       cpiece d L sR2 g (k1_off118 t 7#32) (k1_off117 t 7#32) (k1_off118_inb t 7) (k1_off117_inb t 7),
       cpiece d L sR2 g (k1_off116 t 7#32) (k1_off115 t 7#32) (k1_off116_inb t 7) (k1_off115_inb t 7),
       cpiece d L sR2 g (k1_off122 t 6#32) (k1_off121 t 6#32) (k1_off122_inb t 6) (k1_off121_inb t 6),
       cpiece d L sR2 g (k1_off120 t 6#32) (k1_off119 t 6#32) (k1_off120_inb t 6) (k1_off119_inb t 6),
       cpiece d L sR2 g (k1_off118 t 6#32) (k1_off117 t 6#32) (k1_off118_inb t 6) (k1_off117_inb t 6),
       cpiece d L sR2 g (k1_off116 t 6#32) (k1_off115 t 6#32) (k1_off116_inb t 6) (k1_off115_inb t 6),
       cpiece d L sR2 g (k1_off122 t 5#32) (k1_off121 t 5#32) (k1_off122_inb t 5) (k1_off121_inb t 5),
       cpiece d L sR2 g (k1_off120 t 5#32) (k1_off119 t 5#32) (k1_off120_inb t 5) (k1_off119_inb t 5),
       cpiece d L sR2 g (k1_off118 t 5#32) (k1_off117 t 5#32) (k1_off118_inb t 5) (k1_off117_inb t 5),
       cpiece d L sR2 g (k1_off116 t 5#32) (k1_off115 t 5#32) (k1_off116_inb t 5) (k1_off115_inb t 5),
       cpiece d L sR2 g (k1_off122 t 4#32) (k1_off121 t 4#32) (k1_off122_inb t 4) (k1_off121_inb t 4),
       cpiece d L sR2 g (k1_off120 t 4#32) (k1_off119 t 4#32) (k1_off120_inb t 4) (k1_off119_inb t 4),
       cpiece d L sR2 g (k1_off118 t 4#32) (k1_off117 t 4#32) (k1_off118_inb t 4) (k1_off117_inb t 4),
       cpiece d L sR2 g (k1_off116 t 4#32) (k1_off115 t 4#32) (k1_off116_inb t 4) (k1_off115_inb t 4),
       cpiece d L sR2 g (k1_off122 t 3#32) (k1_off121 t 3#32) (k1_off122_inb t 3) (k1_off121_inb t 3),
       cpiece d L sR2 g (k1_off120 t 3#32) (k1_off119 t 3#32) (k1_off120_inb t 3) (k1_off119_inb t 3),
       cpiece d L sR2 g (k1_off118 t 3#32) (k1_off117 t 3#32) (k1_off118_inb t 3) (k1_off117_inb t 3),
       cpiece d L sR2 g (k1_off116 t 3#32) (k1_off115 t 3#32) (k1_off116_inb t 3) (k1_off115_inb t 3),
       cpiece d L sR2 g (k1_off122 t 2#32) (k1_off121 t 2#32) (k1_off122_inb t 2) (k1_off121_inb t 2),
       cpiece d L sR2 g (k1_off120 t 2#32) (k1_off119 t 2#32) (k1_off120_inb t 2) (k1_off119_inb t 2),
       cpiece d L sR2 g (k1_off118 t 2#32) (k1_off117 t 2#32) (k1_off118_inb t 2) (k1_off117_inb t 2),
       cpiece d L sR2 g (k1_off116 t 2#32) (k1_off115 t 2#32) (k1_off116_inb t 2) (k1_off115_inb t 2),
       cpiece d L sR2 g (k1_off122 t 1#32) (k1_off121 t 1#32) (k1_off122_inb t 1) (k1_off121_inb t 1),
       cpiece d L sR2 g (k1_off120 t 1#32) (k1_off119 t 1#32) (k1_off120_inb t 1) (k1_off119_inb t 1),
       cpiece d L sR2 g (k1_off118 t 1#32) (k1_off117 t 1#32) (k1_off118_inb t 1) (k1_off117_inb t 1),
       cpiece d L sR2 g (k1_off116 t 1#32) (k1_off115 t 1#32) (k1_off116_inb t 1) (k1_off115_inb t 1),
       cpiece d L sR2 g (k1_off122 t 0#32) (k1_off121 t 0#32) (k1_off122_inb t 0) (k1_off121_inb t 0),
       cpiece d L sR2 g (k1_off120 t 0#32) (k1_off119 t 0#32) (k1_off120_inb t 0) (k1_off119_inb t 0),
       cpiece d L sR2 g (k1_off118 t 0#32) (k1_off117 t 0#32) (k1_off118_inb t 0) (k1_off117_inb t 0),
       cpiece d L sR2 g (k1_off116 t 0#32) (k1_off115 t 0#32) (k1_off116_inb t 0) (k1_off115_inb t 0)])) (t.val + 1) := by
  have h1 := row_step_cons d L sR2 sC0 g f [] (8 * t.val + 0) (k1_off116 t 0#32) (k1_off118 t 0#32) (k1_off120 t 0#32) (k1_off122 t 0#32) (k1_off115 t 0#32) (k1_off117 t 0#32) (k1_off119 t 0#32) (k1_off121 t 0#32)
    (k1_off116_eq t 0) (k1_off118_eq t 0) (k1_off120_eq t 0) (k1_off122_eq t 0) (k1_off115_eq t 0) (k1_off117_eq t 0) (k1_off119_eq t 0) (k1_off121_eq t 0)
    (k1_off116_inb t 0) (k1_off118_inb t 0) (k1_off120_inb t 0) (k1_off122_inb t 0) (k1_off115_inb t 0) (k1_off117_inb t 0) (k1_off119_inb t 0) (k1_off121_inb t 0) ((compacted_iff_rows _ _ _).1 hC)
  have h2 := row_step_cons d L sR2 sC0 g f _ (8 * t.val + 1) (k1_off116 t 1#32) (k1_off118 t 1#32) (k1_off120 t 1#32) (k1_off122 t 1#32) (k1_off115 t 1#32) (k1_off117 t 1#32) (k1_off119 t 1#32) (k1_off121 t 1#32)
    (k1_off116_eq t 1) (k1_off118_eq t 1) (k1_off120_eq t 1) (k1_off122_eq t 1) (k1_off115_eq t 1) (k1_off117_eq t 1) (k1_off119_eq t 1) (k1_off121_eq t 1)
    (k1_off116_inb t 1) (k1_off118_inb t 1) (k1_off120_inb t 1) (k1_off122_inb t 1) (k1_off115_inb t 1) (k1_off117_inb t 1) (k1_off119_inb t 1) (k1_off121_inb t 1) h1
  have h3 := row_step_cons d L sR2 sC0 g f _ (8 * t.val + 2) (k1_off116 t 2#32) (k1_off118 t 2#32) (k1_off120 t 2#32) (k1_off122 t 2#32) (k1_off115 t 2#32) (k1_off117 t 2#32) (k1_off119 t 2#32) (k1_off121 t 2#32)
    (k1_off116_eq t 2) (k1_off118_eq t 2) (k1_off120_eq t 2) (k1_off122_eq t 2) (k1_off115_eq t 2) (k1_off117_eq t 2) (k1_off119_eq t 2) (k1_off121_eq t 2)
    (k1_off116_inb t 2) (k1_off118_inb t 2) (k1_off120_inb t 2) (k1_off122_inb t 2) (k1_off115_inb t 2) (k1_off117_inb t 2) (k1_off119_inb t 2) (k1_off121_inb t 2) h2
  have h4 := row_step_cons d L sR2 sC0 g f _ (8 * t.val + 3) (k1_off116 t 3#32) (k1_off118 t 3#32) (k1_off120 t 3#32) (k1_off122 t 3#32) (k1_off115 t 3#32) (k1_off117 t 3#32) (k1_off119 t 3#32) (k1_off121 t 3#32)
    (k1_off116_eq t 3) (k1_off118_eq t 3) (k1_off120_eq t 3) (k1_off122_eq t 3) (k1_off115_eq t 3) (k1_off117_eq t 3) (k1_off119_eq t 3) (k1_off121_eq t 3)
    (k1_off116_inb t 3) (k1_off118_inb t 3) (k1_off120_inb t 3) (k1_off122_inb t 3) (k1_off115_inb t 3) (k1_off117_inb t 3) (k1_off119_inb t 3) (k1_off121_inb t 3) h3
  have h5 := row_step_cons d L sR2 sC0 g f _ (8 * t.val + 4) (k1_off116 t 4#32) (k1_off118 t 4#32) (k1_off120 t 4#32) (k1_off122 t 4#32) (k1_off115 t 4#32) (k1_off117 t 4#32) (k1_off119 t 4#32) (k1_off121 t 4#32)
    (k1_off116_eq t 4) (k1_off118_eq t 4) (k1_off120_eq t 4) (k1_off122_eq t 4) (k1_off115_eq t 4) (k1_off117_eq t 4) (k1_off119_eq t 4) (k1_off121_eq t 4)
    (k1_off116_inb t 4) (k1_off118_inb t 4) (k1_off120_inb t 4) (k1_off122_inb t 4) (k1_off115_inb t 4) (k1_off117_inb t 4) (k1_off119_inb t 4) (k1_off121_inb t 4) h4
  have h6 := row_step_cons d L sR2 sC0 g f _ (8 * t.val + 5) (k1_off116 t 5#32) (k1_off118 t 5#32) (k1_off120 t 5#32) (k1_off122 t 5#32) (k1_off115 t 5#32) (k1_off117 t 5#32) (k1_off119 t 5#32) (k1_off121 t 5#32)
    (k1_off116_eq t 5) (k1_off118_eq t 5) (k1_off120_eq t 5) (k1_off122_eq t 5) (k1_off115_eq t 5) (k1_off117_eq t 5) (k1_off119_eq t 5) (k1_off121_eq t 5)
    (k1_off116_inb t 5) (k1_off118_inb t 5) (k1_off120_inb t 5) (k1_off122_inb t 5) (k1_off115_inb t 5) (k1_off117_inb t 5) (k1_off119_inb t 5) (k1_off121_inb t 5) h5
  have h7 := row_step_cons d L sR2 sC0 g f _ (8 * t.val + 6) (k1_off116 t 6#32) (k1_off118 t 6#32) (k1_off120 t 6#32) (k1_off122 t 6#32) (k1_off115 t 6#32) (k1_off117 t 6#32) (k1_off119 t 6#32) (k1_off121 t 6#32)
    (k1_off116_eq t 6) (k1_off118_eq t 6) (k1_off120_eq t 6) (k1_off122_eq t 6) (k1_off115_eq t 6) (k1_off117_eq t 6) (k1_off119_eq t 6) (k1_off121_eq t 6)
    (k1_off116_inb t 6) (k1_off118_inb t 6) (k1_off120_inb t 6) (k1_off122_inb t 6) (k1_off115_inb t 6) (k1_off117_inb t 6) (k1_off119_inb t 6) (k1_off121_inb t 6) h6
  have h8 := row_step_cons d L sR2 sC0 g f _ (8 * t.val + 7) (k1_off116 t 7#32) (k1_off118 t 7#32) (k1_off120 t 7#32) (k1_off122 t 7#32) (k1_off115 t 7#32) (k1_off117 t 7#32) (k1_off119 t 7#32) (k1_off121 t 7#32)
    (k1_off116_eq t 7) (k1_off118_eq t 7) (k1_off120_eq t 7) (k1_off122_eq t 7) (k1_off115_eq t 7) (k1_off117_eq t 7) (k1_off119_eq t 7) (k1_off121_eq t 7)
    (k1_off116_inb t 7) (k1_off118_inb t 7) (k1_off120_inb t 7) (k1_off122_inb t 7) (k1_off115_inb t 7) (k1_off117_inb t 7) (k1_off119_inb t 7) (k1_off121_inb t 7) h7
  intro r c hr
  exact h8 r c (by omega)

/-- The compaction step of loop 16 of 40: trip t copies rows [8 t, 8 t + 8) of the landing buffer's first 64 columns. -/
theorem compact_step_t17 (t : Fin k1_t17_loop.trips) (g : Buf (Elt F) (sR0.view.loc (thr d L))) (f : Buf (Elt F) (sC1.view.loc (thr d L)))
    (hC : Compacted (sR0.view.read (Elt F) g) (sC1.view.read (Elt F) f) t.val) :
    Compacted (sR0.view.read (Elt F) g) (sC1.view.read (Elt F) (sC1.view.writes (Elt F) f
      [cpiece d L sR0 g (k1_off130 t 7#32) (k1_off129 t 7#32) (k1_off130_inb t 7) (k1_off129_inb t 7),
       cpiece d L sR0 g (k1_off128 t 7#32) (k1_off127 t 7#32) (k1_off128_inb t 7) (k1_off127_inb t 7),
       cpiece d L sR0 g (k1_off126 t 7#32) (k1_off125 t 7#32) (k1_off126_inb t 7) (k1_off125_inb t 7),
       cpiece d L sR0 g (k1_off124 t 7#32) (k1_off123 t 7#32) (k1_off124_inb t 7) (k1_off123_inb t 7),
       cpiece d L sR0 g (k1_off130 t 6#32) (k1_off129 t 6#32) (k1_off130_inb t 6) (k1_off129_inb t 6),
       cpiece d L sR0 g (k1_off128 t 6#32) (k1_off127 t 6#32) (k1_off128_inb t 6) (k1_off127_inb t 6),
       cpiece d L sR0 g (k1_off126 t 6#32) (k1_off125 t 6#32) (k1_off126_inb t 6) (k1_off125_inb t 6),
       cpiece d L sR0 g (k1_off124 t 6#32) (k1_off123 t 6#32) (k1_off124_inb t 6) (k1_off123_inb t 6),
       cpiece d L sR0 g (k1_off130 t 5#32) (k1_off129 t 5#32) (k1_off130_inb t 5) (k1_off129_inb t 5),
       cpiece d L sR0 g (k1_off128 t 5#32) (k1_off127 t 5#32) (k1_off128_inb t 5) (k1_off127_inb t 5),
       cpiece d L sR0 g (k1_off126 t 5#32) (k1_off125 t 5#32) (k1_off126_inb t 5) (k1_off125_inb t 5),
       cpiece d L sR0 g (k1_off124 t 5#32) (k1_off123 t 5#32) (k1_off124_inb t 5) (k1_off123_inb t 5),
       cpiece d L sR0 g (k1_off130 t 4#32) (k1_off129 t 4#32) (k1_off130_inb t 4) (k1_off129_inb t 4),
       cpiece d L sR0 g (k1_off128 t 4#32) (k1_off127 t 4#32) (k1_off128_inb t 4) (k1_off127_inb t 4),
       cpiece d L sR0 g (k1_off126 t 4#32) (k1_off125 t 4#32) (k1_off126_inb t 4) (k1_off125_inb t 4),
       cpiece d L sR0 g (k1_off124 t 4#32) (k1_off123 t 4#32) (k1_off124_inb t 4) (k1_off123_inb t 4),
       cpiece d L sR0 g (k1_off130 t 3#32) (k1_off129 t 3#32) (k1_off130_inb t 3) (k1_off129_inb t 3),
       cpiece d L sR0 g (k1_off128 t 3#32) (k1_off127 t 3#32) (k1_off128_inb t 3) (k1_off127_inb t 3),
       cpiece d L sR0 g (k1_off126 t 3#32) (k1_off125 t 3#32) (k1_off126_inb t 3) (k1_off125_inb t 3),
       cpiece d L sR0 g (k1_off124 t 3#32) (k1_off123 t 3#32) (k1_off124_inb t 3) (k1_off123_inb t 3),
       cpiece d L sR0 g (k1_off130 t 2#32) (k1_off129 t 2#32) (k1_off130_inb t 2) (k1_off129_inb t 2),
       cpiece d L sR0 g (k1_off128 t 2#32) (k1_off127 t 2#32) (k1_off128_inb t 2) (k1_off127_inb t 2),
       cpiece d L sR0 g (k1_off126 t 2#32) (k1_off125 t 2#32) (k1_off126_inb t 2) (k1_off125_inb t 2),
       cpiece d L sR0 g (k1_off124 t 2#32) (k1_off123 t 2#32) (k1_off124_inb t 2) (k1_off123_inb t 2),
       cpiece d L sR0 g (k1_off130 t 1#32) (k1_off129 t 1#32) (k1_off130_inb t 1) (k1_off129_inb t 1),
       cpiece d L sR0 g (k1_off128 t 1#32) (k1_off127 t 1#32) (k1_off128_inb t 1) (k1_off127_inb t 1),
       cpiece d L sR0 g (k1_off126 t 1#32) (k1_off125 t 1#32) (k1_off126_inb t 1) (k1_off125_inb t 1),
       cpiece d L sR0 g (k1_off124 t 1#32) (k1_off123 t 1#32) (k1_off124_inb t 1) (k1_off123_inb t 1),
       cpiece d L sR0 g (k1_off130 t 0#32) (k1_off129 t 0#32) (k1_off130_inb t 0) (k1_off129_inb t 0),
       cpiece d L sR0 g (k1_off128 t 0#32) (k1_off127 t 0#32) (k1_off128_inb t 0) (k1_off127_inb t 0),
       cpiece d L sR0 g (k1_off126 t 0#32) (k1_off125 t 0#32) (k1_off126_inb t 0) (k1_off125_inb t 0),
       cpiece d L sR0 g (k1_off124 t 0#32) (k1_off123 t 0#32) (k1_off124_inb t 0) (k1_off123_inb t 0)])) (t.val + 1) := by
  have h1 := row_step_cons d L sR0 sC1 g f [] (8 * t.val + 0) (k1_off124 t 0#32) (k1_off126 t 0#32) (k1_off128 t 0#32) (k1_off130 t 0#32) (k1_off123 t 0#32) (k1_off125 t 0#32) (k1_off127 t 0#32) (k1_off129 t 0#32)
    (k1_off124_eq t 0) (k1_off126_eq t 0) (k1_off128_eq t 0) (k1_off130_eq t 0) (k1_off123_eq t 0) (k1_off125_eq t 0) (k1_off127_eq t 0) (k1_off129_eq t 0)
    (k1_off124_inb t 0) (k1_off126_inb t 0) (k1_off128_inb t 0) (k1_off130_inb t 0) (k1_off123_inb t 0) (k1_off125_inb t 0) (k1_off127_inb t 0) (k1_off129_inb t 0) ((compacted_iff_rows _ _ _).1 hC)
  have h2 := row_step_cons d L sR0 sC1 g f _ (8 * t.val + 1) (k1_off124 t 1#32) (k1_off126 t 1#32) (k1_off128 t 1#32) (k1_off130 t 1#32) (k1_off123 t 1#32) (k1_off125 t 1#32) (k1_off127 t 1#32) (k1_off129 t 1#32)
    (k1_off124_eq t 1) (k1_off126_eq t 1) (k1_off128_eq t 1) (k1_off130_eq t 1) (k1_off123_eq t 1) (k1_off125_eq t 1) (k1_off127_eq t 1) (k1_off129_eq t 1)
    (k1_off124_inb t 1) (k1_off126_inb t 1) (k1_off128_inb t 1) (k1_off130_inb t 1) (k1_off123_inb t 1) (k1_off125_inb t 1) (k1_off127_inb t 1) (k1_off129_inb t 1) h1
  have h3 := row_step_cons d L sR0 sC1 g f _ (8 * t.val + 2) (k1_off124 t 2#32) (k1_off126 t 2#32) (k1_off128 t 2#32) (k1_off130 t 2#32) (k1_off123 t 2#32) (k1_off125 t 2#32) (k1_off127 t 2#32) (k1_off129 t 2#32)
    (k1_off124_eq t 2) (k1_off126_eq t 2) (k1_off128_eq t 2) (k1_off130_eq t 2) (k1_off123_eq t 2) (k1_off125_eq t 2) (k1_off127_eq t 2) (k1_off129_eq t 2)
    (k1_off124_inb t 2) (k1_off126_inb t 2) (k1_off128_inb t 2) (k1_off130_inb t 2) (k1_off123_inb t 2) (k1_off125_inb t 2) (k1_off127_inb t 2) (k1_off129_inb t 2) h2
  have h4 := row_step_cons d L sR0 sC1 g f _ (8 * t.val + 3) (k1_off124 t 3#32) (k1_off126 t 3#32) (k1_off128 t 3#32) (k1_off130 t 3#32) (k1_off123 t 3#32) (k1_off125 t 3#32) (k1_off127 t 3#32) (k1_off129 t 3#32)
    (k1_off124_eq t 3) (k1_off126_eq t 3) (k1_off128_eq t 3) (k1_off130_eq t 3) (k1_off123_eq t 3) (k1_off125_eq t 3) (k1_off127_eq t 3) (k1_off129_eq t 3)
    (k1_off124_inb t 3) (k1_off126_inb t 3) (k1_off128_inb t 3) (k1_off130_inb t 3) (k1_off123_inb t 3) (k1_off125_inb t 3) (k1_off127_inb t 3) (k1_off129_inb t 3) h3
  have h5 := row_step_cons d L sR0 sC1 g f _ (8 * t.val + 4) (k1_off124 t 4#32) (k1_off126 t 4#32) (k1_off128 t 4#32) (k1_off130 t 4#32) (k1_off123 t 4#32) (k1_off125 t 4#32) (k1_off127 t 4#32) (k1_off129 t 4#32)
    (k1_off124_eq t 4) (k1_off126_eq t 4) (k1_off128_eq t 4) (k1_off130_eq t 4) (k1_off123_eq t 4) (k1_off125_eq t 4) (k1_off127_eq t 4) (k1_off129_eq t 4)
    (k1_off124_inb t 4) (k1_off126_inb t 4) (k1_off128_inb t 4) (k1_off130_inb t 4) (k1_off123_inb t 4) (k1_off125_inb t 4) (k1_off127_inb t 4) (k1_off129_inb t 4) h4
  have h6 := row_step_cons d L sR0 sC1 g f _ (8 * t.val + 5) (k1_off124 t 5#32) (k1_off126 t 5#32) (k1_off128 t 5#32) (k1_off130 t 5#32) (k1_off123 t 5#32) (k1_off125 t 5#32) (k1_off127 t 5#32) (k1_off129 t 5#32)
    (k1_off124_eq t 5) (k1_off126_eq t 5) (k1_off128_eq t 5) (k1_off130_eq t 5) (k1_off123_eq t 5) (k1_off125_eq t 5) (k1_off127_eq t 5) (k1_off129_eq t 5)
    (k1_off124_inb t 5) (k1_off126_inb t 5) (k1_off128_inb t 5) (k1_off130_inb t 5) (k1_off123_inb t 5) (k1_off125_inb t 5) (k1_off127_inb t 5) (k1_off129_inb t 5) h5
  have h7 := row_step_cons d L sR0 sC1 g f _ (8 * t.val + 6) (k1_off124 t 6#32) (k1_off126 t 6#32) (k1_off128 t 6#32) (k1_off130 t 6#32) (k1_off123 t 6#32) (k1_off125 t 6#32) (k1_off127 t 6#32) (k1_off129 t 6#32)
    (k1_off124_eq t 6) (k1_off126_eq t 6) (k1_off128_eq t 6) (k1_off130_eq t 6) (k1_off123_eq t 6) (k1_off125_eq t 6) (k1_off127_eq t 6) (k1_off129_eq t 6)
    (k1_off124_inb t 6) (k1_off126_inb t 6) (k1_off128_inb t 6) (k1_off130_inb t 6) (k1_off123_inb t 6) (k1_off125_inb t 6) (k1_off127_inb t 6) (k1_off129_inb t 6) h6
  have h8 := row_step_cons d L sR0 sC1 g f _ (8 * t.val + 7) (k1_off124 t 7#32) (k1_off126 t 7#32) (k1_off128 t 7#32) (k1_off130 t 7#32) (k1_off123 t 7#32) (k1_off125 t 7#32) (k1_off127 t 7#32) (k1_off129 t 7#32)
    (k1_off124_eq t 7) (k1_off126_eq t 7) (k1_off128_eq t 7) (k1_off130_eq t 7) (k1_off123_eq t 7) (k1_off125_eq t 7) (k1_off127_eq t 7) (k1_off129_eq t 7)
    (k1_off124_inb t 7) (k1_off126_inb t 7) (k1_off128_inb t 7) (k1_off130_inb t 7) (k1_off123_inb t 7) (k1_off125_inb t 7) (k1_off127_inb t 7) (k1_off129_inb t 7) h7
  intro r c hr
  exact h8 r c (by omega)

/-- The compaction step of loop 17 of 40: trip t copies rows [8 t, 8 t + 8) of the landing buffer's first 64 columns. -/
theorem compact_step_t18 (t : Fin k1_t18_loop.trips) (g : Buf (Elt F) (sR1.view.loc (thr d L))) (f : Buf (Elt F) (sC0.view.loc (thr d L)))
    (hC : Compacted (sR1.view.read (Elt F) g) (sC0.view.read (Elt F) f) t.val) :
    Compacted (sR1.view.read (Elt F) g) (sC0.view.read (Elt F) (sC0.view.writes (Elt F) f
      [cpiece d L sR1 g (k1_off138 t 7#32) (k1_off137 t 7#32) (k1_off138_inb t 7) (k1_off137_inb t 7),
       cpiece d L sR1 g (k1_off136 t 7#32) (k1_off135 t 7#32) (k1_off136_inb t 7) (k1_off135_inb t 7),
       cpiece d L sR1 g (k1_off134 t 7#32) (k1_off133 t 7#32) (k1_off134_inb t 7) (k1_off133_inb t 7),
       cpiece d L sR1 g (k1_off132 t 7#32) (k1_off131 t 7#32) (k1_off132_inb t 7) (k1_off131_inb t 7),
       cpiece d L sR1 g (k1_off138 t 6#32) (k1_off137 t 6#32) (k1_off138_inb t 6) (k1_off137_inb t 6),
       cpiece d L sR1 g (k1_off136 t 6#32) (k1_off135 t 6#32) (k1_off136_inb t 6) (k1_off135_inb t 6),
       cpiece d L sR1 g (k1_off134 t 6#32) (k1_off133 t 6#32) (k1_off134_inb t 6) (k1_off133_inb t 6),
       cpiece d L sR1 g (k1_off132 t 6#32) (k1_off131 t 6#32) (k1_off132_inb t 6) (k1_off131_inb t 6),
       cpiece d L sR1 g (k1_off138 t 5#32) (k1_off137 t 5#32) (k1_off138_inb t 5) (k1_off137_inb t 5),
       cpiece d L sR1 g (k1_off136 t 5#32) (k1_off135 t 5#32) (k1_off136_inb t 5) (k1_off135_inb t 5),
       cpiece d L sR1 g (k1_off134 t 5#32) (k1_off133 t 5#32) (k1_off134_inb t 5) (k1_off133_inb t 5),
       cpiece d L sR1 g (k1_off132 t 5#32) (k1_off131 t 5#32) (k1_off132_inb t 5) (k1_off131_inb t 5),
       cpiece d L sR1 g (k1_off138 t 4#32) (k1_off137 t 4#32) (k1_off138_inb t 4) (k1_off137_inb t 4),
       cpiece d L sR1 g (k1_off136 t 4#32) (k1_off135 t 4#32) (k1_off136_inb t 4) (k1_off135_inb t 4),
       cpiece d L sR1 g (k1_off134 t 4#32) (k1_off133 t 4#32) (k1_off134_inb t 4) (k1_off133_inb t 4),
       cpiece d L sR1 g (k1_off132 t 4#32) (k1_off131 t 4#32) (k1_off132_inb t 4) (k1_off131_inb t 4),
       cpiece d L sR1 g (k1_off138 t 3#32) (k1_off137 t 3#32) (k1_off138_inb t 3) (k1_off137_inb t 3),
       cpiece d L sR1 g (k1_off136 t 3#32) (k1_off135 t 3#32) (k1_off136_inb t 3) (k1_off135_inb t 3),
       cpiece d L sR1 g (k1_off134 t 3#32) (k1_off133 t 3#32) (k1_off134_inb t 3) (k1_off133_inb t 3),
       cpiece d L sR1 g (k1_off132 t 3#32) (k1_off131 t 3#32) (k1_off132_inb t 3) (k1_off131_inb t 3),
       cpiece d L sR1 g (k1_off138 t 2#32) (k1_off137 t 2#32) (k1_off138_inb t 2) (k1_off137_inb t 2),
       cpiece d L sR1 g (k1_off136 t 2#32) (k1_off135 t 2#32) (k1_off136_inb t 2) (k1_off135_inb t 2),
       cpiece d L sR1 g (k1_off134 t 2#32) (k1_off133 t 2#32) (k1_off134_inb t 2) (k1_off133_inb t 2),
       cpiece d L sR1 g (k1_off132 t 2#32) (k1_off131 t 2#32) (k1_off132_inb t 2) (k1_off131_inb t 2),
       cpiece d L sR1 g (k1_off138 t 1#32) (k1_off137 t 1#32) (k1_off138_inb t 1) (k1_off137_inb t 1),
       cpiece d L sR1 g (k1_off136 t 1#32) (k1_off135 t 1#32) (k1_off136_inb t 1) (k1_off135_inb t 1),
       cpiece d L sR1 g (k1_off134 t 1#32) (k1_off133 t 1#32) (k1_off134_inb t 1) (k1_off133_inb t 1),
       cpiece d L sR1 g (k1_off132 t 1#32) (k1_off131 t 1#32) (k1_off132_inb t 1) (k1_off131_inb t 1),
       cpiece d L sR1 g (k1_off138 t 0#32) (k1_off137 t 0#32) (k1_off138_inb t 0) (k1_off137_inb t 0),
       cpiece d L sR1 g (k1_off136 t 0#32) (k1_off135 t 0#32) (k1_off136_inb t 0) (k1_off135_inb t 0),
       cpiece d L sR1 g (k1_off134 t 0#32) (k1_off133 t 0#32) (k1_off134_inb t 0) (k1_off133_inb t 0),
       cpiece d L sR1 g (k1_off132 t 0#32) (k1_off131 t 0#32) (k1_off132_inb t 0) (k1_off131_inb t 0)])) (t.val + 1) := by
  have h1 := row_step_cons d L sR1 sC0 g f [] (8 * t.val + 0) (k1_off132 t 0#32) (k1_off134 t 0#32) (k1_off136 t 0#32) (k1_off138 t 0#32) (k1_off131 t 0#32) (k1_off133 t 0#32) (k1_off135 t 0#32) (k1_off137 t 0#32)
    (k1_off132_eq t 0) (k1_off134_eq t 0) (k1_off136_eq t 0) (k1_off138_eq t 0) (k1_off131_eq t 0) (k1_off133_eq t 0) (k1_off135_eq t 0) (k1_off137_eq t 0)
    (k1_off132_inb t 0) (k1_off134_inb t 0) (k1_off136_inb t 0) (k1_off138_inb t 0) (k1_off131_inb t 0) (k1_off133_inb t 0) (k1_off135_inb t 0) (k1_off137_inb t 0) ((compacted_iff_rows _ _ _).1 hC)
  have h2 := row_step_cons d L sR1 sC0 g f _ (8 * t.val + 1) (k1_off132 t 1#32) (k1_off134 t 1#32) (k1_off136 t 1#32) (k1_off138 t 1#32) (k1_off131 t 1#32) (k1_off133 t 1#32) (k1_off135 t 1#32) (k1_off137 t 1#32)
    (k1_off132_eq t 1) (k1_off134_eq t 1) (k1_off136_eq t 1) (k1_off138_eq t 1) (k1_off131_eq t 1) (k1_off133_eq t 1) (k1_off135_eq t 1) (k1_off137_eq t 1)
    (k1_off132_inb t 1) (k1_off134_inb t 1) (k1_off136_inb t 1) (k1_off138_inb t 1) (k1_off131_inb t 1) (k1_off133_inb t 1) (k1_off135_inb t 1) (k1_off137_inb t 1) h1
  have h3 := row_step_cons d L sR1 sC0 g f _ (8 * t.val + 2) (k1_off132 t 2#32) (k1_off134 t 2#32) (k1_off136 t 2#32) (k1_off138 t 2#32) (k1_off131 t 2#32) (k1_off133 t 2#32) (k1_off135 t 2#32) (k1_off137 t 2#32)
    (k1_off132_eq t 2) (k1_off134_eq t 2) (k1_off136_eq t 2) (k1_off138_eq t 2) (k1_off131_eq t 2) (k1_off133_eq t 2) (k1_off135_eq t 2) (k1_off137_eq t 2)
    (k1_off132_inb t 2) (k1_off134_inb t 2) (k1_off136_inb t 2) (k1_off138_inb t 2) (k1_off131_inb t 2) (k1_off133_inb t 2) (k1_off135_inb t 2) (k1_off137_inb t 2) h2
  have h4 := row_step_cons d L sR1 sC0 g f _ (8 * t.val + 3) (k1_off132 t 3#32) (k1_off134 t 3#32) (k1_off136 t 3#32) (k1_off138 t 3#32) (k1_off131 t 3#32) (k1_off133 t 3#32) (k1_off135 t 3#32) (k1_off137 t 3#32)
    (k1_off132_eq t 3) (k1_off134_eq t 3) (k1_off136_eq t 3) (k1_off138_eq t 3) (k1_off131_eq t 3) (k1_off133_eq t 3) (k1_off135_eq t 3) (k1_off137_eq t 3)
    (k1_off132_inb t 3) (k1_off134_inb t 3) (k1_off136_inb t 3) (k1_off138_inb t 3) (k1_off131_inb t 3) (k1_off133_inb t 3) (k1_off135_inb t 3) (k1_off137_inb t 3) h3
  have h5 := row_step_cons d L sR1 sC0 g f _ (8 * t.val + 4) (k1_off132 t 4#32) (k1_off134 t 4#32) (k1_off136 t 4#32) (k1_off138 t 4#32) (k1_off131 t 4#32) (k1_off133 t 4#32) (k1_off135 t 4#32) (k1_off137 t 4#32)
    (k1_off132_eq t 4) (k1_off134_eq t 4) (k1_off136_eq t 4) (k1_off138_eq t 4) (k1_off131_eq t 4) (k1_off133_eq t 4) (k1_off135_eq t 4) (k1_off137_eq t 4)
    (k1_off132_inb t 4) (k1_off134_inb t 4) (k1_off136_inb t 4) (k1_off138_inb t 4) (k1_off131_inb t 4) (k1_off133_inb t 4) (k1_off135_inb t 4) (k1_off137_inb t 4) h4
  have h6 := row_step_cons d L sR1 sC0 g f _ (8 * t.val + 5) (k1_off132 t 5#32) (k1_off134 t 5#32) (k1_off136 t 5#32) (k1_off138 t 5#32) (k1_off131 t 5#32) (k1_off133 t 5#32) (k1_off135 t 5#32) (k1_off137 t 5#32)
    (k1_off132_eq t 5) (k1_off134_eq t 5) (k1_off136_eq t 5) (k1_off138_eq t 5) (k1_off131_eq t 5) (k1_off133_eq t 5) (k1_off135_eq t 5) (k1_off137_eq t 5)
    (k1_off132_inb t 5) (k1_off134_inb t 5) (k1_off136_inb t 5) (k1_off138_inb t 5) (k1_off131_inb t 5) (k1_off133_inb t 5) (k1_off135_inb t 5) (k1_off137_inb t 5) h5
  have h7 := row_step_cons d L sR1 sC0 g f _ (8 * t.val + 6) (k1_off132 t 6#32) (k1_off134 t 6#32) (k1_off136 t 6#32) (k1_off138 t 6#32) (k1_off131 t 6#32) (k1_off133 t 6#32) (k1_off135 t 6#32) (k1_off137 t 6#32)
    (k1_off132_eq t 6) (k1_off134_eq t 6) (k1_off136_eq t 6) (k1_off138_eq t 6) (k1_off131_eq t 6) (k1_off133_eq t 6) (k1_off135_eq t 6) (k1_off137_eq t 6)
    (k1_off132_inb t 6) (k1_off134_inb t 6) (k1_off136_inb t 6) (k1_off138_inb t 6) (k1_off131_inb t 6) (k1_off133_inb t 6) (k1_off135_inb t 6) (k1_off137_inb t 6) h6
  have h8 := row_step_cons d L sR1 sC0 g f _ (8 * t.val + 7) (k1_off132 t 7#32) (k1_off134 t 7#32) (k1_off136 t 7#32) (k1_off138 t 7#32) (k1_off131 t 7#32) (k1_off133 t 7#32) (k1_off135 t 7#32) (k1_off137 t 7#32)
    (k1_off132_eq t 7) (k1_off134_eq t 7) (k1_off136_eq t 7) (k1_off138_eq t 7) (k1_off131_eq t 7) (k1_off133_eq t 7) (k1_off135_eq t 7) (k1_off137_eq t 7)
    (k1_off132_inb t 7) (k1_off134_inb t 7) (k1_off136_inb t 7) (k1_off138_inb t 7) (k1_off131_inb t 7) (k1_off133_inb t 7) (k1_off135_inb t 7) (k1_off137_inb t 7) h7
  intro r c hr
  exact h8 r c (by omega)

/-- The compaction step of loop 18 of 40: trip t copies rows [8 t, 8 t + 8) of the landing buffer's first 64 columns. -/
theorem compact_step_t19 (t : Fin k1_t19_loop.trips) (g : Buf (Elt F) (sR2.view.loc (thr d L))) (f : Buf (Elt F) (sC1.view.loc (thr d L)))
    (hC : Compacted (sR2.view.read (Elt F) g) (sC1.view.read (Elt F) f) t.val) :
    Compacted (sR2.view.read (Elt F) g) (sC1.view.read (Elt F) (sC1.view.writes (Elt F) f
      [cpiece d L sR2 g (k1_off146 t 7#32) (k1_off145 t 7#32) (k1_off146_inb t 7) (k1_off145_inb t 7),
       cpiece d L sR2 g (k1_off144 t 7#32) (k1_off143 t 7#32) (k1_off144_inb t 7) (k1_off143_inb t 7),
       cpiece d L sR2 g (k1_off142 t 7#32) (k1_off141 t 7#32) (k1_off142_inb t 7) (k1_off141_inb t 7),
       cpiece d L sR2 g (k1_off140 t 7#32) (k1_off139 t 7#32) (k1_off140_inb t 7) (k1_off139_inb t 7),
       cpiece d L sR2 g (k1_off146 t 6#32) (k1_off145 t 6#32) (k1_off146_inb t 6) (k1_off145_inb t 6),
       cpiece d L sR2 g (k1_off144 t 6#32) (k1_off143 t 6#32) (k1_off144_inb t 6) (k1_off143_inb t 6),
       cpiece d L sR2 g (k1_off142 t 6#32) (k1_off141 t 6#32) (k1_off142_inb t 6) (k1_off141_inb t 6),
       cpiece d L sR2 g (k1_off140 t 6#32) (k1_off139 t 6#32) (k1_off140_inb t 6) (k1_off139_inb t 6),
       cpiece d L sR2 g (k1_off146 t 5#32) (k1_off145 t 5#32) (k1_off146_inb t 5) (k1_off145_inb t 5),
       cpiece d L sR2 g (k1_off144 t 5#32) (k1_off143 t 5#32) (k1_off144_inb t 5) (k1_off143_inb t 5),
       cpiece d L sR2 g (k1_off142 t 5#32) (k1_off141 t 5#32) (k1_off142_inb t 5) (k1_off141_inb t 5),
       cpiece d L sR2 g (k1_off140 t 5#32) (k1_off139 t 5#32) (k1_off140_inb t 5) (k1_off139_inb t 5),
       cpiece d L sR2 g (k1_off146 t 4#32) (k1_off145 t 4#32) (k1_off146_inb t 4) (k1_off145_inb t 4),
       cpiece d L sR2 g (k1_off144 t 4#32) (k1_off143 t 4#32) (k1_off144_inb t 4) (k1_off143_inb t 4),
       cpiece d L sR2 g (k1_off142 t 4#32) (k1_off141 t 4#32) (k1_off142_inb t 4) (k1_off141_inb t 4),
       cpiece d L sR2 g (k1_off140 t 4#32) (k1_off139 t 4#32) (k1_off140_inb t 4) (k1_off139_inb t 4),
       cpiece d L sR2 g (k1_off146 t 3#32) (k1_off145 t 3#32) (k1_off146_inb t 3) (k1_off145_inb t 3),
       cpiece d L sR2 g (k1_off144 t 3#32) (k1_off143 t 3#32) (k1_off144_inb t 3) (k1_off143_inb t 3),
       cpiece d L sR2 g (k1_off142 t 3#32) (k1_off141 t 3#32) (k1_off142_inb t 3) (k1_off141_inb t 3),
       cpiece d L sR2 g (k1_off140 t 3#32) (k1_off139 t 3#32) (k1_off140_inb t 3) (k1_off139_inb t 3),
       cpiece d L sR2 g (k1_off146 t 2#32) (k1_off145 t 2#32) (k1_off146_inb t 2) (k1_off145_inb t 2),
       cpiece d L sR2 g (k1_off144 t 2#32) (k1_off143 t 2#32) (k1_off144_inb t 2) (k1_off143_inb t 2),
       cpiece d L sR2 g (k1_off142 t 2#32) (k1_off141 t 2#32) (k1_off142_inb t 2) (k1_off141_inb t 2),
       cpiece d L sR2 g (k1_off140 t 2#32) (k1_off139 t 2#32) (k1_off140_inb t 2) (k1_off139_inb t 2),
       cpiece d L sR2 g (k1_off146 t 1#32) (k1_off145 t 1#32) (k1_off146_inb t 1) (k1_off145_inb t 1),
       cpiece d L sR2 g (k1_off144 t 1#32) (k1_off143 t 1#32) (k1_off144_inb t 1) (k1_off143_inb t 1),
       cpiece d L sR2 g (k1_off142 t 1#32) (k1_off141 t 1#32) (k1_off142_inb t 1) (k1_off141_inb t 1),
       cpiece d L sR2 g (k1_off140 t 1#32) (k1_off139 t 1#32) (k1_off140_inb t 1) (k1_off139_inb t 1),
       cpiece d L sR2 g (k1_off146 t 0#32) (k1_off145 t 0#32) (k1_off146_inb t 0) (k1_off145_inb t 0),
       cpiece d L sR2 g (k1_off144 t 0#32) (k1_off143 t 0#32) (k1_off144_inb t 0) (k1_off143_inb t 0),
       cpiece d L sR2 g (k1_off142 t 0#32) (k1_off141 t 0#32) (k1_off142_inb t 0) (k1_off141_inb t 0),
       cpiece d L sR2 g (k1_off140 t 0#32) (k1_off139 t 0#32) (k1_off140_inb t 0) (k1_off139_inb t 0)])) (t.val + 1) := by
  have h1 := row_step_cons d L sR2 sC1 g f [] (8 * t.val + 0) (k1_off140 t 0#32) (k1_off142 t 0#32) (k1_off144 t 0#32) (k1_off146 t 0#32) (k1_off139 t 0#32) (k1_off141 t 0#32) (k1_off143 t 0#32) (k1_off145 t 0#32)
    (k1_off140_eq t 0) (k1_off142_eq t 0) (k1_off144_eq t 0) (k1_off146_eq t 0) (k1_off139_eq t 0) (k1_off141_eq t 0) (k1_off143_eq t 0) (k1_off145_eq t 0)
    (k1_off140_inb t 0) (k1_off142_inb t 0) (k1_off144_inb t 0) (k1_off146_inb t 0) (k1_off139_inb t 0) (k1_off141_inb t 0) (k1_off143_inb t 0) (k1_off145_inb t 0) ((compacted_iff_rows _ _ _).1 hC)
  have h2 := row_step_cons d L sR2 sC1 g f _ (8 * t.val + 1) (k1_off140 t 1#32) (k1_off142 t 1#32) (k1_off144 t 1#32) (k1_off146 t 1#32) (k1_off139 t 1#32) (k1_off141 t 1#32) (k1_off143 t 1#32) (k1_off145 t 1#32)
    (k1_off140_eq t 1) (k1_off142_eq t 1) (k1_off144_eq t 1) (k1_off146_eq t 1) (k1_off139_eq t 1) (k1_off141_eq t 1) (k1_off143_eq t 1) (k1_off145_eq t 1)
    (k1_off140_inb t 1) (k1_off142_inb t 1) (k1_off144_inb t 1) (k1_off146_inb t 1) (k1_off139_inb t 1) (k1_off141_inb t 1) (k1_off143_inb t 1) (k1_off145_inb t 1) h1
  have h3 := row_step_cons d L sR2 sC1 g f _ (8 * t.val + 2) (k1_off140 t 2#32) (k1_off142 t 2#32) (k1_off144 t 2#32) (k1_off146 t 2#32) (k1_off139 t 2#32) (k1_off141 t 2#32) (k1_off143 t 2#32) (k1_off145 t 2#32)
    (k1_off140_eq t 2) (k1_off142_eq t 2) (k1_off144_eq t 2) (k1_off146_eq t 2) (k1_off139_eq t 2) (k1_off141_eq t 2) (k1_off143_eq t 2) (k1_off145_eq t 2)
    (k1_off140_inb t 2) (k1_off142_inb t 2) (k1_off144_inb t 2) (k1_off146_inb t 2) (k1_off139_inb t 2) (k1_off141_inb t 2) (k1_off143_inb t 2) (k1_off145_inb t 2) h2
  have h4 := row_step_cons d L sR2 sC1 g f _ (8 * t.val + 3) (k1_off140 t 3#32) (k1_off142 t 3#32) (k1_off144 t 3#32) (k1_off146 t 3#32) (k1_off139 t 3#32) (k1_off141 t 3#32) (k1_off143 t 3#32) (k1_off145 t 3#32)
    (k1_off140_eq t 3) (k1_off142_eq t 3) (k1_off144_eq t 3) (k1_off146_eq t 3) (k1_off139_eq t 3) (k1_off141_eq t 3) (k1_off143_eq t 3) (k1_off145_eq t 3)
    (k1_off140_inb t 3) (k1_off142_inb t 3) (k1_off144_inb t 3) (k1_off146_inb t 3) (k1_off139_inb t 3) (k1_off141_inb t 3) (k1_off143_inb t 3) (k1_off145_inb t 3) h3
  have h5 := row_step_cons d L sR2 sC1 g f _ (8 * t.val + 4) (k1_off140 t 4#32) (k1_off142 t 4#32) (k1_off144 t 4#32) (k1_off146 t 4#32) (k1_off139 t 4#32) (k1_off141 t 4#32) (k1_off143 t 4#32) (k1_off145 t 4#32)
    (k1_off140_eq t 4) (k1_off142_eq t 4) (k1_off144_eq t 4) (k1_off146_eq t 4) (k1_off139_eq t 4) (k1_off141_eq t 4) (k1_off143_eq t 4) (k1_off145_eq t 4)
    (k1_off140_inb t 4) (k1_off142_inb t 4) (k1_off144_inb t 4) (k1_off146_inb t 4) (k1_off139_inb t 4) (k1_off141_inb t 4) (k1_off143_inb t 4) (k1_off145_inb t 4) h4
  have h6 := row_step_cons d L sR2 sC1 g f _ (8 * t.val + 5) (k1_off140 t 5#32) (k1_off142 t 5#32) (k1_off144 t 5#32) (k1_off146 t 5#32) (k1_off139 t 5#32) (k1_off141 t 5#32) (k1_off143 t 5#32) (k1_off145 t 5#32)
    (k1_off140_eq t 5) (k1_off142_eq t 5) (k1_off144_eq t 5) (k1_off146_eq t 5) (k1_off139_eq t 5) (k1_off141_eq t 5) (k1_off143_eq t 5) (k1_off145_eq t 5)
    (k1_off140_inb t 5) (k1_off142_inb t 5) (k1_off144_inb t 5) (k1_off146_inb t 5) (k1_off139_inb t 5) (k1_off141_inb t 5) (k1_off143_inb t 5) (k1_off145_inb t 5) h5
  have h7 := row_step_cons d L sR2 sC1 g f _ (8 * t.val + 6) (k1_off140 t 6#32) (k1_off142 t 6#32) (k1_off144 t 6#32) (k1_off146 t 6#32) (k1_off139 t 6#32) (k1_off141 t 6#32) (k1_off143 t 6#32) (k1_off145 t 6#32)
    (k1_off140_eq t 6) (k1_off142_eq t 6) (k1_off144_eq t 6) (k1_off146_eq t 6) (k1_off139_eq t 6) (k1_off141_eq t 6) (k1_off143_eq t 6) (k1_off145_eq t 6)
    (k1_off140_inb t 6) (k1_off142_inb t 6) (k1_off144_inb t 6) (k1_off146_inb t 6) (k1_off139_inb t 6) (k1_off141_inb t 6) (k1_off143_inb t 6) (k1_off145_inb t 6) h6
  have h8 := row_step_cons d L sR2 sC1 g f _ (8 * t.val + 7) (k1_off140 t 7#32) (k1_off142 t 7#32) (k1_off144 t 7#32) (k1_off146 t 7#32) (k1_off139 t 7#32) (k1_off141 t 7#32) (k1_off143 t 7#32) (k1_off145 t 7#32)
    (k1_off140_eq t 7) (k1_off142_eq t 7) (k1_off144_eq t 7) (k1_off146_eq t 7) (k1_off139_eq t 7) (k1_off141_eq t 7) (k1_off143_eq t 7) (k1_off145_eq t 7)
    (k1_off140_inb t 7) (k1_off142_inb t 7) (k1_off144_inb t 7) (k1_off146_inb t 7) (k1_off139_inb t 7) (k1_off141_inb t 7) (k1_off143_inb t 7) (k1_off145_inb t 7) h7
  intro r c hr
  exact h8 r c (by omega)

/-- The compaction step of loop 19 of 40: trip t copies rows [8 t, 8 t + 8) of the landing buffer's first 64 columns. -/
theorem compact_step_t20 (t : Fin k1_t20_loop.trips) (g : Buf (Elt F) (sR0.view.loc (thr d L))) (f : Buf (Elt F) (sC0.view.loc (thr d L)))
    (hC : Compacted (sR0.view.read (Elt F) g) (sC0.view.read (Elt F) f) t.val) :
    Compacted (sR0.view.read (Elt F) g) (sC0.view.read (Elt F) (sC0.view.writes (Elt F) f
      [cpiece d L sR0 g (k1_off154 t 7#32) (k1_off153 t 7#32) (k1_off154_inb t 7) (k1_off153_inb t 7),
       cpiece d L sR0 g (k1_off152 t 7#32) (k1_off151 t 7#32) (k1_off152_inb t 7) (k1_off151_inb t 7),
       cpiece d L sR0 g (k1_off150 t 7#32) (k1_off149 t 7#32) (k1_off150_inb t 7) (k1_off149_inb t 7),
       cpiece d L sR0 g (k1_off148 t 7#32) (k1_off147 t 7#32) (k1_off148_inb t 7) (k1_off147_inb t 7),
       cpiece d L sR0 g (k1_off154 t 6#32) (k1_off153 t 6#32) (k1_off154_inb t 6) (k1_off153_inb t 6),
       cpiece d L sR0 g (k1_off152 t 6#32) (k1_off151 t 6#32) (k1_off152_inb t 6) (k1_off151_inb t 6),
       cpiece d L sR0 g (k1_off150 t 6#32) (k1_off149 t 6#32) (k1_off150_inb t 6) (k1_off149_inb t 6),
       cpiece d L sR0 g (k1_off148 t 6#32) (k1_off147 t 6#32) (k1_off148_inb t 6) (k1_off147_inb t 6),
       cpiece d L sR0 g (k1_off154 t 5#32) (k1_off153 t 5#32) (k1_off154_inb t 5) (k1_off153_inb t 5),
       cpiece d L sR0 g (k1_off152 t 5#32) (k1_off151 t 5#32) (k1_off152_inb t 5) (k1_off151_inb t 5),
       cpiece d L sR0 g (k1_off150 t 5#32) (k1_off149 t 5#32) (k1_off150_inb t 5) (k1_off149_inb t 5),
       cpiece d L sR0 g (k1_off148 t 5#32) (k1_off147 t 5#32) (k1_off148_inb t 5) (k1_off147_inb t 5),
       cpiece d L sR0 g (k1_off154 t 4#32) (k1_off153 t 4#32) (k1_off154_inb t 4) (k1_off153_inb t 4),
       cpiece d L sR0 g (k1_off152 t 4#32) (k1_off151 t 4#32) (k1_off152_inb t 4) (k1_off151_inb t 4),
       cpiece d L sR0 g (k1_off150 t 4#32) (k1_off149 t 4#32) (k1_off150_inb t 4) (k1_off149_inb t 4),
       cpiece d L sR0 g (k1_off148 t 4#32) (k1_off147 t 4#32) (k1_off148_inb t 4) (k1_off147_inb t 4),
       cpiece d L sR0 g (k1_off154 t 3#32) (k1_off153 t 3#32) (k1_off154_inb t 3) (k1_off153_inb t 3),
       cpiece d L sR0 g (k1_off152 t 3#32) (k1_off151 t 3#32) (k1_off152_inb t 3) (k1_off151_inb t 3),
       cpiece d L sR0 g (k1_off150 t 3#32) (k1_off149 t 3#32) (k1_off150_inb t 3) (k1_off149_inb t 3),
       cpiece d L sR0 g (k1_off148 t 3#32) (k1_off147 t 3#32) (k1_off148_inb t 3) (k1_off147_inb t 3),
       cpiece d L sR0 g (k1_off154 t 2#32) (k1_off153 t 2#32) (k1_off154_inb t 2) (k1_off153_inb t 2),
       cpiece d L sR0 g (k1_off152 t 2#32) (k1_off151 t 2#32) (k1_off152_inb t 2) (k1_off151_inb t 2),
       cpiece d L sR0 g (k1_off150 t 2#32) (k1_off149 t 2#32) (k1_off150_inb t 2) (k1_off149_inb t 2),
       cpiece d L sR0 g (k1_off148 t 2#32) (k1_off147 t 2#32) (k1_off148_inb t 2) (k1_off147_inb t 2),
       cpiece d L sR0 g (k1_off154 t 1#32) (k1_off153 t 1#32) (k1_off154_inb t 1) (k1_off153_inb t 1),
       cpiece d L sR0 g (k1_off152 t 1#32) (k1_off151 t 1#32) (k1_off152_inb t 1) (k1_off151_inb t 1),
       cpiece d L sR0 g (k1_off150 t 1#32) (k1_off149 t 1#32) (k1_off150_inb t 1) (k1_off149_inb t 1),
       cpiece d L sR0 g (k1_off148 t 1#32) (k1_off147 t 1#32) (k1_off148_inb t 1) (k1_off147_inb t 1),
       cpiece d L sR0 g (k1_off154 t 0#32) (k1_off153 t 0#32) (k1_off154_inb t 0) (k1_off153_inb t 0),
       cpiece d L sR0 g (k1_off152 t 0#32) (k1_off151 t 0#32) (k1_off152_inb t 0) (k1_off151_inb t 0),
       cpiece d L sR0 g (k1_off150 t 0#32) (k1_off149 t 0#32) (k1_off150_inb t 0) (k1_off149_inb t 0),
       cpiece d L sR0 g (k1_off148 t 0#32) (k1_off147 t 0#32) (k1_off148_inb t 0) (k1_off147_inb t 0)])) (t.val + 1) := by
  have h1 := row_step_cons d L sR0 sC0 g f [] (8 * t.val + 0) (k1_off148 t 0#32) (k1_off150 t 0#32) (k1_off152 t 0#32) (k1_off154 t 0#32) (k1_off147 t 0#32) (k1_off149 t 0#32) (k1_off151 t 0#32) (k1_off153 t 0#32)
    (k1_off148_eq t 0) (k1_off150_eq t 0) (k1_off152_eq t 0) (k1_off154_eq t 0) (k1_off147_eq t 0) (k1_off149_eq t 0) (k1_off151_eq t 0) (k1_off153_eq t 0)
    (k1_off148_inb t 0) (k1_off150_inb t 0) (k1_off152_inb t 0) (k1_off154_inb t 0) (k1_off147_inb t 0) (k1_off149_inb t 0) (k1_off151_inb t 0) (k1_off153_inb t 0) ((compacted_iff_rows _ _ _).1 hC)
  have h2 := row_step_cons d L sR0 sC0 g f _ (8 * t.val + 1) (k1_off148 t 1#32) (k1_off150 t 1#32) (k1_off152 t 1#32) (k1_off154 t 1#32) (k1_off147 t 1#32) (k1_off149 t 1#32) (k1_off151 t 1#32) (k1_off153 t 1#32)
    (k1_off148_eq t 1) (k1_off150_eq t 1) (k1_off152_eq t 1) (k1_off154_eq t 1) (k1_off147_eq t 1) (k1_off149_eq t 1) (k1_off151_eq t 1) (k1_off153_eq t 1)
    (k1_off148_inb t 1) (k1_off150_inb t 1) (k1_off152_inb t 1) (k1_off154_inb t 1) (k1_off147_inb t 1) (k1_off149_inb t 1) (k1_off151_inb t 1) (k1_off153_inb t 1) h1
  have h3 := row_step_cons d L sR0 sC0 g f _ (8 * t.val + 2) (k1_off148 t 2#32) (k1_off150 t 2#32) (k1_off152 t 2#32) (k1_off154 t 2#32) (k1_off147 t 2#32) (k1_off149 t 2#32) (k1_off151 t 2#32) (k1_off153 t 2#32)
    (k1_off148_eq t 2) (k1_off150_eq t 2) (k1_off152_eq t 2) (k1_off154_eq t 2) (k1_off147_eq t 2) (k1_off149_eq t 2) (k1_off151_eq t 2) (k1_off153_eq t 2)
    (k1_off148_inb t 2) (k1_off150_inb t 2) (k1_off152_inb t 2) (k1_off154_inb t 2) (k1_off147_inb t 2) (k1_off149_inb t 2) (k1_off151_inb t 2) (k1_off153_inb t 2) h2
  have h4 := row_step_cons d L sR0 sC0 g f _ (8 * t.val + 3) (k1_off148 t 3#32) (k1_off150 t 3#32) (k1_off152 t 3#32) (k1_off154 t 3#32) (k1_off147 t 3#32) (k1_off149 t 3#32) (k1_off151 t 3#32) (k1_off153 t 3#32)
    (k1_off148_eq t 3) (k1_off150_eq t 3) (k1_off152_eq t 3) (k1_off154_eq t 3) (k1_off147_eq t 3) (k1_off149_eq t 3) (k1_off151_eq t 3) (k1_off153_eq t 3)
    (k1_off148_inb t 3) (k1_off150_inb t 3) (k1_off152_inb t 3) (k1_off154_inb t 3) (k1_off147_inb t 3) (k1_off149_inb t 3) (k1_off151_inb t 3) (k1_off153_inb t 3) h3
  have h5 := row_step_cons d L sR0 sC0 g f _ (8 * t.val + 4) (k1_off148 t 4#32) (k1_off150 t 4#32) (k1_off152 t 4#32) (k1_off154 t 4#32) (k1_off147 t 4#32) (k1_off149 t 4#32) (k1_off151 t 4#32) (k1_off153 t 4#32)
    (k1_off148_eq t 4) (k1_off150_eq t 4) (k1_off152_eq t 4) (k1_off154_eq t 4) (k1_off147_eq t 4) (k1_off149_eq t 4) (k1_off151_eq t 4) (k1_off153_eq t 4)
    (k1_off148_inb t 4) (k1_off150_inb t 4) (k1_off152_inb t 4) (k1_off154_inb t 4) (k1_off147_inb t 4) (k1_off149_inb t 4) (k1_off151_inb t 4) (k1_off153_inb t 4) h4
  have h6 := row_step_cons d L sR0 sC0 g f _ (8 * t.val + 5) (k1_off148 t 5#32) (k1_off150 t 5#32) (k1_off152 t 5#32) (k1_off154 t 5#32) (k1_off147 t 5#32) (k1_off149 t 5#32) (k1_off151 t 5#32) (k1_off153 t 5#32)
    (k1_off148_eq t 5) (k1_off150_eq t 5) (k1_off152_eq t 5) (k1_off154_eq t 5) (k1_off147_eq t 5) (k1_off149_eq t 5) (k1_off151_eq t 5) (k1_off153_eq t 5)
    (k1_off148_inb t 5) (k1_off150_inb t 5) (k1_off152_inb t 5) (k1_off154_inb t 5) (k1_off147_inb t 5) (k1_off149_inb t 5) (k1_off151_inb t 5) (k1_off153_inb t 5) h5
  have h7 := row_step_cons d L sR0 sC0 g f _ (8 * t.val + 6) (k1_off148 t 6#32) (k1_off150 t 6#32) (k1_off152 t 6#32) (k1_off154 t 6#32) (k1_off147 t 6#32) (k1_off149 t 6#32) (k1_off151 t 6#32) (k1_off153 t 6#32)
    (k1_off148_eq t 6) (k1_off150_eq t 6) (k1_off152_eq t 6) (k1_off154_eq t 6) (k1_off147_eq t 6) (k1_off149_eq t 6) (k1_off151_eq t 6) (k1_off153_eq t 6)
    (k1_off148_inb t 6) (k1_off150_inb t 6) (k1_off152_inb t 6) (k1_off154_inb t 6) (k1_off147_inb t 6) (k1_off149_inb t 6) (k1_off151_inb t 6) (k1_off153_inb t 6) h6
  have h8 := row_step_cons d L sR0 sC0 g f _ (8 * t.val + 7) (k1_off148 t 7#32) (k1_off150 t 7#32) (k1_off152 t 7#32) (k1_off154 t 7#32) (k1_off147 t 7#32) (k1_off149 t 7#32) (k1_off151 t 7#32) (k1_off153 t 7#32)
    (k1_off148_eq t 7) (k1_off150_eq t 7) (k1_off152_eq t 7) (k1_off154_eq t 7) (k1_off147_eq t 7) (k1_off149_eq t 7) (k1_off151_eq t 7) (k1_off153_eq t 7)
    (k1_off148_inb t 7) (k1_off150_inb t 7) (k1_off152_inb t 7) (k1_off154_inb t 7) (k1_off147_inb t 7) (k1_off149_inb t 7) (k1_off151_inb t 7) (k1_off153_inb t 7) h7
  intro r c hr
  exact h8 r c (by omega)

/-- The compaction step of loop 20 of 40: trip t copies rows [8 t, 8 t + 8) of the landing buffer's first 64 columns. -/
theorem compact_step_t21 (t : Fin k1_t21_loop.trips) (g : Buf (Elt F) (sR1.view.loc (thr d L))) (f : Buf (Elt F) (sC1.view.loc (thr d L)))
    (hC : Compacted (sR1.view.read (Elt F) g) (sC1.view.read (Elt F) f) t.val) :
    Compacted (sR1.view.read (Elt F) g) (sC1.view.read (Elt F) (sC1.view.writes (Elt F) f
      [cpiece d L sR1 g (k1_off162 t 7#32) (k1_off161 t 7#32) (k1_off162_inb t 7) (k1_off161_inb t 7),
       cpiece d L sR1 g (k1_off160 t 7#32) (k1_off159 t 7#32) (k1_off160_inb t 7) (k1_off159_inb t 7),
       cpiece d L sR1 g (k1_off158 t 7#32) (k1_off157 t 7#32) (k1_off158_inb t 7) (k1_off157_inb t 7),
       cpiece d L sR1 g (k1_off156 t 7#32) (k1_off155 t 7#32) (k1_off156_inb t 7) (k1_off155_inb t 7),
       cpiece d L sR1 g (k1_off162 t 6#32) (k1_off161 t 6#32) (k1_off162_inb t 6) (k1_off161_inb t 6),
       cpiece d L sR1 g (k1_off160 t 6#32) (k1_off159 t 6#32) (k1_off160_inb t 6) (k1_off159_inb t 6),
       cpiece d L sR1 g (k1_off158 t 6#32) (k1_off157 t 6#32) (k1_off158_inb t 6) (k1_off157_inb t 6),
       cpiece d L sR1 g (k1_off156 t 6#32) (k1_off155 t 6#32) (k1_off156_inb t 6) (k1_off155_inb t 6),
       cpiece d L sR1 g (k1_off162 t 5#32) (k1_off161 t 5#32) (k1_off162_inb t 5) (k1_off161_inb t 5),
       cpiece d L sR1 g (k1_off160 t 5#32) (k1_off159 t 5#32) (k1_off160_inb t 5) (k1_off159_inb t 5),
       cpiece d L sR1 g (k1_off158 t 5#32) (k1_off157 t 5#32) (k1_off158_inb t 5) (k1_off157_inb t 5),
       cpiece d L sR1 g (k1_off156 t 5#32) (k1_off155 t 5#32) (k1_off156_inb t 5) (k1_off155_inb t 5),
       cpiece d L sR1 g (k1_off162 t 4#32) (k1_off161 t 4#32) (k1_off162_inb t 4) (k1_off161_inb t 4),
       cpiece d L sR1 g (k1_off160 t 4#32) (k1_off159 t 4#32) (k1_off160_inb t 4) (k1_off159_inb t 4),
       cpiece d L sR1 g (k1_off158 t 4#32) (k1_off157 t 4#32) (k1_off158_inb t 4) (k1_off157_inb t 4),
       cpiece d L sR1 g (k1_off156 t 4#32) (k1_off155 t 4#32) (k1_off156_inb t 4) (k1_off155_inb t 4),
       cpiece d L sR1 g (k1_off162 t 3#32) (k1_off161 t 3#32) (k1_off162_inb t 3) (k1_off161_inb t 3),
       cpiece d L sR1 g (k1_off160 t 3#32) (k1_off159 t 3#32) (k1_off160_inb t 3) (k1_off159_inb t 3),
       cpiece d L sR1 g (k1_off158 t 3#32) (k1_off157 t 3#32) (k1_off158_inb t 3) (k1_off157_inb t 3),
       cpiece d L sR1 g (k1_off156 t 3#32) (k1_off155 t 3#32) (k1_off156_inb t 3) (k1_off155_inb t 3),
       cpiece d L sR1 g (k1_off162 t 2#32) (k1_off161 t 2#32) (k1_off162_inb t 2) (k1_off161_inb t 2),
       cpiece d L sR1 g (k1_off160 t 2#32) (k1_off159 t 2#32) (k1_off160_inb t 2) (k1_off159_inb t 2),
       cpiece d L sR1 g (k1_off158 t 2#32) (k1_off157 t 2#32) (k1_off158_inb t 2) (k1_off157_inb t 2),
       cpiece d L sR1 g (k1_off156 t 2#32) (k1_off155 t 2#32) (k1_off156_inb t 2) (k1_off155_inb t 2),
       cpiece d L sR1 g (k1_off162 t 1#32) (k1_off161 t 1#32) (k1_off162_inb t 1) (k1_off161_inb t 1),
       cpiece d L sR1 g (k1_off160 t 1#32) (k1_off159 t 1#32) (k1_off160_inb t 1) (k1_off159_inb t 1),
       cpiece d L sR1 g (k1_off158 t 1#32) (k1_off157 t 1#32) (k1_off158_inb t 1) (k1_off157_inb t 1),
       cpiece d L sR1 g (k1_off156 t 1#32) (k1_off155 t 1#32) (k1_off156_inb t 1) (k1_off155_inb t 1),
       cpiece d L sR1 g (k1_off162 t 0#32) (k1_off161 t 0#32) (k1_off162_inb t 0) (k1_off161_inb t 0),
       cpiece d L sR1 g (k1_off160 t 0#32) (k1_off159 t 0#32) (k1_off160_inb t 0) (k1_off159_inb t 0),
       cpiece d L sR1 g (k1_off158 t 0#32) (k1_off157 t 0#32) (k1_off158_inb t 0) (k1_off157_inb t 0),
       cpiece d L sR1 g (k1_off156 t 0#32) (k1_off155 t 0#32) (k1_off156_inb t 0) (k1_off155_inb t 0)])) (t.val + 1) := by
  have h1 := row_step_cons d L sR1 sC1 g f [] (8 * t.val + 0) (k1_off156 t 0#32) (k1_off158 t 0#32) (k1_off160 t 0#32) (k1_off162 t 0#32) (k1_off155 t 0#32) (k1_off157 t 0#32) (k1_off159 t 0#32) (k1_off161 t 0#32)
    (k1_off156_eq t 0) (k1_off158_eq t 0) (k1_off160_eq t 0) (k1_off162_eq t 0) (k1_off155_eq t 0) (k1_off157_eq t 0) (k1_off159_eq t 0) (k1_off161_eq t 0)
    (k1_off156_inb t 0) (k1_off158_inb t 0) (k1_off160_inb t 0) (k1_off162_inb t 0) (k1_off155_inb t 0) (k1_off157_inb t 0) (k1_off159_inb t 0) (k1_off161_inb t 0) ((compacted_iff_rows _ _ _).1 hC)
  have h2 := row_step_cons d L sR1 sC1 g f _ (8 * t.val + 1) (k1_off156 t 1#32) (k1_off158 t 1#32) (k1_off160 t 1#32) (k1_off162 t 1#32) (k1_off155 t 1#32) (k1_off157 t 1#32) (k1_off159 t 1#32) (k1_off161 t 1#32)
    (k1_off156_eq t 1) (k1_off158_eq t 1) (k1_off160_eq t 1) (k1_off162_eq t 1) (k1_off155_eq t 1) (k1_off157_eq t 1) (k1_off159_eq t 1) (k1_off161_eq t 1)
    (k1_off156_inb t 1) (k1_off158_inb t 1) (k1_off160_inb t 1) (k1_off162_inb t 1) (k1_off155_inb t 1) (k1_off157_inb t 1) (k1_off159_inb t 1) (k1_off161_inb t 1) h1
  have h3 := row_step_cons d L sR1 sC1 g f _ (8 * t.val + 2) (k1_off156 t 2#32) (k1_off158 t 2#32) (k1_off160 t 2#32) (k1_off162 t 2#32) (k1_off155 t 2#32) (k1_off157 t 2#32) (k1_off159 t 2#32) (k1_off161 t 2#32)
    (k1_off156_eq t 2) (k1_off158_eq t 2) (k1_off160_eq t 2) (k1_off162_eq t 2) (k1_off155_eq t 2) (k1_off157_eq t 2) (k1_off159_eq t 2) (k1_off161_eq t 2)
    (k1_off156_inb t 2) (k1_off158_inb t 2) (k1_off160_inb t 2) (k1_off162_inb t 2) (k1_off155_inb t 2) (k1_off157_inb t 2) (k1_off159_inb t 2) (k1_off161_inb t 2) h2
  have h4 := row_step_cons d L sR1 sC1 g f _ (8 * t.val + 3) (k1_off156 t 3#32) (k1_off158 t 3#32) (k1_off160 t 3#32) (k1_off162 t 3#32) (k1_off155 t 3#32) (k1_off157 t 3#32) (k1_off159 t 3#32) (k1_off161 t 3#32)
    (k1_off156_eq t 3) (k1_off158_eq t 3) (k1_off160_eq t 3) (k1_off162_eq t 3) (k1_off155_eq t 3) (k1_off157_eq t 3) (k1_off159_eq t 3) (k1_off161_eq t 3)
    (k1_off156_inb t 3) (k1_off158_inb t 3) (k1_off160_inb t 3) (k1_off162_inb t 3) (k1_off155_inb t 3) (k1_off157_inb t 3) (k1_off159_inb t 3) (k1_off161_inb t 3) h3
  have h5 := row_step_cons d L sR1 sC1 g f _ (8 * t.val + 4) (k1_off156 t 4#32) (k1_off158 t 4#32) (k1_off160 t 4#32) (k1_off162 t 4#32) (k1_off155 t 4#32) (k1_off157 t 4#32) (k1_off159 t 4#32) (k1_off161 t 4#32)
    (k1_off156_eq t 4) (k1_off158_eq t 4) (k1_off160_eq t 4) (k1_off162_eq t 4) (k1_off155_eq t 4) (k1_off157_eq t 4) (k1_off159_eq t 4) (k1_off161_eq t 4)
    (k1_off156_inb t 4) (k1_off158_inb t 4) (k1_off160_inb t 4) (k1_off162_inb t 4) (k1_off155_inb t 4) (k1_off157_inb t 4) (k1_off159_inb t 4) (k1_off161_inb t 4) h4
  have h6 := row_step_cons d L sR1 sC1 g f _ (8 * t.val + 5) (k1_off156 t 5#32) (k1_off158 t 5#32) (k1_off160 t 5#32) (k1_off162 t 5#32) (k1_off155 t 5#32) (k1_off157 t 5#32) (k1_off159 t 5#32) (k1_off161 t 5#32)
    (k1_off156_eq t 5) (k1_off158_eq t 5) (k1_off160_eq t 5) (k1_off162_eq t 5) (k1_off155_eq t 5) (k1_off157_eq t 5) (k1_off159_eq t 5) (k1_off161_eq t 5)
    (k1_off156_inb t 5) (k1_off158_inb t 5) (k1_off160_inb t 5) (k1_off162_inb t 5) (k1_off155_inb t 5) (k1_off157_inb t 5) (k1_off159_inb t 5) (k1_off161_inb t 5) h5
  have h7 := row_step_cons d L sR1 sC1 g f _ (8 * t.val + 6) (k1_off156 t 6#32) (k1_off158 t 6#32) (k1_off160 t 6#32) (k1_off162 t 6#32) (k1_off155 t 6#32) (k1_off157 t 6#32) (k1_off159 t 6#32) (k1_off161 t 6#32)
    (k1_off156_eq t 6) (k1_off158_eq t 6) (k1_off160_eq t 6) (k1_off162_eq t 6) (k1_off155_eq t 6) (k1_off157_eq t 6) (k1_off159_eq t 6) (k1_off161_eq t 6)
    (k1_off156_inb t 6) (k1_off158_inb t 6) (k1_off160_inb t 6) (k1_off162_inb t 6) (k1_off155_inb t 6) (k1_off157_inb t 6) (k1_off159_inb t 6) (k1_off161_inb t 6) h6
  have h8 := row_step_cons d L sR1 sC1 g f _ (8 * t.val + 7) (k1_off156 t 7#32) (k1_off158 t 7#32) (k1_off160 t 7#32) (k1_off162 t 7#32) (k1_off155 t 7#32) (k1_off157 t 7#32) (k1_off159 t 7#32) (k1_off161 t 7#32)
    (k1_off156_eq t 7) (k1_off158_eq t 7) (k1_off160_eq t 7) (k1_off162_eq t 7) (k1_off155_eq t 7) (k1_off157_eq t 7) (k1_off159_eq t 7) (k1_off161_eq t 7)
    (k1_off156_inb t 7) (k1_off158_inb t 7) (k1_off160_inb t 7) (k1_off162_inb t 7) (k1_off155_inb t 7) (k1_off157_inb t 7) (k1_off159_inb t 7) (k1_off161_inb t 7) h7
  intro r c hr
  exact h8 r c (by omega)

end Cert.Proof.KB

end
-- ==== Proof.KB.TileVal2c.lean ====
/-
  The compaction steps of loops 21 to 30 of the 40, one statement each: trip t of a chunk's compaction loop copies eight more
  rows' first 64 columns from its landing buffer into its compacted buffer. Each is eight applications of the one-row
  step at the loop's own offset functions, whose closed forms are row 8 t + j, columns 0, 16, 32, 48.
-/
import proofs.«217222_g83150566851320_cont_9to1_m_45_25_alg».proof.Proof.KB.TileVal

noncomputable section

namespace Cert.Proof.KB

open Cert.Kernel Cert.Kernel.Gen

open Idealize.ShloMosaic
open Idealize.ShloMosaic.SparseCore (S V T)
open Idealize.ShloMosaic.ValueIdx (ix2 ix3)

variable {F : FTy → Type} [FloatOps F]

variable (d : Dev nD) (L : grid1.Coords)

/-- The compaction step of loop 21 of 40: trip t copies rows [8 t, 8 t + 8) of the landing buffer's first 64 columns. -/
theorem compact_step_t22 (t : Fin k1_t22_loop.trips) (g : Buf (Elt F) (sR2.view.loc (thr d L))) (f : Buf (Elt F) (sC0.view.loc (thr d L)))
    (hC : Compacted (sR2.view.read (Elt F) g) (sC0.view.read (Elt F) f) t.val) :
    Compacted (sR2.view.read (Elt F) g) (sC0.view.read (Elt F) (sC0.view.writes (Elt F) f
      [cpiece d L sR2 g (k1_off170 t 7#32) (k1_off169 t 7#32) (k1_off170_inb t 7) (k1_off169_inb t 7),
       cpiece d L sR2 g (k1_off168 t 7#32) (k1_off167 t 7#32) (k1_off168_inb t 7) (k1_off167_inb t 7),
       cpiece d L sR2 g (k1_off166 t 7#32) (k1_off165 t 7#32) (k1_off166_inb t 7) (k1_off165_inb t 7),
       cpiece d L sR2 g (k1_off164 t 7#32) (k1_off163 t 7#32) (k1_off164_inb t 7) (k1_off163_inb t 7),
       cpiece d L sR2 g (k1_off170 t 6#32) (k1_off169 t 6#32) (k1_off170_inb t 6) (k1_off169_inb t 6),
       cpiece d L sR2 g (k1_off168 t 6#32) (k1_off167 t 6#32) (k1_off168_inb t 6) (k1_off167_inb t 6),
       cpiece d L sR2 g (k1_off166 t 6#32) (k1_off165 t 6#32) (k1_off166_inb t 6) (k1_off165_inb t 6),
       cpiece d L sR2 g (k1_off164 t 6#32) (k1_off163 t 6#32) (k1_off164_inb t 6) (k1_off163_inb t 6),
       cpiece d L sR2 g (k1_off170 t 5#32) (k1_off169 t 5#32) (k1_off170_inb t 5) (k1_off169_inb t 5),
       cpiece d L sR2 g (k1_off168 t 5#32) (k1_off167 t 5#32) (k1_off168_inb t 5) (k1_off167_inb t 5),
       cpiece d L sR2 g (k1_off166 t 5#32) (k1_off165 t 5#32) (k1_off166_inb t 5) (k1_off165_inb t 5),
       cpiece d L sR2 g (k1_off164 t 5#32) (k1_off163 t 5#32) (k1_off164_inb t 5) (k1_off163_inb t 5),
       cpiece d L sR2 g (k1_off170 t 4#32) (k1_off169 t 4#32) (k1_off170_inb t 4) (k1_off169_inb t 4),
       cpiece d L sR2 g (k1_off168 t 4#32) (k1_off167 t 4#32) (k1_off168_inb t 4) (k1_off167_inb t 4),
       cpiece d L sR2 g (k1_off166 t 4#32) (k1_off165 t 4#32) (k1_off166_inb t 4) (k1_off165_inb t 4),
       cpiece d L sR2 g (k1_off164 t 4#32) (k1_off163 t 4#32) (k1_off164_inb t 4) (k1_off163_inb t 4),
       cpiece d L sR2 g (k1_off170 t 3#32) (k1_off169 t 3#32) (k1_off170_inb t 3) (k1_off169_inb t 3),
       cpiece d L sR2 g (k1_off168 t 3#32) (k1_off167 t 3#32) (k1_off168_inb t 3) (k1_off167_inb t 3),
       cpiece d L sR2 g (k1_off166 t 3#32) (k1_off165 t 3#32) (k1_off166_inb t 3) (k1_off165_inb t 3),
       cpiece d L sR2 g (k1_off164 t 3#32) (k1_off163 t 3#32) (k1_off164_inb t 3) (k1_off163_inb t 3),
       cpiece d L sR2 g (k1_off170 t 2#32) (k1_off169 t 2#32) (k1_off170_inb t 2) (k1_off169_inb t 2),
       cpiece d L sR2 g (k1_off168 t 2#32) (k1_off167 t 2#32) (k1_off168_inb t 2) (k1_off167_inb t 2),
       cpiece d L sR2 g (k1_off166 t 2#32) (k1_off165 t 2#32) (k1_off166_inb t 2) (k1_off165_inb t 2),
       cpiece d L sR2 g (k1_off164 t 2#32) (k1_off163 t 2#32) (k1_off164_inb t 2) (k1_off163_inb t 2),
       cpiece d L sR2 g (k1_off170 t 1#32) (k1_off169 t 1#32) (k1_off170_inb t 1) (k1_off169_inb t 1),
       cpiece d L sR2 g (k1_off168 t 1#32) (k1_off167 t 1#32) (k1_off168_inb t 1) (k1_off167_inb t 1),
       cpiece d L sR2 g (k1_off166 t 1#32) (k1_off165 t 1#32) (k1_off166_inb t 1) (k1_off165_inb t 1),
       cpiece d L sR2 g (k1_off164 t 1#32) (k1_off163 t 1#32) (k1_off164_inb t 1) (k1_off163_inb t 1),
       cpiece d L sR2 g (k1_off170 t 0#32) (k1_off169 t 0#32) (k1_off170_inb t 0) (k1_off169_inb t 0),
       cpiece d L sR2 g (k1_off168 t 0#32) (k1_off167 t 0#32) (k1_off168_inb t 0) (k1_off167_inb t 0),
       cpiece d L sR2 g (k1_off166 t 0#32) (k1_off165 t 0#32) (k1_off166_inb t 0) (k1_off165_inb t 0),
       cpiece d L sR2 g (k1_off164 t 0#32) (k1_off163 t 0#32) (k1_off164_inb t 0) (k1_off163_inb t 0)])) (t.val + 1) := by
  have h1 := row_step_cons d L sR2 sC0 g f [] (8 * t.val + 0) (k1_off164 t 0#32) (k1_off166 t 0#32) (k1_off168 t 0#32) (k1_off170 t 0#32) (k1_off163 t 0#32) (k1_off165 t 0#32) (k1_off167 t 0#32) (k1_off169 t 0#32)
    (k1_off164_eq t 0) (k1_off166_eq t 0) (k1_off168_eq t 0) (k1_off170_eq t 0) (k1_off163_eq t 0) (k1_off165_eq t 0) (k1_off167_eq t 0) (k1_off169_eq t 0)
    (k1_off164_inb t 0) (k1_off166_inb t 0) (k1_off168_inb t 0) (k1_off170_inb t 0) (k1_off163_inb t 0) (k1_off165_inb t 0) (k1_off167_inb t 0) (k1_off169_inb t 0) ((compacted_iff_rows _ _ _).1 hC)
  have h2 := row_step_cons d L sR2 sC0 g f _ (8 * t.val + 1) (k1_off164 t 1#32) (k1_off166 t 1#32) (k1_off168 t 1#32) (k1_off170 t 1#32) (k1_off163 t 1#32) (k1_off165 t 1#32) (k1_off167 t 1#32) (k1_off169 t 1#32)
    (k1_off164_eq t 1) (k1_off166_eq t 1) (k1_off168_eq t 1) (k1_off170_eq t 1) (k1_off163_eq t 1) (k1_off165_eq t 1) (k1_off167_eq t 1) (k1_off169_eq t 1)
    (k1_off164_inb t 1) (k1_off166_inb t 1) (k1_off168_inb t 1) (k1_off170_inb t 1) (k1_off163_inb t 1) (k1_off165_inb t 1) (k1_off167_inb t 1) (k1_off169_inb t 1) h1
  have h3 := row_step_cons d L sR2 sC0 g f _ (8 * t.val + 2) (k1_off164 t 2#32) (k1_off166 t 2#32) (k1_off168 t 2#32) (k1_off170 t 2#32) (k1_off163 t 2#32) (k1_off165 t 2#32) (k1_off167 t 2#32) (k1_off169 t 2#32)
    (k1_off164_eq t 2) (k1_off166_eq t 2) (k1_off168_eq t 2) (k1_off170_eq t 2) (k1_off163_eq t 2) (k1_off165_eq t 2) (k1_off167_eq t 2) (k1_off169_eq t 2)
    (k1_off164_inb t 2) (k1_off166_inb t 2) (k1_off168_inb t 2) (k1_off170_inb t 2) (k1_off163_inb t 2) (k1_off165_inb t 2) (k1_off167_inb t 2) (k1_off169_inb t 2) h2
  have h4 := row_step_cons d L sR2 sC0 g f _ (8 * t.val + 3) (k1_off164 t 3#32) (k1_off166 t 3#32) (k1_off168 t 3#32) (k1_off170 t 3#32) (k1_off163 t 3#32) (k1_off165 t 3#32) (k1_off167 t 3#32) (k1_off169 t 3#32)
    (k1_off164_eq t 3) (k1_off166_eq t 3) (k1_off168_eq t 3) (k1_off170_eq t 3) (k1_off163_eq t 3) (k1_off165_eq t 3) (k1_off167_eq t 3) (k1_off169_eq t 3)
    (k1_off164_inb t 3) (k1_off166_inb t 3) (k1_off168_inb t 3) (k1_off170_inb t 3) (k1_off163_inb t 3) (k1_off165_inb t 3) (k1_off167_inb t 3) (k1_off169_inb t 3) h3
  have h5 := row_step_cons d L sR2 sC0 g f _ (8 * t.val + 4) (k1_off164 t 4#32) (k1_off166 t 4#32) (k1_off168 t 4#32) (k1_off170 t 4#32) (k1_off163 t 4#32) (k1_off165 t 4#32) (k1_off167 t 4#32) (k1_off169 t 4#32)
    (k1_off164_eq t 4) (k1_off166_eq t 4) (k1_off168_eq t 4) (k1_off170_eq t 4) (k1_off163_eq t 4) (k1_off165_eq t 4) (k1_off167_eq t 4) (k1_off169_eq t 4)
    (k1_off164_inb t 4) (k1_off166_inb t 4) (k1_off168_inb t 4) (k1_off170_inb t 4) (k1_off163_inb t 4) (k1_off165_inb t 4) (k1_off167_inb t 4) (k1_off169_inb t 4) h4
  have h6 := row_step_cons d L sR2 sC0 g f _ (8 * t.val + 5) (k1_off164 t 5#32) (k1_off166 t 5#32) (k1_off168 t 5#32) (k1_off170 t 5#32) (k1_off163 t 5#32) (k1_off165 t 5#32) (k1_off167 t 5#32) (k1_off169 t 5#32)
    (k1_off164_eq t 5) (k1_off166_eq t 5) (k1_off168_eq t 5) (k1_off170_eq t 5) (k1_off163_eq t 5) (k1_off165_eq t 5) (k1_off167_eq t 5) (k1_off169_eq t 5)
    (k1_off164_inb t 5) (k1_off166_inb t 5) (k1_off168_inb t 5) (k1_off170_inb t 5) (k1_off163_inb t 5) (k1_off165_inb t 5) (k1_off167_inb t 5) (k1_off169_inb t 5) h5
  have h7 := row_step_cons d L sR2 sC0 g f _ (8 * t.val + 6) (k1_off164 t 6#32) (k1_off166 t 6#32) (k1_off168 t 6#32) (k1_off170 t 6#32) (k1_off163 t 6#32) (k1_off165 t 6#32) (k1_off167 t 6#32) (k1_off169 t 6#32)
    (k1_off164_eq t 6) (k1_off166_eq t 6) (k1_off168_eq t 6) (k1_off170_eq t 6) (k1_off163_eq t 6) (k1_off165_eq t 6) (k1_off167_eq t 6) (k1_off169_eq t 6)
    (k1_off164_inb t 6) (k1_off166_inb t 6) (k1_off168_inb t 6) (k1_off170_inb t 6) (k1_off163_inb t 6) (k1_off165_inb t 6) (k1_off167_inb t 6) (k1_off169_inb t 6) h6
  have h8 := row_step_cons d L sR2 sC0 g f _ (8 * t.val + 7) (k1_off164 t 7#32) (k1_off166 t 7#32) (k1_off168 t 7#32) (k1_off170 t 7#32) (k1_off163 t 7#32) (k1_off165 t 7#32) (k1_off167 t 7#32) (k1_off169 t 7#32)
    (k1_off164_eq t 7) (k1_off166_eq t 7) (k1_off168_eq t 7) (k1_off170_eq t 7) (k1_off163_eq t 7) (k1_off165_eq t 7) (k1_off167_eq t 7) (k1_off169_eq t 7)
    (k1_off164_inb t 7) (k1_off166_inb t 7) (k1_off168_inb t 7) (k1_off170_inb t 7) (k1_off163_inb t 7) (k1_off165_inb t 7) (k1_off167_inb t 7) (k1_off169_inb t 7) h7
  intro r c hr
  exact h8 r c (by omega)

/-- The compaction step of loop 22 of 40: trip t copies rows [8 t, 8 t + 8) of the landing buffer's first 64 columns. -/
theorem compact_step_t23 (t : Fin k1_t23_loop.trips) (g : Buf (Elt F) (sR0.view.loc (thr d L))) (f : Buf (Elt F) (sC1.view.loc (thr d L)))
    (hC : Compacted (sR0.view.read (Elt F) g) (sC1.view.read (Elt F) f) t.val) :
    Compacted (sR0.view.read (Elt F) g) (sC1.view.read (Elt F) (sC1.view.writes (Elt F) f
      [cpiece d L sR0 g (k1_off178 t 7#32) (k1_off177 t 7#32) (k1_off178_inb t 7) (k1_off177_inb t 7),
       cpiece d L sR0 g (k1_off176 t 7#32) (k1_off175 t 7#32) (k1_off176_inb t 7) (k1_off175_inb t 7),
       cpiece d L sR0 g (k1_off174 t 7#32) (k1_off173 t 7#32) (k1_off174_inb t 7) (k1_off173_inb t 7),
       cpiece d L sR0 g (k1_off172 t 7#32) (k1_off171 t 7#32) (k1_off172_inb t 7) (k1_off171_inb t 7),
       cpiece d L sR0 g (k1_off178 t 6#32) (k1_off177 t 6#32) (k1_off178_inb t 6) (k1_off177_inb t 6),
       cpiece d L sR0 g (k1_off176 t 6#32) (k1_off175 t 6#32) (k1_off176_inb t 6) (k1_off175_inb t 6),
       cpiece d L sR0 g (k1_off174 t 6#32) (k1_off173 t 6#32) (k1_off174_inb t 6) (k1_off173_inb t 6),
       cpiece d L sR0 g (k1_off172 t 6#32) (k1_off171 t 6#32) (k1_off172_inb t 6) (k1_off171_inb t 6),
       cpiece d L sR0 g (k1_off178 t 5#32) (k1_off177 t 5#32) (k1_off178_inb t 5) (k1_off177_inb t 5),
       cpiece d L sR0 g (k1_off176 t 5#32) (k1_off175 t 5#32) (k1_off176_inb t 5) (k1_off175_inb t 5),
       cpiece d L sR0 g (k1_off174 t 5#32) (k1_off173 t 5#32) (k1_off174_inb t 5) (k1_off173_inb t 5),
       cpiece d L sR0 g (k1_off172 t 5#32) (k1_off171 t 5#32) (k1_off172_inb t 5) (k1_off171_inb t 5),
       cpiece d L sR0 g (k1_off178 t 4#32) (k1_off177 t 4#32) (k1_off178_inb t 4) (k1_off177_inb t 4),
       cpiece d L sR0 g (k1_off176 t 4#32) (k1_off175 t 4#32) (k1_off176_inb t 4) (k1_off175_inb t 4),
       cpiece d L sR0 g (k1_off174 t 4#32) (k1_off173 t 4#32) (k1_off174_inb t 4) (k1_off173_inb t 4),
       cpiece d L sR0 g (k1_off172 t 4#32) (k1_off171 t 4#32) (k1_off172_inb t 4) (k1_off171_inb t 4),
       cpiece d L sR0 g (k1_off178 t 3#32) (k1_off177 t 3#32) (k1_off178_inb t 3) (k1_off177_inb t 3),
       cpiece d L sR0 g (k1_off176 t 3#32) (k1_off175 t 3#32) (k1_off176_inb t 3) (k1_off175_inb t 3),
       cpiece d L sR0 g (k1_off174 t 3#32) (k1_off173 t 3#32) (k1_off174_inb t 3) (k1_off173_inb t 3),
       cpiece d L sR0 g (k1_off172 t 3#32) (k1_off171 t 3#32) (k1_off172_inb t 3) (k1_off171_inb t 3),
       cpiece d L sR0 g (k1_off178 t 2#32) (k1_off177 t 2#32) (k1_off178_inb t 2) (k1_off177_inb t 2),
       cpiece d L sR0 g (k1_off176 t 2#32) (k1_off175 t 2#32) (k1_off176_inb t 2) (k1_off175_inb t 2),
       cpiece d L sR0 g (k1_off174 t 2#32) (k1_off173 t 2#32) (k1_off174_inb t 2) (k1_off173_inb t 2),
       cpiece d L sR0 g (k1_off172 t 2#32) (k1_off171 t 2#32) (k1_off172_inb t 2) (k1_off171_inb t 2),
       cpiece d L sR0 g (k1_off178 t 1#32) (k1_off177 t 1#32) (k1_off178_inb t 1) (k1_off177_inb t 1),
       cpiece d L sR0 g (k1_off176 t 1#32) (k1_off175 t 1#32) (k1_off176_inb t 1) (k1_off175_inb t 1),
       cpiece d L sR0 g (k1_off174 t 1#32) (k1_off173 t 1#32) (k1_off174_inb t 1) (k1_off173_inb t 1),
       cpiece d L sR0 g (k1_off172 t 1#32) (k1_off171 t 1#32) (k1_off172_inb t 1) (k1_off171_inb t 1),
       cpiece d L sR0 g (k1_off178 t 0#32) (k1_off177 t 0#32) (k1_off178_inb t 0) (k1_off177_inb t 0),
       cpiece d L sR0 g (k1_off176 t 0#32) (k1_off175 t 0#32) (k1_off176_inb t 0) (k1_off175_inb t 0),
       cpiece d L sR0 g (k1_off174 t 0#32) (k1_off173 t 0#32) (k1_off174_inb t 0) (k1_off173_inb t 0),
       cpiece d L sR0 g (k1_off172 t 0#32) (k1_off171 t 0#32) (k1_off172_inb t 0) (k1_off171_inb t 0)])) (t.val + 1) := by
  have h1 := row_step_cons d L sR0 sC1 g f [] (8 * t.val + 0) (k1_off172 t 0#32) (k1_off174 t 0#32) (k1_off176 t 0#32) (k1_off178 t 0#32) (k1_off171 t 0#32) (k1_off173 t 0#32) (k1_off175 t 0#32) (k1_off177 t 0#32)
    (k1_off172_eq t 0) (k1_off174_eq t 0) (k1_off176_eq t 0) (k1_off178_eq t 0) (k1_off171_eq t 0) (k1_off173_eq t 0) (k1_off175_eq t 0) (k1_off177_eq t 0)
    (k1_off172_inb t 0) (k1_off174_inb t 0) (k1_off176_inb t 0) (k1_off178_inb t 0) (k1_off171_inb t 0) (k1_off173_inb t 0) (k1_off175_inb t 0) (k1_off177_inb t 0) ((compacted_iff_rows _ _ _).1 hC)
  have h2 := row_step_cons d L sR0 sC1 g f _ (8 * t.val + 1) (k1_off172 t 1#32) (k1_off174 t 1#32) (k1_off176 t 1#32) (k1_off178 t 1#32) (k1_off171 t 1#32) (k1_off173 t 1#32) (k1_off175 t 1#32) (k1_off177 t 1#32)
    (k1_off172_eq t 1) (k1_off174_eq t 1) (k1_off176_eq t 1) (k1_off178_eq t 1) (k1_off171_eq t 1) (k1_off173_eq t 1) (k1_off175_eq t 1) (k1_off177_eq t 1)
    (k1_off172_inb t 1) (k1_off174_inb t 1) (k1_off176_inb t 1) (k1_off178_inb t 1) (k1_off171_inb t 1) (k1_off173_inb t 1) (k1_off175_inb t 1) (k1_off177_inb t 1) h1
  have h3 := row_step_cons d L sR0 sC1 g f _ (8 * t.val + 2) (k1_off172 t 2#32) (k1_off174 t 2#32) (k1_off176 t 2#32) (k1_off178 t 2#32) (k1_off171 t 2#32) (k1_off173 t 2#32) (k1_off175 t 2#32) (k1_off177 t 2#32)
    (k1_off172_eq t 2) (k1_off174_eq t 2) (k1_off176_eq t 2) (k1_off178_eq t 2) (k1_off171_eq t 2) (k1_off173_eq t 2) (k1_off175_eq t 2) (k1_off177_eq t 2)
    (k1_off172_inb t 2) (k1_off174_inb t 2) (k1_off176_inb t 2) (k1_off178_inb t 2) (k1_off171_inb t 2) (k1_off173_inb t 2) (k1_off175_inb t 2) (k1_off177_inb t 2) h2
  have h4 := row_step_cons d L sR0 sC1 g f _ (8 * t.val + 3) (k1_off172 t 3#32) (k1_off174 t 3#32) (k1_off176 t 3#32) (k1_off178 t 3#32) (k1_off171 t 3#32) (k1_off173 t 3#32) (k1_off175 t 3#32) (k1_off177 t 3#32)
    (k1_off172_eq t 3) (k1_off174_eq t 3) (k1_off176_eq t 3) (k1_off178_eq t 3) (k1_off171_eq t 3) (k1_off173_eq t 3) (k1_off175_eq t 3) (k1_off177_eq t 3)
    (k1_off172_inb t 3) (k1_off174_inb t 3) (k1_off176_inb t 3) (k1_off178_inb t 3) (k1_off171_inb t 3) (k1_off173_inb t 3) (k1_off175_inb t 3) (k1_off177_inb t 3) h3
  have h5 := row_step_cons d L sR0 sC1 g f _ (8 * t.val + 4) (k1_off172 t 4#32) (k1_off174 t 4#32) (k1_off176 t 4#32) (k1_off178 t 4#32) (k1_off171 t 4#32) (k1_off173 t 4#32) (k1_off175 t 4#32) (k1_off177 t 4#32)
    (k1_off172_eq t 4) (k1_off174_eq t 4) (k1_off176_eq t 4) (k1_off178_eq t 4) (k1_off171_eq t 4) (k1_off173_eq t 4) (k1_off175_eq t 4) (k1_off177_eq t 4)
    (k1_off172_inb t 4) (k1_off174_inb t 4) (k1_off176_inb t 4) (k1_off178_inb t 4) (k1_off171_inb t 4) (k1_off173_inb t 4) (k1_off175_inb t 4) (k1_off177_inb t 4) h4
  have h6 := row_step_cons d L sR0 sC1 g f _ (8 * t.val + 5) (k1_off172 t 5#32) (k1_off174 t 5#32) (k1_off176 t 5#32) (k1_off178 t 5#32) (k1_off171 t 5#32) (k1_off173 t 5#32) (k1_off175 t 5#32) (k1_off177 t 5#32)
    (k1_off172_eq t 5) (k1_off174_eq t 5) (k1_off176_eq t 5) (k1_off178_eq t 5) (k1_off171_eq t 5) (k1_off173_eq t 5) (k1_off175_eq t 5) (k1_off177_eq t 5)
    (k1_off172_inb t 5) (k1_off174_inb t 5) (k1_off176_inb t 5) (k1_off178_inb t 5) (k1_off171_inb t 5) (k1_off173_inb t 5) (k1_off175_inb t 5) (k1_off177_inb t 5) h5
  have h7 := row_step_cons d L sR0 sC1 g f _ (8 * t.val + 6) (k1_off172 t 6#32) (k1_off174 t 6#32) (k1_off176 t 6#32) (k1_off178 t 6#32) (k1_off171 t 6#32) (k1_off173 t 6#32) (k1_off175 t 6#32) (k1_off177 t 6#32)
    (k1_off172_eq t 6) (k1_off174_eq t 6) (k1_off176_eq t 6) (k1_off178_eq t 6) (k1_off171_eq t 6) (k1_off173_eq t 6) (k1_off175_eq t 6) (k1_off177_eq t 6)
    (k1_off172_inb t 6) (k1_off174_inb t 6) (k1_off176_inb t 6) (k1_off178_inb t 6) (k1_off171_inb t 6) (k1_off173_inb t 6) (k1_off175_inb t 6) (k1_off177_inb t 6) h6
  have h8 := row_step_cons d L sR0 sC1 g f _ (8 * t.val + 7) (k1_off172 t 7#32) (k1_off174 t 7#32) (k1_off176 t 7#32) (k1_off178 t 7#32) (k1_off171 t 7#32) (k1_off173 t 7#32) (k1_off175 t 7#32) (k1_off177 t 7#32)
    (k1_off172_eq t 7) (k1_off174_eq t 7) (k1_off176_eq t 7) (k1_off178_eq t 7) (k1_off171_eq t 7) (k1_off173_eq t 7) (k1_off175_eq t 7) (k1_off177_eq t 7)
    (k1_off172_inb t 7) (k1_off174_inb t 7) (k1_off176_inb t 7) (k1_off178_inb t 7) (k1_off171_inb t 7) (k1_off173_inb t 7) (k1_off175_inb t 7) (k1_off177_inb t 7) h7
  intro r c hr
  exact h8 r c (by omega)

/-- The compaction step of loop 23 of 40: trip t copies rows [8 t, 8 t + 8) of the landing buffer's first 64 columns. -/
theorem compact_step_t24 (t : Fin k1_t24_loop.trips) (g : Buf (Elt F) (sR1.view.loc (thr d L))) (f : Buf (Elt F) (sC0.view.loc (thr d L)))
    (hC : Compacted (sR1.view.read (Elt F) g) (sC0.view.read (Elt F) f) t.val) :
    Compacted (sR1.view.read (Elt F) g) (sC0.view.read (Elt F) (sC0.view.writes (Elt F) f
      [cpiece d L sR1 g (k1_off186 t 7#32) (k1_off185 t 7#32) (k1_off186_inb t 7) (k1_off185_inb t 7),
       cpiece d L sR1 g (k1_off184 t 7#32) (k1_off183 t 7#32) (k1_off184_inb t 7) (k1_off183_inb t 7),
       cpiece d L sR1 g (k1_off182 t 7#32) (k1_off181 t 7#32) (k1_off182_inb t 7) (k1_off181_inb t 7),
       cpiece d L sR1 g (k1_off180 t 7#32) (k1_off179 t 7#32) (k1_off180_inb t 7) (k1_off179_inb t 7),
       cpiece d L sR1 g (k1_off186 t 6#32) (k1_off185 t 6#32) (k1_off186_inb t 6) (k1_off185_inb t 6),
       cpiece d L sR1 g (k1_off184 t 6#32) (k1_off183 t 6#32) (k1_off184_inb t 6) (k1_off183_inb t 6),
       cpiece d L sR1 g (k1_off182 t 6#32) (k1_off181 t 6#32) (k1_off182_inb t 6) (k1_off181_inb t 6),
       cpiece d L sR1 g (k1_off180 t 6#32) (k1_off179 t 6#32) (k1_off180_inb t 6) (k1_off179_inb t 6),
       cpiece d L sR1 g (k1_off186 t 5#32) (k1_off185 t 5#32) (k1_off186_inb t 5) (k1_off185_inb t 5),
       cpiece d L sR1 g (k1_off184 t 5#32) (k1_off183 t 5#32) (k1_off184_inb t 5) (k1_off183_inb t 5),
       cpiece d L sR1 g (k1_off182 t 5#32) (k1_off181 t 5#32) (k1_off182_inb t 5) (k1_off181_inb t 5),
       cpiece d L sR1 g (k1_off180 t 5#32) (k1_off179 t 5#32) (k1_off180_inb t 5) (k1_off179_inb t 5),
       cpiece d L sR1 g (k1_off186 t 4#32) (k1_off185 t 4#32) (k1_off186_inb t 4) (k1_off185_inb t 4),
       cpiece d L sR1 g (k1_off184 t 4#32) (k1_off183 t 4#32) (k1_off184_inb t 4) (k1_off183_inb t 4),
       cpiece d L sR1 g (k1_off182 t 4#32) (k1_off181 t 4#32) (k1_off182_inb t 4) (k1_off181_inb t 4),
       cpiece d L sR1 g (k1_off180 t 4#32) (k1_off179 t 4#32) (k1_off180_inb t 4) (k1_off179_inb t 4),
       cpiece d L sR1 g (k1_off186 t 3#32) (k1_off185 t 3#32) (k1_off186_inb t 3) (k1_off185_inb t 3),
       cpiece d L sR1 g (k1_off184 t 3#32) (k1_off183 t 3#32) (k1_off184_inb t 3) (k1_off183_inb t 3),
       cpiece d L sR1 g (k1_off182 t 3#32) (k1_off181 t 3#32) (k1_off182_inb t 3) (k1_off181_inb t 3),
       cpiece d L sR1 g (k1_off180 t 3#32) (k1_off179 t 3#32) (k1_off180_inb t 3) (k1_off179_inb t 3),
       cpiece d L sR1 g (k1_off186 t 2#32) (k1_off185 t 2#32) (k1_off186_inb t 2) (k1_off185_inb t 2),
       cpiece d L sR1 g (k1_off184 t 2#32) (k1_off183 t 2#32) (k1_off184_inb t 2) (k1_off183_inb t 2),
       cpiece d L sR1 g (k1_off182 t 2#32) (k1_off181 t 2#32) (k1_off182_inb t 2) (k1_off181_inb t 2),
       cpiece d L sR1 g (k1_off180 t 2#32) (k1_off179 t 2#32) (k1_off180_inb t 2) (k1_off179_inb t 2),
       cpiece d L sR1 g (k1_off186 t 1#32) (k1_off185 t 1#32) (k1_off186_inb t 1) (k1_off185_inb t 1),
       cpiece d L sR1 g (k1_off184 t 1#32) (k1_off183 t 1#32) (k1_off184_inb t 1) (k1_off183_inb t 1),
       cpiece d L sR1 g (k1_off182 t 1#32) (k1_off181 t 1#32) (k1_off182_inb t 1) (k1_off181_inb t 1),
       cpiece d L sR1 g (k1_off180 t 1#32) (k1_off179 t 1#32) (k1_off180_inb t 1) (k1_off179_inb t 1),
       cpiece d L sR1 g (k1_off186 t 0#32) (k1_off185 t 0#32) (k1_off186_inb t 0) (k1_off185_inb t 0),
       cpiece d L sR1 g (k1_off184 t 0#32) (k1_off183 t 0#32) (k1_off184_inb t 0) (k1_off183_inb t 0),
       cpiece d L sR1 g (k1_off182 t 0#32) (k1_off181 t 0#32) (k1_off182_inb t 0) (k1_off181_inb t 0),
       cpiece d L sR1 g (k1_off180 t 0#32) (k1_off179 t 0#32) (k1_off180_inb t 0) (k1_off179_inb t 0)])) (t.val + 1) := by
  have h1 := row_step_cons d L sR1 sC0 g f [] (8 * t.val + 0) (k1_off180 t 0#32) (k1_off182 t 0#32) (k1_off184 t 0#32) (k1_off186 t 0#32) (k1_off179 t 0#32) (k1_off181 t 0#32) (k1_off183 t 0#32) (k1_off185 t 0#32)
    (k1_off180_eq t 0) (k1_off182_eq t 0) (k1_off184_eq t 0) (k1_off186_eq t 0) (k1_off179_eq t 0) (k1_off181_eq t 0) (k1_off183_eq t 0) (k1_off185_eq t 0)
    (k1_off180_inb t 0) (k1_off182_inb t 0) (k1_off184_inb t 0) (k1_off186_inb t 0) (k1_off179_inb t 0) (k1_off181_inb t 0) (k1_off183_inb t 0) (k1_off185_inb t 0) ((compacted_iff_rows _ _ _).1 hC)
  have h2 := row_step_cons d L sR1 sC0 g f _ (8 * t.val + 1) (k1_off180 t 1#32) (k1_off182 t 1#32) (k1_off184 t 1#32) (k1_off186 t 1#32) (k1_off179 t 1#32) (k1_off181 t 1#32) (k1_off183 t 1#32) (k1_off185 t 1#32)
    (k1_off180_eq t 1) (k1_off182_eq t 1) (k1_off184_eq t 1) (k1_off186_eq t 1) (k1_off179_eq t 1) (k1_off181_eq t 1) (k1_off183_eq t 1) (k1_off185_eq t 1)
    (k1_off180_inb t 1) (k1_off182_inb t 1) (k1_off184_inb t 1) (k1_off186_inb t 1) (k1_off179_inb t 1) (k1_off181_inb t 1) (k1_off183_inb t 1) (k1_off185_inb t 1) h1
  have h3 := row_step_cons d L sR1 sC0 g f _ (8 * t.val + 2) (k1_off180 t 2#32) (k1_off182 t 2#32) (k1_off184 t 2#32) (k1_off186 t 2#32) (k1_off179 t 2#32) (k1_off181 t 2#32) (k1_off183 t 2#32) (k1_off185 t 2#32)
    (k1_off180_eq t 2) (k1_off182_eq t 2) (k1_off184_eq t 2) (k1_off186_eq t 2) (k1_off179_eq t 2) (k1_off181_eq t 2) (k1_off183_eq t 2) (k1_off185_eq t 2)
    (k1_off180_inb t 2) (k1_off182_inb t 2) (k1_off184_inb t 2) (k1_off186_inb t 2) (k1_off179_inb t 2) (k1_off181_inb t 2) (k1_off183_inb t 2) (k1_off185_inb t 2) h2
  have h4 := row_step_cons d L sR1 sC0 g f _ (8 * t.val + 3) (k1_off180 t 3#32) (k1_off182 t 3#32) (k1_off184 t 3#32) (k1_off186 t 3#32) (k1_off179 t 3#32) (k1_off181 t 3#32) (k1_off183 t 3#32) (k1_off185 t 3#32)
    (k1_off180_eq t 3) (k1_off182_eq t 3) (k1_off184_eq t 3) (k1_off186_eq t 3) (k1_off179_eq t 3) (k1_off181_eq t 3) (k1_off183_eq t 3) (k1_off185_eq t 3)
    (k1_off180_inb t 3) (k1_off182_inb t 3) (k1_off184_inb t 3) (k1_off186_inb t 3) (k1_off179_inb t 3) (k1_off181_inb t 3) (k1_off183_inb t 3) (k1_off185_inb t 3) h3
  have h5 := row_step_cons d L sR1 sC0 g f _ (8 * t.val + 4) (k1_off180 t 4#32) (k1_off182 t 4#32) (k1_off184 t 4#32) (k1_off186 t 4#32) (k1_off179 t 4#32) (k1_off181 t 4#32) (k1_off183 t 4#32) (k1_off185 t 4#32)
    (k1_off180_eq t 4) (k1_off182_eq t 4) (k1_off184_eq t 4) (k1_off186_eq t 4) (k1_off179_eq t 4) (k1_off181_eq t 4) (k1_off183_eq t 4) (k1_off185_eq t 4)
    (k1_off180_inb t 4) (k1_off182_inb t 4) (k1_off184_inb t 4) (k1_off186_inb t 4) (k1_off179_inb t 4) (k1_off181_inb t 4) (k1_off183_inb t 4) (k1_off185_inb t 4) h4
  have h6 := row_step_cons d L sR1 sC0 g f _ (8 * t.val + 5) (k1_off180 t 5#32) (k1_off182 t 5#32) (k1_off184 t 5#32) (k1_off186 t 5#32) (k1_off179 t 5#32) (k1_off181 t 5#32) (k1_off183 t 5#32) (k1_off185 t 5#32)
    (k1_off180_eq t 5) (k1_off182_eq t 5) (k1_off184_eq t 5) (k1_off186_eq t 5) (k1_off179_eq t 5) (k1_off181_eq t 5) (k1_off183_eq t 5) (k1_off185_eq t 5)
    (k1_off180_inb t 5) (k1_off182_inb t 5) (k1_off184_inb t 5) (k1_off186_inb t 5) (k1_off179_inb t 5) (k1_off181_inb t 5) (k1_off183_inb t 5) (k1_off185_inb t 5) h5
  have h7 := row_step_cons d L sR1 sC0 g f _ (8 * t.val + 6) (k1_off180 t 6#32) (k1_off182 t 6#32) (k1_off184 t 6#32) (k1_off186 t 6#32) (k1_off179 t 6#32) (k1_off181 t 6#32) (k1_off183 t 6#32) (k1_off185 t 6#32)
    (k1_off180_eq t 6) (k1_off182_eq t 6) (k1_off184_eq t 6) (k1_off186_eq t 6) (k1_off179_eq t 6) (k1_off181_eq t 6) (k1_off183_eq t 6) (k1_off185_eq t 6)
    (k1_off180_inb t 6) (k1_off182_inb t 6) (k1_off184_inb t 6) (k1_off186_inb t 6) (k1_off179_inb t 6) (k1_off181_inb t 6) (k1_off183_inb t 6) (k1_off185_inb t 6) h6
  have h8 := row_step_cons d L sR1 sC0 g f _ (8 * t.val + 7) (k1_off180 t 7#32) (k1_off182 t 7#32) (k1_off184 t 7#32) (k1_off186 t 7#32) (k1_off179 t 7#32) (k1_off181 t 7#32) (k1_off183 t 7#32) (k1_off185 t 7#32)
    (k1_off180_eq t 7) (k1_off182_eq t 7) (k1_off184_eq t 7) (k1_off186_eq t 7) (k1_off179_eq t 7) (k1_off181_eq t 7) (k1_off183_eq t 7) (k1_off185_eq t 7)
    (k1_off180_inb t 7) (k1_off182_inb t 7) (k1_off184_inb t 7) (k1_off186_inb t 7) (k1_off179_inb t 7) (k1_off181_inb t 7) (k1_off183_inb t 7) (k1_off185_inb t 7) h7
  intro r c hr
  exact h8 r c (by omega)

/-- The compaction step of loop 24 of 40: trip t copies rows [8 t, 8 t + 8) of the landing buffer's first 64 columns. -/
theorem compact_step_t25 (t : Fin k1_t25_loop.trips) (g : Buf (Elt F) (sR2.view.loc (thr d L))) (f : Buf (Elt F) (sC1.view.loc (thr d L)))
    (hC : Compacted (sR2.view.read (Elt F) g) (sC1.view.read (Elt F) f) t.val) :
    Compacted (sR2.view.read (Elt F) g) (sC1.view.read (Elt F) (sC1.view.writes (Elt F) f
      [cpiece d L sR2 g (k1_off194 t 7#32) (k1_off193 t 7#32) (k1_off194_inb t 7) (k1_off193_inb t 7),
       cpiece d L sR2 g (k1_off192 t 7#32) (k1_off191 t 7#32) (k1_off192_inb t 7) (k1_off191_inb t 7),
       cpiece d L sR2 g (k1_off190 t 7#32) (k1_off189 t 7#32) (k1_off190_inb t 7) (k1_off189_inb t 7),
       cpiece d L sR2 g (k1_off188 t 7#32) (k1_off187 t 7#32) (k1_off188_inb t 7) (k1_off187_inb t 7),
       cpiece d L sR2 g (k1_off194 t 6#32) (k1_off193 t 6#32) (k1_off194_inb t 6) (k1_off193_inb t 6),
       cpiece d L sR2 g (k1_off192 t 6#32) (k1_off191 t 6#32) (k1_off192_inb t 6) (k1_off191_inb t 6),
       cpiece d L sR2 g (k1_off190 t 6#32) (k1_off189 t 6#32) (k1_off190_inb t 6) (k1_off189_inb t 6),
       cpiece d L sR2 g (k1_off188 t 6#32) (k1_off187 t 6#32) (k1_off188_inb t 6) (k1_off187_inb t 6),
       cpiece d L sR2 g (k1_off194 t 5#32) (k1_off193 t 5#32) (k1_off194_inb t 5) (k1_off193_inb t 5),
       cpiece d L sR2 g (k1_off192 t 5#32) (k1_off191 t 5#32) (k1_off192_inb t 5) (k1_off191_inb t 5),
       cpiece d L sR2 g (k1_off190 t 5#32) (k1_off189 t 5#32) (k1_off190_inb t 5) (k1_off189_inb t 5),
       cpiece d L sR2 g (k1_off188 t 5#32) (k1_off187 t 5#32) (k1_off188_inb t 5) (k1_off187_inb t 5),
       cpiece d L sR2 g (k1_off194 t 4#32) (k1_off193 t 4#32) (k1_off194_inb t 4) (k1_off193_inb t 4),
       cpiece d L sR2 g (k1_off192 t 4#32) (k1_off191 t 4#32) (k1_off192_inb t 4) (k1_off191_inb t 4),
       cpiece d L sR2 g (k1_off190 t 4#32) (k1_off189 t 4#32) (k1_off190_inb t 4) (k1_off189_inb t 4),
       cpiece d L sR2 g (k1_off188 t 4#32) (k1_off187 t 4#32) (k1_off188_inb t 4) (k1_off187_inb t 4),
       cpiece d L sR2 g (k1_off194 t 3#32) (k1_off193 t 3#32) (k1_off194_inb t 3) (k1_off193_inb t 3),
       cpiece d L sR2 g (k1_off192 t 3#32) (k1_off191 t 3#32) (k1_off192_inb t 3) (k1_off191_inb t 3),
       cpiece d L sR2 g (k1_off190 t 3#32) (k1_off189 t 3#32) (k1_off190_inb t 3) (k1_off189_inb t 3),
       cpiece d L sR2 g (k1_off188 t 3#32) (k1_off187 t 3#32) (k1_off188_inb t 3) (k1_off187_inb t 3),
       cpiece d L sR2 g (k1_off194 t 2#32) (k1_off193 t 2#32) (k1_off194_inb t 2) (k1_off193_inb t 2),
       cpiece d L sR2 g (k1_off192 t 2#32) (k1_off191 t 2#32) (k1_off192_inb t 2) (k1_off191_inb t 2),
       cpiece d L sR2 g (k1_off190 t 2#32) (k1_off189 t 2#32) (k1_off190_inb t 2) (k1_off189_inb t 2),
       cpiece d L sR2 g (k1_off188 t 2#32) (k1_off187 t 2#32) (k1_off188_inb t 2) (k1_off187_inb t 2),
       cpiece d L sR2 g (k1_off194 t 1#32) (k1_off193 t 1#32) (k1_off194_inb t 1) (k1_off193_inb t 1),
       cpiece d L sR2 g (k1_off192 t 1#32) (k1_off191 t 1#32) (k1_off192_inb t 1) (k1_off191_inb t 1),
       cpiece d L sR2 g (k1_off190 t 1#32) (k1_off189 t 1#32) (k1_off190_inb t 1) (k1_off189_inb t 1),
       cpiece d L sR2 g (k1_off188 t 1#32) (k1_off187 t 1#32) (k1_off188_inb t 1) (k1_off187_inb t 1),
       cpiece d L sR2 g (k1_off194 t 0#32) (k1_off193 t 0#32) (k1_off194_inb t 0) (k1_off193_inb t 0),
       cpiece d L sR2 g (k1_off192 t 0#32) (k1_off191 t 0#32) (k1_off192_inb t 0) (k1_off191_inb t 0),
       cpiece d L sR2 g (k1_off190 t 0#32) (k1_off189 t 0#32) (k1_off190_inb t 0) (k1_off189_inb t 0),
       cpiece d L sR2 g (k1_off188 t 0#32) (k1_off187 t 0#32) (k1_off188_inb t 0) (k1_off187_inb t 0)])) (t.val + 1) := by
  have h1 := row_step_cons d L sR2 sC1 g f [] (8 * t.val + 0) (k1_off188 t 0#32) (k1_off190 t 0#32) (k1_off192 t 0#32) (k1_off194 t 0#32) (k1_off187 t 0#32) (k1_off189 t 0#32) (k1_off191 t 0#32) (k1_off193 t 0#32)
    (k1_off188_eq t 0) (k1_off190_eq t 0) (k1_off192_eq t 0) (k1_off194_eq t 0) (k1_off187_eq t 0) (k1_off189_eq t 0) (k1_off191_eq t 0) (k1_off193_eq t 0)
    (k1_off188_inb t 0) (k1_off190_inb t 0) (k1_off192_inb t 0) (k1_off194_inb t 0) (k1_off187_inb t 0) (k1_off189_inb t 0) (k1_off191_inb t 0) (k1_off193_inb t 0) ((compacted_iff_rows _ _ _).1 hC)
  have h2 := row_step_cons d L sR2 sC1 g f _ (8 * t.val + 1) (k1_off188 t 1#32) (k1_off190 t 1#32) (k1_off192 t 1#32) (k1_off194 t 1#32) (k1_off187 t 1#32) (k1_off189 t 1#32) (k1_off191 t 1#32) (k1_off193 t 1#32)
    (k1_off188_eq t 1) (k1_off190_eq t 1) (k1_off192_eq t 1) (k1_off194_eq t 1) (k1_off187_eq t 1) (k1_off189_eq t 1) (k1_off191_eq t 1) (k1_off193_eq t 1)
    (k1_off188_inb t 1) (k1_off190_inb t 1) (k1_off192_inb t 1) (k1_off194_inb t 1) (k1_off187_inb t 1) (k1_off189_inb t 1) (k1_off191_inb t 1) (k1_off193_inb t 1) h1
  have h3 := row_step_cons d L sR2 sC1 g f _ (8 * t.val + 2) (k1_off188 t 2#32) (k1_off190 t 2#32) (k1_off192 t 2#32) (k1_off194 t 2#32) (k1_off187 t 2#32) (k1_off189 t 2#32) (k1_off191 t 2#32) (k1_off193 t 2#32)
    (k1_off188_eq t 2) (k1_off190_eq t 2) (k1_off192_eq t 2) (k1_off194_eq t 2) (k1_off187_eq t 2) (k1_off189_eq t 2) (k1_off191_eq t 2) (k1_off193_eq t 2)
    (k1_off188_inb t 2) (k1_off190_inb t 2) (k1_off192_inb t 2) (k1_off194_inb t 2) (k1_off187_inb t 2) (k1_off189_inb t 2) (k1_off191_inb t 2) (k1_off193_inb t 2) h2
  have h4 := row_step_cons d L sR2 sC1 g f _ (8 * t.val + 3) (k1_off188 t 3#32) (k1_off190 t 3#32) (k1_off192 t 3#32) (k1_off194 t 3#32) (k1_off187 t 3#32) (k1_off189 t 3#32) (k1_off191 t 3#32) (k1_off193 t 3#32)
    (k1_off188_eq t 3) (k1_off190_eq t 3) (k1_off192_eq t 3) (k1_off194_eq t 3) (k1_off187_eq t 3) (k1_off189_eq t 3) (k1_off191_eq t 3) (k1_off193_eq t 3)
    (k1_off188_inb t 3) (k1_off190_inb t 3) (k1_off192_inb t 3) (k1_off194_inb t 3) (k1_off187_inb t 3) (k1_off189_inb t 3) (k1_off191_inb t 3) (k1_off193_inb t 3) h3
  have h5 := row_step_cons d L sR2 sC1 g f _ (8 * t.val + 4) (k1_off188 t 4#32) (k1_off190 t 4#32) (k1_off192 t 4#32) (k1_off194 t 4#32) (k1_off187 t 4#32) (k1_off189 t 4#32) (k1_off191 t 4#32) (k1_off193 t 4#32)
    (k1_off188_eq t 4) (k1_off190_eq t 4) (k1_off192_eq t 4) (k1_off194_eq t 4) (k1_off187_eq t 4) (k1_off189_eq t 4) (k1_off191_eq t 4) (k1_off193_eq t 4)
    (k1_off188_inb t 4) (k1_off190_inb t 4) (k1_off192_inb t 4) (k1_off194_inb t 4) (k1_off187_inb t 4) (k1_off189_inb t 4) (k1_off191_inb t 4) (k1_off193_inb t 4) h4
  have h6 := row_step_cons d L sR2 sC1 g f _ (8 * t.val + 5) (k1_off188 t 5#32) (k1_off190 t 5#32) (k1_off192 t 5#32) (k1_off194 t 5#32) (k1_off187 t 5#32) (k1_off189 t 5#32) (k1_off191 t 5#32) (k1_off193 t 5#32)
    (k1_off188_eq t 5) (k1_off190_eq t 5) (k1_off192_eq t 5) (k1_off194_eq t 5) (k1_off187_eq t 5) (k1_off189_eq t 5) (k1_off191_eq t 5) (k1_off193_eq t 5)
    (k1_off188_inb t 5) (k1_off190_inb t 5) (k1_off192_inb t 5) (k1_off194_inb t 5) (k1_off187_inb t 5) (k1_off189_inb t 5) (k1_off191_inb t 5) (k1_off193_inb t 5) h5
  have h7 := row_step_cons d L sR2 sC1 g f _ (8 * t.val + 6) (k1_off188 t 6#32) (k1_off190 t 6#32) (k1_off192 t 6#32) (k1_off194 t 6#32) (k1_off187 t 6#32) (k1_off189 t 6#32) (k1_off191 t 6#32) (k1_off193 t 6#32)
    (k1_off188_eq t 6) (k1_off190_eq t 6) (k1_off192_eq t 6) (k1_off194_eq t 6) (k1_off187_eq t 6) (k1_off189_eq t 6) (k1_off191_eq t 6) (k1_off193_eq t 6)
    (k1_off188_inb t 6) (k1_off190_inb t 6) (k1_off192_inb t 6) (k1_off194_inb t 6) (k1_off187_inb t 6) (k1_off189_inb t 6) (k1_off191_inb t 6) (k1_off193_inb t 6) h6
  have h8 := row_step_cons d L sR2 sC1 g f _ (8 * t.val + 7) (k1_off188 t 7#32) (k1_off190 t 7#32) (k1_off192 t 7#32) (k1_off194 t 7#32) (k1_off187 t 7#32) (k1_off189 t 7#32) (k1_off191 t 7#32) (k1_off193 t 7#32)
    (k1_off188_eq t 7) (k1_off190_eq t 7) (k1_off192_eq t 7) (k1_off194_eq t 7) (k1_off187_eq t 7) (k1_off189_eq t 7) (k1_off191_eq t 7) (k1_off193_eq t 7)
    (k1_off188_inb t 7) (k1_off190_inb t 7) (k1_off192_inb t 7) (k1_off194_inb t 7) (k1_off187_inb t 7) (k1_off189_inb t 7) (k1_off191_inb t 7) (k1_off193_inb t 7) h7
  intro r c hr
  exact h8 r c (by omega)

/-- The compaction step of loop 25 of 40: trip t copies rows [8 t, 8 t + 8) of the landing buffer's first 64 columns. -/
theorem compact_step_t26 (t : Fin k1_t26_loop.trips) (g : Buf (Elt F) (sR0.view.loc (thr d L))) (f : Buf (Elt F) (sC0.view.loc (thr d L)))
    (hC : Compacted (sR0.view.read (Elt F) g) (sC0.view.read (Elt F) f) t.val) :
    Compacted (sR0.view.read (Elt F) g) (sC0.view.read (Elt F) (sC0.view.writes (Elt F) f
      [cpiece d L sR0 g (k1_off202 t 7#32) (k1_off201 t 7#32) (k1_off202_inb t 7) (k1_off201_inb t 7),
       cpiece d L sR0 g (k1_off200 t 7#32) (k1_off199 t 7#32) (k1_off200_inb t 7) (k1_off199_inb t 7),
       cpiece d L sR0 g (k1_off198 t 7#32) (k1_off197 t 7#32) (k1_off198_inb t 7) (k1_off197_inb t 7),
       cpiece d L sR0 g (k1_off196 t 7#32) (k1_off195 t 7#32) (k1_off196_inb t 7) (k1_off195_inb t 7),
       cpiece d L sR0 g (k1_off202 t 6#32) (k1_off201 t 6#32) (k1_off202_inb t 6) (k1_off201_inb t 6),
       cpiece d L sR0 g (k1_off200 t 6#32) (k1_off199 t 6#32) (k1_off200_inb t 6) (k1_off199_inb t 6),
       cpiece d L sR0 g (k1_off198 t 6#32) (k1_off197 t 6#32) (k1_off198_inb t 6) (k1_off197_inb t 6),
       cpiece d L sR0 g (k1_off196 t 6#32) (k1_off195 t 6#32) (k1_off196_inb t 6) (k1_off195_inb t 6),
       cpiece d L sR0 g (k1_off202 t 5#32) (k1_off201 t 5#32) (k1_off202_inb t 5) (k1_off201_inb t 5),
       cpiece d L sR0 g (k1_off200 t 5#32) (k1_off199 t 5#32) (k1_off200_inb t 5) (k1_off199_inb t 5),
       cpiece d L sR0 g (k1_off198 t 5#32) (k1_off197 t 5#32) (k1_off198_inb t 5) (k1_off197_inb t 5),
       cpiece d L sR0 g (k1_off196 t 5#32) (k1_off195 t 5#32) (k1_off196_inb t 5) (k1_off195_inb t 5),
       cpiece d L sR0 g (k1_off202 t 4#32) (k1_off201 t 4#32) (k1_off202_inb t 4) (k1_off201_inb t 4),
       cpiece d L sR0 g (k1_off200 t 4#32) (k1_off199 t 4#32) (k1_off200_inb t 4) (k1_off199_inb t 4),
       cpiece d L sR0 g (k1_off198 t 4#32) (k1_off197 t 4#32) (k1_off198_inb t 4) (k1_off197_inb t 4),
       cpiece d L sR0 g (k1_off196 t 4#32) (k1_off195 t 4#32) (k1_off196_inb t 4) (k1_off195_inb t 4),
       cpiece d L sR0 g (k1_off202 t 3#32) (k1_off201 t 3#32) (k1_off202_inb t 3) (k1_off201_inb t 3),
       cpiece d L sR0 g (k1_off200 t 3#32) (k1_off199 t 3#32) (k1_off200_inb t 3) (k1_off199_inb t 3),
       cpiece d L sR0 g (k1_off198 t 3#32) (k1_off197 t 3#32) (k1_off198_inb t 3) (k1_off197_inb t 3),
       cpiece d L sR0 g (k1_off196 t 3#32) (k1_off195 t 3#32) (k1_off196_inb t 3) (k1_off195_inb t 3),
       cpiece d L sR0 g (k1_off202 t 2#32) (k1_off201 t 2#32) (k1_off202_inb t 2) (k1_off201_inb t 2),
       cpiece d L sR0 g (k1_off200 t 2#32) (k1_off199 t 2#32) (k1_off200_inb t 2) (k1_off199_inb t 2),
       cpiece d L sR0 g (k1_off198 t 2#32) (k1_off197 t 2#32) (k1_off198_inb t 2) (k1_off197_inb t 2),
       cpiece d L sR0 g (k1_off196 t 2#32) (k1_off195 t 2#32) (k1_off196_inb t 2) (k1_off195_inb t 2),
       cpiece d L sR0 g (k1_off202 t 1#32) (k1_off201 t 1#32) (k1_off202_inb t 1) (k1_off201_inb t 1),
       cpiece d L sR0 g (k1_off200 t 1#32) (k1_off199 t 1#32) (k1_off200_inb t 1) (k1_off199_inb t 1),
       cpiece d L sR0 g (k1_off198 t 1#32) (k1_off197 t 1#32) (k1_off198_inb t 1) (k1_off197_inb t 1),
       cpiece d L sR0 g (k1_off196 t 1#32) (k1_off195 t 1#32) (k1_off196_inb t 1) (k1_off195_inb t 1),
       cpiece d L sR0 g (k1_off202 t 0#32) (k1_off201 t 0#32) (k1_off202_inb t 0) (k1_off201_inb t 0),
       cpiece d L sR0 g (k1_off200 t 0#32) (k1_off199 t 0#32) (k1_off200_inb t 0) (k1_off199_inb t 0),
       cpiece d L sR0 g (k1_off198 t 0#32) (k1_off197 t 0#32) (k1_off198_inb t 0) (k1_off197_inb t 0),
       cpiece d L sR0 g (k1_off196 t 0#32) (k1_off195 t 0#32) (k1_off196_inb t 0) (k1_off195_inb t 0)])) (t.val + 1) := by
  have h1 := row_step_cons d L sR0 sC0 g f [] (8 * t.val + 0) (k1_off196 t 0#32) (k1_off198 t 0#32) (k1_off200 t 0#32) (k1_off202 t 0#32) (k1_off195 t 0#32) (k1_off197 t 0#32) (k1_off199 t 0#32) (k1_off201 t 0#32)
    (k1_off196_eq t 0) (k1_off198_eq t 0) (k1_off200_eq t 0) (k1_off202_eq t 0) (k1_off195_eq t 0) (k1_off197_eq t 0) (k1_off199_eq t 0) (k1_off201_eq t 0)
    (k1_off196_inb t 0) (k1_off198_inb t 0) (k1_off200_inb t 0) (k1_off202_inb t 0) (k1_off195_inb t 0) (k1_off197_inb t 0) (k1_off199_inb t 0) (k1_off201_inb t 0) ((compacted_iff_rows _ _ _).1 hC)
  have h2 := row_step_cons d L sR0 sC0 g f _ (8 * t.val + 1) (k1_off196 t 1#32) (k1_off198 t 1#32) (k1_off200 t 1#32) (k1_off202 t 1#32) (k1_off195 t 1#32) (k1_off197 t 1#32) (k1_off199 t 1#32) (k1_off201 t 1#32)
    (k1_off196_eq t 1) (k1_off198_eq t 1) (k1_off200_eq t 1) (k1_off202_eq t 1) (k1_off195_eq t 1) (k1_off197_eq t 1) (k1_off199_eq t 1) (k1_off201_eq t 1)
    (k1_off196_inb t 1) (k1_off198_inb t 1) (k1_off200_inb t 1) (k1_off202_inb t 1) (k1_off195_inb t 1) (k1_off197_inb t 1) (k1_off199_inb t 1) (k1_off201_inb t 1) h1
  have h3 := row_step_cons d L sR0 sC0 g f _ (8 * t.val + 2) (k1_off196 t 2#32) (k1_off198 t 2#32) (k1_off200 t 2#32) (k1_off202 t 2#32) (k1_off195 t 2#32) (k1_off197 t 2#32) (k1_off199 t 2#32) (k1_off201 t 2#32)
    (k1_off196_eq t 2) (k1_off198_eq t 2) (k1_off200_eq t 2) (k1_off202_eq t 2) (k1_off195_eq t 2) (k1_off197_eq t 2) (k1_off199_eq t 2) (k1_off201_eq t 2)
    (k1_off196_inb t 2) (k1_off198_inb t 2) (k1_off200_inb t 2) (k1_off202_inb t 2) (k1_off195_inb t 2) (k1_off197_inb t 2) (k1_off199_inb t 2) (k1_off201_inb t 2) h2
  have h4 := row_step_cons d L sR0 sC0 g f _ (8 * t.val + 3) (k1_off196 t 3#32) (k1_off198 t 3#32) (k1_off200 t 3#32) (k1_off202 t 3#32) (k1_off195 t 3#32) (k1_off197 t 3#32) (k1_off199 t 3#32) (k1_off201 t 3#32)
    (k1_off196_eq t 3) (k1_off198_eq t 3) (k1_off200_eq t 3) (k1_off202_eq t 3) (k1_off195_eq t 3) (k1_off197_eq t 3) (k1_off199_eq t 3) (k1_off201_eq t 3)
    (k1_off196_inb t 3) (k1_off198_inb t 3) (k1_off200_inb t 3) (k1_off202_inb t 3) (k1_off195_inb t 3) (k1_off197_inb t 3) (k1_off199_inb t 3) (k1_off201_inb t 3) h3
  have h5 := row_step_cons d L sR0 sC0 g f _ (8 * t.val + 4) (k1_off196 t 4#32) (k1_off198 t 4#32) (k1_off200 t 4#32) (k1_off202 t 4#32) (k1_off195 t 4#32) (k1_off197 t 4#32) (k1_off199 t 4#32) (k1_off201 t 4#32)
    (k1_off196_eq t 4) (k1_off198_eq t 4) (k1_off200_eq t 4) (k1_off202_eq t 4) (k1_off195_eq t 4) (k1_off197_eq t 4) (k1_off199_eq t 4) (k1_off201_eq t 4)
    (k1_off196_inb t 4) (k1_off198_inb t 4) (k1_off200_inb t 4) (k1_off202_inb t 4) (k1_off195_inb t 4) (k1_off197_inb t 4) (k1_off199_inb t 4) (k1_off201_inb t 4) h4
  have h6 := row_step_cons d L sR0 sC0 g f _ (8 * t.val + 5) (k1_off196 t 5#32) (k1_off198 t 5#32) (k1_off200 t 5#32) (k1_off202 t 5#32) (k1_off195 t 5#32) (k1_off197 t 5#32) (k1_off199 t 5#32) (k1_off201 t 5#32)
    (k1_off196_eq t 5) (k1_off198_eq t 5) (k1_off200_eq t 5) (k1_off202_eq t 5) (k1_off195_eq t 5) (k1_off197_eq t 5) (k1_off199_eq t 5) (k1_off201_eq t 5)
    (k1_off196_inb t 5) (k1_off198_inb t 5) (k1_off200_inb t 5) (k1_off202_inb t 5) (k1_off195_inb t 5) (k1_off197_inb t 5) (k1_off199_inb t 5) (k1_off201_inb t 5) h5
  have h7 := row_step_cons d L sR0 sC0 g f _ (8 * t.val + 6) (k1_off196 t 6#32) (k1_off198 t 6#32) (k1_off200 t 6#32) (k1_off202 t 6#32) (k1_off195 t 6#32) (k1_off197 t 6#32) (k1_off199 t 6#32) (k1_off201 t 6#32)
    (k1_off196_eq t 6) (k1_off198_eq t 6) (k1_off200_eq t 6) (k1_off202_eq t 6) (k1_off195_eq t 6) (k1_off197_eq t 6) (k1_off199_eq t 6) (k1_off201_eq t 6)
    (k1_off196_inb t 6) (k1_off198_inb t 6) (k1_off200_inb t 6) (k1_off202_inb t 6) (k1_off195_inb t 6) (k1_off197_inb t 6) (k1_off199_inb t 6) (k1_off201_inb t 6) h6
  have h8 := row_step_cons d L sR0 sC0 g f _ (8 * t.val + 7) (k1_off196 t 7#32) (k1_off198 t 7#32) (k1_off200 t 7#32) (k1_off202 t 7#32) (k1_off195 t 7#32) (k1_off197 t 7#32) (k1_off199 t 7#32) (k1_off201 t 7#32)
    (k1_off196_eq t 7) (k1_off198_eq t 7) (k1_off200_eq t 7) (k1_off202_eq t 7) (k1_off195_eq t 7) (k1_off197_eq t 7) (k1_off199_eq t 7) (k1_off201_eq t 7)
    (k1_off196_inb t 7) (k1_off198_inb t 7) (k1_off200_inb t 7) (k1_off202_inb t 7) (k1_off195_inb t 7) (k1_off197_inb t 7) (k1_off199_inb t 7) (k1_off201_inb t 7) h7
  intro r c hr
  exact h8 r c (by omega)

/-- The compaction step of loop 26 of 40: trip t copies rows [8 t, 8 t + 8) of the landing buffer's first 64 columns. -/
theorem compact_step_t27 (t : Fin k1_t27_loop.trips) (g : Buf (Elt F) (sR1.view.loc (thr d L))) (f : Buf (Elt F) (sC1.view.loc (thr d L)))
    (hC : Compacted (sR1.view.read (Elt F) g) (sC1.view.read (Elt F) f) t.val) :
    Compacted (sR1.view.read (Elt F) g) (sC1.view.read (Elt F) (sC1.view.writes (Elt F) f
      [cpiece d L sR1 g (k1_off210 t 7#32) (k1_off209 t 7#32) (k1_off210_inb t 7) (k1_off209_inb t 7),
       cpiece d L sR1 g (k1_off208 t 7#32) (k1_off207 t 7#32) (k1_off208_inb t 7) (k1_off207_inb t 7),
       cpiece d L sR1 g (k1_off206 t 7#32) (k1_off205 t 7#32) (k1_off206_inb t 7) (k1_off205_inb t 7),
       cpiece d L sR1 g (k1_off204 t 7#32) (k1_off203 t 7#32) (k1_off204_inb t 7) (k1_off203_inb t 7),
       cpiece d L sR1 g (k1_off210 t 6#32) (k1_off209 t 6#32) (k1_off210_inb t 6) (k1_off209_inb t 6),
       cpiece d L sR1 g (k1_off208 t 6#32) (k1_off207 t 6#32) (k1_off208_inb t 6) (k1_off207_inb t 6),
       cpiece d L sR1 g (k1_off206 t 6#32) (k1_off205 t 6#32) (k1_off206_inb t 6) (k1_off205_inb t 6),
       cpiece d L sR1 g (k1_off204 t 6#32) (k1_off203 t 6#32) (k1_off204_inb t 6) (k1_off203_inb t 6),
       cpiece d L sR1 g (k1_off210 t 5#32) (k1_off209 t 5#32) (k1_off210_inb t 5) (k1_off209_inb t 5),
       cpiece d L sR1 g (k1_off208 t 5#32) (k1_off207 t 5#32) (k1_off208_inb t 5) (k1_off207_inb t 5),
       cpiece d L sR1 g (k1_off206 t 5#32) (k1_off205 t 5#32) (k1_off206_inb t 5) (k1_off205_inb t 5),
       cpiece d L sR1 g (k1_off204 t 5#32) (k1_off203 t 5#32) (k1_off204_inb t 5) (k1_off203_inb t 5),
       cpiece d L sR1 g (k1_off210 t 4#32) (k1_off209 t 4#32) (k1_off210_inb t 4) (k1_off209_inb t 4),
       cpiece d L sR1 g (k1_off208 t 4#32) (k1_off207 t 4#32) (k1_off208_inb t 4) (k1_off207_inb t 4),
       cpiece d L sR1 g (k1_off206 t 4#32) (k1_off205 t 4#32) (k1_off206_inb t 4) (k1_off205_inb t 4),
       cpiece d L sR1 g (k1_off204 t 4#32) (k1_off203 t 4#32) (k1_off204_inb t 4) (k1_off203_inb t 4),
       cpiece d L sR1 g (k1_off210 t 3#32) (k1_off209 t 3#32) (k1_off210_inb t 3) (k1_off209_inb t 3),
       cpiece d L sR1 g (k1_off208 t 3#32) (k1_off207 t 3#32) (k1_off208_inb t 3) (k1_off207_inb t 3),
       cpiece d L sR1 g (k1_off206 t 3#32) (k1_off205 t 3#32) (k1_off206_inb t 3) (k1_off205_inb t 3),
       cpiece d L sR1 g (k1_off204 t 3#32) (k1_off203 t 3#32) (k1_off204_inb t 3) (k1_off203_inb t 3),
       cpiece d L sR1 g (k1_off210 t 2#32) (k1_off209 t 2#32) (k1_off210_inb t 2) (k1_off209_inb t 2),
       cpiece d L sR1 g (k1_off208 t 2#32) (k1_off207 t 2#32) (k1_off208_inb t 2) (k1_off207_inb t 2),
       cpiece d L sR1 g (k1_off206 t 2#32) (k1_off205 t 2#32) (k1_off206_inb t 2) (k1_off205_inb t 2),
       cpiece d L sR1 g (k1_off204 t 2#32) (k1_off203 t 2#32) (k1_off204_inb t 2) (k1_off203_inb t 2),
       cpiece d L sR1 g (k1_off210 t 1#32) (k1_off209 t 1#32) (k1_off210_inb t 1) (k1_off209_inb t 1),
       cpiece d L sR1 g (k1_off208 t 1#32) (k1_off207 t 1#32) (k1_off208_inb t 1) (k1_off207_inb t 1),
       cpiece d L sR1 g (k1_off206 t 1#32) (k1_off205 t 1#32) (k1_off206_inb t 1) (k1_off205_inb t 1),
       cpiece d L sR1 g (k1_off204 t 1#32) (k1_off203 t 1#32) (k1_off204_inb t 1) (k1_off203_inb t 1),
       cpiece d L sR1 g (k1_off210 t 0#32) (k1_off209 t 0#32) (k1_off210_inb t 0) (k1_off209_inb t 0),
       cpiece d L sR1 g (k1_off208 t 0#32) (k1_off207 t 0#32) (k1_off208_inb t 0) (k1_off207_inb t 0),
       cpiece d L sR1 g (k1_off206 t 0#32) (k1_off205 t 0#32) (k1_off206_inb t 0) (k1_off205_inb t 0),
       cpiece d L sR1 g (k1_off204 t 0#32) (k1_off203 t 0#32) (k1_off204_inb t 0) (k1_off203_inb t 0)])) (t.val + 1) := by
  have h1 := row_step_cons d L sR1 sC1 g f [] (8 * t.val + 0) (k1_off204 t 0#32) (k1_off206 t 0#32) (k1_off208 t 0#32) (k1_off210 t 0#32) (k1_off203 t 0#32) (k1_off205 t 0#32) (k1_off207 t 0#32) (k1_off209 t 0#32)
    (k1_off204_eq t 0) (k1_off206_eq t 0) (k1_off208_eq t 0) (k1_off210_eq t 0) (k1_off203_eq t 0) (k1_off205_eq t 0) (k1_off207_eq t 0) (k1_off209_eq t 0)
    (k1_off204_inb t 0) (k1_off206_inb t 0) (k1_off208_inb t 0) (k1_off210_inb t 0) (k1_off203_inb t 0) (k1_off205_inb t 0) (k1_off207_inb t 0) (k1_off209_inb t 0) ((compacted_iff_rows _ _ _).1 hC)
  have h2 := row_step_cons d L sR1 sC1 g f _ (8 * t.val + 1) (k1_off204 t 1#32) (k1_off206 t 1#32) (k1_off208 t 1#32) (k1_off210 t 1#32) (k1_off203 t 1#32) (k1_off205 t 1#32) (k1_off207 t 1#32) (k1_off209 t 1#32)
    (k1_off204_eq t 1) (k1_off206_eq t 1) (k1_off208_eq t 1) (k1_off210_eq t 1) (k1_off203_eq t 1) (k1_off205_eq t 1) (k1_off207_eq t 1) (k1_off209_eq t 1)
    (k1_off204_inb t 1) (k1_off206_inb t 1) (k1_off208_inb t 1) (k1_off210_inb t 1) (k1_off203_inb t 1) (k1_off205_inb t 1) (k1_off207_inb t 1) (k1_off209_inb t 1) h1
  have h3 := row_step_cons d L sR1 sC1 g f _ (8 * t.val + 2) (k1_off204 t 2#32) (k1_off206 t 2#32) (k1_off208 t 2#32) (k1_off210 t 2#32) (k1_off203 t 2#32) (k1_off205 t 2#32) (k1_off207 t 2#32) (k1_off209 t 2#32)
    (k1_off204_eq t 2) (k1_off206_eq t 2) (k1_off208_eq t 2) (k1_off210_eq t 2) (k1_off203_eq t 2) (k1_off205_eq t 2) (k1_off207_eq t 2) (k1_off209_eq t 2)
    (k1_off204_inb t 2) (k1_off206_inb t 2) (k1_off208_inb t 2) (k1_off210_inb t 2) (k1_off203_inb t 2) (k1_off205_inb t 2) (k1_off207_inb t 2) (k1_off209_inb t 2) h2
  have h4 := row_step_cons d L sR1 sC1 g f _ (8 * t.val + 3) (k1_off204 t 3#32) (k1_off206 t 3#32) (k1_off208 t 3#32) (k1_off210 t 3#32) (k1_off203 t 3#32) (k1_off205 t 3#32) (k1_off207 t 3#32) (k1_off209 t 3#32)
    (k1_off204_eq t 3) (k1_off206_eq t 3) (k1_off208_eq t 3) (k1_off210_eq t 3) (k1_off203_eq t 3) (k1_off205_eq t 3) (k1_off207_eq t 3) (k1_off209_eq t 3)
    (k1_off204_inb t 3) (k1_off206_inb t 3) (k1_off208_inb t 3) (k1_off210_inb t 3) (k1_off203_inb t 3) (k1_off205_inb t 3) (k1_off207_inb t 3) (k1_off209_inb t 3) h3
  have h5 := row_step_cons d L sR1 sC1 g f _ (8 * t.val + 4) (k1_off204 t 4#32) (k1_off206 t 4#32) (k1_off208 t 4#32) (k1_off210 t 4#32) (k1_off203 t 4#32) (k1_off205 t 4#32) (k1_off207 t 4#32) (k1_off209 t 4#32)
    (k1_off204_eq t 4) (k1_off206_eq t 4) (k1_off208_eq t 4) (k1_off210_eq t 4) (k1_off203_eq t 4) (k1_off205_eq t 4) (k1_off207_eq t 4) (k1_off209_eq t 4)
    (k1_off204_inb t 4) (k1_off206_inb t 4) (k1_off208_inb t 4) (k1_off210_inb t 4) (k1_off203_inb t 4) (k1_off205_inb t 4) (k1_off207_inb t 4) (k1_off209_inb t 4) h4
  have h6 := row_step_cons d L sR1 sC1 g f _ (8 * t.val + 5) (k1_off204 t 5#32) (k1_off206 t 5#32) (k1_off208 t 5#32) (k1_off210 t 5#32) (k1_off203 t 5#32) (k1_off205 t 5#32) (k1_off207 t 5#32) (k1_off209 t 5#32)
    (k1_off204_eq t 5) (k1_off206_eq t 5) (k1_off208_eq t 5) (k1_off210_eq t 5) (k1_off203_eq t 5) (k1_off205_eq t 5) (k1_off207_eq t 5) (k1_off209_eq t 5)
    (k1_off204_inb t 5) (k1_off206_inb t 5) (k1_off208_inb t 5) (k1_off210_inb t 5) (k1_off203_inb t 5) (k1_off205_inb t 5) (k1_off207_inb t 5) (k1_off209_inb t 5) h5
  have h7 := row_step_cons d L sR1 sC1 g f _ (8 * t.val + 6) (k1_off204 t 6#32) (k1_off206 t 6#32) (k1_off208 t 6#32) (k1_off210 t 6#32) (k1_off203 t 6#32) (k1_off205 t 6#32) (k1_off207 t 6#32) (k1_off209 t 6#32)
    (k1_off204_eq t 6) (k1_off206_eq t 6) (k1_off208_eq t 6) (k1_off210_eq t 6) (k1_off203_eq t 6) (k1_off205_eq t 6) (k1_off207_eq t 6) (k1_off209_eq t 6)
    (k1_off204_inb t 6) (k1_off206_inb t 6) (k1_off208_inb t 6) (k1_off210_inb t 6) (k1_off203_inb t 6) (k1_off205_inb t 6) (k1_off207_inb t 6) (k1_off209_inb t 6) h6
  have h8 := row_step_cons d L sR1 sC1 g f _ (8 * t.val + 7) (k1_off204 t 7#32) (k1_off206 t 7#32) (k1_off208 t 7#32) (k1_off210 t 7#32) (k1_off203 t 7#32) (k1_off205 t 7#32) (k1_off207 t 7#32) (k1_off209 t 7#32)
    (k1_off204_eq t 7) (k1_off206_eq t 7) (k1_off208_eq t 7) (k1_off210_eq t 7) (k1_off203_eq t 7) (k1_off205_eq t 7) (k1_off207_eq t 7) (k1_off209_eq t 7)
    (k1_off204_inb t 7) (k1_off206_inb t 7) (k1_off208_inb t 7) (k1_off210_inb t 7) (k1_off203_inb t 7) (k1_off205_inb t 7) (k1_off207_inb t 7) (k1_off209_inb t 7) h7
  intro r c hr
  exact h8 r c (by omega)

/-- The compaction step of loop 27 of 40: trip t copies rows [8 t, 8 t + 8) of the landing buffer's first 64 columns. -/
theorem compact_step_t28 (t : Fin k1_t28_loop.trips) (g : Buf (Elt F) (sR2.view.loc (thr d L))) (f : Buf (Elt F) (sC0.view.loc (thr d L)))
    (hC : Compacted (sR2.view.read (Elt F) g) (sC0.view.read (Elt F) f) t.val) :
    Compacted (sR2.view.read (Elt F) g) (sC0.view.read (Elt F) (sC0.view.writes (Elt F) f
      [cpiece d L sR2 g (k1_off218 t 7#32) (k1_off217 t 7#32) (k1_off218_inb t 7) (k1_off217_inb t 7),
       cpiece d L sR2 g (k1_off216 t 7#32) (k1_off215 t 7#32) (k1_off216_inb t 7) (k1_off215_inb t 7),
       cpiece d L sR2 g (k1_off214 t 7#32) (k1_off213 t 7#32) (k1_off214_inb t 7) (k1_off213_inb t 7),
       cpiece d L sR2 g (k1_off212 t 7#32) (k1_off211 t 7#32) (k1_off212_inb t 7) (k1_off211_inb t 7),
       cpiece d L sR2 g (k1_off218 t 6#32) (k1_off217 t 6#32) (k1_off218_inb t 6) (k1_off217_inb t 6),
       cpiece d L sR2 g (k1_off216 t 6#32) (k1_off215 t 6#32) (k1_off216_inb t 6) (k1_off215_inb t 6),
       cpiece d L sR2 g (k1_off214 t 6#32) (k1_off213 t 6#32) (k1_off214_inb t 6) (k1_off213_inb t 6),
       cpiece d L sR2 g (k1_off212 t 6#32) (k1_off211 t 6#32) (k1_off212_inb t 6) (k1_off211_inb t 6),
       cpiece d L sR2 g (k1_off218 t 5#32) (k1_off217 t 5#32) (k1_off218_inb t 5) (k1_off217_inb t 5),
       cpiece d L sR2 g (k1_off216 t 5#32) (k1_off215 t 5#32) (k1_off216_inb t 5) (k1_off215_inb t 5),
       cpiece d L sR2 g (k1_off214 t 5#32) (k1_off213 t 5#32) (k1_off214_inb t 5) (k1_off213_inb t 5),
       cpiece d L sR2 g (k1_off212 t 5#32) (k1_off211 t 5#32) (k1_off212_inb t 5) (k1_off211_inb t 5),
       cpiece d L sR2 g (k1_off218 t 4#32) (k1_off217 t 4#32) (k1_off218_inb t 4) (k1_off217_inb t 4),
       cpiece d L sR2 g (k1_off216 t 4#32) (k1_off215 t 4#32) (k1_off216_inb t 4) (k1_off215_inb t 4),
       cpiece d L sR2 g (k1_off214 t 4#32) (k1_off213 t 4#32) (k1_off214_inb t 4) (k1_off213_inb t 4),
       cpiece d L sR2 g (k1_off212 t 4#32) (k1_off211 t 4#32) (k1_off212_inb t 4) (k1_off211_inb t 4),
       cpiece d L sR2 g (k1_off218 t 3#32) (k1_off217 t 3#32) (k1_off218_inb t 3) (k1_off217_inb t 3),
       cpiece d L sR2 g (k1_off216 t 3#32) (k1_off215 t 3#32) (k1_off216_inb t 3) (k1_off215_inb t 3),
       cpiece d L sR2 g (k1_off214 t 3#32) (k1_off213 t 3#32) (k1_off214_inb t 3) (k1_off213_inb t 3),
       cpiece d L sR2 g (k1_off212 t 3#32) (k1_off211 t 3#32) (k1_off212_inb t 3) (k1_off211_inb t 3),
       cpiece d L sR2 g (k1_off218 t 2#32) (k1_off217 t 2#32) (k1_off218_inb t 2) (k1_off217_inb t 2),
       cpiece d L sR2 g (k1_off216 t 2#32) (k1_off215 t 2#32) (k1_off216_inb t 2) (k1_off215_inb t 2),
       cpiece d L sR2 g (k1_off214 t 2#32) (k1_off213 t 2#32) (k1_off214_inb t 2) (k1_off213_inb t 2),
       cpiece d L sR2 g (k1_off212 t 2#32) (k1_off211 t 2#32) (k1_off212_inb t 2) (k1_off211_inb t 2),
       cpiece d L sR2 g (k1_off218 t 1#32) (k1_off217 t 1#32) (k1_off218_inb t 1) (k1_off217_inb t 1),
       cpiece d L sR2 g (k1_off216 t 1#32) (k1_off215 t 1#32) (k1_off216_inb t 1) (k1_off215_inb t 1),
       cpiece d L sR2 g (k1_off214 t 1#32) (k1_off213 t 1#32) (k1_off214_inb t 1) (k1_off213_inb t 1),
       cpiece d L sR2 g (k1_off212 t 1#32) (k1_off211 t 1#32) (k1_off212_inb t 1) (k1_off211_inb t 1),
       cpiece d L sR2 g (k1_off218 t 0#32) (k1_off217 t 0#32) (k1_off218_inb t 0) (k1_off217_inb t 0),
       cpiece d L sR2 g (k1_off216 t 0#32) (k1_off215 t 0#32) (k1_off216_inb t 0) (k1_off215_inb t 0),
       cpiece d L sR2 g (k1_off214 t 0#32) (k1_off213 t 0#32) (k1_off214_inb t 0) (k1_off213_inb t 0),
       cpiece d L sR2 g (k1_off212 t 0#32) (k1_off211 t 0#32) (k1_off212_inb t 0) (k1_off211_inb t 0)])) (t.val + 1) := by
  have h1 := row_step_cons d L sR2 sC0 g f [] (8 * t.val + 0) (k1_off212 t 0#32) (k1_off214 t 0#32) (k1_off216 t 0#32) (k1_off218 t 0#32) (k1_off211 t 0#32) (k1_off213 t 0#32) (k1_off215 t 0#32) (k1_off217 t 0#32)
    (k1_off212_eq t 0) (k1_off214_eq t 0) (k1_off216_eq t 0) (k1_off218_eq t 0) (k1_off211_eq t 0) (k1_off213_eq t 0) (k1_off215_eq t 0) (k1_off217_eq t 0)
    (k1_off212_inb t 0) (k1_off214_inb t 0) (k1_off216_inb t 0) (k1_off218_inb t 0) (k1_off211_inb t 0) (k1_off213_inb t 0) (k1_off215_inb t 0) (k1_off217_inb t 0) ((compacted_iff_rows _ _ _).1 hC)
  have h2 := row_step_cons d L sR2 sC0 g f _ (8 * t.val + 1) (k1_off212 t 1#32) (k1_off214 t 1#32) (k1_off216 t 1#32) (k1_off218 t 1#32) (k1_off211 t 1#32) (k1_off213 t 1#32) (k1_off215 t 1#32) (k1_off217 t 1#32)
    (k1_off212_eq t 1) (k1_off214_eq t 1) (k1_off216_eq t 1) (k1_off218_eq t 1) (k1_off211_eq t 1) (k1_off213_eq t 1) (k1_off215_eq t 1) (k1_off217_eq t 1)
    (k1_off212_inb t 1) (k1_off214_inb t 1) (k1_off216_inb t 1) (k1_off218_inb t 1) (k1_off211_inb t 1) (k1_off213_inb t 1) (k1_off215_inb t 1) (k1_off217_inb t 1) h1
  have h3 := row_step_cons d L sR2 sC0 g f _ (8 * t.val + 2) (k1_off212 t 2#32) (k1_off214 t 2#32) (k1_off216 t 2#32) (k1_off218 t 2#32) (k1_off211 t 2#32) (k1_off213 t 2#32) (k1_off215 t 2#32) (k1_off217 t 2#32)
    (k1_off212_eq t 2) (k1_off214_eq t 2) (k1_off216_eq t 2) (k1_off218_eq t 2) (k1_off211_eq t 2) (k1_off213_eq t 2) (k1_off215_eq t 2) (k1_off217_eq t 2)
    (k1_off212_inb t 2) (k1_off214_inb t 2) (k1_off216_inb t 2) (k1_off218_inb t 2) (k1_off211_inb t 2) (k1_off213_inb t 2) (k1_off215_inb t 2) (k1_off217_inb t 2) h2
  have h4 := row_step_cons d L sR2 sC0 g f _ (8 * t.val + 3) (k1_off212 t 3#32) (k1_off214 t 3#32) (k1_off216 t 3#32) (k1_off218 t 3#32) (k1_off211 t 3#32) (k1_off213 t 3#32) (k1_off215 t 3#32) (k1_off217 t 3#32)
    (k1_off212_eq t 3) (k1_off214_eq t 3) (k1_off216_eq t 3) (k1_off218_eq t 3) (k1_off211_eq t 3) (k1_off213_eq t 3) (k1_off215_eq t 3) (k1_off217_eq t 3)
    (k1_off212_inb t 3) (k1_off214_inb t 3) (k1_off216_inb t 3) (k1_off218_inb t 3) (k1_off211_inb t 3) (k1_off213_inb t 3) (k1_off215_inb t 3) (k1_off217_inb t 3) h3
  have h5 := row_step_cons d L sR2 sC0 g f _ (8 * t.val + 4) (k1_off212 t 4#32) (k1_off214 t 4#32) (k1_off216 t 4#32) (k1_off218 t 4#32) (k1_off211 t 4#32) (k1_off213 t 4#32) (k1_off215 t 4#32) (k1_off217 t 4#32)
    (k1_off212_eq t 4) (k1_off214_eq t 4) (k1_off216_eq t 4) (k1_off218_eq t 4) (k1_off211_eq t 4) (k1_off213_eq t 4) (k1_off215_eq t 4) (k1_off217_eq t 4)
    (k1_off212_inb t 4) (k1_off214_inb t 4) (k1_off216_inb t 4) (k1_off218_inb t 4) (k1_off211_inb t 4) (k1_off213_inb t 4) (k1_off215_inb t 4) (k1_off217_inb t 4) h4
  have h6 := row_step_cons d L sR2 sC0 g f _ (8 * t.val + 5) (k1_off212 t 5#32) (k1_off214 t 5#32) (k1_off216 t 5#32) (k1_off218 t 5#32) (k1_off211 t 5#32) (k1_off213 t 5#32) (k1_off215 t 5#32) (k1_off217 t 5#32)
    (k1_off212_eq t 5) (k1_off214_eq t 5) (k1_off216_eq t 5) (k1_off218_eq t 5) (k1_off211_eq t 5) (k1_off213_eq t 5) (k1_off215_eq t 5) (k1_off217_eq t 5)
    (k1_off212_inb t 5) (k1_off214_inb t 5) (k1_off216_inb t 5) (k1_off218_inb t 5) (k1_off211_inb t 5) (k1_off213_inb t 5) (k1_off215_inb t 5) (k1_off217_inb t 5) h5
  have h7 := row_step_cons d L sR2 sC0 g f _ (8 * t.val + 6) (k1_off212 t 6#32) (k1_off214 t 6#32) (k1_off216 t 6#32) (k1_off218 t 6#32) (k1_off211 t 6#32) (k1_off213 t 6#32) (k1_off215 t 6#32) (k1_off217 t 6#32)
    (k1_off212_eq t 6) (k1_off214_eq t 6) (k1_off216_eq t 6) (k1_off218_eq t 6) (k1_off211_eq t 6) (k1_off213_eq t 6) (k1_off215_eq t 6) (k1_off217_eq t 6)
    (k1_off212_inb t 6) (k1_off214_inb t 6) (k1_off216_inb t 6) (k1_off218_inb t 6) (k1_off211_inb t 6) (k1_off213_inb t 6) (k1_off215_inb t 6) (k1_off217_inb t 6) h6
  have h8 := row_step_cons d L sR2 sC0 g f _ (8 * t.val + 7) (k1_off212 t 7#32) (k1_off214 t 7#32) (k1_off216 t 7#32) (k1_off218 t 7#32) (k1_off211 t 7#32) (k1_off213 t 7#32) (k1_off215 t 7#32) (k1_off217 t 7#32)
    (k1_off212_eq t 7) (k1_off214_eq t 7) (k1_off216_eq t 7) (k1_off218_eq t 7) (k1_off211_eq t 7) (k1_off213_eq t 7) (k1_off215_eq t 7) (k1_off217_eq t 7)
    (k1_off212_inb t 7) (k1_off214_inb t 7) (k1_off216_inb t 7) (k1_off218_inb t 7) (k1_off211_inb t 7) (k1_off213_inb t 7) (k1_off215_inb t 7) (k1_off217_inb t 7) h7
  intro r c hr
  exact h8 r c (by omega)

/-- The compaction step of loop 28 of 40: trip t copies rows [8 t, 8 t + 8) of the landing buffer's first 64 columns. -/
theorem compact_step_t29 (t : Fin k1_t29_loop.trips) (g : Buf (Elt F) (sR0.view.loc (thr d L))) (f : Buf (Elt F) (sC1.view.loc (thr d L)))
    (hC : Compacted (sR0.view.read (Elt F) g) (sC1.view.read (Elt F) f) t.val) :
    Compacted (sR0.view.read (Elt F) g) (sC1.view.read (Elt F) (sC1.view.writes (Elt F) f
      [cpiece d L sR0 g (k1_off226 t 7#32) (k1_off225 t 7#32) (k1_off226_inb t 7) (k1_off225_inb t 7),
       cpiece d L sR0 g (k1_off224 t 7#32) (k1_off223 t 7#32) (k1_off224_inb t 7) (k1_off223_inb t 7),
       cpiece d L sR0 g (k1_off222 t 7#32) (k1_off221 t 7#32) (k1_off222_inb t 7) (k1_off221_inb t 7),
       cpiece d L sR0 g (k1_off220 t 7#32) (k1_off219 t 7#32) (k1_off220_inb t 7) (k1_off219_inb t 7),
       cpiece d L sR0 g (k1_off226 t 6#32) (k1_off225 t 6#32) (k1_off226_inb t 6) (k1_off225_inb t 6),
       cpiece d L sR0 g (k1_off224 t 6#32) (k1_off223 t 6#32) (k1_off224_inb t 6) (k1_off223_inb t 6),
       cpiece d L sR0 g (k1_off222 t 6#32) (k1_off221 t 6#32) (k1_off222_inb t 6) (k1_off221_inb t 6),
       cpiece d L sR0 g (k1_off220 t 6#32) (k1_off219 t 6#32) (k1_off220_inb t 6) (k1_off219_inb t 6),
       cpiece d L sR0 g (k1_off226 t 5#32) (k1_off225 t 5#32) (k1_off226_inb t 5) (k1_off225_inb t 5),
       cpiece d L sR0 g (k1_off224 t 5#32) (k1_off223 t 5#32) (k1_off224_inb t 5) (k1_off223_inb t 5),
       cpiece d L sR0 g (k1_off222 t 5#32) (k1_off221 t 5#32) (k1_off222_inb t 5) (k1_off221_inb t 5),
       cpiece d L sR0 g (k1_off220 t 5#32) (k1_off219 t 5#32) (k1_off220_inb t 5) (k1_off219_inb t 5),
       cpiece d L sR0 g (k1_off226 t 4#32) (k1_off225 t 4#32) (k1_off226_inb t 4) (k1_off225_inb t 4),
       cpiece d L sR0 g (k1_off224 t 4#32) (k1_off223 t 4#32) (k1_off224_inb t 4) (k1_off223_inb t 4),
       cpiece d L sR0 g (k1_off222 t 4#32) (k1_off221 t 4#32) (k1_off222_inb t 4) (k1_off221_inb t 4),
       cpiece d L sR0 g (k1_off220 t 4#32) (k1_off219 t 4#32) (k1_off220_inb t 4) (k1_off219_inb t 4),
       cpiece d L sR0 g (k1_off226 t 3#32) (k1_off225 t 3#32) (k1_off226_inb t 3) (k1_off225_inb t 3),
       cpiece d L sR0 g (k1_off224 t 3#32) (k1_off223 t 3#32) (k1_off224_inb t 3) (k1_off223_inb t 3),
       cpiece d L sR0 g (k1_off222 t 3#32) (k1_off221 t 3#32) (k1_off222_inb t 3) (k1_off221_inb t 3),
       cpiece d L sR0 g (k1_off220 t 3#32) (k1_off219 t 3#32) (k1_off220_inb t 3) (k1_off219_inb t 3),
       cpiece d L sR0 g (k1_off226 t 2#32) (k1_off225 t 2#32) (k1_off226_inb t 2) (k1_off225_inb t 2),
       cpiece d L sR0 g (k1_off224 t 2#32) (k1_off223 t 2#32) (k1_off224_inb t 2) (k1_off223_inb t 2),
       cpiece d L sR0 g (k1_off222 t 2#32) (k1_off221 t 2#32) (k1_off222_inb t 2) (k1_off221_inb t 2),
       cpiece d L sR0 g (k1_off220 t 2#32) (k1_off219 t 2#32) (k1_off220_inb t 2) (k1_off219_inb t 2),
       cpiece d L sR0 g (k1_off226 t 1#32) (k1_off225 t 1#32) (k1_off226_inb t 1) (k1_off225_inb t 1),
       cpiece d L sR0 g (k1_off224 t 1#32) (k1_off223 t 1#32) (k1_off224_inb t 1) (k1_off223_inb t 1),
       cpiece d L sR0 g (k1_off222 t 1#32) (k1_off221 t 1#32) (k1_off222_inb t 1) (k1_off221_inb t 1),
       cpiece d L sR0 g (k1_off220 t 1#32) (k1_off219 t 1#32) (k1_off220_inb t 1) (k1_off219_inb t 1),
       cpiece d L sR0 g (k1_off226 t 0#32) (k1_off225 t 0#32) (k1_off226_inb t 0) (k1_off225_inb t 0),
       cpiece d L sR0 g (k1_off224 t 0#32) (k1_off223 t 0#32) (k1_off224_inb t 0) (k1_off223_inb t 0),
       cpiece d L sR0 g (k1_off222 t 0#32) (k1_off221 t 0#32) (k1_off222_inb t 0) (k1_off221_inb t 0),
       cpiece d L sR0 g (k1_off220 t 0#32) (k1_off219 t 0#32) (k1_off220_inb t 0) (k1_off219_inb t 0)])) (t.val + 1) := by
  have h1 := row_step_cons d L sR0 sC1 g f [] (8 * t.val + 0) (k1_off220 t 0#32) (k1_off222 t 0#32) (k1_off224 t 0#32) (k1_off226 t 0#32) (k1_off219 t 0#32) (k1_off221 t 0#32) (k1_off223 t 0#32) (k1_off225 t 0#32)
    (k1_off220_eq t 0) (k1_off222_eq t 0) (k1_off224_eq t 0) (k1_off226_eq t 0) (k1_off219_eq t 0) (k1_off221_eq t 0) (k1_off223_eq t 0) (k1_off225_eq t 0)
    (k1_off220_inb t 0) (k1_off222_inb t 0) (k1_off224_inb t 0) (k1_off226_inb t 0) (k1_off219_inb t 0) (k1_off221_inb t 0) (k1_off223_inb t 0) (k1_off225_inb t 0) ((compacted_iff_rows _ _ _).1 hC)
  have h2 := row_step_cons d L sR0 sC1 g f _ (8 * t.val + 1) (k1_off220 t 1#32) (k1_off222 t 1#32) (k1_off224 t 1#32) (k1_off226 t 1#32) (k1_off219 t 1#32) (k1_off221 t 1#32) (k1_off223 t 1#32) (k1_off225 t 1#32)
    (k1_off220_eq t 1) (k1_off222_eq t 1) (k1_off224_eq t 1) (k1_off226_eq t 1) (k1_off219_eq t 1) (k1_off221_eq t 1) (k1_off223_eq t 1) (k1_off225_eq t 1)
    (k1_off220_inb t 1) (k1_off222_inb t 1) (k1_off224_inb t 1) (k1_off226_inb t 1) (k1_off219_inb t 1) (k1_off221_inb t 1) (k1_off223_inb t 1) (k1_off225_inb t 1) h1
  have h3 := row_step_cons d L sR0 sC1 g f _ (8 * t.val + 2) (k1_off220 t 2#32) (k1_off222 t 2#32) (k1_off224 t 2#32) (k1_off226 t 2#32) (k1_off219 t 2#32) (k1_off221 t 2#32) (k1_off223 t 2#32) (k1_off225 t 2#32)
    (k1_off220_eq t 2) (k1_off222_eq t 2) (k1_off224_eq t 2) (k1_off226_eq t 2) (k1_off219_eq t 2) (k1_off221_eq t 2) (k1_off223_eq t 2) (k1_off225_eq t 2)
    (k1_off220_inb t 2) (k1_off222_inb t 2) (k1_off224_inb t 2) (k1_off226_inb t 2) (k1_off219_inb t 2) (k1_off221_inb t 2) (k1_off223_inb t 2) (k1_off225_inb t 2) h2
  have h4 := row_step_cons d L sR0 sC1 g f _ (8 * t.val + 3) (k1_off220 t 3#32) (k1_off222 t 3#32) (k1_off224 t 3#32) (k1_off226 t 3#32) (k1_off219 t 3#32) (k1_off221 t 3#32) (k1_off223 t 3#32) (k1_off225 t 3#32)
    (k1_off220_eq t 3) (k1_off222_eq t 3) (k1_off224_eq t 3) (k1_off226_eq t 3) (k1_off219_eq t 3) (k1_off221_eq t 3) (k1_off223_eq t 3) (k1_off225_eq t 3)
    (k1_off220_inb t 3) (k1_off222_inb t 3) (k1_off224_inb t 3) (k1_off226_inb t 3) (k1_off219_inb t 3) (k1_off221_inb t 3) (k1_off223_inb t 3) (k1_off225_inb t 3) h3
  have h5 := row_step_cons d L sR0 sC1 g f _ (8 * t.val + 4) (k1_off220 t 4#32) (k1_off222 t 4#32) (k1_off224 t 4#32) (k1_off226 t 4#32) (k1_off219 t 4#32) (k1_off221 t 4#32) (k1_off223 t 4#32) (k1_off225 t 4#32)
    (k1_off220_eq t 4) (k1_off222_eq t 4) (k1_off224_eq t 4) (k1_off226_eq t 4) (k1_off219_eq t 4) (k1_off221_eq t 4) (k1_off223_eq t 4) (k1_off225_eq t 4)
    (k1_off220_inb t 4) (k1_off222_inb t 4) (k1_off224_inb t 4) (k1_off226_inb t 4) (k1_off219_inb t 4) (k1_off221_inb t 4) (k1_off223_inb t 4) (k1_off225_inb t 4) h4
  have h6 := row_step_cons d L sR0 sC1 g f _ (8 * t.val + 5) (k1_off220 t 5#32) (k1_off222 t 5#32) (k1_off224 t 5#32) (k1_off226 t 5#32) (k1_off219 t 5#32) (k1_off221 t 5#32) (k1_off223 t 5#32) (k1_off225 t 5#32)
    (k1_off220_eq t 5) (k1_off222_eq t 5) (k1_off224_eq t 5) (k1_off226_eq t 5) (k1_off219_eq t 5) (k1_off221_eq t 5) (k1_off223_eq t 5) (k1_off225_eq t 5)
    (k1_off220_inb t 5) (k1_off222_inb t 5) (k1_off224_inb t 5) (k1_off226_inb t 5) (k1_off219_inb t 5) (k1_off221_inb t 5) (k1_off223_inb t 5) (k1_off225_inb t 5) h5
  have h7 := row_step_cons d L sR0 sC1 g f _ (8 * t.val + 6) (k1_off220 t 6#32) (k1_off222 t 6#32) (k1_off224 t 6#32) (k1_off226 t 6#32) (k1_off219 t 6#32) (k1_off221 t 6#32) (k1_off223 t 6#32) (k1_off225 t 6#32)
    (k1_off220_eq t 6) (k1_off222_eq t 6) (k1_off224_eq t 6) (k1_off226_eq t 6) (k1_off219_eq t 6) (k1_off221_eq t 6) (k1_off223_eq t 6) (k1_off225_eq t 6)
    (k1_off220_inb t 6) (k1_off222_inb t 6) (k1_off224_inb t 6) (k1_off226_inb t 6) (k1_off219_inb t 6) (k1_off221_inb t 6) (k1_off223_inb t 6) (k1_off225_inb t 6) h6
  have h8 := row_step_cons d L sR0 sC1 g f _ (8 * t.val + 7) (k1_off220 t 7#32) (k1_off222 t 7#32) (k1_off224 t 7#32) (k1_off226 t 7#32) (k1_off219 t 7#32) (k1_off221 t 7#32) (k1_off223 t 7#32) (k1_off225 t 7#32)
    (k1_off220_eq t 7) (k1_off222_eq t 7) (k1_off224_eq t 7) (k1_off226_eq t 7) (k1_off219_eq t 7) (k1_off221_eq t 7) (k1_off223_eq t 7) (k1_off225_eq t 7)
    (k1_off220_inb t 7) (k1_off222_inb t 7) (k1_off224_inb t 7) (k1_off226_inb t 7) (k1_off219_inb t 7) (k1_off221_inb t 7) (k1_off223_inb t 7) (k1_off225_inb t 7) h7
  intro r c hr
  exact h8 r c (by omega)

/-- The compaction step of loop 29 of 40: trip t copies rows [8 t, 8 t + 8) of the landing buffer's first 64 columns. -/
theorem compact_step_t30 (t : Fin k1_t30_loop.trips) (g : Buf (Elt F) (sR1.view.loc (thr d L))) (f : Buf (Elt F) (sC0.view.loc (thr d L)))
    (hC : Compacted (sR1.view.read (Elt F) g) (sC0.view.read (Elt F) f) t.val) :
    Compacted (sR1.view.read (Elt F) g) (sC0.view.read (Elt F) (sC0.view.writes (Elt F) f
      [cpiece d L sR1 g (k1_off234 t 7#32) (k1_off233 t 7#32) (k1_off234_inb t 7) (k1_off233_inb t 7),
       cpiece d L sR1 g (k1_off232 t 7#32) (k1_off231 t 7#32) (k1_off232_inb t 7) (k1_off231_inb t 7),
       cpiece d L sR1 g (k1_off230 t 7#32) (k1_off229 t 7#32) (k1_off230_inb t 7) (k1_off229_inb t 7),
       cpiece d L sR1 g (k1_off228 t 7#32) (k1_off227 t 7#32) (k1_off228_inb t 7) (k1_off227_inb t 7),
       cpiece d L sR1 g (k1_off234 t 6#32) (k1_off233 t 6#32) (k1_off234_inb t 6) (k1_off233_inb t 6),
       cpiece d L sR1 g (k1_off232 t 6#32) (k1_off231 t 6#32) (k1_off232_inb t 6) (k1_off231_inb t 6),
       cpiece d L sR1 g (k1_off230 t 6#32) (k1_off229 t 6#32) (k1_off230_inb t 6) (k1_off229_inb t 6),
       cpiece d L sR1 g (k1_off228 t 6#32) (k1_off227 t 6#32) (k1_off228_inb t 6) (k1_off227_inb t 6),
       cpiece d L sR1 g (k1_off234 t 5#32) (k1_off233 t 5#32) (k1_off234_inb t 5) (k1_off233_inb t 5),
       cpiece d L sR1 g (k1_off232 t 5#32) (k1_off231 t 5#32) (k1_off232_inb t 5) (k1_off231_inb t 5),
       cpiece d L sR1 g (k1_off230 t 5#32) (k1_off229 t 5#32) (k1_off230_inb t 5) (k1_off229_inb t 5),
       cpiece d L sR1 g (k1_off228 t 5#32) (k1_off227 t 5#32) (k1_off228_inb t 5) (k1_off227_inb t 5),
       cpiece d L sR1 g (k1_off234 t 4#32) (k1_off233 t 4#32) (k1_off234_inb t 4) (k1_off233_inb t 4),
       cpiece d L sR1 g (k1_off232 t 4#32) (k1_off231 t 4#32) (k1_off232_inb t 4) (k1_off231_inb t 4),
       cpiece d L sR1 g (k1_off230 t 4#32) (k1_off229 t 4#32) (k1_off230_inb t 4) (k1_off229_inb t 4),
       cpiece d L sR1 g (k1_off228 t 4#32) (k1_off227 t 4#32) (k1_off228_inb t 4) (k1_off227_inb t 4),
       cpiece d L sR1 g (k1_off234 t 3#32) (k1_off233 t 3#32) (k1_off234_inb t 3) (k1_off233_inb t 3),
       cpiece d L sR1 g (k1_off232 t 3#32) (k1_off231 t 3#32) (k1_off232_inb t 3) (k1_off231_inb t 3),
       cpiece d L sR1 g (k1_off230 t 3#32) (k1_off229 t 3#32) (k1_off230_inb t 3) (k1_off229_inb t 3),
       cpiece d L sR1 g (k1_off228 t 3#32) (k1_off227 t 3#32) (k1_off228_inb t 3) (k1_off227_inb t 3),
       cpiece d L sR1 g (k1_off234 t 2#32) (k1_off233 t 2#32) (k1_off234_inb t 2) (k1_off233_inb t 2),
       cpiece d L sR1 g (k1_off232 t 2#32) (k1_off231 t 2#32) (k1_off232_inb t 2) (k1_off231_inb t 2),
       cpiece d L sR1 g (k1_off230 t 2#32) (k1_off229 t 2#32) (k1_off230_inb t 2) (k1_off229_inb t 2),
       cpiece d L sR1 g (k1_off228 t 2#32) (k1_off227 t 2#32) (k1_off228_inb t 2) (k1_off227_inb t 2),
       cpiece d L sR1 g (k1_off234 t 1#32) (k1_off233 t 1#32) (k1_off234_inb t 1) (k1_off233_inb t 1),
       cpiece d L sR1 g (k1_off232 t 1#32) (k1_off231 t 1#32) (k1_off232_inb t 1) (k1_off231_inb t 1),
       cpiece d L sR1 g (k1_off230 t 1#32) (k1_off229 t 1#32) (k1_off230_inb t 1) (k1_off229_inb t 1),
       cpiece d L sR1 g (k1_off228 t 1#32) (k1_off227 t 1#32) (k1_off228_inb t 1) (k1_off227_inb t 1),
       cpiece d L sR1 g (k1_off234 t 0#32) (k1_off233 t 0#32) (k1_off234_inb t 0) (k1_off233_inb t 0),
       cpiece d L sR1 g (k1_off232 t 0#32) (k1_off231 t 0#32) (k1_off232_inb t 0) (k1_off231_inb t 0),
       cpiece d L sR1 g (k1_off230 t 0#32) (k1_off229 t 0#32) (k1_off230_inb t 0) (k1_off229_inb t 0),
       cpiece d L sR1 g (k1_off228 t 0#32) (k1_off227 t 0#32) (k1_off228_inb t 0) (k1_off227_inb t 0)])) (t.val + 1) := by
  have h1 := row_step_cons d L sR1 sC0 g f [] (8 * t.val + 0) (k1_off228 t 0#32) (k1_off230 t 0#32) (k1_off232 t 0#32) (k1_off234 t 0#32) (k1_off227 t 0#32) (k1_off229 t 0#32) (k1_off231 t 0#32) (k1_off233 t 0#32)
    (k1_off228_eq t 0) (k1_off230_eq t 0) (k1_off232_eq t 0) (k1_off234_eq t 0) (k1_off227_eq t 0) (k1_off229_eq t 0) (k1_off231_eq t 0) (k1_off233_eq t 0)
    (k1_off228_inb t 0) (k1_off230_inb t 0) (k1_off232_inb t 0) (k1_off234_inb t 0) (k1_off227_inb t 0) (k1_off229_inb t 0) (k1_off231_inb t 0) (k1_off233_inb t 0) ((compacted_iff_rows _ _ _).1 hC)
  have h2 := row_step_cons d L sR1 sC0 g f _ (8 * t.val + 1) (k1_off228 t 1#32) (k1_off230 t 1#32) (k1_off232 t 1#32) (k1_off234 t 1#32) (k1_off227 t 1#32) (k1_off229 t 1#32) (k1_off231 t 1#32) (k1_off233 t 1#32)
    (k1_off228_eq t 1) (k1_off230_eq t 1) (k1_off232_eq t 1) (k1_off234_eq t 1) (k1_off227_eq t 1) (k1_off229_eq t 1) (k1_off231_eq t 1) (k1_off233_eq t 1)
    (k1_off228_inb t 1) (k1_off230_inb t 1) (k1_off232_inb t 1) (k1_off234_inb t 1) (k1_off227_inb t 1) (k1_off229_inb t 1) (k1_off231_inb t 1) (k1_off233_inb t 1) h1
  have h3 := row_step_cons d L sR1 sC0 g f _ (8 * t.val + 2) (k1_off228 t 2#32) (k1_off230 t 2#32) (k1_off232 t 2#32) (k1_off234 t 2#32) (k1_off227 t 2#32) (k1_off229 t 2#32) (k1_off231 t 2#32) (k1_off233 t 2#32)
    (k1_off228_eq t 2) (k1_off230_eq t 2) (k1_off232_eq t 2) (k1_off234_eq t 2) (k1_off227_eq t 2) (k1_off229_eq t 2) (k1_off231_eq t 2) (k1_off233_eq t 2)
    (k1_off228_inb t 2) (k1_off230_inb t 2) (k1_off232_inb t 2) (k1_off234_inb t 2) (k1_off227_inb t 2) (k1_off229_inb t 2) (k1_off231_inb t 2) (k1_off233_inb t 2) h2
  have h4 := row_step_cons d L sR1 sC0 g f _ (8 * t.val + 3) (k1_off228 t 3#32) (k1_off230 t 3#32) (k1_off232 t 3#32) (k1_off234 t 3#32) (k1_off227 t 3#32) (k1_off229 t 3#32) (k1_off231 t 3#32) (k1_off233 t 3#32)
    (k1_off228_eq t 3) (k1_off230_eq t 3) (k1_off232_eq t 3) (k1_off234_eq t 3) (k1_off227_eq t 3) (k1_off229_eq t 3) (k1_off231_eq t 3) (k1_off233_eq t 3)
    (k1_off228_inb t 3) (k1_off230_inb t 3) (k1_off232_inb t 3) (k1_off234_inb t 3) (k1_off227_inb t 3) (k1_off229_inb t 3) (k1_off231_inb t 3) (k1_off233_inb t 3) h3
  have h5 := row_step_cons d L sR1 sC0 g f _ (8 * t.val + 4) (k1_off228 t 4#32) (k1_off230 t 4#32) (k1_off232 t 4#32) (k1_off234 t 4#32) (k1_off227 t 4#32) (k1_off229 t 4#32) (k1_off231 t 4#32) (k1_off233 t 4#32)
    (k1_off228_eq t 4) (k1_off230_eq t 4) (k1_off232_eq t 4) (k1_off234_eq t 4) (k1_off227_eq t 4) (k1_off229_eq t 4) (k1_off231_eq t 4) (k1_off233_eq t 4)
    (k1_off228_inb t 4) (k1_off230_inb t 4) (k1_off232_inb t 4) (k1_off234_inb t 4) (k1_off227_inb t 4) (k1_off229_inb t 4) (k1_off231_inb t 4) (k1_off233_inb t 4) h4
  have h6 := row_step_cons d L sR1 sC0 g f _ (8 * t.val + 5) (k1_off228 t 5#32) (k1_off230 t 5#32) (k1_off232 t 5#32) (k1_off234 t 5#32) (k1_off227 t 5#32) (k1_off229 t 5#32) (k1_off231 t 5#32) (k1_off233 t 5#32)
    (k1_off228_eq t 5) (k1_off230_eq t 5) (k1_off232_eq t 5) (k1_off234_eq t 5) (k1_off227_eq t 5) (k1_off229_eq t 5) (k1_off231_eq t 5) (k1_off233_eq t 5)
    (k1_off228_inb t 5) (k1_off230_inb t 5) (k1_off232_inb t 5) (k1_off234_inb t 5) (k1_off227_inb t 5) (k1_off229_inb t 5) (k1_off231_inb t 5) (k1_off233_inb t 5) h5
  have h7 := row_step_cons d L sR1 sC0 g f _ (8 * t.val + 6) (k1_off228 t 6#32) (k1_off230 t 6#32) (k1_off232 t 6#32) (k1_off234 t 6#32) (k1_off227 t 6#32) (k1_off229 t 6#32) (k1_off231 t 6#32) (k1_off233 t 6#32)
    (k1_off228_eq t 6) (k1_off230_eq t 6) (k1_off232_eq t 6) (k1_off234_eq t 6) (k1_off227_eq t 6) (k1_off229_eq t 6) (k1_off231_eq t 6) (k1_off233_eq t 6)
    (k1_off228_inb t 6) (k1_off230_inb t 6) (k1_off232_inb t 6) (k1_off234_inb t 6) (k1_off227_inb t 6) (k1_off229_inb t 6) (k1_off231_inb t 6) (k1_off233_inb t 6) h6
  have h8 := row_step_cons d L sR1 sC0 g f _ (8 * t.val + 7) (k1_off228 t 7#32) (k1_off230 t 7#32) (k1_off232 t 7#32) (k1_off234 t 7#32) (k1_off227 t 7#32) (k1_off229 t 7#32) (k1_off231 t 7#32) (k1_off233 t 7#32)
    (k1_off228_eq t 7) (k1_off230_eq t 7) (k1_off232_eq t 7) (k1_off234_eq t 7) (k1_off227_eq t 7) (k1_off229_eq t 7) (k1_off231_eq t 7) (k1_off233_eq t 7)
    (k1_off228_inb t 7) (k1_off230_inb t 7) (k1_off232_inb t 7) (k1_off234_inb t 7) (k1_off227_inb t 7) (k1_off229_inb t 7) (k1_off231_inb t 7) (k1_off233_inb t 7) h7
  intro r c hr
  exact h8 r c (by omega)

/-- The compaction step of loop 30 of 40: trip t copies rows [8 t, 8 t + 8) of the landing buffer's first 64 columns. -/
theorem compact_step_t31 (t : Fin k1_t31_loop.trips) (g : Buf (Elt F) (sR2.view.loc (thr d L))) (f : Buf (Elt F) (sC1.view.loc (thr d L)))
    (hC : Compacted (sR2.view.read (Elt F) g) (sC1.view.read (Elt F) f) t.val) :
    Compacted (sR2.view.read (Elt F) g) (sC1.view.read (Elt F) (sC1.view.writes (Elt F) f
      [cpiece d L sR2 g (k1_off242 t 7#32) (k1_off241 t 7#32) (k1_off242_inb t 7) (k1_off241_inb t 7),
       cpiece d L sR2 g (k1_off240 t 7#32) (k1_off239 t 7#32) (k1_off240_inb t 7) (k1_off239_inb t 7),
       cpiece d L sR2 g (k1_off238 t 7#32) (k1_off237 t 7#32) (k1_off238_inb t 7) (k1_off237_inb t 7),
       cpiece d L sR2 g (k1_off236 t 7#32) (k1_off235 t 7#32) (k1_off236_inb t 7) (k1_off235_inb t 7),
       cpiece d L sR2 g (k1_off242 t 6#32) (k1_off241 t 6#32) (k1_off242_inb t 6) (k1_off241_inb t 6),
       cpiece d L sR2 g (k1_off240 t 6#32) (k1_off239 t 6#32) (k1_off240_inb t 6) (k1_off239_inb t 6),
       cpiece d L sR2 g (k1_off238 t 6#32) (k1_off237 t 6#32) (k1_off238_inb t 6) (k1_off237_inb t 6),
       cpiece d L sR2 g (k1_off236 t 6#32) (k1_off235 t 6#32) (k1_off236_inb t 6) (k1_off235_inb t 6),
       cpiece d L sR2 g (k1_off242 t 5#32) (k1_off241 t 5#32) (k1_off242_inb t 5) (k1_off241_inb t 5),
       cpiece d L sR2 g (k1_off240 t 5#32) (k1_off239 t 5#32) (k1_off240_inb t 5) (k1_off239_inb t 5),
       cpiece d L sR2 g (k1_off238 t 5#32) (k1_off237 t 5#32) (k1_off238_inb t 5) (k1_off237_inb t 5),
       cpiece d L sR2 g (k1_off236 t 5#32) (k1_off235 t 5#32) (k1_off236_inb t 5) (k1_off235_inb t 5),
       cpiece d L sR2 g (k1_off242 t 4#32) (k1_off241 t 4#32) (k1_off242_inb t 4) (k1_off241_inb t 4),
       cpiece d L sR2 g (k1_off240 t 4#32) (k1_off239 t 4#32) (k1_off240_inb t 4) (k1_off239_inb t 4),
       cpiece d L sR2 g (k1_off238 t 4#32) (k1_off237 t 4#32) (k1_off238_inb t 4) (k1_off237_inb t 4),
       cpiece d L sR2 g (k1_off236 t 4#32) (k1_off235 t 4#32) (k1_off236_inb t 4) (k1_off235_inb t 4),
       cpiece d L sR2 g (k1_off242 t 3#32) (k1_off241 t 3#32) (k1_off242_inb t 3) (k1_off241_inb t 3),
       cpiece d L sR2 g (k1_off240 t 3#32) (k1_off239 t 3#32) (k1_off240_inb t 3) (k1_off239_inb t 3),
       cpiece d L sR2 g (k1_off238 t 3#32) (k1_off237 t 3#32) (k1_off238_inb t 3) (k1_off237_inb t 3),
       cpiece d L sR2 g (k1_off236 t 3#32) (k1_off235 t 3#32) (k1_off236_inb t 3) (k1_off235_inb t 3),
       cpiece d L sR2 g (k1_off242 t 2#32) (k1_off241 t 2#32) (k1_off242_inb t 2) (k1_off241_inb t 2),
       cpiece d L sR2 g (k1_off240 t 2#32) (k1_off239 t 2#32) (k1_off240_inb t 2) (k1_off239_inb t 2),
       cpiece d L sR2 g (k1_off238 t 2#32) (k1_off237 t 2#32) (k1_off238_inb t 2) (k1_off237_inb t 2),
       cpiece d L sR2 g (k1_off236 t 2#32) (k1_off235 t 2#32) (k1_off236_inb t 2) (k1_off235_inb t 2),
       cpiece d L sR2 g (k1_off242 t 1#32) (k1_off241 t 1#32) (k1_off242_inb t 1) (k1_off241_inb t 1),
       cpiece d L sR2 g (k1_off240 t 1#32) (k1_off239 t 1#32) (k1_off240_inb t 1) (k1_off239_inb t 1),
       cpiece d L sR2 g (k1_off238 t 1#32) (k1_off237 t 1#32) (k1_off238_inb t 1) (k1_off237_inb t 1),
       cpiece d L sR2 g (k1_off236 t 1#32) (k1_off235 t 1#32) (k1_off236_inb t 1) (k1_off235_inb t 1),
       cpiece d L sR2 g (k1_off242 t 0#32) (k1_off241 t 0#32) (k1_off242_inb t 0) (k1_off241_inb t 0),
       cpiece d L sR2 g (k1_off240 t 0#32) (k1_off239 t 0#32) (k1_off240_inb t 0) (k1_off239_inb t 0),
       cpiece d L sR2 g (k1_off238 t 0#32) (k1_off237 t 0#32) (k1_off238_inb t 0) (k1_off237_inb t 0),
       cpiece d L sR2 g (k1_off236 t 0#32) (k1_off235 t 0#32) (k1_off236_inb t 0) (k1_off235_inb t 0)])) (t.val + 1) := by
  have h1 := row_step_cons d L sR2 sC1 g f [] (8 * t.val + 0) (k1_off236 t 0#32) (k1_off238 t 0#32) (k1_off240 t 0#32) (k1_off242 t 0#32) (k1_off235 t 0#32) (k1_off237 t 0#32) (k1_off239 t 0#32) (k1_off241 t 0#32)
    (k1_off236_eq t 0) (k1_off238_eq t 0) (k1_off240_eq t 0) (k1_off242_eq t 0) (k1_off235_eq t 0) (k1_off237_eq t 0) (k1_off239_eq t 0) (k1_off241_eq t 0)
    (k1_off236_inb t 0) (k1_off238_inb t 0) (k1_off240_inb t 0) (k1_off242_inb t 0) (k1_off235_inb t 0) (k1_off237_inb t 0) (k1_off239_inb t 0) (k1_off241_inb t 0) ((compacted_iff_rows _ _ _).1 hC)
  have h2 := row_step_cons d L sR2 sC1 g f _ (8 * t.val + 1) (k1_off236 t 1#32) (k1_off238 t 1#32) (k1_off240 t 1#32) (k1_off242 t 1#32) (k1_off235 t 1#32) (k1_off237 t 1#32) (k1_off239 t 1#32) (k1_off241 t 1#32)
    (k1_off236_eq t 1) (k1_off238_eq t 1) (k1_off240_eq t 1) (k1_off242_eq t 1) (k1_off235_eq t 1) (k1_off237_eq t 1) (k1_off239_eq t 1) (k1_off241_eq t 1)
    (k1_off236_inb t 1) (k1_off238_inb t 1) (k1_off240_inb t 1) (k1_off242_inb t 1) (k1_off235_inb t 1) (k1_off237_inb t 1) (k1_off239_inb t 1) (k1_off241_inb t 1) h1
  have h3 := row_step_cons d L sR2 sC1 g f _ (8 * t.val + 2) (k1_off236 t 2#32) (k1_off238 t 2#32) (k1_off240 t 2#32) (k1_off242 t 2#32) (k1_off235 t 2#32) (k1_off237 t 2#32) (k1_off239 t 2#32) (k1_off241 t 2#32)
    (k1_off236_eq t 2) (k1_off238_eq t 2) (k1_off240_eq t 2) (k1_off242_eq t 2) (k1_off235_eq t 2) (k1_off237_eq t 2) (k1_off239_eq t 2) (k1_off241_eq t 2)
    (k1_off236_inb t 2) (k1_off238_inb t 2) (k1_off240_inb t 2) (k1_off242_inb t 2) (k1_off235_inb t 2) (k1_off237_inb t 2) (k1_off239_inb t 2) (k1_off241_inb t 2) h2
  have h4 := row_step_cons d L sR2 sC1 g f _ (8 * t.val + 3) (k1_off236 t 3#32) (k1_off238 t 3#32) (k1_off240 t 3#32) (k1_off242 t 3#32) (k1_off235 t 3#32) (k1_off237 t 3#32) (k1_off239 t 3#32) (k1_off241 t 3#32)
    (k1_off236_eq t 3) (k1_off238_eq t 3) (k1_off240_eq t 3) (k1_off242_eq t 3) (k1_off235_eq t 3) (k1_off237_eq t 3) (k1_off239_eq t 3) (k1_off241_eq t 3)
    (k1_off236_inb t 3) (k1_off238_inb t 3) (k1_off240_inb t 3) (k1_off242_inb t 3) (k1_off235_inb t 3) (k1_off237_inb t 3) (k1_off239_inb t 3) (k1_off241_inb t 3) h3
  have h5 := row_step_cons d L sR2 sC1 g f _ (8 * t.val + 4) (k1_off236 t 4#32) (k1_off238 t 4#32) (k1_off240 t 4#32) (k1_off242 t 4#32) (k1_off235 t 4#32) (k1_off237 t 4#32) (k1_off239 t 4#32) (k1_off241 t 4#32)
    (k1_off236_eq t 4) (k1_off238_eq t 4) (k1_off240_eq t 4) (k1_off242_eq t 4) (k1_off235_eq t 4) (k1_off237_eq t 4) (k1_off239_eq t 4) (k1_off241_eq t 4)
    (k1_off236_inb t 4) (k1_off238_inb t 4) (k1_off240_inb t 4) (k1_off242_inb t 4) (k1_off235_inb t 4) (k1_off237_inb t 4) (k1_off239_inb t 4) (k1_off241_inb t 4) h4
  have h6 := row_step_cons d L sR2 sC1 g f _ (8 * t.val + 5) (k1_off236 t 5#32) (k1_off238 t 5#32) (k1_off240 t 5#32) (k1_off242 t 5#32) (k1_off235 t 5#32) (k1_off237 t 5#32) (k1_off239 t 5#32) (k1_off241 t 5#32)
    (k1_off236_eq t 5) (k1_off238_eq t 5) (k1_off240_eq t 5) (k1_off242_eq t 5) (k1_off235_eq t 5) (k1_off237_eq t 5) (k1_off239_eq t 5) (k1_off241_eq t 5)
    (k1_off236_inb t 5) (k1_off238_inb t 5) (k1_off240_inb t 5) (k1_off242_inb t 5) (k1_off235_inb t 5) (k1_off237_inb t 5) (k1_off239_inb t 5) (k1_off241_inb t 5) h5
  have h7 := row_step_cons d L sR2 sC1 g f _ (8 * t.val + 6) (k1_off236 t 6#32) (k1_off238 t 6#32) (k1_off240 t 6#32) (k1_off242 t 6#32) (k1_off235 t 6#32) (k1_off237 t 6#32) (k1_off239 t 6#32) (k1_off241 t 6#32)
    (k1_off236_eq t 6) (k1_off238_eq t 6) (k1_off240_eq t 6) (k1_off242_eq t 6) (k1_off235_eq t 6) (k1_off237_eq t 6) (k1_off239_eq t 6) (k1_off241_eq t 6)
    (k1_off236_inb t 6) (k1_off238_inb t 6) (k1_off240_inb t 6) (k1_off242_inb t 6) (k1_off235_inb t 6) (k1_off237_inb t 6) (k1_off239_inb t 6) (k1_off241_inb t 6) h6
  have h8 := row_step_cons d L sR2 sC1 g f _ (8 * t.val + 7) (k1_off236 t 7#32) (k1_off238 t 7#32) (k1_off240 t 7#32) (k1_off242 t 7#32) (k1_off235 t 7#32) (k1_off237 t 7#32) (k1_off239 t 7#32) (k1_off241 t 7#32)
    (k1_off236_eq t 7) (k1_off238_eq t 7) (k1_off240_eq t 7) (k1_off242_eq t 7) (k1_off235_eq t 7) (k1_off237_eq t 7) (k1_off239_eq t 7) (k1_off241_eq t 7)
    (k1_off236_inb t 7) (k1_off238_inb t 7) (k1_off240_inb t 7) (k1_off242_inb t 7) (k1_off235_inb t 7) (k1_off237_inb t 7) (k1_off239_inb t 7) (k1_off241_inb t 7) h7
  intro r c hr
  exact h8 r c (by omega)

end Cert.Proof.KB

end
-- ==== Proof.KB.TileVal2d.lean ====
/-
  The compaction steps of loops 31 to 40 of the 40, one statement each: trip t of a chunk's compaction loop copies eight more
  rows' first 64 columns from its landing buffer into its compacted buffer. Each is eight applications of the one-row
  step at the loop's own offset functions, whose closed forms are row 8 t + j, columns 0, 16, 32, 48.
-/
import proofs.«217222_g83150566851320_cont_9to1_m_45_25_alg».proof.Proof.KB.TileVal

noncomputable section

namespace Cert.Proof.KB

open Cert.Kernel Cert.Kernel.Gen

open Idealize.ShloMosaic
open Idealize.ShloMosaic.SparseCore (S V T)
open Idealize.ShloMosaic.ValueIdx (ix2 ix3)

variable {F : FTy → Type} [FloatOps F]

variable (d : Dev nD) (L : grid1.Coords)

/-- The compaction step of loop 31 of 40: trip t copies rows [8 t, 8 t + 8) of the landing buffer's first 64 columns. -/
theorem compact_step_t32 (t : Fin k1_t32_loop.trips) (g : Buf (Elt F) (sR0.view.loc (thr d L))) (f : Buf (Elt F) (sC0.view.loc (thr d L)))
    (hC : Compacted (sR0.view.read (Elt F) g) (sC0.view.read (Elt F) f) t.val) :
    Compacted (sR0.view.read (Elt F) g) (sC0.view.read (Elt F) (sC0.view.writes (Elt F) f
      [cpiece d L sR0 g (k1_off250 t 7#32) (k1_off249 t 7#32) (k1_off250_inb t 7) (k1_off249_inb t 7),
       cpiece d L sR0 g (k1_off248 t 7#32) (k1_off247 t 7#32) (k1_off248_inb t 7) (k1_off247_inb t 7),
       cpiece d L sR0 g (k1_off246 t 7#32) (k1_off245 t 7#32) (k1_off246_inb t 7) (k1_off245_inb t 7),
       cpiece d L sR0 g (k1_off244 t 7#32) (k1_off243 t 7#32) (k1_off244_inb t 7) (k1_off243_inb t 7),
       cpiece d L sR0 g (k1_off250 t 6#32) (k1_off249 t 6#32) (k1_off250_inb t 6) (k1_off249_inb t 6),
       cpiece d L sR0 g (k1_off248 t 6#32) (k1_off247 t 6#32) (k1_off248_inb t 6) (k1_off247_inb t 6),
       cpiece d L sR0 g (k1_off246 t 6#32) (k1_off245 t 6#32) (k1_off246_inb t 6) (k1_off245_inb t 6),
       cpiece d L sR0 g (k1_off244 t 6#32) (k1_off243 t 6#32) (k1_off244_inb t 6) (k1_off243_inb t 6),
       cpiece d L sR0 g (k1_off250 t 5#32) (k1_off249 t 5#32) (k1_off250_inb t 5) (k1_off249_inb t 5),
       cpiece d L sR0 g (k1_off248 t 5#32) (k1_off247 t 5#32) (k1_off248_inb t 5) (k1_off247_inb t 5),
       cpiece d L sR0 g (k1_off246 t 5#32) (k1_off245 t 5#32) (k1_off246_inb t 5) (k1_off245_inb t 5),
       cpiece d L sR0 g (k1_off244 t 5#32) (k1_off243 t 5#32) (k1_off244_inb t 5) (k1_off243_inb t 5),
       cpiece d L sR0 g (k1_off250 t 4#32) (k1_off249 t 4#32) (k1_off250_inb t 4) (k1_off249_inb t 4),
       cpiece d L sR0 g (k1_off248 t 4#32) (k1_off247 t 4#32) (k1_off248_inb t 4) (k1_off247_inb t 4),
       cpiece d L sR0 g (k1_off246 t 4#32) (k1_off245 t 4#32) (k1_off246_inb t 4) (k1_off245_inb t 4),
       cpiece d L sR0 g (k1_off244 t 4#32) (k1_off243 t 4#32) (k1_off244_inb t 4) (k1_off243_inb t 4),
       cpiece d L sR0 g (k1_off250 t 3#32) (k1_off249 t 3#32) (k1_off250_inb t 3) (k1_off249_inb t 3),
       cpiece d L sR0 g (k1_off248 t 3#32) (k1_off247 t 3#32) (k1_off248_inb t 3) (k1_off247_inb t 3),
       cpiece d L sR0 g (k1_off246 t 3#32) (k1_off245 t 3#32) (k1_off246_inb t 3) (k1_off245_inb t 3),
       cpiece d L sR0 g (k1_off244 t 3#32) (k1_off243 t 3#32) (k1_off244_inb t 3) (k1_off243_inb t 3),
       cpiece d L sR0 g (k1_off250 t 2#32) (k1_off249 t 2#32) (k1_off250_inb t 2) (k1_off249_inb t 2),
       cpiece d L sR0 g (k1_off248 t 2#32) (k1_off247 t 2#32) (k1_off248_inb t 2) (k1_off247_inb t 2),
       cpiece d L sR0 g (k1_off246 t 2#32) (k1_off245 t 2#32) (k1_off246_inb t 2) (k1_off245_inb t 2),
       cpiece d L sR0 g (k1_off244 t 2#32) (k1_off243 t 2#32) (k1_off244_inb t 2) (k1_off243_inb t 2),
       cpiece d L sR0 g (k1_off250 t 1#32) (k1_off249 t 1#32) (k1_off250_inb t 1) (k1_off249_inb t 1),
       cpiece d L sR0 g (k1_off248 t 1#32) (k1_off247 t 1#32) (k1_off248_inb t 1) (k1_off247_inb t 1),
       cpiece d L sR0 g (k1_off246 t 1#32) (k1_off245 t 1#32) (k1_off246_inb t 1) (k1_off245_inb t 1),
       cpiece d L sR0 g (k1_off244 t 1#32) (k1_off243 t 1#32) (k1_off244_inb t 1) (k1_off243_inb t 1),
       cpiece d L sR0 g (k1_off250 t 0#32) (k1_off249 t 0#32) (k1_off250_inb t 0) (k1_off249_inb t 0),
       cpiece d L sR0 g (k1_off248 t 0#32) (k1_off247 t 0#32) (k1_off248_inb t 0) (k1_off247_inb t 0),
       cpiece d L sR0 g (k1_off246 t 0#32) (k1_off245 t 0#32) (k1_off246_inb t 0) (k1_off245_inb t 0),
       cpiece d L sR0 g (k1_off244 t 0#32) (k1_off243 t 0#32) (k1_off244_inb t 0) (k1_off243_inb t 0)])) (t.val + 1) := by
  have h1 := row_step_cons d L sR0 sC0 g f [] (8 * t.val + 0) (k1_off244 t 0#32) (k1_off246 t 0#32) (k1_off248 t 0#32) (k1_off250 t 0#32) (k1_off243 t 0#32) (k1_off245 t 0#32) (k1_off247 t 0#32) (k1_off249 t 0#32)
    (k1_off244_eq t 0) (k1_off246_eq t 0) (k1_off248_eq t 0) (k1_off250_eq t 0) (k1_off243_eq t 0) (k1_off245_eq t 0) (k1_off247_eq t 0) (k1_off249_eq t 0)
    (k1_off244_inb t 0) (k1_off246_inb t 0) (k1_off248_inb t 0) (k1_off250_inb t 0) (k1_off243_inb t 0) (k1_off245_inb t 0) (k1_off247_inb t 0) (k1_off249_inb t 0) ((compacted_iff_rows _ _ _).1 hC)
  have h2 := row_step_cons d L sR0 sC0 g f _ (8 * t.val + 1) (k1_off244 t 1#32) (k1_off246 t 1#32) (k1_off248 t 1#32) (k1_off250 t 1#32) (k1_off243 t 1#32) (k1_off245 t 1#32) (k1_off247 t 1#32) (k1_off249 t 1#32)
    (k1_off244_eq t 1) (k1_off246_eq t 1) (k1_off248_eq t 1) (k1_off250_eq t 1) (k1_off243_eq t 1) (k1_off245_eq t 1) (k1_off247_eq t 1) (k1_off249_eq t 1)
    (k1_off244_inb t 1) (k1_off246_inb t 1) (k1_off248_inb t 1) (k1_off250_inb t 1) (k1_off243_inb t 1) (k1_off245_inb t 1) (k1_off247_inb t 1) (k1_off249_inb t 1) h1
  have h3 := row_step_cons d L sR0 sC0 g f _ (8 * t.val + 2) (k1_off244 t 2#32) (k1_off246 t 2#32) (k1_off248 t 2#32) (k1_off250 t 2#32) (k1_off243 t 2#32) (k1_off245 t 2#32) (k1_off247 t 2#32) (k1_off249 t 2#32)
    (k1_off244_eq t 2) (k1_off246_eq t 2) (k1_off248_eq t 2) (k1_off250_eq t 2) (k1_off243_eq t 2) (k1_off245_eq t 2) (k1_off247_eq t 2) (k1_off249_eq t 2)
    (k1_off244_inb t 2) (k1_off246_inb t 2) (k1_off248_inb t 2) (k1_off250_inb t 2) (k1_off243_inb t 2) (k1_off245_inb t 2) (k1_off247_inb t 2) (k1_off249_inb t 2) h2
  have h4 := row_step_cons d L sR0 sC0 g f _ (8 * t.val + 3) (k1_off244 t 3#32) (k1_off246 t 3#32) (k1_off248 t 3#32) (k1_off250 t 3#32) (k1_off243 t 3#32) (k1_off245 t 3#32) (k1_off247 t 3#32) (k1_off249 t 3#32)
    (k1_off244_eq t 3) (k1_off246_eq t 3) (k1_off248_eq t 3) (k1_off250_eq t 3) (k1_off243_eq t 3) (k1_off245_eq t 3) (k1_off247_eq t 3) (k1_off249_eq t 3)
    (k1_off244_inb t 3) (k1_off246_inb t 3) (k1_off248_inb t 3) (k1_off250_inb t 3) (k1_off243_inb t 3) (k1_off245_inb t 3) (k1_off247_inb t 3) (k1_off249_inb t 3) h3
  have h5 := row_step_cons d L sR0 sC0 g f _ (8 * t.val + 4) (k1_off244 t 4#32) (k1_off246 t 4#32) (k1_off248 t 4#32) (k1_off250 t 4#32) (k1_off243 t 4#32) (k1_off245 t 4#32) (k1_off247 t 4#32) (k1_off249 t 4#32)
    (k1_off244_eq t 4) (k1_off246_eq t 4) (k1_off248_eq t 4) (k1_off250_eq t 4) (k1_off243_eq t 4) (k1_off245_eq t 4) (k1_off247_eq t 4) (k1_off249_eq t 4)
    (k1_off244_inb t 4) (k1_off246_inb t 4) (k1_off248_inb t 4) (k1_off250_inb t 4) (k1_off243_inb t 4) (k1_off245_inb t 4) (k1_off247_inb t 4) (k1_off249_inb t 4) h4
  have h6 := row_step_cons d L sR0 sC0 g f _ (8 * t.val + 5) (k1_off244 t 5#32) (k1_off246 t 5#32) (k1_off248 t 5#32) (k1_off250 t 5#32) (k1_off243 t 5#32) (k1_off245 t 5#32) (k1_off247 t 5#32) (k1_off249 t 5#32)
    (k1_off244_eq t 5) (k1_off246_eq t 5) (k1_off248_eq t 5) (k1_off250_eq t 5) (k1_off243_eq t 5) (k1_off245_eq t 5) (k1_off247_eq t 5) (k1_off249_eq t 5)
    (k1_off244_inb t 5) (k1_off246_inb t 5) (k1_off248_inb t 5) (k1_off250_inb t 5) (k1_off243_inb t 5) (k1_off245_inb t 5) (k1_off247_inb t 5) (k1_off249_inb t 5) h5
  have h7 := row_step_cons d L sR0 sC0 g f _ (8 * t.val + 6) (k1_off244 t 6#32) (k1_off246 t 6#32) (k1_off248 t 6#32) (k1_off250 t 6#32) (k1_off243 t 6#32) (k1_off245 t 6#32) (k1_off247 t 6#32) (k1_off249 t 6#32)
    (k1_off244_eq t 6) (k1_off246_eq t 6) (k1_off248_eq t 6) (k1_off250_eq t 6) (k1_off243_eq t 6) (k1_off245_eq t 6) (k1_off247_eq t 6) (k1_off249_eq t 6)
    (k1_off244_inb t 6) (k1_off246_inb t 6) (k1_off248_inb t 6) (k1_off250_inb t 6) (k1_off243_inb t 6) (k1_off245_inb t 6) (k1_off247_inb t 6) (k1_off249_inb t 6) h6
  have h8 := row_step_cons d L sR0 sC0 g f _ (8 * t.val + 7) (k1_off244 t 7#32) (k1_off246 t 7#32) (k1_off248 t 7#32) (k1_off250 t 7#32) (k1_off243 t 7#32) (k1_off245 t 7#32) (k1_off247 t 7#32) (k1_off249 t 7#32)
    (k1_off244_eq t 7) (k1_off246_eq t 7) (k1_off248_eq t 7) (k1_off250_eq t 7) (k1_off243_eq t 7) (k1_off245_eq t 7) (k1_off247_eq t 7) (k1_off249_eq t 7)
    (k1_off244_inb t 7) (k1_off246_inb t 7) (k1_off248_inb t 7) (k1_off250_inb t 7) (k1_off243_inb t 7) (k1_off245_inb t 7) (k1_off247_inb t 7) (k1_off249_inb t 7) h7
  intro r c hr
  exact h8 r c (by omega)

/-- The compaction step of loop 32 of 40: trip t copies rows [8 t, 8 t + 8) of the landing buffer's first 64 columns. -/
theorem compact_step_t33 (t : Fin k1_t33_loop.trips) (g : Buf (Elt F) (sR1.view.loc (thr d L))) (f : Buf (Elt F) (sC1.view.loc (thr d L)))
    (hC : Compacted (sR1.view.read (Elt F) g) (sC1.view.read (Elt F) f) t.val) :
    Compacted (sR1.view.read (Elt F) g) (sC1.view.read (Elt F) (sC1.view.writes (Elt F) f
      [cpiece d L sR1 g (k1_off258 t 7#32) (k1_off257 t 7#32) (k1_off258_inb t 7) (k1_off257_inb t 7),
       cpiece d L sR1 g (k1_off256 t 7#32) (k1_off255 t 7#32) (k1_off256_inb t 7) (k1_off255_inb t 7),
       cpiece d L sR1 g (k1_off254 t 7#32) (k1_off253 t 7#32) (k1_off254_inb t 7) (k1_off253_inb t 7),
       cpiece d L sR1 g (k1_off252 t 7#32) (k1_off251 t 7#32) (k1_off252_inb t 7) (k1_off251_inb t 7),
       cpiece d L sR1 g (k1_off258 t 6#32) (k1_off257 t 6#32) (k1_off258_inb t 6) (k1_off257_inb t 6),
       cpiece d L sR1 g (k1_off256 t 6#32) (k1_off255 t 6#32) (k1_off256_inb t 6) (k1_off255_inb t 6),
       cpiece d L sR1 g (k1_off254 t 6#32) (k1_off253 t 6#32) (k1_off254_inb t 6) (k1_off253_inb t 6),
       cpiece d L sR1 g (k1_off252 t 6#32) (k1_off251 t 6#32) (k1_off252_inb t 6) (k1_off251_inb t 6),
       cpiece d L sR1 g (k1_off258 t 5#32) (k1_off257 t 5#32) (k1_off258_inb t 5) (k1_off257_inb t 5),
       cpiece d L sR1 g (k1_off256 t 5#32) (k1_off255 t 5#32) (k1_off256_inb t 5) (k1_off255_inb t 5),
       cpiece d L sR1 g (k1_off254 t 5#32) (k1_off253 t 5#32) (k1_off254_inb t 5) (k1_off253_inb t 5),
       cpiece d L sR1 g (k1_off252 t 5#32) (k1_off251 t 5#32) (k1_off252_inb t 5) (k1_off251_inb t 5),
       cpiece d L sR1 g (k1_off258 t 4#32) (k1_off257 t 4#32) (k1_off258_inb t 4) (k1_off257_inb t 4),
       cpiece d L sR1 g (k1_off256 t 4#32) (k1_off255 t 4#32) (k1_off256_inb t 4) (k1_off255_inb t 4),
       cpiece d L sR1 g (k1_off254 t 4#32) (k1_off253 t 4#32) (k1_off254_inb t 4) (k1_off253_inb t 4),
       cpiece d L sR1 g (k1_off252 t 4#32) (k1_off251 t 4#32) (k1_off252_inb t 4) (k1_off251_inb t 4),
       cpiece d L sR1 g (k1_off258 t 3#32) (k1_off257 t 3#32) (k1_off258_inb t 3) (k1_off257_inb t 3),
       cpiece d L sR1 g (k1_off256 t 3#32) (k1_off255 t 3#32) (k1_off256_inb t 3) (k1_off255_inb t 3),
       cpiece d L sR1 g (k1_off254 t 3#32) (k1_off253 t 3#32) (k1_off254_inb t 3) (k1_off253_inb t 3),
       cpiece d L sR1 g (k1_off252 t 3#32) (k1_off251 t 3#32) (k1_off252_inb t 3) (k1_off251_inb t 3),
       cpiece d L sR1 g (k1_off258 t 2#32) (k1_off257 t 2#32) (k1_off258_inb t 2) (k1_off257_inb t 2),
       cpiece d L sR1 g (k1_off256 t 2#32) (k1_off255 t 2#32) (k1_off256_inb t 2) (k1_off255_inb t 2),
       cpiece d L sR1 g (k1_off254 t 2#32) (k1_off253 t 2#32) (k1_off254_inb t 2) (k1_off253_inb t 2),
       cpiece d L sR1 g (k1_off252 t 2#32) (k1_off251 t 2#32) (k1_off252_inb t 2) (k1_off251_inb t 2),
       cpiece d L sR1 g (k1_off258 t 1#32) (k1_off257 t 1#32) (k1_off258_inb t 1) (k1_off257_inb t 1),
       cpiece d L sR1 g (k1_off256 t 1#32) (k1_off255 t 1#32) (k1_off256_inb t 1) (k1_off255_inb t 1),
       cpiece d L sR1 g (k1_off254 t 1#32) (k1_off253 t 1#32) (k1_off254_inb t 1) (k1_off253_inb t 1),
       cpiece d L sR1 g (k1_off252 t 1#32) (k1_off251 t 1#32) (k1_off252_inb t 1) (k1_off251_inb t 1),
       cpiece d L sR1 g (k1_off258 t 0#32) (k1_off257 t 0#32) (k1_off258_inb t 0) (k1_off257_inb t 0),
       cpiece d L sR1 g (k1_off256 t 0#32) (k1_off255 t 0#32) (k1_off256_inb t 0) (k1_off255_inb t 0),
       cpiece d L sR1 g (k1_off254 t 0#32) (k1_off253 t 0#32) (k1_off254_inb t 0) (k1_off253_inb t 0),
       cpiece d L sR1 g (k1_off252 t 0#32) (k1_off251 t 0#32) (k1_off252_inb t 0) (k1_off251_inb t 0)])) (t.val + 1) := by
  have h1 := row_step_cons d L sR1 sC1 g f [] (8 * t.val + 0) (k1_off252 t 0#32) (k1_off254 t 0#32) (k1_off256 t 0#32) (k1_off258 t 0#32) (k1_off251 t 0#32) (k1_off253 t 0#32) (k1_off255 t 0#32) (k1_off257 t 0#32)
    (k1_off252_eq t 0) (k1_off254_eq t 0) (k1_off256_eq t 0) (k1_off258_eq t 0) (k1_off251_eq t 0) (k1_off253_eq t 0) (k1_off255_eq t 0) (k1_off257_eq t 0)
    (k1_off252_inb t 0) (k1_off254_inb t 0) (k1_off256_inb t 0) (k1_off258_inb t 0) (k1_off251_inb t 0) (k1_off253_inb t 0) (k1_off255_inb t 0) (k1_off257_inb t 0) ((compacted_iff_rows _ _ _).1 hC)
  have h2 := row_step_cons d L sR1 sC1 g f _ (8 * t.val + 1) (k1_off252 t 1#32) (k1_off254 t 1#32) (k1_off256 t 1#32) (k1_off258 t 1#32) (k1_off251 t 1#32) (k1_off253 t 1#32) (k1_off255 t 1#32) (k1_off257 t 1#32)
    (k1_off252_eq t 1) (k1_off254_eq t 1) (k1_off256_eq t 1) (k1_off258_eq t 1) (k1_off251_eq t 1) (k1_off253_eq t 1) (k1_off255_eq t 1) (k1_off257_eq t 1)
    (k1_off252_inb t 1) (k1_off254_inb t 1) (k1_off256_inb t 1) (k1_off258_inb t 1) (k1_off251_inb t 1) (k1_off253_inb t 1) (k1_off255_inb t 1) (k1_off257_inb t 1) h1
  have h3 := row_step_cons d L sR1 sC1 g f _ (8 * t.val + 2) (k1_off252 t 2#32) (k1_off254 t 2#32) (k1_off256 t 2#32) (k1_off258 t 2#32) (k1_off251 t 2#32) (k1_off253 t 2#32) (k1_off255 t 2#32) (k1_off257 t 2#32)
    (k1_off252_eq t 2) (k1_off254_eq t 2) (k1_off256_eq t 2) (k1_off258_eq t 2) (k1_off251_eq t 2) (k1_off253_eq t 2) (k1_off255_eq t 2) (k1_off257_eq t 2)
    (k1_off252_inb t 2) (k1_off254_inb t 2) (k1_off256_inb t 2) (k1_off258_inb t 2) (k1_off251_inb t 2) (k1_off253_inb t 2) (k1_off255_inb t 2) (k1_off257_inb t 2) h2
  have h4 := row_step_cons d L sR1 sC1 g f _ (8 * t.val + 3) (k1_off252 t 3#32) (k1_off254 t 3#32) (k1_off256 t 3#32) (k1_off258 t 3#32) (k1_off251 t 3#32) (k1_off253 t 3#32) (k1_off255 t 3#32) (k1_off257 t 3#32)
    (k1_off252_eq t 3) (k1_off254_eq t 3) (k1_off256_eq t 3) (k1_off258_eq t 3) (k1_off251_eq t 3) (k1_off253_eq t 3) (k1_off255_eq t 3) (k1_off257_eq t 3)
    (k1_off252_inb t 3) (k1_off254_inb t 3) (k1_off256_inb t 3) (k1_off258_inb t 3) (k1_off251_inb t 3) (k1_off253_inb t 3) (k1_off255_inb t 3) (k1_off257_inb t 3) h3
  have h5 := row_step_cons d L sR1 sC1 g f _ (8 * t.val + 4) (k1_off252 t 4#32) (k1_off254 t 4#32) (k1_off256 t 4#32) (k1_off258 t 4#32) (k1_off251 t 4#32) (k1_off253 t 4#32) (k1_off255 t 4#32) (k1_off257 t 4#32)
    (k1_off252_eq t 4) (k1_off254_eq t 4) (k1_off256_eq t 4) (k1_off258_eq t 4) (k1_off251_eq t 4) (k1_off253_eq t 4) (k1_off255_eq t 4) (k1_off257_eq t 4)
    (k1_off252_inb t 4) (k1_off254_inb t 4) (k1_off256_inb t 4) (k1_off258_inb t 4) (k1_off251_inb t 4) (k1_off253_inb t 4) (k1_off255_inb t 4) (k1_off257_inb t 4) h4
  have h6 := row_step_cons d L sR1 sC1 g f _ (8 * t.val + 5) (k1_off252 t 5#32) (k1_off254 t 5#32) (k1_off256 t 5#32) (k1_off258 t 5#32) (k1_off251 t 5#32) (k1_off253 t 5#32) (k1_off255 t 5#32) (k1_off257 t 5#32)
    (k1_off252_eq t 5) (k1_off254_eq t 5) (k1_off256_eq t 5) (k1_off258_eq t 5) (k1_off251_eq t 5) (k1_off253_eq t 5) (k1_off255_eq t 5) (k1_off257_eq t 5)
    (k1_off252_inb t 5) (k1_off254_inb t 5) (k1_off256_inb t 5) (k1_off258_inb t 5) (k1_off251_inb t 5) (k1_off253_inb t 5) (k1_off255_inb t 5) (k1_off257_inb t 5) h5
  have h7 := row_step_cons d L sR1 sC1 g f _ (8 * t.val + 6) (k1_off252 t 6#32) (k1_off254 t 6#32) (k1_off256 t 6#32) (k1_off258 t 6#32) (k1_off251 t 6#32) (k1_off253 t 6#32) (k1_off255 t 6#32) (k1_off257 t 6#32)
    (k1_off252_eq t 6) (k1_off254_eq t 6) (k1_off256_eq t 6) (k1_off258_eq t 6) (k1_off251_eq t 6) (k1_off253_eq t 6) (k1_off255_eq t 6) (k1_off257_eq t 6)
    (k1_off252_inb t 6) (k1_off254_inb t 6) (k1_off256_inb t 6) (k1_off258_inb t 6) (k1_off251_inb t 6) (k1_off253_inb t 6) (k1_off255_inb t 6) (k1_off257_inb t 6) h6
  have h8 := row_step_cons d L sR1 sC1 g f _ (8 * t.val + 7) (k1_off252 t 7#32) (k1_off254 t 7#32) (k1_off256 t 7#32) (k1_off258 t 7#32) (k1_off251 t 7#32) (k1_off253 t 7#32) (k1_off255 t 7#32) (k1_off257 t 7#32)
    (k1_off252_eq t 7) (k1_off254_eq t 7) (k1_off256_eq t 7) (k1_off258_eq t 7) (k1_off251_eq t 7) (k1_off253_eq t 7) (k1_off255_eq t 7) (k1_off257_eq t 7)
    (k1_off252_inb t 7) (k1_off254_inb t 7) (k1_off256_inb t 7) (k1_off258_inb t 7) (k1_off251_inb t 7) (k1_off253_inb t 7) (k1_off255_inb t 7) (k1_off257_inb t 7) h7
  intro r c hr
  exact h8 r c (by omega)

/-- The compaction step of loop 33 of 40: trip t copies rows [8 t, 8 t + 8) of the landing buffer's first 64 columns. -/
theorem compact_step_t34 (t : Fin k1_t34_loop.trips) (g : Buf (Elt F) (sR2.view.loc (thr d L))) (f : Buf (Elt F) (sC0.view.loc (thr d L)))
    (hC : Compacted (sR2.view.read (Elt F) g) (sC0.view.read (Elt F) f) t.val) :
    Compacted (sR2.view.read (Elt F) g) (sC0.view.read (Elt F) (sC0.view.writes (Elt F) f
      [cpiece d L sR2 g (k1_off266 t 7#32) (k1_off265 t 7#32) (k1_off266_inb t 7) (k1_off265_inb t 7),
       cpiece d L sR2 g (k1_off264 t 7#32) (k1_off263 t 7#32) (k1_off264_inb t 7) (k1_off263_inb t 7),
       cpiece d L sR2 g (k1_off262 t 7#32) (k1_off261 t 7#32) (k1_off262_inb t 7) (k1_off261_inb t 7),
       cpiece d L sR2 g (k1_off260 t 7#32) (k1_off259 t 7#32) (k1_off260_inb t 7) (k1_off259_inb t 7),
       cpiece d L sR2 g (k1_off266 t 6#32) (k1_off265 t 6#32) (k1_off266_inb t 6) (k1_off265_inb t 6),
       cpiece d L sR2 g (k1_off264 t 6#32) (k1_off263 t 6#32) (k1_off264_inb t 6) (k1_off263_inb t 6),
       cpiece d L sR2 g (k1_off262 t 6#32) (k1_off261 t 6#32) (k1_off262_inb t 6) (k1_off261_inb t 6),
       cpiece d L sR2 g (k1_off260 t 6#32) (k1_off259 t 6#32) (k1_off260_inb t 6) (k1_off259_inb t 6),
       cpiece d L sR2 g (k1_off266 t 5#32) (k1_off265 t 5#32) (k1_off266_inb t 5) (k1_off265_inb t 5),
       cpiece d L sR2 g (k1_off264 t 5#32) (k1_off263 t 5#32) (k1_off264_inb t 5) (k1_off263_inb t 5),
       cpiece d L sR2 g (k1_off262 t 5#32) (k1_off261 t 5#32) (k1_off262_inb t 5) (k1_off261_inb t 5),
       cpiece d L sR2 g (k1_off260 t 5#32) (k1_off259 t 5#32) (k1_off260_inb t 5) (k1_off259_inb t 5),
       cpiece d L sR2 g (k1_off266 t 4#32) (k1_off265 t 4#32) (k1_off266_inb t 4) (k1_off265_inb t 4),
       cpiece d L sR2 g (k1_off264 t 4#32) (k1_off263 t 4#32) (k1_off264_inb t 4) (k1_off263_inb t 4),
       cpiece d L sR2 g (k1_off262 t 4#32) (k1_off261 t 4#32) (k1_off262_inb t 4) (k1_off261_inb t 4),
       cpiece d L sR2 g (k1_off260 t 4#32) (k1_off259 t 4#32) (k1_off260_inb t 4) (k1_off259_inb t 4),
       cpiece d L sR2 g (k1_off266 t 3#32) (k1_off265 t 3#32) (k1_off266_inb t 3) (k1_off265_inb t 3),
       cpiece d L sR2 g (k1_off264 t 3#32) (k1_off263 t 3#32) (k1_off264_inb t 3) (k1_off263_inb t 3),
       cpiece d L sR2 g (k1_off262 t 3#32) (k1_off261 t 3#32) (k1_off262_inb t 3) (k1_off261_inb t 3),
       cpiece d L sR2 g (k1_off260 t 3#32) (k1_off259 t 3#32) (k1_off260_inb t 3) (k1_off259_inb t 3),
       cpiece d L sR2 g (k1_off266 t 2#32) (k1_off265 t 2#32) (k1_off266_inb t 2) (k1_off265_inb t 2),
       cpiece d L sR2 g (k1_off264 t 2#32) (k1_off263 t 2#32) (k1_off264_inb t 2) (k1_off263_inb t 2),
       cpiece d L sR2 g (k1_off262 t 2#32) (k1_off261 t 2#32) (k1_off262_inb t 2) (k1_off261_inb t 2),
       cpiece d L sR2 g (k1_off260 t 2#32) (k1_off259 t 2#32) (k1_off260_inb t 2) (k1_off259_inb t 2),
       cpiece d L sR2 g (k1_off266 t 1#32) (k1_off265 t 1#32) (k1_off266_inb t 1) (k1_off265_inb t 1),
       cpiece d L sR2 g (k1_off264 t 1#32) (k1_off263 t 1#32) (k1_off264_inb t 1) (k1_off263_inb t 1),
       cpiece d L sR2 g (k1_off262 t 1#32) (k1_off261 t 1#32) (k1_off262_inb t 1) (k1_off261_inb t 1),
       cpiece d L sR2 g (k1_off260 t 1#32) (k1_off259 t 1#32) (k1_off260_inb t 1) (k1_off259_inb t 1),
       cpiece d L sR2 g (k1_off266 t 0#32) (k1_off265 t 0#32) (k1_off266_inb t 0) (k1_off265_inb t 0),
       cpiece d L sR2 g (k1_off264 t 0#32) (k1_off263 t 0#32) (k1_off264_inb t 0) (k1_off263_inb t 0),
       cpiece d L sR2 g (k1_off262 t 0#32) (k1_off261 t 0#32) (k1_off262_inb t 0) (k1_off261_inb t 0),
       cpiece d L sR2 g (k1_off260 t 0#32) (k1_off259 t 0#32) (k1_off260_inb t 0) (k1_off259_inb t 0)])) (t.val + 1) := by
  have h1 := row_step_cons d L sR2 sC0 g f [] (8 * t.val + 0) (k1_off260 t 0#32) (k1_off262 t 0#32) (k1_off264 t 0#32) (k1_off266 t 0#32) (k1_off259 t 0#32) (k1_off261 t 0#32) (k1_off263 t 0#32) (k1_off265 t 0#32)
    (k1_off260_eq t 0) (k1_off262_eq t 0) (k1_off264_eq t 0) (k1_off266_eq t 0) (k1_off259_eq t 0) (k1_off261_eq t 0) (k1_off263_eq t 0) (k1_off265_eq t 0)
    (k1_off260_inb t 0) (k1_off262_inb t 0) (k1_off264_inb t 0) (k1_off266_inb t 0) (k1_off259_inb t 0) (k1_off261_inb t 0) (k1_off263_inb t 0) (k1_off265_inb t 0) ((compacted_iff_rows _ _ _).1 hC)
  have h2 := row_step_cons d L sR2 sC0 g f _ (8 * t.val + 1) (k1_off260 t 1#32) (k1_off262 t 1#32) (k1_off264 t 1#32) (k1_off266 t 1#32) (k1_off259 t 1#32) (k1_off261 t 1#32) (k1_off263 t 1#32) (k1_off265 t 1#32)
    (k1_off260_eq t 1) (k1_off262_eq t 1) (k1_off264_eq t 1) (k1_off266_eq t 1) (k1_off259_eq t 1) (k1_off261_eq t 1) (k1_off263_eq t 1) (k1_off265_eq t 1)
    (k1_off260_inb t 1) (k1_off262_inb t 1) (k1_off264_inb t 1) (k1_off266_inb t 1) (k1_off259_inb t 1) (k1_off261_inb t 1) (k1_off263_inb t 1) (k1_off265_inb t 1) h1
  have h3 := row_step_cons d L sR2 sC0 g f _ (8 * t.val + 2) (k1_off260 t 2#32) (k1_off262 t 2#32) (k1_off264 t 2#32) (k1_off266 t 2#32) (k1_off259 t 2#32) (k1_off261 t 2#32) (k1_off263 t 2#32) (k1_off265 t 2#32)
    (k1_off260_eq t 2) (k1_off262_eq t 2) (k1_off264_eq t 2) (k1_off266_eq t 2) (k1_off259_eq t 2) (k1_off261_eq t 2) (k1_off263_eq t 2) (k1_off265_eq t 2)
    (k1_off260_inb t 2) (k1_off262_inb t 2) (k1_off264_inb t 2) (k1_off266_inb t 2) (k1_off259_inb t 2) (k1_off261_inb t 2) (k1_off263_inb t 2) (k1_off265_inb t 2) h2
  have h4 := row_step_cons d L sR2 sC0 g f _ (8 * t.val + 3) (k1_off260 t 3#32) (k1_off262 t 3#32) (k1_off264 t 3#32) (k1_off266 t 3#32) (k1_off259 t 3#32) (k1_off261 t 3#32) (k1_off263 t 3#32) (k1_off265 t 3#32)
    (k1_off260_eq t 3) (k1_off262_eq t 3) (k1_off264_eq t 3) (k1_off266_eq t 3) (k1_off259_eq t 3) (k1_off261_eq t 3) (k1_off263_eq t 3) (k1_off265_eq t 3)
    (k1_off260_inb t 3) (k1_off262_inb t 3) (k1_off264_inb t 3) (k1_off266_inb t 3) (k1_off259_inb t 3) (k1_off261_inb t 3) (k1_off263_inb t 3) (k1_off265_inb t 3) h3
  have h5 := row_step_cons d L sR2 sC0 g f _ (8 * t.val + 4) (k1_off260 t 4#32) (k1_off262 t 4#32) (k1_off264 t 4#32) (k1_off266 t 4#32) (k1_off259 t 4#32) (k1_off261 t 4#32) (k1_off263 t 4#32) (k1_off265 t 4#32)
    (k1_off260_eq t 4) (k1_off262_eq t 4) (k1_off264_eq t 4) (k1_off266_eq t 4) (k1_off259_eq t 4) (k1_off261_eq t 4) (k1_off263_eq t 4) (k1_off265_eq t 4)
    (k1_off260_inb t 4) (k1_off262_inb t 4) (k1_off264_inb t 4) (k1_off266_inb t 4) (k1_off259_inb t 4) (k1_off261_inb t 4) (k1_off263_inb t 4) (k1_off265_inb t 4) h4
  have h6 := row_step_cons d L sR2 sC0 g f _ (8 * t.val + 5) (k1_off260 t 5#32) (k1_off262 t 5#32) (k1_off264 t 5#32) (k1_off266 t 5#32) (k1_off259 t 5#32) (k1_off261 t 5#32) (k1_off263 t 5#32) (k1_off265 t 5#32)
    (k1_off260_eq t 5) (k1_off262_eq t 5) (k1_off264_eq t 5) (k1_off266_eq t 5) (k1_off259_eq t 5) (k1_off261_eq t 5) (k1_off263_eq t 5) (k1_off265_eq t 5)
    (k1_off260_inb t 5) (k1_off262_inb t 5) (k1_off264_inb t 5) (k1_off266_inb t 5) (k1_off259_inb t 5) (k1_off261_inb t 5) (k1_off263_inb t 5) (k1_off265_inb t 5) h5
  have h7 := row_step_cons d L sR2 sC0 g f _ (8 * t.val + 6) (k1_off260 t 6#32) (k1_off262 t 6#32) (k1_off264 t 6#32) (k1_off266 t 6#32) (k1_off259 t 6#32) (k1_off261 t 6#32) (k1_off263 t 6#32) (k1_off265 t 6#32)
    (k1_off260_eq t 6) (k1_off262_eq t 6) (k1_off264_eq t 6) (k1_off266_eq t 6) (k1_off259_eq t 6) (k1_off261_eq t 6) (k1_off263_eq t 6) (k1_off265_eq t 6)
    (k1_off260_inb t 6) (k1_off262_inb t 6) (k1_off264_inb t 6) (k1_off266_inb t 6) (k1_off259_inb t 6) (k1_off261_inb t 6) (k1_off263_inb t 6) (k1_off265_inb t 6) h6
  have h8 := row_step_cons d L sR2 sC0 g f _ (8 * t.val + 7) (k1_off260 t 7#32) (k1_off262 t 7#32) (k1_off264 t 7#32) (k1_off266 t 7#32) (k1_off259 t 7#32) (k1_off261 t 7#32) (k1_off263 t 7#32) (k1_off265 t 7#32)
    (k1_off260_eq t 7) (k1_off262_eq t 7) (k1_off264_eq t 7) (k1_off266_eq t 7) (k1_off259_eq t 7) (k1_off261_eq t 7) (k1_off263_eq t 7) (k1_off265_eq t 7)
    (k1_off260_inb t 7) (k1_off262_inb t 7) (k1_off264_inb t 7) (k1_off266_inb t 7) (k1_off259_inb t 7) (k1_off261_inb t 7) (k1_off263_inb t 7) (k1_off265_inb t 7) h7
  intro r c hr
  exact h8 r c (by omega)

/-- The compaction step of loop 34 of 40: trip t copies rows [8 t, 8 t + 8) of the landing buffer's first 64 columns. -/
theorem compact_step_t35 (t : Fin k1_t35_loop.trips) (g : Buf (Elt F) (sR0.view.loc (thr d L))) (f : Buf (Elt F) (sC1.view.loc (thr d L)))
    (hC : Compacted (sR0.view.read (Elt F) g) (sC1.view.read (Elt F) f) t.val) :
    Compacted (sR0.view.read (Elt F) g) (sC1.view.read (Elt F) (sC1.view.writes (Elt F) f
      [cpiece d L sR0 g (k1_off274 t 7#32) (k1_off273 t 7#32) (k1_off274_inb t 7) (k1_off273_inb t 7),
       cpiece d L sR0 g (k1_off272 t 7#32) (k1_off271 t 7#32) (k1_off272_inb t 7) (k1_off271_inb t 7),
       cpiece d L sR0 g (k1_off270 t 7#32) (k1_off269 t 7#32) (k1_off270_inb t 7) (k1_off269_inb t 7),
       cpiece d L sR0 g (k1_off268 t 7#32) (k1_off267 t 7#32) (k1_off268_inb t 7) (k1_off267_inb t 7),
       cpiece d L sR0 g (k1_off274 t 6#32) (k1_off273 t 6#32) (k1_off274_inb t 6) (k1_off273_inb t 6),
       cpiece d L sR0 g (k1_off272 t 6#32) (k1_off271 t 6#32) (k1_off272_inb t 6) (k1_off271_inb t 6),
       cpiece d L sR0 g (k1_off270 t 6#32) (k1_off269 t 6#32) (k1_off270_inb t 6) (k1_off269_inb t 6),
       cpiece d L sR0 g (k1_off268 t 6#32) (k1_off267 t 6#32) (k1_off268_inb t 6) (k1_off267_inb t 6),
       cpiece d L sR0 g (k1_off274 t 5#32) (k1_off273 t 5#32) (k1_off274_inb t 5) (k1_off273_inb t 5),
       cpiece d L sR0 g (k1_off272 t 5#32) (k1_off271 t 5#32) (k1_off272_inb t 5) (k1_off271_inb t 5),
       cpiece d L sR0 g (k1_off270 t 5#32) (k1_off269 t 5#32) (k1_off270_inb t 5) (k1_off269_inb t 5),
       cpiece d L sR0 g (k1_off268 t 5#32) (k1_off267 t 5#32) (k1_off268_inb t 5) (k1_off267_inb t 5),
       cpiece d L sR0 g (k1_off274 t 4#32) (k1_off273 t 4#32) (k1_off274_inb t 4) (k1_off273_inb t 4),
       cpiece d L sR0 g (k1_off272 t 4#32) (k1_off271 t 4#32) (k1_off272_inb t 4) (k1_off271_inb t 4),
       cpiece d L sR0 g (k1_off270 t 4#32) (k1_off269 t 4#32) (k1_off270_inb t 4) (k1_off269_inb t 4),
       cpiece d L sR0 g (k1_off268 t 4#32) (k1_off267 t 4#32) (k1_off268_inb t 4) (k1_off267_inb t 4),
       cpiece d L sR0 g (k1_off274 t 3#32) (k1_off273 t 3#32) (k1_off274_inb t 3) (k1_off273_inb t 3),
       cpiece d L sR0 g (k1_off272 t 3#32) (k1_off271 t 3#32) (k1_off272_inb t 3) (k1_off271_inb t 3),
       cpiece d L sR0 g (k1_off270 t 3#32) (k1_off269 t 3#32) (k1_off270_inb t 3) (k1_off269_inb t 3),
       cpiece d L sR0 g (k1_off268 t 3#32) (k1_off267 t 3#32) (k1_off268_inb t 3) (k1_off267_inb t 3),
       cpiece d L sR0 g (k1_off274 t 2#32) (k1_off273 t 2#32) (k1_off274_inb t 2) (k1_off273_inb t 2),
       cpiece d L sR0 g (k1_off272 t 2#32) (k1_off271 t 2#32) (k1_off272_inb t 2) (k1_off271_inb t 2),
       cpiece d L sR0 g (k1_off270 t 2#32) (k1_off269 t 2#32) (k1_off270_inb t 2) (k1_off269_inb t 2),
       cpiece d L sR0 g (k1_off268 t 2#32) (k1_off267 t 2#32) (k1_off268_inb t 2) (k1_off267_inb t 2),
       cpiece d L sR0 g (k1_off274 t 1#32) (k1_off273 t 1#32) (k1_off274_inb t 1) (k1_off273_inb t 1),
       cpiece d L sR0 g (k1_off272 t 1#32) (k1_off271 t 1#32) (k1_off272_inb t 1) (k1_off271_inb t 1),
       cpiece d L sR0 g (k1_off270 t 1#32) (k1_off269 t 1#32) (k1_off270_inb t 1) (k1_off269_inb t 1),
       cpiece d L sR0 g (k1_off268 t 1#32) (k1_off267 t 1#32) (k1_off268_inb t 1) (k1_off267_inb t 1),
       cpiece d L sR0 g (k1_off274 t 0#32) (k1_off273 t 0#32) (k1_off274_inb t 0) (k1_off273_inb t 0),
       cpiece d L sR0 g (k1_off272 t 0#32) (k1_off271 t 0#32) (k1_off272_inb t 0) (k1_off271_inb t 0),
       cpiece d L sR0 g (k1_off270 t 0#32) (k1_off269 t 0#32) (k1_off270_inb t 0) (k1_off269_inb t 0),
       cpiece d L sR0 g (k1_off268 t 0#32) (k1_off267 t 0#32) (k1_off268_inb t 0) (k1_off267_inb t 0)])) (t.val + 1) := by
  have h1 := row_step_cons d L sR0 sC1 g f [] (8 * t.val + 0) (k1_off268 t 0#32) (k1_off270 t 0#32) (k1_off272 t 0#32) (k1_off274 t 0#32) (k1_off267 t 0#32) (k1_off269 t 0#32) (k1_off271 t 0#32) (k1_off273 t 0#32)
    (k1_off268_eq t 0) (k1_off270_eq t 0) (k1_off272_eq t 0) (k1_off274_eq t 0) (k1_off267_eq t 0) (k1_off269_eq t 0) (k1_off271_eq t 0) (k1_off273_eq t 0)
    (k1_off268_inb t 0) (k1_off270_inb t 0) (k1_off272_inb t 0) (k1_off274_inb t 0) (k1_off267_inb t 0) (k1_off269_inb t 0) (k1_off271_inb t 0) (k1_off273_inb t 0) ((compacted_iff_rows _ _ _).1 hC)
  have h2 := row_step_cons d L sR0 sC1 g f _ (8 * t.val + 1) (k1_off268 t 1#32) (k1_off270 t 1#32) (k1_off272 t 1#32) (k1_off274 t 1#32) (k1_off267 t 1#32) (k1_off269 t 1#32) (k1_off271 t 1#32) (k1_off273 t 1#32)
    (k1_off268_eq t 1) (k1_off270_eq t 1) (k1_off272_eq t 1) (k1_off274_eq t 1) (k1_off267_eq t 1) (k1_off269_eq t 1) (k1_off271_eq t 1) (k1_off273_eq t 1)
    (k1_off268_inb t 1) (k1_off270_inb t 1) (k1_off272_inb t 1) (k1_off274_inb t 1) (k1_off267_inb t 1) (k1_off269_inb t 1) (k1_off271_inb t 1) (k1_off273_inb t 1) h1
  have h3 := row_step_cons d L sR0 sC1 g f _ (8 * t.val + 2) (k1_off268 t 2#32) (k1_off270 t 2#32) (k1_off272 t 2#32) (k1_off274 t 2#32) (k1_off267 t 2#32) (k1_off269 t 2#32) (k1_off271 t 2#32) (k1_off273 t 2#32)
    (k1_off268_eq t 2) (k1_off270_eq t 2) (k1_off272_eq t 2) (k1_off274_eq t 2) (k1_off267_eq t 2) (k1_off269_eq t 2) (k1_off271_eq t 2) (k1_off273_eq t 2)
    (k1_off268_inb t 2) (k1_off270_inb t 2) (k1_off272_inb t 2) (k1_off274_inb t 2) (k1_off267_inb t 2) (k1_off269_inb t 2) (k1_off271_inb t 2) (k1_off273_inb t 2) h2
  have h4 := row_step_cons d L sR0 sC1 g f _ (8 * t.val + 3) (k1_off268 t 3#32) (k1_off270 t 3#32) (k1_off272 t 3#32) (k1_off274 t 3#32) (k1_off267 t 3#32) (k1_off269 t 3#32) (k1_off271 t 3#32) (k1_off273 t 3#32)
    (k1_off268_eq t 3) (k1_off270_eq t 3) (k1_off272_eq t 3) (k1_off274_eq t 3) (k1_off267_eq t 3) (k1_off269_eq t 3) (k1_off271_eq t 3) (k1_off273_eq t 3)
    (k1_off268_inb t 3) (k1_off270_inb t 3) (k1_off272_inb t 3) (k1_off274_inb t 3) (k1_off267_inb t 3) (k1_off269_inb t 3) (k1_off271_inb t 3) (k1_off273_inb t 3) h3
  have h5 := row_step_cons d L sR0 sC1 g f _ (8 * t.val + 4) (k1_off268 t 4#32) (k1_off270 t 4#32) (k1_off272 t 4#32) (k1_off274 t 4#32) (k1_off267 t 4#32) (k1_off269 t 4#32) (k1_off271 t 4#32) (k1_off273 t 4#32)
    (k1_off268_eq t 4) (k1_off270_eq t 4) (k1_off272_eq t 4) (k1_off274_eq t 4) (k1_off267_eq t 4) (k1_off269_eq t 4) (k1_off271_eq t 4) (k1_off273_eq t 4)
    (k1_off268_inb t 4) (k1_off270_inb t 4) (k1_off272_inb t 4) (k1_off274_inb t 4) (k1_off267_inb t 4) (k1_off269_inb t 4) (k1_off271_inb t 4) (k1_off273_inb t 4) h4
  have h6 := row_step_cons d L sR0 sC1 g f _ (8 * t.val + 5) (k1_off268 t 5#32) (k1_off270 t 5#32) (k1_off272 t 5#32) (k1_off274 t 5#32) (k1_off267 t 5#32) (k1_off269 t 5#32) (k1_off271 t 5#32) (k1_off273 t 5#32)
    (k1_off268_eq t 5) (k1_off270_eq t 5) (k1_off272_eq t 5) (k1_off274_eq t 5) (k1_off267_eq t 5) (k1_off269_eq t 5) (k1_off271_eq t 5) (k1_off273_eq t 5)
    (k1_off268_inb t 5) (k1_off270_inb t 5) (k1_off272_inb t 5) (k1_off274_inb t 5) (k1_off267_inb t 5) (k1_off269_inb t 5) (k1_off271_inb t 5) (k1_off273_inb t 5) h5
  have h7 := row_step_cons d L sR0 sC1 g f _ (8 * t.val + 6) (k1_off268 t 6#32) (k1_off270 t 6#32) (k1_off272 t 6#32) (k1_off274 t 6#32) (k1_off267 t 6#32) (k1_off269 t 6#32) (k1_off271 t 6#32) (k1_off273 t 6#32)
    (k1_off268_eq t 6) (k1_off270_eq t 6) (k1_off272_eq t 6) (k1_off274_eq t 6) (k1_off267_eq t 6) (k1_off269_eq t 6) (k1_off271_eq t 6) (k1_off273_eq t 6)
    (k1_off268_inb t 6) (k1_off270_inb t 6) (k1_off272_inb t 6) (k1_off274_inb t 6) (k1_off267_inb t 6) (k1_off269_inb t 6) (k1_off271_inb t 6) (k1_off273_inb t 6) h6
  have h8 := row_step_cons d L sR0 sC1 g f _ (8 * t.val + 7) (k1_off268 t 7#32) (k1_off270 t 7#32) (k1_off272 t 7#32) (k1_off274 t 7#32) (k1_off267 t 7#32) (k1_off269 t 7#32) (k1_off271 t 7#32) (k1_off273 t 7#32)
    (k1_off268_eq t 7) (k1_off270_eq t 7) (k1_off272_eq t 7) (k1_off274_eq t 7) (k1_off267_eq t 7) (k1_off269_eq t 7) (k1_off271_eq t 7) (k1_off273_eq t 7)
    (k1_off268_inb t 7) (k1_off270_inb t 7) (k1_off272_inb t 7) (k1_off274_inb t 7) (k1_off267_inb t 7) (k1_off269_inb t 7) (k1_off271_inb t 7) (k1_off273_inb t 7) h7
  intro r c hr
  exact h8 r c (by omega)

/-- The compaction step of loop 35 of 40: trip t copies rows [8 t, 8 t + 8) of the landing buffer's first 64 columns. -/
theorem compact_step_t36 (t : Fin k1_t36_loop.trips) (g : Buf (Elt F) (sR1.view.loc (thr d L))) (f : Buf (Elt F) (sC0.view.loc (thr d L)))
    (hC : Compacted (sR1.view.read (Elt F) g) (sC0.view.read (Elt F) f) t.val) :
    Compacted (sR1.view.read (Elt F) g) (sC0.view.read (Elt F) (sC0.view.writes (Elt F) f
      [cpiece d L sR1 g (k1_off282 t 7#32) (k1_off281 t 7#32) (k1_off282_inb t 7) (k1_off281_inb t 7),
       cpiece d L sR1 g (k1_off280 t 7#32) (k1_off279 t 7#32) (k1_off280_inb t 7) (k1_off279_inb t 7),
       cpiece d L sR1 g (k1_off278 t 7#32) (k1_off277 t 7#32) (k1_off278_inb t 7) (k1_off277_inb t 7),
       cpiece d L sR1 g (k1_off276 t 7#32) (k1_off275 t 7#32) (k1_off276_inb t 7) (k1_off275_inb t 7),
       cpiece d L sR1 g (k1_off282 t 6#32) (k1_off281 t 6#32) (k1_off282_inb t 6) (k1_off281_inb t 6),
       cpiece d L sR1 g (k1_off280 t 6#32) (k1_off279 t 6#32) (k1_off280_inb t 6) (k1_off279_inb t 6),
       cpiece d L sR1 g (k1_off278 t 6#32) (k1_off277 t 6#32) (k1_off278_inb t 6) (k1_off277_inb t 6),
       cpiece d L sR1 g (k1_off276 t 6#32) (k1_off275 t 6#32) (k1_off276_inb t 6) (k1_off275_inb t 6),
       cpiece d L sR1 g (k1_off282 t 5#32) (k1_off281 t 5#32) (k1_off282_inb t 5) (k1_off281_inb t 5),
       cpiece d L sR1 g (k1_off280 t 5#32) (k1_off279 t 5#32) (k1_off280_inb t 5) (k1_off279_inb t 5),
       cpiece d L sR1 g (k1_off278 t 5#32) (k1_off277 t 5#32) (k1_off278_inb t 5) (k1_off277_inb t 5),
       cpiece d L sR1 g (k1_off276 t 5#32) (k1_off275 t 5#32) (k1_off276_inb t 5) (k1_off275_inb t 5),
       cpiece d L sR1 g (k1_off282 t 4#32) (k1_off281 t 4#32) (k1_off282_inb t 4) (k1_off281_inb t 4),
       cpiece d L sR1 g (k1_off280 t 4#32) (k1_off279 t 4#32) (k1_off280_inb t 4) (k1_off279_inb t 4),
       cpiece d L sR1 g (k1_off278 t 4#32) (k1_off277 t 4#32) (k1_off278_inb t 4) (k1_off277_inb t 4),
       cpiece d L sR1 g (k1_off276 t 4#32) (k1_off275 t 4#32) (k1_off276_inb t 4) (k1_off275_inb t 4),
       cpiece d L sR1 g (k1_off282 t 3#32) (k1_off281 t 3#32) (k1_off282_inb t 3) (k1_off281_inb t 3),
       cpiece d L sR1 g (k1_off280 t 3#32) (k1_off279 t 3#32) (k1_off280_inb t 3) (k1_off279_inb t 3),
       cpiece d L sR1 g (k1_off278 t 3#32) (k1_off277 t 3#32) (k1_off278_inb t 3) (k1_off277_inb t 3),
       cpiece d L sR1 g (k1_off276 t 3#32) (k1_off275 t 3#32) (k1_off276_inb t 3) (k1_off275_inb t 3),
       cpiece d L sR1 g (k1_off282 t 2#32) (k1_off281 t 2#32) (k1_off282_inb t 2) (k1_off281_inb t 2),
       cpiece d L sR1 g (k1_off280 t 2#32) (k1_off279 t 2#32) (k1_off280_inb t 2) (k1_off279_inb t 2),
       cpiece d L sR1 g (k1_off278 t 2#32) (k1_off277 t 2#32) (k1_off278_inb t 2) (k1_off277_inb t 2),
       cpiece d L sR1 g (k1_off276 t 2#32) (k1_off275 t 2#32) (k1_off276_inb t 2) (k1_off275_inb t 2),
       cpiece d L sR1 g (k1_off282 t 1#32) (k1_off281 t 1#32) (k1_off282_inb t 1) (k1_off281_inb t 1),
       cpiece d L sR1 g (k1_off280 t 1#32) (k1_off279 t 1#32) (k1_off280_inb t 1) (k1_off279_inb t 1),
       cpiece d L sR1 g (k1_off278 t 1#32) (k1_off277 t 1#32) (k1_off278_inb t 1) (k1_off277_inb t 1),
       cpiece d L sR1 g (k1_off276 t 1#32) (k1_off275 t 1#32) (k1_off276_inb t 1) (k1_off275_inb t 1),
       cpiece d L sR1 g (k1_off282 t 0#32) (k1_off281 t 0#32) (k1_off282_inb t 0) (k1_off281_inb t 0),
       cpiece d L sR1 g (k1_off280 t 0#32) (k1_off279 t 0#32) (k1_off280_inb t 0) (k1_off279_inb t 0),
       cpiece d L sR1 g (k1_off278 t 0#32) (k1_off277 t 0#32) (k1_off278_inb t 0) (k1_off277_inb t 0),
       cpiece d L sR1 g (k1_off276 t 0#32) (k1_off275 t 0#32) (k1_off276_inb t 0) (k1_off275_inb t 0)])) (t.val + 1) := by
  have h1 := row_step_cons d L sR1 sC0 g f [] (8 * t.val + 0) (k1_off276 t 0#32) (k1_off278 t 0#32) (k1_off280 t 0#32) (k1_off282 t 0#32) (k1_off275 t 0#32) (k1_off277 t 0#32) (k1_off279 t 0#32) (k1_off281 t 0#32)
    (k1_off276_eq t 0) (k1_off278_eq t 0) (k1_off280_eq t 0) (k1_off282_eq t 0) (k1_off275_eq t 0) (k1_off277_eq t 0) (k1_off279_eq t 0) (k1_off281_eq t 0)
    (k1_off276_inb t 0) (k1_off278_inb t 0) (k1_off280_inb t 0) (k1_off282_inb t 0) (k1_off275_inb t 0) (k1_off277_inb t 0) (k1_off279_inb t 0) (k1_off281_inb t 0) ((compacted_iff_rows _ _ _).1 hC)
  have h2 := row_step_cons d L sR1 sC0 g f _ (8 * t.val + 1) (k1_off276 t 1#32) (k1_off278 t 1#32) (k1_off280 t 1#32) (k1_off282 t 1#32) (k1_off275 t 1#32) (k1_off277 t 1#32) (k1_off279 t 1#32) (k1_off281 t 1#32)
    (k1_off276_eq t 1) (k1_off278_eq t 1) (k1_off280_eq t 1) (k1_off282_eq t 1) (k1_off275_eq t 1) (k1_off277_eq t 1) (k1_off279_eq t 1) (k1_off281_eq t 1)
    (k1_off276_inb t 1) (k1_off278_inb t 1) (k1_off280_inb t 1) (k1_off282_inb t 1) (k1_off275_inb t 1) (k1_off277_inb t 1) (k1_off279_inb t 1) (k1_off281_inb t 1) h1
  have h3 := row_step_cons d L sR1 sC0 g f _ (8 * t.val + 2) (k1_off276 t 2#32) (k1_off278 t 2#32) (k1_off280 t 2#32) (k1_off282 t 2#32) (k1_off275 t 2#32) (k1_off277 t 2#32) (k1_off279 t 2#32) (k1_off281 t 2#32)
    (k1_off276_eq t 2) (k1_off278_eq t 2) (k1_off280_eq t 2) (k1_off282_eq t 2) (k1_off275_eq t 2) (k1_off277_eq t 2) (k1_off279_eq t 2) (k1_off281_eq t 2)
    (k1_off276_inb t 2) (k1_off278_inb t 2) (k1_off280_inb t 2) (k1_off282_inb t 2) (k1_off275_inb t 2) (k1_off277_inb t 2) (k1_off279_inb t 2) (k1_off281_inb t 2) h2
  have h4 := row_step_cons d L sR1 sC0 g f _ (8 * t.val + 3) (k1_off276 t 3#32) (k1_off278 t 3#32) (k1_off280 t 3#32) (k1_off282 t 3#32) (k1_off275 t 3#32) (k1_off277 t 3#32) (k1_off279 t 3#32) (k1_off281 t 3#32)
    (k1_off276_eq t 3) (k1_off278_eq t 3) (k1_off280_eq t 3) (k1_off282_eq t 3) (k1_off275_eq t 3) (k1_off277_eq t 3) (k1_off279_eq t 3) (k1_off281_eq t 3)
    (k1_off276_inb t 3) (k1_off278_inb t 3) (k1_off280_inb t 3) (k1_off282_inb t 3) (k1_off275_inb t 3) (k1_off277_inb t 3) (k1_off279_inb t 3) (k1_off281_inb t 3) h3
  have h5 := row_step_cons d L sR1 sC0 g f _ (8 * t.val + 4) (k1_off276 t 4#32) (k1_off278 t 4#32) (k1_off280 t 4#32) (k1_off282 t 4#32) (k1_off275 t 4#32) (k1_off277 t 4#32) (k1_off279 t 4#32) (k1_off281 t 4#32)
    (k1_off276_eq t 4) (k1_off278_eq t 4) (k1_off280_eq t 4) (k1_off282_eq t 4) (k1_off275_eq t 4) (k1_off277_eq t 4) (k1_off279_eq t 4) (k1_off281_eq t 4)
    (k1_off276_inb t 4) (k1_off278_inb t 4) (k1_off280_inb t 4) (k1_off282_inb t 4) (k1_off275_inb t 4) (k1_off277_inb t 4) (k1_off279_inb t 4) (k1_off281_inb t 4) h4
  have h6 := row_step_cons d L sR1 sC0 g f _ (8 * t.val + 5) (k1_off276 t 5#32) (k1_off278 t 5#32) (k1_off280 t 5#32) (k1_off282 t 5#32) (k1_off275 t 5#32) (k1_off277 t 5#32) (k1_off279 t 5#32) (k1_off281 t 5#32)
    (k1_off276_eq t 5) (k1_off278_eq t 5) (k1_off280_eq t 5) (k1_off282_eq t 5) (k1_off275_eq t 5) (k1_off277_eq t 5) (k1_off279_eq t 5) (k1_off281_eq t 5)
    (k1_off276_inb t 5) (k1_off278_inb t 5) (k1_off280_inb t 5) (k1_off282_inb t 5) (k1_off275_inb t 5) (k1_off277_inb t 5) (k1_off279_inb t 5) (k1_off281_inb t 5) h5
  have h7 := row_step_cons d L sR1 sC0 g f _ (8 * t.val + 6) (k1_off276 t 6#32) (k1_off278 t 6#32) (k1_off280 t 6#32) (k1_off282 t 6#32) (k1_off275 t 6#32) (k1_off277 t 6#32) (k1_off279 t 6#32) (k1_off281 t 6#32)
    (k1_off276_eq t 6) (k1_off278_eq t 6) (k1_off280_eq t 6) (k1_off282_eq t 6) (k1_off275_eq t 6) (k1_off277_eq t 6) (k1_off279_eq t 6) (k1_off281_eq t 6)
    (k1_off276_inb t 6) (k1_off278_inb t 6) (k1_off280_inb t 6) (k1_off282_inb t 6) (k1_off275_inb t 6) (k1_off277_inb t 6) (k1_off279_inb t 6) (k1_off281_inb t 6) h6
  have h8 := row_step_cons d L sR1 sC0 g f _ (8 * t.val + 7) (k1_off276 t 7#32) (k1_off278 t 7#32) (k1_off280 t 7#32) (k1_off282 t 7#32) (k1_off275 t 7#32) (k1_off277 t 7#32) (k1_off279 t 7#32) (k1_off281 t 7#32)
    (k1_off276_eq t 7) (k1_off278_eq t 7) (k1_off280_eq t 7) (k1_off282_eq t 7) (k1_off275_eq t 7) (k1_off277_eq t 7) (k1_off279_eq t 7) (k1_off281_eq t 7)
    (k1_off276_inb t 7) (k1_off278_inb t 7) (k1_off280_inb t 7) (k1_off282_inb t 7) (k1_off275_inb t 7) (k1_off277_inb t 7) (k1_off279_inb t 7) (k1_off281_inb t 7) h7
  intro r c hr
  exact h8 r c (by omega)

/-- The compaction step of loop 36 of 40: trip t copies rows [8 t, 8 t + 8) of the landing buffer's first 64 columns. -/
theorem compact_step_t37 (t : Fin k1_t37_loop.trips) (g : Buf (Elt F) (sR2.view.loc (thr d L))) (f : Buf (Elt F) (sC1.view.loc (thr d L)))
    (hC : Compacted (sR2.view.read (Elt F) g) (sC1.view.read (Elt F) f) t.val) :
    Compacted (sR2.view.read (Elt F) g) (sC1.view.read (Elt F) (sC1.view.writes (Elt F) f
      [cpiece d L sR2 g (k1_off290 t 7#32) (k1_off289 t 7#32) (k1_off290_inb t 7) (k1_off289_inb t 7),
       cpiece d L sR2 g (k1_off288 t 7#32) (k1_off287 t 7#32) (k1_off288_inb t 7) (k1_off287_inb t 7),
       cpiece d L sR2 g (k1_off286 t 7#32) (k1_off285 t 7#32) (k1_off286_inb t 7) (k1_off285_inb t 7),
       cpiece d L sR2 g (k1_off284 t 7#32) (k1_off283 t 7#32) (k1_off284_inb t 7) (k1_off283_inb t 7),
       cpiece d L sR2 g (k1_off290 t 6#32) (k1_off289 t 6#32) (k1_off290_inb t 6) (k1_off289_inb t 6),
       cpiece d L sR2 g (k1_off288 t 6#32) (k1_off287 t 6#32) (k1_off288_inb t 6) (k1_off287_inb t 6),
       cpiece d L sR2 g (k1_off286 t 6#32) (k1_off285 t 6#32) (k1_off286_inb t 6) (k1_off285_inb t 6),
       cpiece d L sR2 g (k1_off284 t 6#32) (k1_off283 t 6#32) (k1_off284_inb t 6) (k1_off283_inb t 6),
       cpiece d L sR2 g (k1_off290 t 5#32) (k1_off289 t 5#32) (k1_off290_inb t 5) (k1_off289_inb t 5),
       cpiece d L sR2 g (k1_off288 t 5#32) (k1_off287 t 5#32) (k1_off288_inb t 5) (k1_off287_inb t 5),
       cpiece d L sR2 g (k1_off286 t 5#32) (k1_off285 t 5#32) (k1_off286_inb t 5) (k1_off285_inb t 5),
       cpiece d L sR2 g (k1_off284 t 5#32) (k1_off283 t 5#32) (k1_off284_inb t 5) (k1_off283_inb t 5),
       cpiece d L sR2 g (k1_off290 t 4#32) (k1_off289 t 4#32) (k1_off290_inb t 4) (k1_off289_inb t 4),
       cpiece d L sR2 g (k1_off288 t 4#32) (k1_off287 t 4#32) (k1_off288_inb t 4) (k1_off287_inb t 4),
       cpiece d L sR2 g (k1_off286 t 4#32) (k1_off285 t 4#32) (k1_off286_inb t 4) (k1_off285_inb t 4),
       cpiece d L sR2 g (k1_off284 t 4#32) (k1_off283 t 4#32) (k1_off284_inb t 4) (k1_off283_inb t 4),
       cpiece d L sR2 g (k1_off290 t 3#32) (k1_off289 t 3#32) (k1_off290_inb t 3) (k1_off289_inb t 3),
       cpiece d L sR2 g (k1_off288 t 3#32) (k1_off287 t 3#32) (k1_off288_inb t 3) (k1_off287_inb t 3),
       cpiece d L sR2 g (k1_off286 t 3#32) (k1_off285 t 3#32) (k1_off286_inb t 3) (k1_off285_inb t 3),
       cpiece d L sR2 g (k1_off284 t 3#32) (k1_off283 t 3#32) (k1_off284_inb t 3) (k1_off283_inb t 3),
       cpiece d L sR2 g (k1_off290 t 2#32) (k1_off289 t 2#32) (k1_off290_inb t 2) (k1_off289_inb t 2),
       cpiece d L sR2 g (k1_off288 t 2#32) (k1_off287 t 2#32) (k1_off288_inb t 2) (k1_off287_inb t 2),
       cpiece d L sR2 g (k1_off286 t 2#32) (k1_off285 t 2#32) (k1_off286_inb t 2) (k1_off285_inb t 2),
       cpiece d L sR2 g (k1_off284 t 2#32) (k1_off283 t 2#32) (k1_off284_inb t 2) (k1_off283_inb t 2),
       cpiece d L sR2 g (k1_off290 t 1#32) (k1_off289 t 1#32) (k1_off290_inb t 1) (k1_off289_inb t 1),
       cpiece d L sR2 g (k1_off288 t 1#32) (k1_off287 t 1#32) (k1_off288_inb t 1) (k1_off287_inb t 1),
       cpiece d L sR2 g (k1_off286 t 1#32) (k1_off285 t 1#32) (k1_off286_inb t 1) (k1_off285_inb t 1),
       cpiece d L sR2 g (k1_off284 t 1#32) (k1_off283 t 1#32) (k1_off284_inb t 1) (k1_off283_inb t 1),
       cpiece d L sR2 g (k1_off290 t 0#32) (k1_off289 t 0#32) (k1_off290_inb t 0) (k1_off289_inb t 0),
       cpiece d L sR2 g (k1_off288 t 0#32) (k1_off287 t 0#32) (k1_off288_inb t 0) (k1_off287_inb t 0),
       cpiece d L sR2 g (k1_off286 t 0#32) (k1_off285 t 0#32) (k1_off286_inb t 0) (k1_off285_inb t 0),
       cpiece d L sR2 g (k1_off284 t 0#32) (k1_off283 t 0#32) (k1_off284_inb t 0) (k1_off283_inb t 0)])) (t.val + 1) := by
  have h1 := row_step_cons d L sR2 sC1 g f [] (8 * t.val + 0) (k1_off284 t 0#32) (k1_off286 t 0#32) (k1_off288 t 0#32) (k1_off290 t 0#32) (k1_off283 t 0#32) (k1_off285 t 0#32) (k1_off287 t 0#32) (k1_off289 t 0#32)
    (k1_off284_eq t 0) (k1_off286_eq t 0) (k1_off288_eq t 0) (k1_off290_eq t 0) (k1_off283_eq t 0) (k1_off285_eq t 0) (k1_off287_eq t 0) (k1_off289_eq t 0)
    (k1_off284_inb t 0) (k1_off286_inb t 0) (k1_off288_inb t 0) (k1_off290_inb t 0) (k1_off283_inb t 0) (k1_off285_inb t 0) (k1_off287_inb t 0) (k1_off289_inb t 0) ((compacted_iff_rows _ _ _).1 hC)
  have h2 := row_step_cons d L sR2 sC1 g f _ (8 * t.val + 1) (k1_off284 t 1#32) (k1_off286 t 1#32) (k1_off288 t 1#32) (k1_off290 t 1#32) (k1_off283 t 1#32) (k1_off285 t 1#32) (k1_off287 t 1#32) (k1_off289 t 1#32)
    (k1_off284_eq t 1) (k1_off286_eq t 1) (k1_off288_eq t 1) (k1_off290_eq t 1) (k1_off283_eq t 1) (k1_off285_eq t 1) (k1_off287_eq t 1) (k1_off289_eq t 1)
    (k1_off284_inb t 1) (k1_off286_inb t 1) (k1_off288_inb t 1) (k1_off290_inb t 1) (k1_off283_inb t 1) (k1_off285_inb t 1) (k1_off287_inb t 1) (k1_off289_inb t 1) h1
  have h3 := row_step_cons d L sR2 sC1 g f _ (8 * t.val + 2) (k1_off284 t 2#32) (k1_off286 t 2#32) (k1_off288 t 2#32) (k1_off290 t 2#32) (k1_off283 t 2#32) (k1_off285 t 2#32) (k1_off287 t 2#32) (k1_off289 t 2#32)
    (k1_off284_eq t 2) (k1_off286_eq t 2) (k1_off288_eq t 2) (k1_off290_eq t 2) (k1_off283_eq t 2) (k1_off285_eq t 2) (k1_off287_eq t 2) (k1_off289_eq t 2)
    (k1_off284_inb t 2) (k1_off286_inb t 2) (k1_off288_inb t 2) (k1_off290_inb t 2) (k1_off283_inb t 2) (k1_off285_inb t 2) (k1_off287_inb t 2) (k1_off289_inb t 2) h2
  have h4 := row_step_cons d L sR2 sC1 g f _ (8 * t.val + 3) (k1_off284 t 3#32) (k1_off286 t 3#32) (k1_off288 t 3#32) (k1_off290 t 3#32) (k1_off283 t 3#32) (k1_off285 t 3#32) (k1_off287 t 3#32) (k1_off289 t 3#32)
    (k1_off284_eq t 3) (k1_off286_eq t 3) (k1_off288_eq t 3) (k1_off290_eq t 3) (k1_off283_eq t 3) (k1_off285_eq t 3) (k1_off287_eq t 3) (k1_off289_eq t 3)
    (k1_off284_inb t 3) (k1_off286_inb t 3) (k1_off288_inb t 3) (k1_off290_inb t 3) (k1_off283_inb t 3) (k1_off285_inb t 3) (k1_off287_inb t 3) (k1_off289_inb t 3) h3
  have h5 := row_step_cons d L sR2 sC1 g f _ (8 * t.val + 4) (k1_off284 t 4#32) (k1_off286 t 4#32) (k1_off288 t 4#32) (k1_off290 t 4#32) (k1_off283 t 4#32) (k1_off285 t 4#32) (k1_off287 t 4#32) (k1_off289 t 4#32)
    (k1_off284_eq t 4) (k1_off286_eq t 4) (k1_off288_eq t 4) (k1_off290_eq t 4) (k1_off283_eq t 4) (k1_off285_eq t 4) (k1_off287_eq t 4) (k1_off289_eq t 4)
    (k1_off284_inb t 4) (k1_off286_inb t 4) (k1_off288_inb t 4) (k1_off290_inb t 4) (k1_off283_inb t 4) (k1_off285_inb t 4) (k1_off287_inb t 4) (k1_off289_inb t 4) h4
  have h6 := row_step_cons d L sR2 sC1 g f _ (8 * t.val + 5) (k1_off284 t 5#32) (k1_off286 t 5#32) (k1_off288 t 5#32) (k1_off290 t 5#32) (k1_off283 t 5#32) (k1_off285 t 5#32) (k1_off287 t 5#32) (k1_off289 t 5#32)
    (k1_off284_eq t 5) (k1_off286_eq t 5) (k1_off288_eq t 5) (k1_off290_eq t 5) (k1_off283_eq t 5) (k1_off285_eq t 5) (k1_off287_eq t 5) (k1_off289_eq t 5)
    (k1_off284_inb t 5) (k1_off286_inb t 5) (k1_off288_inb t 5) (k1_off290_inb t 5) (k1_off283_inb t 5) (k1_off285_inb t 5) (k1_off287_inb t 5) (k1_off289_inb t 5) h5
  have h7 := row_step_cons d L sR2 sC1 g f _ (8 * t.val + 6) (k1_off284 t 6#32) (k1_off286 t 6#32) (k1_off288 t 6#32) (k1_off290 t 6#32) (k1_off283 t 6#32) (k1_off285 t 6#32) (k1_off287 t 6#32) (k1_off289 t 6#32)
    (k1_off284_eq t 6) (k1_off286_eq t 6) (k1_off288_eq t 6) (k1_off290_eq t 6) (k1_off283_eq t 6) (k1_off285_eq t 6) (k1_off287_eq t 6) (k1_off289_eq t 6)
    (k1_off284_inb t 6) (k1_off286_inb t 6) (k1_off288_inb t 6) (k1_off290_inb t 6) (k1_off283_inb t 6) (k1_off285_inb t 6) (k1_off287_inb t 6) (k1_off289_inb t 6) h6
  have h8 := row_step_cons d L sR2 sC1 g f _ (8 * t.val + 7) (k1_off284 t 7#32) (k1_off286 t 7#32) (k1_off288 t 7#32) (k1_off290 t 7#32) (k1_off283 t 7#32) (k1_off285 t 7#32) (k1_off287 t 7#32) (k1_off289 t 7#32)
    (k1_off284_eq t 7) (k1_off286_eq t 7) (k1_off288_eq t 7) (k1_off290_eq t 7) (k1_off283_eq t 7) (k1_off285_eq t 7) (k1_off287_eq t 7) (k1_off289_eq t 7)
    (k1_off284_inb t 7) (k1_off286_inb t 7) (k1_off288_inb t 7) (k1_off290_inb t 7) (k1_off283_inb t 7) (k1_off285_inb t 7) (k1_off287_inb t 7) (k1_off289_inb t 7) h7
  intro r c hr
  exact h8 r c (by omega)

/-- The compaction step of loop 37 of 40: trip t copies rows [8 t, 8 t + 8) of the landing buffer's first 64 columns. -/
theorem compact_step_t38 (t : Fin k1_t38_loop.trips) (g : Buf (Elt F) (sR0.view.loc (thr d L))) (f : Buf (Elt F) (sC0.view.loc (thr d L)))
    (hC : Compacted (sR0.view.read (Elt F) g) (sC0.view.read (Elt F) f) t.val) :
    Compacted (sR0.view.read (Elt F) g) (sC0.view.read (Elt F) (sC0.view.writes (Elt F) f
      [cpiece d L sR0 g (k1_off298 t 7#32) (k1_off297 t 7#32) (k1_off298_inb t 7) (k1_off297_inb t 7),
       cpiece d L sR0 g (k1_off296 t 7#32) (k1_off295 t 7#32) (k1_off296_inb t 7) (k1_off295_inb t 7),
       cpiece d L sR0 g (k1_off294 t 7#32) (k1_off293 t 7#32) (k1_off294_inb t 7) (k1_off293_inb t 7),
       cpiece d L sR0 g (k1_off292 t 7#32) (k1_off291 t 7#32) (k1_off292_inb t 7) (k1_off291_inb t 7),
       cpiece d L sR0 g (k1_off298 t 6#32) (k1_off297 t 6#32) (k1_off298_inb t 6) (k1_off297_inb t 6),
       cpiece d L sR0 g (k1_off296 t 6#32) (k1_off295 t 6#32) (k1_off296_inb t 6) (k1_off295_inb t 6),
       cpiece d L sR0 g (k1_off294 t 6#32) (k1_off293 t 6#32) (k1_off294_inb t 6) (k1_off293_inb t 6),
       cpiece d L sR0 g (k1_off292 t 6#32) (k1_off291 t 6#32) (k1_off292_inb t 6) (k1_off291_inb t 6),
       cpiece d L sR0 g (k1_off298 t 5#32) (k1_off297 t 5#32) (k1_off298_inb t 5) (k1_off297_inb t 5),
       cpiece d L sR0 g (k1_off296 t 5#32) (k1_off295 t 5#32) (k1_off296_inb t 5) (k1_off295_inb t 5),
       cpiece d L sR0 g (k1_off294 t 5#32) (k1_off293 t 5#32) (k1_off294_inb t 5) (k1_off293_inb t 5),
       cpiece d L sR0 g (k1_off292 t 5#32) (k1_off291 t 5#32) (k1_off292_inb t 5) (k1_off291_inb t 5),
       cpiece d L sR0 g (k1_off298 t 4#32) (k1_off297 t 4#32) (k1_off298_inb t 4) (k1_off297_inb t 4),
       cpiece d L sR0 g (k1_off296 t 4#32) (k1_off295 t 4#32) (k1_off296_inb t 4) (k1_off295_inb t 4),
       cpiece d L sR0 g (k1_off294 t 4#32) (k1_off293 t 4#32) (k1_off294_inb t 4) (k1_off293_inb t 4),
       cpiece d L sR0 g (k1_off292 t 4#32) (k1_off291 t 4#32) (k1_off292_inb t 4) (k1_off291_inb t 4),
       cpiece d L sR0 g (k1_off298 t 3#32) (k1_off297 t 3#32) (k1_off298_inb t 3) (k1_off297_inb t 3),
       cpiece d L sR0 g (k1_off296 t 3#32) (k1_off295 t 3#32) (k1_off296_inb t 3) (k1_off295_inb t 3),
       cpiece d L sR0 g (k1_off294 t 3#32) (k1_off293 t 3#32) (k1_off294_inb t 3) (k1_off293_inb t 3),
       cpiece d L sR0 g (k1_off292 t 3#32) (k1_off291 t 3#32) (k1_off292_inb t 3) (k1_off291_inb t 3),
       cpiece d L sR0 g (k1_off298 t 2#32) (k1_off297 t 2#32) (k1_off298_inb t 2) (k1_off297_inb t 2),
       cpiece d L sR0 g (k1_off296 t 2#32) (k1_off295 t 2#32) (k1_off296_inb t 2) (k1_off295_inb t 2),
       cpiece d L sR0 g (k1_off294 t 2#32) (k1_off293 t 2#32) (k1_off294_inb t 2) (k1_off293_inb t 2),
       cpiece d L sR0 g (k1_off292 t 2#32) (k1_off291 t 2#32) (k1_off292_inb t 2) (k1_off291_inb t 2),
       cpiece d L sR0 g (k1_off298 t 1#32) (k1_off297 t 1#32) (k1_off298_inb t 1) (k1_off297_inb t 1),
       cpiece d L sR0 g (k1_off296 t 1#32) (k1_off295 t 1#32) (k1_off296_inb t 1) (k1_off295_inb t 1),
       cpiece d L sR0 g (k1_off294 t 1#32) (k1_off293 t 1#32) (k1_off294_inb t 1) (k1_off293_inb t 1),
       cpiece d L sR0 g (k1_off292 t 1#32) (k1_off291 t 1#32) (k1_off292_inb t 1) (k1_off291_inb t 1),
       cpiece d L sR0 g (k1_off298 t 0#32) (k1_off297 t 0#32) (k1_off298_inb t 0) (k1_off297_inb t 0),
       cpiece d L sR0 g (k1_off296 t 0#32) (k1_off295 t 0#32) (k1_off296_inb t 0) (k1_off295_inb t 0),
       cpiece d L sR0 g (k1_off294 t 0#32) (k1_off293 t 0#32) (k1_off294_inb t 0) (k1_off293_inb t 0),
       cpiece d L sR0 g (k1_off292 t 0#32) (k1_off291 t 0#32) (k1_off292_inb t 0) (k1_off291_inb t 0)])) (t.val + 1) := by
  have h1 := row_step_cons d L sR0 sC0 g f [] (8 * t.val + 0) (k1_off292 t 0#32) (k1_off294 t 0#32) (k1_off296 t 0#32) (k1_off298 t 0#32) (k1_off291 t 0#32) (k1_off293 t 0#32) (k1_off295 t 0#32) (k1_off297 t 0#32)
    (k1_off292_eq t 0) (k1_off294_eq t 0) (k1_off296_eq t 0) (k1_off298_eq t 0) (k1_off291_eq t 0) (k1_off293_eq t 0) (k1_off295_eq t 0) (k1_off297_eq t 0)
    (k1_off292_inb t 0) (k1_off294_inb t 0) (k1_off296_inb t 0) (k1_off298_inb t 0) (k1_off291_inb t 0) (k1_off293_inb t 0) (k1_off295_inb t 0) (k1_off297_inb t 0) ((compacted_iff_rows _ _ _).1 hC)
  have h2 := row_step_cons d L sR0 sC0 g f _ (8 * t.val + 1) (k1_off292 t 1#32) (k1_off294 t 1#32) (k1_off296 t 1#32) (k1_off298 t 1#32) (k1_off291 t 1#32) (k1_off293 t 1#32) (k1_off295 t 1#32) (k1_off297 t 1#32)
    (k1_off292_eq t 1) (k1_off294_eq t 1) (k1_off296_eq t 1) (k1_off298_eq t 1) (k1_off291_eq t 1) (k1_off293_eq t 1) (k1_off295_eq t 1) (k1_off297_eq t 1)
    (k1_off292_inb t 1) (k1_off294_inb t 1) (k1_off296_inb t 1) (k1_off298_inb t 1) (k1_off291_inb t 1) (k1_off293_inb t 1) (k1_off295_inb t 1) (k1_off297_inb t 1) h1
  have h3 := row_step_cons d L sR0 sC0 g f _ (8 * t.val + 2) (k1_off292 t 2#32) (k1_off294 t 2#32) (k1_off296 t 2#32) (k1_off298 t 2#32) (k1_off291 t 2#32) (k1_off293 t 2#32) (k1_off295 t 2#32) (k1_off297 t 2#32)
    (k1_off292_eq t 2) (k1_off294_eq t 2) (k1_off296_eq t 2) (k1_off298_eq t 2) (k1_off291_eq t 2) (k1_off293_eq t 2) (k1_off295_eq t 2) (k1_off297_eq t 2)
    (k1_off292_inb t 2) (k1_off294_inb t 2) (k1_off296_inb t 2) (k1_off298_inb t 2) (k1_off291_inb t 2) (k1_off293_inb t 2) (k1_off295_inb t 2) (k1_off297_inb t 2) h2
  have h4 := row_step_cons d L sR0 sC0 g f _ (8 * t.val + 3) (k1_off292 t 3#32) (k1_off294 t 3#32) (k1_off296 t 3#32) (k1_off298 t 3#32) (k1_off291 t 3#32) (k1_off293 t 3#32) (k1_off295 t 3#32) (k1_off297 t 3#32)
    (k1_off292_eq t 3) (k1_off294_eq t 3) (k1_off296_eq t 3) (k1_off298_eq t 3) (k1_off291_eq t 3) (k1_off293_eq t 3) (k1_off295_eq t 3) (k1_off297_eq t 3)
    (k1_off292_inb t 3) (k1_off294_inb t 3) (k1_off296_inb t 3) (k1_off298_inb t 3) (k1_off291_inb t 3) (k1_off293_inb t 3) (k1_off295_inb t 3) (k1_off297_inb t 3) h3
  have h5 := row_step_cons d L sR0 sC0 g f _ (8 * t.val + 4) (k1_off292 t 4#32) (k1_off294 t 4#32) (k1_off296 t 4#32) (k1_off298 t 4#32) (k1_off291 t 4#32) (k1_off293 t 4#32) (k1_off295 t 4#32) (k1_off297 t 4#32)
    (k1_off292_eq t 4) (k1_off294_eq t 4) (k1_off296_eq t 4) (k1_off298_eq t 4) (k1_off291_eq t 4) (k1_off293_eq t 4) (k1_off295_eq t 4) (k1_off297_eq t 4)
    (k1_off292_inb t 4) (k1_off294_inb t 4) (k1_off296_inb t 4) (k1_off298_inb t 4) (k1_off291_inb t 4) (k1_off293_inb t 4) (k1_off295_inb t 4) (k1_off297_inb t 4) h4
  have h6 := row_step_cons d L sR0 sC0 g f _ (8 * t.val + 5) (k1_off292 t 5#32) (k1_off294 t 5#32) (k1_off296 t 5#32) (k1_off298 t 5#32) (k1_off291 t 5#32) (k1_off293 t 5#32) (k1_off295 t 5#32) (k1_off297 t 5#32)
    (k1_off292_eq t 5) (k1_off294_eq t 5) (k1_off296_eq t 5) (k1_off298_eq t 5) (k1_off291_eq t 5) (k1_off293_eq t 5) (k1_off295_eq t 5) (k1_off297_eq t 5)
    (k1_off292_inb t 5) (k1_off294_inb t 5) (k1_off296_inb t 5) (k1_off298_inb t 5) (k1_off291_inb t 5) (k1_off293_inb t 5) (k1_off295_inb t 5) (k1_off297_inb t 5) h5
  have h7 := row_step_cons d L sR0 sC0 g f _ (8 * t.val + 6) (k1_off292 t 6#32) (k1_off294 t 6#32) (k1_off296 t 6#32) (k1_off298 t 6#32) (k1_off291 t 6#32) (k1_off293 t 6#32) (k1_off295 t 6#32) (k1_off297 t 6#32)
    (k1_off292_eq t 6) (k1_off294_eq t 6) (k1_off296_eq t 6) (k1_off298_eq t 6) (k1_off291_eq t 6) (k1_off293_eq t 6) (k1_off295_eq t 6) (k1_off297_eq t 6)
    (k1_off292_inb t 6) (k1_off294_inb t 6) (k1_off296_inb t 6) (k1_off298_inb t 6) (k1_off291_inb t 6) (k1_off293_inb t 6) (k1_off295_inb t 6) (k1_off297_inb t 6) h6
  have h8 := row_step_cons d L sR0 sC0 g f _ (8 * t.val + 7) (k1_off292 t 7#32) (k1_off294 t 7#32) (k1_off296 t 7#32) (k1_off298 t 7#32) (k1_off291 t 7#32) (k1_off293 t 7#32) (k1_off295 t 7#32) (k1_off297 t 7#32)
    (k1_off292_eq t 7) (k1_off294_eq t 7) (k1_off296_eq t 7) (k1_off298_eq t 7) (k1_off291_eq t 7) (k1_off293_eq t 7) (k1_off295_eq t 7) (k1_off297_eq t 7)
    (k1_off292_inb t 7) (k1_off294_inb t 7) (k1_off296_inb t 7) (k1_off298_inb t 7) (k1_off291_inb t 7) (k1_off293_inb t 7) (k1_off295_inb t 7) (k1_off297_inb t 7) h7
  intro r c hr
  exact h8 r c (by omega)

/-- The compaction step of loop 38 of 40: trip t copies rows [8 t, 8 t + 8) of the landing buffer's first 64 columns. -/
theorem compact_step_t39 (t : Fin k1_t39_loop.trips) (g : Buf (Elt F) (sR1.view.loc (thr d L))) (f : Buf (Elt F) (sC1.view.loc (thr d L)))
    (hC : Compacted (sR1.view.read (Elt F) g) (sC1.view.read (Elt F) f) t.val) :
    Compacted (sR1.view.read (Elt F) g) (sC1.view.read (Elt F) (sC1.view.writes (Elt F) f
      [cpiece d L sR1 g (k1_off306 t 7#32) (k1_off305 t 7#32) (k1_off306_inb t 7) (k1_off305_inb t 7),
       cpiece d L sR1 g (k1_off304 t 7#32) (k1_off303 t 7#32) (k1_off304_inb t 7) (k1_off303_inb t 7),
       cpiece d L sR1 g (k1_off302 t 7#32) (k1_off301 t 7#32) (k1_off302_inb t 7) (k1_off301_inb t 7),
       cpiece d L sR1 g (k1_off300 t 7#32) (k1_off299 t 7#32) (k1_off300_inb t 7) (k1_off299_inb t 7),
       cpiece d L sR1 g (k1_off306 t 6#32) (k1_off305 t 6#32) (k1_off306_inb t 6) (k1_off305_inb t 6),
       cpiece d L sR1 g (k1_off304 t 6#32) (k1_off303 t 6#32) (k1_off304_inb t 6) (k1_off303_inb t 6),
       cpiece d L sR1 g (k1_off302 t 6#32) (k1_off301 t 6#32) (k1_off302_inb t 6) (k1_off301_inb t 6),
       cpiece d L sR1 g (k1_off300 t 6#32) (k1_off299 t 6#32) (k1_off300_inb t 6) (k1_off299_inb t 6),
       cpiece d L sR1 g (k1_off306 t 5#32) (k1_off305 t 5#32) (k1_off306_inb t 5) (k1_off305_inb t 5),
       cpiece d L sR1 g (k1_off304 t 5#32) (k1_off303 t 5#32) (k1_off304_inb t 5) (k1_off303_inb t 5),
       cpiece d L sR1 g (k1_off302 t 5#32) (k1_off301 t 5#32) (k1_off302_inb t 5) (k1_off301_inb t 5),
       cpiece d L sR1 g (k1_off300 t 5#32) (k1_off299 t 5#32) (k1_off300_inb t 5) (k1_off299_inb t 5),
       cpiece d L sR1 g (k1_off306 t 4#32) (k1_off305 t 4#32) (k1_off306_inb t 4) (k1_off305_inb t 4),
       cpiece d L sR1 g (k1_off304 t 4#32) (k1_off303 t 4#32) (k1_off304_inb t 4) (k1_off303_inb t 4),
       cpiece d L sR1 g (k1_off302 t 4#32) (k1_off301 t 4#32) (k1_off302_inb t 4) (k1_off301_inb t 4),
       cpiece d L sR1 g (k1_off300 t 4#32) (k1_off299 t 4#32) (k1_off300_inb t 4) (k1_off299_inb t 4),
       cpiece d L sR1 g (k1_off306 t 3#32) (k1_off305 t 3#32) (k1_off306_inb t 3) (k1_off305_inb t 3),
       cpiece d L sR1 g (k1_off304 t 3#32) (k1_off303 t 3#32) (k1_off304_inb t 3) (k1_off303_inb t 3),
       cpiece d L sR1 g (k1_off302 t 3#32) (k1_off301 t 3#32) (k1_off302_inb t 3) (k1_off301_inb t 3),
       cpiece d L sR1 g (k1_off300 t 3#32) (k1_off299 t 3#32) (k1_off300_inb t 3) (k1_off299_inb t 3),
       cpiece d L sR1 g (k1_off306 t 2#32) (k1_off305 t 2#32) (k1_off306_inb t 2) (k1_off305_inb t 2),
       cpiece d L sR1 g (k1_off304 t 2#32) (k1_off303 t 2#32) (k1_off304_inb t 2) (k1_off303_inb t 2),
       cpiece d L sR1 g (k1_off302 t 2#32) (k1_off301 t 2#32) (k1_off302_inb t 2) (k1_off301_inb t 2),
       cpiece d L sR1 g (k1_off300 t 2#32) (k1_off299 t 2#32) (k1_off300_inb t 2) (k1_off299_inb t 2),
       cpiece d L sR1 g (k1_off306 t 1#32) (k1_off305 t 1#32) (k1_off306_inb t 1) (k1_off305_inb t 1),
       cpiece d L sR1 g (k1_off304 t 1#32) (k1_off303 t 1#32) (k1_off304_inb t 1) (k1_off303_inb t 1),
       cpiece d L sR1 g (k1_off302 t 1#32) (k1_off301 t 1#32) (k1_off302_inb t 1) (k1_off301_inb t 1),
       cpiece d L sR1 g (k1_off300 t 1#32) (k1_off299 t 1#32) (k1_off300_inb t 1) (k1_off299_inb t 1),
       cpiece d L sR1 g (k1_off306 t 0#32) (k1_off305 t 0#32) (k1_off306_inb t 0) (k1_off305_inb t 0),
       cpiece d L sR1 g (k1_off304 t 0#32) (k1_off303 t 0#32) (k1_off304_inb t 0) (k1_off303_inb t 0),
       cpiece d L sR1 g (k1_off302 t 0#32) (k1_off301 t 0#32) (k1_off302_inb t 0) (k1_off301_inb t 0),
       cpiece d L sR1 g (k1_off300 t 0#32) (k1_off299 t 0#32) (k1_off300_inb t 0) (k1_off299_inb t 0)])) (t.val + 1) := by
  have h1 := row_step_cons d L sR1 sC1 g f [] (8 * t.val + 0) (k1_off300 t 0#32) (k1_off302 t 0#32) (k1_off304 t 0#32) (k1_off306 t 0#32) (k1_off299 t 0#32) (k1_off301 t 0#32) (k1_off303 t 0#32) (k1_off305 t 0#32)
    (k1_off300_eq t 0) (k1_off302_eq t 0) (k1_off304_eq t 0) (k1_off306_eq t 0) (k1_off299_eq t 0) (k1_off301_eq t 0) (k1_off303_eq t 0) (k1_off305_eq t 0)
    (k1_off300_inb t 0) (k1_off302_inb t 0) (k1_off304_inb t 0) (k1_off306_inb t 0) (k1_off299_inb t 0) (k1_off301_inb t 0) (k1_off303_inb t 0) (k1_off305_inb t 0) ((compacted_iff_rows _ _ _).1 hC)
  have h2 := row_step_cons d L sR1 sC1 g f _ (8 * t.val + 1) (k1_off300 t 1#32) (k1_off302 t 1#32) (k1_off304 t 1#32) (k1_off306 t 1#32) (k1_off299 t 1#32) (k1_off301 t 1#32) (k1_off303 t 1#32) (k1_off305 t 1#32)
    (k1_off300_eq t 1) (k1_off302_eq t 1) (k1_off304_eq t 1) (k1_off306_eq t 1) (k1_off299_eq t 1) (k1_off301_eq t 1) (k1_off303_eq t 1) (k1_off305_eq t 1)
    (k1_off300_inb t 1) (k1_off302_inb t 1) (k1_off304_inb t 1) (k1_off306_inb t 1) (k1_off299_inb t 1) (k1_off301_inb t 1) (k1_off303_inb t 1) (k1_off305_inb t 1) h1
  have h3 := row_step_cons d L sR1 sC1 g f _ (8 * t.val + 2) (k1_off300 t 2#32) (k1_off302 t 2#32) (k1_off304 t 2#32) (k1_off306 t 2#32) (k1_off299 t 2#32) (k1_off301 t 2#32) (k1_off303 t 2#32) (k1_off305 t 2#32)
    (k1_off300_eq t 2) (k1_off302_eq t 2) (k1_off304_eq t 2) (k1_off306_eq t 2) (k1_off299_eq t 2) (k1_off301_eq t 2) (k1_off303_eq t 2) (k1_off305_eq t 2)
    (k1_off300_inb t 2) (k1_off302_inb t 2) (k1_off304_inb t 2) (k1_off306_inb t 2) (k1_off299_inb t 2) (k1_off301_inb t 2) (k1_off303_inb t 2) (k1_off305_inb t 2) h2
  have h4 := row_step_cons d L sR1 sC1 g f _ (8 * t.val + 3) (k1_off300 t 3#32) (k1_off302 t 3#32) (k1_off304 t 3#32) (k1_off306 t 3#32) (k1_off299 t 3#32) (k1_off301 t 3#32) (k1_off303 t 3#32) (k1_off305 t 3#32)
    (k1_off300_eq t 3) (k1_off302_eq t 3) (k1_off304_eq t 3) (k1_off306_eq t 3) (k1_off299_eq t 3) (k1_off301_eq t 3) (k1_off303_eq t 3) (k1_off305_eq t 3)
    (k1_off300_inb t 3) (k1_off302_inb t 3) (k1_off304_inb t 3) (k1_off306_inb t 3) (k1_off299_inb t 3) (k1_off301_inb t 3) (k1_off303_inb t 3) (k1_off305_inb t 3) h3
  have h5 := row_step_cons d L sR1 sC1 g f _ (8 * t.val + 4) (k1_off300 t 4#32) (k1_off302 t 4#32) (k1_off304 t 4#32) (k1_off306 t 4#32) (k1_off299 t 4#32) (k1_off301 t 4#32) (k1_off303 t 4#32) (k1_off305 t 4#32)
    (k1_off300_eq t 4) (k1_off302_eq t 4) (k1_off304_eq t 4) (k1_off306_eq t 4) (k1_off299_eq t 4) (k1_off301_eq t 4) (k1_off303_eq t 4) (k1_off305_eq t 4)
    (k1_off300_inb t 4) (k1_off302_inb t 4) (k1_off304_inb t 4) (k1_off306_inb t 4) (k1_off299_inb t 4) (k1_off301_inb t 4) (k1_off303_inb t 4) (k1_off305_inb t 4) h4
  have h6 := row_step_cons d L sR1 sC1 g f _ (8 * t.val + 5) (k1_off300 t 5#32) (k1_off302 t 5#32) (k1_off304 t 5#32) (k1_off306 t 5#32) (k1_off299 t 5#32) (k1_off301 t 5#32) (k1_off303 t 5#32) (k1_off305 t 5#32)
    (k1_off300_eq t 5) (k1_off302_eq t 5) (k1_off304_eq t 5) (k1_off306_eq t 5) (k1_off299_eq t 5) (k1_off301_eq t 5) (k1_off303_eq t 5) (k1_off305_eq t 5)
    (k1_off300_inb t 5) (k1_off302_inb t 5) (k1_off304_inb t 5) (k1_off306_inb t 5) (k1_off299_inb t 5) (k1_off301_inb t 5) (k1_off303_inb t 5) (k1_off305_inb t 5) h5
  have h7 := row_step_cons d L sR1 sC1 g f _ (8 * t.val + 6) (k1_off300 t 6#32) (k1_off302 t 6#32) (k1_off304 t 6#32) (k1_off306 t 6#32) (k1_off299 t 6#32) (k1_off301 t 6#32) (k1_off303 t 6#32) (k1_off305 t 6#32)
    (k1_off300_eq t 6) (k1_off302_eq t 6) (k1_off304_eq t 6) (k1_off306_eq t 6) (k1_off299_eq t 6) (k1_off301_eq t 6) (k1_off303_eq t 6) (k1_off305_eq t 6)
    (k1_off300_inb t 6) (k1_off302_inb t 6) (k1_off304_inb t 6) (k1_off306_inb t 6) (k1_off299_inb t 6) (k1_off301_inb t 6) (k1_off303_inb t 6) (k1_off305_inb t 6) h6
  have h8 := row_step_cons d L sR1 sC1 g f _ (8 * t.val + 7) (k1_off300 t 7#32) (k1_off302 t 7#32) (k1_off304 t 7#32) (k1_off306 t 7#32) (k1_off299 t 7#32) (k1_off301 t 7#32) (k1_off303 t 7#32) (k1_off305 t 7#32)
    (k1_off300_eq t 7) (k1_off302_eq t 7) (k1_off304_eq t 7) (k1_off306_eq t 7) (k1_off299_eq t 7) (k1_off301_eq t 7) (k1_off303_eq t 7) (k1_off305_eq t 7)
    (k1_off300_inb t 7) (k1_off302_inb t 7) (k1_off304_inb t 7) (k1_off306_inb t 7) (k1_off299_inb t 7) (k1_off301_inb t 7) (k1_off303_inb t 7) (k1_off305_inb t 7) h7
  intro r c hr
  exact h8 r c (by omega)

/-- The compaction step of loop 39 of 40: trip t copies rows [8 t, 8 t + 8) of the landing buffer's first 64 columns. -/
theorem compact_step_t40 (t : Fin k1_t40_loop.trips) (g : Buf (Elt F) (sR2.view.loc (thr d L))) (f : Buf (Elt F) (sC0.view.loc (thr d L)))
    (hC : Compacted (sR2.view.read (Elt F) g) (sC0.view.read (Elt F) f) t.val) :
    Compacted (sR2.view.read (Elt F) g) (sC0.view.read (Elt F) (sC0.view.writes (Elt F) f
      [cpiece d L sR2 g (k1_off314 t 7#32) (k1_off313 t 7#32) (k1_off314_inb t 7) (k1_off313_inb t 7),
       cpiece d L sR2 g (k1_off312 t 7#32) (k1_off311 t 7#32) (k1_off312_inb t 7) (k1_off311_inb t 7),
       cpiece d L sR2 g (k1_off310 t 7#32) (k1_off309 t 7#32) (k1_off310_inb t 7) (k1_off309_inb t 7),
       cpiece d L sR2 g (k1_off308 t 7#32) (k1_off307 t 7#32) (k1_off308_inb t 7) (k1_off307_inb t 7),
       cpiece d L sR2 g (k1_off314 t 6#32) (k1_off313 t 6#32) (k1_off314_inb t 6) (k1_off313_inb t 6),
       cpiece d L sR2 g (k1_off312 t 6#32) (k1_off311 t 6#32) (k1_off312_inb t 6) (k1_off311_inb t 6),
       cpiece d L sR2 g (k1_off310 t 6#32) (k1_off309 t 6#32) (k1_off310_inb t 6) (k1_off309_inb t 6),
       cpiece d L sR2 g (k1_off308 t 6#32) (k1_off307 t 6#32) (k1_off308_inb t 6) (k1_off307_inb t 6),
       cpiece d L sR2 g (k1_off314 t 5#32) (k1_off313 t 5#32) (k1_off314_inb t 5) (k1_off313_inb t 5),
       cpiece d L sR2 g (k1_off312 t 5#32) (k1_off311 t 5#32) (k1_off312_inb t 5) (k1_off311_inb t 5),
       cpiece d L sR2 g (k1_off310 t 5#32) (k1_off309 t 5#32) (k1_off310_inb t 5) (k1_off309_inb t 5),
       cpiece d L sR2 g (k1_off308 t 5#32) (k1_off307 t 5#32) (k1_off308_inb t 5) (k1_off307_inb t 5),
       cpiece d L sR2 g (k1_off314 t 4#32) (k1_off313 t 4#32) (k1_off314_inb t 4) (k1_off313_inb t 4),
       cpiece d L sR2 g (k1_off312 t 4#32) (k1_off311 t 4#32) (k1_off312_inb t 4) (k1_off311_inb t 4),
       cpiece d L sR2 g (k1_off310 t 4#32) (k1_off309 t 4#32) (k1_off310_inb t 4) (k1_off309_inb t 4),
       cpiece d L sR2 g (k1_off308 t 4#32) (k1_off307 t 4#32) (k1_off308_inb t 4) (k1_off307_inb t 4),
       cpiece d L sR2 g (k1_off314 t 3#32) (k1_off313 t 3#32) (k1_off314_inb t 3) (k1_off313_inb t 3),
       cpiece d L sR2 g (k1_off312 t 3#32) (k1_off311 t 3#32) (k1_off312_inb t 3) (k1_off311_inb t 3),
       cpiece d L sR2 g (k1_off310 t 3#32) (k1_off309 t 3#32) (k1_off310_inb t 3) (k1_off309_inb t 3),
       cpiece d L sR2 g (k1_off308 t 3#32) (k1_off307 t 3#32) (k1_off308_inb t 3) (k1_off307_inb t 3),
       cpiece d L sR2 g (k1_off314 t 2#32) (k1_off313 t 2#32) (k1_off314_inb t 2) (k1_off313_inb t 2),
       cpiece d L sR2 g (k1_off312 t 2#32) (k1_off311 t 2#32) (k1_off312_inb t 2) (k1_off311_inb t 2),
       cpiece d L sR2 g (k1_off310 t 2#32) (k1_off309 t 2#32) (k1_off310_inb t 2) (k1_off309_inb t 2),
       cpiece d L sR2 g (k1_off308 t 2#32) (k1_off307 t 2#32) (k1_off308_inb t 2) (k1_off307_inb t 2),
       cpiece d L sR2 g (k1_off314 t 1#32) (k1_off313 t 1#32) (k1_off314_inb t 1) (k1_off313_inb t 1),
       cpiece d L sR2 g (k1_off312 t 1#32) (k1_off311 t 1#32) (k1_off312_inb t 1) (k1_off311_inb t 1),
       cpiece d L sR2 g (k1_off310 t 1#32) (k1_off309 t 1#32) (k1_off310_inb t 1) (k1_off309_inb t 1),
       cpiece d L sR2 g (k1_off308 t 1#32) (k1_off307 t 1#32) (k1_off308_inb t 1) (k1_off307_inb t 1),
       cpiece d L sR2 g (k1_off314 t 0#32) (k1_off313 t 0#32) (k1_off314_inb t 0) (k1_off313_inb t 0),
       cpiece d L sR2 g (k1_off312 t 0#32) (k1_off311 t 0#32) (k1_off312_inb t 0) (k1_off311_inb t 0),
       cpiece d L sR2 g (k1_off310 t 0#32) (k1_off309 t 0#32) (k1_off310_inb t 0) (k1_off309_inb t 0),
       cpiece d L sR2 g (k1_off308 t 0#32) (k1_off307 t 0#32) (k1_off308_inb t 0) (k1_off307_inb t 0)])) (t.val + 1) := by
  have h1 := row_step_cons d L sR2 sC0 g f [] (8 * t.val + 0) (k1_off308 t 0#32) (k1_off310 t 0#32) (k1_off312 t 0#32) (k1_off314 t 0#32) (k1_off307 t 0#32) (k1_off309 t 0#32) (k1_off311 t 0#32) (k1_off313 t 0#32)
    (k1_off308_eq t 0) (k1_off310_eq t 0) (k1_off312_eq t 0) (k1_off314_eq t 0) (k1_off307_eq t 0) (k1_off309_eq t 0) (k1_off311_eq t 0) (k1_off313_eq t 0)
    (k1_off308_inb t 0) (k1_off310_inb t 0) (k1_off312_inb t 0) (k1_off314_inb t 0) (k1_off307_inb t 0) (k1_off309_inb t 0) (k1_off311_inb t 0) (k1_off313_inb t 0) ((compacted_iff_rows _ _ _).1 hC)
  have h2 := row_step_cons d L sR2 sC0 g f _ (8 * t.val + 1) (k1_off308 t 1#32) (k1_off310 t 1#32) (k1_off312 t 1#32) (k1_off314 t 1#32) (k1_off307 t 1#32) (k1_off309 t 1#32) (k1_off311 t 1#32) (k1_off313 t 1#32)
    (k1_off308_eq t 1) (k1_off310_eq t 1) (k1_off312_eq t 1) (k1_off314_eq t 1) (k1_off307_eq t 1) (k1_off309_eq t 1) (k1_off311_eq t 1) (k1_off313_eq t 1)
    (k1_off308_inb t 1) (k1_off310_inb t 1) (k1_off312_inb t 1) (k1_off314_inb t 1) (k1_off307_inb t 1) (k1_off309_inb t 1) (k1_off311_inb t 1) (k1_off313_inb t 1) h1
  have h3 := row_step_cons d L sR2 sC0 g f _ (8 * t.val + 2) (k1_off308 t 2#32) (k1_off310 t 2#32) (k1_off312 t 2#32) (k1_off314 t 2#32) (k1_off307 t 2#32) (k1_off309 t 2#32) (k1_off311 t 2#32) (k1_off313 t 2#32)
    (k1_off308_eq t 2) (k1_off310_eq t 2) (k1_off312_eq t 2) (k1_off314_eq t 2) (k1_off307_eq t 2) (k1_off309_eq t 2) (k1_off311_eq t 2) (k1_off313_eq t 2)
    (k1_off308_inb t 2) (k1_off310_inb t 2) (k1_off312_inb t 2) (k1_off314_inb t 2) (k1_off307_inb t 2) (k1_off309_inb t 2) (k1_off311_inb t 2) (k1_off313_inb t 2) h2
  have h4 := row_step_cons d L sR2 sC0 g f _ (8 * t.val + 3) (k1_off308 t 3#32) (k1_off310 t 3#32) (k1_off312 t 3#32) (k1_off314 t 3#32) (k1_off307 t 3#32) (k1_off309 t 3#32) (k1_off311 t 3#32) (k1_off313 t 3#32)
    (k1_off308_eq t 3) (k1_off310_eq t 3) (k1_off312_eq t 3) (k1_off314_eq t 3) (k1_off307_eq t 3) (k1_off309_eq t 3) (k1_off311_eq t 3) (k1_off313_eq t 3)
    (k1_off308_inb t 3) (k1_off310_inb t 3) (k1_off312_inb t 3) (k1_off314_inb t 3) (k1_off307_inb t 3) (k1_off309_inb t 3) (k1_off311_inb t 3) (k1_off313_inb t 3) h3
  have h5 := row_step_cons d L sR2 sC0 g f _ (8 * t.val + 4) (k1_off308 t 4#32) (k1_off310 t 4#32) (k1_off312 t 4#32) (k1_off314 t 4#32) (k1_off307 t 4#32) (k1_off309 t 4#32) (k1_off311 t 4#32) (k1_off313 t 4#32)
    (k1_off308_eq t 4) (k1_off310_eq t 4) (k1_off312_eq t 4) (k1_off314_eq t 4) (k1_off307_eq t 4) (k1_off309_eq t 4) (k1_off311_eq t 4) (k1_off313_eq t 4)
    (k1_off308_inb t 4) (k1_off310_inb t 4) (k1_off312_inb t 4) (k1_off314_inb t 4) (k1_off307_inb t 4) (k1_off309_inb t 4) (k1_off311_inb t 4) (k1_off313_inb t 4) h4
  have h6 := row_step_cons d L sR2 sC0 g f _ (8 * t.val + 5) (k1_off308 t 5#32) (k1_off310 t 5#32) (k1_off312 t 5#32) (k1_off314 t 5#32) (k1_off307 t 5#32) (k1_off309 t 5#32) (k1_off311 t 5#32) (k1_off313 t 5#32)
    (k1_off308_eq t 5) (k1_off310_eq t 5) (k1_off312_eq t 5) (k1_off314_eq t 5) (k1_off307_eq t 5) (k1_off309_eq t 5) (k1_off311_eq t 5) (k1_off313_eq t 5)
    (k1_off308_inb t 5) (k1_off310_inb t 5) (k1_off312_inb t 5) (k1_off314_inb t 5) (k1_off307_inb t 5) (k1_off309_inb t 5) (k1_off311_inb t 5) (k1_off313_inb t 5) h5
  have h7 := row_step_cons d L sR2 sC0 g f _ (8 * t.val + 6) (k1_off308 t 6#32) (k1_off310 t 6#32) (k1_off312 t 6#32) (k1_off314 t 6#32) (k1_off307 t 6#32) (k1_off309 t 6#32) (k1_off311 t 6#32) (k1_off313 t 6#32)
    (k1_off308_eq t 6) (k1_off310_eq t 6) (k1_off312_eq t 6) (k1_off314_eq t 6) (k1_off307_eq t 6) (k1_off309_eq t 6) (k1_off311_eq t 6) (k1_off313_eq t 6)
    (k1_off308_inb t 6) (k1_off310_inb t 6) (k1_off312_inb t 6) (k1_off314_inb t 6) (k1_off307_inb t 6) (k1_off309_inb t 6) (k1_off311_inb t 6) (k1_off313_inb t 6) h6
  have h8 := row_step_cons d L sR2 sC0 g f _ (8 * t.val + 7) (k1_off308 t 7#32) (k1_off310 t 7#32) (k1_off312 t 7#32) (k1_off314 t 7#32) (k1_off307 t 7#32) (k1_off309 t 7#32) (k1_off311 t 7#32) (k1_off313 t 7#32)
    (k1_off308_eq t 7) (k1_off310_eq t 7) (k1_off312_eq t 7) (k1_off314_eq t 7) (k1_off307_eq t 7) (k1_off309_eq t 7) (k1_off311_eq t 7) (k1_off313_eq t 7)
    (k1_off308_inb t 7) (k1_off310_inb t 7) (k1_off312_inb t 7) (k1_off314_inb t 7) (k1_off307_inb t 7) (k1_off309_inb t 7) (k1_off311_inb t 7) (k1_off313_inb t 7) h7
  intro r c hr
  exact h8 r c (by omega)

/-- The compaction step of loop 40 of 40: trip t copies rows [8 t, 8 t + 8) of the landing buffer's first 64 columns. -/
theorem compact_step_t41 (t : Fin k1_t41_loop.trips) (g : Buf (Elt F) (sR0.view.loc (thr d L))) (f : Buf (Elt F) (sC1.view.loc (thr d L)))
    (hC : Compacted (sR0.view.read (Elt F) g) (sC1.view.read (Elt F) f) t.val) :
    Compacted (sR0.view.read (Elt F) g) (sC1.view.read (Elt F) (sC1.view.writes (Elt F) f
      [cpiece d L sR0 g (k1_off322 t 7#32) (k1_off321 t 7#32) (k1_off322_inb t 7) (k1_off321_inb t 7),
       cpiece d L sR0 g (k1_off320 t 7#32) (k1_off319 t 7#32) (k1_off320_inb t 7) (k1_off319_inb t 7),
       cpiece d L sR0 g (k1_off318 t 7#32) (k1_off317 t 7#32) (k1_off318_inb t 7) (k1_off317_inb t 7),
       cpiece d L sR0 g (k1_off316 t 7#32) (k1_off315 t 7#32) (k1_off316_inb t 7) (k1_off315_inb t 7),
       cpiece d L sR0 g (k1_off322 t 6#32) (k1_off321 t 6#32) (k1_off322_inb t 6) (k1_off321_inb t 6),
       cpiece d L sR0 g (k1_off320 t 6#32) (k1_off319 t 6#32) (k1_off320_inb t 6) (k1_off319_inb t 6),
       cpiece d L sR0 g (k1_off318 t 6#32) (k1_off317 t 6#32) (k1_off318_inb t 6) (k1_off317_inb t 6),
       cpiece d L sR0 g (k1_off316 t 6#32) (k1_off315 t 6#32) (k1_off316_inb t 6) (k1_off315_inb t 6),
       cpiece d L sR0 g (k1_off322 t 5#32) (k1_off321 t 5#32) (k1_off322_inb t 5) (k1_off321_inb t 5),
       cpiece d L sR0 g (k1_off320 t 5#32) (k1_off319 t 5#32) (k1_off320_inb t 5) (k1_off319_inb t 5),
       cpiece d L sR0 g (k1_off318 t 5#32) (k1_off317 t 5#32) (k1_off318_inb t 5) (k1_off317_inb t 5),
       cpiece d L sR0 g (k1_off316 t 5#32) (k1_off315 t 5#32) (k1_off316_inb t 5) (k1_off315_inb t 5),
       cpiece d L sR0 g (k1_off322 t 4#32) (k1_off321 t 4#32) (k1_off322_inb t 4) (k1_off321_inb t 4),
       cpiece d L sR0 g (k1_off320 t 4#32) (k1_off319 t 4#32) (k1_off320_inb t 4) (k1_off319_inb t 4),
       cpiece d L sR0 g (k1_off318 t 4#32) (k1_off317 t 4#32) (k1_off318_inb t 4) (k1_off317_inb t 4),
       cpiece d L sR0 g (k1_off316 t 4#32) (k1_off315 t 4#32) (k1_off316_inb t 4) (k1_off315_inb t 4),
       cpiece d L sR0 g (k1_off322 t 3#32) (k1_off321 t 3#32) (k1_off322_inb t 3) (k1_off321_inb t 3),
       cpiece d L sR0 g (k1_off320 t 3#32) (k1_off319 t 3#32) (k1_off320_inb t 3) (k1_off319_inb t 3),
       cpiece d L sR0 g (k1_off318 t 3#32) (k1_off317 t 3#32) (k1_off318_inb t 3) (k1_off317_inb t 3),
       cpiece d L sR0 g (k1_off316 t 3#32) (k1_off315 t 3#32) (k1_off316_inb t 3) (k1_off315_inb t 3),
       cpiece d L sR0 g (k1_off322 t 2#32) (k1_off321 t 2#32) (k1_off322_inb t 2) (k1_off321_inb t 2),
       cpiece d L sR0 g (k1_off320 t 2#32) (k1_off319 t 2#32) (k1_off320_inb t 2) (k1_off319_inb t 2),
       cpiece d L sR0 g (k1_off318 t 2#32) (k1_off317 t 2#32) (k1_off318_inb t 2) (k1_off317_inb t 2),
       cpiece d L sR0 g (k1_off316 t 2#32) (k1_off315 t 2#32) (k1_off316_inb t 2) (k1_off315_inb t 2),
       cpiece d L sR0 g (k1_off322 t 1#32) (k1_off321 t 1#32) (k1_off322_inb t 1) (k1_off321_inb t 1),
       cpiece d L sR0 g (k1_off320 t 1#32) (k1_off319 t 1#32) (k1_off320_inb t 1) (k1_off319_inb t 1),
       cpiece d L sR0 g (k1_off318 t 1#32) (k1_off317 t 1#32) (k1_off318_inb t 1) (k1_off317_inb t 1),
       cpiece d L sR0 g (k1_off316 t 1#32) (k1_off315 t 1#32) (k1_off316_inb t 1) (k1_off315_inb t 1),
       cpiece d L sR0 g (k1_off322 t 0#32) (k1_off321 t 0#32) (k1_off322_inb t 0) (k1_off321_inb t 0),
       cpiece d L sR0 g (k1_off320 t 0#32) (k1_off319 t 0#32) (k1_off320_inb t 0) (k1_off319_inb t 0),
       cpiece d L sR0 g (k1_off318 t 0#32) (k1_off317 t 0#32) (k1_off318_inb t 0) (k1_off317_inb t 0),
       cpiece d L sR0 g (k1_off316 t 0#32) (k1_off315 t 0#32) (k1_off316_inb t 0) (k1_off315_inb t 0)])) (t.val + 1) := by
  have h1 := row_step_cons d L sR0 sC1 g f [] (8 * t.val + 0) (k1_off316 t 0#32) (k1_off318 t 0#32) (k1_off320 t 0#32) (k1_off322 t 0#32) (k1_off315 t 0#32) (k1_off317 t 0#32) (k1_off319 t 0#32) (k1_off321 t 0#32)
    (k1_off316_eq t 0) (k1_off318_eq t 0) (k1_off320_eq t 0) (k1_off322_eq t 0) (k1_off315_eq t 0) (k1_off317_eq t 0) (k1_off319_eq t 0) (k1_off321_eq t 0)
    (k1_off316_inb t 0) (k1_off318_inb t 0) (k1_off320_inb t 0) (k1_off322_inb t 0) (k1_off315_inb t 0) (k1_off317_inb t 0) (k1_off319_inb t 0) (k1_off321_inb t 0) ((compacted_iff_rows _ _ _).1 hC)
  have h2 := row_step_cons d L sR0 sC1 g f _ (8 * t.val + 1) (k1_off316 t 1#32) (k1_off318 t 1#32) (k1_off320 t 1#32) (k1_off322 t 1#32) (k1_off315 t 1#32) (k1_off317 t 1#32) (k1_off319 t 1#32) (k1_off321 t 1#32)
    (k1_off316_eq t 1) (k1_off318_eq t 1) (k1_off320_eq t 1) (k1_off322_eq t 1) (k1_off315_eq t 1) (k1_off317_eq t 1) (k1_off319_eq t 1) (k1_off321_eq t 1)
    (k1_off316_inb t 1) (k1_off318_inb t 1) (k1_off320_inb t 1) (k1_off322_inb t 1) (k1_off315_inb t 1) (k1_off317_inb t 1) (k1_off319_inb t 1) (k1_off321_inb t 1) h1
  have h3 := row_step_cons d L sR0 sC1 g f _ (8 * t.val + 2) (k1_off316 t 2#32) (k1_off318 t 2#32) (k1_off320 t 2#32) (k1_off322 t 2#32) (k1_off315 t 2#32) (k1_off317 t 2#32) (k1_off319 t 2#32) (k1_off321 t 2#32)
    (k1_off316_eq t 2) (k1_off318_eq t 2) (k1_off320_eq t 2) (k1_off322_eq t 2) (k1_off315_eq t 2) (k1_off317_eq t 2) (k1_off319_eq t 2) (k1_off321_eq t 2)
    (k1_off316_inb t 2) (k1_off318_inb t 2) (k1_off320_inb t 2) (k1_off322_inb t 2) (k1_off315_inb t 2) (k1_off317_inb t 2) (k1_off319_inb t 2) (k1_off321_inb t 2) h2
  have h4 := row_step_cons d L sR0 sC1 g f _ (8 * t.val + 3) (k1_off316 t 3#32) (k1_off318 t 3#32) (k1_off320 t 3#32) (k1_off322 t 3#32) (k1_off315 t 3#32) (k1_off317 t 3#32) (k1_off319 t 3#32) (k1_off321 t 3#32)
    (k1_off316_eq t 3) (k1_off318_eq t 3) (k1_off320_eq t 3) (k1_off322_eq t 3) (k1_off315_eq t 3) (k1_off317_eq t 3) (k1_off319_eq t 3) (k1_off321_eq t 3)
    (k1_off316_inb t 3) (k1_off318_inb t 3) (k1_off320_inb t 3) (k1_off322_inb t 3) (k1_off315_inb t 3) (k1_off317_inb t 3) (k1_off319_inb t 3) (k1_off321_inb t 3) h3
  have h5 := row_step_cons d L sR0 sC1 g f _ (8 * t.val + 4) (k1_off316 t 4#32) (k1_off318 t 4#32) (k1_off320 t 4#32) (k1_off322 t 4#32) (k1_off315 t 4#32) (k1_off317 t 4#32) (k1_off319 t 4#32) (k1_off321 t 4#32)
    (k1_off316_eq t 4) (k1_off318_eq t 4) (k1_off320_eq t 4) (k1_off322_eq t 4) (k1_off315_eq t 4) (k1_off317_eq t 4) (k1_off319_eq t 4) (k1_off321_eq t 4)
    (k1_off316_inb t 4) (k1_off318_inb t 4) (k1_off320_inb t 4) (k1_off322_inb t 4) (k1_off315_inb t 4) (k1_off317_inb t 4) (k1_off319_inb t 4) (k1_off321_inb t 4) h4
  have h6 := row_step_cons d L sR0 sC1 g f _ (8 * t.val + 5) (k1_off316 t 5#32) (k1_off318 t 5#32) (k1_off320 t 5#32) (k1_off322 t 5#32) (k1_off315 t 5#32) (k1_off317 t 5#32) (k1_off319 t 5#32) (k1_off321 t 5#32)
    (k1_off316_eq t 5) (k1_off318_eq t 5) (k1_off320_eq t 5) (k1_off322_eq t 5) (k1_off315_eq t 5) (k1_off317_eq t 5) (k1_off319_eq t 5) (k1_off321_eq t 5)
    (k1_off316_inb t 5) (k1_off318_inb t 5) (k1_off320_inb t 5) (k1_off322_inb t 5) (k1_off315_inb t 5) (k1_off317_inb t 5) (k1_off319_inb t 5) (k1_off321_inb t 5) h5
  have h7 := row_step_cons d L sR0 sC1 g f _ (8 * t.val + 6) (k1_off316 t 6#32) (k1_off318 t 6#32) (k1_off320 t 6#32) (k1_off322 t 6#32) (k1_off315 t 6#32) (k1_off317 t 6#32) (k1_off319 t 6#32) (k1_off321 t 6#32)
    (k1_off316_eq t 6) (k1_off318_eq t 6) (k1_off320_eq t 6) (k1_off322_eq t 6) (k1_off315_eq t 6) (k1_off317_eq t 6) (k1_off319_eq t 6) (k1_off321_eq t 6)
    (k1_off316_inb t 6) (k1_off318_inb t 6) (k1_off320_inb t 6) (k1_off322_inb t 6) (k1_off315_inb t 6) (k1_off317_inb t 6) (k1_off319_inb t 6) (k1_off321_inb t 6) h6
  have h8 := row_step_cons d L sR0 sC1 g f _ (8 * t.val + 7) (k1_off316 t 7#32) (k1_off318 t 7#32) (k1_off320 t 7#32) (k1_off322 t 7#32) (k1_off315 t 7#32) (k1_off317 t 7#32) (k1_off319 t 7#32) (k1_off321 t 7#32)
    (k1_off316_eq t 7) (k1_off318_eq t 7) (k1_off320_eq t 7) (k1_off322_eq t 7) (k1_off315_eq t 7) (k1_off317_eq t 7) (k1_off319_eq t 7) (k1_off321_eq t 7)
    (k1_off316_inb t 7) (k1_off318_inb t 7) (k1_off320_inb t 7) (k1_off322_inb t 7) (k1_off315_inb t 7) (k1_off317_inb t 7) (k1_off319_inb t 7) (k1_off321_inb t 7) h7
  intro r c hr
  exact h8 r c (by omega)

end Cert.Proof.KB

end
-- ==== Proof.KB.TilePiece.lean ====
/-
  A chunk of the gathered array written whole from a compacted buffer: if the buffer holds chunk n of the gathered
  rows — row r the first 64 columns of the table row that entry r of index row n names — then the gathered array,
  overwritten with it on the 128 rows from row 128 n, agrees there with the gathered rows; row 128 n + r of the
  gathered array reads index row n at column r.
-/
import proofs.«217222_g83150566851320_cont_9to1_m_45_25_alg».proof.Proof.KB.TileDefs

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix2 ix3)

variable {F : FTy → Type} [FloatOps F]

variable (d : Dev nD) (L : grid1.Coords)

/-- The subcore's chunks are among the 6400. -/
theorem chunkNo_lt (k : Fin k1_t1_loop.trips) (q : Fin 40) : chunkNo L k.val q.val < 6400 := by
  have h0 : (L 0).val < 2 := (L 0).isLt
  have h1 : (L 1).val < 16 := (L 1).isLt
  have hk : k.val < 5 := lt_of_lt_of_le k.isLt k1_t1_abs.2.1
  have hq : q.val < 40 := q.isLt
  show 200 * (2 * (L 1).val + (L 0).val) + 40 * k.val + q.val < 6400
  omega

/-- Chunk q of group k starts at row 128 times its number. -/
theorem outK_row0 (k : Fin k1_t1_loop.trips) (q : Fin 40) :
    (k1_off10 L k (BitVec.ofNat 32 (128 * q.val))) 0 = 128 * chunkNo L k.val q.val := by
  rw [k1_off10_eq]
  show 51200 * (L 1).val + 25600 * (L 0).val + 5120 * k.val + 128 * q.val = 128 * (200 * (2 * (L 1).val + (L 0).val) + 40 * k.val + q.val)
  omega
theorem outK_col0 (k : Fin k1_t1_loop.trips) (q : Fin 40) :
    (k1_off10 L k (BitVec.ofNat 32 (128 * q.val))) 1 = 0 := by
  rw [k1_off10_eq]; rfl

section Piece

variable (ft : FVec F S100000x128 .f32) (fi : IVec S6400x128 32)

/-- The gathered rows at an element of chunk q of group k, through the chunk's own coordinates. -/
theorem gathered_outK (k : Fin k1_t1_loop.trips) (q : Fin 40) (r : Fin 128) (c : Fin 64) :
    gathered ft fi ((outK L k q).view.emb (ix2 (n0 := 128) (n1 := 64) r c))
      = ft (ix2 (n0 := 100000) (n1 := 128)
          (Cert.Spec.rowOf (fi (ix2 (n0 := 6400) (n1 := 128) ⟨chunkNo L k.val q.val, chunkNo_lt L k q⟩ r))) (c.castLE (by decide))) := by
  have e0 : (((outK L k q).view.emb (ix2 (n0 := 128) (n1 := 64) r c)) 0).val = 128 * chunkNo L k.val q.val + r.val := by
    show (k1_off10 L k (BitVec.ofNat 32 (128 * q.val))) 0 + 1 * r.val = _
    rw [outK_row0]; omega
  have e1 : (((outK L k q).view.emb (ix2 (n0 := 128) (n1 := 64) r c)) 1).val = c.val := by
    show (k1_off10 L k (BitVec.ofNat 32 (128 * q.val))) 1 + 1 * c.val = _
    rw [outK_col0]; omega
  have hr : r.val < 128 := r.isLt
  unfold gathered
  refine congrArg ft (congrArg₂ (ix2 (n0 := 100000) (n1 := 128)) (congrArg Cert.Spec.rowOf (congrArg fi
    (congrArg₂ (ix2 (n0 := 6400) (n1 := 128)) (Fin.ext ?_) (Fin.ext ?_)))) (Fin.ext ?_))
  · show (((outK L k q).view.emb (ix2 (n0 := 128) (n1 := 64) r c)) 0).val / 128 = chunkNo L k.val q.val
    rw [e0]; omega
  · show (((outK L k q).view.emb (ix2 (n0 := 128) (n1 := 64) r c)) 0).val % 128 = r.val
    rw [e0]; omega
  · show (((outK L k q).view.emb (ix2 (n0 := 128) (n1 := 64) r c)) 1).val = c.val
    exact e1

/-- Chunk q of group k written whole with a buffer that holds that chunk of the gathered rows agrees, on the chunk,
    with the gathered rows, whatever the array held. -/
theorem piece_eq (k : Fin k1_t1_loop.trips) (q : Fin 40) (w : FVec F S128x64 .f32)
    (hc : ChunkOf ft fi (chunkNo L k.val q.val) w) (fo : Buf (Elt F) ((outK L k q).view.loc (thr d L))) :
    ∀ i ∈ (outK L k q).view.set, (outK L k q).view.write (Elt F) fo w Finset.univ i = gathered ft fi i := by
  intro i hi
  obtain ⟨x, -, rfl⟩ := Finset.mem_map.mp hi
  rw [View.write_emb_of_mem _ _ (Finset.mem_univ x)]
  obtain ⟨r, c, rfl⟩ : ∃ (r : Fin 128) (c : Fin 64), x = ix2 r c := ⟨x 0, x 1, ValueIdx.eq_ix2 x⟩
  rw [gathered_outK]
  exact hc r c (chunkNo_lt L k q)

/-- The same with the payload as a local copy moves it: what the compacted buffer dst reads. -/
theorem piece_eq_copy (k : Fin k1_t1_loop.trips) (q : Fin 40) (dst : Memref sig .scVector .vmem S128x64 .f32)
    (f : Buf (Elt F) (dst.view.loc (thr d L))) (hc : ChunkOf ft fi (chunkNo L k.val q.val) (dst.view.read (Elt F) f))
    (fo : Buf (Elt F) ((outK L k q).view.loc (thr d L))) :
    ∀ i ∈ (outK L k q).view.set,
      (outK L k q).view.write (Elt F) fo (ReadAs.same.apply (dst.view.read (Elt F) f)) Finset.univ i = gathered ft fi i :=
  piece_eq d L ft fi k q _ hc fo

/-- and with it as one whole-rectangle write of a list of writes. -/
theorem piece_eq_writes (k : Fin k1_t1_loop.trips) (q : Fin 40) (w : FVec F S128x64 .f32)
    (hc : ChunkOf ft fi (chunkNo L k.val q.val) w) (fo : Buf (Elt F) ((outK L k q).view.loc (thr d L))) :
    ∀ i ∈ (outK L k q).view.set,
      (outK L k q).view.writes (Elt F) fo [⟨Rect.whole S128x64, w⟩] i = gathered ft fi i := by
  intro i hi
  obtain ⟨x, -, rfl⟩ := Finset.mem_map.mp hi
  obtain ⟨r, c, rfl⟩ : ∃ (r : Fin 128) (c : Fin 64), x = ix2 r c := ⟨x 0, x 1, ValueIdx.eq_ix2 x⟩
  have hx : (outK L k q).view.read (Elt F) ((outK L k q).view.writes (Elt F) fo [⟨Rect.whole S128x64, w⟩]) ((Rect.whole S128x64).emb (ix2 r c)) = w (ix2 r c) :=
    View.read_writes_cons_emb _ _ _ _ _ _
  rw [Rect.emb_whole_apply] at hx
  exact (show (outK L k q).view.writes (Elt F) fo [⟨Rect.whole S128x64, w⟩] ((outK L k q).view.emb (ix2 r c)) = w (ix2 r c) from hx).trans
    ((hc r c (chunkNo_lt L k q)).trans (gathered_outK L ft fi k q r c).symm)

end Piece

/-! ## As points-tos -/

section Pts

variable (m : (ℓ : Loc nD τ sig) → Buf (Elt F) ℓ)

/-- The chunk, held whole at the array overwritten with a buffer that holds the chunk of the gathered rows of the
    scaled table by the index rows, is held at the gathered rows. -/
theorem pts_piece (k : Fin k1_t1_loop.trips) (q : Fin 40) (w : FVec F S128x64 .f32)
    (hc : ChunkOf (TAB m d) (IDX m d) (chunkNo L k.val q.val) w) (fo : Buf (Elt F) ((outK L k q).view.loc (thr d L))) :
    ((outK L k q).view.loc (thr d L) ↦[(outK L k q).view.set]{fullShare} (outK L k q).view.write (Elt F) fo w Finset.univ : sProp (MM F))
      = ((outK L k q).view.loc (thr d L) ↦[(outK L k q).view.set]{fullShare} OUT m d) :=
  pointsTo_congr (piece_eq d L (TAB m d) (IDX m d) k q w hc fo)

theorem pts_piece_copy (k : Fin k1_t1_loop.trips) (q : Fin 40) (dst : Memref sig .scVector .vmem S128x64 .f32)
    (f : Buf (Elt F) (dst.view.loc (thr d L))) (hc : ChunkOf (TAB m d) (IDX m d) (chunkNo L k.val q.val) (dst.view.read (Elt F) f))
    (fo : Buf (Elt F) ((outK L k q).view.loc (thr d L))) :
    ((outK L k q).view.loc (thr d L) ↦[(outK L k q).view.set]{fullShare}
        (outK L k q).view.write (Elt F) fo (ReadAs.same.apply (dst.view.read (Elt F) f)) Finset.univ : sProp (MM F))
      = ((outK L k q).view.loc (thr d L) ↦[(outK L k q).view.set]{fullShare} OUT m d) :=
  pts_piece d L m k q _ hc fo

/-- The same for the chunk written as one whole-rectangle write of a list of writes, whatever the array held. -/
theorem pts_piece_writes (k : Fin k1_t1_loop.trips) (q : Fin 40) (w : FVec F S128x64 .f32)
    (hc : ChunkOf (TAB m d) (IDX m d) (chunkNo L k.val q.val) w) (fo : Buf (Elt F) ((outK L k q).view.loc (thr d L))) :
    ((outK L k q).view.loc (thr d L) ↦[(outK L k q).view.set]{fullShare}
        (outK L k q).view.writes (Elt F) fo [⟨Rect.whole S128x64, w⟩] : sProp (MM F))
      = ((outK L k q).view.loc (thr d L) ↦[(outK L k q).view.set]{fullShare} OUT m d) :=
  pointsTo_congr (piece_eq_writes d L (TAB m d) (IDX m d) k q w hc fo)

theorem pts_piece_writes_copy (k : Fin k1_t1_loop.trips) (q : Fin 40) (dst : Memref sig .scVector .vmem S128x64 .f32)
    (f : Buf (Elt F) (dst.view.loc (thr d L))) (hc : ChunkOf (TAB m d) (IDX m d) (chunkNo L k.val q.val) (dst.view.read (Elt F) f))
    (fo : Buf (Elt F) ((outK L k q).view.loc (thr d L))) :
    ((outK L k q).view.loc (thr d L) ↦[(outK L k q).view.set]{fullShare}
        (outK L k q).view.writes (Elt F) fo [⟨Rect.whole S128x64, ReadAs.same.apply (dst.view.read (Elt F) f)⟩] : sProp (MM F))
      = ((outK L k q).view.loc (thr d L) ↦[(outK L k q).view.set]{fullShare} OUT m d) :=
  pts_piece_writes d L m k q _ hc fo

theorem pts_piece_writes_read (k : Fin k1_t1_loop.trips) (q : Fin 40) (dst : Memref sig .scVector .vmem S128x64 .f32)
    (f : Buf (Elt F) (dst.view.loc (thr d L))) (hc : ChunkOf (TAB m d) (IDX m d) (chunkNo L k.val q.val) (dst.view.read (Elt F) f))
    (fo : Buf (Elt F) ((outK L k q).view.loc (thr d L))) :
    ((outK L k q).view.loc (thr d L) ↦[(outK L k q).view.set]{fullShare}
        (outK L k q).view.writes (Elt F) fo [⟨Rect.whole S128x64, dst.view.read (Elt F) f⟩] : sProp (MM F))
      = ((outK L k q).view.loc (thr d L) ↦[(outK L k q).view.set]{fullShare} OUT m d) :=
  pts_piece_writes d L m k q _ hc fo

end Pts

end Cert.Proof.KB

end
-- ==== Proof.KB.TileAux.lean ====
/-
  Two small facts for the vector subcore's task: a wait recorded at the kernel's own index keeps the bound on the
  recorded waits, and the tokens laid out in rows of 128 are the same words, so they name rows of the table when the
  tokens do.
-/
import proofs.«217222_g83150566851320_cont_9to1_m_45_25_alg».proof.Proof.KB.TileDefs

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix2 ix3)
open Idealize.ShloMosaic.Transfers (shareTok shareTokN shareDrop)

variable {F : FTy → Type} [FloatOps F]

theorem waits_insert {W W' : Waits sig (HIx 1)} {a : SemLoc sig × HIx 1} (ha : a.2 = none)
    (h : ∀ p ∈ W', p ∈ W ∨ p.2 = none) : ∀ p ∈ insert a W', p ∈ W ∨ p.2 = none := by
  intro p hp
  rcases Finset.mem_insert.mp hp with rfl | hp
  · exact .inr ha
  · exact h p hp

theorem idxRows_range {tok : IVec S4096x200 32} (h : Cert.Spec.InRange tok) : ∀ i, (idxRows tok i).toNat < 100000 :=
  fun _ => h _

end Cert.Proof.KB

end
-- ==== Proof.KB.TileBody.lean ====
/-
  A vector subcore's task, run: for each of its five groups it copies the group's 40 index rows into its scratch, then,
  chunk by chunk, gathers the 128 table rows an index row names into a landing buffer (three in rotation, two gathers
  ahead), compacts their first 64 columns into a compacted buffer (two in rotation) and copies that out to the chunk's
  128 rows of the gathered array. Every chunk of the group ends at the gathered rows: a landing buffer's row r is the
  table row the r-th word of the chunk's index row names, the compaction keeps columns 0 to 63, and the copy writes
  the chunk whole.
-/
import proofs.«217222_g83150566851320_cont_9to1_m_45_25_alg».proof.Proof.KB.TilePlumb
import proofs.«217222_g83150566851320_cont_9to1_m_45_25_alg».proof.Proof.KB.TileVal2a
import proofs.«217222_g83150566851320_cont_9to1_m_45_25_alg».proof.Proof.KB.TileVal2b
import proofs.«217222_g83150566851320_cont_9to1_m_45_25_alg».proof.Proof.KB.TileVal2c
import proofs.«217222_g83150566851320_cont_9to1_m_45_25_alg».proof.Proof.KB.TileVal2d
import proofs.«217222_g83150566851320_cont_9to1_m_45_25_alg».proof.Proof.KB.TilePiece
import proofs.«217222_g83150566851320_cont_9to1_m_45_25_alg».proof.Proof.KB.TileAux

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix2 ix3)
open Idealize.ShloMosaic.Transfers (shareTok shareTokN shareDrop)

variable {F : FTy → Type} [FloatOps F]

local notation "𝕄" => MM F

variable (m : (ℓ : Loc nD τ sig) → Buf (Elt F) ℓ) (d : Dev nD) (L : grid1.Coords)

/-- The invariant of a chunk's compaction loop: the landing buffer src unchanged, its rows the table rows that index
    row n names; the compacted buffer dst with its first 8·t rows done. -/
def invC' (ft : FVec F S100000x128 .f32) (fi : IVec S6400x128 32) (n : ℕ)
    (src : Memref sig .scVector .vmem S128x128 .f32) (dst : Memref sig .scVector .vmem S128x64 .f32) (t : Nat) (_ : PUnit) : sProp 𝕄 :=
  iprop(∃ g : Buf (Elt F) (src.view.loc (thr d L)), (src.view.loc (thr d L) ↦{fullShare} g) ∗ ⌜RowsOf ft fi n (src.view.read (Elt F) g)⌝
    ∗ ∃ f : Buf (Elt F) (dst.view.loc (thr d L)), (dst.view.loc (thr d L) ↦{fullShare} f) ∗ ⌜Compacted (src.view.read (Elt F) g) (dst.view.read (Elt F) f) t⌝)

/-- A group's 40 chunks of the gathered array: still to be written, and written. -/
def OutTodo (k : Fin k1_t1_loop.trips) : sProp 𝕄 :=
  bigSep Finset.univ fun q : Fin 40 => iprop(∃ f, (outK L k q).view.loc (thr d L) ↦[(outK L k q).view.set]{fullShare} f)
def OutDone (k : Fin k1_t1_loop.trips) : sProp 𝕄 :=
  bigSep Finset.univ fun q : Fin 40 => (outK L k q).view.loc (thr d L) ↦[(outK L k q).view.set]{fullShare} OUT m d

/-- The invariant of the loop over the groups: the table under the three gather cells' read tokens, the index rows
    under the subcore's read share, the first n groups' chunks written, the scratch and the semaphores at rest. -/
def invO (O : CellTallies nD τ sig (HIx 1)) (W : Waits sig (HIx 1)) (n : Nat) (_ : PUnit) : sProp 𝕄 :=
  iprop(Transfers.MayWaits (thr d L) (none : HIx 1) O
    ∗ ((tabV : Memref sig .scVector .hbm S100000x128 .f32).view.loc (thr d L) ↦{shareTokN (tok (cV L) (jV L)) 4} TAB m d)
    ∗ ((tabV : Memref sig .scVector .hbm S100000x128 .f32).view.loc (thr d L) ↦{shareTokN (tok (cV L) (jV L)) 5} TAB m d)
    ∗ ((tabV : Memref sig .scVector .hbm S100000x128 .f32).view.loc (thr d L) ↦{shareTokN (tok (cV L) (jV L)) 6} TAB m d)
    ∗ ((idxV : Memref sig .scVector .hbm S6400x128 .i32).view.loc (thr d L) ↦{tok (cV L) (jV L)} IDX m d)
    ∗ (bigSep Finset.univ fun k' : Fin k1_t1_loop.trips => if k'.val < n then OutDone m d L k' else OutTodo d L k')
    ∗ SCR d L ∗ SEM d L
    ∗ ∃ W', owes (thr d L) O W' ∗ ⌜∀ p ∈ W', p ∈ W ∨ p.2 = none⌝)

set_option maxHeartbeats 40000000 in
/-- The task of the vector subcore at L: from its share of the call's operands, its scratch and semaphores at rest and
    what it owes the launch, to its 200 chunks at the gathered rows. -/
theorem tile_body (hr : ∀ d, Cert.Spec.InRange (m (tokLoc d))) (hF : (K (F := F)).Facts)
    (O : CellTallies nD τ sig (HIx 1)) (W : Waits sig (HIx 1)) (hO : ∀ g, O g none = 0) : BODY d L m O W := by
  unfold BODY
  simp only [cc1_gather_eq_skeleton]; unfold cc1_gather_skel
  iintro ⟨#Hlv, Hgo, Hscr, Hsem, HO⟩
  ihave Hmw := ((K (F := F)).mayWaits_none (thr := thr d L) hO) $$ Hlv
  ihave Hgo' := (go_split m d L).1 $$ Hgo
  icases Hgo' with ⟨Htab, Hidx, Hout⟩
  ihave Htab' := (tab_cells _ _ _).1 $$ Htab
  icases Htab' with ⟨Htabrest, Htab4, Htab5, Htab6⟩
  sl_exec
  sl_for (invO m d L O W) $$ [Hmw Htab4 Htab5 Htab6 Hidx Hout Hscr Hsem HO]
  case region =>
    intro k _
    unfold invO SCR SEM
    iintro ⟨#Hmw, Htab4, Htab5, Htab6, Hidx, Hout, ⟨⟨%f0, Hs0⟩, ⟨%f1, Hr0⟩, ⟨%f2, Hr1⟩, ⟨%f3, Hr2⟩, ⟨%f4, Hc0⟩, ⟨%f5, Hc1⟩⟩, ⟨H6, H7, H8, H9, H10, Hsc⟩, %W', HO, %hW'⟩
    ihave Hout' := (Entails.of_eq (prefix_take (OutDone m d L) (OutTodo d L) k)) $$ Hout
    icases Hout' with ⟨Hk, Hrest⟩
    unfold OutTodo
    ihave Hk' := (Entails.of_eq (bigSep_fin40 _)) $$ Hk
    icases Hk' with ⟨⟨%fo0, Ho0⟩, ⟨%fo1, Ho1⟩, ⟨%fo2, Ho2⟩, ⟨%fo3, Ho3⟩, ⟨%fo4, Ho4⟩, ⟨%fo5, Ho5⟩, ⟨%fo6, Ho6⟩, ⟨%fo7, Ho7⟩, ⟨%fo8, Ho8⟩, ⟨%fo9, Ho9⟩, ⟨%fo10, Ho10⟩, ⟨%fo11, Ho11⟩, ⟨%fo12, Ho12⟩, ⟨%fo13, Ho13⟩, ⟨%fo14, Ho14⟩, ⟨%fo15, Ho15⟩, ⟨%fo16, Ho16⟩, ⟨%fo17, Ho17⟩, ⟨%fo18, Ho18⟩, ⟨%fo19, Ho19⟩, ⟨%fo20, Ho20⟩, ⟨%fo21, Ho21⟩, ⟨%fo22, Ho22⟩, ⟨%fo23, Ho23⟩, ⟨%fo24, Ho24⟩, ⟨%fo25, Ho25⟩, ⟨%fo26, Ho26⟩, ⟨%fo27, Ho27⟩, ⟨%fo28, Ho28⟩, ⟨%fo29, Ho29⟩, ⟨%fo30, Ho30⟩, ⟨%fo31, Ho31⟩, ⟨%fo32, Ho32⟩, ⟨%fo33, Ho33⟩, ⟨%fo34, Ho34⟩, ⟨%fo35, Ho35⟩, ⟨%fo36, Ho36⟩, ⟨%fo37, Ho37⟩, ⟨%fo38, Ho38⟩, ⟨%fo39, Ho39⟩⟩
    have hin := hin_rows (F := F) d L (IDX m d) (idxRows_range (hr d)) k
    sl_exec_parts
    -- chunk 0: landing buffer 0, compacted buffer 0
    sl_for (invC' d L (TAB m d) (IDX m d) (chunkNo L k.val 0) sR0 sC0) $$ [Hr0 Hc0]
    case region =>
      intro t _
      unfold invC'
      iintro ⟨%g, Hs, %hg, %f, Hd, %hf⟩
      sl_exec_parts
      sl_step
      iexists g; isplitl [Hs]; · iexact Hs
      isplitr; · ipureintro; exact hg
      iexists _; isplitl [Hd]; · iexact Hd
      ipureintro
      sl_unfold_run_names
      exact compact_step_t2 d L t g f hf
    · unfold invC'
      iexists _; isplitl [Hr0]; · iexact Hr0
      isplitr
      · ipureintro
        sl_unfold_run_names
        exact rows_value d L sR0 (TAB m d) (IDX m d) k ⟨0, by decide⟩ _ _ _ _ _
      iexists _; isplitl [Hc0]; · iexact Hc0
      ipureintro; exact fun r c h => absurd h (by omega)
    iintro %_ HI
    unfold invC'
    icases HI with ⟨%g0, Hr0, %hg0, %c0, Hc0, %hc0⟩
    sl_exec_parts
    -- chunk 1: landing buffer 1, compacted buffer 1
    sl_for (invC' d L (TAB m d) (IDX m d) (chunkNo L k.val 1) sR1 sC1) $$ [Hr1 Hc1]
    case region =>
      intro t _
      unfold invC'
      iintro ⟨%g, Hs, %hg, %f, Hd, %hf⟩
      sl_exec_parts
      sl_step
      iexists g; isplitl [Hs]; · iexact Hs
      isplitr; · ipureintro; exact hg
      iexists _; isplitl [Hd]; · iexact Hd
      ipureintro
      sl_unfold_run_names
      exact compact_step_t3 d L t g f hf
    · unfold invC'
      iexists _; isplitl [Hr1]; · iexact Hr1
      isplitr
      · ipureintro
        sl_unfold_run_names
        exact rows_value d L sR1 (TAB m d) (IDX m d) k ⟨1, by decide⟩ _ _ _ _ _
      iexists _; isplitl [Hc1]; · iexact Hc1
      ipureintro; exact fun r c h => absurd h (by omega)
    iintro %_ HI
    unfold invC'
    icases HI with ⟨%g1, Hr1, %hg1, %c1, Hc1, %hc1⟩
    sl_exec_parts
    -- chunk 2: landing buffer 2, compacted buffer 0
    sl_for (invC' d L (TAB m d) (IDX m d) (chunkNo L k.val 2) sR2 sC0) $$ [Hr2 Hc0]
    case region =>
      intro t _
      unfold invC'
      iintro ⟨%g, Hs, %hg, %f, Hd, %hf⟩
      sl_exec_parts
      sl_step
      iexists g; isplitl [Hs]; · iexact Hs
      isplitr; · ipureintro; exact hg
      iexists _; isplitl [Hd]; · iexact Hd
      ipureintro
      sl_unfold_run_names
      exact compact_step_t4 d L t g f hf
    · unfold invC'
      iexists _; isplitl [Hr2]; · iexact Hr2
      isplitr
      · ipureintro
        sl_unfold_run_names
        exact rows_value d L sR2 (TAB m d) (IDX m d) k ⟨2, by decide⟩ _ _ _ _ _
      iexists _; isplitl [Hc0]; · iexact Hc0
      ipureintro; exact fun r c h => absurd h (by omega)
    iintro %_ HI
    unfold invC'
    icases HI with ⟨%g2, Hr2, %hg2, %c2, Hc0, %hc2⟩
    sl_exec_parts
    -- chunk 3: landing buffer 0, compacted buffer 1
    sl_for (invC' d L (TAB m d) (IDX m d) (chunkNo L k.val 3) sR0 sC1) $$ [Hr0 Hc1]
    case region =>
      intro t _
      unfold invC'
      iintro ⟨%g, Hs, %hg, %f, Hd, %hf⟩
      sl_exec_parts
      sl_step
      iexists g; isplitl [Hs]; · iexact Hs
      isplitr; · ipureintro; exact hg
      iexists _; isplitl [Hd]; · iexact Hd
      ipureintro
      sl_unfold_run_names
      exact compact_step_t5 d L t g f hf
    · unfold invC'
      iexists _; isplitl [Hr0]; · iexact Hr0
      isplitr
      · ipureintro
        sl_unfold_run_names
        exact rows_value d L sR0 (TAB m d) (IDX m d) k ⟨3, by decide⟩ _ _ _ _ _
      iexists _; isplitl [Hc1]; · iexact Hc1
      ipureintro; exact fun r c h => absurd h (by omega)
    iintro %_ HI
    unfold invC'
    icases HI with ⟨%g3, Hr0, %hg3, %c3, Hc1, %hc3⟩
    sl_exec_parts
    -- chunk 4: landing buffer 1, compacted buffer 0
    sl_for (invC' d L (TAB m d) (IDX m d) (chunkNo L k.val 4) sR1 sC0) $$ [Hr1 Hc0]
    case region =>
      intro t _
      unfold invC'
      iintro ⟨%g, Hs, %hg, %f, Hd, %hf⟩
      sl_exec_parts
      sl_step
      iexists g; isplitl [Hs]; · iexact Hs
      isplitr; · ipureintro; exact hg
      iexists _; isplitl [Hd]; · iexact Hd
      ipureintro
      sl_unfold_run_names
      exact compact_step_t6 d L t g f hf
    · unfold invC'
      iexists _; isplitl [Hr1]; · iexact Hr1
      isplitr
      · ipureintro
        sl_unfold_run_names
        exact rows_value d L sR1 (TAB m d) (IDX m d) k ⟨4, by decide⟩ _ _ _ _ _
      iexists _; isplitl [Hc0]; · iexact Hc0
      ipureintro; exact fun r c h => absurd h (by omega)
    iintro %_ HI
    unfold invC'
    icases HI with ⟨%g4, Hr1, %hg4, %c4, Hc0, %hc4⟩
    sl_exec_parts
    -- chunk 5: landing buffer 2, compacted buffer 1
    sl_for (invC' d L (TAB m d) (IDX m d) (chunkNo L k.val 5) sR2 sC1) $$ [Hr2 Hc1]
    case region =>
      intro t _
      unfold invC'
      iintro ⟨%g, Hs, %hg, %f, Hd, %hf⟩
      sl_exec_parts
      sl_step
      iexists g; isplitl [Hs]; · iexact Hs
      isplitr; · ipureintro; exact hg
      iexists _; isplitl [Hd]; · iexact Hd
      ipureintro
      sl_unfold_run_names
      exact compact_step_t7 d L t g f hf
    · unfold invC'
      iexists _; isplitl [Hr2]; · iexact Hr2
      isplitr
      · ipureintro
        sl_unfold_run_names
        exact rows_value d L sR2 (TAB m d) (IDX m d) k ⟨5, by decide⟩ _ _ _ _ _
      iexists _; isplitl [Hc1]; · iexact Hc1
      ipureintro; exact fun r c h => absurd h (by omega)
    iintro %_ HI
    unfold invC'
    icases HI with ⟨%g5, Hr2, %hg5, %c5, Hc1, %hc5⟩
    sl_exec_parts
    -- chunk 6: landing buffer 0, compacted buffer 0
    sl_for (invC' d L (TAB m d) (IDX m d) (chunkNo L k.val 6) sR0 sC0) $$ [Hr0 Hc0]
    case region =>
      intro t _
      unfold invC'
      iintro ⟨%g, Hs, %hg, %f, Hd, %hf⟩
      sl_exec_parts
      sl_step
      iexists g; isplitl [Hs]; · iexact Hs
      isplitr; · ipureintro; exact hg
      iexists _; isplitl [Hd]; · iexact Hd
      ipureintro
      sl_unfold_run_names
      exact compact_step_t8 d L t g f hf
    · unfold invC'
      iexists _; isplitl [Hr0]; · iexact Hr0
      isplitr
      · ipureintro
        sl_unfold_run_names
        exact rows_value d L sR0 (TAB m d) (IDX m d) k ⟨6, by decide⟩ _ _ _ _ _
      iexists _; isplitl [Hc0]; · iexact Hc0
      ipureintro; exact fun r c h => absurd h (by omega)
    iintro %_ HI
    unfold invC'
    icases HI with ⟨%g6, Hr0, %hg6, %c6, Hc0, %hc6⟩
    sl_exec_parts
    -- chunk 7: landing buffer 1, compacted buffer 1
    sl_for (invC' d L (TAB m d) (IDX m d) (chunkNo L k.val 7) sR1 sC1) $$ [Hr1 Hc1]
    case region =>
      intro t _
      unfold invC'
      iintro ⟨%g, Hs, %hg, %f, Hd, %hf⟩
      sl_exec_parts
      sl_step
      iexists g; isplitl [Hs]; · iexact Hs
      isplitr; · ipureintro; exact hg
      iexists _; isplitl [Hd]; · iexact Hd
      ipureintro
      sl_unfold_run_names
      exact compact_step_t9 d L t g f hf
    · unfold invC'
      iexists _; isplitl [Hr1]; · iexact Hr1
      isplitr
      · ipureintro
        sl_unfold_run_names
        exact rows_value d L sR1 (TAB m d) (IDX m d) k ⟨7, by decide⟩ _ _ _ _ _
      iexists _; isplitl [Hc1]; · iexact Hc1
      ipureintro; exact fun r c h => absurd h (by omega)
    iintro %_ HI
    unfold invC'
    icases HI with ⟨%g7, Hr1, %hg7, %c7, Hc1, %hc7⟩
    sl_exec_parts
    -- chunk 8: landing buffer 2, compacted buffer 0
    sl_for (invC' d L (TAB m d) (IDX m d) (chunkNo L k.val 8) sR2 sC0) $$ [Hr2 Hc0]
    case region =>
      intro t _
      unfold invC'
      iintro ⟨%g, Hs, %hg, %f, Hd, %hf⟩
      sl_exec_parts
      sl_step
      iexists g; isplitl [Hs]; · iexact Hs
      isplitr; · ipureintro; exact hg
      iexists _; isplitl [Hd]; · iexact Hd
      ipureintro
      sl_unfold_run_names
      exact compact_step_t10 d L t g f hf
    · unfold invC'
      iexists _; isplitl [Hr2]; · iexact Hr2
      isplitr
      · ipureintro
        sl_unfold_run_names
        exact rows_value d L sR2 (TAB m d) (IDX m d) k ⟨8, by decide⟩ _ _ _ _ _
      iexists _; isplitl [Hc0]; · iexact Hc0
      ipureintro; exact fun r c h => absurd h (by omega)
    iintro %_ HI
    unfold invC'
    icases HI with ⟨%g8, Hr2, %hg8, %c8, Hc0, %hc8⟩
    sl_exec_parts
    -- chunk 9: landing buffer 0, compacted buffer 1
    sl_for (invC' d L (TAB m d) (IDX m d) (chunkNo L k.val 9) sR0 sC1) $$ [Hr0 Hc1]
    case region =>
      intro t _
      unfold invC'
      iintro ⟨%g, Hs, %hg, %f, Hd, %hf⟩
      sl_exec_parts
      sl_step
      iexists g; isplitl [Hs]; · iexact Hs
      isplitr; · ipureintro; exact hg
      iexists _; isplitl [Hd]; · iexact Hd
      ipureintro
      sl_unfold_run_names
      exact compact_step_t11 d L t g f hf
    · unfold invC'
      iexists _; isplitl [Hr0]; · iexact Hr0
      isplitr
      · ipureintro
        sl_unfold_run_names
        exact rows_value d L sR0 (TAB m d) (IDX m d) k ⟨9, by decide⟩ _ _ _ _ _
      iexists _; isplitl [Hc1]; · iexact Hc1
      ipureintro; exact fun r c h => absurd h (by omega)
    iintro %_ HI
    unfold invC'
    icases HI with ⟨%g9, Hr0, %hg9, %c9, Hc1, %hc9⟩
    sl_exec_parts
    -- chunk 10: landing buffer 1, compacted buffer 0
    sl_for (invC' d L (TAB m d) (IDX m d) (chunkNo L k.val 10) sR1 sC0) $$ [Hr1 Hc0]
    case region =>
      intro t _
      unfold invC'
      iintro ⟨%g, Hs, %hg, %f, Hd, %hf⟩
      sl_exec_parts
      sl_step
      iexists g; isplitl [Hs]; · iexact Hs
      isplitr; · ipureintro; exact hg
      iexists _; isplitl [Hd]; · iexact Hd
      ipureintro
      sl_unfold_run_names
      exact compact_step_t12 d L t g f hf
    · unfold invC'
      iexists _; isplitl [Hr1]; · iexact Hr1
      isplitr
      · ipureintro
        sl_unfold_run_names
        exact rows_value d L sR1 (TAB m d) (IDX m d) k ⟨10, by decide⟩ _ _ _ _ _
      iexists _; isplitl [Hc0]; · iexact Hc0
      ipureintro; exact fun r c h => absurd h (by omega)
    iintro %_ HI
    unfold invC'
    icases HI with ⟨%g10, Hr1, %hg10, %c10, Hc0, %hc10⟩
    sl_exec_parts
    -- chunk 11: landing buffer 2, compacted buffer 1
    sl_for (invC' d L (TAB m d) (IDX m d) (chunkNo L k.val 11) sR2 sC1) $$ [Hr2 Hc1]
    case region =>
      intro t _
      unfold invC'
      iintro ⟨%g, Hs, %hg, %f, Hd, %hf⟩
      sl_exec_parts
      sl_step
      iexists g; isplitl [Hs]; · iexact Hs
      isplitr; · ipureintro; exact hg
      iexists _; isplitl [Hd]; · iexact Hd
      ipureintro
      sl_unfold_run_names
      exact compact_step_t13 d L t g f hf
    · unfold invC'
      iexists _; isplitl [Hr2]; · iexact Hr2
      isplitr
      · ipureintro
        sl_unfold_run_names
        exact rows_value d L sR2 (TAB m d) (IDX m d) k ⟨11, by decide⟩ _ _ _ _ _
      iexists _; isplitl [Hc1]; · iexact Hc1
      ipureintro; exact fun r c h => absurd h (by omega)
    iintro %_ HI
    unfold invC'
    icases HI with ⟨%g11, Hr2, %hg11, %c11, Hc1, %hc11⟩
    sl_exec_parts
    -- chunk 12: landing buffer 0, compacted buffer 0
    sl_for (invC' d L (TAB m d) (IDX m d) (chunkNo L k.val 12) sR0 sC0) $$ [Hr0 Hc0]
    case region =>
      intro t _
      unfold invC'
      iintro ⟨%g, Hs, %hg, %f, Hd, %hf⟩
      sl_exec_parts
      sl_step
      iexists g; isplitl [Hs]; · iexact Hs
      isplitr; · ipureintro; exact hg
      iexists _; isplitl [Hd]; · iexact Hd
      ipureintro
      sl_unfold_run_names
      exact compact_step_t14 d L t g f hf
    · unfold invC'
      iexists _; isplitl [Hr0]; · iexact Hr0
      isplitr
      · ipureintro
        sl_unfold_run_names
        exact rows_value d L sR0 (TAB m d) (IDX m d) k ⟨12, by decide⟩ _ _ _ _ _
      iexists _; isplitl [Hc0]; · iexact Hc0
      ipureintro; exact fun r c h => absurd h (by omega)
    iintro %_ HI
    unfold invC'
    icases HI with ⟨%g12, Hr0, %hg12, %c12, Hc0, %hc12⟩
    sl_exec_parts
    -- chunk 13: landing buffer 1, compacted buffer 1
    sl_for (invC' d L (TAB m d) (IDX m d) (chunkNo L k.val 13) sR1 sC1) $$ [Hr1 Hc1]
    case region =>
      intro t _
      unfold invC'
      iintro ⟨%g, Hs, %hg, %f, Hd, %hf⟩
      sl_exec_parts
      sl_step
      iexists g; isplitl [Hs]; · iexact Hs
      isplitr; · ipureintro; exact hg
      iexists _; isplitl [Hd]; · iexact Hd
      ipureintro
      sl_unfold_run_names
      exact compact_step_t15 d L t g f hf
    · unfold invC'
      iexists _; isplitl [Hr1]; · iexact Hr1
      isplitr
      · ipureintro
        sl_unfold_run_names
        exact rows_value d L sR1 (TAB m d) (IDX m d) k ⟨13, by decide⟩ _ _ _ _ _
      iexists _; isplitl [Hc1]; · iexact Hc1
      ipureintro; exact fun r c h => absurd h (by omega)
    iintro %_ HI
    unfold invC'
    icases HI with ⟨%g13, Hr1, %hg13, %c13, Hc1, %hc13⟩
    sl_exec_parts
    -- chunk 14: landing buffer 2, compacted buffer 0
    sl_for (invC' d L (TAB m d) (IDX m d) (chunkNo L k.val 14) sR2 sC0) $$ [Hr2 Hc0]
    case region =>
      intro t _
      unfold invC'
      iintro ⟨%g, Hs, %hg, %f, Hd, %hf⟩
      sl_exec_parts
      sl_step
      iexists g; isplitl [Hs]; · iexact Hs
      isplitr; · ipureintro; exact hg
      iexists _; isplitl [Hd]; · iexact Hd
      ipureintro
      sl_unfold_run_names
      exact compact_step_t16 d L t g f hf
    · unfold invC'
      iexists _; isplitl [Hr2]; · iexact Hr2
      isplitr
      · ipureintro
        sl_unfold_run_names
        exact rows_value d L sR2 (TAB m d) (IDX m d) k ⟨14, by decide⟩ _ _ _ _ _
      iexists _; isplitl [Hc0]; · iexact Hc0
      ipureintro; exact fun r c h => absurd h (by omega)
    iintro %_ HI
    unfold invC'
    icases HI with ⟨%g14, Hr2, %hg14, %c14, Hc0, %hc14⟩
    sl_exec_parts
    -- chunk 15: landing buffer 0, compacted buffer 1
    sl_for (invC' d L (TAB m d) (IDX m d) (chunkNo L k.val 15) sR0 sC1) $$ [Hr0 Hc1]
    case region =>
      intro t _
      unfold invC'
      iintro ⟨%g, Hs, %hg, %f, Hd, %hf⟩
      sl_exec_parts
      sl_step
      iexists g; isplitl [Hs]; · iexact Hs
      isplitr; · ipureintro; exact hg
      iexists _; isplitl [Hd]; · iexact Hd
      ipureintro
      sl_unfold_run_names
      exact compact_step_t17 d L t g f hf
    · unfold invC'
      iexists _; isplitl [Hr0]; · iexact Hr0
      isplitr
      · ipureintro
        sl_unfold_run_names
        exact rows_value d L sR0 (TAB m d) (IDX m d) k ⟨15, by decide⟩ _ _ _ _ _
      iexists _; isplitl [Hc1]; · iexact Hc1
      ipureintro; exact fun r c h => absurd h (by omega)
    iintro %_ HI
    unfold invC'
    icases HI with ⟨%g15, Hr0, %hg15, %c15, Hc1, %hc15⟩
    sl_exec_parts
    -- chunk 16: landing buffer 1, compacted buffer 0
    sl_for (invC' d L (TAB m d) (IDX m d) (chunkNo L k.val 16) sR1 sC0) $$ [Hr1 Hc0]
    case region =>
      intro t _
      unfold invC'
      iintro ⟨%g, Hs, %hg, %f, Hd, %hf⟩
      sl_exec_parts
      sl_step
      iexists g; isplitl [Hs]; · iexact Hs
      isplitr; · ipureintro; exact hg
      iexists _; isplitl [Hd]; · iexact Hd
      ipureintro
      sl_unfold_run_names
      exact compact_step_t18 d L t g f hf
    · unfold invC'
      iexists _; isplitl [Hr1]; · iexact Hr1
      isplitr
      · ipureintro
        sl_unfold_run_names
        exact rows_value d L sR1 (TAB m d) (IDX m d) k ⟨16, by decide⟩ _ _ _ _ _
      iexists _; isplitl [Hc0]; · iexact Hc0
      ipureintro; exact fun r c h => absurd h (by omega)
    iintro %_ HI
    unfold invC'
    icases HI with ⟨%g16, Hr1, %hg16, %c16, Hc0, %hc16⟩
    sl_exec_parts
    -- chunk 17: landing buffer 2, compacted buffer 1
    sl_for (invC' d L (TAB m d) (IDX m d) (chunkNo L k.val 17) sR2 sC1) $$ [Hr2 Hc1]
    case region =>
      intro t _
      unfold invC'
      iintro ⟨%g, Hs, %hg, %f, Hd, %hf⟩
      sl_exec_parts
      sl_step
      iexists g; isplitl [Hs]; · iexact Hs
      isplitr; · ipureintro; exact hg
      iexists _; isplitl [Hd]; · iexact Hd
      ipureintro
      sl_unfold_run_names
      exact compact_step_t19 d L t g f hf
    · unfold invC'
      iexists _; isplitl [Hr2]; · iexact Hr2
      isplitr
      · ipureintro
        sl_unfold_run_names
        exact rows_value d L sR2 (TAB m d) (IDX m d) k ⟨17, by decide⟩ _ _ _ _ _
      iexists _; isplitl [Hc1]; · iexact Hc1
      ipureintro; exact fun r c h => absurd h (by omega)
    iintro %_ HI
    unfold invC'
    icases HI with ⟨%g17, Hr2, %hg17, %c17, Hc1, %hc17⟩
    sl_exec_parts
    -- chunk 18: landing buffer 0, compacted buffer 0
    sl_for (invC' d L (TAB m d) (IDX m d) (chunkNo L k.val 18) sR0 sC0) $$ [Hr0 Hc0]
    case region =>
      intro t _
      unfold invC'
      iintro ⟨%g, Hs, %hg, %f, Hd, %hf⟩
      sl_exec_parts
      sl_step
      iexists g; isplitl [Hs]; · iexact Hs
      isplitr; · ipureintro; exact hg
      iexists _; isplitl [Hd]; · iexact Hd
      ipureintro
      sl_unfold_run_names
      exact compact_step_t20 d L t g f hf
    · unfold invC'
      iexists _; isplitl [Hr0]; · iexact Hr0
      isplitr
      · ipureintro
        sl_unfold_run_names
        exact rows_value d L sR0 (TAB m d) (IDX m d) k ⟨18, by decide⟩ _ _ _ _ _
      iexists _; isplitl [Hc0]; · iexact Hc0
      ipureintro; exact fun r c h => absurd h (by omega)
    iintro %_ HI
    unfold invC'
    icases HI with ⟨%g18, Hr0, %hg18, %c18, Hc0, %hc18⟩
    sl_exec_parts
    -- chunk 19: landing buffer 1, compacted buffer 1
    sl_for (invC' d L (TAB m d) (IDX m d) (chunkNo L k.val 19) sR1 sC1) $$ [Hr1 Hc1]
    case region =>
      intro t _
      unfold invC'
      iintro ⟨%g, Hs, %hg, %f, Hd, %hf⟩
      sl_exec_parts
      sl_step
      iexists g; isplitl [Hs]; · iexact Hs
      isplitr; · ipureintro; exact hg
      iexists _; isplitl [Hd]; · iexact Hd
      ipureintro
      sl_unfold_run_names
      exact compact_step_t21 d L t g f hf
    · unfold invC'
      iexists _; isplitl [Hr1]; · iexact Hr1
      isplitr
      · ipureintro
        sl_unfold_run_names
        exact rows_value d L sR1 (TAB m d) (IDX m d) k ⟨19, by decide⟩ _ _ _ _ _
      iexists _; isplitl [Hc1]; · iexact Hc1
      ipureintro; exact fun r c h => absurd h (by omega)
    iintro %_ HI
    unfold invC'
    icases HI with ⟨%g19, Hr1, %hg19, %c19, Hc1, %hc19⟩
    sl_exec_parts
    -- chunk 20: landing buffer 2, compacted buffer 0
    sl_for (invC' d L (TAB m d) (IDX m d) (chunkNo L k.val 20) sR2 sC0) $$ [Hr2 Hc0]
    case region =>
      intro t _
      unfold invC'
      iintro ⟨%g, Hs, %hg, %f, Hd, %hf⟩
      sl_exec_parts
      sl_step
      iexists g; isplitl [Hs]; · iexact Hs
      isplitr; · ipureintro; exact hg
      iexists _; isplitl [Hd]; · iexact Hd
      ipureintro
      sl_unfold_run_names
      exact compact_step_t22 d L t g f hf
    · unfold invC'
      iexists _; isplitl [Hr2]; · iexact Hr2
      isplitr
      · ipureintro
        sl_unfold_run_names
        exact rows_value d L sR2 (TAB m d) (IDX m d) k ⟨20, by decide⟩ _ _ _ _ _
      iexists _; isplitl [Hc0]; · iexact Hc0
      ipureintro; exact fun r c h => absurd h (by omega)
    iintro %_ HI
    unfold invC'
    icases HI with ⟨%g20, Hr2, %hg20, %c20, Hc0, %hc20⟩
    sl_exec_parts
    -- chunk 21: landing buffer 0, compacted buffer 1
    sl_for (invC' d L (TAB m d) (IDX m d) (chunkNo L k.val 21) sR0 sC1) $$ [Hr0 Hc1]
    case region =>
      intro t _
      unfold invC'
      iintro ⟨%g, Hs, %hg, %f, Hd, %hf⟩
      sl_exec_parts
      sl_step
      iexists g; isplitl [Hs]; · iexact Hs
      isplitr; · ipureintro; exact hg
      iexists _; isplitl [Hd]; · iexact Hd
      ipureintro
      sl_unfold_run_names
      exact compact_step_t23 d L t g f hf
    · unfold invC'
      iexists _; isplitl [Hr0]; · iexact Hr0
      isplitr
      · ipureintro
        sl_unfold_run_names
        exact rows_value d L sR0 (TAB m d) (IDX m d) k ⟨21, by decide⟩ _ _ _ _ _
      iexists _; isplitl [Hc1]; · iexact Hc1
      ipureintro; exact fun r c h => absurd h (by omega)
    iintro %_ HI
    unfold invC'
    icases HI with ⟨%g21, Hr0, %hg21, %c21, Hc1, %hc21⟩
    sl_exec_parts
    -- chunk 22: landing buffer 1, compacted buffer 0
    sl_for (invC' d L (TAB m d) (IDX m d) (chunkNo L k.val 22) sR1 sC0) $$ [Hr1 Hc0]
    case region =>
      intro t _
      unfold invC'
      iintro ⟨%g, Hs, %hg, %f, Hd, %hf⟩
      sl_exec_parts
      sl_step
      iexists g; isplitl [Hs]; · iexact Hs
      isplitr; · ipureintro; exact hg
      iexists _; isplitl [Hd]; · iexact Hd
      ipureintro
      sl_unfold_run_names
      exact compact_step_t24 d L t g f hf
    · unfold invC'
      iexists _; isplitl [Hr1]; · iexact Hr1
      isplitr
      · ipureintro
        sl_unfold_run_names
        exact rows_value d L sR1 (TAB m d) (IDX m d) k ⟨22, by decide⟩ _ _ _ _ _
      iexists _; isplitl [Hc0]; · iexact Hc0
      ipureintro; exact fun r c h => absurd h (by omega)
    iintro %_ HI
    unfold invC'
    icases HI with ⟨%g22, Hr1, %hg22, %c22, Hc0, %hc22⟩
    sl_exec_parts
    -- chunk 23: landing buffer 2, compacted buffer 1
    sl_for (invC' d L (TAB m d) (IDX m d) (chunkNo L k.val 23) sR2 sC1) $$ [Hr2 Hc1]
    case region =>
      intro t _
      unfold invC'
      iintro ⟨%g, Hs, %hg, %f, Hd, %hf⟩
      sl_exec_parts
      sl_step
      iexists g; isplitl [Hs]; · iexact Hs
      isplitr; · ipureintro; exact hg
      iexists _; isplitl [Hd]; · iexact Hd
      ipureintro
      sl_unfold_run_names
      exact compact_step_t25 d L t g f hf
    · unfold invC'
      iexists _; isplitl [Hr2]; · iexact Hr2
      isplitr
      · ipureintro
        sl_unfold_run_names
        exact rows_value d L sR2 (TAB m d) (IDX m d) k ⟨23, by decide⟩ _ _ _ _ _
      iexists _; isplitl [Hc1]; · iexact Hc1
      ipureintro; exact fun r c h => absurd h (by omega)
    iintro %_ HI
    unfold invC'
    icases HI with ⟨%g23, Hr2, %hg23, %c23, Hc1, %hc23⟩
    sl_exec_parts
    -- chunk 24: landing buffer 0, compacted buffer 0
    sl_for (invC' d L (TAB m d) (IDX m d) (chunkNo L k.val 24) sR0 sC0) $$ [Hr0 Hc0]
    case region =>
      intro t _
      unfold invC'
      iintro ⟨%g, Hs, %hg, %f, Hd, %hf⟩
      sl_exec_parts
      sl_step
      iexists g; isplitl [Hs]; · iexact Hs
      isplitr; · ipureintro; exact hg
      iexists _; isplitl [Hd]; · iexact Hd
      ipureintro
      sl_unfold_run_names
      exact compact_step_t26 d L t g f hf
    · unfold invC'
      iexists _; isplitl [Hr0]; · iexact Hr0
      isplitr
      · ipureintro
        sl_unfold_run_names
        exact rows_value d L sR0 (TAB m d) (IDX m d) k ⟨24, by decide⟩ _ _ _ _ _
      iexists _; isplitl [Hc0]; · iexact Hc0
      ipureintro; exact fun r c h => absurd h (by omega)
    iintro %_ HI
    unfold invC'
    icases HI with ⟨%g24, Hr0, %hg24, %c24, Hc0, %hc24⟩
    sl_exec_parts
    -- chunk 25: landing buffer 1, compacted buffer 1
    sl_for (invC' d L (TAB m d) (IDX m d) (chunkNo L k.val 25) sR1 sC1) $$ [Hr1 Hc1]
    case region =>
      intro t _
      unfold invC'
      iintro ⟨%g, Hs, %hg, %f, Hd, %hf⟩
      sl_exec_parts
      sl_step
      iexists g; isplitl [Hs]; · iexact Hs
      isplitr; · ipureintro; exact hg
      iexists _; isplitl [Hd]; · iexact Hd
      ipureintro
      sl_unfold_run_names
      exact compact_step_t27 d L t g f hf
    · unfold invC'
      iexists _; isplitl [Hr1]; · iexact Hr1
      isplitr
      · ipureintro
        sl_unfold_run_names
        exact rows_value d L sR1 (TAB m d) (IDX m d) k ⟨25, by decide⟩ _ _ _ _ _
      iexists _; isplitl [Hc1]; · iexact Hc1
      ipureintro; exact fun r c h => absurd h (by omega)
    iintro %_ HI
    unfold invC'
    icases HI with ⟨%g25, Hr1, %hg25, %c25, Hc1, %hc25⟩
    sl_exec_parts
    -- chunk 26: landing buffer 2, compacted buffer 0
    sl_for (invC' d L (TAB m d) (IDX m d) (chunkNo L k.val 26) sR2 sC0) $$ [Hr2 Hc0]
    case region =>
      intro t _
      unfold invC'
      iintro ⟨%g, Hs, %hg, %f, Hd, %hf⟩
      sl_exec_parts
      sl_step
      iexists g; isplitl [Hs]; · iexact Hs
      isplitr; · ipureintro; exact hg
      iexists _; isplitl [Hd]; · iexact Hd
      ipureintro
      sl_unfold_run_names
      exact compact_step_t28 d L t g f hf
    · unfold invC'
      iexists _; isplitl [Hr2]; · iexact Hr2
      isplitr
      · ipureintro
        sl_unfold_run_names
        exact rows_value d L sR2 (TAB m d) (IDX m d) k ⟨26, by decide⟩ _ _ _ _ _
      iexists _; isplitl [Hc0]; · iexact Hc0
      ipureintro; exact fun r c h => absurd h (by omega)
    iintro %_ HI
    unfold invC'
    icases HI with ⟨%g26, Hr2, %hg26, %c26, Hc0, %hc26⟩
    sl_exec_parts
    -- chunk 27: landing buffer 0, compacted buffer 1
    sl_for (invC' d L (TAB m d) (IDX m d) (chunkNo L k.val 27) sR0 sC1) $$ [Hr0 Hc1]
    case region =>
      intro t _
      unfold invC'
      iintro ⟨%g, Hs, %hg, %f, Hd, %hf⟩
      sl_exec_parts
      sl_step
      iexists g; isplitl [Hs]; · iexact Hs
      isplitr; · ipureintro; exact hg
      iexists _; isplitl [Hd]; · iexact Hd
      ipureintro
      sl_unfold_run_names
      exact compact_step_t29 d L t g f hf
    · unfold invC'
      iexists _; isplitl [Hr0]; · iexact Hr0
      isplitr
      · ipureintro
        sl_unfold_run_names
        exact rows_value d L sR0 (TAB m d) (IDX m d) k ⟨27, by decide⟩ _ _ _ _ _
      iexists _; isplitl [Hc1]; · iexact Hc1
      ipureintro; exact fun r c h => absurd h (by omega)
    iintro %_ HI
    unfold invC'
    icases HI with ⟨%g27, Hr0, %hg27, %c27, Hc1, %hc27⟩
    sl_exec_parts
    -- chunk 28: landing buffer 1, compacted buffer 0
    sl_for (invC' d L (TAB m d) (IDX m d) (chunkNo L k.val 28) sR1 sC0) $$ [Hr1 Hc0]
    case region =>
      intro t _
      unfold invC'
      iintro ⟨%g, Hs, %hg, %f, Hd, %hf⟩
      sl_exec_parts
      sl_step
      iexists g; isplitl [Hs]; · iexact Hs
      isplitr; · ipureintro; exact hg
      iexists _; isplitl [Hd]; · iexact Hd
      ipureintro
      sl_unfold_run_names
      exact compact_step_t30 d L t g f hf
    · unfold invC'
      iexists _; isplitl [Hr1]; · iexact Hr1
      isplitr
      · ipureintro
        sl_unfold_run_names
        exact rows_value d L sR1 (TAB m d) (IDX m d) k ⟨28, by decide⟩ _ _ _ _ _
      iexists _; isplitl [Hc0]; · iexact Hc0
      ipureintro; exact fun r c h => absurd h (by omega)
    iintro %_ HI
    unfold invC'
    icases HI with ⟨%g28, Hr1, %hg28, %c28, Hc0, %hc28⟩
    sl_exec_parts
    -- chunk 29: landing buffer 2, compacted buffer 1
    sl_for (invC' d L (TAB m d) (IDX m d) (chunkNo L k.val 29) sR2 sC1) $$ [Hr2 Hc1]
    case region =>
      intro t _
      unfold invC'
      iintro ⟨%g, Hs, %hg, %f, Hd, %hf⟩
      sl_exec_parts
      sl_step
      iexists g; isplitl [Hs]; · iexact Hs
      isplitr; · ipureintro; exact hg
      iexists _; isplitl [Hd]; · iexact Hd
      ipureintro
      sl_unfold_run_names
      exact compact_step_t31 d L t g f hf
    · unfold invC'
      iexists _; isplitl [Hr2]; · iexact Hr2
      isplitr
      · ipureintro
        sl_unfold_run_names
        exact rows_value d L sR2 (TAB m d) (IDX m d) k ⟨29, by decide⟩ _ _ _ _ _
      iexists _; isplitl [Hc1]; · iexact Hc1
      ipureintro; exact fun r c h => absurd h (by omega)
    iintro %_ HI
    unfold invC'
    icases HI with ⟨%g29, Hr2, %hg29, %c29, Hc1, %hc29⟩
    sl_exec_parts
    -- chunk 30: landing buffer 0, compacted buffer 0
    sl_for (invC' d L (TAB m d) (IDX m d) (chunkNo L k.val 30) sR0 sC0) $$ [Hr0 Hc0]
    case region =>
      intro t _
      unfold invC'
      iintro ⟨%g, Hs, %hg, %f, Hd, %hf⟩
      sl_exec_parts
      sl_step
      iexists g; isplitl [Hs]; · iexact Hs
      isplitr; · ipureintro; exact hg
      iexists _; isplitl [Hd]; · iexact Hd
      ipureintro
      sl_unfold_run_names
      exact compact_step_t32 d L t g f hf
    · unfold invC'
      iexists _; isplitl [Hr0]; · iexact Hr0
      isplitr
      · ipureintro
        sl_unfold_run_names
        exact rows_value d L sR0 (TAB m d) (IDX m d) k ⟨30, by decide⟩ _ _ _ _ _
      iexists _; isplitl [Hc0]; · iexact Hc0
      ipureintro; exact fun r c h => absurd h (by omega)
    iintro %_ HI
    unfold invC'
    icases HI with ⟨%g30, Hr0, %hg30, %c30, Hc0, %hc30⟩
    sl_exec_parts
    -- chunk 31: landing buffer 1, compacted buffer 1
    sl_for (invC' d L (TAB m d) (IDX m d) (chunkNo L k.val 31) sR1 sC1) $$ [Hr1 Hc1]
    case region =>
      intro t _
      unfold invC'
      iintro ⟨%g, Hs, %hg, %f, Hd, %hf⟩
      sl_exec_parts
      sl_step
      iexists g; isplitl [Hs]; · iexact Hs
      isplitr; · ipureintro; exact hg
      iexists _; isplitl [Hd]; · iexact Hd
      ipureintro
      sl_unfold_run_names
      exact compact_step_t33 d L t g f hf
    · unfold invC'
      iexists _; isplitl [Hr1]; · iexact Hr1
      isplitr
      · ipureintro
        sl_unfold_run_names
        exact rows_value d L sR1 (TAB m d) (IDX m d) k ⟨31, by decide⟩ _ _ _ _ _
      iexists _; isplitl [Hc1]; · iexact Hc1
      ipureintro; exact fun r c h => absurd h (by omega)
    iintro %_ HI
    unfold invC'
    icases HI with ⟨%g31, Hr1, %hg31, %c31, Hc1, %hc31⟩
    sl_exec_parts
    -- chunk 32: landing buffer 2, compacted buffer 0
    sl_for (invC' d L (TAB m d) (IDX m d) (chunkNo L k.val 32) sR2 sC0) $$ [Hr2 Hc0]
    case region =>
      intro t _
      unfold invC'
      iintro ⟨%g, Hs, %hg, %f, Hd, %hf⟩
      sl_exec_parts
      sl_step
      iexists g; isplitl [Hs]; · iexact Hs
      isplitr; · ipureintro; exact hg
      iexists _; isplitl [Hd]; · iexact Hd
      ipureintro
      sl_unfold_run_names
      exact compact_step_t34 d L t g f hf
    · unfold invC'
      iexists _; isplitl [Hr2]; · iexact Hr2
      isplitr
      · ipureintro
        sl_unfold_run_names
        exact rows_value d L sR2 (TAB m d) (IDX m d) k ⟨32, by decide⟩ _ _ _ _ _
      iexists _; isplitl [Hc0]; · iexact Hc0
      ipureintro; exact fun r c h => absurd h (by omega)
    iintro %_ HI
    unfold invC'
    icases HI with ⟨%g32, Hr2, %hg32, %c32, Hc0, %hc32⟩
    sl_exec_parts
    -- chunk 33: landing buffer 0, compacted buffer 1
    sl_for (invC' d L (TAB m d) (IDX m d) (chunkNo L k.val 33) sR0 sC1) $$ [Hr0 Hc1]
    case region =>
      intro t _
      unfold invC'
      iintro ⟨%g, Hs, %hg, %f, Hd, %hf⟩
      sl_exec_parts
      sl_step
      iexists g; isplitl [Hs]; · iexact Hs
      isplitr; · ipureintro; exact hg
      iexists _; isplitl [Hd]; · iexact Hd
      ipureintro
      sl_unfold_run_names
      exact compact_step_t35 d L t g f hf
    · unfold invC'
      iexists _; isplitl [Hr0]; · iexact Hr0
      isplitr
      · ipureintro
        sl_unfold_run_names
        exact rows_value d L sR0 (TAB m d) (IDX m d) k ⟨33, by decide⟩ _ _ _ _ _
      iexists _; isplitl [Hc1]; · iexact Hc1
      ipureintro; exact fun r c h => absurd h (by omega)
    iintro %_ HI
    unfold invC'
    icases HI with ⟨%g33, Hr0, %hg33, %c33, Hc1, %hc33⟩
    sl_exec_parts
    -- chunk 34: landing buffer 1, compacted buffer 0
    sl_for (invC' d L (TAB m d) (IDX m d) (chunkNo L k.val 34) sR1 sC0) $$ [Hr1 Hc0]
    case region =>
      intro t _
      unfold invC'
      iintro ⟨%g, Hs, %hg, %f, Hd, %hf⟩
      sl_exec_parts
      sl_step
      iexists g; isplitl [Hs]; · iexact Hs
      isplitr; · ipureintro; exact hg
      iexists _; isplitl [Hd]; · iexact Hd
      ipureintro
      sl_unfold_run_names
      exact compact_step_t36 d L t g f hf
    · unfold invC'
      iexists _; isplitl [Hr1]; · iexact Hr1
      isplitr
      · ipureintro
        sl_unfold_run_names
        exact rows_value d L sR1 (TAB m d) (IDX m d) k ⟨34, by decide⟩ _ _ _ _ _
      iexists _; isplitl [Hc0]; · iexact Hc0
      ipureintro; exact fun r c h => absurd h (by omega)
    iintro %_ HI
    unfold invC'
    icases HI with ⟨%g34, Hr1, %hg34, %c34, Hc0, %hc34⟩
    sl_exec_parts
    -- chunk 35: landing buffer 2, compacted buffer 1
    sl_for (invC' d L (TAB m d) (IDX m d) (chunkNo L k.val 35) sR2 sC1) $$ [Hr2 Hc1]
    case region =>
      intro t _
      unfold invC'
      iintro ⟨%g, Hs, %hg, %f, Hd, %hf⟩
      sl_exec_parts
      sl_step
      iexists g; isplitl [Hs]; · iexact Hs
      isplitr; · ipureintro; exact hg
      iexists _; isplitl [Hd]; · iexact Hd
      ipureintro
      sl_unfold_run_names
      exact compact_step_t37 d L t g f hf
    · unfold invC'
      iexists _; isplitl [Hr2]; · iexact Hr2
      isplitr
      · ipureintro
        sl_unfold_run_names
        exact rows_value d L sR2 (TAB m d) (IDX m d) k ⟨35, by decide⟩ _ _ _ _ _
      iexists _; isplitl [Hc1]; · iexact Hc1
      ipureintro; exact fun r c h => absurd h (by omega)
    iintro %_ HI
    unfold invC'
    icases HI with ⟨%g35, Hr2, %hg35, %c35, Hc1, %hc35⟩
    sl_exec_parts
    -- chunk 36: landing buffer 0, compacted buffer 0
    sl_for (invC' d L (TAB m d) (IDX m d) (chunkNo L k.val 36) sR0 sC0) $$ [Hr0 Hc0]
    case region =>
      intro t _
      unfold invC'
      iintro ⟨%g, Hs, %hg, %f, Hd, %hf⟩
      sl_exec_parts
      sl_step
      iexists g; isplitl [Hs]; · iexact Hs
      isplitr; · ipureintro; exact hg
      iexists _; isplitl [Hd]; · iexact Hd
      ipureintro
      sl_unfold_run_names
      exact compact_step_t38 d L t g f hf
    · unfold invC'
      iexists _; isplitl [Hr0]; · iexact Hr0
      isplitr
      · ipureintro
        sl_unfold_run_names
        exact rows_value d L sR0 (TAB m d) (IDX m d) k ⟨36, by decide⟩ _ _ _ _ _
      iexists _; isplitl [Hc0]; · iexact Hc0
      ipureintro; exact fun r c h => absurd h (by omega)
    iintro %_ HI
    unfold invC'
    icases HI with ⟨%g36, Hr0, %hg36, %c36, Hc0, %hc36⟩
    sl_exec_parts
    -- chunk 37: landing buffer 1, compacted buffer 1
    sl_for (invC' d L (TAB m d) (IDX m d) (chunkNo L k.val 37) sR1 sC1) $$ [Hr1 Hc1]
    case region =>
      intro t _
      unfold invC'
      iintro ⟨%g, Hs, %hg, %f, Hd, %hf⟩
      sl_exec_parts
      sl_step
      iexists g; isplitl [Hs]; · iexact Hs
      isplitr; · ipureintro; exact hg
      iexists _; isplitl [Hd]; · iexact Hd
      ipureintro
      sl_unfold_run_names
      exact compact_step_t39 d L t g f hf
    · unfold invC'
      iexists _; isplitl [Hr1]; · iexact Hr1
      isplitr
      · ipureintro
        sl_unfold_run_names
        exact rows_value d L sR1 (TAB m d) (IDX m d) k ⟨37, by decide⟩ _ _ _ _ _
      iexists _; isplitl [Hc1]; · iexact Hc1
      ipureintro; exact fun r c h => absurd h (by omega)
    iintro %_ HI
    unfold invC'
    icases HI with ⟨%g37, Hr1, %hg37, %c37, Hc1, %hc37⟩
    sl_exec_parts
    -- chunk 38: landing buffer 2, compacted buffer 0
    sl_for (invC' d L (TAB m d) (IDX m d) (chunkNo L k.val 38) sR2 sC0) $$ [Hr2 Hc0]
    case region =>
      intro t _
      unfold invC'
      iintro ⟨%g, Hs, %hg, %f, Hd, %hf⟩
      sl_exec_parts
      sl_step
      iexists g; isplitl [Hs]; · iexact Hs
      isplitr; · ipureintro; exact hg
      iexists _; isplitl [Hd]; · iexact Hd
      ipureintro
      sl_unfold_run_names
      exact compact_step_t40 d L t g f hf
    · unfold invC'
      iexists _; isplitl [Hr2]; · iexact Hr2
      isplitr
      · ipureintro
        sl_unfold_run_names
        exact rows_value d L sR2 (TAB m d) (IDX m d) k ⟨38, by decide⟩ _ _ _ _ _
      iexists _; isplitl [Hc0]; · iexact Hc0
      ipureintro; exact fun r c h => absurd h (by omega)
    iintro %_ HI
    unfold invC'
    icases HI with ⟨%g38, Hr2, %hg38, %c38, Hc0, %hc38⟩
    sl_exec_parts
    -- chunk 39: landing buffer 0, compacted buffer 1
    sl_for (invC' d L (TAB m d) (IDX m d) (chunkNo L k.val 39) sR0 sC1) $$ [Hr0 Hc1]
    case region =>
      intro t _
      unfold invC'
      iintro ⟨%g, Hs, %hg, %f, Hd, %hf⟩
      sl_exec_parts
      sl_step
      iexists g; isplitl [Hs]; · iexact Hs
      isplitr; · ipureintro; exact hg
      iexists _; isplitl [Hd]; · iexact Hd
      ipureintro
      sl_unfold_run_names
      exact compact_step_t41 d L t g f hf
    · unfold invC'
      iexists _; isplitl [Hr0]; · iexact Hr0
      isplitr
      · ipureintro
        sl_unfold_run_names
        exact rows_value d L sR0 (TAB m d) (IDX m d) k ⟨39, by decide⟩ _ _ _ _ _
      iexists _; isplitl [Hc1]; · iexact Hc1
      ipureintro; exact fun r c h => absurd h (by omega)
    iintro %_ HI
    unfold invC'
    icases HI with ⟨%g39, Hr0, %hg39, %c39, Hc1, %hc39⟩
    sl_exec_parts
    sl_step
    sl_unfold_run_names
    isplitr; · iexact Hmw
    isplitl [Htab4]; · iexact Htab4
    isplitl [Htab5]; · iexact Htab5
    isplitl [Htab6]; · iexact Htab6
    isplitl [Hidx]; · iexact Hidx
    isplitl [Hrest Ho0 Ho1 Ho2 Ho3 Ho4 Ho5 Ho6 Ho7 Ho8 Ho9 Ho10 Ho11 Ho12 Ho13 Ho14 Ho15 Ho16 Ho17 Ho18 Ho19 Ho20 Ho21 Ho22 Ho23 Ho24 Ho25 Ho26 Ho27 Ho28 Ho29 Ho30 Ho31 Ho32 Ho33 Ho34 Ho35 Ho36 Ho37 Ho38 Ho39]
    · iapply (Entails.of_eq (prefix_put (OutDone m d L) (OutTodo d L) k))
      isplitr [Hrest]
      · unfold OutDone
        iapply (Entails.of_eq (bigSep_fin40 _).symm)
        isplitl [Ho0]; · (iapply (Entails.of_eq (pts_piece_writes_copy d L m k 0 sC0 c0 (chunkOf_of_compacted _ _ hg0 hc0) _)); iexact Ho0)
        isplitl [Ho1]; · (iapply (Entails.of_eq (pts_piece_writes_copy d L m k 1 sC1 c1 (chunkOf_of_compacted _ _ hg1 hc1) _)); iexact Ho1)
        isplitl [Ho2]; · (iapply (Entails.of_eq (pts_piece_writes_copy d L m k 2 sC0 c2 (chunkOf_of_compacted _ _ hg2 hc2) _)); iexact Ho2)
        isplitl [Ho3]; · (iapply (Entails.of_eq (pts_piece_writes_copy d L m k 3 sC1 c3 (chunkOf_of_compacted _ _ hg3 hc3) _)); iexact Ho3)
        isplitl [Ho4]; · (iapply (Entails.of_eq (pts_piece_writes_copy d L m k 4 sC0 c4 (chunkOf_of_compacted _ _ hg4 hc4) _)); iexact Ho4)
        isplitl [Ho5]; · (iapply (Entails.of_eq (pts_piece_writes_copy d L m k 5 sC1 c5 (chunkOf_of_compacted _ _ hg5 hc5) _)); iexact Ho5)
        isplitl [Ho6]; · (iapply (Entails.of_eq (pts_piece_writes_copy d L m k 6 sC0 c6 (chunkOf_of_compacted _ _ hg6 hc6) _)); iexact Ho6)
        isplitl [Ho7]; · (iapply (Entails.of_eq (pts_piece_writes_copy d L m k 7 sC1 c7 (chunkOf_of_compacted _ _ hg7 hc7) _)); iexact Ho7)
        isplitl [Ho8]; · (iapply (Entails.of_eq (pts_piece_writes_copy d L m k 8 sC0 c8 (chunkOf_of_compacted _ _ hg8 hc8) _)); iexact Ho8)
        isplitl [Ho9]; · (iapply (Entails.of_eq (pts_piece_writes_copy d L m k 9 sC1 c9 (chunkOf_of_compacted _ _ hg9 hc9) _)); iexact Ho9)
        isplitl [Ho10]; · (iapply (Entails.of_eq (pts_piece_writes_copy d L m k 10 sC0 c10 (chunkOf_of_compacted _ _ hg10 hc10) _)); iexact Ho10)
        isplitl [Ho11]; · (iapply (Entails.of_eq (pts_piece_writes_copy d L m k 11 sC1 c11 (chunkOf_of_compacted _ _ hg11 hc11) _)); iexact Ho11)
        isplitl [Ho12]; · (iapply (Entails.of_eq (pts_piece_writes_copy d L m k 12 sC0 c12 (chunkOf_of_compacted _ _ hg12 hc12) _)); iexact Ho12)
        isplitl [Ho13]; · (iapply (Entails.of_eq (pts_piece_writes_copy d L m k 13 sC1 c13 (chunkOf_of_compacted _ _ hg13 hc13) _)); iexact Ho13)
        isplitl [Ho14]; · (iapply (Entails.of_eq (pts_piece_writes_copy d L m k 14 sC0 c14 (chunkOf_of_compacted _ _ hg14 hc14) _)); iexact Ho14)
        isplitl [Ho15]; · (iapply (Entails.of_eq (pts_piece_writes_copy d L m k 15 sC1 c15 (chunkOf_of_compacted _ _ hg15 hc15) _)); iexact Ho15)
        isplitl [Ho16]; · (iapply (Entails.of_eq (pts_piece_writes_copy d L m k 16 sC0 c16 (chunkOf_of_compacted _ _ hg16 hc16) _)); iexact Ho16)
        isplitl [Ho17]; · (iapply (Entails.of_eq (pts_piece_writes_copy d L m k 17 sC1 c17 (chunkOf_of_compacted _ _ hg17 hc17) _)); iexact Ho17)
        isplitl [Ho18]; · (iapply (Entails.of_eq (pts_piece_writes_copy d L m k 18 sC0 c18 (chunkOf_of_compacted _ _ hg18 hc18) _)); iexact Ho18)
        isplitl [Ho19]; · (iapply (Entails.of_eq (pts_piece_writes_copy d L m k 19 sC1 c19 (chunkOf_of_compacted _ _ hg19 hc19) _)); iexact Ho19)
        isplitl [Ho20]; · (iapply (Entails.of_eq (pts_piece_writes_copy d L m k 20 sC0 c20 (chunkOf_of_compacted _ _ hg20 hc20) _)); iexact Ho20)
        isplitl [Ho21]; · (iapply (Entails.of_eq (pts_piece_writes_copy d L m k 21 sC1 c21 (chunkOf_of_compacted _ _ hg21 hc21) _)); iexact Ho21)
        isplitl [Ho22]; · (iapply (Entails.of_eq (pts_piece_writes_copy d L m k 22 sC0 c22 (chunkOf_of_compacted _ _ hg22 hc22) _)); iexact Ho22)
        isplitl [Ho23]; · (iapply (Entails.of_eq (pts_piece_writes_copy d L m k 23 sC1 c23 (chunkOf_of_compacted _ _ hg23 hc23) _)); iexact Ho23)
        isplitl [Ho24]; · (iapply (Entails.of_eq (pts_piece_writes_copy d L m k 24 sC0 c24 (chunkOf_of_compacted _ _ hg24 hc24) _)); iexact Ho24)
        isplitl [Ho25]; · (iapply (Entails.of_eq (pts_piece_writes_copy d L m k 25 sC1 c25 (chunkOf_of_compacted _ _ hg25 hc25) _)); iexact Ho25)
        isplitl [Ho26]; · (iapply (Entails.of_eq (pts_piece_writes_copy d L m k 26 sC0 c26 (chunkOf_of_compacted _ _ hg26 hc26) _)); iexact Ho26)
        isplitl [Ho27]; · (iapply (Entails.of_eq (pts_piece_writes_copy d L m k 27 sC1 c27 (chunkOf_of_compacted _ _ hg27 hc27) _)); iexact Ho27)
        isplitl [Ho28]; · (iapply (Entails.of_eq (pts_piece_writes_copy d L m k 28 sC0 c28 (chunkOf_of_compacted _ _ hg28 hc28) _)); iexact Ho28)
        isplitl [Ho29]; · (iapply (Entails.of_eq (pts_piece_writes_copy d L m k 29 sC1 c29 (chunkOf_of_compacted _ _ hg29 hc29) _)); iexact Ho29)
        isplitl [Ho30]; · (iapply (Entails.of_eq (pts_piece_writes_copy d L m k 30 sC0 c30 (chunkOf_of_compacted _ _ hg30 hc30) _)); iexact Ho30)
        isplitl [Ho31]; · (iapply (Entails.of_eq (pts_piece_writes_copy d L m k 31 sC1 c31 (chunkOf_of_compacted _ _ hg31 hc31) _)); iexact Ho31)
        isplitl [Ho32]; · (iapply (Entails.of_eq (pts_piece_writes_copy d L m k 32 sC0 c32 (chunkOf_of_compacted _ _ hg32 hc32) _)); iexact Ho32)
        isplitl [Ho33]; · (iapply (Entails.of_eq (pts_piece_writes_copy d L m k 33 sC1 c33 (chunkOf_of_compacted _ _ hg33 hc33) _)); iexact Ho33)
        isplitl [Ho34]; · (iapply (Entails.of_eq (pts_piece_writes_copy d L m k 34 sC0 c34 (chunkOf_of_compacted _ _ hg34 hc34) _)); iexact Ho34)
        isplitl [Ho35]; · (iapply (Entails.of_eq (pts_piece_writes_copy d L m k 35 sC1 c35 (chunkOf_of_compacted _ _ hg35 hc35) _)); iexact Ho35)
        isplitl [Ho36]; · (iapply (Entails.of_eq (pts_piece_writes_copy d L m k 36 sC0 c36 (chunkOf_of_compacted _ _ hg36 hc36) _)); iexact Ho36)
        isplitl [Ho37]; · (iapply (Entails.of_eq (pts_piece_writes_copy d L m k 37 sC1 c37 (chunkOf_of_compacted _ _ hg37 hc37) _)); iexact Ho37)
        isplitl [Ho38]; · (iapply (Entails.of_eq (pts_piece_writes_copy d L m k 38 sC0 c38 (chunkOf_of_compacted _ _ hg38 hc38) _)); iexact Ho38)
        (iapply (Entails.of_eq (pts_piece_writes_copy d L m k 39 sC1 c39 (chunkOf_of_compacted _ _ hg39 hc39) _)); iexact Ho39)
      · iexact Hrest
    isplitl [Hs0 Hr0 Hr1 Hr2 Hc0 Hc1]
    · isplitl [Hs0]; · iexists _; iexact Hs0
      isplitl [Hr0]; · iexists _; iexact Hr0
      isplitl [Hr1]; · iexists _; iexact Hr1
      isplitl [Hr2]; · iexists _; iexact Hr2
      isplitl [Hc0]; · iexists _; iexact Hc0
      iexists _; iexact Hc1
    isplitl [H6 H7 H8 H9 H10 Hsc]
    · isplitl [H6]; · iexact H6
      isplitl [H7]; · iexact H7
      isplitl [H8]; · iexact H8
      isplitl [H9]; · iexact H9
      isplitl [H10]; · iexact H10
      iexact Hsc
    iexists _; isplitl [HO]; · iexact HO
    ipureintro
    repeat (first | exact hW' | apply waits_insert rfl)
  · unfold invO
    isplitl [Hmw]; · iexact Hmw
    isplitl [Htab4]; · iexact Htab4
    isplitl [Htab5]; · iexact Htab5
    isplitl [Htab6]; · iexact Htab6
    isplitl [Hidx]; · iexact Hidx
    isplitl [Hout]
    · iapply (Entails.of_eq (prefix_zero (OutDone m d L) (OutTodo d L)).symm)
      unfold OutTodo; iexact Hout
    isplitl [Hscr]; · iexact Hscr
    isplitl [Hsem]; · iexact Hsem
    iexists W; isplitl [HO]; · iexact HO
    ipureintro; exact fun p hp => .inl hp
  iintro %_ HI
  unfold invO
  icases HI with ⟨-, Htab4, Htab5, Htab6, Hidx, Hout, Hscr, Hsem, %W', HO, %hW'⟩
  sl_exec
  sl_step
  isplitl [Htabrest Htab4 Htab5 Htab6 Hidx Hout]
  · iapply (td_join m d L)
    isplitl [Htabrest Htab4 Htab5 Htab6]
    · iapply (tab_cells _ _ _).2
      isplitl [Htabrest]; · iexact Htabrest
      isplitl [Htab4]; · iexact Htab4
      isplitl [Htab5]; · iexact Htab5
      iexact Htab6
    isplitl [Hidx]; · iexact Hidx
    ihave Hout' := (Entails.of_eq (prefix_full (OutDone m d L) (OutTodo d L))) $$ Hout
    unfold OutDone; iexact Hout'
  isplitl [Hscr]; · iexact Hscr
  isplitl [Hsem]; · iexact Hsem
  iexists W'; isplitr
  · ipureintro; exact hW'
  · iexact HO

end Cert.Proof.KB

end
-- ==== Proof.KB.Region.lean ====
/-
  The TensorCore kernel that scales the table by eight and pads it to 128 columns, as a step of @main: its body's
  two stores over the loaded block, the pipeline's proof data and body obligation at every point of the grid, what
  the padded table's array holds once all twenty blocks are written back — the scaled and padded table —, and the
  region entered through the library's region rule, lifted to the program's body table.
-/
import proofs.«217222_g83150566851320_cont_9to1_m_45_25_alg».proof.Proof.KB.Ghost
import proofs.«217222_g83150566851320_cont_9to1_m_45_25_alg».proof.Proof.KB.Iface
import proofs.«217222_g83150566851320_cont_9to1_m_45_25_alg».proof.Proof.Gen.Kernel.Points
import Idealize.ShloMosaic.Lib.Pipeline.Regions
import Idealize.ShloMosaic.Lib.Pipeline.FrameBody
import Idealize.ShloMosaic.Lib.Pipeline.Value
import Idealize.ShloMosaic.Lib.Ring

set_option maxRecDepth 16384

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The TensorCore kernel: its body -/

section Body

open Idealize.ShloMosaic.TcCoe Idealize.ShloMosaic.Tactic
open Idealize.ShloMosaic.Pipeline (Dat Cfg Window BodyObligation cellOf)

variable [FloatOps F]

/-- The body's three rectangles: the whole input block; the left and the right half of the output block. -/
abbrev rL : Rect S5000x64 := Rect.unit (s := S5000x64) ![0, 0] S5000x64.size inb_S5000x64_S5000x64_0_0
abbrev rA : Rect S5000x128 := Rect.unit (s := S5000x128) ![0, 0] S5000x64.size inb_S5000x128_S5000x64_0_0
abbrev rB : Rect S5000x128 := Rect.unit (s := S5000x128) ![0, 64] S5000x64.size inb_S5000x128_S5000x64_0_64

/-- What the body stores in the left half: the loaded block times eight; in the right half: zero. -/
def pay1 (v0 : Vec F S5000x64 .f32) : FVec F S5000x64 .f32 :=
  mulf v0 (broadcast S5000x64 (Scalar.ofBits .f32 0x41000000#32))
def pay2 : FVec F S5000x64 .f32 := broadcast S5000x64 (Scalar.ofBits .f32 0x00000000#32)

/-- The body as its memory operations over those payloads. -/
def bodySkel (i : grid0.Coords) (arg1 : Memref sig .tc .vmem S5000x64 .f32) (harg1 : arg1.IsWhole) (arg2 : Memref sig .tc .vmem S5000x128 .f32) (harg2 : arg2.IsWhole) :
    Prog (TpuEff nD τ sig (Elt F) Λ₀ .tc) PUnit := do
  let v0 : Vec F S5000x64 .f32 ← Prog.lift (.load arg1 rL.toLoadRect (View.loadsAt_vmem h_S5000x64))
  let v3 : Vec F S5000x64 .f32 ← Prog.lift (.load arg2 rA.toLoadRect (View.loadsAt_vmem h_S5000x64))
  Prog.lift (.store arg2 rA (pay1 v0) Finset.univ (View.stores_vmem_bits_univ h_S5000x64 rfl) (.inl rfl))
  let v5 : Vec F S5000x64 .f32 ← Prog.lift (.load arg2 rB.toLoadRect (View.loadsAt_vmem h_S5000x64))
  Prog.lift (.store arg2 rB (pay2 (F := F)) Finset.univ (View.stores_vmem_bits_univ h_S5000x64 rfl) (.inl rfl))
  pure ⟨⟩

set_option maxRecDepth 65536 in
theorem body_eq : cc0_body (F := F) = bodySkel (F := F) := rfl

/-- The output block after the body, from the input block: its two stores as pieces, last first. -/
def out1 (x0 : Vec F S5000x64 .f32) : Vec F S5000x128 .f32 :=
  View.canon [⟨rB, pay2⟩, ⟨rA, pay1 (View.ld x0 rL)⟩]

theorem cover1 (p0 p1 : Vec F S5000x64 .f32) (y : S5000x128.Idx) :
    ∃ pc ∈ ([⟨rB, p0⟩, ⟨rA, p1⟩] : List (View.Piece (Elt F) S5000x128 .f32)), y ∈ pc.1.set :=
  View.cover_of_tiled [⟨rB, p0⟩, ⟨rA, p1⟩] S5000x64.size (by rfl) y

set_option maxHeartbeats 1000000 in
theorem sound_kernel (c : Dev nD) (E : Set ℕ) (i : grid0.Coords) (arg1 : Memref sig .tc .vmem S5000x64 .f32) (harg1 : arg1.IsWhole)
    (arg2 : Memref sig .tc .vmem S5000x128 .f32) (harg2 : arg2.IsWhole) (x0 : Vec F S5000x64 .f32) (K' : PUnit → sProp (MM F)) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out1 x0)) -∗ K' ⟨⟩))
      ⊢ wp frame (wpE (defs₀ (F := F)) Variants.none c none) E (cc0_body i arg1 harg1 arg2 harg2) K' := by
  simp only [body_eq]; unfold bodySkel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover1 _ _)

end Body

/-! ## The TensorCore kernel's pipeline: its proof data and body obligation -/

section Data

open Idealize.ShloMosaic.TcCoe Idealize.ShloMosaic.Tactic
open Idealize.ShloMosaic.Pipeline (Dat Cfg Window BodyObligation cellOf)

variable [FloatOps F] (m : (ℓ : Loc nD τ sig) → Buf (Elt F) ℓ)

/-- The TensorCore's buffers when the region is entered: as launched (the region is @main's first statement). -/
abbrev VT (d : Dev nD) (b : Ref sig .tc) : Buf (Elt F) ((d : Thread nD τ).loc b) := m ((d : Thread nD τ).loc b)

/-- Window w's block at point t, read off its array as the region finds it. -/
def iblk (d : Dev nD) (w : Fin cfg0.W) (t : Fin cfg0.N) : ((cfg0.win w).xblock (cfg0.grid.coords t)).Idx → Elt F (cfg0.win w).elt :=
  ((cfg0.win w).blk t).view.read (Elt F) (VT m d (Pipeline.arrRef spec0 w))

/-- The (semaphore, index) pairs the TensorCore's waits may have recorded around the region: those at level zero. -/
def recd (d : Dev nD) : Set (SemLoc sig × HIx 1) := {p | (K (F := F)).lev (T d, p.1) p.2 ≤ 0}

/-- The pipeline's proof data on device d: the arrays as launched; after the body the input's buffer at its block and
    the output's at the two stores over it; the invariant only the scoped buffers no window stages; the TensorCore
    owing throughout the start signals of the SparseCore call. -/
def dats (_ : Fin 1) (d : Dev nD) : Dat τ (Elt F) (HIx 1) ℕ UU ℕ cfg0 d where
  A w := VT m d (Pipeline.arrRef spec0 w)
  after w t := match w with
    | ⟨0, _⟩ => iblk m d 0 t
    | ⟨1, _⟩ => out1 (iblk m d 0 t)
  Φ _ := Pipeline.scopedRest spec0 d
  q _ := fullShare
  owed _ := (K (F := F)).Otc d 0
  recorded _ := recd (F := F) d

theorem A_eq (d : Dev nD) (w : Fin cfg0.W) : (dats m 0 d).A w = VT m d (Pipeline.arrRef spec0 w) := by
  dsimp only [dats]
theorem Φ_eq (d : Dev nD) (t : Fin (cfg0.N + 1)) : (dats m 0 d).Φ t = Pipeline.scopedRest spec0 d := by dsimp only [dats]
theorem after0 (d : Dev nD) (t : Fin cfg0.N) : (dats m 0 d).after 0 t = iblk m d 0 t := by dsimp only [dats]
theorem after1 (d : Dev nD) (t : Fin cfg0.N) : (dats m 0 d).after 1 t = out1 (iblk m d 0 t) := by dsimp only [dats]

/-- The input's current staging buffer holds its block at every point. -/
theorem before0 (d : Dev nD) (t : Fin cfg0.N) (x) : (dats m 0 d).before 0 t x = iblk m d 0 t :=
  ((dats m 0 d).before_in_eq_fetched 0 rfl (fun _ => rfl) (fun _ _ _ => rfl)
      (fun t => by rw [after0]; unfold Dat.blockOf iblk; rw [A_eq]; try rfl) t x).trans
    (by unfold Dat.fetched Dat.blockOf iblk; rw [A_eq]; try rfl)

def bodyPre (d : Dev nD) (t : Fin cfg0.N) : sProp (MM F) :=
  iprop((dats m 0 d).Φ t.castSucc ∗ (dats m 0 d).owesAt none t.castSucc
    ∗ (∃ x, owns (d : Thread nD τ) (st0_0 t) fullShare ((dats m 0 d).before 0 t x))
    ∗ (∃ x, owns (d : Thread nD τ) (st0_1 t) fullShare ((dats m 0 d).before 1 t x)))

def bodyPost (d : Dev nD) (t : Fin cfg0.N) : sProp (MM F) :=
  iprop((dats m 0 d).Φ t.succ ∗ (dats m 0 d).owesAt none t.succ
    ∗ owns (d : Thread nD τ) (st0_0 t) fullShare ((dats m 0 d).after 0 t)
    ∗ owns (d : Thread nD τ) (st0_1 t) fullShare ((dats m 0 d).after 1 t))

theorem sound_body (d : Dev nD) (t : Fin cfg0.N) :
    bodyPre m d t ⊢ wp frame (wpE (defs₀ (F := F)) Variants.none d none) Set.univ (bodyAt0 t) (fun _ => bodyPost m d t) := by
  unfold bodyPre bodyPost bodyAt0
  simp only [before0]
  rw [show (dats m 0 d).Φ t.succ = (dats m 0 d).Φ t.castSucc from rfl,
    show (dats m 0 d).owesAt none t.succ = (dats m 0 d).owesAt none t.castSucc from rfl,
    after0, after1]
  iintro ⟨HΦ, Ho, ⟨%x0, H0⟩, ⟨%x1, H1⟩⟩
  iapply (sound_kernel d Set.univ (grid0.coords t) _ _ _ _ (iblk m d 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation (d : Dev nD) : BodyObligation (dats (F := F) m 0 d) (defs₀ (F := F)) Variants.none none Set.univ := fun t => by
  rw [bigSep_W0, bigSep_W0]
  exact sound_body m d t

end Data

/-! ## What the region leaves in the padded table -/

section Value

open Idealize.ShloMosaic.TcCoe Idealize.ShloMosaic.Tactic
open Idealize.ShloMosaic.Pipeline (Dat Cfg Window BodyObligation cellOf)
open Idealize.ShloMosaic.ValueIdx (ix2)

variable [FloatOps F] (m : (ℓ : Loc nD τ sig) → Buf (Elt F) ℓ)

theorem hz0 : (![0, 0] : Fin 2 → Nat) = fun _ => 0 := funext fun a => by fin_cases a <;> rfl

/-- The output block at an index: eight times the input block's entry in the left half, zero in the right. -/
theorem out1_apply (x0 : Vec F S5000x64 .f32) (y : S5000x128.Idx) :
    out1 x0 y = if h : (y 1).val < 64 then
        FloatOps.mulf (x0 (ix2 (n0 := 5000) (n1 := 64) (y 0) ⟨(y 1).val, h⟩)) (Scalar.ofBits .f32 0x41000000#32)
      else Scalar.ofBits .f32 0x00000000#32 := by
  unfold out1
  by_cases h : (y 1).val < 64
  · rw [dif_pos h]
    have hnB : y ∉ (rB : Rect S5000x128).set := by
      rw [Rect.mem_set_unit]; intro hB
      have h1 : (64 : ℕ) ≤ (y 1).val := (hB 1).1
      omega
    have k0 := View.canon_cons_of_not_mem (Val := Elt F) (⟨rB, pay2 (F := F)⟩ : View.Piece (Elt F) S5000x128 .f32)
      ([⟨rA, pay1 (View.ld x0 rL)⟩] : List (View.Piece (Elt F) S5000x128 .f32)) (y := y) hnB
    refine k0.trans ?_
    have e : (rA : Rect S5000x128).emb (ix2 (n0 := 5000) (n1 := 64) (y 0) ⟨(y 1).val, h⟩) = y := by
      funext a; apply Fin.ext
      match a with
      | ⟨0, _⟩ => show 0 + 1 * (y 0).val = (y 0).val; omega
      | ⟨1, _⟩ => show 0 + 1 * (y 1).val = (y 1).val; omega
    have k := View.canon_cons_emb (Val := Elt F) (e := .f32) (rA : Rect S5000x128) (pay1 (View.ld x0 rL)) ([] : List (View.Piece (Elt F) S5000x128 .f32)) (ix2 (n0 := 5000) (n1 := 64) (y 0) ⟨(y 1).val, h⟩)
    rw [e] at k
    have hld : View.ld x0 rL = x0 := View.ld_unit_zero (S := S5000x64) hz0 _ x0
    exact k.trans (by rw [hld]; rfl)
  · rw [dif_neg h]
    have hy1 : (y 1).val < 128 := (y 1).isLt
    have e : (rB : Rect S5000x128).emb (ix2 (n0 := 5000) (n1 := 64) (y 0) ⟨(y 1).val - 64, by omega⟩) = y := by
      funext a; apply Fin.ext
      match a with
      | ⟨0, _⟩ => show 0 + 1 * (y 0).val = (y 0).val; omega
      | ⟨1, _⟩ => show 64 + 1 * ((y 1).val - 64) = (y 1).val; omega
    have k := View.canon_cons_emb (Val := Elt F) (e := .f32) (rB : Rect S5000x128) (pay2 (F := F)) ([⟨rA, pay1 (View.ld x0 rL)⟩] : List (View.Piece (Elt F) S5000x128 .f32)) (ix2 (n0 := 5000) (n1 := 64) (y 0) ⟨(y 1).val - 64, by omega⟩)
    rw [e] at k
    exact k.trans rfl

/-- The printed index maps, decided over the twenty points: both windows move down the rows together, point t at
    block t, and neither moves along the columns. -/
theorem idx_facts : ∀ t : Fin cfg0.N, win0_0.index t (0 : Fin 2) = t.val ∧ win0_1.index t (0 : Fin 2) = t.val
    ∧ win0_0.index t (1 : Fin 2) = 0 ∧ win0_1.index t (1 : Fin 2) = 0 :=
  (by decide +kernel : ∀ t : Fin grid0.N, _)

end Value

/-! ## The region: what the pipeline leaves, and the region's step of @main -/

section Region

open Idealize.ShloMosaic.TcCoe Idealize.ShloMosaic.Tactic
open Idealize.ShloMosaic.Pipeline (Dat Cfg Window BodyObligation cellOf)
open Idealize.ShloMosaic.ValueIdx (ix2)

variable [FloatOps F] (m : (ℓ : Loc nD τ sig) → Buf (Elt F) ℓ)

/-- What point t writes back is block t of the scaled and padded table. -/
theorem flushed1_eq (d : Dev nD) (t : Fin cfg0.N) :
    (dats m 0 d).flushed 1 t = ((cfg0.win 1).blk t).view.read (Elt F) (TAB m d) := by
  show (cfg0.win 1).cut (grid0.coords t) ((dats m 0 d).after 1 t) = _
  rw [after1]
  obtain ⟨e0, e1, e2, e3⟩ := idx_facts t
  funext j
  have hj0 : ((((cfg0.win 1).blk t).view.emb j) 0).val = t.val * 5000 + (j 0).val := by
    show win0_1.index t (0 : Fin 2) * 5000 + 1 * (j 0).val = _; omega
  have hj1 : ((((cfg0.win 1).blk t).view.emb j) 1).val = (j 1).val := by
    show win0_1.index t (1 : Fin 2) * 128 + 1 * (j 1).val = _; omega
  refine (out1_apply (iblk m d 0 t) j).trans ?_
  show _ = scaledPad (m (tableLoc d)) (((cfg0.win 1).blk t).view.emb j)
  unfold scaledPad
  by_cases h : (j 1).val < 64
  · have h' : ((((cfg0.win 1).blk t).view.emb j) 1).val < 64 := by rw [hj1]; exact h
    rw [dif_pos h, dif_pos h']
    show FloatOps.mulf (m (tableLoc d) (((cfg0.win 0).blk t).view.emb (ix2 (n0 := 5000) (n1 := 64) (j 0) ⟨(j 1).val, h⟩))) _ = _
    refine congrArg (fun i => FloatOps.mulf (m (tableLoc d) i) (Scalar.ofBits .f32 0x41000000#32)) ?_
    funext a; apply Fin.ext
    match a with
    | ⟨0, _⟩ =>
      show win0_0.index t (0 : Fin 2) * 5000 + 1 * (j 0).val = ((((cfg0.win 1).blk t).view.emb j) 0).val
      rw [hj0]; omega
    | ⟨1, _⟩ =>
      show win0_0.index t (1 : Fin 2) * 64 + 1 * (j 1).val = ((((cfg0.win 1).blk t).view.emb j) 1).val
      rw [hj1]; omega
  · have h' : ¬ ((((cfg0.win 1).blk t).view.emb j) 1).val < 64 := by rw [hj1]; exact h
    rw [dif_neg h, dif_neg h']

theorem mem_blk1 (t : Fin cfg0.N) (i : S100000x128.Idx) :
    i ∈ ((cfg0.win 1).blk t).view.set ↔ ∀ a : Fin 2, win0_1.index t a * S5000x128.size a ≤ (i a).val ∧ (i a).val < win0_1.index t a * S5000x128.size a + S5000x128.size a := by
  show i ∈ ((View.whole main_v0).slice (win0_1.rect t)).set ↔ _
  rw [View.set_slice_whole, Rect.mem_set_unit]
  exact Iff.rfl

/-- Every row of the padded table is in the block of the point its number divided by 5000 names. -/
theorem cover_tab (i : S100000x128.Idx) : ∃ t : Fin cfg0.N, (cfg0.win 1).flush t = true ∧ i ∈ ((cfg0.win 1).blk t).view.set := by
  have hi0 : (i 0).val < 100000 := (i 0).isLt
  have hi1 : (i 1).val < 128 := (i 1).isLt
  have hlt : (i 0).val / 5000 < cfg0.N := by show _ < grid0.N; rw [N_0]; omega
  refine ⟨⟨(i 0).val / 5000, hlt⟩, flush0_1 _, ?_⟩
  rw [mem_blk1]
  obtain ⟨-, e1, -, e3⟩ := idx_facts ⟨(i 0).val / 5000, hlt⟩
  intro a
  match a with
  | ⟨0, _⟩ =>
    show win0_1.index ⟨(i 0).val / 5000, hlt⟩ (0 : Fin 2) * 5000 ≤ (i 0).val ∧ (i 0).val < win0_1.index ⟨(i 0).val / 5000, hlt⟩ (0 : Fin 2) * 5000 + 5000
    rw [e1]; show (i 0).val / 5000 * 5000 ≤ (i 0).val ∧ (i 0).val < (i 0).val / 5000 * 5000 + 5000; omega
  | ⟨1, _⟩ =>
    show win0_1.index ⟨(i 0).val / 5000, hlt⟩ (1 : Fin 2) * 128 ≤ (i 1).val ∧ (i 1).val < win0_1.index ⟨(i 0).val / 5000, hlt⟩ (1 : Fin 2) * 128 + 128
    rw [e3]; omega

/-- After the region the padded table's array holds the scaled and padded table; the table's is as launched. -/
theorem final1 (d : Dev nD) : (dats m 0 d).arrAt 1 cfg0.N = TAB m d :=
  (dats m 0 d).arrAt_eq_of_cover 1 (TAB m d) (fun t _ => flushed1_eq m d t) cover_tab
theorem final0 (d : Dev nD) : (dats m 0 d).arrAt 0 cfg0.N = m (tableLoc d) :=
  ((dats m 0 d).arrAt_in 0 rfl _).trans (A_eq m d 0)

/-- What the TensorCore owes around the region, its recorded pairs at level zero: the start signals of the
    SparseCore call. -/
def OW (d : Dev nD) : sProp (MM F) :=
  iprop(∃ W, ⌜(K (F := F)).WBelow (T d) W 0⌝ ∗ owes (T d) ((K (F := F)).Otc d 0) W)

theorem Otc_none (d : Dev nD) (g : GSem nD τ sig) : (K (F := F)).Otc d 0 g none = 0 :=
  Nat.eq_zero_of_not_pos fun h => by
    have := SparseCore.Cfg.lev_of_Otc_pos (K := K (F := F)) h
    rw [SparseCore.Cfg.lev_none] at this; omega

end Region

/-! ## The region's step of @main -/

section Step

open Idealize.ShloMosaic.TcCoe Idealize.ShloMosaic.Tactic
open Idealize.ShloMosaic.Pipeline (Dat Cfg Window BodyObligation cellOf)

variable [FloatOps F] (m : (ℓ : Loc nD τ sig) → Buf (Elt F) ℓ)

/-- The region as the library's record of a kernel region: entered from the table and the padded table's array as
    launched and what the TensorCore owes, left with the padded table's array at the scaled and padded table. -/
def R0 : Pipeline.RegionSeg (pcfgs (F := F)) adm (dats m) (none : HIx 1) (defs₀ (F := F)) 𝒱₀ (K (F := F)).L (K (F := F)).lev (0 : Fin 1) where
  win := winFacts0.to₀
  block_pos := block_pos0
  stage_whole := stage_whole0
  K := PEmpty
  osem := fun k => k.elim
  ho := Pipeline.OwnSemFacts.none _
  hbody := fun c => (body_obligation m c).loose
  hwaits := fun c => Pipeline.cellsWaits_intro (PC (F := F)) (dats m) none 0 c fun w s t =>
    (K (F := F)).mayWait_none _ (Otc_none c)
  pre := fun c => iprop((tableLoc c ↦{fullShare} m (tableLoc c)) ∗ (tabLoc c ↦{fullShare} m (tabLoc c)) ∗ OW (F := F) c)
  post := fun c => iprop((tableLoc c ↦{fullShare} m (tableLoc c)) ∗ (tabLoc c ↦{fullShare} TAB m c) ∗ OW (F := F) c)
  X := fun _ => iprop(emp)
  Y := fun _ => iprop(emp)
  Z := fun _ => iprop(emp)
  hentry := fun c => by
    rw [Pipeline.arrays_eq (PC (F := F)) (dats m) 0 c arr_whole0 (fun w => (dats m 0 c).share_full (fun _ => rfl) w), bigSep_W0]
    unfold OW
    iintro ⟨⟨Ha, Hv, ⟨%W, %hW, HO⟩⟩, -, -⟩
    imodintro
    isplitl [Ha Hv]
    · isplitl [Ha]; · iexact Ha
      iexact Hv
    isplitr
    · unfold Pipeline.prefHeld; rw [Finset.univ_eq_empty, bigSep_empty]; iempintro
    isplitl [HO]
    · iexists W; isplitr; · ipureintro; exact fun p hp => Or.inl (hW p hp)
      iexact HO
    isplitr <;> iempintro
  hin := fun c => by
    rw [Φ_eq]
    exact sep_elim_right.trans sep_elim_right
  hout := fun c => by
    rw [Pipeline.ownSems0_none, Φ_eq]
    show Pipeline.scopedRest spec0 c ⊢ iprop(emp ∗ emp ∗ Pipeline.scopedRest spec0 c)
    iintro H
    isplitr; · iempintro
    isplitr; · iempintro
    iexact H
  hexit := fun c => by
    rw [Pipeline.arrays_eq (PC (F := F)) (dats m) 0 c arr_whole0 (fun w => (dats m 0 c).share_full (fun _ => rfl) w), bigSep_W0]
    unfold OW
    iintro ⟨⟨Ha, Hv⟩, ⟨%W, %hW, HO⟩, -, -⟩
    imodintro
    isplitl [Ha]; · rw [final0]; iexact Ha
    isplitl [Hv]; · rw [final1]; iexact Hv
    iexists W; isplitr
    · ipureintro
      intro p hp
      rcases hW hp with h | ⟨w, s, rfl⟩
      · exact h
      · exact le_of_eq (SparseCore.Cfg.lev_none _ _)
    iexact HO

theorem R0_pre (d : Dev nD) : (R0 m).pre d
    = iprop((tableLoc d ↦{fullShare} m (tableLoc d)) ∗ (tabLoc d ↦{fullShare} m (tabLoc d)) ∗ OW (F := F) d) := rfl
theorem R0_post (d : Dev nD) : (R0 m).post d
    = iprop((tableLoc d ↦{fullShare} m (tableLoc d)) ∗ (tabLoc d ↦{fullShare} TAB m d) ∗ OW (F := F) d) := rfl

/-- The region's call, lifted to the program's body table, is the program's. -/
theorem lift_entry :
    (SparseCore.liftProg (Q := 1) (Prog.lift (.customCall (Pipeline.entry (0 : Fin 1)) ()) : Prog (TpuEff nD τ sig (Elt F) (ΛP (F := F)) .tc) PUnit))
      = Prog.lift (.customCall (SparseCore.inner (Pipeline.entry (0 : Fin 1))) ()) := rfl

set_option backward.isDefEq.respectTransparency.types false in
set_option maxHeartbeats 1000000 in
/-- The region under the pipeline's own body table: from the boundary, the table and the padded table's array as
    launched, what the TensorCore owes, the level facts and the staging cells' ghost state, to the same with the padded
    table's array at the scaled and padded table. -/
theorem region_inner (d : Dev nD) (Φ : PUnit → sProp (MM F)) :
    iprop(levAts (K (F := F)).L (K (F := F)).lev ∗ boundary (T d) ∗ (tableLoc d ↦{fullShare} m (tableLoc d)) ∗ (tabLoc d ↦{fullShare} m (tabLoc d))
        ∗ OW (F := F) d ∗ Pipeline.cellsGhost (PC (F := F)) ER 0 d ∗ Pipeline.toksInit (PC (F := F)) ER 0 d
        ∗ (iprop(boundary (T d) ∗ (tableLoc d ↦{fullShare} m (tableLoc d)) ∗ (tabLoc d ↦{fullShare} TAB m d) ∗ OW (F := F) d) -∗ Φ ⟨⟩))
      ⊢ wp frame (wpE (D (F := F)) 𝒱 (T d) none) Set.univ
          (Prog.lift (.customCall (Pipeline.entry (0 : Fin 1)) ())) Φ := by
  have hw := Pipeline.RegionSeg.wp (pcfgs (F := F)) adm (dats m) (none : HIx 1) phinj ER (defs₀ (F := F)) 𝒱₀ (K (F := F)).L (K (F := F)).lev (R0 m) d none
    (fun _ h => nomatch h) (fun x => .ret x) Φ
  rw [R0_pre, R0_post] at hw
  iintro ⟨#Hla, Hb, Ha, Hv, HO, Hg, Ht, Hk⟩
  iapply hw
  isplitl [Hk]
  · iintro ⟨Hb, Hpost⟩
    rw [wp_ret]; imodintro
    iapply Hk
    isplitl [Hb]; · iexact Hb
    iexact Hpost
  isplitl [Hb]; · iexact Hb
  isplitl [Ha Hv HO]
  · isplitl [Ha]; · iexact Ha
    isplitl [Hv]; · iexact Hv
    iexact HO
  isplitr; · iexact Hla
  isplitl [Hg]; · iexact Hg
  iexact Ht

/-- The TensorCore kernel's region as a step of @main on device d. -/
theorem region_step (κ : GSem nD τ sig → ℕ) (d : Dev nD) (Φ : PUnit → sProp (MM F)) :
    iprop((K (F := F)).ctx EH (P m) κ ∗ boundary (T d) ∗ (tableLoc d ↦{fullShare} m (tableLoc d)) ∗ (tabLoc d ↦{fullShare} m (tabLoc d))
        ∗ OW (F := F) d ∗ GG (F := F) d
        ∗ (iprop(boundary (T d) ∗ (tableLoc d ↦{fullShare} m (tableLoc d)) ∗ (tabLoc d ↦{fullShare} TAB m d) ∗ OW (F := F) d) -∗ Φ ⟨⟩))
      ⊢ wp frame (wpE ((K (F := F)).defs (D (F := F))) 𝒱 (T d) none) Set.univ
          (Prog.lift (.customCall (SparseCore.inner (Pipeline.entry (0 : Fin 1))) ())) Φ := by
  rw [← lift_entry]
  refine BIBase.Entails.trans ?_ ((K (F := F)).wp_liftProg (D (F := F)) 𝒱 (T d) Set.univ none _ Φ)
  refine BIBase.Entails.trans ?_ (region_inner m d Φ)
  unfold GG
  rw [bigSep_univ_of_subsingleton (0 : Fin 1), bigSep_univ_of_subsingleton (0 : Fin 1)]
  iintro ⟨#Hctx, Hb, Ha, Hv, HO, ⟨Hg, Ht⟩, Hk⟩
  ihave Hla := (SparseCore.Cfg.ctx_levAts κ) $$ Hctx
  isplitr; · iexact Hla
  isplitl [Hb]; · iexact Hb
  isplitl [Ha]; · iexact Ha
  isplitl [Hv]; · iexact Hv
  isplitl [HO]; · iexact HO
  isplitl [Hg]; · iexact Hg
  isplitl [Ht]; · iexact Ht
  iexact Hk

end Step

end Cert.Proof.KB

end
-- ==== Proof.KB.Main.lean ====
/-
  @main on a device's TensorCore: the kernel region that scales and pads the table, the reshape of the tokens into
  rows of 128, the SparseCore call — the scaled table and the index rows dealt to the 32 vector subcores as read
  shares, the gathered array as its chunks, all of it back at the gathered rows —, and the reshape of the gathered
  rows into the result; the two arguments are kept as launched.
-/
import proofs.«217222_g83150566851320_cont_9to1_m_45_25_alg».proof.Proof.KB.Region
import proofs.«217222_g83150566851320_cont_9to1_m_45_25_alg».proof.Proof.KB.Split

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)

variable {F : FTy → Type} [FloatOps F]
variable (m : (ℓ : Loc nD τ sig) → Buf (Elt F) ℓ) (ρ : Dev nD → PrngReg)

/-! ## The TensorCore's arrays -/

omit [FloatOps F] in
/-- The TensorCore's unscoped buffers: the two arguments and the four arrays @main computes. -/
theorem unscopedBufs_eq (d : Dev nD) (W : (b : Ref sig .tc) → Buf (Elt F) ((d.tc : Thread nD τ).loc b)) :
    (unscopedBufs d W : sProp (MM F)) = iprop((tokLoc d ↦{fullShare} W main_arg0) ∗ (tableLoc d ↦{fullShare} W main_arg1)
      ∗ (tabLoc d ↦{fullShare} W main_v0) ∗ (idxLoc d ↦{fullShare} W main_v1) ∗ (outLoc d ↦{fullShare} W main_v2) ∗ (resLoc d ↦{fullShare} W main_v3)) := by
  unfold unscopedBufs
  rw [show (Finset.univ.filter fun b : Ref sig .tc => ¬ b.isScoped) = {main_arg0, main_arg1, main_v0, main_v1, main_v2, main_v3} by decide,
    SparseCore.bigSep_insert' (by decide), SparseCore.bigSep_insert' (by decide), SparseCore.bigSep_insert' (by decide),
    SparseCore.bigSep_insert' (by decide), SparseCore.bigSep_insert' (by decide), bigSep_singleton]

abbrev tok' : DevRef τ sig := Proc.devRef .tc (main_arg0 : Ref sig .tc)
abbrev idx' : DevRef τ sig := Proc.devRef .tc (main_v1 : Ref sig .tc)
abbrev out' : DevRef τ sig := Proc.devRef .tc (main_v2 : Ref sig .tc)
abbrev res' : DevRef τ sig := Proc.devRef .tc (main_v3 : Ref sig .tc)

/-- The two reshapes of @main. -/
abbrev opIdx : HloOp τ sig (Elt F) := StableHlo.reshape main_arg0 main_v1 rfl shapeCasts_S4096x200_S6400x128
abbrev opRes : HloOp τ sig (Elt F) := StableHlo.reshape main_v2 main_v3 rfl shapeCasts_S819200x64_S4096x200x64

abbrev SIdx : Finset (DevRef τ sig) := {tok', idx'}
abbrev SRes : Finset (DevRef τ sig) := {out', res'}

omit [FloatOps F] in
theorem held_SIdx (d : Dev nD) (W : Valuation τ sig (Elt F)) :
    (held (T d) SIdx W : sProp (MM F)) = iprop((tokLoc d ↦{fullShare} W tok') ∗ (idxLoc d ↦{fullShare} W idx')) := by
  unfold held SIdx
  rw [SparseCore.bigSep_insert' (by decide), bigSep_singleton]
omit [FloatOps F] in
theorem held_SRes (d : Dev nD) (W : Valuation τ sig (Elt F)) :
    (held (T d) SRes W : sProp (MM F)) = iprop((outLoc d ↦{fullShare} W out') ∗ (resLoc d ↦{fullShare} W res')) := by
  unfold held SRes
  rw [SparseCore.bigSep_insert' (by decide), bigSep_singleton]

/-- The valuations the reshapes run at: the launch memory; the launch memory with the gathered array at the gathered
    rows. -/
def V0 (d : Dev nD) : Valuation τ sig (Elt F) := fun b => m (d, b)
def V2 (d : Dev nD) : Valuation τ sig (Elt F) := Function.update (V0 m d) out' (OUT m d)

theorem hIdx : (opIdx (F := F)).bufs ⊆ SIdx := show ({tok', idx'} : Finset (DevRef τ sig)) ⊆ SIdx by decide
theorem hRes : (opRes (F := F)).bufs ⊆ SRes := show ({out', res'} : Finset (DevRef τ sig)) ⊆ SRes by decide

/-- The first reshape leaves the tokens as they were and the index rows at the tokens in rows of 128. -/
theorem resIdx_tok (d : Dev nD) : (opIdx (F := F)).result (V0 m d) tok' = m (tokLoc d) :=
  (opIdx (F := F)).result_of_not_mem (V0 m d) (b := tok') (show tok' ∉ ({idx'} : Finset (DevRef τ sig)) by decide)
theorem resIdx_idx (d : Dev nD) : (opIdx (F := F)).result (V0 m d) idx' = IDX m d :=
  (StableHlo.reshape_result main_arg0 main_v1 rfl shapeCasts_S4096x200_S6400x128 ⟨by decide, rfl⟩ ⟨by decide, rfl⟩ (V0 m d)).trans rfl

/-- The second leaves the gathered array as it was and the result at the gathered rows in the result's shape. -/
theorem resRes_out (d : Dev nD) : (opRes (F := F)).result (V2 m d) out' = OUT m d :=
  ((opRes (F := F)).result_of_not_mem (V2 m d) (b := out') (show out' ∉ ({res'} : Finset (DevRef τ sig)) by decide)).trans
    (Function.update_self _ _ _)
theorem resRes_res (d : Dev nD) :
    (opRes (F := F)).result (V2 m d) res' = (result (F := F) (m (tokLoc d)) (m (tableLoc d)) : Buf (Elt F) (resLoc d)) :=
  (StableHlo.reshape_result main_v2 main_v3 rfl shapeCasts_S819200x64_S4096x200x64 ⟨by decide, rfl⟩ ⟨by decide, rfl⟩ (V2 m d)).trans
    (by unfold V2; rw [Function.update_self]; rfl)

/-! ## The TensorCore's handshake state around the region -/

/-- What the TensorCore owes before the call is part of its handshake state, and goes back into it. -/
theorem tcSt_owes (d : Dev nD) :
    (K (F := F)).tcSt EH d 0 ⊢ iprop(OW (F := F) d ∗ (OW (F := F) d -∗ (K (F := F)).tcSt EH d 0)) := by
  unfold SparseCore.Cfg.tcSt OW
  iintro ⟨HO, Hrest⟩
  isplitl [HO]; · iexact HO
  iintro HO
  isplitl [HO]; · iexact HO
  iexact Hrest

/-! ## @main -/

/-- @main on device d's TensorCore. -/
theorem hmain (κ : GSem nD τ sig → ℕ) (d : Dev nD) :
    iprop((K (F := F)).ctx EH (P m) κ ∗ (K (F := F)).tcSt EH d 0 ∗ (K (F := F)).tcRes m ρ d ∗ GG (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Htok, Htable, Htab, Hidx, Hout, Hres⟩, -, -⟩, HG⟩
  ihave Hs := (tcSt_owes (F := F) d) $$ Hst
  icases Hs with ⟨HO, Hback⟩
  -- the TensorCore kernel's region
  iapply (region_step m κ d _)
  isplitr; · iexact Hctx
  isplitl [Hb]; · iexact Hb
  isplitl [Htable]; · iexact Htable
  isplitl [Htab]; · iexact Htab
  isplitl [HO]; · iexact HO
  isplitl [HG]; · iexact HG
  iintro ⟨Hb, Htable, Htab, HO⟩
  ihave Hst := Hback $$ HO
  -- the tokens into rows of 128
  iapply (wp_hlo_within 𝒱 (SparseCore.T d) none Set.univ (op := opIdx) (S := SIdx) hIdx (V := V0 m d)) $$ [Hb Htok Hidx]
  · isplitl [Hb]; · iexact Hb
    rw [held_SIdx]
    isplitl [Htok]; · iexact Htok
    iexact Hidx
  iintro ⟨Hb, Hheld⟩
  ihave Hh := (Entails.of_eq (held_SIdx (F := F) d _)) $$ Hheld
  rw [resIdx_tok, resIdx_idx]
  icases Hh with ⟨Htok, Hidx⟩
  rw [wp_ret]; imodintro
  -- the SparseCore call
  ihave Hsp := (split_call m d) $$ [Htab Hidx Hout]
  · isplitl [Htab]; · iexact Htab
    isplitl [Hidx]; · iexact Hidx
    iexists _; iexact Hout
  icases Hsp with ⟨Hstc, Hleft⟩
  iapply ((K (F := F)).wp_run (D (F := F)) 𝒱 (EH := EH) (P := P m) κ d 0) $$ [Hst Hstc Hb Hleft Htok Htable Hres]
  isplitr; · iexact Hctx
  isplitl [Hst]; · iexact Hst
  isplitl [Hstc]; · iexact Hstc
  iintro ⟨Hst, Hdn⟩
  ihave Hj := (join_call m d) $$ [Hdn Hleft]
  · isplitl [Hdn]; · iexact Hdn
    iexact Hleft
  icases Hj with ⟨Htab, Hidx, Hout⟩
  -- the gathered rows into the result's shape
  iapply (wp_hlo_within 𝒱 (SparseCore.T d) none Set.univ (op := opRes) (S := SRes) hRes (V := V2 m d)) $$ [Hb Hout Hres]
  · isplitl [Hb]; · iexact Hb
    rw [held_SRes, show V2 m d out' = OUT m d from Function.update_self _ _ _,
      show V2 m d res' = V0 m d res' from Function.update_of_ne (show res' ≠ out' by decide) _ _]
    isplitl [Hout]; · iexact Hout
    iexact Hres
  iintro ⟨Hb, Hheld⟩
  ihave Hh := (Entails.of_eq (held_SRes (F := F) d _)) $$ Hheld
  rw [resRes_out, resRes_res]
  icases Hh with ⟨Hout, Hres⟩
  rw [wp_ret]; imodintro; imodintro
  isplitl [Hst]; · iexact Hst
  unfold FIN
  isplitl [Htok]; · iexact Htok
  isplitl [Htable]; · iexact Htable
  iexact Hres

end Cert.Proof.KB

end
-- ==== Proof.lean ====
/-
  The proof of `Cert.Claim` (Defs.lean): both kernel programs and the reference run to the end from every memory the
  precondition admits, leaving their arguments unchanged, and the idealized kernel and the idealized reference end at
  the same result.

  What is computed. An embedding lookup scaled by eight: entry (b, s, e) of the result is eight times entry (row, e)
  of the table, row being the table row that token (b, s) names (`Cert.Spec.G`). The precondition puts every token in
  [0, 99999], so each names a row.

  The reference (`frame_ReferenceIdeal`, and its half of `algebraic`). Its run is followed operation by operation
  from the launch memory; its arguments are never written, and its result is read index by index as the scaled lookup.

  The kernel (`frame_Kernel`, `frame_KernelIdeal`, and its half of `algebraic`). One run is proved, generic in the
  float instance, with the strongest post: arguments unchanged and the result named as a pure function of them; each
  frame is that run with the value dropped. The run is the SparseCore launch theorem applied to
  * @main on a TensorCore: the kernel region that scales the table by eight and pads it to 128 columns (its body's
    two stores per block; the twenty blocks cover the padded table), the tokens reshaped into rows of 128, the
    SparseCore call — the scaled table and the index rows dealt to the 32 vector subcores as read shares, the gathered
    array as its 6400 chunks of 128 rows, 200 per subcore —, and the gathered rows reshaped into the result;
  * a vector subcore's task: per group of 40 index rows, the rows fetched, and per chunk the 128 table rows its index
    row names gathered into a landing buffer, their first 64 columns compacted and copied to the chunk's place in the
    gathered array, each piece carried with its value through the loops.
  The value (`algebraic`): the gathered rows of the scaled, padded table by the tokens in rows of 128, at the result's
  shape, are the scaled lookup wherever every token names a row: row 128 n + r of the gathered array reads token
  128 n + r, which is token (b, s) with 200 b + s = 128 n + r.

  `preserves` is trivial: the idealization rewrote no operation.
-/
import proofs.«217222_g83150566851320_cont_9to1_m_45_25_alg».proof.Proof.Assemble
import proofs.«217222_g83150566851320_cont_9to1_m_45_25_alg».proof.Proof.KI.TileBody
import proofs.«217222_g83150566851320_cont_9to1_m_45_25_alg».proof.Proof.KI.Main
import proofs.«217222_g83150566851320_cont_9to1_m_45_25_alg».proof.Proof.KB.TileBody
import proofs.«217222_g83150566851320_cont_9to1_m_45_25_alg».proof.Proof.KB.Main

noncomputable section

namespace Cert.Proof

open Idealize.ShloMosaic Idealize.SL.Sem

theorem claim : Cert.Claim :=
  Cert.Proof.Asm.claim
    (fun m hin => KI.tileObl_of_body m KI.facts (fun d L O W hO => KI.tile_body m d L hin KI.facts O W hO))
    (fun m ρ _ κ d => KI.hmain m ρ κ d)
    (fun m hin => KB.tileObl_of_body m KB.facts (fun d L O W hO => KB.tile_body m d L hin KB.facts O W hO))
    (fun m ρ _ κ d => KB.hmain m ρ κ d)

end Cert.Proof

end
